-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x16x32x256x256 : Shape := ⟨5, ![1, 16, 32, 256, 256]⟩
abbrev S1x1x32x256x256 : Shape := ⟨5, ![1, 1, 32, 256, 256]⟩
abbrev S_ : Shape := ⟨0, ![]⟩

class Facts : Prop where
  bcast_S_S1x16x32x256x256 : S_.BroadcastsInDim S1x16x32x256x256 (![] : Fin 0 → Fin S1x16x32x256x256.rank)
  reducesTo_S1x16x32x256x256_S_d0_1_2_3_4 : S1x16x32x256x256.ReducesTo [0, 1, 2, 3, 4] S_
  h_S_ : 0 < S_.numel
  bcast_S_S1x1x32x256x256 : S_.BroadcastsInDim S1x1x32x256x256 (![] : Fin 0 → Fin S1x1x32x256x256.rank)
  reducesTo_S1x1x32x256x256_S_d0_1_2_3_4 : S1x1x32x256x256.ReducesTo [0, 1, 2, 3, 4] S_

variable [Facts]

def fn_part1 {F : FTy → Type} [FloatOps F] (main_v10 : IVec S_ 1) (main_v15 : IVec S1x1x32x256x256 1) (main_c_5 : IVec S_ 1) : IVec S_ 1 :=
  let main_v16 : IVec S_ 1 := (fun x v => Host.reduce IntOp.andi x v reducesTo_S1x1x32x256x256_S_d0_1_2_3_4 h_S_) main_v15 main_c_5
  let main_v17 : IVec S_ 1 := andi main_v10 main_v16
  main_v17

def fn {F : FTy → Type} [FloatOps F] (main_arg0 : FVec F S1x16x32x256x256 .f32) (main_arg1 : IVec S1x1x32x256x256 32) (main_arg2 : IVec S1x1x32x256x256 32) : IVec S_ 1 :=
  let main_v0 : FVec F S1x16x32x256x256 .f32 := Host.absf main_arg0
  let main_cst : FVec F S_ .f32 := constant S_ .f32 0x7F800000#32
  let main_v1 : FVec F S1x16x32x256x256 .f32 := broadcastInDim S1x16x32x256x256 ![] bcast_S_S1x16x32x256x256 main_cst
  let main_v2 : IVec S1x16x32x256x256 1 := cmpf .olt main_v0 main_v1
  let main_c : IVec S_ 1 := constantI S_ 1 1#1
  let main_v3 : IVec S_ 1 := (fun x v => Host.reduce IntOp.andi x v reducesTo_S1x16x32x256x256_S_d0_1_2_3_4 h_S_) main_v2 main_c
  let main_c_0 : IVec S_ 32 := constantI S_ 32 0#32
  let main_v4 : IVec S1x1x32x256x256 32 := broadcastInDim S1x1x32x256x256 ![] bcast_S_S1x1x32x256x256 main_c_0
  let main_v5 : IVec S1x1x32x256x256 1 := cmpi .sge main_arg1 main_v4
  let main_c_1 : IVec S_ 32 := constantI S_ 32 63#32
  let main_v6 : IVec S1x1x32x256x256 32 := broadcastInDim S1x1x32x256x256 ![] bcast_S_S1x1x32x256x256 main_c_1
  let main_v7 : IVec S1x1x32x256x256 1 := cmpi .sle main_arg1 main_v6
  let main_v8 : IVec S1x1x32x256x256 1 := andi main_v5 main_v7
  let main_c_2 : IVec S_ 1 := constantI S_ 1 1#1
  let main_v9 : IVec S_ 1 := (fun x v => Host.reduce IntOp.andi x v reducesTo_S1x1x32x256x256_S_d0_1_2_3_4 h_S_) main_v8 main_c_2
  let main_v10 : IVec S_ 1 := andi main_v3 main_v9
  let main_c_3 : IVec S_ 32 := constantI S_ 32 0#32
  let main_v11 : IVec S1x1x32x256x256 32 := broadcastInDim S1x1x32x256x256 ![] bcast_S_S1x1x32x256x256 main_c_3
  let main_v12 : IVec S1x1x32x256x256 1 := cmpi .sge main_arg2 main_v11
  let main_c_4 : IVec S_ 32 := constantI S_ 32 1#32
  let main_v13 : IVec S1x1x32x256x256 32 := broadcastInDim S1x1x32x256x256 ![] bcast_S_S1x1x32x256x256 main_c_4
  let main_v14 : IVec S1x1x32x256x256 1 := cmpi .sle main_arg2 main_v13
  let main_v15 : IVec S1x1x32x256x256 1 := andi main_v12 main_v14
  let main_c_5 : IVec S_ 1 := constantI S_ 1 1#1
  fn_part1 (F := F) main_v10 main_v15 main_c_5
-- ==== Kernel.lean ====
abbrev S1x16x32x256x256 : Shape := ⟨5, ![1, 16, 32, 256, 256]⟩
abbrev S1x1x32x256x256 : Shape := ⟨5, ![1, 1, 32, 256, 256]⟩
abbrev S33554432 : Shape := ⟨1, ![33554432]⟩
abbrev S2097152 : Shape := ⟨1, ![2097152]⟩
abbrev S32x16384 : Shape := ⟨2, ![32, 16384]⟩
abbrev S32x1024 : Shape := ⟨2, ![32, 1024]⟩
abbrev S2x16x2048 : Shape := ⟨3, ![2, 16, 2048]⟩
abbrev S2x2048 : Shape := ⟨2, ![2, 2048]⟩
abbrev S16384 : Shape := ⟨1, ![16384]⟩
abbrev S1024 : Shape := ⟨1, ![1024]⟩
abbrev S_ : Shape := ⟨0, ![]⟩
abbrev S16 : Shape := ⟨1, ![16]⟩
abbrev S1x1x2048 : Shape := ⟨3, ![1, 1, 2048]⟩
abbrev S2048 : Shape := ⟨1, ![2048]⟩
abbrev S1x2048 : Shape := ⟨2, ![1, 2048]⟩
abbrev S1x16 : Shape := ⟨2, ![1, 16]⟩
abbrev S1x1x16 : Shape := ⟨3, ![1, 1, 16]⟩
abbrev S1x16384 : Shape := ⟨2, ![1, 16384]⟩
abbrev S1x1024 : Shape := ⟨2, ![1, 1024]⟩
abbrev S1024x16 : Shape := ⟨2, ![1024, 16]⟩
abbrev S1x1 : Shape := ⟨2, ![1, 1]⟩
abbrev S1x32 : Shape := ⟨2, ![1, 32]⟩
abbrev S1024x64 : Shape := ⟨2, ![1024, 64]⟩
abbrev S64x1024 : Shape := ⟨2, ![64, 1024]⟩
abbrev S1x64 : Shape := ⟨2, ![1, 64]⟩
abbrev S64x1 : Shape := ⟨2, ![64, 1]⟩
abbrev S1x1x64 : Shape := ⟨3, ![1, 1, 64]⟩
abbrev S1 : Shape := ⟨1, ![1]⟩
abbrev S1x1x1 : Shape := ⟨3, ![1, 1, 1]⟩
abbrev S64x64 : Shape := ⟨2, ![64, 64]⟩
abbrev S64x16 : Shape := ⟨2, ![64, 16]⟩
abbrev S1x64x64 : Shape := ⟨3, ![1, 64, 64]⟩
abbrev S1x64x1 : Shape := ⟨3, ![1, 64, 1]⟩

abbrev nBuf : Table → Nat
  | .hbm => 14
  | .local .tc .vmem => 8
  | .local .scVector .vmem => 10
  | _ => 0

abbrev bufTy : (tb : Table) → Fin (nBuf tb) → BufTy
  | .hbm, ⟨0, _⟩ => ⟨S1x16x32x256x256, .f32⟩
  | .hbm, ⟨1, _⟩ => ⟨S1x1x32x256x256, .i32⟩
  | .hbm, ⟨2, _⟩ => ⟨S1x1x32x256x256, .i32⟩
  | .hbm, ⟨3, _⟩ => ⟨S33554432, .f32⟩
  | .hbm, ⟨4, _⟩ => ⟨S2097152, .i32⟩
  | .hbm, ⟨5, _⟩ => ⟨S2097152, .i32⟩
  | .hbm, ⟨6, _⟩ => ⟨S32x16384, .f32⟩
  | .hbm, ⟨7, _⟩ => ⟨S32x1024, .f32⟩
  | .hbm, ⟨8, _⟩ => ⟨S1024x16, .f32⟩
  | .hbm, ⟨9, _⟩ => ⟨S1x1, .f32⟩
  | .hbm, ⟨10, _⟩ => ⟨S16384, .f32⟩
  | .hbm, ⟨11, _⟩ => ⟨S32x1024, .f32⟩
  | .hbm, ⟨12, _⟩ => ⟨S1x1, .f32⟩
  | .hbm, ⟨13, _⟩ => ⟨S_, .f32⟩
  | .local .tc .vmem, ⟨0, _⟩ => ⟨S32x16384, .f32⟩
  | .local .tc .vmem, ⟨1, _⟩ => ⟨S32x1024, .f32⟩
  | .local .tc .vmem, ⟨2, _⟩ => ⟨S1024x16, .f32⟩
  | .local .tc .vmem, ⟨3, _⟩ => ⟨S1x1, .f32⟩
  | .local .tc .vmem, ⟨4, _⟩ => ⟨S32x1024, .f32⟩
  | .local .tc .vmem, ⟨5, _⟩ => ⟨S32x1024, .f32⟩
  | .local .tc .vmem, ⟨6, _⟩ => ⟨S1x1, .f32⟩
  | .local .tc .vmem, ⟨7, _⟩ => ⟨S1x1, .f32⟩
  | .local .scVector .vmem, ⟨0, _⟩ => ⟨S2x16x2048, .f32⟩
  | .local .scVector .vmem, ⟨1, _⟩ => ⟨S2x2048, .i32⟩
  | .local .scVector .vmem, ⟨2, _⟩ => ⟨S2x2048, .i32⟩
  | .local .scVector .vmem, ⟨3, _⟩ => ⟨S16384, .f32⟩
  | .local .scVector .vmem, ⟨4, _⟩ => ⟨S1024, .f32⟩
  | .local .scVector .vmem, ⟨5, _⟩ => ⟨S2x16x2048, .f32⟩
  | .local .scVector .vmem, ⟨6, _⟩ => ⟨S2x2048, .i32⟩
  | .local .scVector .vmem, ⟨7, _⟩ => ⟨S2x2048, .i32⟩
  | .local .scVector .vmem, ⟨8, _⟩ => ⟨S16384, .f32⟩
  | .local .scVector .vmem, ⟨9, _⟩ => ⟨S1024, .f32⟩
  | _, _ => ⟨S1x16x32x256x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_0_scv : Ref sig .scVector := ⟨.hbm, 6, rfl⟩
abbrev main_v3_1_scv : Ref sig .scVector := ⟨.hbm, 7, rfl⟩
abbrev main_v5_scv : Ref sig .scVector := ⟨.hbm, 10, rfl⟩
abbrev main_v6_scv : Ref sig .scVector := ⟨.hbm, 11, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc3_stg0_0 : Ref sig .tc := ⟨.vmem, 4, rfl⟩
abbrev cc3_stg1_0 : Ref sig .tc := ⟨.vmem, 5, rfl⟩
abbrev cc3_stg2_0 : Ref sig .tc := ⟨.vmem, 6, rfl⟩
abbrev cc3_stg3_0 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc2_scratch0 : Ref sig .scVector := ⟨.vmem, 5, rfl⟩
abbrev cc2_scratch1 : Ref sig .scVector := ⟨.vmem, 6, rfl⟩
abbrev cc2_scratch2 : Ref sig .scVector := ⟨.vmem, 7, rfl⟩
abbrev cc2_scratch3 : Ref sig .scVector := ⟨.vmem, 8, rfl⟩
abbrev cc2_scratch4 : Ref sig .scVector := ⟨.vmem, 9, rfl⟩
abbrev cc1_sem0_0 : DmaSem sig := 4
abbrev cc1_sem1_0 : DmaSem sig := 5
abbrev cc1_sem2_0 : DmaSem sig := 6
abbrev cc1_sem3_0 : DmaSem sig := 7
abbrev cc3_sem0_0 : DmaSem sig := 12
abbrev cc3_sem1_0 : DmaSem sig := 13
abbrev cc3_sem2_0 : DmaSem sig := 14
abbrev cc3_sem3_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c64_i32 : BitVec 32 := 64#32
  let v6 : BitVec 32 := Scalar.addi c0_i32_1 c64_i32
  let c1_i32 : BitVec 32 := 1#32
  ⟨c0_i32_1, v6, c1_i32⟩
def k0_off1 (k0_t1 : Fin k0_t1_loop.trips) : Fin 1 → Nat :=
  let c0_i32_1 : BitVec 32 := 0#32
  let c1_i32 : BitVec 32 := 1#32
  let arg14 : BitVec 32 := Scf.iv c0_i32_1 c1_i32 k0_t1
  let c16_i32_363 : BitVec 32 := 16#32
  let v475 : BitVec 32 := Scalar.muli arg14 c16_i32_363
  let v476 : Index := Scalar.indexCast v475
  ![v476.toNat]
def k0_off2 (k0_t1 : Fin k0_t1_loop.trips) (c0_i32_365 : BitVec 32) : Fin 1 → Nat :=
  let c0_i32_1 : BitVec 32 := 0#32
  let c1_i32 : BitVec 32 := 1#32
  let arg14 : BitVec 32 := Scf.iv c0_i32_1 c1_i32 k0_t1
  let c16_i32_364 : BitVec 32 := 16#32
  let v478 : BitVec 32 := Scalar.muli arg14 c16_i32_364
  let v479 : BitVec 32 := Scalar.addi c0_i32_365 v478
  let v480 : Index := Scalar.indexCast v479
  ![v480.toNat]
def k0_off3 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v8 : BitVec 32 := Scalar.addi c0_i32_3 v2
  ![v8.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![v2.toNat]
def k0_off5 (i : grid0.Coords) (c0_i32_61 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2048_i32 : BitVec 32 := 2048#32
  let v132 : BitVec 32 := Scalar.addi v2 c2048_i32
  let v133 : BitVec 32 := Scalar.addi c0_i32_61 v132
  ![v133.toNat]
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2048_i32 : BitVec 32 := 2048#32
  let v132 : BitVec 32 := Scalar.addi v2 c2048_i32
  ![v132.toNat]
@[reducible] def k0_t2_loop : Scf.Loop 32 :=
  let c0_i32_148 : BitVec 32 := 0#32
  let c16_i32 : BitVec 32 := 16#32
  let v257 : BitVec 32 := Scalar.addi c0_i32_148 c16_i32
  let c1_i32_149 : BitVec 32 := 1#32
  ⟨c0_i32_148, v257, c1_i32_149⟩
@[reducible] def k0_t3_loop : Scf.Loop 32 :=
  let c0_i32_472 : BitVec 32 := 0#32
  let c32_i32 : BitVec 32 := 32#32
  let v585 : BitVec 32 := Scalar.addi c0_i32_472 c32_i32
  let c1_i32_473 : BitVec 32 := 1#32
  ⟨c0_i32_472, v585, c1_i32_473⟩
def k0_off7 (k0_t3 : Fin k0_t3_loop.trips) : Fin 2 → Nat :=
  let c0_i32_769 : BitVec 32 := 0#32
  let v958 : Index := Scalar.indexCast c0_i32_769
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v959 : Index := Scalar.indexCast v957
  ![0, v959.toNat]

def k0_chk1 (v970 : IVec S16 32) : Prop :=
  (∀ a x, ((![v970] : Fin 1 → IVec S16 32) a x).toNat < S1024.size a)
instance k0_chk1.dec : ∀ (v970 : IVec S16 32), Decidable (k0_chk1 v970) := fun v970 => decidable_of_iff' _ (Iff.of_eq (k0_chk1.eq_1 v970))
theorem k0_idx1_inb : ∀ (v970 : IVec S16 32) (k0_hw1 : k0_chk1 v970), ∀ a x, ((![v970] : Fin 1 → IVec S16 32) a x).toNat < S1024.size a := fun v970 k0_hw1 => k0_hw1
def k0_off8 (k0_t3 : Fin k0_t3_loop.trips) : Fin 3 → Nat :=
  let c0_i32_775 : BitVec 32 := 0#32
  let v973 : Index := Scalar.indexCast c0_i32_775
  let c0_i32_776 : BitVec 32 := 0#32
  let v974 : Index := Scalar.indexCast c0_i32_776
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v975 : Index := Scalar.indexCast v957
  ![0, 0, v975.toNat]

def k0_chk2 (v972 : IVec S16 32) : Prop :=
  (∀ a x, ((![v972] : Fin 1 → IVec S16 32) a x).toNat < S16384.size a)
instance k0_chk2.dec : ∀ (v972 : IVec S16 32), Decidable (k0_chk2 v972) := fun v972 => decidable_of_iff' _ (Iff.of_eq (k0_chk2.eq_1 v972))
theorem k0_idx2_inb : ∀ (v972 : IVec S16 32) (k0_hw2 : k0_chk2 v972), ∀ a x, ((![v972] : Fin 1 → IVec S16 32) a x).toNat < S16384.size a := fun v972 k0_hw2 => k0_hw2
def k0_off9 (k0_t3 : Fin k0_t3_loop.trips) : Fin 3 → Nat :=
  let c0_i32_777 : BitVec 32 := 0#32
  let v979 : Index := Scalar.indexCast c0_i32_777
  let c1_i32_778 : BitVec 32 := 1#32
  let v980 : Index := Scalar.indexCast c1_i32_778
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v981 : Index := Scalar.indexCast v957
  ![0, 1, v981.toNat]

def k0_chk3 (v978 : IVec S16 32) : Prop :=
  (∀ a x, ((![v978] : Fin 1 → IVec S16 32) a x).toNat < S16384.size a)
instance k0_chk3.dec : ∀ (v978 : IVec S16 32), Decidable (k0_chk3 v978) := fun v978 => decidable_of_iff' _ (Iff.of_eq (k0_chk3.eq_1 v978))
theorem k0_idx3_inb : ∀ (v978 : IVec S16 32) (k0_hw3 : k0_chk3 v978), ∀ a x, ((![v978] : Fin 1 → IVec S16 32) a x).toNat < S16384.size a := fun v978 k0_hw3 => k0_hw3
def k0_off10 (k0_t3 : Fin k0_t3_loop.trips) : Fin 3 → Nat :=
  let c0_i32_780 : BitVec 32 := 0#32
  let v985 : Index := Scalar.indexCast c0_i32_780
  let c2_i32_781 : BitVec 32 := 2#32
  let v986 : Index := Scalar.indexCast c2_i32_781
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v987 : Index := Scalar.indexCast v957
  ![0, 2, v987.toNat]

def k0_chk4 (v984 : IVec S16 32) : Prop :=
  (∀ a x, ((![v984] : Fin 1 → IVec S16 32) a x).toNat < S16384.size a)
instance k0_chk4.dec : ∀ (v984 : IVec S16 32), Decidable (k0_chk4 v984) := fun v984 => decidable_of_iff' _ (Iff.of_eq (k0_chk4.eq_1 v984))
theorem k0_idx4_inb : ∀ (v984 : IVec S16 32) (k0_hw4 : k0_chk4 v984), ∀ a x, ((![v984] : Fin 1 → IVec S16 32) a x).toNat < S16384.size a := fun v984 k0_hw4 => k0_hw4
def k0_off11 (k0_t3 : Fin k0_t3_loop.trips) : Fin 3 → Nat :=
  let c0_i32_782 : BitVec 32 := 0#32
  let v991 : Index := Scalar.indexCast c0_i32_782
  let c3_i32_783 : BitVec 32 := 3#32
  let v992 : Index := Scalar.indexCast c3_i32_783
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v993 : Index := Scalar.indexCast v957
  ![0, 3, v993.toNat]

def k0_chk5 (v990 : IVec S16 32) : Prop :=
  (∀ a x, ((![v990] : Fin 1 → IVec S16 32) a x).toNat < S16384.size a)
instance k0_chk5.dec : ∀ (v990 : IVec S16 32), Decidable (k0_chk5 v990) := fun v990 => decidable_of_iff' _ (Iff.of_eq (k0_chk5.eq_1 v990))
theorem k0_idx5_inb : ∀ (v990 : IVec S16 32) (k0_hw5 : k0_chk5 v990), ∀ a x, ((![v990] : Fin 1 → IVec S16 32) a x).toNat < S16384.size a := fun v990 k0_hw5 => k0_hw5
def k0_off12 (k0_t3 : Fin k0_t3_loop.trips) : Fin 3 → Nat :=
  let c0_i32_784 : BitVec 32 := 0#32
  let v997 : Index := Scalar.indexCast c0_i32_784
  let c4_i32_785 : BitVec 32 := 4#32
  let v998 : Index := Scalar.indexCast c4_i32_785
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v999 : Index := Scalar.indexCast v957
  ![0, 4, v999.toNat]

def k0_chk6 (v996 : IVec S16 32) : Prop :=
  (∀ a x, ((![v996] : Fin 1 → IVec S16 32) a x).toNat < S16384.size a)
instance k0_chk6.dec : ∀ (v996 : IVec S16 32), Decidable (k0_chk6 v996) := fun v996 => decidable_of_iff' _ (Iff.of_eq (k0_chk6.eq_1 v996))
theorem k0_idx6_inb : ∀ (v996 : IVec S16 32) (k0_hw6 : k0_chk6 v996), ∀ a x, ((![v996] : Fin 1 → IVec S16 32) a x).toNat < S16384.size a := fun v996 k0_hw6 => k0_hw6
def k0_off13 (k0_t3 : Fin k0_t3_loop.trips) : Fin 3 → Nat :=
  let c0_i32_786 : BitVec 32 := 0#32
  let v1003 : Index := Scalar.indexCast c0_i32_786
  let c5_i32_787 : BitVec 32 := 5#32
  let v1004 : Index := Scalar.indexCast c5_i32_787
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1005 : Index := Scalar.indexCast v957
  ![0, 5, v1005.toNat]

def k0_chk7 (v1002 : IVec S16 32) : Prop :=
  (∀ a x, ((![v1002] : Fin 1 → IVec S16 32) a x).toNat < S16384.size a)
instance k0_chk7.dec : ∀ (v1002 : IVec S16 32), Decidable (k0_chk7 v1002) := fun v1002 => decidable_of_iff' _ (Iff.of_eq (k0_chk7.eq_1 v1002))
theorem k0_idx7_inb : ∀ (v1002 : IVec S16 32) (k0_hw7 : k0_chk7 v1002), ∀ a x, ((![v1002] : Fin 1 → IVec S16 32) a x).toNat < S16384.size a := fun v1002 k0_hw7 => k0_hw7
def k0_off14 (k0_t3 : Fin k0_t3_loop.trips) : Fin 3 → Nat :=
  let c0_i32_788 : BitVec 32 := 0#32
  let v1009 : Index := Scalar.indexCast c0_i32_788
  let c6_i32_789 : BitVec 32 := 6#32
  let v1010 : Index := Scalar.indexCast c6_i32_789
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1011 : Index := Scalar.indexCast v957
  ![0, 6, v1011.toNat]

def k0_chk8 (v1008 : IVec S16 32) : Prop :=
  (∀ a x, ((![v1008] : Fin 1 → IVec S16 32) a x).toNat < S16384.size a)
instance k0_chk8.dec : ∀ (v1008 : IVec S16 32), Decidable (k0_chk8 v1008) := fun v1008 => decidable_of_iff' _ (Iff.of_eq (k0_chk8.eq_1 v1008))
theorem k0_idx8_inb : ∀ (v1008 : IVec S16 32) (k0_hw8 : k0_chk8 v1008), ∀ a x, ((![v1008] : Fin 1 → IVec S16 32) a x).toNat < S16384.size a := fun v1008 k0_hw8 => k0_hw8
def k0_off15 (k0_t3 : Fin k0_t3_loop.trips) : Fin 3 → Nat :=
  let c0_i32_790 : BitVec 32 := 0#32
  let v1015 : Index := Scalar.indexCast c0_i32_790
  let c7_i32_791 : BitVec 32 := 7#32
  let v1016 : Index := Scalar.indexCast c7_i32_791
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1017 : Index := Scalar.indexCast v957
  ![0, 7, v1017.toNat]

def k0_chk9 (v1014 : IVec S16 32) : Prop :=
  (∀ a x, ((![v1014] : Fin 1 → IVec S16 32) a x).toNat < S16384.size a)
instance k0_chk9.dec : ∀ (v1014 : IVec S16 32), Decidable (k0_chk9 v1014) := fun v1014 => decidable_of_iff' _ (Iff.of_eq (k0_chk9.eq_1 v1014))
theorem k0_idx9_inb : ∀ (v1014 : IVec S16 32) (k0_hw9 : k0_chk9 v1014), ∀ a x, ((![v1014] : Fin 1 → IVec S16 32) a x).toNat < S16384.size a := fun v1014 k0_hw9 => k0_hw9
def k0_off16 (k0_t3 : Fin k0_t3_loop.trips) : Fin 3 → Nat :=
  let c0_i32_792 : BitVec 32 := 0#32
  let v1021 : Index := Scalar.indexCast c0_i32_792
  let c8_i32_793 : BitVec 32 := 8#32
  let v1022 : Index := Scalar.indexCast c8_i32_793
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1023 : Index := Scalar.indexCast v957
  ![0, 8, v1023.toNat]

def k0_chk10 (v1020 : IVec S16 32) : Prop :=
  (∀ a x, ((![v1020] : Fin 1 → IVec S16 32) a x).toNat < S16384.size a)
instance k0_chk10.dec : ∀ (v1020 : IVec S16 32), Decidable (k0_chk10 v1020) := fun v1020 => decidable_of_iff' _ (Iff.of_eq (k0_chk10.eq_1 v1020))
theorem k0_idx10_inb : ∀ (v1020 : IVec S16 32) (k0_hw10 : k0_chk10 v1020), ∀ a x, ((![v1020] : Fin 1 → IVec S16 32) a x).toNat < S16384.size a := fun v1020 k0_hw10 => k0_hw10
def k0_off17 (k0_t3 : Fin k0_t3_loop.trips) : Fin 3 → Nat :=
  let c0_i32_794 : BitVec 32 := 0#32
  let v1027 : Index := Scalar.indexCast c0_i32_794
  let c9_i32_795 : BitVec 32 := 9#32
  let v1028 : Index := Scalar.indexCast c9_i32_795
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1029 : Index := Scalar.indexCast v957
  ![0, 9, v1029.toNat]

def k0_chk11 (v1026 : IVec S16 32) : Prop :=
  (∀ a x, ((![v1026] : Fin 1 → IVec S16 32) a x).toNat < S16384.size a)
instance k0_chk11.dec : ∀ (v1026 : IVec S16 32), Decidable (k0_chk11 v1026) := fun v1026 => decidable_of_iff' _ (Iff.of_eq (k0_chk11.eq_1 v1026))
theorem k0_idx11_inb : ∀ (v1026 : IVec S16 32) (k0_hw11 : k0_chk11 v1026), ∀ a x, ((![v1026] : Fin 1 → IVec S16 32) a x).toNat < S16384.size a := fun v1026 k0_hw11 => k0_hw11
def k0_off18 (k0_t3 : Fin k0_t3_loop.trips) : Fin 3 → Nat :=
  let c0_i32_796 : BitVec 32 := 0#32
  let v1033 : Index := Scalar.indexCast c0_i32_796
  let c10_i32_797 : BitVec 32 := 10#32
  let v1034 : Index := Scalar.indexCast c10_i32_797
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1035 : Index := Scalar.indexCast v957
  ![0, 10, v1035.toNat]

def k0_chk12 (v1032 : IVec S16 32) : Prop :=
  (∀ a x, ((![v1032] : Fin 1 → IVec S16 32) a x).toNat < S16384.size a)
instance k0_chk12.dec : ∀ (v1032 : IVec S16 32), Decidable (k0_chk12 v1032) := fun v1032 => decidable_of_iff' _ (Iff.of_eq (k0_chk12.eq_1 v1032))
theorem k0_idx12_inb : ∀ (v1032 : IVec S16 32) (k0_hw12 : k0_chk12 v1032), ∀ a x, ((![v1032] : Fin 1 → IVec S16 32) a x).toNat < S16384.size a := fun v1032 k0_hw12 => k0_hw12
def k0_off19 (k0_t3 : Fin k0_t3_loop.trips) : Fin 3 → Nat :=
  let c0_i32_798 : BitVec 32 := 0#32
  let v1039 : Index := Scalar.indexCast c0_i32_798
  let c11_i32_799 : BitVec 32 := 11#32
  let v1040 : Index := Scalar.indexCast c11_i32_799
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1041 : Index := Scalar.indexCast v957
  ![0, 11, v1041.toNat]

def k0_chk13 (v1038 : IVec S16 32) : Prop :=
  (∀ a x, ((![v1038] : Fin 1 → IVec S16 32) a x).toNat < S16384.size a)
instance k0_chk13.dec : ∀ (v1038 : IVec S16 32), Decidable (k0_chk13 v1038) := fun v1038 => decidable_of_iff' _ (Iff.of_eq (k0_chk13.eq_1 v1038))
theorem k0_idx13_inb : ∀ (v1038 : IVec S16 32) (k0_hw13 : k0_chk13 v1038), ∀ a x, ((![v1038] : Fin 1 → IVec S16 32) a x).toNat < S16384.size a := fun v1038 k0_hw13 => k0_hw13
def k0_off20 (k0_t3 : Fin k0_t3_loop.trips) : Fin 3 → Nat :=
  let c0_i32_800 : BitVec 32 := 0#32
  let v1045 : Index := Scalar.indexCast c0_i32_800
  let c12_i32_801 : BitVec 32 := 12#32
  let v1046 : Index := Scalar.indexCast c12_i32_801
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1047 : Index := Scalar.indexCast v957
  ![0, 12, v1047.toNat]

def k0_chk14 (v1044 : IVec S16 32) : Prop :=
  (∀ a x, ((![v1044] : Fin 1 → IVec S16 32) a x).toNat < S16384.size a)
instance k0_chk14.dec : ∀ (v1044 : IVec S16 32), Decidable (k0_chk14 v1044) := fun v1044 => decidable_of_iff' _ (Iff.of_eq (k0_chk14.eq_1 v1044))
theorem k0_idx14_inb : ∀ (v1044 : IVec S16 32) (k0_hw14 : k0_chk14 v1044), ∀ a x, ((![v1044] : Fin 1 → IVec S16 32) a x).toNat < S16384.size a := fun v1044 k0_hw14 => k0_hw14
def k0_off21 (k0_t3 : Fin k0_t3_loop.trips) : Fin 3 → Nat :=
  let c0_i32_802 : BitVec 32 := 0#32
  let v1051 : Index := Scalar.indexCast c0_i32_802
  let c13_i32_803 : BitVec 32 := 13#32
  let v1052 : Index := Scalar.indexCast c13_i32_803
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1053 : Index := Scalar.indexCast v957
  ![0, 13, v1053.toNat]

def k0_chk15 (v1050 : IVec S16 32) : Prop :=
  (∀ a x, ((![v1050] : Fin 1 → IVec S16 32) a x).toNat < S16384.size a)
instance k0_chk15.dec : ∀ (v1050 : IVec S16 32), Decidable (k0_chk15 v1050) := fun v1050 => decidable_of_iff' _ (Iff.of_eq (k0_chk15.eq_1 v1050))
theorem k0_idx15_inb : ∀ (v1050 : IVec S16 32) (k0_hw15 : k0_chk15 v1050), ∀ a x, ((![v1050] : Fin 1 → IVec S16 32) a x).toNat < S16384.size a := fun v1050 k0_hw15 => k0_hw15
def k0_off22 (k0_t3 : Fin k0_t3_loop.trips) : Fin 3 → Nat :=
  let c0_i32_804 : BitVec 32 := 0#32
  let v1057 : Index := Scalar.indexCast c0_i32_804
  let c14_i32_805 : BitVec 32 := 14#32
  let v1058 : Index := Scalar.indexCast c14_i32_805
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1059 : Index := Scalar.indexCast v957
  ![0, 14, v1059.toNat]

def k0_chk16 (v1056 : IVec S16 32) : Prop :=
  (∀ a x, ((![v1056] : Fin 1 → IVec S16 32) a x).toNat < S16384.size a)
instance k0_chk16.dec : ∀ (v1056 : IVec S16 32), Decidable (k0_chk16 v1056) := fun v1056 => decidable_of_iff' _ (Iff.of_eq (k0_chk16.eq_1 v1056))
theorem k0_idx16_inb : ∀ (v1056 : IVec S16 32) (k0_hw16 : k0_chk16 v1056), ∀ a x, ((![v1056] : Fin 1 → IVec S16 32) a x).toNat < S16384.size a := fun v1056 k0_hw16 => k0_hw16
def k0_off23 (k0_t3 : Fin k0_t3_loop.trips) : Fin 3 → Nat :=
  let c0_i32_806 : BitVec 32 := 0#32
  let v1063 : Index := Scalar.indexCast c0_i32_806
  let c15_i32_807 : BitVec 32 := 15#32
  let v1064 : Index := Scalar.indexCast c15_i32_807
  let c0_i32_472 : BitVec 32 := 0#32
  let c1_i32_473 : BitVec 32 := 1#32
  let arg16 : BitVec 32 := Scf.iv c0_i32_472 c1_i32_473 k0_t3
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1065 : Index := Scalar.indexCast v957
  ![0, 15, v1065.toNat]

def k0_chk17 (v1062 : IVec S16 32) : Prop :=
  (∀ a x, ((![v1062] : Fin 1 → IVec S16 32) a x).toNat < S16384.size a)
instance k0_chk17.dec : ∀ (v1062 : IVec S16 32), Decidable (k0_chk17 v1062) := fun v1062 => decidable_of_iff' _ (Iff.of_eq (k0_chk17.eq_1 v1062))
theorem k0_idx17_inb : ∀ (v1062 : IVec S16 32) (k0_hw17 : k0_chk17 v1062), ∀ a x, ((![v1062] : Fin 1 → IVec S16 32) a x).toNat < S16384.size a := fun v1062 k0_hw17 => k0_hw17
def k0_off24 (k0_t3 : Fin k0_t3_loop.trips) : Fin 2 → Nat :=
  let c0_i32_811 : BitVec 32 := 0#32
  let v1070 : Index := Scalar.indexCast c0_i32_811
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1071 : Index := Scalar.indexCast v1069
  ![0, v1071.toNat]

def k0_chk18 (v1082 : IVec S16 32) : Prop :=
  (∀ a x, ((![v1082] : Fin 1 → IVec S16 32) a x).toNat < S1024.size a)
instance k0_chk18.dec : ∀ (v1082 : IVec S16 32), Decidable (k0_chk18 v1082) := fun v1082 => decidable_of_iff' _ (Iff.of_eq (k0_chk18.eq_1 v1082))
theorem k0_idx18_inb : ∀ (v1082 : IVec S16 32) (k0_hw18 : k0_chk18 v1082), ∀ a x, ((![v1082] : Fin 1 → IVec S16 32) a x).toNat < S1024.size a := fun v1082 k0_hw18 => k0_hw18
def k0_off25 (k0_t3 : Fin k0_t3_loop.trips) : Fin 3 → Nat :=
  let c0_i32_817 : BitVec 32 := 0#32
  let v1085 : Index := Scalar.indexCast c0_i32_817
  let c0_i32_818 : BitVec 32 := 0#32
  let v1086 : Index := Scalar.indexCast c0_i32_818
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1087 : Index := Scalar.indexCast v1069
  ![0, 0, v1087.toNat]

def k0_chk19 (v1084 : IVec S16 32) : Prop :=
  (∀ a x, ((![v1084] : Fin 1 → IVec S16 32) a x).toNat < S16384.size a)
instance k0_chk19.dec : ∀ (v1084 : IVec S16 32), Decidable (k0_chk19 v1084) := fun v1084 => decidable_of_iff' _ (Iff.of_eq (k0_chk19.eq_1 v1084))
theorem k0_idx19_inb : ∀ (v1084 : IVec S16 32) (k0_hw19 : k0_chk19 v1084), ∀ a x, ((![v1084] : Fin 1 → IVec S16 32) a x).toNat < S16384.size a := fun v1084 k0_hw19 => k0_hw19
def k0_off26 (k0_t3 : Fin k0_t3_loop.trips) : Fin 3 → Nat :=
  let c0_i32_820 : BitVec 32 := 0#32
  let v1091 : Index := Scalar.indexCast c0_i32_820
  let c1_i32_821 : BitVec 32 := 1#32
  let v1092 : Index := Scalar.indexCast c1_i32_821
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1093 : Index := Scalar.indexCast v1069
  ![0, 1, v1093.toNat]

def k0_chk20 (v1090 : IVec S16 32) : Prop :=
  (∀ a x, ((![v1090] : Fin 1 → IVec S16 32) a x).toNat < S16384.size a)
instance k0_chk20.dec : ∀ (v1090 : IVec S16 32), Decidable (k0_chk20 v1090) := fun v1090 => decidable_of_iff' _ (Iff.of_eq (k0_chk20.eq_1 v1090))
theorem k0_idx20_inb : ∀ (v1090 : IVec S16 32) (k0_hw20 : k0_chk20 v1090), ∀ a x, ((![v1090] : Fin 1 → IVec S16 32) a x).toNat < S16384.size a := fun v1090 k0_hw20 => k0_hw20
def k0_off27 (k0_t3 : Fin k0_t3_loop.trips) : Fin 3 → Nat :=
  let c0_i32_823 : BitVec 32 := 0#32
  let v1097 : Index := Scalar.indexCast c0_i32_823
  let c2_i32_824 : BitVec 32 := 2#32
  let v1098 : Index := Scalar.indexCast c2_i32_824
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1099 : Index := Scalar.indexCast v1069
  ![0, 2, v1099.toNat]

def k0_chk21 (v1096 : IVec S16 32) : Prop :=
  (∀ a x, ((![v1096] : Fin 1 → IVec S16 32) a x).toNat < S16384.size a)
instance k0_chk21.dec : ∀ (v1096 : IVec S16 32), Decidable (k0_chk21 v1096) := fun v1096 => decidable_of_iff' _ (Iff.of_eq (k0_chk21.eq_1 v1096))
theorem k0_idx21_inb : ∀ (v1096 : IVec S16 32) (k0_hw21 : k0_chk21 v1096), ∀ a x, ((![v1096] : Fin 1 → IVec S16 32) a x).toNat < S16384.size a := fun v1096 k0_hw21 => k0_hw21
def k0_off28 (k0_t3 : Fin k0_t3_loop.trips) : Fin 3 → Nat :=
  let c0_i32_826 : BitVec 32 := 0#32
  let v1103 : Index := Scalar.indexCast c0_i32_826
  let c3_i32_827 : BitVec 32 := 3#32
  let v1104 : Index := Scalar.indexCast c3_i32_827
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1105 : Index := Scalar.indexCast v1069
  ![0, 3, v1105.toNat]

def k0_chk22 (v1102 : IVec S16 32) : Prop :=
  (∀ a x, ((![v1102] : Fin 1 → IVec S16 32) a x).toNat < S16384.size a)
instance k0_chk22.dec : ∀ (v1102 : IVec S16 32), Decidable (k0_chk22 v1102) := fun v1102 => decidable_of_iff' _ (Iff.of_eq (k0_chk22.eq_1 v1102))
theorem k0_idx22_inb : ∀ (v1102 : IVec S16 32) (k0_hw22 : k0_chk22 v1102), ∀ a x, ((![v1102] : Fin 1 → IVec S16 32) a x).toNat < S16384.size a := fun v1102 k0_hw22 => k0_hw22
def k0_off29 (k0_t3 : Fin k0_t3_loop.trips) : Fin 3 → Nat :=
  let c0_i32_829 : BitVec 32 := 0#32
  let v1109 : Index := Scalar.indexCast c0_i32_829
  let c4_i32_830 : BitVec 32 := 4#32
  let v1110 : Index := Scalar.indexCast c4_i32_830
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1111 : Index := Scalar.indexCast v1069
  ![0, 4, v1111.toNat]

def k0_chk23 (v1108 : IVec S16 32) : Prop :=
  (∀ a x, ((![v1108] : Fin 1 → IVec S16 32) a x).toNat < S16384.size a)
instance k0_chk23.dec : ∀ (v1108 : IVec S16 32), Decidable (k0_chk23 v1108) := fun v1108 => decidable_of_iff' _ (Iff.of_eq (k0_chk23.eq_1 v1108))
theorem k0_idx23_inb : ∀ (v1108 : IVec S16 32) (k0_hw23 : k0_chk23 v1108), ∀ a x, ((![v1108] : Fin 1 → IVec S16 32) a x).toNat < S16384.size a := fun v1108 k0_hw23 => k0_hw23
def k0_off30 (k0_t3 : Fin k0_t3_loop.trips) : Fin 3 → Nat :=
  let c0_i32_832 : BitVec 32 := 0#32
  let v1115 : Index := Scalar.indexCast c0_i32_832
  let c5_i32_833 : BitVec 32 := 5#32
  let v1116 : Index := Scalar.indexCast c5_i32_833
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1117 : Index := Scalar.indexCast v1069
  ![0, 5, v1117.toNat]

def k0_chk24 (v1114 : IVec S16 32) : Prop :=
  (∀ a x, ((![v1114] : Fin 1 → IVec S16 32) a x).toNat < S16384.size a)
instance k0_chk24.dec : ∀ (v1114 : IVec S16 32), Decidable (k0_chk24 v1114) := fun v1114 => decidable_of_iff' _ (Iff.of_eq (k0_chk24.eq_1 v1114))
theorem k0_idx24_inb : ∀ (v1114 : IVec S16 32) (k0_hw24 : k0_chk24 v1114), ∀ a x, ((![v1114] : Fin 1 → IVec S16 32) a x).toNat < S16384.size a := fun v1114 k0_hw24 => k0_hw24
def k0_off31 (k0_t3 : Fin k0_t3_loop.trips) : Fin 3 → Nat :=
  let c0_i32_835 : BitVec 32 := 0#32
  let v1121 : Index := Scalar.indexCast c0_i32_835
  let c6_i32_836 : BitVec 32 := 6#32
  let v1122 : Index := Scalar.indexCast c6_i32_836
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1123 : Index := Scalar.indexCast v1069
  ![0, 6, v1123.toNat]

def k0_chk25 (v1120 : IVec S16 32) : Prop :=
  (∀ a x, ((![v1120] : Fin 1 → IVec S16 32) a x).toNat < S16384.size a)
instance k0_chk25.dec : ∀ (v1120 : IVec S16 32), Decidable (k0_chk25 v1120) := fun v1120 => decidable_of_iff' _ (Iff.of_eq (k0_chk25.eq_1 v1120))
theorem k0_idx25_inb : ∀ (v1120 : IVec S16 32) (k0_hw25 : k0_chk25 v1120), ∀ a x, ((![v1120] : Fin 1 → IVec S16 32) a x).toNat < S16384.size a := fun v1120 k0_hw25 => k0_hw25
def k0_off32 (k0_t3 : Fin k0_t3_loop.trips) : Fin 3 → Nat :=
  let c0_i32_838 : BitVec 32 := 0#32
  let v1127 : Index := Scalar.indexCast c0_i32_838
  let c7_i32_839 : BitVec 32 := 7#32
  let v1128 : Index := Scalar.indexCast c7_i32_839
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1129 : Index := Scalar.indexCast v1069
  ![0, 7, v1129.toNat]

def k0_chk26 (v1126 : IVec S16 32) : Prop :=
  (∀ a x, ((![v1126] : Fin 1 → IVec S16 32) a x).toNat < S16384.size a)
instance k0_chk26.dec : ∀ (v1126 : IVec S16 32), Decidable (k0_chk26 v1126) := fun v1126 => decidable_of_iff' _ (Iff.of_eq (k0_chk26.eq_1 v1126))
theorem k0_idx26_inb : ∀ (v1126 : IVec S16 32) (k0_hw26 : k0_chk26 v1126), ∀ a x, ((![v1126] : Fin 1 → IVec S16 32) a x).toNat < S16384.size a := fun v1126 k0_hw26 => k0_hw26
def k0_off33 (k0_t3 : Fin k0_t3_loop.trips) : Fin 3 → Nat :=
  let c0_i32_841 : BitVec 32 := 0#32
  let v1133 : Index := Scalar.indexCast c0_i32_841
  let c8_i32_842 : BitVec 32 := 8#32
  let v1134 : Index := Scalar.indexCast c8_i32_842
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1135 : Index := Scalar.indexCast v1069
  ![0, 8, v1135.toNat]

def k0_chk27 (v1132 : IVec S16 32) : Prop :=
  (∀ a x, ((![v1132] : Fin 1 → IVec S16 32) a x).toNat < S16384.size a)
instance k0_chk27.dec : ∀ (v1132 : IVec S16 32), Decidable (k0_chk27 v1132) := fun v1132 => decidable_of_iff' _ (Iff.of_eq (k0_chk27.eq_1 v1132))
theorem k0_idx27_inb : ∀ (v1132 : IVec S16 32) (k0_hw27 : k0_chk27 v1132), ∀ a x, ((![v1132] : Fin 1 → IVec S16 32) a x).toNat < S16384.size a := fun v1132 k0_hw27 => k0_hw27
def k0_off34 (k0_t3 : Fin k0_t3_loop.trips) : Fin 3 → Nat :=
  let c0_i32_844 : BitVec 32 := 0#32
  let v1139 : Index := Scalar.indexCast c0_i32_844
  let c9_i32_845 : BitVec 32 := 9#32
  let v1140 : Index := Scalar.indexCast c9_i32_845
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1141 : Index := Scalar.indexCast v1069
  ![0, 9, v1141.toNat]

def k0_chk28 (v1138 : IVec S16 32) : Prop :=
  (∀ a x, ((![v1138] : Fin 1 → IVec S16 32) a x).toNat < S16384.size a)
instance k0_chk28.dec : ∀ (v1138 : IVec S16 32), Decidable (k0_chk28 v1138) := fun v1138 => decidable_of_iff' _ (Iff.of_eq (k0_chk28.eq_1 v1138))
theorem k0_idx28_inb : ∀ (v1138 : IVec S16 32) (k0_hw28 : k0_chk28 v1138), ∀ a x, ((![v1138] : Fin 1 → IVec S16 32) a x).toNat < S16384.size a := fun v1138 k0_hw28 => k0_hw28
def k0_off35 (k0_t3 : Fin k0_t3_loop.trips) : Fin 3 → Nat :=
  let c0_i32_847 : BitVec 32 := 0#32
  let v1145 : Index := Scalar.indexCast c0_i32_847
  let c10_i32_848 : BitVec 32 := 10#32
  let v1146 : Index := Scalar.indexCast c10_i32_848
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1147 : Index := Scalar.indexCast v1069
  ![0, 10, v1147.toNat]

def k0_chk29 (v1144 : IVec S16 32) : Prop :=
  (∀ a x, ((![v1144] : Fin 1 → IVec S16 32) a x).toNat < S16384.size a)
instance k0_chk29.dec : ∀ (v1144 : IVec S16 32), Decidable (k0_chk29 v1144) := fun v1144 => decidable_of_iff' _ (Iff.of_eq (k0_chk29.eq_1 v1144))
theorem k0_idx29_inb : ∀ (v1144 : IVec S16 32) (k0_hw29 : k0_chk29 v1144), ∀ a x, ((![v1144] : Fin 1 → IVec S16 32) a x).toNat < S16384.size a := fun v1144 k0_hw29 => k0_hw29
def k0_off36 (k0_t3 : Fin k0_t3_loop.trips) : Fin 3 → Nat :=
  let c0_i32_850 : BitVec 32 := 0#32
  let v1151 : Index := Scalar.indexCast c0_i32_850
  let c11_i32_851 : BitVec 32 := 11#32
  let v1152 : Index := Scalar.indexCast c11_i32_851
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1153 : Index := Scalar.indexCast v1069
  ![0, 11, v1153.toNat]

def k0_chk30 (v1150 : IVec S16 32) : Prop :=
  (∀ a x, ((![v1150] : Fin 1 → IVec S16 32) a x).toNat < S16384.size a)
instance k0_chk30.dec : ∀ (v1150 : IVec S16 32), Decidable (k0_chk30 v1150) := fun v1150 => decidable_of_iff' _ (Iff.of_eq (k0_chk30.eq_1 v1150))
theorem k0_idx30_inb : ∀ (v1150 : IVec S16 32) (k0_hw30 : k0_chk30 v1150), ∀ a x, ((![v1150] : Fin 1 → IVec S16 32) a x).toNat < S16384.size a := fun v1150 k0_hw30 => k0_hw30
def k0_off37 (k0_t3 : Fin k0_t3_loop.trips) : Fin 3 → Nat :=
  let c0_i32_853 : BitVec 32 := 0#32
  let v1157 : Index := Scalar.indexCast c0_i32_853
  let c12_i32_854 : BitVec 32 := 12#32
  let v1158 : Index := Scalar.indexCast c12_i32_854
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1159 : Index := Scalar.indexCast v1069
  ![0, 12, v1159.toNat]

def k0_chk31 (v1156 : IVec S16 32) : Prop :=
  (∀ a x, ((![v1156] : Fin 1 → IVec S16 32) a x).toNat < S16384.size a)
instance k0_chk31.dec : ∀ (v1156 : IVec S16 32), Decidable (k0_chk31 v1156) := fun v1156 => decidable_of_iff' _ (Iff.of_eq (k0_chk31.eq_1 v1156))
theorem k0_idx31_inb : ∀ (v1156 : IVec S16 32) (k0_hw31 : k0_chk31 v1156), ∀ a x, ((![v1156] : Fin 1 → IVec S16 32) a x).toNat < S16384.size a := fun v1156 k0_hw31 => k0_hw31
def k0_off38 (k0_t3 : Fin k0_t3_loop.trips) : Fin 3 → Nat :=
  let c0_i32_856 : BitVec 32 := 0#32
  let v1163 : Index := Scalar.indexCast c0_i32_856
  let c13_i32_857 : BitVec 32 := 13#32
  let v1164 : Index := Scalar.indexCast c13_i32_857
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1165 : Index := Scalar.indexCast v1069
  ![0, 13, v1165.toNat]

def k0_chk32 (v1162 : IVec S16 32) : Prop :=
  (∀ a x, ((![v1162] : Fin 1 → IVec S16 32) a x).toNat < S16384.size a)
instance k0_chk32.dec : ∀ (v1162 : IVec S16 32), Decidable (k0_chk32 v1162) := fun v1162 => decidable_of_iff' _ (Iff.of_eq (k0_chk32.eq_1 v1162))
theorem k0_idx32_inb : ∀ (v1162 : IVec S16 32) (k0_hw32 : k0_chk32 v1162), ∀ a x, ((![v1162] : Fin 1 → IVec S16 32) a x).toNat < S16384.size a := fun v1162 k0_hw32 => k0_hw32
def k0_off39 (k0_t3 : Fin k0_t3_loop.trips) : Fin 3 → Nat :=
  let c0_i32_859 : BitVec 32 := 0#32
  let v1169 : Index := Scalar.indexCast c0_i32_859
  let c14_i32_860 : BitVec 32 := 14#32
  let v1170 : Index := Scalar.indexCast c14_i32_860
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1171 : Index := Scalar.indexCast v1069
  ![0, 14, v1171.toNat]

def k0_chk33 (v1168 : IVec S16 32) : Prop :=
  (∀ a x, ((![v1168] : Fin 1 → IVec S16 32) a x).toNat < S16384.size a)
instance k0_chk33.dec : ∀ (v1168 : IVec S16 32), Decidable (k0_chk33 v1168) := fun v1168 => decidable_of_iff' _ (Iff.of_eq (k0_chk33.eq_1 v1168))
theorem k0_idx33_inb : ∀ (v1168 : IVec S16 32) (k0_hw33 : k0_chk33 v1168), ∀ a x, ((![v1168] : Fin 1 → IVec S16 32) a x).toNat < S16384.size a := fun v1168 k0_hw33 => k0_hw33
def k0_off40 (k0_t3 : Fin k0_t3_loop.trips) : Fin 3 → Nat :=
  let c0_i32_862 : BitVec 32 := 0#32
  let v1175 : Index := Scalar.indexCast c0_i32_862
  let c15_i32_863 : BitVec 32 := 15#32
  let v1176 : Index := Scalar.indexCast c15_i32_863
  let c0_i32_472 : BitVec 32 := 0#32
  let c1_i32_473 : BitVec 32 := 1#32
  let arg16 : BitVec 32 := Scf.iv c0_i32_472 c1_i32_473 k0_t3
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1177 : Index := Scalar.indexCast v1069
  ![0, 15, v1177.toNat]

def k0_chk34 (v1174 : IVec S16 32) : Prop :=
  (∀ a x, ((![v1174] : Fin 1 → IVec S16 32) a x).toNat < S16384.size a)
instance k0_chk34.dec : ∀ (v1174 : IVec S16 32), Decidable (k0_chk34 v1174) := fun v1174 => decidable_of_iff' _ (Iff.of_eq (k0_chk34.eq_1 v1174))
theorem k0_idx34_inb : ∀ (v1174 : IVec S16 32) (k0_hw34 : k0_chk34 v1174), ∀ a x, ((![v1174] : Fin 1 → IVec S16 32) a x).toNat < S16384.size a := fun v1174 k0_hw34 => k0_hw34
def k0_off41 (k0_t3 : Fin k0_t3_loop.trips) : Fin 2 → Nat :=
  let c0_i32_867 : BitVec 32 := 0#32
  let v1182 : Index := Scalar.indexCast c0_i32_867
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1183 : Index := Scalar.indexCast v1181
  ![0, v1183.toNat]

def k0_chk35 (v1194 : IVec S16 32) : Prop :=
  (∀ a x, ((![v1194] : Fin 1 → IVec S16 32) a x).toNat < S1024.size a)
instance k0_chk35.dec : ∀ (v1194 : IVec S16 32), Decidable (k0_chk35 v1194) := fun v1194 => decidable_of_iff' _ (Iff.of_eq (k0_chk35.eq_1 v1194))
theorem k0_idx35_inb : ∀ (v1194 : IVec S16 32) (k0_hw35 : k0_chk35 v1194), ∀ a x, ((![v1194] : Fin 1 → IVec S16 32) a x).toNat < S1024.size a := fun v1194 k0_hw35 => k0_hw35
def k0_off42 (k0_t3 : Fin k0_t3_loop.trips) : Fin 3 → Nat :=
  let c0_i32_873 : BitVec 32 := 0#32
  let v1197 : Index := Scalar.indexCast c0_i32_873
  let c0_i32_874 : BitVec 32 := 0#32
  let v1198 : Index := Scalar.indexCast c0_i32_874
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1199 : Index := Scalar.indexCast v1181
  ![0, 0, v1199.toNat]

def k0_chk36 (v1196 : IVec S16 32) : Prop :=
  (∀ a x, ((![v1196] : Fin 1 → IVec S16 32) a x).toNat < S16384.size a)
instance k0_chk36.dec : ∀ (v1196 : IVec S16 32), Decidable (k0_chk36 v1196) := fun v1196 => decidable_of_iff' _ (Iff.of_eq (k0_chk36.eq_1 v1196))
theorem k0_idx36_inb : ∀ (v1196 : IVec S16 32) (k0_hw36 : k0_chk36 v1196), ∀ a x, ((![v1196] : Fin 1 → IVec S16 32) a x).toNat < S16384.size a := fun v1196 k0_hw36 => k0_hw36
def k0_off43 (k0_t3 : Fin k0_t3_loop.trips) : Fin 3 → Nat :=
  let c0_i32_876 : BitVec 32 := 0#32
  let v1203 : Index := Scalar.indexCast c0_i32_876
  let c1_i32_877 : BitVec 32 := 1#32
  let v1204 : Index := Scalar.indexCast c1_i32_877
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1205 : Index := Scalar.indexCast v1181
  ![0, 1, v1205.toNat]

def k0_chk37 (v1202 : IVec S16 32) : Prop :=
  (∀ a x, ((![v1202] : Fin 1 → IVec S16 32) a x).toNat < S16384.size a)
instance k0_chk37.dec : ∀ (v1202 : IVec S16 32), Decidable (k0_chk37 v1202) := fun v1202 => decidable_of_iff' _ (Iff.of_eq (k0_chk37.eq_1 v1202))
theorem k0_idx37_inb : ∀ (v1202 : IVec S16 32) (k0_hw37 : k0_chk37 v1202), ∀ a x, ((![v1202] : Fin 1 → IVec S16 32) a x).toNat < S16384.size a := fun v1202 k0_hw37 => k0_hw37
def k0_off44 (k0_t3 : Fin k0_t3_loop.trips) : Fin 3 → Nat :=
  let c0_i32_879 : BitVec 32 := 0#32
  let v1209 : Index := Scalar.indexCast c0_i32_879
  let c2_i32_880 : BitVec 32 := 2#32
  let v1210 : Index := Scalar.indexCast c2_i32_880
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1211 : Index := Scalar.indexCast v1181
  ![0, 2, v1211.toNat]

def k0_chk38 (v1208 : IVec S16 32) : Prop :=
  (∀ a x, ((![v1208] : Fin 1 → IVec S16 32) a x).toNat < S16384.size a)
instance k0_chk38.dec : ∀ (v1208 : IVec S16 32), Decidable (k0_chk38 v1208) := fun v1208 => decidable_of_iff' _ (Iff.of_eq (k0_chk38.eq_1 v1208))
theorem k0_idx38_inb : ∀ (v1208 : IVec S16 32) (k0_hw38 : k0_chk38 v1208), ∀ a x, ((![v1208] : Fin 1 → IVec S16 32) a x).toNat < S16384.size a := fun v1208 k0_hw38 => k0_hw38
def k0_off45 (k0_t3 : Fin k0_t3_loop.trips) : Fin 3 → Nat :=
  let c0_i32_882 : BitVec 32 := 0#32
  let v1215 : Index := Scalar.indexCast c0_i32_882
  let c3_i32_883 : BitVec 32 := 3#32
  let v1216 : Index := Scalar.indexCast c3_i32_883
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1217 : Index := Scalar.indexCast v1181
  ![0, 3, v1217.toNat]

def k0_chk39 (v1214 : IVec S16 32) : Prop :=
  (∀ a x, ((![v1214] : Fin 1 → IVec S16 32) a x).toNat < S16384.size a)
instance k0_chk39.dec : ∀ (v1214 : IVec S16 32), Decidable (k0_chk39 v1214) := fun v1214 => decidable_of_iff' _ (Iff.of_eq (k0_chk39.eq_1 v1214))
theorem k0_idx39_inb : ∀ (v1214 : IVec S16 32) (k0_hw39 : k0_chk39 v1214), ∀ a x, ((![v1214] : Fin 1 → IVec S16 32) a x).toNat < S16384.size a := fun v1214 k0_hw39 => k0_hw39
def k0_off46 (k0_t3 : Fin k0_t3_loop.trips) : Fin 3 → Nat :=
  let c0_i32_885 : BitVec 32 := 0#32
  let v1221 : Index := Scalar.indexCast c0_i32_885
  let c4_i32_886 : BitVec 32 := 4#32
  let v1222 : Index := Scalar.indexCast c4_i32_886
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1223 : Index := Scalar.indexCast v1181
  ![0, 4, v1223.toNat]

def k0_chk40 (v1220 : IVec S16 32) : Prop :=
  (∀ a x, ((![v1220] : Fin 1 → IVec S16 32) a x).toNat < S16384.size a)
instance k0_chk40.dec : ∀ (v1220 : IVec S16 32), Decidable (k0_chk40 v1220) := fun v1220 => decidable_of_iff' _ (Iff.of_eq (k0_chk40.eq_1 v1220))
theorem k0_idx40_inb : ∀ (v1220 : IVec S16 32) (k0_hw40 : k0_chk40 v1220), ∀ a x, ((![v1220] : Fin 1 → IVec S16 32) a x).toNat < S16384.size a := fun v1220 k0_hw40 => k0_hw40
def k0_off47 (k0_t3 : Fin k0_t3_loop.trips) : Fin 3 → Nat :=
  let c0_i32_888 : BitVec 32 := 0#32
  let v1227 : Index := Scalar.indexCast c0_i32_888
  let c5_i32_889 : BitVec 32 := 5#32
  let v1228 : Index := Scalar.indexCast c5_i32_889
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1229 : Index := Scalar.indexCast v1181
  ![0, 5, v1229.toNat]

def k0_chk41 (v1226 : IVec S16 32) : Prop :=
  (∀ a x, ((![v1226] : Fin 1 → IVec S16 32) a x).toNat < S16384.size a)
instance k0_chk41.dec : ∀ (v1226 : IVec S16 32), Decidable (k0_chk41 v1226) := fun v1226 => decidable_of_iff' _ (Iff.of_eq (k0_chk41.eq_1 v1226))
theorem k0_idx41_inb : ∀ (v1226 : IVec S16 32) (k0_hw41 : k0_chk41 v1226), ∀ a x, ((![v1226] : Fin 1 → IVec S16 32) a x).toNat < S16384.size a := fun v1226 k0_hw41 => k0_hw41
def k0_off48 (k0_t3 : Fin k0_t3_loop.trips) : Fin 3 → Nat :=
  let c0_i32_891 : BitVec 32 := 0#32
  let v1233 : Index := Scalar.indexCast c0_i32_891
  let c6_i32_892 : BitVec 32 := 6#32
  let v1234 : Index := Scalar.indexCast c6_i32_892
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1235 : Index := Scalar.indexCast v1181
  ![0, 6, v1235.toNat]

def k0_chk42 (v1232 : IVec S16 32) : Prop :=
  (∀ a x, ((![v1232] : Fin 1 → IVec S16 32) a x).toNat < S16384.size a)
instance k0_chk42.dec : ∀ (v1232 : IVec S16 32), Decidable (k0_chk42 v1232) := fun v1232 => decidable_of_iff' _ (Iff.of_eq (k0_chk42.eq_1 v1232))
theorem k0_idx42_inb : ∀ (v1232 : IVec S16 32) (k0_hw42 : k0_chk42 v1232), ∀ a x, ((![v1232] : Fin 1 → IVec S16 32) a x).toNat < S16384.size a := fun v1232 k0_hw42 => k0_hw42
def k0_off49 (k0_t3 : Fin k0_t3_loop.trips) : Fin 3 → Nat :=
  let c0_i32_894 : BitVec 32 := 0#32
  let v1239 : Index := Scalar.indexCast c0_i32_894
  let c7_i32_895 : BitVec 32 := 7#32
  let v1240 : Index := Scalar.indexCast c7_i32_895
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1241 : Index := Scalar.indexCast v1181
  ![0, 7, v1241.toNat]

def k0_chk43 (v1238 : IVec S16 32) : Prop :=
  (∀ a x, ((![v1238] : Fin 1 → IVec S16 32) a x).toNat < S16384.size a)
instance k0_chk43.dec : ∀ (v1238 : IVec S16 32), Decidable (k0_chk43 v1238) := fun v1238 => decidable_of_iff' _ (Iff.of_eq (k0_chk43.eq_1 v1238))
theorem k0_idx43_inb : ∀ (v1238 : IVec S16 32) (k0_hw43 : k0_chk43 v1238), ∀ a x, ((![v1238] : Fin 1 → IVec S16 32) a x).toNat < S16384.size a := fun v1238 k0_hw43 => k0_hw43
def k0_off50 (k0_t3 : Fin k0_t3_loop.trips) : Fin 3 → Nat :=
  let c0_i32_897 : BitVec 32 := 0#32
  let v1245 : Index := Scalar.indexCast c0_i32_897
  let c8_i32_898 : BitVec 32 := 8#32
  let v1246 : Index := Scalar.indexCast c8_i32_898
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1247 : Index := Scalar.indexCast v1181
  ![0, 8, v1247.toNat]

def k0_chk44 (v1244 : IVec S16 32) : Prop :=
  (∀ a x, ((![v1244] : Fin 1 → IVec S16 32) a x).toNat < S16384.size a)
instance k0_chk44.dec : ∀ (v1244 : IVec S16 32), Decidable (k0_chk44 v1244) := fun v1244 => decidable_of_iff' _ (Iff.of_eq (k0_chk44.eq_1 v1244))
theorem k0_idx44_inb : ∀ (v1244 : IVec S16 32) (k0_hw44 : k0_chk44 v1244), ∀ a x, ((![v1244] : Fin 1 → IVec S16 32) a x).toNat < S16384.size a := fun v1244 k0_hw44 => k0_hw44
def k0_off51 (k0_t3 : Fin k0_t3_loop.trips) : Fin 3 → Nat :=
  let c0_i32_900 : BitVec 32 := 0#32
  let v1251 : Index := Scalar.indexCast c0_i32_900
  let c9_i32_901 : BitVec 32 := 9#32
  let v1252 : Index := Scalar.indexCast c9_i32_901
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1253 : Index := Scalar.indexCast v1181
  ![0, 9, v1253.toNat]

def k0_chk45 (v1250 : IVec S16 32) : Prop :=
  (∀ a x, ((![v1250] : Fin 1 → IVec S16 32) a x).toNat < S16384.size a)
instance k0_chk45.dec : ∀ (v1250 : IVec S16 32), Decidable (k0_chk45 v1250) := fun v1250 => decidable_of_iff' _ (Iff.of_eq (k0_chk45.eq_1 v1250))
theorem k0_idx45_inb : ∀ (v1250 : IVec S16 32) (k0_hw45 : k0_chk45 v1250), ∀ a x, ((![v1250] : Fin 1 → IVec S16 32) a x).toNat < S16384.size a := fun v1250 k0_hw45 => k0_hw45
def k0_off52 (k0_t3 : Fin k0_t3_loop.trips) : Fin 3 → Nat :=
  let c0_i32_903 : BitVec 32 := 0#32
  let v1257 : Index := Scalar.indexCast c0_i32_903
  let c10_i32_904 : BitVec 32 := 10#32
  let v1258 : Index := Scalar.indexCast c10_i32_904
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1259 : Index := Scalar.indexCast v1181
  ![0, 10, v1259.toNat]

def k0_chk46 (v1256 : IVec S16 32) : Prop :=
  (∀ a x, ((![v1256] : Fin 1 → IVec S16 32) a x).toNat < S16384.size a)
instance k0_chk46.dec : ∀ (v1256 : IVec S16 32), Decidable (k0_chk46 v1256) := fun v1256 => decidable_of_iff' _ (Iff.of_eq (k0_chk46.eq_1 v1256))
theorem k0_idx46_inb : ∀ (v1256 : IVec S16 32) (k0_hw46 : k0_chk46 v1256), ∀ a x, ((![v1256] : Fin 1 → IVec S16 32) a x).toNat < S16384.size a := fun v1256 k0_hw46 => k0_hw46
def k0_off53 (k0_t3 : Fin k0_t3_loop.trips) : Fin 3 → Nat :=
  let c0_i32_906 : BitVec 32 := 0#32
  let v1263 : Index := Scalar.indexCast c0_i32_906
  let c11_i32_907 : BitVec 32 := 11#32
  let v1264 : Index := Scalar.indexCast c11_i32_907
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1265 : Index := Scalar.indexCast v1181
  ![0, 11, v1265.toNat]

def k0_chk47 (v1262 : IVec S16 32) : Prop :=
  (∀ a x, ((![v1262] : Fin 1 → IVec S16 32) a x).toNat < S16384.size a)
instance k0_chk47.dec : ∀ (v1262 : IVec S16 32), Decidable (k0_chk47 v1262) := fun v1262 => decidable_of_iff' _ (Iff.of_eq (k0_chk47.eq_1 v1262))
theorem k0_idx47_inb : ∀ (v1262 : IVec S16 32) (k0_hw47 : k0_chk47 v1262), ∀ a x, ((![v1262] : Fin 1 → IVec S16 32) a x).toNat < S16384.size a := fun v1262 k0_hw47 => k0_hw47
def k0_off54 (k0_t3 : Fin k0_t3_loop.trips) : Fin 3 → Nat :=
  let c0_i32_909 : BitVec 32 := 0#32
  let v1269 : Index := Scalar.indexCast c0_i32_909
  let c12_i32_910 : BitVec 32 := 12#32
  let v1270 : Index := Scalar.indexCast c12_i32_910
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1271 : Index := Scalar.indexCast v1181
  ![0, 12, v1271.toNat]

def k0_chk48 (v1268 : IVec S16 32) : Prop :=
  (∀ a x, ((![v1268] : Fin 1 → IVec S16 32) a x).toNat < S16384.size a)
instance k0_chk48.dec : ∀ (v1268 : IVec S16 32), Decidable (k0_chk48 v1268) := fun v1268 => decidable_of_iff' _ (Iff.of_eq (k0_chk48.eq_1 v1268))
theorem k0_idx48_inb : ∀ (v1268 : IVec S16 32) (k0_hw48 : k0_chk48 v1268), ∀ a x, ((![v1268] : Fin 1 → IVec S16 32) a x).toNat < S16384.size a := fun v1268 k0_hw48 => k0_hw48
def k0_off55 (k0_t3 : Fin k0_t3_loop.trips) : Fin 3 → Nat :=
  let c0_i32_912 : BitVec 32 := 0#32
  let v1275 : Index := Scalar.indexCast c0_i32_912
  let c13_i32_913 : BitVec 32 := 13#32
  let v1276 : Index := Scalar.indexCast c13_i32_913
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1277 : Index := Scalar.indexCast v1181
  ![0, 13, v1277.toNat]

def k0_chk49 (v1274 : IVec S16 32) : Prop :=
  (∀ a x, ((![v1274] : Fin 1 → IVec S16 32) a x).toNat < S16384.size a)
instance k0_chk49.dec : ∀ (v1274 : IVec S16 32), Decidable (k0_chk49 v1274) := fun v1274 => decidable_of_iff' _ (Iff.of_eq (k0_chk49.eq_1 v1274))
theorem k0_idx49_inb : ∀ (v1274 : IVec S16 32) (k0_hw49 : k0_chk49 v1274), ∀ a x, ((![v1274] : Fin 1 → IVec S16 32) a x).toNat < S16384.size a := fun v1274 k0_hw49 => k0_hw49
def k0_off56 (k0_t3 : Fin k0_t3_loop.trips) : Fin 3 → Nat :=
  let c0_i32_915 : BitVec 32 := 0#32
  let v1281 : Index := Scalar.indexCast c0_i32_915
  let c14_i32_916 : BitVec 32 := 14#32
  let v1282 : Index := Scalar.indexCast c14_i32_916
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1283 : Index := Scalar.indexCast v1181
  ![0, 14, v1283.toNat]

def k0_chk50 (v1280 : IVec S16 32) : Prop :=
  (∀ a x, ((![v1280] : Fin 1 → IVec S16 32) a x).toNat < S16384.size a)
instance k0_chk50.dec : ∀ (v1280 : IVec S16 32), Decidable (k0_chk50 v1280) := fun v1280 => decidable_of_iff' _ (Iff.of_eq (k0_chk50.eq_1 v1280))
theorem k0_idx50_inb : ∀ (v1280 : IVec S16 32) (k0_hw50 : k0_chk50 v1280), ∀ a x, ((![v1280] : Fin 1 → IVec S16 32) a x).toNat < S16384.size a := fun v1280 k0_hw50 => k0_hw50
def k0_off57 (k0_t3 : Fin k0_t3_loop.trips) : Fin 3 → Nat :=
  let c0_i32_918 : BitVec 32 := 0#32
  let v1287 : Index := Scalar.indexCast c0_i32_918
  let c15_i32_919 : BitVec 32 := 15#32
  let v1288 : Index := Scalar.indexCast c15_i32_919
  let c0_i32_472 : BitVec 32 := 0#32
  let c1_i32_473 : BitVec 32 := 1#32
  let arg16 : BitVec 32 := Scf.iv c0_i32_472 c1_i32_473 k0_t3
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1289 : Index := Scalar.indexCast v1181
  ![0, 15, v1289.toNat]

def k0_chk51 (v1286 : IVec S16 32) : Prop :=
  (∀ a x, ((![v1286] : Fin 1 → IVec S16 32) a x).toNat < S16384.size a)
instance k0_chk51.dec : ∀ (v1286 : IVec S16 32), Decidable (k0_chk51 v1286) := fun v1286 => decidable_of_iff' _ (Iff.of_eq (k0_chk51.eq_1 v1286))
theorem k0_idx51_inb : ∀ (v1286 : IVec S16 32) (k0_hw51 : k0_chk51 v1286), ∀ a x, ((![v1286] : Fin 1 → IVec S16 32) a x).toNat < S16384.size a := fun v1286 k0_hw51 => k0_hw51
def k0_off58 (k0_t3 : Fin k0_t3_loop.trips) : Fin 2 → Nat :=
  let c0_i32_923 : BitVec 32 := 0#32
  let v1294 : Index := Scalar.indexCast c0_i32_923
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1295 : Index := Scalar.indexCast v1293
  ![0, v1295.toNat]

def k0_chk52 (v1306 : IVec S16 32) : Prop :=
  (∀ a x, ((![v1306] : Fin 1 → IVec S16 32) a x).toNat < S1024.size a)
instance k0_chk52.dec : ∀ (v1306 : IVec S16 32), Decidable (k0_chk52 v1306) := fun v1306 => decidable_of_iff' _ (Iff.of_eq (k0_chk52.eq_1 v1306))
theorem k0_idx52_inb : ∀ (v1306 : IVec S16 32) (k0_hw52 : k0_chk52 v1306), ∀ a x, ((![v1306] : Fin 1 → IVec S16 32) a x).toNat < S1024.size a := fun v1306 k0_hw52 => k0_hw52
def k0_off59 (k0_t3 : Fin k0_t3_loop.trips) : Fin 3 → Nat :=
  let c0_i32_929 : BitVec 32 := 0#32
  let v1309 : Index := Scalar.indexCast c0_i32_929
  let c0_i32_930 : BitVec 32 := 0#32
  let v1310 : Index := Scalar.indexCast c0_i32_930
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1311 : Index := Scalar.indexCast v1293
  ![0, 0, v1311.toNat]

def k0_chk53 (v1308 : IVec S16 32) : Prop :=
  (∀ a x, ((![v1308] : Fin 1 → IVec S16 32) a x).toNat < S16384.size a)
instance k0_chk53.dec : ∀ (v1308 : IVec S16 32), Decidable (k0_chk53 v1308) := fun v1308 => decidable_of_iff' _ (Iff.of_eq (k0_chk53.eq_1 v1308))
theorem k0_idx53_inb : ∀ (v1308 : IVec S16 32) (k0_hw53 : k0_chk53 v1308), ∀ a x, ((![v1308] : Fin 1 → IVec S16 32) a x).toNat < S16384.size a := fun v1308 k0_hw53 => k0_hw53
def k0_off60 (k0_t3 : Fin k0_t3_loop.trips) : Fin 3 → Nat :=
  let c0_i32_932 : BitVec 32 := 0#32
  let v1315 : Index := Scalar.indexCast c0_i32_932
  let c1_i32_933 : BitVec 32 := 1#32
  let v1316 : Index := Scalar.indexCast c1_i32_933
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1317 : Index := Scalar.indexCast v1293
  ![0, 1, v1317.toNat]

def k0_chk54 (v1314 : IVec S16 32) : Prop :=
  (∀ a x, ((![v1314] : Fin 1 → IVec S16 32) a x).toNat < S16384.size a)
instance k0_chk54.dec : ∀ (v1314 : IVec S16 32), Decidable (k0_chk54 v1314) := fun v1314 => decidable_of_iff' _ (Iff.of_eq (k0_chk54.eq_1 v1314))
theorem k0_idx54_inb : ∀ (v1314 : IVec S16 32) (k0_hw54 : k0_chk54 v1314), ∀ a x, ((![v1314] : Fin 1 → IVec S16 32) a x).toNat < S16384.size a := fun v1314 k0_hw54 => k0_hw54
def k0_off61 (k0_t3 : Fin k0_t3_loop.trips) : Fin 3 → Nat :=
  let c0_i32_935 : BitVec 32 := 0#32
  let v1321 : Index := Scalar.indexCast c0_i32_935
  let c2_i32_936 : BitVec 32 := 2#32
  let v1322 : Index := Scalar.indexCast c2_i32_936
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1323 : Index := Scalar.indexCast v1293
  ![0, 2, v1323.toNat]

def k0_chk55 (v1320 : IVec S16 32) : Prop :=
  (∀ a x, ((![v1320] : Fin 1 → IVec S16 32) a x).toNat < S16384.size a)
instance k0_chk55.dec : ∀ (v1320 : IVec S16 32), Decidable (k0_chk55 v1320) := fun v1320 => decidable_of_iff' _ (Iff.of_eq (k0_chk55.eq_1 v1320))
theorem k0_idx55_inb : ∀ (v1320 : IVec S16 32) (k0_hw55 : k0_chk55 v1320), ∀ a x, ((![v1320] : Fin 1 → IVec S16 32) a x).toNat < S16384.size a := fun v1320 k0_hw55 => k0_hw55
def k0_off62 (k0_t3 : Fin k0_t3_loop.trips) : Fin 3 → Nat :=
  let c0_i32_938 : BitVec 32 := 0#32
  let v1327 : Index := Scalar.indexCast c0_i32_938
  let c3_i32_939 : BitVec 32 := 3#32
  let v1328 : Index := Scalar.indexCast c3_i32_939
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1329 : Index := Scalar.indexCast v1293
  ![0, 3, v1329.toNat]

def k0_chk56 (v1326 : IVec S16 32) : Prop :=
  (∀ a x, ((![v1326] : Fin 1 → IVec S16 32) a x).toNat < S16384.size a)
instance k0_chk56.dec : ∀ (v1326 : IVec S16 32), Decidable (k0_chk56 v1326) := fun v1326 => decidable_of_iff' _ (Iff.of_eq (k0_chk56.eq_1 v1326))
theorem k0_idx56_inb : ∀ (v1326 : IVec S16 32) (k0_hw56 : k0_chk56 v1326), ∀ a x, ((![v1326] : Fin 1 → IVec S16 32) a x).toNat < S16384.size a := fun v1326 k0_hw56 => k0_hw56
def k0_off63 (k0_t3 : Fin k0_t3_loop.trips) : Fin 3 → Nat :=
  let c0_i32_941 : BitVec 32 := 0#32
  let v1333 : Index := Scalar.indexCast c0_i32_941
  let c4_i32_942 : BitVec 32 := 4#32
  let v1334 : Index := Scalar.indexCast c4_i32_942
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1335 : Index := Scalar.indexCast v1293
  ![0, 4, v1335.toNat]

def k0_chk57 (v1332 : IVec S16 32) : Prop :=
  (∀ a x, ((![v1332] : Fin 1 → IVec S16 32) a x).toNat < S16384.size a)
instance k0_chk57.dec : ∀ (v1332 : IVec S16 32), Decidable (k0_chk57 v1332) := fun v1332 => decidable_of_iff' _ (Iff.of_eq (k0_chk57.eq_1 v1332))
theorem k0_idx57_inb : ∀ (v1332 : IVec S16 32) (k0_hw57 : k0_chk57 v1332), ∀ a x, ((![v1332] : Fin 1 → IVec S16 32) a x).toNat < S16384.size a := fun v1332 k0_hw57 => k0_hw57
def k0_off64 (k0_t3 : Fin k0_t3_loop.trips) : Fin 3 → Nat :=
  let c0_i32_944 : BitVec 32 := 0#32
  let v1339 : Index := Scalar.indexCast c0_i32_944
  let c5_i32_945 : BitVec 32 := 5#32
  let v1340 : Index := Scalar.indexCast c5_i32_945
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1341 : Index := Scalar.indexCast v1293
  ![0, 5, v1341.toNat]

def k0_chk58 (v1338 : IVec S16 32) : Prop :=
  (∀ a x, ((![v1338] : Fin 1 → IVec S16 32) a x).toNat < S16384.size a)
instance k0_chk58.dec : ∀ (v1338 : IVec S16 32), Decidable (k0_chk58 v1338) := fun v1338 => decidable_of_iff' _ (Iff.of_eq (k0_chk58.eq_1 v1338))
theorem k0_idx58_inb : ∀ (v1338 : IVec S16 32) (k0_hw58 : k0_chk58 v1338), ∀ a x, ((![v1338] : Fin 1 → IVec S16 32) a x).toNat < S16384.size a := fun v1338 k0_hw58 => k0_hw58
def k0_off65 (k0_t3 : Fin k0_t3_loop.trips) : Fin 3 → Nat :=
  let c0_i32_947 : BitVec 32 := 0#32
  let v1345 : Index := Scalar.indexCast c0_i32_947
  let c6_i32_948 : BitVec 32 := 6#32
  let v1346 : Index := Scalar.indexCast c6_i32_948
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1347 : Index := Scalar.indexCast v1293
  ![0, 6, v1347.toNat]

def k0_chk59 (v1344 : IVec S16 32) : Prop :=
  (∀ a x, ((![v1344] : Fin 1 → IVec S16 32) a x).toNat < S16384.size a)
instance k0_chk59.dec : ∀ (v1344 : IVec S16 32), Decidable (k0_chk59 v1344) := fun v1344 => decidable_of_iff' _ (Iff.of_eq (k0_chk59.eq_1 v1344))
theorem k0_idx59_inb : ∀ (v1344 : IVec S16 32) (k0_hw59 : k0_chk59 v1344), ∀ a x, ((![v1344] : Fin 1 → IVec S16 32) a x).toNat < S16384.size a := fun v1344 k0_hw59 => k0_hw59
def k0_off66 (k0_t3 : Fin k0_t3_loop.trips) : Fin 3 → Nat :=
  let c0_i32_950 : BitVec 32 := 0#32
  let v1351 : Index := Scalar.indexCast c0_i32_950
  let c7_i32_951 : BitVec 32 := 7#32
  let v1352 : Index := Scalar.indexCast c7_i32_951
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1353 : Index := Scalar.indexCast v1293
  ![0, 7, v1353.toNat]

def k0_chk60 (v1350 : IVec S16 32) : Prop :=
  (∀ a x, ((![v1350] : Fin 1 → IVec S16 32) a x).toNat < S16384.size a)
instance k0_chk60.dec : ∀ (v1350 : IVec S16 32), Decidable (k0_chk60 v1350) := fun v1350 => decidable_of_iff' _ (Iff.of_eq (k0_chk60.eq_1 v1350))
theorem k0_idx60_inb : ∀ (v1350 : IVec S16 32) (k0_hw60 : k0_chk60 v1350), ∀ a x, ((![v1350] : Fin 1 → IVec S16 32) a x).toNat < S16384.size a := fun v1350 k0_hw60 => k0_hw60
def k0_off67 (k0_t3 : Fin k0_t3_loop.trips) : Fin 3 → Nat :=
  let c0_i32_953 : BitVec 32 := 0#32
  let v1357 : Index := Scalar.indexCast c0_i32_953
  let c8_i32_954 : BitVec 32 := 8#32
  let v1358 : Index := Scalar.indexCast c8_i32_954
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1359 : Index := Scalar.indexCast v1293
  ![0, 8, v1359.toNat]

def k0_chk61 (v1356 : IVec S16 32) : Prop :=
  (∀ a x, ((![v1356] : Fin 1 → IVec S16 32) a x).toNat < S16384.size a)
instance k0_chk61.dec : ∀ (v1356 : IVec S16 32), Decidable (k0_chk61 v1356) := fun v1356 => decidable_of_iff' _ (Iff.of_eq (k0_chk61.eq_1 v1356))
theorem k0_idx61_inb : ∀ (v1356 : IVec S16 32) (k0_hw61 : k0_chk61 v1356), ∀ a x, ((![v1356] : Fin 1 → IVec S16 32) a x).toNat < S16384.size a := fun v1356 k0_hw61 => k0_hw61
def k0_off68 (k0_t3 : Fin k0_t3_loop.trips) : Fin 3 → Nat :=
  let c0_i32_956 : BitVec 32 := 0#32
  let v1363 : Index := Scalar.indexCast c0_i32_956
  let c9_i32_957 : BitVec 32 := 9#32
  let v1364 : Index := Scalar.indexCast c9_i32_957
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1365 : Index := Scalar.indexCast v1293
  ![0, 9, v1365.toNat]

def k0_chk62 (v1362 : IVec S16 32) : Prop :=
  (∀ a x, ((![v1362] : Fin 1 → IVec S16 32) a x).toNat < S16384.size a)
instance k0_chk62.dec : ∀ (v1362 : IVec S16 32), Decidable (k0_chk62 v1362) := fun v1362 => decidable_of_iff' _ (Iff.of_eq (k0_chk62.eq_1 v1362))
theorem k0_idx62_inb : ∀ (v1362 : IVec S16 32) (k0_hw62 : k0_chk62 v1362), ∀ a x, ((![v1362] : Fin 1 → IVec S16 32) a x).toNat < S16384.size a := fun v1362 k0_hw62 => k0_hw62
def k0_off69 (k0_t3 : Fin k0_t3_loop.trips) : Fin 3 → Nat :=
  let c0_i32_959 : BitVec 32 := 0#32
  let v1369 : Index := Scalar.indexCast c0_i32_959
  let c10_i32_960 : BitVec 32 := 10#32
  let v1370 : Index := Scalar.indexCast c10_i32_960
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1371 : Index := Scalar.indexCast v1293
  ![0, 10, v1371.toNat]

def k0_chk63 (v1368 : IVec S16 32) : Prop :=
  (∀ a x, ((![v1368] : Fin 1 → IVec S16 32) a x).toNat < S16384.size a)
instance k0_chk63.dec : ∀ (v1368 : IVec S16 32), Decidable (k0_chk63 v1368) := fun v1368 => decidable_of_iff' _ (Iff.of_eq (k0_chk63.eq_1 v1368))
theorem k0_idx63_inb : ∀ (v1368 : IVec S16 32) (k0_hw63 : k0_chk63 v1368), ∀ a x, ((![v1368] : Fin 1 → IVec S16 32) a x).toNat < S16384.size a := fun v1368 k0_hw63 => k0_hw63
def k0_off70 (k0_t3 : Fin k0_t3_loop.trips) : Fin 3 → Nat :=
  let c0_i32_962 : BitVec 32 := 0#32
  let v1375 : Index := Scalar.indexCast c0_i32_962
  let c11_i32_963 : BitVec 32 := 11#32
  let v1376 : Index := Scalar.indexCast c11_i32_963
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1377 : Index := Scalar.indexCast v1293
  ![0, 11, v1377.toNat]

def k0_chk64 (v1374 : IVec S16 32) : Prop :=
  (∀ a x, ((![v1374] : Fin 1 → IVec S16 32) a x).toNat < S16384.size a)
instance k0_chk64.dec : ∀ (v1374 : IVec S16 32), Decidable (k0_chk64 v1374) := fun v1374 => decidable_of_iff' _ (Iff.of_eq (k0_chk64.eq_1 v1374))
theorem k0_idx64_inb : ∀ (v1374 : IVec S16 32) (k0_hw64 : k0_chk64 v1374), ∀ a x, ((![v1374] : Fin 1 → IVec S16 32) a x).toNat < S16384.size a := fun v1374 k0_hw64 => k0_hw64
def k0_off71 (k0_t3 : Fin k0_t3_loop.trips) : Fin 3 → Nat :=
  let c0_i32_965 : BitVec 32 := 0#32
  let v1381 : Index := Scalar.indexCast c0_i32_965
  let c12_i32_966 : BitVec 32 := 12#32
  let v1382 : Index := Scalar.indexCast c12_i32_966
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1383 : Index := Scalar.indexCast v1293
  ![0, 12, v1383.toNat]

def k0_chk65 (v1380 : IVec S16 32) : Prop :=
  (∀ a x, ((![v1380] : Fin 1 → IVec S16 32) a x).toNat < S16384.size a)
instance k0_chk65.dec : ∀ (v1380 : IVec S16 32), Decidable (k0_chk65 v1380) := fun v1380 => decidable_of_iff' _ (Iff.of_eq (k0_chk65.eq_1 v1380))
theorem k0_idx65_inb : ∀ (v1380 : IVec S16 32) (k0_hw65 : k0_chk65 v1380), ∀ a x, ((![v1380] : Fin 1 → IVec S16 32) a x).toNat < S16384.size a := fun v1380 k0_hw65 => k0_hw65
def k0_off72 (k0_t3 : Fin k0_t3_loop.trips) : Fin 3 → Nat :=
  let c0_i32_968 : BitVec 32 := 0#32
  let v1387 : Index := Scalar.indexCast c0_i32_968
  let c13_i32_969 : BitVec 32 := 13#32
  let v1388 : Index := Scalar.indexCast c13_i32_969
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1389 : Index := Scalar.indexCast v1293
  ![0, 13, v1389.toNat]

def k0_chk66 (v1386 : IVec S16 32) : Prop :=
  (∀ a x, ((![v1386] : Fin 1 → IVec S16 32) a x).toNat < S16384.size a)
instance k0_chk66.dec : ∀ (v1386 : IVec S16 32), Decidable (k0_chk66 v1386) := fun v1386 => decidable_of_iff' _ (Iff.of_eq (k0_chk66.eq_1 v1386))
theorem k0_idx66_inb : ∀ (v1386 : IVec S16 32) (k0_hw66 : k0_chk66 v1386), ∀ a x, ((![v1386] : Fin 1 → IVec S16 32) a x).toNat < S16384.size a := fun v1386 k0_hw66 => k0_hw66
def k0_off73 (k0_t3 : Fin k0_t3_loop.trips) : Fin 3 → Nat :=
  let c0_i32_971 : BitVec 32 := 0#32
  let v1393 : Index := Scalar.indexCast c0_i32_971
  let c14_i32_972 : BitVec 32 := 14#32
  let v1394 : Index := Scalar.indexCast c14_i32_972
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1395 : Index := Scalar.indexCast v1293
  ![0, 14, v1395.toNat]

def k0_chk67 (v1392 : IVec S16 32) : Prop :=
  (∀ a x, ((![v1392] : Fin 1 → IVec S16 32) a x).toNat < S16384.size a)
instance k0_chk67.dec : ∀ (v1392 : IVec S16 32), Decidable (k0_chk67 v1392) := fun v1392 => decidable_of_iff' _ (Iff.of_eq (k0_chk67.eq_1 v1392))
theorem k0_idx67_inb : ∀ (v1392 : IVec S16 32) (k0_hw67 : k0_chk67 v1392), ∀ a x, ((![v1392] : Fin 1 → IVec S16 32) a x).toNat < S16384.size a := fun v1392 k0_hw67 => k0_hw67
def k0_off74 (k0_t3 : Fin k0_t3_loop.trips) : Fin 3 → Nat :=
  let c0_i32_974 : BitVec 32 := 0#32
  let v1399 : Index := Scalar.indexCast c0_i32_974
  let c15_i32_975 : BitVec 32 := 15#32
  let v1400 : Index := Scalar.indexCast c15_i32_975
  let c0_i32_472 : BitVec 32 := 0#32
  let c1_i32_473 : BitVec 32 := 1#32
  let arg16 : BitVec 32 := Scf.iv c0_i32_472 c1_i32_473 k0_t3
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1401 : Index := Scalar.indexCast v1293
  ![0, 15, v1401.toNat]

def k0_chk68 (v1398 : IVec S16 32) : Prop :=
  (∀ a x, ((![v1398] : Fin 1 → IVec S16 32) a x).toNat < S16384.size a)
instance k0_chk68.dec : ∀ (v1398 : IVec S16 32), Decidable (k0_chk68 v1398) := fun v1398 => decidable_of_iff' _ (Iff.of_eq (k0_chk68.eq_1 v1398))
theorem k0_idx68_inb : ∀ (v1398 : IVec S16 32) (k0_hw68 : k0_chk68 v1398), ∀ a x, ((![v1398] : Fin 1 → IVec S16 32) a x).toNat < S16384.size a := fun v1398 k0_hw68 => k0_hw68
def k0_off75 (i : grid0.Coords) (k0_t2 : Fin k0_t2_loop.trips) (c0_i32_477 : BitVec 32) (c0_i32_364 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_148 : BitVec 32 := 0#32
  let c1_i32_149 : BitVec 32 := 1#32
  let arg14 : BitVec 32 := Scf.iv c0_i32_148 c1_i32_149 k0_t2
  let c2_i32_363 : BitVec 32 := 2#32
  let v475 : BitVec 32 := Scalar.muli arg14 c2_i32_363
  let v476 : BitVec 32 := Scalar.addi v475 c0_i32_364
  let c2_i32_475 : BitVec 32 := 2#32
  let v587 : BitVec 32 := Scalar.addi v476 c2_i32_475
  let c31_i32 : BitVec 32 := 31#32
  let v588 : BitVec 32 := Scalar.minsi v587 c31_i32
  let c2048_i32_476 : BitVec 32 := 2048#32
  let v589 : BitVec 32 := Scalar.muli v588 c2048_i32_476
  let v590 : BitVec 32 := Scalar.addi v2 v589
  let v591 : BitVec 32 := Scalar.addi c0_i32_477 v590
  ![v591.toNat]
def k0_off76 (i : grid0.Coords) (k0_t2 : Fin k0_t2_loop.trips) (c0_i32_364 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_148 : BitVec 32 := 0#32
  let c1_i32_149 : BitVec 32 := 1#32
  let arg14 : BitVec 32 := Scf.iv c0_i32_148 c1_i32_149 k0_t2
  let c2_i32_363 : BitVec 32 := 2#32
  let v475 : BitVec 32 := Scalar.muli arg14 c2_i32_363
  let v476 : BitVec 32 := Scalar.addi v475 c0_i32_364
  let c2_i32_475 : BitVec 32 := 2#32
  let v587 : BitVec 32 := Scalar.addi v476 c2_i32_475
  let c31_i32 : BitVec 32 := 31#32
  let v588 : BitVec 32 := Scalar.minsi v587 c31_i32
  let c2048_i32_476 : BitVec 32 := 2048#32
  let v589 : BitVec 32 := Scalar.muli v588 c2048_i32_476
  let v590 : BitVec 32 := Scalar.addi v2 v589
  ![v590.toNat]
@[reducible] def k0_t4_loop : Scf.Loop 32 :=
  let c0_i32_672 : BitVec 32 := 0#32
  let c32_i32_673 : BitVec 32 := 32#32
  let v825 : BitVec 32 := Scalar.addi c0_i32_672 c32_i32_673
  let c1_i32_674 : BitVec 32 := 1#32
  ⟨c0_i32_672, v825, c1_i32_674⟩
def k0_off77 (k0_t4 : Fin k0_t4_loop.trips) : Fin 2 → Nat :=
  let c1_i32_769 : BitVec 32 := 1#32
  let v958 : Index := Scalar.indexCast c1_i32_769
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v959 : Index := Scalar.indexCast v957
  ![1, v959.toNat]

def k0_chk69 (v970 : IVec S16 32) : Prop :=
  (∀ a x, ((![v970] : Fin 1 → IVec S16 32) a x).toNat < S1024.size a)
instance k0_chk69.dec : ∀ (v970 : IVec S16 32), Decidable (k0_chk69 v970) := fun v970 => decidable_of_iff' _ (Iff.of_eq (k0_chk69.eq_1 v970))
theorem k0_idx69_inb : ∀ (v970 : IVec S16 32) (k0_hw69 : k0_chk69 v970), ∀ a x, ((![v970] : Fin 1 → IVec S16 32) a x).toNat < S1024.size a := fun v970 k0_hw69 => k0_hw69
def k0_off78 (k0_t4 : Fin k0_t4_loop.trips) : Fin 3 → Nat :=
  let c1_i32_775 : BitVec 32 := 1#32
  let v973 : Index := Scalar.indexCast c1_i32_775
  let c0_i32_776 : BitVec 32 := 0#32
  let v974 : Index := Scalar.indexCast c0_i32_776
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v975 : Index := Scalar.indexCast v957
  ![1, 0, v975.toNat]

def k0_chk70 (v972 : IVec S16 32) : Prop :=
  (∀ a x, ((![v972] : Fin 1 → IVec S16 32) a x).toNat < S16384.size a)
instance k0_chk70.dec : ∀ (v972 : IVec S16 32), Decidable (k0_chk70 v972) := fun v972 => decidable_of_iff' _ (Iff.of_eq (k0_chk70.eq_1 v972))
theorem k0_idx70_inb : ∀ (v972 : IVec S16 32) (k0_hw70 : k0_chk70 v972), ∀ a x, ((![v972] : Fin 1 → IVec S16 32) a x).toNat < S16384.size a := fun v972 k0_hw70 => k0_hw70
def k0_off79 (k0_t4 : Fin k0_t4_loop.trips) : Fin 3 → Nat :=
  let c1_i32_777 : BitVec 32 := 1#32
  let v979 : Index := Scalar.indexCast c1_i32_777
  let c1_i32_778 : BitVec 32 := 1#32
  let v980 : Index := Scalar.indexCast c1_i32_778
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v981 : Index := Scalar.indexCast v957
  ![1, 1, v981.toNat]

def k0_chk71 (v978 : IVec S16 32) : Prop :=
  (∀ a x, ((![v978] : Fin 1 → IVec S16 32) a x).toNat < S16384.size a)
instance k0_chk71.dec : ∀ (v978 : IVec S16 32), Decidable (k0_chk71 v978) := fun v978 => decidable_of_iff' _ (Iff.of_eq (k0_chk71.eq_1 v978))
theorem k0_idx71_inb : ∀ (v978 : IVec S16 32) (k0_hw71 : k0_chk71 v978), ∀ a x, ((![v978] : Fin 1 → IVec S16 32) a x).toNat < S16384.size a := fun v978 k0_hw71 => k0_hw71
def k0_off80 (k0_t4 : Fin k0_t4_loop.trips) : Fin 3 → Nat :=
  let c1_i32_780 : BitVec 32 := 1#32
  let v985 : Index := Scalar.indexCast c1_i32_780
  let c2_i32_781 : BitVec 32 := 2#32
  let v986 : Index := Scalar.indexCast c2_i32_781
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v987 : Index := Scalar.indexCast v957
  ![1, 2, v987.toNat]

def k0_chk72 (v984 : IVec S16 32) : Prop :=
  (∀ a x, ((![v984] : Fin 1 → IVec S16 32) a x).toNat < S16384.size a)
instance k0_chk72.dec : ∀ (v984 : IVec S16 32), Decidable (k0_chk72 v984) := fun v984 => decidable_of_iff' _ (Iff.of_eq (k0_chk72.eq_1 v984))
theorem k0_idx72_inb : ∀ (v984 : IVec S16 32) (k0_hw72 : k0_chk72 v984), ∀ a x, ((![v984] : Fin 1 → IVec S16 32) a x).toNat < S16384.size a := fun v984 k0_hw72 => k0_hw72
def k0_off81 (k0_t4 : Fin k0_t4_loop.trips) : Fin 3 → Nat :=
  let c1_i32_782 : BitVec 32 := 1#32
  let v991 : Index := Scalar.indexCast c1_i32_782
  let c3_i32_783 : BitVec 32 := 3#32
  let v992 : Index := Scalar.indexCast c3_i32_783
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v993 : Index := Scalar.indexCast v957
  ![1, 3, v993.toNat]

def k0_chk73 (v990 : IVec S16 32) : Prop :=
  (∀ a x, ((![v990] : Fin 1 → IVec S16 32) a x).toNat < S16384.size a)
instance k0_chk73.dec : ∀ (v990 : IVec S16 32), Decidable (k0_chk73 v990) := fun v990 => decidable_of_iff' _ (Iff.of_eq (k0_chk73.eq_1 v990))
theorem k0_idx73_inb : ∀ (v990 : IVec S16 32) (k0_hw73 : k0_chk73 v990), ∀ a x, ((![v990] : Fin 1 → IVec S16 32) a x).toNat < S16384.size a := fun v990 k0_hw73 => k0_hw73
def k0_off82 (k0_t4 : Fin k0_t4_loop.trips) : Fin 3 → Nat :=
  let c1_i32_784 : BitVec 32 := 1#32
  let v997 : Index := Scalar.indexCast c1_i32_784
  let c4_i32_785 : BitVec 32 := 4#32
  let v998 : Index := Scalar.indexCast c4_i32_785
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v999 : Index := Scalar.indexCast v957
  ![1, 4, v999.toNat]

def k0_chk74 (v996 : IVec S16 32) : Prop :=
  (∀ a x, ((![v996] : Fin 1 → IVec S16 32) a x).toNat < S16384.size a)
instance k0_chk74.dec : ∀ (v996 : IVec S16 32), Decidable (k0_chk74 v996) := fun v996 => decidable_of_iff' _ (Iff.of_eq (k0_chk74.eq_1 v996))
theorem k0_idx74_inb : ∀ (v996 : IVec S16 32) (k0_hw74 : k0_chk74 v996), ∀ a x, ((![v996] : Fin 1 → IVec S16 32) a x).toNat < S16384.size a := fun v996 k0_hw74 => k0_hw74
def k0_off83 (k0_t4 : Fin k0_t4_loop.trips) : Fin 3 → Nat :=
  let c1_i32_786 : BitVec 32 := 1#32
  let v1003 : Index := Scalar.indexCast c1_i32_786
  let c5_i32_787 : BitVec 32 := 5#32
  let v1004 : Index := Scalar.indexCast c5_i32_787
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1005 : Index := Scalar.indexCast v957
  ![1, 5, v1005.toNat]

def k0_chk75 (v1002 : IVec S16 32) : Prop :=
  (∀ a x, ((![v1002] : Fin 1 → IVec S16 32) a x).toNat < S16384.size a)
instance k0_chk75.dec : ∀ (v1002 : IVec S16 32), Decidable (k0_chk75 v1002) := fun v1002 => decidable_of_iff' _ (Iff.of_eq (k0_chk75.eq_1 v1002))
theorem k0_idx75_inb : ∀ (v1002 : IVec S16 32) (k0_hw75 : k0_chk75 v1002), ∀ a x, ((![v1002] : Fin 1 → IVec S16 32) a x).toNat < S16384.size a := fun v1002 k0_hw75 => k0_hw75
def k0_off84 (k0_t4 : Fin k0_t4_loop.trips) : Fin 3 → Nat :=
  let c1_i32_788 : BitVec 32 := 1#32
  let v1009 : Index := Scalar.indexCast c1_i32_788
  let c6_i32_789 : BitVec 32 := 6#32
  let v1010 : Index := Scalar.indexCast c6_i32_789
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1011 : Index := Scalar.indexCast v957
  ![1, 6, v1011.toNat]

def k0_chk76 (v1008 : IVec S16 32) : Prop :=
  (∀ a x, ((![v1008] : Fin 1 → IVec S16 32) a x).toNat < S16384.size a)
instance k0_chk76.dec : ∀ (v1008 : IVec S16 32), Decidable (k0_chk76 v1008) := fun v1008 => decidable_of_iff' _ (Iff.of_eq (k0_chk76.eq_1 v1008))
theorem k0_idx76_inb : ∀ (v1008 : IVec S16 32) (k0_hw76 : k0_chk76 v1008), ∀ a x, ((![v1008] : Fin 1 → IVec S16 32) a x).toNat < S16384.size a := fun v1008 k0_hw76 => k0_hw76
def k0_off85 (k0_t4 : Fin k0_t4_loop.trips) : Fin 3 → Nat :=
  let c1_i32_790 : BitVec 32 := 1#32
  let v1015 : Index := Scalar.indexCast c1_i32_790
  let c7_i32_791 : BitVec 32 := 7#32
  let v1016 : Index := Scalar.indexCast c7_i32_791
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1017 : Index := Scalar.indexCast v957
  ![1, 7, v1017.toNat]

def k0_chk77 (v1014 : IVec S16 32) : Prop :=
  (∀ a x, ((![v1014] : Fin 1 → IVec S16 32) a x).toNat < S16384.size a)
instance k0_chk77.dec : ∀ (v1014 : IVec S16 32), Decidable (k0_chk77 v1014) := fun v1014 => decidable_of_iff' _ (Iff.of_eq (k0_chk77.eq_1 v1014))
theorem k0_idx77_inb : ∀ (v1014 : IVec S16 32) (k0_hw77 : k0_chk77 v1014), ∀ a x, ((![v1014] : Fin 1 → IVec S16 32) a x).toNat < S16384.size a := fun v1014 k0_hw77 => k0_hw77
def k0_off86 (k0_t4 : Fin k0_t4_loop.trips) : Fin 3 → Nat :=
  let c1_i32_792 : BitVec 32 := 1#32
  let v1021 : Index := Scalar.indexCast c1_i32_792
  let c8_i32_793 : BitVec 32 := 8#32
  let v1022 : Index := Scalar.indexCast c8_i32_793
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1023 : Index := Scalar.indexCast v957
  ![1, 8, v1023.toNat]

def k0_chk78 (v1020 : IVec S16 32) : Prop :=
  (∀ a x, ((![v1020] : Fin 1 → IVec S16 32) a x).toNat < S16384.size a)
instance k0_chk78.dec : ∀ (v1020 : IVec S16 32), Decidable (k0_chk78 v1020) := fun v1020 => decidable_of_iff' _ (Iff.of_eq (k0_chk78.eq_1 v1020))
theorem k0_idx78_inb : ∀ (v1020 : IVec S16 32) (k0_hw78 : k0_chk78 v1020), ∀ a x, ((![v1020] : Fin 1 → IVec S16 32) a x).toNat < S16384.size a := fun v1020 k0_hw78 => k0_hw78
def k0_off87 (k0_t4 : Fin k0_t4_loop.trips) : Fin 3 → Nat :=
  let c1_i32_794 : BitVec 32 := 1#32
  let v1027 : Index := Scalar.indexCast c1_i32_794
  let c9_i32_795 : BitVec 32 := 9#32
  let v1028 : Index := Scalar.indexCast c9_i32_795
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1029 : Index := Scalar.indexCast v957
  ![1, 9, v1029.toNat]

def k0_chk79 (v1026 : IVec S16 32) : Prop :=
  (∀ a x, ((![v1026] : Fin 1 → IVec S16 32) a x).toNat < S16384.size a)
instance k0_chk79.dec : ∀ (v1026 : IVec S16 32), Decidable (k0_chk79 v1026) := fun v1026 => decidable_of_iff' _ (Iff.of_eq (k0_chk79.eq_1 v1026))
theorem k0_idx79_inb : ∀ (v1026 : IVec S16 32) (k0_hw79 : k0_chk79 v1026), ∀ a x, ((![v1026] : Fin 1 → IVec S16 32) a x).toNat < S16384.size a := fun v1026 k0_hw79 => k0_hw79
def k0_off88 (k0_t4 : Fin k0_t4_loop.trips) : Fin 3 → Nat :=
  let c1_i32_796 : BitVec 32 := 1#32
  let v1033 : Index := Scalar.indexCast c1_i32_796
  let c10_i32_797 : BitVec 32 := 10#32
  let v1034 : Index := Scalar.indexCast c10_i32_797
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1035 : Index := Scalar.indexCast v957
  ![1, 10, v1035.toNat]

def k0_chk80 (v1032 : IVec S16 32) : Prop :=
  (∀ a x, ((![v1032] : Fin 1 → IVec S16 32) a x).toNat < S16384.size a)
instance k0_chk80.dec : ∀ (v1032 : IVec S16 32), Decidable (k0_chk80 v1032) := fun v1032 => decidable_of_iff' _ (Iff.of_eq (k0_chk80.eq_1 v1032))
theorem k0_idx80_inb : ∀ (v1032 : IVec S16 32) (k0_hw80 : k0_chk80 v1032), ∀ a x, ((![v1032] : Fin 1 → IVec S16 32) a x).toNat < S16384.size a := fun v1032 k0_hw80 => k0_hw80
def k0_off89 (k0_t4 : Fin k0_t4_loop.trips) : Fin 3 → Nat :=
  let c1_i32_798 : BitVec 32 := 1#32
  let v1039 : Index := Scalar.indexCast c1_i32_798
  let c11_i32_799 : BitVec 32 := 11#32
  let v1040 : Index := Scalar.indexCast c11_i32_799
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1041 : Index := Scalar.indexCast v957
  ![1, 11, v1041.toNat]

def k0_chk81 (v1038 : IVec S16 32) : Prop :=
  (∀ a x, ((![v1038] : Fin 1 → IVec S16 32) a x).toNat < S16384.size a)
instance k0_chk81.dec : ∀ (v1038 : IVec S16 32), Decidable (k0_chk81 v1038) := fun v1038 => decidable_of_iff' _ (Iff.of_eq (k0_chk81.eq_1 v1038))
theorem k0_idx81_inb : ∀ (v1038 : IVec S16 32) (k0_hw81 : k0_chk81 v1038), ∀ a x, ((![v1038] : Fin 1 → IVec S16 32) a x).toNat < S16384.size a := fun v1038 k0_hw81 => k0_hw81
def k0_off90 (k0_t4 : Fin k0_t4_loop.trips) : Fin 3 → Nat :=
  let c1_i32_800 : BitVec 32 := 1#32
  let v1045 : Index := Scalar.indexCast c1_i32_800
  let c12_i32_801 : BitVec 32 := 12#32
  let v1046 : Index := Scalar.indexCast c12_i32_801
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1047 : Index := Scalar.indexCast v957
  ![1, 12, v1047.toNat]

def k0_chk82 (v1044 : IVec S16 32) : Prop :=
  (∀ a x, ((![v1044] : Fin 1 → IVec S16 32) a x).toNat < S16384.size a)
instance k0_chk82.dec : ∀ (v1044 : IVec S16 32), Decidable (k0_chk82 v1044) := fun v1044 => decidable_of_iff' _ (Iff.of_eq (k0_chk82.eq_1 v1044))
theorem k0_idx82_inb : ∀ (v1044 : IVec S16 32) (k0_hw82 : k0_chk82 v1044), ∀ a x, ((![v1044] : Fin 1 → IVec S16 32) a x).toNat < S16384.size a := fun v1044 k0_hw82 => k0_hw82
def k0_off91 (k0_t4 : Fin k0_t4_loop.trips) : Fin 3 → Nat :=
  let c1_i32_802 : BitVec 32 := 1#32
  let v1051 : Index := Scalar.indexCast c1_i32_802
  let c13_i32_803 : BitVec 32 := 13#32
  let v1052 : Index := Scalar.indexCast c13_i32_803
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1053 : Index := Scalar.indexCast v957
  ![1, 13, v1053.toNat]

def k0_chk83 (v1050 : IVec S16 32) : Prop :=
  (∀ a x, ((![v1050] : Fin 1 → IVec S16 32) a x).toNat < S16384.size a)
instance k0_chk83.dec : ∀ (v1050 : IVec S16 32), Decidable (k0_chk83 v1050) := fun v1050 => decidable_of_iff' _ (Iff.of_eq (k0_chk83.eq_1 v1050))
theorem k0_idx83_inb : ∀ (v1050 : IVec S16 32) (k0_hw83 : k0_chk83 v1050), ∀ a x, ((![v1050] : Fin 1 → IVec S16 32) a x).toNat < S16384.size a := fun v1050 k0_hw83 => k0_hw83
def k0_off92 (k0_t4 : Fin k0_t4_loop.trips) : Fin 3 → Nat :=
  let c1_i32_804 : BitVec 32 := 1#32
  let v1057 : Index := Scalar.indexCast c1_i32_804
  let c14_i32_805 : BitVec 32 := 14#32
  let v1058 : Index := Scalar.indexCast c14_i32_805
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1059 : Index := Scalar.indexCast v957
  ![1, 14, v1059.toNat]

def k0_chk84 (v1056 : IVec S16 32) : Prop :=
  (∀ a x, ((![v1056] : Fin 1 → IVec S16 32) a x).toNat < S16384.size a)
instance k0_chk84.dec : ∀ (v1056 : IVec S16 32), Decidable (k0_chk84 v1056) := fun v1056 => decidable_of_iff' _ (Iff.of_eq (k0_chk84.eq_1 v1056))
theorem k0_idx84_inb : ∀ (v1056 : IVec S16 32) (k0_hw84 : k0_chk84 v1056), ∀ a x, ((![v1056] : Fin 1 → IVec S16 32) a x).toNat < S16384.size a := fun v1056 k0_hw84 => k0_hw84
def k0_off93 (k0_t4 : Fin k0_t4_loop.trips) : Fin 3 → Nat :=
  let c1_i32_806 : BitVec 32 := 1#32
  let v1063 : Index := Scalar.indexCast c1_i32_806
  let c15_i32_807 : BitVec 32 := 15#32
  let v1064 : Index := Scalar.indexCast c15_i32_807
  let c0_i32_672 : BitVec 32 := 0#32
  let c1_i32_674 : BitVec 32 := 1#32
  let arg16 : BitVec 32 := Scf.iv c0_i32_672 c1_i32_674 k0_t4
  let c4_i32_766 : BitVec 32 := 4#32
  let v955 : BitVec 32 := Scalar.muli arg16 c4_i32_766
  let c0_i32_767 : BitVec 32 := 0#32
  let v956 : BitVec 32 := Scalar.addi v955 c0_i32_767
  let c16_i32_768 : BitVec 32 := 16#32
  let v957 : BitVec 32 := Scalar.muli v956 c16_i32_768
  let v1065 : Index := Scalar.indexCast v957
  ![1, 15, v1065.toNat]

def k0_chk85 (v1062 : IVec S16 32) : Prop :=
  (∀ a x, ((![v1062] : Fin 1 → IVec S16 32) a x).toNat < S16384.size a)
instance k0_chk85.dec : ∀ (v1062 : IVec S16 32), Decidable (k0_chk85 v1062) := fun v1062 => decidable_of_iff' _ (Iff.of_eq (k0_chk85.eq_1 v1062))
theorem k0_idx85_inb : ∀ (v1062 : IVec S16 32) (k0_hw85 : k0_chk85 v1062), ∀ a x, ((![v1062] : Fin 1 → IVec S16 32) a x).toNat < S16384.size a := fun v1062 k0_hw85 => k0_hw85
def k0_off94 (k0_t4 : Fin k0_t4_loop.trips) : Fin 2 → Nat :=
  let c1_i32_811 : BitVec 32 := 1#32
  let v1070 : Index := Scalar.indexCast c1_i32_811
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1071 : Index := Scalar.indexCast v1069
  ![1, v1071.toNat]

def k0_chk86 (v1082 : IVec S16 32) : Prop :=
  (∀ a x, ((![v1082] : Fin 1 → IVec S16 32) a x).toNat < S1024.size a)
instance k0_chk86.dec : ∀ (v1082 : IVec S16 32), Decidable (k0_chk86 v1082) := fun v1082 => decidable_of_iff' _ (Iff.of_eq (k0_chk86.eq_1 v1082))
theorem k0_idx86_inb : ∀ (v1082 : IVec S16 32) (k0_hw86 : k0_chk86 v1082), ∀ a x, ((![v1082] : Fin 1 → IVec S16 32) a x).toNat < S1024.size a := fun v1082 k0_hw86 => k0_hw86
def k0_off95 (k0_t4 : Fin k0_t4_loop.trips) : Fin 3 → Nat :=
  let c1_i32_817 : BitVec 32 := 1#32
  let v1085 : Index := Scalar.indexCast c1_i32_817
  let c0_i32_818 : BitVec 32 := 0#32
  let v1086 : Index := Scalar.indexCast c0_i32_818
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1087 : Index := Scalar.indexCast v1069
  ![1, 0, v1087.toNat]

def k0_chk87 (v1084 : IVec S16 32) : Prop :=
  (∀ a x, ((![v1084] : Fin 1 → IVec S16 32) a x).toNat < S16384.size a)
instance k0_chk87.dec : ∀ (v1084 : IVec S16 32), Decidable (k0_chk87 v1084) := fun v1084 => decidable_of_iff' _ (Iff.of_eq (k0_chk87.eq_1 v1084))
theorem k0_idx87_inb : ∀ (v1084 : IVec S16 32) (k0_hw87 : k0_chk87 v1084), ∀ a x, ((![v1084] : Fin 1 → IVec S16 32) a x).toNat < S16384.size a := fun v1084 k0_hw87 => k0_hw87
def k0_off96 (k0_t4 : Fin k0_t4_loop.trips) : Fin 3 → Nat :=
  let c1_i32_820 : BitVec 32 := 1#32
  let v1091 : Index := Scalar.indexCast c1_i32_820
  let c1_i32_821 : BitVec 32 := 1#32
  let v1092 : Index := Scalar.indexCast c1_i32_821
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1093 : Index := Scalar.indexCast v1069
  ![1, 1, v1093.toNat]

def k0_chk88 (v1090 : IVec S16 32) : Prop :=
  (∀ a x, ((![v1090] : Fin 1 → IVec S16 32) a x).toNat < S16384.size a)
instance k0_chk88.dec : ∀ (v1090 : IVec S16 32), Decidable (k0_chk88 v1090) := fun v1090 => decidable_of_iff' _ (Iff.of_eq (k0_chk88.eq_1 v1090))
theorem k0_idx88_inb : ∀ (v1090 : IVec S16 32) (k0_hw88 : k0_chk88 v1090), ∀ a x, ((![v1090] : Fin 1 → IVec S16 32) a x).toNat < S16384.size a := fun v1090 k0_hw88 => k0_hw88
def k0_off97 (k0_t4 : Fin k0_t4_loop.trips) : Fin 3 → Nat :=
  let c1_i32_823 : BitVec 32 := 1#32
  let v1097 : Index := Scalar.indexCast c1_i32_823
  let c2_i32_824 : BitVec 32 := 2#32
  let v1098 : Index := Scalar.indexCast c2_i32_824
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1099 : Index := Scalar.indexCast v1069
  ![1, 2, v1099.toNat]

def k0_chk89 (v1096 : IVec S16 32) : Prop :=
  (∀ a x, ((![v1096] : Fin 1 → IVec S16 32) a x).toNat < S16384.size a)
instance k0_chk89.dec : ∀ (v1096 : IVec S16 32), Decidable (k0_chk89 v1096) := fun v1096 => decidable_of_iff' _ (Iff.of_eq (k0_chk89.eq_1 v1096))
theorem k0_idx89_inb : ∀ (v1096 : IVec S16 32) (k0_hw89 : k0_chk89 v1096), ∀ a x, ((![v1096] : Fin 1 → IVec S16 32) a x).toNat < S16384.size a := fun v1096 k0_hw89 => k0_hw89
def k0_off98 (k0_t4 : Fin k0_t4_loop.trips) : Fin 3 → Nat :=
  let c1_i32_826 : BitVec 32 := 1#32
  let v1103 : Index := Scalar.indexCast c1_i32_826
  let c3_i32_827 : BitVec 32 := 3#32
  let v1104 : Index := Scalar.indexCast c3_i32_827
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1105 : Index := Scalar.indexCast v1069
  ![1, 3, v1105.toNat]

def k0_chk90 (v1102 : IVec S16 32) : Prop :=
  (∀ a x, ((![v1102] : Fin 1 → IVec S16 32) a x).toNat < S16384.size a)
instance k0_chk90.dec : ∀ (v1102 : IVec S16 32), Decidable (k0_chk90 v1102) := fun v1102 => decidable_of_iff' _ (Iff.of_eq (k0_chk90.eq_1 v1102))
theorem k0_idx90_inb : ∀ (v1102 : IVec S16 32) (k0_hw90 : k0_chk90 v1102), ∀ a x, ((![v1102] : Fin 1 → IVec S16 32) a x).toNat < S16384.size a := fun v1102 k0_hw90 => k0_hw90
def k0_off99 (k0_t4 : Fin k0_t4_loop.trips) : Fin 3 → Nat :=
  let c1_i32_829 : BitVec 32 := 1#32
  let v1109 : Index := Scalar.indexCast c1_i32_829
  let c4_i32_830 : BitVec 32 := 4#32
  let v1110 : Index := Scalar.indexCast c4_i32_830
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1111 : Index := Scalar.indexCast v1069
  ![1, 4, v1111.toNat]

def k0_chk91 (v1108 : IVec S16 32) : Prop :=
  (∀ a x, ((![v1108] : Fin 1 → IVec S16 32) a x).toNat < S16384.size a)
instance k0_chk91.dec : ∀ (v1108 : IVec S16 32), Decidable (k0_chk91 v1108) := fun v1108 => decidable_of_iff' _ (Iff.of_eq (k0_chk91.eq_1 v1108))
theorem k0_idx91_inb : ∀ (v1108 : IVec S16 32) (k0_hw91 : k0_chk91 v1108), ∀ a x, ((![v1108] : Fin 1 → IVec S16 32) a x).toNat < S16384.size a := fun v1108 k0_hw91 => k0_hw91
def k0_off100 (k0_t4 : Fin k0_t4_loop.trips) : Fin 3 → Nat :=
  let c1_i32_832 : BitVec 32 := 1#32
  let v1115 : Index := Scalar.indexCast c1_i32_832
  let c5_i32_833 : BitVec 32 := 5#32
  let v1116 : Index := Scalar.indexCast c5_i32_833
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1117 : Index := Scalar.indexCast v1069
  ![1, 5, v1117.toNat]

def k0_chk92 (v1114 : IVec S16 32) : Prop :=
  (∀ a x, ((![v1114] : Fin 1 → IVec S16 32) a x).toNat < S16384.size a)
instance k0_chk92.dec : ∀ (v1114 : IVec S16 32), Decidable (k0_chk92 v1114) := fun v1114 => decidable_of_iff' _ (Iff.of_eq (k0_chk92.eq_1 v1114))
theorem k0_idx92_inb : ∀ (v1114 : IVec S16 32) (k0_hw92 : k0_chk92 v1114), ∀ a x, ((![v1114] : Fin 1 → IVec S16 32) a x).toNat < S16384.size a := fun v1114 k0_hw92 => k0_hw92
def k0_off101 (k0_t4 : Fin k0_t4_loop.trips) : Fin 3 → Nat :=
  let c1_i32_835 : BitVec 32 := 1#32
  let v1121 : Index := Scalar.indexCast c1_i32_835
  let c6_i32_836 : BitVec 32 := 6#32
  let v1122 : Index := Scalar.indexCast c6_i32_836
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1123 : Index := Scalar.indexCast v1069
  ![1, 6, v1123.toNat]

def k0_chk93 (v1120 : IVec S16 32) : Prop :=
  (∀ a x, ((![v1120] : Fin 1 → IVec S16 32) a x).toNat < S16384.size a)
instance k0_chk93.dec : ∀ (v1120 : IVec S16 32), Decidable (k0_chk93 v1120) := fun v1120 => decidable_of_iff' _ (Iff.of_eq (k0_chk93.eq_1 v1120))
theorem k0_idx93_inb : ∀ (v1120 : IVec S16 32) (k0_hw93 : k0_chk93 v1120), ∀ a x, ((![v1120] : Fin 1 → IVec S16 32) a x).toNat < S16384.size a := fun v1120 k0_hw93 => k0_hw93
def k0_off102 (k0_t4 : Fin k0_t4_loop.trips) : Fin 3 → Nat :=
  let c1_i32_838 : BitVec 32 := 1#32
  let v1127 : Index := Scalar.indexCast c1_i32_838
  let c7_i32_839 : BitVec 32 := 7#32
  let v1128 : Index := Scalar.indexCast c7_i32_839
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1129 : Index := Scalar.indexCast v1069
  ![1, 7, v1129.toNat]

def k0_chk94 (v1126 : IVec S16 32) : Prop :=
  (∀ a x, ((![v1126] : Fin 1 → IVec S16 32) a x).toNat < S16384.size a)
instance k0_chk94.dec : ∀ (v1126 : IVec S16 32), Decidable (k0_chk94 v1126) := fun v1126 => decidable_of_iff' _ (Iff.of_eq (k0_chk94.eq_1 v1126))
theorem k0_idx94_inb : ∀ (v1126 : IVec S16 32) (k0_hw94 : k0_chk94 v1126), ∀ a x, ((![v1126] : Fin 1 → IVec S16 32) a x).toNat < S16384.size a := fun v1126 k0_hw94 => k0_hw94
def k0_off103 (k0_t4 : Fin k0_t4_loop.trips) : Fin 3 → Nat :=
  let c1_i32_841 : BitVec 32 := 1#32
  let v1133 : Index := Scalar.indexCast c1_i32_841
  let c8_i32_842 : BitVec 32 := 8#32
  let v1134 : Index := Scalar.indexCast c8_i32_842
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1135 : Index := Scalar.indexCast v1069
  ![1, 8, v1135.toNat]

def k0_chk95 (v1132 : IVec S16 32) : Prop :=
  (∀ a x, ((![v1132] : Fin 1 → IVec S16 32) a x).toNat < S16384.size a)
instance k0_chk95.dec : ∀ (v1132 : IVec S16 32), Decidable (k0_chk95 v1132) := fun v1132 => decidable_of_iff' _ (Iff.of_eq (k0_chk95.eq_1 v1132))
theorem k0_idx95_inb : ∀ (v1132 : IVec S16 32) (k0_hw95 : k0_chk95 v1132), ∀ a x, ((![v1132] : Fin 1 → IVec S16 32) a x).toNat < S16384.size a := fun v1132 k0_hw95 => k0_hw95
def k0_off104 (k0_t4 : Fin k0_t4_loop.trips) : Fin 3 → Nat :=
  let c1_i32_844 : BitVec 32 := 1#32
  let v1139 : Index := Scalar.indexCast c1_i32_844
  let c9_i32_845 : BitVec 32 := 9#32
  let v1140 : Index := Scalar.indexCast c9_i32_845
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1141 : Index := Scalar.indexCast v1069
  ![1, 9, v1141.toNat]

def k0_chk96 (v1138 : IVec S16 32) : Prop :=
  (∀ a x, ((![v1138] : Fin 1 → IVec S16 32) a x).toNat < S16384.size a)
instance k0_chk96.dec : ∀ (v1138 : IVec S16 32), Decidable (k0_chk96 v1138) := fun v1138 => decidable_of_iff' _ (Iff.of_eq (k0_chk96.eq_1 v1138))
theorem k0_idx96_inb : ∀ (v1138 : IVec S16 32) (k0_hw96 : k0_chk96 v1138), ∀ a x, ((![v1138] : Fin 1 → IVec S16 32) a x).toNat < S16384.size a := fun v1138 k0_hw96 => k0_hw96
def k0_off105 (k0_t4 : Fin k0_t4_loop.trips) : Fin 3 → Nat :=
  let c1_i32_847 : BitVec 32 := 1#32
  let v1145 : Index := Scalar.indexCast c1_i32_847
  let c10_i32_848 : BitVec 32 := 10#32
  let v1146 : Index := Scalar.indexCast c10_i32_848
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1147 : Index := Scalar.indexCast v1069
  ![1, 10, v1147.toNat]

def k0_chk97 (v1144 : IVec S16 32) : Prop :=
  (∀ a x, ((![v1144] : Fin 1 → IVec S16 32) a x).toNat < S16384.size a)
instance k0_chk97.dec : ∀ (v1144 : IVec S16 32), Decidable (k0_chk97 v1144) := fun v1144 => decidable_of_iff' _ (Iff.of_eq (k0_chk97.eq_1 v1144))
theorem k0_idx97_inb : ∀ (v1144 : IVec S16 32) (k0_hw97 : k0_chk97 v1144), ∀ a x, ((![v1144] : Fin 1 → IVec S16 32) a x).toNat < S16384.size a := fun v1144 k0_hw97 => k0_hw97
def k0_off106 (k0_t4 : Fin k0_t4_loop.trips) : Fin 3 → Nat :=
  let c1_i32_850 : BitVec 32 := 1#32
  let v1151 : Index := Scalar.indexCast c1_i32_850
  let c11_i32_851 : BitVec 32 := 11#32
  let v1152 : Index := Scalar.indexCast c11_i32_851
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1153 : Index := Scalar.indexCast v1069
  ![1, 11, v1153.toNat]

def k0_chk98 (v1150 : IVec S16 32) : Prop :=
  (∀ a x, ((![v1150] : Fin 1 → IVec S16 32) a x).toNat < S16384.size a)
instance k0_chk98.dec : ∀ (v1150 : IVec S16 32), Decidable (k0_chk98 v1150) := fun v1150 => decidable_of_iff' _ (Iff.of_eq (k0_chk98.eq_1 v1150))
theorem k0_idx98_inb : ∀ (v1150 : IVec S16 32) (k0_hw98 : k0_chk98 v1150), ∀ a x, ((![v1150] : Fin 1 → IVec S16 32) a x).toNat < S16384.size a := fun v1150 k0_hw98 => k0_hw98
def k0_off107 (k0_t4 : Fin k0_t4_loop.trips) : Fin 3 → Nat :=
  let c1_i32_853 : BitVec 32 := 1#32
  let v1157 : Index := Scalar.indexCast c1_i32_853
  let c12_i32_854 : BitVec 32 := 12#32
  let v1158 : Index := Scalar.indexCast c12_i32_854
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1159 : Index := Scalar.indexCast v1069
  ![1, 12, v1159.toNat]

def k0_chk99 (v1156 : IVec S16 32) : Prop :=
  (∀ a x, ((![v1156] : Fin 1 → IVec S16 32) a x).toNat < S16384.size a)
instance k0_chk99.dec : ∀ (v1156 : IVec S16 32), Decidable (k0_chk99 v1156) := fun v1156 => decidable_of_iff' _ (Iff.of_eq (k0_chk99.eq_1 v1156))
theorem k0_idx99_inb : ∀ (v1156 : IVec S16 32) (k0_hw99 : k0_chk99 v1156), ∀ a x, ((![v1156] : Fin 1 → IVec S16 32) a x).toNat < S16384.size a := fun v1156 k0_hw99 => k0_hw99
def k0_off108 (k0_t4 : Fin k0_t4_loop.trips) : Fin 3 → Nat :=
  let c1_i32_856 : BitVec 32 := 1#32
  let v1163 : Index := Scalar.indexCast c1_i32_856
  let c13_i32_857 : BitVec 32 := 13#32
  let v1164 : Index := Scalar.indexCast c13_i32_857
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1165 : Index := Scalar.indexCast v1069
  ![1, 13, v1165.toNat]

def k0_chk100 (v1162 : IVec S16 32) : Prop :=
  (∀ a x, ((![v1162] : Fin 1 → IVec S16 32) a x).toNat < S16384.size a)
instance k0_chk100.dec : ∀ (v1162 : IVec S16 32), Decidable (k0_chk100 v1162) := fun v1162 => decidable_of_iff' _ (Iff.of_eq (k0_chk100.eq_1 v1162))
theorem k0_idx100_inb : ∀ (v1162 : IVec S16 32) (k0_hw100 : k0_chk100 v1162), ∀ a x, ((![v1162] : Fin 1 → IVec S16 32) a x).toNat < S16384.size a := fun v1162 k0_hw100 => k0_hw100
def k0_off109 (k0_t4 : Fin k0_t4_loop.trips) : Fin 3 → Nat :=
  let c1_i32_859 : BitVec 32 := 1#32
  let v1169 : Index := Scalar.indexCast c1_i32_859
  let c14_i32_860 : BitVec 32 := 14#32
  let v1170 : Index := Scalar.indexCast c14_i32_860
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1171 : Index := Scalar.indexCast v1069
  ![1, 14, v1171.toNat]

def k0_chk101 (v1168 : IVec S16 32) : Prop :=
  (∀ a x, ((![v1168] : Fin 1 → IVec S16 32) a x).toNat < S16384.size a)
instance k0_chk101.dec : ∀ (v1168 : IVec S16 32), Decidable (k0_chk101 v1168) := fun v1168 => decidable_of_iff' _ (Iff.of_eq (k0_chk101.eq_1 v1168))
theorem k0_idx101_inb : ∀ (v1168 : IVec S16 32) (k0_hw101 : k0_chk101 v1168), ∀ a x, ((![v1168] : Fin 1 → IVec S16 32) a x).toNat < S16384.size a := fun v1168 k0_hw101 => k0_hw101
def k0_off110 (k0_t4 : Fin k0_t4_loop.trips) : Fin 3 → Nat :=
  let c1_i32_862 : BitVec 32 := 1#32
  let v1175 : Index := Scalar.indexCast c1_i32_862
  let c15_i32_863 : BitVec 32 := 15#32
  let v1176 : Index := Scalar.indexCast c15_i32_863
  let c0_i32_672 : BitVec 32 := 0#32
  let c1_i32_674 : BitVec 32 := 1#32
  let arg16 : BitVec 32 := Scf.iv c0_i32_672 c1_i32_674 k0_t4
  let c4_i32_808 : BitVec 32 := 4#32
  let v1067 : BitVec 32 := Scalar.muli arg16 c4_i32_808
  let c1_i32_809 : BitVec 32 := 1#32
  let v1068 : BitVec 32 := Scalar.addi v1067 c1_i32_809
  let c16_i32_810 : BitVec 32 := 16#32
  let v1069 : BitVec 32 := Scalar.muli v1068 c16_i32_810
  let v1177 : Index := Scalar.indexCast v1069
  ![1, 15, v1177.toNat]

def k0_chk102 (v1174 : IVec S16 32) : Prop :=
  (∀ a x, ((![v1174] : Fin 1 → IVec S16 32) a x).toNat < S16384.size a)
instance k0_chk102.dec : ∀ (v1174 : IVec S16 32), Decidable (k0_chk102 v1174) := fun v1174 => decidable_of_iff' _ (Iff.of_eq (k0_chk102.eq_1 v1174))
theorem k0_idx102_inb : ∀ (v1174 : IVec S16 32) (k0_hw102 : k0_chk102 v1174), ∀ a x, ((![v1174] : Fin 1 → IVec S16 32) a x).toNat < S16384.size a := fun v1174 k0_hw102 => k0_hw102
def k0_off111 (k0_t4 : Fin k0_t4_loop.trips) : Fin 2 → Nat :=
  let c1_i32_867 : BitVec 32 := 1#32
  let v1182 : Index := Scalar.indexCast c1_i32_867
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1183 : Index := Scalar.indexCast v1181
  ![1, v1183.toNat]

def k0_chk103 (v1194 : IVec S16 32) : Prop :=
  (∀ a x, ((![v1194] : Fin 1 → IVec S16 32) a x).toNat < S1024.size a)
instance k0_chk103.dec : ∀ (v1194 : IVec S16 32), Decidable (k0_chk103 v1194) := fun v1194 => decidable_of_iff' _ (Iff.of_eq (k0_chk103.eq_1 v1194))
theorem k0_idx103_inb : ∀ (v1194 : IVec S16 32) (k0_hw103 : k0_chk103 v1194), ∀ a x, ((![v1194] : Fin 1 → IVec S16 32) a x).toNat < S1024.size a := fun v1194 k0_hw103 => k0_hw103
def k0_off112 (k0_t4 : Fin k0_t4_loop.trips) : Fin 3 → Nat :=
  let c1_i32_873 : BitVec 32 := 1#32
  let v1197 : Index := Scalar.indexCast c1_i32_873
  let c0_i32_874 : BitVec 32 := 0#32
  let v1198 : Index := Scalar.indexCast c0_i32_874
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1199 : Index := Scalar.indexCast v1181
  ![1, 0, v1199.toNat]

def k0_chk104 (v1196 : IVec S16 32) : Prop :=
  (∀ a x, ((![v1196] : Fin 1 → IVec S16 32) a x).toNat < S16384.size a)
instance k0_chk104.dec : ∀ (v1196 : IVec S16 32), Decidable (k0_chk104 v1196) := fun v1196 => decidable_of_iff' _ (Iff.of_eq (k0_chk104.eq_1 v1196))
theorem k0_idx104_inb : ∀ (v1196 : IVec S16 32) (k0_hw104 : k0_chk104 v1196), ∀ a x, ((![v1196] : Fin 1 → IVec S16 32) a x).toNat < S16384.size a := fun v1196 k0_hw104 => k0_hw104
def k0_off113 (k0_t4 : Fin k0_t4_loop.trips) : Fin 3 → Nat :=
  let c1_i32_876 : BitVec 32 := 1#32
  let v1203 : Index := Scalar.indexCast c1_i32_876
  let c1_i32_877 : BitVec 32 := 1#32
  let v1204 : Index := Scalar.indexCast c1_i32_877
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1205 : Index := Scalar.indexCast v1181
  ![1, 1, v1205.toNat]

def k0_chk105 (v1202 : IVec S16 32) : Prop :=
  (∀ a x, ((![v1202] : Fin 1 → IVec S16 32) a x).toNat < S16384.size a)
instance k0_chk105.dec : ∀ (v1202 : IVec S16 32), Decidable (k0_chk105 v1202) := fun v1202 => decidable_of_iff' _ (Iff.of_eq (k0_chk105.eq_1 v1202))
theorem k0_idx105_inb : ∀ (v1202 : IVec S16 32) (k0_hw105 : k0_chk105 v1202), ∀ a x, ((![v1202] : Fin 1 → IVec S16 32) a x).toNat < S16384.size a := fun v1202 k0_hw105 => k0_hw105
def k0_off114 (k0_t4 : Fin k0_t4_loop.trips) : Fin 3 → Nat :=
  let c1_i32_879 : BitVec 32 := 1#32
  let v1209 : Index := Scalar.indexCast c1_i32_879
  let c2_i32_880 : BitVec 32 := 2#32
  let v1210 : Index := Scalar.indexCast c2_i32_880
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1211 : Index := Scalar.indexCast v1181
  ![1, 2, v1211.toNat]

def k0_chk106 (v1208 : IVec S16 32) : Prop :=
  (∀ a x, ((![v1208] : Fin 1 → IVec S16 32) a x).toNat < S16384.size a)
instance k0_chk106.dec : ∀ (v1208 : IVec S16 32), Decidable (k0_chk106 v1208) := fun v1208 => decidable_of_iff' _ (Iff.of_eq (k0_chk106.eq_1 v1208))
theorem k0_idx106_inb : ∀ (v1208 : IVec S16 32) (k0_hw106 : k0_chk106 v1208), ∀ a x, ((![v1208] : Fin 1 → IVec S16 32) a x).toNat < S16384.size a := fun v1208 k0_hw106 => k0_hw106
def k0_off115 (k0_t4 : Fin k0_t4_loop.trips) : Fin 3 → Nat :=
  let c1_i32_882 : BitVec 32 := 1#32
  let v1215 : Index := Scalar.indexCast c1_i32_882
  let c3_i32_883 : BitVec 32 := 3#32
  let v1216 : Index := Scalar.indexCast c3_i32_883
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1217 : Index := Scalar.indexCast v1181
  ![1, 3, v1217.toNat]

def k0_chk107 (v1214 : IVec S16 32) : Prop :=
  (∀ a x, ((![v1214] : Fin 1 → IVec S16 32) a x).toNat < S16384.size a)
instance k0_chk107.dec : ∀ (v1214 : IVec S16 32), Decidable (k0_chk107 v1214) := fun v1214 => decidable_of_iff' _ (Iff.of_eq (k0_chk107.eq_1 v1214))
theorem k0_idx107_inb : ∀ (v1214 : IVec S16 32) (k0_hw107 : k0_chk107 v1214), ∀ a x, ((![v1214] : Fin 1 → IVec S16 32) a x).toNat < S16384.size a := fun v1214 k0_hw107 => k0_hw107
def k0_off116 (k0_t4 : Fin k0_t4_loop.trips) : Fin 3 → Nat :=
  let c1_i32_885 : BitVec 32 := 1#32
  let v1221 : Index := Scalar.indexCast c1_i32_885
  let c4_i32_886 : BitVec 32 := 4#32
  let v1222 : Index := Scalar.indexCast c4_i32_886
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1223 : Index := Scalar.indexCast v1181
  ![1, 4, v1223.toNat]

def k0_chk108 (v1220 : IVec S16 32) : Prop :=
  (∀ a x, ((![v1220] : Fin 1 → IVec S16 32) a x).toNat < S16384.size a)
instance k0_chk108.dec : ∀ (v1220 : IVec S16 32), Decidable (k0_chk108 v1220) := fun v1220 => decidable_of_iff' _ (Iff.of_eq (k0_chk108.eq_1 v1220))
theorem k0_idx108_inb : ∀ (v1220 : IVec S16 32) (k0_hw108 : k0_chk108 v1220), ∀ a x, ((![v1220] : Fin 1 → IVec S16 32) a x).toNat < S16384.size a := fun v1220 k0_hw108 => k0_hw108
def k0_off117 (k0_t4 : Fin k0_t4_loop.trips) : Fin 3 → Nat :=
  let c1_i32_888 : BitVec 32 := 1#32
  let v1227 : Index := Scalar.indexCast c1_i32_888
  let c5_i32_889 : BitVec 32 := 5#32
  let v1228 : Index := Scalar.indexCast c5_i32_889
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1229 : Index := Scalar.indexCast v1181
  ![1, 5, v1229.toNat]

def k0_chk109 (v1226 : IVec S16 32) : Prop :=
  (∀ a x, ((![v1226] : Fin 1 → IVec S16 32) a x).toNat < S16384.size a)
instance k0_chk109.dec : ∀ (v1226 : IVec S16 32), Decidable (k0_chk109 v1226) := fun v1226 => decidable_of_iff' _ (Iff.of_eq (k0_chk109.eq_1 v1226))
theorem k0_idx109_inb : ∀ (v1226 : IVec S16 32) (k0_hw109 : k0_chk109 v1226), ∀ a x, ((![v1226] : Fin 1 → IVec S16 32) a x).toNat < S16384.size a := fun v1226 k0_hw109 => k0_hw109
def k0_off118 (k0_t4 : Fin k0_t4_loop.trips) : Fin 3 → Nat :=
  let c1_i32_891 : BitVec 32 := 1#32
  let v1233 : Index := Scalar.indexCast c1_i32_891
  let c6_i32_892 : BitVec 32 := 6#32
  let v1234 : Index := Scalar.indexCast c6_i32_892
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1235 : Index := Scalar.indexCast v1181
  ![1, 6, v1235.toNat]

def k0_chk110 (v1232 : IVec S16 32) : Prop :=
  (∀ a x, ((![v1232] : Fin 1 → IVec S16 32) a x).toNat < S16384.size a)
instance k0_chk110.dec : ∀ (v1232 : IVec S16 32), Decidable (k0_chk110 v1232) := fun v1232 => decidable_of_iff' _ (Iff.of_eq (k0_chk110.eq_1 v1232))
theorem k0_idx110_inb : ∀ (v1232 : IVec S16 32) (k0_hw110 : k0_chk110 v1232), ∀ a x, ((![v1232] : Fin 1 → IVec S16 32) a x).toNat < S16384.size a := fun v1232 k0_hw110 => k0_hw110
def k0_off119 (k0_t4 : Fin k0_t4_loop.trips) : Fin 3 → Nat :=
  let c1_i32_894 : BitVec 32 := 1#32
  let v1239 : Index := Scalar.indexCast c1_i32_894
  let c7_i32_895 : BitVec 32 := 7#32
  let v1240 : Index := Scalar.indexCast c7_i32_895
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1241 : Index := Scalar.indexCast v1181
  ![1, 7, v1241.toNat]

def k0_chk111 (v1238 : IVec S16 32) : Prop :=
  (∀ a x, ((![v1238] : Fin 1 → IVec S16 32) a x).toNat < S16384.size a)
instance k0_chk111.dec : ∀ (v1238 : IVec S16 32), Decidable (k0_chk111 v1238) := fun v1238 => decidable_of_iff' _ (Iff.of_eq (k0_chk111.eq_1 v1238))
theorem k0_idx111_inb : ∀ (v1238 : IVec S16 32) (k0_hw111 : k0_chk111 v1238), ∀ a x, ((![v1238] : Fin 1 → IVec S16 32) a x).toNat < S16384.size a := fun v1238 k0_hw111 => k0_hw111
def k0_off120 (k0_t4 : Fin k0_t4_loop.trips) : Fin 3 → Nat :=
  let c1_i32_897 : BitVec 32 := 1#32
  let v1245 : Index := Scalar.indexCast c1_i32_897
  let c8_i32_898 : BitVec 32 := 8#32
  let v1246 : Index := Scalar.indexCast c8_i32_898
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1247 : Index := Scalar.indexCast v1181
  ![1, 8, v1247.toNat]

def k0_chk112 (v1244 : IVec S16 32) : Prop :=
  (∀ a x, ((![v1244] : Fin 1 → IVec S16 32) a x).toNat < S16384.size a)
instance k0_chk112.dec : ∀ (v1244 : IVec S16 32), Decidable (k0_chk112 v1244) := fun v1244 => decidable_of_iff' _ (Iff.of_eq (k0_chk112.eq_1 v1244))
theorem k0_idx112_inb : ∀ (v1244 : IVec S16 32) (k0_hw112 : k0_chk112 v1244), ∀ a x, ((![v1244] : Fin 1 → IVec S16 32) a x).toNat < S16384.size a := fun v1244 k0_hw112 => k0_hw112
def k0_off121 (k0_t4 : Fin k0_t4_loop.trips) : Fin 3 → Nat :=
  let c1_i32_900 : BitVec 32 := 1#32
  let v1251 : Index := Scalar.indexCast c1_i32_900
  let c9_i32_901 : BitVec 32 := 9#32
  let v1252 : Index := Scalar.indexCast c9_i32_901
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1253 : Index := Scalar.indexCast v1181
  ![1, 9, v1253.toNat]

def k0_chk113 (v1250 : IVec S16 32) : Prop :=
  (∀ a x, ((![v1250] : Fin 1 → IVec S16 32) a x).toNat < S16384.size a)
instance k0_chk113.dec : ∀ (v1250 : IVec S16 32), Decidable (k0_chk113 v1250) := fun v1250 => decidable_of_iff' _ (Iff.of_eq (k0_chk113.eq_1 v1250))
theorem k0_idx113_inb : ∀ (v1250 : IVec S16 32) (k0_hw113 : k0_chk113 v1250), ∀ a x, ((![v1250] : Fin 1 → IVec S16 32) a x).toNat < S16384.size a := fun v1250 k0_hw113 => k0_hw113
def k0_off122 (k0_t4 : Fin k0_t4_loop.trips) : Fin 3 → Nat :=
  let c1_i32_903 : BitVec 32 := 1#32
  let v1257 : Index := Scalar.indexCast c1_i32_903
  let c10_i32_904 : BitVec 32 := 10#32
  let v1258 : Index := Scalar.indexCast c10_i32_904
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1259 : Index := Scalar.indexCast v1181
  ![1, 10, v1259.toNat]

def k0_chk114 (v1256 : IVec S16 32) : Prop :=
  (∀ a x, ((![v1256] : Fin 1 → IVec S16 32) a x).toNat < S16384.size a)
instance k0_chk114.dec : ∀ (v1256 : IVec S16 32), Decidable (k0_chk114 v1256) := fun v1256 => decidable_of_iff' _ (Iff.of_eq (k0_chk114.eq_1 v1256))
theorem k0_idx114_inb : ∀ (v1256 : IVec S16 32) (k0_hw114 : k0_chk114 v1256), ∀ a x, ((![v1256] : Fin 1 → IVec S16 32) a x).toNat < S16384.size a := fun v1256 k0_hw114 => k0_hw114
def k0_off123 (k0_t4 : Fin k0_t4_loop.trips) : Fin 3 → Nat :=
  let c1_i32_906 : BitVec 32 := 1#32
  let v1263 : Index := Scalar.indexCast c1_i32_906
  let c11_i32_907 : BitVec 32 := 11#32
  let v1264 : Index := Scalar.indexCast c11_i32_907
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1265 : Index := Scalar.indexCast v1181
  ![1, 11, v1265.toNat]

def k0_chk115 (v1262 : IVec S16 32) : Prop :=
  (∀ a x, ((![v1262] : Fin 1 → IVec S16 32) a x).toNat < S16384.size a)
instance k0_chk115.dec : ∀ (v1262 : IVec S16 32), Decidable (k0_chk115 v1262) := fun v1262 => decidable_of_iff' _ (Iff.of_eq (k0_chk115.eq_1 v1262))
theorem k0_idx115_inb : ∀ (v1262 : IVec S16 32) (k0_hw115 : k0_chk115 v1262), ∀ a x, ((![v1262] : Fin 1 → IVec S16 32) a x).toNat < S16384.size a := fun v1262 k0_hw115 => k0_hw115
def k0_off124 (k0_t4 : Fin k0_t4_loop.trips) : Fin 3 → Nat :=
  let c1_i32_909 : BitVec 32 := 1#32
  let v1269 : Index := Scalar.indexCast c1_i32_909
  let c12_i32_910 : BitVec 32 := 12#32
  let v1270 : Index := Scalar.indexCast c12_i32_910
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1271 : Index := Scalar.indexCast v1181
  ![1, 12, v1271.toNat]

def k0_chk116 (v1268 : IVec S16 32) : Prop :=
  (∀ a x, ((![v1268] : Fin 1 → IVec S16 32) a x).toNat < S16384.size a)
instance k0_chk116.dec : ∀ (v1268 : IVec S16 32), Decidable (k0_chk116 v1268) := fun v1268 => decidable_of_iff' _ (Iff.of_eq (k0_chk116.eq_1 v1268))
theorem k0_idx116_inb : ∀ (v1268 : IVec S16 32) (k0_hw116 : k0_chk116 v1268), ∀ a x, ((![v1268] : Fin 1 → IVec S16 32) a x).toNat < S16384.size a := fun v1268 k0_hw116 => k0_hw116
def k0_off125 (k0_t4 : Fin k0_t4_loop.trips) : Fin 3 → Nat :=
  let c1_i32_912 : BitVec 32 := 1#32
  let v1275 : Index := Scalar.indexCast c1_i32_912
  let c13_i32_913 : BitVec 32 := 13#32
  let v1276 : Index := Scalar.indexCast c13_i32_913
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1277 : Index := Scalar.indexCast v1181
  ![1, 13, v1277.toNat]

def k0_chk117 (v1274 : IVec S16 32) : Prop :=
  (∀ a x, ((![v1274] : Fin 1 → IVec S16 32) a x).toNat < S16384.size a)
instance k0_chk117.dec : ∀ (v1274 : IVec S16 32), Decidable (k0_chk117 v1274) := fun v1274 => decidable_of_iff' _ (Iff.of_eq (k0_chk117.eq_1 v1274))
theorem k0_idx117_inb : ∀ (v1274 : IVec S16 32) (k0_hw117 : k0_chk117 v1274), ∀ a x, ((![v1274] : Fin 1 → IVec S16 32) a x).toNat < S16384.size a := fun v1274 k0_hw117 => k0_hw117
def k0_off126 (k0_t4 : Fin k0_t4_loop.trips) : Fin 3 → Nat :=
  let c1_i32_915 : BitVec 32 := 1#32
  let v1281 : Index := Scalar.indexCast c1_i32_915
  let c14_i32_916 : BitVec 32 := 14#32
  let v1282 : Index := Scalar.indexCast c14_i32_916
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1283 : Index := Scalar.indexCast v1181
  ![1, 14, v1283.toNat]

def k0_chk118 (v1280 : IVec S16 32) : Prop :=
  (∀ a x, ((![v1280] : Fin 1 → IVec S16 32) a x).toNat < S16384.size a)
instance k0_chk118.dec : ∀ (v1280 : IVec S16 32), Decidable (k0_chk118 v1280) := fun v1280 => decidable_of_iff' _ (Iff.of_eq (k0_chk118.eq_1 v1280))
theorem k0_idx118_inb : ∀ (v1280 : IVec S16 32) (k0_hw118 : k0_chk118 v1280), ∀ a x, ((![v1280] : Fin 1 → IVec S16 32) a x).toNat < S16384.size a := fun v1280 k0_hw118 => k0_hw118
def k0_off127 (k0_t4 : Fin k0_t4_loop.trips) : Fin 3 → Nat :=
  let c1_i32_918 : BitVec 32 := 1#32
  let v1287 : Index := Scalar.indexCast c1_i32_918
  let c15_i32_919 : BitVec 32 := 15#32
  let v1288 : Index := Scalar.indexCast c15_i32_919
  let c0_i32_672 : BitVec 32 := 0#32
  let c1_i32_674 : BitVec 32 := 1#32
  let arg16 : BitVec 32 := Scf.iv c0_i32_672 c1_i32_674 k0_t4
  let c4_i32_864 : BitVec 32 := 4#32
  let v1179 : BitVec 32 := Scalar.muli arg16 c4_i32_864
  let c2_i32_865 : BitVec 32 := 2#32
  let v1180 : BitVec 32 := Scalar.addi v1179 c2_i32_865
  let c16_i32_866 : BitVec 32 := 16#32
  let v1181 : BitVec 32 := Scalar.muli v1180 c16_i32_866
  let v1289 : Index := Scalar.indexCast v1181
  ![1, 15, v1289.toNat]

def k0_chk119 (v1286 : IVec S16 32) : Prop :=
  (∀ a x, ((![v1286] : Fin 1 → IVec S16 32) a x).toNat < S16384.size a)
instance k0_chk119.dec : ∀ (v1286 : IVec S16 32), Decidable (k0_chk119 v1286) := fun v1286 => decidable_of_iff' _ (Iff.of_eq (k0_chk119.eq_1 v1286))
theorem k0_idx119_inb : ∀ (v1286 : IVec S16 32) (k0_hw119 : k0_chk119 v1286), ∀ a x, ((![v1286] : Fin 1 → IVec S16 32) a x).toNat < S16384.size a := fun v1286 k0_hw119 => k0_hw119
def k0_off128 (k0_t4 : Fin k0_t4_loop.trips) : Fin 2 → Nat :=
  let c1_i32_923 : BitVec 32 := 1#32
  let v1294 : Index := Scalar.indexCast c1_i32_923
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1295 : Index := Scalar.indexCast v1293
  ![1, v1295.toNat]

def k0_chk120 (v1306 : IVec S16 32) : Prop :=
  (∀ a x, ((![v1306] : Fin 1 → IVec S16 32) a x).toNat < S1024.size a)
instance k0_chk120.dec : ∀ (v1306 : IVec S16 32), Decidable (k0_chk120 v1306) := fun v1306 => decidable_of_iff' _ (Iff.of_eq (k0_chk120.eq_1 v1306))
theorem k0_idx120_inb : ∀ (v1306 : IVec S16 32) (k0_hw120 : k0_chk120 v1306), ∀ a x, ((![v1306] : Fin 1 → IVec S16 32) a x).toNat < S1024.size a := fun v1306 k0_hw120 => k0_hw120
def k0_off129 (k0_t4 : Fin k0_t4_loop.trips) : Fin 3 → Nat :=
  let c1_i32_929 : BitVec 32 := 1#32
  let v1309 : Index := Scalar.indexCast c1_i32_929
  let c0_i32_930 : BitVec 32 := 0#32
  let v1310 : Index := Scalar.indexCast c0_i32_930
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1311 : Index := Scalar.indexCast v1293
  ![1, 0, v1311.toNat]

def k0_chk121 (v1308 : IVec S16 32) : Prop :=
  (∀ a x, ((![v1308] : Fin 1 → IVec S16 32) a x).toNat < S16384.size a)
instance k0_chk121.dec : ∀ (v1308 : IVec S16 32), Decidable (k0_chk121 v1308) := fun v1308 => decidable_of_iff' _ (Iff.of_eq (k0_chk121.eq_1 v1308))
theorem k0_idx121_inb : ∀ (v1308 : IVec S16 32) (k0_hw121 : k0_chk121 v1308), ∀ a x, ((![v1308] : Fin 1 → IVec S16 32) a x).toNat < S16384.size a := fun v1308 k0_hw121 => k0_hw121
def k0_off130 (k0_t4 : Fin k0_t4_loop.trips) : Fin 3 → Nat :=
  let c1_i32_932 : BitVec 32 := 1#32
  let v1315 : Index := Scalar.indexCast c1_i32_932
  let c1_i32_933 : BitVec 32 := 1#32
  let v1316 : Index := Scalar.indexCast c1_i32_933
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1317 : Index := Scalar.indexCast v1293
  ![1, 1, v1317.toNat]

def k0_chk122 (v1314 : IVec S16 32) : Prop :=
  (∀ a x, ((![v1314] : Fin 1 → IVec S16 32) a x).toNat < S16384.size a)
instance k0_chk122.dec : ∀ (v1314 : IVec S16 32), Decidable (k0_chk122 v1314) := fun v1314 => decidable_of_iff' _ (Iff.of_eq (k0_chk122.eq_1 v1314))
theorem k0_idx122_inb : ∀ (v1314 : IVec S16 32) (k0_hw122 : k0_chk122 v1314), ∀ a x, ((![v1314] : Fin 1 → IVec S16 32) a x).toNat < S16384.size a := fun v1314 k0_hw122 => k0_hw122
def k0_off131 (k0_t4 : Fin k0_t4_loop.trips) : Fin 3 → Nat :=
  let c1_i32_935 : BitVec 32 := 1#32
  let v1321 : Index := Scalar.indexCast c1_i32_935
  let c2_i32_936 : BitVec 32 := 2#32
  let v1322 : Index := Scalar.indexCast c2_i32_936
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1323 : Index := Scalar.indexCast v1293
  ![1, 2, v1323.toNat]

def k0_chk123 (v1320 : IVec S16 32) : Prop :=
  (∀ a x, ((![v1320] : Fin 1 → IVec S16 32) a x).toNat < S16384.size a)
instance k0_chk123.dec : ∀ (v1320 : IVec S16 32), Decidable (k0_chk123 v1320) := fun v1320 => decidable_of_iff' _ (Iff.of_eq (k0_chk123.eq_1 v1320))
theorem k0_idx123_inb : ∀ (v1320 : IVec S16 32) (k0_hw123 : k0_chk123 v1320), ∀ a x, ((![v1320] : Fin 1 → IVec S16 32) a x).toNat < S16384.size a := fun v1320 k0_hw123 => k0_hw123
def k0_off132 (k0_t4 : Fin k0_t4_loop.trips) : Fin 3 → Nat :=
  let c1_i32_938 : BitVec 32 := 1#32
  let v1327 : Index := Scalar.indexCast c1_i32_938
  let c3_i32_939 : BitVec 32 := 3#32
  let v1328 : Index := Scalar.indexCast c3_i32_939
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1329 : Index := Scalar.indexCast v1293
  ![1, 3, v1329.toNat]

def k0_chk124 (v1326 : IVec S16 32) : Prop :=
  (∀ a x, ((![v1326] : Fin 1 → IVec S16 32) a x).toNat < S16384.size a)
instance k0_chk124.dec : ∀ (v1326 : IVec S16 32), Decidable (k0_chk124 v1326) := fun v1326 => decidable_of_iff' _ (Iff.of_eq (k0_chk124.eq_1 v1326))
theorem k0_idx124_inb : ∀ (v1326 : IVec S16 32) (k0_hw124 : k0_chk124 v1326), ∀ a x, ((![v1326] : Fin 1 → IVec S16 32) a x).toNat < S16384.size a := fun v1326 k0_hw124 => k0_hw124
def k0_off133 (k0_t4 : Fin k0_t4_loop.trips) : Fin 3 → Nat :=
  let c1_i32_941 : BitVec 32 := 1#32
  let v1333 : Index := Scalar.indexCast c1_i32_941
  let c4_i32_942 : BitVec 32 := 4#32
  let v1334 : Index := Scalar.indexCast c4_i32_942
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1335 : Index := Scalar.indexCast v1293
  ![1, 4, v1335.toNat]

def k0_chk125 (v1332 : IVec S16 32) : Prop :=
  (∀ a x, ((![v1332] : Fin 1 → IVec S16 32) a x).toNat < S16384.size a)
instance k0_chk125.dec : ∀ (v1332 : IVec S16 32), Decidable (k0_chk125 v1332) := fun v1332 => decidable_of_iff' _ (Iff.of_eq (k0_chk125.eq_1 v1332))
theorem k0_idx125_inb : ∀ (v1332 : IVec S16 32) (k0_hw125 : k0_chk125 v1332), ∀ a x, ((![v1332] : Fin 1 → IVec S16 32) a x).toNat < S16384.size a := fun v1332 k0_hw125 => k0_hw125
def k0_off134 (k0_t4 : Fin k0_t4_loop.trips) : Fin 3 → Nat :=
  let c1_i32_944 : BitVec 32 := 1#32
  let v1339 : Index := Scalar.indexCast c1_i32_944
  let c5_i32_945 : BitVec 32 := 5#32
  let v1340 : Index := Scalar.indexCast c5_i32_945
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1341 : Index := Scalar.indexCast v1293
  ![1, 5, v1341.toNat]

def k0_chk126 (v1338 : IVec S16 32) : Prop :=
  (∀ a x, ((![v1338] : Fin 1 → IVec S16 32) a x).toNat < S16384.size a)
instance k0_chk126.dec : ∀ (v1338 : IVec S16 32), Decidable (k0_chk126 v1338) := fun v1338 => decidable_of_iff' _ (Iff.of_eq (k0_chk126.eq_1 v1338))
theorem k0_idx126_inb : ∀ (v1338 : IVec S16 32) (k0_hw126 : k0_chk126 v1338), ∀ a x, ((![v1338] : Fin 1 → IVec S16 32) a x).toNat < S16384.size a := fun v1338 k0_hw126 => k0_hw126
def k0_off135 (k0_t4 : Fin k0_t4_loop.trips) : Fin 3 → Nat :=
  let c1_i32_947 : BitVec 32 := 1#32
  let v1345 : Index := Scalar.indexCast c1_i32_947
  let c6_i32_948 : BitVec 32 := 6#32
  let v1346 : Index := Scalar.indexCast c6_i32_948
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1347 : Index := Scalar.indexCast v1293
  ![1, 6, v1347.toNat]

def k0_chk127 (v1344 : IVec S16 32) : Prop :=
  (∀ a x, ((![v1344] : Fin 1 → IVec S16 32) a x).toNat < S16384.size a)
instance k0_chk127.dec : ∀ (v1344 : IVec S16 32), Decidable (k0_chk127 v1344) := fun v1344 => decidable_of_iff' _ (Iff.of_eq (k0_chk127.eq_1 v1344))
theorem k0_idx127_inb : ∀ (v1344 : IVec S16 32) (k0_hw127 : k0_chk127 v1344), ∀ a x, ((![v1344] : Fin 1 → IVec S16 32) a x).toNat < S16384.size a := fun v1344 k0_hw127 => k0_hw127
def k0_off136 (k0_t4 : Fin k0_t4_loop.trips) : Fin 3 → Nat :=
  let c1_i32_950 : BitVec 32 := 1#32
  let v1351 : Index := Scalar.indexCast c1_i32_950
  let c7_i32_951 : BitVec 32 := 7#32
  let v1352 : Index := Scalar.indexCast c7_i32_951
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1353 : Index := Scalar.indexCast v1293
  ![1, 7, v1353.toNat]

def k0_chk128 (v1350 : IVec S16 32) : Prop :=
  (∀ a x, ((![v1350] : Fin 1 → IVec S16 32) a x).toNat < S16384.size a)
instance k0_chk128.dec : ∀ (v1350 : IVec S16 32), Decidable (k0_chk128 v1350) := fun v1350 => decidable_of_iff' _ (Iff.of_eq (k0_chk128.eq_1 v1350))
theorem k0_idx128_inb : ∀ (v1350 : IVec S16 32) (k0_hw128 : k0_chk128 v1350), ∀ a x, ((![v1350] : Fin 1 → IVec S16 32) a x).toNat < S16384.size a := fun v1350 k0_hw128 => k0_hw128
def k0_off137 (k0_t4 : Fin k0_t4_loop.trips) : Fin 3 → Nat :=
  let c1_i32_953 : BitVec 32 := 1#32
  let v1357 : Index := Scalar.indexCast c1_i32_953
  let c8_i32_954 : BitVec 32 := 8#32
  let v1358 : Index := Scalar.indexCast c8_i32_954
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1359 : Index := Scalar.indexCast v1293
  ![1, 8, v1359.toNat]

def k0_chk129 (v1356 : IVec S16 32) : Prop :=
  (∀ a x, ((![v1356] : Fin 1 → IVec S16 32) a x).toNat < S16384.size a)
instance k0_chk129.dec : ∀ (v1356 : IVec S16 32), Decidable (k0_chk129 v1356) := fun v1356 => decidable_of_iff' _ (Iff.of_eq (k0_chk129.eq_1 v1356))
theorem k0_idx129_inb : ∀ (v1356 : IVec S16 32) (k0_hw129 : k0_chk129 v1356), ∀ a x, ((![v1356] : Fin 1 → IVec S16 32) a x).toNat < S16384.size a := fun v1356 k0_hw129 => k0_hw129
def k0_off138 (k0_t4 : Fin k0_t4_loop.trips) : Fin 3 → Nat :=
  let c1_i32_956 : BitVec 32 := 1#32
  let v1363 : Index := Scalar.indexCast c1_i32_956
  let c9_i32_957 : BitVec 32 := 9#32
  let v1364 : Index := Scalar.indexCast c9_i32_957
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1365 : Index := Scalar.indexCast v1293
  ![1, 9, v1365.toNat]

def k0_chk130 (v1362 : IVec S16 32) : Prop :=
  (∀ a x, ((![v1362] : Fin 1 → IVec S16 32) a x).toNat < S16384.size a)
instance k0_chk130.dec : ∀ (v1362 : IVec S16 32), Decidable (k0_chk130 v1362) := fun v1362 => decidable_of_iff' _ (Iff.of_eq (k0_chk130.eq_1 v1362))
theorem k0_idx130_inb : ∀ (v1362 : IVec S16 32) (k0_hw130 : k0_chk130 v1362), ∀ a x, ((![v1362] : Fin 1 → IVec S16 32) a x).toNat < S16384.size a := fun v1362 k0_hw130 => k0_hw130
def k0_off139 (k0_t4 : Fin k0_t4_loop.trips) : Fin 3 → Nat :=
  let c1_i32_959 : BitVec 32 := 1#32
  let v1369 : Index := Scalar.indexCast c1_i32_959
  let c10_i32_960 : BitVec 32 := 10#32
  let v1370 : Index := Scalar.indexCast c10_i32_960
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1371 : Index := Scalar.indexCast v1293
  ![1, 10, v1371.toNat]

def k0_chk131 (v1368 : IVec S16 32) : Prop :=
  (∀ a x, ((![v1368] : Fin 1 → IVec S16 32) a x).toNat < S16384.size a)
instance k0_chk131.dec : ∀ (v1368 : IVec S16 32), Decidable (k0_chk131 v1368) := fun v1368 => decidable_of_iff' _ (Iff.of_eq (k0_chk131.eq_1 v1368))
theorem k0_idx131_inb : ∀ (v1368 : IVec S16 32) (k0_hw131 : k0_chk131 v1368), ∀ a x, ((![v1368] : Fin 1 → IVec S16 32) a x).toNat < S16384.size a := fun v1368 k0_hw131 => k0_hw131
def k0_off140 (k0_t4 : Fin k0_t4_loop.trips) : Fin 3 → Nat :=
  let c1_i32_962 : BitVec 32 := 1#32
  let v1375 : Index := Scalar.indexCast c1_i32_962
  let c11_i32_963 : BitVec 32 := 11#32
  let v1376 : Index := Scalar.indexCast c11_i32_963
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1377 : Index := Scalar.indexCast v1293
  ![1, 11, v1377.toNat]

def k0_chk132 (v1374 : IVec S16 32) : Prop :=
  (∀ a x, ((![v1374] : Fin 1 → IVec S16 32) a x).toNat < S16384.size a)
instance k0_chk132.dec : ∀ (v1374 : IVec S16 32), Decidable (k0_chk132 v1374) := fun v1374 => decidable_of_iff' _ (Iff.of_eq (k0_chk132.eq_1 v1374))
theorem k0_idx132_inb : ∀ (v1374 : IVec S16 32) (k0_hw132 : k0_chk132 v1374), ∀ a x, ((![v1374] : Fin 1 → IVec S16 32) a x).toNat < S16384.size a := fun v1374 k0_hw132 => k0_hw132
def k0_off141 (k0_t4 : Fin k0_t4_loop.trips) : Fin 3 → Nat :=
  let c1_i32_965 : BitVec 32 := 1#32
  let v1381 : Index := Scalar.indexCast c1_i32_965
  let c12_i32_966 : BitVec 32 := 12#32
  let v1382 : Index := Scalar.indexCast c12_i32_966
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1383 : Index := Scalar.indexCast v1293
  ![1, 12, v1383.toNat]

def k0_chk133 (v1380 : IVec S16 32) : Prop :=
  (∀ a x, ((![v1380] : Fin 1 → IVec S16 32) a x).toNat < S16384.size a)
instance k0_chk133.dec : ∀ (v1380 : IVec S16 32), Decidable (k0_chk133 v1380) := fun v1380 => decidable_of_iff' _ (Iff.of_eq (k0_chk133.eq_1 v1380))
theorem k0_idx133_inb : ∀ (v1380 : IVec S16 32) (k0_hw133 : k0_chk133 v1380), ∀ a x, ((![v1380] : Fin 1 → IVec S16 32) a x).toNat < S16384.size a := fun v1380 k0_hw133 => k0_hw133
def k0_off142 (k0_t4 : Fin k0_t4_loop.trips) : Fin 3 → Nat :=
  let c1_i32_968 : BitVec 32 := 1#32
  let v1387 : Index := Scalar.indexCast c1_i32_968
  let c13_i32_969 : BitVec 32 := 13#32
  let v1388 : Index := Scalar.indexCast c13_i32_969
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1389 : Index := Scalar.indexCast v1293
  ![1, 13, v1389.toNat]

def k0_chk134 (v1386 : IVec S16 32) : Prop :=
  (∀ a x, ((![v1386] : Fin 1 → IVec S16 32) a x).toNat < S16384.size a)
instance k0_chk134.dec : ∀ (v1386 : IVec S16 32), Decidable (k0_chk134 v1386) := fun v1386 => decidable_of_iff' _ (Iff.of_eq (k0_chk134.eq_1 v1386))
theorem k0_idx134_inb : ∀ (v1386 : IVec S16 32) (k0_hw134 : k0_chk134 v1386), ∀ a x, ((![v1386] : Fin 1 → IVec S16 32) a x).toNat < S16384.size a := fun v1386 k0_hw134 => k0_hw134
def k0_off143 (k0_t4 : Fin k0_t4_loop.trips) : Fin 3 → Nat :=
  let c1_i32_971 : BitVec 32 := 1#32
  let v1393 : Index := Scalar.indexCast c1_i32_971
  let c14_i32_972 : BitVec 32 := 14#32
  let v1394 : Index := Scalar.indexCast c14_i32_972
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1395 : Index := Scalar.indexCast v1293
  ![1, 14, v1395.toNat]

def k0_chk135 (v1392 : IVec S16 32) : Prop :=
  (∀ a x, ((![v1392] : Fin 1 → IVec S16 32) a x).toNat < S16384.size a)
instance k0_chk135.dec : ∀ (v1392 : IVec S16 32), Decidable (k0_chk135 v1392) := fun v1392 => decidable_of_iff' _ (Iff.of_eq (k0_chk135.eq_1 v1392))
theorem k0_idx135_inb : ∀ (v1392 : IVec S16 32) (k0_hw135 : k0_chk135 v1392), ∀ a x, ((![v1392] : Fin 1 → IVec S16 32) a x).toNat < S16384.size a := fun v1392 k0_hw135 => k0_hw135
def k0_off144 (k0_t4 : Fin k0_t4_loop.trips) : Fin 3 → Nat :=
  let c1_i32_974 : BitVec 32 := 1#32
  let v1399 : Index := Scalar.indexCast c1_i32_974
  let c15_i32_975 : BitVec 32 := 15#32
  let v1400 : Index := Scalar.indexCast c15_i32_975
  let c0_i32_672 : BitVec 32 := 0#32
  let c1_i32_674 : BitVec 32 := 1#32
  let arg16 : BitVec 32 := Scf.iv c0_i32_672 c1_i32_674 k0_t4
  let c4_i32_920 : BitVec 32 := 4#32
  let v1291 : BitVec 32 := Scalar.muli arg16 c4_i32_920
  let c3_i32_921 : BitVec 32 := 3#32
  let v1292 : BitVec 32 := Scalar.addi v1291 c3_i32_921
  let c16_i32_922 : BitVec 32 := 16#32
  let v1293 : BitVec 32 := Scalar.muli v1292 c16_i32_922
  let v1401 : Index := Scalar.indexCast v1293
  ![1, 15, v1401.toNat]

def k0_chk136 (v1398 : IVec S16 32) : Prop :=
  (∀ a x, ((![v1398] : Fin 1 → IVec S16 32) a x).toNat < S16384.size a)
instance k0_chk136.dec : ∀ (v1398 : IVec S16 32), Decidable (k0_chk136 v1398) := fun v1398 => decidable_of_iff' _ (Iff.of_eq (k0_chk136.eq_1 v1398))
theorem k0_idx136_inb : ∀ (v1398 : IVec S16 32) (k0_hw136 : k0_chk136 v1398), ∀ a x, ((![v1398] : Fin 1 → IVec S16 32) a x).toNat < S16384.size a := fun v1398 k0_hw136 => k0_hw136
def k0_off145 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_363_r0 : BitVec 32 := 0#32
  ![v1.toNat, 0]
def k0_off146 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_363_r1 : BitVec 32 := 0#32
  ![v1.toNat, 0]
abbrev grid1 : Pipeline.Grid := .none

abbrev stage1_0 : Fin 1 → Memref sig .tc .vmem S32x16384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨2, ![2, 16], ![false, false]⟩

@[reducible] def k2_t1_loop : Scf.Loop 32 :=
  let c0_i32_0 : BitVec 32 := 0#32
  let c64_i32 : BitVec 32 := 64#32
  let v5 : BitVec 32 := Scalar.addi c0_i32_0 c64_i32
  let c1_i32 : BitVec 32 := 1#32
  ⟨c0_i32_0, v5, c1_i32⟩
def k2_off1 (k2_t1 : Fin k2_t1_loop.trips) : Fin 1 → Nat :=
  let c0_i32_0 : BitVec 32 := 0#32
  let c1_i32 : BitVec 32 := 1#32
  let arg14 : BitVec 32 := Scf.iv c0_i32_0 c1_i32 k2_t1
  let c16_i32_362 : BitVec 32 := 16#32
  let v474 : BitVec 32 := Scalar.muli arg14 c16_i32_362
  let v475 : Index := Scalar.indexCast v474
  ![v475.toNat]
def k2_off2 (i : grid2.Coords) (c0_i32_2 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v7 : BitVec 32 := Scalar.addi c0_i32_2 v2
  ![v7.toNat]
def k2_off3 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![v2.toNat]
def k2_off4 (i : grid2.Coords) (c0_i32_60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2048_i32 : BitVec 32 := 2048#32
  let v131 : BitVec 32 := Scalar.addi v2 c2048_i32
  let v132 : BitVec 32 := Scalar.addi c0_i32_60 v131
  ![v132.toNat]
def k2_off5 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2048_i32 : BitVec 32 := 2048#32
  let v131 : BitVec 32 := Scalar.addi v2 c2048_i32
  ![v131.toNat]
@[reducible] def k2_t2_loop : Scf.Loop 32 :=
  let c0_i32_147 : BitVec 32 := 0#32
  let c16_i32 : BitVec 32 := 16#32
  let v256 : BitVec 32 := Scalar.addi c0_i32_147 c16_i32
  let c1_i32_148 : BitVec 32 := 1#32
  ⟨c0_i32_147, v256, c1_i32_148⟩
@[reducible] def k2_t3_loop : Scf.Loop 32 :=
  let c0_i32_471 : BitVec 32 := 0#32
  let c64_i32_472 : BitVec 32 := 64#32
  let v584 : BitVec 32 := Scalar.addi c0_i32_471 c64_i32_472
  let c1_i32_473 : BitVec 32 := 1#32
  ⟨c0_i32_471, v584, c1_i32_473⟩
def k2_off6 (k2_t3 : Fin k2_t3_loop.trips) : Fin 2 → Nat :=
  let c0_i32_769 : BitVec 32 := 0#32
  let v957 : Index := Scalar.indexCast c0_i32_769
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v958 : Index := Scalar.indexCast v956
  ![0, v958.toNat]
def k2_off7 (k2_t3 : Fin k2_t3_loop.trips) : Fin 3 → Nat :=
  let c0_i32_774 : BitVec 32 := 0#32
  let v970 : Index := Scalar.indexCast c0_i32_774
  let c0_i32_775 : BitVec 32 := 0#32
  let v971 : Index := Scalar.indexCast c0_i32_775
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v972 : Index := Scalar.indexCast v956
  ![0, 0, v972.toNat]

def k2_chk1 (v975 : IVec S16 32) : Prop :=
  (∀ a x, ((![v975] : Fin 1 → IVec S16 32) a x).toNat < S16384.size a)
instance k2_chk1.dec : ∀ (v975 : IVec S16 32), Decidable (k2_chk1 v975) := fun v975 => decidable_of_iff' _ (Iff.of_eq (k2_chk1.eq_1 v975))
theorem k2_idx1_inb : ∀ (v975 : IVec S16 32) (k2_hw1 : k2_chk1 v975), ∀ a x, ((![v975] : Fin 1 → IVec S16 32) a x).toNat < S16384.size a := fun v975 k2_hw1 => k2_hw1
def k2_off8 (k2_t3 : Fin k2_t3_loop.trips) : Fin 3 → Nat :=
  let c0_i32_777 : BitVec 32 := 0#32
  let v979 : Index := Scalar.indexCast c0_i32_777
  let c1_i32_778 : BitVec 32 := 1#32
  let v980 : Index := Scalar.indexCast c1_i32_778
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v981 : Index := Scalar.indexCast v956
  ![0, 1, v981.toNat]

def k2_chk2 (v984 : IVec S16 32) : Prop :=
  (∀ a x, ((![v984] : Fin 1 → IVec S16 32) a x).toNat < S16384.size a)
instance k2_chk2.dec : ∀ (v984 : IVec S16 32), Decidable (k2_chk2 v984) := fun v984 => decidable_of_iff' _ (Iff.of_eq (k2_chk2.eq_1 v984))
theorem k2_idx2_inb : ∀ (v984 : IVec S16 32) (k2_hw2 : k2_chk2 v984), ∀ a x, ((![v984] : Fin 1 → IVec S16 32) a x).toNat < S16384.size a := fun v984 k2_hw2 => k2_hw2
def k2_off9 (k2_t3 : Fin k2_t3_loop.trips) : Fin 3 → Nat :=
  let c0_i32_779 : BitVec 32 := 0#32
  let v988 : Index := Scalar.indexCast c0_i32_779
  let c2_i32_780 : BitVec 32 := 2#32
  let v989 : Index := Scalar.indexCast c2_i32_780
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v990 : Index := Scalar.indexCast v956
  ![0, 2, v990.toNat]

def k2_chk3 (v993 : IVec S16 32) : Prop :=
  (∀ a x, ((![v993] : Fin 1 → IVec S16 32) a x).toNat < S16384.size a)
instance k2_chk3.dec : ∀ (v993 : IVec S16 32), Decidable (k2_chk3 v993) := fun v993 => decidable_of_iff' _ (Iff.of_eq (k2_chk3.eq_1 v993))
theorem k2_idx3_inb : ∀ (v993 : IVec S16 32) (k2_hw3 : k2_chk3 v993), ∀ a x, ((![v993] : Fin 1 → IVec S16 32) a x).toNat < S16384.size a := fun v993 k2_hw3 => k2_hw3
def k2_off10 (k2_t3 : Fin k2_t3_loop.trips) : Fin 3 → Nat :=
  let c0_i32_782 : BitVec 32 := 0#32
  let v997 : Index := Scalar.indexCast c0_i32_782
  let c3_i32_783 : BitVec 32 := 3#32
  let v998 : Index := Scalar.indexCast c3_i32_783
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v999 : Index := Scalar.indexCast v956
  ![0, 3, v999.toNat]

def k2_chk4 (v1002 : IVec S16 32) : Prop :=
  (∀ a x, ((![v1002] : Fin 1 → IVec S16 32) a x).toNat < S16384.size a)
instance k2_chk4.dec : ∀ (v1002 : IVec S16 32), Decidable (k2_chk4 v1002) := fun v1002 => decidable_of_iff' _ (Iff.of_eq (k2_chk4.eq_1 v1002))
theorem k2_idx4_inb : ∀ (v1002 : IVec S16 32) (k2_hw4 : k2_chk4 v1002), ∀ a x, ((![v1002] : Fin 1 → IVec S16 32) a x).toNat < S16384.size a := fun v1002 k2_hw4 => k2_hw4
def k2_off11 (k2_t3 : Fin k2_t3_loop.trips) : Fin 3 → Nat :=
  let c0_i32_784 : BitVec 32 := 0#32
  let v1006 : Index := Scalar.indexCast c0_i32_784
  let c4_i32_785 : BitVec 32 := 4#32
  let v1007 : Index := Scalar.indexCast c4_i32_785
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1008 : Index := Scalar.indexCast v956
  ![0, 4, v1008.toNat]

def k2_chk5 (v1011 : IVec S16 32) : Prop :=
  (∀ a x, ((![v1011] : Fin 1 → IVec S16 32) a x).toNat < S16384.size a)
instance k2_chk5.dec : ∀ (v1011 : IVec S16 32), Decidable (k2_chk5 v1011) := fun v1011 => decidable_of_iff' _ (Iff.of_eq (k2_chk5.eq_1 v1011))
theorem k2_idx5_inb : ∀ (v1011 : IVec S16 32) (k2_hw5 : k2_chk5 v1011), ∀ a x, ((![v1011] : Fin 1 → IVec S16 32) a x).toNat < S16384.size a := fun v1011 k2_hw5 => k2_hw5
def k2_off12 (k2_t3 : Fin k2_t3_loop.trips) : Fin 3 → Nat :=
  let c0_i32_786 : BitVec 32 := 0#32
  let v1015 : Index := Scalar.indexCast c0_i32_786
  let c5_i32_787 : BitVec 32 := 5#32
  let v1016 : Index := Scalar.indexCast c5_i32_787
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1017 : Index := Scalar.indexCast v956
  ![0, 5, v1017.toNat]

def k2_chk6 (v1020 : IVec S16 32) : Prop :=
  (∀ a x, ((![v1020] : Fin 1 → IVec S16 32) a x).toNat < S16384.size a)
instance k2_chk6.dec : ∀ (v1020 : IVec S16 32), Decidable (k2_chk6 v1020) := fun v1020 => decidable_of_iff' _ (Iff.of_eq (k2_chk6.eq_1 v1020))
theorem k2_idx6_inb : ∀ (v1020 : IVec S16 32) (k2_hw6 : k2_chk6 v1020), ∀ a x, ((![v1020] : Fin 1 → IVec S16 32) a x).toNat < S16384.size a := fun v1020 k2_hw6 => k2_hw6
def k2_off13 (k2_t3 : Fin k2_t3_loop.trips) : Fin 3 → Nat :=
  let c0_i32_788 : BitVec 32 := 0#32
  let v1024 : Index := Scalar.indexCast c0_i32_788
  let c6_i32_789 : BitVec 32 := 6#32
  let v1025 : Index := Scalar.indexCast c6_i32_789
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1026 : Index := Scalar.indexCast v956
  ![0, 6, v1026.toNat]

def k2_chk7 (v1029 : IVec S16 32) : Prop :=
  (∀ a x, ((![v1029] : Fin 1 → IVec S16 32) a x).toNat < S16384.size a)
instance k2_chk7.dec : ∀ (v1029 : IVec S16 32), Decidable (k2_chk7 v1029) := fun v1029 => decidable_of_iff' _ (Iff.of_eq (k2_chk7.eq_1 v1029))
theorem k2_idx7_inb : ∀ (v1029 : IVec S16 32) (k2_hw7 : k2_chk7 v1029), ∀ a x, ((![v1029] : Fin 1 → IVec S16 32) a x).toNat < S16384.size a := fun v1029 k2_hw7 => k2_hw7
def k2_off14 (k2_t3 : Fin k2_t3_loop.trips) : Fin 3 → Nat :=
  let c0_i32_790 : BitVec 32 := 0#32
  let v1033 : Index := Scalar.indexCast c0_i32_790
  let c7_i32_791 : BitVec 32 := 7#32
  let v1034 : Index := Scalar.indexCast c7_i32_791
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1035 : Index := Scalar.indexCast v956
  ![0, 7, v1035.toNat]

def k2_chk8 (v1038 : IVec S16 32) : Prop :=
  (∀ a x, ((![v1038] : Fin 1 → IVec S16 32) a x).toNat < S16384.size a)
instance k2_chk8.dec : ∀ (v1038 : IVec S16 32), Decidable (k2_chk8 v1038) := fun v1038 => decidable_of_iff' _ (Iff.of_eq (k2_chk8.eq_1 v1038))
theorem k2_idx8_inb : ∀ (v1038 : IVec S16 32) (k2_hw8 : k2_chk8 v1038), ∀ a x, ((![v1038] : Fin 1 → IVec S16 32) a x).toNat < S16384.size a := fun v1038 k2_hw8 => k2_hw8
def k2_off15 (k2_t3 : Fin k2_t3_loop.trips) : Fin 3 → Nat :=
  let c0_i32_792 : BitVec 32 := 0#32
  let v1042 : Index := Scalar.indexCast c0_i32_792
  let c8_i32_793 : BitVec 32 := 8#32
  let v1043 : Index := Scalar.indexCast c8_i32_793
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1044 : Index := Scalar.indexCast v956
  ![0, 8, v1044.toNat]

def k2_chk9 (v1047 : IVec S16 32) : Prop :=
  (∀ a x, ((![v1047] : Fin 1 → IVec S16 32) a x).toNat < S16384.size a)
instance k2_chk9.dec : ∀ (v1047 : IVec S16 32), Decidable (k2_chk9 v1047) := fun v1047 => decidable_of_iff' _ (Iff.of_eq (k2_chk9.eq_1 v1047))
theorem k2_idx9_inb : ∀ (v1047 : IVec S16 32) (k2_hw9 : k2_chk9 v1047), ∀ a x, ((![v1047] : Fin 1 → IVec S16 32) a x).toNat < S16384.size a := fun v1047 k2_hw9 => k2_hw9
def k2_off16 (k2_t3 : Fin k2_t3_loop.trips) : Fin 3 → Nat :=
  let c0_i32_794 : BitVec 32 := 0#32
  let v1051 : Index := Scalar.indexCast c0_i32_794
  let c9_i32_795 : BitVec 32 := 9#32
  let v1052 : Index := Scalar.indexCast c9_i32_795
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1053 : Index := Scalar.indexCast v956
  ![0, 9, v1053.toNat]

def k2_chk10 (v1056 : IVec S16 32) : Prop :=
  (∀ a x, ((![v1056] : Fin 1 → IVec S16 32) a x).toNat < S16384.size a)
instance k2_chk10.dec : ∀ (v1056 : IVec S16 32), Decidable (k2_chk10 v1056) := fun v1056 => decidable_of_iff' _ (Iff.of_eq (k2_chk10.eq_1 v1056))
theorem k2_idx10_inb : ∀ (v1056 : IVec S16 32) (k2_hw10 : k2_chk10 v1056), ∀ a x, ((![v1056] : Fin 1 → IVec S16 32) a x).toNat < S16384.size a := fun v1056 k2_hw10 => k2_hw10
def k2_off17 (k2_t3 : Fin k2_t3_loop.trips) : Fin 3 → Nat :=
  let c0_i32_796 : BitVec 32 := 0#32
  let v1060 : Index := Scalar.indexCast c0_i32_796
  let c10_i32_797 : BitVec 32 := 10#32
  let v1061 : Index := Scalar.indexCast c10_i32_797
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1062 : Index := Scalar.indexCast v956
  ![0, 10, v1062.toNat]

def k2_chk11 (v1065 : IVec S16 32) : Prop :=
  (∀ a x, ((![v1065] : Fin 1 → IVec S16 32) a x).toNat < S16384.size a)
instance k2_chk11.dec : ∀ (v1065 : IVec S16 32), Decidable (k2_chk11 v1065) := fun v1065 => decidable_of_iff' _ (Iff.of_eq (k2_chk11.eq_1 v1065))
theorem k2_idx11_inb : ∀ (v1065 : IVec S16 32) (k2_hw11 : k2_chk11 v1065), ∀ a x, ((![v1065] : Fin 1 → IVec S16 32) a x).toNat < S16384.size a := fun v1065 k2_hw11 => k2_hw11
def k2_off18 (k2_t3 : Fin k2_t3_loop.trips) : Fin 3 → Nat :=
  let c0_i32_798 : BitVec 32 := 0#32
  let v1069 : Index := Scalar.indexCast c0_i32_798
  let c11_i32_799 : BitVec 32 := 11#32
  let v1070 : Index := Scalar.indexCast c11_i32_799
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1071 : Index := Scalar.indexCast v956
  ![0, 11, v1071.toNat]

def k2_chk12 (v1074 : IVec S16 32) : Prop :=
  (∀ a x, ((![v1074] : Fin 1 → IVec S16 32) a x).toNat < S16384.size a)
instance k2_chk12.dec : ∀ (v1074 : IVec S16 32), Decidable (k2_chk12 v1074) := fun v1074 => decidable_of_iff' _ (Iff.of_eq (k2_chk12.eq_1 v1074))
theorem k2_idx12_inb : ∀ (v1074 : IVec S16 32) (k2_hw12 : k2_chk12 v1074), ∀ a x, ((![v1074] : Fin 1 → IVec S16 32) a x).toNat < S16384.size a := fun v1074 k2_hw12 => k2_hw12
def k2_off19 (k2_t3 : Fin k2_t3_loop.trips) : Fin 3 → Nat :=
  let c0_i32_800 : BitVec 32 := 0#32
  let v1078 : Index := Scalar.indexCast c0_i32_800
  let c12_i32_801 : BitVec 32 := 12#32
  let v1079 : Index := Scalar.indexCast c12_i32_801
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1080 : Index := Scalar.indexCast v956
  ![0, 12, v1080.toNat]

def k2_chk13 (v1083 : IVec S16 32) : Prop :=
  (∀ a x, ((![v1083] : Fin 1 → IVec S16 32) a x).toNat < S16384.size a)
instance k2_chk13.dec : ∀ (v1083 : IVec S16 32), Decidable (k2_chk13 v1083) := fun v1083 => decidable_of_iff' _ (Iff.of_eq (k2_chk13.eq_1 v1083))
theorem k2_idx13_inb : ∀ (v1083 : IVec S16 32) (k2_hw13 : k2_chk13 v1083), ∀ a x, ((![v1083] : Fin 1 → IVec S16 32) a x).toNat < S16384.size a := fun v1083 k2_hw13 => k2_hw13
def k2_off20 (k2_t3 : Fin k2_t3_loop.trips) : Fin 3 → Nat :=
  let c0_i32_802 : BitVec 32 := 0#32
  let v1087 : Index := Scalar.indexCast c0_i32_802
  let c13_i32_803 : BitVec 32 := 13#32
  let v1088 : Index := Scalar.indexCast c13_i32_803
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1089 : Index := Scalar.indexCast v956
  ![0, 13, v1089.toNat]

def k2_chk14 (v1092 : IVec S16 32) : Prop :=
  (∀ a x, ((![v1092] : Fin 1 → IVec S16 32) a x).toNat < S16384.size a)
instance k2_chk14.dec : ∀ (v1092 : IVec S16 32), Decidable (k2_chk14 v1092) := fun v1092 => decidable_of_iff' _ (Iff.of_eq (k2_chk14.eq_1 v1092))
theorem k2_idx14_inb : ∀ (v1092 : IVec S16 32) (k2_hw14 : k2_chk14 v1092), ∀ a x, ((![v1092] : Fin 1 → IVec S16 32) a x).toNat < S16384.size a := fun v1092 k2_hw14 => k2_hw14
def k2_off21 (k2_t3 : Fin k2_t3_loop.trips) : Fin 3 → Nat :=
  let c0_i32_804 : BitVec 32 := 0#32
  let v1096 : Index := Scalar.indexCast c0_i32_804
  let c14_i32_805 : BitVec 32 := 14#32
  let v1097 : Index := Scalar.indexCast c14_i32_805
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1098 : Index := Scalar.indexCast v956
  ![0, 14, v1098.toNat]

def k2_chk15 (v1101 : IVec S16 32) : Prop :=
  (∀ a x, ((![v1101] : Fin 1 → IVec S16 32) a x).toNat < S16384.size a)
instance k2_chk15.dec : ∀ (v1101 : IVec S16 32), Decidable (k2_chk15 v1101) := fun v1101 => decidable_of_iff' _ (Iff.of_eq (k2_chk15.eq_1 v1101))
theorem k2_idx15_inb : ∀ (v1101 : IVec S16 32) (k2_hw15 : k2_chk15 v1101), ∀ a x, ((![v1101] : Fin 1 → IVec S16 32) a x).toNat < S16384.size a := fun v1101 k2_hw15 => k2_hw15
def k2_off22 (k2_t3 : Fin k2_t3_loop.trips) : Fin 3 → Nat :=
  let c0_i32_806 : BitVec 32 := 0#32
  let v1105 : Index := Scalar.indexCast c0_i32_806
  let c15_i32_807 : BitVec 32 := 15#32
  let v1106 : Index := Scalar.indexCast c15_i32_807
  let c0_i32_471 : BitVec 32 := 0#32
  let c1_i32_473 : BitVec 32 := 1#32
  let arg16 : BitVec 32 := Scf.iv c0_i32_471 c1_i32_473 k2_t3
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1107 : Index := Scalar.indexCast v956
  ![0, 15, v1107.toNat]

def k2_chk16 (v1110 : IVec S16 32) : Prop :=
  (∀ a x, ((![v1110] : Fin 1 → IVec S16 32) a x).toNat < S16384.size a)
instance k2_chk16.dec : ∀ (v1110 : IVec S16 32), Decidable (k2_chk16 v1110) := fun v1110 => decidable_of_iff' _ (Iff.of_eq (k2_chk16.eq_1 v1110))
theorem k2_idx16_inb : ∀ (v1110 : IVec S16 32) (k2_hw16 : k2_chk16 v1110), ∀ a x, ((![v1110] : Fin 1 → IVec S16 32) a x).toNat < S16384.size a := fun v1110 k2_hw16 => k2_hw16

def k2_chk17 (v969 : IVec S16 32) : Prop :=
  (∀ a x, ((![v969] : Fin 1 → IVec S16 32) a x).toNat < S1024.size a)
instance k2_chk17.dec : ∀ (v969 : IVec S16 32), Decidable (k2_chk17 v969) := fun v969 => decidable_of_iff' _ (Iff.of_eq (k2_chk17.eq_1 v969))
theorem k2_idx17_inb : ∀ (v969 : IVec S16 32) (k2_hw17 : k2_chk17 v969), ∀ a x, ((![v969] : Fin 1 → IVec S16 32) a x).toNat < S1024.size a := fun v969 k2_hw17 => k2_hw17
def k2_off23 (k2_t3 : Fin k2_t3_loop.trips) : Fin 2 → Nat :=
  let c0_i32_811 : BitVec 32 := 0#32
  let v1133 : Index := Scalar.indexCast c0_i32_811
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1134 : Index := Scalar.indexCast v1132
  ![0, v1134.toNat]
def k2_off24 (k2_t3 : Fin k2_t3_loop.trips) : Fin 3 → Nat :=
  let c0_i32_816 : BitVec 32 := 0#32
  let v1146 : Index := Scalar.indexCast c0_i32_816
  let c0_i32_817 : BitVec 32 := 0#32
  let v1147 : Index := Scalar.indexCast c0_i32_817
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1148 : Index := Scalar.indexCast v1132
  ![0, 0, v1148.toNat]

def k2_chk18 (v1151 : IVec S16 32) : Prop :=
  (∀ a x, ((![v1151] : Fin 1 → IVec S16 32) a x).toNat < S16384.size a)
instance k2_chk18.dec : ∀ (v1151 : IVec S16 32), Decidable (k2_chk18 v1151) := fun v1151 => decidable_of_iff' _ (Iff.of_eq (k2_chk18.eq_1 v1151))
theorem k2_idx18_inb : ∀ (v1151 : IVec S16 32) (k2_hw18 : k2_chk18 v1151), ∀ a x, ((![v1151] : Fin 1 → IVec S16 32) a x).toNat < S16384.size a := fun v1151 k2_hw18 => k2_hw18
def k2_off25 (k2_t3 : Fin k2_t3_loop.trips) : Fin 3 → Nat :=
  let c0_i32_819 : BitVec 32 := 0#32
  let v1155 : Index := Scalar.indexCast c0_i32_819
  let c1_i32_820 : BitVec 32 := 1#32
  let v1156 : Index := Scalar.indexCast c1_i32_820
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1157 : Index := Scalar.indexCast v1132
  ![0, 1, v1157.toNat]

def k2_chk19 (v1160 : IVec S16 32) : Prop :=
  (∀ a x, ((![v1160] : Fin 1 → IVec S16 32) a x).toNat < S16384.size a)
instance k2_chk19.dec : ∀ (v1160 : IVec S16 32), Decidable (k2_chk19 v1160) := fun v1160 => decidable_of_iff' _ (Iff.of_eq (k2_chk19.eq_1 v1160))
theorem k2_idx19_inb : ∀ (v1160 : IVec S16 32) (k2_hw19 : k2_chk19 v1160), ∀ a x, ((![v1160] : Fin 1 → IVec S16 32) a x).toNat < S16384.size a := fun v1160 k2_hw19 => k2_hw19
def k2_off26 (k2_t3 : Fin k2_t3_loop.trips) : Fin 3 → Nat :=
  let c0_i32_822 : BitVec 32 := 0#32
  let v1164 : Index := Scalar.indexCast c0_i32_822
  let c2_i32_823 : BitVec 32 := 2#32
  let v1165 : Index := Scalar.indexCast c2_i32_823
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1166 : Index := Scalar.indexCast v1132
  ![0, 2, v1166.toNat]

def k2_chk20 (v1169 : IVec S16 32) : Prop :=
  (∀ a x, ((![v1169] : Fin 1 → IVec S16 32) a x).toNat < S16384.size a)
instance k2_chk20.dec : ∀ (v1169 : IVec S16 32), Decidable (k2_chk20 v1169) := fun v1169 => decidable_of_iff' _ (Iff.of_eq (k2_chk20.eq_1 v1169))
theorem k2_idx20_inb : ∀ (v1169 : IVec S16 32) (k2_hw20 : k2_chk20 v1169), ∀ a x, ((![v1169] : Fin 1 → IVec S16 32) a x).toNat < S16384.size a := fun v1169 k2_hw20 => k2_hw20
def k2_off27 (k2_t3 : Fin k2_t3_loop.trips) : Fin 3 → Nat :=
  let c0_i32_825 : BitVec 32 := 0#32
  let v1173 : Index := Scalar.indexCast c0_i32_825
  let c3_i32_826 : BitVec 32 := 3#32
  let v1174 : Index := Scalar.indexCast c3_i32_826
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1175 : Index := Scalar.indexCast v1132
  ![0, 3, v1175.toNat]

def k2_chk21 (v1178 : IVec S16 32) : Prop :=
  (∀ a x, ((![v1178] : Fin 1 → IVec S16 32) a x).toNat < S16384.size a)
instance k2_chk21.dec : ∀ (v1178 : IVec S16 32), Decidable (k2_chk21 v1178) := fun v1178 => decidable_of_iff' _ (Iff.of_eq (k2_chk21.eq_1 v1178))
theorem k2_idx21_inb : ∀ (v1178 : IVec S16 32) (k2_hw21 : k2_chk21 v1178), ∀ a x, ((![v1178] : Fin 1 → IVec S16 32) a x).toNat < S16384.size a := fun v1178 k2_hw21 => k2_hw21
def k2_off28 (k2_t3 : Fin k2_t3_loop.trips) : Fin 3 → Nat :=
  let c0_i32_828 : BitVec 32 := 0#32
  let v1182 : Index := Scalar.indexCast c0_i32_828
  let c4_i32_829 : BitVec 32 := 4#32
  let v1183 : Index := Scalar.indexCast c4_i32_829
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1184 : Index := Scalar.indexCast v1132
  ![0, 4, v1184.toNat]

def k2_chk22 (v1187 : IVec S16 32) : Prop :=
  (∀ a x, ((![v1187] : Fin 1 → IVec S16 32) a x).toNat < S16384.size a)
instance k2_chk22.dec : ∀ (v1187 : IVec S16 32), Decidable (k2_chk22 v1187) := fun v1187 => decidable_of_iff' _ (Iff.of_eq (k2_chk22.eq_1 v1187))
theorem k2_idx22_inb : ∀ (v1187 : IVec S16 32) (k2_hw22 : k2_chk22 v1187), ∀ a x, ((![v1187] : Fin 1 → IVec S16 32) a x).toNat < S16384.size a := fun v1187 k2_hw22 => k2_hw22
def k2_off29 (k2_t3 : Fin k2_t3_loop.trips) : Fin 3 → Nat :=
  let c0_i32_831 : BitVec 32 := 0#32
  let v1191 : Index := Scalar.indexCast c0_i32_831
  let c5_i32_832 : BitVec 32 := 5#32
  let v1192 : Index := Scalar.indexCast c5_i32_832
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1193 : Index := Scalar.indexCast v1132
  ![0, 5, v1193.toNat]

def k2_chk23 (v1196 : IVec S16 32) : Prop :=
  (∀ a x, ((![v1196] : Fin 1 → IVec S16 32) a x).toNat < S16384.size a)
instance k2_chk23.dec : ∀ (v1196 : IVec S16 32), Decidable (k2_chk23 v1196) := fun v1196 => decidable_of_iff' _ (Iff.of_eq (k2_chk23.eq_1 v1196))
theorem k2_idx23_inb : ∀ (v1196 : IVec S16 32) (k2_hw23 : k2_chk23 v1196), ∀ a x, ((![v1196] : Fin 1 → IVec S16 32) a x).toNat < S16384.size a := fun v1196 k2_hw23 => k2_hw23
def k2_off30 (k2_t3 : Fin k2_t3_loop.trips) : Fin 3 → Nat :=
  let c0_i32_834 : BitVec 32 := 0#32
  let v1200 : Index := Scalar.indexCast c0_i32_834
  let c6_i32_835 : BitVec 32 := 6#32
  let v1201 : Index := Scalar.indexCast c6_i32_835
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1202 : Index := Scalar.indexCast v1132
  ![0, 6, v1202.toNat]

def k2_chk24 (v1205 : IVec S16 32) : Prop :=
  (∀ a x, ((![v1205] : Fin 1 → IVec S16 32) a x).toNat < S16384.size a)
instance k2_chk24.dec : ∀ (v1205 : IVec S16 32), Decidable (k2_chk24 v1205) := fun v1205 => decidable_of_iff' _ (Iff.of_eq (k2_chk24.eq_1 v1205))
theorem k2_idx24_inb : ∀ (v1205 : IVec S16 32) (k2_hw24 : k2_chk24 v1205), ∀ a x, ((![v1205] : Fin 1 → IVec S16 32) a x).toNat < S16384.size a := fun v1205 k2_hw24 => k2_hw24
def k2_off31 (k2_t3 : Fin k2_t3_loop.trips) : Fin 3 → Nat :=
  let c0_i32_837 : BitVec 32 := 0#32
  let v1209 : Index := Scalar.indexCast c0_i32_837
  let c7_i32_838 : BitVec 32 := 7#32
  let v1210 : Index := Scalar.indexCast c7_i32_838
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1211 : Index := Scalar.indexCast v1132
  ![0, 7, v1211.toNat]

def k2_chk25 (v1214 : IVec S16 32) : Prop :=
  (∀ a x, ((![v1214] : Fin 1 → IVec S16 32) a x).toNat < S16384.size a)
instance k2_chk25.dec : ∀ (v1214 : IVec S16 32), Decidable (k2_chk25 v1214) := fun v1214 => decidable_of_iff' _ (Iff.of_eq (k2_chk25.eq_1 v1214))
theorem k2_idx25_inb : ∀ (v1214 : IVec S16 32) (k2_hw25 : k2_chk25 v1214), ∀ a x, ((![v1214] : Fin 1 → IVec S16 32) a x).toNat < S16384.size a := fun v1214 k2_hw25 => k2_hw25
def k2_off32 (k2_t3 : Fin k2_t3_loop.trips) : Fin 3 → Nat :=
  let c0_i32_840 : BitVec 32 := 0#32
  let v1218 : Index := Scalar.indexCast c0_i32_840
  let c8_i32_841 : BitVec 32 := 8#32
  let v1219 : Index := Scalar.indexCast c8_i32_841
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1220 : Index := Scalar.indexCast v1132
  ![0, 8, v1220.toNat]

def k2_chk26 (v1223 : IVec S16 32) : Prop :=
  (∀ a x, ((![v1223] : Fin 1 → IVec S16 32) a x).toNat < S16384.size a)
instance k2_chk26.dec : ∀ (v1223 : IVec S16 32), Decidable (k2_chk26 v1223) := fun v1223 => decidable_of_iff' _ (Iff.of_eq (k2_chk26.eq_1 v1223))
theorem k2_idx26_inb : ∀ (v1223 : IVec S16 32) (k2_hw26 : k2_chk26 v1223), ∀ a x, ((![v1223] : Fin 1 → IVec S16 32) a x).toNat < S16384.size a := fun v1223 k2_hw26 => k2_hw26
def k2_off33 (k2_t3 : Fin k2_t3_loop.trips) : Fin 3 → Nat :=
  let c0_i32_843 : BitVec 32 := 0#32
  let v1227 : Index := Scalar.indexCast c0_i32_843
  let c9_i32_844 : BitVec 32 := 9#32
  let v1228 : Index := Scalar.indexCast c9_i32_844
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1229 : Index := Scalar.indexCast v1132
  ![0, 9, v1229.toNat]

def k2_chk27 (v1232 : IVec S16 32) : Prop :=
  (∀ a x, ((![v1232] : Fin 1 → IVec S16 32) a x).toNat < S16384.size a)
instance k2_chk27.dec : ∀ (v1232 : IVec S16 32), Decidable (k2_chk27 v1232) := fun v1232 => decidable_of_iff' _ (Iff.of_eq (k2_chk27.eq_1 v1232))
theorem k2_idx27_inb : ∀ (v1232 : IVec S16 32) (k2_hw27 : k2_chk27 v1232), ∀ a x, ((![v1232] : Fin 1 → IVec S16 32) a x).toNat < S16384.size a := fun v1232 k2_hw27 => k2_hw27
def k2_off34 (k2_t3 : Fin k2_t3_loop.trips) : Fin 3 → Nat :=
  let c0_i32_846 : BitVec 32 := 0#32
  let v1236 : Index := Scalar.indexCast c0_i32_846
  let c10_i32_847 : BitVec 32 := 10#32
  let v1237 : Index := Scalar.indexCast c10_i32_847
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1238 : Index := Scalar.indexCast v1132
  ![0, 10, v1238.toNat]

def k2_chk28 (v1241 : IVec S16 32) : Prop :=
  (∀ a x, ((![v1241] : Fin 1 → IVec S16 32) a x).toNat < S16384.size a)
instance k2_chk28.dec : ∀ (v1241 : IVec S16 32), Decidable (k2_chk28 v1241) := fun v1241 => decidable_of_iff' _ (Iff.of_eq (k2_chk28.eq_1 v1241))
theorem k2_idx28_inb : ∀ (v1241 : IVec S16 32) (k2_hw28 : k2_chk28 v1241), ∀ a x, ((![v1241] : Fin 1 → IVec S16 32) a x).toNat < S16384.size a := fun v1241 k2_hw28 => k2_hw28
def k2_off35 (k2_t3 : Fin k2_t3_loop.trips) : Fin 3 → Nat :=
  let c0_i32_849 : BitVec 32 := 0#32
  let v1245 : Index := Scalar.indexCast c0_i32_849
  let c11_i32_850 : BitVec 32 := 11#32
  let v1246 : Index := Scalar.indexCast c11_i32_850
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1247 : Index := Scalar.indexCast v1132
  ![0, 11, v1247.toNat]

def k2_chk29 (v1250 : IVec S16 32) : Prop :=
  (∀ a x, ((![v1250] : Fin 1 → IVec S16 32) a x).toNat < S16384.size a)
instance k2_chk29.dec : ∀ (v1250 : IVec S16 32), Decidable (k2_chk29 v1250) := fun v1250 => decidable_of_iff' _ (Iff.of_eq (k2_chk29.eq_1 v1250))
theorem k2_idx29_inb : ∀ (v1250 : IVec S16 32) (k2_hw29 : k2_chk29 v1250), ∀ a x, ((![v1250] : Fin 1 → IVec S16 32) a x).toNat < S16384.size a := fun v1250 k2_hw29 => k2_hw29
def k2_off36 (k2_t3 : Fin k2_t3_loop.trips) : Fin 3 → Nat :=
  let c0_i32_852 : BitVec 32 := 0#32
  let v1254 : Index := Scalar.indexCast c0_i32_852
  let c12_i32_853 : BitVec 32 := 12#32
  let v1255 : Index := Scalar.indexCast c12_i32_853
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1256 : Index := Scalar.indexCast v1132
  ![0, 12, v1256.toNat]

def k2_chk30 (v1259 : IVec S16 32) : Prop :=
  (∀ a x, ((![v1259] : Fin 1 → IVec S16 32) a x).toNat < S16384.size a)
instance k2_chk30.dec : ∀ (v1259 : IVec S16 32), Decidable (k2_chk30 v1259) := fun v1259 => decidable_of_iff' _ (Iff.of_eq (k2_chk30.eq_1 v1259))
theorem k2_idx30_inb : ∀ (v1259 : IVec S16 32) (k2_hw30 : k2_chk30 v1259), ∀ a x, ((![v1259] : Fin 1 → IVec S16 32) a x).toNat < S16384.size a := fun v1259 k2_hw30 => k2_hw30
def k2_off37 (k2_t3 : Fin k2_t3_loop.trips) : Fin 3 → Nat :=
  let c0_i32_855 : BitVec 32 := 0#32
  let v1263 : Index := Scalar.indexCast c0_i32_855
  let c13_i32_856 : BitVec 32 := 13#32
  let v1264 : Index := Scalar.indexCast c13_i32_856
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1265 : Index := Scalar.indexCast v1132
  ![0, 13, v1265.toNat]

def k2_chk31 (v1268 : IVec S16 32) : Prop :=
  (∀ a x, ((![v1268] : Fin 1 → IVec S16 32) a x).toNat < S16384.size a)
instance k2_chk31.dec : ∀ (v1268 : IVec S16 32), Decidable (k2_chk31 v1268) := fun v1268 => decidable_of_iff' _ (Iff.of_eq (k2_chk31.eq_1 v1268))
theorem k2_idx31_inb : ∀ (v1268 : IVec S16 32) (k2_hw31 : k2_chk31 v1268), ∀ a x, ((![v1268] : Fin 1 → IVec S16 32) a x).toNat < S16384.size a := fun v1268 k2_hw31 => k2_hw31
def k2_off38 (k2_t3 : Fin k2_t3_loop.trips) : Fin 3 → Nat :=
  let c0_i32_858 : BitVec 32 := 0#32
  let v1272 : Index := Scalar.indexCast c0_i32_858
  let c14_i32_859 : BitVec 32 := 14#32
  let v1273 : Index := Scalar.indexCast c14_i32_859
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1274 : Index := Scalar.indexCast v1132
  ![0, 14, v1274.toNat]

def k2_chk32 (v1277 : IVec S16 32) : Prop :=
  (∀ a x, ((![v1277] : Fin 1 → IVec S16 32) a x).toNat < S16384.size a)
instance k2_chk32.dec : ∀ (v1277 : IVec S16 32), Decidable (k2_chk32 v1277) := fun v1277 => decidable_of_iff' _ (Iff.of_eq (k2_chk32.eq_1 v1277))
theorem k2_idx32_inb : ∀ (v1277 : IVec S16 32) (k2_hw32 : k2_chk32 v1277), ∀ a x, ((![v1277] : Fin 1 → IVec S16 32) a x).toNat < S16384.size a := fun v1277 k2_hw32 => k2_hw32
def k2_off39 (k2_t3 : Fin k2_t3_loop.trips) : Fin 3 → Nat :=
  let c0_i32_861 : BitVec 32 := 0#32
  let v1281 : Index := Scalar.indexCast c0_i32_861
  let c15_i32_862 : BitVec 32 := 15#32
  let v1282 : Index := Scalar.indexCast c15_i32_862
  let c0_i32_471 : BitVec 32 := 0#32
  let c1_i32_473 : BitVec 32 := 1#32
  let arg16 : BitVec 32 := Scf.iv c0_i32_471 c1_i32_473 k2_t3
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1283 : Index := Scalar.indexCast v1132
  ![0, 15, v1283.toNat]

def k2_chk33 (v1286 : IVec S16 32) : Prop :=
  (∀ a x, ((![v1286] : Fin 1 → IVec S16 32) a x).toNat < S16384.size a)
instance k2_chk33.dec : ∀ (v1286 : IVec S16 32), Decidable (k2_chk33 v1286) := fun v1286 => decidable_of_iff' _ (Iff.of_eq (k2_chk33.eq_1 v1286))
theorem k2_idx33_inb : ∀ (v1286 : IVec S16 32) (k2_hw33 : k2_chk33 v1286), ∀ a x, ((![v1286] : Fin 1 → IVec S16 32) a x).toNat < S16384.size a := fun v1286 k2_hw33 => k2_hw33

def k2_chk34 (v1145 : IVec S16 32) : Prop :=
  (∀ a x, ((![v1145] : Fin 1 → IVec S16 32) a x).toNat < S1024.size a)
instance k2_chk34.dec : ∀ (v1145 : IVec S16 32), Decidable (k2_chk34 v1145) := fun v1145 => decidable_of_iff' _ (Iff.of_eq (k2_chk34.eq_1 v1145))
theorem k2_idx34_inb : ∀ (v1145 : IVec S16 32) (k2_hw34 : k2_chk34 v1145), ∀ a x, ((![v1145] : Fin 1 → IVec S16 32) a x).toNat < S1024.size a := fun v1145 k2_hw34 => k2_hw34
def k2_off40 (i : grid2.Coords) (k2_t2 : Fin k2_t2_loop.trips) (c0_i32_477 : BitVec 32) (c0_i32_363 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_147 : BitVec 32 := 0#32
  let c1_i32_148 : BitVec 32 := 1#32
  let arg14 : BitVec 32 := Scf.iv c0_i32_147 c1_i32_148 k2_t2
  let c2_i32_362 : BitVec 32 := 2#32
  let v474 : BitVec 32 := Scalar.muli arg14 c2_i32_362
  let v475 : BitVec 32 := Scalar.addi v474 c0_i32_363
  let c2_i32_475 : BitVec 32 := 2#32
  let v586 : BitVec 32 := Scalar.addi v475 c2_i32_475
  let c31_i32 : BitVec 32 := 31#32
  let v587 : BitVec 32 := Scalar.minsi v586 c31_i32
  let c2048_i32_476 : BitVec 32 := 2048#32
  let v588 : BitVec 32 := Scalar.muli v587 c2048_i32_476
  let v589 : BitVec 32 := Scalar.addi v2 v588
  let v590 : BitVec 32 := Scalar.addi c0_i32_477 v589
  ![v590.toNat]
def k2_off41 (i : grid2.Coords) (k2_t2 : Fin k2_t2_loop.trips) (c0_i32_363 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_147 : BitVec 32 := 0#32
  let c1_i32_148 : BitVec 32 := 1#32
  let arg14 : BitVec 32 := Scf.iv c0_i32_147 c1_i32_148 k2_t2
  let c2_i32_362 : BitVec 32 := 2#32
  let v474 : BitVec 32 := Scalar.muli arg14 c2_i32_362
  let v475 : BitVec 32 := Scalar.addi v474 c0_i32_363
  let c2_i32_475 : BitVec 32 := 2#32
  let v586 : BitVec 32 := Scalar.addi v475 c2_i32_475
  let c31_i32 : BitVec 32 := 31#32
  let v587 : BitVec 32 := Scalar.minsi v586 c31_i32
  let c2048_i32_476 : BitVec 32 := 2048#32
  let v588 : BitVec 32 := Scalar.muli v587 c2048_i32_476
  let v589 : BitVec 32 := Scalar.addi v2 v588
  ![v589.toNat]
@[reducible] def k2_t4_loop : Scf.Loop 32 :=
  let c0_i32_672 : BitVec 32 := 0#32
  let c64_i32_673 : BitVec 32 := 64#32
  let v824 : BitVec 32 := Scalar.addi c0_i32_672 c64_i32_673
  let c1_i32_674 : BitVec 32 := 1#32
  ⟨c0_i32_672, v824, c1_i32_674⟩
def k2_off42 (k2_t4 : Fin k2_t4_loop.trips) : Fin 2 → Nat :=
  let c1_i32_769 : BitVec 32 := 1#32
  let v957 : Index := Scalar.indexCast c1_i32_769
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v958 : Index := Scalar.indexCast v956
  ![1, v958.toNat]
def k2_off43 (k2_t4 : Fin k2_t4_loop.trips) : Fin 3 → Nat :=
  let c1_i32_774 : BitVec 32 := 1#32
  let v970 : Index := Scalar.indexCast c1_i32_774
  let c0_i32_775 : BitVec 32 := 0#32
  let v971 : Index := Scalar.indexCast c0_i32_775
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v972 : Index := Scalar.indexCast v956
  ![1, 0, v972.toNat]

def k2_chk35 (v975 : IVec S16 32) : Prop :=
  (∀ a x, ((![v975] : Fin 1 → IVec S16 32) a x).toNat < S16384.size a)
instance k2_chk35.dec : ∀ (v975 : IVec S16 32), Decidable (k2_chk35 v975) := fun v975 => decidable_of_iff' _ (Iff.of_eq (k2_chk35.eq_1 v975))
theorem k2_idx35_inb : ∀ (v975 : IVec S16 32) (k2_hw35 : k2_chk35 v975), ∀ a x, ((![v975] : Fin 1 → IVec S16 32) a x).toNat < S16384.size a := fun v975 k2_hw35 => k2_hw35
def k2_off44 (k2_t4 : Fin k2_t4_loop.trips) : Fin 3 → Nat :=
  let c1_i32_777 : BitVec 32 := 1#32
  let v979 : Index := Scalar.indexCast c1_i32_777
  let c1_i32_778 : BitVec 32 := 1#32
  let v980 : Index := Scalar.indexCast c1_i32_778
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v981 : Index := Scalar.indexCast v956
  ![1, 1, v981.toNat]

def k2_chk36 (v984 : IVec S16 32) : Prop :=
  (∀ a x, ((![v984] : Fin 1 → IVec S16 32) a x).toNat < S16384.size a)
instance k2_chk36.dec : ∀ (v984 : IVec S16 32), Decidable (k2_chk36 v984) := fun v984 => decidable_of_iff' _ (Iff.of_eq (k2_chk36.eq_1 v984))
theorem k2_idx36_inb : ∀ (v984 : IVec S16 32) (k2_hw36 : k2_chk36 v984), ∀ a x, ((![v984] : Fin 1 → IVec S16 32) a x).toNat < S16384.size a := fun v984 k2_hw36 => k2_hw36
def k2_off45 (k2_t4 : Fin k2_t4_loop.trips) : Fin 3 → Nat :=
  let c1_i32_779 : BitVec 32 := 1#32
  let v988 : Index := Scalar.indexCast c1_i32_779
  let c2_i32_780 : BitVec 32 := 2#32
  let v989 : Index := Scalar.indexCast c2_i32_780
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v990 : Index := Scalar.indexCast v956
  ![1, 2, v990.toNat]

def k2_chk37 (v993 : IVec S16 32) : Prop :=
  (∀ a x, ((![v993] : Fin 1 → IVec S16 32) a x).toNat < S16384.size a)
instance k2_chk37.dec : ∀ (v993 : IVec S16 32), Decidable (k2_chk37 v993) := fun v993 => decidable_of_iff' _ (Iff.of_eq (k2_chk37.eq_1 v993))
theorem k2_idx37_inb : ∀ (v993 : IVec S16 32) (k2_hw37 : k2_chk37 v993), ∀ a x, ((![v993] : Fin 1 → IVec S16 32) a x).toNat < S16384.size a := fun v993 k2_hw37 => k2_hw37
def k2_off46 (k2_t4 : Fin k2_t4_loop.trips) : Fin 3 → Nat :=
  let c1_i32_782 : BitVec 32 := 1#32
  let v997 : Index := Scalar.indexCast c1_i32_782
  let c3_i32_783 : BitVec 32 := 3#32
  let v998 : Index := Scalar.indexCast c3_i32_783
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v999 : Index := Scalar.indexCast v956
  ![1, 3, v999.toNat]

def k2_chk38 (v1002 : IVec S16 32) : Prop :=
  (∀ a x, ((![v1002] : Fin 1 → IVec S16 32) a x).toNat < S16384.size a)
instance k2_chk38.dec : ∀ (v1002 : IVec S16 32), Decidable (k2_chk38 v1002) := fun v1002 => decidable_of_iff' _ (Iff.of_eq (k2_chk38.eq_1 v1002))
theorem k2_idx38_inb : ∀ (v1002 : IVec S16 32) (k2_hw38 : k2_chk38 v1002), ∀ a x, ((![v1002] : Fin 1 → IVec S16 32) a x).toNat < S16384.size a := fun v1002 k2_hw38 => k2_hw38
def k2_off47 (k2_t4 : Fin k2_t4_loop.trips) : Fin 3 → Nat :=
  let c1_i32_784 : BitVec 32 := 1#32
  let v1006 : Index := Scalar.indexCast c1_i32_784
  let c4_i32_785 : BitVec 32 := 4#32
  let v1007 : Index := Scalar.indexCast c4_i32_785
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1008 : Index := Scalar.indexCast v956
  ![1, 4, v1008.toNat]

def k2_chk39 (v1011 : IVec S16 32) : Prop :=
  (∀ a x, ((![v1011] : Fin 1 → IVec S16 32) a x).toNat < S16384.size a)
instance k2_chk39.dec : ∀ (v1011 : IVec S16 32), Decidable (k2_chk39 v1011) := fun v1011 => decidable_of_iff' _ (Iff.of_eq (k2_chk39.eq_1 v1011))
theorem k2_idx39_inb : ∀ (v1011 : IVec S16 32) (k2_hw39 : k2_chk39 v1011), ∀ a x, ((![v1011] : Fin 1 → IVec S16 32) a x).toNat < S16384.size a := fun v1011 k2_hw39 => k2_hw39
def k2_off48 (k2_t4 : Fin k2_t4_loop.trips) : Fin 3 → Nat :=
  let c1_i32_786 : BitVec 32 := 1#32
  let v1015 : Index := Scalar.indexCast c1_i32_786
  let c5_i32_787 : BitVec 32 := 5#32
  let v1016 : Index := Scalar.indexCast c5_i32_787
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1017 : Index := Scalar.indexCast v956
  ![1, 5, v1017.toNat]

def k2_chk40 (v1020 : IVec S16 32) : Prop :=
  (∀ a x, ((![v1020] : Fin 1 → IVec S16 32) a x).toNat < S16384.size a)
instance k2_chk40.dec : ∀ (v1020 : IVec S16 32), Decidable (k2_chk40 v1020) := fun v1020 => decidable_of_iff' _ (Iff.of_eq (k2_chk40.eq_1 v1020))
theorem k2_idx40_inb : ∀ (v1020 : IVec S16 32) (k2_hw40 : k2_chk40 v1020), ∀ a x, ((![v1020] : Fin 1 → IVec S16 32) a x).toNat < S16384.size a := fun v1020 k2_hw40 => k2_hw40
def k2_off49 (k2_t4 : Fin k2_t4_loop.trips) : Fin 3 → Nat :=
  let c1_i32_788 : BitVec 32 := 1#32
  let v1024 : Index := Scalar.indexCast c1_i32_788
  let c6_i32_789 : BitVec 32 := 6#32
  let v1025 : Index := Scalar.indexCast c6_i32_789
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1026 : Index := Scalar.indexCast v956
  ![1, 6, v1026.toNat]

def k2_chk41 (v1029 : IVec S16 32) : Prop :=
  (∀ a x, ((![v1029] : Fin 1 → IVec S16 32) a x).toNat < S16384.size a)
instance k2_chk41.dec : ∀ (v1029 : IVec S16 32), Decidable (k2_chk41 v1029) := fun v1029 => decidable_of_iff' _ (Iff.of_eq (k2_chk41.eq_1 v1029))
theorem k2_idx41_inb : ∀ (v1029 : IVec S16 32) (k2_hw41 : k2_chk41 v1029), ∀ a x, ((![v1029] : Fin 1 → IVec S16 32) a x).toNat < S16384.size a := fun v1029 k2_hw41 => k2_hw41
def k2_off50 (k2_t4 : Fin k2_t4_loop.trips) : Fin 3 → Nat :=
  let c1_i32_790 : BitVec 32 := 1#32
  let v1033 : Index := Scalar.indexCast c1_i32_790
  let c7_i32_791 : BitVec 32 := 7#32
  let v1034 : Index := Scalar.indexCast c7_i32_791
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1035 : Index := Scalar.indexCast v956
  ![1, 7, v1035.toNat]

def k2_chk42 (v1038 : IVec S16 32) : Prop :=
  (∀ a x, ((![v1038] : Fin 1 → IVec S16 32) a x).toNat < S16384.size a)
instance k2_chk42.dec : ∀ (v1038 : IVec S16 32), Decidable (k2_chk42 v1038) := fun v1038 => decidable_of_iff' _ (Iff.of_eq (k2_chk42.eq_1 v1038))
theorem k2_idx42_inb : ∀ (v1038 : IVec S16 32) (k2_hw42 : k2_chk42 v1038), ∀ a x, ((![v1038] : Fin 1 → IVec S16 32) a x).toNat < S16384.size a := fun v1038 k2_hw42 => k2_hw42
def k2_off51 (k2_t4 : Fin k2_t4_loop.trips) : Fin 3 → Nat :=
  let c1_i32_792 : BitVec 32 := 1#32
  let v1042 : Index := Scalar.indexCast c1_i32_792
  let c8_i32_793 : BitVec 32 := 8#32
  let v1043 : Index := Scalar.indexCast c8_i32_793
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1044 : Index := Scalar.indexCast v956
  ![1, 8, v1044.toNat]

def k2_chk43 (v1047 : IVec S16 32) : Prop :=
  (∀ a x, ((![v1047] : Fin 1 → IVec S16 32) a x).toNat < S16384.size a)
instance k2_chk43.dec : ∀ (v1047 : IVec S16 32), Decidable (k2_chk43 v1047) := fun v1047 => decidable_of_iff' _ (Iff.of_eq (k2_chk43.eq_1 v1047))
theorem k2_idx43_inb : ∀ (v1047 : IVec S16 32) (k2_hw43 : k2_chk43 v1047), ∀ a x, ((![v1047] : Fin 1 → IVec S16 32) a x).toNat < S16384.size a := fun v1047 k2_hw43 => k2_hw43
def k2_off52 (k2_t4 : Fin k2_t4_loop.trips) : Fin 3 → Nat :=
  let c1_i32_794 : BitVec 32 := 1#32
  let v1051 : Index := Scalar.indexCast c1_i32_794
  let c9_i32_795 : BitVec 32 := 9#32
  let v1052 : Index := Scalar.indexCast c9_i32_795
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1053 : Index := Scalar.indexCast v956
  ![1, 9, v1053.toNat]

def k2_chk44 (v1056 : IVec S16 32) : Prop :=
  (∀ a x, ((![v1056] : Fin 1 → IVec S16 32) a x).toNat < S16384.size a)
instance k2_chk44.dec : ∀ (v1056 : IVec S16 32), Decidable (k2_chk44 v1056) := fun v1056 => decidable_of_iff' _ (Iff.of_eq (k2_chk44.eq_1 v1056))
theorem k2_idx44_inb : ∀ (v1056 : IVec S16 32) (k2_hw44 : k2_chk44 v1056), ∀ a x, ((![v1056] : Fin 1 → IVec S16 32) a x).toNat < S16384.size a := fun v1056 k2_hw44 => k2_hw44
def k2_off53 (k2_t4 : Fin k2_t4_loop.trips) : Fin 3 → Nat :=
  let c1_i32_796 : BitVec 32 := 1#32
  let v1060 : Index := Scalar.indexCast c1_i32_796
  let c10_i32_797 : BitVec 32 := 10#32
  let v1061 : Index := Scalar.indexCast c10_i32_797
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1062 : Index := Scalar.indexCast v956
  ![1, 10, v1062.toNat]

def k2_chk45 (v1065 : IVec S16 32) : Prop :=
  (∀ a x, ((![v1065] : Fin 1 → IVec S16 32) a x).toNat < S16384.size a)
instance k2_chk45.dec : ∀ (v1065 : IVec S16 32), Decidable (k2_chk45 v1065) := fun v1065 => decidable_of_iff' _ (Iff.of_eq (k2_chk45.eq_1 v1065))
theorem k2_idx45_inb : ∀ (v1065 : IVec S16 32) (k2_hw45 : k2_chk45 v1065), ∀ a x, ((![v1065] : Fin 1 → IVec S16 32) a x).toNat < S16384.size a := fun v1065 k2_hw45 => k2_hw45
def k2_off54 (k2_t4 : Fin k2_t4_loop.trips) : Fin 3 → Nat :=
  let c1_i32_798 : BitVec 32 := 1#32
  let v1069 : Index := Scalar.indexCast c1_i32_798
  let c11_i32_799 : BitVec 32 := 11#32
  let v1070 : Index := Scalar.indexCast c11_i32_799
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1071 : Index := Scalar.indexCast v956
  ![1, 11, v1071.toNat]

def k2_chk46 (v1074 : IVec S16 32) : Prop :=
  (∀ a x, ((![v1074] : Fin 1 → IVec S16 32) a x).toNat < S16384.size a)
instance k2_chk46.dec : ∀ (v1074 : IVec S16 32), Decidable (k2_chk46 v1074) := fun v1074 => decidable_of_iff' _ (Iff.of_eq (k2_chk46.eq_1 v1074))
theorem k2_idx46_inb : ∀ (v1074 : IVec S16 32) (k2_hw46 : k2_chk46 v1074), ∀ a x, ((![v1074] : Fin 1 → IVec S16 32) a x).toNat < S16384.size a := fun v1074 k2_hw46 => k2_hw46
def k2_off55 (k2_t4 : Fin k2_t4_loop.trips) : Fin 3 → Nat :=
  let c1_i32_800 : BitVec 32 := 1#32
  let v1078 : Index := Scalar.indexCast c1_i32_800
  let c12_i32_801 : BitVec 32 := 12#32
  let v1079 : Index := Scalar.indexCast c12_i32_801
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1080 : Index := Scalar.indexCast v956
  ![1, 12, v1080.toNat]

def k2_chk47 (v1083 : IVec S16 32) : Prop :=
  (∀ a x, ((![v1083] : Fin 1 → IVec S16 32) a x).toNat < S16384.size a)
instance k2_chk47.dec : ∀ (v1083 : IVec S16 32), Decidable (k2_chk47 v1083) := fun v1083 => decidable_of_iff' _ (Iff.of_eq (k2_chk47.eq_1 v1083))
theorem k2_idx47_inb : ∀ (v1083 : IVec S16 32) (k2_hw47 : k2_chk47 v1083), ∀ a x, ((![v1083] : Fin 1 → IVec S16 32) a x).toNat < S16384.size a := fun v1083 k2_hw47 => k2_hw47
def k2_off56 (k2_t4 : Fin k2_t4_loop.trips) : Fin 3 → Nat :=
  let c1_i32_802 : BitVec 32 := 1#32
  let v1087 : Index := Scalar.indexCast c1_i32_802
  let c13_i32_803 : BitVec 32 := 13#32
  let v1088 : Index := Scalar.indexCast c13_i32_803
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1089 : Index := Scalar.indexCast v956
  ![1, 13, v1089.toNat]

def k2_chk48 (v1092 : IVec S16 32) : Prop :=
  (∀ a x, ((![v1092] : Fin 1 → IVec S16 32) a x).toNat < S16384.size a)
instance k2_chk48.dec : ∀ (v1092 : IVec S16 32), Decidable (k2_chk48 v1092) := fun v1092 => decidable_of_iff' _ (Iff.of_eq (k2_chk48.eq_1 v1092))
theorem k2_idx48_inb : ∀ (v1092 : IVec S16 32) (k2_hw48 : k2_chk48 v1092), ∀ a x, ((![v1092] : Fin 1 → IVec S16 32) a x).toNat < S16384.size a := fun v1092 k2_hw48 => k2_hw48
def k2_off57 (k2_t4 : Fin k2_t4_loop.trips) : Fin 3 → Nat :=
  let c1_i32_804 : BitVec 32 := 1#32
  let v1096 : Index := Scalar.indexCast c1_i32_804
  let c14_i32_805 : BitVec 32 := 14#32
  let v1097 : Index := Scalar.indexCast c14_i32_805
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1098 : Index := Scalar.indexCast v956
  ![1, 14, v1098.toNat]

def k2_chk49 (v1101 : IVec S16 32) : Prop :=
  (∀ a x, ((![v1101] : Fin 1 → IVec S16 32) a x).toNat < S16384.size a)
instance k2_chk49.dec : ∀ (v1101 : IVec S16 32), Decidable (k2_chk49 v1101) := fun v1101 => decidable_of_iff' _ (Iff.of_eq (k2_chk49.eq_1 v1101))
theorem k2_idx49_inb : ∀ (v1101 : IVec S16 32) (k2_hw49 : k2_chk49 v1101), ∀ a x, ((![v1101] : Fin 1 → IVec S16 32) a x).toNat < S16384.size a := fun v1101 k2_hw49 => k2_hw49
def k2_off58 (k2_t4 : Fin k2_t4_loop.trips) : Fin 3 → Nat :=
  let c1_i32_806 : BitVec 32 := 1#32
  let v1105 : Index := Scalar.indexCast c1_i32_806
  let c15_i32_807 : BitVec 32 := 15#32
  let v1106 : Index := Scalar.indexCast c15_i32_807
  let c0_i32_672 : BitVec 32 := 0#32
  let c1_i32_674 : BitVec 32 := 1#32
  let arg16 : BitVec 32 := Scf.iv c0_i32_672 c1_i32_674 k2_t4
  let c2_i32_766 : BitVec 32 := 2#32
  let v954 : BitVec 32 := Scalar.muli arg16 c2_i32_766
  let c0_i32_767 : BitVec 32 := 0#32
  let v955 : BitVec 32 := Scalar.addi v954 c0_i32_767
  let c16_i32_768 : BitVec 32 := 16#32
  let v956 : BitVec 32 := Scalar.muli v955 c16_i32_768
  let v1107 : Index := Scalar.indexCast v956
  ![1, 15, v1107.toNat]

def k2_chk50 (v1110 : IVec S16 32) : Prop :=
  (∀ a x, ((![v1110] : Fin 1 → IVec S16 32) a x).toNat < S16384.size a)
instance k2_chk50.dec : ∀ (v1110 : IVec S16 32), Decidable (k2_chk50 v1110) := fun v1110 => decidable_of_iff' _ (Iff.of_eq (k2_chk50.eq_1 v1110))
theorem k2_idx50_inb : ∀ (v1110 : IVec S16 32) (k2_hw50 : k2_chk50 v1110), ∀ a x, ((![v1110] : Fin 1 → IVec S16 32) a x).toNat < S16384.size a := fun v1110 k2_hw50 => k2_hw50

def k2_chk51 (v969 : IVec S16 32) : Prop :=
  (∀ a x, ((![v969] : Fin 1 → IVec S16 32) a x).toNat < S1024.size a)
instance k2_chk51.dec : ∀ (v969 : IVec S16 32), Decidable (k2_chk51 v969) := fun v969 => decidable_of_iff' _ (Iff.of_eq (k2_chk51.eq_1 v969))
theorem k2_idx51_inb : ∀ (v969 : IVec S16 32) (k2_hw51 : k2_chk51 v969), ∀ a x, ((![v969] : Fin 1 → IVec S16 32) a x).toNat < S1024.size a := fun v969 k2_hw51 => k2_hw51
def k2_off59 (k2_t4 : Fin k2_t4_loop.trips) : Fin 2 → Nat :=
  let c1_i32_811 : BitVec 32 := 1#32
  let v1133 : Index := Scalar.indexCast c1_i32_811
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1134 : Index := Scalar.indexCast v1132
  ![1, v1134.toNat]
def k2_off60 (k2_t4 : Fin k2_t4_loop.trips) : Fin 3 → Nat :=
  let c1_i32_816 : BitVec 32 := 1#32
  let v1146 : Index := Scalar.indexCast c1_i32_816
  let c0_i32_817 : BitVec 32 := 0#32
  let v1147 : Index := Scalar.indexCast c0_i32_817
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1148 : Index := Scalar.indexCast v1132
  ![1, 0, v1148.toNat]

def k2_chk52 (v1151 : IVec S16 32) : Prop :=
  (∀ a x, ((![v1151] : Fin 1 → IVec S16 32) a x).toNat < S16384.size a)
instance k2_chk52.dec : ∀ (v1151 : IVec S16 32), Decidable (k2_chk52 v1151) := fun v1151 => decidable_of_iff' _ (Iff.of_eq (k2_chk52.eq_1 v1151))
theorem k2_idx52_inb : ∀ (v1151 : IVec S16 32) (k2_hw52 : k2_chk52 v1151), ∀ a x, ((![v1151] : Fin 1 → IVec S16 32) a x).toNat < S16384.size a := fun v1151 k2_hw52 => k2_hw52
def k2_off61 (k2_t4 : Fin k2_t4_loop.trips) : Fin 3 → Nat :=
  let c1_i32_819 : BitVec 32 := 1#32
  let v1155 : Index := Scalar.indexCast c1_i32_819
  let c1_i32_820 : BitVec 32 := 1#32
  let v1156 : Index := Scalar.indexCast c1_i32_820
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1157 : Index := Scalar.indexCast v1132
  ![1, 1, v1157.toNat]

def k2_chk53 (v1160 : IVec S16 32) : Prop :=
  (∀ a x, ((![v1160] : Fin 1 → IVec S16 32) a x).toNat < S16384.size a)
instance k2_chk53.dec : ∀ (v1160 : IVec S16 32), Decidable (k2_chk53 v1160) := fun v1160 => decidable_of_iff' _ (Iff.of_eq (k2_chk53.eq_1 v1160))
theorem k2_idx53_inb : ∀ (v1160 : IVec S16 32) (k2_hw53 : k2_chk53 v1160), ∀ a x, ((![v1160] : Fin 1 → IVec S16 32) a x).toNat < S16384.size a := fun v1160 k2_hw53 => k2_hw53
def k2_off62 (k2_t4 : Fin k2_t4_loop.trips) : Fin 3 → Nat :=
  let c1_i32_822 : BitVec 32 := 1#32
  let v1164 : Index := Scalar.indexCast c1_i32_822
  let c2_i32_823 : BitVec 32 := 2#32
  let v1165 : Index := Scalar.indexCast c2_i32_823
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1166 : Index := Scalar.indexCast v1132
  ![1, 2, v1166.toNat]

def k2_chk54 (v1169 : IVec S16 32) : Prop :=
  (∀ a x, ((![v1169] : Fin 1 → IVec S16 32) a x).toNat < S16384.size a)
instance k2_chk54.dec : ∀ (v1169 : IVec S16 32), Decidable (k2_chk54 v1169) := fun v1169 => decidable_of_iff' _ (Iff.of_eq (k2_chk54.eq_1 v1169))
theorem k2_idx54_inb : ∀ (v1169 : IVec S16 32) (k2_hw54 : k2_chk54 v1169), ∀ a x, ((![v1169] : Fin 1 → IVec S16 32) a x).toNat < S16384.size a := fun v1169 k2_hw54 => k2_hw54
def k2_off63 (k2_t4 : Fin k2_t4_loop.trips) : Fin 3 → Nat :=
  let c1_i32_825 : BitVec 32 := 1#32
  let v1173 : Index := Scalar.indexCast c1_i32_825
  let c3_i32_826 : BitVec 32 := 3#32
  let v1174 : Index := Scalar.indexCast c3_i32_826
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1175 : Index := Scalar.indexCast v1132
  ![1, 3, v1175.toNat]

def k2_chk55 (v1178 : IVec S16 32) : Prop :=
  (∀ a x, ((![v1178] : Fin 1 → IVec S16 32) a x).toNat < S16384.size a)
instance k2_chk55.dec : ∀ (v1178 : IVec S16 32), Decidable (k2_chk55 v1178) := fun v1178 => decidable_of_iff' _ (Iff.of_eq (k2_chk55.eq_1 v1178))
theorem k2_idx55_inb : ∀ (v1178 : IVec S16 32) (k2_hw55 : k2_chk55 v1178), ∀ a x, ((![v1178] : Fin 1 → IVec S16 32) a x).toNat < S16384.size a := fun v1178 k2_hw55 => k2_hw55
def k2_off64 (k2_t4 : Fin k2_t4_loop.trips) : Fin 3 → Nat :=
  let c1_i32_828 : BitVec 32 := 1#32
  let v1182 : Index := Scalar.indexCast c1_i32_828
  let c4_i32_829 : BitVec 32 := 4#32
  let v1183 : Index := Scalar.indexCast c4_i32_829
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1184 : Index := Scalar.indexCast v1132
  ![1, 4, v1184.toNat]

def k2_chk56 (v1187 : IVec S16 32) : Prop :=
  (∀ a x, ((![v1187] : Fin 1 → IVec S16 32) a x).toNat < S16384.size a)
instance k2_chk56.dec : ∀ (v1187 : IVec S16 32), Decidable (k2_chk56 v1187) := fun v1187 => decidable_of_iff' _ (Iff.of_eq (k2_chk56.eq_1 v1187))
theorem k2_idx56_inb : ∀ (v1187 : IVec S16 32) (k2_hw56 : k2_chk56 v1187), ∀ a x, ((![v1187] : Fin 1 → IVec S16 32) a x).toNat < S16384.size a := fun v1187 k2_hw56 => k2_hw56
def k2_off65 (k2_t4 : Fin k2_t4_loop.trips) : Fin 3 → Nat :=
  let c1_i32_831 : BitVec 32 := 1#32
  let v1191 : Index := Scalar.indexCast c1_i32_831
  let c5_i32_832 : BitVec 32 := 5#32
  let v1192 : Index := Scalar.indexCast c5_i32_832
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1193 : Index := Scalar.indexCast v1132
  ![1, 5, v1193.toNat]

def k2_chk57 (v1196 : IVec S16 32) : Prop :=
  (∀ a x, ((![v1196] : Fin 1 → IVec S16 32) a x).toNat < S16384.size a)
instance k2_chk57.dec : ∀ (v1196 : IVec S16 32), Decidable (k2_chk57 v1196) := fun v1196 => decidable_of_iff' _ (Iff.of_eq (k2_chk57.eq_1 v1196))
theorem k2_idx57_inb : ∀ (v1196 : IVec S16 32) (k2_hw57 : k2_chk57 v1196), ∀ a x, ((![v1196] : Fin 1 → IVec S16 32) a x).toNat < S16384.size a := fun v1196 k2_hw57 => k2_hw57
def k2_off66 (k2_t4 : Fin k2_t4_loop.trips) : Fin 3 → Nat :=
  let c1_i32_834 : BitVec 32 := 1#32
  let v1200 : Index := Scalar.indexCast c1_i32_834
  let c6_i32_835 : BitVec 32 := 6#32
  let v1201 : Index := Scalar.indexCast c6_i32_835
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1202 : Index := Scalar.indexCast v1132
  ![1, 6, v1202.toNat]

def k2_chk58 (v1205 : IVec S16 32) : Prop :=
  (∀ a x, ((![v1205] : Fin 1 → IVec S16 32) a x).toNat < S16384.size a)
instance k2_chk58.dec : ∀ (v1205 : IVec S16 32), Decidable (k2_chk58 v1205) := fun v1205 => decidable_of_iff' _ (Iff.of_eq (k2_chk58.eq_1 v1205))
theorem k2_idx58_inb : ∀ (v1205 : IVec S16 32) (k2_hw58 : k2_chk58 v1205), ∀ a x, ((![v1205] : Fin 1 → IVec S16 32) a x).toNat < S16384.size a := fun v1205 k2_hw58 => k2_hw58
def k2_off67 (k2_t4 : Fin k2_t4_loop.trips) : Fin 3 → Nat :=
  let c1_i32_837 : BitVec 32 := 1#32
  let v1209 : Index := Scalar.indexCast c1_i32_837
  let c7_i32_838 : BitVec 32 := 7#32
  let v1210 : Index := Scalar.indexCast c7_i32_838
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1211 : Index := Scalar.indexCast v1132
  ![1, 7, v1211.toNat]

def k2_chk59 (v1214 : IVec S16 32) : Prop :=
  (∀ a x, ((![v1214] : Fin 1 → IVec S16 32) a x).toNat < S16384.size a)
instance k2_chk59.dec : ∀ (v1214 : IVec S16 32), Decidable (k2_chk59 v1214) := fun v1214 => decidable_of_iff' _ (Iff.of_eq (k2_chk59.eq_1 v1214))
theorem k2_idx59_inb : ∀ (v1214 : IVec S16 32) (k2_hw59 : k2_chk59 v1214), ∀ a x, ((![v1214] : Fin 1 → IVec S16 32) a x).toNat < S16384.size a := fun v1214 k2_hw59 => k2_hw59
def k2_off68 (k2_t4 : Fin k2_t4_loop.trips) : Fin 3 → Nat :=
  let c1_i32_840 : BitVec 32 := 1#32
  let v1218 : Index := Scalar.indexCast c1_i32_840
  let c8_i32_841 : BitVec 32 := 8#32
  let v1219 : Index := Scalar.indexCast c8_i32_841
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1220 : Index := Scalar.indexCast v1132
  ![1, 8, v1220.toNat]

def k2_chk60 (v1223 : IVec S16 32) : Prop :=
  (∀ a x, ((![v1223] : Fin 1 → IVec S16 32) a x).toNat < S16384.size a)
instance k2_chk60.dec : ∀ (v1223 : IVec S16 32), Decidable (k2_chk60 v1223) := fun v1223 => decidable_of_iff' _ (Iff.of_eq (k2_chk60.eq_1 v1223))
theorem k2_idx60_inb : ∀ (v1223 : IVec S16 32) (k2_hw60 : k2_chk60 v1223), ∀ a x, ((![v1223] : Fin 1 → IVec S16 32) a x).toNat < S16384.size a := fun v1223 k2_hw60 => k2_hw60
def k2_off69 (k2_t4 : Fin k2_t4_loop.trips) : Fin 3 → Nat :=
  let c1_i32_843 : BitVec 32 := 1#32
  let v1227 : Index := Scalar.indexCast c1_i32_843
  let c9_i32_844 : BitVec 32 := 9#32
  let v1228 : Index := Scalar.indexCast c9_i32_844
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1229 : Index := Scalar.indexCast v1132
  ![1, 9, v1229.toNat]

def k2_chk61 (v1232 : IVec S16 32) : Prop :=
  (∀ a x, ((![v1232] : Fin 1 → IVec S16 32) a x).toNat < S16384.size a)
instance k2_chk61.dec : ∀ (v1232 : IVec S16 32), Decidable (k2_chk61 v1232) := fun v1232 => decidable_of_iff' _ (Iff.of_eq (k2_chk61.eq_1 v1232))
theorem k2_idx61_inb : ∀ (v1232 : IVec S16 32) (k2_hw61 : k2_chk61 v1232), ∀ a x, ((![v1232] : Fin 1 → IVec S16 32) a x).toNat < S16384.size a := fun v1232 k2_hw61 => k2_hw61
def k2_off70 (k2_t4 : Fin k2_t4_loop.trips) : Fin 3 → Nat :=
  let c1_i32_846 : BitVec 32 := 1#32
  let v1236 : Index := Scalar.indexCast c1_i32_846
  let c10_i32_847 : BitVec 32 := 10#32
  let v1237 : Index := Scalar.indexCast c10_i32_847
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1238 : Index := Scalar.indexCast v1132
  ![1, 10, v1238.toNat]

def k2_chk62 (v1241 : IVec S16 32) : Prop :=
  (∀ a x, ((![v1241] : Fin 1 → IVec S16 32) a x).toNat < S16384.size a)
instance k2_chk62.dec : ∀ (v1241 : IVec S16 32), Decidable (k2_chk62 v1241) := fun v1241 => decidable_of_iff' _ (Iff.of_eq (k2_chk62.eq_1 v1241))
theorem k2_idx62_inb : ∀ (v1241 : IVec S16 32) (k2_hw62 : k2_chk62 v1241), ∀ a x, ((![v1241] : Fin 1 → IVec S16 32) a x).toNat < S16384.size a := fun v1241 k2_hw62 => k2_hw62
def k2_off71 (k2_t4 : Fin k2_t4_loop.trips) : Fin 3 → Nat :=
  let c1_i32_849 : BitVec 32 := 1#32
  let v1245 : Index := Scalar.indexCast c1_i32_849
  let c11_i32_850 : BitVec 32 := 11#32
  let v1246 : Index := Scalar.indexCast c11_i32_850
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1247 : Index := Scalar.indexCast v1132
  ![1, 11, v1247.toNat]

def k2_chk63 (v1250 : IVec S16 32) : Prop :=
  (∀ a x, ((![v1250] : Fin 1 → IVec S16 32) a x).toNat < S16384.size a)
instance k2_chk63.dec : ∀ (v1250 : IVec S16 32), Decidable (k2_chk63 v1250) := fun v1250 => decidable_of_iff' _ (Iff.of_eq (k2_chk63.eq_1 v1250))
theorem k2_idx63_inb : ∀ (v1250 : IVec S16 32) (k2_hw63 : k2_chk63 v1250), ∀ a x, ((![v1250] : Fin 1 → IVec S16 32) a x).toNat < S16384.size a := fun v1250 k2_hw63 => k2_hw63
def k2_off72 (k2_t4 : Fin k2_t4_loop.trips) : Fin 3 → Nat :=
  let c1_i32_852 : BitVec 32 := 1#32
  let v1254 : Index := Scalar.indexCast c1_i32_852
  let c12_i32_853 : BitVec 32 := 12#32
  let v1255 : Index := Scalar.indexCast c12_i32_853
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1256 : Index := Scalar.indexCast v1132
  ![1, 12, v1256.toNat]

def k2_chk64 (v1259 : IVec S16 32) : Prop :=
  (∀ a x, ((![v1259] : Fin 1 → IVec S16 32) a x).toNat < S16384.size a)
instance k2_chk64.dec : ∀ (v1259 : IVec S16 32), Decidable (k2_chk64 v1259) := fun v1259 => decidable_of_iff' _ (Iff.of_eq (k2_chk64.eq_1 v1259))
theorem k2_idx64_inb : ∀ (v1259 : IVec S16 32) (k2_hw64 : k2_chk64 v1259), ∀ a x, ((![v1259] : Fin 1 → IVec S16 32) a x).toNat < S16384.size a := fun v1259 k2_hw64 => k2_hw64
def k2_off73 (k2_t4 : Fin k2_t4_loop.trips) : Fin 3 → Nat :=
  let c1_i32_855 : BitVec 32 := 1#32
  let v1263 : Index := Scalar.indexCast c1_i32_855
  let c13_i32_856 : BitVec 32 := 13#32
  let v1264 : Index := Scalar.indexCast c13_i32_856
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1265 : Index := Scalar.indexCast v1132
  ![1, 13, v1265.toNat]

def k2_chk65 (v1268 : IVec S16 32) : Prop :=
  (∀ a x, ((![v1268] : Fin 1 → IVec S16 32) a x).toNat < S16384.size a)
instance k2_chk65.dec : ∀ (v1268 : IVec S16 32), Decidable (k2_chk65 v1268) := fun v1268 => decidable_of_iff' _ (Iff.of_eq (k2_chk65.eq_1 v1268))
theorem k2_idx65_inb : ∀ (v1268 : IVec S16 32) (k2_hw65 : k2_chk65 v1268), ∀ a x, ((![v1268] : Fin 1 → IVec S16 32) a x).toNat < S16384.size a := fun v1268 k2_hw65 => k2_hw65
def k2_off74 (k2_t4 : Fin k2_t4_loop.trips) : Fin 3 → Nat :=
  let c1_i32_858 : BitVec 32 := 1#32
  let v1272 : Index := Scalar.indexCast c1_i32_858
  let c14_i32_859 : BitVec 32 := 14#32
  let v1273 : Index := Scalar.indexCast c14_i32_859
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1274 : Index := Scalar.indexCast v1132
  ![1, 14, v1274.toNat]

def k2_chk66 (v1277 : IVec S16 32) : Prop :=
  (∀ a x, ((![v1277] : Fin 1 → IVec S16 32) a x).toNat < S16384.size a)
instance k2_chk66.dec : ∀ (v1277 : IVec S16 32), Decidable (k2_chk66 v1277) := fun v1277 => decidable_of_iff' _ (Iff.of_eq (k2_chk66.eq_1 v1277))
theorem k2_idx66_inb : ∀ (v1277 : IVec S16 32) (k2_hw66 : k2_chk66 v1277), ∀ a x, ((![v1277] : Fin 1 → IVec S16 32) a x).toNat < S16384.size a := fun v1277 k2_hw66 => k2_hw66
def k2_off75 (k2_t4 : Fin k2_t4_loop.trips) : Fin 3 → Nat :=
  let c1_i32_861 : BitVec 32 := 1#32
  let v1281 : Index := Scalar.indexCast c1_i32_861
  let c15_i32_862 : BitVec 32 := 15#32
  let v1282 : Index := Scalar.indexCast c15_i32_862
  let c0_i32_672 : BitVec 32 := 0#32
  let c1_i32_674 : BitVec 32 := 1#32
  let arg16 : BitVec 32 := Scf.iv c0_i32_672 c1_i32_674 k2_t4
  let c2_i32_808 : BitVec 32 := 2#32
  let v1130 : BitVec 32 := Scalar.muli arg16 c2_i32_808
  let c1_i32_809 : BitVec 32 := 1#32
  let v1131 : BitVec 32 := Scalar.addi v1130 c1_i32_809
  let c16_i32_810 : BitVec 32 := 16#32
  let v1132 : BitVec 32 := Scalar.muli v1131 c16_i32_810
  let v1283 : Index := Scalar.indexCast v1132
  ![1, 15, v1283.toNat]

def k2_chk67 (v1286 : IVec S16 32) : Prop :=
  (∀ a x, ((![v1286] : Fin 1 → IVec S16 32) a x).toNat < S16384.size a)
instance k2_chk67.dec : ∀ (v1286 : IVec S16 32), Decidable (k2_chk67 v1286) := fun v1286 => decidable_of_iff' _ (Iff.of_eq (k2_chk67.eq_1 v1286))
theorem k2_idx67_inb : ∀ (v1286 : IVec S16 32) (k2_hw67 : k2_chk67 v1286), ∀ a x, ((![v1286] : Fin 1 → IVec S16 32) a x).toNat < S16384.size a := fun v1286 k2_hw67 => k2_hw67

def k2_chk68 (v1145 : IVec S16 32) : Prop :=
  (∀ a x, ((![v1145] : Fin 1 → IVec S16 32) a x).toNat < S1024.size a)
instance k2_chk68.dec : ∀ (v1145 : IVec S16 32), Decidable (k2_chk68 v1145) := fun v1145 => decidable_of_iff' _ (Iff.of_eq (k2_chk68.eq_1 v1145))
theorem k2_idx68_inb : ∀ (v1145 : IVec S16 32) (k2_hw68 : k2_chk68 v1145), ∀ a x, ((![v1145] : Fin 1 → IVec S16 32) a x).toNat < S1024.size a := fun v1145 k2_hw68 => k2_hw68
def k2_off76 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_362_r1 : BitVec 32 := 0#32
  ![v1.toNat, 0]
abbrev grid3 : Pipeline.Grid := .none

abbrev stage3_0 : Fin 1 → Memref sig .tc .vmem S32x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S32x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  shapeCasts_S1x16x32x256x256_S33554432 : S1x16x32x256x256.ShapeCasts S33554432
  shapeCasts_S1x1x32x256x256_S2097152 : S1x1x32x256x256.ShapeCasts S2097152
  iota_S16_d0_w32_scVector : S16.Iotas .scVector 32 [0]
  h_S16 : 0 < S16.numel
  inb_S2x16x2048_S1x1x2048_0_0_0 : ∀ a, (![0, 0, 0] : Fin 3 → Nat) a + S1x1x2048.size a ≤ S2x16x2048.size a
  squeezes_S1x1x2048_S2048 : S1x1x2048.Squeezes S2048
  inb_S2x16x2048_S1x1x2048_0_1_0 : ∀ a, (![0, 1, 0] : Fin 3 → Nat) a + S1x1x2048.size a ≤ S2x16x2048.size a
  inb_S2x16x2048_S1x1x2048_0_2_0 : ∀ a, (![0, 2, 0] : Fin 3 → Nat) a + S1x1x2048.size a ≤ S2x16x2048.size a
  inb_S2x16x2048_S1x1x2048_0_3_0 : ∀ a, (![0, 3, 0] : Fin 3 → Nat) a + S1x1x2048.size a ≤ S2x16x2048.size a
  inb_S2x16x2048_S1x1x2048_0_4_0 : ∀ a, (![0, 4, 0] : Fin 3 → Nat) a + S1x1x2048.size a ≤ S2x16x2048.size a
  inb_S2x16x2048_S1x1x2048_0_5_0 : ∀ a, (![0, 5, 0] : Fin 3 → Nat) a + S1x1x2048.size a ≤ S2x16x2048.size a
  inb_S2x16x2048_S1x1x2048_0_6_0 : ∀ a, (![0, 6, 0] : Fin 3 → Nat) a + S1x1x2048.size a ≤ S2x16x2048.size a
  inb_S2x16x2048_S1x1x2048_0_7_0 : ∀ a, (![0, 7, 0] : Fin 3 → Nat) a + S1x1x2048.size a ≤ S2x16x2048.size a
  inb_S2x16x2048_S1x1x2048_0_8_0 : ∀ a, (![0, 8, 0] : Fin 3 → Nat) a + S1x1x2048.size a ≤ S2x16x2048.size a
  inb_S2x16x2048_S1x1x2048_0_9_0 : ∀ a, (![0, 9, 0] : Fin 3 → Nat) a + S1x1x2048.size a ≤ S2x16x2048.size a
  inb_S2x16x2048_S1x1x2048_0_10_0 : ∀ a, (![0, 10, 0] : Fin 3 → Nat) a + S1x1x2048.size a ≤ S2x16x2048.size a
  inb_S2x16x2048_S1x1x2048_0_11_0 : ∀ a, (![0, 11, 0] : Fin 3 → Nat) a + S1x1x2048.size a ≤ S2x16x2048.size a
  inb_S2x16x2048_S1x1x2048_0_12_0 : ∀ a, (![0, 12, 0] : Fin 3 → Nat) a + S1x1x2048.size a ≤ S2x16x2048.size a
  inb_S2x16x2048_S1x1x2048_0_13_0 : ∀ a, (![0, 13, 0] : Fin 3 → Nat) a + S1x1x2048.size a ≤ S2x16x2048.size a
  inb_S2x16x2048_S1x1x2048_0_14_0 : ∀ a, (![0, 14, 0] : Fin 3 → Nat) a + S1x1x2048.size a ≤ S2x16x2048.size a
  inb_S2x16x2048_S1x1x2048_0_15_0 : ∀ a, (![0, 15, 0] : Fin 3 → Nat) a + S1x1x2048.size a ≤ S2x16x2048.size a
  inb_S2x2048_S1x2048_0_0 : ∀ a, (![0, 0] : Fin 2 → Nat) a + S1x2048.size a ≤ S2x2048.size a
  squeezes_S1x2048_S2048 : S1x2048.Squeezes S2048
  inb_S2x16x2048_S1x1x2048_1_0_0 : ∀ a, (![1, 0, 0] : Fin 3 → Nat) a + S1x1x2048.size a ≤ S2x16x2048.size a
  inb_S2x16x2048_S1x1x2048_1_1_0 : ∀ a, (![1, 1, 0] : Fin 3 → Nat) a + S1x1x2048.size a ≤ S2x16x2048.size a
  inb_S2x16x2048_S1x1x2048_1_2_0 : ∀ a, (![1, 2, 0] : Fin 3 → Nat) a + S1x1x2048.size a ≤ S2x16x2048.size a
  inb_S2x16x2048_S1x1x2048_1_3_0 : ∀ a, (![1, 3, 0] : Fin 3 → Nat) a + S1x1x2048.size a ≤ S2x16x2048.size a
  inb_S2x16x2048_S1x1x2048_1_4_0 : ∀ a, (![1, 4, 0] : Fin 3 → Nat) a + S1x1x2048.size a ≤ S2x16x2048.size a
  inb_S2x16x2048_S1x1x2048_1_5_0 : ∀ a, (![1, 5, 0] : Fin 3 → Nat) a + S1x1x2048.size a ≤ S2x16x2048.size a
  inb_S2x16x2048_S1x1x2048_1_6_0 : ∀ a, (![1, 6, 0] : Fin 3 → Nat) a + S1x1x2048.size a ≤ S2x16x2048.size a
  inb_S2x16x2048_S1x1x2048_1_7_0 : ∀ a, (![1, 7, 0] : Fin 3 → Nat) a + S1x1x2048.size a ≤ S2x16x2048.size a
  inb_S2x16x2048_S1x1x2048_1_8_0 : ∀ a, (![1, 8, 0] : Fin 3 → Nat) a + S1x1x2048.size a ≤ S2x16x2048.size a
  inb_S2x16x2048_S1x1x2048_1_9_0 : ∀ a, (![1, 9, 0] : Fin 3 → Nat) a + S1x1x2048.size a ≤ S2x16x2048.size a
  inb_S2x16x2048_S1x1x2048_1_10_0 : ∀ a, (![1, 10, 0] : Fin 3 → Nat) a + S1x1x2048.size a ≤ S2x16x2048.size a
  inb_S2x16x2048_S1x1x2048_1_11_0 : ∀ a, (![1, 11, 0] : Fin 3 → Nat) a + S1x1x2048.size a ≤ S2x16x2048.size a
  inb_S2x16x2048_S1x1x2048_1_12_0 : ∀ a, (![1, 12, 0] : Fin 3 → Nat) a + S1x1x2048.size a ≤ S2x16x2048.size a
  inb_S2x16x2048_S1x1x2048_1_13_0 : ∀ a, (![1, 13, 0] : Fin 3 → Nat) a + S1x1x2048.size a ≤ S2x16x2048.size a
  inb_S2x16x2048_S1x1x2048_1_14_0 : ∀ a, (![1, 14, 0] : Fin 3 → Nat) a + S1x1x2048.size a ≤ S2x16x2048.size a
  inb_S2x16x2048_S1x1x2048_1_15_0 : ∀ a, (![1, 15, 0] : Fin 3 → Nat) a + S1x1x2048.size a ≤ S2x16x2048.size a
  inb_S2x2048_S1x2048_1_0 : ∀ a, (![1, 0] : Fin 2 → Nat) a + S1x2048.size a ≤ S2x2048.size a
  inb_S33554432_S2048_0 : ∀ a, (![0] : Fin 1 → Nat) a + S2048.size a ≤ S33554432.size a
  inb_S2097152_S2048_0 : ∀ a, (![0] : Fin 1 → Nat) a + S2048.size a ≤ S2097152.size a
  h_S1x16 : 0 < S1x16.numel
  shapeCasts_S1x16_S16 : S1x16.ShapeCasts S16
  h_S1024 : 0 < S1024.numel
  h_S1x1x16 : 0 < S1x1x16.numel
  shapeCasts_S1x1x16_S16 : S1x1x16.ShapeCasts S16
  h_S16384 : 0 < S16384.numel
  squeezes_S1x16384_S16384 : S1x16384.Squeezes S16384
  squeezes_S1x1024_S1024 : S1x1024.Squeezes S1024
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  iota_S1024x64_d0_w32 : S1024x64.Iotas .tc 32 [0]
  iota_S1024x64_d1_w32 : S1024x64.Iotas .tc 32 [1]
  natLt_1_32 : 1 < 32
  iota_S64x1024_d0_w32 : S64x1024.Iotas .tc 32 [0]
  iota_S64x1024_d1_w32 : S64x1024.Iotas .tc 32 [1]
  iota_S1x64_d1_w32 : S1x64.Iotas .tc 32 [1]
  iota_S64x1_d0_w32 : S64x1.Iotas .tc 32 [0]
  shapeCasts_S1x64_S1x1x64 : S1x64.ShapeCasts S1x1x64
  reduces_S1x1x64_S1 : S1x1x64.Reduces [1, 2] S1
  shapeCasts_S1_S1x1x1 : S1.ShapeCasts S1x1x1
  inpos_S1x1x1_p0_0_0 : ∀ a, (![0, 0, 0] : Fin 3 → Nat) a < S1x1x1.size a
  slices_S1x16384_o0_0_S1x1024 : S1x16384.Slices ![0, 0] S1x1024
  shapeCasts_S64x1_S64x1 : S64x1.ShapeCasts S64x1
  broadcasts_S64x1_S64x16 : S64x1.Broadcasts S64x16
  inb_S1024x16_S64x16_0_0 : ∀ a, (![0, 0] : Fin 2 → Nat) a + S64x16.size a ≤ S1024x16.size a
  h_S64x16 : 0 < S64x16.numel
  broadcasts_S64x1_S64x64 : S64x1.Broadcasts S64x64
  broadcasts_S1x64_S64x64 : S1x64.Broadcasts S64x64
  slices_S1x16384_o0_1024_S1x1024 : S1x16384.Slices ![0, 1024] S1x1024
  inb_S1024x16_S64x16_64_0 : ∀ a, (![64, 0] : Fin 2 → Nat) a + S64x16.size a ≤ S1024x16.size a
  slices_S1x16384_o0_2048_S1x1024 : S1x16384.Slices ![0, 2048] S1x1024
  inb_S1024x16_S64x16_128_0 : ∀ a, (![128, 0] : Fin 2 → Nat) a + S64x16.size a ≤ S1024x16.size a
  slices_S1x16384_o0_3072_S1x1024 : S1x16384.Slices ![0, 3072] S1x1024
  inb_S1024x16_S64x16_192_0 : ∀ a, (![192, 0] : Fin 2 → Nat) a + S64x16.size a ≤ S1024x16.size a
  slices_S1x16384_o0_4096_S1x1024 : S1x16384.Slices ![0, 4096] S1x1024
  inb_S1024x16_S64x16_256_0 : ∀ a, (![256, 0] : Fin 2 → Nat) a + S64x16.size a ≤ S1024x16.size a
  slices_S1x16384_o0_5120_S1x1024 : S1x16384.Slices ![0, 5120] S1x1024
  inb_S1024x16_S64x16_320_0 : ∀ a, (![320, 0] : Fin 2 → Nat) a + S64x16.size a ≤ S1024x16.size a
  slices_S1x16384_o0_6144_S1x1024 : S1x16384.Slices ![0, 6144] S1x1024
  inb_S1024x16_S64x16_384_0 : ∀ a, (![384, 0] : Fin 2 → Nat) a + S64x16.size a ≤ S1024x16.size a
  slices_S1x16384_o0_7168_S1x1024 : S1x16384.Slices ![0, 7168] S1x1024
  inb_S1024x16_S64x16_448_0 : ∀ a, (![448, 0] : Fin 2 → Nat) a + S64x16.size a ≤ S1024x16.size a
  slices_S1x16384_o0_8192_S1x1024 : S1x16384.Slices ![0, 8192] S1x1024
  inb_S1024x16_S64x16_512_0 : ∀ a, (![512, 0] : Fin 2 → Nat) a + S64x16.size a ≤ S1024x16.size a
  slices_S1x16384_o0_9216_S1x1024 : S1x16384.Slices ![0, 9216] S1x1024
  inb_S1024x16_S64x16_576_0 : ∀ a, (![576, 0] : Fin 2 → Nat) a + S64x16.size a ≤ S1024x16.size a
  slices_S1x16384_o0_10240_S1x1024 : S1x16384.Slices ![0, 10240] S1x1024
  inb_S1024x16_S64x16_640_0 : ∀ a, (![640, 0] : Fin 2 → Nat) a + S64x16.size a ≤ S1024x16.size a
  slices_S1x16384_o0_11264_S1x1024 : S1x16384.Slices ![0, 11264] S1x1024
  inb_S1024x16_S64x16_704_0 : ∀ a, (![704, 0] : Fin 2 → Nat) a + S64x16.size a ≤ S1024x16.size a
  slices_S1x16384_o0_12288_S1x1024 : S1x16384.Slices ![0, 12288] S1x1024
  inb_S1024x16_S64x16_768_0 : ∀ a, (![768, 0] : Fin 2 → Nat) a + S64x16.size a ≤ S1024x16.size a
  slices_S1x16384_o0_13312_S1x1024 : S1x16384.Slices ![0, 13312] S1x1024
  inb_S1024x16_S64x16_832_0 : ∀ a, (![832, 0] : Fin 2 → Nat) a + S64x16.size a ≤ S1024x16.size a
  slices_S1x16384_o0_14336_S1x1024 : S1x16384.Slices ![0, 14336] S1x1024
  inb_S1024x16_S64x16_896_0 : ∀ a, (![896, 0] : Fin 2 → Nat) a + S64x16.size a ≤ S1024x16.size a
  slices_S1x16384_o0_15360_S1x1024 : S1x16384.Slices ![0, 15360] S1x1024
  inb_S1024x16_S64x16_960_0 : ∀ a, (![960, 0] : Fin 2 → Nat) a + S64x16.size a ≤ S1024x16.size a
  iota_S64x64_d0_w32 : S64x64.Iotas .tc 32 [0]
  iota_S64x64_d1_w32 : S64x64.Iotas .tc 32 [1]
  shapeCasts_S64x64_S1x64x64 : S64x64.ShapeCasts S1x64x64
  reduces_S1x64x64_S1 : S1x64x64.Reduces [1, 2] S1
  shapeCasts_S64x1_S1x64x1 : S64x1.ShapeCasts S1x64x1
  reduces_S1x64x1_S1 : S1x64x1.Reduces [1, 2] S1
  inb_S1x1_S1x1_0_0 : ∀ a, (![0, 0] : Fin 2 → Nat) a + S1x1.size a ≤ S1x1.size a
  h_S1x1 : 0 < S1x1.numel
  shapeCasts_S1024x16_S16384 : S1024x16.ShapeCasts S16384
  shapeCasts_S1x1_S1x1 : S1x1.ShapeCasts S1x1
  shapeCasts_S1x1_S_ : S1x1.ShapeCasts S_
  dot_S1x32_S32x16384_S1x16384_1_0_0_1_n_n_wf : DotDims.WF S1x32 S32x16384 S1x16384 [1] [0] [0] [1] [] []
  dot_S1x32_S32x1024_S1x1024_1_0_0_1_n_n_wf : DotDims.WF S1x32 S32x1024 S1x1024 [1] [0] [0] [1] [] []
  dot_S1x1024_S1024x64_S1x64_1_0_0_1_n_n_wf : DotDims.WF S1x1024 S1024x64 S1x64 [1] [0] [0] [1] [] []
  dot_S64x1024_S1x1024_S64x1_1_1_0_0_n_n_wf : DotDims.WF S64x1024 S1x1024 S64x1 [1] [1] [0] [0] [] []
  hcc0_scratch5 : 0 + S_.numel ≤ 16
  hcc0_scratch6 : 1 + S_.numel ≤ 16
  hcc0_scoped0 : 2 + S_.numel ≤ 16
  hcc0_scoped1 : 3 + S_.numel ≤ 16
  hcc2_scratch5 : 8 + S_.numel ≤ 16
  hcc2_scratch6 : 9 + S_.numel ≤ 16
  hcc2_scoped0 : 10 + S_.numel ≤ 16
  hcc2_scoped1 : 11 + S_.numel ≤ 16
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S16.size a ≤ S1024.size a
  k0_off2_inb : ∀ k0_t1 : Fin k0_t1_loop.trips, ∀ (r : Fin 16), ∀ a, (k0_off2 k0_t1 (BitVec.ofNat 32 (1024 * r.val))) a + S16.size a ≤ S16384.size a
  k0_off3_inb : ∀ i : grid0.Coords, ∀ (r : Fin 16), ∀ a, (k0_off3 i (BitVec.ofNat 32 (2097152 * r.val))) a + S2048.size a ≤ S33554432.size a
  k0_off4_inb : ∀ i : grid0.Coords, ∀ a, (k0_off4 i) a + S2048.size a ≤ S2097152.size a
  k0_off5_inb : ∀ i : grid0.Coords, ∀ (r : Fin 16), ∀ a, (k0_off5 i (BitVec.ofNat 32 (2097152 * r.val))) a + S2048.size a ≤ S33554432.size a
  k0_off6_inb : ∀ i : grid0.Coords, ∀ a, (k0_off6 i) a + S2048.size a ≤ S2097152.size a
  k0_t2_ok : k0_t2_loop.OK
  k0_t3_ok : k0_t3_loop.OK
  k0_off7_inb : ∀ k0_t3 : Fin k0_t3_loop.trips, ∀ a, (k0_off7 k0_t3) a + S1x16.size a ≤ S2x2048.size a
  k0_off8_inb : ∀ k0_t3 : Fin k0_t3_loop.trips, ∀ a, (k0_off8 k0_t3) a + S1x1x16.size a ≤ S2x16x2048.size a
  k0_off9_inb : ∀ k0_t3 : Fin k0_t3_loop.trips, ∀ a, (k0_off9 k0_t3) a + S1x1x16.size a ≤ S2x16x2048.size a
  k0_off10_inb : ∀ k0_t3 : Fin k0_t3_loop.trips, ∀ a, (k0_off10 k0_t3) a + S1x1x16.size a ≤ S2x16x2048.size a
  k0_off11_inb : ∀ k0_t3 : Fin k0_t3_loop.trips, ∀ a, (k0_off11 k0_t3) a + S1x1x16.size a ≤ S2x16x2048.size a
  k0_off12_inb : ∀ k0_t3 : Fin k0_t3_loop.trips, ∀ a, (k0_off12 k0_t3) a + S1x1x16.size a ≤ S2x16x2048.size a
  k0_off13_inb : ∀ k0_t3 : Fin k0_t3_loop.trips, ∀ a, (k0_off13 k0_t3) a + S1x1x16.size a ≤ S2x16x2048.size a
  k0_off14_inb : ∀ k0_t3 : Fin k0_t3_loop.trips, ∀ a, (k0_off14 k0_t3) a + S1x1x16.size a ≤ S2x16x2048.size a
  k0_off15_inb : ∀ k0_t3 : Fin k0_t3_loop.trips, ∀ a, (k0_off15 k0_t3) a + S1x1x16.size a ≤ S2x16x2048.size a
  k0_off16_inb : ∀ k0_t3 : Fin k0_t3_loop.trips, ∀ a, (k0_off16 k0_t3) a + S1x1x16.size a ≤ S2x16x2048.size a
  k0_off17_inb : ∀ k0_t3 : Fin k0_t3_loop.trips, ∀ a, (k0_off17 k0_t3) a + S1x1x16.size a ≤ S2x16x2048.size a
  k0_off18_inb : ∀ k0_t3 : Fin k0_t3_loop.trips, ∀ a, (k0_off18 k0_t3) a + S1x1x16.size a ≤ S2x16x2048.size a
  k0_off19_inb : ∀ k0_t3 : Fin k0_t3_loop.trips, ∀ a, (k0_off19 k0_t3) a + S1x1x16.size a ≤ S2x16x2048.size a
  k0_off20_inb : ∀ k0_t3 : Fin k0_t3_loop.trips, ∀ a, (k0_off20 k0_t3) a + S1x1x16.size a ≤ S2x16x2048.size a
  k0_off21_inb : ∀ k0_t3 : Fin k0_t3_loop.trips, ∀ a, (k0_off21 k0_t3) a + S1x1x16.size a ≤ S2x16x2048.size a
  k0_off22_inb : ∀ k0_t3 : Fin k0_t3_loop.trips, ∀ a, (k0_off22 k0_t3) a + S1x1x16.size a ≤ S2x16x2048.size a
  k0_off23_inb : ∀ k0_t3 : Fin k0_t3_loop.trips, ∀ a, (k0_off23 k0_t3) a + S1x1x16.size a ≤ S2x16x2048.size a
  k0_off24_inb : ∀ k0_t3 : Fin k0_t3_loop.trips, ∀ a, (k0_off24 k0_t3) a + S1x16.size a ≤ S2x2048.size a
  k0_off25_inb : ∀ k0_t3 : Fin k0_t3_loop.trips, ∀ a, (k0_off25 k0_t3) a + S1x1x16.size a ≤ S2x16x2048.size a
  k0_off26_inb : ∀ k0_t3 : Fin k0_t3_loop.trips, ∀ a, (k0_off26 k0_t3) a + S1x1x16.size a ≤ S2x16x2048.size a
  k0_off27_inb : ∀ k0_t3 : Fin k0_t3_loop.trips, ∀ a, (k0_off27 k0_t3) a + S1x1x16.size a ≤ S2x16x2048.size a
  k0_off28_inb : ∀ k0_t3 : Fin k0_t3_loop.trips, ∀ a, (k0_off28 k0_t3) a + S1x1x16.size a ≤ S2x16x2048.size a
  k0_off29_inb : ∀ k0_t3 : Fin k0_t3_loop.trips, ∀ a, (k0_off29 k0_t3) a + S1x1x16.size a ≤ S2x16x2048.size a
  k0_off30_inb : ∀ k0_t3 : Fin k0_t3_loop.trips, ∀ a, (k0_off30 k0_t3) a + S1x1x16.size a ≤ S2x16x2048.size a
  k0_off31_inb : ∀ k0_t3 : Fin k0_t3_loop.trips, ∀ a, (k0_off31 k0_t3) a + S1x1x16.size a ≤ S2x16x2048.size a
  k0_off32_inb : ∀ k0_t3 : Fin k0_t3_loop.trips, ∀ a, (k0_off32 k0_t3) a + S1x1x16.size a ≤ S2x16x2048.size a
  k0_off33_inb : ∀ k0_t3 : Fin k0_t3_loop.trips, ∀ a, (k0_off33 k0_t3) a + S1x1x16.size a ≤ S2x16x2048.size a
  k0_off34_inb : ∀ k0_t3 : Fin k0_t3_loop.trips, ∀ a, (k0_off34 k0_t3) a + S1x1x16.size a ≤ S2x16x2048.size a
  k0_off35_inb : ∀ k0_t3 : Fin k0_t3_loop.trips, ∀ a, (k0_off35 k0_t3) a + S1x1x16.size a ≤ S2x16x2048.size a
  k0_off36_inb : ∀ k0_t3 : Fin k0_t3_loop.trips, ∀ a, (k0_off36 k0_t3) a + S1x1x16.size a ≤ S2x16x2048.size a
  k0_off37_inb : ∀ k0_t3 : Fin k0_t3_loop.trips, ∀ a, (k0_off37 k0_t3) a + S1x1x16.size a ≤ S2x16x2048.size a
  k0_off38_inb : ∀ k0_t3 : Fin k0_t3_loop.trips, ∀ a, (k0_off38 k0_t3) a + S1x1x16.size a ≤ S2x16x2048.size a
  k0_off39_inb : ∀ k0_t3 : Fin k0_t3_loop.trips, ∀ a, (k0_off39 k0_t3) a + S1x1x16.size a ≤ S2x16x2048.size a
  k0_off40_inb : ∀ k0_t3 : Fin k0_t3_loop.trips, ∀ a, (k0_off40 k0_t3) a + S1x1x16.size a ≤ S2x16x2048.size a
  k0_off41_inb : ∀ k0_t3 : Fin k0_t3_loop.trips, ∀ a, (k0_off41 k0_t3) a + S1x16.size a ≤ S2x2048.size a
  k0_off42_inb : ∀ k0_t3 : Fin k0_t3_loop.trips, ∀ a, (k0_off42 k0_t3) a + S1x1x16.size a ≤ S2x16x2048.size a
  k0_off43_inb : ∀ k0_t3 : Fin k0_t3_loop.trips, ∀ a, (k0_off43 k0_t3) a + S1x1x16.size a ≤ S2x16x2048.size a
  k0_off44_inb : ∀ k0_t3 : Fin k0_t3_loop.trips, ∀ a, (k0_off44 k0_t3) a + S1x1x16.size a ≤ S2x16x2048.size a
  k0_off45_inb : ∀ k0_t3 : Fin k0_t3_loop.trips, ∀ a, (k0_off45 k0_t3) a + S1x1x16.size a ≤ S2x16x2048.size a
  k0_off46_inb : ∀ k0_t3 : Fin k0_t3_loop.trips, ∀ a, (k0_off46 k0_t3) a + S1x1x16.size a ≤ S2x16x2048.size a
  k0_off47_inb : ∀ k0_t3 : Fin k0_t3_loop.trips, ∀ a, (k0_off47 k0_t3) a + S1x1x16.size a ≤ S2x16x2048.size a
  k0_off48_inb : ∀ k0_t3 : Fin k0_t3_loop.trips, ∀ a, (k0_off48 k0_t3) a + S1x1x16.size a ≤ S2x16x2048.size a
  k0_off49_inb : ∀ k0_t3 : Fin k0_t3_loop.trips, ∀ a, (k0_off49 k0_t3) a + S1x1x16.size a ≤ S2x16x2048.size a
  k0_off50_inb : ∀ k0_t3 : Fin k0_t3_loop.trips, ∀ a, (k0_off50 k0_t3) a + S1x1x16.size a ≤ S2x16x2048.size a
  k0_off51_inb : ∀ k0_t3 : Fin k0_t3_loop.trips, ∀ a, (k0_off51 k0_t3) a + S1x1x16.size a ≤ S2x16x2048.size a
  k0_off52_inb : ∀ k0_t3 : Fin k0_t3_loop.trips, ∀ a, (k0_off52 k0_t3) a + S1x1x16.size a ≤ S2x16x2048.size a
  k0_off53_inb : ∀ k0_t3 : Fin k0_t3_loop.trips, ∀ a, (k0_off53 k0_t3) a + S1x1x16.size a ≤ S2x16x2048.size a
  k0_off54_inb : ∀ k0_t3 : Fin k0_t3_loop.trips, ∀ a, (k0_off54 k0_t3) a + S1x1x16.size a ≤ S2x16x2048.size a
  k0_off55_inb : ∀ k0_t3 : Fin k0_t3_loop.trips, ∀ a, (k0_off55 k0_t3) a + S1x1x16.size a ≤ S2x16x2048.size a
  k0_off56_inb : ∀ k0_t3 : Fin k0_t3_loop.trips, ∀ a, (k0_off56 k0_t3) a + S1x1x16.size a ≤ S2x16x2048.size a
  k0_off57_inb : ∀ k0_t3 : Fin k0_t3_loop.trips, ∀ a, (k0_off57 k0_t3) a + S1x1x16.size a ≤ S2x16x2048.size a
  k0_off58_inb : ∀ k0_t3 : Fin k0_t3_loop.trips, ∀ a, (k0_off58 k0_t3) a + S1x16.size a ≤ S2x2048.size a
  k0_off59_inb : ∀ k0_t3 : Fin k0_t3_loop.trips, ∀ a, (k0_off59 k0_t3) a + S1x1x16.size a ≤ S2x16x2048.size a
  k0_off60_inb : ∀ k0_t3 : Fin k0_t3_loop.trips, ∀ a, (k0_off60 k0_t3) a + S1x1x16.size a ≤ S2x16x2048.size a
  k0_off61_inb : ∀ k0_t3 : Fin k0_t3_loop.trips, ∀ a, (k0_off61 k0_t3) a + S1x1x16.size a ≤ S2x16x2048.size a
  k0_off62_inb : ∀ k0_t3 : Fin k0_t3_loop.trips, ∀ a, (k0_off62 k0_t3) a + S1x1x16.size a ≤ S2x16x2048.size a
  k0_off63_inb : ∀ k0_t3 : Fin k0_t3_loop.trips, ∀ a, (k0_off63 k0_t3) a + S1x1x16.size a ≤ S2x16x2048.size a
  k0_off64_inb : ∀ k0_t3 : Fin k0_t3_loop.trips, ∀ a, (k0_off64 k0_t3) a + S1x1x16.size a ≤ S2x16x2048.size a
  k0_off65_inb : ∀ k0_t3 : Fin k0_t3_loop.trips, ∀ a, (k0_off65 k0_t3) a + S1x1x16.size a ≤ S2x16x2048.size a
  k0_off66_inb : ∀ k0_t3 : Fin k0_t3_loop.trips, ∀ a, (k0_off66 k0_t3) a + S1x1x16.size a ≤ S2x16x2048.size a
  k0_off67_inb : ∀ k0_t3 : Fin k0_t3_loop.trips, ∀ a, (k0_off67 k0_t3) a + S1x1x16.size a ≤ S2x16x2048.size a
  k0_off68_inb : ∀ k0_t3 : Fin k0_t3_loop.trips, ∀ a, (k0_off68 k0_t3) a + S1x1x16.size a ≤ S2x16x2048.size a
  k0_off69_inb : ∀ k0_t3 : Fin k0_t3_loop.trips, ∀ a, (k0_off69 k0_t3) a + S1x1x16.size a ≤ S2x16x2048.size a
  k0_off70_inb : ∀ k0_t3 : Fin k0_t3_loop.trips, ∀ a, (k0_off70 k0_t3) a + S1x1x16.size a ≤ S2x16x2048.size a
  k0_off71_inb : ∀ k0_t3 : Fin k0_t3_loop.trips, ∀ a, (k0_off71 k0_t3) a + S1x1x16.size a ≤ S2x16x2048.size a
  k0_off72_inb : ∀ k0_t3 : Fin k0_t3_loop.trips, ∀ a, (k0_off72 k0_t3) a + S1x1x16.size a ≤ S2x16x2048.size a
  k0_off73_inb : ∀ k0_t3 : Fin k0_t3_loop.trips, ∀ a, (k0_off73 k0_t3) a + S1x1x16.size a ≤ S2x16x2048.size a
  k0_off74_inb : ∀ k0_t3 : Fin k0_t3_loop.trips, ∀ a, (k0_off74 k0_t3) a + S1x1x16.size a ≤ S2x16x2048.size a
  k0_off75_inb : ∀ (i : grid0.Coords) (k0_t2 : Fin k0_t2_loop.trips), ∀ (r₁ : Fin 16) (r₂ : Fin 2), ∀ a, (k0_off75 i k0_t2 (BitVec.ofNat 32 (2097152 * r₁.val)) (BitVec.ofNat 32 r₂.val)) a + S2048.size a ≤ S33554432.size a
  k0_off76_inb : ∀ (i : grid0.Coords) (k0_t2 : Fin k0_t2_loop.trips), ∀ (r : Fin 2), ∀ a, (k0_off76 i k0_t2 (BitVec.ofNat 32 r.val)) a + S2048.size a ≤ S2097152.size a
  k0_t4_ok : k0_t4_loop.OK
  k0_off77_inb : ∀ k0_t4 : Fin k0_t4_loop.trips, ∀ a, (k0_off77 k0_t4) a + S1x16.size a ≤ S2x2048.size a
  k0_off78_inb : ∀ k0_t4 : Fin k0_t4_loop.trips, ∀ a, (k0_off78 k0_t4) a + S1x1x16.size a ≤ S2x16x2048.size a
  k0_off79_inb : ∀ k0_t4 : Fin k0_t4_loop.trips, ∀ a, (k0_off79 k0_t4) a + S1x1x16.size a ≤ S2x16x2048.size a
  k0_off80_inb : ∀ k0_t4 : Fin k0_t4_loop.trips, ∀ a, (k0_off80 k0_t4) a + S1x1x16.size a ≤ S2x16x2048.size a
  k0_off81_inb : ∀ k0_t4 : Fin k0_t4_loop.trips, ∀ a, (k0_off81 k0_t4) a + S1x1x16.size a ≤ S2x16x2048.size a
  k0_off82_inb : ∀ k0_t4 : Fin k0_t4_loop.trips, ∀ a, (k0_off82 k0_t4) a + S1x1x16.size a ≤ S2x16x2048.size a
  k0_off83_inb : ∀ k0_t4 : Fin k0_t4_loop.trips, ∀ a, (k0_off83 k0_t4) a + S1x1x16.size a ≤ S2x16x2048.size a
  k0_off84_inb : ∀ k0_t4 : Fin k0_t4_loop.trips, ∀ a, (k0_off84 k0_t4) a + S1x1x16.size a ≤ S2x16x2048.size a
  k0_off85_inb : ∀ k0_t4 : Fin k0_t4_loop.trips, ∀ a, (k0_off85 k0_t4) a + S1x1x16.size a ≤ S2x16x2048.size a
  k0_off86_inb : ∀ k0_t4 : Fin k0_t4_loop.trips, ∀ a, (k0_off86 k0_t4) a + S1x1x16.size a ≤ S2x16x2048.size a
  k0_off87_inb : ∀ k0_t4 : Fin k0_t4_loop.trips, ∀ a, (k0_off87 k0_t4) a + S1x1x16.size a ≤ S2x16x2048.size a
  k0_off88_inb : ∀ k0_t4 : Fin k0_t4_loop.trips, ∀ a, (k0_off88 k0_t4) a + S1x1x16.size a ≤ S2x16x2048.size a
  k0_off89_inb : ∀ k0_t4 : Fin k0_t4_loop.trips, ∀ a, (k0_off89 k0_t4) a + S1x1x16.size a ≤ S2x16x2048.size a
  k0_off90_inb : ∀ k0_t4 : Fin k0_t4_loop.trips, ∀ a, (k0_off90 k0_t4) a + S1x1x16.size a ≤ S2x16x2048.size a
  k0_off91_inb : ∀ k0_t4 : Fin k0_t4_loop.trips, ∀ a, (k0_off91 k0_t4) a + S1x1x16.size a ≤ S2x16x2048.size a
  k0_off92_inb : ∀ k0_t4 : Fin k0_t4_loop.trips, ∀ a, (k0_off92 k0_t4) a + S1x1x16.size a ≤ S2x16x2048.size a
  k0_off93_inb : ∀ k0_t4 : Fin k0_t4_loop.trips, ∀ a, (k0_off93 k0_t4) a + S1x1x16.size a ≤ S2x16x2048.size a
  k0_off94_inb : ∀ k0_t4 : Fin k0_t4_loop.trips, ∀ a, (k0_off94 k0_t4) a + S1x16.size a ≤ S2x2048.size a
  k0_off95_inb : ∀ k0_t4 : Fin k0_t4_loop.trips, ∀ a, (k0_off95 k0_t4) a + S1x1x16.size a ≤ S2x16x2048.size a
  k0_off96_inb : ∀ k0_t4 : Fin k0_t4_loop.trips, ∀ a, (k0_off96 k0_t4) a + S1x1x16.size a ≤ S2x16x2048.size a
  k0_off97_inb : ∀ k0_t4 : Fin k0_t4_loop.trips, ∀ a, (k0_off97 k0_t4) a + S1x1x16.size a ≤ S2x16x2048.size a
  k0_off98_inb : ∀ k0_t4 : Fin k0_t4_loop.trips, ∀ a, (k0_off98 k0_t4) a + S1x1x16.size a ≤ S2x16x2048.size a
  k0_off99_inb : ∀ k0_t4 : Fin k0_t4_loop.trips, ∀ a, (k0_off99 k0_t4) a + S1x1x16.size a ≤ S2x16x2048.size a
  k0_off100_inb : ∀ k0_t4 : Fin k0_t4_loop.trips, ∀ a, (k0_off100 k0_t4) a + S1x1x16.size a ≤ S2x16x2048.size a
  k0_off101_inb : ∀ k0_t4 : Fin k0_t4_loop.trips, ∀ a, (k0_off101 k0_t4) a + S1x1x16.size a ≤ S2x16x2048.size a
  k0_off102_inb : ∀ k0_t4 : Fin k0_t4_loop.trips, ∀ a, (k0_off102 k0_t4) a + S1x1x16.size a ≤ S2x16x2048.size a
  k0_off103_inb : ∀ k0_t4 : Fin k0_t4_loop.trips, ∀ a, (k0_off103 k0_t4) a + S1x1x16.size a ≤ S2x16x2048.size a
  k0_off104_inb : ∀ k0_t4 : Fin k0_t4_loop.trips, ∀ a, (k0_off104 k0_t4) a + S1x1x16.size a ≤ S2x16x2048.size a
  k0_off105_inb : ∀ k0_t4 : Fin k0_t4_loop.trips, ∀ a, (k0_off105 k0_t4) a + S1x1x16.size a ≤ S2x16x2048.size a
  k0_off106_inb : ∀ k0_t4 : Fin k0_t4_loop.trips, ∀ a, (k0_off106 k0_t4) a + S1x1x16.size a ≤ S2x16x2048.size a
  k0_off107_inb : ∀ k0_t4 : Fin k0_t4_loop.trips, ∀ a, (k0_off107 k0_t4) a + S1x1x16.size a ≤ S2x16x2048.size a
  k0_off108_inb : ∀ k0_t4 : Fin k0_t4_loop.trips, ∀ a, (k0_off108 k0_t4) a + S1x1x16.size a ≤ S2x16x2048.size a
  k0_off109_inb : ∀ k0_t4 : Fin k0_t4_loop.trips, ∀ a, (k0_off109 k0_t4) a + S1x1x16.size a ≤ S2x16x2048.size a
  k0_off110_inb : ∀ k0_t4 : Fin k0_t4_loop.trips, ∀ a, (k0_off110 k0_t4) a + S1x1x16.size a ≤ S2x16x2048.size a
  k0_off111_inb : ∀ k0_t4 : Fin k0_t4_loop.trips, ∀ a, (k0_off111 k0_t4) a + S1x16.size a ≤ S2x2048.size a
  k0_off112_inb : ∀ k0_t4 : Fin k0_t4_loop.trips, ∀ a, (k0_off112 k0_t4) a + S1x1x16.size a ≤ S2x16x2048.size a
  k0_off113_inb : ∀ k0_t4 : Fin k0_t4_loop.trips, ∀ a, (k0_off113 k0_t4) a + S1x1x16.size a ≤ S2x16x2048.size a
  k0_off114_inb : ∀ k0_t4 : Fin k0_t4_loop.trips, ∀ a, (k0_off114 k0_t4) a + S1x1x16.size a ≤ S2x16x2048.size a
  k0_off115_inb : ∀ k0_t4 : Fin k0_t4_loop.trips, ∀ a, (k0_off115 k0_t4) a + S1x1x16.size a ≤ S2x16x2048.size a
  k0_off116_inb : ∀ k0_t4 : Fin k0_t4_loop.trips, ∀ a, (k0_off116 k0_t4) a + S1x1x16.size a ≤ S2x16x2048.size a
  k0_off117_inb : ∀ k0_t4 : Fin k0_t4_loop.trips, ∀ a, (k0_off117 k0_t4) a + S1x1x16.size a ≤ S2x16x2048.size a
  k0_off118_inb : ∀ k0_t4 : Fin k0_t4_loop.trips, ∀ a, (k0_off118 k0_t4) a + S1x1x16.size a ≤ S2x16x2048.size a
  k0_off119_inb : ∀ k0_t4 : Fin k0_t4_loop.trips, ∀ a, (k0_off119 k0_t4) a + S1x1x16.size a ≤ S2x16x2048.size a
  k0_off120_inb : ∀ k0_t4 : Fin k0_t4_loop.trips, ∀ a, (k0_off120 k0_t4) a + S1x1x16.size a ≤ S2x16x2048.size a
  k0_off121_inb : ∀ k0_t4 : Fin k0_t4_loop.trips, ∀ a, (k0_off121 k0_t4) a + S1x1x16.size a ≤ S2x16x2048.size a
  k0_off122_inb : ∀ k0_t4 : Fin k0_t4_loop.trips, ∀ a, (k0_off122 k0_t4) a + S1x1x16.size a ≤ S2x16x2048.size a
  k0_off123_inb : ∀ k0_t4 : Fin k0_t4_loop.trips, ∀ a, (k0_off123 k0_t4) a + S1x1x16.size a ≤ S2x16x2048.size a
  k0_off124_inb : ∀ k0_t4 : Fin k0_t4_loop.trips, ∀ a, (k0_off124 k0_t4) a + S1x1x16.size a ≤ S2x16x2048.size a
  k0_off125_inb : ∀ k0_t4 : Fin k0_t4_loop.trips, ∀ a, (k0_off125 k0_t4) a + S1x1x16.size a ≤ S2x16x2048.size a
  k0_off126_inb : ∀ k0_t4 : Fin k0_t4_loop.trips, ∀ a, (k0_off126 k0_t4) a + S1x1x16.size a ≤ S2x16x2048.size a
  k0_off127_inb : ∀ k0_t4 : Fin k0_t4_loop.trips, ∀ a, (k0_off127 k0_t4) a + S1x1x16.size a ≤ S2x16x2048.size a
  k0_off128_inb : ∀ k0_t4 : Fin k0_t4_loop.trips, ∀ a, (k0_off128 k0_t4) a + S1x16.size a ≤ S2x2048.size a
  k0_off129_inb : ∀ k0_t4 : Fin k0_t4_loop.trips, ∀ a, (k0_off129 k0_t4) a + S1x1x16.size a ≤ S2x16x2048.size a
  k0_off130_inb : ∀ k0_t4 : Fin k0_t4_loop.trips, ∀ a, (k0_off130 k0_t4) a + S1x1x16.size a ≤ S2x16x2048.size a
  k0_off131_inb : ∀ k0_t4 : Fin k0_t4_loop.trips, ∀ a, (k0_off131 k0_t4) a + S1x1x16.size a ≤ S2x16x2048.size a
  k0_off132_inb : ∀ k0_t4 : Fin k0_t4_loop.trips, ∀ a, (k0_off132 k0_t4) a + S1x1x16.size a ≤ S2x16x2048.size a
  k0_off133_inb : ∀ k0_t4 : Fin k0_t4_loop.trips, ∀ a, (k0_off133 k0_t4) a + S1x1x16.size a ≤ S2x16x2048.size a
  k0_off134_inb : ∀ k0_t4 : Fin k0_t4_loop.trips, ∀ a, (k0_off134 k0_t4) a + S1x1x16.size a ≤ S2x16x2048.size a
  k0_off135_inb : ∀ k0_t4 : Fin k0_t4_loop.trips, ∀ a, (k0_off135 k0_t4) a + S1x1x16.size a ≤ S2x16x2048.size a
  k0_off136_inb : ∀ k0_t4 : Fin k0_t4_loop.trips, ∀ a, (k0_off136 k0_t4) a + S1x1x16.size a ≤ S2x16x2048.size a
  k0_off137_inb : ∀ k0_t4 : Fin k0_t4_loop.trips, ∀ a, (k0_off137 k0_t4) a + S1x1x16.size a ≤ S2x16x2048.size a
  k0_off138_inb : ∀ k0_t4 : Fin k0_t4_loop.trips, ∀ a, (k0_off138 k0_t4) a + S1x1x16.size a ≤ S2x16x2048.size a
  k0_off139_inb : ∀ k0_t4 : Fin k0_t4_loop.trips, ∀ a, (k0_off139 k0_t4) a + S1x1x16.size a ≤ S2x16x2048.size a
  k0_off140_inb : ∀ k0_t4 : Fin k0_t4_loop.trips, ∀ a, (k0_off140 k0_t4) a + S1x1x16.size a ≤ S2x16x2048.size a
  k0_off141_inb : ∀ k0_t4 : Fin k0_t4_loop.trips, ∀ a, (k0_off141 k0_t4) a + S1x1x16.size a ≤ S2x16x2048.size a
  k0_off142_inb : ∀ k0_t4 : Fin k0_t4_loop.trips, ∀ a, (k0_off142 k0_t4) a + S1x1x16.size a ≤ S2x16x2048.size a
  k0_off143_inb : ∀ k0_t4 : Fin k0_t4_loop.trips, ∀ a, (k0_off143 k0_t4) a + S1x1x16.size a ≤ S2x16x2048.size a
  k0_off144_inb : ∀ k0_t4 : Fin k0_t4_loop.trips, ∀ a, (k0_off144 k0_t4) a + S1x1x16.size a ≤ S2x16x2048.size a
  k0_off145_inb : ∀ i : grid0.Coords, ∀ a, (k0_off145 i) a + S1x16384.size a ≤ S32x16384.size a
  k0_off146_inb : ∀ i : grid0.Coords, ∀ a, (k0_off146 i) a + S1x1024.size a ≤ S32x1024.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hcore2 : grid2.bound 0 ≤ τ.nSC
  hsub2 : grid2.bound 1 ≤ τ.nSub
  k2_t1_ok : k2_t1_loop.OK
  k2_off1_inb : ∀ k2_t1 : Fin k2_t1_loop.trips, ∀ a, (k2_off1 k2_t1) a + S16.size a ≤ S1024.size a
  k2_off2_inb : ∀ i : grid2.Coords, ∀ (r : Fin 16), ∀ a, (k2_off2 i (BitVec.ofNat 32 (2097152 * r.val))) a + S2048.size a ≤ S33554432.size a
  k2_off3_inb : ∀ i : grid2.Coords, ∀ a, (k2_off3 i) a + S2048.size a ≤ S2097152.size a
  k2_off4_inb : ∀ i : grid2.Coords, ∀ (r : Fin 16), ∀ a, (k2_off4 i (BitVec.ofNat 32 (2097152 * r.val))) a + S2048.size a ≤ S33554432.size a
  k2_off5_inb : ∀ i : grid2.Coords, ∀ a, (k2_off5 i) a + S2048.size a ≤ S2097152.size a
  k2_t2_ok : k2_t2_loop.OK
  k2_t3_ok : k2_t3_loop.OK
  k2_off6_inb : ∀ k2_t3 : Fin k2_t3_loop.trips, ∀ a, (k2_off6 k2_t3) a + S1x16.size a ≤ S2x2048.size a
  k2_off7_inb : ∀ k2_t3 : Fin k2_t3_loop.trips, ∀ a, (k2_off7 k2_t3) a + S1x1x16.size a ≤ S2x16x2048.size a
  k2_off8_inb : ∀ k2_t3 : Fin k2_t3_loop.trips, ∀ a, (k2_off8 k2_t3) a + S1x1x16.size a ≤ S2x16x2048.size a
  k2_off9_inb : ∀ k2_t3 : Fin k2_t3_loop.trips, ∀ a, (k2_off9 k2_t3) a + S1x1x16.size a ≤ S2x16x2048.size a
  k2_off10_inb : ∀ k2_t3 : Fin k2_t3_loop.trips, ∀ a, (k2_off10 k2_t3) a + S1x1x16.size a ≤ S2x16x2048.size a
  k2_off11_inb : ∀ k2_t3 : Fin k2_t3_loop.trips, ∀ a, (k2_off11 k2_t3) a + S1x1x16.size a ≤ S2x16x2048.size a
  k2_off12_inb : ∀ k2_t3 : Fin k2_t3_loop.trips, ∀ a, (k2_off12 k2_t3) a + S1x1x16.size a ≤ S2x16x2048.size a
  k2_off13_inb : ∀ k2_t3 : Fin k2_t3_loop.trips, ∀ a, (k2_off13 k2_t3) a + S1x1x16.size a ≤ S2x16x2048.size a
  k2_off14_inb : ∀ k2_t3 : Fin k2_t3_loop.trips, ∀ a, (k2_off14 k2_t3) a + S1x1x16.size a ≤ S2x16x2048.size a
  k2_off15_inb : ∀ k2_t3 : Fin k2_t3_loop.trips, ∀ a, (k2_off15 k2_t3) a + S1x1x16.size a ≤ S2x16x2048.size a
  k2_off16_inb : ∀ k2_t3 : Fin k2_t3_loop.trips, ∀ a, (k2_off16 k2_t3) a + S1x1x16.size a ≤ S2x16x2048.size a
  k2_off17_inb : ∀ k2_t3 : Fin k2_t3_loop.trips, ∀ a, (k2_off17 k2_t3) a + S1x1x16.size a ≤ S2x16x2048.size a
  k2_off18_inb : ∀ k2_t3 : Fin k2_t3_loop.trips, ∀ a, (k2_off18 k2_t3) a + S1x1x16.size a ≤ S2x16x2048.size a
  k2_off19_inb : ∀ k2_t3 : Fin k2_t3_loop.trips, ∀ a, (k2_off19 k2_t3) a + S1x1x16.size a ≤ S2x16x2048.size a
  k2_off20_inb : ∀ k2_t3 : Fin k2_t3_loop.trips, ∀ a, (k2_off20 k2_t3) a + S1x1x16.size a ≤ S2x16x2048.size a
  k2_off21_inb : ∀ k2_t3 : Fin k2_t3_loop.trips, ∀ a, (k2_off21 k2_t3) a + S1x1x16.size a ≤ S2x16x2048.size a
  k2_off22_inb : ∀ k2_t3 : Fin k2_t3_loop.trips, ∀ a, (k2_off22 k2_t3) a + S1x1x16.size a ≤ S2x16x2048.size a
  k2_off23_inb : ∀ k2_t3 : Fin k2_t3_loop.trips, ∀ a, (k2_off23 k2_t3) a + S1x16.size a ≤ S2x2048.size a
  k2_off24_inb : ∀ k2_t3 : Fin k2_t3_loop.trips, ∀ a, (k2_off24 k2_t3) a + S1x1x16.size a ≤ S2x16x2048.size a
  k2_off25_inb : ∀ k2_t3 : Fin k2_t3_loop.trips, ∀ a, (k2_off25 k2_t3) a + S1x1x16.size a ≤ S2x16x2048.size a
  k2_off26_inb : ∀ k2_t3 : Fin k2_t3_loop.trips, ∀ a, (k2_off26 k2_t3) a + S1x1x16.size a ≤ S2x16x2048.size a
  k2_off27_inb : ∀ k2_t3 : Fin k2_t3_loop.trips, ∀ a, (k2_off27 k2_t3) a + S1x1x16.size a ≤ S2x16x2048.size a
  k2_off28_inb : ∀ k2_t3 : Fin k2_t3_loop.trips, ∀ a, (k2_off28 k2_t3) a + S1x1x16.size a ≤ S2x16x2048.size a
  k2_off29_inb : ∀ k2_t3 : Fin k2_t3_loop.trips, ∀ a, (k2_off29 k2_t3) a + S1x1x16.size a ≤ S2x16x2048.size a
  k2_off30_inb : ∀ k2_t3 : Fin k2_t3_loop.trips, ∀ a, (k2_off30 k2_t3) a + S1x1x16.size a ≤ S2x16x2048.size a
  k2_off31_inb : ∀ k2_t3 : Fin k2_t3_loop.trips, ∀ a, (k2_off31 k2_t3) a + S1x1x16.size a ≤ S2x16x2048.size a
  k2_off32_inb : ∀ k2_t3 : Fin k2_t3_loop.trips, ∀ a, (k2_off32 k2_t3) a + S1x1x16.size a ≤ S2x16x2048.size a
  k2_off33_inb : ∀ k2_t3 : Fin k2_t3_loop.trips, ∀ a, (k2_off33 k2_t3) a + S1x1x16.size a ≤ S2x16x2048.size a
  k2_off34_inb : ∀ k2_t3 : Fin k2_t3_loop.trips, ∀ a, (k2_off34 k2_t3) a + S1x1x16.size a ≤ S2x16x2048.size a
  k2_off35_inb : ∀ k2_t3 : Fin k2_t3_loop.trips, ∀ a, (k2_off35 k2_t3) a + S1x1x16.size a ≤ S2x16x2048.size a
  k2_off36_inb : ∀ k2_t3 : Fin k2_t3_loop.trips, ∀ a, (k2_off36 k2_t3) a + S1x1x16.size a ≤ S2x16x2048.size a
  k2_off37_inb : ∀ k2_t3 : Fin k2_t3_loop.trips, ∀ a, (k2_off37 k2_t3) a + S1x1x16.size a ≤ S2x16x2048.size a
  k2_off38_inb : ∀ k2_t3 : Fin k2_t3_loop.trips, ∀ a, (k2_off38 k2_t3) a + S1x1x16.size a ≤ S2x16x2048.size a
  k2_off39_inb : ∀ k2_t3 : Fin k2_t3_loop.trips, ∀ a, (k2_off39 k2_t3) a + S1x1x16.size a ≤ S2x16x2048.size a
  k2_off40_inb : ∀ (i : grid2.Coords) (k2_t2 : Fin k2_t2_loop.trips), ∀ (r₁ : Fin 16) (r₂ : Fin 2), ∀ a, (k2_off40 i k2_t2 (BitVec.ofNat 32 (2097152 * r₁.val)) (BitVec.ofNat 32 r₂.val)) a + S2048.size a ≤ S33554432.size a
  k2_off41_inb : ∀ (i : grid2.Coords) (k2_t2 : Fin k2_t2_loop.trips), ∀ (r : Fin 2), ∀ a, (k2_off41 i k2_t2 (BitVec.ofNat 32 r.val)) a + S2048.size a ≤ S2097152.size a
  k2_t4_ok : k2_t4_loop.OK
  k2_off42_inb : ∀ k2_t4 : Fin k2_t4_loop.trips, ∀ a, (k2_off42 k2_t4) a + S1x16.size a ≤ S2x2048.size a
  k2_off43_inb : ∀ k2_t4 : Fin k2_t4_loop.trips, ∀ a, (k2_off43 k2_t4) a + S1x1x16.size a ≤ S2x16x2048.size a
  k2_off44_inb : ∀ k2_t4 : Fin k2_t4_loop.trips, ∀ a, (k2_off44 k2_t4) a + S1x1x16.size a ≤ S2x16x2048.size a
  k2_off45_inb : ∀ k2_t4 : Fin k2_t4_loop.trips, ∀ a, (k2_off45 k2_t4) a + S1x1x16.size a ≤ S2x16x2048.size a
  k2_off46_inb : ∀ k2_t4 : Fin k2_t4_loop.trips, ∀ a, (k2_off46 k2_t4) a + S1x1x16.size a ≤ S2x16x2048.size a
  k2_off47_inb : ∀ k2_t4 : Fin k2_t4_loop.trips, ∀ a, (k2_off47 k2_t4) a + S1x1x16.size a ≤ S2x16x2048.size a
  k2_off48_inb : ∀ k2_t4 : Fin k2_t4_loop.trips, ∀ a, (k2_off48 k2_t4) a + S1x1x16.size a ≤ S2x16x2048.size a
  k2_off49_inb : ∀ k2_t4 : Fin k2_t4_loop.trips, ∀ a, (k2_off49 k2_t4) a + S1x1x16.size a ≤ S2x16x2048.size a
  k2_off50_inb : ∀ k2_t4 : Fin k2_t4_loop.trips, ∀ a, (k2_off50 k2_t4) a + S1x1x16.size a ≤ S2x16x2048.size a
  k2_off51_inb : ∀ k2_t4 : Fin k2_t4_loop.trips, ∀ a, (k2_off51 k2_t4) a + S1x1x16.size a ≤ S2x16x2048.size a
  k2_off52_inb : ∀ k2_t4 : Fin k2_t4_loop.trips, ∀ a, (k2_off52 k2_t4) a + S1x1x16.size a ≤ S2x16x2048.size a
  k2_off53_inb : ∀ k2_t4 : Fin k2_t4_loop.trips, ∀ a, (k2_off53 k2_t4) a + S1x1x16.size a ≤ S2x16x2048.size a
  k2_off54_inb : ∀ k2_t4 : Fin k2_t4_loop.trips, ∀ a, (k2_off54 k2_t4) a + S1x1x16.size a ≤ S2x16x2048.size a
  k2_off55_inb : ∀ k2_t4 : Fin k2_t4_loop.trips, ∀ a, (k2_off55 k2_t4) a + S1x1x16.size a ≤ S2x16x2048.size a
  k2_off56_inb : ∀ k2_t4 : Fin k2_t4_loop.trips, ∀ a, (k2_off56 k2_t4) a + S1x1x16.size a ≤ S2x16x2048.size a
  k2_off57_inb : ∀ k2_t4 : Fin k2_t4_loop.trips, ∀ a, (k2_off57 k2_t4) a + S1x1x16.size a ≤ S2x16x2048.size a
  k2_off58_inb : ∀ k2_t4 : Fin k2_t4_loop.trips, ∀ a, (k2_off58 k2_t4) a + S1x1x16.size a ≤ S2x16x2048.size a
  k2_off59_inb : ∀ k2_t4 : Fin k2_t4_loop.trips, ∀ a, (k2_off59 k2_t4) a + S1x16.size a ≤ S2x2048.size a
  k2_off60_inb : ∀ k2_t4 : Fin k2_t4_loop.trips, ∀ a, (k2_off60 k2_t4) a + S1x1x16.size a ≤ S2x16x2048.size a
  k2_off61_inb : ∀ k2_t4 : Fin k2_t4_loop.trips, ∀ a, (k2_off61 k2_t4) a + S1x1x16.size a ≤ S2x16x2048.size a
  k2_off62_inb : ∀ k2_t4 : Fin k2_t4_loop.trips, ∀ a, (k2_off62 k2_t4) a + S1x1x16.size a ≤ S2x16x2048.size a
  k2_off63_inb : ∀ k2_t4 : Fin k2_t4_loop.trips, ∀ a, (k2_off63 k2_t4) a + S1x1x16.size a ≤ S2x16x2048.size a
  k2_off64_inb : ∀ k2_t4 : Fin k2_t4_loop.trips, ∀ a, (k2_off64 k2_t4) a + S1x1x16.size a ≤ S2x16x2048.size a
  k2_off65_inb : ∀ k2_t4 : Fin k2_t4_loop.trips, ∀ a, (k2_off65 k2_t4) a + S1x1x16.size a ≤ S2x16x2048.size a
  k2_off66_inb : ∀ k2_t4 : Fin k2_t4_loop.trips, ∀ a, (k2_off66 k2_t4) a + S1x1x16.size a ≤ S2x16x2048.size a
  k2_off67_inb : ∀ k2_t4 : Fin k2_t4_loop.trips, ∀ a, (k2_off67 k2_t4) a + S1x1x16.size a ≤ S2x16x2048.size a
  k2_off68_inb : ∀ k2_t4 : Fin k2_t4_loop.trips, ∀ a, (k2_off68 k2_t4) a + S1x1x16.size a ≤ S2x16x2048.size a
  k2_off69_inb : ∀ k2_t4 : Fin k2_t4_loop.trips, ∀ a, (k2_off69 k2_t4) a + S1x1x16.size a ≤ S2x16x2048.size a
  k2_off70_inb : ∀ k2_t4 : Fin k2_t4_loop.trips, ∀ a, (k2_off70 k2_t4) a + S1x1x16.size a ≤ S2x16x2048.size a
  k2_off71_inb : ∀ k2_t4 : Fin k2_t4_loop.trips, ∀ a, (k2_off71 k2_t4) a + S1x1x16.size a ≤ S2x16x2048.size a
  k2_off72_inb : ∀ k2_t4 : Fin k2_t4_loop.trips, ∀ a, (k2_off72 k2_t4) a + S1x1x16.size a ≤ S2x16x2048.size a
  k2_off73_inb : ∀ k2_t4 : Fin k2_t4_loop.trips, ∀ a, (k2_off73 k2_t4) a + S1x1x16.size a ≤ S2x16x2048.size a
  k2_off74_inb : ∀ k2_t4 : Fin k2_t4_loop.trips, ∀ a, (k2_off74 k2_t4) a + S1x1x16.size a ≤ S2x16x2048.size a
  k2_off75_inb : ∀ k2_t4 : Fin k2_t4_loop.trips, ∀ a, (k2_off75 k2_t4) a + S1x1x16.size a ≤ S2x16x2048.size a
  k2_off76_inb : ∀ i : grid2.Coords, ∀ a, (k2_off76 i) a + S1x1024.size a ≤ S32x1024.size a
  hstage3_0 : ∀ j, (stage3_0 j).IsWhole
  hstage3_1 : ∀ j, (stage3_1 j).IsWhole
  hstage3_2 : ∀ j, (stage3_2 j).IsWhole
  hstage3_3 : ∀ j, (stage3_3 j).IsWhole

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1
abbrev cc2_scratch5 : DmaSems sig S_ := SemArray.consecutive 8 S_ hcc2_scratch5
abbrev cc2_scratch6 : DmaSems sig S_ := SemArray.consecutive 9 S_ hcc2_scratch6
abbrev cc2_scoped0 : DmaSems sig S_ := SemArray.consecutive 10 S_ hcc2_scoped0
abbrev cc2_scoped1 : DmaSems sig S_ := SemArray.consecutive 11 S_ hcc2_scoped1
def dot_S1x32_S32x16384_S1x16384_1_0_0_1_n_n : DotDims S1x32 S32x16384 S1x16384 where
  lhsContracting := [1]
  rhsContracting := [0]
  lhsNonContracting := [0]
  rhsNonContracting := [1]
  lhsBatch := []
  rhsBatch := []
  wf := dot_S1x32_S32x16384_S1x16384_1_0_0_1_n_n_wf
def dot_S1x32_S32x1024_S1x1024_1_0_0_1_n_n : DotDims S1x32 S32x1024 S1x1024 where
  lhsContracting := [1]
  rhsContracting := [0]
  lhsNonContracting := [0]
  rhsNonContracting := [1]
  lhsBatch := []
  rhsBatch := []
  wf := dot_S1x32_S32x1024_S1x1024_1_0_0_1_n_n_wf
def dot_S1x1024_S1024x64_S1x64_1_0_0_1_n_n : DotDims S1x1024 S1024x64 S1x64 where
  lhsContracting := [1]
  rhsContracting := [0]
  lhsNonContracting := [0]
  rhsNonContracting := [1]
  lhsBatch := []
  rhsBatch := []
  wf := dot_S1x1024_S1024x64_S1x64_1_0_0_1_n_n_wf
def dot_S64x1024_S1x1024_S64x1_1_1_0_0_n_n : DotDims S64x1024 S1x1024 S64x1 where
  lhsContracting := [1]
  rhsContracting := [1]
  lhsNonContracting := [0]
  rhsNonContracting := [0]
  lhsBatch := []
  rhsBatch := []
  wf := dot_S64x1024_S1x1024_S64x1_1_1_0_0_n_n_wf

abbrev win1_0 : Pipeline.Window sig grid1 :=
  Pipeline.Window.whole (Memref.whole main_v3_0) false false (stage1_0 0) (sem1_0 0) (Memref.isWhole_whole _) (hstage1_0 0)

abbrev win1_1 : Pipeline.Window sig grid1 :=
  Pipeline.Window.whole (Memref.whole main_v3_1) false false (stage1_1 0) (sem1_1 0) (Memref.isWhole_whole _) (hstage1_1 0)

abbrev win1_2 : Pipeline.Window sig grid1 :=
  Pipeline.Window.whole (Memref.whole main_v4_0) true false (stage1_2 0) (sem1_2 0) (Memref.isWhole_whole _) (hstage1_2 0)

abbrev win1_3 : Pipeline.Window sig grid1 :=
  Pipeline.Window.whole (Memref.whole main_v4_1) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win3_0 : Pipeline.Window sig grid3 :=
  Pipeline.Window.whole (Memref.whole main_v6) false false (stage3_0 0) (sem3_0 0) (Memref.isWhole_whole _) (hstage3_0 0)

abbrev win3_1 : Pipeline.Window sig grid3 :=
  Pipeline.Window.whole (Memref.whole main_v3_1) false false (stage3_1 0) (sem3_1 0) (Memref.isWhole_whole _) (hstage3_1 0)

abbrev win3_2 : Pipeline.Window sig grid3 :=
  Pipeline.Window.whole (Memref.whole main_v4_1) false false (stage3_2 0) (sem3_2 0) (Memref.isWhole_whole _) (hstage3_2 0)

abbrev win3_3 : Pipeline.Window sig grid3 :=
  Pipeline.Window.whole (Memref.whole main_v7) true false (stage3_3 0) (sem3_3 0) (Memref.isWhole_whole _) (hstage3_3 0)

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1x16x32x256x256 : Shape := ⟨5, ![1, 16, 32, 256, 256]⟩
abbrev S1x1x32x256x256 : Shape := ⟨5, ![1, 1, 32, 256, 256]⟩
abbrev S_ : Shape := ⟨0, ![]⟩
abbrev S2097152 : Shape := ⟨1, ![2097152]⟩
abbrev S16x32x256x256 : Shape := ⟨4, ![16, 32, 256, 256]⟩
abbrev S16x2097152 : Shape := ⟨2, ![16, 2097152]⟩
abbrev S2097152x16 : Shape := ⟨2, ![2097152, 16]⟩
abbrev S64 : Shape := ⟨1, ![64]⟩
abbrev S2097152x1 : Shape := ⟨2, ![2097152, 1]⟩
abbrev S64x16 : Shape := ⟨2, ![64, 16]⟩
abbrev S64x1 : Shape := ⟨2, ![64, 1]⟩
abbrev S64x1x16 : Shape := ⟨3, ![64, 1, 16]⟩
abbrev S1x64x16 : Shape := ⟨3, ![1, 64, 16]⟩
abbrev S64x64x16 : Shape := ⟨3, ![64, 64, 16]⟩
abbrev S64x64 : Shape := ⟨2, ![64, 64]⟩
abbrev S1x64 : Shape := ⟨2, ![1, 64]⟩

abbrev nBuf : Space → Nat
  | .hbm => 133
  | .vmem => 0
  | .smem => 0
  | _ => 0

abbrev hbmTy0_0 (i : Nat) : BufTy := match i % 128 with
  | 0 => ⟨S1x16x32x256x256, .f32⟩
  | 1 => ⟨S1x1x32x256x256, .i32⟩
  | 2 => ⟨S1x1x32x256x256, .i32⟩
  | 3 => ⟨S_, .i32⟩
  | 4 => ⟨S1x1x32x256x256, .i32⟩
  | 5 => ⟨S1x1x32x256x256, .i1⟩
  | 6 => ⟨S1x1x32x256x256, .i32⟩
  | 7 => ⟨S1x1x32x256x256, .i32⟩
  | 8 => ⟨S2097152, .i32⟩
  | 9 => ⟨S16x32x256x256, .f32⟩
  | 10 => ⟨S16x2097152, .f32⟩
  | 11 => ⟨S2097152x16, .f32⟩
  | 12 => ⟨S_, .f32⟩
  | 13 => ⟨S2097152, .f32⟩
  | 14 => ⟨S_, .f32⟩
  | 15 => ⟨S64, .f32⟩
  | 16 => ⟨S2097152x1, .i32⟩
  | 17 => ⟨S64, .f32⟩
  | 18 => ⟨S_, .f32⟩
  | 19 => ⟨S64x16, .f32⟩
  | 20 => ⟨S2097152x1, .i32⟩
  | 21 => ⟨S64x16, .f32⟩
  | 22 => ⟨S_, .f32⟩
  | 23 => ⟨S64, .f32⟩
  | 24 => ⟨S64, .f32⟩
  | 25 => ⟨S64x1, .f32⟩
  | 26 => ⟨S64x16, .f32⟩
  | 27 => ⟨S64x16, .f32⟩
  | 28 => ⟨S_, .f32⟩
  | 29 => ⟨S64, .f32⟩
  | 30 => ⟨S64, .i1⟩
  | 31 => ⟨S64, .i32⟩
  | 32 => ⟨S_, .i32⟩
  | 33 => ⟨S64, .i32⟩
  | 34 => ⟨S64, .i1⟩
  | 35 => ⟨S64, .i1⟩
  | 36 => ⟨S64, .f32⟩
  | 37 => ⟨S_, .f32⟩
  | 38 => ⟨S_, .f32⟩
  | 39 => ⟨S_, .i32⟩
  | 40 => ⟨S2097152, .i32⟩
  | 41 => ⟨S2097152, .i1⟩
  | 42 => ⟨S_, .i32⟩
  | 43 => ⟨S2097152, .i32⟩
  | 44 => ⟨S2097152, .i32⟩
  | 45 => ⟨S2097152, .i32⟩
  | 46 => ⟨S2097152x1, .i32⟩
  | 47 => ⟨S2097152x16, .f32⟩
  | 48 => ⟨S2097152x16, .f32⟩
  | 49 => ⟨S2097152x16, .f32⟩
  | 50 => ⟨S_, .f32⟩
  | 51 => ⟨S2097152, .f32⟩
  | 52 => ⟨S_, .f32⟩
  | 53 => ⟨S2097152, .f32⟩
  | 54 => ⟨S2097152, .f32⟩
  | 55 => ⟨S_, .f32⟩
  | 56 => ⟨S2097152, .f32⟩
  | 57 => ⟨S2097152, .f32⟩
  | 58 => ⟨S2097152, .f32⟩
  | 59 => ⟨S_, .f32⟩
  | 60 => ⟨S64, .f32⟩
  | 61 => ⟨S2097152x1, .i32⟩
  | 62 => ⟨S64, .f32⟩
  | 63 => ⟨S64, .f32⟩
  | 64 => ⟨S_, .f32⟩
  | 65 => ⟨S_, .f32⟩
  | 66 => ⟨S64, .f32⟩
  | 67 => ⟨S64, .f32⟩
  | 68 => ⟨S_, .f32⟩
  | 69 => ⟨S_, .f32⟩
  | 70 => ⟨S_, .f32⟩
  | 71 => ⟨S_, .f32⟩
  | 72 => ⟨S_, .f32⟩
  | 73 => ⟨S64x1x16, .f32⟩
  | 74 => ⟨S1x64x16, .f32⟩
  | 75 => ⟨S64x64x16, .f32⟩
  | 76 => ⟨S64x64x16, .f32⟩
  | 77 => ⟨S64x64x16, .f32⟩
  | 78 => ⟨S64x64x16, .f32⟩
  | 79 => ⟨S_, .f32⟩
  | 80 => ⟨S64x64, .f32⟩
  | 81 => ⟨S_, .f32⟩
  | 82 => ⟨S64x64, .f32⟩
  | 83 => ⟨S64x64, .f32⟩
  | 84 => ⟨S64x1, .i1⟩
  | 85 => ⟨S1x64, .i1⟩
  | 86 => ⟨S64x64, .i1⟩
  | 87 => ⟨S64x64, .i1⟩
  | 88 => ⟨S64x64, .i1⟩
  | 89 => ⟨S64x64, .i32⟩
  | 90 => ⟨S64x64, .i32⟩
  | 91 => ⟨S_, .i32⟩
  | 92 => ⟨S64x64, .i32⟩
  | 93 => ⟨S64x64, .i32⟩
  | 94 => ⟨S64x64, .i1⟩
  | 95 => ⟨S64x64, .i1⟩
  | 96 => ⟨S64x64, .i1⟩
  | 97 => ⟨S_, .f32⟩
  | 98 => ⟨S64x64, .f32⟩
  | 99 => ⟨S64x64, .f32⟩
  | 100 => ⟨S64x64, .f32⟩
  | 101 => ⟨S_, .f32⟩
  | 102 => ⟨S_, .f32⟩
  | 103 => ⟨S64x64, .f32⟩
  | 104 => ⟨S64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S64x16, .f32⟩
  | 114 => ⟨S_, .f32⟩
  | 115 => ⟨S64, .f32⟩
  | 116 => ⟨S_, .f32⟩
  | 117 => ⟨S_, .f32⟩
  | 118 => ⟨S64, .f32⟩
  | 119 => ⟨S64, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1x16x32x256x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S1x16x32x256x256, .f32⟩

abbrev hbmTy (i : Nat) : BufTy := match i / 128 with
  | 0 => hbmTy0_0 i
  | 1 => hbmTy0_1 i
  | _ => ⟨S1x16x32x256x256, .f32⟩

abbrev bufTy : (tb : Table) → Fin (tcTables nBuf tb) → BufTy
  | .hbm, ⟨i, _⟩ => hbmTy i
  | _, _ => ⟨S1x16x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_call0_v0 : Ref sig .tc := ⟨.hbm, 65, rfl⟩
abbrev main_call0_v1 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_cst_16 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_19 : Ref sig .tc := ⟨.hbm, 101, rfl⟩
abbrev main_call1_v0 : Ref sig .tc := ⟨.hbm, 102, rfl⟩
abbrev main_call1_v1 : Ref sig .tc := ⟨.hbm, 103, rfl⟩
abbrev main_v75 : Ref sig .tc := ⟨.hbm, 104, rfl⟩
abbrev main_cst_20 : Ref sig .tc := ⟨.hbm, 105, rfl⟩
abbrev main_v76 : Ref sig .tc := ⟨.hbm, 106, rfl⟩
abbrev main_cst_21 : Ref sig .tc := ⟨.hbm, 107, rfl⟩
abbrev main_v77 : Ref sig .tc := ⟨.hbm, 108, rfl⟩
abbrev main_v78 : Ref sig .tc := ⟨.hbm, 109, rfl⟩
abbrev main_cst_22 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_23 : Ref sig .tc := ⟨.hbm, 114, rfl⟩
abbrev main_v82 : Ref sig .tc := ⟨.hbm, 115, rfl⟩
abbrev main_cst_24 : Ref sig .tc := ⟨.hbm, 116, rfl⟩
abbrev main_call2_v0 : Ref sig .tc := ⟨.hbm, 117, rfl⟩
abbrev main_call2_v1 : Ref sig .tc := ⟨.hbm, 118, rfl⟩
abbrev main_v83 : Ref sig .tc := ⟨.hbm, 119, rfl⟩
abbrev main_cst_25 : Ref sig .tc := ⟨.hbm, 120, rfl⟩
abbrev main_v84 : Ref sig .tc := ⟨.hbm, 121, rfl⟩
abbrev main_cst_26 : Ref sig .tc := ⟨.hbm, 122, rfl⟩
abbrev main_v85 : Ref sig .tc := ⟨.hbm, 123, rfl⟩
abbrev main_v86 : Ref sig .tc := ⟨.hbm, 124, rfl⟩
abbrev main_cst_27 : Ref sig .tc := ⟨.hbm, 125, rfl⟩
abbrev main_v87 : Ref sig .tc := ⟨.hbm, 126, rfl⟩
abbrev main_cst_28 : Ref sig .tc := ⟨.hbm, 127, rfl⟩
abbrev main_v88 : Ref sig .tc := ⟨.hbm, 128, rfl⟩
abbrev main_v89 : Ref sig .tc := ⟨.hbm, 129, rfl⟩
abbrev main_cst_29 : Ref sig .tc := ⟨.hbm, 130, rfl⟩
abbrev main_v90 : Ref sig .tc := ⟨.hbm, 131, rfl⟩
abbrev main_v91 : Ref sig .tc := ⟨.hbm, 132, rfl⟩

abbrev nD : Nat := 1
abbrev τ : Topo := Topo.v7x

variable {F : FTy → Type} [FloatOps F]

class Facts₀ : Prop where
  bcast_S_S1x1x32x256x256 : S_.BroadcastsInDim S1x1x32x256x256 (![] : Fin 0 → Fin S1x1x32x256x256.rank)
  natLt_1_32 : 1 < 32
  shapeCasts_S1x1x32x256x256_S2097152 : S1x1x32x256x256.ShapeCasts S2097152
  shapeCasts_S1x16x32x256x256_S16x32x256x256 : S1x16x32x256x256.ShapeCasts S16x32x256x256
  shapeCasts_S16x32x256x256_S16x2097152 : S16x32x256x256.ShapeCasts S16x2097152
  transposes_S16x2097152_S2097152x16_1_0 : S16x2097152.Transposes [1, 0] S2097152x16
  bcast_S_S2097152 : S_.BroadcastsInDim S2097152 (![] : Fin 0 → Fin S2097152.rank)
  bcast_S_S64 : S_.BroadcastsInDim S64 (![] : Fin 0 → Fin S64.rank)
  bcast_S2097152_S2097152x1_0 : S2097152.BroadcastsInDim S2097152x1 (![0] : Fin 1 → Fin S2097152x1.rank)
  bcast_S_S64x16 : S_.BroadcastsInDim S64x16 (![] : Fin 0 → Fin S64x16.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  reducesTo_S64_S_d0 : S64.ReducesTo [0] S_
  h_S_ : 0 < S_.numel
  reducesTo_S2097152x16_S2097152_d1 : S2097152x16.ReducesTo [1] S2097152
  bcast_S64x16_S64x1x16_0_2 : S64x16.BroadcastsInDim S64x1x16 (![0, 2] : Fin 2 → Fin S64x1x16.rank)
  bcast_S64x16_S1x64x16_1_2 : S64x16.BroadcastsInDim S1x64x16 (![1, 2] : Fin 2 → Fin S1x64x16.rank)
  bcast_S64x1x16_S64x64x16_0_1_2 : S64x1x16.BroadcastsInDim S64x64x16 (![0, 1, 2] : Fin 3 → Fin S64x64x16.rank)
  bcast_S1x64x16_S64x64x16_0_1_2 : S1x64x16.BroadcastsInDim S64x64x16 (![0, 1, 2] : Fin 3 → Fin S64x64x16.rank)
  reducesTo_S64x64x16_S64x64_d2 : S64x64x16.ReducesTo [2] S64x64
  bcast_S_S64x64 : S_.BroadcastsInDim S64x64 (![] : Fin 0 → Fin S64x64.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S_d0_1 : S64x64.ReducesTo [0, 1] S_
  reducesTo_S64x16_S64_d1 : S64x16.ReducesTo [1] S64
  scatter_S64_S2097152x1_S2097152_n_0_0_1_wf : ScatterDims.WF S64 S2097152x1 S2097152 [] [0] [0] 1
  scatter_S64x16_S2097152x1_S2097152x16_1_0_0_1_wf : ScatterDims.WF S64x16 S2097152x1 S2097152x16 [1] [0] [0] 1
  gather_S64x16_S2097152x1_S2097152x16_1_0_n_n_0_1_116_wf : GatherDims.WF S64x16 S2097152x1 S2097152x16 [1] [0] [] [0] [] 1 ![1, 16]

variable [Facts₀]

def scatter_S64_S2097152x1_S2097152_n_0_0_1 : ScatterDims S64 S2097152x1 S2097152 where
  updateWindowDims := []
  insertedWindowDims := [0]
  scatterDimsToOperandDims := [0]
  indexVectorDim := 1
  wf := scatter_S64_S2097152x1_S2097152_n_0_0_1_wf
def scatter_S64x16_S2097152x1_S2097152x16_1_0_0_1 : ScatterDims S64x16 S2097152x1 S2097152x16 where
  updateWindowDims := [1]
  insertedWindowDims := [0]
  scatterDimsToOperandDims := [0]
  indexVectorDim := 1
  wf := scatter_S64x16_S2097152x1_S2097152x16_1_0_0_1_wf
def gather_S64x16_S2097152x1_S2097152x16_1_0_n_n_0_1_116 : GatherDims S64x16 S2097152x1 S2097152x16 where
  offsetDims := [1]
  collapsedSliceDims := [0]
  operandBatchingDims := []
  startIndicesBatchingDims := []
  startIndexMap := [0]
  indexVectorDim := 1
  sliceSizes := ![1, 16]
  wf := gather_S64x16_S2097152x1_S2097152x16_1_0_n_n_0_1_116_wf

class Facts : Prop extends Facts₀ where

variable [Facts]
-- ==== Proof.RefFrame.lean ====
/-
  The reference program's frame: its run (every weakly fair execution of its host program terminates, nothing
  faults, the result is the composed pure term of the arguments, the arguments unchanged) with the result dropped.
-/
import proofs.«210783_g59777354826199_cont_9to1_m_168_18_alg».proof.Defs
import proofs.«210783_g59777354826199_cont_9to1_m_168_18_alg».proof.Proof.Gen.ReferenceIdeal
import proofs.«210783_g59777354826199_cont_9to1_m_168_18_alg».proof.Proof.RefRun
import proofs.«210783_g59777354826199_cont_9to1_m_168_18_alg».proof.Proof.Gen.Pre_input_domain

noncomputable section

open Idealize.ShloMosaic Idealize.SL.Sem

namespace Cert.Proof.RefFrame

theorem frame_ri : Cert.frame_ReferenceIdeal (hReferenceIdeal := Cert.ReferenceIdeal.Gen.facts)
    (hPre_input_domain := Cert.Pre_input_domain.Gen.facts) := fun m ρ _ =>
  (θ_run Cert.ReferenceIdeal.defs _ _).mono (fun _ h c => (h c).2) (Cert.ReferenceIdeal.ValueP.run (F := Ideal) m ρ)

end Cert.Proof.RefFrame

end
-- ==== Proof.SetupI.lean ====
/-
  The idealized program as the SparseCore launch theorem sees it: the launch configuration (two vector-subcore
  calls beside two TensorCore pallas_calls), the body table, the variants, and the certificate's ghost state — the
  handshakes' rounds, the pipelines' staging cells' rounds, and the transfers' counters.
-/
import proofs.«210783_g59777354826199_cont_9to1_m_168_18_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«210783_g59777354826199_cont_9to1_m_168_18_alg».proof.Proof.Gen.KernelIdeal
import proofs.«210783_g59777354826199_cont_9to1_m_168_18_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the transfers' counters -/

abbrev UH : Type := URounds (GSem nD τ sig) ℕ
abbrev UP : Type := URounds (GSem nD τ sig) Unit
abbrev UU : Type := UH × (UP × Counters)

abbrev 𝕄F (F : FTy → Type) : Type := MT nD τ sig (HIx 2) (Elt F) ℕ UU ℕ

/-- The handshakes' rounds library is the left factor; the pipelines' the left of the right; the counters are found by instance. -/
abbrev EH : Emb UH (MT nD τ sig (HIx 2) (Elt F) ℕ UU ℕ) := embL

end Cert.Proof.KI

end
-- ==== Proof.LaunchI.lean ====
/-
  The launch of the idealized program: what each handshake carries (every tile a read share of the three flattened
  inputs — and, in the second call, of the means table — and the row of each partial-result array it writes), the
  split of a SparseCore's operands among its sixteen tiles, and the launch element of the ghost state.
  Tile (c, s) is worker s·2 + c: it reads voxels [w·65536, (w+1)·65536) and writes row w of the partial arrays.
-/
import proofs.«210783_g59777354826199_cont_9to1_m_168_18_alg».proof.Proof.SetupI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 2) (Elt F) ℕ UU ℕ

/-! ## The arrays of @main the SparseCore calls touch, as locations of device `d` -/

/-- the flattened embedding, target ids and mask; -/
abbrev aE (d : Dev nD) : Loc nD τ sig := (SparseCore.T d).loc main_v0
abbrev aT (d : Dev nD) : Loc nD τ sig := (SparseCore.T d).loc main_v1
abbrev aK (d : Dev nD) : Loc nD τ sig := (SparseCore.T d).loc main_v2
/-- the per-worker partial sums and counts (first call's results); -/
abbrev aS (d : Dev nD) : Loc nD τ sig := (SparseCore.T d).loc main_v3_0
abbrev aC (d : Dev nD) : Loc nD τ sig := (SparseCore.T d).loc main_v3_1
/-- the replicated means table (second call's fourth operand) and the per-worker partial terms (its result). -/
abbrev aM (d : Dev nD) : Loc nD τ sig := (SparseCore.T d).loc main_v5
abbrev aR (d : Dev nD) : Loc nD τ sig := (SparseCore.T d).loc main_v6

/-! ## Workers and their rows -/

theorem nCore0 : (K (F := F)).nCore 0 = 2 := rfl
theorem nSub0 : (K (F := F)).nSub 0 = 16 := rfl
theorem nCore1 : (K (F := F)).nCore 1 = 2 := rfl
theorem nSub1 : (K (F := F)).nSub 1 = 16 := rfl

/-- Worker number of tile `s` of SparseCore `c`: `s · 2 + c`. -/
def wid (c s : ℕ) (hc : c < 2) (hs : s < 16) : Fin 32 := ⟨s * 2 + c, by omega⟩

theorem hdivS : 32 ∣ S32x16384.size 0 := ⟨1, rfl⟩
theorem hdivC : 32 ∣ S32x1024.size 0 := ⟨1, rfl⟩
/-- Row `j` of a 32-row array. -/
abbrev rowS (j : Fin 32) : Rect S32x16384 := Rect.part (s := S32x16384) (a₀ := 0) hdivS j
abbrev rowC (j : Fin 32) : Rect S32x1024 := Rect.part (s := S32x1024) (a₀ := 0) hdivC j

variable (cE : (d : Dev nD) → Buf (Elt F) (aE d)) (cT : (d : Dev nD) → Buf (Elt F) (aT d)) (cK : (d : Dev nD) → Buf (Elt F) (aK d))

/-- Worker `j`'s read shares of the three inputs, at their contents at the calls. -/
def inToks (d : Dev nD) (j : Fin 32) : sProp 𝕄 :=
  iprop((aE d ↦{shareTok fullShare 32 j} cE d) ∗ (aT d ↦{shareTok fullShare 32 j} cT d) ∗ (aK d ↦{shareTok fullShare 32 j} cK d))

/-- First call: the shares, and row `j` of the partial sums and of the partial counts, at whatever they hold. -/
def task0 (d : Dev nD) (j : Fin 32) : sProp 𝕄 :=
  iprop(inToks cE cT cK d j ∗ (∃ f, aS d ↦[(rowS j).set]{fullShare} f) ∗ (∃ f, aC d ↦[(rowC j).set]{fullShare} f))

/-- Second call: the shares, a share of the means table (at whatever it holds), and row `j` of the partial terms. -/
def task1 (d : Dev nD) (j : Fin 32) : sProp 𝕄 :=
  iprop(inToks cE cT cK d j ∗ (∃ mt : Buf (Elt F) (aM d), aM d ↦{shareTok fullShare 32 j} mt) ∗ (∃ f, aR d ↦[(rowC j).set]{fullShare} f))

/-- What the handshakes carry: to a SparseCore its sixteen tasks' operands, to a tile its own; back the same (the rows at
    what the task left). -/
def P : (K (F := F)).Pay (nD := nD) (Val := Elt F) (Name := ℕ) (U := UU) where
  st := fun q d c => match q with
    | 0 => bigSep Finset.univ fun i : Fin 16 => task0 cE cT cK d (wid c.val i.val c.isLt i.isLt)
    | 1 => bigSep Finset.univ fun i : Fin 16 => task1 cE cT cK d (wid c.val i.val c.isLt i.isLt)
  dn := fun q d c => match q with
    | 0 => bigSep Finset.univ fun i : Fin 16 => task0 cE cT cK d (wid c.val i.val c.isLt i.isLt)
    | 1 => bigSep Finset.univ fun i : Fin 16 => task1 cE cT cK d (wid c.val i.val c.isLt i.isLt)
  go := fun q d c i => match q with
    | 0 => task0 cE cT cK d (wid c.val i.val c.isLt i.isLt)
    | 1 => task1 cE cT cK d (wid c.val i.val c.isLt i.isLt)
  td := fun q d c i => match q with
    | 0 => task0 cE cT cK d (wid c.val i.val c.isLt i.isLt)
    | 1 => task1 cE cT cK d (wid c.val i.val c.isLt i.isLt)
  x := fun _ _ => iprop(emp)

instance task0_storable (d : Dev nD) (j : Fin 32) : BI.Storable (upEmb : UEmb _ 𝕄) (task0 cE cT cK d j) := by
  unfold task0 inToks; infer_instance
instance task1_storable (d : Dev nD) (j : Fin 32) : BI.Storable (upEmb : UEmb _ 𝕄) (task1 cE cT cK d j) := by
  unfold task1 inToks; infer_instance

instance P_storable : (P (F := F) cE cT cK).IsStorable where
  st q d c := match q with
    | 0 => (inferInstance : BI.Storable (upEmb : UEmb _ 𝕄) (bigSep Finset.univ fun i : Fin 16 => task0 cE cT cK d (wid c.val i.val c.isLt i.isLt)))
    | 1 => (inferInstance : BI.Storable (upEmb : UEmb _ 𝕄) (bigSep Finset.univ fun i : Fin 16 => task1 cE cT cK d (wid c.val i.val c.isLt i.isLt)))
  dn q d c := match q with
    | 0 => (inferInstance : BI.Storable (upEmb : UEmb _ 𝕄) (bigSep Finset.univ fun i : Fin 16 => task0 cE cT cK d (wid c.val i.val c.isLt i.isLt)))
    | 1 => (inferInstance : BI.Storable (upEmb : UEmb _ 𝕄) (bigSep Finset.univ fun i : Fin 16 => task1 cE cT cK d (wid c.val i.val c.isLt i.isLt)))
  go q d c i := match q with
    | 0 => (inferInstance : BI.Storable (upEmb : UEmb _ 𝕄) (task0 cE cT cK d (wid c.val i.val c.isLt i.isLt)))
    | 1 => (inferInstance : BI.Storable (upEmb : UEmb _ 𝕄) (task1 cE cT cK d (wid c.val i.val c.isLt i.isLt)))
  td q d c i := match q with
    | 0 => (inferInstance : BI.Storable (upEmb : UEmb _ 𝕄) (task0 cE cT cK d (wid c.val i.val c.isLt i.isLt)))
    | 1 => (inferInstance : BI.Storable (upEmb : UEmb _ 𝕄) (task1 cE cT cK d (wid c.val i.val c.isLt i.isLt)))

/-! ## A SparseCore's operands are its tasks' -/

theorem vecSplit0 : (K (F := F)).VecSplit' (P cE cT cK) 0 := by
  intro d c
  show (bigSep Finset.univ fun i : Fin 16 => task0 cE cT cK d (wid c.val i.val c.isLt i.isLt))
    ⊢ |={Set.univ}=> iprop((bigSep Finset.univ fun i : Fin 16 => task0 cE cT cK d (wid c.val i.val c.isLt i.isLt))
      ∗ ((bigSep Finset.univ fun i : Fin 16 => task0 cE cT cK d (wid c.val i.val c.isLt i.isLt))
          -∗ (bigSep Finset.univ fun i : Fin 16 => task0 cE cT cK d (wid c.val i.val c.isLt i.isLt))))
  iintro H; imodintro
  isplitl [H]; · iexact H
  iintro H; iexact H

theorem vecSplit1 : (K (F := F)).VecSplit' (P cE cT cK) 1 := by
  intro d c
  show (bigSep Finset.univ fun i : Fin 16 => task1 cE cT cK d (wid c.val i.val c.isLt i.isLt))
    ⊢ |={Set.univ}=> iprop((bigSep Finset.univ fun i : Fin 16 => task1 cE cT cK d (wid c.val i.val c.isLt i.isLt))
      ∗ ((bigSep Finset.univ fun i : Fin 16 => task1 cE cT cK d (wid c.val i.val c.isLt i.isLt))
          -∗ (bigSep Finset.univ fun i : Fin 16 => task1 cE cT cK d (wid c.val i.val c.isLt i.isLt))))
  iintro H; imodintro
  isplitl [H]; · iexact H
  iintro H; iexact H

end Cert.Proof.KI

end
-- ==== Proof.RunI.lean ====
/-
  The launch element of the ghost state (the handshakes' rounds; the two TensorCore pipelines' staging cells' ghost state
  and duty tokens, dealt to each device's TensorCore for @main's proof), how the final memory reads the claim, and the
  launch theorem applied: the program's run from the two tile obligations and @main's proof.
-/
import proofs.«210783_g59777354826199_cont_9to1_m_168_18_alg».proof.Proof.LaunchI
import proofs.«210783_g59777354826199_cont_9to1_m_168_18_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- The pipelines' rounds library: the left factor of the right factor of the ghost state. -/
abbrev EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP : Emb UP 𝕄).LandsIn (upEmb : UEmb _ 𝕄) := by show ((Emb.inl : Emb UP (UP × Counters)).trans (embR : Emb (UP × Counters) 𝕄)).LandsIn _; unfold embR; infer_instance

variable (m : (ℓ : Loc nD τ sig) → Buf (Elt F) ℓ) (ρ : Dev nD → PrngReg)
variable (cE : (d : Dev nD) → Buf (Elt F) (aE d)) (cT : (d : Dev nD) → Buf (Elt F) (aT d)) (cK : (d : Dev nD) → Buf (Elt F) (aK d))

/-! ## The launch element -/

/-- The handshakes' launch element; the staging cells' and their loops' duty tokens'; the counters' unit. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof on device `d` starts from beyond what the launch deals every TensorCore: both pipelines' staging
    cells' ghost state and duty tokens. -/
def G (d : Dev nD) : sProp 𝕄 :=
  bigSep Finset.univ fun p : Fin 2 => iprop(Pipeline.cellsGhost (nD := nD) (τ := τ) cfgs (EP (F := F)) p d ∗ Pipeline.toksInit (nD := nD) (τ := τ) cfgs (EP (F := F)) p d)

omit m ρ in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P cE cT cK).x q thr) := by
  unfold u₀
  iintro Hu
  ihave H := (ownU_pair _ _) $$ Hu
  icases H with ⟨HH, HR⟩
  ihave H' := (own_pair_emb (embR : Emb (UP × Counters) 𝕄) _ _) $$ HR
  icases H' with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold G
    simp only [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## What @main leaves the claim -/

abbrev xLoc0 (d : Dev nD) : Loc nD τ sig := (SparseCore.T d).loc main_arg0
abbrev xLoc1 (d : Dev nD) : Loc nD τ sig := (SparseCore.T d).loc main_arg1
abbrev xLoc2 (d : Dev nD) : Loc nD τ sig := (SparseCore.T d).loc main_arg2
abbrev rLoc (d : Dev nD) : Loc nD τ sig := (SparseCore.T d).loc main_v8

/-- The three arguments at their launch contents and the result at some contents. -/
abbrev FIN (d : Dev nD) : sProp 𝕄 :=
  iprop((xLoc0 d ↦{fullShare} m (xLoc0 d)) ∗ (xLoc1 d ↦{fullShare} m (xLoc1 d)) ∗ (xLoc2 d ↦{fullShare} m (xLoc2 d)))

def fq (d : Dev nD) (s' : Phys nD τ sig (Elt F)) : Prop :=
  s'.mem.mem (xLoc0 d) = m (xLoc0 d) ∧ s'.mem.mem (xLoc1 d) = m (xLoc1 d) ∧ s'.mem.mem (xLoc2 d) = m (xLoc2 d)

theorem hfin (d : Dev nD) (s' : Phys nD τ sig (Elt F)) : iprop(FIN m d ∗ SI s') ⊢ (⌜fq m d s'⌝ : sProp 𝕄) := by
  iintro ⟨⟨H0, H1, H2⟩, HSI⟩
  ihave %h0 := (SI_pointsTo_agree (st := s') (ℓ := xLoc0 d) (I := Finset.univ) (q := fullShare) (f := m (xLoc0 d))) $$ [HSI H0]
  · isplitl [HSI] <;> iassumption
  ihave %h1 := (SI_pointsTo_agree (st := s') (ℓ := xLoc1 d) (I := Finset.univ) (q := fullShare) (f := m (xLoc1 d))) $$ [HSI H1]
  · isplitl [HSI] <;> iassumption
  ihave %h2 := (SI_pointsTo_agree (st := s') (ℓ := xLoc2 d) (I := Finset.univ) (q := fullShare) (f := m (xLoc2 d))) $$ [HSI H2]
  · isplitl [HSI] <;> iassumption
  ipureintro
  exact ⟨funext fun i => h0 i (Finset.mem_univ i), funext fun i => h1 i (Finset.mem_univ i), funext fun i => h2 i (Finset.mem_univ i)⟩

/-! ## The program's run, from the tile obligations and @main's proof -/

def QC : PUnit × MemSt nD τ sig (Elt F) → Prop := fun r => ∀ c : Dev nD,
  r.2.mem (xLoc0 c) = m (xLoc0 c) ∧ r.2.mem (xLoc1 c) = m (xLoc1 c) ∧ r.2.mem (xLoc2 c) = m (xLoc2 c)

theorem run_of [FloatOps F] [∀ e, Nonempty (Elt F e)]
    (htile0 : (K (F := F)).TileObl (D (F := F)) 𝒱 (P cE cT cK) v₀ 0)
    (htile1 : (K (F := F)).TileObl (D (F := F)) 𝒱 (P cE cT cK) v₀ 1)
    (hmain : ∀ (κ : GSem nD τ sig → ℕ) (d : Dev nD),
      iprop((K (F := F)).ctx EH (P cE cT cK) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 2 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P cE cT cK) facts v₀
    (fun q hq => match q with | 0 => nomatch hq | 1 => nomatch hq)
    (fun q _ => match q with | 0 => htile0 | 1 => htile1)
    (fun q _ => match q with | 0 => SparseCore.Cfg.VecSplit.of_plain (vecSplit0 cE cT cK) | 1 => SparseCore.Cfg.VecSplit.of_plain (vecSplit1 cE cT cK))
    m ρ main (G (F := F)) (FIN m) (u₀ (F := F)) (sep_elim_left.trans (hu₀ cE cT cK)) hmain (fq m) (hfin m) (QC m) (fun _ h => h)

end Cert.Proof.KI

end
-- ==== Proof.SplitI.lean ====
/-
  Dealing @main's arrays to the thirty-two workers and collecting them back: a whole array is its read shares, one
  per worker, beside a remainder; a 32-row array is its rows; and a family over the workers 0 … 31 is the family over
  (SparseCore c, tile s) at worker s·2 + c.
-/
import proofs.«210783_g59777354826199_cont_9to1_m_168_18_alg».proof.Proof.RunI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type}

local notation "𝕄" => MT nD τ sig (HIx 2) (Elt F) ℕ UU ℕ

/-- (SparseCore, tile) ↦ worker is a bijection onto 0 … 31. -/
def widP (x : Fin 2 × Fin 16) : Fin 32 := wid x.1.val x.2.val x.1.isLt x.2.isLt

theorem widP_inj : Function.Injective widP := by decide
theorem widP_image : (Finset.univ : Finset (Fin 2 × Fin 16)).image widP = Finset.univ := by decide

/-- A family over the workers, SparseCore by SparseCore, tile by tile. -/
theorem bigSep_workers (Φ : Fin 32 → sProp 𝕄) :
    bigSep Finset.univ Φ = bigSep Finset.univ fun c : Fin 2 => bigSep Finset.univ fun i : Fin 16 => Φ (wid c.val i.val c.isLt i.isLt) := by
  rw [← widP_image, SparseCore.bigSep_image_of_injOn (fun _ _ _ _ h => widP_inj h), ← Finset.univ_product_univ, SparseCore.bigSep_product]
  rfl

/-- A whole array is a remainder and one read share per worker. -/
theorem toks_workers {ℓ : Loc nD τ sig} (f : Buf (Elt F) ℓ) :
    (ℓ ↦{fullShare} f : sProp 𝕄) ⊣⊢ iprop((ℓ ↦{shareDrop fullShare 32} f)
      ∗ bigSep Finset.univ fun c : Fin 2 => bigSep Finset.univ fun i : Fin 16 => ℓ ↦{shareTok fullShare 32 (wid c.val i.val c.isLt i.isLt)} f) := by
  rw [← bigSep_workers (fun j => (ℓ ↦{shareTok fullShare 32 j} f : sProp 𝕄))]
  exact pointsTo_toks fullShare 32

/-! ## Rows -/

theorem rowsS_disjoint : ∀ i ∈ (Finset.univ : Finset (Fin 32)), ∀ j ∈ (Finset.univ : Finset (Fin 32)), i ≠ j → Disjoint (rowS i).set (rowS j).set :=
  fun _ _ _ _ h => Rect.part_disjoint hdivS h
theorem rowsS_cover : (Finset.univ : Finset (Fin 32)).biUnion (fun j => (rowS j).set) = Finset.univ := Rect.biUnion_part hdivS
theorem rowsC_disjoint : ∀ i ∈ (Finset.univ : Finset (Fin 32)), ∀ j ∈ (Finset.univ : Finset (Fin 32)), i ≠ j → Disjoint (rowC i).set (rowC j).set :=
  fun _ _ _ _ h => Rect.part_disjoint hdivC h
theorem rowsC_cover : (Finset.univ : Finset (Fin 32)).biUnion (fun j => (rowC j).set) = Finset.univ := Rect.biUnion_part hdivC

variable [FloatOps F]

omit [FloatOps F] in
theorem rowsS_eq (d : Dev nD) (f : Buf (Elt F) (aS d)) :
    (aS d ↦{fullShare} f : sProp 𝕄) = bigSep Finset.univ fun j : Fin 32 => aS d ↦[(rowS j).set]{fullShare} f := by
  rw [← pointsTo_biUnion Finset.univ (ℓ := aS d) (fun j => (rowS j).set) rowsS_disjoint, rowsS_cover]; try rfl

theorem rowS_ex (d : Dev nD) (f : Buf (Elt F) (aS d)) (j : Fin 32) :
    (aS d ↦[(rowS j).set]{fullShare} f : sProp 𝕄) ⊢ iprop(∃ f : Buf (Elt F) (aS d), aS d ↦[(rowS j).set]{fullShare} f) := by
  iintro H; iexists f; iexact H

theorem rowsS_ex (d : Dev nD) (f : Buf (Elt F) (aS d)) :
    (bigSep Finset.univ fun j : Fin 32 => (aS d ↦[(rowS j).set]{fullShare} f : sProp 𝕄))
      ⊢ bigSep Finset.univ fun j : Fin 32 => (iprop(∃ f : Buf (Elt F) (aS d), aS d ↦[(rowS j).set]{fullShare} f) : sProp 𝕄) :=
  bigSep_mono fun j _ => rowS_ex d f j

/-- A whole 32-row array, at some contents, is its rows, each at some contents, worker by worker. -/
theorem rowsS_workers (d : Dev nD) :
    (iprop(∃ f : Buf (Elt F) (aS d), aS d ↦{fullShare} f) : sProp 𝕄) ⊣⊢
      bigSep Finset.univ fun c : Fin 2 => bigSep Finset.univ fun i : Fin 16 => iprop(∃ f : Buf (Elt F) (aS d), aS d ↦[(rowS (wid c.val i.val c.isLt i.isLt)).set]{fullShare} f) := by
  rw [← bigSep_workers (fun j => (iprop(∃ f : Buf (Elt F) (aS d), aS d ↦[(rowS j).set]{fullShare} f) : sProp 𝕄))]
  constructor
  · iintro ⟨%f, H⟩
    iapply (rowsS_ex d f)
    iapply (Entails.of_eq (rowsS_eq d f))
    iexact H
  · refine (bigSep_exists_pi Finset.univ (fun j (f : Buf (Elt F) (aS d)) => (aS d ↦[(rowS j).set]{fullShare} f : sProp 𝕄))).trans ?_
    iintro ⟨%fs, H⟩
    ihave H' := (pointsTo_biUnion_join Finset.univ (fun j => (rowS j).set) fs (fs 0) rowsS_disjoint) $$ H
    icases H' with ⟨%g, -, Hg⟩
    rw [rowsS_cover]
    iexists g; iexact Hg

omit [FloatOps F] in
theorem rowsC_eq (d : Dev nD) (f : Buf (Elt F) (aC d)) :
    (aC d ↦{fullShare} f : sProp 𝕄) = bigSep Finset.univ fun j : Fin 32 => aC d ↦[(rowC j).set]{fullShare} f := by
  rw [← pointsTo_biUnion Finset.univ (ℓ := aC d) (fun j => (rowC j).set) rowsC_disjoint, rowsC_cover]; try rfl

theorem rowC_ex (d : Dev nD) (f : Buf (Elt F) (aC d)) (j : Fin 32) :
    (aC d ↦[(rowC j).set]{fullShare} f : sProp 𝕄) ⊢ iprop(∃ f : Buf (Elt F) (aC d), aC d ↦[(rowC j).set]{fullShare} f) := by
  iintro H; iexists f; iexact H

theorem rowsC_ex (d : Dev nD) (f : Buf (Elt F) (aC d)) :
    (bigSep Finset.univ fun j : Fin 32 => (aC d ↦[(rowC j).set]{fullShare} f : sProp 𝕄))
      ⊢ bigSep Finset.univ fun j : Fin 32 => (iprop(∃ f : Buf (Elt F) (aC d), aC d ↦[(rowC j).set]{fullShare} f) : sProp 𝕄) :=
  bigSep_mono fun j _ => rowC_ex d f j

/-- A whole 32-row array, at some contents, is its rows, each at some contents, worker by worker. -/
theorem rowsC_workers (d : Dev nD) :
    (iprop(∃ f : Buf (Elt F) (aC d), aC d ↦{fullShare} f) : sProp 𝕄) ⊣⊢
      bigSep Finset.univ fun c : Fin 2 => bigSep Finset.univ fun i : Fin 16 => iprop(∃ f : Buf (Elt F) (aC d), aC d ↦[(rowC (wid c.val i.val c.isLt i.isLt)).set]{fullShare} f) := by
  rw [← bigSep_workers (fun j => (iprop(∃ f : Buf (Elt F) (aC d), aC d ↦[(rowC j).set]{fullShare} f) : sProp 𝕄))]
  constructor
  · iintro ⟨%f, H⟩
    iapply (rowsC_ex d f)
    iapply (Entails.of_eq (rowsC_eq d f))
    iexact H
  · refine (bigSep_exists_pi Finset.univ (fun j (f : Buf (Elt F) (aC d)) => (aC d ↦[(rowC j).set]{fullShare} f : sProp 𝕄))).trans ?_
    iintro ⟨%fs, H⟩
    ihave H' := (pointsTo_biUnion_join Finset.univ (fun j => (rowC j).set) fs (fs 0) rowsC_disjoint) $$ H
    icases H' with ⟨%g, -, Hg⟩
    rw [rowsC_cover]
    iexists g; iexact Hg

omit [FloatOps F] in
theorem rowsR_eq (d : Dev nD) (f : Buf (Elt F) (aR d)) :
    (aR d ↦{fullShare} f : sProp 𝕄) = bigSep Finset.univ fun j : Fin 32 => aR d ↦[(rowC j).set]{fullShare} f := by
  rw [← pointsTo_biUnion Finset.univ (ℓ := aR d) (fun j => (rowC j).set) rowsC_disjoint, rowsC_cover]; try rfl

theorem rowR_ex (d : Dev nD) (f : Buf (Elt F) (aR d)) (j : Fin 32) :
    (aR d ↦[(rowC j).set]{fullShare} f : sProp 𝕄) ⊢ iprop(∃ f : Buf (Elt F) (aR d), aR d ↦[(rowC j).set]{fullShare} f) := by
  iintro H; iexists f; iexact H

theorem rowsR_ex (d : Dev nD) (f : Buf (Elt F) (aR d)) :
    (bigSep Finset.univ fun j : Fin 32 => (aR d ↦[(rowC j).set]{fullShare} f : sProp 𝕄))
      ⊢ bigSep Finset.univ fun j : Fin 32 => (iprop(∃ f : Buf (Elt F) (aR d), aR d ↦[(rowC j).set]{fullShare} f) : sProp 𝕄) :=
  bigSep_mono fun j _ => rowR_ex d f j

/-- A whole 32-row array, at some contents, is its rows, each at some contents, worker by worker. -/
theorem rowsR_workers (d : Dev nD) :
    (iprop(∃ f : Buf (Elt F) (aR d), aR d ↦{fullShare} f) : sProp 𝕄) ⊣⊢
      bigSep Finset.univ fun c : Fin 2 => bigSep Finset.univ fun i : Fin 16 => iprop(∃ f : Buf (Elt F) (aR d), aR d ↦[(rowC (wid c.val i.val c.isLt i.isLt)).set]{fullShare} f) := by
  rw [← bigSep_workers (fun j => (iprop(∃ f : Buf (Elt F) (aR d), aR d ↦[(rowC j).set]{fullShare} f) : sProp 𝕄))]
  constructor
  · iintro ⟨%f, H⟩
    iapply (rowsR_ex d f)
    iapply (Entails.of_eq (rowsR_eq d f))
    iexact H
  · refine (bigSep_exists_pi Finset.univ (fun j (f : Buf (Elt F) (aR d)) => (aR d ↦[(rowC j).set]{fullShare} f : sProp 𝕄))).trans ?_
    iintro ⟨%fs, H⟩
    ihave H' := (pointsTo_biUnion_join Finset.univ (fun j => (rowC j).set) fs (fs 0) rowsC_disjoint) $$ H
    icases H' with ⟨%g, -, Hg⟩
    rw [rowsC_cover]
    iexists g; iexact Hg

/-! ## The calls' operands -/

omit [FloatOps F] in
theorem toks_workers_eq {ℓ : Loc nD τ sig} (f : Buf (Elt F) ℓ) :
    (ℓ ↦{fullShare} f : sProp 𝕄) = iprop((ℓ ↦{shareDrop fullShare 32} f)
      ∗ bigSep Finset.univ fun c : Fin 2 => bigSep Finset.univ fun i : Fin 16 => ℓ ↦{shareTok fullShare 32 (wid c.val i.val c.isLt i.isLt)} f) :=
  (toks_workers f).1.antisymm (toks_workers f).2

omit [FloatOps F] in
theorem regroup8 (a1 A1 a2 A2 a3 A3 R1 R2 : sProp 𝕄) :
    iprop((a1 ∗ A1) ∗ (a2 ∗ A2) ∗ (a3 ∗ A3) ∗ R1 ∗ R2) = iprop((a1 ∗ a2 ∗ a3) ∗ (A1 ∗ A2 ∗ A3) ∗ R1 ∗ R2) := by
  refine Entails.antisymm (show iprop((a1 ∗ A1) ∗ (a2 ∗ A2) ∗ (a3 ∗ A3) ∗ R1 ∗ R2) ⊢ iprop((a1 ∗ a2 ∗ a3) ∗ (A1 ∗ A2 ∗ A3) ∗ R1 ∗ R2) from ?_)
    (show iprop((a1 ∗ a2 ∗ a3) ∗ (A1 ∗ A2 ∗ A3) ∗ R1 ∗ R2) ⊢ iprop((a1 ∗ A1) ∗ (a2 ∗ A2) ∗ (a3 ∗ A3) ∗ R1 ∗ R2) from ?_)
  · iintro ⟨⟨H1, H2⟩, ⟨H3, H4⟩, ⟨H5, H6⟩, H7, H8⟩
    isplitl [H1 H3 H5]
    · isplitl [H1]; · iexact H1
      isplitl [H3]; · iexact H3
      iexact H5
    isplitl [H2 H4 H6]
    · isplitl [H2]; · iexact H2
      isplitl [H4]; · iexact H4
      iexact H6
    isplitl [H7]; · iexact H7
    iexact H8
  · iintro ⟨⟨H1, H3, H5⟩, ⟨H2, H4, H6⟩, H7, H8⟩
    isplitl [H1 H2]
    · isplitl [H1]; · iexact H1
      iexact H2
    isplitl [H3 H4]
    · isplitl [H3]; · iexact H3
      iexact H4
    isplitl [H5 H6]
    · isplitl [H5]; · iexact H5
      iexact H6
    isplitl [H7]; · iexact H7
    iexact H8

omit [FloatOps F] in
theorem regroup4 (X a A R : sProp 𝕄) : iprop(X ∗ (a ∗ A) ∗ R) = iprop(a ∗ X ∗ A ∗ R) := by
  refine Entails.antisymm (show iprop(X ∗ (a ∗ A) ∗ R) ⊢ iprop(a ∗ X ∗ A ∗ R) from ?_) (show iprop(a ∗ X ∗ A ∗ R) ⊢ iprop(X ∗ (a ∗ A) ∗ R) from ?_)
  · iintro ⟨H1, ⟨H2, H3⟩, H4⟩
    isplitl [H2]; · iexact H2
    isplitl [H1]; · iexact H1
    isplitl [H3]; · iexact H3
    iexact H4
  · iintro ⟨H2, H1, H3, H4⟩
    isplitl [H1]; · iexact H1
    isplitl [H2 H3]
    · isplitl [H2]; · iexact H2
      iexact H3
    iexact H4

variable (cE : (d : Dev nD) → Buf (Elt F) (aE d)) (cT : (d : Dev nD) → Buf (Elt F) (aT d)) (cK : (d : Dev nD) → Buf (Elt F) (aK d))

/-- What the TensorCore keeps of the three inputs while the workers hold their read shares. -/
def rem3 (d : Dev nD) : sProp 𝕄 :=
  iprop((aE d ↦{shareDrop fullShare 32} cE d) ∗ (aT d ↦{shareDrop fullShare 32} cT d) ∗ (aK d ↦{shareDrop fullShare 32} cK d))

/-- The first call's operands for both SparseCores are the three inputs (but the remainders) and the two result arrays. -/
theorem call0_eq (d : Dev nD) :
    (iprop((aE d ↦{fullShare} cE d) ∗ (aT d ↦{fullShare} cT d) ∗ (aK d ↦{fullShare} cK d)
        ∗ (∃ f : Buf (Elt F) (aS d), aS d ↦{fullShare} f) ∗ (∃ f : Buf (Elt F) (aC d), aC d ↦{fullShare} f)) : sProp 𝕄)
      = iprop(rem3 cE cT cK d ∗ bigSep Finset.univ fun c : Fin 2 => bigSep Finset.univ fun i : Fin 16 => task0 cE cT cK d (wid c.val i.val c.isLt i.isLt)) := by
  rw [toks_workers_eq (cE d), toks_workers_eq (cT d), toks_workers_eq (cK d), (rowsS_workers (F := F) d).1.antisymm (rowsS_workers (F := F) d).2, (rowsC_workers (F := F) d).1.antisymm (rowsC_workers (F := F) d).2]
  unfold task0 inToks rem3
  simp only [bigSep_sep']
  exact regroup8 _ _ _ _ _ _ _ _

/-- A worker's operands of the second call with the means table's share at named contents. -/
def task1f (d : Dev nD) (f : Buf (Elt F) (aM d)) (j : Fin 32) : sProp 𝕄 :=
  iprop(inToks cE cT cK d j ∗ (aM d ↦{shareTok fullShare 32 j} f) ∗ (∃ g : Buf (Elt F) (aR d), aR d ↦[(rowC j).set]{fullShare} g))

theorem task1f_weaken (d : Dev nD) (f : Buf (Elt F) (aM d)) (j : Fin 32) : task1f cE cT cK d f j ⊢ task1 cE cT cK d j := by
  unfold task1f task1
  iintro ⟨H1, H2, H3⟩
  isplitl [H1]; · iexact H1
  isplitl [H2]; · iexists f; iexact H2
  iexact H3

theorem task1_back (d : Dev nD) (j : Fin 32) :
    task1 cE cT cK d j ⊢ iprop(inToks cE cT cK d j ∗ (∃ g : Buf (Elt F) (aR d), aR d ↦[(rowC j).set]{fullShare} g)) := by
  unfold task1
  iintro ⟨H1, -, H3⟩
  isplitl [H1]; · iexact H1
  iexact H3

/-- The second call's operands: the inputs' read shares again, the means table's, and the result array. -/
theorem call1_intro (d : Dev nD) (f : Buf (Elt F) (aM d)) :
    (iprop(((bigSep Finset.univ fun c : Fin 2 => bigSep Finset.univ fun i : Fin 16 => inToks cE cT cK d (wid c.val i.val c.isLt i.isLt)))
        ∗ (aM d ↦{fullShare} f) ∗ (∃ g : Buf (Elt F) (aR d), aR d ↦{fullShare} g)) : sProp 𝕄)
      ⊢ bigSep Finset.univ fun c : Fin 2 => bigSep Finset.univ fun i : Fin 16 => task1 cE cT cK d (wid c.val i.val c.isLt i.isLt) := by
  rw [toks_workers_eq f, (rowsR_workers (F := F) d).1.antisymm (rowsR_workers (F := F) d).2]
  refine BIBase.Entails.trans ?_ (bigSep_mono fun c _ => bigSep_mono fun i _ => task1f_weaken cE cT cK d f (wid c.val i.val c.isLt i.isLt))
  unfold task1f
  simp only [bigSep_sep']
  iintro ⟨H1, ⟨-, H2⟩, H3⟩
  isplitl [H1]; · iexact H1
  isplitl [H2]; · iexact H2
  iexact H3

/-- and what comes back of them: the read shares and the result array at what the workers left. -/
theorem call1_elim (d : Dev nD) :
    (bigSep Finset.univ fun c : Fin 2 => bigSep Finset.univ fun i : Fin 16 => task1 cE cT cK d (wid c.val i.val c.isLt i.isLt))
      ⊢ (iprop(((bigSep Finset.univ fun c : Fin 2 => bigSep Finset.univ fun i : Fin 16 => inToks cE cT cK d (wid c.val i.val c.isLt i.isLt)))
        ∗ (∃ g : Buf (Elt F) (aR d), aR d ↦{fullShare} g)) : sProp 𝕄) := by
  rw [(rowsR_workers (F := F) d).1.antisymm (rowsR_workers (F := F) d).2]
  refine BIBase.Entails.trans (bigSep_mono fun c _ => bigSep_mono fun i _ => task1_back cE cT cK d (wid c.val i.val c.isLt i.isLt)) ?_
  simp only [bigSep_sep']
  exact Entails.refl _

end Cert.Proof.KI

end
-- ==== Proof.MainI.lean ====
/-
  @main on a device's TensorCore: the three flattenings, the first SparseCore call (the inputs' read shares and the rows
  of the partial sums and counts out to the thirty-two workers and back), the first combining pallas_call, the means
  table flattened, the second SparseCore call, the second combining pallas_call, the result reshaped.
-/
import proofs.«210783_g59777354826199_cont_9to1_m_168_18_alg».proof.Proof.SplitI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_sdiff_result wp_hlo_within)
open Idealize.ShloMosaic.Transfers (shareTok shareDrop)

variable {F : FTy → Type}

local notation "𝕄" => MT nD τ sig (HIx 2) (Elt F) ℕ UU ℕ

/-! ## The TensorCore's arrays -/

abbrev r (x : Ref sig .tc) : DevRef τ sig := Proc.devRef .tc x

/-- @main's arrays: the arguments, the flattened inputs, the calls' results, the result. -/
abbrev SA : Finset (DevRef τ sig) := (Finset.univ.filter fun b : Ref sig .tc => ¬ b.isScoped).image r

theorem r_inj : Function.Injective (r : Ref sig .tc → DevRef τ sig) := by decide

variable (m : (ℓ : Loc nD τ sig) → Buf (Elt F) ℓ) (ρ : Dev nD → PrngReg)

/-- The launch valuation. -/
def V0 (d : Dev nD) : Valuation τ sig (Elt F) := fun b => m (d, b)

theorem unscoped_held (d : Dev nD) : (unscopedBufs d (fun b => m ((SparseCore.T d).loc b)) : sProp 𝕄) = held (T d) SA (V0 m d) := by
  unfold unscopedBufs held
  rw [SparseCore.bigSep_image_of_injOn (fun _ _ _ _ h => r_inj h)]
  rfl

theorem SA_eq : SA = {r main_arg0, r main_arg1, r main_arg2, r main_v0, r main_v1, r main_v2, r main_v3_0, r main_v3_1, r main_v4_0, r main_v4_1, r main_v5, r main_v6,
    r main_v7, r main_v8} := by decide

/-- The arrays one by one. -/
theorem held_SA (d : Dev nD) (W : Valuation τ sig (Elt F)) :
    (held (T d) SA W : sProp 𝕄) = iprop(((SparseCore.T d).loc main_arg0 ↦{fullShare} W (r main_arg0)) ∗ ((SparseCore.T d).loc main_arg1 ↦{fullShare} W (r main_arg1))
      ∗ ((SparseCore.T d).loc main_arg2 ↦{fullShare} W (r main_arg2)) ∗ (aE d ↦{fullShare} W (r main_v0)) ∗ (aT d ↦{fullShare} W (r main_v1)) ∗ (aK d ↦{fullShare} W (r main_v2))
      ∗ (aS d ↦{fullShare} W (r main_v3_0)) ∗ (aC d ↦{fullShare} W (r main_v3_1)) ∗ ((SparseCore.T d).loc main_v4_0 ↦{fullShare} W (r main_v4_0))
      ∗ ((SparseCore.T d).loc main_v4_1 ↦{fullShare} W (r main_v4_1)) ∗ (aM d ↦{fullShare} W (r main_v5)) ∗ (aR d ↦{fullShare} W (r main_v6))
      ∗ ((SparseCore.T d).loc main_v7 ↦{fullShare} W (r main_v7)) ∗ ((SparseCore.T d).loc main_v8 ↦{fullShare} W (r main_v8))) := by
  rw [SA_eq]
  unfold held
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## The host operations -/

variable [FloatOps F]

abbrev op0 : HloOp τ sig (Elt F) := StableHlo.reshape main_arg0 main_v0 rfl shapeCasts_S1x16x32x256x256_S33554432
abbrev op1 : HloOp τ sig (Elt F) := StableHlo.reshape main_arg1 main_v1 rfl shapeCasts_S1x1x32x256x256_S2097152
abbrev op2 : HloOp τ sig (Elt F) := StableHlo.reshape main_arg2 main_v2 rfl shapeCasts_S1x1x32x256x256_S2097152
abbrev op5 : HloOp τ sig (Elt F) := StableHlo.reshape main_v4_0 main_v5 rfl shapeCasts_S1024x16_S16384
abbrev op8 : HloOp τ sig (Elt F) := StableHlo.reshape main_v7 main_v8 rfl shapeCasts_S1x1_S_

theorem hop0 : (op0 (F := F)).bufs ⊆ SA := show ({r main_arg0, r main_v0} : Finset (DevRef τ sig)) ⊆ SA by decide
theorem hop1 : (op1 (F := F)).bufs ⊆ SA := show ({r main_arg1, r main_v1} : Finset (DevRef τ sig)) ⊆ SA by decide
theorem hop2 : (op2 (F := F)).bufs ⊆ SA := show ({r main_arg2, r main_v2} : Finset (DevRef τ sig)) ⊆ SA by decide
theorem hop5 : (op5 (F := F)).bufs ⊆ SA := show ({r main_v4_0, r main_v5} : Finset (DevRef τ sig)) ⊆ SA by decide
theorem hop8 : (op8 (F := F)).bufs ⊆ SA := show ({r main_v7, r main_v8} : Finset (DevRef τ sig)) ⊆ SA by decide

/-- The valuation after the three flattenings. -/
abbrev V3 (d : Dev nD) : Valuation τ sig (Elt F) := (op2 (F := F)).result ((op1 (F := F)).result ((op0 (F := F)).result (V0 m d)))

/-- The flattened inputs' contents at the calls. -/
abbrev cE (d : Dev nD) : Buf (Elt F) (aE d) := V3 m d (r main_v0)
abbrev cT (d : Dev nD) : Buf (Elt F) (aT d) := V3 m d (r main_v1)
abbrev cK (d : Dev nD) : Buf (Elt F) (aK d) := V3 m d (r main_v2)

/-- The arguments are not written by the flattenings. -/
theorem V3_arg0 (d : Dev nD) : V3 m d (r main_arg0) = m (xLoc0 d) :=
  ((op2 (F := F)).result_of_not_mem _ (show r main_arg0 ∉ ({r main_v2} : Finset (DevRef τ sig)) by decide)).trans
    (((op1 (F := F)).result_of_not_mem _ (show r main_arg0 ∉ ({r main_v1} : Finset (DevRef τ sig)) by decide)).trans
      ((op0 (F := F)).result_of_not_mem _ (show r main_arg0 ∉ ({r main_v0} : Finset (DevRef τ sig)) by decide)))
theorem V3_arg1 (d : Dev nD) : V3 m d (r main_arg1) = m (xLoc1 d) :=
  ((op2 (F := F)).result_of_not_mem _ (show r main_arg1 ∉ ({r main_v2} : Finset (DevRef τ sig)) by decide)).trans
    (((op1 (F := F)).result_of_not_mem _ (show r main_arg1 ∉ ({r main_v1} : Finset (DevRef τ sig)) by decide)).trans
      ((op0 (F := F)).result_of_not_mem _ (show r main_arg1 ∉ ({r main_v0} : Finset (DevRef τ sig)) by decide)))
theorem V3_arg2 (d : Dev nD) : V3 m d (r main_arg2) = m (xLoc2 d) :=
  ((op2 (F := F)).result_of_not_mem _ (show r main_arg2 ∉ ({r main_v2} : Finset (DevRef τ sig)) by decide)).trans
    (((op1 (F := F)).result_of_not_mem _ (show r main_arg2 ∉ ({r main_v1} : Finset (DevRef τ sig)) by decide)).trans
      ((op0 (F := F)).result_of_not_mem _ (show r main_arg2 ∉ ({r main_v0} : Finset (DevRef τ sig)) by decide)))

omit ρ in
theorem arg_pts0 (d : Dev nD) : (xLoc0 d ↦{fullShare} V3 m d (r main_arg0) : sProp 𝕄) = (xLoc0 d ↦{fullShare} m (xLoc0 d)) := by rw [V3_arg0]
omit ρ in
theorem arg_pts1 (d : Dev nD) : (xLoc1 d ↦{fullShare} V3 m d (r main_arg1) : sProp 𝕄) = (xLoc1 d ↦{fullShare} m (xLoc1 d)) := by rw [V3_arg1]
omit ρ in
theorem arg_pts2 (d : Dev nD) : (xLoc2 d ↦{fullShare} V3 m d (r main_arg2) : sProp 𝕄) = (xLoc2 d ↦{fullShare} m (xLoc2 d)) := by rw [V3_arg2]

abbrev a40 (d : Dev nD) : Loc nD τ sig := (SparseCore.T d).loc main_v4_0
abbrev a41 (d : Dev nD) : Loc nD τ sig := (SparseCore.T d).loc main_v4_1
abbrev a7 (d : Dev nD) : Loc nD τ sig := (SparseCore.T d).loc main_v7
abbrev a8 (d : Dev nD) : Loc nD τ sig := (SparseCore.T d).loc main_v8

/-- One pipeline's staging cells' ghost state and duty tokens on device `d`. -/
abbrev ghostP (p : Fin 2) (d : Dev nD) : sProp 𝕄 :=
  iprop(Pipeline.cellsGhost (nD := nD) (τ := τ) cfgs (EP (F := F)) p d ∗ Pipeline.toksInit (nD := nD) (τ := τ) cfgs (EP (F := F)) p d)

omit m ρ [FloatOps F] in
theorem G_eq (d : Dev nD) : (G (F := F) d : sProp 𝕄) = iprop(ghostP (F := F) 0 d ∗ ghostP (F := F) 1 d) := by
  unfold G
  rw [show (Finset.univ : Finset (Fin 2)) = {0, 1} by decide, SparseCore.bigSep_insert' (by decide), bigSep_singleton]

/-- What a valuation with two named entries holds of them. -/
def V2of (d : Dev nD) (b1 b2 : DevRef τ sig) (x1 : Buf (Elt F) (d, b1)) (x2 : Buf (Elt F) (d, b2)) : Valuation τ sig (Elt F) :=
  Function.update (Function.update (V0 m d) b2 x2) b1 x1

theorem held_V2of (d : Dev nD) (b1 b2 : DevRef τ sig) (h : b1 ≠ b2) (x1 : Buf (Elt F) (d, b1)) (x2 : Buf (Elt F) (d, b2)) :
    (held (T d) {b1, b2} (V2of m d b1 b2 x1 x2) : sProp 𝕄) = iprop(((d, b1) ↦{fullShare} x1) ∗ ((d, b2) ↦{fullShare} x2)) := by
  unfold held V2of
  rw [SparseCore.bigSep_insert' (by simpa using h), bigSep_singleton, Function.update_self, Function.update_of_ne (Ne.symm h), Function.update_self]

omit m ρ [FloatOps F] in
theorem held_pair (d : Dev nD) (b1 b2 : DevRef τ sig) (h : b1 ≠ b2) (W : Valuation τ sig (Elt F)) :
    (held (T d) {b1, b2} W : sProp 𝕄) = iprop(((d, b1) ↦{fullShare} W b1) ∗ ((d, b2) ↦{fullShare} W b2)) := by
  unfold held
  rw [SparseCore.bigSep_insert' (by simpa using h), bigSep_singleton]

omit ρ [FloatOps F] in
theorem V2of_1 (d : Dev nD) (b1 b2 : DevRef τ sig) (x1 : Buf (Elt F) (d, b1)) (x2 : Buf (Elt F) (d, b2)) : V2of m d b1 b2 x1 x2 b1 = x1 := by
  unfold V2of; rw [Function.update_self]
omit ρ [FloatOps F] in
theorem V2of_2 (d : Dev nD) (b1 b2 : DevRef τ sig) (h : b1 ≠ b2) (x1 : Buf (Elt F) (d, b1)) (x2 : Buf (Elt F) (d, b2)) : V2of m d b1 b2 x1 x2 b2 = x2 := by
  unfold V2of; rw [Function.update_of_ne (Ne.symm h), Function.update_self]

theorem hop5' : (op5 (F := F)).bufs ⊆ ({r main_v4_0, r main_v5} : Finset (DevRef τ sig)) := Finset.Subset.refl _
theorem hop8' : (op8 (F := F)).bufs ⊆ ({r main_v7, r main_v8} : Finset (DevRef τ sig)) := Finset.Subset.refl _

omit ρ in
/-- The workers' read shares of the three inputs, out of the whole arrays (what remains is not needed again). -/
theorem inToks_intro (d : Dev nD) :
    (iprop((aE d ↦{fullShare} cE m d) ∗ (aT d ↦{fullShare} cT m d) ∗ (aK d ↦{fullShare} cK m d)) : sProp 𝕄)
      ⊢ bigSep Finset.univ fun c : Fin 2 => bigSep Finset.univ fun i : Fin 16 => inToks (cE m) (cT m) (cK m) d (wid c.val i.val c.isLt i.isLt) := by
  rw [toks_workers_eq (cE m d), toks_workers_eq (cT m d), toks_workers_eq (cK m d)]
  unfold inToks
  simp only [bigSep_sep']
  iintro ⟨⟨-, H1⟩, ⟨-, H2⟩, ⟨-, H3⟩⟩
  isplitl [H1]; · iexact H1
  isplitl [H2]; · iexact H2
  iexact H3

/-- What the TensorCore owes before call `n` and its recorded waits' bound: the first component of its handshake state; -/
def owesPart (d : Dev nD) (n : ℕ) : sProp 𝕄 :=
  iprop(∃ W, ⌜(K (F := F)).WBelow (T d) W (8 * n)⌝ ∗ owes (T d) ((K (F := F)).Otc d n) W)

/-- and the rest of it. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit m ρ [FloatOps F] in
theorem tcSt_split (d : Dev nD) (n : ℕ) : ((K (F := F)).tcSt EH d n : sProp 𝕄) = iprop(owesPart (F := F) d n ∗ tcTail (F := F) d n) := rfl

/-- The two combining pallas_calls, as @main's proof meets them: each from the region boundary, its four windows'
    arrays whole (the inputs at named contents) and its pipeline's staging cells' ghost state, to the boundary and the
    arrays back, the outputs at whatever the kernel left. -/
def Reg0 : Prop := ∀ (d : Dev nD) (fS : Buf (Elt F) (aS d)) (fC : Buf (Elt F) (aC d)) (Φ : PUnit → sProp 𝕄),
  iprop(levAts (K (F := F)).L (K (F := F)).lev ∗ boundary (SparseCore.T d) ∗ (aS d ↦{fullShare} fS) ∗ (aC d ↦{fullShare} fC)
      ∗ (∃ g : Buf (Elt F) (a40 d), a40 d ↦{fullShare} g) ∗ (∃ g : Buf (Elt F) (a41 d), a41 d ↦{fullShare} g) ∗ ghostP (F := F) 0 d
      ∗ owesPart (F := F) d 1
      ∗ (iprop(boundary (SparseCore.T d) ∗ (aS d ↦{fullShare} fS) ∗ (aC d ↦{fullShare} fC)
          ∗ (∃ g : Buf (Elt F) (a40 d), a40 d ↦{fullShare} g) ∗ (∃ g : Buf (Elt F) (a41 d), a41 d ↦{fullShare} g) ∗ owesPart (F := F) d 1) -∗ Φ ⟨⟩))
    ⊢ wp frame (wpE ((K (F := F)).defs (D (F := F))) 𝒱 (SparseCore.T d) none) Set.univ
        (Prog.lift (TpuEff.customCall (SparseCore.inner (Pipeline.entry 0)) ())) Φ

def Reg1 : Prop := ∀ (d : Dev nD) (fR : Buf (Elt F) (aR d)) (fC : Buf (Elt F) (aC d)) (f41 : Buf (Elt F) (a41 d)) (Φ : PUnit → sProp 𝕄),
  iprop(levAts (K (F := F)).L (K (F := F)).lev ∗ boundary (SparseCore.T d) ∗ (aR d ↦{fullShare} fR) ∗ (aC d ↦{fullShare} fC)
      ∗ (a41 d ↦{fullShare} f41) ∗ (∃ g : Buf (Elt F) (a7 d), a7 d ↦{fullShare} g) ∗ ghostP (F := F) 1 d
      ∗ owesPart (F := F) d 2
      ∗ (iprop(boundary (SparseCore.T d) ∗ (aR d ↦{fullShare} fR) ∗ (aC d ↦{fullShare} fC)
          ∗ (a41 d ↦{fullShare} f41) ∗ (∃ g : Buf (Elt F) (a7 d), a7 d ↦{fullShare} g) ∗ owesPart (F := F) d 2) -∗ Φ ⟨⟩))
    ⊢ wp frame (wpE ((K (F := F)).defs (D (F := F))) 𝒱 (SparseCore.T d) none) Set.univ
        (Prog.lift (TpuEff.customCall (SparseCore.inner (Pipeline.entry 1)) ())) Φ

theorem hmain (hreg0 : Reg0 (F := F)) (hreg1 : Reg1 (F := F)) (κ : GSem nD τ sig → ℕ) (d : Dev nD) :
    iprop((K (F := F)).ctx EH (P (cE m) (cT m) (cK m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscoped_held]
  simp only [main, wp_bind, wp_pure]
  iintro ⟨#Hctx, Hst, ⟨Hb, Hheld, -, -⟩, HG⟩
  iapply (wp_hlo_within 𝒱 (SparseCore.T d) none Set.univ (op := op0) (S := SA) hop0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := SA) hop1 (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := SA) hop2 (V := (op1 (F := F)).result ((op0 (F := F)).result (V0 m d)))) $$ [Hb Hheld]
  · isplitl [Hb]; · iexact Hb
    iexact Hheld
  iintro ⟨Hb, Hheld⟩
  rw [wp_ret]; imodintro
  ihave Hh := (Entails.of_eq (held_SA (F := F) d _)) $$ Hheld
  icases Hh with ⟨Ha0, Ha1, Ha2, HE, HT, HK, HS, HC, H40, H41, HM, HR, H7, H8⟩
  -- the first call: the inputs' read shares and the result rows out to the workers, and back
  ihave Hops := (Entails.of_eq (call0_eq (cE m) (cT m) (cK m) d)) $$ [HE HT HK HS HC]
  · isplitl [HE]; · iexact HE
    isplitl [HT]; · iexact HT
    isplitl [HK]; · iexact HK
    isplitl [HS]; · iexists _; iexact HS
    iexists _; iexact HC
  icases Hops with ⟨Hrem, Htasks⟩
  iapply ((K (F := F)).wp_run (D (F := F)) 𝒱 (EH := EH) (P := P (cE m) (cT m) (cK m)) κ d 0) $$ [Hst Htasks Hrem Hb HG Ha0 Ha1 Ha2 H40 H41 HM HR H7 H8]
  isplitr; · iexact Hctx
  isplitl [Hst]; · iexact Hst
  isplitl [Htasks]; · iexact Htasks
  iintro ⟨Hst, Hdn⟩
  ihave Hops := (Entails.of_eq (call0_eq (cE m) (cT m) (cK m) d).symm) $$ [Hrem Hdn]
  · isplitl [Hrem]; · iexact Hrem
    iexact Hdn
  icases Hops with ⟨HE, HT, HK, ⟨%fS, HS⟩, ⟨%fC, HC⟩⟩
  -- the first combining pallas_call
  ihave Hlev := ((K (F := F)).ctx_levAts κ) $$ Hctx
  ihave HG' := (Entails.of_eq (G_eq (F := F) d)) $$ HG
  icases HG' with ⟨HG0, HG1⟩
  ihave Hst' := (Entails.of_eq (tcSt_split (F := F) d 1)) $$ [Hst]
  · iexact Hst
  icases Hst' with ⟨HO, Htail⟩
  iapply (hreg0 d fS fC) $$ [Hlev Hb HS HC H40 H41 HG0 HO Htail HE HT HK Ha0 Ha1 Ha2 HM HR H7 H8 HG1]
  isplitl [Hlev]; · iexact Hlev
  isplitl [Hb]; · iexact Hb
  isplitl [HS]; · iexact HS
  isplitl [HC]; · iexact HC
  isplitl [H40]; · iexists _; iexact H40
  isplitl [H41]; · iexists _; iexact H41
  isplitl [HG0]; · iexact HG0
  isplitl [HO]; · iexact HO
  iintro ⟨Hb, HS, HC, ⟨%g40, H40⟩, ⟨%g41, H41⟩, HO⟩
  ihave Hst := (Entails.of_eq (tcSt_split (F := F) d 1).symm) $$ [HO Htail]
  · isplitl [HO]; · iexact HO
    iexact Htail
  -- the means table flattened
  iapply (wp_hlo_within 𝒱 (SparseCore.T d) none Set.univ (op := op5) (S := {r main_v4_0, r main_v5}) hop5'
      (V := V2of m d (r main_v4_0) (r main_v5) g40 (V3 m d (r main_v5)))) $$ [Hb H40 HM]
  · isplitl [Hb]; · iexact Hb
    rw [held_pair d _ _ (by decide), V2of_1, V2of_2 m d _ _ (by decide)]
    isplitl [H40]; · iexact H40
    iexact HM
  iintro ⟨Hb, Hheld⟩
  ihave Hh := (Entails.of_eq (held_pair (F := F) d (r main_v4_0) (r main_v5) (by decide) _)) $$ Hheld
  icases Hh with ⟨H40, HM⟩
  rw [wp_ret]; imodintro
  -- the second call
  ihave Htk := (inToks_intro m d) $$ [HE HT HK]
  · isplitl [HE]; · iexact HE
    isplitl [HT]; · iexact HT
    iexact HK
  ihave Htasks := (call1_intro (cE m) (cT m) (cK m) d _) $$ [Htk HM HR]
  · isplitl [Htk]; · iexact Htk
    isplitl [HM]; · iexact HM
    iexists _; iexact HR
  iapply ((K (F := F)).wp_run (D (F := F)) 𝒱 (EH := EH) (P := P (cE m) (cT m) (cK m)) κ d 1) $$ [Hst Htasks Hb HG1 Ha0 Ha1 Ha2 H40 H41 HS HC H7 H8]
  isplitr; · iexact Hctx
  isplitl [Hst]; · iexact Hst
  isplitl [Htasks]; · iexact Htasks
  iintro ⟨Hst, Hdn⟩
  ihave Hops := (call1_elim (cE m) (cT m) (cK m) d) $$ [Hdn]
  · iexact Hdn
  icases Hops with ⟨-, ⟨%fR, HR⟩⟩
  -- the second combining pallas_call
  ihave Hst' := (Entails.of_eq (tcSt_split (F := F) d 2)) $$ [Hst]
  · iexact Hst
  icases Hst' with ⟨HO, Htail⟩
  iapply (hreg1 d fR fC g41) $$ [Hlev Hb HR HC H41 H7 HG1 HO Htail Ha0 Ha1 Ha2 H8]
  isplitl [Hlev]; · iexact Hlev
  isplitl [Hb]; · iexact Hb
  isplitl [HR]; · iexact HR
  isplitl [HC]; · iexact HC
  isplitl [H41]; · iexact H41
  isplitl [H7]; · iexists _; iexact H7
  isplitl [HG1]; · iexact HG1
  isplitl [HO]; · iexact HO
  iintro ⟨Hb, HR, HC, H41, ⟨%g7, H7⟩, HO⟩
  ihave Hst := (Entails.of_eq (tcSt_split (F := F) d 2).symm) $$ [HO Htail]
  · isplitl [HO]; · iexact HO
    iexact Htail
  -- the result reshaped
  iapply (wp_hlo_within 𝒱 (SparseCore.T d) none Set.univ (op := op8) (S := {r main_v7, r main_v8}) hop8'
      (V := V2of m d (r main_v7) (r main_v8) g7 (V3 m d (r main_v8)))) $$ [Hb H7 H8]
  · isplitl [Hb]; · iexact Hb
    rw [held_pair d _ _ (by decide), V2of_1, V2of_2 m d _ _ (by decide)]
    isplitl [H7]; · iexact H7
    iexact H8
  iintro ⟨Hb, Hheld⟩
  rw [wp_ret]; imodintro; imodintro
  isplitl [Hst]; · iexact Hst
  isplitl [Ha0]; · iapply (Entails.of_eq (arg_pts0 m d)); iexact Ha0
  isplitl [Ha1]; · iapply (Entails.of_eq (arg_pts1 m d)); iexact Ha1
  iapply (Entails.of_eq (arg_pts2 m d)); iexact Ha2

end Cert.Proof.KI

end
-- ==== Proof.Region1I.lean ====
/-
  The second combining pallas_call as a region of @main: its body run on the staging buffers (two whole-block loads of
  the partial terms and counts, the loads of the two scalars, one store of the result scalar), the pipeline's proof data
  (the three input windows left as found, nothing said of the output's contents), and the region entered and left inside
  the SparseCore program.
-/
import proofs.«210783_g59777354826199_cont_9to1_m_168_18_alg».proof.Proof.MainI
import Idealize.ShloMosaic.Lib.Pipeline.Regions

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

local notation "𝕄" => MT nD τ sig (HIx 2) (Elt F) ℕ UU ℕ

/-- The body on whole staging memrefs: the three inputs' come back as they were, the output's at some contents. -/
theorem sound_kernel3 (c : Dev nD) (E : Set ℕ) (arg0 : Memref sig .tc .vmem S32x1024 .f32) (harg0 : arg0.IsWhole) (arg1 : Memref sig .tc .vmem S32x1024 .f32) (harg1 : arg1.IsWhole)
    (arg2 : Memref sig .tc .vmem S1x1 .f32) (harg2 : arg2.IsWhole) (arg3 : Memref sig .tc .vmem S1x1 .f32) (harg3 : arg3.IsWhole)
    (x0 : Vec F S32x1024 .f32) (x1 : Vec F S32x1024 .f32) (x2 : Vec F S1x1 .f32) (x3 : Vec F S1x1 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (iprop(owns (c : Thread nD τ) arg0 fullShare x0 ∗ owns (c : Thread nD τ) arg1 fullShare x1 ∗ owns (c : Thread nD τ) arg2 fullShare x2
            ∗ ∃ y, owns (c : Thread nD τ) arg3 fullShare y) -∗ Kc ⟨⟩))
      ⊢ wp frame (wpE (defs₀ (F := F)) Variants.none c none) E (cc3__combine2_body arg0 harg0 arg1 harg1 arg2 harg2 arg3 harg3) Kc := by
  simp only [cc3__combine2_body_eq_skeleton]; unfold cc3__combine2_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; iexists _; isplitr
  swap; · iexact H3
  ipureintro; rfl

/-! ## The pipelines' proof data: inputs left as found, nothing said of what the body leaves in an output -/

/-- The prefetched tables' admissible contents: no pallas_call has a table. -/
abbrev adm : (p : Fin 2) → (pcfgs (F := F) p).Adm := fun p => (cfgs p).toPCfg_adm

/-- A combining call's proof data on core `c`, its four arrays at entry read off `Vv`: windows 0 … `nin` − 1 are
    inputs (left as found), the rest outputs; the invariant is the scoped buffers no window stages; `O` owed throughout. -/
def rdatOf (p : Fin 2) (c : Dev nD) (Vv : (b : Ref sig .tc) → Buf (Elt F) ((c : Thread nD τ).loc b)) (O : CellTallies nD τ sig (HIx 2))
    (rec : Set (SemLoc sig × HIx 2)) :
    RDat τ (Elt F) (HIx 2) ℕ UU ℕ (Pipeline.pin (pcfgs (F := F)) adm p) c where
  A w := Vv (Pipeline.arrRef (Pipeline.pin (pcfgs (F := F)) adm p).spec w)
  after w _ := if ((Pipeline.pin (pcfgs (F := F)) adm p).win w).isOut then fun _ _ => True else fun Y X => X = Y
  Φ _ := Pipeline.scopedRest (Pipeline.pin (pcfgs (F := F)) adm p).spec c
  q _ := fullShare
  owed _ := O
  recorded _ := rec

/-- The second combining call's body obligation. -/
theorem body_obl3 (c : Dev nD) (Vv : (b : Ref sig .tc) → Buf (Elt F) ((c : Thread nD τ).loc b)) (O : CellTallies nD τ sig (HIx 2))
    (rec : Set (SemLoc sig × HIx 2)) :
    (rdatOf (F := F) 1 c Vv O rec).BodyObligation (defs₀ (F := F)) 𝒱₀ none Set.univ := by
  intro t Y _
  rw [bigSep_W3, bigSep_W3]
  iintro ⟨HΦ, Ho, H0, H1, H2, H3⟩
  iapply (sound_kernel3 c Set.univ _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, ⟨%y, H3⟩⟩
  isplitl [HΦ]
  · iapply (Entails.of_eq (show (rdatOf (F := F) 1 c Vv O rec).Φ t.castSucc = (rdatOf (F := F) 1 c Vv O rec).Φ t.succ from rfl)); iexact HΦ
  isplitl [Ho]
  · iapply (Entails.of_eq (show (rdatOf (F := F) 1 c Vv O rec).owesAt none t.castSucc = (rdatOf (F := F) 1 c Vv O rec).owesAt none t.succ from rfl)); iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  iexists y; isplitr; · ipureintro; exact trivial
  iexact H3

/-! ## The region -/

/-- The recorded pairs a TensorCore may hold before call `n`. -/
def recB (n : ℕ) (c : Dev nD) : Set (SemLoc sig × HIx 2) := {p | (K (F := F)).lev ((c : Thread nD τ), p.1) p.2 ≤ 8 * n}

theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

/-- Both pipelines' proof data on every core before call `n`, from a valuation per core. -/
def rdatsOf (n : ℕ) (VV : (c : Dev nD) → (b : Ref sig .tc) → Buf (Elt F) ((c : Thread nD τ).loc b)) :
    (p : Fin 2) → (c : Dev nD) → RDat τ (Elt F) (HIx 2) ℕ UU ℕ (Pipeline.pin (pcfgs (F := F)) adm p) c :=
  fun p c => rdatOf p c (VV c) ((K (F := F)).Otc c n) (recB (F := F) n c)

theorem rdatsOf_Φ (n : ℕ) (VV : (c : Dev nD) → (b : Ref sig .tc) → Buf (Elt F) ((c : Thread nD τ).loc b))
    (p : Fin 2) (c : Dev nD) (t : Fin ((Pipeline.pin (pcfgs (F := F)) adm p).N + 1)) :
    (rdatsOf n VV p c).Φ t = Pipeline.scopedRest (Pipeline.pin (pcfgs (F := F)) adm p).spec c := rfl

/-- A TensorCore that owes only handshake signals (at a call's index) may wait on its pipelines' staging cells (at index
    `none`). -/
theorem hwaitsOf (n : ℕ) (VV : (c : Dev nD) → (b : Ref sig .tc) → Buf (Elt F) ((c : Thread nD τ).loc b)) (p : Fin 2) (c : Dev nD) :
    (levAts (K (F := F)).L (K (F := F)).lev : sProp 𝕄) ⊢ Pipeline.RDat.cellsWaits (Pipeline.pin (pcfgs (F := F)) adm) (rdatsOf n VV) (none : HIx 2) p c :=
  Pipeline.RDat.cellsWaits_intro _ _ _ p c fun w s t => (K (F := F)).mayWait_none _ (Otc_none c n)

/-- The thread state around a combining call: the core's debts. -/
theorem owes_entry (n : ℕ) (VV : (c : Dev nD) → (b : Ref sig .tc) → Buf (Elt F) ((c : Thread nD τ).loc b)) (p : Fin 2) (c : Dev nD) :
    owesPart (F := F) c n ⊢ (rdatsOf n VV p c).owesAt none 0 := by
  unfold owesPart Pipeline.RDat.owesAt Pipeline.owesWithin
  iintro ⟨%W, %hW, HO⟩
  iexists W; isplitr; · ipureintro; exact fun q hq => Or.inl (hW q hq)
  iexact HO

theorem owes_exit (n : ℕ) (VV : (c : Dev nD) → (b : Ref sig .tc) → Buf (Elt F) ((c : Thread nD τ).loc b)) (p : Fin 2) (c : Dev nD) :
    (rdatsOf n VV p c).owesAt none (Fin.last _) ⊢ owesPart (F := F) c n := by
  unfold owesPart Pipeline.RDat.owesAt Pipeline.owesWithin
  iintro ⟨%W, %hW, HO⟩
  iexists W; isplitr
  · ipureintro
    intro q hq
    rcases hW hq with h | ⟨w, s, rfl⟩
    · exact h
    · show (K (F := F)).lev _ none ≤ _; rw [SparseCore.Cfg.lev_none]; exact Nat.zero_le _
  iexact HO

set_option backward.isDefEq.respectTransparency.types false in
/-- The second combining call as a region: entered from its four arrays at the entry contents and the core's debts,
    left with the arrays at contents the write-backs may leave and the same debts. -/
def reg1Seg (VV : (c : Dev nD) → (b : Ref sig .tc) → Buf (Elt F) ((c : Thread nD τ).loc b)) :
    Pipeline.RDat.RegionSeg (pcfgs (F := F)) adm (rdatsOf 2 VV) (none : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := body_obl3 c (VV c) _ _
  hwaits c := hwaitsOf 2 VV 1 c
  pre c := iprop((rdatsOf 2 VV 1 c).arrays (rdatsOf 2 VV 1 c).A ∗ owesPart (F := F) c 2)
  post c := iprop((rdatsOf 2 VV 1 c).arraysAt cfg3.N ∗ owesPart (F := F) c 2)
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owes_entry 2 VV 1 c); iexact HO
    isplitr; · iempintro
    iempintro
  hin c := by
    rw [rdatsOf_Φ]
    iintro ⟨-, -, Hr⟩
    iexact Hr
  hout c := by
    rw [Pipeline.ownSems0_none, rdatsOf_Φ]
    iintro Hr
    isplitr; · iempintro
    isplitr; · iempintro
    iexact Hr
  hexit c := by
    iintro ⟨Ha, HO, -, -⟩
    imodintro
    isplitl [Ha]; · iexact Ha
    iapply (owes_exit 2 VV 1 c); iexact HO

/-! ## The region inside the SparseCore program -/

theorem arrays1_eq (VV : (c : Dev nD) → (b : Ref sig .tc) → Buf (Elt F) ((c : Thread nD τ).loc b)) (d : Dev nD) :
    ((rdatsOf 2 VV 1 d).arrays (rdatsOf 2 VV 1 d).A : sProp 𝕄)
      = iprop((aR d ↦{fullShare} VV d main_v6) ∗ (aC d ↦{fullShare} VV d main_v3_1) ∗ (a41 d ↦{fullShare} VV d main_v4_1) ∗ (a7 d ↦{fullShare} VV d main_v7)) := by
  rw [Pipeline.RDat.arrays_eq (pcfgs (F := F)) adm (rdatsOf 2 VV) 1 d arr_whole3 ((rdatsOf 2 VV 1 d).share_full fun _ => rfl), bigSep_W3]
  rfl

theorem win3_pts (VV : (c : Dev nD) → (b : Ref sig .tc) → Buf (Elt F) ((c : Thread nD τ).loc b)) (d : Dev nD) (w : Fin 4)
    (Fw : Buf (Elt F) (((Pipeline.pin (pcfgs (F := F)) adm 1).win w).arr.view.loc (d : Thread nD τ))) :
    ((((Pipeline.pin (pcfgs (F := F)) adm 1).win w).arr.view.loc (d : Thread nD τ)) ↦[((Pipeline.pin (pcfgs (F := F)) adm 1).win w).arr.view.set]{(rdatsOf 2 VV 1 d).share w} Fw : sProp 𝕄)
      = (((d : Thread nD τ).loc (Pipeline.arrRef spec3 w)) ↦{fullShare} Fw) := by
  rw [(show (((Pipeline.pin (pcfgs (F := F)) adm 1).win w).arr).IsWhole from arr_whole3 w).set_eq_univ, (rdatsOf 2 VV 1 d).share_full (fun _ => rfl) w]
  rfl

/-- What the region leaves: the three inputs as entered, the output at some contents. -/
theorem arraysAt1_elim (VV : (c : Dev nD) → (b : Ref sig .tc) → Buf (Elt F) ((c : Thread nD τ).loc b)) (d : Dev nD) :
    ((rdatsOf 2 VV 1 d).arraysAt cfg3.N : sProp 𝕄)
      ⊢ iprop((aR d ↦{fullShare} VV d main_v6) ∗ (aC d ↦{fullShare} VV d main_v3_1) ∗ (a41 d ↦{fullShare} VV d main_v4_1)
          ∗ ∃ g : Buf (Elt F) (a7 d), a7 d ↦{fullShare} g) := by
  unfold Pipeline.RDat.arraysAt
  rw [bigSep_W3]
  iintro ⟨⟨%F0, %h0, H0⟩, ⟨%F1, %h1, H1⟩, ⟨%F2, %h2, H2⟩, ⟨%F3, -, H3⟩⟩
  rw [(rdatsOf 2 VV 1 d).ArrAt_in 0 rfl] at h0
  rw [(rdatsOf 2 VV 1 d).ArrAt_in 1 rfl] at h1
  rw [(rdatsOf 2 VV 1 d).ArrAt_in 2 rfl] at h2
  subst h0 h1 h2
  isplitl [H0]; · iapply (Entails.of_eq (win3_pts VV d 0 _)); iexact H0
  isplitl [H1]; · iapply (Entails.of_eq (win3_pts VV d 1 _)); iexact H1
  isplitl [H2]; · iapply (Entails.of_eq (win3_pts VV d 2 _)); iexact H2
  iexists F3; iapply (Entails.of_eq (win3_pts VV d 3 _)); iexact H3

variable (m : (ℓ : Loc nD τ sig) → Buf (Elt F) ℓ)

/-- Device `d`'s TensorCore arrays with the second combining call's four at named contents. -/
def Vd1 (d : Dev nD) (fR : Buf (Elt F) (aR d)) (fC : Buf (Elt F) (aC d)) (f41 : Buf (Elt F) (a41 d)) (g7 : Buf (Elt F) (a7 d)) :
    (b : Ref sig .tc) → Buf (Elt F) ((d : Thread nD τ).loc b) :=
  Function.update (Function.update (Function.update (Function.update (fun b => m ((d : Thread nD τ).loc b)) main_v6 fR) main_v3_1 fC) main_v4_1 f41) main_v7 g7

theorem Vd1_v6 (d : Dev nD) (fR : Buf (Elt F) (aR d)) (fC : Buf (Elt F) (aC d)) (f41 : Buf (Elt F) (a41 d)) (g7 : Buf (Elt F) (a7 d)) :
    Vd1 m d fR fC f41 g7 main_v6 = fR := by
  unfold Vd1; rw [Function.update_of_ne (by decide), Function.update_of_ne (by decide), Function.update_of_ne (by decide), Function.update_self]
theorem Vd1_v31 (d : Dev nD) (fR : Buf (Elt F) (aR d)) (fC : Buf (Elt F) (aC d)) (f41 : Buf (Elt F) (a41 d)) (g7 : Buf (Elt F) (a7 d)) :
    Vd1 m d fR fC f41 g7 main_v3_1 = fC := by
  unfold Vd1; rw [Function.update_of_ne (by decide), Function.update_of_ne (by decide), Function.update_self]
theorem Vd1_v41 (d : Dev nD) (fR : Buf (Elt F) (aR d)) (fC : Buf (Elt F) (aC d)) (f41 : Buf (Elt F) (a41 d)) (g7 : Buf (Elt F) (a7 d)) :
    Vd1 m d fR fC f41 g7 main_v4_1 = f41 := by
  unfold Vd1; rw [Function.update_of_ne (by decide), Function.update_self]
theorem Vd1_v7 (d : Dev nD) (fR : Buf (Elt F) (aR d)) (fC : Buf (Elt F) (aC d)) (f41 : Buf (Elt F) (a41 d)) (g7 : Buf (Elt F) (a7 d)) :
    Vd1 m d fR fC f41 g7 main_v7 = g7 := by
  unfold Vd1; rw [Function.update_self]

/-- The same on every device (the launch contents elsewhere). -/
def VV1 (d : Dev nD) (fR : Buf (Elt F) (aR d)) (fC : Buf (Elt F) (aC d)) (f41 : Buf (Elt F) (a41 d)) (g7 : Buf (Elt F) (a7 d)) :
    (c : Dev nD) → (b : Ref sig .tc) → Buf (Elt F) ((c : Thread nD τ).loc b) :=
  Function.update (fun c b => m ((c : Thread nD τ).loc b)) d (Vd1 m d fR fC f41 g7)

theorem VV1_d (d : Dev nD) (fR : Buf (Elt F) (aR d)) (fC : Buf (Elt F) (aC d)) (f41 : Buf (Elt F) (a41 d)) (g7 : Buf (Elt F) (a7 d)) :
    VV1 m d fR fC f41 g7 d = Vd1 m d fR fC f41 g7 := Function.update_self _ _ _

theorem ptsR1 (d : Dev nD) (fR : Buf (Elt F) (aR d)) (fC : Buf (Elt F) (aC d)) (f41 : Buf (Elt F) (a41 d)) (g7 : Buf (Elt F) (a7 d)) :
    (aR d ↦{fullShare} VV1 m d fR fC f41 g7 d main_v6 : sProp 𝕄) = (aR d ↦{fullShare} fR) := by rw [VV1_d, Vd1_v6]
theorem ptsC1 (d : Dev nD) (fR : Buf (Elt F) (aR d)) (fC : Buf (Elt F) (aC d)) (f41 : Buf (Elt F) (a41 d)) (g7 : Buf (Elt F) (a7 d)) :
    (aC d ↦{fullShare} VV1 m d fR fC f41 g7 d main_v3_1 : sProp 𝕄) = (aC d ↦{fullShare} fC) := by rw [VV1_d, Vd1_v31]
theorem pts411 (d : Dev nD) (fR : Buf (Elt F) (aR d)) (fC : Buf (Elt F) (aC d)) (f41 : Buf (Elt F) (a41 d)) (g7 : Buf (Elt F) (a7 d)) :
    (a41 d ↦{fullShare} VV1 m d fR fC f41 g7 d main_v4_1 : sProp 𝕄) = (a41 d ↦{fullShare} f41) := by rw [VV1_d, Vd1_v41]
theorem pts71 (d : Dev nD) (fR : Buf (Elt F) (aR d)) (fC : Buf (Elt F) (aC d)) (f41 : Buf (Elt F) (a41 d)) (g7 : Buf (Elt F) (a7 d)) :
    (a7 d ↦{fullShare} VV1 m d fR fC f41 g7 d main_v7 : sProp 𝕄) = (a7 d ↦{fullShare} g7) := by rw [VV1_d, Vd1_v7]

set_option backward.isDefEq.respectTransparency.types false in
/-- The second combining pallas_call, inside the SparseCore program. -/
theorem reg1 (m : (ℓ : Loc nD τ sig) → Buf (Elt F) ℓ) : Reg1 (F := F) := by
  intro d fR fC f41 Φ
  iintro ⟨#Hlev, Hb, HR, HC, H41, ⟨%g7, H7⟩, ⟨HGc, HGt⟩, HO, Hk⟩
  iapply ((K (F := F)).wp_liftProg (D (F := F)) 𝒱 (SparseCore.T d) Set.univ none (Prog.lift (TpuEff.customCall (Pipeline.entry 1) ())) Φ)
  iapply (Pipeline.RDat.RegionSeg.wp (pcfgs (F := F)) adm (rdatsOf 2 (VV1 m d fR fC f41 g7)) (none : HIx 2) cellOf_inj (EP (F := F)) defs₀ 𝒱₀
    (K (F := F)).L (K (F := F)).lev (reg1Seg (VV1 m d fR fC f41 g7)) d none (fun u hu => nomatch hu) (fun _ => Prog.ret PUnit.unit) Φ)
  isplitl [Hk]
  · iintro ⟨Hb, Hpost⟩
    rw [wp_ret]; imodintro
    ihave Hp := (Entails.of_eq (show (reg1Seg (VV1 m d fR fC f41 g7)).post d
        = iprop((rdatsOf 2 (VV1 m d fR fC f41 g7) 1 d).arraysAt cfg3.N ∗ owesPart (F := F) d 2) from rfl)) $$ Hpost
    icases Hp with ⟨Ha, HO⟩
    ihave Ha' := (arraysAt1_elim (VV1 m d fR fC f41 g7) d) $$ Ha
    icases Ha' with ⟨HR, HC, H41, H7⟩
    iapply Hk
    isplitl [Hb]; · iexact Hb
    isplitl [HR]; · iapply (Entails.of_eq (ptsR1 m d fR fC f41 g7)); iexact HR
    isplitl [HC]; · iapply (Entails.of_eq (ptsC1 m d fR fC f41 g7)); iexact HC
    isplitl [H41]; · iapply (Entails.of_eq (pts411 m d fR fC f41 g7)); iexact H41
    isplitl [H7]; · iexact H7
    iexact HO
  isplitl [Hb]; · iexact Hb
  isplitl [HR HC H41 H7 HO]
  · iapply (Entails.of_eq (show (reg1Seg (VV1 m d fR fC f41 g7)).pre d
        = iprop((rdatsOf 2 (VV1 m d fR fC f41 g7) 1 d).arrays (rdatsOf 2 (VV1 m d fR fC f41 g7) 1 d).A ∗ owesPart (F := F) d 2) from rfl).symm)
    isplitl [HR HC H41 H7]
    · iapply (Entails.of_eq (arrays1_eq (VV1 m d fR fC f41 g7) d).symm)
      isplitl [HR]; · iapply (Entails.of_eq (ptsR1 m d fR fC f41 g7).symm); iexact HR
      isplitl [HC]; · iapply (Entails.of_eq (ptsC1 m d fR fC f41 g7).symm); iexact HC
      isplitl [H41]; · iapply (Entails.of_eq (pts411 m d fR fC f41 g7).symm); iexact H41
      iapply (Entails.of_eq (pts71 m d fR fC f41 g7).symm); iexact H7
    iexact HO
  isplitl [Hlev]; · iexact Hlev
  isplitl [HGc]; · iexact HGc
  iexact HGt

end Cert.Proof.KI

end
-- ==== Proof.Region0I.lean ====
/-
  The first combining pallas_call as a region of @main: its body run on the staging buffers (the whole-block loads of the
  partial sums and counts, sixteen stores of the means table's pieces, one store of the scalar), the pipeline's proof
  data (the two input windows left as found, nothing said of the two outputs' contents), and the region entered and left
  inside the SparseCore program while the TensorCore still owes the second call's start signals.
-/
import proofs.«210783_g59777354826199_cont_9to1_m_168_18_alg».proof.Proof.Region1I

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

local notation "𝕄" => MT nD τ sig (HIx 2) (Elt F) ℕ UU ℕ

set_option maxHeartbeats 4000000 in
/-- The body on whole staging memrefs: the two inputs' come back as they were, the two outputs' at some contents. -/
theorem sound_kernel1 (c : Dev nD) (E : Set ℕ) (arg0 : Memref sig .tc .vmem S32x16384 .f32) (harg0 : arg0.IsWhole) (arg1 : Memref sig .tc .vmem S32x1024 .f32) (harg1 : arg1.IsWhole)
    (arg2 : Memref sig .tc .vmem S1024x16 .f32) (harg2 : arg2.IsWhole) (arg3 : Memref sig .tc .vmem S1x1 .f32) (harg3 : arg3.IsWhole)
    (x0 : Vec F S32x16384 .f32) (x1 : Vec F S32x1024 .f32) (x2 : Vec F S1024x16 .f32) (x3 : Vec F S1x1 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (iprop(owns (c : Thread nD τ) arg0 fullShare x0 ∗ owns (c : Thread nD τ) arg1 fullShare x1 ∗ (∃ y, owns (c : Thread nD τ) arg2 fullShare y)
            ∗ ∃ y, owns (c : Thread nD τ) arg3 fullShare y) -∗ Kc ⟨⟩))
      ⊢ wp frame (wpE (defs₀ (F := F)) Variants.none c none) E (cc1__combine1_body arg0 harg0 arg1 harg1 arg2 harg2 arg3 harg3) Kc := by
  simp only [cc1__combine1_body_eq_skeleton]; unfold cc1__combine1_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists _; iexists _; isplitr
    swap; · iexact H2
    ipureintro; rfl
  iexists _; iexists _; isplitr
  swap; · iexact H3
  ipureintro; rfl

/-- The first combining call's body obligation. -/
theorem body_obl1 (c : Dev nD) (Vv : (b : Ref sig .tc) → Buf (Elt F) ((c : Thread nD τ).loc b)) (O : CellTallies nD τ sig (HIx 2))
    (rec : Set (SemLoc sig × HIx 2)) :
    (rdatOf (F := F) 0 c Vv O rec).BodyObligation (defs₀ (F := F)) 𝒱₀ none Set.univ := by
  intro t Y _
  rw [bigSep_W1, bigSep_W1]
  iintro ⟨HΦ, Ho, H0, H1, H2, H3⟩
  iapply (sound_kernel1 c Set.univ _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, ⟨%y2, H2⟩, ⟨%y3, H3⟩⟩
  isplitl [HΦ]
  · iapply (Entails.of_eq (show (rdatOf (F := F) 0 c Vv O rec).Φ t.castSucc = (rdatOf (F := F) 0 c Vv O rec).Φ t.succ from rfl)); iexact HΦ
  isplitl [Ho]
  · iapply (Entails.of_eq (show (rdatOf (F := F) 0 c Vv O rec).owesAt none t.castSucc = (rdatOf (F := F) 0 c Vv O rec).owesAt none t.succ from rfl)); iexact Ho
  isplitl [H0]
  · iexists (Y 0); isplitr; · ipureintro; exact rfl
    iexact H0
  isplitl [H1]
  · iexists (Y 1); isplitr; · ipureintro; exact rfl
    iexact H1
  isplitl [H2]
  · iexists y2; isplitr; · ipureintro; exact trivial
    iexact H2
  iexists y3; isplitr; · ipureintro; exact trivial
  iexact H3

/-! ## The region -/

set_option backward.isDefEq.respectTransparency.types false in
/-- The first combining call as a region: entered from its four arrays at the entry contents and the core's debts (the
    second call's start signals), left with the arrays at contents the write-backs may leave and the same debts. -/
def reg0Seg (VV : (c : Dev nD) → (b : Ref sig .tc) → Buf (Elt F) ((c : Thread nD τ).loc b)) :
    Pipeline.RDat.RegionSeg (pcfgs (F := F)) adm (rdatsOf 1 VV) (none : HIx 2) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obl1 c (VV c) _ _
  hwaits c := hwaitsOf 1 VV 0 c
  pre c := iprop((rdatsOf 1 VV 0 c).arrays (rdatsOf 1 VV 0 c).A ∗ owesPart (F := F) c 1)
  post c := iprop((rdatsOf 1 VV 0 c).arraysAt cfg1.N ∗ owesPart (F := F) c 1)
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owes_entry 1 VV 0 c); iexact HO
    isplitr; · iempintro
    iempintro
  hin c := by
    rw [rdatsOf_Φ]
    iintro ⟨-, -, Hr⟩
    iexact Hr
  hout c := by
    rw [Pipeline.ownSems0_none, rdatsOf_Φ]
    iintro Hr
    isplitr; · iempintro
    isplitr; · iempintro
    iexact Hr
  hexit c := by
    iintro ⟨Ha, HO, -, -⟩
    imodintro
    isplitl [Ha]; · iexact Ha
    iapply (owes_exit 1 VV 0 c); iexact HO

/-! ## The region inside the SparseCore program -/

theorem arrays0_eq (VV : (c : Dev nD) → (b : Ref sig .tc) → Buf (Elt F) ((c : Thread nD τ).loc b)) (d : Dev nD) :
    ((rdatsOf 1 VV 0 d).arrays (rdatsOf 1 VV 0 d).A : sProp 𝕄)
      = iprop((aS d ↦{fullShare} VV d main_v3_0) ∗ (aC d ↦{fullShare} VV d main_v3_1) ∗ (a40 d ↦{fullShare} VV d main_v4_0) ∗ (a41 d ↦{fullShare} VV d main_v4_1)) := by
  rw [Pipeline.RDat.arrays_eq (pcfgs (F := F)) adm (rdatsOf 1 VV) 0 d arr_whole1 ((rdatsOf 1 VV 0 d).share_full fun _ => rfl), bigSep_W1]
  rfl

theorem win1_pts (VV : (c : Dev nD) → (b : Ref sig .tc) → Buf (Elt F) ((c : Thread nD τ).loc b)) (d : Dev nD) (w : Fin 4)
    (Fw : Buf (Elt F) (((Pipeline.pin (pcfgs (F := F)) adm 0).win w).arr.view.loc (d : Thread nD τ))) :
    ((((Pipeline.pin (pcfgs (F := F)) adm 0).win w).arr.view.loc (d : Thread nD τ)) ↦[((Pipeline.pin (pcfgs (F := F)) adm 0).win w).arr.view.set]{(rdatsOf 1 VV 0 d).share w} Fw : sProp 𝕄)
      = (((d : Thread nD τ).loc (Pipeline.arrRef spec1 w)) ↦{fullShare} Fw) := by
  rw [(show (((Pipeline.pin (pcfgs (F := F)) adm 0).win w).arr).IsWhole from arr_whole1 w).set_eq_univ, (rdatsOf 1 VV 0 d).share_full (fun _ => rfl) w]
  rfl

/-- What the region leaves: the two inputs as entered, the two outputs at some contents. -/
theorem arraysAt0_elim (VV : (c : Dev nD) → (b : Ref sig .tc) → Buf (Elt F) ((c : Thread nD τ).loc b)) (d : Dev nD) :
    ((rdatsOf 1 VV 0 d).arraysAt cfg1.N : sProp 𝕄)
      ⊢ iprop((aS d ↦{fullShare} VV d main_v3_0) ∗ (aC d ↦{fullShare} VV d main_v3_1)
          ∗ (∃ g : Buf (Elt F) (a40 d), a40 d ↦{fullShare} g) ∗ ∃ g : Buf (Elt F) (a41 d), a41 d ↦{fullShare} g) := by
  unfold Pipeline.RDat.arraysAt
  rw [bigSep_W1]
  iintro ⟨⟨%F0, %h0, H0⟩, ⟨%F1, %h1, H1⟩, ⟨%F2, -, H2⟩, ⟨%F3, -, H3⟩⟩
  rw [(rdatsOf 1 VV 0 d).ArrAt_in 0 rfl] at h0
  rw [(rdatsOf 1 VV 0 d).ArrAt_in 1 rfl] at h1
  subst h0 h1
  isplitl [H0]; · iapply (Entails.of_eq (win1_pts VV d 0 _)); iexact H0
  isplitl [H1]; · iapply (Entails.of_eq (win1_pts VV d 1 _)); iexact H1
  isplitl [H2]; · iexists F2; iapply (Entails.of_eq (win1_pts VV d 2 _)); iexact H2
  iexists F3; iapply (Entails.of_eq (win1_pts VV d 3 _)); iexact H3

variable (m : (ℓ : Loc nD τ sig) → Buf (Elt F) ℓ)

/-- Device `d`'s TensorCore arrays with the first combining call's four at named contents. -/
def Vd0 (d : Dev nD) (fS : Buf (Elt F) (aS d)) (fC : Buf (Elt F) (aC d)) (g40 : Buf (Elt F) (a40 d)) (g41 : Buf (Elt F) (a41 d)) :
    (b : Ref sig .tc) → Buf (Elt F) ((d : Thread nD τ).loc b) :=
  Function.update (Function.update (Function.update (Function.update (fun b => m ((d : Thread nD τ).loc b)) main_v3_0 fS) main_v3_1 fC) main_v4_0 g40) main_v4_1 g41

theorem Vd0_v30 (d : Dev nD) (fS : Buf (Elt F) (aS d)) (fC : Buf (Elt F) (aC d)) (g40 : Buf (Elt F) (a40 d)) (g41 : Buf (Elt F) (a41 d)) :
    Vd0 m d fS fC g40 g41 main_v3_0 = fS := by
  unfold Vd0; rw [Function.update_of_ne (by decide), Function.update_of_ne (by decide), Function.update_of_ne (by decide), Function.update_self]
theorem Vd0_v31 (d : Dev nD) (fS : Buf (Elt F) (aS d)) (fC : Buf (Elt F) (aC d)) (g40 : Buf (Elt F) (a40 d)) (g41 : Buf (Elt F) (a41 d)) :
    Vd0 m d fS fC g40 g41 main_v3_1 = fC := by
  unfold Vd0; rw [Function.update_of_ne (by decide), Function.update_of_ne (by decide), Function.update_self]
theorem Vd0_v40 (d : Dev nD) (fS : Buf (Elt F) (aS d)) (fC : Buf (Elt F) (aC d)) (g40 : Buf (Elt F) (a40 d)) (g41 : Buf (Elt F) (a41 d)) :
    Vd0 m d fS fC g40 g41 main_v4_0 = g40 := by
  unfold Vd0; rw [Function.update_of_ne (by decide), Function.update_self]
theorem Vd0_v41 (d : Dev nD) (fS : Buf (Elt F) (aS d)) (fC : Buf (Elt F) (aC d)) (g40 : Buf (Elt F) (a40 d)) (g41 : Buf (Elt F) (a41 d)) :
    Vd0 m d fS fC g40 g41 main_v4_1 = g41 := by
  unfold Vd0; rw [Function.update_self]

/-- The same on every device (the launch contents elsewhere). -/
def VV0 (d : Dev nD) (fS : Buf (Elt F) (aS d)) (fC : Buf (Elt F) (aC d)) (g40 : Buf (Elt F) (a40 d)) (g41 : Buf (Elt F) (a41 d)) :
    (c : Dev nD) → (b : Ref sig .tc) → Buf (Elt F) ((c : Thread nD τ).loc b) :=
  Function.update (fun c b => m ((c : Thread nD τ).loc b)) d (Vd0 m d fS fC g40 g41)

theorem VV0_d (d : Dev nD) (fS : Buf (Elt F) (aS d)) (fC : Buf (Elt F) (aC d)) (g40 : Buf (Elt F) (a40 d)) (g41 : Buf (Elt F) (a41 d)) :
    VV0 m d fS fC g40 g41 d = Vd0 m d fS fC g40 g41 := Function.update_self _ _ _

theorem ptsS0 (d : Dev nD) (fS : Buf (Elt F) (aS d)) (fC : Buf (Elt F) (aC d)) (g40 : Buf (Elt F) (a40 d)) (g41 : Buf (Elt F) (a41 d)) :
    (aS d ↦{fullShare} VV0 m d fS fC g40 g41 d main_v3_0 : sProp 𝕄) = (aS d ↦{fullShare} fS) := by rw [VV0_d, Vd0_v30]
theorem ptsC0 (d : Dev nD) (fS : Buf (Elt F) (aS d)) (fC : Buf (Elt F) (aC d)) (g40 : Buf (Elt F) (a40 d)) (g41 : Buf (Elt F) (a41 d)) :
    (aC d ↦{fullShare} VV0 m d fS fC g40 g41 d main_v3_1 : sProp 𝕄) = (aC d ↦{fullShare} fC) := by rw [VV0_d, Vd0_v31]
theorem pts400 (d : Dev nD) (fS : Buf (Elt F) (aS d)) (fC : Buf (Elt F) (aC d)) (g40 : Buf (Elt F) (a40 d)) (g41 : Buf (Elt F) (a41 d)) :
    (a40 d ↦{fullShare} VV0 m d fS fC g40 g41 d main_v4_0 : sProp 𝕄) = (a40 d ↦{fullShare} g40) := by rw [VV0_d, Vd0_v40]
theorem pts410 (d : Dev nD) (fS : Buf (Elt F) (aS d)) (fC : Buf (Elt F) (aC d)) (g40 : Buf (Elt F) (a40 d)) (g41 : Buf (Elt F) (a41 d)) :
    (a41 d ↦{fullShare} VV0 m d fS fC g40 g41 d main_v4_1 : sProp 𝕄) = (a41 d ↦{fullShare} g41) := by rw [VV0_d, Vd0_v41]

set_option backward.isDefEq.respectTransparency.types false in
/-- The first combining pallas_call, inside the SparseCore program. -/
theorem reg0 (m : (ℓ : Loc nD τ sig) → Buf (Elt F) ℓ) : Reg0 (F := F) := by
  intro d fS fC Φ
  iintro ⟨#Hlev, Hb, HS, HC, ⟨%g40, H40⟩, ⟨%g41, H41⟩, ⟨HGc, HGt⟩, HO, Hk⟩
  iapply ((K (F := F)).wp_liftProg (D (F := F)) 𝒱 (SparseCore.T d) Set.univ none (Prog.lift (TpuEff.customCall (Pipeline.entry 0) ())) Φ)
  iapply (Pipeline.RDat.RegionSeg.wp (pcfgs (F := F)) adm (rdatsOf 1 (VV0 m d fS fC g40 g41)) (none : HIx 2) cellOf_inj (EP (F := F)) defs₀ 𝒱₀
    (K (F := F)).L (K (F := F)).lev (reg0Seg (VV0 m d fS fC g40 g41)) d none (fun u hu => nomatch hu) (fun _ => Prog.ret PUnit.unit) Φ)
  isplitl [Hk]
  · iintro ⟨Hb, Hpost⟩
    rw [wp_ret]; imodintro
    ihave Hp := (Entails.of_eq (show (reg0Seg (VV0 m d fS fC g40 g41)).post d
        = iprop((rdatsOf 1 (VV0 m d fS fC g40 g41) 0 d).arraysAt cfg1.N ∗ owesPart (F := F) d 1) from rfl)) $$ Hpost
    icases Hp with ⟨Ha, HO⟩
    ihave Ha' := (arraysAt0_elim (VV0 m d fS fC g40 g41) d) $$ Ha
    icases Ha' with ⟨HS, HC, H40, H41⟩
    iapply Hk
    isplitl [Hb]; · iexact Hb
    isplitl [HS]; · iapply (Entails.of_eq (ptsS0 m d fS fC g40 g41)); iexact HS
    isplitl [HC]; · iapply (Entails.of_eq (ptsC0 m d fS fC g40 g41)); iexact HC
    isplitl [H40]; · iexact H40
    isplitl [H41]; · iexact H41
    iexact HO
  isplitl [Hb]; · iexact Hb
  isplitl [HS HC H40 H41 HO]
  · iapply (Entails.of_eq (show (reg0Seg (VV0 m d fS fC g40 g41)).pre d
        = iprop((rdatsOf 1 (VV0 m d fS fC g40 g41) 0 d).arrays (rdatsOf 1 (VV0 m d fS fC g40 g41) 0 d).A ∗ owesPart (F := F) d 1) from rfl).symm)
    isplitl [HS HC H40 H41]
    · iapply (Entails.of_eq (arrays0_eq (VV0 m d fS fC g40 g41) d).symm)
      isplitl [HS]; · iapply (Entails.of_eq (ptsS0 m d fS fC g40 g41).symm); iexact HS
      isplitl [HC]; · iapply (Entails.of_eq (ptsC0 m d fS fC g40 g41).symm); iexact HC
      isplitl [H40]; · iapply (Entails.of_eq (pts400 m d fS fC g40 g41).symm); iexact H40
      iapply (Entails.of_eq (pts410 m d fS fC g40 g41).symm); iexact H41
    iexact HO
  isplitl [Hlev]; · iexact Hlev
  isplitl [HGc]; · iexact HGc
  iexact HGt

end Cert.Proof.KI

end
-- ==== Proof.FrameI.lean ====
/-
  The idealized kernel program's run, assembled: from the two tile obligations, every weakly fair execution of the
  device's threads terminates, nothing faulting, and the three arguments end unchanged.
-/
import proofs.«210783_g59777354826199_cont_9to1_m_168_18_alg».proof.Proof.Region0I

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

theorem run_frame [∀ e, Nonempty (Elt F e)] (m : (ℓ : Loc nD τ sig) → Buf (Elt F) ℓ) (ρ : Dev nD → PrngReg)
    (htile0 : (K (F := F)).TileObl (D (F := F)) 𝒱 (P (cE m) (cT m) (cK m)) v₀ 0)
    (htile1 : (K (F := F)).TileObl (D (F := F)) 𝒱 (P (cE m) (cT m) (cK m)) v₀ 1) :
    θ_run (Cert.KernelIdeal.defs (F := F)) (Cert.KernelIdeal.threads (F := F)) ⟨m, fun _ => 0, ρ⟩ (QC m) :=
  run_of m ρ (cE m) (cT m) (cK m) htile0 htile1 (hmain m ρ (reg0 m) (reg1 m))

end Cert.Proof.KI

end
-- ==== Proof.WrapI.lean ====
/-
  The tile obligations of the launch theorem from the two kernels' bodies proved at a symbolic tile: tile (c, s) is worker
  2·s + c; what the go signal hands it — its read shares of the flattened inputs and its rows of the partial-result
  arrays — is what the body is proved from, respelt as the tile addresses it.
-/
import proofs.«210783_g59777354826199_cont_9to1_m_168_18_alg».proof.Proof.FrameI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig (HIx 2) (Elt F) ℕ UU ℕ

/-! ## The first kernel's operands as a tile addresses them -/

abbrev cV0 (L : grid0.Coords) : Fin τ.nSC := (L 0).castLE hcore0
abbrev jV0 (L : grid0.Coords) : Fin τ.nSub := (L 1).castLE hsub0
abbrev thr0 (d : Dev nD) (L : grid0.Coords) : Thread nD τ := V d (cV0 L) (jV0 L)
abbrev eW0 : Memref sig .scVector .hbm S33554432 .f32 := Memref.whole main_v0_scv
abbrev tW0 : Memref sig .scVector .hbm S2097152 .i32 := Memref.whole main_v1_scv
abbrev kW0 : Memref sig .scVector .hbm S2097152 .i32 := Memref.whole main_v2_scv
abbrev o0W : Memref sig .scVector .hbm S32x16384 .f32 := Memref.whole main_v3_0_scv
abbrev o1W : Memref sig .scVector .hbm S32x1024 .f32 := Memref.whole main_v3_1_scv
abbrev rect0 (L : grid0.Coords) : Rect S32x16384 := Rect.unit (s := S32x16384) (k0_off145 L) S1x16384.size (k0_off145_inb L)
abbrev rect1 (L : grid0.Coords) : Rect S32x1024 := Rect.unit (s := S32x1024) (k0_off146 L) S1x1024.size (k0_off146_inb L)
abbrev o0Row (L : grid0.Coords) : Memref sig .scVector .hbm S16384 .f32 := ((o0W).slice (rect0 L) (fun _ => rfl)).squeeze S16384 squeezes_S1x16384_S16384
abbrev o1Row (L : grid0.Coords) : Memref sig .scVector .hbm S1024 .f32 := ((o1W).slice (rect1 L) (fun _ => rfl)).squeeze S1024 squeezes_S1x1024_S1024

/-- The worker of the tile at coordinates `L`. -/
def widL0 (L : grid0.Coords) : Fin 32 := ⟨2 * (L 1).val + (L 0).val, by have h0 : (L 0).val < 2 := (L 0).isLt; have h1 : (L 1).val < 16 := (L 1).isLt; omega⟩

omit [FloatOps F] in
theorem rect0_eq (L : grid0.Coords) : rect0 L = rowS (widL0 L) := by
  unfold rect0 rowS Rect.part Rect.block
  congr 1 <;> funext a
  · rw [k0_off145_eq]
    match a with
    | 0 => simp [Shape.partIx, Shape.partSize, widL0]
    | 1 => simp [Shape.partIx, Shape.partSize]
  · match a with
    | 0 => simp [Shape.partSize]
    | 1 => simp [Shape.partSize]
omit [FloatOps F] in
theorem rect1_eq (L : grid0.Coords) : rect1 L = rowC (widL0 L) := by
  unfold rect1 rowC Rect.part Rect.block
  congr 1 <;> funext a
  · rw [k0_off146_eq]
    match a with
    | 0 => simp [Shape.partIx, Shape.partSize, widL0]
    | 1 => simp [Shape.partIx, Shape.partSize]
  · match a with
    | 0 => simp [Shape.partSize]
    | 1 => simp [Shape.partSize]

omit [FloatOps F] in
theorem set_o0Row (L : grid0.Coords) : (o0Row L).view.set = (rowS (widL0 L)).set := by
  show (((o0W).view.slice (rect0 L)).reshape S16384 squeezes_S1x16384_S16384.numel_eq).set = _
  rw [View.set_reshape]
  show ((View.whole (main_v3_0_scv : Ref sig .scVector)).slice (rect0 L)).set = _
  rw [View.set_slice, rect0_eq]; exact Finset.map_refl
omit [FloatOps F] in
theorem set_o1Row (L : grid0.Coords) : (o1Row L).view.set = (rowC (widL0 L)).set := by
  show (((o1W).view.slice (rect1 L)).reshape S1024 squeezes_S1x1024_S1024.numel_eq).set = _
  rw [View.set_reshape]
  show ((View.whole (main_v3_1_scv : Ref sig .scVector)).slice (rect1 L)).set = _
  rw [View.set_slice, rect1_eq]; exact Finset.map_refl

/-- The first kernel's body, proved once at a symbolic tile: from read shares of the three inputs (the target ids in
    range) and the tile's rows of the two result arrays, its scoped storage and what it owes, back to the same, the rows
    at what the body left. -/
def Body0 : Prop := ∀ (d : Dev nD) (L : grid0.Coords) (q : PosShare TreeShare)
    (e : Buf (Elt F) ((eW0).view.loc (thr0 d L))) (t : Buf (Elt F) ((tW0).view.loc (thr0 d L))) (k : Buf (Elt F) ((kW0).view.loc (thr0 d L)))
    (_ : ∀ j, (t j).toNat ≤ 63)
    (O : CellTallies nD τ sig (HIx 2)) (W : Waits sig (HIx 2)) (_ : ∀ g, O g none = 0),
    iprop(levAts (K (F := F)).L (K (F := F)).lev
        ∗ (((eW0).view.loc (thr0 d L) ↦{q} e) ∗ ((tW0).view.loc (thr0 d L) ↦{q} t) ∗ ((kW0).view.loc (thr0 d L) ↦{q} k)
          ∗ (∃ f, (o0Row L).view.loc (thr0 d L) ↦[(o0Row L).view.set]{fullShare} f)
          ∗ (∃ f, (o1Row L).view.loc (thr0 d L) ↦[(o1Row L).view.set]{fullShare} f))
        ∗ scopedBufs (thr0 d L) ∗ scopedSems0 (thr0 d L) ∗ owes (thr0 d L) O W : sProp 𝕄)
      ⊢ wp frame (wpE (defs₀ (F := F)) 𝒱₀ (thr0 d L) none) Set.univ
          (cc0__sc_pass1 L eW0 (Memref.isWhole_whole _) tW0 (Memref.isWhole_whole _) kW0 (Memref.isWhole_whole _)
            o0W (Memref.isWhole_whole _) o1W (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6 cc0_scoped0 cc0_scoped1)
          fun _ => iprop((((eW0).view.loc (thr0 d L) ↦{q} e) ∗ ((tW0).view.loc (thr0 d L) ↦{q} t) ∗ ((kW0).view.loc (thr0 d L) ↦{q} k)
          ∗ (∃ f, (o0Row L).view.loc (thr0 d L) ↦[(o0Row L).view.set]{fullShare} f)
          ∗ (∃ f, (o1Row L).view.loc (thr0 d L) ↦[(o1Row L).view.set]{fullShare} f))
            ∗ scopedBufs (thr0 d L) ∗ scopedSems0 (thr0 d L) ∗ ∃ W', ⌜∀ p ∈ W', p ∈ W ∨ p.2 = none⌝ ∗ owes (thr0 d L) O W')

def coordsV0 (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0__sc_pass1 (coordsV0 c s)
          eW0 (Memref.isWhole_whole _) tW0 (Memref.isWhole_whole _) kW0 (Memref.isWhole_whole _) o0W (Memref.isWhole_whole _) o1W (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _)
          cc0_scratch5 cc0_scratch6 cc0_scoped0 cc0_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem regroup5 (A B C D E : sProp 𝕄) : iprop((A ∗ B ∗ C) ∗ D ∗ E) = iprop(A ∗ B ∗ C ∗ D ∗ E) := by
  refine Entails.antisymm (show iprop((A ∗ B ∗ C) ∗ D ∗ E) ⊢ iprop(A ∗ B ∗ C ∗ D ∗ E) from ?_) (show iprop(A ∗ B ∗ C ∗ D ∗ E) ⊢ iprop((A ∗ B ∗ C) ∗ D ∗ E) from ?_)
  · iintro ⟨⟨H1, H2, H3⟩, H4, H5⟩
    isplitl [H1]; · iexact H1
    isplitl [H2]; · iexact H2
    isplitl [H3]; · iexact H3
    isplitl [H4]; · iexact H4
    iexact H5
  · iintro ⟨H1, H2, H3, H4, H5⟩
    isplitl [H1 H2 H3]
    · isplitl [H1]; · iexact H1
      isplitl [H2]; · iexact H2
      iexact H3
    isplitl [H4]; · iexact H4
    iexact H5

variable (cE : (d : Dev nD) → Buf (Elt F) (aE d)) (cT : (d : Dev nD) → Buf (Elt F) (aT d)) (cK : (d : Dev nD) → Buf (Elt F) (aK d))

/-- A worker's operands of the first call, as its tile addresses them. -/
theorem task0_tile (d : Dev nD) (L : grid0.Coords) :
    (task0 cE cT cK d (widL0 L) : sProp 𝕄)
      = iprop(((eW0).view.loc (thr0 d L) ↦{shareTok fullShare 32 (widL0 L)} cE d) ∗ ((tW0).view.loc (thr0 d L) ↦{shareTok fullShare 32 (widL0 L)} cT d)
          ∗ ((kW0).view.loc (thr0 d L) ↦{shareTok fullShare 32 (widL0 L)} cK d)
          ∗ (∃ f, (o0Row L).view.loc (thr0 d L) ↦[(o0Row L).view.set]{fullShare} f)
          ∗ (∃ f, (o1Row L).view.loc (thr0 d L) ↦[(o1Row L).view.set]{fullShare} f)) := by
  unfold task0 inToks
  rw [set_o0Row, set_o1Row]
  exact regroup5 _ _ _ _ _

omit [FloatOps F] in
theorem drop2 (A X B C D E : sProp 𝕄) : iprop(A ∗ X ∗ B ∗ C ∗ D ∗ E) ⊢ iprop(A ∗ B ∗ C ∗ D ∗ E) := by
  iintro ⟨H1, -, H3, H4, H5, H6⟩
  isplitl [H1]; · iexact H1
  isplitl [H3]; · iexact H3
  isplitl [H4]; · iexact H4
  isplitl [H5]; · iexact H5
  iexact H6

/-- The launch theorem's obligation at the first call. -/
theorem tileObl0 (hb : Body0 (F := F)) (hR : ∀ (d : Dev nD) j, (cT d j).toNat ≤ 63) :
    (K (F := F)).TileObl (D (F := F)) 𝒱 (P cE cT cK) v₀ 0 := by
  intro d c i O W hO _ _
  simp only [show (P cE cT cK).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  have hw : wid c.val i.val c.isLt i.isLt = widL0 (coordsV0 ⟨_, hc.1⟩ ⟨_, hc.2⟩) :=
    Fin.ext (by show i.val * 2 + c.val = 2 * i.val + c.val; omega)
  show iprop(_ ∗ _ ∗ task0 cE cT cK d (wid c.val i.val c.isLt i.isLt) ∗ _) ⊢ wp _ _ _ _ (fun _ => iprop(task0 cE cT cK d (wid c.val i.val c.isLt i.isLt) ∗ _))
  rw [hw, task0_tile]
  refine BI.Entails.trans ?_ ((hb d (coordsV0 ⟨_, hc.1⟩ ⟨_, hc.2⟩) _ (cE d) (cT d) (cK d) (hR d) O W hO).trans (wp_mono frame _ _ fun _ => obl_post))
  exact drop2 _ _ _ _ _ _

/-! ## The second kernel's operands as a tile addresses them -/

abbrev cV2 (L : grid2.Coords) : Fin τ.nSC := (L 0).castLE hcore2
abbrev jV2 (L : grid2.Coords) : Fin τ.nSub := (L 1).castLE hsub2
abbrev thr2 (d : Dev nD) (L : grid2.Coords) : Thread nD τ := V d (cV2 L) (jV2 L)
abbrev mW2 : Memref sig .scVector .hbm S16384 .f32 := Memref.whole main_v5_scv
abbrev oW2 : Memref sig .scVector .hbm S32x1024 .f32 := Memref.whole main_v6_scv
abbrev rect2 (L : grid2.Coords) : Rect S32x1024 := Rect.unit (s := S32x1024) (k2_off76 L) S1x1024.size (k2_off76_inb L)
abbrev oRow2 (L : grid2.Coords) : Memref sig .scVector .hbm S1024 .f32 := ((oW2).slice (rect2 L) (fun _ => rfl)).squeeze S1024 squeezes_S1x1024_S1024

def widL2 (L : grid2.Coords) : Fin 32 := ⟨2 * (L 1).val + (L 0).val, by have h0 : (L 0).val < 2 := (L 0).isLt; have h1 : (L 1).val < 16 := (L 1).isLt; omega⟩

omit [FloatOps F] in
theorem rect2_eq (L : grid2.Coords) : rect2 L = rowC (widL2 L) := by
  unfold rect2 rowC Rect.part Rect.block
  congr 1 <;> funext a
  · rw [k2_off76_eq]
    match a with
    | 0 => simp [Shape.partIx, Shape.partSize, widL2]
    | 1 => simp [Shape.partIx, Shape.partSize]
  · match a with
    | 0 => simp [Shape.partSize]
    | 1 => simp [Shape.partSize]

omit [FloatOps F] in
theorem set_oRow2 (L : grid2.Coords) : (oRow2 L).view.set = (rowC (widL2 L)).set := by
  show (((oW2).view.slice (rect2 L)).reshape S1024 squeezes_S1x1024_S1024.numel_eq).set = _
  rw [View.set_reshape]
  show ((View.whole (main_v6_scv : Ref sig .scVector)).slice (rect2 L)).set = _
  rw [View.set_slice, rect2_eq]; exact Finset.map_refl

/-- The second kernel's body, proved once at a symbolic tile. -/
def Body1 : Prop := ∀ (d : Dev nD) (L : grid2.Coords) (q : PosShare TreeShare)
    (e : Buf (Elt F) ((eW0).view.loc (thr2 d L))) (t : Buf (Elt F) ((tW0).view.loc (thr2 d L))) (k : Buf (Elt F) ((kW0).view.loc (thr2 d L)))
    (mt : Buf (Elt F) ((mW2).view.loc (thr2 d L))) (o : Buf (Elt F) ((oRow2 L).view.loc (thr2 d L)))
    (_ : ∀ j, (t j : BitVec 32).toNat ≤ 63)
    (O : CellTallies nD τ sig (HIx 2)) (W : Waits sig (HIx 2)) (_ : ∀ g, O g none = 0),
    (iprop(levAts (K (F := F)).L (K (F := F)).lev
        ∗ (((eW0).view.loc (thr2 d L) ↦{q} e) ∗ ((tW0).view.loc (thr2 d L) ↦{q} t) ∗ ((kW0).view.loc (thr2 d L) ↦{q} k)
            ∗ ((mW2).view.loc (thr2 d L) ↦{q} mt) ∗ ((oRow2 L).view.loc (thr2 d L) ↦[(oRow2 L).view.set]{fullShare} o))
        ∗ scopedBufs (thr2 d L) ∗ scopedSems0 (thr2 d L) ∗ owes (thr2 d L) O W) : sProp 𝕄)
      ⊢ wp frame (wpE (defs₀ (F := F)) 𝒱₀ (thr2 d L) none) Set.univ
          (cc2__sc_pass2 L eW0 (Memref.isWhole_whole _) tW0 (Memref.isWhole_whole _) kW0 (Memref.isWhole_whole _)
            mW2 (Memref.isWhole_whole _) oW2 (Memref.isWhole_whole _) (Memref.whole cc2_scratch0) (Memref.isWhole_whole _) (Memref.whole cc2_scratch1) (Memref.isWhole_whole _)
            (Memref.whole cc2_scratch2) (Memref.isWhole_whole _) (Memref.whole cc2_scratch3) (Memref.isWhole_whole _) (Memref.whole cc2_scratch4) (Memref.isWhole_whole _)
            cc2_scratch5 cc2_scratch6 cc2_scoped0 cc2_scoped1)
          fun _ => iprop((((eW0).view.loc (thr2 d L) ↦{q} e) ∗ ((tW0).view.loc (thr2 d L) ↦{q} t) ∗ ((kW0).view.loc (thr2 d L) ↦{q} k)
            ∗ ((mW2).view.loc (thr2 d L) ↦{q} mt) ∗ ∃ o', ((oRow2 L).view.loc (thr2 d L) ↦[(oRow2 L).view.set]{fullShare} o'))
            ∗ scopedBufs (thr2 d L) ∗ scopedSems0 (thr2 d L)
            ∗ ∃ W', ⌜∀ p ∈ W', p ∈ W ∨ p.2 = none⌝ ∗ owes (thr2 d L) O W')

def coordsV2 (c : Fin (grid2.bound 0)) (s : Fin (grid2.bound 1)) : grid2.Coords :=
  fun | 0 => c | 1 => s | ⟨_ + 2, h⟩ => absurd h (Nat.not_lt.2 (Nat.le_add_left _ _))

theorem defs₀_vector2 (c : Fin τ.nSC) (s : Fin τ.nSub) :
    defs₀ (F := F) (.scVector c s) 2 ()
      = SparseCore.onTile hcore2 hsub2 (fun c s => cc2__sc_pass2 (coordsV2 c s)
          eW0 (Memref.isWhole_whole _) tW0 (Memref.isWhole_whole _) kW0 (Memref.isWhole_whole _) mW2 (Memref.isWhole_whole _) oW2 (Memref.isWhole_whole _)
          (Memref.whole cc2_scratch0) (Memref.isWhole_whole _) (Memref.whole cc2_scratch1) (Memref.isWhole_whole _)
          (Memref.whole cc2_scratch2) (Memref.isWhole_whole _) (Memref.whole cc2_scratch3) (Memref.isWhole_whole _) (Memref.whole cc2_scratch4) (Memref.isWhole_whole _)
          cc2_scratch5 cc2_scratch6 cc2_scoped0 cc2_scoped1) ⟨⟩ c s := rfl

/-- A worker's operands of the second call, as its tile addresses them. -/
theorem task1_tile (d : Dev nD) (L : grid2.Coords) :
    (task1 cE cT cK d (widL2 L) : sProp 𝕄)
      = iprop(((eW0).view.loc (thr2 d L) ↦{shareTok fullShare 32 (widL2 L)} cE d) ∗ ((tW0).view.loc (thr2 d L) ↦{shareTok fullShare 32 (widL2 L)} cT d)
          ∗ ((kW0).view.loc (thr2 d L) ↦{shareTok fullShare 32 (widL2 L)} cK d)
          ∗ (∃ mt : Buf (Elt F) (aM d), (mW2).view.loc (thr2 d L) ↦{shareTok fullShare 32 (widL2 L)} mt)
          ∗ (∃ f, (oRow2 L).view.loc (thr2 d L) ↦[(oRow2 L).view.set]{fullShare} f)) := by
  unfold task1 inToks
  rw [set_oRow2]
  exact regroup5 _ _ _ _ _

/-- The second body from a worker's operands, the pieces at some contents named. -/
theorem body1_task (hb : Body1 (F := F)) (hR : ∀ (d : Dev nD) j, (cT d j).toNat ≤ 63) (d : Dev nD) (L : grid2.Coords) (X : sProp 𝕄)
    (O : CellTallies nD τ sig (HIx 2)) (W : Waits sig (HIx 2)) (hO : ∀ g, O g none = 0) :
    iprop(levAts (K (F := F)).L (K (F := F)).lev ∗ X ∗ task1 cE cT cK d (widL2 L) ∗ scopedBufs (thr2 d L) ∗ scopedSems0 (thr2 d L) ∗ owes (thr2 d L) O W)
      ⊢ wp frame (wpE (defs₀ (F := F)) 𝒱₀ (thr2 d L) none) Set.univ
          (cc2__sc_pass2 L eW0 (Memref.isWhole_whole _) tW0 (Memref.isWhole_whole _) kW0 (Memref.isWhole_whole _)
            mW2 (Memref.isWhole_whole _) oW2 (Memref.isWhole_whole _) (Memref.whole cc2_scratch0) (Memref.isWhole_whole _) (Memref.whole cc2_scratch1) (Memref.isWhole_whole _)
            (Memref.whole cc2_scratch2) (Memref.isWhole_whole _) (Memref.whole cc2_scratch3) (Memref.isWhole_whole _) (Memref.whole cc2_scratch4) (Memref.isWhole_whole _)
            cc2_scratch5 cc2_scratch6 cc2_scoped0 cc2_scoped1)
          fun _ => iprop(task1 cE cT cK d (widL2 L) ∗ scopedBufs (thr2 d L) ∗ scopedSems0 (thr2 d L)
            ∗ ∃ W', ⌜∀ p ∈ W', p ∈ W ∨ p.2 = none ∨ p.2 = some (1 : Fin 2)⌝ ∗ owes (thr2 d L) O W') := by
  rw [task1_tile]
  iintro ⟨Hl, -, ⟨H1, H2, H3, ⟨%mt, HM⟩, ⟨%o, Ho⟩⟩, Hsb, Hss, HO⟩
  iapply ((hb d L _ (cE d) (cT d) (cK d) mt o (hR d) O W hO).trans (wp_mono frame _ _ fun _ =>
    (show iprop((((eW0).view.loc (thr2 d L) ↦{shareTok fullShare 32 (widL2 L)} cE d) ∗ ((tW0).view.loc (thr2 d L) ↦{shareTok fullShare 32 (widL2 L)} cT d)
          ∗ ((kW0).view.loc (thr2 d L) ↦{shareTok fullShare 32 (widL2 L)} cK d)
          ∗ ((mW2).view.loc (thr2 d L) ↦{shareTok fullShare 32 (widL2 L)} mt) ∗ ∃ o', ((oRow2 L).view.loc (thr2 d L) ↦[(oRow2 L).view.set]{fullShare} o'))
          ∗ scopedBufs (thr2 d L) ∗ scopedSems0 (thr2 d L) ∗ ∃ W', ⌜∀ p ∈ W', p ∈ W ∨ p.2 = none⌝ ∗ owes (thr2 d L) O W')
        ⊢ iprop((((eW0).view.loc (thr2 d L) ↦{shareTok fullShare 32 (widL2 L)} cE d) ∗ ((tW0).view.loc (thr2 d L) ↦{shareTok fullShare 32 (widL2 L)} cT d)
          ∗ ((kW0).view.loc (thr2 d L) ↦{shareTok fullShare 32 (widL2 L)} cK d)
          ∗ (∃ mt : Buf (Elt F) (aM d), (mW2).view.loc (thr2 d L) ↦{shareTok fullShare 32 (widL2 L)} mt)
          ∗ (∃ f, (oRow2 L).view.loc (thr2 d L) ↦[(oRow2 L).view.set]{fullShare} f))
          ∗ scopedBufs (thr2 d L) ∗ scopedSems0 (thr2 d L) ∗ ∃ W', ⌜∀ p ∈ W', p ∈ W ∨ p.2 = none ∨ p.2 = some (1 : Fin 2)⌝ ∗ owes (thr2 d L) O W') from by
      iintro ⟨⟨G1, G2, G3, G4, G5⟩, Gb, Gs, %W', %hW', GO⟩
      isplitl [G1 G2 G3 G4 G5]
      · isplitl [G1]; · iexact G1
        isplitl [G2]; · iexact G2
        isplitl [G3]; · iexact G3
        isplitl [G4]; · iexists mt; iexact G4
        iexact G5
      isplitl [Gb]; · iexact Gb
      isplitl [Gs]; · iexact Gs
      iexists W'; isplitr
      · ipureintro; exact fun p hp => (hW' p hp).imp_right Or.inl
      · iexact GO)))
  isplitl [Hl]; · iexact Hl
  isplitl [H1 H2 H3 HM Ho]
  · isplitl [H1]; · iexact H1
    isplitl [H2]; · iexact H2
    isplitl [H3]; · iexact H3
    isplitl [HM]; · iexact HM
    iexact Ho
  isplitl [Hsb]; · iexact Hsb
  isplitl [Hss]; · iexact Hss
  iexact HO

/-- The launch theorem's obligation at the second call. -/
theorem tileObl1 (hb : Body1 (F := F)) (hR : ∀ (d : Dev nD) j, (cT d j).toNat ≤ 63) :
    (K (F := F)).TileObl (D (F := F)) 𝒱 (P cE cT cK) v₀ 1 := by
  intro d c i O W hO _ _
  simp only [show (P cE cT cK).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  have hw : wid c.val i.val c.isLt i.isLt = widL2 (coordsV2 ⟨_, hc.1⟩ ⟨_, hc.2⟩) :=
    Fin.ext (by show i.val * 2 + c.val = 2 * i.val + c.val; omega)
  show iprop(_ ∗ _ ∗ task1 cE cT cK d (wid c.val i.val c.isLt i.isLt) ∗ _) ⊢ wp _ _ _ _ (fun _ => iprop(task1 cE cT cK d (wid c.val i.val c.isLt i.isLt) ∗ _))
  rw [hw]
  exact body1_task cE cT cK hb hR d (coordsV2 ⟨_, hc.1⟩ ⟨_, hc.2⟩) _ O W hO

end Cert.Proof.KI

end
-- ==== Proof.PreI.lean ====
/-
  What the precondition says of the flattened target ids: every one, a signed word in [0, 63], reads below 64 unsigned —
  so every address the tiles' bodies compute from them names an element of the accumulators.
-/
import proofs.«210783_g59777354826199_cont_9to1_m_168_18_alg».proof.Proof.WrapI
import proofs.«210783_g59777354826199_cont_9to1_m_168_18_alg».proof.Proof.Gen.Pre_input_domain
import Idealize.ShloMosaic.Lib.ReduceAll

noncomputable section

namespace Cert.Proof.KI

open Cert.KernelIdeal Cert.KernelIdeal.Gen
open Idealize.ShloMosaic Idealize.SL.Sem

variable {F : FTy → Type} [FloatOps F]

instance : Subsingleton Cert.Pre_input_domain.S_.Idx := ⟨fun a b => funext fun d => d.elim0⟩

/-- A signed word in [0, 63] reads at most 63 unsigned. -/
theorem key63 (v : BitVec 32) (e : IntOp.andi (IntOp.cmpi .sge v 0#32) (IntOp.cmpi .sle v 63#32) = 1#1) : v.toNat ≤ 63 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem trgt_le_63 [hf : Cert.Pre_input_domain.Facts] (a0 : FVec F Cert.Pre_input_domain.S1x16x32x256x256 .f32) (a1 a2 : IVec Cert.Pre_input_domain.S1x1x32x256x256 32)
    (h : Cert.Pre_input_domain.fn (F := F) a0 a1 a2 = fun _ => 1#1) (i : Cert.Pre_input_domain.S1x1x32x256x256.Idx) : (a1 i).toNat ≤ 63 := by
  have e := congrFun h (fun a => a.elim0)
  dsimp only [Cert.Pre_input_domain.fn, Cert.Pre_input_domain.fn_part1] at e
  have e9 := (IntOp.andi_eq_one.mp (IntOp.andi_eq_one.mp e).1).2
  have e8 := Host.reduce_andi_all _ _ _ _ _ e9 i
  simp only [andi, cmpi, broadcastInDim, constantI] at e8
  exact key63 _ e8

variable (m : (ℓ : Loc nD τ sig) → Buf (Elt F) ℓ)

/-- The flattened target ids are the argument's words, re-indexed. -/
theorem cT_eq (d : Dev nD) : cT m d = shapeCast (main_v1 : Ref sig .tc).ty.shape (m (xLoc1 d)) shapeCasts_S1x1x32x256x256_S2097152 := by
  show (op2 (F := F)).result ((op1 (F := F)).result ((op0 (F := F)).result (V0 m d))) (r main_v1) = _
  rw [(op2 (F := F)).result_of_not_mem _ (show r main_v1 ∉ ({r main_v2} : Finset (DevRef τ sig)) by decide)]
  show (StableHlo.reshape main_arg1 main_v1 rfl shapeCasts_S1x1x32x256x256_S2097152 : HloOp τ sig (Elt F)).result _ (Proc.devRef .tc (main_v1 : Ref sig .tc)) = _
  rw [StableHlo.reshape_result, (op0 (F := F)).result_of_not_mem _ (show r main_arg1 ∉ ({r main_v0} : Finset (DevRef τ sig)) by decide)]
  rfl

/-- Under the precondition every flattened target id reads at most 63. -/
theorem cT_range [hf : Cert.Pre_input_domain.Facts]
    (hpre : ∀ c : Dev nD, Cert.Pre_input_domain.fn (F := F) (m (xLoc0 c)) (m (xLoc1 c)) (m (xLoc2 c)) = fun _ => 1#1)
    (d : Dev nD) (j) : (cT m d j).toNat ≤ 63 := by
  rw [cT_eq]
  exact trgt_le_63 (F := F) _ _ _ (hpre d) _

/-! ## The program's run under the precondition, from the two kernels' bodies -/

theorem run_of_bodies [∀ e, Nonempty (Elt F e)] [hf : Cert.Pre_input_domain.Facts] (hb0 : Body0 (F := F)) (hb1 : Body1 (F := F)) (ρ : Dev nD → PrngReg)
    (hpre : ∀ c : Dev nD, Cert.Pre_input_domain.fn (F := F) (m (xLoc0 c)) (m (xLoc1 c)) (m (xLoc2 c)) = fun _ => 1#1) :
    θ_run (Cert.KernelIdeal.defs (F := F)) (Cert.KernelIdeal.threads (F := F)) ⟨m, fun _ => 0, ρ⟩ (QC m) :=
  run_frame m ρ (tileObl0 (cE m) (cT m) (cK m) hb0 (cT_range m hpre)) (tileObl1 (cE m) (cT m) (cK m) hb1 (cT_range m hpre))

end Cert.Proof.KI

end
-- ==== Proof.SetupB.lean ====
/-
  The program as printed, as the SparseCore launch theorem sees it: the launch configuration (two vector-subcore
  calls beside two TensorCore pallas_calls), the body table, the variants, and the certificate's ghost state — the
  handshakes' rounds, the pipelines' staging cells' rounds, and the transfers' counters.
-/
import proofs.«210783_g59777354826199_cont_9to1_m_168_18_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«210783_g59777354826199_cont_9to1_m_168_18_alg».proof.Proof.Gen.Kernel
import proofs.«210783_g59777354826199_cont_9to1_m_168_18_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the transfers' counters -/

abbrev UH : Type := URounds (GSem nD τ sig) ℕ
abbrev UP : Type := URounds (GSem nD τ sig) Unit
abbrev UU : Type := UH × (UP × Counters)

abbrev 𝕄F (F : FTy → Type) : Type := MT nD τ sig (HIx 2) (Elt F) ℕ UU ℕ

/-- The handshakes' rounds library is the left factor; the pipelines' the left of the right; the counters are found by instance. -/
abbrev EH : Emb UH (MT nD τ sig (HIx 2) (Elt F) ℕ UU ℕ) := embL

end Cert.Proof.KB

end
-- ==== Proof.LaunchB.lean ====
/-
  The launch of the program as printed: what each handshake carries (every tile a read share of the three flattened
  inputs — and, in the second call, of the means table — and the row of each partial-result array it writes), the
  split of a SparseCore's operands among its sixteen tiles, and the launch element of the ghost state.
  Tile (c, s) is worker s·2 + c: it reads voxels [w·65536, (w+1)·65536) and writes row w of the partial arrays.
-/
import proofs.«210783_g59777354826199_cont_9to1_m_168_18_alg».proof.Proof.SetupB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 2) (Elt F) ℕ UU ℕ

/-! ## The arrays of @main the SparseCore calls touch, as locations of device `d` -/

/-- the flattened embedding, target ids and mask; -/
abbrev aE (d : Dev nD) : Loc nD τ sig := (SparseCore.T d).loc main_v0
abbrev aT (d : Dev nD) : Loc nD τ sig := (SparseCore.T d).loc main_v1
abbrev aK (d : Dev nD) : Loc nD τ sig := (SparseCore.T d).loc main_v2
/-- the per-worker partial sums and counts (first call's results); -/
abbrev aS (d : Dev nD) : Loc nD τ sig := (SparseCore.T d).loc main_v3_0
abbrev aC (d : Dev nD) : Loc nD τ sig := (SparseCore.T d).loc main_v3_1
/-- the replicated means table (second call's fourth operand) and the per-worker partial terms (its result). -/
abbrev aM (d : Dev nD) : Loc nD τ sig := (SparseCore.T d).loc main_v5
abbrev aR (d : Dev nD) : Loc nD τ sig := (SparseCore.T d).loc main_v6

/-! ## Workers and their rows -/

theorem nCore0 : (K (F := F)).nCore 0 = 2 := rfl
theorem nSub0 : (K (F := F)).nSub 0 = 16 := rfl
theorem nCore1 : (K (F := F)).nCore 1 = 2 := rfl
theorem nSub1 : (K (F := F)).nSub 1 = 16 := rfl

/-- Worker number of tile `s` of SparseCore `c`: `s · 2 + c`. -/
def wid (c s : ℕ) (hc : c < 2) (hs : s < 16) : Fin 32 := ⟨s * 2 + c, by omega⟩

theorem hdivS : 32 ∣ S32x16384.size 0 := ⟨1, rfl⟩
theorem hdivC : 32 ∣ S32x1024.size 0 := ⟨1, rfl⟩
/-- Row `j` of a 32-row array. -/
abbrev rowS (j : Fin 32) : Rect S32x16384 := Rect.part (s := S32x16384) (a₀ := 0) hdivS j
abbrev rowC (j : Fin 32) : Rect S32x1024 := Rect.part (s := S32x1024) (a₀ := 0) hdivC j

variable (cE : (d : Dev nD) → Buf (Elt F) (aE d)) (cT : (d : Dev nD) → Buf (Elt F) (aT d)) (cK : (d : Dev nD) → Buf (Elt F) (aK d))

/-- Worker `j`'s read shares of the three inputs, at their contents at the calls. -/
def inToks (d : Dev nD) (j : Fin 32) : sProp 𝕄 :=
  iprop((aE d ↦{shareTok fullShare 32 j} cE d) ∗ (aT d ↦{shareTok fullShare 32 j} cT d) ∗ (aK d ↦{shareTok fullShare 32 j} cK d))

/-- First call: the shares, and row `j` of the partial sums and of the partial counts, at whatever they hold. -/
def task0 (d : Dev nD) (j : Fin 32) : sProp 𝕄 :=
  iprop(inToks cE cT cK d j ∗ (∃ f, aS d ↦[(rowS j).set]{fullShare} f) ∗ (∃ f, aC d ↦[(rowC j).set]{fullShare} f))

/-- Second call: the shares, a share of the means table (at whatever it holds), and row `j` of the partial terms. -/
def task1 (d : Dev nD) (j : Fin 32) : sProp 𝕄 :=
  iprop(inToks cE cT cK d j ∗ (∃ mt : Buf (Elt F) (aM d), aM d ↦{shareTok fullShare 32 j} mt) ∗ (∃ f, aR d ↦[(rowC j).set]{fullShare} f))

/-- What the handshakes carry: to a SparseCore its sixteen tasks' operands, to a tile its own; back the same (the rows at
    what the task left). -/
def P : (K (F := F)).Pay (nD := nD) (Val := Elt F) (Name := ℕ) (U := UU) where
  st := fun q d c => match q with
    | 0 => bigSep Finset.univ fun i : Fin 16 => task0 cE cT cK d (wid c.val i.val c.isLt i.isLt)
    | 1 => bigSep Finset.univ fun i : Fin 16 => task1 cE cT cK d (wid c.val i.val c.isLt i.isLt)
  dn := fun q d c => match q with
    | 0 => bigSep Finset.univ fun i : Fin 16 => task0 cE cT cK d (wid c.val i.val c.isLt i.isLt)
    | 1 => bigSep Finset.univ fun i : Fin 16 => task1 cE cT cK d (wid c.val i.val c.isLt i.isLt)
  go := fun q d c i => match q with
    | 0 => task0 cE cT cK d (wid c.val i.val c.isLt i.isLt)
    | 1 => task1 cE cT cK d (wid c.val i.val c.isLt i.isLt)
  td := fun q d c i => match q with
    | 0 => task0 cE cT cK d (wid c.val i.val c.isLt i.isLt)
    | 1 => task1 cE cT cK d (wid c.val i.val c.isLt i.isLt)
  x := fun _ _ => iprop(emp)

instance task0_storable (d : Dev nD) (j : Fin 32) : BI.Storable (upEmb : UEmb _ 𝕄) (task0 cE cT cK d j) := by
  unfold task0 inToks; infer_instance
instance task1_storable (d : Dev nD) (j : Fin 32) : BI.Storable (upEmb : UEmb _ 𝕄) (task1 cE cT cK d j) := by
  unfold task1 inToks; infer_instance

instance P_storable : (P (F := F) cE cT cK).IsStorable where
  st q d c := match q with
    | 0 => (inferInstance : BI.Storable (upEmb : UEmb _ 𝕄) (bigSep Finset.univ fun i : Fin 16 => task0 cE cT cK d (wid c.val i.val c.isLt i.isLt)))
    | 1 => (inferInstance : BI.Storable (upEmb : UEmb _ 𝕄) (bigSep Finset.univ fun i : Fin 16 => task1 cE cT cK d (wid c.val i.val c.isLt i.isLt)))
  dn q d c := match q with
    | 0 => (inferInstance : BI.Storable (upEmb : UEmb _ 𝕄) (bigSep Finset.univ fun i : Fin 16 => task0 cE cT cK d (wid c.val i.val c.isLt i.isLt)))
    | 1 => (inferInstance : BI.Storable (upEmb : UEmb _ 𝕄) (bigSep Finset.univ fun i : Fin 16 => task1 cE cT cK d (wid c.val i.val c.isLt i.isLt)))
  go q d c i := match q with
    | 0 => (inferInstance : BI.Storable (upEmb : UEmb _ 𝕄) (task0 cE cT cK d (wid c.val i.val c.isLt i.isLt)))
    | 1 => (inferInstance : BI.Storable (upEmb : UEmb _ 𝕄) (task1 cE cT cK d (wid c.val i.val c.isLt i.isLt)))
  td q d c i := match q with
    | 0 => (inferInstance : BI.Storable (upEmb : UEmb _ 𝕄) (task0 cE cT cK d (wid c.val i.val c.isLt i.isLt)))
    | 1 => (inferInstance : BI.Storable (upEmb : UEmb _ 𝕄) (task1 cE cT cK d (wid c.val i.val c.isLt i.isLt)))

/-! ## A SparseCore's operands are its tasks' -/

theorem vecSplit0 : (K (F := F)).VecSplit' (P cE cT cK) 0 := by
  intro d c
  show (bigSep Finset.univ fun i : Fin 16 => task0 cE cT cK d (wid c.val i.val c.isLt i.isLt))
    ⊢ |={Set.univ}=> iprop((bigSep Finset.univ fun i : Fin 16 => task0 cE cT cK d (wid c.val i.val c.isLt i.isLt))
      ∗ ((bigSep Finset.univ fun i : Fin 16 => task0 cE cT cK d (wid c.val i.val c.isLt i.isLt))
          -∗ (bigSep Finset.univ fun i : Fin 16 => task0 cE cT cK d (wid c.val i.val c.isLt i.isLt))))
  iintro H; imodintro
  isplitl [H]; · iexact H
  iintro H; iexact H

theorem vecSplit1 : (K (F := F)).VecSplit' (P cE cT cK) 1 := by
  intro d c
  show (bigSep Finset.univ fun i : Fin 16 => task1 cE cT cK d (wid c.val i.val c.isLt i.isLt))
    ⊢ |={Set.univ}=> iprop((bigSep Finset.univ fun i : Fin 16 => task1 cE cT cK d (wid c.val i.val c.isLt i.isLt))
      ∗ ((bigSep Finset.univ fun i : Fin 16 => task1 cE cT cK d (wid c.val i.val c.isLt i.isLt))
          -∗ (bigSep Finset.univ fun i : Fin 16 => task1 cE cT cK d (wid c.val i.val c.isLt i.isLt))))
  iintro H; imodintro
  isplitl [H]; · iexact H
  iintro H; iexact H

end Cert.Proof.KB

end
-- ==== Proof.RunB.lean ====
/-
  The launch element of the ghost state (the handshakes' rounds; the two TensorCore pipelines' staging cells' ghost state
  and duty tokens, dealt to each device's TensorCore for @main's proof), how the final memory reads the claim, and the
  launch theorem applied: the program's run from the two tile obligations and @main's proof.
-/
import proofs.«210783_g59777354826199_cont_9to1_m_168_18_alg».proof.Proof.LaunchB
import proofs.«210783_g59777354826199_cont_9to1_m_168_18_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- The pipelines' rounds library: the left factor of the right factor of the ghost state. -/
abbrev EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP : Emb UP 𝕄).LandsIn (upEmb : UEmb _ 𝕄) := by show ((Emb.inl : Emb UP (UP × Counters)).trans (embR : Emb (UP × Counters) 𝕄)).LandsIn _; unfold embR; infer_instance

variable (m : (ℓ : Loc nD τ sig) → Buf (Elt F) ℓ) (ρ : Dev nD → PrngReg)
variable (cE : (d : Dev nD) → Buf (Elt F) (aE d)) (cT : (d : Dev nD) → Buf (Elt F) (aT d)) (cK : (d : Dev nD) → Buf (Elt F) (aK d))

/-! ## The launch element -/

/-- The handshakes' launch element; the staging cells' and their loops' duty tokens'; the counters' unit. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof on device `d` starts from beyond what the launch deals every TensorCore: both pipelines' staging
    cells' ghost state and duty tokens. -/
def G (d : Dev nD) : sProp 𝕄 :=
  bigSep Finset.univ fun p : Fin 2 => iprop(Pipeline.cellsGhost (nD := nD) (τ := τ) cfgs (EP (F := F)) p d ∗ Pipeline.toksInit (nD := nD) (τ := τ) cfgs (EP (F := F)) p d)

omit m ρ in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P cE cT cK).x q thr) := by
  unfold u₀
  iintro Hu
  ihave H := (ownU_pair _ _) $$ Hu
  icases H with ⟨HH, HR⟩
  ihave H' := (own_pair_emb (embR : Emb (UP × Counters) 𝕄) _ _) $$ HR
  icases H' with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold G
    simp only [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## What @main leaves the claim -/

abbrev xLoc0 (d : Dev nD) : Loc nD τ sig := (SparseCore.T d).loc main_arg0
abbrev xLoc1 (d : Dev nD) : Loc nD τ sig := (SparseCore.T d).loc main_arg1
abbrev xLoc2 (d : Dev nD) : Loc nD τ sig := (SparseCore.T d).loc main_arg2
abbrev rLoc (d : Dev nD) : Loc nD τ sig := (SparseCore.T d).loc main_v8

/-- The three arguments at their launch contents and the result at some contents. -/
abbrev FIN (d : Dev nD) : sProp 𝕄 :=
  iprop((xLoc0 d ↦{fullShare} m (xLoc0 d)) ∗ (xLoc1 d ↦{fullShare} m (xLoc1 d)) ∗ (xLoc2 d ↦{fullShare} m (xLoc2 d)))

def fq (d : Dev nD) (s' : Phys nD τ sig (Elt F)) : Prop :=
  s'.mem.mem (xLoc0 d) = m (xLoc0 d) ∧ s'.mem.mem (xLoc1 d) = m (xLoc1 d) ∧ s'.mem.mem (xLoc2 d) = m (xLoc2 d)

theorem hfin (d : Dev nD) (s' : Phys nD τ sig (Elt F)) : iprop(FIN m d ∗ SI s') ⊢ (⌜fq m d s'⌝ : sProp 𝕄) := by
  iintro ⟨⟨H0, H1, H2⟩, HSI⟩
  ihave %h0 := (SI_pointsTo_agree (st := s') (ℓ := xLoc0 d) (I := Finset.univ) (q := fullShare) (f := m (xLoc0 d))) $$ [HSI H0]
  · isplitl [HSI] <;> iassumption
  ihave %h1 := (SI_pointsTo_agree (st := s') (ℓ := xLoc1 d) (I := Finset.univ) (q := fullShare) (f := m (xLoc1 d))) $$ [HSI H1]
  · isplitl [HSI] <;> iassumption
  ihave %h2 := (SI_pointsTo_agree (st := s') (ℓ := xLoc2 d) (I := Finset.univ) (q := fullShare) (f := m (xLoc2 d))) $$ [HSI H2]
  · isplitl [HSI] <;> iassumption
  ipureintro
  exact ⟨funext fun i => h0 i (Finset.mem_univ i), funext fun i => h1 i (Finset.mem_univ i), funext fun i => h2 i (Finset.mem_univ i)⟩

/-! ## The program's run, from the tile obligations and @main's proof -/

def QC : PUnit × MemSt nD τ sig (Elt F) → Prop := fun r => ∀ c : Dev nD,
  r.2.mem (xLoc0 c) = m (xLoc0 c) ∧ r.2.mem (xLoc1 c) = m (xLoc1 c) ∧ r.2.mem (xLoc2 c) = m (xLoc2 c)

theorem run_of [FloatOps F] [∀ e, Nonempty (Elt F e)]
    (htile0 : (K (F := F)).TileObl (D (F := F)) 𝒱 (P cE cT cK) v₀ 0)
    (htile1 : (K (F := F)).TileObl (D (F := F)) 𝒱 (P cE cT cK) v₀ 1)
    (hmain : ∀ (κ : GSem nD τ sig → ℕ) (d : Dev nD),
      iprop((K (F := F)).ctx EH (P cE cT cK) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 2 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P cE cT cK) facts v₀
    (fun q hq => match q with | 0 => nomatch hq | 1 => nomatch hq)
    (fun q _ => match q with | 0 => htile0 | 1 => htile1)
    (fun q _ => match q with | 0 => SparseCore.Cfg.VecSplit.of_plain (vecSplit0 cE cT cK) | 1 => SparseCore.Cfg.VecSplit.of_plain (vecSplit1 cE cT cK))
    m ρ main (G (F := F)) (FIN m) (u₀ (F := F)) (sep_elim_left.trans (hu₀ cE cT cK)) hmain (fq m) (hfin m) (QC m) (fun _ h => h)

end Cert.Proof.KB

end
-- ==== Proof.SplitB.lean ====
/-
  Dealing @main's arrays to the thirty-two workers and collecting them back: a whole array is its read shares, one
  per worker, beside a remainder; a 32-row array is its rows; and a family over the workers 0 … 31 is the family over
  (SparseCore c, tile s) at worker s·2 + c.
-/
import proofs.«210783_g59777354826199_cont_9to1_m_168_18_alg».proof.Proof.RunB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type}

local notation "𝕄" => MT nD τ sig (HIx 2) (Elt F) ℕ UU ℕ

/-- (SparseCore, tile) ↦ worker is a bijection onto 0 … 31. -/
def widP (x : Fin 2 × Fin 16) : Fin 32 := wid x.1.val x.2.val x.1.isLt x.2.isLt

theorem widP_inj : Function.Injective widP := by decide
theorem widP_image : (Finset.univ : Finset (Fin 2 × Fin 16)).image widP = Finset.univ := by decide

/-- A family over the workers, SparseCore by SparseCore, tile by tile. -/
theorem bigSep_workers (Φ : Fin 32 → sProp 𝕄) :
    bigSep Finset.univ Φ = bigSep Finset.univ fun c : Fin 2 => bigSep Finset.univ fun i : Fin 16 => Φ (wid c.val i.val c.isLt i.isLt) := by
  rw [← widP_image, SparseCore.bigSep_image_of_injOn (fun _ _ _ _ h => widP_inj h), ← Finset.univ_product_univ, SparseCore.bigSep_product]
  rfl

/-- A whole array is a remainder and one read share per worker. -/
theorem toks_workers {ℓ : Loc nD τ sig} (f : Buf (Elt F) ℓ) :
    (ℓ ↦{fullShare} f : sProp 𝕄) ⊣⊢ iprop((ℓ ↦{shareDrop fullShare 32} f)
      ∗ bigSep Finset.univ fun c : Fin 2 => bigSep Finset.univ fun i : Fin 16 => ℓ ↦{shareTok fullShare 32 (wid c.val i.val c.isLt i.isLt)} f) := by
  rw [← bigSep_workers (fun j => (ℓ ↦{shareTok fullShare 32 j} f : sProp 𝕄))]
  exact pointsTo_toks fullShare 32

/-! ## Rows -/

theorem rowsS_disjoint : ∀ i ∈ (Finset.univ : Finset (Fin 32)), ∀ j ∈ (Finset.univ : Finset (Fin 32)), i ≠ j → Disjoint (rowS i).set (rowS j).set :=
  fun _ _ _ _ h => Rect.part_disjoint hdivS h
theorem rowsS_cover : (Finset.univ : Finset (Fin 32)).biUnion (fun j => (rowS j).set) = Finset.univ := Rect.biUnion_part hdivS
theorem rowsC_disjoint : ∀ i ∈ (Finset.univ : Finset (Fin 32)), ∀ j ∈ (Finset.univ : Finset (Fin 32)), i ≠ j → Disjoint (rowC i).set (rowC j).set :=
  fun _ _ _ _ h => Rect.part_disjoint hdivC h
theorem rowsC_cover : (Finset.univ : Finset (Fin 32)).biUnion (fun j => (rowC j).set) = Finset.univ := Rect.biUnion_part hdivC

variable [FloatOps F]

omit [FloatOps F] in
theorem rowsS_eq (d : Dev nD) (f : Buf (Elt F) (aS d)) :
    (aS d ↦{fullShare} f : sProp 𝕄) = bigSep Finset.univ fun j : Fin 32 => aS d ↦[(rowS j).set]{fullShare} f := by
  rw [← pointsTo_biUnion Finset.univ (ℓ := aS d) (fun j => (rowS j).set) rowsS_disjoint, rowsS_cover]; try rfl

theorem rowS_ex (d : Dev nD) (f : Buf (Elt F) (aS d)) (j : Fin 32) :
    (aS d ↦[(rowS j).set]{fullShare} f : sProp 𝕄) ⊢ iprop(∃ f : Buf (Elt F) (aS d), aS d ↦[(rowS j).set]{fullShare} f) := by
  iintro H; iexists f; iexact H

theorem rowsS_ex (d : Dev nD) (f : Buf (Elt F) (aS d)) :
    (bigSep Finset.univ fun j : Fin 32 => (aS d ↦[(rowS j).set]{fullShare} f : sProp 𝕄))
      ⊢ bigSep Finset.univ fun j : Fin 32 => (iprop(∃ f : Buf (Elt F) (aS d), aS d ↦[(rowS j).set]{fullShare} f) : sProp 𝕄) :=
  bigSep_mono fun j _ => rowS_ex d f j

/-- A whole 32-row array, at some contents, is its rows, each at some contents, worker by worker. -/
theorem rowsS_workers (d : Dev nD) :
    (iprop(∃ f : Buf (Elt F) (aS d), aS d ↦{fullShare} f) : sProp 𝕄) ⊣⊢
      bigSep Finset.univ fun c : Fin 2 => bigSep Finset.univ fun i : Fin 16 => iprop(∃ f : Buf (Elt F) (aS d), aS d ↦[(rowS (wid c.val i.val c.isLt i.isLt)).set]{fullShare} f) := by
  rw [← bigSep_workers (fun j => (iprop(∃ f : Buf (Elt F) (aS d), aS d ↦[(rowS j).set]{fullShare} f) : sProp 𝕄))]
  constructor
  · iintro ⟨%f, H⟩
    iapply (rowsS_ex d f)
    iapply (Entails.of_eq (rowsS_eq d f))
    iexact H
  · refine (bigSep_exists_pi Finset.univ (fun j (f : Buf (Elt F) (aS d)) => (aS d ↦[(rowS j).set]{fullShare} f : sProp 𝕄))).trans ?_
    iintro ⟨%fs, H⟩
    ihave H' := (pointsTo_biUnion_join Finset.univ (fun j => (rowS j).set) fs (fs 0) rowsS_disjoint) $$ H
    icases H' with ⟨%g, -, Hg⟩
    rw [rowsS_cover]
    iexists g; iexact Hg

omit [FloatOps F] in
theorem rowsC_eq (d : Dev nD) (f : Buf (Elt F) (aC d)) :
    (aC d ↦{fullShare} f : sProp 𝕄) = bigSep Finset.univ fun j : Fin 32 => aC d ↦[(rowC j).set]{fullShare} f := by
  rw [← pointsTo_biUnion Finset.univ (ℓ := aC d) (fun j => (rowC j).set) rowsC_disjoint, rowsC_cover]; try rfl

theorem rowC_ex (d : Dev nD) (f : Buf (Elt F) (aC d)) (j : Fin 32) :
    (aC d ↦[(rowC j).set]{fullShare} f : sProp 𝕄) ⊢ iprop(∃ f : Buf (Elt F) (aC d), aC d ↦[(rowC j).set]{fullShare} f) := by
  iintro H; iexists f; iexact H

theorem rowsC_ex (d : Dev nD) (f : Buf (Elt F) (aC d)) :
    (bigSep Finset.univ fun j : Fin 32 => (aC d ↦[(rowC j).set]{fullShare} f : sProp 𝕄))
      ⊢ bigSep Finset.univ fun j : Fin 32 => (iprop(∃ f : Buf (Elt F) (aC d), aC d ↦[(rowC j).set]{fullShare} f) : sProp 𝕄) :=
  bigSep_mono fun j _ => rowC_ex d f j

/-- A whole 32-row array, at some contents, is its rows, each at some contents, worker by worker. -/
theorem rowsC_workers (d : Dev nD) :
    (iprop(∃ f : Buf (Elt F) (aC d), aC d ↦{fullShare} f) : sProp 𝕄) ⊣⊢
      bigSep Finset.univ fun c : Fin 2 => bigSep Finset.univ fun i : Fin 16 => iprop(∃ f : Buf (Elt F) (aC d), aC d ↦[(rowC (wid c.val i.val c.isLt i.isLt)).set]{fullShare} f) := by
  rw [← bigSep_workers (fun j => (iprop(∃ f : Buf (Elt F) (aC d), aC d ↦[(rowC j).set]{fullShare} f) : sProp 𝕄))]
  constructor
  · iintro ⟨%f, H⟩
    iapply (rowsC_ex d f)
    iapply (Entails.of_eq (rowsC_eq d f))
    iexact H
  · refine (bigSep_exists_pi Finset.univ (fun j (f : Buf (Elt F) (aC d)) => (aC d ↦[(rowC j).set]{fullShare} f : sProp 𝕄))).trans ?_
    iintro ⟨%fs, H⟩
    ihave H' := (pointsTo_biUnion_join Finset.univ (fun j => (rowC j).set) fs (fs 0) rowsC_disjoint) $$ H
    icases H' with ⟨%g, -, Hg⟩
    rw [rowsC_cover]
    iexists g; iexact Hg

omit [FloatOps F] in
theorem rowsR_eq (d : Dev nD) (f : Buf (Elt F) (aR d)) :
    (aR d ↦{fullShare} f : sProp 𝕄) = bigSep Finset.univ fun j : Fin 32 => aR d ↦[(rowC j).set]{fullShare} f := by
  rw [← pointsTo_biUnion Finset.univ (ℓ := aR d) (fun j => (rowC j).set) rowsC_disjoint, rowsC_cover]; try rfl

theorem rowR_ex (d : Dev nD) (f : Buf (Elt F) (aR d)) (j : Fin 32) :
    (aR d ↦[(rowC j).set]{fullShare} f : sProp 𝕄) ⊢ iprop(∃ f : Buf (Elt F) (aR d), aR d ↦[(rowC j).set]{fullShare} f) := by
  iintro H; iexists f; iexact H

theorem rowsR_ex (d : Dev nD) (f : Buf (Elt F) (aR d)) :
    (bigSep Finset.univ fun j : Fin 32 => (aR d ↦[(rowC j).set]{fullShare} f : sProp 𝕄))
      ⊢ bigSep Finset.univ fun j : Fin 32 => (iprop(∃ f : Buf (Elt F) (aR d), aR d ↦[(rowC j).set]{fullShare} f) : sProp 𝕄) :=
  bigSep_mono fun j _ => rowR_ex d f j

/-- A whole 32-row array, at some contents, is its rows, each at some contents, worker by worker. -/
theorem rowsR_workers (d : Dev nD) :
    (iprop(∃ f : Buf (Elt F) (aR d), aR d ↦{fullShare} f) : sProp 𝕄) ⊣⊢
      bigSep Finset.univ fun c : Fin 2 => bigSep Finset.univ fun i : Fin 16 => iprop(∃ f : Buf (Elt F) (aR d), aR d ↦[(rowC (wid c.val i.val c.isLt i.isLt)).set]{fullShare} f) := by
  rw [← bigSep_workers (fun j => (iprop(∃ f : Buf (Elt F) (aR d), aR d ↦[(rowC j).set]{fullShare} f) : sProp 𝕄))]
  constructor
  · iintro ⟨%f, H⟩
    iapply (rowsR_ex d f)
    iapply (Entails.of_eq (rowsR_eq d f))
    iexact H
  · refine (bigSep_exists_pi Finset.univ (fun j (f : Buf (Elt F) (aR d)) => (aR d ↦[(rowC j).set]{fullShare} f : sProp 𝕄))).trans ?_
    iintro ⟨%fs, H⟩
    ihave H' := (pointsTo_biUnion_join Finset.univ (fun j => (rowC j).set) fs (fs 0) rowsC_disjoint) $$ H
    icases H' with ⟨%g, -, Hg⟩
    rw [rowsC_cover]
    iexists g; iexact Hg

/-! ## The calls' operands -/

omit [FloatOps F] in
theorem toks_workers_eq {ℓ : Loc nD τ sig} (f : Buf (Elt F) ℓ) :
    (ℓ ↦{fullShare} f : sProp 𝕄) = iprop((ℓ ↦{shareDrop fullShare 32} f)
      ∗ bigSep Finset.univ fun c : Fin 2 => bigSep Finset.univ fun i : Fin 16 => ℓ ↦{shareTok fullShare 32 (wid c.val i.val c.isLt i.isLt)} f) :=
  (toks_workers f).1.antisymm (toks_workers f).2

omit [FloatOps F] in
theorem regroup8 (a1 A1 a2 A2 a3 A3 R1 R2 : sProp 𝕄) :
    iprop((a1 ∗ A1) ∗ (a2 ∗ A2) ∗ (a3 ∗ A3) ∗ R1 ∗ R2) = iprop((a1 ∗ a2 ∗ a3) ∗ (A1 ∗ A2 ∗ A3) ∗ R1 ∗ R2) := by
  refine Entails.antisymm (show iprop((a1 ∗ A1) ∗ (a2 ∗ A2) ∗ (a3 ∗ A3) ∗ R1 ∗ R2) ⊢ iprop((a1 ∗ a2 ∗ a3) ∗ (A1 ∗ A2 ∗ A3) ∗ R1 ∗ R2) from ?_)
    (show iprop((a1 ∗ a2 ∗ a3) ∗ (A1 ∗ A2 ∗ A3) ∗ R1 ∗ R2) ⊢ iprop((a1 ∗ A1) ∗ (a2 ∗ A2) ∗ (a3 ∗ A3) ∗ R1 ∗ R2) from ?_)
  · iintro ⟨⟨H1, H2⟩, ⟨H3, H4⟩, ⟨H5, H6⟩, H7, H8⟩
    isplitl [H1 H3 H5]
    · isplitl [H1]; · iexact H1
      isplitl [H3]; · iexact H3
      iexact H5
    isplitl [H2 H4 H6]
    · isplitl [H2]; · iexact H2
      isplitl [H4]; · iexact H4
      iexact H6
    isplitl [H7]; · iexact H7
    iexact H8
  · iintro ⟨⟨H1, H3, H5⟩, ⟨H2, H4, H6⟩, H7, H8⟩
    isplitl [H1 H2]
    · isplitl [H1]; · iexact H1
      iexact H2
    isplitl [H3 H4]
    · isplitl [H3]; · iexact H3
      iexact H4
    isplitl [H5 H6]
    · isplitl [H5]; · iexact H5
      iexact H6
    isplitl [H7]; · iexact H7
    iexact H8

omit [FloatOps F] in
theorem regroup4 (X a A R : sProp 𝕄) : iprop(X ∗ (a ∗ A) ∗ R) = iprop(a ∗ X ∗ A ∗ R) := by
  refine Entails.antisymm (show iprop(X ∗ (a ∗ A) ∗ R) ⊢ iprop(a ∗ X ∗ A ∗ R) from ?_) (show iprop(a ∗ X ∗ A ∗ R) ⊢ iprop(X ∗ (a ∗ A) ∗ R) from ?_)
  · iintro ⟨H1, ⟨H2, H3⟩, H4⟩
    isplitl [H2]; · iexact H2
    isplitl [H1]; · iexact H1
    isplitl [H3]; · iexact H3
    iexact H4
  · iintro ⟨H2, H1, H3, H4⟩
    isplitl [H1]; · iexact H1
    isplitl [H2 H3]
    · isplitl [H2]; · iexact H2
      iexact H3
    iexact H4

variable (cE : (d : Dev nD) → Buf (Elt F) (aE d)) (cT : (d : Dev nD) → Buf (Elt F) (aT d)) (cK : (d : Dev nD) → Buf (Elt F) (aK d))

/-- What the TensorCore keeps of the three inputs while the workers hold their read shares. -/
def rem3 (d : Dev nD) : sProp 𝕄 :=
  iprop((aE d ↦{shareDrop fullShare 32} cE d) ∗ (aT d ↦{shareDrop fullShare 32} cT d) ∗ (aK d ↦{shareDrop fullShare 32} cK d))

/-- The first call's operands for both SparseCores are the three inputs (but the remainders) and the two result arrays. -/
theorem call0_eq (d : Dev nD) :
    (iprop((aE d ↦{fullShare} cE d) ∗ (aT d ↦{fullShare} cT d) ∗ (aK d ↦{fullShare} cK d)
        ∗ (∃ f : Buf (Elt F) (aS d), aS d ↦{fullShare} f) ∗ (∃ f : Buf (Elt F) (aC d), aC d ↦{fullShare} f)) : sProp 𝕄)
      = iprop(rem3 cE cT cK d ∗ bigSep Finset.univ fun c : Fin 2 => bigSep Finset.univ fun i : Fin 16 => task0 cE cT cK d (wid c.val i.val c.isLt i.isLt)) := by
  rw [toks_workers_eq (cE d), toks_workers_eq (cT d), toks_workers_eq (cK d), (rowsS_workers (F := F) d).1.antisymm (rowsS_workers (F := F) d).2, (rowsC_workers (F := F) d).1.antisymm (rowsC_workers (F := F) d).2]
  unfold task0 inToks rem3
  simp only [bigSep_sep']
  exact regroup8 _ _ _ _ _ _ _ _

/-- A worker's operands of the second call with the means table's share at named contents. -/
def task1f (d : Dev nD) (f : Buf (Elt F) (aM d)) (j : Fin 32) : sProp 𝕄 :=
  iprop(inToks cE cT cK d j ∗ (aM d ↦{shareTok fullShare 32 j} f) ∗ (∃ g : Buf (Elt F) (aR d), aR d ↦[(rowC j).set]{fullShare} g))

theorem task1f_weaken (d : Dev nD) (f : Buf (Elt F) (aM d)) (j : Fin 32) : task1f cE cT cK d f j ⊢ task1 cE cT cK d j := by
  unfold task1f task1
  iintro ⟨H1, H2, H3⟩
  isplitl [H1]; · iexact H1
  isplitl [H2]; · iexists f; iexact H2
  iexact H3

theorem task1_back (d : Dev nD) (j : Fin 32) :
    task1 cE cT cK d j ⊢ iprop(inToks cE cT cK d j ∗ (∃ g : Buf (Elt F) (aR d), aR d ↦[(rowC j).set]{fullShare} g)) := by
  unfold task1
  iintro ⟨H1, -, H3⟩
  isplitl [H1]; · iexact H1
  iexact H3

/-- The second call's operands: the inputs' read shares again, the means table's, and the result array. -/
theorem call1_intro (d : Dev nD) (f : Buf (Elt F) (aM d)) :
    (iprop(((bigSep Finset.univ fun c : Fin 2 => bigSep Finset.univ fun i : Fin 16 => inToks cE cT cK d (wid c.val i.val c.isLt i.isLt)))
        ∗ (aM d ↦{fullShare} f) ∗ (∃ g : Buf (Elt F) (aR d), aR d ↦{fullShare} g)) : sProp 𝕄)
      ⊢ bigSep Finset.univ fun c : Fin 2 => bigSep Finset.univ fun i : Fin 16 => task1 cE cT cK d (wid c.val i.val c.isLt i.isLt) := by
  rw [toks_workers_eq f, (rowsR_workers (F := F) d).1.antisymm (rowsR_workers (F := F) d).2]
  refine BIBase.Entails.trans ?_ (bigSep_mono fun c _ => bigSep_mono fun i _ => task1f_weaken cE cT cK d f (wid c.val i.val c.isLt i.isLt))
  unfold task1f
  simp only [bigSep_sep']
  iintro ⟨H1, ⟨-, H2⟩, H3⟩
  isplitl [H1]; · iexact H1
  isplitl [H2]; · iexact H2
  iexact H3

/-- and what comes back of them: the read shares and the result array at what the workers left. -/
theorem call1_elim (d : Dev nD) :
    (bigSep Finset.univ fun c : Fin 2 => bigSep Finset.univ fun i : Fin 16 => task1 cE cT cK d (wid c.val i.val c.isLt i.isLt))
      ⊢ (iprop(((bigSep Finset.univ fun c : Fin 2 => bigSep Finset.univ fun i : Fin 16 => inToks cE cT cK d (wid c.val i.val c.isLt i.isLt)))
        ∗ (∃ g : Buf (Elt F) (aR d), aR d ↦{fullShare} g)) : sProp 𝕄) := by
  rw [(rowsR_workers (F := F) d).1.antisymm (rowsR_workers (F := F) d).2]
  refine BIBase.Entails.trans (bigSep_mono fun c _ => bigSep_mono fun i _ => task1_back cE cT cK d (wid c.val i.val c.isLt i.isLt)) ?_
  simp only [bigSep_sep']
  exact Entails.refl _

end Cert.Proof.KB

end
-- ==== Proof.MainB.lean ====
/-
  @main on a device's TensorCore: the three flattenings, the first SparseCore call (the inputs' read shares and the rows
  of the partial sums and counts out to the thirty-two workers and back), the first combining pallas_call, the means
  table flattened, the second SparseCore call, the second combining pallas_call, the result reshaped.
-/
import proofs.«210783_g59777354826199_cont_9to1_m_168_18_alg».proof.Proof.SplitB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_sdiff_result wp_hlo_within)
open Idealize.ShloMosaic.Transfers (shareTok shareDrop)

variable {F : FTy → Type}

local notation "𝕄" => MT nD τ sig (HIx 2) (Elt F) ℕ UU ℕ

/-! ## The TensorCore's arrays -/

abbrev r (x : Ref sig .tc) : DevRef τ sig := Proc.devRef .tc x

/-- @main's arrays: the arguments, the flattened inputs, the calls' results, the result. -/
abbrev SA : Finset (DevRef τ sig) := (Finset.univ.filter fun b : Ref sig .tc => ¬ b.isScoped).image r

theorem r_inj : Function.Injective (r : Ref sig .tc → DevRef τ sig) := by decide

variable (m : (ℓ : Loc nD τ sig) → Buf (Elt F) ℓ) (ρ : Dev nD → PrngReg)

/-- The launch valuation. -/
def V0 (d : Dev nD) : Valuation τ sig (Elt F) := fun b => m (d, b)

theorem unscoped_held (d : Dev nD) : (unscopedBufs d (fun b => m ((SparseCore.T d).loc b)) : sProp 𝕄) = held (T d) SA (V0 m d) := by
  unfold unscopedBufs held
  rw [SparseCore.bigSep_image_of_injOn (fun _ _ _ _ h => r_inj h)]
  rfl

theorem SA_eq : SA = {r main_arg0, r main_arg1, r main_arg2, r main_v0, r main_v1, r main_v2, r main_v3_0, r main_v3_1, r main_v4_0, r main_v4_1, r main_v5, r main_v6,
    r main_v7, r main_v8} := by decide

/-- The arrays one by one. -/
theorem held_SA (d : Dev nD) (W : Valuation τ sig (Elt F)) :
    (held (T d) SA W : sProp 𝕄) = iprop(((SparseCore.T d).loc main_arg0 ↦{fullShare} W (r main_arg0)) ∗ ((SparseCore.T d).loc main_arg1 ↦{fullShare} W (r main_arg1))
      ∗ ((SparseCore.T d).loc main_arg2 ↦{fullShare} W (r main_arg2)) ∗ (aE d ↦{fullShare} W (r main_v0)) ∗ (aT d ↦{fullShare} W (r main_v1)) ∗ (aK d ↦{fullShare} W (r main_v2))
      ∗ (aS d ↦{fullShare} W (r main_v3_0)) ∗ (aC d ↦{fullShare} W (r main_v3_1)) ∗ ((SparseCore.T d).loc main_v4_0 ↦{fullShare} W (r main_v4_0))
      ∗ ((SparseCore.T d).loc main_v4_1 ↦{fullShare} W (r main_v4_1)) ∗ (aM d ↦{fullShare} W (r main_v5)) ∗ (aR d ↦{fullShare} W (r main_v6))
      ∗ ((SparseCore.T d).loc main_v7 ↦{fullShare} W (r main_v7)) ∗ ((SparseCore.T d).loc main_v8 ↦{fullShare} W (r main_v8))) := by
  rw [SA_eq]
  unfold held
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## The host operations -/

variable [FloatOps F]

abbrev op0 : HloOp τ sig (Elt F) := StableHlo.reshape main_arg0 main_v0 rfl shapeCasts_S1x16x32x256x256_S33554432
abbrev op1 : HloOp τ sig (Elt F) := StableHlo.reshape main_arg1 main_v1 rfl shapeCasts_S1x1x32x256x256_S2097152
abbrev op2 : HloOp τ sig (Elt F) := StableHlo.reshape main_arg2 main_v2 rfl shapeCasts_S1x1x32x256x256_S2097152
abbrev op5 : HloOp τ sig (Elt F) := StableHlo.reshape main_v4_0 main_v5 rfl shapeCasts_S1024x16_S16384
abbrev op8 : HloOp τ sig (Elt F) := StableHlo.reshape main_v7 main_v8 rfl shapeCasts_S1x1_S_

theorem hop0 : (op0 (F := F)).bufs ⊆ SA := show ({r main_arg0, r main_v0} : Finset (DevRef τ sig)) ⊆ SA by decide
theorem hop1 : (op1 (F := F)).bufs ⊆ SA := show ({r main_arg1, r main_v1} : Finset (DevRef τ sig)) ⊆ SA by decide
theorem hop2 : (op2 (F := F)).bufs ⊆ SA := show ({r main_arg2, r main_v2} : Finset (DevRef τ sig)) ⊆ SA by decide
theorem hop5 : (op5 (F := F)).bufs ⊆ SA := show ({r main_v4_0, r main_v5} : Finset (DevRef τ sig)) ⊆ SA by decide
theorem hop8 : (op8 (F := F)).bufs ⊆ SA := show ({r main_v7, r main_v8} : Finset (DevRef τ sig)) ⊆ SA by decide

/-- The valuation after the three flattenings. -/
abbrev V3 (d : Dev nD) : Valuation τ sig (Elt F) := (op2 (F := F)).result ((op1 (F := F)).result ((op0 (F := F)).result (V0 m d)))

/-- The flattened inputs' contents at the calls. -/
abbrev cE (d : Dev nD) : Buf (Elt F) (aE d) := V3 m d (r main_v0)
abbrev cT (d : Dev nD) : Buf (Elt F) (aT d) := V3 m d (r main_v1)
abbrev cK (d : Dev nD) : Buf (Elt F) (aK d) := V3 m d (r main_v2)

/-- The arguments are not written by the flattenings. -/
theorem V3_arg0 (d : Dev nD) : V3 m d (r main_arg0) = m (xLoc0 d) :=
  ((op2 (F := F)).result_of_not_mem _ (show r main_arg0 ∉ ({r main_v2} : Finset (DevRef τ sig)) by decide)).trans
    (((op1 (F := F)).result_of_not_mem _ (show r main_arg0 ∉ ({r main_v1} : Finset (DevRef τ sig)) by decide)).trans
      ((op0 (F := F)).result_of_not_mem _ (show r main_arg0 ∉ ({r main_v0} : Finset (DevRef τ sig)) by decide)))
theorem V3_arg1 (d : Dev nD) : V3 m d (r main_arg1) = m (xLoc1 d) :=
  ((op2 (F := F)).result_of_not_mem _ (show r main_arg1 ∉ ({r main_v2} : Finset (DevRef τ sig)) by decide)).trans
    (((op1 (F := F)).result_of_not_mem _ (show r main_arg1 ∉ ({r main_v1} : Finset (DevRef τ sig)) by decide)).trans
      ((op0 (F := F)).result_of_not_mem _ (show r main_arg1 ∉ ({r main_v0} : Finset (DevRef τ sig)) by decide)))
theorem V3_arg2 (d : Dev nD) : V3 m d (r main_arg2) = m (xLoc2 d) :=
  ((op2 (F := F)).result_of_not_mem _ (show r main_arg2 ∉ ({r main_v2} : Finset (DevRef τ sig)) by decide)).trans
    (((op1 (F := F)).result_of_not_mem _ (show r main_arg2 ∉ ({r main_v1} : Finset (DevRef τ sig)) by decide)).trans
      ((op0 (F := F)).result_of_not_mem _ (show r main_arg2 ∉ ({r main_v0} : Finset (DevRef τ sig)) by decide)))

omit ρ in
theorem arg_pts0 (d : Dev nD) : (xLoc0 d ↦{fullShare} V3 m d (r main_arg0) : sProp 𝕄) = (xLoc0 d ↦{fullShare} m (xLoc0 d)) := by rw [V3_arg0]
omit ρ in
theorem arg_pts1 (d : Dev nD) : (xLoc1 d ↦{fullShare} V3 m d (r main_arg1) : sProp 𝕄) = (xLoc1 d ↦{fullShare} m (xLoc1 d)) := by rw [V3_arg1]
omit ρ in
theorem arg_pts2 (d : Dev nD) : (xLoc2 d ↦{fullShare} V3 m d (r main_arg2) : sProp 𝕄) = (xLoc2 d ↦{fullShare} m (xLoc2 d)) := by rw [V3_arg2]

abbrev a40 (d : Dev nD) : Loc nD τ sig := (SparseCore.T d).loc main_v4_0
abbrev a41 (d : Dev nD) : Loc nD τ sig := (SparseCore.T d).loc main_v4_1
abbrev a7 (d : Dev nD) : Loc nD τ sig := (SparseCore.T d).loc main_v7
abbrev a8 (d : Dev nD) : Loc nD τ sig := (SparseCore.T d).loc main_v8

/-- One pipeline's staging cells' ghost state and duty tokens on device `d`. -/
abbrev ghostP (p : Fin 2) (d : Dev nD) : sProp 𝕄 :=
  iprop(Pipeline.cellsGhost (nD := nD) (τ := τ) cfgs (EP (F := F)) p d ∗ Pipeline.toksInit (nD := nD) (τ := τ) cfgs (EP (F := F)) p d)

omit m ρ [FloatOps F] in
theorem G_eq (d : Dev nD) : (G (F := F) d : sProp 𝕄) = iprop(ghostP (F := F) 0 d ∗ ghostP (F := F) 1 d) := by
  unfold G
  rw [show (Finset.univ : Finset (Fin 2)) = {0, 1} by decide, SparseCore.bigSep_insert' (by decide), bigSep_singleton]

/-- What a valuation with two named entries holds of them. -/
def V2of (d : Dev nD) (b1 b2 : DevRef τ sig) (x1 : Buf (Elt F) (d, b1)) (x2 : Buf (Elt F) (d, b2)) : Valuation τ sig (Elt F) :=
  Function.update (Function.update (V0 m d) b2 x2) b1 x1

theorem held_V2of (d : Dev nD) (b1 b2 : DevRef τ sig) (h : b1 ≠ b2) (x1 : Buf (Elt F) (d, b1)) (x2 : Buf (Elt F) (d, b2)) :
    (held (T d) {b1, b2} (V2of m d b1 b2 x1 x2) : sProp 𝕄) = iprop(((d, b1) ↦{fullShare} x1) ∗ ((d, b2) ↦{fullShare} x2)) := by
  unfold held V2of
  rw [SparseCore.bigSep_insert' (by simpa using h), bigSep_singleton, Function.update_self, Function.update_of_ne (Ne.symm h), Function.update_self]

omit m ρ [FloatOps F] in
theorem held_pair (d : Dev nD) (b1 b2 : DevRef τ sig) (h : b1 ≠ b2) (W : Valuation τ sig (Elt F)) :
    (held (T d) {b1, b2} W : sProp 𝕄) = iprop(((d, b1) ↦{fullShare} W b1) ∗ ((d, b2) ↦{fullShare} W b2)) := by
  unfold held
  rw [SparseCore.bigSep_insert' (by simpa using h), bigSep_singleton]

omit ρ [FloatOps F] in
theorem V2of_1 (d : Dev nD) (b1 b2 : DevRef τ sig) (x1 : Buf (Elt F) (d, b1)) (x2 : Buf (Elt F) (d, b2)) : V2of m d b1 b2 x1 x2 b1 = x1 := by
  unfold V2of; rw [Function.update_self]
omit ρ [FloatOps F] in
theorem V2of_2 (d : Dev nD) (b1 b2 : DevRef τ sig) (h : b1 ≠ b2) (x1 : Buf (Elt F) (d, b1)) (x2 : Buf (Elt F) (d, b2)) : V2of m d b1 b2 x1 x2 b2 = x2 := by
  unfold V2of; rw [Function.update_of_ne (Ne.symm h), Function.update_self]

theorem hop5' : (op5 (F := F)).bufs ⊆ ({r main_v4_0, r main_v5} : Finset (DevRef τ sig)) := Finset.Subset.refl _
theorem hop8' : (op8 (F := F)).bufs ⊆ ({r main_v7, r main_v8} : Finset (DevRef τ sig)) := Finset.Subset.refl _

omit ρ in
/-- The workers' read shares of the three inputs, out of the whole arrays (what remains is not needed again). -/
theorem inToks_intro (d : Dev nD) :
    (iprop((aE d ↦{fullShare} cE m d) ∗ (aT d ↦{fullShare} cT m d) ∗ (aK d ↦{fullShare} cK m d)) : sProp 𝕄)
      ⊢ bigSep Finset.univ fun c : Fin 2 => bigSep Finset.univ fun i : Fin 16 => inToks (cE m) (cT m) (cK m) d (wid c.val i.val c.isLt i.isLt) := by
  rw [toks_workers_eq (cE m d), toks_workers_eq (cT m d), toks_workers_eq (cK m d)]
  unfold inToks
  simp only [bigSep_sep']
  iintro ⟨⟨-, H1⟩, ⟨-, H2⟩, ⟨-, H3⟩⟩
  isplitl [H1]; · iexact H1
  isplitl [H2]; · iexact H2
  iexact H3

/-- What the TensorCore owes before call `n` and its recorded waits' bound: the first component of its handshake state; -/
def owesPart (d : Dev nD) (n : ℕ) : sProp 𝕄 :=
  iprop(∃ W, ⌜(K (F := F)).WBelow (T d) W (8 * n)⌝ ∗ owes (T d) ((K (F := F)).Otc d n) W)

/-- and the rest of it. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit m ρ [FloatOps F] in
theorem tcSt_split (d : Dev nD) (n : ℕ) : ((K (F := F)).tcSt EH d n : sProp 𝕄) = iprop(owesPart (F := F) d n ∗ tcTail (F := F) d n) := rfl

/-- The two combining pallas_calls, as @main's proof meets them: each from the region boundary, its four windows'
    arrays whole (the inputs at named contents) and its pipeline's staging cells' ghost state, to the boundary and the
    arrays back, the outputs at whatever the kernel left. -/
def Reg0 : Prop := ∀ (d : Dev nD) (fS : Buf (Elt F) (aS d)) (fC : Buf (Elt F) (aC d)) (Φ : PUnit → sProp 𝕄),
  iprop(levAts (K (F := F)).L (K (F := F)).lev ∗ boundary (SparseCore.T d) ∗ (aS d ↦{fullShare} fS) ∗ (aC d ↦{fullShare} fC)
      ∗ (∃ g : Buf (Elt F) (a40 d), a40 d ↦{fullShare} g) ∗ (∃ g : Buf (Elt F) (a41 d), a41 d ↦{fullShare} g) ∗ ghostP (F := F) 0 d
      ∗ owesPart (F := F) d 1
      ∗ (iprop(boundary (SparseCore.T d) ∗ (aS d ↦{fullShare} fS) ∗ (aC d ↦{fullShare} fC)
          ∗ (∃ g : Buf (Elt F) (a40 d), a40 d ↦{fullShare} g) ∗ (∃ g : Buf (Elt F) (a41 d), a41 d ↦{fullShare} g) ∗ owesPart (F := F) d 1) -∗ Φ ⟨⟩))
    ⊢ wp frame (wpE ((K (F := F)).defs (D (F := F))) 𝒱 (SparseCore.T d) none) Set.univ
        (Prog.lift (TpuEff.customCall (SparseCore.inner (Pipeline.entry 0)) ())) Φ

def Reg1 : Prop := ∀ (d : Dev nD) (fR : Buf (Elt F) (aR d)) (fC : Buf (Elt F) (aC d)) (f41 : Buf (Elt F) (a41 d)) (Φ : PUnit → sProp 𝕄),
  iprop(levAts (K (F := F)).L (K (F := F)).lev ∗ boundary (SparseCore.T d) ∗ (aR d ↦{fullShare} fR) ∗ (aC d ↦{fullShare} fC)
      ∗ (a41 d ↦{fullShare} f41) ∗ (∃ g : Buf (Elt F) (a7 d), a7 d ↦{fullShare} g) ∗ ghostP (F := F) 1 d
      ∗ owesPart (F := F) d 2
      ∗ (iprop(boundary (SparseCore.T d) ∗ (aR d ↦{fullShare} fR) ∗ (aC d ↦{fullShare} fC)
          ∗ (a41 d ↦{fullShare} f41) ∗ (∃ g : Buf (Elt F) (a7 d), a7 d ↦{fullShare} g) ∗ owesPart (F := F) d 2) -∗ Φ ⟨⟩))
    ⊢ wp frame (wpE ((K (F := F)).defs (D (F := F))) 𝒱 (SparseCore.T d) none) Set.univ
        (Prog.lift (TpuEff.customCall (SparseCore.inner (Pipeline.entry 1)) ())) Φ

theorem hmain (hreg0 : Reg0 (F := F)) (hreg1 : Reg1 (F := F)) (κ : GSem nD τ sig → ℕ) (d : Dev nD) :
    iprop((K (F := F)).ctx EH (P (cE m) (cT m) (cK m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscoped_held]
  simp only [main, wp_bind, wp_pure]
  iintro ⟨#Hctx, Hst, ⟨Hb, Hheld, -, -⟩, HG⟩
  iapply (wp_hlo_within 𝒱 (SparseCore.T d) none Set.univ (op := op0) (S := SA) hop0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := SA) hop1 (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := SA) hop2 (V := (op1 (F := F)).result ((op0 (F := F)).result (V0 m d)))) $$ [Hb Hheld]
  · isplitl [Hb]; · iexact Hb
    iexact Hheld
  iintro ⟨Hb, Hheld⟩
  rw [wp_ret]; imodintro
  ihave Hh := (Entails.of_eq (held_SA (F := F) d _)) $$ Hheld
  icases Hh with ⟨Ha0, Ha1, Ha2, HE, HT, HK, HS, HC, H40, H41, HM, HR, H7, H8⟩
  -- the first call: the inputs' read shares and the result rows out to the workers, and back
  ihave Hops := (Entails.of_eq (call0_eq (cE m) (cT m) (cK m) d)) $$ [HE HT HK HS HC]
  · isplitl [HE]; · iexact HE
    isplitl [HT]; · iexact HT
    isplitl [HK]; · iexact HK
    isplitl [HS]; · iexists _; iexact HS
    iexists _; iexact HC
  icases Hops with ⟨Hrem, Htasks⟩
  iapply ((K (F := F)).wp_run (D (F := F)) 𝒱 (EH := EH) (P := P (cE m) (cT m) (cK m)) κ d 0) $$ [Hst Htasks Hrem Hb HG Ha0 Ha1 Ha2 H40 H41 HM HR H7 H8]
  isplitr; · iexact Hctx
  isplitl [Hst]; · iexact Hst
  isplitl [Htasks]; · iexact Htasks
  iintro ⟨Hst, Hdn⟩
  ihave Hops := (Entails.of_eq (call0_eq (cE m) (cT m) (cK m) d).symm) $$ [Hrem Hdn]
  · isplitl [Hrem]; · iexact Hrem
    iexact Hdn
  icases Hops with ⟨HE, HT, HK, ⟨%fS, HS⟩, ⟨%fC, HC⟩⟩
  -- the first combining pallas_call
  ihave Hlev := ((K (F := F)).ctx_levAts κ) $$ Hctx
  ihave HG' := (Entails.of_eq (G_eq (F := F) d)) $$ HG
  icases HG' with ⟨HG0, HG1⟩
  ihave Hst' := (Entails.of_eq (tcSt_split (F := F) d 1)) $$ [Hst]
  · iexact Hst
  icases Hst' with ⟨HO, Htail⟩
  iapply (hreg0 d fS fC) $$ [Hlev Hb HS HC H40 H41 HG0 HO Htail HE HT HK Ha0 Ha1 Ha2 HM HR H7 H8 HG1]
  isplitl [Hlev]; · iexact Hlev
  isplitl [Hb]; · iexact Hb
  isplitl [HS]; · iexact HS
  isplitl [HC]; · iexact HC
  isplitl [H40]; · iexists _; iexact H40
  isplitl [H41]; · iexists _; iexact H41
  isplitl [HG0]; · iexact HG0
  isplitl [HO]; · iexact HO
  iintro ⟨Hb, HS, HC, ⟨%g40, H40⟩, ⟨%g41, H41⟩, HO⟩
  ihave Hst := (Entails.of_eq (tcSt_split (F := F) d 1).symm) $$ [HO Htail]
  · isplitl [HO]; · iexact HO
    iexact Htail
  -- the means table flattened
  iapply (wp_hlo_within 𝒱 (SparseCore.T d) none Set.univ (op := op5) (S := {r main_v4_0, r main_v5}) hop5'
      (V := V2of m d (r main_v4_0) (r main_v5) g40 (V3 m d (r main_v5)))) $$ [Hb H40 HM]
  · isplitl [Hb]; · iexact Hb
    rw [held_pair d _ _ (by decide), V2of_1, V2of_2 m d _ _ (by decide)]
    isplitl [H40]; · iexact H40
    iexact HM
  iintro ⟨Hb, Hheld⟩
  ihave Hh := (Entails.of_eq (held_pair (F := F) d (r main_v4_0) (r main_v5) (by decide) _)) $$ Hheld
  icases Hh with ⟨H40, HM⟩
  rw [wp_ret]; imodintro
  -- the second call
  ihave Htk := (inToks_intro m d) $$ [HE HT HK]
  · isplitl [HE]; · iexact HE
    isplitl [HT]; · iexact HT
    iexact HK
  ihave Htasks := (call1_intro (cE m) (cT m) (cK m) d _) $$ [Htk HM HR]
  · isplitl [Htk]; · iexact Htk
    isplitl [HM]; · iexact HM
    iexists _; iexact HR
  iapply ((K (F := F)).wp_run (D (F := F)) 𝒱 (EH := EH) (P := P (cE m) (cT m) (cK m)) κ d 1) $$ [Hst Htasks Hb HG1 Ha0 Ha1 Ha2 H40 H41 HS HC H7 H8]
  isplitr; · iexact Hctx
  isplitl [Hst]; · iexact Hst
  isplitl [Htasks]; · iexact Htasks
  iintro ⟨Hst, Hdn⟩
  ihave Hops := (call1_elim (cE m) (cT m) (cK m) d) $$ [Hdn]
  · iexact Hdn
  icases Hops with ⟨-, ⟨%fR, HR⟩⟩
  -- the second combining pallas_call
  ihave Hst' := (Entails.of_eq (tcSt_split (F := F) d 2)) $$ [Hst]
  · iexact Hst
  icases Hst' with ⟨HO, Htail⟩
  iapply (hreg1 d fR fC g41) $$ [Hlev Hb HR HC H41 H7 HG1 HO Htail Ha0 Ha1 Ha2 H8]
  isplitl [Hlev]; · iexact Hlev
  isplitl [Hb]; · iexact Hb
  isplitl [HR]; · iexact HR
  isplitl [HC]; · iexact HC
  isplitl [H41]; · iexact H41
  isplitl [H7]; · iexists _; iexact H7
  isplitl [HG1]; · iexact HG1
  isplitl [HO]; · iexact HO
  iintro ⟨Hb, HR, HC, H41, ⟨%g7, H7⟩, HO⟩
  ihave Hst := (Entails.of_eq (tcSt_split (F := F) d 2).symm) $$ [HO Htail]
  · isplitl [HO]; · iexact HO
    iexact Htail
  -- the result reshaped
  iapply (wp_hlo_within 𝒱 (SparseCore.T d) none Set.univ (op := op8) (S := {r main_v7, r main_v8}) hop8'
      (V := V2of m d (r main_v7) (r main_v8) g7 (V3 m d (r main_v8)))) $$ [Hb H7 H8]
  · isplitl [Hb]; · iexact Hb
    rw [held_pair d _ _ (by decide), V2of_1, V2of_2 m d _ _ (by decide)]
    isplitl [H7]; · iexact H7
    iexact H8
  iintro ⟨Hb, Hheld⟩
  rw [wp_ret]; imodintro; imodintro
  isplitl [Hst]; · iexact Hst
  isplitl [Ha0]; · iapply (Entails.of_eq (arg_pts0 m d)); iexact Ha0
  isplitl [Ha1]; · iapply (Entails.of_eq (arg_pts1 m d)); iexact Ha1
  iapply (Entails.of_eq (arg_pts2 m d)); iexact Ha2

end Cert.Proof.KB

end
-- ==== Proof.Region1B.lean ====
/-
  The second combining pallas_call as a region of @main: its body run on the staging buffers (two whole-block loads of
  the partial terms and counts, the loads of the two scalars, one store of the result scalar), the pipeline's proof data
  (the three input windows left as found, nothing said of the output's contents), and the region entered and left inside
  the SparseCore program.
-/
import proofs.«210783_g59777354826199_cont_9to1_m_168_18_alg».proof.Proof.MainB
import Idealize.ShloMosaic.Lib.Pipeline.Regions

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

local notation "𝕄" => MT nD τ sig (HIx 2) (Elt F) ℕ UU ℕ

/-- The body on whole staging memrefs: the three inputs' come back as they were, the output's at some contents. -/
theorem sound_kernel3 (c : Dev nD) (E : Set ℕ) (arg0 : Memref sig .tc .vmem S32x1024 .f32) (harg0 : arg0.IsWhole) (arg1 : Memref sig .tc .vmem S32x1024 .f32) (harg1 : arg1.IsWhole)
    (arg2 : Memref sig .tc .vmem S1x1 .f32) (harg2 : arg2.IsWhole) (arg3 : Memref sig .tc .vmem S1x1 .f32) (harg3 : arg3.IsWhole)
    (x0 : Vec F S32x1024 .f32) (x1 : Vec F S32x1024 .f32) (x2 : Vec F S1x1 .f32) (x3 : Vec F S1x1 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (iprop(owns (c : Thread nD τ) arg0 fullShare x0 ∗ owns (c : Thread nD τ) arg1 fullShare x1 ∗ owns (c : Thread nD τ) arg2 fullShare x2
            ∗ ∃ y, owns (c : Thread nD τ) arg3 fullShare y) -∗ Kc ⟨⟩))
      ⊢ wp frame (wpE (defs₀ (F := F)) Variants.none c none) E (cc3__combine2_body arg0 harg0 arg1 harg1 arg2 harg2 arg3 harg3) Kc := by
  simp only [cc3__combine2_body_eq_skeleton]; unfold cc3__combine2_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; iexists _; isplitr
  swap; · iexact H3
  ipureintro; rfl

/-! ## The pipelines' proof data: inputs left as found, nothing said of what the body leaves in an output -/

/-- The prefetched tables' admissible contents: no pallas_call has a table. -/
abbrev adm : (p : Fin 2) → (pcfgs (F := F) p).Adm := fun p => (cfgs p).toPCfg_adm

/-- A combining call's proof data on core `c`, its four arrays at entry read off `Vv`: windows 0 … `nin` − 1 are
    inputs (left as found), the rest outputs; the invariant is the scoped buffers no window stages; `O` owed throughout. -/
def rdatOf (p : Fin 2) (c : Dev nD) (Vv : (b : Ref sig .tc) → Buf (Elt F) ((c : Thread nD τ).loc b)) (O : CellTallies nD τ sig (HIx 2))
    (rec : Set (SemLoc sig × HIx 2)) :
    RDat τ (Elt F) (HIx 2) ℕ UU ℕ (Pipeline.pin (pcfgs (F := F)) adm p) c where
  A w := Vv (Pipeline.arrRef (Pipeline.pin (pcfgs (F := F)) adm p).spec w)
  after w _ := if ((Pipeline.pin (pcfgs (F := F)) adm p).win w).isOut then fun _ _ => True else fun Y X => X = Y
  Φ _ := Pipeline.scopedRest (Pipeline.pin (pcfgs (F := F)) adm p).spec c
  q _ := fullShare
  owed _ := O
  recorded _ := rec

/-- The second combining call's body obligation. -/
theorem body_obl3 (c : Dev nD) (Vv : (b : Ref sig .tc) → Buf (Elt F) ((c : Thread nD τ).loc b)) (O : CellTallies nD τ sig (HIx 2))
    (rec : Set (SemLoc sig × HIx 2)) :
    (rdatOf (F := F) 1 c Vv O rec).BodyObligation (defs₀ (F := F)) 𝒱₀ none Set.univ := by
  intro t Y _
  rw [bigSep_W3, bigSep_W3]
  iintro ⟨HΦ, Ho, H0, H1, H2, H3⟩
  iapply (sound_kernel3 c Set.univ _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, ⟨%y, H3⟩⟩
  isplitl [HΦ]
  · iapply (Entails.of_eq (show (rdatOf (F := F) 1 c Vv O rec).Φ t.castSucc = (rdatOf (F := F) 1 c Vv O rec).Φ t.succ from rfl)); iexact HΦ
  isplitl [Ho]
  · iapply (Entails.of_eq (show (rdatOf (F := F) 1 c Vv O rec).owesAt none t.castSucc = (rdatOf (F := F) 1 c Vv O rec).owesAt none t.succ from rfl)); iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  iexists y; isplitr; · ipureintro; exact trivial
  iexact H3

/-! ## The region -/

/-- The recorded pairs a TensorCore may hold before call `n`. -/
def recB (n : ℕ) (c : Dev nD) : Set (SemLoc sig × HIx 2) := {p | (K (F := F)).lev ((c : Thread nD τ), p.1) p.2 ≤ 8 * n}

theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

/-- Both pipelines' proof data on every core before call `n`, from a valuation per core. -/
def rdatsOf (n : ℕ) (VV : (c : Dev nD) → (b : Ref sig .tc) → Buf (Elt F) ((c : Thread nD τ).loc b)) :
    (p : Fin 2) → (c : Dev nD) → RDat τ (Elt F) (HIx 2) ℕ UU ℕ (Pipeline.pin (pcfgs (F := F)) adm p) c :=
  fun p c => rdatOf p c (VV c) ((K (F := F)).Otc c n) (recB (F := F) n c)

theorem rdatsOf_Φ (n : ℕ) (VV : (c : Dev nD) → (b : Ref sig .tc) → Buf (Elt F) ((c : Thread nD τ).loc b))
    (p : Fin 2) (c : Dev nD) (t : Fin ((Pipeline.pin (pcfgs (F := F)) adm p).N + 1)) :
    (rdatsOf n VV p c).Φ t = Pipeline.scopedRest (Pipeline.pin (pcfgs (F := F)) adm p).spec c := rfl

/-- A TensorCore that owes only handshake signals (at a call's index) may wait on its pipelines' staging cells (at index
    `none`). -/
theorem hwaitsOf (n : ℕ) (VV : (c : Dev nD) → (b : Ref sig .tc) → Buf (Elt F) ((c : Thread nD τ).loc b)) (p : Fin 2) (c : Dev nD) :
    (levAts (K (F := F)).L (K (F := F)).lev : sProp 𝕄) ⊢ Pipeline.RDat.cellsWaits (Pipeline.pin (pcfgs (F := F)) adm) (rdatsOf n VV) (none : HIx 2) p c :=
  Pipeline.RDat.cellsWaits_intro _ _ _ p c fun w s t => (K (F := F)).mayWait_none _ (Otc_none c n)

/-- The thread state around a combining call: the core's debts. -/
theorem owes_entry (n : ℕ) (VV : (c : Dev nD) → (b : Ref sig .tc) → Buf (Elt F) ((c : Thread nD τ).loc b)) (p : Fin 2) (c : Dev nD) :
    owesPart (F := F) c n ⊢ (rdatsOf n VV p c).owesAt none 0 := by
  unfold owesPart Pipeline.RDat.owesAt Pipeline.owesWithin
  iintro ⟨%W, %hW, HO⟩
  iexists W; isplitr; · ipureintro; exact fun q hq => Or.inl (hW q hq)
  iexact HO

theorem owes_exit (n : ℕ) (VV : (c : Dev nD) → (b : Ref sig .tc) → Buf (Elt F) ((c : Thread nD τ).loc b)) (p : Fin 2) (c : Dev nD) :
    (rdatsOf n VV p c).owesAt none (Fin.last _) ⊢ owesPart (F := F) c n := by
  unfold owesPart Pipeline.RDat.owesAt Pipeline.owesWithin
  iintro ⟨%W, %hW, HO⟩
  iexists W; isplitr
  · ipureintro
    intro q hq
    rcases hW hq with h | ⟨w, s, rfl⟩
    · exact h
    · show (K (F := F)).lev _ none ≤ _; rw [SparseCore.Cfg.lev_none]; exact Nat.zero_le _
  iexact HO

set_option backward.isDefEq.respectTransparency.types false in
/-- The second combining call as a region: entered from its four arrays at the entry contents and the core's debts,
    left with the arrays at contents the write-backs may leave and the same debts. -/
def reg1Seg (VV : (c : Dev nD) → (b : Ref sig .tc) → Buf (Elt F) ((c : Thread nD τ).loc b)) :
    Pipeline.RDat.RegionSeg (pcfgs (F := F)) adm (rdatsOf 2 VV) (none : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := body_obl3 c (VV c) _ _
  hwaits c := hwaitsOf 2 VV 1 c
  pre c := iprop((rdatsOf 2 VV 1 c).arrays (rdatsOf 2 VV 1 c).A ∗ owesPart (F := F) c 2)
  post c := iprop((rdatsOf 2 VV 1 c).arraysAt cfg3.N ∗ owesPart (F := F) c 2)
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owes_entry 2 VV 1 c); iexact HO
    isplitr; · iempintro
    iempintro
  hin c := by
    rw [rdatsOf_Φ]
    iintro ⟨-, -, Hr⟩
    iexact Hr
  hout c := by
    rw [Pipeline.ownSems0_none, rdatsOf_Φ]
    iintro Hr
    isplitr; · iempintro
    isplitr; · iempintro
    iexact Hr
  hexit c := by
    iintro ⟨Ha, HO, -, -⟩
    imodintro
    isplitl [Ha]; · iexact Ha
    iapply (owes_exit 2 VV 1 c); iexact HO

/-! ## The region inside the SparseCore program -/

theorem arrays1_eq (VV : (c : Dev nD) → (b : Ref sig .tc) → Buf (Elt F) ((c : Thread nD τ).loc b)) (d : Dev nD) :
    ((rdatsOf 2 VV 1 d).arrays (rdatsOf 2 VV 1 d).A : sProp 𝕄)
      = iprop((aR d ↦{fullShare} VV d main_v6) ∗ (aC d ↦{fullShare} VV d main_v3_1) ∗ (a41 d ↦{fullShare} VV d main_v4_1) ∗ (a7 d ↦{fullShare} VV d main_v7)) := by
  rw [Pipeline.RDat.arrays_eq (pcfgs (F := F)) adm (rdatsOf 2 VV) 1 d arr_whole3 ((rdatsOf 2 VV 1 d).share_full fun _ => rfl), bigSep_W3]
  rfl

theorem win3_pts (VV : (c : Dev nD) → (b : Ref sig .tc) → Buf (Elt F) ((c : Thread nD τ).loc b)) (d : Dev nD) (w : Fin 4)
    (Fw : Buf (Elt F) (((Pipeline.pin (pcfgs (F := F)) adm 1).win w).arr.view.loc (d : Thread nD τ))) :
    ((((Pipeline.pin (pcfgs (F := F)) adm 1).win w).arr.view.loc (d : Thread nD τ)) ↦[((Pipeline.pin (pcfgs (F := F)) adm 1).win w).arr.view.set]{(rdatsOf 2 VV 1 d).share w} Fw : sProp 𝕄)
      = (((d : Thread nD τ).loc (Pipeline.arrRef spec3 w)) ↦{fullShare} Fw) := by
  rw [(show (((Pipeline.pin (pcfgs (F := F)) adm 1).win w).arr).IsWhole from arr_whole3 w).set_eq_univ, (rdatsOf 2 VV 1 d).share_full (fun _ => rfl) w]
  rfl

/-- What the region leaves: the three inputs as entered, the output at some contents. -/
theorem arraysAt1_elim (VV : (c : Dev nD) → (b : Ref sig .tc) → Buf (Elt F) ((c : Thread nD τ).loc b)) (d : Dev nD) :
    ((rdatsOf 2 VV 1 d).arraysAt cfg3.N : sProp 𝕄)
      ⊢ iprop((aR d ↦{fullShare} VV d main_v6) ∗ (aC d ↦{fullShare} VV d main_v3_1) ∗ (a41 d ↦{fullShare} VV d main_v4_1)
          ∗ ∃ g : Buf (Elt F) (a7 d), a7 d ↦{fullShare} g) := by
  unfold Pipeline.RDat.arraysAt
  rw [bigSep_W3]
  iintro ⟨⟨%F0, %h0, H0⟩, ⟨%F1, %h1, H1⟩, ⟨%F2, %h2, H2⟩, ⟨%F3, -, H3⟩⟩
  rw [(rdatsOf 2 VV 1 d).ArrAt_in 0 rfl] at h0
  rw [(rdatsOf 2 VV 1 d).ArrAt_in 1 rfl] at h1
  rw [(rdatsOf 2 VV 1 d).ArrAt_in 2 rfl] at h2
  subst h0 h1 h2
  isplitl [H0]; · iapply (Entails.of_eq (win3_pts VV d 0 _)); iexact H0
  isplitl [H1]; · iapply (Entails.of_eq (win3_pts VV d 1 _)); iexact H1
  isplitl [H2]; · iapply (Entails.of_eq (win3_pts VV d 2 _)); iexact H2
  iexists F3; iapply (Entails.of_eq (win3_pts VV d 3 _)); iexact H3

variable (m : (ℓ : Loc nD τ sig) → Buf (Elt F) ℓ)

/-- Device `d`'s TensorCore arrays with the second combining call's four at named contents. -/
def Vd1 (d : Dev nD) (fR : Buf (Elt F) (aR d)) (fC : Buf (Elt F) (aC d)) (f41 : Buf (Elt F) (a41 d)) (g7 : Buf (Elt F) (a7 d)) :
    (b : Ref sig .tc) → Buf (Elt F) ((d : Thread nD τ).loc b) :=
  Function.update (Function.update (Function.update (Function.update (fun b => m ((d : Thread nD τ).loc b)) main_v6 fR) main_v3_1 fC) main_v4_1 f41) main_v7 g7

theorem Vd1_v6 (d : Dev nD) (fR : Buf (Elt F) (aR d)) (fC : Buf (Elt F) (aC d)) (f41 : Buf (Elt F) (a41 d)) (g7 : Buf (Elt F) (a7 d)) :
    Vd1 m d fR fC f41 g7 main_v6 = fR := by
  unfold Vd1; rw [Function.update_of_ne (by decide), Function.update_of_ne (by decide), Function.update_of_ne (by decide), Function.update_self]
theorem Vd1_v31 (d : Dev nD) (fR : Buf (Elt F) (aR d)) (fC : Buf (Elt F) (aC d)) (f41 : Buf (Elt F) (a41 d)) (g7 : Buf (Elt F) (a7 d)) :
    Vd1 m d fR fC f41 g7 main_v3_1 = fC := by
  unfold Vd1; rw [Function.update_of_ne (by decide), Function.update_of_ne (by decide), Function.update_self]
theorem Vd1_v41 (d : Dev nD) (fR : Buf (Elt F) (aR d)) (fC : Buf (Elt F) (aC d)) (f41 : Buf (Elt F) (a41 d)) (g7 : Buf (Elt F) (a7 d)) :
    Vd1 m d fR fC f41 g7 main_v4_1 = f41 := by
  unfold Vd1; rw [Function.update_of_ne (by decide), Function.update_self]
theorem Vd1_v7 (d : Dev nD) (fR : Buf (Elt F) (aR d)) (fC : Buf (Elt F) (aC d)) (f41 : Buf (Elt F) (a41 d)) (g7 : Buf (Elt F) (a7 d)) :
    Vd1 m d fR fC f41 g7 main_v7 = g7 := by
  unfold Vd1; rw [Function.update_self]

/-- The same on every device (the launch contents elsewhere). -/
def VV1 (d : Dev nD) (fR : Buf (Elt F) (aR d)) (fC : Buf (Elt F) (aC d)) (f41 : Buf (Elt F) (a41 d)) (g7 : Buf (Elt F) (a7 d)) :
    (c : Dev nD) → (b : Ref sig .tc) → Buf (Elt F) ((c : Thread nD τ).loc b) :=
  Function.update (fun c b => m ((c : Thread nD τ).loc b)) d (Vd1 m d fR fC f41 g7)

theorem VV1_d (d : Dev nD) (fR : Buf (Elt F) (aR d)) (fC : Buf (Elt F) (aC d)) (f41 : Buf (Elt F) (a41 d)) (g7 : Buf (Elt F) (a7 d)) :
    VV1 m d fR fC f41 g7 d = Vd1 m d fR fC f41 g7 := Function.update_self _ _ _

theorem ptsR1 (d : Dev nD) (fR : Buf (Elt F) (aR d)) (fC : Buf (Elt F) (aC d)) (f41 : Buf (Elt F) (a41 d)) (g7 : Buf (Elt F) (a7 d)) :
    (aR d ↦{fullShare} VV1 m d fR fC f41 g7 d main_v6 : sProp 𝕄) = (aR d ↦{fullShare} fR) := by rw [VV1_d, Vd1_v6]
theorem ptsC1 (d : Dev nD) (fR : Buf (Elt F) (aR d)) (fC : Buf (Elt F) (aC d)) (f41 : Buf (Elt F) (a41 d)) (g7 : Buf (Elt F) (a7 d)) :
    (aC d ↦{fullShare} VV1 m d fR fC f41 g7 d main_v3_1 : sProp 𝕄) = (aC d ↦{fullShare} fC) := by rw [VV1_d, Vd1_v31]
theorem pts411 (d : Dev nD) (fR : Buf (Elt F) (aR d)) (fC : Buf (Elt F) (aC d)) (f41 : Buf (Elt F) (a41 d)) (g7 : Buf (Elt F) (a7 d)) :
    (a41 d ↦{fullShare} VV1 m d fR fC f41 g7 d main_v4_1 : sProp 𝕄) = (a41 d ↦{fullShare} f41) := by rw [VV1_d, Vd1_v41]
theorem pts71 (d : Dev nD) (fR : Buf (Elt F) (aR d)) (fC : Buf (Elt F) (aC d)) (f41 : Buf (Elt F) (a41 d)) (g7 : Buf (Elt F) (a7 d)) :
    (a7 d ↦{fullShare} VV1 m d fR fC f41 g7 d main_v7 : sProp 𝕄) = (a7 d ↦{fullShare} g7) := by rw [VV1_d, Vd1_v7]

set_option backward.isDefEq.respectTransparency.types false in
/-- The second combining pallas_call, inside the SparseCore program. -/
theorem reg1 (m : (ℓ : Loc nD τ sig) → Buf (Elt F) ℓ) : Reg1 (F := F) := by
  intro d fR fC f41 Φ
  iintro ⟨#Hlev, Hb, HR, HC, H41, ⟨%g7, H7⟩, ⟨HGc, HGt⟩, HO, Hk⟩
  iapply ((K (F := F)).wp_liftProg (D (F := F)) 𝒱 (SparseCore.T d) Set.univ none (Prog.lift (TpuEff.customCall (Pipeline.entry 1) ())) Φ)
  iapply (Pipeline.RDat.RegionSeg.wp (pcfgs (F := F)) adm (rdatsOf 2 (VV1 m d fR fC f41 g7)) (none : HIx 2) cellOf_inj (EP (F := F)) defs₀ 𝒱₀
    (K (F := F)).L (K (F := F)).lev (reg1Seg (VV1 m d fR fC f41 g7)) d none (fun u hu => nomatch hu) (fun _ => Prog.ret PUnit.unit) Φ)
  isplitl [Hk]
  · iintro ⟨Hb, Hpost⟩
    rw [wp_ret]; imodintro
    ihave Hp := (Entails.of_eq (show (reg1Seg (VV1 m d fR fC f41 g7)).post d
        = iprop((rdatsOf 2 (VV1 m d fR fC f41 g7) 1 d).arraysAt cfg3.N ∗ owesPart (F := F) d 2) from rfl)) $$ Hpost
    icases Hp with ⟨Ha, HO⟩
    ihave Ha' := (arraysAt1_elim (VV1 m d fR fC f41 g7) d) $$ Ha
    icases Ha' with ⟨HR, HC, H41, H7⟩
    iapply Hk
    isplitl [Hb]; · iexact Hb
    isplitl [HR]; · iapply (Entails.of_eq (ptsR1 m d fR fC f41 g7)); iexact HR
    isplitl [HC]; · iapply (Entails.of_eq (ptsC1 m d fR fC f41 g7)); iexact HC
    isplitl [H41]; · iapply (Entails.of_eq (pts411 m d fR fC f41 g7)); iexact H41
    isplitl [H7]; · iexact H7
    iexact HO
  isplitl [Hb]; · iexact Hb
  isplitl [HR HC H41 H7 HO]
  · iapply (Entails.of_eq (show (reg1Seg (VV1 m d fR fC f41 g7)).pre d
        = iprop((rdatsOf 2 (VV1 m d fR fC f41 g7) 1 d).arrays (rdatsOf 2 (VV1 m d fR fC f41 g7) 1 d).A ∗ owesPart (F := F) d 2) from rfl).symm)
    isplitl [HR HC H41 H7]
    · iapply (Entails.of_eq (arrays1_eq (VV1 m d fR fC f41 g7) d).symm)
      isplitl [HR]; · iapply (Entails.of_eq (ptsR1 m d fR fC f41 g7).symm); iexact HR
      isplitl [HC]; · iapply (Entails.of_eq (ptsC1 m d fR fC f41 g7).symm); iexact HC
      isplitl [H41]; · iapply (Entails.of_eq (pts411 m d fR fC f41 g7).symm); iexact H41
      iapply (Entails.of_eq (pts71 m d fR fC f41 g7).symm); iexact H7
    iexact HO
  isplitl [Hlev]; · iexact Hlev
  isplitl [HGc]; · iexact HGc
  iexact HGt

end Cert.Proof.KB

end
-- ==== Proof.Region0B.lean ====
/-
  The first combining pallas_call as a region of @main: its body run on the staging buffers (the whole-block loads of the
  partial sums and counts, sixteen stores of the means table's pieces, one store of the scalar), the pipeline's proof
  data (the two input windows left as found, nothing said of the two outputs' contents), and the region entered and left
  inside the SparseCore program while the TensorCore still owes the second call's start signals.
-/
import proofs.«210783_g59777354826199_cont_9to1_m_168_18_alg».proof.Proof.Region1B

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

local notation "𝕄" => MT nD τ sig (HIx 2) (Elt F) ℕ UU ℕ

set_option maxHeartbeats 4000000 in
/-- The body on whole staging memrefs: the two inputs' come back as they were, the two outputs' at some contents. -/
theorem sound_kernel1 (c : Dev nD) (E : Set ℕ) (arg0 : Memref sig .tc .vmem S32x16384 .f32) (harg0 : arg0.IsWhole) (arg1 : Memref sig .tc .vmem S32x1024 .f32) (harg1 : arg1.IsWhole)
    (arg2 : Memref sig .tc .vmem S1024x16 .f32) (harg2 : arg2.IsWhole) (arg3 : Memref sig .tc .vmem S1x1 .f32) (harg3 : arg3.IsWhole)
    (x0 : Vec F S32x16384 .f32) (x1 : Vec F S32x1024 .f32) (x2 : Vec F S1024x16 .f32) (x3 : Vec F S1x1 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (iprop(owns (c : Thread nD τ) arg0 fullShare x0 ∗ owns (c : Thread nD τ) arg1 fullShare x1 ∗ (∃ y, owns (c : Thread nD τ) arg2 fullShare y)
            ∗ ∃ y, owns (c : Thread nD τ) arg3 fullShare y) -∗ Kc ⟨⟩))
      ⊢ wp frame (wpE (defs₀ (F := F)) Variants.none c none) E (cc1__combine1_body arg0 harg0 arg1 harg1 arg2 harg2 arg3 harg3) Kc := by
  simp only [cc1__combine1_body_eq_skeleton]; unfold cc1__combine1_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists _; iexists _; isplitr
    swap; · iexact H2
    ipureintro; rfl
  iexists _; iexists _; isplitr
  swap; · iexact H3
  ipureintro; rfl

/-- The first combining call's body obligation. -/
theorem body_obl1 (c : Dev nD) (Vv : (b : Ref sig .tc) → Buf (Elt F) ((c : Thread nD τ).loc b)) (O : CellTallies nD τ sig (HIx 2))
    (rec : Set (SemLoc sig × HIx 2)) :
    (rdatOf (F := F) 0 c Vv O rec).BodyObligation (defs₀ (F := F)) 𝒱₀ none Set.univ := by
  intro t Y _
  rw [bigSep_W1, bigSep_W1]
  iintro ⟨HΦ, Ho, H0, H1, H2, H3⟩
  iapply (sound_kernel1 c Set.univ _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, ⟨%y2, H2⟩, ⟨%y3, H3⟩⟩
  isplitl [HΦ]
  · iapply (Entails.of_eq (show (rdatOf (F := F) 0 c Vv O rec).Φ t.castSucc = (rdatOf (F := F) 0 c Vv O rec).Φ t.succ from rfl)); iexact HΦ
  isplitl [Ho]
  · iapply (Entails.of_eq (show (rdatOf (F := F) 0 c Vv O rec).owesAt none t.castSucc = (rdatOf (F := F) 0 c Vv O rec).owesAt none t.succ from rfl)); iexact Ho
  isplitl [H0]
  · iexists (Y 0); isplitr; · ipureintro; exact rfl
    iexact H0
  isplitl [H1]
  · iexists (Y 1); isplitr; · ipureintro; exact rfl
    iexact H1
  isplitl [H2]
  · iexists y2; isplitr; · ipureintro; exact trivial
    iexact H2
  iexists y3; isplitr; · ipureintro; exact trivial
  iexact H3

/-! ## The region -/

set_option backward.isDefEq.respectTransparency.types false in
/-- The first combining call as a region: entered from its four arrays at the entry contents and the core's debts (the
    second call's start signals), left with the arrays at contents the write-backs may leave and the same debts. -/
def reg0Seg (VV : (c : Dev nD) → (b : Ref sig .tc) → Buf (Elt F) ((c : Thread nD τ).loc b)) :
    Pipeline.RDat.RegionSeg (pcfgs (F := F)) adm (rdatsOf 1 VV) (none : HIx 2) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obl1 c (VV c) _ _
  hwaits c := hwaitsOf 1 VV 0 c
  pre c := iprop((rdatsOf 1 VV 0 c).arrays (rdatsOf 1 VV 0 c).A ∗ owesPart (F := F) c 1)
  post c := iprop((rdatsOf 1 VV 0 c).arraysAt cfg1.N ∗ owesPart (F := F) c 1)
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owes_entry 1 VV 0 c); iexact HO
    isplitr; · iempintro
    iempintro
  hin c := by
    rw [rdatsOf_Φ]
    iintro ⟨-, -, Hr⟩
    iexact Hr
  hout c := by
    rw [Pipeline.ownSems0_none, rdatsOf_Φ]
    iintro Hr
    isplitr; · iempintro
    isplitr; · iempintro
    iexact Hr
  hexit c := by
    iintro ⟨Ha, HO, -, -⟩
    imodintro
    isplitl [Ha]; · iexact Ha
    iapply (owes_exit 1 VV 0 c); iexact HO

/-! ## The region inside the SparseCore program -/

theorem arrays0_eq (VV : (c : Dev nD) → (b : Ref sig .tc) → Buf (Elt F) ((c : Thread nD τ).loc b)) (d : Dev nD) :
    ((rdatsOf 1 VV 0 d).arrays (rdatsOf 1 VV 0 d).A : sProp 𝕄)
      = iprop((aS d ↦{fullShare} VV d main_v3_0) ∗ (aC d ↦{fullShare} VV d main_v3_1) ∗ (a40 d ↦{fullShare} VV d main_v4_0) ∗ (a41 d ↦{fullShare} VV d main_v4_1)) := by
  rw [Pipeline.RDat.arrays_eq (pcfgs (F := F)) adm (rdatsOf 1 VV) 0 d arr_whole1 ((rdatsOf 1 VV 0 d).share_full fun _ => rfl), bigSep_W1]
  rfl

theorem win1_pts (VV : (c : Dev nD) → (b : Ref sig .tc) → Buf (Elt F) ((c : Thread nD τ).loc b)) (d : Dev nD) (w : Fin 4)
    (Fw : Buf (Elt F) (((Pipeline.pin (pcfgs (F := F)) adm 0).win w).arr.view.loc (d : Thread nD τ))) :
    ((((Pipeline.pin (pcfgs (F := F)) adm 0).win w).arr.view.loc (d : Thread nD τ)) ↦[((Pipeline.pin (pcfgs (F := F)) adm 0).win w).arr.view.set]{(rdatsOf 1 VV 0 d).share w} Fw : sProp 𝕄)
      = (((d : Thread nD τ).loc (Pipeline.arrRef spec1 w)) ↦{fullShare} Fw) := by
  rw [(show (((Pipeline.pin (pcfgs (F := F)) adm 0).win w).arr).IsWhole from arr_whole1 w).set_eq_univ, (rdatsOf 1 VV 0 d).share_full (fun _ => rfl) w]
  rfl

/-- What the region leaves: the two inputs as entered, the two outputs at some contents. -/
theorem arraysAt0_elim (VV : (c : Dev nD) → (b : Ref sig .tc) → Buf (Elt F) ((c : Thread nD τ).loc b)) (d : Dev nD) :
    ((rdatsOf 1 VV 0 d).arraysAt cfg1.N : sProp 𝕄)
      ⊢ iprop((aS d ↦{fullShare} VV d main_v3_0) ∗ (aC d ↦{fullShare} VV d main_v3_1)
          ∗ (∃ g : Buf (Elt F) (a40 d), a40 d ↦{fullShare} g) ∗ ∃ g : Buf (Elt F) (a41 d), a41 d ↦{fullShare} g) := by
  unfold Pipeline.RDat.arraysAt
  rw [bigSep_W1]
  iintro ⟨⟨%F0, %h0, H0⟩, ⟨%F1, %h1, H1⟩, ⟨%F2, -, H2⟩, ⟨%F3, -, H3⟩⟩
  rw [(rdatsOf 1 VV 0 d).ArrAt_in 0 rfl] at h0
  rw [(rdatsOf 1 VV 0 d).ArrAt_in 1 rfl] at h1
  subst h0 h1
  isplitl [H0]; · iapply (Entails.of_eq (win1_pts VV d 0 _)); iexact H0
  isplitl [H1]; · iapply (Entails.of_eq (win1_pts VV d 1 _)); iexact H1
  isplitl [H2]; · iexists F2; iapply (Entails.of_eq (win1_pts VV d 2 _)); iexact H2
  iexists F3; iapply (Entails.of_eq (win1_pts VV d 3 _)); iexact H3

variable (m : (ℓ : Loc nD τ sig) → Buf (Elt F) ℓ)

/-- Device `d`'s TensorCore arrays with the first combining call's four at named contents. -/
def Vd0 (d : Dev nD) (fS : Buf (Elt F) (aS d)) (fC : Buf (Elt F) (aC d)) (g40 : Buf (Elt F) (a40 d)) (g41 : Buf (Elt F) (a41 d)) :
    (b : Ref sig .tc) → Buf (Elt F) ((d : Thread nD τ).loc b) :=
  Function.update (Function.update (Function.update (Function.update (fun b => m ((d : Thread nD τ).loc b)) main_v3_0 fS) main_v3_1 fC) main_v4_0 g40) main_v4_1 g41

theorem Vd0_v30 (d : Dev nD) (fS : Buf (Elt F) (aS d)) (fC : Buf (Elt F) (aC d)) (g40 : Buf (Elt F) (a40 d)) (g41 : Buf (Elt F) (a41 d)) :
    Vd0 m d fS fC g40 g41 main_v3_0 = fS := by
  unfold Vd0; rw [Function.update_of_ne (by decide), Function.update_of_ne (by decide), Function.update_of_ne (by decide), Function.update_self]
theorem Vd0_v31 (d : Dev nD) (fS : Buf (Elt F) (aS d)) (fC : Buf (Elt F) (aC d)) (g40 : Buf (Elt F) (a40 d)) (g41 : Buf (Elt F) (a41 d)) :
    Vd0 m d fS fC g40 g41 main_v3_1 = fC := by
  unfold Vd0; rw [Function.update_of_ne (by decide), Function.update_of_ne (by decide), Function.update_self]
theorem Vd0_v40 (d : Dev nD) (fS : Buf (Elt F) (aS d)) (fC : Buf (Elt F) (aC d)) (g40 : Buf (Elt F) (a40 d)) (g41 : Buf (Elt F) (a41 d)) :
    Vd0 m d fS fC g40 g41 main_v4_0 = g40 := by
  unfold Vd0; rw [Function.update_of_ne (by decide), Function.update_self]
theorem Vd0_v41 (d : Dev nD) (fS : Buf (Elt F) (aS d)) (fC : Buf (Elt F) (aC d)) (g40 : Buf (Elt F) (a40 d)) (g41 : Buf (Elt F) (a41 d)) :
    Vd0 m d fS fC g40 g41 main_v4_1 = g41 := by
  unfold Vd0; rw [Function.update_self]

/-- The same on every device (the launch contents elsewhere). -/
def VV0 (d : Dev nD) (fS : Buf (Elt F) (aS d)) (fC : Buf (Elt F) (aC d)) (g40 : Buf (Elt F) (a40 d)) (g41 : Buf (Elt F) (a41 d)) :
    (c : Dev nD) → (b : Ref sig .tc) → Buf (Elt F) ((c : Thread nD τ).loc b) :=
  Function.update (fun c b => m ((c : Thread nD τ).loc b)) d (Vd0 m d fS fC g40 g41)

theorem VV0_d (d : Dev nD) (fS : Buf (Elt F) (aS d)) (fC : Buf (Elt F) (aC d)) (g40 : Buf (Elt F) (a40 d)) (g41 : Buf (Elt F) (a41 d)) :
    VV0 m d fS fC g40 g41 d = Vd0 m d fS fC g40 g41 := Function.update_self _ _ _

theorem ptsS0 (d : Dev nD) (fS : Buf (Elt F) (aS d)) (fC : Buf (Elt F) (aC d)) (g40 : Buf (Elt F) (a40 d)) (g41 : Buf (Elt F) (a41 d)) :
    (aS d ↦{fullShare} VV0 m d fS fC g40 g41 d main_v3_0 : sProp 𝕄) = (aS d ↦{fullShare} fS) := by rw [VV0_d, Vd0_v30]
theorem ptsC0 (d : Dev nD) (fS : Buf (Elt F) (aS d)) (fC : Buf (Elt F) (aC d)) (g40 : Buf (Elt F) (a40 d)) (g41 : Buf (Elt F) (a41 d)) :
    (aC d ↦{fullShare} VV0 m d fS fC g40 g41 d main_v3_1 : sProp 𝕄) = (aC d ↦{fullShare} fC) := by rw [VV0_d, Vd0_v31]
theorem pts400 (d : Dev nD) (fS : Buf (Elt F) (aS d)) (fC : Buf (Elt F) (aC d)) (g40 : Buf (Elt F) (a40 d)) (g41 : Buf (Elt F) (a41 d)) :
    (a40 d ↦{fullShare} VV0 m d fS fC g40 g41 d main_v4_0 : sProp 𝕄) = (a40 d ↦{fullShare} g40) := by rw [VV0_d, Vd0_v40]
theorem pts410 (d : Dev nD) (fS : Buf (Elt F) (aS d)) (fC : Buf (Elt F) (aC d)) (g40 : Buf (Elt F) (a40 d)) (g41 : Buf (Elt F) (a41 d)) :
    (a41 d ↦{fullShare} VV0 m d fS fC g40 g41 d main_v4_1 : sProp 𝕄) = (a41 d ↦{fullShare} g41) := by rw [VV0_d, Vd0_v41]

set_option backward.isDefEq.respectTransparency.types false in
/-- The first combining pallas_call, inside the SparseCore program. -/
theorem reg0 (m : (ℓ : Loc nD τ sig) → Buf (Elt F) ℓ) : Reg0 (F := F) := by
  intro d fS fC Φ
  iintro ⟨#Hlev, Hb, HS, HC, ⟨%g40, H40⟩, ⟨%g41, H41⟩, ⟨HGc, HGt⟩, HO, Hk⟩
  iapply ((K (F := F)).wp_liftProg (D (F := F)) 𝒱 (SparseCore.T d) Set.univ none (Prog.lift (TpuEff.customCall (Pipeline.entry 0) ())) Φ)
  iapply (Pipeline.RDat.RegionSeg.wp (pcfgs (F := F)) adm (rdatsOf 1 (VV0 m d fS fC g40 g41)) (none : HIx 2) cellOf_inj (EP (F := F)) defs₀ 𝒱₀
    (K (F := F)).L (K (F := F)).lev (reg0Seg (VV0 m d fS fC g40 g41)) d none (fun u hu => nomatch hu) (fun _ => Prog.ret PUnit.unit) Φ)
  isplitl [Hk]
  · iintro ⟨Hb, Hpost⟩
    rw [wp_ret]; imodintro
    ihave Hp := (Entails.of_eq (show (reg0Seg (VV0 m d fS fC g40 g41)).post d
        = iprop((rdatsOf 1 (VV0 m d fS fC g40 g41) 0 d).arraysAt cfg1.N ∗ owesPart (F := F) d 1) from rfl)) $$ Hpost
    icases Hp with ⟨Ha, HO⟩
    ihave Ha' := (arraysAt0_elim (VV0 m d fS fC g40 g41) d) $$ Ha
    icases Ha' with ⟨HS, HC, H40, H41⟩
    iapply Hk
    isplitl [Hb]; · iexact Hb
    isplitl [HS]; · iapply (Entails.of_eq (ptsS0 m d fS fC g40 g41)); iexact HS
    isplitl [HC]; · iapply (Entails.of_eq (ptsC0 m d fS fC g40 g41)); iexact HC
    isplitl [H40]; · iexact H40
    isplitl [H41]; · iexact H41
    iexact HO
  isplitl [Hb]; · iexact Hb
  isplitl [HS HC H40 H41 HO]
  · iapply (Entails.of_eq (show (reg0Seg (VV0 m d fS fC g40 g41)).pre d
        = iprop((rdatsOf 1 (VV0 m d fS fC g40 g41) 0 d).arrays (rdatsOf 1 (VV0 m d fS fC g40 g41) 0 d).A ∗ owesPart (F := F) d 1) from rfl).symm)
    isplitl [HS HC H40 H41]
    · iapply (Entails.of_eq (arrays0_eq (VV0 m d fS fC g40 g41) d).symm)
      isplitl [HS]; · iapply (Entails.of_eq (ptsS0 m d fS fC g40 g41).symm); iexact HS
      isplitl [HC]; · iapply (Entails.of_eq (ptsC0 m d fS fC g40 g41).symm); iexact HC
      isplitl [H40]; · iapply (Entails.of_eq (pts400 m d fS fC g40 g41).symm); iexact H40
      iapply (Entails.of_eq (pts410 m d fS fC g40 g41).symm); iexact H41
    iexact HO
  isplitl [Hlev]; · iexact Hlev
  isplitl [HGc]; · iexact HGc
  iexact HGt

end Cert.Proof.KB

end
-- ==== Proof.FrameB.lean ====
/-
  The printed kernel program's run, assembled: from the two tile obligations, every weakly fair execution of the
  device's threads terminates, nothing faulting, and the three arguments end unchanged.
-/
import proofs.«210783_g59777354826199_cont_9to1_m_168_18_alg».proof.Proof.Region0B

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

theorem run_frame [∀ e, Nonempty (Elt F e)] (m : (ℓ : Loc nD τ sig) → Buf (Elt F) ℓ) (ρ : Dev nD → PrngReg)
    (htile0 : (K (F := F)).TileObl (D (F := F)) 𝒱 (P (cE m) (cT m) (cK m)) v₀ 0)
    (htile1 : (K (F := F)).TileObl (D (F := F)) 𝒱 (P (cE m) (cT m) (cK m)) v₀ 1) :
    θ_run (Cert.Kernel.defs (F := F)) (Cert.Kernel.threads (F := F)) ⟨m, fun _ => 0, ρ⟩ (QC m) :=
  run_of m ρ (cE m) (cT m) (cK m) htile0 htile1 (hmain m ρ (reg0 m) (reg1 m))

end Cert.Proof.KB

end
-- ==== Proof.WrapB.lean ====
/-
  The tile obligations of the launch theorem from the two kernels' bodies proved at a symbolic tile: tile (c, s) is worker
  2·s + c; what the go signal hands it — its read shares of the flattened inputs and its rows of the partial-result
  arrays — is what the body is proved from, respelt as the tile addresses it.
-/
import proofs.«210783_g59777354826199_cont_9to1_m_168_18_alg».proof.Proof.FrameB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig (HIx 2) (Elt F) ℕ UU ℕ

/-! ## The first kernel's operands as a tile addresses them -/

abbrev cV0 (L : grid0.Coords) : Fin τ.nSC := (L 0).castLE hcore0
abbrev jV0 (L : grid0.Coords) : Fin τ.nSub := (L 1).castLE hsub0
abbrev thr0 (d : Dev nD) (L : grid0.Coords) : Thread nD τ := V d (cV0 L) (jV0 L)
abbrev eW0 : Memref sig .scVector .hbm S33554432 .f32 := Memref.whole main_v0_scv
abbrev tW0 : Memref sig .scVector .hbm S2097152 .i32 := Memref.whole main_v1_scv
abbrev kW0 : Memref sig .scVector .hbm S2097152 .i32 := Memref.whole main_v2_scv
abbrev o0W : Memref sig .scVector .hbm S32x16384 .f32 := Memref.whole main_v3_0_scv
abbrev o1W : Memref sig .scVector .hbm S32x1024 .f32 := Memref.whole main_v3_1_scv
abbrev rect0 (L : grid0.Coords) : Rect S32x16384 := Rect.unit (s := S32x16384) (k0_off145 L) S1x16384.size (k0_off145_inb L)
abbrev rect1 (L : grid0.Coords) : Rect S32x1024 := Rect.unit (s := S32x1024) (k0_off146 L) S1x1024.size (k0_off146_inb L)
abbrev o0Row (L : grid0.Coords) : Memref sig .scVector .hbm S16384 .f32 := ((o0W).slice (rect0 L) (fun _ => rfl)).squeeze S16384 squeezes_S1x16384_S16384
abbrev o1Row (L : grid0.Coords) : Memref sig .scVector .hbm S1024 .f32 := ((o1W).slice (rect1 L) (fun _ => rfl)).squeeze S1024 squeezes_S1x1024_S1024

/-- The worker of the tile at coordinates `L`. -/
def widL0 (L : grid0.Coords) : Fin 32 := ⟨2 * (L 1).val + (L 0).val, by have h0 : (L 0).val < 2 := (L 0).isLt; have h1 : (L 1).val < 16 := (L 1).isLt; omega⟩

omit [FloatOps F] in
theorem rect0_eq (L : grid0.Coords) : rect0 L = rowS (widL0 L) := by
  unfold rect0 rowS Rect.part Rect.block
  congr 1 <;> funext a
  · rw [k0_off145_eq]
    match a with
    | 0 => simp [Shape.partIx, Shape.partSize, widL0]
    | 1 => simp [Shape.partIx, Shape.partSize]
  · match a with
    | 0 => simp [Shape.partSize]
    | 1 => simp [Shape.partSize]
omit [FloatOps F] in
theorem rect1_eq (L : grid0.Coords) : rect1 L = rowC (widL0 L) := by
  unfold rect1 rowC Rect.part Rect.block
  congr 1 <;> funext a
  · rw [k0_off146_eq]
    match a with
    | 0 => simp [Shape.partIx, Shape.partSize, widL0]
    | 1 => simp [Shape.partIx, Shape.partSize]
  · match a with
    | 0 => simp [Shape.partSize]
    | 1 => simp [Shape.partSize]

omit [FloatOps F] in
theorem set_o0Row (L : grid0.Coords) : (o0Row L).view.set = (rowS (widL0 L)).set := by
  show (((o0W).view.slice (rect0 L)).reshape S16384 squeezes_S1x16384_S16384.numel_eq).set = _
  rw [View.set_reshape]
  show ((View.whole (main_v3_0_scv : Ref sig .scVector)).slice (rect0 L)).set = _
  rw [View.set_slice, rect0_eq]; exact Finset.map_refl
omit [FloatOps F] in
theorem set_o1Row (L : grid0.Coords) : (o1Row L).view.set = (rowC (widL0 L)).set := by
  show (((o1W).view.slice (rect1 L)).reshape S1024 squeezes_S1x1024_S1024.numel_eq).set = _
  rw [View.set_reshape]
  show ((View.whole (main_v3_1_scv : Ref sig .scVector)).slice (rect1 L)).set = _
  rw [View.set_slice, rect1_eq]; exact Finset.map_refl

/-- The first kernel's body, proved once at a symbolic tile: from read shares of the three inputs (the target ids in
    range) and the tile's rows of the two result arrays, its scoped storage and what it owes, back to the same, the rows
    at what the body left. -/
def Body0 : Prop := ∀ (d : Dev nD) (L : grid0.Coords) (q : PosShare TreeShare)
    (e : Buf (Elt F) ((eW0).view.loc (thr0 d L))) (t : Buf (Elt F) ((tW0).view.loc (thr0 d L))) (k : Buf (Elt F) ((kW0).view.loc (thr0 d L)))
    (_ : ∀ j, (t j).toNat ≤ 63)
    (O : CellTallies nD τ sig (HIx 2)) (W : Waits sig (HIx 2)) (_ : ∀ g, O g none = 0),
    iprop(levAts (K (F := F)).L (K (F := F)).lev
        ∗ (((eW0).view.loc (thr0 d L) ↦{q} e) ∗ ((tW0).view.loc (thr0 d L) ↦{q} t) ∗ ((kW0).view.loc (thr0 d L) ↦{q} k)
          ∗ (∃ f, (o0Row L).view.loc (thr0 d L) ↦[(o0Row L).view.set]{fullShare} f)
          ∗ (∃ f, (o1Row L).view.loc (thr0 d L) ↦[(o1Row L).view.set]{fullShare} f))
        ∗ scopedBufs (thr0 d L) ∗ scopedSems0 (thr0 d L) ∗ owes (thr0 d L) O W : sProp 𝕄)
      ⊢ wp frame (wpE (defs₀ (F := F)) 𝒱₀ (thr0 d L) none) Set.univ
          (cc0__sc_pass1 L eW0 (Memref.isWhole_whole _) tW0 (Memref.isWhole_whole _) kW0 (Memref.isWhole_whole _)
            o0W (Memref.isWhole_whole _) o1W (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6 cc0_scoped0 cc0_scoped1)
          fun _ => iprop((((eW0).view.loc (thr0 d L) ↦{q} e) ∗ ((tW0).view.loc (thr0 d L) ↦{q} t) ∗ ((kW0).view.loc (thr0 d L) ↦{q} k)
          ∗ (∃ f, (o0Row L).view.loc (thr0 d L) ↦[(o0Row L).view.set]{fullShare} f)
          ∗ (∃ f, (o1Row L).view.loc (thr0 d L) ↦[(o1Row L).view.set]{fullShare} f))
            ∗ scopedBufs (thr0 d L) ∗ scopedSems0 (thr0 d L) ∗ ∃ W', ⌜∀ p ∈ W', p ∈ W ∨ p.2 = none⌝ ∗ owes (thr0 d L) O W')

def coordsV0 (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0__sc_pass1 (coordsV0 c s)
          eW0 (Memref.isWhole_whole _) tW0 (Memref.isWhole_whole _) kW0 (Memref.isWhole_whole _) o0W (Memref.isWhole_whole _) o1W (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _)
          cc0_scratch5 cc0_scratch6 cc0_scoped0 cc0_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem regroup5 (A B C D E : sProp 𝕄) : iprop((A ∗ B ∗ C) ∗ D ∗ E) = iprop(A ∗ B ∗ C ∗ D ∗ E) := by
  refine Entails.antisymm (show iprop((A ∗ B ∗ C) ∗ D ∗ E) ⊢ iprop(A ∗ B ∗ C ∗ D ∗ E) from ?_) (show iprop(A ∗ B ∗ C ∗ D ∗ E) ⊢ iprop((A ∗ B ∗ C) ∗ D ∗ E) from ?_)
  · iintro ⟨⟨H1, H2, H3⟩, H4, H5⟩
    isplitl [H1]; · iexact H1
    isplitl [H2]; · iexact H2
    isplitl [H3]; · iexact H3
    isplitl [H4]; · iexact H4
    iexact H5
  · iintro ⟨H1, H2, H3, H4, H5⟩
    isplitl [H1 H2 H3]
    · isplitl [H1]; · iexact H1
      isplitl [H2]; · iexact H2
      iexact H3
    isplitl [H4]; · iexact H4
    iexact H5

variable (cE : (d : Dev nD) → Buf (Elt F) (aE d)) (cT : (d : Dev nD) → Buf (Elt F) (aT d)) (cK : (d : Dev nD) → Buf (Elt F) (aK d))

/-- A worker's operands of the first call, as its tile addresses them. -/
theorem task0_tile (d : Dev nD) (L : grid0.Coords) :
    (task0 cE cT cK d (widL0 L) : sProp 𝕄)
      = iprop(((eW0).view.loc (thr0 d L) ↦{shareTok fullShare 32 (widL0 L)} cE d) ∗ ((tW0).view.loc (thr0 d L) ↦{shareTok fullShare 32 (widL0 L)} cT d)
          ∗ ((kW0).view.loc (thr0 d L) ↦{shareTok fullShare 32 (widL0 L)} cK d)
          ∗ (∃ f, (o0Row L).view.loc (thr0 d L) ↦[(o0Row L).view.set]{fullShare} f)
          ∗ (∃ f, (o1Row L).view.loc (thr0 d L) ↦[(o1Row L).view.set]{fullShare} f)) := by
  unfold task0 inToks
  rw [set_o0Row, set_o1Row]
  exact regroup5 _ _ _ _ _

omit [FloatOps F] in
theorem drop2 (A X B C D E : sProp 𝕄) : iprop(A ∗ X ∗ B ∗ C ∗ D ∗ E) ⊢ iprop(A ∗ B ∗ C ∗ D ∗ E) := by
  iintro ⟨H1, -, H3, H4, H5, H6⟩
  isplitl [H1]; · iexact H1
  isplitl [H3]; · iexact H3
  isplitl [H4]; · iexact H4
  isplitl [H5]; · iexact H5
  iexact H6

/-- The launch theorem's obligation at the first call. -/
theorem tileObl0 (hb : Body0 (F := F)) (hR : ∀ (d : Dev nD) j, (cT d j).toNat ≤ 63) :
    (K (F := F)).TileObl (D (F := F)) 𝒱 (P cE cT cK) v₀ 0 := by
  intro d c i O W hO _ _
  simp only [show (P cE cT cK).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  have hw : wid c.val i.val c.isLt i.isLt = widL0 (coordsV0 ⟨_, hc.1⟩ ⟨_, hc.2⟩) :=
    Fin.ext (by show i.val * 2 + c.val = 2 * i.val + c.val; omega)
  show iprop(_ ∗ _ ∗ task0 cE cT cK d (wid c.val i.val c.isLt i.isLt) ∗ _) ⊢ wp _ _ _ _ (fun _ => iprop(task0 cE cT cK d (wid c.val i.val c.isLt i.isLt) ∗ _))
  rw [hw, task0_tile]
  refine BI.Entails.trans ?_ ((hb d (coordsV0 ⟨_, hc.1⟩ ⟨_, hc.2⟩) _ (cE d) (cT d) (cK d) (hR d) O W hO).trans (wp_mono frame _ _ fun _ => obl_post))
  exact drop2 _ _ _ _ _ _

/-! ## The second kernel's operands as a tile addresses them -/

abbrev cV2 (L : grid2.Coords) : Fin τ.nSC := (L 0).castLE hcore2
abbrev jV2 (L : grid2.Coords) : Fin τ.nSub := (L 1).castLE hsub2
abbrev thr2 (d : Dev nD) (L : grid2.Coords) : Thread nD τ := V d (cV2 L) (jV2 L)
abbrev mW2 : Memref sig .scVector .hbm S16384 .f32 := Memref.whole main_v5_scv
abbrev oW2 : Memref sig .scVector .hbm S32x1024 .f32 := Memref.whole main_v6_scv
abbrev rect2 (L : grid2.Coords) : Rect S32x1024 := Rect.unit (s := S32x1024) (k2_off76 L) S1x1024.size (k2_off76_inb L)
abbrev oRow2 (L : grid2.Coords) : Memref sig .scVector .hbm S1024 .f32 := ((oW2).slice (rect2 L) (fun _ => rfl)).squeeze S1024 squeezes_S1x1024_S1024

def widL2 (L : grid2.Coords) : Fin 32 := ⟨2 * (L 1).val + (L 0).val, by have h0 : (L 0).val < 2 := (L 0).isLt; have h1 : (L 1).val < 16 := (L 1).isLt; omega⟩

omit [FloatOps F] in
theorem rect2_eq (L : grid2.Coords) : rect2 L = rowC (widL2 L) := by
  unfold rect2 rowC Rect.part Rect.block
  congr 1 <;> funext a
  · rw [k2_off76_eq]
    match a with
    | 0 => simp [Shape.partIx, Shape.partSize, widL2]
    | 1 => simp [Shape.partIx, Shape.partSize]
  · match a with
    | 0 => simp [Shape.partSize]
    | 1 => simp [Shape.partSize]

omit [FloatOps F] in
theorem set_oRow2 (L : grid2.Coords) : (oRow2 L).view.set = (rowC (widL2 L)).set := by
  show (((oW2).view.slice (rect2 L)).reshape S1024 squeezes_S1x1024_S1024.numel_eq).set = _
  rw [View.set_reshape]
  show ((View.whole (main_v6_scv : Ref sig .scVector)).slice (rect2 L)).set = _
  rw [View.set_slice, rect2_eq]; exact Finset.map_refl

/-- The second kernel's body, proved once at a symbolic tile. -/
def Body1 : Prop := ∀ (d : Dev nD) (L : grid2.Coords) (q : PosShare TreeShare)
    (e : Buf (Elt F) ((eW0).view.loc (thr2 d L))) (t : Buf (Elt F) ((tW0).view.loc (thr2 d L))) (k : Buf (Elt F) ((kW0).view.loc (thr2 d L)))
    (mt : Buf (Elt F) ((mW2).view.loc (thr2 d L))) (o : Buf (Elt F) ((oRow2 L).view.loc (thr2 d L)))
    (_ : ∀ j, (t j : BitVec 32).toNat ≤ 63)
    (O : CellTallies nD τ sig (HIx 2)) (W : Waits sig (HIx 2)) (_ : ∀ g, O g none = 0),
    (iprop(levAts (K (F := F)).L (K (F := F)).lev
        ∗ (((eW0).view.loc (thr2 d L) ↦{q} e) ∗ ((tW0).view.loc (thr2 d L) ↦{q} t) ∗ ((kW0).view.loc (thr2 d L) ↦{q} k)
            ∗ ((mW2).view.loc (thr2 d L) ↦{q} mt) ∗ ((oRow2 L).view.loc (thr2 d L) ↦[(oRow2 L).view.set]{fullShare} o))
        ∗ scopedBufs (thr2 d L) ∗ scopedSems0 (thr2 d L) ∗ owes (thr2 d L) O W) : sProp 𝕄)
      ⊢ wp frame (wpE (defs₀ (F := F)) 𝒱₀ (thr2 d L) none) Set.univ
          (cc2__sc_pass2 L eW0 (Memref.isWhole_whole _) tW0 (Memref.isWhole_whole _) kW0 (Memref.isWhole_whole _)
            mW2 (Memref.isWhole_whole _) oW2 (Memref.isWhole_whole _) (Memref.whole cc2_scratch0) (Memref.isWhole_whole _) (Memref.whole cc2_scratch1) (Memref.isWhole_whole _)
            (Memref.whole cc2_scratch2) (Memref.isWhole_whole _) (Memref.whole cc2_scratch3) (Memref.isWhole_whole _) (Memref.whole cc2_scratch4) (Memref.isWhole_whole _)
            cc2_scratch5 cc2_scratch6 cc2_scoped0 cc2_scoped1)
          fun _ => iprop((((eW0).view.loc (thr2 d L) ↦{q} e) ∗ ((tW0).view.loc (thr2 d L) ↦{q} t) ∗ ((kW0).view.loc (thr2 d L) ↦{q} k)
            ∗ ((mW2).view.loc (thr2 d L) ↦{q} mt) ∗ ∃ o', ((oRow2 L).view.loc (thr2 d L) ↦[(oRow2 L).view.set]{fullShare} o'))
            ∗ scopedBufs (thr2 d L) ∗ scopedSems0 (thr2 d L)
            ∗ ∃ W', ⌜∀ p ∈ W', p ∈ W ∨ p.2 = none⌝ ∗ owes (thr2 d L) O W')

def coordsV2 (c : Fin (grid2.bound 0)) (s : Fin (grid2.bound 1)) : grid2.Coords :=
  fun | 0 => c | 1 => s | ⟨_ + 2, h⟩ => absurd h (Nat.not_lt.2 (Nat.le_add_left _ _))

theorem defs₀_vector2 (c : Fin τ.nSC) (s : Fin τ.nSub) :
    defs₀ (F := F) (.scVector c s) 2 ()
      = SparseCore.onTile hcore2 hsub2 (fun c s => cc2__sc_pass2 (coordsV2 c s)
          eW0 (Memref.isWhole_whole _) tW0 (Memref.isWhole_whole _) kW0 (Memref.isWhole_whole _) mW2 (Memref.isWhole_whole _) oW2 (Memref.isWhole_whole _)
          (Memref.whole cc2_scratch0) (Memref.isWhole_whole _) (Memref.whole cc2_scratch1) (Memref.isWhole_whole _)
          (Memref.whole cc2_scratch2) (Memref.isWhole_whole _) (Memref.whole cc2_scratch3) (Memref.isWhole_whole _) (Memref.whole cc2_scratch4) (Memref.isWhole_whole _)
          cc2_scratch5 cc2_scratch6 cc2_scoped0 cc2_scoped1) ⟨⟩ c s := rfl

/-- A worker's operands of the second call, as its tile addresses them. -/
theorem task1_tile (d : Dev nD) (L : grid2.Coords) :
    (task1 cE cT cK d (widL2 L) : sProp 𝕄)
      = iprop(((eW0).view.loc (thr2 d L) ↦{shareTok fullShare 32 (widL2 L)} cE d) ∗ ((tW0).view.loc (thr2 d L) ↦{shareTok fullShare 32 (widL2 L)} cT d)
          ∗ ((kW0).view.loc (thr2 d L) ↦{shareTok fullShare 32 (widL2 L)} cK d)
          ∗ (∃ mt : Buf (Elt F) (aM d), (mW2).view.loc (thr2 d L) ↦{shareTok fullShare 32 (widL2 L)} mt)
          ∗ (∃ f, (oRow2 L).view.loc (thr2 d L) ↦[(oRow2 L).view.set]{fullShare} f)) := by
  unfold task1 inToks
  rw [set_oRow2]
  exact regroup5 _ _ _ _ _

/-- The second body from a worker's operands, the pieces at some contents named. -/
theorem body1_task (hb : Body1 (F := F)) (hR : ∀ (d : Dev nD) j, (cT d j).toNat ≤ 63) (d : Dev nD) (L : grid2.Coords) (X : sProp 𝕄)
    (O : CellTallies nD τ sig (HIx 2)) (W : Waits sig (HIx 2)) (hO : ∀ g, O g none = 0) :
    iprop(levAts (K (F := F)).L (K (F := F)).lev ∗ X ∗ task1 cE cT cK d (widL2 L) ∗ scopedBufs (thr2 d L) ∗ scopedSems0 (thr2 d L) ∗ owes (thr2 d L) O W)
      ⊢ wp frame (wpE (defs₀ (F := F)) 𝒱₀ (thr2 d L) none) Set.univ
          (cc2__sc_pass2 L eW0 (Memref.isWhole_whole _) tW0 (Memref.isWhole_whole _) kW0 (Memref.isWhole_whole _)
            mW2 (Memref.isWhole_whole _) oW2 (Memref.isWhole_whole _) (Memref.whole cc2_scratch0) (Memref.isWhole_whole _) (Memref.whole cc2_scratch1) (Memref.isWhole_whole _)
            (Memref.whole cc2_scratch2) (Memref.isWhole_whole _) (Memref.whole cc2_scratch3) (Memref.isWhole_whole _) (Memref.whole cc2_scratch4) (Memref.isWhole_whole _)
            cc2_scratch5 cc2_scratch6 cc2_scoped0 cc2_scoped1)
          fun _ => iprop(task1 cE cT cK d (widL2 L) ∗ scopedBufs (thr2 d L) ∗ scopedSems0 (thr2 d L)
            ∗ ∃ W', ⌜∀ p ∈ W', p ∈ W ∨ p.2 = none ∨ p.2 = some (1 : Fin 2)⌝ ∗ owes (thr2 d L) O W') := by
  rw [task1_tile]
  iintro ⟨Hl, -, ⟨H1, H2, H3, ⟨%mt, HM⟩, ⟨%o, Ho⟩⟩, Hsb, Hss, HO⟩
  iapply ((hb d L _ (cE d) (cT d) (cK d) mt o (hR d) O W hO).trans (wp_mono frame _ _ fun _ =>
    (show iprop((((eW0).view.loc (thr2 d L) ↦{shareTok fullShare 32 (widL2 L)} cE d) ∗ ((tW0).view.loc (thr2 d L) ↦{shareTok fullShare 32 (widL2 L)} cT d)
          ∗ ((kW0).view.loc (thr2 d L) ↦{shareTok fullShare 32 (widL2 L)} cK d)
          ∗ ((mW2).view.loc (thr2 d L) ↦{shareTok fullShare 32 (widL2 L)} mt) ∗ ∃ o', ((oRow2 L).view.loc (thr2 d L) ↦[(oRow2 L).view.set]{fullShare} o'))
          ∗ scopedBufs (thr2 d L) ∗ scopedSems0 (thr2 d L) ∗ ∃ W', ⌜∀ p ∈ W', p ∈ W ∨ p.2 = none⌝ ∗ owes (thr2 d L) O W')
        ⊢ iprop((((eW0).view.loc (thr2 d L) ↦{shareTok fullShare 32 (widL2 L)} cE d) ∗ ((tW0).view.loc (thr2 d L) ↦{shareTok fullShare 32 (widL2 L)} cT d)
          ∗ ((kW0).view.loc (thr2 d L) ↦{shareTok fullShare 32 (widL2 L)} cK d)
          ∗ (∃ mt : Buf (Elt F) (aM d), (mW2).view.loc (thr2 d L) ↦{shareTok fullShare 32 (widL2 L)} mt)
          ∗ (∃ f, (oRow2 L).view.loc (thr2 d L) ↦[(oRow2 L).view.set]{fullShare} f))
          ∗ scopedBufs (thr2 d L) ∗ scopedSems0 (thr2 d L) ∗ ∃ W', ⌜∀ p ∈ W', p ∈ W ∨ p.2 = none ∨ p.2 = some (1 : Fin 2)⌝ ∗ owes (thr2 d L) O W') from by
      iintro ⟨⟨G1, G2, G3, G4, G5⟩, Gb, Gs, %W', %hW', GO⟩
      isplitl [G1 G2 G3 G4 G5]
      · isplitl [G1]; · iexact G1
        isplitl [G2]; · iexact G2
        isplitl [G3]; · iexact G3
        isplitl [G4]; · iexists mt; iexact G4
        iexact G5
      isplitl [Gb]; · iexact Gb
      isplitl [Gs]; · iexact Gs
      iexists W'; isplitr
      · ipureintro; exact fun p hp => (hW' p hp).imp_right Or.inl
      · iexact GO)))
  isplitl [Hl]; · iexact Hl
  isplitl [H1 H2 H3 HM Ho]
  · isplitl [H1]; · iexact H1
    isplitl [H2]; · iexact H2
    isplitl [H3]; · iexact H3
    isplitl [HM]; · iexact HM
    iexact Ho
  isplitl [Hsb]; · iexact Hsb
  isplitl [Hss]; · iexact Hss
  iexact HO

/-- The launch theorem's obligation at the second call. -/
theorem tileObl1 (hb : Body1 (F := F)) (hR : ∀ (d : Dev nD) j, (cT d j).toNat ≤ 63) :
    (K (F := F)).TileObl (D (F := F)) 𝒱 (P cE cT cK) v₀ 1 := by
  intro d c i O W hO _ _
  simp only [show (P cE cT cK).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  have hw : wid c.val i.val c.isLt i.isLt = widL2 (coordsV2 ⟨_, hc.1⟩ ⟨_, hc.2⟩) :=
    Fin.ext (by show i.val * 2 + c.val = 2 * i.val + c.val; omega)
  show iprop(_ ∗ _ ∗ task1 cE cT cK d (wid c.val i.val c.isLt i.isLt) ∗ _) ⊢ wp _ _ _ _ (fun _ => iprop(task1 cE cT cK d (wid c.val i.val c.isLt i.isLt) ∗ _))
  rw [hw]
  exact body1_task cE cT cK hb hR d (coordsV2 ⟨_, hc.1⟩ ⟨_, hc.2⟩) _ O W hO

end Cert.Proof.KB

end
-- ==== Proof.PreB.lean ====
/-
  What the precondition says of the flattened target ids: every one, a signed word in [0, 63], reads below 64 unsigned —
  so every address the tiles' bodies compute from them names an element of the accumulators.
-/
import proofs.«210783_g59777354826199_cont_9to1_m_168_18_alg».proof.Proof.WrapB
import proofs.«210783_g59777354826199_cont_9to1_m_168_18_alg».proof.Proof.Gen.Pre_input_domain
import Idealize.ShloMosaic.Lib.ReduceAll

noncomputable section

namespace Cert.Proof.KB

open Cert.Kernel Cert.Kernel.Gen
open Idealize.ShloMosaic Idealize.SL.Sem

variable {F : FTy → Type} [FloatOps F]

instance : Subsingleton Cert.Pre_input_domain.S_.Idx := ⟨fun a b => funext fun d => d.elim0⟩

/-- A signed word in [0, 63] reads at most 63 unsigned. -/
theorem key63 (v : BitVec 32) (e : IntOp.andi (IntOp.cmpi .sge v 0#32) (IntOp.cmpi .sle v 63#32) = 1#1) : v.toNat ≤ 63 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem trgt_le_63 [hf : Cert.Pre_input_domain.Facts] (a0 : FVec F Cert.Pre_input_domain.S1x16x32x256x256 .f32) (a1 a2 : IVec Cert.Pre_input_domain.S1x1x32x256x256 32)
    (h : Cert.Pre_input_domain.fn (F := F) a0 a1 a2 = fun _ => 1#1) (i : Cert.Pre_input_domain.S1x1x32x256x256.Idx) : (a1 i).toNat ≤ 63 := by
  have e := congrFun h (fun a => a.elim0)
  dsimp only [Cert.Pre_input_domain.fn, Cert.Pre_input_domain.fn_part1] at e
  have e9 := (IntOp.andi_eq_one.mp (IntOp.andi_eq_one.mp e).1).2
  have e8 := Host.reduce_andi_all _ _ _ _ _ e9 i
  simp only [andi, cmpi, broadcastInDim, constantI] at e8
  exact key63 _ e8

variable (m : (ℓ : Loc nD τ sig) → Buf (Elt F) ℓ)

/-- The flattened target ids are the argument's words, re-indexed. -/
theorem cT_eq (d : Dev nD) : cT m d = shapeCast (main_v1 : Ref sig .tc).ty.shape (m (xLoc1 d)) shapeCasts_S1x1x32x256x256_S2097152 := by
  show (op2 (F := F)).result ((op1 (F := F)).result ((op0 (F := F)).result (V0 m d))) (r main_v1) = _
  rw [(op2 (F := F)).result_of_not_mem _ (show r main_v1 ∉ ({r main_v2} : Finset (DevRef τ sig)) by decide)]
  show (StableHlo.reshape main_arg1 main_v1 rfl shapeCasts_S1x1x32x256x256_S2097152 : HloOp τ sig (Elt F)).result _ (Proc.devRef .tc (main_v1 : Ref sig .tc)) = _
  rw [StableHlo.reshape_result, (op0 (F := F)).result_of_not_mem _ (show r main_arg1 ∉ ({r main_v0} : Finset (DevRef τ sig)) by decide)]
  rfl

/-- Under the precondition every flattened target id reads at most 63. -/
theorem cT_range [hf : Cert.Pre_input_domain.Facts]
    (hpre : ∀ c : Dev nD, Cert.Pre_input_domain.fn (F := F) (m (xLoc0 c)) (m (xLoc1 c)) (m (xLoc2 c)) = fun _ => 1#1)
    (d : Dev nD) (j) : (cT m d j).toNat ≤ 63 := by
  rw [cT_eq]
  exact trgt_le_63 (F := F) _ _ _ (hpre d) _

/-! ## The program's run under the precondition, from the two kernels' bodies -/

theorem run_of_bodies [∀ e, Nonempty (Elt F e)] [hf : Cert.Pre_input_domain.Facts] (hb0 : Body0 (F := F)) (hb1 : Body1 (F := F)) (ρ : Dev nD → PrngReg)
    (hpre : ∀ c : Dev nD, Cert.Pre_input_domain.fn (F := F) (m (xLoc0 c)) (m (xLoc1 c)) (m (xLoc2 c)) = fun _ => 1#1) :
    θ_run (Cert.Kernel.defs (F := F)) (Cert.Kernel.threads (F := F)) ⟨m, fun _ => 0, ρ⟩ (QC m) :=
  run_frame m ρ (tileObl0 (cE m) (cT m) (cK m) hb0 (cT_range m hpre)) (tileObl1 (cE m) (cT m) (cK m) hb1 (cT_range m hpre))

end Cert.Proof.KB

end
-- ==== Proof.Frames.lean ====
/-
  The two kernel programs' frames from their tiles' bodies: under the precondition every weakly fair execution of the
  device's threads terminates, nothing faulting, and the three arguments end unchanged — the program as printed at the
  word-level instance, its idealization at the extended reals.
-/
import proofs.«210783_g59777354826199_cont_9to1_m_168_18_alg».proof.Proof.PreI
import proofs.«210783_g59777354826199_cont_9to1_m_168_18_alg».proof.Proof.PreB

noncomputable section

namespace Cert.Proof

open Idealize.ShloMosaic Idealize.SL.Sem

theorem frame_pi_of (hb0 : KI.Body0 (F := Ideal)) (hb1 : KI.Body1 (F := Ideal)) :
    Cert.frame_KernelIdeal (hKernelIdeal := Cert.KernelIdeal.Gen.facts) (hPre_input_domain := Cert.Pre_input_domain.Gen.facts) :=
  fun m ρ hpre => (θ_run Cert.KernelIdeal.defs _ _).mono (fun _ h c => h c)
    (KI.run_of_bodies (F := Ideal) (hf := Cert.Pre_input_domain.Gen.facts) m hb0 hb1 ρ hpre)

theorem frame_p_of (hb0 : KB.Body0 (F := Bits)) (hb1 : KB.Body1 (F := Bits)) :
    Cert.frame_Kernel (hKernel := Cert.Kernel.Gen.facts) (hPre_input_domain := Cert.Pre_input_domain.Gen.facts) :=
  fun m ρ hpre => (θ_run Cert.Kernel.defs _ _).mono (fun _ h c => h c)
    (KB.run_of_bodies (F := Bits) (hf := Cert.Pre_input_domain.Gen.facts) m hb0 hb1 ρ hpre)

end Cert.Proof

end
-- ==== Proof.Pass1IA.lean ====
/-
  The first SparseCore call's body at one vector subcore: the thread, the operands as it names them, its own scratch
  buffers and semaphores named apart from the rest, the staging slots and the chunks they are filled from, and the
  eighteen deliveries of one chunk's batch of copies.
-/
import proofs.«210783_g59777354826199_cont_9to1_m_168_18_alg».proof.Proof.SetupI

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => 𝕄F F

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

abbrev eW : Memref sig .scVector .hbm S33554432 .f32 := Memref.whole main_v0_scv
abbrev tW : Memref sig .scVector .hbm S2097152 .i32 := Memref.whole main_v1_scv
abbrev kW : Memref sig .scVector .hbm S2097152 .i32 := Memref.whole main_v2_scv
abbrev o0W : Memref sig .scVector .hbm S32x16384 .f32 := Memref.whole main_v3_0_scv
abbrev o1W : Memref sig .scVector .hbm S32x1024 .f32 := Memref.whole main_v3_1_scv
abbrev xB : Memref sig .scVector .vmem S2x16x2048 .f32 := Memref.whole cc0_scratch0
abbrev tB : Memref sig .scVector .vmem S2x2048 .i32 := Memref.whole cc0_scratch1
abbrev mB : Memref sig .scVector .vmem S2x2048 .i32 := Memref.whole cc0_scratch2
abbrev aB : Memref sig .scVector .vmem S16384 .f32 := Memref.whole cc0_scratch3
abbrev cB : Memref sig .scVector .vmem S1024 .f32 := Memref.whole cc0_scratch4

/-- The row of the first result this tile writes, as the final copy slices it. -/
abbrev o0Row (L : grid0.Coords) : Memref sig .scVector .hbm S16384 .f32 :=
  ((o0W : Memref sig .scVector .hbm S32x16384 .f32).slice (Rect.unit (s := S32x16384) (k0_off145 L) S1x16384.size (k0_off145_inb L)) (fun _ => rfl)).squeeze S16384 squeezes_S1x16384_S16384
/-- The row of the second result this tile writes. -/
abbrev o1Row (L : grid0.Coords) : Memref sig .scVector .hbm S1024 .f32 :=
  ((o1W : Memref sig .scVector .hbm S32x1024 .f32).slice (Rect.unit (s := S32x1024) (k0_off146 L) S1x1024.size (k0_off146_inb L)) (fun _ => rfl)).squeeze S1024 squeezes_S1x1024_S1024

/-! ## The tile's own buffers and semaphores, the kernel's named apart -/

abbrev pV (L : grid0.Coords) : Proc τ := Proc.scVector (cV L) (jV L)

abbrev s0cell : GSem nD τ sig := (thr d L, .dma cc0_scratch5.sem)
abbrev s1cell : GSem nD τ sig := (thr d L, .dma cc0_scratch6.sem)
abbrev r0cell : GSem nD τ sig := (thr d L, .dma cc0_scoped0.sem)
abbrev r1cell : GSem nD τ sig := (thr d L, .dma cc0_scoped1.sem)

omit [FloatOps F] in
theorem ownSems0_V :
    (ownSems0 (thr d L) : sProp 𝕄)
      = iprop(semVal (s0cell d L) 0 ∗ semVal (s1cell d L) 0 ∗ semVal (r0cell d L) 0 ∗ semVal (r1cell d L) 0
          ∗ bigSep (((((ownCells (thr d L)).erase (s0cell d L)).erase (s1cell d L)).erase (r0cell d L)).erase (r1cell d L))
              fun g => semVal g 0) := by
  unfold SparseCore.Cfg.ownSems0
  rw [SparseCore.bigSep_erase' ((mem_ownCells (g := s0cell d L)).mpr ⟨rfl, by
      show (SemLoc.dma cc0_scratch5.sem : SemLoc sig).isScoped .scVector = true; decide⟩),
    SparseCore.bigSep_erase' (Finset.mem_erase.mpr ⟨by simp [s0cell, s1cell]; decide, (mem_ownCells (g := s1cell d L)).mpr ⟨rfl, by
      show (SemLoc.dma cc0_scratch6.sem : SemLoc sig).isScoped .scVector = true; decide⟩⟩),
    SparseCore.bigSep_erase' (Finset.mem_erase.mpr ⟨by simp [s1cell, r0cell]; decide, Finset.mem_erase.mpr ⟨by simp [s0cell, r0cell]; decide,
      (mem_ownCells (g := r0cell d L)).mpr ⟨rfl, by show (SemLoc.dma cc0_scoped0.sem : SemLoc sig).isScoped .scVector = true; decide⟩⟩⟩),
    SparseCore.bigSep_erase' (Finset.mem_erase.mpr ⟨by simp [r0cell, r1cell]; decide, Finset.mem_erase.mpr ⟨by simp [s1cell, r1cell]; decide,
      Finset.mem_erase.mpr ⟨by simp [s0cell, r1cell]; decide,
      (mem_ownCells (g := r1cell d L)).mpr ⟨rfl, by show (SemLoc.dma cc0_scoped1.sem : SemLoc sig).isScoped .scVector = true; decide⟩⟩⟩⟩)]

omit [FloatOps F] in
theorem devRef_ne {a b : Ref sig .scVector} (h : a ≠ b) : (pV L).devRef a ≠ (pV L).devRef b :=
  fun e => h (Proc.devRef_injective _ e)

omit [FloatOps F] in
/-- The five scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (pV L)).erase ((pV L).devRef cc0_scratch0)).erase ((pV L).devRef cc0_scratch1)).erase
              ((pV L).devRef cc0_scratch2)).erase ((pV L).devRef cc0_scratch3)).erase ((pV L).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc0_scratch0) rfl)).trans ?_
  rw [SparseCore.bigSep_erase' (Finset.mem_erase.mpr ⟨devRef_ne L (show (cc0_scratch1 : Ref sig .scVector) ≠ cc0_scratch0 by decide),
      SparseCore.Cfg.mem_ownRefs_of_owner (p := pV L) (b := (pV L).devRef cc0_scratch1) rfl⟩),
    SparseCore.bigSep_erase' (Finset.mem_erase.mpr ⟨devRef_ne L (show (cc0_scratch2 : Ref sig .scVector) ≠ cc0_scratch1 by decide),
      Finset.mem_erase.mpr ⟨devRef_ne L (show (cc0_scratch2 : Ref sig .scVector) ≠ cc0_scratch0 by decide),
      SparseCore.Cfg.mem_ownRefs_of_owner (p := pV L) (b := (pV L).devRef cc0_scratch2) rfl⟩⟩),
    SparseCore.bigSep_erase' (Finset.mem_erase.mpr ⟨devRef_ne L (show (cc0_scratch3 : Ref sig .scVector) ≠ cc0_scratch2 by decide),
      Finset.mem_erase.mpr ⟨devRef_ne L (show (cc0_scratch3 : Ref sig .scVector) ≠ cc0_scratch1 by decide),
      Finset.mem_erase.mpr ⟨devRef_ne L (show (cc0_scratch3 : Ref sig .scVector) ≠ cc0_scratch0 by decide),
      SparseCore.Cfg.mem_ownRefs_of_owner (p := pV L) (b := (pV L).devRef cc0_scratch3) rfl⟩⟩⟩),
    SparseCore.bigSep_erase' (Finset.mem_erase.mpr ⟨devRef_ne L (show (cc0_scratch4 : Ref sig .scVector) ≠ cc0_scratch3 by decide),
      Finset.mem_erase.mpr ⟨devRef_ne L (show (cc0_scratch4 : Ref sig .scVector) ≠ cc0_scratch2 by decide),
      Finset.mem_erase.mpr ⟨devRef_ne L (show (cc0_scratch4 : Ref sig .scVector) ≠ cc0_scratch1 by decide),
      Finset.mem_erase.mpr ⟨devRef_ne L (show (cc0_scratch4 : Ref sig .scVector) ≠ cc0_scratch0 by decide),
      SparseCore.Cfg.mem_ownRefs_of_owner (p := pV L) (b := (pV L).devRef cc0_scratch4) rfl⟩⟩⟩⟩)]

omit [FloatOps F] in
theorem pts_x (f : Buf (Elt F) ((thr d L).loc cc0_scratch0)) :
    ((xB : Memref sig .scVector .vmem S2x16x2048 .f32).view.loc (thr d L) ↦{fullShare} f : sProp 𝕄) = (thr d L).loc cc0_scratch0 ↦{fullShare} f := rfl
omit [FloatOps F] in
theorem pts_t (f : Buf (Elt F) ((thr d L).loc cc0_scratch1)) :
    ((tB : Memref sig .scVector .vmem S2x2048 .i32).view.loc (thr d L) ↦{fullShare} f : sProp 𝕄) = (thr d L).loc cc0_scratch1 ↦{fullShare} f := rfl
omit [FloatOps F] in
theorem pts_m (f : Buf (Elt F) ((thr d L).loc cc0_scratch2)) :
    ((mB : Memref sig .scVector .vmem S2x2048 .i32).view.loc (thr d L) ↦{fullShare} f : sProp 𝕄) = (thr d L).loc cc0_scratch2 ↦{fullShare} f := rfl
omit [FloatOps F] in
theorem pts_a (f : Buf (Elt F) ((thr d L).loc cc0_scratch3)) :
    ((aB : Memref sig .scVector .vmem S16384 .f32).view.loc (thr d L) ↦{fullShare} f : sProp 𝕄) = (thr d L).loc cc0_scratch3 ↦{fullShare} f := rfl
omit [FloatOps F] in
theorem pts_c (f : Buf (Elt F) ((thr d L).loc cc0_scratch4)) :
    ((cB : Memref sig .scVector .vmem S1024 .f32).view.loc (thr d L) ↦{fullShare} f : sProp 𝕄) = (thr d L).loc cc0_scratch4 ↦{fullShare} f := rfl

omit [FloatOps F] in
theorem ltc {a b : ℕ} (h : Nat.ble (a + 1) b = true) : a < b := Nat.le_of_ble_eq_true h

/-! ## The staging slots, the chunks they are filled from, and a batch's deliveries -/

omit [FloatOps F] in
theorem inb_x (b c : ℕ) (hb : b < 2) (hc : c < 16) : ∀ a, (![b, c, 0] : Fin 3 → ℕ) a + S1x1x2048.size a ≤ S2x16x2048.size a := by
  intro a; fin_cases a
  · show b + 1 ≤ 2; omega
  · show c + 1 ≤ 16; omega
  · show 0 + 2048 ≤ 2048; omega
omit [FloatOps F] in
theorem inb_r (b : ℕ) (hb : b < 2) : ∀ a, (![b, 0] : Fin 2 → ℕ) a + S1x2048.size a ≤ S2x2048.size a := by
  intro a; fin_cases a
  · show b + 1 ≤ 2; omega
  · show 0 + 2048 ≤ 2048; omega

/-- Row `c` of slot `b` of the embedding's staging buffer. -/
abbrev xSlot (b c : ℕ) (hb : b < 2) (hc : c < 16) : Memref sig .scVector .vmem S2048 .f32 :=
  ((xB : Memref sig .scVector .vmem S2x16x2048 .f32).slice (Rect.unit (s := S2x16x2048) ![b, c, 0] S1x1x2048.size (inb_x b c hb hc)) (fun _ => rfl)).squeeze S2048 squeezes_S1x1x2048_S2048
/-- Slot `b` of the targets' staging buffer, and of the mask's. -/
abbrev tSlot (b : ℕ) (hb : b < 2) : Memref sig .scVector .vmem S2048 .i32 :=
  ((tB : Memref sig .scVector .vmem S2x2048 .i32).slice (Rect.unit (s := S2x2048) ![b, 0] S1x2048.size (inb_r b hb)) (fun _ => rfl)).squeeze S2048 squeezes_S1x2048_S2048
abbrev mSlot (b : ℕ) (hb : b < 2) : Memref sig .scVector .vmem S2048 .i32 :=
  ((mB : Memref sig .scVector .vmem S2x2048 .i32).slice (Rect.unit (s := S2x2048) ![b, 0] S1x2048.size (inb_r b hb)) (fun _ => rfl)).squeeze S2048 squeezes_S1x2048_S2048

/-- A chunk of the embedding at offset `o`, of the targets, of the mask. -/
abbrev eSrc (o : Fin 1 → ℕ) (h : ∀ a, o a + S2048.size a ≤ S33554432.size a) : Memref sig .scVector .hbm S2048 .f32 :=
  (eW : Memref sig .scVector .hbm S33554432 .f32).slice (Rect.unit (s := S33554432) o S2048.size h) (fun _ => rfl)
abbrev tSrc (o : Fin 1 → ℕ) (h : ∀ a, o a + S2048.size a ≤ S2097152.size a) : Memref sig .scVector .hbm S2048 .i32 :=
  (tW : Memref sig .scVector .hbm S2097152 .i32).slice (Rect.unit (s := S2097152) o S2048.size h) (fun _ => rfl)
abbrev kSrc (o : Fin 1 → ℕ) (h : ∀ a, o a + S2048.size a ≤ S2097152.size a) : Memref sig .scVector .hbm S2048 .i32 :=
  (kW : Memref sig .scVector .hbm S2097152 .i32).slice (Rect.unit (s := S2097152) o S2048.size h) (fun _ => rfl)

/-- A memref's own elements held at share `q` and contents `f`. -/
abbrev heldOwn {sp : Space} {s : Shape} {el : EltTy} (M : Memref sig .scVector sp s el) (q : PosShare TreeShare)
    (f : Buf (Elt F) (M.view.loc (thr d L))) : sProp 𝕄 :=
  M.view.loc (thr d L) ↦[M.view.set]{q} f

/-- What the targets' slot holds once its chunk has landed. -/
abbrev tLanded (b : ℕ) (hb : b < 2) (ot : Fin 1 → ℕ) (hot : ∀ a, ot a + S2048.size a ≤ S2097152.size a)
    (t : Buf (Elt F) ((tW : Memref sig .scVector .hbm S2097152 .i32).view.loc (thr d L)))
    (fd : Buf (Elt F) ((tSlot b hb).view.loc (thr d L))) : Buf (Elt F) ((tSlot b hb).view.loc (thr d L)) :=
  (tSlot b hb).view.write (Elt F) fd (ReadAs.same.apply ((tSrc ot hot).view.read (Elt F) t)) Finset.univ

/-- The same, landed into a slot held by its own elements: one listed write of the chunk over the slot's prior contents. -/
abbrev tLandedL (b : ℕ) (hb : b < 2) (ot : Fin 1 → ℕ) (hot : ∀ a, ot a + S2048.size a ≤ S2097152.size a)
    (t : Buf (Elt F) ((tW : Memref sig .scVector .hbm S2097152 .i32).view.loc (thr d L)))
    (fd : Buf (Elt F) ((tSlot b hb).view.loc (thr d L))) : Buf (Elt F) ((tSlot b hb).view.loc (thr d L)) :=
  (tSlot b hb).view.writes (Elt F) fd [⟨Rect.whole S2048, ReadAs.same.apply ((tSrc ot hot).view.read (Elt F) t)⟩]

/-- The eighteen deliveries of one chunk's batch into slot `b`: sixteen rows of the embedding (each slot row at some
    contents, its source chunk back), the targets (the slot at the contents `tl`), the mask (at some contents). -/
abbrev deliv (b : ℕ) (hb : b < 2) (oe : Fin 16 → Fin 1 → ℕ) (he : ∀ c a, oe c a + S2048.size a ≤ S33554432.size a)
    (ot : Fin 1 → ℕ) (hot : ∀ a, ot a + S2048.size a ≤ S2097152.size a) (q : PosShare TreeShare)
    (e : Buf (Elt F) ((eW : Memref sig .scVector .hbm S33554432 .f32).view.loc (thr d L)))
    (t : Buf (Elt F) ((tW : Memref sig .scVector .hbm S2097152 .i32).view.loc (thr d L)))
    (k : Buf (Elt F) ((kW : Memref sig .scVector .hbm S2097152 .i32).view.loc (thr d L)))
    (tl : Buf (Elt F) ((tSlot b hb).view.loc (thr d L))) : Fin 18 → sProp 𝕄
  | ⟨0, _⟩ => iprop((∃ g, heldOwn d L (xSlot b 0 hb (ltc rfl)) fullShare g) ∗ heldOwn d L (eSrc (oe 0) (he 0)) q e)
  | ⟨1, _⟩ => iprop((∃ g, heldOwn d L (xSlot b 1 hb (ltc rfl)) fullShare g) ∗ heldOwn d L (eSrc (oe 1) (he 1)) q e)
  | ⟨2, _⟩ => iprop((∃ g, heldOwn d L (xSlot b 2 hb (ltc rfl)) fullShare g) ∗ heldOwn d L (eSrc (oe 2) (he 2)) q e)
  | ⟨3, _⟩ => iprop((∃ g, heldOwn d L (xSlot b 3 hb (ltc rfl)) fullShare g) ∗ heldOwn d L (eSrc (oe 3) (he 3)) q e)
  | ⟨4, _⟩ => iprop((∃ g, heldOwn d L (xSlot b 4 hb (ltc rfl)) fullShare g) ∗ heldOwn d L (eSrc (oe 4) (he 4)) q e)
  | ⟨5, _⟩ => iprop((∃ g, heldOwn d L (xSlot b 5 hb (ltc rfl)) fullShare g) ∗ heldOwn d L (eSrc (oe 5) (he 5)) q e)
  | ⟨6, _⟩ => iprop((∃ g, heldOwn d L (xSlot b 6 hb (ltc rfl)) fullShare g) ∗ heldOwn d L (eSrc (oe 6) (he 6)) q e)
  | ⟨7, _⟩ => iprop((∃ g, heldOwn d L (xSlot b 7 hb (ltc rfl)) fullShare g) ∗ heldOwn d L (eSrc (oe 7) (he 7)) q e)
  | ⟨8, _⟩ => iprop((∃ g, heldOwn d L (xSlot b 8 hb (ltc rfl)) fullShare g) ∗ heldOwn d L (eSrc (oe 8) (he 8)) q e)
  | ⟨9, _⟩ => iprop((∃ g, heldOwn d L (xSlot b 9 hb (ltc rfl)) fullShare g) ∗ heldOwn d L (eSrc (oe 9) (he 9)) q e)
  | ⟨10, _⟩ => iprop((∃ g, heldOwn d L (xSlot b 10 hb (ltc rfl)) fullShare g) ∗ heldOwn d L (eSrc (oe 10) (he 10)) q e)
  | ⟨11, _⟩ => iprop((∃ g, heldOwn d L (xSlot b 11 hb (ltc rfl)) fullShare g) ∗ heldOwn d L (eSrc (oe 11) (he 11)) q e)
  | ⟨12, _⟩ => iprop((∃ g, heldOwn d L (xSlot b 12 hb (ltc rfl)) fullShare g) ∗ heldOwn d L (eSrc (oe 12) (he 12)) q e)
  | ⟨13, _⟩ => iprop((∃ g, heldOwn d L (xSlot b 13 hb (ltc rfl)) fullShare g) ∗ heldOwn d L (eSrc (oe 13) (he 13)) q e)
  | ⟨14, _⟩ => iprop((∃ g, heldOwn d L (xSlot b 14 hb (ltc rfl)) fullShare g) ∗ heldOwn d L (eSrc (oe 14) (he 14)) q e)
  | ⟨15, _⟩ => iprop((∃ g, heldOwn d L (xSlot b 15 hb (ltc rfl)) fullShare g) ∗ heldOwn d L (eSrc (oe 15) (he 15)) q e)
  | ⟨16, _⟩ => iprop(heldOwn d L (tSlot b hb) fullShare tl ∗ heldOwn d L (tSrc ot hot) q t)
  | ⟨17, _⟩ => iprop((∃ g, heldOwn d L (mSlot b hb) fullShare g) ∗ heldOwn d L (kSrc ot hot) q k)
  | ⟨n + 18, h⟩ => absurd h (by omega)

set_option maxHeartbeats 4000000 in
instance deliv_storable (b : ℕ) (hb : b < 2) (oe : Fin 16 → Fin 1 → ℕ) (he : ∀ c a, oe c a + S2048.size a ≤ S33554432.size a)
    (ot : Fin 1 → ℕ) (hot : ∀ a, ot a + S2048.size a ≤ S2097152.size a) (q : PosShare TreeShare)
    (e : Buf (Elt F) ((eW : Memref sig .scVector .hbm S33554432 .f32).view.loc (thr d L)))
    (t : Buf (Elt F) ((tW : Memref sig .scVector .hbm S2097152 .i32).view.loc (thr d L)))
    (k : Buf (Elt F) ((kW : Memref sig .scVector .hbm S2097152 .i32).view.loc (thr d L)))
    (tl : Buf (Elt F) ((tSlot b hb).view.loc (thr d L))) : (i : Fin 18) →
    BI.Storable (upEmb : UEmb _ 𝕄) (deliv d L b hb oe he ot hot q e t k tl i)
  | ⟨0, _⟩ => (inferInstance : BI.Storable (upEmb : UEmb _ 𝕄) (iprop((∃ g, heldOwn d L (xSlot b 0 hb (ltc rfl)) fullShare g) ∗ heldOwn d L (eSrc (oe 0) (he 0)) q e)))
  | ⟨1, _⟩ => (inferInstance : BI.Storable (upEmb : UEmb _ 𝕄) (iprop((∃ g, heldOwn d L (xSlot b 1 hb (ltc rfl)) fullShare g) ∗ heldOwn d L (eSrc (oe 1) (he 1)) q e)))
  | ⟨2, _⟩ => (inferInstance : BI.Storable (upEmb : UEmb _ 𝕄) (iprop((∃ g, heldOwn d L (xSlot b 2 hb (ltc rfl)) fullShare g) ∗ heldOwn d L (eSrc (oe 2) (he 2)) q e)))
  | ⟨3, _⟩ => (inferInstance : BI.Storable (upEmb : UEmb _ 𝕄) (iprop((∃ g, heldOwn d L (xSlot b 3 hb (ltc rfl)) fullShare g) ∗ heldOwn d L (eSrc (oe 3) (he 3)) q e)))
  | ⟨4, _⟩ => (inferInstance : BI.Storable (upEmb : UEmb _ 𝕄) (iprop((∃ g, heldOwn d L (xSlot b 4 hb (ltc rfl)) fullShare g) ∗ heldOwn d L (eSrc (oe 4) (he 4)) q e)))
  | ⟨5, _⟩ => (inferInstance : BI.Storable (upEmb : UEmb _ 𝕄) (iprop((∃ g, heldOwn d L (xSlot b 5 hb (ltc rfl)) fullShare g) ∗ heldOwn d L (eSrc (oe 5) (he 5)) q e)))
  | ⟨6, _⟩ => (inferInstance : BI.Storable (upEmb : UEmb _ 𝕄) (iprop((∃ g, heldOwn d L (xSlot b 6 hb (ltc rfl)) fullShare g) ∗ heldOwn d L (eSrc (oe 6) (he 6)) q e)))
  | ⟨7, _⟩ => (inferInstance : BI.Storable (upEmb : UEmb _ 𝕄) (iprop((∃ g, heldOwn d L (xSlot b 7 hb (ltc rfl)) fullShare g) ∗ heldOwn d L (eSrc (oe 7) (he 7)) q e)))
  | ⟨8, _⟩ => (inferInstance : BI.Storable (upEmb : UEmb _ 𝕄) (iprop((∃ g, heldOwn d L (xSlot b 8 hb (ltc rfl)) fullShare g) ∗ heldOwn d L (eSrc (oe 8) (he 8)) q e)))
  | ⟨9, _⟩ => (inferInstance : BI.Storable (upEmb : UEmb _ 𝕄) (iprop((∃ g, heldOwn d L (xSlot b 9 hb (ltc rfl)) fullShare g) ∗ heldOwn d L (eSrc (oe 9) (he 9)) q e)))
  | ⟨10, _⟩ => (inferInstance : BI.Storable (upEmb : UEmb _ 𝕄) (iprop((∃ g, heldOwn d L (xSlot b 10 hb (ltc rfl)) fullShare g) ∗ heldOwn d L (eSrc (oe 10) (he 10)) q e)))
  | ⟨11, _⟩ => (inferInstance : BI.Storable (upEmb : UEmb _ 𝕄) (iprop((∃ g, heldOwn d L (xSlot b 11 hb (ltc rfl)) fullShare g) ∗ heldOwn d L (eSrc (oe 11) (he 11)) q e)))
  | ⟨12, _⟩ => (inferInstance : BI.Storable (upEmb : UEmb _ 𝕄) (iprop((∃ g, heldOwn d L (xSlot b 12 hb (ltc rfl)) fullShare g) ∗ heldOwn d L (eSrc (oe 12) (he 12)) q e)))
  | ⟨13, _⟩ => (inferInstance : BI.Storable (upEmb : UEmb _ 𝕄) (iprop((∃ g, heldOwn d L (xSlot b 13 hb (ltc rfl)) fullShare g) ∗ heldOwn d L (eSrc (oe 13) (he 13)) q e)))
  | ⟨14, _⟩ => (inferInstance : BI.Storable (upEmb : UEmb _ 𝕄) (iprop((∃ g, heldOwn d L (xSlot b 14 hb (ltc rfl)) fullShare g) ∗ heldOwn d L (eSrc (oe 14) (he 14)) q e)))
  | ⟨15, _⟩ => (inferInstance : BI.Storable (upEmb : UEmb _ 𝕄) (iprop((∃ g, heldOwn d L (xSlot b 15 hb (ltc rfl)) fullShare g) ∗ heldOwn d L (eSrc (oe 15) (he 15)) q e)))
  | ⟨16, _⟩ => (inferInstance : BI.Storable (upEmb : UEmb _ 𝕄) (iprop(heldOwn d L (tSlot b hb) fullShare tl ∗ heldOwn d L (tSrc ot hot) q t)))
  | ⟨17, _⟩ => (inferInstance : BI.Storable (upEmb : UEmb _ 𝕄) (iprop((∃ g, heldOwn d L (mSlot b hb) fullShare g) ∗ heldOwn d L (kSrc ot hot) q k)))
  | ⟨n + 18, h⟩ => absurd h (by omega)

/-- One chunk row's credit. -/
abbrev NB : ℕ := (tSlot 0 (ltc rfl)).view.amount (SemLoc.dma (sig := sig) cc0_scratch5.sem)

/-- Before trip `k` of the zeroing loop: both accumulators held whole. -/
def invZ (_k : ℕ) (_acc : BitVec 32) : sProp 𝕄 :=
  iprop((∃ f, (aB : Memref sig .scVector .vmem S16384 .f32).view.loc (thr d L) ↦{fullShare} f)
    ∗ (∃ f, (cB : Memref sig .scVector .vmem S1024 .f32).view.loc (thr d L) ↦{fullShare} f))

/-- The sixteen chunk rows of the embedding at the offsets `oe`. -/
abbrev eWins (oe : Fin 16 → Fin 1 → ℕ) (he : ∀ c a, oe c a + S2048.size a ≤ S33554432.size a) :
    List (Finset (Idx ((eW : Memref sig .scVector .hbm S33554432 .f32).view.loc (thr d L)))) :=
  [(eSrc (oe 0) (he 0)).view.set, (eSrc (oe 1) (he 1)).view.set, (eSrc (oe 2) (he 2)).view.set, (eSrc (oe 3) (he 3)).view.set, (eSrc (oe 4) (he 4)).view.set, (eSrc (oe 5) (he 5)).view.set, (eSrc (oe 6) (he 6)).view.set, (eSrc (oe 7) (he 7)).view.set, (eSrc (oe 8) (he 8)).view.set, (eSrc (oe 9) (he 9)).view.set, (eSrc (oe 10) (he 10)).view.set, (eSrc (oe 11) (he 11)).view.set, (eSrc (oe 12) (he 12)).view.set, (eSrc (oe 13) (he 13)).view.set, (eSrc (oe 14) (he 14)).view.set, (eSrc (oe 15) (he 15)).view.set]

omit [FloatOps F] in
theorem eWins_eq_ofFn (oe : Fin 16 → Fin 1 → ℕ) (he : ∀ c a, oe c a + S2048.size a ≤ S33554432.size a) :
    eWins d L oe he = List.ofFn (fun c : Fin 16 => (eSrc (oe c) (he c)).view.set) := by
  simp only [List.ofFn_succ, List.ofFn_zero]
  rfl

omit [FloatOps F] in
/-- Chunk rows a row's length apart are disjoint. -/
theorem eWins_pairwise (oe : Fin 16 → Fin 1 → ℕ) (he : ∀ c a, oe c a + S2048.size a ≤ S33554432.size a)
    (hsep : ∀ c c' : Fin 16, c ≠ c' → oe c 0 + 2048 ≤ oe c' 0 ∨ oe c' 0 + 2048 ≤ oe c 0) :
    (eWins d L oe he).Pairwise Disjoint := by
  rw [eWins_eq_ofFn, List.pairwise_ofFn]
  intro i j hij
  show Disjoint ((eW : Memref sig .scVector .hbm S33554432 .f32).view.slice (Rect.unit (s := S33554432) (oe i) S2048.size (he i))).set
    ((eW : Memref sig .scVector .hbm S33554432 .f32).view.slice (Rect.unit (s := S33554432) (oe j) S2048.size (he j))).set
  rw [View.set_slice, View.set_slice]
  exact (Finset.disjoint_map _).mpr (Rect.unit_disjoint (0 : Fin 1) (hsep i j (Fin.ne_of_lt hij)))

end Cert.Proof.KI.Pass1
end
-- ==== Proof.Pass1IB.lean ====
/-
  The first SparseCore call's body: the scatter addresses are in range, the indexed add-stores into the two
  accumulators, one trip of each slot's scatter loop, joining read windows back, and the landed targets' range.
-/
import proofs.«210783_g59777354826199_cont_9to1_m_168_18_alg».proof.Proof.Pass1IA

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => 𝕄F F

variable (d : Dev nD) (L : grid0.Coords)

/-! ## The scatter addresses are in range -/

omit [FloatOps F] in
theorem iota_lt (x : S16.Idx) : ((iota .scVector S16 32 [0] iota_S16_d0_w32_scVector : IVec S16 32) x).toNat < 16 := by
  have h : (x 0).val < 16 := (x 0).isLt
  show (BitVec.ofNat 32 (0 * S16.size 0 + (x 0).val)).toNat < 16
  rw [BitVec.toNat_ofNat]
  have : (0 * S16.size 0 + (x 0).val) = (x 0).val := by omega
  rw [this]; omega

/-- One lane's address: the segment (the target where the mask is set, else segment 0) times the lane count, plus the lane. -/
theorem seg_word_lt (c : BitVec 1) (t l : BitVec 32) (ht : t.toNat ≤ 63) (hl : l.toNat < 16) :
    (IntOp.addi (IntOp.muli (Scalar.select c t 0#32) 16#32) l).toNat < 1024 := by
  unfold IntOp.addi IntOp.muli Scalar.select
  split
  · rw [BitVec.toNat_add, BitVec.toNat_mul]
    simp only [BitVec.toNat_ofNat]
    omega
  · rw [BitVec.toNat_add, BitVec.toNat_mul]
    simp only [BitVec.toNat_ofNat]
    omega

/-- The counts' addresses are inside the counts. -/
theorem chk_c (v : IVec S16 32) (hv : ∀ x, (v x).toNat < 1024) : ∀ a x, ((![v] : Fin 1 → IVec S16 32) a x).toNat < S1024.size a := by
  intro a x
  obtain rfl : a = 0 := Subsingleton.elim _ _
  exact hv x

/-- The sums' addresses, a row's offset further on, are inside the sums. -/
theorem chk_a (v : IVec S16 32) (hv : ∀ x, (v x).toNat < 1024) (c : BitVec 32) (hc : c.toNat ≤ 15360) :
    ∀ a x, ((![addi v (broadcast S16 c)] : Fin 1 → IVec S16 32) a x).toNat < S16384.size a := by
  intro a x
  obtain rfl : a = 0 := Subsingleton.elim _ _
  show (v x + c).toNat < 16384
  rw [BitVec.toNat_add]
  have := hv x
  omega

/-- The address vector of sixteen lanes. -/
theorem addr_lt (v3 : IVec S16 32) (hv3 : ∀ x, (v3 x).toNat < 16) (c : IVec S16 1) (tv : Vec F S16 .i32) (ht : ∀ x, (tv x).toNat ≤ 63) (x : S16.Idx) :
    ((addi (muli (select c tv (broadcast S16 0#32)) (broadcast S16 16#32)) v3 : IVec S16 32) x).toNat < 1024 :=
  seg_word_lt _ _ _ (ht x) (hv3 x)

/-- While slot `b`'s chunk is scattered: both accumulators held whole, the slot's eighteen rows at their contents. -/
def invI (b : ℕ) (hb : b < 2) (gx : Fin 16 → Buf (Elt F) ((xB : Memref sig .scVector .vmem S2x16x2048 .f32).view.loc (thr d L)))
    (ft' : Buf (Elt F) ((tB : Memref sig .scVector .vmem S2x2048 .i32).view.loc (thr d L)))
    (gm : Buf (Elt F) ((mB : Memref sig .scVector .vmem S2x2048 .i32).view.loc (thr d L))) (_k : ℕ) (_acc : BitVec 32) : sProp 𝕄 :=
  iprop((∃ f, (aB : Memref sig .scVector .vmem S16384 .f32).view.loc (thr d L) ↦{fullShare} f)
    ∗ (∃ f, (cB : Memref sig .scVector .vmem S1024 .f32).view.loc (thr d L) ↦{fullShare} f)
    ∗ heldOwn d L (xSlot b 0 hb (ltc rfl)) fullShare (gx 0)
    ∗ heldOwn d L (xSlot b 1 hb (ltc rfl)) fullShare (gx 1)
    ∗ heldOwn d L (xSlot b 2 hb (ltc rfl)) fullShare (gx 2)
    ∗ heldOwn d L (xSlot b 3 hb (ltc rfl)) fullShare (gx 3)
    ∗ heldOwn d L (xSlot b 4 hb (ltc rfl)) fullShare (gx 4)
    ∗ heldOwn d L (xSlot b 5 hb (ltc rfl)) fullShare (gx 5)
    ∗ heldOwn d L (xSlot b 6 hb (ltc rfl)) fullShare (gx 6)
    ∗ heldOwn d L (xSlot b 7 hb (ltc rfl)) fullShare (gx 7)
    ∗ heldOwn d L (xSlot b 8 hb (ltc rfl)) fullShare (gx 8)
    ∗ heldOwn d L (xSlot b 9 hb (ltc rfl)) fullShare (gx 9)
    ∗ heldOwn d L (xSlot b 10 hb (ltc rfl)) fullShare (gx 10)
    ∗ heldOwn d L (xSlot b 11 hb (ltc rfl)) fullShare (gx 11)
    ∗ heldOwn d L (xSlot b 12 hb (ltc rfl)) fullShare (gx 12)
    ∗ heldOwn d L (xSlot b 13 hb (ltc rfl)) fullShare (gx 13)
    ∗ heldOwn d L (xSlot b 14 hb (ltc rfl)) fullShare (gx 14)
    ∗ heldOwn d L (xSlot b 15 hb (ltc rfl)) fullShare (gx 15)
    ∗ heldOwn d L (tSlot b hb) fullShare ft' ∗ heldOwn d L (mSlot b hb) fullShare gm)

/-- An indexed add-store into the sums, held whole: they are held whole again, at some contents. -/
theorem storeIdx_a {α : Type} {dd : Fin 1 → Nat} {idxs : Fin S16384.rank → IVec ⟨1, dd⟩ 32} {v : Vec F ⟨1, dd⟩ .f32}
    {mask : IVec ⟨1, dd⟩ 1} {add : Bool} {h : ∀ a x, (idxs a x).toNat < S16384.size a}
    {hs : ((aB : Memref sig .scVector .vmem S16384 .f32).access (.whole S16384)).Stores Finset.univ}
    {kk : PUnit → Prog (TpuEff nD τ sig (Elt F) Λ₀ (thr d L).2) α} {Q : α → sProp 𝕄}
    (f : Buf (Elt F) ((aB : Memref sig .scVector .vmem S16384 .f32).view.loc (thr d L))) :
    ((aB : Memref sig .scVector .vmem S16384 .f32).view.loc (thr d L) ↦{fullShare} f : sProp 𝕄)
      ⊢ iprop(((∃ f', (aB : Memref sig .scVector .vmem S16384 .f32).view.loc (thr d L) ↦{fullShare} f')
          -∗ wp frame (wpE (defs₀ (F := F)) 𝒱₀ (thr d L) none) Set.univ (kk ⟨⟩) Q)
        -∗ wp frame (wpE (defs₀ (F := F)) 𝒱₀ (thr d L) none) Set.univ (SparseCore.vectorStoreIdx aB idxs v mask add h hs >>= kk) Q) := by
  have es : ((aB : Memref sig .scVector .vmem S16384 .f32).access (.whole S16384)).set = Finset.univ := Memref.set_access_whole _
  iintro H Hk
  iapply (SparseCore.wp_vectorStoreIdx (defs := defs₀ (F := F)) (𝒱 := 𝒱₀) (c := thr d L) (bd := none) (E := Set.univ) (Q := Q)
    (base := aB) (idxs := idxs) (v := v) (mask := mask) (add := add) (h := h) (hs := hs) (k := kk) (f := f)) $$ [H]
  · rw [es]; iexact H
  iintro H'
  iapply Hk
  iexists _
  rw [es]
  iexact H'

/-- An indexed add-store into the counts, held whole: they are held whole again, at some contents. -/
theorem storeIdx_c {α : Type} {dd : Fin 1 → Nat} {idxs : Fin S1024.rank → IVec ⟨1, dd⟩ 32} {v : Vec F ⟨1, dd⟩ .f32}
    {mask : IVec ⟨1, dd⟩ 1} {add : Bool} {h : ∀ a x, (idxs a x).toNat < S1024.size a}
    {hs : ((cB : Memref sig .scVector .vmem S1024 .f32).access (.whole S1024)).Stores Finset.univ}
    {kk : PUnit → Prog (TpuEff nD τ sig (Elt F) Λ₀ (thr d L).2) α} {Q : α → sProp 𝕄}
    (f : Buf (Elt F) ((cB : Memref sig .scVector .vmem S1024 .f32).view.loc (thr d L))) :
    ((cB : Memref sig .scVector .vmem S1024 .f32).view.loc (thr d L) ↦{fullShare} f : sProp 𝕄)
      ⊢ iprop(((∃ f', (cB : Memref sig .scVector .vmem S1024 .f32).view.loc (thr d L) ↦{fullShare} f')
          -∗ wp frame (wpE (defs₀ (F := F)) 𝒱₀ (thr d L) none) Set.univ (kk ⟨⟩) Q)
        -∗ wp frame (wpE (defs₀ (F := F)) 𝒱₀ (thr d L) none) Set.univ (SparseCore.vectorStoreIdx cB idxs v mask add h hs >>= kk) Q) := by
  have es : ((cB : Memref sig .scVector .vmem S1024 .f32).access (.whole S1024)).set = Finset.univ := Memref.set_access_whole _
  iintro H Hk
  iapply (SparseCore.wp_vectorStoreIdx (defs := defs₀ (F := F)) (𝒱 := 𝒱₀) (c := thr d L) (bd := none) (E := Set.univ) (Q := Q)
    (base := cB) (idxs := idxs) (v := v) (mask := mask) (add := add) (h := h) (hs := hs) (k := kk) (f := f)) $$ [H]
  · rw [es]; iexact H
  iintro H'
  iapply Hk
  iexists _
  rw [es]
  iexact H'

set_option maxHeartbeats 4000000 in
/-- One trip of slot 0's scatter loop: four groups of sixteen lanes, each a count and sixteen sums scattered. -/
theorem region3 (v2 : BitVec 32) (v3 : IVec S16 32) (hv3 : ∀ x, (v3 x).toNat < 16) (v5 : FVec F S16 .f32) (g : Fin k0_t2_loop.trips) (v476 c1 c2 c3 : BitVec 32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (k : Fin k0_t3_loop.trips) (acc : BitVec 32) :
    invI d L 0 (ltc rfl) gx ft' gm k.val acc ⊢ wp frame (wpE (defs₀ (F := F)) 𝒱₀ (thr d L) none) Set.univ
      (k0_t3_body L eW (Memref.isWhole_whole _) tW (Memref.isWhole_whole _) kW (Memref.isWhole_whole _) o0W (Memref.isWhole_whole _) o1W (Memref.isWhole_whole _) xB (Memref.isWhole_whole _) tB (Memref.isWhole_whole _) mB (Memref.isWhole_whole _) aB (Memref.isWhole_whole _) cB (Memref.isWhole_whole _) cc0_scratch5 cc0_scratch6 cc0_scoped0 cc0_scoped1 v2 v3 v5 g v476 c1 c2 c3 k acc)
      (invI d L 0 (ltc rfl) gx ft' gm (k.val + 1)) := by
  have hk : k.val < 32 := k.isLt
  unfold invI
  iintro ⟨⟨%fa, Ha⟩, ⟨%fc, Hc⟩, Hx0, Hx1, Hx2, Hx3, Hx4, Hx5, Hx6, Hx7, Hx8, Hx9, Hx10, Hx11, Hx12, Hx13, Hx14, Hx15, Ht, Hm⟩
  unfold k0_t3_body
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec
  sl_step
  isplitl [Ha]; · iexists _; iexact Ha
  isplitl [Hc]; · iexists _; iexact Hc
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hx8]; · iexact Hx8
  isplitl [Hx9]; · iexact Hx9
  isplitl [Hx10]; · iexact Hx10
  isplitl [Hx11]; · iexact Hx11
  isplitl [Hx12]; · iexact Hx12
  isplitl [Hx13]; · iexact Hx13
  isplitl [Hx14]; · iexact Hx14
  isplitl [Hx15]; · iexact Hx15
  isplitl [Ht]; · iexact Ht
  iexact Hm

set_option maxHeartbeats 4000000 in
/-- One trip of slot 1's scatter loop: four groups of sixteen lanes, each a count and sixteen sums scattered. -/
theorem region4 (v2 : BitVec 32) (v3 : IVec S16 32) (hv3 : ∀ x, (v3 x).toNat < 16) (v5 : FVec F S16 .f32) (g : Fin k0_t2_loop.trips) (v476 c1 c2 c3 : BitVec 32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (k : Fin k0_t4_loop.trips) (acc : BitVec 32) :
    invI d L 1 (ltc rfl) gx ft' gm k.val acc ⊢ wp frame (wpE (defs₀ (F := F)) 𝒱₀ (thr d L) none) Set.univ
      (k0_t4_body L eW (Memref.isWhole_whole _) tW (Memref.isWhole_whole _) kW (Memref.isWhole_whole _) o0W (Memref.isWhole_whole _) o1W (Memref.isWhole_whole _) xB (Memref.isWhole_whole _) tB (Memref.isWhole_whole _) mB (Memref.isWhole_whole _) aB (Memref.isWhole_whole _) cB (Memref.isWhole_whole _) cc0_scratch5 cc0_scratch6 cc0_scoped0 cc0_scoped1 v2 v3 v5 g v476 c1 c2 c3 k acc)
      (invI d L 1 (ltc rfl) gx ft' gm (k.val + 1)) := by
  have hk : k.val < 32 := k.isLt
  unfold invI
  iintro ⟨⟨%fa, Ha⟩, ⟨%fc, Hc⟩, Hx0, Hx1, Hx2, Hx3, Hx4, Hx5, Hx6, Hx7, Hx8, Hx9, Hx10, Hx11, Hx12, Hx13, Hx14, Hx15, Ht, Hm⟩
  unfold k0_t4_body
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec
  sl_step
  isplitl [Ha]; · iexists _; iexact Ha
  isplitl [Hc]; · iexists _; iexact Hc
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hx8]; · iexact Hx8
  isplitl [Hx9]; · iexact Hx9
  isplitl [Hx10]; · iexact Hx10
  isplitl [Hx11]; · iexact Hx11
  isplitl [Hx12]; · iexact Hx12
  isplitl [Hx13]; · iexact Hx13
  isplitl [Hx14]; · iexact Hx14
  isplitl [Hx15]; · iexact Hx15
  isplitl [Ht]; · iexact Ht
  iexact Hm

/-! ## Joining read windows back, and the landed targets' range -/

/-- The elements of a list of sets, each held at the same share and contents. -/
def sepAll {ℓ : Loc nD τ sig} (q : PosShare TreeShare) (f : Buf (Elt F) ℓ) : List (Finset (Idx ℓ)) → sProp 𝕄
  | [] => iprop(emp)
  | w :: ws => iprop((ℓ ↦[w]{q} f) ∗ sepAll q f ws)

/-- A set less pairwise-disjoint subsets of it, and those subsets: the set. -/
theorem pointsTo_less_join {ℓ : Loc nD τ sig} (q : PosShare TreeShare) (f : Buf (Elt F) ℓ) (ws : List (Finset (Idx ℓ))) :
    ∀ (S : Finset (Idx ℓ)), (∀ w ∈ ws, w ⊆ S) → ws.Pairwise Disjoint →
      iprop((ℓ ↦[ws.foldl (· \ ·) S]{q} f) ∗ sepAll (F := F) q f ws) ⊢ (ℓ ↦[S]{q} f : sProp 𝕄) := by
  induction ws with
  | nil =>
    intro S _ _
    simp only [List.foldl_nil, sepAll]
    exact Laws.sep_emp.1
  | cons w ws ih =>
    intro S hsub hd
    simp only [List.foldl_cons, sepAll]
    have hw : w ⊆ S := hsub w (List.mem_cons_self ..)
    have hsub' : ∀ w' ∈ ws, w' ⊆ S \ w := fun w' hw' =>
      Finset.subset_sdiff.mpr ⟨hsub w' (List.mem_cons_of_mem _ hw'), ((List.pairwise_cons.mp hd).1 w' hw').symm⟩
    iintro ⟨Hr, Hw, Hws⟩
    ihave H := (ih (S \ w) hsub' (List.pairwise_cons.mp hd).2) $$ [Hr Hws]
    · isplitl [Hr] <;> iassumption
    iapply (pointsTo_split_subset hw).2
    isplitl [Hw] <;> iassumption

/-- The slot held at contents in range on the slot: it is held at contents in range everywhere. -/
theorem tl_bound (b : ℕ) (hb : b < 2) (tl : Buf (Elt F) ((tSlot b hb).view.loc (thr d L)))
    (htl : ∀ i ∈ (tSlot b hb).view.set, (tl i).toNat ≤ 63) :
    (heldOwn d L (tSlot b hb) fullShare tl : sProp 𝕄)
      ⊢ iprop(∃ ft' : Buf (Elt F) ((tB : Memref sig .scVector .vmem S2x2048 .i32).view.loc (thr d L)),
          ⌜∀ i, (ft' i).toNat ≤ 63⌝ ∗ heldOwn d L (tSlot b hb) fullShare ft') := by
  iintro H
  iexists (fun i => if (tl i).toNat ≤ 63 then tl i else (0#32 : BitVec 32))
  isplitr
  · ipureintro
    intro i
    show (if _ then _ else _ : BitVec 32).toNat ≤ 63
    split
    · assumption
    · simp
  · have hc : ∀ i ∈ (tSlot b hb).view.set, tl i = (fun i => if (tl i).toNat ≤ 63 then tl i else (0#32 : BitVec 32)) i := by
      intro i hi
      show _ = if _ then _ else _
      rw [if_pos (htl i hi)]
    iapply (Entails.of_eq (pointsTo_congr (ℓ := (tSlot b hb).view.loc (thr d L)) (I := (tSlot b hb).view.set) (q := fullShare) (f := tl) hc))
    iexact H

/-- A chunk of targets in range, read whole. -/
theorem read_ok (ot : Fin 1 → ℕ) (hot : ∀ a, ot a + S2048.size a ≤ S2097152.size a)
    (t : Buf (Elt F) ((tW : Memref sig .scVector .hbm S2097152 .i32).view.loc (thr d L))) (ht : ∀ j, (t j).toNat ≤ 63) (x : S2048.Idx) :
    ((ReadAs.same.apply ((tSrc ot hot).view.read (Elt F) t) : S2048.Idx → Elt F .i32) x).toNat ≤ 63 := ht _

/-- The slot written whole with words in range is in range on the slot. -/
theorem write_ok (b : ℕ) (hb : b < 2) (fd : Buf (Elt F) ((tSlot b hb).view.loc (thr d L))) (w : S2048.Idx → Elt F .i32)
    (hw : ∀ x, (w x).toNat ≤ 63) :
    ∀ i ∈ (tSlot b hb).view.set, ((tSlot b hb).view.write (Elt F) fd w Finset.univ i).toNat ≤ 63 := by
  intro i hi
  rw [View.set, Finset.mem_map] at hi
  obtain ⟨x, -, rfl⟩ := hi
  rw [View.write_emb_of_mem _ _ (Finset.mem_univ x)]
  exact hw x

/-- The same as one listed write. -/
theorem writes_ok (b : ℕ) (hb : b < 2) (fd : Buf (Elt F) ((tSlot b hb).view.loc (thr d L))) (w : S2048.Idx → Elt F .i32)
    (hw : ∀ x, (w x).toNat ≤ 63) :
    ∀ i ∈ (tSlot b hb).view.set, ((tSlot b hb).view.writes (Elt F) fd [⟨Rect.whole S2048, w⟩] i).toNat ≤ 63 := by
  have e := View.write_univ_eq_writes_whole (Val := Elt F) (tSlot b hb).view fd [] w
  rw [← e]
  exact write_ok d L b hb fd w hw

/-! ## Joining a buffer's windows, each at contents of its own, back into the buffer -/

/-- The elements of a list of sets, each held at some contents. -/
def sepAllE {ℓ : Loc nD τ sig} (q : PosShare TreeShare) : List (Finset (Idx ℓ)) → sProp 𝕄
  | [] => iprop(emp)
  | w :: ws => iprop((∃ g : Buf (Elt F) ℓ, ℓ ↦[w]{q} g) ∗ sepAllE q ws)

/-- A set less a subset at one contents, the subset at another: the set at the contents that are the one off the subset and
    the other on it. -/
theorem pointsTo_glue {ℓ : Loc nD τ sig} (q : PosShare TreeShare) {S w : Finset (Idx ℓ)} (hw : w ⊆ S) (f g : Buf (Elt F) ℓ) :
    iprop((ℓ ↦[S \ w]{q} f) ∗ (ℓ ↦[w]{q} g)) ⊢ iprop(∃ h : Buf (Elt F) ℓ, (ℓ ↦[S]{q} h : sProp 𝕄)) := by
  classical
  iintro ⟨Hf, Hg⟩
  iexists (fun i => if i ∈ w then g i else f i)
  have e1 : ∀ i ∈ S \ w, f i = (fun i => if i ∈ w then g i else f i) i := fun i hi => by
    have hn : i ∉ w := (Finset.mem_sdiff.mp hi).2
    simp [hn]
  have e2 : ∀ i ∈ w, g i = (fun i => if i ∈ w then g i else f i) i := fun i hi => by simp [hi]
  iapply (pointsTo_split_subset hw).2
  isplitl [Hg]
  · iapply (Entails.of_eq (pointsTo_congr (q := q) e2)); iexact Hg
  · iapply (Entails.of_eq (pointsTo_congr (q := q) e1)); iexact Hf

/-- A set less pairwise-disjoint subsets of it at some contents, and those subsets each at some contents: the set at some. -/
theorem pointsTo_less_joinE {ℓ : Loc nD τ sig} (q : PosShare TreeShare) (ws : List (Finset (Idx ℓ))) :
    ∀ (S : Finset (Idx ℓ)), (∀ w ∈ ws, w ⊆ S) → ws.Pairwise Disjoint →
      iprop((∃ f : Buf (Elt F) ℓ, ℓ ↦[ws.foldl (· \ ·) S]{q} f) ∗ sepAllE (F := F) q ws) ⊢ iprop(∃ f : Buf (Elt F) ℓ, (ℓ ↦[S]{q} f : sProp 𝕄)) := by
  induction ws with
  | nil =>
    intro S _ _
    simp only [List.foldl_nil, sepAllE]
    exact Laws.sep_emp.1
  | cons w ws ih =>
    intro S hsub hd
    simp only [List.foldl_cons, sepAllE]
    have hw : w ⊆ S := hsub w (List.mem_cons_self ..)
    have hsub' : ∀ w' ∈ ws, w' ⊆ S \ w := fun w' hw' =>
      Finset.subset_sdiff.mpr ⟨hsub w' (List.mem_cons_of_mem _ hw'), ((List.pairwise_cons.mp hd).1 w' hw').symm⟩
    iintro ⟨Hr, ⟨%g, Hw⟩, Hws⟩
    ihave H := (ih (S \ w) hsub' (List.pairwise_cons.mp hd).2) $$ [Hr Hws]
    · isplitl [Hr] <;> iassumption
    icases H with ⟨%f', H⟩
    iapply (pointsTo_glue (F := F) q hw f' g)
    isplitl [H] <;> iassumption

/-! ## The staging buffers' slot rows -/

/-- The thirty-two rows of the embedding's staging buffer, slot 0's then slot 1's. -/
abbrev xWins : List (Finset (Idx ((xB : Memref sig .scVector .vmem S2x16x2048 .f32).view.loc (thr d L)))) :=
  [(xSlot 0 0 (ltc rfl) (ltc rfl)).view.set, (xSlot 0 1 (ltc rfl) (ltc rfl)).view.set, (xSlot 0 2 (ltc rfl) (ltc rfl)).view.set, (xSlot 0 3 (ltc rfl) (ltc rfl)).view.set, (xSlot 0 4 (ltc rfl) (ltc rfl)).view.set, (xSlot 0 5 (ltc rfl) (ltc rfl)).view.set, (xSlot 0 6 (ltc rfl) (ltc rfl)).view.set, (xSlot 0 7 (ltc rfl) (ltc rfl)).view.set, (xSlot 0 8 (ltc rfl) (ltc rfl)).view.set, (xSlot 0 9 (ltc rfl) (ltc rfl)).view.set, (xSlot 0 10 (ltc rfl) (ltc rfl)).view.set, (xSlot 0 11 (ltc rfl) (ltc rfl)).view.set, (xSlot 0 12 (ltc rfl) (ltc rfl)).view.set, (xSlot 0 13 (ltc rfl) (ltc rfl)).view.set, (xSlot 0 14 (ltc rfl) (ltc rfl)).view.set, (xSlot 0 15 (ltc rfl) (ltc rfl)).view.set,
   (xSlot 1 0 (ltc rfl) (ltc rfl)).view.set, (xSlot 1 1 (ltc rfl) (ltc rfl)).view.set, (xSlot 1 2 (ltc rfl) (ltc rfl)).view.set, (xSlot 1 3 (ltc rfl) (ltc rfl)).view.set, (xSlot 1 4 (ltc rfl) (ltc rfl)).view.set, (xSlot 1 5 (ltc rfl) (ltc rfl)).view.set, (xSlot 1 6 (ltc rfl) (ltc rfl)).view.set, (xSlot 1 7 (ltc rfl) (ltc rfl)).view.set, (xSlot 1 8 (ltc rfl) (ltc rfl)).view.set, (xSlot 1 9 (ltc rfl) (ltc rfl)).view.set, (xSlot 1 10 (ltc rfl) (ltc rfl)).view.set, (xSlot 1 11 (ltc rfl) (ltc rfl)).view.set, (xSlot 1 12 (ltc rfl) (ltc rfl)).view.set, (xSlot 1 13 (ltc rfl) (ltc rfl)).view.set, (xSlot 1 14 (ltc rfl) (ltc rfl)).view.set, (xSlot 1 15 (ltc rfl) (ltc rfl)).view.set]

omit [FloatOps F] in
theorem xWin_lt (n : Fin 32) : n.val / 16 < 2 ∧ n.val % 16 < 16 := by
  have := n.isLt; omega

omit [FloatOps F] in
theorem xWins_eq_ofFn : xWins d L = List.ofFn (fun n : Fin 32 => (xSlot (n.val / 16) (n.val % 16) (xWin_lt n).1 (xWin_lt n).2).view.set) := by
  simp only [List.ofFn_succ, List.ofFn_zero]
  rfl

omit [FloatOps F] in
theorem xWins_pairwise : (xWins d L).Pairwise Disjoint := by
  rw [xWins_eq_ofFn, List.pairwise_ofFn]
  intro i j hij
  have hi := i.isLt; have hj := j.isLt
  show Disjoint ((((xB : Memref sig .scVector .vmem S2x16x2048 .f32).view.slice (Rect.unit (s := S2x16x2048) ![i.val / 16, i.val % 16, 0] S1x1x2048.size (inb_x _ _ (xWin_lt i).1 (xWin_lt i).2))).reshape S2048 squeezes_S1x1x2048_S2048.numel_eq).set)
    ((((xB : Memref sig .scVector .vmem S2x16x2048 .f32).view.slice (Rect.unit (s := S2x16x2048) ![j.val / 16, j.val % 16, 0] S1x1x2048.size (inb_x _ _ (xWin_lt j).1 (xWin_lt j).2))).reshape S2048 squeezes_S1x1x2048_S2048.numel_eq).set)
  rw [View.set_reshape, View.set_reshape, View.set_slice, View.set_slice]
  refine (Finset.disjoint_map _).mpr ?_
  by_cases h0 : i.val / 16 = j.val / 16
  · refine Rect.unit_disjoint (1 : Fin 3) ?_
    show i.val % 16 + 1 ≤ j.val % 16 ∨ j.val % 16 + 1 ≤ i.val % 16
    have : i.val < j.val := hij
    omega
  · refine Rect.unit_disjoint (0 : Fin 3) ?_
    show i.val / 16 + 1 ≤ j.val / 16 ∨ j.val / 16 + 1 ≤ i.val / 16
    omega

omit [FloatOps F] in
theorem rWins_disjoint (m : Memref sig .scVector .vmem S2x2048 .i32) :
    Disjoint (((m.slice (Rect.unit (s := S2x2048) ![0, 0] S1x2048.size (inb_r 0 (ltc rfl))) (fun _ => rfl)).squeeze S2048 squeezes_S1x2048_S2048).view.set)
      (((m.slice (Rect.unit (s := S2x2048) ![1, 0] S1x2048.size (inb_r 1 (ltc rfl))) (fun _ => rfl)).squeeze S2048 squeezes_S1x2048_S2048).view.set) := by
  show Disjoint (((m.view.slice (Rect.unit (s := S2x2048) ![0, 0] S1x2048.size (inb_r 0 (ltc rfl)))).reshape S2048 squeezes_S1x2048_S2048.numel_eq).set)
    (((m.view.slice (Rect.unit (s := S2x2048) ![1, 0] S1x2048.size (inb_r 1 (ltc rfl)))).reshape S2048 squeezes_S1x2048_S2048.numel_eq).set)
  rw [View.set_reshape, View.set_reshape, View.set_slice, View.set_slice]
  refine (Finset.disjoint_map _).mpr (Rect.unit_disjoint (0 : Fin 2) ?_)
  show 0 + 1 ≤ 1 ∨ 1 + 1 ≤ 0
  omega

omit [FloatOps F] in
/-- A wait on one's own transfers recorded: still among the waits allowed. -/
theorem waits_ok {W W' : Waits sig (HIx 2)} (s : SemLoc sig) (hW' : ∀ p ∈ W', p ∈ W ∨ p.2 = none) :
    ∀ p ∈ insert (s, (none : HIx 2)) W', p ∈ W ∨ p.2 = none := by
  intro p hp
  rcases Finset.mem_insert.mp hp with rfl | hp
  · exact .inr rfl
  · exact hW' p hp

end Cert.Proof.KI.Pass1
end
-- ==== Proof.Pass1I.lean ====
/-
  The first SparseCore call's body at one vector subcore: the loops' invariants and the body's triple.
-/
import proofs.«210783_g59777354826199_cont_9to1_m_168_18_alg».proof.Proof.Pass1IB

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => 𝕄F F

variable (d : Dev nD) (L : grid0.Coords)

/-! ## A chunk's sixteen rows are a row's length apart -/

omit [FloatOps F] in
theorem sep3 (c c' : Fin 16) (h : c ≠ c') :
    (k0_off3 L (BitVec.ofNat 32 (2097152 * c.val))) 0 + 2048 ≤ (k0_off3 L (BitVec.ofNat 32 (2097152 * c'.val))) 0
      ∨ (k0_off3 L (BitVec.ofNat 32 (2097152 * c'.val))) 0 + 2048 ≤ (k0_off3 L (BitVec.ofNat 32 (2097152 * c.val))) 0 := by
  rw [k0_off3_eq, k0_off3_eq]
  have hne : c.val ≠ c'.val := fun e => h (Fin.ext e)
  simp only [Matrix.cons_val_zero]
  omega
omit [FloatOps F] in
theorem sep5 (c c' : Fin 16) (h : c ≠ c') :
    (k0_off5 L (BitVec.ofNat 32 (2097152 * c.val))) 0 + 2048 ≤ (k0_off5 L (BitVec.ofNat 32 (2097152 * c'.val))) 0
      ∨ (k0_off5 L (BitVec.ofNat 32 (2097152 * c'.val))) 0 + 2048 ≤ (k0_off5 L (BitVec.ofNat 32 (2097152 * c.val))) 0 := by
  rw [k0_off5_eq, k0_off5_eq]
  have hne : c.val ≠ c'.val := fun e => h (Fin.ext e)
  simp only [Matrix.cons_val_zero]
  omega
omit [FloatOps F] in
theorem sep75 (g : Fin k0_t2_loop.trips) (b : Fin 2) (c c' : Fin 16) (h : c ≠ c') :
    (k0_off75 L g (BitVec.ofNat 32 (2097152 * c.val)) (BitVec.ofNat 32 b.val)) 0 + 2048 ≤ (k0_off75 L g (BitVec.ofNat 32 (2097152 * c'.val)) (BitVec.ofNat 32 b.val)) 0
      ∨ (k0_off75 L g (BitVec.ofNat 32 (2097152 * c'.val)) (BitVec.ofNat 32 b.val)) 0 + 2048 ≤ (k0_off75 L g (BitVec.ofNat 32 (2097152 * c.val)) (BitVec.ofNat 32 b.val)) 0 := by
  rw [k0_off75_eq, k0_off75_eq]
  have hne : c.val ≠ c'.val := fun e => h (Fin.ext e)
  simp only [Matrix.cons_val_zero]
  omega

/-- An input's remainder and its two semaphores' read tokens: the input at its share. -/
theorem toks2_join {ℓ : Loc nD τ sig} (q : PosShare TreeShare) (f : Buf (Elt F) ℓ) :
    iprop((ℓ ↦{Transfers.shareDrop q 2} f) ∗ (ℓ ↦{Transfers.shareTok q 2 0} f) ∗ (ℓ ↦{Transfers.shareTok q 2 1} f)) ⊢ (ℓ ↦{q} f : sProp 𝕄) :=
  (show iprop((ℓ ↦{Transfers.shareDrop q 2} f) ∗ (ℓ ↦{Transfers.shareTok q 2 0} f) ∗ (ℓ ↦{Transfers.shareTok q 2 1} f)) ⊢ _
    from Entails.of_eq (by rw [BI.bigSep_fin_two]; rfl)).trans
    (Transfers.pointsTo_toks_join (Ix := HIx 2) (Name := ℕ) (U := UU) (Lvl := ℕ) q 2)

omit [FloatOps F] in
theorem tWins_pairwise : [(tSlot 0 (ltc rfl)).view.set, (tSlot 1 (ltc rfl)).view.set].Pairwise Disjoint := by
  refine List.Pairwise.cons ?_ (List.pairwise_singleton _ _)
  intro w hw
  rw [List.mem_singleton] at hw
  subst hw
  exact rWins_disjoint tB
omit [FloatOps F] in
theorem mWins_pairwise : [(mSlot 0 (ltc rfl)).view.set, (mSlot 1 (ltc rfl)).view.set].Pairwise Disjoint := by
  refine List.Pairwise.cons ?_ (List.pairwise_singleton _ _)
  intro w hw
  rw [List.mem_singleton] at hw
  subst hw
  exact rWins_disjoint mB

/-- What slot `b`'s batch holds while in flight, and what is left of the three inputs' read share `tok` of that slot's semaphore. -/
def inFlight (b : ℕ) (hb : b < 2) (sem : DmaSem sig) (tok : PosShare TreeShare)
    (e : Buf (Elt F) ((eW : Memref sig .scVector .hbm S33554432 .f32).view.loc (thr d L)))
    (t : Buf (Elt F) ((tW : Memref sig .scVector .hbm S2097152 .i32).view.loc (thr d L)))
    (k : Buf (Elt F) ((kW : Memref sig .scVector .hbm S2097152 .i32).view.loc (thr d L))) : sProp 𝕄 :=
  iprop(∃ (oe : Fin 16 → Fin 1 → ℕ) (he : PLift (∀ c a, oe c a + S2048.size a ≤ S33554432.size a))
      (ot : Fin 1 → ℕ) (hot : PLift (∀ a, ot a + S2048.size a ≤ S2097152.size a)) (tl : Buf (Elt F) ((tSlot b hb).view.loc (thr d L))),
    ⌜∀ c c' : Fin 16, c ≠ c' → oe c 0 + 2048 ≤ oe c' 0 ∨ oe c' 0 + 2048 ≤ oe c 0⌝
      ∗ ⌜∀ i ∈ (tSlot b hb).view.set, (tl i).toNat ≤ 63⌝
      ∗ Transfers.Batch (countersEmb (U := UU)) (thr d L) (.dma sem) none NB
        (deliv d L b hb oe he.down ot hot.down tok e t k tl) 18 0
      ∗ ((eW : Memref sig .scVector .hbm S33554432 .f32).view.loc (thr d L) ↦[(eWins d L oe he.down).foldl (· \ ·) Finset.univ]{tok} e)
      ∗ ((tW : Memref sig .scVector .hbm S2097152 .i32).view.loc (thr d L) ↦[Finset.univ \ (tSrc ot hot.down).view.set]{tok} t)
      ∗ ((kW : Memref sig .scVector .hbm S2097152 .i32).view.loc (thr d L) ↦[Finset.univ \ (kSrc ot hot.down).view.set]{tok} k))

/-- Before trip `g` of the chunk loop: both slots' batches in flight, both accumulators held whole, the thread's debt. -/
def invO (q : PosShare TreeShare)
    (e : Buf (Elt F) ((eW : Memref sig .scVector .hbm S33554432 .f32).view.loc (thr d L)))
    (t : Buf (Elt F) ((tW : Memref sig .scVector .hbm S2097152 .i32).view.loc (thr d L)))
    (k : Buf (Elt F) ((kW : Memref sig .scVector .hbm S2097152 .i32).view.loc (thr d L)))
    (O : CellTallies nD τ sig (HIx 2)) (W : Waits sig (HIx 2)) (_g : ℕ) (_acc : BitVec 32) : sProp 𝕄 :=
  iprop(Transfers.MayWaits (thr d L) none O
    ∗ (∃ f, (aB : Memref sig .scVector .vmem S16384 .f32).view.loc (thr d L) ↦{fullShare} f)
    ∗ (∃ f, (cB : Memref sig .scVector .vmem S1024 .f32).view.loc (thr d L) ↦{fullShare} f)
    ∗ inFlight d L 0 (ltc rfl) cc0_scratch5.sem (Transfers.shareTok q 2 0) e t k
    ∗ inFlight d L 1 (ltc rfl) cc0_scratch6.sem (Transfers.shareTok q 2 1) e t k
    ∗ ∃ W', ⌜∀ p ∈ W', p ∈ W ∨ p.2 = none⌝ ∗ owes (thr d L) O W')
set_option maxHeartbeats 4000000 in
set_option sl_exec.rejoinStated true in
/-- The first SparseCore call's body at one vector subcore, at the frame: its inputs back at their share, its two result rows and its own scratch and semaphores back. -/
theorem body (q : PosShare TreeShare)
    (e : Buf (Elt F) ((eW : Memref sig .scVector .hbm S33554432 .f32).view.loc (thr d L)))
    (t : Buf (Elt F) ((tW : Memref sig .scVector .hbm S2097152 .i32).view.loc (thr d L)))
    (k : Buf (Elt F) ((kW : Memref sig .scVector .hbm S2097152 .i32).view.loc (thr d L)))
    (ht : ∀ j, (t j).toNat ≤ 63)
    (O : CellTallies nD τ sig (HIx 2)) (W : Waits sig (HIx 2)) (hO : ∀ g, O g none = 0) :
    iprop(levAts (K (F := F)).L (K (F := F)).lev
        ∗ (((eW : Memref sig .scVector .hbm S33554432 .f32).view.loc (thr d L) ↦{q} e)
          ∗ ((tW : Memref sig .scVector .hbm S2097152 .i32).view.loc (thr d L) ↦{q} t)
          ∗ ((kW : Memref sig .scVector .hbm S2097152 .i32).view.loc (thr d L) ↦{q} k)
          ∗ (∃ f, (o0Row L).view.loc (thr d L) ↦[(o0Row L).view.set]{fullShare} f)
          ∗ (∃ f, (o1Row L).view.loc (thr d L) ↦[(o1Row L).view.set]{fullShare} f))
        ∗ scopedBufs (thr d L) ∗ scopedSems0 (thr d L) ∗ owes (thr d L) O W : sProp 𝕄)
      ⊢ wp frame (wpE (defs₀ (F := F)) 𝒱₀ (thr d L) none) Set.univ
          (cc0__sc_pass1 L eW (Memref.isWhole_whole _) tW (Memref.isWhole_whole _) kW (Memref.isWhole_whole _)
            o0W (Memref.isWhole_whole _) o1W (Memref.isWhole_whole _) xB (Memref.isWhole_whole _) tB (Memref.isWhole_whole _)
            mB (Memref.isWhole_whole _) aB (Memref.isWhole_whole _) cB (Memref.isWhole_whole _) cc0_scratch5 cc0_scratch6 cc0_scoped0 cc0_scoped1)
          fun _ => iprop((((eW : Memref sig .scVector .hbm S33554432 .f32).view.loc (thr d L) ↦{q} e)
          ∗ ((tW : Memref sig .scVector .hbm S2097152 .i32).view.loc (thr d L) ↦{q} t)
          ∗ ((kW : Memref sig .scVector .hbm S2097152 .i32).view.loc (thr d L) ↦{q} k)
          ∗ (∃ f, (o0Row L).view.loc (thr d L) ↦[(o0Row L).view.set]{fullShare} f)
          ∗ (∃ f, (o1Row L).view.loc (thr d L) ↦[(o1Row L).view.set]{fullShare} f))
            ∗ scopedBufs (thr d L) ∗ scopedSems0 (thr d L) ∗ ∃ W', ⌜∀ p ∈ W', p ∈ W ∨ p.2 = none⌝ ∗ owes (thr d L) O W') := by
  rw [cc0__sc_pass1_eq_skeleton]; unfold cc0__sc_pass1_skel
  rw [(K (F := F)).scopedBufs_V facts d (cV L) (jV L), SparseCore.Cfg.scopedSems0_V (Val := Elt F) d (cV L) (jV L), ownSems0_V, ownBufs_V]
  iintro ⟨#Hlv, ⟨He, Ht, Hk, ⟨%f0, Ho0⟩, ⟨%f1, Ho1⟩⟩, ⟨⟨%fx, Hx⟩, ⟨%ft, Htb⟩, ⟨%fm, Hmb⟩, ⟨%fa, Ha⟩, ⟨%fc, Hc⟩, Hbufs⟩, ⟨Hs0, Hs1, Hr0, Hr1, Hsems⟩, HO⟩
  ihave Hmw := ((K (F := F)).mayWaits_none (thr := thr d L) hO) $$ Hlv
  ihave Hx' := (Entails.of_eq (pts_x (F := F) d L _).symm) $$ Hx
  ihave Htb' := (Entails.of_eq (pts_t (F := F) d L _).symm) $$ Htb
  ihave Hmb' := (Entails.of_eq (pts_m (F := F) d L _).symm) $$ Hmb
  ihave Ha' := (Entails.of_eq (pts_a (F := F) d L _).symm) $$ Ha
  ihave Hc' := (Entails.of_eq (pts_c (F := F) d L _).symm) $$ Hc
  sl_exec
  -- the zeroing loop
  sl_for (invZ (F := F) d L) $$ [Ha' Hc']
  case region =>
    intro k0 _
    unfold invZ
    iintro ⟨⟨%fa', Ha⟩, ⟨%fc', Hc⟩⟩
    sl_exec
    sl_step
    isplitl [Ha]; · iexists _; iexact Ha
    iexists _; iexact Hc
  · unfold invZ
    isplitl [Ha']; · iexists _; iexact Ha'
    iexists _; iexact Hc'
  iintro %_ HI
  unfold invZ
  icases HI with ⟨⟨%fa', Ha⟩, ⟨%fc', Hc⟩⟩
  -- each input as the remainder and one read token per semaphore
  ihave Hes := ((Transfers.pointsTo_toks_split (Ix := HIx 2) (Name := ℕ) (U := UU) (Lvl := ℕ) q 2).trans
    (show _ ⊢ iprop(((eW : Memref sig .scVector .hbm S33554432 .f32).view.loc (thr d L) ↦{Transfers.shareDrop q 2} e) ∗ ((eW : Memref sig .scVector .hbm S33554432 .f32).view.loc (thr d L) ↦{Transfers.shareTok q 2 0} e) ∗ ((eW : Memref sig .scVector .hbm S33554432 .f32).view.loc (thr d L) ↦{Transfers.shareTok q 2 1} e) : sProp 𝕄)
      from Entails.of_eq (by rw [BI.bigSep_fin_two]; rfl))) $$ He
  icases Hes with ⟨Her, He0, He1⟩
  ihave Hts := ((Transfers.pointsTo_toks_split (Ix := HIx 2) (Name := ℕ) (U := UU) (Lvl := ℕ) q 2).trans
    (show _ ⊢ iprop(((tW : Memref sig .scVector .hbm S2097152 .i32).view.loc (thr d L) ↦{Transfers.shareDrop q 2} t) ∗ ((tW : Memref sig .scVector .hbm S2097152 .i32).view.loc (thr d L) ↦{Transfers.shareTok q 2 0} t) ∗ ((tW : Memref sig .scVector .hbm S2097152 .i32).view.loc (thr d L) ↦{Transfers.shareTok q 2 1} t) : sProp 𝕄)
      from Entails.of_eq (by rw [BI.bigSep_fin_two]; rfl))) $$ Ht
  icases Hts with ⟨Htr, Ht0, Ht1⟩
  ihave Hks := ((Transfers.pointsTo_toks_split (Ix := HIx 2) (Name := ℕ) (U := UU) (Lvl := ℕ) q 2).trans
    (show _ ⊢ iprop(((kW : Memref sig .scVector .hbm S2097152 .i32).view.loc (thr d L) ↦{Transfers.shareDrop q 2} k) ∗ ((kW : Memref sig .scVector .hbm S2097152 .i32).view.loc (thr d L) ↦{Transfers.shareTok q 2 0} k) ∗ ((kW : Memref sig .scVector .hbm S2097152 .i32).view.loc (thr d L) ↦{Transfers.shareTok q 2 1} k) : sProp 𝕄)
      from Entails.of_eq (by rw [BI.bigSep_fin_two]; rfl))) $$ Hk
  icases Hks with ⟨Hkr, Hk0, Hk1⟩
  -- the two prologue batches
  imod (Transfers.batch_alloc' (Lvl := ℕ) (countersEmb (U := UU)) (thr d L) none NB
      (deliv d L 0 (ltc rfl) (fun c => k0_off3 L (BitVec.ofNat 32 (2097152 * c.val))) (fun c => k0_off3_inb L c) (k0_off4 L) (k0_off4_inb L) (Transfers.shareTok q 2 0) e t k (tLanded d L 0 (ltc rfl) (k0_off4 L) (k0_off4_inb L) t ft))
      (sm := .dma cc0_scratch5.sem) (E := Set.univ)) $$ Hs0 with HB0
  imod (Transfers.batch_alloc' (Lvl := ℕ) (countersEmb (U := UU)) (thr d L) none NB
      (deliv d L 1 (ltc rfl) (fun c => k0_off5 L (BitVec.ofNat 32 (2097152 * c.val))) (fun c => k0_off5_inb L c) (k0_off6 L) (k0_off6_inb L) (Transfers.shareTok q 2 1) e t k (tLanded d L 1 (ltc rfl) (k0_off6 L) (k0_off6_inb L) t (tLanded d L 0 (ltc rfl) (k0_off4 L) (k0_off4_inb L) t ft)))
      (sm := .dma cc0_scratch6.sem) (E := Set.univ)) $$ Hs1 with HB1
  sl_exec
  -- the chunk loop
  sl_for (invO (F := F) d L q e t k O W) $$ [Hmw Ha Hc HB0 HB1 He0 He1 Ht0 Ht1 Hk0 Hk1 HO]
  case region =>
    intro g _
    unfold invO inFlight
    iintro ⟨#Hmw, ⟨%fa2, Ha⟩, ⟨%fc2, Hc⟩, ⟨%oe0, %he0, %ot0, %hot0, %tl0, %hs0, %htl0, HB0, He0, Ht0, Hk0⟩, ⟨%oe1, %he1, %ot1, %hot1, %tl1, %hs1, %htl1, HB1, He1, Ht1, Hk1⟩, %W', %hW', HO⟩
    sl_exec
    -- slot 0: the landed rows opened, the targets' range, the scatter loop, the chunk rows joined back, the next batch
    icases HB0_dst0 with ⟨%gx0_0, HB0_dst0⟩
    icases HB0_dst1 with ⟨%gx0_1, HB0_dst1⟩
    icases HB0_dst2 with ⟨%gx0_2, HB0_dst2⟩
    icases HB0_dst3 with ⟨%gx0_3, HB0_dst3⟩
    icases HB0_dst4 with ⟨%gx0_4, HB0_dst4⟩
    icases HB0_dst5 with ⟨%gx0_5, HB0_dst5⟩
    icases HB0_dst6 with ⟨%gx0_6, HB0_dst6⟩
    icases HB0_dst7 with ⟨%gx0_7, HB0_dst7⟩
    icases HB0_dst8 with ⟨%gx0_8, HB0_dst8⟩
    icases HB0_dst9 with ⟨%gx0_9, HB0_dst9⟩
    icases HB0_dst10 with ⟨%gx0_10, HB0_dst10⟩
    icases HB0_dst11 with ⟨%gx0_11, HB0_dst11⟩
    icases HB0_dst12 with ⟨%gx0_12, HB0_dst12⟩
    icases HB0_dst13 with ⟨%gx0_13, HB0_dst13⟩
    icases HB0_dst14 with ⟨%gx0_14, HB0_dst14⟩
    icases HB0_dst15 with ⟨%gx0_15, HB0_dst15⟩
    icases HB0_dst17 with ⟨%gm0, HB0_dst17⟩
    ihave Htl := (tl_bound d L 0 (ltc rfl) tl0 htl0) $$ HB0_dst16
    icases Htl with ⟨%ft0', %hft0, HB0_dst16⟩
    sl_for (invI d L 0 (ltc rfl) ![gx0_0, gx0_1, gx0_2, gx0_3, gx0_4, gx0_5, gx0_6, gx0_7, gx0_8, gx0_9, gx0_10, gx0_11, gx0_12, gx0_13, gx0_14, gx0_15] ft0' gm0) $$ [Ha Hc HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB0_dst16 HB0_dst17]
    case region => exact fun kk acc => region3 (F := F) d L _ _ (fun x => iota_lt x) _ g _ _ _ _ _ ft0' hft0 gm0 kk acc
    · unfold invI
      isplitl [Ha]; · iexists _; iexact Ha
      isplitl [Hc]; · iexists _; iexact Hc
      isplitl [HB0_dst0]; · iexact HB0_dst0
      isplitl [HB0_dst1]; · iexact HB0_dst1
      isplitl [HB0_dst2]; · iexact HB0_dst2
      isplitl [HB0_dst3]; · iexact HB0_dst3
      isplitl [HB0_dst4]; · iexact HB0_dst4
      isplitl [HB0_dst5]; · iexact HB0_dst5
      isplitl [HB0_dst6]; · iexact HB0_dst6
      isplitl [HB0_dst7]; · iexact HB0_dst7
      isplitl [HB0_dst8]; · iexact HB0_dst8
      isplitl [HB0_dst9]; · iexact HB0_dst9
      isplitl [HB0_dst10]; · iexact HB0_dst10
      isplitl [HB0_dst11]; · iexact HB0_dst11
      isplitl [HB0_dst12]; · iexact HB0_dst12
      isplitl [HB0_dst13]; · iexact HB0_dst13
      isplitl [HB0_dst14]; · iexact HB0_dst14
      isplitl [HB0_dst15]; · iexact HB0_dst15
      isplitl [HB0_dst16]; · iexact HB0_dst16
      iexact HB0_dst17
    iintro %_ HI
    unfold invI
    icases HI with ⟨⟨%fa03, Ha⟩, ⟨%fc03, Hc⟩, HB0_dst0, HB0_dst1, HB0_dst2, HB0_dst3, HB0_dst4, HB0_dst5, HB0_dst6, HB0_dst7, HB0_dst8, HB0_dst9, HB0_dst10, HB0_dst11, HB0_dst12, HB0_dst13, HB0_dst14, HB0_dst15, HB0_dst16, HB0_dst17⟩
    ihave He0 := (pointsTo_less_join (F := F) (Transfers.shareTok q 2 0) e (eWins d L oe0 he0.down) Finset.univ (fun _ _ => Finset.subset_univ _)
      (eWins_pairwise d L oe0 he0.down hs0)) $$ [He0 HB0_src0 HB0_src1 HB0_src2 HB0_src3 HB0_src4 HB0_src5 HB0_src6 HB0_src7 HB0_src8 HB0_src9 HB0_src10 HB0_src11 HB0_src12 HB0_src13 HB0_src14 HB0_src15]
    · isplitl [He0]; · iexact He0
      simp only [sepAll]
      isplitl [HB0_src0]; · iexact HB0_src0
      isplitl [HB0_src1]; · iexact HB0_src1
      isplitl [HB0_src2]; · iexact HB0_src2
      isplitl [HB0_src3]; · iexact HB0_src3
      isplitl [HB0_src4]; · iexact HB0_src4
      isplitl [HB0_src5]; · iexact HB0_src5
      isplitl [HB0_src6]; · iexact HB0_src6
      isplitl [HB0_src7]; · iexact HB0_src7
      isplitl [HB0_src8]; · iexact HB0_src8
      isplitl [HB0_src9]; · iexact HB0_src9
      isplitl [HB0_src10]; · iexact HB0_src10
      isplitl [HB0_src11]; · iexact HB0_src11
      isplitl [HB0_src12]; · iexact HB0_src12
      isplitl [HB0_src13]; · iexact HB0_src13
      isplitl [HB0_src14]; · iexact HB0_src14
      isplitl [HB0_src15]; · iexact HB0_src15
      iempintro
    ihave Ht0 := (Entails.of_eq (show ((tSrc ot0 hot0.down).view.loc (thr d L) ↦{(Transfers.shareTok q 2 0)} t : sProp 𝕄) = ((tW : Memref sig .scVector .hbm S2097152 .i32).view.loc (thr d L) ↦{(Transfers.shareTok q 2 0)} t) from rfl)) $$ Ht0
    ihave Hk0 := (Entails.of_eq (show ((kSrc ot0 hot0.down).view.loc (thr d L) ↦{(Transfers.shareTok q 2 0)} k : sProp 𝕄) = ((kW : Memref sig .scVector .hbm S2097152 .i32).view.loc (thr d L) ↦{(Transfers.shareTok q 2 0)} k) from rfl)) $$ Hk0
    ihave HB0 := (Entails.of_eq (show (semVal (thr d L, SemLoc.dma (⟨0, ltc rfl⟩ : DmaSem sig)) 0 : sProp 𝕄) = semVal (s0cell d L) 0 from rfl)) $$ HB0
    imod (Transfers.batch_alloc' (Lvl := ℕ) (countersEmb (U := UU)) (thr d L) none NB
      (deliv d L 0 (ltc rfl) (fun c => k0_off75 L g (BitVec.ofNat 32 (2097152 * c.val)) 0#32) (fun c => k0_off75_inb L g c 0) (k0_off76 L g 0#32) (k0_off76_inb L g 0) (Transfers.shareTok q 2 0) e t k (tLandedL d L 0 (ltc rfl) (k0_off76 L g 0#32) (k0_off76_inb L g 0) t ft0'))
      (sm := .dma cc0_scratch5.sem) (E := Set.univ)) $$ HB0 with HB0
    sl_exec
    -- slot 1: the landed rows opened, the targets' range, the scatter loop, the chunk rows joined back, the next batch
    icases HB1_dst0 with ⟨%gx1_0, HB1_dst0⟩
    icases HB1_dst1 with ⟨%gx1_1, HB1_dst1⟩
    icases HB1_dst2 with ⟨%gx1_2, HB1_dst2⟩
    icases HB1_dst3 with ⟨%gx1_3, HB1_dst3⟩
    icases HB1_dst4 with ⟨%gx1_4, HB1_dst4⟩
    icases HB1_dst5 with ⟨%gx1_5, HB1_dst5⟩
    icases HB1_dst6 with ⟨%gx1_6, HB1_dst6⟩
    icases HB1_dst7 with ⟨%gx1_7, HB1_dst7⟩
    icases HB1_dst8 with ⟨%gx1_8, HB1_dst8⟩
    icases HB1_dst9 with ⟨%gx1_9, HB1_dst9⟩
    icases HB1_dst10 with ⟨%gx1_10, HB1_dst10⟩
    icases HB1_dst11 with ⟨%gx1_11, HB1_dst11⟩
    icases HB1_dst12 with ⟨%gx1_12, HB1_dst12⟩
    icases HB1_dst13 with ⟨%gx1_13, HB1_dst13⟩
    icases HB1_dst14 with ⟨%gx1_14, HB1_dst14⟩
    icases HB1_dst15 with ⟨%gx1_15, HB1_dst15⟩
    icases HB1_dst17 with ⟨%gm1, HB1_dst17⟩
    ihave Htl := (tl_bound d L 1 (ltc rfl) tl1 htl1) $$ HB1_dst16
    icases Htl with ⟨%ft1', %hft1, HB1_dst16⟩
    sl_for (invI d L 1 (ltc rfl) ![gx1_0, gx1_1, gx1_2, gx1_3, gx1_4, gx1_5, gx1_6, gx1_7, gx1_8, gx1_9, gx1_10, gx1_11, gx1_12, gx1_13, gx1_14, gx1_15] ft1' gm1) $$ [Ha Hc HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15 HB1_dst16 HB1_dst17]
    case region => exact fun kk acc => region4 (F := F) d L _ _ (fun x => iota_lt x) _ g _ _ _ _ _ ft1' hft1 gm1 kk acc
    · unfold invI
      isplitl [Ha]; · iexists _; iexact Ha
      isplitl [Hc]; · iexists _; iexact Hc
      isplitl [HB1_dst0]; · iexact HB1_dst0
      isplitl [HB1_dst1]; · iexact HB1_dst1
      isplitl [HB1_dst2]; · iexact HB1_dst2
      isplitl [HB1_dst3]; · iexact HB1_dst3
      isplitl [HB1_dst4]; · iexact HB1_dst4
      isplitl [HB1_dst5]; · iexact HB1_dst5
      isplitl [HB1_dst6]; · iexact HB1_dst6
      isplitl [HB1_dst7]; · iexact HB1_dst7
      isplitl [HB1_dst8]; · iexact HB1_dst8
      isplitl [HB1_dst9]; · iexact HB1_dst9
      isplitl [HB1_dst10]; · iexact HB1_dst10
      isplitl [HB1_dst11]; · iexact HB1_dst11
      isplitl [HB1_dst12]; · iexact HB1_dst12
      isplitl [HB1_dst13]; · iexact HB1_dst13
      isplitl [HB1_dst14]; · iexact HB1_dst14
      isplitl [HB1_dst15]; · iexact HB1_dst15
      isplitl [HB1_dst16]; · iexact HB1_dst16
      iexact HB1_dst17
    iintro %_ HI
    unfold invI
    icases HI with ⟨⟨%fa13, Ha⟩, ⟨%fc13, Hc⟩, HB1_dst0, HB1_dst1, HB1_dst2, HB1_dst3, HB1_dst4, HB1_dst5, HB1_dst6, HB1_dst7, HB1_dst8, HB1_dst9, HB1_dst10, HB1_dst11, HB1_dst12, HB1_dst13, HB1_dst14, HB1_dst15, HB1_dst16, HB1_dst17⟩
    ihave He1 := (pointsTo_less_join (F := F) (Transfers.shareTok q 2 1) e (eWins d L oe1 he1.down) Finset.univ (fun _ _ => Finset.subset_univ _)
      (eWins_pairwise d L oe1 he1.down hs1)) $$ [He1 HB1_src0 HB1_src1 HB1_src2 HB1_src3 HB1_src4 HB1_src5 HB1_src6 HB1_src7 HB1_src8 HB1_src9 HB1_src10 HB1_src11 HB1_src12 HB1_src13 HB1_src14 HB1_src15]
    · isplitl [He1]; · iexact He1
      simp only [sepAll]
      isplitl [HB1_src0]; · iexact HB1_src0
      isplitl [HB1_src1]; · iexact HB1_src1
      isplitl [HB1_src2]; · iexact HB1_src2
      isplitl [HB1_src3]; · iexact HB1_src3
      isplitl [HB1_src4]; · iexact HB1_src4
      isplitl [HB1_src5]; · iexact HB1_src5
      isplitl [HB1_src6]; · iexact HB1_src6
      isplitl [HB1_src7]; · iexact HB1_src7
      isplitl [HB1_src8]; · iexact HB1_src8
      isplitl [HB1_src9]; · iexact HB1_src9
      isplitl [HB1_src10]; · iexact HB1_src10
      isplitl [HB1_src11]; · iexact HB1_src11
      isplitl [HB1_src12]; · iexact HB1_src12
      isplitl [HB1_src13]; · iexact HB1_src13
      isplitl [HB1_src14]; · iexact HB1_src14
      isplitl [HB1_src15]; · iexact HB1_src15
      iempintro
    ihave Ht1 := (Entails.of_eq (show ((tSrc ot1 hot1.down).view.loc (thr d L) ↦{(Transfers.shareTok q 2 1)} t : sProp 𝕄) = ((tW : Memref sig .scVector .hbm S2097152 .i32).view.loc (thr d L) ↦{(Transfers.shareTok q 2 1)} t) from rfl)) $$ Ht1
    ihave Hk1 := (Entails.of_eq (show ((kSrc ot1 hot1.down).view.loc (thr d L) ↦{(Transfers.shareTok q 2 1)} k : sProp 𝕄) = ((kW : Memref sig .scVector .hbm S2097152 .i32).view.loc (thr d L) ↦{(Transfers.shareTok q 2 1)} k) from rfl)) $$ Hk1
    ihave HB1 := (Entails.of_eq (show (semVal (thr d L, SemLoc.dma (⟨1, ltc rfl⟩ : DmaSem sig)) 0 : sProp 𝕄) = semVal (s1cell d L) 0 from rfl)) $$ HB1
    imod (Transfers.batch_alloc' (Lvl := ℕ) (countersEmb (U := UU)) (thr d L) none NB
      (deliv d L 1 (ltc rfl) (fun c => k0_off75 L g (BitVec.ofNat 32 (2097152 * c.val)) 1#32) (fun c => k0_off75_inb L g c 1) (k0_off76 L g 1#32) (k0_off76_inb L g 1) (Transfers.shareTok q 2 1) e t k (tLandedL d L 1 (ltc rfl) (k0_off76 L g 1#32) (k0_off76_inb L g 1) t ft1'))
      (sm := .dma cc0_scratch6.sem) (E := Set.univ)) $$ HB1 with HB1
    sl_exec
    sl_exec
    sl_step
    isplitl [Hmw]; · iexact Hmw
    isplitl [Ha]; · iexists _; iexact Ha
    isplitl [Hc]; · iexists _; iexact Hc
    isplitl [HB0 He0 Ht0 Hk0]
    · iexists (fun c => k0_off75 L g (BitVec.ofNat 32 (2097152 * c.val)) 0#32), ⟨(fun c => k0_off75_inb L g c 0)⟩, (k0_off76 L g 0#32), ⟨k0_off76_inb L g 0⟩, (tLandedL d L 0 (ltc rfl) (k0_off76 L g 0#32) (k0_off76_inb L g 0) t ft0')
      isplitr; · ipureintro; exact sep75 L g 0
      isplitr; · ipureintro; exact writes_ok d L 0 (ltc rfl) _ _ (read_ok d L _ _ t ht)
      isplitl [HB0]; · iexact HB0
      isplitl [He0]; · iexact He0
      isplitl [Ht0]; · iexact Ht0
      iexact Hk0
    isplitl [HB1 He1 Ht1 Hk1]
    · iexists (fun c => k0_off75 L g (BitVec.ofNat 32 (2097152 * c.val)) 1#32), ⟨(fun c => k0_off75_inb L g c 1)⟩, (k0_off76 L g 1#32), ⟨k0_off76_inb L g 1⟩, (tLandedL d L 1 (ltc rfl) (k0_off76 L g 1#32) (k0_off76_inb L g 1) t ft1')
      isplitr; · ipureintro; exact sep75 L g 1
      isplitr; · ipureintro; exact writes_ok d L 1 (ltc rfl) _ _ (read_ok d L _ _ t ht)
      isplitl [HB1]; · iexact HB1
      isplitl [He1]; · iexact He1
      isplitl [Ht1]; · iexact Ht1
      iexact Hk1
    iexists _
    isplitr
    on_goal 2 => iexact HO
    ipureintro
    repeat (first | exact hW' | apply waits_ok)
  · unfold invO inFlight
    isplitl [Hmw]; · iexact Hmw
    isplitl [Ha]; · iexists _; iexact Ha
    isplitl [Hc]; · iexists _; iexact Hc
    isplitl [HB0 He0 Ht0 Hk0]
    · iexists (fun c => k0_off3 L (BitVec.ofNat 32 (2097152 * c.val))), ⟨fun c => k0_off3_inb L c⟩, (k0_off4 L), ⟨k0_off4_inb L⟩, (tLanded d L 0 (ltc rfl) (k0_off4 L) (k0_off4_inb L) t ft)
      isplitr; · ipureintro; exact sep3 L
      isplitr; · ipureintro; exact write_ok d L 0 (ltc rfl) _ _ (read_ok d L _ _ t ht)
      isplitl [HB0]; · iexact HB0
      isplitl [He0]; · iexact He0
      isplitl [Ht0]; · iexact Ht0
      iexact Hk0
    isplitl [HB1 He1 Ht1 Hk1]
    · iexists (fun c => k0_off5 L (BitVec.ofNat 32 (2097152 * c.val))), ⟨fun c => k0_off5_inb L c⟩, (k0_off6 L), ⟨k0_off6_inb L⟩, (tLanded d L 1 (ltc rfl) (k0_off6 L) (k0_off6_inb L) t (tLanded d L 0 (ltc rfl) (k0_off4 L) (k0_off4_inb L) t ft))
      isplitr; · ipureintro; exact sep5 L
      isplitr; · ipureintro; exact write_ok d L 1 (ltc rfl) _ _ (read_ok d L _ _ t ht)
      isplitl [HB1]; · iexact HB1
      isplitl [He1]; · iexact He1
      isplitl [Ht1]; · iexact Ht1
      iexact Hk1
    iexists W; isplitr
    · ipureintro; exact fun p hp => .inl hp
    · iexact HO
  iintro %_ HI
  unfold invO inFlight
  icases HI with ⟨#Hmw2, ⟨%fa4, Ha⟩, ⟨%fc4, Hc⟩, ⟨%oe0, %he0, %ot0, %hot0, %tl0, %hs0, %htl0, HB0, He0, Ht0, Hk0⟩, ⟨%oe1, %he1, %ot1, %hot1, %tl1, %hs1, %htl1, HB1, He1, Ht1, Hk1⟩, %W', %hW', HO⟩
  sl_exec
  sl_step
  ihave He0 := (pointsTo_less_join (F := F) (Transfers.shareTok q 2 0) e (eWins d L oe0 he0.down) Finset.univ (fun _ _ => Finset.subset_univ _)
    (eWins_pairwise d L oe0 he0.down hs0)) $$ [He0 HB0_src0 HB0_src1 HB0_src2 HB0_src3 HB0_src4 HB0_src5 HB0_src6 HB0_src7 HB0_src8 HB0_src9 HB0_src10 HB0_src11 HB0_src12 HB0_src13 HB0_src14 HB0_src15]
  · isplitl [He0]; · iexact He0
    simp only [sepAll]
    isplitl [HB0_src0]; · iexact HB0_src0
    isplitl [HB0_src1]; · iexact HB0_src1
    isplitl [HB0_src2]; · iexact HB0_src2
    isplitl [HB0_src3]; · iexact HB0_src3
    isplitl [HB0_src4]; · iexact HB0_src4
    isplitl [HB0_src5]; · iexact HB0_src5
    isplitl [HB0_src6]; · iexact HB0_src6
    isplitl [HB0_src7]; · iexact HB0_src7
    isplitl [HB0_src8]; · iexact HB0_src8
    isplitl [HB0_src9]; · iexact HB0_src9
    isplitl [HB0_src10]; · iexact HB0_src10
    isplitl [HB0_src11]; · iexact HB0_src11
    isplitl [HB0_src12]; · iexact HB0_src12
    isplitl [HB0_src13]; · iexact HB0_src13
    isplitl [HB0_src14]; · iexact HB0_src14
    isplitl [HB0_src15]; · iexact HB0_src15
    iempintro
  ihave He1 := (pointsTo_less_join (F := F) (Transfers.shareTok q 2 1) e (eWins d L oe1 he1.down) Finset.univ (fun _ _ => Finset.subset_univ _)
    (eWins_pairwise d L oe1 he1.down hs1)) $$ [He1 HB1_src0 HB1_src1 HB1_src2 HB1_src3 HB1_src4 HB1_src5 HB1_src6 HB1_src7 HB1_src8 HB1_src9 HB1_src10 HB1_src11 HB1_src12 HB1_src13 HB1_src14 HB1_src15]
  · isplitl [He1]; · iexact He1
    simp only [sepAll]
    isplitl [HB1_src0]; · iexact HB1_src0
    isplitl [HB1_src1]; · iexact HB1_src1
    isplitl [HB1_src2]; · iexact HB1_src2
    isplitl [HB1_src3]; · iexact HB1_src3
    isplitl [HB1_src4]; · iexact HB1_src4
    isplitl [HB1_src5]; · iexact HB1_src5
    isplitl [HB1_src6]; · iexact HB1_src6
    isplitl [HB1_src7]; · iexact HB1_src7
    isplitl [HB1_src8]; · iexact HB1_src8
    isplitl [HB1_src9]; · iexact HB1_src9
    isplitl [HB1_src10]; · iexact HB1_src10
    isplitl [HB1_src11]; · iexact HB1_src11
    isplitl [HB1_src12]; · iexact HB1_src12
    isplitl [HB1_src13]; · iexact HB1_src13
    isplitl [HB1_src14]; · iexact HB1_src14
    isplitl [HB1_src15]; · iexact HB1_src15
    iempintro
  -- the inputs back at their share, the result rows
  isplitl [He0 He1 Her Ht0 Ht1 Htr Hk0 Hk1 Hkr Ho0 Ho1]
  · isplitl [He0 He1 Her]
    · iapply (toks2_join (F := F) q e)
      isplitl [Her]; · iexact Her
      isplitl [He0]; · iexact He0
      iexact He1
    isplitl [Ht0 Ht1 Htr]
    · iapply (toks2_join (F := F) q t)
      isplitl [Htr]; · iexact Htr
      isplitl [Ht0]; · iexact Ht0
      iexact Ht1
    isplitl [Hk0 Hk1 Hkr]
    · iapply (toks2_join (F := F) q k)
      isplitl [Hkr]; · iexact Hkr
      isplitl [Hk0]; · iexact Hk0
      iexact Hk1
    isplitl [Ho0]; · iexists _; iexact Ho0
    iexists _; iexact Ho1
  -- the scratch buffers, their slot rows joined back
  isplitl [Hx' Htb' Hmb' Ha Hc Hbufs HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15 HB0_dst16 HB1_dst16 HB0_dst17 HB1_dst17]
  · isplitl [Hx' HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15]
    · ihave Hx := (pointsTo_less_joinE (F := F) fullShare (xWins d L) Finset.univ (fun _ _ => Finset.subset_univ _) (xWins_pairwise d L)) $$ [Hx' HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15]
      · isplitl [Hx']; · iexists _; iexact Hx'
        simp only [sepAllE]
        isplitl [HB0_dst0]; · iexact HB0_dst0
        isplitl [HB0_dst1]; · iexact HB0_dst1
        isplitl [HB0_dst2]; · iexact HB0_dst2
        isplitl [HB0_dst3]; · iexact HB0_dst3
        isplitl [HB0_dst4]; · iexact HB0_dst4
        isplitl [HB0_dst5]; · iexact HB0_dst5
        isplitl [HB0_dst6]; · iexact HB0_dst6
        isplitl [HB0_dst7]; · iexact HB0_dst7
        isplitl [HB0_dst8]; · iexact HB0_dst8
        isplitl [HB0_dst9]; · iexact HB0_dst9
        isplitl [HB0_dst10]; · iexact HB0_dst10
        isplitl [HB0_dst11]; · iexact HB0_dst11
        isplitl [HB0_dst12]; · iexact HB0_dst12
        isplitl [HB0_dst13]; · iexact HB0_dst13
        isplitl [HB0_dst14]; · iexact HB0_dst14
        isplitl [HB0_dst15]; · iexact HB0_dst15
        isplitl [HB1_dst0]; · iexact HB1_dst0
        isplitl [HB1_dst1]; · iexact HB1_dst1
        isplitl [HB1_dst2]; · iexact HB1_dst2
        isplitl [HB1_dst3]; · iexact HB1_dst3
        isplitl [HB1_dst4]; · iexact HB1_dst4
        isplitl [HB1_dst5]; · iexact HB1_dst5
        isplitl [HB1_dst6]; · iexact HB1_dst6
        isplitl [HB1_dst7]; · iexact HB1_dst7
        isplitl [HB1_dst8]; · iexact HB1_dst8
        isplitl [HB1_dst9]; · iexact HB1_dst9
        isplitl [HB1_dst10]; · iexact HB1_dst10
        isplitl [HB1_dst11]; · iexact HB1_dst11
        isplitl [HB1_dst12]; · iexact HB1_dst12
        isplitl [HB1_dst13]; · iexact HB1_dst13
        isplitl [HB1_dst14]; · iexact HB1_dst14
        isplitl [HB1_dst15]; · iexact HB1_dst15
        iempintro
      icases Hx with ⟨%fxx, Hx⟩
      iexists fxx; iexact Hx
    isplitl [Htb' HB0_dst16 HB1_dst16]
    · ihave Htb := (pointsTo_less_joinE (F := F) (ℓ := (tB : Memref sig .scVector .vmem S2x2048 .i32).view.loc (thr d L)) fullShare [(tSlot 0 (ltc rfl)).view.set, (tSlot 1 (ltc rfl)).view.set] Finset.univ
        (fun _ _ => Finset.subset_univ _) tWins_pairwise) $$ [Htb' HB0_dst16 HB1_dst16]
      · isplitl [Htb']; · iexists _; iexact Htb'
        simp only [sepAllE]
        isplitl [HB0_dst16]; · iexists _; iexact HB0_dst16
        isplitl [HB1_dst16]; · iexists _; iexact HB1_dst16
        iempintro
      icases Htb with ⟨%ftt, Htb⟩
      iexists ftt; iexact Htb
    isplitl [Hmb' HB0_dst17 HB1_dst17]
    · ihave Hmb := (pointsTo_less_joinE (F := F) (ℓ := (mB : Memref sig .scVector .vmem S2x2048 .i32).view.loc (thr d L)) fullShare [(mSlot 0 (ltc rfl)).view.set, (mSlot 1 (ltc rfl)).view.set] Finset.univ
        (fun _ _ => Finset.subset_univ _) mWins_pairwise) $$ [Hmb' HB0_dst17 HB1_dst17]
      · isplitl [Hmb']; · iexists _; iexact Hmb'
        simp only [sepAllE]
        isplitl [HB0_dst17]; · iexact HB0_dst17
        isplitl [HB1_dst17]; · iexact HB1_dst17
        iempintro
      icases Hmb with ⟨%fmm, Hmb⟩
      iexists fmm; iexact Hmb
    isplitl [Ha]; · iexists _; iexact Ha
    isplitl [Hc]; · iexists _; iexact Hc
    iexact Hbufs
  -- the semaphores at zero
  isplitl [HB0 HB1 Hr0 Hr1 Hsems]
  · isplitl [HB0]; · iexact HB0
    isplitl [HB1]; · iexact HB1
    isplitl [Hr0]; · iexact Hr0
    isplitl [Hr1]; · iexact Hr1
    iexact Hsems
  iexists _
  isplitr
  on_goal 2 => iexact HO
  ipureintro
  repeat (first | exact hW' | apply waits_ok)

end Cert.Proof.KI.Pass1
end
-- ==== Proof.Pass1BA.lean ====
/-
  The first SparseCore call's body at one vector subcore: the thread, the operands as it names them, its own scratch
  buffers and semaphores named apart from the rest, the staging slots and the chunks they are filled from, and the
  eighteen deliveries of one chunk's batch of copies.
-/
import proofs.«210783_g59777354826199_cont_9to1_m_168_18_alg».proof.Proof.SetupB

noncomputable section

namespace Cert.Proof.KB.Pass1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => 𝕄F F

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

abbrev eW : Memref sig .scVector .hbm S33554432 .f32 := Memref.whole main_v0_scv
abbrev tW : Memref sig .scVector .hbm S2097152 .i32 := Memref.whole main_v1_scv
abbrev kW : Memref sig .scVector .hbm S2097152 .i32 := Memref.whole main_v2_scv
abbrev o0W : Memref sig .scVector .hbm S32x16384 .f32 := Memref.whole main_v3_0_scv
abbrev o1W : Memref sig .scVector .hbm S32x1024 .f32 := Memref.whole main_v3_1_scv
abbrev xB : Memref sig .scVector .vmem S2x16x2048 .f32 := Memref.whole cc0_scratch0
abbrev tB : Memref sig .scVector .vmem S2x2048 .i32 := Memref.whole cc0_scratch1
abbrev mB : Memref sig .scVector .vmem S2x2048 .i32 := Memref.whole cc0_scratch2
abbrev aB : Memref sig .scVector .vmem S16384 .f32 := Memref.whole cc0_scratch3
abbrev cB : Memref sig .scVector .vmem S1024 .f32 := Memref.whole cc0_scratch4

/-- The row of the first result this tile writes, as the final copy slices it. -/
abbrev o0Row (L : grid0.Coords) : Memref sig .scVector .hbm S16384 .f32 :=
  ((o0W : Memref sig .scVector .hbm S32x16384 .f32).slice (Rect.unit (s := S32x16384) (k0_off145 L) S1x16384.size (k0_off145_inb L)) (fun _ => rfl)).squeeze S16384 squeezes_S1x16384_S16384
/-- The row of the second result this tile writes. -/
abbrev o1Row (L : grid0.Coords) : Memref sig .scVector .hbm S1024 .f32 :=
  ((o1W : Memref sig .scVector .hbm S32x1024 .f32).slice (Rect.unit (s := S32x1024) (k0_off146 L) S1x1024.size (k0_off146_inb L)) (fun _ => rfl)).squeeze S1024 squeezes_S1x1024_S1024

/-! ## The tile's own buffers and semaphores, the kernel's named apart -/

abbrev pV (L : grid0.Coords) : Proc τ := Proc.scVector (cV L) (jV L)

abbrev s0cell : GSem nD τ sig := (thr d L, .dma cc0_scratch5.sem)
abbrev s1cell : GSem nD τ sig := (thr d L, .dma cc0_scratch6.sem)
abbrev r0cell : GSem nD τ sig := (thr d L, .dma cc0_scoped0.sem)
abbrev r1cell : GSem nD τ sig := (thr d L, .dma cc0_scoped1.sem)

omit [FloatOps F] in
theorem ownSems0_V :
    (ownSems0 (thr d L) : sProp 𝕄)
      = iprop(semVal (s0cell d L) 0 ∗ semVal (s1cell d L) 0 ∗ semVal (r0cell d L) 0 ∗ semVal (r1cell d L) 0
          ∗ bigSep (((((ownCells (thr d L)).erase (s0cell d L)).erase (s1cell d L)).erase (r0cell d L)).erase (r1cell d L))
              fun g => semVal g 0) := by
  unfold SparseCore.Cfg.ownSems0
  rw [SparseCore.bigSep_erase' ((mem_ownCells (g := s0cell d L)).mpr ⟨rfl, by
      show (SemLoc.dma cc0_scratch5.sem : SemLoc sig).isScoped .scVector = true; decide⟩),
    SparseCore.bigSep_erase' (Finset.mem_erase.mpr ⟨by simp [s0cell, s1cell]; decide, (mem_ownCells (g := s1cell d L)).mpr ⟨rfl, by
      show (SemLoc.dma cc0_scratch6.sem : SemLoc sig).isScoped .scVector = true; decide⟩⟩),
    SparseCore.bigSep_erase' (Finset.mem_erase.mpr ⟨by simp [s1cell, r0cell]; decide, Finset.mem_erase.mpr ⟨by simp [s0cell, r0cell]; decide,
      (mem_ownCells (g := r0cell d L)).mpr ⟨rfl, by show (SemLoc.dma cc0_scoped0.sem : SemLoc sig).isScoped .scVector = true; decide⟩⟩⟩),
    SparseCore.bigSep_erase' (Finset.mem_erase.mpr ⟨by simp [r0cell, r1cell]; decide, Finset.mem_erase.mpr ⟨by simp [s1cell, r1cell]; decide,
      Finset.mem_erase.mpr ⟨by simp [s0cell, r1cell]; decide,
      (mem_ownCells (g := r1cell d L)).mpr ⟨rfl, by show (SemLoc.dma cc0_scoped1.sem : SemLoc sig).isScoped .scVector = true; decide⟩⟩⟩⟩)]

omit [FloatOps F] in
theorem devRef_ne {a b : Ref sig .scVector} (h : a ≠ b) : (pV L).devRef a ≠ (pV L).devRef b :=
  fun e => h (Proc.devRef_injective _ e)

omit [FloatOps F] in
/-- The five scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (pV L)).erase ((pV L).devRef cc0_scratch0)).erase ((pV L).devRef cc0_scratch1)).erase
              ((pV L).devRef cc0_scratch2)).erase ((pV L).devRef cc0_scratch3)).erase ((pV L).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc0_scratch0) rfl)).trans ?_
  rw [SparseCore.bigSep_erase' (Finset.mem_erase.mpr ⟨devRef_ne L (show (cc0_scratch1 : Ref sig .scVector) ≠ cc0_scratch0 by decide),
      SparseCore.Cfg.mem_ownRefs_of_owner (p := pV L) (b := (pV L).devRef cc0_scratch1) rfl⟩),
    SparseCore.bigSep_erase' (Finset.mem_erase.mpr ⟨devRef_ne L (show (cc0_scratch2 : Ref sig .scVector) ≠ cc0_scratch1 by decide),
      Finset.mem_erase.mpr ⟨devRef_ne L (show (cc0_scratch2 : Ref sig .scVector) ≠ cc0_scratch0 by decide),
      SparseCore.Cfg.mem_ownRefs_of_owner (p := pV L) (b := (pV L).devRef cc0_scratch2) rfl⟩⟩),
    SparseCore.bigSep_erase' (Finset.mem_erase.mpr ⟨devRef_ne L (show (cc0_scratch3 : Ref sig .scVector) ≠ cc0_scratch2 by decide),
      Finset.mem_erase.mpr ⟨devRef_ne L (show (cc0_scratch3 : Ref sig .scVector) ≠ cc0_scratch1 by decide),
      Finset.mem_erase.mpr ⟨devRef_ne L (show (cc0_scratch3 : Ref sig .scVector) ≠ cc0_scratch0 by decide),
      SparseCore.Cfg.mem_ownRefs_of_owner (p := pV L) (b := (pV L).devRef cc0_scratch3) rfl⟩⟩⟩),
    SparseCore.bigSep_erase' (Finset.mem_erase.mpr ⟨devRef_ne L (show (cc0_scratch4 : Ref sig .scVector) ≠ cc0_scratch3 by decide),
      Finset.mem_erase.mpr ⟨devRef_ne L (show (cc0_scratch4 : Ref sig .scVector) ≠ cc0_scratch2 by decide),
      Finset.mem_erase.mpr ⟨devRef_ne L (show (cc0_scratch4 : Ref sig .scVector) ≠ cc0_scratch1 by decide),
      Finset.mem_erase.mpr ⟨devRef_ne L (show (cc0_scratch4 : Ref sig .scVector) ≠ cc0_scratch0 by decide),
      SparseCore.Cfg.mem_ownRefs_of_owner (p := pV L) (b := (pV L).devRef cc0_scratch4) rfl⟩⟩⟩⟩)]

omit [FloatOps F] in
theorem pts_x (f : Buf (Elt F) ((thr d L).loc cc0_scratch0)) :
    ((xB : Memref sig .scVector .vmem S2x16x2048 .f32).view.loc (thr d L) ↦{fullShare} f : sProp 𝕄) = (thr d L).loc cc0_scratch0 ↦{fullShare} f := rfl
omit [FloatOps F] in
theorem pts_t (f : Buf (Elt F) ((thr d L).loc cc0_scratch1)) :
    ((tB : Memref sig .scVector .vmem S2x2048 .i32).view.loc (thr d L) ↦{fullShare} f : sProp 𝕄) = (thr d L).loc cc0_scratch1 ↦{fullShare} f := rfl
omit [FloatOps F] in
theorem pts_m (f : Buf (Elt F) ((thr d L).loc cc0_scratch2)) :
    ((mB : Memref sig .scVector .vmem S2x2048 .i32).view.loc (thr d L) ↦{fullShare} f : sProp 𝕄) = (thr d L).loc cc0_scratch2 ↦{fullShare} f := rfl
omit [FloatOps F] in
theorem pts_a (f : Buf (Elt F) ((thr d L).loc cc0_scratch3)) :
    ((aB : Memref sig .scVector .vmem S16384 .f32).view.loc (thr d L) ↦{fullShare} f : sProp 𝕄) = (thr d L).loc cc0_scratch3 ↦{fullShare} f := rfl
omit [FloatOps F] in
theorem pts_c (f : Buf (Elt F) ((thr d L).loc cc0_scratch4)) :
    ((cB : Memref sig .scVector .vmem S1024 .f32).view.loc (thr d L) ↦{fullShare} f : sProp 𝕄) = (thr d L).loc cc0_scratch4 ↦{fullShare} f := rfl

omit [FloatOps F] in
theorem ltc {a b : ℕ} (h : Nat.ble (a + 1) b = true) : a < b := Nat.le_of_ble_eq_true h

/-! ## The staging slots, the chunks they are filled from, and a batch's deliveries -/

omit [FloatOps F] in
theorem inb_x (b c : ℕ) (hb : b < 2) (hc : c < 16) : ∀ a, (![b, c, 0] : Fin 3 → ℕ) a + S1x1x2048.size a ≤ S2x16x2048.size a := by
  intro a; fin_cases a
  · show b + 1 ≤ 2; omega
  · show c + 1 ≤ 16; omega
  · show 0 + 2048 ≤ 2048; omega
omit [FloatOps F] in
theorem inb_r (b : ℕ) (hb : b < 2) : ∀ a, (![b, 0] : Fin 2 → ℕ) a + S1x2048.size a ≤ S2x2048.size a := by
  intro a; fin_cases a
  · show b + 1 ≤ 2; omega
  · show 0 + 2048 ≤ 2048; omega

/-- Row `c` of slot `b` of the embedding's staging buffer. -/
abbrev xSlot (b c : ℕ) (hb : b < 2) (hc : c < 16) : Memref sig .scVector .vmem S2048 .f32 :=
  ((xB : Memref sig .scVector .vmem S2x16x2048 .f32).slice (Rect.unit (s := S2x16x2048) ![b, c, 0] S1x1x2048.size (inb_x b c hb hc)) (fun _ => rfl)).squeeze S2048 squeezes_S1x1x2048_S2048
/-- Slot `b` of the targets' staging buffer, and of the mask's. -/
abbrev tSlot (b : ℕ) (hb : b < 2) : Memref sig .scVector .vmem S2048 .i32 :=
  ((tB : Memref sig .scVector .vmem S2x2048 .i32).slice (Rect.unit (s := S2x2048) ![b, 0] S1x2048.size (inb_r b hb)) (fun _ => rfl)).squeeze S2048 squeezes_S1x2048_S2048
abbrev mSlot (b : ℕ) (hb : b < 2) : Memref sig .scVector .vmem S2048 .i32 :=
  ((mB : Memref sig .scVector .vmem S2x2048 .i32).slice (Rect.unit (s := S2x2048) ![b, 0] S1x2048.size (inb_r b hb)) (fun _ => rfl)).squeeze S2048 squeezes_S1x2048_S2048

/-- A chunk of the embedding at offset `o`, of the targets, of the mask. -/
abbrev eSrc (o : Fin 1 → ℕ) (h : ∀ a, o a + S2048.size a ≤ S33554432.size a) : Memref sig .scVector .hbm S2048 .f32 :=
  (eW : Memref sig .scVector .hbm S33554432 .f32).slice (Rect.unit (s := S33554432) o S2048.size h) (fun _ => rfl)
abbrev tSrc (o : Fin 1 → ℕ) (h : ∀ a, o a + S2048.size a ≤ S2097152.size a) : Memref sig .scVector .hbm S2048 .i32 :=
  (tW : Memref sig .scVector .hbm S2097152 .i32).slice (Rect.unit (s := S2097152) o S2048.size h) (fun _ => rfl)
abbrev kSrc (o : Fin 1 → ℕ) (h : ∀ a, o a + S2048.size a ≤ S2097152.size a) : Memref sig .scVector .hbm S2048 .i32 :=
  (kW : Memref sig .scVector .hbm S2097152 .i32).slice (Rect.unit (s := S2097152) o S2048.size h) (fun _ => rfl)

/-- A memref's own elements held at share `q` and contents `f`. -/
abbrev heldOwn {sp : Space} {s : Shape} {el : EltTy} (M : Memref sig .scVector sp s el) (q : PosShare TreeShare)
    (f : Buf (Elt F) (M.view.loc (thr d L))) : sProp 𝕄 :=
  M.view.loc (thr d L) ↦[M.view.set]{q} f

/-- What the targets' slot holds once its chunk has landed. -/
abbrev tLanded (b : ℕ) (hb : b < 2) (ot : Fin 1 → ℕ) (hot : ∀ a, ot a + S2048.size a ≤ S2097152.size a)
    (t : Buf (Elt F) ((tW : Memref sig .scVector .hbm S2097152 .i32).view.loc (thr d L)))
    (fd : Buf (Elt F) ((tSlot b hb).view.loc (thr d L))) : Buf (Elt F) ((tSlot b hb).view.loc (thr d L)) :=
  (tSlot b hb).view.write (Elt F) fd (ReadAs.same.apply ((tSrc ot hot).view.read (Elt F) t)) Finset.univ

/-- The same, landed into a slot held by its own elements: one listed write of the chunk over the slot's prior contents. -/
abbrev tLandedL (b : ℕ) (hb : b < 2) (ot : Fin 1 → ℕ) (hot : ∀ a, ot a + S2048.size a ≤ S2097152.size a)
    (t : Buf (Elt F) ((tW : Memref sig .scVector .hbm S2097152 .i32).view.loc (thr d L)))
    (fd : Buf (Elt F) ((tSlot b hb).view.loc (thr d L))) : Buf (Elt F) ((tSlot b hb).view.loc (thr d L)) :=
  (tSlot b hb).view.writes (Elt F) fd [⟨Rect.whole S2048, ReadAs.same.apply ((tSrc ot hot).view.read (Elt F) t)⟩]

/-- The eighteen deliveries of one chunk's batch into slot `b`: sixteen rows of the embedding (each slot row at some
    contents, its source chunk back), the targets (the slot at the contents `tl`), the mask (at some contents). -/
abbrev deliv (b : ℕ) (hb : b < 2) (oe : Fin 16 → Fin 1 → ℕ) (he : ∀ c a, oe c a + S2048.size a ≤ S33554432.size a)
    (ot : Fin 1 → ℕ) (hot : ∀ a, ot a + S2048.size a ≤ S2097152.size a) (q : PosShare TreeShare)
    (e : Buf (Elt F) ((eW : Memref sig .scVector .hbm S33554432 .f32).view.loc (thr d L)))
    (t : Buf (Elt F) ((tW : Memref sig .scVector .hbm S2097152 .i32).view.loc (thr d L)))
    (k : Buf (Elt F) ((kW : Memref sig .scVector .hbm S2097152 .i32).view.loc (thr d L)))
    (tl : Buf (Elt F) ((tSlot b hb).view.loc (thr d L))) : Fin 18 → sProp 𝕄
  | ⟨0, _⟩ => iprop((∃ g, heldOwn d L (xSlot b 0 hb (ltc rfl)) fullShare g) ∗ heldOwn d L (eSrc (oe 0) (he 0)) q e)
  | ⟨1, _⟩ => iprop((∃ g, heldOwn d L (xSlot b 1 hb (ltc rfl)) fullShare g) ∗ heldOwn d L (eSrc (oe 1) (he 1)) q e)
  | ⟨2, _⟩ => iprop((∃ g, heldOwn d L (xSlot b 2 hb (ltc rfl)) fullShare g) ∗ heldOwn d L (eSrc (oe 2) (he 2)) q e)
  | ⟨3, _⟩ => iprop((∃ g, heldOwn d L (xSlot b 3 hb (ltc rfl)) fullShare g) ∗ heldOwn d L (eSrc (oe 3) (he 3)) q e)
  | ⟨4, _⟩ => iprop((∃ g, heldOwn d L (xSlot b 4 hb (ltc rfl)) fullShare g) ∗ heldOwn d L (eSrc (oe 4) (he 4)) q e)
  | ⟨5, _⟩ => iprop((∃ g, heldOwn d L (xSlot b 5 hb (ltc rfl)) fullShare g) ∗ heldOwn d L (eSrc (oe 5) (he 5)) q e)
  | ⟨6, _⟩ => iprop((∃ g, heldOwn d L (xSlot b 6 hb (ltc rfl)) fullShare g) ∗ heldOwn d L (eSrc (oe 6) (he 6)) q e)
  | ⟨7, _⟩ => iprop((∃ g, heldOwn d L (xSlot b 7 hb (ltc rfl)) fullShare g) ∗ heldOwn d L (eSrc (oe 7) (he 7)) q e)
  | ⟨8, _⟩ => iprop((∃ g, heldOwn d L (xSlot b 8 hb (ltc rfl)) fullShare g) ∗ heldOwn d L (eSrc (oe 8) (he 8)) q e)
  | ⟨9, _⟩ => iprop((∃ g, heldOwn d L (xSlot b 9 hb (ltc rfl)) fullShare g) ∗ heldOwn d L (eSrc (oe 9) (he 9)) q e)
  | ⟨10, _⟩ => iprop((∃ g, heldOwn d L (xSlot b 10 hb (ltc rfl)) fullShare g) ∗ heldOwn d L (eSrc (oe 10) (he 10)) q e)
  | ⟨11, _⟩ => iprop((∃ g, heldOwn d L (xSlot b 11 hb (ltc rfl)) fullShare g) ∗ heldOwn d L (eSrc (oe 11) (he 11)) q e)
  | ⟨12, _⟩ => iprop((∃ g, heldOwn d L (xSlot b 12 hb (ltc rfl)) fullShare g) ∗ heldOwn d L (eSrc (oe 12) (he 12)) q e)
  | ⟨13, _⟩ => iprop((∃ g, heldOwn d L (xSlot b 13 hb (ltc rfl)) fullShare g) ∗ heldOwn d L (eSrc (oe 13) (he 13)) q e)
  | ⟨14, _⟩ => iprop((∃ g, heldOwn d L (xSlot b 14 hb (ltc rfl)) fullShare g) ∗ heldOwn d L (eSrc (oe 14) (he 14)) q e)
  | ⟨15, _⟩ => iprop((∃ g, heldOwn d L (xSlot b 15 hb (ltc rfl)) fullShare g) ∗ heldOwn d L (eSrc (oe 15) (he 15)) q e)
  | ⟨16, _⟩ => iprop(heldOwn d L (tSlot b hb) fullShare tl ∗ heldOwn d L (tSrc ot hot) q t)
  | ⟨17, _⟩ => iprop((∃ g, heldOwn d L (mSlot b hb) fullShare g) ∗ heldOwn d L (kSrc ot hot) q k)
  | ⟨n + 18, h⟩ => absurd h (by omega)

set_option maxHeartbeats 4000000 in
instance deliv_storable (b : ℕ) (hb : b < 2) (oe : Fin 16 → Fin 1 → ℕ) (he : ∀ c a, oe c a + S2048.size a ≤ S33554432.size a)
    (ot : Fin 1 → ℕ) (hot : ∀ a, ot a + S2048.size a ≤ S2097152.size a) (q : PosShare TreeShare)
    (e : Buf (Elt F) ((eW : Memref sig .scVector .hbm S33554432 .f32).view.loc (thr d L)))
    (t : Buf (Elt F) ((tW : Memref sig .scVector .hbm S2097152 .i32).view.loc (thr d L)))
    (k : Buf (Elt F) ((kW : Memref sig .scVector .hbm S2097152 .i32).view.loc (thr d L)))
    (tl : Buf (Elt F) ((tSlot b hb).view.loc (thr d L))) : (i : Fin 18) →
    BI.Storable (upEmb : UEmb _ 𝕄) (deliv d L b hb oe he ot hot q e t k tl i)
  | ⟨0, _⟩ => (inferInstance : BI.Storable (upEmb : UEmb _ 𝕄) (iprop((∃ g, heldOwn d L (xSlot b 0 hb (ltc rfl)) fullShare g) ∗ heldOwn d L (eSrc (oe 0) (he 0)) q e)))
  | ⟨1, _⟩ => (inferInstance : BI.Storable (upEmb : UEmb _ 𝕄) (iprop((∃ g, heldOwn d L (xSlot b 1 hb (ltc rfl)) fullShare g) ∗ heldOwn d L (eSrc (oe 1) (he 1)) q e)))
  | ⟨2, _⟩ => (inferInstance : BI.Storable (upEmb : UEmb _ 𝕄) (iprop((∃ g, heldOwn d L (xSlot b 2 hb (ltc rfl)) fullShare g) ∗ heldOwn d L (eSrc (oe 2) (he 2)) q e)))
  | ⟨3, _⟩ => (inferInstance : BI.Storable (upEmb : UEmb _ 𝕄) (iprop((∃ g, heldOwn d L (xSlot b 3 hb (ltc rfl)) fullShare g) ∗ heldOwn d L (eSrc (oe 3) (he 3)) q e)))
  | ⟨4, _⟩ => (inferInstance : BI.Storable (upEmb : UEmb _ 𝕄) (iprop((∃ g, heldOwn d L (xSlot b 4 hb (ltc rfl)) fullShare g) ∗ heldOwn d L (eSrc (oe 4) (he 4)) q e)))
  | ⟨5, _⟩ => (inferInstance : BI.Storable (upEmb : UEmb _ 𝕄) (iprop((∃ g, heldOwn d L (xSlot b 5 hb (ltc rfl)) fullShare g) ∗ heldOwn d L (eSrc (oe 5) (he 5)) q e)))
  | ⟨6, _⟩ => (inferInstance : BI.Storable (upEmb : UEmb _ 𝕄) (iprop((∃ g, heldOwn d L (xSlot b 6 hb (ltc rfl)) fullShare g) ∗ heldOwn d L (eSrc (oe 6) (he 6)) q e)))
  | ⟨7, _⟩ => (inferInstance : BI.Storable (upEmb : UEmb _ 𝕄) (iprop((∃ g, heldOwn d L (xSlot b 7 hb (ltc rfl)) fullShare g) ∗ heldOwn d L (eSrc (oe 7) (he 7)) q e)))
  | ⟨8, _⟩ => (inferInstance : BI.Storable (upEmb : UEmb _ 𝕄) (iprop((∃ g, heldOwn d L (xSlot b 8 hb (ltc rfl)) fullShare g) ∗ heldOwn d L (eSrc (oe 8) (he 8)) q e)))
  | ⟨9, _⟩ => (inferInstance : BI.Storable (upEmb : UEmb _ 𝕄) (iprop((∃ g, heldOwn d L (xSlot b 9 hb (ltc rfl)) fullShare g) ∗ heldOwn d L (eSrc (oe 9) (he 9)) q e)))
  | ⟨10, _⟩ => (inferInstance : BI.Storable (upEmb : UEmb _ 𝕄) (iprop((∃ g, heldOwn d L (xSlot b 10 hb (ltc rfl)) fullShare g) ∗ heldOwn d L (eSrc (oe 10) (he 10)) q e)))
  | ⟨11, _⟩ => (inferInstance : BI.Storable (upEmb : UEmb _ 𝕄) (iprop((∃ g, heldOwn d L (xSlot b 11 hb (ltc rfl)) fullShare g) ∗ heldOwn d L (eSrc (oe 11) (he 11)) q e)))
  | ⟨12, _⟩ => (inferInstance : BI.Storable (upEmb : UEmb _ 𝕄) (iprop((∃ g, heldOwn d L (xSlot b 12 hb (ltc rfl)) fullShare g) ∗ heldOwn d L (eSrc (oe 12) (he 12)) q e)))
  | ⟨13, _⟩ => (inferInstance : BI.Storable (upEmb : UEmb _ 𝕄) (iprop((∃ g, heldOwn d L (xSlot b 13 hb (ltc rfl)) fullShare g) ∗ heldOwn d L (eSrc (oe 13) (he 13)) q e)))
  | ⟨14, _⟩ => (inferInstance : BI.Storable (upEmb : UEmb _ 𝕄) (iprop((∃ g, heldOwn d L (xSlot b 14 hb (ltc rfl)) fullShare g) ∗ heldOwn d L (eSrc (oe 14) (he 14)) q e)))
  | ⟨15, _⟩ => (inferInstance : BI.Storable (upEmb : UEmb _ 𝕄) (iprop((∃ g, heldOwn d L (xSlot b 15 hb (ltc rfl)) fullShare g) ∗ heldOwn d L (eSrc (oe 15) (he 15)) q e)))
  | ⟨16, _⟩ => (inferInstance : BI.Storable (upEmb : UEmb _ 𝕄) (iprop(heldOwn d L (tSlot b hb) fullShare tl ∗ heldOwn d L (tSrc ot hot) q t)))
  | ⟨17, _⟩ => (inferInstance : BI.Storable (upEmb : UEmb _ 𝕄) (iprop((∃ g, heldOwn d L (mSlot b hb) fullShare g) ∗ heldOwn d L (kSrc ot hot) q k)))
  | ⟨n + 18, h⟩ => absurd h (by omega)

/-- One chunk row's credit. -/
abbrev NB : ℕ := (tSlot 0 (ltc rfl)).view.amount (SemLoc.dma (sig := sig) cc0_scratch5.sem)

/-- Before trip `k` of the zeroing loop: both accumulators held whole. -/
def invZ (_k : ℕ) (_acc : BitVec 32) : sProp 𝕄 :=
  iprop((∃ f, (aB : Memref sig .scVector .vmem S16384 .f32).view.loc (thr d L) ↦{fullShare} f)
    ∗ (∃ f, (cB : Memref sig .scVector .vmem S1024 .f32).view.loc (thr d L) ↦{fullShare} f))

/-- The sixteen chunk rows of the embedding at the offsets `oe`. -/
abbrev eWins (oe : Fin 16 → Fin 1 → ℕ) (he : ∀ c a, oe c a + S2048.size a ≤ S33554432.size a) :
    List (Finset (Idx ((eW : Memref sig .scVector .hbm S33554432 .f32).view.loc (thr d L)))) :=
  [(eSrc (oe 0) (he 0)).view.set, (eSrc (oe 1) (he 1)).view.set, (eSrc (oe 2) (he 2)).view.set, (eSrc (oe 3) (he 3)).view.set, (eSrc (oe 4) (he 4)).view.set, (eSrc (oe 5) (he 5)).view.set, (eSrc (oe 6) (he 6)).view.set, (eSrc (oe 7) (he 7)).view.set, (eSrc (oe 8) (he 8)).view.set, (eSrc (oe 9) (he 9)).view.set, (eSrc (oe 10) (he 10)).view.set, (eSrc (oe 11) (he 11)).view.set, (eSrc (oe 12) (he 12)).view.set, (eSrc (oe 13) (he 13)).view.set, (eSrc (oe 14) (he 14)).view.set, (eSrc (oe 15) (he 15)).view.set]

omit [FloatOps F] in
theorem eWins_eq_ofFn (oe : Fin 16 → Fin 1 → ℕ) (he : ∀ c a, oe c a + S2048.size a ≤ S33554432.size a) :
    eWins d L oe he = List.ofFn (fun c : Fin 16 => (eSrc (oe c) (he c)).view.set) := by
  simp only [List.ofFn_succ, List.ofFn_zero]
  rfl

omit [FloatOps F] in
/-- Chunk rows a row's length apart are disjoint. -/
theorem eWins_pairwise (oe : Fin 16 → Fin 1 → ℕ) (he : ∀ c a, oe c a + S2048.size a ≤ S33554432.size a)
    (hsep : ∀ c c' : Fin 16, c ≠ c' → oe c 0 + 2048 ≤ oe c' 0 ∨ oe c' 0 + 2048 ≤ oe c 0) :
    (eWins d L oe he).Pairwise Disjoint := by
  rw [eWins_eq_ofFn, List.pairwise_ofFn]
  intro i j hij
  show Disjoint ((eW : Memref sig .scVector .hbm S33554432 .f32).view.slice (Rect.unit (s := S33554432) (oe i) S2048.size (he i))).set
    ((eW : Memref sig .scVector .hbm S33554432 .f32).view.slice (Rect.unit (s := S33554432) (oe j) S2048.size (he j))).set
  rw [View.set_slice, View.set_slice]
  exact (Finset.disjoint_map _).mpr (Rect.unit_disjoint (0 : Fin 1) (hsep i j (Fin.ne_of_lt hij)))

end Cert.Proof.KB.Pass1
end
-- ==== Proof.Pass1BB.lean ====
/-
  The first SparseCore call's body: the scatter addresses are in range, the indexed add-stores into the two
  accumulators, one trip of each slot's scatter loop, joining read windows back, and the landed targets' range.
-/
import proofs.«210783_g59777354826199_cont_9to1_m_168_18_alg».proof.Proof.Pass1BA

noncomputable section

namespace Cert.Proof.KB.Pass1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => 𝕄F F

variable (d : Dev nD) (L : grid0.Coords)

/-! ## The scatter addresses are in range -/

omit [FloatOps F] in
theorem iota_lt (x : S16.Idx) : ((iota .scVector S16 32 [0] iota_S16_d0_w32_scVector : IVec S16 32) x).toNat < 16 := by
  have h : (x 0).val < 16 := (x 0).isLt
  show (BitVec.ofNat 32 (0 * S16.size 0 + (x 0).val)).toNat < 16
  rw [BitVec.toNat_ofNat]
  have : (0 * S16.size 0 + (x 0).val) = (x 0).val := by omega
  rw [this]; omega

/-- One lane's address: the segment (the target where the mask is set, else segment 0) times the lane count, plus the lane. -/
theorem seg_word_lt (c : BitVec 1) (t l : BitVec 32) (ht : t.toNat ≤ 63) (hl : l.toNat < 16) :
    (IntOp.addi (IntOp.muli (Scalar.select c t 0#32) 16#32) l).toNat < 1024 := by
  unfold IntOp.addi IntOp.muli Scalar.select
  split
  · rw [BitVec.toNat_add, BitVec.toNat_mul]
    simp only [BitVec.toNat_ofNat]
    omega
  · rw [BitVec.toNat_add, BitVec.toNat_mul]
    simp only [BitVec.toNat_ofNat]
    omega

/-- The counts' addresses are inside the counts. -/
theorem chk_c (v : IVec S16 32) (hv : ∀ x, (v x).toNat < 1024) : ∀ a x, ((![v] : Fin 1 → IVec S16 32) a x).toNat < S1024.size a := by
  intro a x
  obtain rfl : a = 0 := Subsingleton.elim _ _
  exact hv x

/-- The sums' addresses, a row's offset further on, are inside the sums. -/
theorem chk_a (v : IVec S16 32) (hv : ∀ x, (v x).toNat < 1024) (c : BitVec 32) (hc : c.toNat ≤ 15360) :
    ∀ a x, ((![addi v (broadcast S16 c)] : Fin 1 → IVec S16 32) a x).toNat < S16384.size a := by
  intro a x
  obtain rfl : a = 0 := Subsingleton.elim _ _
  show (v x + c).toNat < 16384
  rw [BitVec.toNat_add]
  have := hv x
  omega

/-- The address vector of sixteen lanes. -/
theorem addr_lt (v3 : IVec S16 32) (hv3 : ∀ x, (v3 x).toNat < 16) (c : IVec S16 1) (tv : Vec F S16 .i32) (ht : ∀ x, (tv x).toNat ≤ 63) (x : S16.Idx) :
    ((addi (muli (select c tv (broadcast S16 0#32)) (broadcast S16 16#32)) v3 : IVec S16 32) x).toNat < 1024 :=
  seg_word_lt _ _ _ (ht x) (hv3 x)

/-- While slot `b`'s chunk is scattered: both accumulators held whole, the slot's eighteen rows at their contents. -/
def invI (b : ℕ) (hb : b < 2) (gx : Fin 16 → Buf (Elt F) ((xB : Memref sig .scVector .vmem S2x16x2048 .f32).view.loc (thr d L)))
    (ft' : Buf (Elt F) ((tB : Memref sig .scVector .vmem S2x2048 .i32).view.loc (thr d L)))
    (gm : Buf (Elt F) ((mB : Memref sig .scVector .vmem S2x2048 .i32).view.loc (thr d L))) (_k : ℕ) (_acc : BitVec 32) : sProp 𝕄 :=
  iprop((∃ f, (aB : Memref sig .scVector .vmem S16384 .f32).view.loc (thr d L) ↦{fullShare} f)
    ∗ (∃ f, (cB : Memref sig .scVector .vmem S1024 .f32).view.loc (thr d L) ↦{fullShare} f)
    ∗ heldOwn d L (xSlot b 0 hb (ltc rfl)) fullShare (gx 0)
    ∗ heldOwn d L (xSlot b 1 hb (ltc rfl)) fullShare (gx 1)
    ∗ heldOwn d L (xSlot b 2 hb (ltc rfl)) fullShare (gx 2)
    ∗ heldOwn d L (xSlot b 3 hb (ltc rfl)) fullShare (gx 3)
    ∗ heldOwn d L (xSlot b 4 hb (ltc rfl)) fullShare (gx 4)
    ∗ heldOwn d L (xSlot b 5 hb (ltc rfl)) fullShare (gx 5)
    ∗ heldOwn d L (xSlot b 6 hb (ltc rfl)) fullShare (gx 6)
    ∗ heldOwn d L (xSlot b 7 hb (ltc rfl)) fullShare (gx 7)
    ∗ heldOwn d L (xSlot b 8 hb (ltc rfl)) fullShare (gx 8)
    ∗ heldOwn d L (xSlot b 9 hb (ltc rfl)) fullShare (gx 9)
    ∗ heldOwn d L (xSlot b 10 hb (ltc rfl)) fullShare (gx 10)
    ∗ heldOwn d L (xSlot b 11 hb (ltc rfl)) fullShare (gx 11)
    ∗ heldOwn d L (xSlot b 12 hb (ltc rfl)) fullShare (gx 12)
    ∗ heldOwn d L (xSlot b 13 hb (ltc rfl)) fullShare (gx 13)
    ∗ heldOwn d L (xSlot b 14 hb (ltc rfl)) fullShare (gx 14)
    ∗ heldOwn d L (xSlot b 15 hb (ltc rfl)) fullShare (gx 15)
    ∗ heldOwn d L (tSlot b hb) fullShare ft' ∗ heldOwn d L (mSlot b hb) fullShare gm)

/-- An indexed add-store into the sums, held whole: they are held whole again, at some contents. -/
theorem storeIdx_a {α : Type} {dd : Fin 1 → Nat} {idxs : Fin S16384.rank → IVec ⟨1, dd⟩ 32} {v : Vec F ⟨1, dd⟩ .f32}
    {mask : IVec ⟨1, dd⟩ 1} {add : Bool} {h : ∀ a x, (idxs a x).toNat < S16384.size a}
    {hs : ((aB : Memref sig .scVector .vmem S16384 .f32).access (.whole S16384)).Stores Finset.univ}
    {kk : PUnit → Prog (TpuEff nD τ sig (Elt F) Λ₀ (thr d L).2) α} {Q : α → sProp 𝕄}
    (f : Buf (Elt F) ((aB : Memref sig .scVector .vmem S16384 .f32).view.loc (thr d L))) :
    ((aB : Memref sig .scVector .vmem S16384 .f32).view.loc (thr d L) ↦{fullShare} f : sProp 𝕄)
      ⊢ iprop(((∃ f', (aB : Memref sig .scVector .vmem S16384 .f32).view.loc (thr d L) ↦{fullShare} f')
          -∗ wp frame (wpE (defs₀ (F := F)) 𝒱₀ (thr d L) none) Set.univ (kk ⟨⟩) Q)
        -∗ wp frame (wpE (defs₀ (F := F)) 𝒱₀ (thr d L) none) Set.univ (SparseCore.vectorStoreIdx aB idxs v mask add h hs >>= kk) Q) := by
  have es : ((aB : Memref sig .scVector .vmem S16384 .f32).access (.whole S16384)).set = Finset.univ := Memref.set_access_whole _
  iintro H Hk
  iapply (SparseCore.wp_vectorStoreIdx (defs := defs₀ (F := F)) (𝒱 := 𝒱₀) (c := thr d L) (bd := none) (E := Set.univ) (Q := Q)
    (base := aB) (idxs := idxs) (v := v) (mask := mask) (add := add) (h := h) (hs := hs) (k := kk) (f := f)) $$ [H]
  · rw [es]; iexact H
  iintro H'
  iapply Hk
  iexists _
  rw [es]
  iexact H'

/-- An indexed add-store into the counts, held whole: they are held whole again, at some contents. -/
theorem storeIdx_c {α : Type} {dd : Fin 1 → Nat} {idxs : Fin S1024.rank → IVec ⟨1, dd⟩ 32} {v : Vec F ⟨1, dd⟩ .f32}
    {mask : IVec ⟨1, dd⟩ 1} {add : Bool} {h : ∀ a x, (idxs a x).toNat < S1024.size a}
    {hs : ((cB : Memref sig .scVector .vmem S1024 .f32).access (.whole S1024)).Stores Finset.univ}
    {kk : PUnit → Prog (TpuEff nD τ sig (Elt F) Λ₀ (thr d L).2) α} {Q : α → sProp 𝕄}
    (f : Buf (Elt F) ((cB : Memref sig .scVector .vmem S1024 .f32).view.loc (thr d L))) :
    ((cB : Memref sig .scVector .vmem S1024 .f32).view.loc (thr d L) ↦{fullShare} f : sProp 𝕄)
      ⊢ iprop(((∃ f', (cB : Memref sig .scVector .vmem S1024 .f32).view.loc (thr d L) ↦{fullShare} f')
          -∗ wp frame (wpE (defs₀ (F := F)) 𝒱₀ (thr d L) none) Set.univ (kk ⟨⟩) Q)
        -∗ wp frame (wpE (defs₀ (F := F)) 𝒱₀ (thr d L) none) Set.univ (SparseCore.vectorStoreIdx cB idxs v mask add h hs >>= kk) Q) := by
  have es : ((cB : Memref sig .scVector .vmem S1024 .f32).access (.whole S1024)).set = Finset.univ := Memref.set_access_whole _
  iintro H Hk
  iapply (SparseCore.wp_vectorStoreIdx (defs := defs₀ (F := F)) (𝒱 := 𝒱₀) (c := thr d L) (bd := none) (E := Set.univ) (Q := Q)
    (base := cB) (idxs := idxs) (v := v) (mask := mask) (add := add) (h := h) (hs := hs) (k := kk) (f := f)) $$ [H]
  · rw [es]; iexact H
  iintro H'
  iapply Hk
  iexists _
  rw [es]
  iexact H'

set_option maxHeartbeats 4000000 in
/-- One trip of slot 0's scatter loop: four groups of sixteen lanes, each a count and sixteen sums scattered. -/
theorem region3 (v2 : BitVec 32) (v3 : IVec S16 32) (hv3 : ∀ x, (v3 x).toNat < 16) (v5 : FVec F S16 .f32) (g : Fin k0_t2_loop.trips) (v476 c1 c2 c3 : BitVec 32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (k : Fin k0_t3_loop.trips) (acc : BitVec 32) :
    invI d L 0 (ltc rfl) gx ft' gm k.val acc ⊢ wp frame (wpE (defs₀ (F := F)) 𝒱₀ (thr d L) none) Set.univ
      (k0_t3_body L eW (Memref.isWhole_whole _) tW (Memref.isWhole_whole _) kW (Memref.isWhole_whole _) o0W (Memref.isWhole_whole _) o1W (Memref.isWhole_whole _) xB (Memref.isWhole_whole _) tB (Memref.isWhole_whole _) mB (Memref.isWhole_whole _) aB (Memref.isWhole_whole _) cB (Memref.isWhole_whole _) cc0_scratch5 cc0_scratch6 cc0_scoped0 cc0_scoped1 v2 v3 v5 g v476 c1 c2 c3 k acc)
      (invI d L 0 (ltc rfl) gx ft' gm (k.val + 1)) := by
  have hk : k.val < 32 := k.isLt
  unfold invI
  iintro ⟨⟨%fa, Ha⟩, ⟨%fc, Hc⟩, Hx0, Hx1, Hx2, Hx3, Hx4, Hx5, Hx6, Hx7, Hx8, Hx9, Hx10, Hx11, Hx12, Hx13, Hx14, Hx15, Ht, Hm⟩
  unfold k0_t3_body
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec
  sl_step
  isplitl [Ha]; · iexists _; iexact Ha
  isplitl [Hc]; · iexists _; iexact Hc
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hx8]; · iexact Hx8
  isplitl [Hx9]; · iexact Hx9
  isplitl [Hx10]; · iexact Hx10
  isplitl [Hx11]; · iexact Hx11
  isplitl [Hx12]; · iexact Hx12
  isplitl [Hx13]; · iexact Hx13
  isplitl [Hx14]; · iexact Hx14
  isplitl [Hx15]; · iexact Hx15
  isplitl [Ht]; · iexact Ht
  iexact Hm

set_option maxHeartbeats 4000000 in
/-- One trip of slot 1's scatter loop: four groups of sixteen lanes, each a count and sixteen sums scattered. -/
theorem region4 (v2 : BitVec 32) (v3 : IVec S16 32) (hv3 : ∀ x, (v3 x).toNat < 16) (v5 : FVec F S16 .f32) (g : Fin k0_t2_loop.trips) (v476 c1 c2 c3 : BitVec 32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (k : Fin k0_t4_loop.trips) (acc : BitVec 32) :
    invI d L 1 (ltc rfl) gx ft' gm k.val acc ⊢ wp frame (wpE (defs₀ (F := F)) 𝒱₀ (thr d L) none) Set.univ
      (k0_t4_body L eW (Memref.isWhole_whole _) tW (Memref.isWhole_whole _) kW (Memref.isWhole_whole _) o0W (Memref.isWhole_whole _) o1W (Memref.isWhole_whole _) xB (Memref.isWhole_whole _) tB (Memref.isWhole_whole _) mB (Memref.isWhole_whole _) aB (Memref.isWhole_whole _) cB (Memref.isWhole_whole _) cc0_scratch5 cc0_scratch6 cc0_scoped0 cc0_scoped1 v2 v3 v5 g v476 c1 c2 c3 k acc)
      (invI d L 1 (ltc rfl) gx ft' gm (k.val + 1)) := by
  have hk : k.val < 32 := k.isLt
  unfold invI
  iintro ⟨⟨%fa, Ha⟩, ⟨%fc, Hc⟩, Hx0, Hx1, Hx2, Hx3, Hx4, Hx5, Hx6, Hx7, Hx8, Hx9, Hx10, Hx11, Hx12, Hx13, Hx14, Hx15, Ht, Hm⟩
  unfold k0_t4_body
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_c _ (fun x => addr_lt _ hv3 _ _ (fun j => hft _) x))
  iapply (storeIdx_c (F := F) d L _) $$ Hc
  iintro ⟨%fc2, Hc⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec (disch := exact chk_a _ (fun x => addr_lt _ hv3 _ _ (fun j => hft _) x) _ (by decide))
  iapply (storeIdx_a (F := F) d L _) $$ Ha
  iintro ⟨%fa2, Ha⟩
  sl_exec
  sl_step
  isplitl [Ha]; · iexists _; iexact Ha
  isplitl [Hc]; · iexists _; iexact Hc
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hx8]; · iexact Hx8
  isplitl [Hx9]; · iexact Hx9
  isplitl [Hx10]; · iexact Hx10
  isplitl [Hx11]; · iexact Hx11
  isplitl [Hx12]; · iexact Hx12
  isplitl [Hx13]; · iexact Hx13
  isplitl [Hx14]; · iexact Hx14
  isplitl [Hx15]; · iexact Hx15
  isplitl [Ht]; · iexact Ht
  iexact Hm

/-! ## Joining read windows back, and the landed targets' range -/

/-- The elements of a list of sets, each held at the same share and contents. -/
def sepAll {ℓ : Loc nD τ sig} (q : PosShare TreeShare) (f : Buf (Elt F) ℓ) : List (Finset (Idx ℓ)) → sProp 𝕄
  | [] => iprop(emp)
  | w :: ws => iprop((ℓ ↦[w]{q} f) ∗ sepAll q f ws)

/-- A set less pairwise-disjoint subsets of it, and those subsets: the set. -/
theorem pointsTo_less_join {ℓ : Loc nD τ sig} (q : PosShare TreeShare) (f : Buf (Elt F) ℓ) (ws : List (Finset (Idx ℓ))) :
    ∀ (S : Finset (Idx ℓ)), (∀ w ∈ ws, w ⊆ S) → ws.Pairwise Disjoint →
      iprop((ℓ ↦[ws.foldl (· \ ·) S]{q} f) ∗ sepAll (F := F) q f ws) ⊢ (ℓ ↦[S]{q} f : sProp 𝕄) := by
  induction ws with
  | nil =>
    intro S _ _
    simp only [List.foldl_nil, sepAll]
    exact Laws.sep_emp.1
  | cons w ws ih =>
    intro S hsub hd
    simp only [List.foldl_cons, sepAll]
    have hw : w ⊆ S := hsub w (List.mem_cons_self ..)
    have hsub' : ∀ w' ∈ ws, w' ⊆ S \ w := fun w' hw' =>
      Finset.subset_sdiff.mpr ⟨hsub w' (List.mem_cons_of_mem _ hw'), ((List.pairwise_cons.mp hd).1 w' hw').symm⟩
    iintro ⟨Hr, Hw, Hws⟩
    ihave H := (ih (S \ w) hsub' (List.pairwise_cons.mp hd).2) $$ [Hr Hws]
    · isplitl [Hr] <;> iassumption
    iapply (pointsTo_split_subset hw).2
    isplitl [Hw] <;> iassumption

/-- The slot held at contents in range on the slot: it is held at contents in range everywhere. -/
theorem tl_bound (b : ℕ) (hb : b < 2) (tl : Buf (Elt F) ((tSlot b hb).view.loc (thr d L)))
    (htl : ∀ i ∈ (tSlot b hb).view.set, (tl i).toNat ≤ 63) :
    (heldOwn d L (tSlot b hb) fullShare tl : sProp 𝕄)
      ⊢ iprop(∃ ft' : Buf (Elt F) ((tB : Memref sig .scVector .vmem S2x2048 .i32).view.loc (thr d L)),
          ⌜∀ i, (ft' i).toNat ≤ 63⌝ ∗ heldOwn d L (tSlot b hb) fullShare ft') := by
  iintro H
  iexists (fun i => if (tl i).toNat ≤ 63 then tl i else (0#32 : BitVec 32))
  isplitr
  · ipureintro
    intro i
    show (if _ then _ else _ : BitVec 32).toNat ≤ 63
    split
    · assumption
    · simp
  · have hc : ∀ i ∈ (tSlot b hb).view.set, tl i = (fun i => if (tl i).toNat ≤ 63 then tl i else (0#32 : BitVec 32)) i := by
      intro i hi
      show _ = if _ then _ else _
      rw [if_pos (htl i hi)]
    iapply (Entails.of_eq (pointsTo_congr (ℓ := (tSlot b hb).view.loc (thr d L)) (I := (tSlot b hb).view.set) (q := fullShare) (f := tl) hc))
    iexact H

/-- A chunk of targets in range, read whole. -/
theorem read_ok (ot : Fin 1 → ℕ) (hot : ∀ a, ot a + S2048.size a ≤ S2097152.size a)
    (t : Buf (Elt F) ((tW : Memref sig .scVector .hbm S2097152 .i32).view.loc (thr d L))) (ht : ∀ j, (t j).toNat ≤ 63) (x : S2048.Idx) :
    ((ReadAs.same.apply ((tSrc ot hot).view.read (Elt F) t) : S2048.Idx → Elt F .i32) x).toNat ≤ 63 := ht _

/-- The slot written whole with words in range is in range on the slot. -/
theorem write_ok (b : ℕ) (hb : b < 2) (fd : Buf (Elt F) ((tSlot b hb).view.loc (thr d L))) (w : S2048.Idx → Elt F .i32)
    (hw : ∀ x, (w x).toNat ≤ 63) :
    ∀ i ∈ (tSlot b hb).view.set, ((tSlot b hb).view.write (Elt F) fd w Finset.univ i).toNat ≤ 63 := by
  intro i hi
  rw [View.set, Finset.mem_map] at hi
  obtain ⟨x, -, rfl⟩ := hi
  rw [View.write_emb_of_mem _ _ (Finset.mem_univ x)]
  exact hw x

/-- The same as one listed write. -/
theorem writes_ok (b : ℕ) (hb : b < 2) (fd : Buf (Elt F) ((tSlot b hb).view.loc (thr d L))) (w : S2048.Idx → Elt F .i32)
    (hw : ∀ x, (w x).toNat ≤ 63) :
    ∀ i ∈ (tSlot b hb).view.set, ((tSlot b hb).view.writes (Elt F) fd [⟨Rect.whole S2048, w⟩] i).toNat ≤ 63 := by
  have e := View.write_univ_eq_writes_whole (Val := Elt F) (tSlot b hb).view fd [] w
  rw [← e]
  exact write_ok d L b hb fd w hw

/-! ## Joining a buffer's windows, each at contents of its own, back into the buffer -/

/-- The elements of a list of sets, each held at some contents. -/
def sepAllE {ℓ : Loc nD τ sig} (q : PosShare TreeShare) : List (Finset (Idx ℓ)) → sProp 𝕄
  | [] => iprop(emp)
  | w :: ws => iprop((∃ g : Buf (Elt F) ℓ, ℓ ↦[w]{q} g) ∗ sepAllE q ws)

/-- A set less a subset at one contents, the subset at another: the set at the contents that are the one off the subset and
    the other on it. -/
theorem pointsTo_glue {ℓ : Loc nD τ sig} (q : PosShare TreeShare) {S w : Finset (Idx ℓ)} (hw : w ⊆ S) (f g : Buf (Elt F) ℓ) :
    iprop((ℓ ↦[S \ w]{q} f) ∗ (ℓ ↦[w]{q} g)) ⊢ iprop(∃ h : Buf (Elt F) ℓ, (ℓ ↦[S]{q} h : sProp 𝕄)) := by
  classical
  iintro ⟨Hf, Hg⟩
  iexists (fun i => if i ∈ w then g i else f i)
  have e1 : ∀ i ∈ S \ w, f i = (fun i => if i ∈ w then g i else f i) i := fun i hi => by
    have hn : i ∉ w := (Finset.mem_sdiff.mp hi).2
    simp [hn]
  have e2 : ∀ i ∈ w, g i = (fun i => if i ∈ w then g i else f i) i := fun i hi => by simp [hi]
  iapply (pointsTo_split_subset hw).2
  isplitl [Hg]
  · iapply (Entails.of_eq (pointsTo_congr (q := q) e2)); iexact Hg
  · iapply (Entails.of_eq (pointsTo_congr (q := q) e1)); iexact Hf

/-- A set less pairwise-disjoint subsets of it at some contents, and those subsets each at some contents: the set at some. -/
theorem pointsTo_less_joinE {ℓ : Loc nD τ sig} (q : PosShare TreeShare) (ws : List (Finset (Idx ℓ))) :
    ∀ (S : Finset (Idx ℓ)), (∀ w ∈ ws, w ⊆ S) → ws.Pairwise Disjoint →
      iprop((∃ f : Buf (Elt F) ℓ, ℓ ↦[ws.foldl (· \ ·) S]{q} f) ∗ sepAllE (F := F) q ws) ⊢ iprop(∃ f : Buf (Elt F) ℓ, (ℓ ↦[S]{q} f : sProp 𝕄)) := by
  induction ws with
  | nil =>
    intro S _ _
    simp only [List.foldl_nil, sepAllE]
    exact Laws.sep_emp.1
  | cons w ws ih =>
    intro S hsub hd
    simp only [List.foldl_cons, sepAllE]
    have hw : w ⊆ S := hsub w (List.mem_cons_self ..)
    have hsub' : ∀ w' ∈ ws, w' ⊆ S \ w := fun w' hw' =>
      Finset.subset_sdiff.mpr ⟨hsub w' (List.mem_cons_of_mem _ hw'), ((List.pairwise_cons.mp hd).1 w' hw').symm⟩
    iintro ⟨Hr, ⟨%g, Hw⟩, Hws⟩
    ihave H := (ih (S \ w) hsub' (List.pairwise_cons.mp hd).2) $$ [Hr Hws]
    · isplitl [Hr] <;> iassumption
    icases H with ⟨%f', H⟩
    iapply (pointsTo_glue (F := F) q hw f' g)
    isplitl [H] <;> iassumption

/-! ## The staging buffers' slot rows -/

/-- The thirty-two rows of the embedding's staging buffer, slot 0's then slot 1's. -/
abbrev xWins : List (Finset (Idx ((xB : Memref sig .scVector .vmem S2x16x2048 .f32).view.loc (thr d L)))) :=
  [(xSlot 0 0 (ltc rfl) (ltc rfl)).view.set, (xSlot 0 1 (ltc rfl) (ltc rfl)).view.set, (xSlot 0 2 (ltc rfl) (ltc rfl)).view.set, (xSlot 0 3 (ltc rfl) (ltc rfl)).view.set, (xSlot 0 4 (ltc rfl) (ltc rfl)).view.set, (xSlot 0 5 (ltc rfl) (ltc rfl)).view.set, (xSlot 0 6 (ltc rfl) (ltc rfl)).view.set, (xSlot 0 7 (ltc rfl) (ltc rfl)).view.set, (xSlot 0 8 (ltc rfl) (ltc rfl)).view.set, (xSlot 0 9 (ltc rfl) (ltc rfl)).view.set, (xSlot 0 10 (ltc rfl) (ltc rfl)).view.set, (xSlot 0 11 (ltc rfl) (ltc rfl)).view.set, (xSlot 0 12 (ltc rfl) (ltc rfl)).view.set, (xSlot 0 13 (ltc rfl) (ltc rfl)).view.set, (xSlot 0 14 (ltc rfl) (ltc rfl)).view.set, (xSlot 0 15 (ltc rfl) (ltc rfl)).view.set,
   (xSlot 1 0 (ltc rfl) (ltc rfl)).view.set, (xSlot 1 1 (ltc rfl) (ltc rfl)).view.set, (xSlot 1 2 (ltc rfl) (ltc rfl)).view.set, (xSlot 1 3 (ltc rfl) (ltc rfl)).view.set, (xSlot 1 4 (ltc rfl) (ltc rfl)).view.set, (xSlot 1 5 (ltc rfl) (ltc rfl)).view.set, (xSlot 1 6 (ltc rfl) (ltc rfl)).view.set, (xSlot 1 7 (ltc rfl) (ltc rfl)).view.set, (xSlot 1 8 (ltc rfl) (ltc rfl)).view.set, (xSlot 1 9 (ltc rfl) (ltc rfl)).view.set, (xSlot 1 10 (ltc rfl) (ltc rfl)).view.set, (xSlot 1 11 (ltc rfl) (ltc rfl)).view.set, (xSlot 1 12 (ltc rfl) (ltc rfl)).view.set, (xSlot 1 13 (ltc rfl) (ltc rfl)).view.set, (xSlot 1 14 (ltc rfl) (ltc rfl)).view.set, (xSlot 1 15 (ltc rfl) (ltc rfl)).view.set]

omit [FloatOps F] in
theorem xWin_lt (n : Fin 32) : n.val / 16 < 2 ∧ n.val % 16 < 16 := by
  have := n.isLt; omega

omit [FloatOps F] in
theorem xWins_eq_ofFn : xWins d L = List.ofFn (fun n : Fin 32 => (xSlot (n.val / 16) (n.val % 16) (xWin_lt n).1 (xWin_lt n).2).view.set) := by
  simp only [List.ofFn_succ, List.ofFn_zero]
  rfl

omit [FloatOps F] in
theorem xWins_pairwise : (xWins d L).Pairwise Disjoint := by
  rw [xWins_eq_ofFn, List.pairwise_ofFn]
  intro i j hij
  have hi := i.isLt; have hj := j.isLt
  show Disjoint ((((xB : Memref sig .scVector .vmem S2x16x2048 .f32).view.slice (Rect.unit (s := S2x16x2048) ![i.val / 16, i.val % 16, 0] S1x1x2048.size (inb_x _ _ (xWin_lt i).1 (xWin_lt i).2))).reshape S2048 squeezes_S1x1x2048_S2048.numel_eq).set)
    ((((xB : Memref sig .scVector .vmem S2x16x2048 .f32).view.slice (Rect.unit (s := S2x16x2048) ![j.val / 16, j.val % 16, 0] S1x1x2048.size (inb_x _ _ (xWin_lt j).1 (xWin_lt j).2))).reshape S2048 squeezes_S1x1x2048_S2048.numel_eq).set)
  rw [View.set_reshape, View.set_reshape, View.set_slice, View.set_slice]
  refine (Finset.disjoint_map _).mpr ?_
  by_cases h0 : i.val / 16 = j.val / 16
  · refine Rect.unit_disjoint (1 : Fin 3) ?_
    show i.val % 16 + 1 ≤ j.val % 16 ∨ j.val % 16 + 1 ≤ i.val % 16
    have : i.val < j.val := hij
    omega
  · refine Rect.unit_disjoint (0 : Fin 3) ?_
    show i.val / 16 + 1 ≤ j.val / 16 ∨ j.val / 16 + 1 ≤ i.val / 16
    omega

omit [FloatOps F] in
theorem rWins_disjoint (m : Memref sig .scVector .vmem S2x2048 .i32) :
    Disjoint (((m.slice (Rect.unit (s := S2x2048) ![0, 0] S1x2048.size (inb_r 0 (ltc rfl))) (fun _ => rfl)).squeeze S2048 squeezes_S1x2048_S2048).view.set)
      (((m.slice (Rect.unit (s := S2x2048) ![1, 0] S1x2048.size (inb_r 1 (ltc rfl))) (fun _ => rfl)).squeeze S2048 squeezes_S1x2048_S2048).view.set) := by
  show Disjoint (((m.view.slice (Rect.unit (s := S2x2048) ![0, 0] S1x2048.size (inb_r 0 (ltc rfl)))).reshape S2048 squeezes_S1x2048_S2048.numel_eq).set)
    (((m.view.slice (Rect.unit (s := S2x2048) ![1, 0] S1x2048.size (inb_r 1 (ltc rfl)))).reshape S2048 squeezes_S1x2048_S2048.numel_eq).set)
  rw [View.set_reshape, View.set_reshape, View.set_slice, View.set_slice]
  refine (Finset.disjoint_map _).mpr (Rect.unit_disjoint (0 : Fin 2) ?_)
  show 0 + 1 ≤ 1 ∨ 1 + 1 ≤ 0
  omega

omit [FloatOps F] in
/-- A wait on one's own transfers recorded: still among the waits allowed. -/
theorem waits_ok {W W' : Waits sig (HIx 2)} (s : SemLoc sig) (hW' : ∀ p ∈ W', p ∈ W ∨ p.2 = none) :
    ∀ p ∈ insert (s, (none : HIx 2)) W', p ∈ W ∨ p.2 = none := by
  intro p hp
  rcases Finset.mem_insert.mp hp with rfl | hp
  · exact .inr rfl
  · exact hW' p hp

end Cert.Proof.KB.Pass1
end
-- ==== Proof.Pass1B.lean ====
/-
  The first SparseCore call's body at one vector subcore: the loops' invariants and the body's triple.
-/
import proofs.«210783_g59777354826199_cont_9to1_m_168_18_alg».proof.Proof.Pass1BB

noncomputable section

namespace Cert.Proof.KB.Pass1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => 𝕄F F

variable (d : Dev nD) (L : grid0.Coords)

/-! ## A chunk's sixteen rows are a row's length apart -/

omit [FloatOps F] in
theorem sep3 (c c' : Fin 16) (h : c ≠ c') :
    (k0_off3 L (BitVec.ofNat 32 (2097152 * c.val))) 0 + 2048 ≤ (k0_off3 L (BitVec.ofNat 32 (2097152 * c'.val))) 0
      ∨ (k0_off3 L (BitVec.ofNat 32 (2097152 * c'.val))) 0 + 2048 ≤ (k0_off3 L (BitVec.ofNat 32 (2097152 * c.val))) 0 := by
  rw [k0_off3_eq, k0_off3_eq]
  have hne : c.val ≠ c'.val := fun e => h (Fin.ext e)
  simp only [Matrix.cons_val_zero]
  omega
omit [FloatOps F] in
theorem sep5 (c c' : Fin 16) (h : c ≠ c') :
    (k0_off5 L (BitVec.ofNat 32 (2097152 * c.val))) 0 + 2048 ≤ (k0_off5 L (BitVec.ofNat 32 (2097152 * c'.val))) 0
      ∨ (k0_off5 L (BitVec.ofNat 32 (2097152 * c'.val))) 0 + 2048 ≤ (k0_off5 L (BitVec.ofNat 32 (2097152 * c.val))) 0 := by
  rw [k0_off5_eq, k0_off5_eq]
  have hne : c.val ≠ c'.val := fun e => h (Fin.ext e)
  simp only [Matrix.cons_val_zero]
  omega
omit [FloatOps F] in
theorem sep75 (g : Fin k0_t2_loop.trips) (b : Fin 2) (c c' : Fin 16) (h : c ≠ c') :
    (k0_off75 L g (BitVec.ofNat 32 (2097152 * c.val)) (BitVec.ofNat 32 b.val)) 0 + 2048 ≤ (k0_off75 L g (BitVec.ofNat 32 (2097152 * c'.val)) (BitVec.ofNat 32 b.val)) 0
      ∨ (k0_off75 L g (BitVec.ofNat 32 (2097152 * c'.val)) (BitVec.ofNat 32 b.val)) 0 + 2048 ≤ (k0_off75 L g (BitVec.ofNat 32 (2097152 * c.val)) (BitVec.ofNat 32 b.val)) 0 := by
  rw [k0_off75_eq, k0_off75_eq]
  have hne : c.val ≠ c'.val := fun e => h (Fin.ext e)
  simp only [Matrix.cons_val_zero]
  omega

/-- An input's remainder and its two semaphores' read tokens: the input at its share. -/
theorem toks2_join {ℓ : Loc nD τ sig} (q : PosShare TreeShare) (f : Buf (Elt F) ℓ) :
    iprop((ℓ ↦{Transfers.shareDrop q 2} f) ∗ (ℓ ↦{Transfers.shareTok q 2 0} f) ∗ (ℓ ↦{Transfers.shareTok q 2 1} f)) ⊢ (ℓ ↦{q} f : sProp 𝕄) :=
  (show iprop((ℓ ↦{Transfers.shareDrop q 2} f) ∗ (ℓ ↦{Transfers.shareTok q 2 0} f) ∗ (ℓ ↦{Transfers.shareTok q 2 1} f)) ⊢ _
    from Entails.of_eq (by rw [BI.bigSep_fin_two]; rfl)).trans
    (Transfers.pointsTo_toks_join (Ix := HIx 2) (Name := ℕ) (U := UU) (Lvl := ℕ) q 2)

omit [FloatOps F] in
theorem tWins_pairwise : [(tSlot 0 (ltc rfl)).view.set, (tSlot 1 (ltc rfl)).view.set].Pairwise Disjoint := by
  refine List.Pairwise.cons ?_ (List.pairwise_singleton _ _)
  intro w hw
  rw [List.mem_singleton] at hw
  subst hw
  exact rWins_disjoint tB
omit [FloatOps F] in
theorem mWins_pairwise : [(mSlot 0 (ltc rfl)).view.set, (mSlot 1 (ltc rfl)).view.set].Pairwise Disjoint := by
  refine List.Pairwise.cons ?_ (List.pairwise_singleton _ _)
  intro w hw
  rw [List.mem_singleton] at hw
  subst hw
  exact rWins_disjoint mB

/-- What slot `b`'s batch holds while in flight, and what is left of the three inputs' read share `tok` of that slot's semaphore. -/
def inFlight (b : ℕ) (hb : b < 2) (sem : DmaSem sig) (tok : PosShare TreeShare)
    (e : Buf (Elt F) ((eW : Memref sig .scVector .hbm S33554432 .f32).view.loc (thr d L)))
    (t : Buf (Elt F) ((tW : Memref sig .scVector .hbm S2097152 .i32).view.loc (thr d L)))
    (k : Buf (Elt F) ((kW : Memref sig .scVector .hbm S2097152 .i32).view.loc (thr d L))) : sProp 𝕄 :=
  iprop(∃ (oe : Fin 16 → Fin 1 → ℕ) (he : PLift (∀ c a, oe c a + S2048.size a ≤ S33554432.size a))
      (ot : Fin 1 → ℕ) (hot : PLift (∀ a, ot a + S2048.size a ≤ S2097152.size a)) (tl : Buf (Elt F) ((tSlot b hb).view.loc (thr d L))),
    ⌜∀ c c' : Fin 16, c ≠ c' → oe c 0 + 2048 ≤ oe c' 0 ∨ oe c' 0 + 2048 ≤ oe c 0⌝
      ∗ ⌜∀ i ∈ (tSlot b hb).view.set, (tl i).toNat ≤ 63⌝
      ∗ Transfers.Batch (countersEmb (U := UU)) (thr d L) (.dma sem) none NB
        (deliv d L b hb oe he.down ot hot.down tok e t k tl) 18 0
      ∗ ((eW : Memref sig .scVector .hbm S33554432 .f32).view.loc (thr d L) ↦[(eWins d L oe he.down).foldl (· \ ·) Finset.univ]{tok} e)
      ∗ ((tW : Memref sig .scVector .hbm S2097152 .i32).view.loc (thr d L) ↦[Finset.univ \ (tSrc ot hot.down).view.set]{tok} t)
      ∗ ((kW : Memref sig .scVector .hbm S2097152 .i32).view.loc (thr d L) ↦[Finset.univ \ (kSrc ot hot.down).view.set]{tok} k))

/-- Before trip `g` of the chunk loop: both slots' batches in flight, both accumulators held whole, the thread's debt. -/
def invO (q : PosShare TreeShare)
    (e : Buf (Elt F) ((eW : Memref sig .scVector .hbm S33554432 .f32).view.loc (thr d L)))
    (t : Buf (Elt F) ((tW : Memref sig .scVector .hbm S2097152 .i32).view.loc (thr d L)))
    (k : Buf (Elt F) ((kW : Memref sig .scVector .hbm S2097152 .i32).view.loc (thr d L)))
    (O : CellTallies nD τ sig (HIx 2)) (W : Waits sig (HIx 2)) (_g : ℕ) (_acc : BitVec 32) : sProp 𝕄 :=
  iprop(Transfers.MayWaits (thr d L) none O
    ∗ (∃ f, (aB : Memref sig .scVector .vmem S16384 .f32).view.loc (thr d L) ↦{fullShare} f)
    ∗ (∃ f, (cB : Memref sig .scVector .vmem S1024 .f32).view.loc (thr d L) ↦{fullShare} f)
    ∗ inFlight d L 0 (ltc rfl) cc0_scratch5.sem (Transfers.shareTok q 2 0) e t k
    ∗ inFlight d L 1 (ltc rfl) cc0_scratch6.sem (Transfers.shareTok q 2 1) e t k
    ∗ ∃ W', ⌜∀ p ∈ W', p ∈ W ∨ p.2 = none⌝ ∗ owes (thr d L) O W')
set_option maxHeartbeats 4000000 in
set_option sl_exec.rejoinStated true in
/-- The first SparseCore call's body at one vector subcore, at the frame: its inputs back at their share, its two result rows and its own scratch and semaphores back. -/
theorem body (q : PosShare TreeShare)
    (e : Buf (Elt F) ((eW : Memref sig .scVector .hbm S33554432 .f32).view.loc (thr d L)))
    (t : Buf (Elt F) ((tW : Memref sig .scVector .hbm S2097152 .i32).view.loc (thr d L)))
    (k : Buf (Elt F) ((kW : Memref sig .scVector .hbm S2097152 .i32).view.loc (thr d L)))
    (ht : ∀ j, (t j).toNat ≤ 63)
    (O : CellTallies nD τ sig (HIx 2)) (W : Waits sig (HIx 2)) (hO : ∀ g, O g none = 0) :
    iprop(levAts (K (F := F)).L (K (F := F)).lev
        ∗ (((eW : Memref sig .scVector .hbm S33554432 .f32).view.loc (thr d L) ↦{q} e)
          ∗ ((tW : Memref sig .scVector .hbm S2097152 .i32).view.loc (thr d L) ↦{q} t)
          ∗ ((kW : Memref sig .scVector .hbm S2097152 .i32).view.loc (thr d L) ↦{q} k)
          ∗ (∃ f, (o0Row L).view.loc (thr d L) ↦[(o0Row L).view.set]{fullShare} f)
          ∗ (∃ f, (o1Row L).view.loc (thr d L) ↦[(o1Row L).view.set]{fullShare} f))
        ∗ scopedBufs (thr d L) ∗ scopedSems0 (thr d L) ∗ owes (thr d L) O W : sProp 𝕄)
      ⊢ wp frame (wpE (defs₀ (F := F)) 𝒱₀ (thr d L) none) Set.univ
          (cc0__sc_pass1 L eW (Memref.isWhole_whole _) tW (Memref.isWhole_whole _) kW (Memref.isWhole_whole _)
            o0W (Memref.isWhole_whole _) o1W (Memref.isWhole_whole _) xB (Memref.isWhole_whole _) tB (Memref.isWhole_whole _)
            mB (Memref.isWhole_whole _) aB (Memref.isWhole_whole _) cB (Memref.isWhole_whole _) cc0_scratch5 cc0_scratch6 cc0_scoped0 cc0_scoped1)
          fun _ => iprop((((eW : Memref sig .scVector .hbm S33554432 .f32).view.loc (thr d L) ↦{q} e)
          ∗ ((tW : Memref sig .scVector .hbm S2097152 .i32).view.loc (thr d L) ↦{q} t)
          ∗ ((kW : Memref sig .scVector .hbm S2097152 .i32).view.loc (thr d L) ↦{q} k)
          ∗ (∃ f, (o0Row L).view.loc (thr d L) ↦[(o0Row L).view.set]{fullShare} f)
          ∗ (∃ f, (o1Row L).view.loc (thr d L) ↦[(o1Row L).view.set]{fullShare} f))
            ∗ scopedBufs (thr d L) ∗ scopedSems0 (thr d L) ∗ ∃ W', ⌜∀ p ∈ W', p ∈ W ∨ p.2 = none⌝ ∗ owes (thr d L) O W') := by
  rw [cc0__sc_pass1_eq_skeleton]; unfold cc0__sc_pass1_skel
  rw [(K (F := F)).scopedBufs_V facts d (cV L) (jV L), SparseCore.Cfg.scopedSems0_V (Val := Elt F) d (cV L) (jV L), ownSems0_V, ownBufs_V]
  iintro ⟨#Hlv, ⟨He, Ht, Hk, ⟨%f0, Ho0⟩, ⟨%f1, Ho1⟩⟩, ⟨⟨%fx, Hx⟩, ⟨%ft, Htb⟩, ⟨%fm, Hmb⟩, ⟨%fa, Ha⟩, ⟨%fc, Hc⟩, Hbufs⟩, ⟨Hs0, Hs1, Hr0, Hr1, Hsems⟩, HO⟩
  ihave Hmw := ((K (F := F)).mayWaits_none (thr := thr d L) hO) $$ Hlv
  ihave Hx' := (Entails.of_eq (pts_x (F := F) d L _).symm) $$ Hx
  ihave Htb' := (Entails.of_eq (pts_t (F := F) d L _).symm) $$ Htb
  ihave Hmb' := (Entails.of_eq (pts_m (F := F) d L _).symm) $$ Hmb
  ihave Ha' := (Entails.of_eq (pts_a (F := F) d L _).symm) $$ Ha
  ihave Hc' := (Entails.of_eq (pts_c (F := F) d L _).symm) $$ Hc
  sl_exec
  -- the zeroing loop
  sl_for (invZ (F := F) d L) $$ [Ha' Hc']
  case region =>
    intro k0 _
    unfold invZ
    iintro ⟨⟨%fa', Ha⟩, ⟨%fc', Hc⟩⟩
    sl_exec
    sl_step
    isplitl [Ha]; · iexists _; iexact Ha
    iexists _; iexact Hc
  · unfold invZ
    isplitl [Ha']; · iexists _; iexact Ha'
    iexists _; iexact Hc'
  iintro %_ HI
  unfold invZ
  icases HI with ⟨⟨%fa', Ha⟩, ⟨%fc', Hc⟩⟩
  -- each input as the remainder and one read token per semaphore
  ihave Hes := ((Transfers.pointsTo_toks_split (Ix := HIx 2) (Name := ℕ) (U := UU) (Lvl := ℕ) q 2).trans
    (show _ ⊢ iprop(((eW : Memref sig .scVector .hbm S33554432 .f32).view.loc (thr d L) ↦{Transfers.shareDrop q 2} e) ∗ ((eW : Memref sig .scVector .hbm S33554432 .f32).view.loc (thr d L) ↦{Transfers.shareTok q 2 0} e) ∗ ((eW : Memref sig .scVector .hbm S33554432 .f32).view.loc (thr d L) ↦{Transfers.shareTok q 2 1} e) : sProp 𝕄)
      from Entails.of_eq (by rw [BI.bigSep_fin_two]; rfl))) $$ He
  icases Hes with ⟨Her, He0, He1⟩
  ihave Hts := ((Transfers.pointsTo_toks_split (Ix := HIx 2) (Name := ℕ) (U := UU) (Lvl := ℕ) q 2).trans
    (show _ ⊢ iprop(((tW : Memref sig .scVector .hbm S2097152 .i32).view.loc (thr d L) ↦{Transfers.shareDrop q 2} t) ∗ ((tW : Memref sig .scVector .hbm S2097152 .i32).view.loc (thr d L) ↦{Transfers.shareTok q 2 0} t) ∗ ((tW : Memref sig .scVector .hbm S2097152 .i32).view.loc (thr d L) ↦{Transfers.shareTok q 2 1} t) : sProp 𝕄)
      from Entails.of_eq (by rw [BI.bigSep_fin_two]; rfl))) $$ Ht
  icases Hts with ⟨Htr, Ht0, Ht1⟩
  ihave Hks := ((Transfers.pointsTo_toks_split (Ix := HIx 2) (Name := ℕ) (U := UU) (Lvl := ℕ) q 2).trans
    (show _ ⊢ iprop(((kW : Memref sig .scVector .hbm S2097152 .i32).view.loc (thr d L) ↦{Transfers.shareDrop q 2} k) ∗ ((kW : Memref sig .scVector .hbm S2097152 .i32).view.loc (thr d L) ↦{Transfers.shareTok q 2 0} k) ∗ ((kW : Memref sig .scVector .hbm S2097152 .i32).view.loc (thr d L) ↦{Transfers.shareTok q 2 1} k) : sProp 𝕄)
      from Entails.of_eq (by rw [BI.bigSep_fin_two]; rfl))) $$ Hk
  icases Hks with ⟨Hkr, Hk0, Hk1⟩
  -- the two prologue batches
  imod (Transfers.batch_alloc' (Lvl := ℕ) (countersEmb (U := UU)) (thr d L) none NB
      (deliv d L 0 (ltc rfl) (fun c => k0_off3 L (BitVec.ofNat 32 (2097152 * c.val))) (fun c => k0_off3_inb L c) (k0_off4 L) (k0_off4_inb L) (Transfers.shareTok q 2 0) e t k (tLanded d L 0 (ltc rfl) (k0_off4 L) (k0_off4_inb L) t ft))
      (sm := .dma cc0_scratch5.sem) (E := Set.univ)) $$ Hs0 with HB0
  imod (Transfers.batch_alloc' (Lvl := ℕ) (countersEmb (U := UU)) (thr d L) none NB
      (deliv d L 1 (ltc rfl) (fun c => k0_off5 L (BitVec.ofNat 32 (2097152 * c.val))) (fun c => k0_off5_inb L c) (k0_off6 L) (k0_off6_inb L) (Transfers.shareTok q 2 1) e t k (tLanded d L 1 (ltc rfl) (k0_off6 L) (k0_off6_inb L) t (tLanded d L 0 (ltc rfl) (k0_off4 L) (k0_off4_inb L) t ft)))
      (sm := .dma cc0_scratch6.sem) (E := Set.univ)) $$ Hs1 with HB1
  sl_exec
  -- the chunk loop
  sl_for (invO (F := F) d L q e t k O W) $$ [Hmw Ha Hc HB0 HB1 He0 He1 Ht0 Ht1 Hk0 Hk1 HO]
  case region =>
    intro g _
    unfold invO inFlight
    iintro ⟨#Hmw, ⟨%fa2, Ha⟩, ⟨%fc2, Hc⟩, ⟨%oe0, %he0, %ot0, %hot0, %tl0, %hs0, %htl0, HB0, He0, Ht0, Hk0⟩, ⟨%oe1, %he1, %ot1, %hot1, %tl1, %hs1, %htl1, HB1, He1, Ht1, Hk1⟩, %W', %hW', HO⟩
    sl_exec
    -- slot 0: the landed rows opened, the targets' range, the scatter loop, the chunk rows joined back, the next batch
    icases HB0_dst0 with ⟨%gx0_0, HB0_dst0⟩
    icases HB0_dst1 with ⟨%gx0_1, HB0_dst1⟩
    icases HB0_dst2 with ⟨%gx0_2, HB0_dst2⟩
    icases HB0_dst3 with ⟨%gx0_3, HB0_dst3⟩
    icases HB0_dst4 with ⟨%gx0_4, HB0_dst4⟩
    icases HB0_dst5 with ⟨%gx0_5, HB0_dst5⟩
    icases HB0_dst6 with ⟨%gx0_6, HB0_dst6⟩
    icases HB0_dst7 with ⟨%gx0_7, HB0_dst7⟩
    icases HB0_dst8 with ⟨%gx0_8, HB0_dst8⟩
    icases HB0_dst9 with ⟨%gx0_9, HB0_dst9⟩
    icases HB0_dst10 with ⟨%gx0_10, HB0_dst10⟩
    icases HB0_dst11 with ⟨%gx0_11, HB0_dst11⟩
    icases HB0_dst12 with ⟨%gx0_12, HB0_dst12⟩
    icases HB0_dst13 with ⟨%gx0_13, HB0_dst13⟩
    icases HB0_dst14 with ⟨%gx0_14, HB0_dst14⟩
    icases HB0_dst15 with ⟨%gx0_15, HB0_dst15⟩
    icases HB0_dst17 with ⟨%gm0, HB0_dst17⟩
    ihave Htl := (tl_bound d L 0 (ltc rfl) tl0 htl0) $$ HB0_dst16
    icases Htl with ⟨%ft0', %hft0, HB0_dst16⟩
    sl_for (invI d L 0 (ltc rfl) ![gx0_0, gx0_1, gx0_2, gx0_3, gx0_4, gx0_5, gx0_6, gx0_7, gx0_8, gx0_9, gx0_10, gx0_11, gx0_12, gx0_13, gx0_14, gx0_15] ft0' gm0) $$ [Ha Hc HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB0_dst16 HB0_dst17]
    case region => exact fun kk acc => region3 (F := F) d L _ _ (fun x => iota_lt x) _ g _ _ _ _ _ ft0' hft0 gm0 kk acc
    · unfold invI
      isplitl [Ha]; · iexists _; iexact Ha
      isplitl [Hc]; · iexists _; iexact Hc
      isplitl [HB0_dst0]; · iexact HB0_dst0
      isplitl [HB0_dst1]; · iexact HB0_dst1
      isplitl [HB0_dst2]; · iexact HB0_dst2
      isplitl [HB0_dst3]; · iexact HB0_dst3
      isplitl [HB0_dst4]; · iexact HB0_dst4
      isplitl [HB0_dst5]; · iexact HB0_dst5
      isplitl [HB0_dst6]; · iexact HB0_dst6
      isplitl [HB0_dst7]; · iexact HB0_dst7
      isplitl [HB0_dst8]; · iexact HB0_dst8
      isplitl [HB0_dst9]; · iexact HB0_dst9
      isplitl [HB0_dst10]; · iexact HB0_dst10
      isplitl [HB0_dst11]; · iexact HB0_dst11
      isplitl [HB0_dst12]; · iexact HB0_dst12
      isplitl [HB0_dst13]; · iexact HB0_dst13
      isplitl [HB0_dst14]; · iexact HB0_dst14
      isplitl [HB0_dst15]; · iexact HB0_dst15
      isplitl [HB0_dst16]; · iexact HB0_dst16
      iexact HB0_dst17
    iintro %_ HI
    unfold invI
    icases HI with ⟨⟨%fa03, Ha⟩, ⟨%fc03, Hc⟩, HB0_dst0, HB0_dst1, HB0_dst2, HB0_dst3, HB0_dst4, HB0_dst5, HB0_dst6, HB0_dst7, HB0_dst8, HB0_dst9, HB0_dst10, HB0_dst11, HB0_dst12, HB0_dst13, HB0_dst14, HB0_dst15, HB0_dst16, HB0_dst17⟩
    ihave He0 := (pointsTo_less_join (F := F) (Transfers.shareTok q 2 0) e (eWins d L oe0 he0.down) Finset.univ (fun _ _ => Finset.subset_univ _)
      (eWins_pairwise d L oe0 he0.down hs0)) $$ [He0 HB0_src0 HB0_src1 HB0_src2 HB0_src3 HB0_src4 HB0_src5 HB0_src6 HB0_src7 HB0_src8 HB0_src9 HB0_src10 HB0_src11 HB0_src12 HB0_src13 HB0_src14 HB0_src15]
    · isplitl [He0]; · iexact He0
      simp only [sepAll]
      isplitl [HB0_src0]; · iexact HB0_src0
      isplitl [HB0_src1]; · iexact HB0_src1
      isplitl [HB0_src2]; · iexact HB0_src2
      isplitl [HB0_src3]; · iexact HB0_src3
      isplitl [HB0_src4]; · iexact HB0_src4
      isplitl [HB0_src5]; · iexact HB0_src5
      isplitl [HB0_src6]; · iexact HB0_src6
      isplitl [HB0_src7]; · iexact HB0_src7
      isplitl [HB0_src8]; · iexact HB0_src8
      isplitl [HB0_src9]; · iexact HB0_src9
      isplitl [HB0_src10]; · iexact HB0_src10
      isplitl [HB0_src11]; · iexact HB0_src11
      isplitl [HB0_src12]; · iexact HB0_src12
      isplitl [HB0_src13]; · iexact HB0_src13
      isplitl [HB0_src14]; · iexact HB0_src14
      isplitl [HB0_src15]; · iexact HB0_src15
      iempintro
    ihave Ht0 := (Entails.of_eq (show ((tSrc ot0 hot0.down).view.loc (thr d L) ↦{(Transfers.shareTok q 2 0)} t : sProp 𝕄) = ((tW : Memref sig .scVector .hbm S2097152 .i32).view.loc (thr d L) ↦{(Transfers.shareTok q 2 0)} t) from rfl)) $$ Ht0
    ihave Hk0 := (Entails.of_eq (show ((kSrc ot0 hot0.down).view.loc (thr d L) ↦{(Transfers.shareTok q 2 0)} k : sProp 𝕄) = ((kW : Memref sig .scVector .hbm S2097152 .i32).view.loc (thr d L) ↦{(Transfers.shareTok q 2 0)} k) from rfl)) $$ Hk0
    ihave HB0 := (Entails.of_eq (show (semVal (thr d L, SemLoc.dma (⟨0, ltc rfl⟩ : DmaSem sig)) 0 : sProp 𝕄) = semVal (s0cell d L) 0 from rfl)) $$ HB0
    imod (Transfers.batch_alloc' (Lvl := ℕ) (countersEmb (U := UU)) (thr d L) none NB
      (deliv d L 0 (ltc rfl) (fun c => k0_off75 L g (BitVec.ofNat 32 (2097152 * c.val)) 0#32) (fun c => k0_off75_inb L g c 0) (k0_off76 L g 0#32) (k0_off76_inb L g 0) (Transfers.shareTok q 2 0) e t k (tLandedL d L 0 (ltc rfl) (k0_off76 L g 0#32) (k0_off76_inb L g 0) t ft0'))
      (sm := .dma cc0_scratch5.sem) (E := Set.univ)) $$ HB0 with HB0
    sl_exec
    -- slot 1: the landed rows opened, the targets' range, the scatter loop, the chunk rows joined back, the next batch
    icases HB1_dst0 with ⟨%gx1_0, HB1_dst0⟩
    icases HB1_dst1 with ⟨%gx1_1, HB1_dst1⟩
    icases HB1_dst2 with ⟨%gx1_2, HB1_dst2⟩
    icases HB1_dst3 with ⟨%gx1_3, HB1_dst3⟩
    icases HB1_dst4 with ⟨%gx1_4, HB1_dst4⟩
    icases HB1_dst5 with ⟨%gx1_5, HB1_dst5⟩
    icases HB1_dst6 with ⟨%gx1_6, HB1_dst6⟩
    icases HB1_dst7 with ⟨%gx1_7, HB1_dst7⟩
    icases HB1_dst8 with ⟨%gx1_8, HB1_dst8⟩
    icases HB1_dst9 with ⟨%gx1_9, HB1_dst9⟩
    icases HB1_dst10 with ⟨%gx1_10, HB1_dst10⟩
    icases HB1_dst11 with ⟨%gx1_11, HB1_dst11⟩
    icases HB1_dst12 with ⟨%gx1_12, HB1_dst12⟩
    icases HB1_dst13 with ⟨%gx1_13, HB1_dst13⟩
    icases HB1_dst14 with ⟨%gx1_14, HB1_dst14⟩
    icases HB1_dst15 with ⟨%gx1_15, HB1_dst15⟩
    icases HB1_dst17 with ⟨%gm1, HB1_dst17⟩
    ihave Htl := (tl_bound d L 1 (ltc rfl) tl1 htl1) $$ HB1_dst16
    icases Htl with ⟨%ft1', %hft1, HB1_dst16⟩
    sl_for (invI d L 1 (ltc rfl) ![gx1_0, gx1_1, gx1_2, gx1_3, gx1_4, gx1_5, gx1_6, gx1_7, gx1_8, gx1_9, gx1_10, gx1_11, gx1_12, gx1_13, gx1_14, gx1_15] ft1' gm1) $$ [Ha Hc HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15 HB1_dst16 HB1_dst17]
    case region => exact fun kk acc => region4 (F := F) d L _ _ (fun x => iota_lt x) _ g _ _ _ _ _ ft1' hft1 gm1 kk acc
    · unfold invI
      isplitl [Ha]; · iexists _; iexact Ha
      isplitl [Hc]; · iexists _; iexact Hc
      isplitl [HB1_dst0]; · iexact HB1_dst0
      isplitl [HB1_dst1]; · iexact HB1_dst1
      isplitl [HB1_dst2]; · iexact HB1_dst2
      isplitl [HB1_dst3]; · iexact HB1_dst3
      isplitl [HB1_dst4]; · iexact HB1_dst4
      isplitl [HB1_dst5]; · iexact HB1_dst5
      isplitl [HB1_dst6]; · iexact HB1_dst6
      isplitl [HB1_dst7]; · iexact HB1_dst7
      isplitl [HB1_dst8]; · iexact HB1_dst8
      isplitl [HB1_dst9]; · iexact HB1_dst9
      isplitl [HB1_dst10]; · iexact HB1_dst10
      isplitl [HB1_dst11]; · iexact HB1_dst11
      isplitl [HB1_dst12]; · iexact HB1_dst12
      isplitl [HB1_dst13]; · iexact HB1_dst13
      isplitl [HB1_dst14]; · iexact HB1_dst14
      isplitl [HB1_dst15]; · iexact HB1_dst15
      isplitl [HB1_dst16]; · iexact HB1_dst16
      iexact HB1_dst17
    iintro %_ HI
    unfold invI
    icases HI with ⟨⟨%fa13, Ha⟩, ⟨%fc13, Hc⟩, HB1_dst0, HB1_dst1, HB1_dst2, HB1_dst3, HB1_dst4, HB1_dst5, HB1_dst6, HB1_dst7, HB1_dst8, HB1_dst9, HB1_dst10, HB1_dst11, HB1_dst12, HB1_dst13, HB1_dst14, HB1_dst15, HB1_dst16, HB1_dst17⟩
    ihave He1 := (pointsTo_less_join (F := F) (Transfers.shareTok q 2 1) e (eWins d L oe1 he1.down) Finset.univ (fun _ _ => Finset.subset_univ _)
      (eWins_pairwise d L oe1 he1.down hs1)) $$ [He1 HB1_src0 HB1_src1 HB1_src2 HB1_src3 HB1_src4 HB1_src5 HB1_src6 HB1_src7 HB1_src8 HB1_src9 HB1_src10 HB1_src11 HB1_src12 HB1_src13 HB1_src14 HB1_src15]
    · isplitl [He1]; · iexact He1
      simp only [sepAll]
      isplitl [HB1_src0]; · iexact HB1_src0
      isplitl [HB1_src1]; · iexact HB1_src1
      isplitl [HB1_src2]; · iexact HB1_src2
      isplitl [HB1_src3]; · iexact HB1_src3
      isplitl [HB1_src4]; · iexact HB1_src4
      isplitl [HB1_src5]; · iexact HB1_src5
      isplitl [HB1_src6]; · iexact HB1_src6
      isplitl [HB1_src7]; · iexact HB1_src7
      isplitl [HB1_src8]; · iexact HB1_src8
      isplitl [HB1_src9]; · iexact HB1_src9
      isplitl [HB1_src10]; · iexact HB1_src10
      isplitl [HB1_src11]; · iexact HB1_src11
      isplitl [HB1_src12]; · iexact HB1_src12
      isplitl [HB1_src13]; · iexact HB1_src13
      isplitl [HB1_src14]; · iexact HB1_src14
      isplitl [HB1_src15]; · iexact HB1_src15
      iempintro
    ihave Ht1 := (Entails.of_eq (show ((tSrc ot1 hot1.down).view.loc (thr d L) ↦{(Transfers.shareTok q 2 1)} t : sProp 𝕄) = ((tW : Memref sig .scVector .hbm S2097152 .i32).view.loc (thr d L) ↦{(Transfers.shareTok q 2 1)} t) from rfl)) $$ Ht1
    ihave Hk1 := (Entails.of_eq (show ((kSrc ot1 hot1.down).view.loc (thr d L) ↦{(Transfers.shareTok q 2 1)} k : sProp 𝕄) = ((kW : Memref sig .scVector .hbm S2097152 .i32).view.loc (thr d L) ↦{(Transfers.shareTok q 2 1)} k) from rfl)) $$ Hk1
    ihave HB1 := (Entails.of_eq (show (semVal (thr d L, SemLoc.dma (⟨1, ltc rfl⟩ : DmaSem sig)) 0 : sProp 𝕄) = semVal (s1cell d L) 0 from rfl)) $$ HB1
    imod (Transfers.batch_alloc' (Lvl := ℕ) (countersEmb (U := UU)) (thr d L) none NB
      (deliv d L 1 (ltc rfl) (fun c => k0_off75 L g (BitVec.ofNat 32 (2097152 * c.val)) 1#32) (fun c => k0_off75_inb L g c 1) (k0_off76 L g 1#32) (k0_off76_inb L g 1) (Transfers.shareTok q 2 1) e t k (tLandedL d L 1 (ltc rfl) (k0_off76 L g 1#32) (k0_off76_inb L g 1) t ft1'))
      (sm := .dma cc0_scratch6.sem) (E := Set.univ)) $$ HB1 with HB1
    sl_exec
    sl_exec
    sl_step
    isplitl [Hmw]; · iexact Hmw
    isplitl [Ha]; · iexists _; iexact Ha
    isplitl [Hc]; · iexists _; iexact Hc
    isplitl [HB0 He0 Ht0 Hk0]
    · iexists (fun c => k0_off75 L g (BitVec.ofNat 32 (2097152 * c.val)) 0#32), ⟨(fun c => k0_off75_inb L g c 0)⟩, (k0_off76 L g 0#32), ⟨k0_off76_inb L g 0⟩, (tLandedL d L 0 (ltc rfl) (k0_off76 L g 0#32) (k0_off76_inb L g 0) t ft0')
      isplitr; · ipureintro; exact sep75 L g 0
      isplitr; · ipureintro; exact writes_ok d L 0 (ltc rfl) _ _ (read_ok d L _ _ t ht)
      isplitl [HB0]; · iexact HB0
      isplitl [He0]; · iexact He0
      isplitl [Ht0]; · iexact Ht0
      iexact Hk0
    isplitl [HB1 He1 Ht1 Hk1]
    · iexists (fun c => k0_off75 L g (BitVec.ofNat 32 (2097152 * c.val)) 1#32), ⟨(fun c => k0_off75_inb L g c 1)⟩, (k0_off76 L g 1#32), ⟨k0_off76_inb L g 1⟩, (tLandedL d L 1 (ltc rfl) (k0_off76 L g 1#32) (k0_off76_inb L g 1) t ft1')
      isplitr; · ipureintro; exact sep75 L g 1
      isplitr; · ipureintro; exact writes_ok d L 1 (ltc rfl) _ _ (read_ok d L _ _ t ht)
      isplitl [HB1]; · iexact HB1
      isplitl [He1]; · iexact He1
      isplitl [Ht1]; · iexact Ht1
      iexact Hk1
    iexists _
    isplitr
    on_goal 2 => iexact HO
    ipureintro
    repeat (first | exact hW' | apply waits_ok)
  · unfold invO inFlight
    isplitl [Hmw]; · iexact Hmw
    isplitl [Ha]; · iexists _; iexact Ha
    isplitl [Hc]; · iexists _; iexact Hc
    isplitl [HB0 He0 Ht0 Hk0]
    · iexists (fun c => k0_off3 L (BitVec.ofNat 32 (2097152 * c.val))), ⟨fun c => k0_off3_inb L c⟩, (k0_off4 L), ⟨k0_off4_inb L⟩, (tLanded d L 0 (ltc rfl) (k0_off4 L) (k0_off4_inb L) t ft)
      isplitr; · ipureintro; exact sep3 L
      isplitr; · ipureintro; exact write_ok d L 0 (ltc rfl) _ _ (read_ok d L _ _ t ht)
      isplitl [HB0]; · iexact HB0
      isplitl [He0]; · iexact He0
      isplitl [Ht0]; · iexact Ht0
      iexact Hk0
    isplitl [HB1 He1 Ht1 Hk1]
    · iexists (fun c => k0_off5 L (BitVec.ofNat 32 (2097152 * c.val))), ⟨fun c => k0_off5_inb L c⟩, (k0_off6 L), ⟨k0_off6_inb L⟩, (tLanded d L 1 (ltc rfl) (k0_off6 L) (k0_off6_inb L) t (tLanded d L 0 (ltc rfl) (k0_off4 L) (k0_off4_inb L) t ft))
      isplitr; · ipureintro; exact sep5 L
      isplitr; · ipureintro; exact write_ok d L 1 (ltc rfl) _ _ (read_ok d L _ _ t ht)
      isplitl [HB1]; · iexact HB1
      isplitl [He1]; · iexact He1
      isplitl [Ht1]; · iexact Ht1
      iexact Hk1
    iexists W; isplitr
    · ipureintro; exact fun p hp => .inl hp
    · iexact HO
  iintro %_ HI
  unfold invO inFlight
  icases HI with ⟨#Hmw2, ⟨%fa4, Ha⟩, ⟨%fc4, Hc⟩, ⟨%oe0, %he0, %ot0, %hot0, %tl0, %hs0, %htl0, HB0, He0, Ht0, Hk0⟩, ⟨%oe1, %he1, %ot1, %hot1, %tl1, %hs1, %htl1, HB1, He1, Ht1, Hk1⟩, %W', %hW', HO⟩
  sl_exec
  sl_step
  ihave He0 := (pointsTo_less_join (F := F) (Transfers.shareTok q 2 0) e (eWins d L oe0 he0.down) Finset.univ (fun _ _ => Finset.subset_univ _)
    (eWins_pairwise d L oe0 he0.down hs0)) $$ [He0 HB0_src0 HB0_src1 HB0_src2 HB0_src3 HB0_src4 HB0_src5 HB0_src6 HB0_src7 HB0_src8 HB0_src9 HB0_src10 HB0_src11 HB0_src12 HB0_src13 HB0_src14 HB0_src15]
  · isplitl [He0]; · iexact He0
    simp only [sepAll]
    isplitl [HB0_src0]; · iexact HB0_src0
    isplitl [HB0_src1]; · iexact HB0_src1
    isplitl [HB0_src2]; · iexact HB0_src2
    isplitl [HB0_src3]; · iexact HB0_src3
    isplitl [HB0_src4]; · iexact HB0_src4
    isplitl [HB0_src5]; · iexact HB0_src5
    isplitl [HB0_src6]; · iexact HB0_src6
    isplitl [HB0_src7]; · iexact HB0_src7
    isplitl [HB0_src8]; · iexact HB0_src8
    isplitl [HB0_src9]; · iexact HB0_src9
    isplitl [HB0_src10]; · iexact HB0_src10
    isplitl [HB0_src11]; · iexact HB0_src11
    isplitl [HB0_src12]; · iexact HB0_src12
    isplitl [HB0_src13]; · iexact HB0_src13
    isplitl [HB0_src14]; · iexact HB0_src14
    isplitl [HB0_src15]; · iexact HB0_src15
    iempintro
  ihave He1 := (pointsTo_less_join (F := F) (Transfers.shareTok q 2 1) e (eWins d L oe1 he1.down) Finset.univ (fun _ _ => Finset.subset_univ _)
    (eWins_pairwise d L oe1 he1.down hs1)) $$ [He1 HB1_src0 HB1_src1 HB1_src2 HB1_src3 HB1_src4 HB1_src5 HB1_src6 HB1_src7 HB1_src8 HB1_src9 HB1_src10 HB1_src11 HB1_src12 HB1_src13 HB1_src14 HB1_src15]
  · isplitl [He1]; · iexact He1
    simp only [sepAll]
    isplitl [HB1_src0]; · iexact HB1_src0
    isplitl [HB1_src1]; · iexact HB1_src1
    isplitl [HB1_src2]; · iexact HB1_src2
    isplitl [HB1_src3]; · iexact HB1_src3
    isplitl [HB1_src4]; · iexact HB1_src4
    isplitl [HB1_src5]; · iexact HB1_src5
    isplitl [HB1_src6]; · iexact HB1_src6
    isplitl [HB1_src7]; · iexact HB1_src7
    isplitl [HB1_src8]; · iexact HB1_src8
    isplitl [HB1_src9]; · iexact HB1_src9
    isplitl [HB1_src10]; · iexact HB1_src10
    isplitl [HB1_src11]; · iexact HB1_src11
    isplitl [HB1_src12]; · iexact HB1_src12
    isplitl [HB1_src13]; · iexact HB1_src13
    isplitl [HB1_src14]; · iexact HB1_src14
    isplitl [HB1_src15]; · iexact HB1_src15
    iempintro
  -- the inputs back at their share, the result rows
  isplitl [He0 He1 Her Ht0 Ht1 Htr Hk0 Hk1 Hkr Ho0 Ho1]
  · isplitl [He0 He1 Her]
    · iapply (toks2_join (F := F) q e)
      isplitl [Her]; · iexact Her
      isplitl [He0]; · iexact He0
      iexact He1
    isplitl [Ht0 Ht1 Htr]
    · iapply (toks2_join (F := F) q t)
      isplitl [Htr]; · iexact Htr
      isplitl [Ht0]; · iexact Ht0
      iexact Ht1
    isplitl [Hk0 Hk1 Hkr]
    · iapply (toks2_join (F := F) q k)
      isplitl [Hkr]; · iexact Hkr
      isplitl [Hk0]; · iexact Hk0
      iexact Hk1
    isplitl [Ho0]; · iexists _; iexact Ho0
    iexists _; iexact Ho1
  -- the scratch buffers, their slot rows joined back
  isplitl [Hx' Htb' Hmb' Ha Hc Hbufs HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15 HB0_dst16 HB1_dst16 HB0_dst17 HB1_dst17]
  · isplitl [Hx' HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15]
    · ihave Hx := (pointsTo_less_joinE (F := F) fullShare (xWins d L) Finset.univ (fun _ _ => Finset.subset_univ _) (xWins_pairwise d L)) $$ [Hx' HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15]
      · isplitl [Hx']; · iexists _; iexact Hx'
        simp only [sepAllE]
        isplitl [HB0_dst0]; · iexact HB0_dst0
        isplitl [HB0_dst1]; · iexact HB0_dst1
        isplitl [HB0_dst2]; · iexact HB0_dst2
        isplitl [HB0_dst3]; · iexact HB0_dst3
        isplitl [HB0_dst4]; · iexact HB0_dst4
        isplitl [HB0_dst5]; · iexact HB0_dst5
        isplitl [HB0_dst6]; · iexact HB0_dst6
        isplitl [HB0_dst7]; · iexact HB0_dst7
        isplitl [HB0_dst8]; · iexact HB0_dst8
        isplitl [HB0_dst9]; · iexact HB0_dst9
        isplitl [HB0_dst10]; · iexact HB0_dst10
        isplitl [HB0_dst11]; · iexact HB0_dst11
        isplitl [HB0_dst12]; · iexact HB0_dst12
        isplitl [HB0_dst13]; · iexact HB0_dst13
        isplitl [HB0_dst14]; · iexact HB0_dst14
        isplitl [HB0_dst15]; · iexact HB0_dst15
        isplitl [HB1_dst0]; · iexact HB1_dst0
        isplitl [HB1_dst1]; · iexact HB1_dst1
        isplitl [HB1_dst2]; · iexact HB1_dst2
        isplitl [HB1_dst3]; · iexact HB1_dst3
        isplitl [HB1_dst4]; · iexact HB1_dst4
        isplitl [HB1_dst5]; · iexact HB1_dst5
        isplitl [HB1_dst6]; · iexact HB1_dst6
        isplitl [HB1_dst7]; · iexact HB1_dst7
        isplitl [HB1_dst8]; · iexact HB1_dst8
        isplitl [HB1_dst9]; · iexact HB1_dst9
        isplitl [HB1_dst10]; · iexact HB1_dst10
        isplitl [HB1_dst11]; · iexact HB1_dst11
        isplitl [HB1_dst12]; · iexact HB1_dst12
        isplitl [HB1_dst13]; · iexact HB1_dst13
        isplitl [HB1_dst14]; · iexact HB1_dst14
        isplitl [HB1_dst15]; · iexact HB1_dst15
        iempintro
      icases Hx with ⟨%fxx, Hx⟩
      iexists fxx; iexact Hx
    isplitl [Htb' HB0_dst16 HB1_dst16]
    · ihave Htb := (pointsTo_less_joinE (F := F) (ℓ := (tB : Memref sig .scVector .vmem S2x2048 .i32).view.loc (thr d L)) fullShare [(tSlot 0 (ltc rfl)).view.set, (tSlot 1 (ltc rfl)).view.set] Finset.univ
        (fun _ _ => Finset.subset_univ _) tWins_pairwise) $$ [Htb' HB0_dst16 HB1_dst16]
      · isplitl [Htb']; · iexists _; iexact Htb'
        simp only [sepAllE]
        isplitl [HB0_dst16]; · iexists _; iexact HB0_dst16
        isplitl [HB1_dst16]; · iexists _; iexact HB1_dst16
        iempintro
      icases Htb with ⟨%ftt, Htb⟩
      iexists ftt; iexact Htb
    isplitl [Hmb' HB0_dst17 HB1_dst17]
    · ihave Hmb := (pointsTo_less_joinE (F := F) (ℓ := (mB : Memref sig .scVector .vmem S2x2048 .i32).view.loc (thr d L)) fullShare [(mSlot 0 (ltc rfl)).view.set, (mSlot 1 (ltc rfl)).view.set] Finset.univ
        (fun _ _ => Finset.subset_univ _) mWins_pairwise) $$ [Hmb' HB0_dst17 HB1_dst17]
      · isplitl [Hmb']; · iexists _; iexact Hmb'
        simp only [sepAllE]
        isplitl [HB0_dst17]; · iexact HB0_dst17
        isplitl [HB1_dst17]; · iexact HB1_dst17
        iempintro
      icases Hmb with ⟨%fmm, Hmb⟩
      iexists fmm; iexact Hmb
    isplitl [Ha]; · iexists _; iexact Ha
    isplitl [Hc]; · iexists _; iexact Hc
    iexact Hbufs
  -- the semaphores at zero
  isplitl [HB0 HB1 Hr0 Hr1 Hsems]
  · isplitl [HB0]; · iexact HB0
    isplitl [HB1]; · iexact HB1
    isplitl [Hr0]; · iexact Hr0
    isplitl [Hr1]; · iexact Hr1
    iexact Hsems
  iexists _
  isplitr
  on_goal 2 => iexact HO
  ipureintro
  repeat (first | exact hW' | apply waits_ok)

end Cert.Proof.KB.Pass1
end
-- ==== Proof.Pass2IA.lean ====
import proofs.«210783_g59777354826199_cont_9to1_m_168_18_alg».proof.Proof.SetupI

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The kernel's memrefs, spelt as the body table passes them -/

abbrev eW : Memref sig .scVector .hbm S33554432 .f32 := Memref.whole main_v0_scv
abbrev tW : Memref sig .scVector .hbm S2097152 .i32 := Memref.whole main_v1_scv
abbrev kW : Memref sig .scVector .hbm S2097152 .i32 := Memref.whole main_v2_scv
abbrev mW : Memref sig .scVector .hbm S16384 .f32 := Memref.whole main_v5_scv
abbrev oW : Memref sig .scVector .hbm S32x1024 .f32 := Memref.whole main_v6_scv
abbrev xB : Memref sig .scVector .vmem S2x16x2048 .f32 := Memref.whole cc2_scratch0
abbrev tB : Memref sig .scVector .vmem S2x2048 .i32 := Memref.whole cc2_scratch1
abbrev mB : Memref sig .scVector .vmem S2x2048 .i32 := Memref.whole cc2_scratch2
abbrev mT : Memref sig .scVector .vmem S16384 .f32 := Memref.whole cc2_scratch3
abbrev aT : Memref sig .scVector .vmem S1024 .f32 := Memref.whole cc2_scratch4

variable (d : Dev nD) (L : grid2.Coords)

abbrev cV : Fin τ.nSC := (L 0).castLE hcore2
abbrev jV : Fin τ.nSub := (L 1).castLE hsub2
/-- The vector subcore the grid point runs on. -/
abbrev thr : Thread nD τ := V d (cV L) (jV L)

/-- The output row this tile writes, as the final copy slices it. -/
abbrev oRow : Memref sig .scVector .hbm S1024 .f32 :=
  ((oW).slice (Rect.unit (s := S32x1024) (k2_off76 L) S1x1024.size (k2_off76_inb L)) (fun _ => rfl)).squeeze S1024 squeezes_S1x1024_S1024

/-- The tile's own semaphores: the four this kernel uses, and the rest. -/
theorem ownSems0_V :
    (ownSems0 (thr d L) : sProp 𝕄)
      = iprop(semVal ((thr d L, SemLoc.dma cc2_scratch5.sem) : GSem nD τ sig) 0 ∗ semVal ((thr d L, SemLoc.dma cc2_scratch6.sem) : GSem nD τ sig) 0 ∗ semVal ((thr d L, SemLoc.dma cc2_scoped0.sem) : GSem nD τ sig) 0 ∗ semVal ((thr d L, SemLoc.dma cc2_scoped1.sem) : GSem nD τ sig) 0
          ∗ bigSep (((((ownCells (thr d L)).erase ((thr d L, SemLoc.dma cc2_scratch5.sem) : GSem nD τ sig)).erase ((thr d L, SemLoc.dma cc2_scratch6.sem) : GSem nD τ sig)).erase ((thr d L, SemLoc.dma cc2_scoped0.sem) : GSem nD τ sig)).erase ((thr d L, SemLoc.dma cc2_scoped1.sem) : GSem nD τ sig)) fun g => semVal g 0) := by
  unfold SparseCore.Cfg.ownSems0
  rw [SparseCore.bigSep_erase' ((mem_ownCells (g := ((thr d L, SemLoc.dma cc2_scratch5.sem) : GSem nD τ sig))).mpr ⟨rfl, by show (SemLoc.dma cc2_scratch5.sem : SemLoc sig).isScoped .scVector = true; decide⟩),
    SparseCore.bigSep_erase' (Finset.mem_erase.mpr ⟨(fun e => absurd (congrArg Prod.snd e) (show (SemLoc.dma cc2_scratch6.sem : SemLoc sig) ≠ SemLoc.dma cc2_scratch5.sem by decide)), (mem_ownCells (g := ((thr d L, SemLoc.dma cc2_scratch6.sem) : GSem nD τ sig))).mpr ⟨rfl, by show (SemLoc.dma cc2_scratch6.sem : SemLoc sig).isScoped .scVector = true; decide⟩⟩),
    SparseCore.bigSep_erase' (Finset.mem_erase.mpr ⟨(fun e => absurd (congrArg Prod.snd e) (show (SemLoc.dma cc2_scoped0.sem : SemLoc sig) ≠ SemLoc.dma cc2_scratch6.sem by decide)), Finset.mem_erase.mpr ⟨(fun e => absurd (congrArg Prod.snd e) (show (SemLoc.dma cc2_scoped0.sem : SemLoc sig) ≠ SemLoc.dma cc2_scratch5.sem by decide)), (mem_ownCells (g := ((thr d L, SemLoc.dma cc2_scoped0.sem) : GSem nD τ sig))).mpr ⟨rfl, by show (SemLoc.dma cc2_scoped0.sem : SemLoc sig).isScoped .scVector = true; decide⟩⟩⟩),
    SparseCore.bigSep_erase' (Finset.mem_erase.mpr ⟨(fun e => absurd (congrArg Prod.snd e) (show (SemLoc.dma cc2_scoped1.sem : SemLoc sig) ≠ SemLoc.dma cc2_scoped0.sem by decide)), Finset.mem_erase.mpr ⟨(fun e => absurd (congrArg Prod.snd e) (show (SemLoc.dma cc2_scoped1.sem : SemLoc sig) ≠ SemLoc.dma cc2_scratch6.sem by decide)), Finset.mem_erase.mpr ⟨(fun e => absurd (congrArg Prod.snd e) (show (SemLoc.dma cc2_scoped1.sem : SemLoc sig) ≠ SemLoc.dma cc2_scratch5.sem by decide)), (mem_ownCells (g := ((thr d L, SemLoc.dma cc2_scoped1.sem) : GSem nD τ sig))).mpr ⟨rfl, by show (SemLoc.dma cc2_scoped1.sem : SemLoc sig).isScoped .scVector = true; decide⟩⟩⟩⟩)]

/-- The tile's own buffers: the five scratch buffers of this kernel at some contents, and the rest. -/
theorem ownBufs_V₀ :
    (ownBufs (thr d L) : sProp 𝕄)
      = iprop((∃ f, ((thr d L).loc cc2_scratch0 ↦{fullShare} f)) ∗ (∃ f, ((thr d L).loc cc2_scratch1 ↦{fullShare} f)) ∗ (∃ f, ((thr d L).loc cc2_scratch2 ↦{fullShare} f)) ∗ (∃ f, ((thr d L).loc cc2_scratch3 ↦{fullShare} f)) ∗ (∃ f, ((thr d L).loc cc2_scratch4 ↦{fullShare} f))
          ∗ bigSep ((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc2_scratch0)) rfl)).trans ?_
  rw [SparseCore.bigSep_erase' (Finset.mem_erase.mpr ⟨(fun e => absurd (Proc.devRef_injective _ e) (show (cc2_scratch1 : Ref sig .scVector) ≠ cc2_scratch0 by decide)), SparseCore.Cfg.mem_ownRefs_of_owner (p := Proc.scVector (cV L) (jV L)) (b := ((Proc.scVector (cV L) (jV L)).devRef cc2_scratch1)) rfl⟩),
    SparseCore.bigSep_erase' (Finset.mem_erase.mpr ⟨(fun e => absurd (Proc.devRef_injective _ e) (show (cc2_scratch2 : Ref sig .scVector) ≠ cc2_scratch1 by decide)), Finset.mem_erase.mpr ⟨(fun e => absurd (Proc.devRef_injective _ e) (show (cc2_scratch2 : Ref sig .scVector) ≠ cc2_scratch0 by decide)), SparseCore.Cfg.mem_ownRefs_of_owner (p := Proc.scVector (cV L) (jV L)) (b := ((Proc.scVector (cV L) (jV L)).devRef cc2_scratch2)) rfl⟩⟩),
    SparseCore.bigSep_erase' (Finset.mem_erase.mpr ⟨(fun e => absurd (Proc.devRef_injective _ e) (show (cc2_scratch3 : Ref sig .scVector) ≠ cc2_scratch2 by decide)), Finset.mem_erase.mpr ⟨(fun e => absurd (Proc.devRef_injective _ e) (show (cc2_scratch3 : Ref sig .scVector) ≠ cc2_scratch1 by decide)), Finset.mem_erase.mpr ⟨(fun e => absurd (Proc.devRef_injective _ e) (show (cc2_scratch3 : Ref sig .scVector) ≠ cc2_scratch0 by decide)), SparseCore.Cfg.mem_ownRefs_of_owner (p := Proc.scVector (cV L) (jV L)) (b := ((Proc.scVector (cV L) (jV L)).devRef cc2_scratch3)) rfl⟩⟩⟩),
    SparseCore.bigSep_erase' (Finset.mem_erase.mpr ⟨(fun e => absurd (Proc.devRef_injective _ e) (show (cc2_scratch4 : Ref sig .scVector) ≠ cc2_scratch3 by decide)), Finset.mem_erase.mpr ⟨(fun e => absurd (Proc.devRef_injective _ e) (show (cc2_scratch4 : Ref sig .scVector) ≠ cc2_scratch2 by decide)), Finset.mem_erase.mpr ⟨(fun e => absurd (Proc.devRef_injective _ e) (show (cc2_scratch4 : Ref sig .scVector) ≠ cc2_scratch1 by decide)), Finset.mem_erase.mpr ⟨(fun e => absurd (Proc.devRef_injective _ e) (show (cc2_scratch4 : Ref sig .scVector) ≠ cc2_scratch0 by decide)), SparseCore.Cfg.mem_ownRefs_of_owner (p := Proc.scVector (cV L) (jV L)) (b := ((Proc.scVector (cV L) (jV L)).devRef cc2_scratch4)) rfl⟩⟩⟩⟩)]

/-- The same, each scratch buffer addressed through the memref the body table passes. -/
theorem ownBufs_V :
    (ownBufs (thr d L) : sProp 𝕄)
      = iprop((∃ f, ((xB).view.loc (thr d L) ↦{fullShare} f)) ∗ (∃ f, ((tB).view.loc (thr d L) ↦{fullShare} f)) ∗ (∃ f, ((mB).view.loc (thr d L) ↦{fullShare} f)) ∗ (∃ f, ((mT).view.loc (thr d L) ↦{fullShare} f)) ∗ (∃ f, ((aT).view.loc (thr d L) ↦{fullShare} f))
          ∗ bigSep ((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4))
              fun b => iprop(∃ f, ((d, b) : Loc nD τ sig) ↦{fullShare} f)) :=
  ownBufs_V₀ d L

end Cert.Proof.KI.Pass2

end
-- ==== Proof.Pass2IB.lean ====
import proofs.«210783_g59777354826199_cont_9to1_m_168_18_alg».proof.Proof.SetupI
import proofs.«210783_g59777354826199_cont_9to1_m_168_18_alg».proof.Proof.Pass2IA

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (d : Dev nD) (L : grid2.Coords)

theorem inb_x (b : Fin 2) (c : Fin 16) : ∀ a, (![b.val, c.val, 0] : Fin 3 → ℕ) a + S1x1x2048.size a ≤ S2x16x2048.size a := by
  have := b.isLt; have := c.isLt; intro a; fin_cases a
  · show b.val + 1 ≤ 2; omega
  · show c.val + 1 ≤ 16; omega
  · show 0 + 2048 ≤ 2048; omega
theorem inb_t (b : Fin 2) : ∀ a, (![b.val, 0] : Fin 2 → ℕ) a + S1x2048.size a ≤ S2x2048.size a := by
  have := b.isLt; intro a; fin_cases a
  · show b.val + 1 ≤ 2; omega
  · show 0 + 2048 ≤ 2048; omega

/-- Row (b, c) of the staging buffer for the embedding, as the copies address it. -/
abbrev xWin (b : Fin 2) (c : Fin 16) : Memref sig .scVector .vmem S2048 .f32 :=
  ((xB).slice (Rect.unit (s := S2x16x2048) ![b.val, c.val, 0] S1x1x2048.size (inb_x b c)) (fun _ => rfl)).squeeze S2048 squeezes_S1x1x2048_S2048
/-- Row b of the staging buffer for the targets / for the mask. -/
abbrev tWin (b : Fin 2) : Memref sig .scVector .vmem S2048 .i32 :=
  ((tB).slice (Rect.unit (s := S2x2048) ![b.val, 0] S1x2048.size (inb_t b)) (fun _ => rfl)).squeeze S2048 squeezes_S1x2048_S2048
abbrev mWin (b : Fin 2) : Memref sig .scVector .vmem S2048 .i32 :=
  ((mB).slice (Rect.unit (s := S2x2048) ![b.val, 0] S1x2048.size (inb_t b)) (fun _ => rfl)).squeeze S2048 squeezes_S1x2048_S2048

/-- A 2048-word chunk of the embedding / of the targets / of the mask at an offset. -/
abbrev eSl (o : Fin 1 → ℕ) (h : ∀ a, o a + S2048.size a ≤ S33554432.size a) : Memref sig .scVector .hbm S2048 .f32 :=
  (eW).slice (Rect.unit (s := S33554432) o S2048.size h) (fun _ => rfl)
abbrev tSl (o : Fin 1 → ℕ) (h : ∀ a, o a + S2048.size a ≤ S2097152.size a) : Memref sig .scVector .hbm S2048 .i32 :=
  (tW).slice (Rect.unit (s := S2097152) o S2048.size h) (fun _ => rfl)
abbrev kSl (o : Fin 1 → ℕ) (h : ∀ a, o a + S2048.size a ≤ S2097152.size a) : Memref sig .scVector .hbm S2048 .i32 :=
  (kW).slice (Rect.unit (s := S2097152) o S2048.size h) (fun _ => rfl)

/-! ## The staging buffers as their rows -/

theorem xWin_set (b : Fin 2) (c : Fin 16) :
    (xWin b c).view.set = (Rect.unit (s := S2x16x2048) ![b.val, c.val, 0] S1x1x2048.size (inb_x b c)).set := by
  show (((View.whole (cc2_scratch0 : Ref sig .scVector)).slice _).reshape _ _).set = _
  rw [View.set_reshape, View.set_slice_whole]
theorem tWin_set (b : Fin 2) :
    (tWin b).view.set = (Rect.unit (s := S2x2048) ![b.val, 0] S1x2048.size (inb_t b)).set := by
  show (((View.whole (cc2_scratch1 : Ref sig .scVector)).slice _).reshape _ _).set = _
  rw [View.set_reshape, View.set_slice_whole]
theorem mWin_set (b : Fin 2) :
    (mWin b).view.set = (Rect.unit (s := S2x2048) ![b.val, 0] S1x2048.size (inb_t b)).set := by
  show (((View.whole (cc2_scratch2 : Ref sig .scVector)).slice _).reshape _ _).set = _
  rw [View.set_reshape, View.set_slice_whole]

/-- The rows' element sets, as sets of indices of the whole buffer. -/
abbrev xSet (p : Fin 2 × Fin 16) : Finset S2x16x2048.Idx := (xWin p.1 p.2).view.set
abbrev tSet (b : Fin 2) : Finset S2x2048.Idx := (tWin b).view.set
abbrev mSet (b : Fin 2) : Finset S2x2048.Idx := (mWin b).view.set

theorem xWin_disjoint : ∀ p ∈ (Finset.univ : Finset (Fin 2 × Fin 16)), ∀ p' ∈ (Finset.univ : Finset (Fin 2 × Fin 16)), p ≠ p' →
    Disjoint (xSet p) (xSet p') := by
  intro p _ p' _ h
  show Disjoint (xWin p.1 p.2).view.set (xWin p'.1 p'.2).view.set
  rw [xWin_set, xWin_set]
  by_cases hb : p.1 = p'.1
  · have hc : p.2 ≠ p'.2 := fun hc => h (Prod.ext hb hc)
    have hc' : p.2.val ≠ p'.2.val := fun e => hc (Fin.ext e)
    exact Rect.unit_disjoint (1 : Fin 3) (by show p.2.val + 1 ≤ p'.2.val ∨ p'.2.val + 1 ≤ p.2.val; omega)
  · have hb' : p.1.val ≠ p'.1.val := fun e => hb (Fin.ext e)
    exact Rect.unit_disjoint (0 : Fin 3) (by show p.1.val + 1 ≤ p'.1.val ∨ p'.1.val + 1 ≤ p.1.val; omega)

theorem xWin_cover : (Finset.univ : Finset (Fin 2 × Fin 16)).biUnion xSet = Finset.univ := by
  refine Finset.eq_univ_iff_forall.2 fun i => Finset.mem_biUnion.2 ⟨((⟨(i 0).val, (i 0).isLt⟩ : Fin 2), (⟨(i 1).val, (i 1).isLt⟩ : Fin 16)), Finset.mem_univ _, ?_⟩
  show i ∈ (xWin (⟨(i 0).val, (i 0).isLt⟩ : Fin 2) (⟨(i 1).val, (i 1).isLt⟩ : Fin 16)).view.set
  rw [xWin_set, Rect.mem_set_unit]
  intro a; fin_cases a
  · exact ⟨Nat.le_refl _, Nat.lt_succ_self _⟩
  · exact ⟨Nat.le_refl _, Nat.lt_succ_self _⟩
  · have h2 : (i 2).val < 2048 := (i 2).isLt
    exact ⟨Nat.zero_le _, by show (i 2).val < 0 + 2048; omega⟩

theorem tWin_disjoint : ∀ b ∈ (Finset.univ : Finset (Fin 2)), ∀ b' ∈ (Finset.univ : Finset (Fin 2)), b ≠ b' →
    Disjoint (tSet b) (tSet b') := by
  intro b _ b' _ h
  show Disjoint (tWin b).view.set (tWin b').view.set
  rw [tWin_set, tWin_set]
  have hb' : b.val ≠ b'.val := fun e => h (Fin.ext e)
  exact Rect.unit_disjoint (0 : Fin 2) (by show b.val + 1 ≤ b'.val ∨ b'.val + 1 ≤ b.val; omega)
theorem tWin_cover : (Finset.univ : Finset (Fin 2)).biUnion tSet = Finset.univ := by
  refine Finset.eq_univ_iff_forall.2 fun i => Finset.mem_biUnion.2 ⟨(⟨(i 0).val, (i 0).isLt⟩ : Fin 2), Finset.mem_univ _, ?_⟩
  show i ∈ (tWin (⟨(i 0).val, (i 0).isLt⟩ : Fin 2)).view.set
  rw [tWin_set, Rect.mem_set_unit]
  intro a; fin_cases a
  · exact ⟨Nat.le_refl _, Nat.lt_succ_self _⟩
  · have h2 : (i 1).val < 2048 := (i 1).isLt
    exact ⟨Nat.zero_le _, by show (i 1).val < 0 + 2048; omega⟩
theorem mWin_disjoint : ∀ b ∈ (Finset.univ : Finset (Fin 2)), ∀ b' ∈ (Finset.univ : Finset (Fin 2)), b ≠ b' →
    Disjoint (mSet b) (mSet b') := by
  intro b _ b' _ h
  show Disjoint (mWin b).view.set (mWin b').view.set
  rw [mWin_set, mWin_set]
  have hb' : b.val ≠ b'.val := fun e => h (Fin.ext e)
  exact Rect.unit_disjoint (0 : Fin 2) (by show b.val + 1 ≤ b'.val ∨ b'.val + 1 ≤ b.val; omega)
theorem mWin_cover : (Finset.univ : Finset (Fin 2)).biUnion mSet = Finset.univ := by
  refine Finset.eq_univ_iff_forall.2 fun i => Finset.mem_biUnion.2 ⟨(⟨(i 0).val, (i 0).isLt⟩ : Fin 2), Finset.mem_univ _, ?_⟩
  show i ∈ (mWin (⟨(i 0).val, (i 0).isLt⟩ : Fin 2)).view.set
  rw [mWin_set, Rect.mem_set_unit]
  intro a; fin_cases a
  · exact ⟨Nat.le_refl _, Nat.lt_succ_self _⟩
  · have h2 : (i 1).val < 2048 := (i 1).isLt
    exact ⟨Nat.zero_le _, by show (i 1).val < 0 + 2048; omega⟩

/-! ## A whole staging buffer is its rows; the rows at any contents join to the buffer at some contents -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (d : Dev nD) (L : grid2.Coords)

/-- Row (b, c) of the embedding's staging buffer held by its own elements. -/
abbrev xPts (b : Fin 2) (c : Fin 16) (f : Buf (Elt F) ((xB).view.loc (thr d L))) : sProp 𝕄 :=
  (xWin b c).view.loc (thr d L) ↦[(xWin b c).view.set]{fullShare} f
abbrev tPts (b : Fin 2) (f : Buf (Elt F) ((tB).view.loc (thr d L))) : sProp 𝕄 :=
  (tWin b).view.loc (thr d L) ↦[(tWin b).view.set]{fullShare} f
abbrev mPts (b : Fin 2) (f : Buf (Elt F) ((mB).view.loc (thr d L))) : sProp 𝕄 :=
  (mWin b).view.loc (thr d L) ↦[(mWin b).view.set]{fullShare} f

theorem xB_rows₀ (f : Buf (Elt F) ((xB).view.loc (thr d L))) :
    ((xB).view.loc (thr d L) ↦{fullShare} f : sProp 𝕄) = bigSep Finset.univ fun p : Fin 2 × Fin 16 => (xB).view.loc (thr d L) ↦[xSet p]{fullShare} f := by
  rw [← pointsTo_biUnion Finset.univ (ℓ := (xB).view.loc (thr d L)) xSet xWin_disjoint, xWin_cover]; try rfl
theorem xB_rows (f : Buf (Elt F) ((xB).view.loc (thr d L))) :
    ((xB).view.loc (thr d L) ↦{fullShare} f : sProp 𝕄)
      = iprop((xPts d L 0 0 f ∗ xPts d L 0 1 f ∗ xPts d L 0 2 f ∗ xPts d L 0 3 f ∗ xPts d L 0 4 f ∗ xPts d L 0 5 f ∗ xPts d L 0 6 f ∗ xPts d L 0 7 f ∗ xPts d L 0 8 f ∗ xPts d L 0 9 f ∗ xPts d L 0 10 f ∗ xPts d L 0 11 f ∗ xPts d L 0 12 f ∗ xPts d L 0 13 f ∗ xPts d L 0 14 f ∗ xPts d L 0 15 f) ∗ (xPts d L 1 0 f ∗ xPts d L 1 1 f ∗ xPts d L 1 2 f ∗ xPts d L 1 3 f ∗ xPts d L 1 4 f ∗ xPts d L 1 5 f ∗ xPts d L 1 6 f ∗ xPts d L 1 7 f ∗ xPts d L 1 8 f ∗ xPts d L 1 9 f ∗ xPts d L 1 10 f ∗ xPts d L 1 11 f ∗ xPts d L 1 12 f ∗ xPts d L 1 13 f ∗ xPts d L 1 14 f ∗ xPts d L 1 15 f)) := by
  rw [xB_rows₀, bigSep_univ_prod, bigSep_univ_two, bigSep_fin16, bigSep_fin16]

theorem tB_rows (f : Buf (Elt F) ((tB).view.loc (thr d L))) :
    ((tB).view.loc (thr d L) ↦{fullShare} f : sProp 𝕄) = iprop(tPts d L 0 f ∗ tPts d L 1 f) := by
  rw [← bigSep_univ_two (fun b : Fin 2 => (tB).view.loc (thr d L) ↦[tSet b]{fullShare} f),
    ← pointsTo_biUnion Finset.univ (ℓ := (tB).view.loc (thr d L)) tSet tWin_disjoint, tWin_cover]; try rfl
theorem mB_rows (f : Buf (Elt F) ((mB).view.loc (thr d L))) :
    ((mB).view.loc (thr d L) ↦{fullShare} f : sProp 𝕄) = iprop(mPts d L 0 f ∗ mPts d L 1 f) := by
  rw [← bigSep_univ_two (fun b : Fin 2 => (mB).view.loc (thr d L) ↦[mSet b]{fullShare} f),
    ← pointsTo_biUnion Finset.univ (ℓ := (mB).view.loc (thr d L)) mSet mWin_disjoint, mWin_cover]; try rfl

variable [∀ e, Nonempty (Elt F e)]

theorem xB_join₀ :
    (bigSep Finset.univ fun p : Fin 2 × Fin 16 => iprop(∃ f, (xB).view.loc (thr d L) ↦[xSet p]{fullShare} f))
      ⊢ (iprop(∃ f, (xB).view.loc (thr d L) ↦{fullShare} f) : sProp 𝕄) := by
  refine (bigSep_exists_pi Finset.univ (fun p (f : Buf (Elt F) ((xB).view.loc (thr d L))) => (xB).view.loc (thr d L) ↦[xSet p]{fullShare} f)).trans ?_
  iintro ⟨%fs, H⟩
  ihave H' := (pointsTo_biUnion_join Finset.univ xSet fs (fs (0, 0)) xWin_disjoint) $$ H
  icases H' with ⟨%g, -, Hg⟩
  rw [xWin_cover]
  iexists g; iexact Hg

/-- The thirty-two rows, each at some contents, are the embedding's staging buffer at some contents. -/
theorem xB_join :
    (iprop(((∃ f, xPts d L 0 0 f) ∗ (∃ f, xPts d L 0 1 f) ∗ (∃ f, xPts d L 0 2 f) ∗ (∃ f, xPts d L 0 3 f) ∗ (∃ f, xPts d L 0 4 f) ∗ (∃ f, xPts d L 0 5 f) ∗ (∃ f, xPts d L 0 6 f) ∗ (∃ f, xPts d L 0 7 f) ∗ (∃ f, xPts d L 0 8 f) ∗ (∃ f, xPts d L 0 9 f) ∗ (∃ f, xPts d L 0 10 f) ∗ (∃ f, xPts d L 0 11 f) ∗ (∃ f, xPts d L 0 12 f) ∗ (∃ f, xPts d L 0 13 f) ∗ (∃ f, xPts d L 0 14 f) ∗ (∃ f, xPts d L 0 15 f)) ∗ ((∃ f, xPts d L 1 0 f) ∗ (∃ f, xPts d L 1 1 f) ∗ (∃ f, xPts d L 1 2 f) ∗ (∃ f, xPts d L 1 3 f) ∗ (∃ f, xPts d L 1 4 f) ∗ (∃ f, xPts d L 1 5 f) ∗ (∃ f, xPts d L 1 6 f) ∗ (∃ f, xPts d L 1 7 f) ∗ (∃ f, xPts d L 1 8 f) ∗ (∃ f, xPts d L 1 9 f) ∗ (∃ f, xPts d L 1 10 f) ∗ (∃ f, xPts d L 1 11 f) ∗ (∃ f, xPts d L 1 12 f) ∗ (∃ f, xPts d L 1 13 f) ∗ (∃ f, xPts d L 1 14 f) ∗ (∃ f, xPts d L 1 15 f))) : sProp 𝕄)
      ⊢ iprop(∃ f, (xB).view.loc (thr d L) ↦{fullShare} f) := by
  refine Entails.trans (Entails.of_eq ?_) (xB_join₀ d L)
  rw [bigSep_univ_prod, bigSep_univ_two, bigSep_fin16, bigSep_fin16]

theorem tB_join :
    (iprop((∃ f, tPts d L 0 f) ∗ (∃ f, tPts d L 1 f)) : sProp 𝕄) ⊢ iprop(∃ f, (tB).view.loc (thr d L) ↦{fullShare} f) := by
  rw [← bigSep_univ_two (fun b : Fin 2 => iprop(∃ f, (tB).view.loc (thr d L) ↦[tSet b]{fullShare} f))]
  refine (bigSep_exists_pi Finset.univ (fun b (f : Buf (Elt F) ((tB).view.loc (thr d L))) => (tB).view.loc (thr d L) ↦[tSet b]{fullShare} f)).trans ?_
  iintro ⟨%fs, H⟩
  ihave H' := (pointsTo_biUnion_join Finset.univ tSet fs (fs 0) tWin_disjoint) $$ H
  icases H' with ⟨%g, -, Hg⟩
  rw [tWin_cover]
  iexists g; iexact Hg
theorem mB_join :
    (iprop((∃ f, mPts d L 0 f) ∗ (∃ f, mPts d L 1 f)) : sProp 𝕄) ⊢ iprop(∃ f, (mB).view.loc (thr d L) ↦{fullShare} f) := by
  rw [← bigSep_univ_two (fun b : Fin 2 => iprop(∃ f, (mB).view.loc (thr d L) ↦[mSet b]{fullShare} f))]
  refine (bigSep_exists_pi Finset.univ (fun b (f : Buf (Elt F) ((mB).view.loc (thr d L))) => (mB).view.loc (thr d L) ↦[mSet b]{fullShare} f)).trans ?_
  iintro ⟨%fs, H⟩
  ihave H' := (pointsTo_biUnion_join Finset.univ mSet fs (fs 0) mWin_disjoint) $$ H
  icases H' with ⟨%g, -, Hg⟩
  rw [mWin_cover]
  iexists g; iexact Hg

/-! ## A chunk's batch: eighteen copies into staging slot b -/

/-- What a row holds once a chunk has landed in it: the chunk's words, whatever was there before. -/
abbrev landed {ed : EltTy} (dst : Memref sig .scVector .vmem S2048 ed) {sp : Space} (src : Memref sig .scVector sp S2048 ed)
    (fs : Buf (Elt F) (src.view.loc (thr d L))) : Buf (Elt F) (dst.view.loc (thr d L)) :=
  dst.view.writes (Elt F) dst.view.junk [⟨Rect.whole S2048, ReadAs.same.apply (src.view.read (Elt F) fs)⟩]

/-- One copy's delivery: the destination row holding what the source chunk read, and the source chunk back. -/
abbrev deliv1 {ed : EltTy} (dst : Memref sig .scVector .vmem S2048 ed) {sp : Space} (src : Memref sig .scVector sp S2048 ed)
    (qs : PosShare TreeShare) (fs : Buf (Elt F) (src.view.loc (thr d L))) : sProp 𝕄 :=
  iprop((dst.view.loc (thr d L) ↦[dst.view.set]{fullShare} landed d L dst src fs)
    ∗ (src.view.loc (thr d L) ↦[src.view.set]{qs} fs))

/-- The eighteen deliveries of a chunk's batch into staging slot b: sixteen rows of the embedding at the offsets oe,
    the targets' and the mask's chunk at the offset ot. -/
def Dv (b : Fin 2) (qs : PosShare TreeShare)
    (e : Buf (Elt F) ((eW).view.loc (thr d L))) (t : Buf (Elt F) ((tW).view.loc (thr d L))) (k : Buf (Elt F) ((kW).view.loc (thr d L)))
    (oe : Fin 16 → Fin 1 → ℕ) (he : ∀ c a, oe c a + S2048.size a ≤ S33554432.size a)
    (ot : Fin 1 → ℕ) (ht : ∀ a, ot a + S2048.size a ≤ S2097152.size a) (j : Fin 18) : sProp 𝕄 :=
  if h : j.val < 16 then deliv1 (F := F) d L (xWin b ⟨j.val, h⟩) (eSl (oe ⟨j.val, h⟩) (he ⟨j.val, h⟩)) qs e
  else if j.val = 16 then deliv1 (F := F) d L (tWin b) (tSl ot ht) qs t
  else deliv1 (F := F) d L (mWin b) (kSl ot ht) qs k

instance Dv_storable (b : Fin 2) (qs : PosShare TreeShare)
    (e : Buf (Elt F) ((eW).view.loc (thr d L))) (t : Buf (Elt F) ((tW).view.loc (thr d L))) (k : Buf (Elt F) ((kW).view.loc (thr d L)))
    (oe : Fin 16 → Fin 1 → ℕ) (he : ∀ c a, oe c a + S2048.size a ≤ S33554432.size a)
    (ot : Fin 1 → ℕ) (ht : ∀ a, ot a + S2048.size a ≤ S2097152.size a) (j : Fin 18) :
    BI.Storable (upEmb : UEmb _ 𝕄) (Dv (F := F) d L b qs e t k oe he ot ht j) := by
  unfold Dv; split
  · infer_instance
  · split <;> infer_instance

/-- One copy's credit. -/
abbrev NC : ℕ := (xWin 0 0).view.amount (SemLoc.dma (sig := sig) cc2_scratch5.sem)

/-- The batch of a chunk into slot b on semaphore sm, all eighteen issued, none waited for. -/
abbrev batchOf (sm : DmaSems sig S_) (b : Fin 2) (qs : PosShare TreeShare)
    (e : Buf (Elt F) ((eW).view.loc (thr d L))) (t : Buf (Elt F) ((tW).view.loc (thr d L))) (k : Buf (Elt F) ((kW).view.loc (thr d L)))
    (oe : Fin 16 → Fin 1 → ℕ) (he : ∀ c a, oe c a + S2048.size a ≤ S33554432.size a)
    (ot : Fin 1 → ℕ) (ht : ∀ a, ot a + S2048.size a ≤ S2097152.size a) (n : ℕ) : sProp 𝕄 :=
  Transfers.Batch (countersEmb (U := UU)) (thr d L) (.dma sm.sem) (none : HIx 2) NC (Dv (F := F) d L b qs e t k oe he ot ht) n 0

/-- What is left of a share of the embedding while sixteen chunks of it are lent to a batch. -/
abbrev restE (qs : PosShare TreeShare) (e : Buf (Elt F) ((eW).view.loc (thr d L)))
    (oe : Fin 16 → Fin 1 → ℕ) (he : ∀ c a, oe c a + S2048.size a ≤ S33554432.size a) : sProp 𝕄 :=
  (eW).view.loc (thr d L) ↦[((((((((((((((((Finset.univ \ (eSl (oe 0) (he 0)).view.set) \ (eSl (oe 1) (he 1)).view.set) \ (eSl (oe 2) (he 2)).view.set) \ (eSl (oe 3) (he 3)).view.set) \ (eSl (oe 4) (he 4)).view.set) \ (eSl (oe 5) (he 5)).view.set) \ (eSl (oe 6) (he 6)).view.set) \ (eSl (oe 7) (he 7)).view.set) \ (eSl (oe 8) (he 8)).view.set) \ (eSl (oe 9) (he 9)).view.set) \ (eSl (oe 10) (he 10)).view.set) \ (eSl (oe 11) (he 11)).view.set) \ (eSl (oe 12) (he 12)).view.set) \ (eSl (oe 13) (he 13)).view.set) \ (eSl (oe 14) (he 14)).view.set) \ (eSl (oe 15) (he 15)).view.set)]{qs} e
abbrev restT (qs : PosShare TreeShare) (t : Buf (Elt F) ((tW).view.loc (thr d L)))
    (ot : Fin 1 → ℕ) (ht : ∀ a, ot a + S2048.size a ≤ S2097152.size a) : sProp 𝕄 :=
  (tW).view.loc (thr d L) ↦[Finset.univ \ (tSl ot ht).view.set]{qs} t
abbrev restK (qs : PosShare TreeShare) (k : Buf (Elt F) ((kW).view.loc (thr d L)))
    (ot : Fin 1 → ℕ) (ht : ∀ a, ot a + S2048.size a ≤ S2097152.size a) : sProp 𝕄 :=
  (kW).view.loc (thr d L) ↦[Finset.univ \ (kSl ot ht).view.set]{qs} k

end Cert.Proof.KI.Pass2

end
-- ==== Proof.Pass2IC.lean ====
import proofs.«210783_g59777354826199_cont_9to1_m_168_18_alg».proof.Proof.SetupI
import proofs.«210783_g59777354826199_cont_9to1_m_168_18_alg».proof.Proof.Pass2IA
import proofs.«210783_g59777354826199_cont_9to1_m_168_18_alg».proof.Proof.Pass2IB

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## A box of a staging buffer lies in the row that holds it -/

theorem unit_subset {s : Shape} {off size off' size' : Fin s.rank → Nat} {inb : ∀ a, off a + size a ≤ s.size a} {inb' : ∀ a, off' a + size' a ≤ s.size a}
    (h : ∀ a, off' a ≤ off a ∧ off a + size a ≤ off' a + size' a) :
    (Rect.unit (s := s) off size inb).set ⊆ (Rect.unit (s := s) off' size' inb').set := by
  intro i hi
  rw [Rect.mem_set_unit] at hi ⊢
  intro a; have h1 := hi a; have h2 := h a; omega

theorem incl_x (b : Fin 2) (c : Fin 16) (off : Fin 3 → ℕ) (inb : ∀ a, off a + S1x1x16.size a ≤ S2x16x2048.size a)
    (h0 : off 0 = b.val) (h1 : off 1 = c.val) :
    (xB).view.setOn (Rect.unit (s := S2x16x2048) off S1x1x16.size inb).set ⊆ (xWin b c).view.set := by
  rw [xWin_set]
  show Finset.map (Function.Embedding.refl _) _ ⊆ _
  rw [Finset.map_refl]
  refine unit_subset fun a => ?_
  have h2 := inb 2
  fin_cases a
  · show b.val ≤ off 0 ∧ off 0 + 1 ≤ b.val + 1; omega
  · show c.val ≤ off 1 ∧ off 1 + 1 ≤ c.val + 1; omega
  · show 0 ≤ off 2 ∧ off 2 + 16 ≤ 0 + 2048; exact ⟨Nat.zero_le _, by have : off 2 + 16 ≤ 2048 := h2; omega⟩
theorem incl_t (b : Fin 2) (off : Fin 2 → ℕ) (inb : ∀ a, off a + S1x16.size a ≤ S2x2048.size a) (h0 : off 0 = b.val) :
    (tB).view.setOn (Rect.unit (s := S2x2048) off S1x16.size inb).set ⊆ (tWin b).view.set := by
  rw [tWin_set]
  show Finset.map (Function.Embedding.refl _) _ ⊆ _
  rw [Finset.map_refl]
  refine unit_subset fun a => ?_
  have h2 := inb 1
  fin_cases a
  · show b.val ≤ off 0 ∧ off 0 + 1 ≤ b.val + 1; omega
  · show 0 ≤ off 1 ∧ off 1 + 16 ≤ 0 + 2048; exact ⟨Nat.zero_le _, by have : off 1 + 16 ≤ 2048 := h2; omega⟩
theorem incl_m (b : Fin 2) (off : Fin 2 → ℕ) (inb : ∀ a, off a + S1x16.size a ≤ S2x2048.size a) (h0 : off 0 = b.val) :
    (mB).view.setOn (Rect.unit (s := S2x2048) off S1x16.size inb).set ⊆ (mWin b).view.set := by
  rw [mWin_set]
  show Finset.map (Function.Embedding.refl _) _ ⊆ _
  rw [Finset.map_refl]
  refine unit_subset fun a => ?_
  have h2 := inb 1
  fin_cases a
  · show b.val ≤ off 0 ∧ off 0 + 1 ≤ b.val + 1; omega
  · show 0 ≤ off 1 ∧ off 1 + 16 ≤ 0 + 2048; exact ⟨Nat.zero_le _, by have : off 1 + 16 ≤ 2048 := h2; omega⟩

/-! ## The indices the body assumes in range -/

/-- The lane numbers, as the body's iota gives them. -/
abbrev iotaV : IVec S16 32 := iota .scVector S16 32 [0] iota_S16_d0_w32_scVector

theorem iotaV_lt (x : S16.Idx) : (iotaV x).toNat < 16 := by
  have h : (x 0).val < 16 := (x 0).isLt
  show (BitVec.ofNat 32 (0 * 16 + (x 0).val)).toNat < 16
  rw [BitVec.toNat_ofNat]
  omega

/-- A segment number of at most 63, or zero where the mask is off, times sixteen, plus the lane: below 1024. -/
theorem seg_lt (lm lt : S1x16.Idx → BitVec 32) (hm hl : S1x16.ShapeCasts S16) (ht : ∀ y, (lt y).toNat ≤ 63) (x : S16.Idx) :
    ((addi (muli (select (cmpi .sgt (shapeCast S16 lm hm) (broadcast S16 0#32)) (shapeCast S16 lt hl) (broadcast S16 0#32))
      (broadcast S16 16#32)) iotaV) x).toNat < 1024 := by
  have hx := iotaV_lt x
  have hy := ht (Shape.reshapeEquiv hl x)
  show (IntOp.addi (IntOp.muli (Scalar.select _ (lt (Shape.reshapeEquiv hl x)) 0#32) 16#32) (iotaV x)).toNat < 1024
  unfold Scalar.select IntOp.addi IntOp.muli
  split
  · rw [BitVec.toNat_add, BitVec.toNat_mul]
    show ((lt (Shape.reshapeEquiv hl x)).toNat * 16 % 2 ^ 32 + (iotaV x).toNat) % 2 ^ 32 < 1024
    omega
  · rw [BitVec.toNat_add, BitVec.toNat_mul]
    show (0 * 16 % 2 ^ 32 + (iotaV x).toNat) % 2 ^ 32 < 1024
    omega

/-- An index vector below 1024 addresses the accumulator scratch. -/
theorem sidx_ok (v : IVec S16 32) (hv : ∀ x, (v x).toNat < 1024) :
    ∀ (a : Fin (Nat.succ 0)) (x : S16.Idx), ((![v] : Fin 1 → IVec S16 32) a x).toNat < S1024.size a := by
  intro a x; fin_cases a; exact hv x

/-- An index vector below 1024, moved up by a row offset of the means table, addresses the means scratch. -/
theorem gidx_ok (v : IVec S16 32) (hv : ∀ x, (v x).toNat < 1024) (c : BitVec 32) (hc : c.toNat + 1024 ≤ 16384) :
    ∀ (a : Fin (Nat.succ 0)) (x : S16.Idx), ((![addi v (broadcast S16 c)] : Fin 1 → IVec S16 32) a x).toNat < S16384.size a := by
  intro a x; fin_cases a
  have h := hv x
  show (IntOp.addi (v x) c).toNat < 16384
  unfold IntOp.addi
  rw [BitVec.toNat_add]
  omega

/-! ## What a landed row of the targets holds -/

variable (d : Dev nD) (L : grid2.Coords)

/-- Contents that agree with g on row b of the targets' staging buffer and are zero elsewhere. -/
def clampT (b : Fin 2) (g : Buf (Elt F) ((tB).view.loc (thr d L))) : Buf (Elt F) ((tB).view.loc (thr d L)) :=
  (tSet b).piecewise g (fun _ => (0#32 : BitVec 32))

theorem clampT_pts (b : Fin 2) (g : Buf (Elt F) ((tB).view.loc (thr d L))) :
    (tPts d L b g : sProp 𝕄) = tPts d L b (clampT d L b g) :=
  pointsTo_congr fun i hi => (Finset.piecewise_eq_of_mem _ _ _ hi).symm

theorem clampT_le (b : Fin 2) (g : Buf (Elt F) ((tB).view.loc (thr d L))) (hg : ∀ j ∈ tSet b, (g j : BitVec 32).toNat ≤ 63) :
    ∀ j, (clampT d L b g j : BitVec 32).toNat ≤ 63 := by
  intro j
  unfold clampT
  by_cases h : j ∈ tSet b
  · rw [Finset.piecewise_eq_of_mem _ _ _ h]; exact hg j h
  · rw [Finset.piecewise_eq_of_notMem _ _ _ h]; decide

variable [∀ e, Nonempty (Elt F e)]

set_option maxHeartbeats 2000000 in
theorem landed_le (b : Fin 2) (t : Buf (Elt F) ((tW).view.loc (thr d L))) (htr : ∀ j, (t j : BitVec 32).toNat ≤ 63)
    (ot : Fin 1 → ℕ) (ht : ∀ a, ot a + S2048.size a ≤ S2097152.size a) :
    ∀ j ∈ tSet b, (landed d L (tWin b) (tSl ot ht) t j : BitVec 32).toNat ≤ 63 := by
  intro j hj
  obtain ⟨y, -, rfl⟩ := Finset.mem_map.1 hj
  have h := View.read_writes_cons_emb (v := (tWin b).view) (Val := Elt F) (f := (tWin b).view.junk) (Rect.whole S2048)
    (ReadAs.same.apply ((tSl ot ht).view.read (Elt F) t)) [] y
  rw [Rect.emb_whole_apply] at h
  have h1 : (landed d L (tWin b) (tSl ot ht) t ((tWin b).view.emb y) : BitVec 32)
      = (tWin b).view.read (Elt F) (landed d L (tWin b) (tSl ot ht) t) y := (cast_eq _ _).symm
  have h2 : ((tSl ot ht).view.read (Elt F) t y : BitVec 32) = (t ((tSl ot ht).view.emb y) : BitVec 32) := cast_eq _ _
  rw [h1, h, ReadAs.apply_same, h2]
  exact htr _

variable [FloatOps F]

/-- An accumulation loop's invariant over slot b: the slot's rows and the means scratch as they are, the accumulator at
    some contents. -/
def invA (b : Fin 2) (gx : Fin 16 → Buf (Elt F) ((xB).view.loc (thr d L))) (gt : Buf (Elt F) ((tB).view.loc (thr d L)))
    (gm : Buf (Elt F) ((mB).view.loc (thr d L))) (fmt : Buf (Elt F) ((mT).view.loc (thr d L))) (_ : Nat) (_ : BitVec 32) : sProp 𝕄 :=
  iprop((xPts d L b 0 (gx 0) ∗ xPts d L b 1 (gx 1) ∗ xPts d L b 2 (gx 2) ∗ xPts d L b 3 (gx 3) ∗ xPts d L b 4 (gx 4) ∗ xPts d L b 5 (gx 5) ∗ xPts d L b 6 (gx 6) ∗ xPts d L b 7 (gx 7) ∗ xPts d L b 8 (gx 8) ∗ xPts d L b 9 (gx 9) ∗ xPts d L b 10 (gx 10) ∗ xPts d L b 11 (gx 11) ∗ xPts d L b 12 (gx 12) ∗ xPts d L b 13 (gx 13) ∗ xPts d L b 14 (gx 14) ∗ xPts d L b 15 (gx 15)) ∗ tPts d L b gt ∗ mPts d L b gm
    ∗ ((mT).view.loc (thr d L) ↦{fullShare} fmt) ∗ ∃ fa', ((aT).view.loc (thr d L) ↦{fullShare} fa'))

/-- One trip of the accumulation loop over staging slot 0: the rows and the means scratch are read, the accumulator
    is rewritten; every index the trip assumes in range is, the targets' row holding segment numbers of at most 63. -/
theorem trip3 (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63)
    (v2 : BitVec 32) (k2_t2 : Fin k2_t2_loop.trips) (v475 c470 c471 c472 : BitVec 32) (kk : Fin k2_t3_loop.trips) (acc : BitVec 32) (n m : Nat) :
    (invA (F := F) d L 0 gx gt gm fmt n acc)
      ⊢ wp frame (wpE (defs₀ (F := F)) 𝒱₀ (thr d L) none) Set.univ
          (k2_t3_body L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1 v2 iotaV k2_t2 v475 c470 c471 c472 kk acc)
          (invA (F := F) d L 0 gx gt gm fmt m) := by
  unfold invA
  iintro ⟨⟨Hx0, Hx1, Hx2, Hx3, Hx4, Hx5, Hx6, Hx7, Hx8, Hx9, Hx10, Hx11, Hx12, Hx13, Hx14, Hx15⟩, Ht0, Hm0, Hmt, ⟨%fa, Ha⟩⟩
  have hm6 := incl_m 0 (k2_off6 kk) (k2_off6_inb kk) (by rw [k2_off6_eq]; rfl)
  have ht6 := incl_t 0 (k2_off6 kk) (k2_off6_inb kk) (by rw [k2_off6_eq]; rfl)
  have hm23 := incl_m 0 (k2_off23 kk) (k2_off23_inb kk) (by rw [k2_off23_eq]; rfl)
  have ht23 := incl_t 0 (k2_off23 kk) (k2_off23_inb kk) (by rw [k2_off23_eq]; rfl)
  have hx7 := incl_x 0 0 (k2_off7 kk) (k2_off7_inb kk) (by rw [k2_off7_eq]; rfl) (by rw [k2_off7_eq]; rfl)
  have hx24 := incl_x 0 0 (k2_off24 kk) (k2_off24_inb kk) (by rw [k2_off24_eq]; rfl) (by rw [k2_off24_eq]; rfl)
  have hx8 := incl_x 0 1 (k2_off8 kk) (k2_off8_inb kk) (by rw [k2_off8_eq]; rfl) (by rw [k2_off8_eq]; rfl)
  have hx25 := incl_x 0 1 (k2_off25 kk) (k2_off25_inb kk) (by rw [k2_off25_eq]; rfl) (by rw [k2_off25_eq]; rfl)
  have hx9 := incl_x 0 2 (k2_off9 kk) (k2_off9_inb kk) (by rw [k2_off9_eq]; rfl) (by rw [k2_off9_eq]; rfl)
  have hx26 := incl_x 0 2 (k2_off26 kk) (k2_off26_inb kk) (by rw [k2_off26_eq]; rfl) (by rw [k2_off26_eq]; rfl)
  have hx10 := incl_x 0 3 (k2_off10 kk) (k2_off10_inb kk) (by rw [k2_off10_eq]; rfl) (by rw [k2_off10_eq]; rfl)
  have hx27 := incl_x 0 3 (k2_off27 kk) (k2_off27_inb kk) (by rw [k2_off27_eq]; rfl) (by rw [k2_off27_eq]; rfl)
  have hx11 := incl_x 0 4 (k2_off11 kk) (k2_off11_inb kk) (by rw [k2_off11_eq]; rfl) (by rw [k2_off11_eq]; rfl)
  have hx28 := incl_x 0 4 (k2_off28 kk) (k2_off28_inb kk) (by rw [k2_off28_eq]; rfl) (by rw [k2_off28_eq]; rfl)
  have hx12 := incl_x 0 5 (k2_off12 kk) (k2_off12_inb kk) (by rw [k2_off12_eq]; rfl) (by rw [k2_off12_eq]; rfl)
  have hx29 := incl_x 0 5 (k2_off29 kk) (k2_off29_inb kk) (by rw [k2_off29_eq]; rfl) (by rw [k2_off29_eq]; rfl)
  have hx13 := incl_x 0 6 (k2_off13 kk) (k2_off13_inb kk) (by rw [k2_off13_eq]; rfl) (by rw [k2_off13_eq]; rfl)
  have hx30 := incl_x 0 6 (k2_off30 kk) (k2_off30_inb kk) (by rw [k2_off30_eq]; rfl) (by rw [k2_off30_eq]; rfl)
  have hx14 := incl_x 0 7 (k2_off14 kk) (k2_off14_inb kk) (by rw [k2_off14_eq]; rfl) (by rw [k2_off14_eq]; rfl)
  have hx31 := incl_x 0 7 (k2_off31 kk) (k2_off31_inb kk) (by rw [k2_off31_eq]; rfl) (by rw [k2_off31_eq]; rfl)
  have hx15 := incl_x 0 8 (k2_off15 kk) (k2_off15_inb kk) (by rw [k2_off15_eq]; rfl) (by rw [k2_off15_eq]; rfl)
  have hx32 := incl_x 0 8 (k2_off32 kk) (k2_off32_inb kk) (by rw [k2_off32_eq]; rfl) (by rw [k2_off32_eq]; rfl)
  have hx16 := incl_x 0 9 (k2_off16 kk) (k2_off16_inb kk) (by rw [k2_off16_eq]; rfl) (by rw [k2_off16_eq]; rfl)
  have hx33 := incl_x 0 9 (k2_off33 kk) (k2_off33_inb kk) (by rw [k2_off33_eq]; rfl) (by rw [k2_off33_eq]; rfl)
  have hx17 := incl_x 0 10 (k2_off17 kk) (k2_off17_inb kk) (by rw [k2_off17_eq]; rfl) (by rw [k2_off17_eq]; rfl)
  have hx34 := incl_x 0 10 (k2_off34 kk) (k2_off34_inb kk) (by rw [k2_off34_eq]; rfl) (by rw [k2_off34_eq]; rfl)
  have hx18 := incl_x 0 11 (k2_off18 kk) (k2_off18_inb kk) (by rw [k2_off18_eq]; rfl) (by rw [k2_off18_eq]; rfl)
  have hx35 := incl_x 0 11 (k2_off35 kk) (k2_off35_inb kk) (by rw [k2_off35_eq]; rfl) (by rw [k2_off35_eq]; rfl)
  have hx19 := incl_x 0 12 (k2_off19 kk) (k2_off19_inb kk) (by rw [k2_off19_eq]; rfl) (by rw [k2_off19_eq]; rfl)
  have hx36 := incl_x 0 12 (k2_off36 kk) (k2_off36_inb kk) (by rw [k2_off36_eq]; rfl) (by rw [k2_off36_eq]; rfl)
  have hx20 := incl_x 0 13 (k2_off20 kk) (k2_off20_inb kk) (by rw [k2_off20_eq]; rfl) (by rw [k2_off20_eq]; rfl)
  have hx37 := incl_x 0 13 (k2_off37 kk) (k2_off37_inb kk) (by rw [k2_off37_eq]; rfl) (by rw [k2_off37_eq]; rfl)
  have hx21 := incl_x 0 14 (k2_off21 kk) (k2_off21_inb kk) (by rw [k2_off21_eq]; rfl) (by rw [k2_off21_eq]; rfl)
  have hx38 := incl_x 0 14 (k2_off38 kk) (k2_off38_inb kk) (by rw [k2_off38_eq]; rfl) (by rw [k2_off38_eq]; rfl)
  have hx22 := incl_x 0 15 (k2_off22 kk) (k2_off22_inb kk) (by rw [k2_off22_eq]; rfl) (by rw [k2_off22_eq]; rfl)
  have hx39 := incl_x 0 15 (k2_off39 kk) (k2_off39_inb kk) (by rw [k2_off39_eq]; rfl) (by rw [k2_off39_eq]; rfl)
  sl_unfold [k2_t3_body, k2_part9, k2_part8, k2_part7, k2_part6, k2_part5, k2_part4, k2_part3, k2_part2, k2_part1, SparseCore.vectorLoadIdx, SparseCore.vectorStoreIdx]
  sl_exec (disch := first
    | (show k2_chk17 _; refine sidx_ok _ ?_; intro x; refine seg_lt _ _ _ _ ?_ x; intro y; exact hgt _)
    | (show k2_chk34 _; refine sidx_ok _ ?_; intro x; refine seg_lt _ _ _ _ ?_ x; intro y; exact hgt _)
    | (refine gidx_ok _ ?_ _ ?_
       · intro x; refine seg_lt _ _ _ _ ?_ x; intro y; exact hgt _
       · decide))
  sl_step
  isplitl [Hx0 Hx1 Hx2 Hx3 Hx4 Hx5 Hx6 Hx7 Hx8 Hx9 Hx10 Hx11 Hx12 Hx13 Hx14 Hx15]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    iexact Hx15
  isplitl [Ht0]; · iexact Ht0
  isplitl [Hm0]; · iexact Hm0
  isplitl [Hmt]; · iexact Hmt
  iexists _; iexact Ha

/-- One trip of the accumulation loop over staging slot 1: the rows and the means scratch are read, the accumulator
    is rewritten; every index the trip assumes in range is, the targets' row holding segment numbers of at most 63. -/
theorem trip4 (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63)
    (v2 : BitVec 32) (k2_t2 : Fin k2_t2_loop.trips) (v475 c470 c471 c472 : BitVec 32) (kk : Fin k2_t4_loop.trips) (acc : BitVec 32) (n m : Nat) :
    (invA (F := F) d L 1 gx gt gm fmt n acc)
      ⊢ wp frame (wpE (defs₀ (F := F)) 𝒱₀ (thr d L) none) Set.univ
          (k2_t4_body L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1 v2 iotaV k2_t2 v475 c470 c471 c472 kk acc)
          (invA (F := F) d L 1 gx gt gm fmt m) := by
  unfold invA
  iintro ⟨⟨Hx0, Hx1, Hx2, Hx3, Hx4, Hx5, Hx6, Hx7, Hx8, Hx9, Hx10, Hx11, Hx12, Hx13, Hx14, Hx15⟩, Ht0, Hm0, Hmt, ⟨%fa, Ha⟩⟩
  have hm42 := incl_m 1 (k2_off42 kk) (k2_off42_inb kk) (by rw [k2_off42_eq]; rfl)
  have ht42 := incl_t 1 (k2_off42 kk) (k2_off42_inb kk) (by rw [k2_off42_eq]; rfl)
  have hm59 := incl_m 1 (k2_off59 kk) (k2_off59_inb kk) (by rw [k2_off59_eq]; rfl)
  have ht59 := incl_t 1 (k2_off59 kk) (k2_off59_inb kk) (by rw [k2_off59_eq]; rfl)
  have hx43 := incl_x 1 0 (k2_off43 kk) (k2_off43_inb kk) (by rw [k2_off43_eq]; rfl) (by rw [k2_off43_eq]; rfl)
  have hx60 := incl_x 1 0 (k2_off60 kk) (k2_off60_inb kk) (by rw [k2_off60_eq]; rfl) (by rw [k2_off60_eq]; rfl)
  have hx44 := incl_x 1 1 (k2_off44 kk) (k2_off44_inb kk) (by rw [k2_off44_eq]; rfl) (by rw [k2_off44_eq]; rfl)
  have hx61 := incl_x 1 1 (k2_off61 kk) (k2_off61_inb kk) (by rw [k2_off61_eq]; rfl) (by rw [k2_off61_eq]; rfl)
  have hx45 := incl_x 1 2 (k2_off45 kk) (k2_off45_inb kk) (by rw [k2_off45_eq]; rfl) (by rw [k2_off45_eq]; rfl)
  have hx62 := incl_x 1 2 (k2_off62 kk) (k2_off62_inb kk) (by rw [k2_off62_eq]; rfl) (by rw [k2_off62_eq]; rfl)
  have hx46 := incl_x 1 3 (k2_off46 kk) (k2_off46_inb kk) (by rw [k2_off46_eq]; rfl) (by rw [k2_off46_eq]; rfl)
  have hx63 := incl_x 1 3 (k2_off63 kk) (k2_off63_inb kk) (by rw [k2_off63_eq]; rfl) (by rw [k2_off63_eq]; rfl)
  have hx47 := incl_x 1 4 (k2_off47 kk) (k2_off47_inb kk) (by rw [k2_off47_eq]; rfl) (by rw [k2_off47_eq]; rfl)
  have hx64 := incl_x 1 4 (k2_off64 kk) (k2_off64_inb kk) (by rw [k2_off64_eq]; rfl) (by rw [k2_off64_eq]; rfl)
  have hx48 := incl_x 1 5 (k2_off48 kk) (k2_off48_inb kk) (by rw [k2_off48_eq]; rfl) (by rw [k2_off48_eq]; rfl)
  have hx65 := incl_x 1 5 (k2_off65 kk) (k2_off65_inb kk) (by rw [k2_off65_eq]; rfl) (by rw [k2_off65_eq]; rfl)
  have hx49 := incl_x 1 6 (k2_off49 kk) (k2_off49_inb kk) (by rw [k2_off49_eq]; rfl) (by rw [k2_off49_eq]; rfl)
  have hx66 := incl_x 1 6 (k2_off66 kk) (k2_off66_inb kk) (by rw [k2_off66_eq]; rfl) (by rw [k2_off66_eq]; rfl)
  have hx50 := incl_x 1 7 (k2_off50 kk) (k2_off50_inb kk) (by rw [k2_off50_eq]; rfl) (by rw [k2_off50_eq]; rfl)
  have hx67 := incl_x 1 7 (k2_off67 kk) (k2_off67_inb kk) (by rw [k2_off67_eq]; rfl) (by rw [k2_off67_eq]; rfl)
  have hx51 := incl_x 1 8 (k2_off51 kk) (k2_off51_inb kk) (by rw [k2_off51_eq]; rfl) (by rw [k2_off51_eq]; rfl)
  have hx68 := incl_x 1 8 (k2_off68 kk) (k2_off68_inb kk) (by rw [k2_off68_eq]; rfl) (by rw [k2_off68_eq]; rfl)
  have hx52 := incl_x 1 9 (k2_off52 kk) (k2_off52_inb kk) (by rw [k2_off52_eq]; rfl) (by rw [k2_off52_eq]; rfl)
  have hx69 := incl_x 1 9 (k2_off69 kk) (k2_off69_inb kk) (by rw [k2_off69_eq]; rfl) (by rw [k2_off69_eq]; rfl)
  have hx53 := incl_x 1 10 (k2_off53 kk) (k2_off53_inb kk) (by rw [k2_off53_eq]; rfl) (by rw [k2_off53_eq]; rfl)
  have hx70 := incl_x 1 10 (k2_off70 kk) (k2_off70_inb kk) (by rw [k2_off70_eq]; rfl) (by rw [k2_off70_eq]; rfl)
  have hx54 := incl_x 1 11 (k2_off54 kk) (k2_off54_inb kk) (by rw [k2_off54_eq]; rfl) (by rw [k2_off54_eq]; rfl)
  have hx71 := incl_x 1 11 (k2_off71 kk) (k2_off71_inb kk) (by rw [k2_off71_eq]; rfl) (by rw [k2_off71_eq]; rfl)
  have hx55 := incl_x 1 12 (k2_off55 kk) (k2_off55_inb kk) (by rw [k2_off55_eq]; rfl) (by rw [k2_off55_eq]; rfl)
  have hx72 := incl_x 1 12 (k2_off72 kk) (k2_off72_inb kk) (by rw [k2_off72_eq]; rfl) (by rw [k2_off72_eq]; rfl)
  have hx56 := incl_x 1 13 (k2_off56 kk) (k2_off56_inb kk) (by rw [k2_off56_eq]; rfl) (by rw [k2_off56_eq]; rfl)
  have hx73 := incl_x 1 13 (k2_off73 kk) (k2_off73_inb kk) (by rw [k2_off73_eq]; rfl) (by rw [k2_off73_eq]; rfl)
  have hx57 := incl_x 1 14 (k2_off57 kk) (k2_off57_inb kk) (by rw [k2_off57_eq]; rfl) (by rw [k2_off57_eq]; rfl)
  have hx74 := incl_x 1 14 (k2_off74 kk) (k2_off74_inb kk) (by rw [k2_off74_eq]; rfl) (by rw [k2_off74_eq]; rfl)
  have hx58 := incl_x 1 15 (k2_off58 kk) (k2_off58_inb kk) (by rw [k2_off58_eq]; rfl) (by rw [k2_off58_eq]; rfl)
  have hx75 := incl_x 1 15 (k2_off75 kk) (k2_off75_inb kk) (by rw [k2_off75_eq]; rfl) (by rw [k2_off75_eq]; rfl)
  sl_unfold [k2_t4_body, k2_part18, k2_part17, k2_part16, k2_part15, k2_part14, k2_part13, k2_part12, k2_part11, k2_part10, SparseCore.vectorLoadIdx, SparseCore.vectorStoreIdx]
  sl_exec (disch := first
    | (show k2_chk51 _; refine sidx_ok _ ?_; intro x; refine seg_lt _ _ _ _ ?_ x; intro y; exact hgt _)
    | (show k2_chk68 _; refine sidx_ok _ ?_; intro x; refine seg_lt _ _ _ _ ?_ x; intro y; exact hgt _)
    | (refine gidx_ok _ ?_ _ ?_
       · intro x; refine seg_lt _ _ _ _ ?_ x; intro y; exact hgt _
       · decide))
  sl_step
  isplitl [Hx0 Hx1 Hx2 Hx3 Hx4 Hx5 Hx6 Hx7 Hx8 Hx9 Hx10 Hx11 Hx12 Hx13 Hx14 Hx15]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    iexact Hx15
  isplitl [Ht0]; · iexact Ht0
  isplitl [Hm0]; · iexact Hm0
  isplitl [Hmt]; · iexact Hmt
  iexists _; iexact Ha

end Cert.Proof.KI.Pass2

end
-- ==== Proof.Pass2IT.lean ====
import proofs.«210783_g59777354826199_cont_9to1_m_168_18_alg».proof.Proof.SetupI
import proofs.«210783_g59777354826199_cont_9to1_m_168_18_alg».proof.Proof.Pass2IA
import proofs.«210783_g59777354826199_cont_9to1_m_168_18_alg».proof.Proof.Pass2IB
import proofs.«210783_g59777354826199_cont_9to1_m_168_18_alg».proof.Proof.Pass2IC

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## A share back from its rest and the sixteen pieces lent out of it -/

theorem join16 {ℓ : Loc nD τ sig} (q : PosShare TreeShare) (f : Buf (Elt F) ℓ) (s : Fin 16 → Finset (Idx ℓ))
    (hd : ∀ c c' : Fin 16, c ≠ c' → Disjoint (s c) (s c')) :
    (iprop((ℓ ↦[((((((((((((((((Finset.univ \ s 0) \ s 1) \ s 2) \ s 3) \ s 4) \ s 5) \ s 6) \ s 7) \ s 8) \ s 9) \ s 10) \ s 11) \ s 12) \ s 13) \ s 14) \ s 15)]{q} f) ∗ (ℓ ↦[s 0]{q} f) ∗ (ℓ ↦[s 1]{q} f) ∗ (ℓ ↦[s 2]{q} f) ∗ (ℓ ↦[s 3]{q} f) ∗ (ℓ ↦[s 4]{q} f) ∗ (ℓ ↦[s 5]{q} f) ∗ (ℓ ↦[s 6]{q} f) ∗ (ℓ ↦[s 7]{q} f) ∗ (ℓ ↦[s 8]{q} f) ∗ (ℓ ↦[s 9]{q} f) ∗ (ℓ ↦[s 10]{q} f) ∗ (ℓ ↦[s 11]{q} f) ∗ (ℓ ↦[s 12]{q} f) ∗ (ℓ ↦[s 13]{q} f) ∗ (ℓ ↦[s 14]{q} f) ∗ (ℓ ↦[s 15]{q} f)) : sProp 𝕄)
      ⊢ (ℓ ↦{q} f) := by
  have step : ∀ (R t : Finset (Idx ℓ)), t ⊆ R → ((iprop((ℓ ↦[R \ t]{q} f) ∗ (ℓ ↦[t]{q} f)) : sProp 𝕄) ⊢ (ℓ ↦[R]{q} f)) := by
    intro R t ht
    have h : (iprop((ℓ ↦[R \ t]{q} f) ∗ (ℓ ↦[t]{q} f)) : sProp 𝕄) ⊢ (ℓ ↦[R \ t ∪ t]{q} f) :=
      (pointsTo_union (Finset.sdiff_disjoint : Disjoint (R \ t) t)).2
    rwa [Finset.sdiff_union_of_subset ht] at h
  iintro ⟨HR, H0, H1, H2, H3, H4, H5, H6, H7, H8, H9, H10, H11, H12, H13, H14, H15⟩
  ihave HR := (step (((((((((((((((Finset.univ \ s 0) \ s 1) \ s 2) \ s 3) \ s 4) \ s 5) \ s 6) \ s 7) \ s 8) \ s 9) \ s 10) \ s 11) \ s 12) \ s 13) \ s 14) (s 15) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 15 0 (by decide)⟩, hd 15 1 (by decide)⟩, hd 15 2 (by decide)⟩, hd 15 3 (by decide)⟩, hd 15 4 (by decide)⟩, hd 15 5 (by decide)⟩, hd 15 6 (by decide)⟩, hd 15 7 (by decide)⟩, hd 15 8 (by decide)⟩, hd 15 9 (by decide)⟩, hd 15 10 (by decide)⟩, hd 15 11 (by decide)⟩, hd 15 12 (by decide)⟩, hd 15 13 (by decide)⟩, hd 15 14 (by decide)⟩)) $$ [HR H15]
  · isplitl [HR] <;> iassumption
  ihave HR := (step ((((((((((((((Finset.univ \ s 0) \ s 1) \ s 2) \ s 3) \ s 4) \ s 5) \ s 6) \ s 7) \ s 8) \ s 9) \ s 10) \ s 11) \ s 12) \ s 13) (s 14) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 14 0 (by decide)⟩, hd 14 1 (by decide)⟩, hd 14 2 (by decide)⟩, hd 14 3 (by decide)⟩, hd 14 4 (by decide)⟩, hd 14 5 (by decide)⟩, hd 14 6 (by decide)⟩, hd 14 7 (by decide)⟩, hd 14 8 (by decide)⟩, hd 14 9 (by decide)⟩, hd 14 10 (by decide)⟩, hd 14 11 (by decide)⟩, hd 14 12 (by decide)⟩, hd 14 13 (by decide)⟩)) $$ [HR H14]
  · isplitl [HR] <;> iassumption
  ihave HR := (step (((((((((((((Finset.univ \ s 0) \ s 1) \ s 2) \ s 3) \ s 4) \ s 5) \ s 6) \ s 7) \ s 8) \ s 9) \ s 10) \ s 11) \ s 12) (s 13) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 13 0 (by decide)⟩, hd 13 1 (by decide)⟩, hd 13 2 (by decide)⟩, hd 13 3 (by decide)⟩, hd 13 4 (by decide)⟩, hd 13 5 (by decide)⟩, hd 13 6 (by decide)⟩, hd 13 7 (by decide)⟩, hd 13 8 (by decide)⟩, hd 13 9 (by decide)⟩, hd 13 10 (by decide)⟩, hd 13 11 (by decide)⟩, hd 13 12 (by decide)⟩)) $$ [HR H13]
  · isplitl [HR] <;> iassumption
  ihave HR := (step ((((((((((((Finset.univ \ s 0) \ s 1) \ s 2) \ s 3) \ s 4) \ s 5) \ s 6) \ s 7) \ s 8) \ s 9) \ s 10) \ s 11) (s 12) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 12 0 (by decide)⟩, hd 12 1 (by decide)⟩, hd 12 2 (by decide)⟩, hd 12 3 (by decide)⟩, hd 12 4 (by decide)⟩, hd 12 5 (by decide)⟩, hd 12 6 (by decide)⟩, hd 12 7 (by decide)⟩, hd 12 8 (by decide)⟩, hd 12 9 (by decide)⟩, hd 12 10 (by decide)⟩, hd 12 11 (by decide)⟩)) $$ [HR H12]
  · isplitl [HR] <;> iassumption
  ihave HR := (step (((((((((((Finset.univ \ s 0) \ s 1) \ s 2) \ s 3) \ s 4) \ s 5) \ s 6) \ s 7) \ s 8) \ s 9) \ s 10) (s 11) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 11 0 (by decide)⟩, hd 11 1 (by decide)⟩, hd 11 2 (by decide)⟩, hd 11 3 (by decide)⟩, hd 11 4 (by decide)⟩, hd 11 5 (by decide)⟩, hd 11 6 (by decide)⟩, hd 11 7 (by decide)⟩, hd 11 8 (by decide)⟩, hd 11 9 (by decide)⟩, hd 11 10 (by decide)⟩)) $$ [HR H11]
  · isplitl [HR] <;> iassumption
  ihave HR := (step ((((((((((Finset.univ \ s 0) \ s 1) \ s 2) \ s 3) \ s 4) \ s 5) \ s 6) \ s 7) \ s 8) \ s 9) (s 10) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 10 0 (by decide)⟩, hd 10 1 (by decide)⟩, hd 10 2 (by decide)⟩, hd 10 3 (by decide)⟩, hd 10 4 (by decide)⟩, hd 10 5 (by decide)⟩, hd 10 6 (by decide)⟩, hd 10 7 (by decide)⟩, hd 10 8 (by decide)⟩, hd 10 9 (by decide)⟩)) $$ [HR H10]
  · isplitl [HR] <;> iassumption
  ihave HR := (step (((((((((Finset.univ \ s 0) \ s 1) \ s 2) \ s 3) \ s 4) \ s 5) \ s 6) \ s 7) \ s 8) (s 9) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 9 0 (by decide)⟩, hd 9 1 (by decide)⟩, hd 9 2 (by decide)⟩, hd 9 3 (by decide)⟩, hd 9 4 (by decide)⟩, hd 9 5 (by decide)⟩, hd 9 6 (by decide)⟩, hd 9 7 (by decide)⟩, hd 9 8 (by decide)⟩)) $$ [HR H9]
  · isplitl [HR] <;> iassumption
  ihave HR := (step ((((((((Finset.univ \ s 0) \ s 1) \ s 2) \ s 3) \ s 4) \ s 5) \ s 6) \ s 7) (s 8) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 8 0 (by decide)⟩, hd 8 1 (by decide)⟩, hd 8 2 (by decide)⟩, hd 8 3 (by decide)⟩, hd 8 4 (by decide)⟩, hd 8 5 (by decide)⟩, hd 8 6 (by decide)⟩, hd 8 7 (by decide)⟩)) $$ [HR H8]
  · isplitl [HR] <;> iassumption
  ihave HR := (step (((((((Finset.univ \ s 0) \ s 1) \ s 2) \ s 3) \ s 4) \ s 5) \ s 6) (s 7) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 7 0 (by decide)⟩, hd 7 1 (by decide)⟩, hd 7 2 (by decide)⟩, hd 7 3 (by decide)⟩, hd 7 4 (by decide)⟩, hd 7 5 (by decide)⟩, hd 7 6 (by decide)⟩)) $$ [HR H7]
  · isplitl [HR] <;> iassumption
  ihave HR := (step ((((((Finset.univ \ s 0) \ s 1) \ s 2) \ s 3) \ s 4) \ s 5) (s 6) (Finset.subset_sdiff.2 ⟨Finset.subset_sdiff.2 ⟨Finset.subset_sdiff.2 ⟨Finset.subset_sdiff.2 ⟨Finset.subset_sdiff.2 ⟨Finset.subset_sdiff.2 ⟨Finset.subset_univ _, hd 6 0 (by decide)⟩, hd 6 1 (by decide)⟩, hd 6 2 (by decide)⟩, hd 6 3 (by decide)⟩, hd 6 4 (by decide)⟩, hd 6 5 (by decide)⟩)) $$ [HR H6]
  · isplitl [HR] <;> iassumption
  ihave HR := (step (((((Finset.univ \ s 0) \ s 1) \ s 2) \ s 3) \ s 4) (s 5) (Finset.subset_sdiff.2 ⟨Finset.subset_sdiff.2 ⟨Finset.subset_sdiff.2 ⟨Finset.subset_sdiff.2 ⟨Finset.subset_sdiff.2 ⟨Finset.subset_univ _, hd 5 0 (by decide)⟩, hd 5 1 (by decide)⟩, hd 5 2 (by decide)⟩, hd 5 3 (by decide)⟩, hd 5 4 (by decide)⟩)) $$ [HR H5]
  · isplitl [HR] <;> iassumption
  ihave HR := (step ((((Finset.univ \ s 0) \ s 1) \ s 2) \ s 3) (s 4) (Finset.subset_sdiff.2 ⟨Finset.subset_sdiff.2 ⟨Finset.subset_sdiff.2 ⟨Finset.subset_sdiff.2 ⟨Finset.subset_univ _, hd 4 0 (by decide)⟩, hd 4 1 (by decide)⟩, hd 4 2 (by decide)⟩, hd 4 3 (by decide)⟩)) $$ [HR H4]
  · isplitl [HR] <;> iassumption
  ihave HR := (step (((Finset.univ \ s 0) \ s 1) \ s 2) (s 3) (Finset.subset_sdiff.2 ⟨Finset.subset_sdiff.2 ⟨Finset.subset_sdiff.2 ⟨Finset.subset_univ _, hd 3 0 (by decide)⟩, hd 3 1 (by decide)⟩, hd 3 2 (by decide)⟩)) $$ [HR H3]
  · isplitl [HR] <;> iassumption
  ihave HR := (step ((Finset.univ \ s 0) \ s 1) (s 2) (Finset.subset_sdiff.2 ⟨Finset.subset_sdiff.2 ⟨Finset.subset_univ _, hd 2 0 (by decide)⟩, hd 2 1 (by decide)⟩)) $$ [HR H2]
  · isplitl [HR] <;> iassumption
  ihave HR := (step (Finset.univ \ s 0) (s 1) (Finset.subset_sdiff.2 ⟨Finset.subset_univ _, hd 1 0 (by decide)⟩)) $$ [HR H1]
  · isplitl [HR] <;> iassumption
  ihave HR := (step Finset.univ (s 0) (Finset.subset_univ _)) $$ [HR H0]
  · isplitl [HR] <;> iassumption
  iexact HR

variable (d : Dev nD) (L : grid2.Coords)

theorem eSl_set (o : Fin 1 → ℕ) (h : ∀ a, o a + S2048.size a ≤ S33554432.size a) :
    ((eSl o h).view.set : Finset S33554432.Idx) = (Rect.unit (s := S33554432) o S2048.size h).set := by
  show ((View.whole (main_v0_scv : Ref sig .scVector)).slice _).set = _
  rw [View.set_slice_whole]

/-- The chunks' offsets in order: each chunk ends before the next begins. -/
def Ordered (oe : Fin 16 → Fin 1 → ℕ) : Prop := ∀ c c' : Fin 16, c < c' → oe c 0 + 2048 ≤ oe c' 0

theorem eSl_disjoint (oe : Fin 16 → Fin 1 → ℕ) (he : ∀ c a, oe c a + S2048.size a ≤ S33554432.size a) (ho : Ordered oe)
    (c c' : Fin 16) (h : c ≠ c') :
    Disjoint ((eSl (oe c) (he c)).view.set : Finset S33554432.Idx) ((eSl (oe c') (he c')).view.set : Finset S33554432.Idx) := by
  rw [eSl_set, eSl_set]
  rcases lt_or_gt_of_ne h with h | h
  · exact Rect.unit_disjoint (0 : Fin 1) (Or.inl (ho c c' h))
  · exact Rect.unit_disjoint (0 : Fin 1) (Or.inr (ho c' c h))

/-- The embedding's share back from what a batch left of it and the sixteen chunks the batch hands back. -/
theorem restE_join (qs : PosShare TreeShare) (e : Buf (Elt F) ((eW).view.loc (thr d L)))
    (oe : Fin 16 → Fin 1 → ℕ) (he : ∀ c a, oe c a + S2048.size a ≤ S33554432.size a) (ho : Ordered oe) :
    (iprop(restE d L qs e oe he ∗ ((eSl (oe 0) (he 0)).view.loc (thr d L) ↦[(eSl (oe 0) (he 0)).view.set]{qs} e) ∗ ((eSl (oe 1) (he 1)).view.loc (thr d L) ↦[(eSl (oe 1) (he 1)).view.set]{qs} e) ∗ ((eSl (oe 2) (he 2)).view.loc (thr d L) ↦[(eSl (oe 2) (he 2)).view.set]{qs} e) ∗ ((eSl (oe 3) (he 3)).view.loc (thr d L) ↦[(eSl (oe 3) (he 3)).view.set]{qs} e) ∗ ((eSl (oe 4) (he 4)).view.loc (thr d L) ↦[(eSl (oe 4) (he 4)).view.set]{qs} e) ∗ ((eSl (oe 5) (he 5)).view.loc (thr d L) ↦[(eSl (oe 5) (he 5)).view.set]{qs} e) ∗ ((eSl (oe 6) (he 6)).view.loc (thr d L) ↦[(eSl (oe 6) (he 6)).view.set]{qs} e) ∗ ((eSl (oe 7) (he 7)).view.loc (thr d L) ↦[(eSl (oe 7) (he 7)).view.set]{qs} e) ∗ ((eSl (oe 8) (he 8)).view.loc (thr d L) ↦[(eSl (oe 8) (he 8)).view.set]{qs} e) ∗ ((eSl (oe 9) (he 9)).view.loc (thr d L) ↦[(eSl (oe 9) (he 9)).view.set]{qs} e) ∗ ((eSl (oe 10) (he 10)).view.loc (thr d L) ↦[(eSl (oe 10) (he 10)).view.set]{qs} e) ∗ ((eSl (oe 11) (he 11)).view.loc (thr d L) ↦[(eSl (oe 11) (he 11)).view.set]{qs} e) ∗ ((eSl (oe 12) (he 12)).view.loc (thr d L) ↦[(eSl (oe 12) (he 12)).view.set]{qs} e) ∗ ((eSl (oe 13) (he 13)).view.loc (thr d L) ↦[(eSl (oe 13) (he 13)).view.set]{qs} e) ∗ ((eSl (oe 14) (he 14)).view.loc (thr d L) ↦[(eSl (oe 14) (he 14)).view.set]{qs} e) ∗ ((eSl (oe 15) (he 15)).view.loc (thr d L) ↦[(eSl (oe 15) (he 15)).view.set]{qs} e)) : sProp 𝕄)
      ⊢ ((eW).view.loc (thr d L) ↦{qs} e) :=
  join16 (ℓ := (eW).view.loc (thr d L)) qs e (fun c => (eSl (oe c) (he c)).view.set) (eSl_disjoint oe he ho)

/-! ## The chunks' offsets, in order -/

theorem ord2 : Ordered (fun c : Fin 16 => k2_off2 L (BitVec.ofNat 32 (2097152 * c.val))) := by
  intro c c' h
  have h' : c.val < c'.val := h
  show (k2_off2 L (BitVec.ofNat 32 (2097152 * c.val))) 0 + 2048 ≤ (k2_off2 L (BitVec.ofNat 32 (2097152 * c'.val))) 0
  rw [k2_off2_eq, k2_off2_eq]
  show 2097152 * c.val + 131072 * (L 1).val + 65536 * (L 0).val + 2048 ≤ 2097152 * c'.val + 131072 * (L 1).val + 65536 * (L 0).val
  omega
theorem ord4 : Ordered (fun c : Fin 16 => k2_off4 L (BitVec.ofNat 32 (2097152 * c.val))) := by
  intro c c' h
  have h' : c.val < c'.val := h
  show (k2_off4 L (BitVec.ofNat 32 (2097152 * c.val))) 0 + 2048 ≤ (k2_off4 L (BitVec.ofNat 32 (2097152 * c'.val))) 0
  rw [k2_off4_eq, k2_off4_eq]
  show 2097152 * c.val + 131072 * (L 1).val + 65536 * (L 0).val + 2048 + 2048 ≤ 2097152 * c'.val + 131072 * (L 1).val + 65536 * (L 0).val + 2048
  omega
theorem ord40 (kk : Fin k2_t2_loop.trips) (b : Fin 2) :
    Ordered (fun c : Fin 16 => k2_off40 L kk (BitVec.ofNat 32 (2097152 * c.val)) (BitVec.ofNat 32 b.val)) := by
  intro c c' h
  have h' : c.val < c'.val := h
  show (k2_off40 L kk (BitVec.ofNat 32 (2097152 * c.val)) (BitVec.ofNat 32 b.val)) 0 + 2048
    ≤ (k2_off40 L kk (BitVec.ofNat 32 (2097152 * c'.val)) (BitVec.ofNat 32 b.val)) 0
  rw [k2_off40_eq, k2_off40_eq]
  show 2097152 * c.val + 131072 * (L 1).val + 65536 * (L 0).val + 2048 * (min (2 * kk.val + b.val + 2) 31) + 2048
    ≤ 2097152 * c'.val + 131072 * (L 1).val + 65536 * (L 0).val + 2048 * (min (2 * kk.val + b.val + 2) 31)
  omega

/-- The offsets of the chunk a trip of the outer loop issues into slot b, as the program computes them. -/
abbrev oeN (kk : Fin k2_t2_loop.trips) (b : Fin 2) : Fin 16 → Fin 1 → ℕ :=
  fun c => k2_off40 L kk (BitVec.ofNat 32 (2097152 * c.val)) (BitVec.ofNat 32 b.val)
theorem heN (kk : Fin k2_t2_loop.trips) (b : Fin 2) : ∀ c a, oeN L kk b c a + S2048.size a ≤ S33554432.size a :=
  fun c => k2_off40_inb L kk c b
abbrev otN (kk : Fin k2_t2_loop.trips) (b : Fin 2) : Fin 1 → ℕ := k2_off41 L kk (BitVec.ofNat 32 b.val)
theorem htN (kk : Fin k2_t2_loop.trips) (b : Fin 2) : ∀ a, otN L kk b a + S2048.size a ≤ S2097152.size a :=
  k2_off41_inb L kk b

/-! ## A row's contents forgotten -/

theorem xPts_ex (b : Fin 2) (c : Fin 16) (g : Buf (Elt F) ((xB).view.loc (thr d L))) :
    (xPts d L b c g : sProp 𝕄) ⊢ iprop(∃ g', xPts d L b c g') := by
  iintro H; iexists _; iexact H
theorem tPts_ex (b : Fin 2) (g : Buf (Elt F) ((tB).view.loc (thr d L))) :
    (tPts d L b g : sProp 𝕄) ⊢ iprop(∃ g', tPts d L b g') := by
  iintro H; iexists _; iexact H
theorem mPts_ex (b : Fin 2) (g : Buf (Elt F) ((mB).view.loc (thr d L))) :
    (mPts d L b g : sProp 𝕄) ⊢ iprop(∃ g', mPts d L b g') := by
  iintro H; iexists _; iexact H

/-! ## An assertion set aside -/

/-- The same assertion under a name of its own: what one semaphore's side holds of an array while the other side's
    copies are issued. -/
def Hid (P : sProp 𝕄) : sProp 𝕄 := P
theorem Hid_eq (P : sProp 𝕄) : Hid P = P := rfl

variable [∀ e, Nonempty (Elt F e)] [FloatOps F]

/-- One semaphore's side of the outer loop's invariant: its chunk's batch in flight at some ordered offsets, all eighteen
    copies issued, and what the batch leaves of this side's shares of the three arrays. -/
def sideO (sm : DmaSems sig S_) (b : Fin 2) (qs : PosShare TreeShare)
    (e : Buf (Elt F) ((eW).view.loc (thr d L))) (t : Buf (Elt F) ((tW).view.loc (thr d L))) (k : Buf (Elt F) ((kW).view.loc (thr d L))) : sProp 𝕄 :=
  iprop(∃ (oe : Fin 16 → Fin 1 → ℕ) (he : ∀ c a, oe c a + S2048.size a ≤ S33554432.size a)
      (ot : Fin 1 → ℕ) (ht : ∀ a, ot a + S2048.size a ≤ S2097152.size a),
    ⌜Ordered oe⌝ ∗ batchOf d L sm b qs e t k oe he ot ht 18 ∗ Hid (restE d L qs e oe he) ∗ restT d L qs t ot ht ∗ restK d L qs k ot ht)

/-- The outer loop's invariant. -/
def invO (q : PosShare TreeShare)
    (e : Buf (Elt F) ((eW).view.loc (thr d L))) (t : Buf (Elt F) ((tW).view.loc (thr d L))) (k : Buf (Elt F) ((kW).view.loc (thr d L)))
    (O : CellTallies nD τ sig (HIx 2)) (W : Waits sig (HIx 2)) (_ : Nat) (_ : BitVec 32) : sProp 𝕄 :=
  iprop(Transfers.MayWaits (thr d L) (none : HIx 2) O
    ∗ sideO d L cc2_scratch5 0 q.left e t k
    ∗ sideO d L cc2_scratch6 1 q.right e t k
    ∗ (∃ f, ((mT).view.loc (thr d L) ↦{fullShare} f))
    ∗ (∃ f, ((aT).view.loc (thr d L) ↦{fullShare} f))
    ∗ ∃ W', ⌜∀ p ∈ W', p ∈ W ∨ p.2 = none⌝ ∗ owes (thr d L) O W')

omit [∀ e, Nonempty (Elt F e)] [FloatOps F] in
/-- A wait at the index of the thread's own transfers, recorded beyond what was recorded before. -/
theorem mem_ins {W W' : Waits sig (HIx 2)} {x : SemLoc sig × HIx 2} (hx : x.2 = none) (h : ∀ p ∈ W', p ∈ W ∨ p.2 = none) :
    ∀ p ∈ insert x W', p ∈ W ∨ p.2 = none :=
  fun p hp => (Finset.mem_insert.mp hp).elim (fun e => .inr (e ▸ hx)) (h p)

theorem outer_trip (q : PosShare TreeShare)
    (e : Buf (Elt F) ((eW).view.loc (thr d L))) (t : Buf (Elt F) ((tW).view.loc (thr d L))) (k : Buf (Elt F) ((kW).view.loc (thr d L)))
    (htr : ∀ j, (t j : BitVec 32).toNat ≤ 63)
    (O : CellTallies nD τ sig (HIx 2)) (W : Waits sig (HIx 2))
    (v2 c146 c147 c16 : BitVec 32) (kk : Fin k2_t2_loop.trips) (acc : BitVec 32) (n m : Nat) :
    (invO (F := F) d L q e t k O W n acc)
      ⊢ wp frame (wpE (defs₀ (F := F)) 𝒱₀ (thr d L) none) Set.univ
          (k2_t2_body L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1 v2 iotaV c146 c147 c16 kk acc)
          (invO (F := F) d L q e t k O W m) := by
  unfold invO sideO
  iintro ⟨Hmw, ⟨%oe0, %he0, %ot0, %ht0, %ho0, HB0, HeR0, HtR0, HkR0⟩, ⟨%oe1, %he1, %ot1, %ht1, %ho1, HB1, HeR1, HtR1, HkR1⟩, ⟨%fmt, Hmt⟩, ⟨%fa, Ha⟩, %W', %hW', HO⟩
  sl_exec

  -- side 0: the embedding's share whole again
  ihave HeR0 := (Entails.of_eq (Hid_eq _)) $$ HeR0
  ihave He0 := (restE_join d L q.left e oe0 he0 ho0) $$ [HeR0 HB0_src0 HB0_src1 HB0_src2 HB0_src3 HB0_src4 HB0_src5 HB0_src6 HB0_src7 HB0_src8 HB0_src9 HB0_src10 HB0_src11 HB0_src12 HB0_src13 HB0_src14 HB0_src15]
  · isplitl [HeR0]; · iexact HeR0
    isplitl [HB0_src0]; · iexact HB0_src0
    isplitl [HB0_src1]; · iexact HB0_src1
    isplitl [HB0_src2]; · iexact HB0_src2
    isplitl [HB0_src3]; · iexact HB0_src3
    isplitl [HB0_src4]; · iexact HB0_src4
    isplitl [HB0_src5]; · iexact HB0_src5
    isplitl [HB0_src6]; · iexact HB0_src6
    isplitl [HB0_src7]; · iexact HB0_src7
    isplitl [HB0_src8]; · iexact HB0_src8
    isplitl [HB0_src9]; · iexact HB0_src9
    isplitl [HB0_src10]; · iexact HB0_src10
    isplitl [HB0_src11]; · iexact HB0_src11
    isplitl [HB0_src12]; · iexact HB0_src12
    isplitl [HB0_src13]; · iexact HB0_src13
    isplitl [HB0_src14]; · iexact HB0_src14
    iexact HB0_src15
  ihave Ht0 := (Entails.of_eq (show (((tSl ot0 ht0).view.loc (thr d L) ↦{q.left} t : sProp 𝕄) = ((tW).view.loc (thr d L) ↦{q.left} t)) from rfl)) $$ HtR0
  ihave Hk0 := (Entails.of_eq (show (((kSl ot0 ht0).view.loc (thr d L) ↦{q.left} k : sProp 𝕄) = ((kW).view.loc (thr d L) ↦{q.left} k)) from rfl)) $$ HkR0
  -- the targets' row restated at contents in range everywhere
  ihave HT := (Entails.of_eq (clampT_pts d L 0 (landed d L (tWin 0) (tSl ot0 ht0) t))) $$ HB0_dst16
  sl_for (invA (F := F) d L 0 (fun c => landed d L (xWin 0 c) (eSl (oe0 c) (he0 c)) e) (clampT d L 0 (landed d L (tWin 0) (tSl ot0 ht0) t))
      (landed d L (mWin 0) (kSl ot0 ht0) k) fmt) $$ [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HT HB0_dst17 Hmt Ha]
  case region =>
    intro k3 a3
    exact trip3 d L _ _ _ fmt (clampT_le d L 0 _ (landed_le d L 0 t htr ot0 ht0)) _ kk _ _ _ _ k3 a3 _ _
  · unfold invA
    isplitl [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15]
    · isplitl [HB0_dst0]; · iexact HB0_dst0
      isplitl [HB0_dst1]; · iexact HB0_dst1
      isplitl [HB0_dst2]; · iexact HB0_dst2
      isplitl [HB0_dst3]; · iexact HB0_dst3
      isplitl [HB0_dst4]; · iexact HB0_dst4
      isplitl [HB0_dst5]; · iexact HB0_dst5
      isplitl [HB0_dst6]; · iexact HB0_dst6
      isplitl [HB0_dst7]; · iexact HB0_dst7
      isplitl [HB0_dst8]; · iexact HB0_dst8
      isplitl [HB0_dst9]; · iexact HB0_dst9
      isplitl [HB0_dst10]; · iexact HB0_dst10
      isplitl [HB0_dst11]; · iexact HB0_dst11
      isplitl [HB0_dst12]; · iexact HB0_dst12
      isplitl [HB0_dst13]; · iexact HB0_dst13
      isplitl [HB0_dst14]; · iexact HB0_dst14
      iexact HB0_dst15
    isplitl [HT]; · iexact HT
    isplitl [HB0_dst17]; · iexact HB0_dst17
    isplitl [Hmt]; · iexact Hmt
    iexists _; iexact Ha
  iintro %_ HI
  unfold invA
  icases HI with ⟨⟨Hx0, Hx1, Hx2, Hx3, Hx4, Hx5, Hx6, Hx7, Hx8, Hx9, Hx10, Hx11, Hx12, Hx13, Hx14, Hx15⟩, HT, HM, Hmt, ⟨%fa0, Ha⟩⟩
  ihave Hex := (xPts_ex d L 0 0 _) $$ Hx0
  icases Hex with ⟨%gx0_0, Hx0⟩
  ihave Hex := (xPts_ex d L 0 1 _) $$ Hx1
  icases Hex with ⟨%gx0_1, Hx1⟩
  ihave Hex := (xPts_ex d L 0 2 _) $$ Hx2
  icases Hex with ⟨%gx0_2, Hx2⟩
  ihave Hex := (xPts_ex d L 0 3 _) $$ Hx3
  icases Hex with ⟨%gx0_3, Hx3⟩
  ihave Hex := (xPts_ex d L 0 4 _) $$ Hx4
  icases Hex with ⟨%gx0_4, Hx4⟩
  ihave Hex := (xPts_ex d L 0 5 _) $$ Hx5
  icases Hex with ⟨%gx0_5, Hx5⟩
  ihave Hex := (xPts_ex d L 0 6 _) $$ Hx6
  icases Hex with ⟨%gx0_6, Hx6⟩
  ihave Hex := (xPts_ex d L 0 7 _) $$ Hx7
  icases Hex with ⟨%gx0_7, Hx7⟩
  ihave Hex := (xPts_ex d L 0 8 _) $$ Hx8
  icases Hex with ⟨%gx0_8, Hx8⟩
  ihave Hex := (xPts_ex d L 0 9 _) $$ Hx9
  icases Hex with ⟨%gx0_9, Hx9⟩
  ihave Hex := (xPts_ex d L 0 10 _) $$ Hx10
  icases Hex with ⟨%gx0_10, Hx10⟩
  ihave Hex := (xPts_ex d L 0 11 _) $$ Hx11
  icases Hex with ⟨%gx0_11, Hx11⟩
  ihave Hex := (xPts_ex d L 0 12 _) $$ Hx12
  icases Hex with ⟨%gx0_12, Hx12⟩
  ihave Hex := (xPts_ex d L 0 13 _) $$ Hx13
  icases Hex with ⟨%gx0_13, Hx13⟩
  ihave Hex := (xPts_ex d L 0 14 _) $$ Hx14
  icases Hex with ⟨%gx0_14, Hx14⟩
  ihave Hex := (xPts_ex d L 0 15 _) $$ Hx15
  icases Hex with ⟨%gx0_15, Hx15⟩
  ihave Hex := (tPts_ex d L 0 _) $$ HT
  icases Hex with ⟨%gt0, HT⟩
  ihave Hex := (mPts_ex d L 0 _) $$ HM
  icases Hex with ⟨%gm0, HM⟩
  imod (Transfers.batch_alloc' (Lvl := ℕ) (countersEmb (U := UU)) (thr d L) (none : HIx 2) NC
    (Dv (F := F) d L 0 q.left e t k (oeN L kk 0) (heN L kk 0) (otN L kk 0) (htN L kk 0))
    (sm := .dma cc2_scratch5.sem) (E := Set.univ)) $$ [HB0] with HB0
  · iexact HB0
  sl_exec
  -- this side's share of the embedding, less the chunks just lent, set aside
  ihave He0 := (Entails.of_eq (Hid_eq _).symm) $$ He0

  -- side 1: the embedding's share whole again
  ihave HeR1 := (Entails.of_eq (Hid_eq _)) $$ HeR1
  ihave He1 := (restE_join d L q.right e oe1 he1 ho1) $$ [HeR1 HB1_src0 HB1_src1 HB1_src2 HB1_src3 HB1_src4 HB1_src5 HB1_src6 HB1_src7 HB1_src8 HB1_src9 HB1_src10 HB1_src11 HB1_src12 HB1_src13 HB1_src14 HB1_src15]
  · isplitl [HeR1]; · iexact HeR1
    isplitl [HB1_src0]; · iexact HB1_src0
    isplitl [HB1_src1]; · iexact HB1_src1
    isplitl [HB1_src2]; · iexact HB1_src2
    isplitl [HB1_src3]; · iexact HB1_src3
    isplitl [HB1_src4]; · iexact HB1_src4
    isplitl [HB1_src5]; · iexact HB1_src5
    isplitl [HB1_src6]; · iexact HB1_src6
    isplitl [HB1_src7]; · iexact HB1_src7
    isplitl [HB1_src8]; · iexact HB1_src8
    isplitl [HB1_src9]; · iexact HB1_src9
    isplitl [HB1_src10]; · iexact HB1_src10
    isplitl [HB1_src11]; · iexact HB1_src11
    isplitl [HB1_src12]; · iexact HB1_src12
    isplitl [HB1_src13]; · iexact HB1_src13
    isplitl [HB1_src14]; · iexact HB1_src14
    iexact HB1_src15
  ihave Ht1 := (Entails.of_eq (show (((tSl ot1 ht1).view.loc (thr d L) ↦{q.right} t : sProp 𝕄) = ((tW).view.loc (thr d L) ↦{q.right} t)) from rfl)) $$ HtR1
  ihave Hk1 := (Entails.of_eq (show (((kSl ot1 ht1).view.loc (thr d L) ↦{q.right} k : sProp 𝕄) = ((kW).view.loc (thr d L) ↦{q.right} k)) from rfl)) $$ HkR1
  -- the targets' row restated at contents in range everywhere
  ihave HT := (Entails.of_eq (clampT_pts d L 1 (landed d L (tWin 1) (tSl ot1 ht1) t))) $$ HB1_dst16
  sl_for (invA (F := F) d L 1 (fun c => landed d L (xWin 1 c) (eSl (oe1 c) (he1 c)) e) (clampT d L 1 (landed d L (tWin 1) (tSl ot1 ht1) t))
      (landed d L (mWin 1) (kSl ot1 ht1) k) fmt) $$ [HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15 HT HB1_dst17 Hmt Ha]
  case region =>
    intro k3 a3
    exact trip4 d L _ _ _ fmt (clampT_le d L 1 _ (landed_le d L 1 t htr ot1 ht1)) _ kk _ _ _ _ k3 a3 _ _
  · unfold invA
    isplitl [HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15]
    · isplitl [HB1_dst0]; · iexact HB1_dst0
      isplitl [HB1_dst1]; · iexact HB1_dst1
      isplitl [HB1_dst2]; · iexact HB1_dst2
      isplitl [HB1_dst3]; · iexact HB1_dst3
      isplitl [HB1_dst4]; · iexact HB1_dst4
      isplitl [HB1_dst5]; · iexact HB1_dst5
      isplitl [HB1_dst6]; · iexact HB1_dst6
      isplitl [HB1_dst7]; · iexact HB1_dst7
      isplitl [HB1_dst8]; · iexact HB1_dst8
      isplitl [HB1_dst9]; · iexact HB1_dst9
      isplitl [HB1_dst10]; · iexact HB1_dst10
      isplitl [HB1_dst11]; · iexact HB1_dst11
      isplitl [HB1_dst12]; · iexact HB1_dst12
      isplitl [HB1_dst13]; · iexact HB1_dst13
      isplitl [HB1_dst14]; · iexact HB1_dst14
      iexact HB1_dst15
    isplitl [HT]; · iexact HT
    isplitl [HB1_dst17]; · iexact HB1_dst17
    isplitl [Hmt]; · iexact Hmt
    iexists _; iexact Ha
  iintro %_ HI
  unfold invA
  icases HI with ⟨⟨Hx0, Hx1, Hx2, Hx3, Hx4, Hx5, Hx6, Hx7, Hx8, Hx9, Hx10, Hx11, Hx12, Hx13, Hx14, Hx15⟩, HT, HM, Hmt, ⟨%fa1, Ha⟩⟩
  ihave Hex := (xPts_ex d L 1 0 _) $$ Hx0
  icases Hex with ⟨%gx1_0, Hx0⟩
  ihave Hex := (xPts_ex d L 1 1 _) $$ Hx1
  icases Hex with ⟨%gx1_1, Hx1⟩
  ihave Hex := (xPts_ex d L 1 2 _) $$ Hx2
  icases Hex with ⟨%gx1_2, Hx2⟩
  ihave Hex := (xPts_ex d L 1 3 _) $$ Hx3
  icases Hex with ⟨%gx1_3, Hx3⟩
  ihave Hex := (xPts_ex d L 1 4 _) $$ Hx4
  icases Hex with ⟨%gx1_4, Hx4⟩
  ihave Hex := (xPts_ex d L 1 5 _) $$ Hx5
  icases Hex with ⟨%gx1_5, Hx5⟩
  ihave Hex := (xPts_ex d L 1 6 _) $$ Hx6
  icases Hex with ⟨%gx1_6, Hx6⟩
  ihave Hex := (xPts_ex d L 1 7 _) $$ Hx7
  icases Hex with ⟨%gx1_7, Hx7⟩
  ihave Hex := (xPts_ex d L 1 8 _) $$ Hx8
  icases Hex with ⟨%gx1_8, Hx8⟩
  ihave Hex := (xPts_ex d L 1 9 _) $$ Hx9
  icases Hex with ⟨%gx1_9, Hx9⟩
  ihave Hex := (xPts_ex d L 1 10 _) $$ Hx10
  icases Hex with ⟨%gx1_10, Hx10⟩
  ihave Hex := (xPts_ex d L 1 11 _) $$ Hx11
  icases Hex with ⟨%gx1_11, Hx11⟩
  ihave Hex := (xPts_ex d L 1 12 _) $$ Hx12
  icases Hex with ⟨%gx1_12, Hx12⟩
  ihave Hex := (xPts_ex d L 1 13 _) $$ Hx13
  icases Hex with ⟨%gx1_13, Hx13⟩
  ihave Hex := (xPts_ex d L 1 14 _) $$ Hx14
  icases Hex with ⟨%gx1_14, Hx14⟩
  ihave Hex := (xPts_ex d L 1 15 _) $$ Hx15
  icases Hex with ⟨%gx1_15, Hx15⟩
  ihave Hex := (tPts_ex d L 1 _) $$ HT
  icases Hex with ⟨%gt1, HT⟩
  ihave Hex := (mPts_ex d L 1 _) $$ HM
  icases Hex with ⟨%gm1, HM⟩
  imod (Transfers.batch_alloc' (Lvl := ℕ) (countersEmb (U := UU)) (thr d L) (none : HIx 2) NC
    (Dv (F := F) d L 1 q.right e t k (oeN L kk 1) (heN L kk 1) (otN L kk 1) (htN L kk 1))
    (sm := .dma cc2_scratch6.sem) (E := Set.univ)) $$ [HB1] with HB1
  · iexact HB1
  sl_exec
  -- this side's share of the embedding, less the chunks just lent, set aside
  ihave He1 := (Entails.of_eq (Hid_eq _).symm) $$ He1

  sl_step
  isplitl [Hmw]; · iexact Hmw
  isplitl [HB0 He0 Ht0 Hk0]
  · iexists (oeN L kk 0), (heN L kk 0), (otN L kk 0), (htN L kk 0)
    isplitr; · ipureintro; exact ord40 L kk 0
    isplitl [HB0]; · iexact HB0
    isplitl [He0]; · iexact He0
    isplitl [Ht0]; · iexact Ht0
    iexact Hk0
  isplitl [HB1 He1 Ht1 Hk1]
  · iexists (oeN L kk 1), (heN L kk 1), (otN L kk 1), (htN L kk 1)
    isplitr; · ipureintro; exact ord40 L kk 1
    isplitl [HB1]; · iexact HB1
    isplitl [He1]; · iexact He1
    isplitl [Ht1]; · iexact Ht1
    iexact Hk1
  isplitl [Hmt]; · iexists _; iexact Hmt
  isplitl [Ha]; · iexists _; iexact Ha
  iexists _; isplitr
  rotate_left
  · iexact HO
  · ipureintro
    repeat (refine mem_ins rfl ?_)
    exact hW'

end Cert.Proof.KI.Pass2

end
-- ==== Proof.Pass2ID.lean ====
import proofs.«210783_g59777354826199_cont_9to1_m_168_18_alg».proof.Proof.SetupI
import proofs.«210783_g59777354826199_cont_9to1_m_168_18_alg».proof.Proof.Pass2IA
import proofs.«210783_g59777354826199_cont_9to1_m_168_18_alg».proof.Proof.Pass2IB
import proofs.«210783_g59777354826199_cont_9to1_m_168_18_alg».proof.Proof.Pass2IC
import proofs.«210783_g59777354826199_cont_9to1_m_168_18_alg».proof.Proof.Pass2IT

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (d : Dev nD) (L : grid2.Coords)

/-- The offsets of the two chunks issued before the outer loop. -/
abbrev oeP0 : Fin 16 → Fin 1 → ℕ := fun c => k2_off2 L (BitVec.ofNat 32 (2097152 * c.val))
theorem heP0 : ∀ c a, oeP0 L c a + S2048.size a ≤ S33554432.size a := fun c => k2_off2_inb L c
abbrev oeP1 : Fin 16 → Fin 1 → ℕ := fun c => k2_off4 L (BitVec.ofNat 32 (2097152 * c.val))
theorem heP1 : ∀ c a, oeP1 L c a + S2048.size a ≤ S33554432.size a := fun c => k2_off4_inb L c

variable [∀ e, Nonempty (Elt F e)] [FloatOps F]

/-- The zeroing loop's invariant: the accumulator scratch held whole at some contents. -/
def invZ (_ : Nat) (_ : BitVec 32) : sProp 𝕄 :=
  iprop(∃ f, ((aT).view.loc (thr d L) ↦{fullShare} f))

/-- The body of the second vector-subcore kernel on the tile of grid point L: every thread of the launch terminates
    holding what it held, the tile's row of the result at some contents. -/
theorem body
    (hF : (K (F := F)).Facts) (q : PosShare TreeShare)
    (e : Buf (Elt F) ((eW).view.loc (thr d L))) (t : Buf (Elt F) ((tW).view.loc (thr d L)))
    (k : Buf (Elt F) ((kW).view.loc (thr d L))) (mt : Buf (Elt F) ((mW).view.loc (thr d L)))
    (o : Buf (Elt F) ((oRow L).view.loc (thr d L)))
    (htr : ∀ j, (t j : BitVec 32).toNat ≤ 63)
    (O : CellTallies nD τ sig (HIx 2)) (W : Waits sig (HIx 2)) (hO : ∀ g, O g none = 0) :
    (iprop(levAts (K (F := F)).L (K (F := F)).lev
        ∗ (((eW).view.loc (thr d L) ↦{q} e) ∗ ((tW).view.loc (thr d L) ↦{q} t) ∗ ((kW).view.loc (thr d L) ↦{q} k)
            ∗ ((mW).view.loc (thr d L) ↦{q} mt) ∗ ((oRow L).view.loc (thr d L) ↦[(oRow L).view.set]{fullShare} o))
        ∗ scopedBufs (thr d L) ∗ scopedSems0 (thr d L) ∗ owes (thr d L) O W) : sProp 𝕄)
      ⊢ wp frame (wpE (defs₀ (F := F)) 𝒱₀ (thr d L) none) Set.univ
          (cc2__sc_pass2 L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1)
          fun _ => iprop((((eW).view.loc (thr d L) ↦{q} e) ∗ ((tW).view.loc (thr d L) ↦{q} t) ∗ ((kW).view.loc (thr d L) ↦{q} k)
            ∗ ((mW).view.loc (thr d L) ↦{q} mt) ∗ ∃ o', ((oRow L).view.loc (thr d L) ↦[(oRow L).view.set]{fullShare} o'))
            ∗ scopedBufs (thr d L) ∗ scopedSems0 (thr d L)
            ∗ ∃ W', ⌜∀ p ∈ W', p ∈ W ∨ p.2 = none⌝ ∗ owes (thr d L) O W') := by
  rw [cc2__sc_pass2_eq_skeleton]; unfold cc2__sc_pass2_skel
  rw [(K (F := F)).scopedBufs_V hF d (cV L) (jV L), SparseCore.Cfg.scopedSems0_V (Val := Elt F) d (cV L) (jV L), ownSems0_V, ownBufs_V]
  iintro ⟨#Hlv, ⟨He, Ht, Hk, Hm, Ho⟩, ⟨⟨%fx, Hx⟩, ⟨%ft, Htb⟩, ⟨%fm, Hmb⟩, ⟨%fmt, Hmt⟩, ⟨%fa, Ha⟩, Hbufs⟩, ⟨Hs5, Hs6, Hc0, Hc1, Hsems⟩, HO⟩
  ihave Hmw := ((K (F := F)).mayWaits_none (thr := thr d L) hO) $$ Hlv
  -- the means table into its scratch; the accumulator zeroed
  sl_exec
  sl_for (invZ (F := F) d L) $$ [Ha]
  case region =>
    intro kk _
    unfold invZ
    iintro ⟨%f, Ha⟩
    sl_exec
    sl_step
    iexists _; iexact Ha
  · unfold invZ; iexists _; iexact Ha
  iintro %_ HI
  unfold invZ
  icases HI with ⟨%fa', Ha⟩
  -- each input's share halved, one half per semaphore; the staging buffers as their rows
  ihave He2 := (pointsTo_share (PosShare.mem_left_op_right q)).1 $$ He
  icases He2 with ⟨He0, He1⟩
  ihave Ht2 := (pointsTo_share (PosShare.mem_left_op_right q)).1 $$ Ht
  icases Ht2 with ⟨Ht0, Ht1⟩
  ihave Hk2 := (pointsTo_share (PosShare.mem_left_op_right q)).1 $$ Hk
  icases Hk2 with ⟨Hk0, Hk1⟩
  ihave Hx' := (Entails.of_eq (xB_rows d L fx)) $$ Hx
  icases Hx' with ⟨⟨Hx0_0, Hx0_1, Hx0_2, Hx0_3, Hx0_4, Hx0_5, Hx0_6, Hx0_7, Hx0_8, Hx0_9, Hx0_10, Hx0_11, Hx0_12, Hx0_13, Hx0_14, Hx0_15⟩, ⟨Hx1_0, Hx1_1, Hx1_2, Hx1_3, Hx1_4, Hx1_5, Hx1_6, Hx1_7, Hx1_8, Hx1_9, Hx1_10, Hx1_11, Hx1_12, Hx1_13, Hx1_14, Hx1_15⟩⟩
  ihave Ht' := (Entails.of_eq (tB_rows d L ft)) $$ Htb
  icases Ht' with ⟨HT0, HT1⟩
  ihave Hm' := (Entails.of_eq (mB_rows d L fm)) $$ Hmb
  icases Hm' with ⟨HM0, HM1⟩
  -- the first chunk's batch on the first semaphore, the second side set aside
  ihave He1 := (Entails.of_eq (Hid_eq _).symm) $$ He1
  ihave Ht1 := (Entails.of_eq (Hid_eq _).symm) $$ Ht1
  ihave Hk1 := (Entails.of_eq (Hid_eq _).symm) $$ Hk1
  ihave Hs6 := (Entails.of_eq (Hid_eq _).symm) $$ Hs6
  imod (Transfers.batch_alloc' (Lvl := ℕ) (countersEmb (U := UU)) (thr d L) (none : HIx 2) NC
    (Dv (F := F) d L 0 q.left e t k (oeP0 L) (heP0 L) (k2_off3 L) (k2_off3_inb L))
    (sm := .dma cc2_scratch5.sem) (E := Set.univ)) $$ [Hs5] with HB0
  · iexact Hs5
  sl_exec
  -- the second chunk's batch on the second semaphore, the first side set aside
  ihave He0 := (Entails.of_eq (Hid_eq _).symm) $$ He0
  ihave He1 := (Entails.of_eq (Hid_eq _)) $$ He1
  ihave Ht1 := (Entails.of_eq (Hid_eq _)) $$ Ht1
  ihave Hk1 := (Entails.of_eq (Hid_eq _)) $$ Hk1
  ihave Hs6 := (Entails.of_eq (Hid_eq _)) $$ Hs6
  imod (Transfers.batch_alloc' (Lvl := ℕ) (countersEmb (U := UU)) (thr d L) (none : HIx 2) NC
    (Dv (F := F) d L 1 q.right e t k (oeP1 L) (heP1 L) (k2_off5 L) (k2_off5_inb L))
    (sm := .dma cc2_scratch6.sem) (E := Set.univ)) $$ [Hs6] with HB1
  · iexact Hs6
  sl_exec
  ihave He1 := (Entails.of_eq (Hid_eq _).symm) $$ He1
  -- the outer loop
  sl_for (invO (F := F) d L q e t k O W) $$ [Hmw HB0 He0 Ht0 Hk0 HB1 He1 Ht1 Hk1 Hmt Ha HO]
  case region =>
    intro kk acc
    exact outer_trip d L q e t k htr O W _ _ _ _ kk acc _ _
  · unfold invO sideO
    isplitl [Hmw]; · iexact Hmw
    isplitl [HB0 He0 Ht0 Hk0]
    · iexists (oeP0 L), (heP0 L), (k2_off3 L), (k2_off3_inb L)
      isplitr; · ipureintro; exact ord2 L
      isplitl [HB0]; · iexact HB0
      isplitl [He0]; · iexact He0
      isplitl [Ht0]; · iexact Ht0
      iexact Hk0
    isplitl [HB1 He1 Ht1 Hk1]
    · iexists (oeP1 L), (heP1 L), (k2_off5 L), (k2_off5_inb L)
      isplitr; · ipureintro; exact ord4 L
      isplitl [HB1]; · iexact HB1
      isplitl [He1]; · iexact He1
      isplitl [Ht1]; · iexact Ht1
      iexact Hk1
    isplitl [Hmt]; · iexists _; iexact Hmt
    isplitl [Ha]; · iexists _; iexact Ha
    iexists _; isplitr
    rotate_left
    · iexact HO
    · ipureintro
      repeat (refine mem_ins rfl ?_)
      exact fun p hp => .inl hp
  iintro %_ HI
  unfold invO sideO
  icases HI with ⟨-, ⟨%oe0, %he0, %ot0, %ht0, %ho0, HB0, HeR0, HtR0, HkR0⟩, ⟨%oe1, %he1, %ot1, %ht1, %ho1, HB1, HeR1, HtR1, HkR1⟩, ⟨%fmt2, Hmt⟩, ⟨%fa2, Ha⟩, %W', %hW', HO⟩
  -- the last two chunks drained; the accumulator copied to the tile's row of the result
  sl_exec
  ihave HeR0 := (Entails.of_eq (Hid_eq _)) $$ HeR0
  ihave He0 := (restE_join d L q.left e oe0 he0 ho0) $$ [HeR0 HB0_src0 HB0_src1 HB0_src2 HB0_src3 HB0_src4 HB0_src5 HB0_src6 HB0_src7 HB0_src8 HB0_src9 HB0_src10 HB0_src11 HB0_src12 HB0_src13 HB0_src14 HB0_src15]
  · isplitl [HeR0]; · iexact HeR0
    isplitl [HB0_src0]; · iexact HB0_src0
    isplitl [HB0_src1]; · iexact HB0_src1
    isplitl [HB0_src2]; · iexact HB0_src2
    isplitl [HB0_src3]; · iexact HB0_src3
    isplitl [HB0_src4]; · iexact HB0_src4
    isplitl [HB0_src5]; · iexact HB0_src5
    isplitl [HB0_src6]; · iexact HB0_src6
    isplitl [HB0_src7]; · iexact HB0_src7
    isplitl [HB0_src8]; · iexact HB0_src8
    isplitl [HB0_src9]; · iexact HB0_src9
    isplitl [HB0_src10]; · iexact HB0_src10
    isplitl [HB0_src11]; · iexact HB0_src11
    isplitl [HB0_src12]; · iexact HB0_src12
    isplitl [HB0_src13]; · iexact HB0_src13
    isplitl [HB0_src14]; · iexact HB0_src14
    iexact HB0_src15
  ihave Ht0 := (Entails.of_eq (show (((tSl ot0 ht0).view.loc (thr d L) ↦{q.left} t : sProp 𝕄) = ((tW).view.loc (thr d L) ↦{q.left} t)) from rfl)) $$ HtR0
  ihave Hk0 := (Entails.of_eq (show (((kSl ot0 ht0).view.loc (thr d L) ↦{q.left} k : sProp 𝕄) = ((kW).view.loc (thr d L) ↦{q.left} k)) from rfl)) $$ HkR0
  ihave HeR1 := (Entails.of_eq (Hid_eq _)) $$ HeR1
  ihave He1 := (restE_join d L q.right e oe1 he1 ho1) $$ [HeR1 HB1_src0 HB1_src1 HB1_src2 HB1_src3 HB1_src4 HB1_src5 HB1_src6 HB1_src7 HB1_src8 HB1_src9 HB1_src10 HB1_src11 HB1_src12 HB1_src13 HB1_src14 HB1_src15]
  · isplitl [HeR1]; · iexact HeR1
    isplitl [HB1_src0]; · iexact HB1_src0
    isplitl [HB1_src1]; · iexact HB1_src1
    isplitl [HB1_src2]; · iexact HB1_src2
    isplitl [HB1_src3]; · iexact HB1_src3
    isplitl [HB1_src4]; · iexact HB1_src4
    isplitl [HB1_src5]; · iexact HB1_src5
    isplitl [HB1_src6]; · iexact HB1_src6
    isplitl [HB1_src7]; · iexact HB1_src7
    isplitl [HB1_src8]; · iexact HB1_src8
    isplitl [HB1_src9]; · iexact HB1_src9
    isplitl [HB1_src10]; · iexact HB1_src10
    isplitl [HB1_src11]; · iexact HB1_src11
    isplitl [HB1_src12]; · iexact HB1_src12
    isplitl [HB1_src13]; · iexact HB1_src13
    isplitl [HB1_src14]; · iexact HB1_src14
    iexact HB1_src15
  ihave Ht1 := (Entails.of_eq (show (((tSl ot1 ht1).view.loc (thr d L) ↦{q.right} t : sProp 𝕄) = ((tW).view.loc (thr d L) ↦{q.right} t)) from rfl)) $$ HtR1
  ihave Hk1 := (Entails.of_eq (show (((kSl ot1 ht1).view.loc (thr d L) ↦{q.right} k : sProp 𝕄) = ((kW).view.loc (thr d L) ↦{q.right} k)) from rfl)) $$ HkR1
  sl_step
  -- the inputs' shares whole again, the tile's row of the result at what the copy left
  isplitl [He0 He1 Ht0 Ht1 Hk0 Hk1 Hm Ho]
  · isplitl [He0 He1]
    · iapply ((pointsTo_share (PosShare.mem_left_op_right q)).2)
      isplitl [He0]; · iexact He0
      iexact He1
    isplitl [Ht0 Ht1]
    · iapply ((pointsTo_share (PosShare.mem_left_op_right q)).2)
      isplitl [Ht0]; · iexact Ht0
      iexact Ht1
    isplitl [Hk0 Hk1]
    · iapply ((pointsTo_share (PosShare.mem_left_op_right q)).2)
      isplitl [Hk0]; · iexact Hk0
      iexact Hk1
    isplitl [Hm]; · iexact Hm
    iexists _; iexact Ho
  -- the scratch buffers: the staging buffers from their rows
  isplitl [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB0_dst16 HB0_dst17 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15 HB1_dst16 HB1_dst17 Hmt Ha Hbufs]
  · isplitl [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15]
    · iapply (xB_join d L)
      isplitl [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15]
      · isplitl [HB0_dst0]; · iexists _; iexact HB0_dst0
        isplitl [HB0_dst1]; · iexists _; iexact HB0_dst1
        isplitl [HB0_dst2]; · iexists _; iexact HB0_dst2
        isplitl [HB0_dst3]; · iexists _; iexact HB0_dst3
        isplitl [HB0_dst4]; · iexists _; iexact HB0_dst4
        isplitl [HB0_dst5]; · iexists _; iexact HB0_dst5
        isplitl [HB0_dst6]; · iexists _; iexact HB0_dst6
        isplitl [HB0_dst7]; · iexists _; iexact HB0_dst7
        isplitl [HB0_dst8]; · iexists _; iexact HB0_dst8
        isplitl [HB0_dst9]; · iexists _; iexact HB0_dst9
        isplitl [HB0_dst10]; · iexists _; iexact HB0_dst10
        isplitl [HB0_dst11]; · iexists _; iexact HB0_dst11
        isplitl [HB0_dst12]; · iexists _; iexact HB0_dst12
        isplitl [HB0_dst13]; · iexists _; iexact HB0_dst13
        isplitl [HB0_dst14]; · iexists _; iexact HB0_dst14
        iexists _; iexact HB0_dst15
      · isplitl [HB1_dst0]; · iexists _; iexact HB1_dst0
        isplitl [HB1_dst1]; · iexists _; iexact HB1_dst1
        isplitl [HB1_dst2]; · iexists _; iexact HB1_dst2
        isplitl [HB1_dst3]; · iexists _; iexact HB1_dst3
        isplitl [HB1_dst4]; · iexists _; iexact HB1_dst4
        isplitl [HB1_dst5]; · iexists _; iexact HB1_dst5
        isplitl [HB1_dst6]; · iexists _; iexact HB1_dst6
        isplitl [HB1_dst7]; · iexists _; iexact HB1_dst7
        isplitl [HB1_dst8]; · iexists _; iexact HB1_dst8
        isplitl [HB1_dst9]; · iexists _; iexact HB1_dst9
        isplitl [HB1_dst10]; · iexists _; iexact HB1_dst10
        isplitl [HB1_dst11]; · iexists _; iexact HB1_dst11
        isplitl [HB1_dst12]; · iexists _; iexact HB1_dst12
        isplitl [HB1_dst13]; · iexists _; iexact HB1_dst13
        isplitl [HB1_dst14]; · iexists _; iexact HB1_dst14
        iexists _; iexact HB1_dst15
    isplitl [HB0_dst16 HB1_dst16]
    · iapply (tB_join d L)
      isplitl [HB0_dst16]; · iexists _; iexact HB0_dst16
      iexists _; iexact HB1_dst16
    isplitl [HB0_dst17 HB1_dst17]
    · iapply (mB_join d L)
      isplitl [HB0_dst17]; · iexists _; iexact HB0_dst17
      iexists _; iexact HB1_dst17
    isplitl [Hmt]; · iexists _; iexact Hmt
    isplitl [Ha]; · iexists _; iexact Ha
    iexact Hbufs
  -- the semaphores' counters at zero
  isplitl [HB0 HB1 Hc0 Hc1 Hsems]
  · isplitl [HB0]; · iexact HB0
    isplitl [HB1]; · iexact HB1
    isplitl [Hc0]; · iexact Hc0
    isplitl [Hc1]; · iexact Hc1
    iexact Hsems
  iexists _; isplitr
  rotate_left
  · iexact HO
  · ipureintro
    repeat (refine mem_ins rfl ?_)
    exact hW'

end Cert.Proof.KI.Pass2

end
-- ==== Proof.Pass2BA.lean ====
import proofs.«210783_g59777354826199_cont_9to1_m_168_18_alg».proof.Proof.SetupB

noncomputable section

namespace Cert.Proof.KB.Pass2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The kernel's memrefs, spelt as the body table passes them -/

abbrev eW : Memref sig .scVector .hbm S33554432 .f32 := Memref.whole main_v0_scv
abbrev tW : Memref sig .scVector .hbm S2097152 .i32 := Memref.whole main_v1_scv
abbrev kW : Memref sig .scVector .hbm S2097152 .i32 := Memref.whole main_v2_scv
abbrev mW : Memref sig .scVector .hbm S16384 .f32 := Memref.whole main_v5_scv
abbrev oW : Memref sig .scVector .hbm S32x1024 .f32 := Memref.whole main_v6_scv
abbrev xB : Memref sig .scVector .vmem S2x16x2048 .f32 := Memref.whole cc2_scratch0
abbrev tB : Memref sig .scVector .vmem S2x2048 .i32 := Memref.whole cc2_scratch1
abbrev mB : Memref sig .scVector .vmem S2x2048 .i32 := Memref.whole cc2_scratch2
abbrev mT : Memref sig .scVector .vmem S16384 .f32 := Memref.whole cc2_scratch3
abbrev aT : Memref sig .scVector .vmem S1024 .f32 := Memref.whole cc2_scratch4

variable (d : Dev nD) (L : grid2.Coords)

abbrev cV : Fin τ.nSC := (L 0).castLE hcore2
abbrev jV : Fin τ.nSub := (L 1).castLE hsub2
/-- The vector subcore the grid point runs on. -/
abbrev thr : Thread nD τ := V d (cV L) (jV L)

/-- The output row this tile writes, as the final copy slices it. -/
abbrev oRow : Memref sig .scVector .hbm S1024 .f32 :=
  ((oW).slice (Rect.unit (s := S32x1024) (k2_off76 L) S1x1024.size (k2_off76_inb L)) (fun _ => rfl)).squeeze S1024 squeezes_S1x1024_S1024

/-- The tile's own semaphores: the four this kernel uses, and the rest. -/
theorem ownSems0_V :
    (ownSems0 (thr d L) : sProp 𝕄)
      = iprop(semVal ((thr d L, SemLoc.dma cc2_scratch5.sem) : GSem nD τ sig) 0 ∗ semVal ((thr d L, SemLoc.dma cc2_scratch6.sem) : GSem nD τ sig) 0 ∗ semVal ((thr d L, SemLoc.dma cc2_scoped0.sem) : GSem nD τ sig) 0 ∗ semVal ((thr d L, SemLoc.dma cc2_scoped1.sem) : GSem nD τ sig) 0
          ∗ bigSep (((((ownCells (thr d L)).erase ((thr d L, SemLoc.dma cc2_scratch5.sem) : GSem nD τ sig)).erase ((thr d L, SemLoc.dma cc2_scratch6.sem) : GSem nD τ sig)).erase ((thr d L, SemLoc.dma cc2_scoped0.sem) : GSem nD τ sig)).erase ((thr d L, SemLoc.dma cc2_scoped1.sem) : GSem nD τ sig)) fun g => semVal g 0) := by
  unfold SparseCore.Cfg.ownSems0
  rw [SparseCore.bigSep_erase' ((mem_ownCells (g := ((thr d L, SemLoc.dma cc2_scratch5.sem) : GSem nD τ sig))).mpr ⟨rfl, by show (SemLoc.dma cc2_scratch5.sem : SemLoc sig).isScoped .scVector = true; decide⟩),
    SparseCore.bigSep_erase' (Finset.mem_erase.mpr ⟨(fun e => absurd (congrArg Prod.snd e) (show (SemLoc.dma cc2_scratch6.sem : SemLoc sig) ≠ SemLoc.dma cc2_scratch5.sem by decide)), (mem_ownCells (g := ((thr d L, SemLoc.dma cc2_scratch6.sem) : GSem nD τ sig))).mpr ⟨rfl, by show (SemLoc.dma cc2_scratch6.sem : SemLoc sig).isScoped .scVector = true; decide⟩⟩),
    SparseCore.bigSep_erase' (Finset.mem_erase.mpr ⟨(fun e => absurd (congrArg Prod.snd e) (show (SemLoc.dma cc2_scoped0.sem : SemLoc sig) ≠ SemLoc.dma cc2_scratch6.sem by decide)), Finset.mem_erase.mpr ⟨(fun e => absurd (congrArg Prod.snd e) (show (SemLoc.dma cc2_scoped0.sem : SemLoc sig) ≠ SemLoc.dma cc2_scratch5.sem by decide)), (mem_ownCells (g := ((thr d L, SemLoc.dma cc2_scoped0.sem) : GSem nD τ sig))).mpr ⟨rfl, by show (SemLoc.dma cc2_scoped0.sem : SemLoc sig).isScoped .scVector = true; decide⟩⟩⟩),
    SparseCore.bigSep_erase' (Finset.mem_erase.mpr ⟨(fun e => absurd (congrArg Prod.snd e) (show (SemLoc.dma cc2_scoped1.sem : SemLoc sig) ≠ SemLoc.dma cc2_scoped0.sem by decide)), Finset.mem_erase.mpr ⟨(fun e => absurd (congrArg Prod.snd e) (show (SemLoc.dma cc2_scoped1.sem : SemLoc sig) ≠ SemLoc.dma cc2_scratch6.sem by decide)), Finset.mem_erase.mpr ⟨(fun e => absurd (congrArg Prod.snd e) (show (SemLoc.dma cc2_scoped1.sem : SemLoc sig) ≠ SemLoc.dma cc2_scratch5.sem by decide)), (mem_ownCells (g := ((thr d L, SemLoc.dma cc2_scoped1.sem) : GSem nD τ sig))).mpr ⟨rfl, by show (SemLoc.dma cc2_scoped1.sem : SemLoc sig).isScoped .scVector = true; decide⟩⟩⟩⟩)]

/-- The tile's own buffers: the five scratch buffers of this kernel at some contents, and the rest. -/
theorem ownBufs_V₀ :
    (ownBufs (thr d L) : sProp 𝕄)
      = iprop((∃ f, ((thr d L).loc cc2_scratch0 ↦{fullShare} f)) ∗ (∃ f, ((thr d L).loc cc2_scratch1 ↦{fullShare} f)) ∗ (∃ f, ((thr d L).loc cc2_scratch2 ↦{fullShare} f)) ∗ (∃ f, ((thr d L).loc cc2_scratch3 ↦{fullShare} f)) ∗ (∃ f, ((thr d L).loc cc2_scratch4 ↦{fullShare} f))
          ∗ bigSep ((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc2_scratch0)) rfl)).trans ?_
  rw [SparseCore.bigSep_erase' (Finset.mem_erase.mpr ⟨(fun e => absurd (Proc.devRef_injective _ e) (show (cc2_scratch1 : Ref sig .scVector) ≠ cc2_scratch0 by decide)), SparseCore.Cfg.mem_ownRefs_of_owner (p := Proc.scVector (cV L) (jV L)) (b := ((Proc.scVector (cV L) (jV L)).devRef cc2_scratch1)) rfl⟩),
    SparseCore.bigSep_erase' (Finset.mem_erase.mpr ⟨(fun e => absurd (Proc.devRef_injective _ e) (show (cc2_scratch2 : Ref sig .scVector) ≠ cc2_scratch1 by decide)), Finset.mem_erase.mpr ⟨(fun e => absurd (Proc.devRef_injective _ e) (show (cc2_scratch2 : Ref sig .scVector) ≠ cc2_scratch0 by decide)), SparseCore.Cfg.mem_ownRefs_of_owner (p := Proc.scVector (cV L) (jV L)) (b := ((Proc.scVector (cV L) (jV L)).devRef cc2_scratch2)) rfl⟩⟩),
    SparseCore.bigSep_erase' (Finset.mem_erase.mpr ⟨(fun e => absurd (Proc.devRef_injective _ e) (show (cc2_scratch3 : Ref sig .scVector) ≠ cc2_scratch2 by decide)), Finset.mem_erase.mpr ⟨(fun e => absurd (Proc.devRef_injective _ e) (show (cc2_scratch3 : Ref sig .scVector) ≠ cc2_scratch1 by decide)), Finset.mem_erase.mpr ⟨(fun e => absurd (Proc.devRef_injective _ e) (show (cc2_scratch3 : Ref sig .scVector) ≠ cc2_scratch0 by decide)), SparseCore.Cfg.mem_ownRefs_of_owner (p := Proc.scVector (cV L) (jV L)) (b := ((Proc.scVector (cV L) (jV L)).devRef cc2_scratch3)) rfl⟩⟩⟩),
    SparseCore.bigSep_erase' (Finset.mem_erase.mpr ⟨(fun e => absurd (Proc.devRef_injective _ e) (show (cc2_scratch4 : Ref sig .scVector) ≠ cc2_scratch3 by decide)), Finset.mem_erase.mpr ⟨(fun e => absurd (Proc.devRef_injective _ e) (show (cc2_scratch4 : Ref sig .scVector) ≠ cc2_scratch2 by decide)), Finset.mem_erase.mpr ⟨(fun e => absurd (Proc.devRef_injective _ e) (show (cc2_scratch4 : Ref sig .scVector) ≠ cc2_scratch1 by decide)), Finset.mem_erase.mpr ⟨(fun e => absurd (Proc.devRef_injective _ e) (show (cc2_scratch4 : Ref sig .scVector) ≠ cc2_scratch0 by decide)), SparseCore.Cfg.mem_ownRefs_of_owner (p := Proc.scVector (cV L) (jV L)) (b := ((Proc.scVector (cV L) (jV L)).devRef cc2_scratch4)) rfl⟩⟩⟩⟩)]

/-- The same, each scratch buffer addressed through the memref the body table passes. -/
theorem ownBufs_V :
    (ownBufs (thr d L) : sProp 𝕄)
      = iprop((∃ f, ((xB).view.loc (thr d L) ↦{fullShare} f)) ∗ (∃ f, ((tB).view.loc (thr d L) ↦{fullShare} f)) ∗ (∃ f, ((mB).view.loc (thr d L) ↦{fullShare} f)) ∗ (∃ f, ((mT).view.loc (thr d L) ↦{fullShare} f)) ∗ (∃ f, ((aT).view.loc (thr d L) ↦{fullShare} f))
          ∗ bigSep ((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4))
              fun b => iprop(∃ f, ((d, b) : Loc nD τ sig) ↦{fullShare} f)) :=
  ownBufs_V₀ d L

end Cert.Proof.KB.Pass2

end
-- ==== Proof.Pass2BB.lean ====
import proofs.«210783_g59777354826199_cont_9to1_m_168_18_alg».proof.Proof.SetupB
import proofs.«210783_g59777354826199_cont_9to1_m_168_18_alg».proof.Proof.Pass2BA

noncomputable section

namespace Cert.Proof.KB.Pass2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (d : Dev nD) (L : grid2.Coords)

theorem inb_x (b : Fin 2) (c : Fin 16) : ∀ a, (![b.val, c.val, 0] : Fin 3 → ℕ) a + S1x1x2048.size a ≤ S2x16x2048.size a := by
  have := b.isLt; have := c.isLt; intro a; fin_cases a
  · show b.val + 1 ≤ 2; omega
  · show c.val + 1 ≤ 16; omega
  · show 0 + 2048 ≤ 2048; omega
theorem inb_t (b : Fin 2) : ∀ a, (![b.val, 0] : Fin 2 → ℕ) a + S1x2048.size a ≤ S2x2048.size a := by
  have := b.isLt; intro a; fin_cases a
  · show b.val + 1 ≤ 2; omega
  · show 0 + 2048 ≤ 2048; omega

/-- Row (b, c) of the staging buffer for the embedding, as the copies address it. -/
abbrev xWin (b : Fin 2) (c : Fin 16) : Memref sig .scVector .vmem S2048 .f32 :=
  ((xB).slice (Rect.unit (s := S2x16x2048) ![b.val, c.val, 0] S1x1x2048.size (inb_x b c)) (fun _ => rfl)).squeeze S2048 squeezes_S1x1x2048_S2048
/-- Row b of the staging buffer for the targets / for the mask. -/
abbrev tWin (b : Fin 2) : Memref sig .scVector .vmem S2048 .i32 :=
  ((tB).slice (Rect.unit (s := S2x2048) ![b.val, 0] S1x2048.size (inb_t b)) (fun _ => rfl)).squeeze S2048 squeezes_S1x2048_S2048
abbrev mWin (b : Fin 2) : Memref sig .scVector .vmem S2048 .i32 :=
  ((mB).slice (Rect.unit (s := S2x2048) ![b.val, 0] S1x2048.size (inb_t b)) (fun _ => rfl)).squeeze S2048 squeezes_S1x2048_S2048

/-- A 2048-word chunk of the embedding / of the targets / of the mask at an offset. -/
abbrev eSl (o : Fin 1 → ℕ) (h : ∀ a, o a + S2048.size a ≤ S33554432.size a) : Memref sig .scVector .hbm S2048 .f32 :=
  (eW).slice (Rect.unit (s := S33554432) o S2048.size h) (fun _ => rfl)
abbrev tSl (o : Fin 1 → ℕ) (h : ∀ a, o a + S2048.size a ≤ S2097152.size a) : Memref sig .scVector .hbm S2048 .i32 :=
  (tW).slice (Rect.unit (s := S2097152) o S2048.size h) (fun _ => rfl)
abbrev kSl (o : Fin 1 → ℕ) (h : ∀ a, o a + S2048.size a ≤ S2097152.size a) : Memref sig .scVector .hbm S2048 .i32 :=
  (kW).slice (Rect.unit (s := S2097152) o S2048.size h) (fun _ => rfl)

/-! ## The staging buffers as their rows -/

theorem xWin_set (b : Fin 2) (c : Fin 16) :
    (xWin b c).view.set = (Rect.unit (s := S2x16x2048) ![b.val, c.val, 0] S1x1x2048.size (inb_x b c)).set := by
  show (((View.whole (cc2_scratch0 : Ref sig .scVector)).slice _).reshape _ _).set = _
  rw [View.set_reshape, View.set_slice_whole]
theorem tWin_set (b : Fin 2) :
    (tWin b).view.set = (Rect.unit (s := S2x2048) ![b.val, 0] S1x2048.size (inb_t b)).set := by
  show (((View.whole (cc2_scratch1 : Ref sig .scVector)).slice _).reshape _ _).set = _
  rw [View.set_reshape, View.set_slice_whole]
theorem mWin_set (b : Fin 2) :
    (mWin b).view.set = (Rect.unit (s := S2x2048) ![b.val, 0] S1x2048.size (inb_t b)).set := by
  show (((View.whole (cc2_scratch2 : Ref sig .scVector)).slice _).reshape _ _).set = _
  rw [View.set_reshape, View.set_slice_whole]

/-- The rows' element sets, as sets of indices of the whole buffer. -/
abbrev xSet (p : Fin 2 × Fin 16) : Finset S2x16x2048.Idx := (xWin p.1 p.2).view.set
abbrev tSet (b : Fin 2) : Finset S2x2048.Idx := (tWin b).view.set
abbrev mSet (b : Fin 2) : Finset S2x2048.Idx := (mWin b).view.set

theorem xWin_disjoint : ∀ p ∈ (Finset.univ : Finset (Fin 2 × Fin 16)), ∀ p' ∈ (Finset.univ : Finset (Fin 2 × Fin 16)), p ≠ p' →
    Disjoint (xSet p) (xSet p') := by
  intro p _ p' _ h
  show Disjoint (xWin p.1 p.2).view.set (xWin p'.1 p'.2).view.set
  rw [xWin_set, xWin_set]
  by_cases hb : p.1 = p'.1
  · have hc : p.2 ≠ p'.2 := fun hc => h (Prod.ext hb hc)
    have hc' : p.2.val ≠ p'.2.val := fun e => hc (Fin.ext e)
    exact Rect.unit_disjoint (1 : Fin 3) (by show p.2.val + 1 ≤ p'.2.val ∨ p'.2.val + 1 ≤ p.2.val; omega)
  · have hb' : p.1.val ≠ p'.1.val := fun e => hb (Fin.ext e)
    exact Rect.unit_disjoint (0 : Fin 3) (by show p.1.val + 1 ≤ p'.1.val ∨ p'.1.val + 1 ≤ p.1.val; omega)

theorem xWin_cover : (Finset.univ : Finset (Fin 2 × Fin 16)).biUnion xSet = Finset.univ := by
  refine Finset.eq_univ_iff_forall.2 fun i => Finset.mem_biUnion.2 ⟨((⟨(i 0).val, (i 0).isLt⟩ : Fin 2), (⟨(i 1).val, (i 1).isLt⟩ : Fin 16)), Finset.mem_univ _, ?_⟩
  show i ∈ (xWin (⟨(i 0).val, (i 0).isLt⟩ : Fin 2) (⟨(i 1).val, (i 1).isLt⟩ : Fin 16)).view.set
  rw [xWin_set, Rect.mem_set_unit]
  intro a; fin_cases a
  · exact ⟨Nat.le_refl _, Nat.lt_succ_self _⟩
  · exact ⟨Nat.le_refl _, Nat.lt_succ_self _⟩
  · have h2 : (i 2).val < 2048 := (i 2).isLt
    exact ⟨Nat.zero_le _, by show (i 2).val < 0 + 2048; omega⟩

theorem tWin_disjoint : ∀ b ∈ (Finset.univ : Finset (Fin 2)), ∀ b' ∈ (Finset.univ : Finset (Fin 2)), b ≠ b' →
    Disjoint (tSet b) (tSet b') := by
  intro b _ b' _ h
  show Disjoint (tWin b).view.set (tWin b').view.set
  rw [tWin_set, tWin_set]
  have hb' : b.val ≠ b'.val := fun e => h (Fin.ext e)
  exact Rect.unit_disjoint (0 : Fin 2) (by show b.val + 1 ≤ b'.val ∨ b'.val + 1 ≤ b.val; omega)
theorem tWin_cover : (Finset.univ : Finset (Fin 2)).biUnion tSet = Finset.univ := by
  refine Finset.eq_univ_iff_forall.2 fun i => Finset.mem_biUnion.2 ⟨(⟨(i 0).val, (i 0).isLt⟩ : Fin 2), Finset.mem_univ _, ?_⟩
  show i ∈ (tWin (⟨(i 0).val, (i 0).isLt⟩ : Fin 2)).view.set
  rw [tWin_set, Rect.mem_set_unit]
  intro a; fin_cases a
  · exact ⟨Nat.le_refl _, Nat.lt_succ_self _⟩
  · have h2 : (i 1).val < 2048 := (i 1).isLt
    exact ⟨Nat.zero_le _, by show (i 1).val < 0 + 2048; omega⟩
theorem mWin_disjoint : ∀ b ∈ (Finset.univ : Finset (Fin 2)), ∀ b' ∈ (Finset.univ : Finset (Fin 2)), b ≠ b' →
    Disjoint (mSet b) (mSet b') := by
  intro b _ b' _ h
  show Disjoint (mWin b).view.set (mWin b').view.set
  rw [mWin_set, mWin_set]
  have hb' : b.val ≠ b'.val := fun e => h (Fin.ext e)
  exact Rect.unit_disjoint (0 : Fin 2) (by show b.val + 1 ≤ b'.val ∨ b'.val + 1 ≤ b.val; omega)
theorem mWin_cover : (Finset.univ : Finset (Fin 2)).biUnion mSet = Finset.univ := by
  refine Finset.eq_univ_iff_forall.2 fun i => Finset.mem_biUnion.2 ⟨(⟨(i 0).val, (i 0).isLt⟩ : Fin 2), Finset.mem_univ _, ?_⟩
  show i ∈ (mWin (⟨(i 0).val, (i 0).isLt⟩ : Fin 2)).view.set
  rw [mWin_set, Rect.mem_set_unit]
  intro a; fin_cases a
  · exact ⟨Nat.le_refl _, Nat.lt_succ_self _⟩
  · have h2 : (i 1).val < 2048 := (i 1).isLt
    exact ⟨Nat.zero_le _, by show (i 1).val < 0 + 2048; omega⟩

/-! ## A whole staging buffer is its rows; the rows at any contents join to the buffer at some contents -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (d : Dev nD) (L : grid2.Coords)

/-- Row (b, c) of the embedding's staging buffer held by its own elements. -/
abbrev xPts (b : Fin 2) (c : Fin 16) (f : Buf (Elt F) ((xB).view.loc (thr d L))) : sProp 𝕄 :=
  (xWin b c).view.loc (thr d L) ↦[(xWin b c).view.set]{fullShare} f
abbrev tPts (b : Fin 2) (f : Buf (Elt F) ((tB).view.loc (thr d L))) : sProp 𝕄 :=
  (tWin b).view.loc (thr d L) ↦[(tWin b).view.set]{fullShare} f
abbrev mPts (b : Fin 2) (f : Buf (Elt F) ((mB).view.loc (thr d L))) : sProp 𝕄 :=
  (mWin b).view.loc (thr d L) ↦[(mWin b).view.set]{fullShare} f

theorem xB_rows₀ (f : Buf (Elt F) ((xB).view.loc (thr d L))) :
    ((xB).view.loc (thr d L) ↦{fullShare} f : sProp 𝕄) = bigSep Finset.univ fun p : Fin 2 × Fin 16 => (xB).view.loc (thr d L) ↦[xSet p]{fullShare} f := by
  rw [← pointsTo_biUnion Finset.univ (ℓ := (xB).view.loc (thr d L)) xSet xWin_disjoint, xWin_cover]; try rfl
theorem xB_rows (f : Buf (Elt F) ((xB).view.loc (thr d L))) :
    ((xB).view.loc (thr d L) ↦{fullShare} f : sProp 𝕄)
      = iprop((xPts d L 0 0 f ∗ xPts d L 0 1 f ∗ xPts d L 0 2 f ∗ xPts d L 0 3 f ∗ xPts d L 0 4 f ∗ xPts d L 0 5 f ∗ xPts d L 0 6 f ∗ xPts d L 0 7 f ∗ xPts d L 0 8 f ∗ xPts d L 0 9 f ∗ xPts d L 0 10 f ∗ xPts d L 0 11 f ∗ xPts d L 0 12 f ∗ xPts d L 0 13 f ∗ xPts d L 0 14 f ∗ xPts d L 0 15 f) ∗ (xPts d L 1 0 f ∗ xPts d L 1 1 f ∗ xPts d L 1 2 f ∗ xPts d L 1 3 f ∗ xPts d L 1 4 f ∗ xPts d L 1 5 f ∗ xPts d L 1 6 f ∗ xPts d L 1 7 f ∗ xPts d L 1 8 f ∗ xPts d L 1 9 f ∗ xPts d L 1 10 f ∗ xPts d L 1 11 f ∗ xPts d L 1 12 f ∗ xPts d L 1 13 f ∗ xPts d L 1 14 f ∗ xPts d L 1 15 f)) := by
  rw [xB_rows₀, bigSep_univ_prod, bigSep_univ_two, bigSep_fin16, bigSep_fin16]

theorem tB_rows (f : Buf (Elt F) ((tB).view.loc (thr d L))) :
    ((tB).view.loc (thr d L) ↦{fullShare} f : sProp 𝕄) = iprop(tPts d L 0 f ∗ tPts d L 1 f) := by
  rw [← bigSep_univ_two (fun b : Fin 2 => (tB).view.loc (thr d L) ↦[tSet b]{fullShare} f),
    ← pointsTo_biUnion Finset.univ (ℓ := (tB).view.loc (thr d L)) tSet tWin_disjoint, tWin_cover]; try rfl
theorem mB_rows (f : Buf (Elt F) ((mB).view.loc (thr d L))) :
    ((mB).view.loc (thr d L) ↦{fullShare} f : sProp 𝕄) = iprop(mPts d L 0 f ∗ mPts d L 1 f) := by
  rw [← bigSep_univ_two (fun b : Fin 2 => (mB).view.loc (thr d L) ↦[mSet b]{fullShare} f),
    ← pointsTo_biUnion Finset.univ (ℓ := (mB).view.loc (thr d L)) mSet mWin_disjoint, mWin_cover]; try rfl

variable [∀ e, Nonempty (Elt F e)]

theorem xB_join₀ :
    (bigSep Finset.univ fun p : Fin 2 × Fin 16 => iprop(∃ f, (xB).view.loc (thr d L) ↦[xSet p]{fullShare} f))
      ⊢ (iprop(∃ f, (xB).view.loc (thr d L) ↦{fullShare} f) : sProp 𝕄) := by
  refine (bigSep_exists_pi Finset.univ (fun p (f : Buf (Elt F) ((xB).view.loc (thr d L))) => (xB).view.loc (thr d L) ↦[xSet p]{fullShare} f)).trans ?_
  iintro ⟨%fs, H⟩
  ihave H' := (pointsTo_biUnion_join Finset.univ xSet fs (fs (0, 0)) xWin_disjoint) $$ H
  icases H' with ⟨%g, -, Hg⟩
  rw [xWin_cover]
  iexists g; iexact Hg

/-- The thirty-two rows, each at some contents, are the embedding's staging buffer at some contents. -/
theorem xB_join :
    (iprop(((∃ f, xPts d L 0 0 f) ∗ (∃ f, xPts d L 0 1 f) ∗ (∃ f, xPts d L 0 2 f) ∗ (∃ f, xPts d L 0 3 f) ∗ (∃ f, xPts d L 0 4 f) ∗ (∃ f, xPts d L 0 5 f) ∗ (∃ f, xPts d L 0 6 f) ∗ (∃ f, xPts d L 0 7 f) ∗ (∃ f, xPts d L 0 8 f) ∗ (∃ f, xPts d L 0 9 f) ∗ (∃ f, xPts d L 0 10 f) ∗ (∃ f, xPts d L 0 11 f) ∗ (∃ f, xPts d L 0 12 f) ∗ (∃ f, xPts d L 0 13 f) ∗ (∃ f, xPts d L 0 14 f) ∗ (∃ f, xPts d L 0 15 f)) ∗ ((∃ f, xPts d L 1 0 f) ∗ (∃ f, xPts d L 1 1 f) ∗ (∃ f, xPts d L 1 2 f) ∗ (∃ f, xPts d L 1 3 f) ∗ (∃ f, xPts d L 1 4 f) ∗ (∃ f, xPts d L 1 5 f) ∗ (∃ f, xPts d L 1 6 f) ∗ (∃ f, xPts d L 1 7 f) ∗ (∃ f, xPts d L 1 8 f) ∗ (∃ f, xPts d L 1 9 f) ∗ (∃ f, xPts d L 1 10 f) ∗ (∃ f, xPts d L 1 11 f) ∗ (∃ f, xPts d L 1 12 f) ∗ (∃ f, xPts d L 1 13 f) ∗ (∃ f, xPts d L 1 14 f) ∗ (∃ f, xPts d L 1 15 f))) : sProp 𝕄)
      ⊢ iprop(∃ f, (xB).view.loc (thr d L) ↦{fullShare} f) := by
  refine Entails.trans (Entails.of_eq ?_) (xB_join₀ d L)
  rw [bigSep_univ_prod, bigSep_univ_two, bigSep_fin16, bigSep_fin16]

theorem tB_join :
    (iprop((∃ f, tPts d L 0 f) ∗ (∃ f, tPts d L 1 f)) : sProp 𝕄) ⊢ iprop(∃ f, (tB).view.loc (thr d L) ↦{fullShare} f) := by
  rw [← bigSep_univ_two (fun b : Fin 2 => iprop(∃ f, (tB).view.loc (thr d L) ↦[tSet b]{fullShare} f))]
  refine (bigSep_exists_pi Finset.univ (fun b (f : Buf (Elt F) ((tB).view.loc (thr d L))) => (tB).view.loc (thr d L) ↦[tSet b]{fullShare} f)).trans ?_
  iintro ⟨%fs, H⟩
  ihave H' := (pointsTo_biUnion_join Finset.univ tSet fs (fs 0) tWin_disjoint) $$ H
  icases H' with ⟨%g, -, Hg⟩
  rw [tWin_cover]
  iexists g; iexact Hg
theorem mB_join :
    (iprop((∃ f, mPts d L 0 f) ∗ (∃ f, mPts d L 1 f)) : sProp 𝕄) ⊢ iprop(∃ f, (mB).view.loc (thr d L) ↦{fullShare} f) := by
  rw [← bigSep_univ_two (fun b : Fin 2 => iprop(∃ f, (mB).view.loc (thr d L) ↦[mSet b]{fullShare} f))]
  refine (bigSep_exists_pi Finset.univ (fun b (f : Buf (Elt F) ((mB).view.loc (thr d L))) => (mB).view.loc (thr d L) ↦[mSet b]{fullShare} f)).trans ?_
  iintro ⟨%fs, H⟩
  ihave H' := (pointsTo_biUnion_join Finset.univ mSet fs (fs 0) mWin_disjoint) $$ H
  icases H' with ⟨%g, -, Hg⟩
  rw [mWin_cover]
  iexists g; iexact Hg

/-! ## A chunk's batch: eighteen copies into staging slot b -/

/-- What a row holds once a chunk has landed in it: the chunk's words, whatever was there before. -/
abbrev landed {ed : EltTy} (dst : Memref sig .scVector .vmem S2048 ed) {sp : Space} (src : Memref sig .scVector sp S2048 ed)
    (fs : Buf (Elt F) (src.view.loc (thr d L))) : Buf (Elt F) (dst.view.loc (thr d L)) :=
  dst.view.writes (Elt F) dst.view.junk [⟨Rect.whole S2048, ReadAs.same.apply (src.view.read (Elt F) fs)⟩]

/-- One copy's delivery: the destination row holding what the source chunk read, and the source chunk back. -/
abbrev deliv1 {ed : EltTy} (dst : Memref sig .scVector .vmem S2048 ed) {sp : Space} (src : Memref sig .scVector sp S2048 ed)
    (qs : PosShare TreeShare) (fs : Buf (Elt F) (src.view.loc (thr d L))) : sProp 𝕄 :=
  iprop((dst.view.loc (thr d L) ↦[dst.view.set]{fullShare} landed d L dst src fs)
    ∗ (src.view.loc (thr d L) ↦[src.view.set]{qs} fs))

/-- The eighteen deliveries of a chunk's batch into staging slot b: sixteen rows of the embedding at the offsets oe,
    the targets' and the mask's chunk at the offset ot. -/
def Dv (b : Fin 2) (qs : PosShare TreeShare)
    (e : Buf (Elt F) ((eW).view.loc (thr d L))) (t : Buf (Elt F) ((tW).view.loc (thr d L))) (k : Buf (Elt F) ((kW).view.loc (thr d L)))
    (oe : Fin 16 → Fin 1 → ℕ) (he : ∀ c a, oe c a + S2048.size a ≤ S33554432.size a)
    (ot : Fin 1 → ℕ) (ht : ∀ a, ot a + S2048.size a ≤ S2097152.size a) (j : Fin 18) : sProp 𝕄 :=
  if h : j.val < 16 then deliv1 (F := F) d L (xWin b ⟨j.val, h⟩) (eSl (oe ⟨j.val, h⟩) (he ⟨j.val, h⟩)) qs e
  else if j.val = 16 then deliv1 (F := F) d L (tWin b) (tSl ot ht) qs t
  else deliv1 (F := F) d L (mWin b) (kSl ot ht) qs k

instance Dv_storable (b : Fin 2) (qs : PosShare TreeShare)
    (e : Buf (Elt F) ((eW).view.loc (thr d L))) (t : Buf (Elt F) ((tW).view.loc (thr d L))) (k : Buf (Elt F) ((kW).view.loc (thr d L)))
    (oe : Fin 16 → Fin 1 → ℕ) (he : ∀ c a, oe c a + S2048.size a ≤ S33554432.size a)
    (ot : Fin 1 → ℕ) (ht : ∀ a, ot a + S2048.size a ≤ S2097152.size a) (j : Fin 18) :
    BI.Storable (upEmb : UEmb _ 𝕄) (Dv (F := F) d L b qs e t k oe he ot ht j) := by
  unfold Dv; split
  · infer_instance
  · split <;> infer_instance

/-- One copy's credit. -/
abbrev NC : ℕ := (xWin 0 0).view.amount (SemLoc.dma (sig := sig) cc2_scratch5.sem)

/-- The batch of a chunk into slot b on semaphore sm, all eighteen issued, none waited for. -/
abbrev batchOf (sm : DmaSems sig S_) (b : Fin 2) (qs : PosShare TreeShare)
    (e : Buf (Elt F) ((eW).view.loc (thr d L))) (t : Buf (Elt F) ((tW).view.loc (thr d L))) (k : Buf (Elt F) ((kW).view.loc (thr d L)))
    (oe : Fin 16 → Fin 1 → ℕ) (he : ∀ c a, oe c a + S2048.size a ≤ S33554432.size a)
    (ot : Fin 1 → ℕ) (ht : ∀ a, ot a + S2048.size a ≤ S2097152.size a) (n : ℕ) : sProp 𝕄 :=
  Transfers.Batch (countersEmb (U := UU)) (thr d L) (.dma sm.sem) (none : HIx 2) NC (Dv (F := F) d L b qs e t k oe he ot ht) n 0

/-- What is left of a share of the embedding while sixteen chunks of it are lent to a batch. -/
abbrev restE (qs : PosShare TreeShare) (e : Buf (Elt F) ((eW).view.loc (thr d L)))
    (oe : Fin 16 → Fin 1 → ℕ) (he : ∀ c a, oe c a + S2048.size a ≤ S33554432.size a) : sProp 𝕄 :=
  (eW).view.loc (thr d L) ↦[((((((((((((((((Finset.univ \ (eSl (oe 0) (he 0)).view.set) \ (eSl (oe 1) (he 1)).view.set) \ (eSl (oe 2) (he 2)).view.set) \ (eSl (oe 3) (he 3)).view.set) \ (eSl (oe 4) (he 4)).view.set) \ (eSl (oe 5) (he 5)).view.set) \ (eSl (oe 6) (he 6)).view.set) \ (eSl (oe 7) (he 7)).view.set) \ (eSl (oe 8) (he 8)).view.set) \ (eSl (oe 9) (he 9)).view.set) \ (eSl (oe 10) (he 10)).view.set) \ (eSl (oe 11) (he 11)).view.set) \ (eSl (oe 12) (he 12)).view.set) \ (eSl (oe 13) (he 13)).view.set) \ (eSl (oe 14) (he 14)).view.set) \ (eSl (oe 15) (he 15)).view.set)]{qs} e
abbrev restT (qs : PosShare TreeShare) (t : Buf (Elt F) ((tW).view.loc (thr d L)))
    (ot : Fin 1 → ℕ) (ht : ∀ a, ot a + S2048.size a ≤ S2097152.size a) : sProp 𝕄 :=
  (tW).view.loc (thr d L) ↦[Finset.univ \ (tSl ot ht).view.set]{qs} t
abbrev restK (qs : PosShare TreeShare) (k : Buf (Elt F) ((kW).view.loc (thr d L)))
    (ot : Fin 1 → ℕ) (ht : ∀ a, ot a + S2048.size a ≤ S2097152.size a) : sProp 𝕄 :=
  (kW).view.loc (thr d L) ↦[Finset.univ \ (kSl ot ht).view.set]{qs} k

end Cert.Proof.KB.Pass2

end
-- ==== Proof.Pass2BC.lean ====
import proofs.«210783_g59777354826199_cont_9to1_m_168_18_alg».proof.Proof.SetupB
import proofs.«210783_g59777354826199_cont_9to1_m_168_18_alg».proof.Proof.Pass2BA
import proofs.«210783_g59777354826199_cont_9to1_m_168_18_alg».proof.Proof.Pass2BB

noncomputable section

namespace Cert.Proof.KB.Pass2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## A box of a staging buffer lies in the row that holds it -/

theorem unit_subset {s : Shape} {off size off' size' : Fin s.rank → Nat} {inb : ∀ a, off a + size a ≤ s.size a} {inb' : ∀ a, off' a + size' a ≤ s.size a}
    (h : ∀ a, off' a ≤ off a ∧ off a + size a ≤ off' a + size' a) :
    (Rect.unit (s := s) off size inb).set ⊆ (Rect.unit (s := s) off' size' inb').set := by
  intro i hi
  rw [Rect.mem_set_unit] at hi ⊢
  intro a; have h1 := hi a; have h2 := h a; omega

theorem incl_x (b : Fin 2) (c : Fin 16) (off : Fin 3 → ℕ) (inb : ∀ a, off a + S1x1x16.size a ≤ S2x16x2048.size a)
    (h0 : off 0 = b.val) (h1 : off 1 = c.val) :
    (xB).view.setOn (Rect.unit (s := S2x16x2048) off S1x1x16.size inb).set ⊆ (xWin b c).view.set := by
  rw [xWin_set]
  show Finset.map (Function.Embedding.refl _) _ ⊆ _
  rw [Finset.map_refl]
  refine unit_subset fun a => ?_
  have h2 := inb 2
  fin_cases a
  · show b.val ≤ off 0 ∧ off 0 + 1 ≤ b.val + 1; omega
  · show c.val ≤ off 1 ∧ off 1 + 1 ≤ c.val + 1; omega
  · show 0 ≤ off 2 ∧ off 2 + 16 ≤ 0 + 2048; exact ⟨Nat.zero_le _, by have : off 2 + 16 ≤ 2048 := h2; omega⟩
theorem incl_t (b : Fin 2) (off : Fin 2 → ℕ) (inb : ∀ a, off a + S1x16.size a ≤ S2x2048.size a) (h0 : off 0 = b.val) :
    (tB).view.setOn (Rect.unit (s := S2x2048) off S1x16.size inb).set ⊆ (tWin b).view.set := by
  rw [tWin_set]
  show Finset.map (Function.Embedding.refl _) _ ⊆ _
  rw [Finset.map_refl]
  refine unit_subset fun a => ?_
  have h2 := inb 1
  fin_cases a
  · show b.val ≤ off 0 ∧ off 0 + 1 ≤ b.val + 1; omega
  · show 0 ≤ off 1 ∧ off 1 + 16 ≤ 0 + 2048; exact ⟨Nat.zero_le _, by have : off 1 + 16 ≤ 2048 := h2; omega⟩
theorem incl_m (b : Fin 2) (off : Fin 2 → ℕ) (inb : ∀ a, off a + S1x16.size a ≤ S2x2048.size a) (h0 : off 0 = b.val) :
    (mB).view.setOn (Rect.unit (s := S2x2048) off S1x16.size inb).set ⊆ (mWin b).view.set := by
  rw [mWin_set]
  show Finset.map (Function.Embedding.refl _) _ ⊆ _
  rw [Finset.map_refl]
  refine unit_subset fun a => ?_
  have h2 := inb 1
  fin_cases a
  · show b.val ≤ off 0 ∧ off 0 + 1 ≤ b.val + 1; omega
  · show 0 ≤ off 1 ∧ off 1 + 16 ≤ 0 + 2048; exact ⟨Nat.zero_le _, by have : off 1 + 16 ≤ 2048 := h2; omega⟩

/-! ## The indices the body assumes in range -/

/-- The lane numbers, as the body's iota gives them. -/
abbrev iotaV : IVec S16 32 := iota .scVector S16 32 [0] iota_S16_d0_w32_scVector

theorem iotaV_lt (x : S16.Idx) : (iotaV x).toNat < 16 := by
  have h : (x 0).val < 16 := (x 0).isLt
  show (BitVec.ofNat 32 (0 * 16 + (x 0).val)).toNat < 16
  rw [BitVec.toNat_ofNat]
  omega

/-- A segment number of at most 63, or zero where the mask is off, times sixteen, plus the lane: below 1024. -/
theorem seg_lt (lm lt : S1x16.Idx → BitVec 32) (hm hl : S1x16.ShapeCasts S16) (ht : ∀ y, (lt y).toNat ≤ 63) (x : S16.Idx) :
    ((addi (muli (select (cmpi .sgt (shapeCast S16 lm hm) (broadcast S16 0#32)) (shapeCast S16 lt hl) (broadcast S16 0#32))
      (broadcast S16 16#32)) iotaV) x).toNat < 1024 := by
  have hx := iotaV_lt x
  have hy := ht (Shape.reshapeEquiv hl x)
  show (IntOp.addi (IntOp.muli (Scalar.select _ (lt (Shape.reshapeEquiv hl x)) 0#32) 16#32) (iotaV x)).toNat < 1024
  unfold Scalar.select IntOp.addi IntOp.muli
  split
  · rw [BitVec.toNat_add, BitVec.toNat_mul]
    show ((lt (Shape.reshapeEquiv hl x)).toNat * 16 % 2 ^ 32 + (iotaV x).toNat) % 2 ^ 32 < 1024
    omega
  · rw [BitVec.toNat_add, BitVec.toNat_mul]
    show (0 * 16 % 2 ^ 32 + (iotaV x).toNat) % 2 ^ 32 < 1024
    omega

/-- An index vector below 1024 addresses the accumulator scratch. -/
theorem sidx_ok (v : IVec S16 32) (hv : ∀ x, (v x).toNat < 1024) :
    ∀ (a : Fin (Nat.succ 0)) (x : S16.Idx), ((![v] : Fin 1 → IVec S16 32) a x).toNat < S1024.size a := by
  intro a x; fin_cases a; exact hv x

/-- An index vector below 1024, moved up by a row offset of the means table, addresses the means scratch. -/
theorem gidx_ok (v : IVec S16 32) (hv : ∀ x, (v x).toNat < 1024) (c : BitVec 32) (hc : c.toNat + 1024 ≤ 16384) :
    ∀ (a : Fin (Nat.succ 0)) (x : S16.Idx), ((![addi v (broadcast S16 c)] : Fin 1 → IVec S16 32) a x).toNat < S16384.size a := by
  intro a x; fin_cases a
  have h := hv x
  show (IntOp.addi (v x) c).toNat < 16384
  unfold IntOp.addi
  rw [BitVec.toNat_add]
  omega

/-! ## What a landed row of the targets holds -/

variable (d : Dev nD) (L : grid2.Coords)

/-- Contents that agree with g on row b of the targets' staging buffer and are zero elsewhere. -/
def clampT (b : Fin 2) (g : Buf (Elt F) ((tB).view.loc (thr d L))) : Buf (Elt F) ((tB).view.loc (thr d L)) :=
  (tSet b).piecewise g (fun _ => (0#32 : BitVec 32))

theorem clampT_pts (b : Fin 2) (g : Buf (Elt F) ((tB).view.loc (thr d L))) :
    (tPts d L b g : sProp 𝕄) = tPts d L b (clampT d L b g) :=
  pointsTo_congr fun i hi => (Finset.piecewise_eq_of_mem _ _ _ hi).symm

theorem clampT_le (b : Fin 2) (g : Buf (Elt F) ((tB).view.loc (thr d L))) (hg : ∀ j ∈ tSet b, (g j : BitVec 32).toNat ≤ 63) :
    ∀ j, (clampT d L b g j : BitVec 32).toNat ≤ 63 := by
  intro j
  unfold clampT
  by_cases h : j ∈ tSet b
  · rw [Finset.piecewise_eq_of_mem _ _ _ h]; exact hg j h
  · rw [Finset.piecewise_eq_of_notMem _ _ _ h]; decide

variable [∀ e, Nonempty (Elt F e)]

set_option maxHeartbeats 2000000 in
theorem landed_le (b : Fin 2) (t : Buf (Elt F) ((tW).view.loc (thr d L))) (htr : ∀ j, (t j : BitVec 32).toNat ≤ 63)
    (ot : Fin 1 → ℕ) (ht : ∀ a, ot a + S2048.size a ≤ S2097152.size a) :
    ∀ j ∈ tSet b, (landed d L (tWin b) (tSl ot ht) t j : BitVec 32).toNat ≤ 63 := by
  intro j hj
  obtain ⟨y, -, rfl⟩ := Finset.mem_map.1 hj
  have h := View.read_writes_cons_emb (v := (tWin b).view) (Val := Elt F) (f := (tWin b).view.junk) (Rect.whole S2048)
    (ReadAs.same.apply ((tSl ot ht).view.read (Elt F) t)) [] y
  rw [Rect.emb_whole_apply] at h
  have h1 : (landed d L (tWin b) (tSl ot ht) t ((tWin b).view.emb y) : BitVec 32)
      = (tWin b).view.read (Elt F) (landed d L (tWin b) (tSl ot ht) t) y := (cast_eq _ _).symm
  have h2 : ((tSl ot ht).view.read (Elt F) t y : BitVec 32) = (t ((tSl ot ht).view.emb y) : BitVec 32) := cast_eq _ _
  rw [h1, h, ReadAs.apply_same, h2]
  exact htr _

variable [FloatOps F]

/-- An accumulation loop's invariant over slot b: the slot's rows and the means scratch as they are, the accumulator at
    some contents. -/
def invA (b : Fin 2) (gx : Fin 16 → Buf (Elt F) ((xB).view.loc (thr d L))) (gt : Buf (Elt F) ((tB).view.loc (thr d L)))
    (gm : Buf (Elt F) ((mB).view.loc (thr d L))) (fmt : Buf (Elt F) ((mT).view.loc (thr d L))) (_ : Nat) (_ : BitVec 32) : sProp 𝕄 :=
  iprop((xPts d L b 0 (gx 0) ∗ xPts d L b 1 (gx 1) ∗ xPts d L b 2 (gx 2) ∗ xPts d L b 3 (gx 3) ∗ xPts d L b 4 (gx 4) ∗ xPts d L b 5 (gx 5) ∗ xPts d L b 6 (gx 6) ∗ xPts d L b 7 (gx 7) ∗ xPts d L b 8 (gx 8) ∗ xPts d L b 9 (gx 9) ∗ xPts d L b 10 (gx 10) ∗ xPts d L b 11 (gx 11) ∗ xPts d L b 12 (gx 12) ∗ xPts d L b 13 (gx 13) ∗ xPts d L b 14 (gx 14) ∗ xPts d L b 15 (gx 15)) ∗ tPts d L b gt ∗ mPts d L b gm
    ∗ ((mT).view.loc (thr d L) ↦{fullShare} fmt) ∗ ∃ fa', ((aT).view.loc (thr d L) ↦{fullShare} fa'))

/-- One trip of the accumulation loop over staging slot 0: the rows and the means scratch are read, the accumulator
    is rewritten; every index the trip assumes in range is, the targets' row holding segment numbers of at most 63. -/
theorem trip3 (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63)
    (v2 : BitVec 32) (k2_t2 : Fin k2_t2_loop.trips) (v475 c470 c471 c472 : BitVec 32) (kk : Fin k2_t3_loop.trips) (acc : BitVec 32) (n m : Nat) :
    (invA (F := F) d L 0 gx gt gm fmt n acc)
      ⊢ wp frame (wpE (defs₀ (F := F)) 𝒱₀ (thr d L) none) Set.univ
          (k2_t3_body L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1 v2 iotaV k2_t2 v475 c470 c471 c472 kk acc)
          (invA (F := F) d L 0 gx gt gm fmt m) := by
  unfold invA
  iintro ⟨⟨Hx0, Hx1, Hx2, Hx3, Hx4, Hx5, Hx6, Hx7, Hx8, Hx9, Hx10, Hx11, Hx12, Hx13, Hx14, Hx15⟩, Ht0, Hm0, Hmt, ⟨%fa, Ha⟩⟩
  have hm6 := incl_m 0 (k2_off6 kk) (k2_off6_inb kk) (by rw [k2_off6_eq]; rfl)
  have ht6 := incl_t 0 (k2_off6 kk) (k2_off6_inb kk) (by rw [k2_off6_eq]; rfl)
  have hm23 := incl_m 0 (k2_off23 kk) (k2_off23_inb kk) (by rw [k2_off23_eq]; rfl)
  have ht23 := incl_t 0 (k2_off23 kk) (k2_off23_inb kk) (by rw [k2_off23_eq]; rfl)
  have hx7 := incl_x 0 0 (k2_off7 kk) (k2_off7_inb kk) (by rw [k2_off7_eq]; rfl) (by rw [k2_off7_eq]; rfl)
  have hx24 := incl_x 0 0 (k2_off24 kk) (k2_off24_inb kk) (by rw [k2_off24_eq]; rfl) (by rw [k2_off24_eq]; rfl)
  have hx8 := incl_x 0 1 (k2_off8 kk) (k2_off8_inb kk) (by rw [k2_off8_eq]; rfl) (by rw [k2_off8_eq]; rfl)
  have hx25 := incl_x 0 1 (k2_off25 kk) (k2_off25_inb kk) (by rw [k2_off25_eq]; rfl) (by rw [k2_off25_eq]; rfl)
  have hx9 := incl_x 0 2 (k2_off9 kk) (k2_off9_inb kk) (by rw [k2_off9_eq]; rfl) (by rw [k2_off9_eq]; rfl)
  have hx26 := incl_x 0 2 (k2_off26 kk) (k2_off26_inb kk) (by rw [k2_off26_eq]; rfl) (by rw [k2_off26_eq]; rfl)
  have hx10 := incl_x 0 3 (k2_off10 kk) (k2_off10_inb kk) (by rw [k2_off10_eq]; rfl) (by rw [k2_off10_eq]; rfl)
  have hx27 := incl_x 0 3 (k2_off27 kk) (k2_off27_inb kk) (by rw [k2_off27_eq]; rfl) (by rw [k2_off27_eq]; rfl)
  have hx11 := incl_x 0 4 (k2_off11 kk) (k2_off11_inb kk) (by rw [k2_off11_eq]; rfl) (by rw [k2_off11_eq]; rfl)
  have hx28 := incl_x 0 4 (k2_off28 kk) (k2_off28_inb kk) (by rw [k2_off28_eq]; rfl) (by rw [k2_off28_eq]; rfl)
  have hx12 := incl_x 0 5 (k2_off12 kk) (k2_off12_inb kk) (by rw [k2_off12_eq]; rfl) (by rw [k2_off12_eq]; rfl)
  have hx29 := incl_x 0 5 (k2_off29 kk) (k2_off29_inb kk) (by rw [k2_off29_eq]; rfl) (by rw [k2_off29_eq]; rfl)
  have hx13 := incl_x 0 6 (k2_off13 kk) (k2_off13_inb kk) (by rw [k2_off13_eq]; rfl) (by rw [k2_off13_eq]; rfl)
  have hx30 := incl_x 0 6 (k2_off30 kk) (k2_off30_inb kk) (by rw [k2_off30_eq]; rfl) (by rw [k2_off30_eq]; rfl)
  have hx14 := incl_x 0 7 (k2_off14 kk) (k2_off14_inb kk) (by rw [k2_off14_eq]; rfl) (by rw [k2_off14_eq]; rfl)
  have hx31 := incl_x 0 7 (k2_off31 kk) (k2_off31_inb kk) (by rw [k2_off31_eq]; rfl) (by rw [k2_off31_eq]; rfl)
  have hx15 := incl_x 0 8 (k2_off15 kk) (k2_off15_inb kk) (by rw [k2_off15_eq]; rfl) (by rw [k2_off15_eq]; rfl)
  have hx32 := incl_x 0 8 (k2_off32 kk) (k2_off32_inb kk) (by rw [k2_off32_eq]; rfl) (by rw [k2_off32_eq]; rfl)
  have hx16 := incl_x 0 9 (k2_off16 kk) (k2_off16_inb kk) (by rw [k2_off16_eq]; rfl) (by rw [k2_off16_eq]; rfl)
  have hx33 := incl_x 0 9 (k2_off33 kk) (k2_off33_inb kk) (by rw [k2_off33_eq]; rfl) (by rw [k2_off33_eq]; rfl)
  have hx17 := incl_x 0 10 (k2_off17 kk) (k2_off17_inb kk) (by rw [k2_off17_eq]; rfl) (by rw [k2_off17_eq]; rfl)
  have hx34 := incl_x 0 10 (k2_off34 kk) (k2_off34_inb kk) (by rw [k2_off34_eq]; rfl) (by rw [k2_off34_eq]; rfl)
  have hx18 := incl_x 0 11 (k2_off18 kk) (k2_off18_inb kk) (by rw [k2_off18_eq]; rfl) (by rw [k2_off18_eq]; rfl)
  have hx35 := incl_x 0 11 (k2_off35 kk) (k2_off35_inb kk) (by rw [k2_off35_eq]; rfl) (by rw [k2_off35_eq]; rfl)
  have hx19 := incl_x 0 12 (k2_off19 kk) (k2_off19_inb kk) (by rw [k2_off19_eq]; rfl) (by rw [k2_off19_eq]; rfl)
  have hx36 := incl_x 0 12 (k2_off36 kk) (k2_off36_inb kk) (by rw [k2_off36_eq]; rfl) (by rw [k2_off36_eq]; rfl)
  have hx20 := incl_x 0 13 (k2_off20 kk) (k2_off20_inb kk) (by rw [k2_off20_eq]; rfl) (by rw [k2_off20_eq]; rfl)
  have hx37 := incl_x 0 13 (k2_off37 kk) (k2_off37_inb kk) (by rw [k2_off37_eq]; rfl) (by rw [k2_off37_eq]; rfl)
  have hx21 := incl_x 0 14 (k2_off21 kk) (k2_off21_inb kk) (by rw [k2_off21_eq]; rfl) (by rw [k2_off21_eq]; rfl)
  have hx38 := incl_x 0 14 (k2_off38 kk) (k2_off38_inb kk) (by rw [k2_off38_eq]; rfl) (by rw [k2_off38_eq]; rfl)
  have hx22 := incl_x 0 15 (k2_off22 kk) (k2_off22_inb kk) (by rw [k2_off22_eq]; rfl) (by rw [k2_off22_eq]; rfl)
  have hx39 := incl_x 0 15 (k2_off39 kk) (k2_off39_inb kk) (by rw [k2_off39_eq]; rfl) (by rw [k2_off39_eq]; rfl)
  sl_unfold [k2_t3_body, k2_part9, k2_part8, k2_part7, k2_part6, k2_part5, k2_part4, k2_part3, k2_part2, k2_part1, SparseCore.vectorLoadIdx, SparseCore.vectorStoreIdx]
  sl_exec (disch := first
    | (show k2_chk17 _; refine sidx_ok _ ?_; intro x; refine seg_lt _ _ _ _ ?_ x; intro y; exact hgt _)
    | (show k2_chk34 _; refine sidx_ok _ ?_; intro x; refine seg_lt _ _ _ _ ?_ x; intro y; exact hgt _)
    | (refine gidx_ok _ ?_ _ ?_
       · intro x; refine seg_lt _ _ _ _ ?_ x; intro y; exact hgt _
       · decide))
  sl_step
  isplitl [Hx0 Hx1 Hx2 Hx3 Hx4 Hx5 Hx6 Hx7 Hx8 Hx9 Hx10 Hx11 Hx12 Hx13 Hx14 Hx15]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    iexact Hx15
  isplitl [Ht0]; · iexact Ht0
  isplitl [Hm0]; · iexact Hm0
  isplitl [Hmt]; · iexact Hmt
  iexists _; iexact Ha

/-- One trip of the accumulation loop over staging slot 1: the rows and the means scratch are read, the accumulator
    is rewritten; every index the trip assumes in range is, the targets' row holding segment numbers of at most 63. -/
theorem trip4 (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63)
    (v2 : BitVec 32) (k2_t2 : Fin k2_t2_loop.trips) (v475 c470 c471 c472 : BitVec 32) (kk : Fin k2_t4_loop.trips) (acc : BitVec 32) (n m : Nat) :
    (invA (F := F) d L 1 gx gt gm fmt n acc)
      ⊢ wp frame (wpE (defs₀ (F := F)) 𝒱₀ (thr d L) none) Set.univ
          (k2_t4_body L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1 v2 iotaV k2_t2 v475 c470 c471 c472 kk acc)
          (invA (F := F) d L 1 gx gt gm fmt m) := by
  unfold invA
  iintro ⟨⟨Hx0, Hx1, Hx2, Hx3, Hx4, Hx5, Hx6, Hx7, Hx8, Hx9, Hx10, Hx11, Hx12, Hx13, Hx14, Hx15⟩, Ht0, Hm0, Hmt, ⟨%fa, Ha⟩⟩
  have hm42 := incl_m 1 (k2_off42 kk) (k2_off42_inb kk) (by rw [k2_off42_eq]; rfl)
  have ht42 := incl_t 1 (k2_off42 kk) (k2_off42_inb kk) (by rw [k2_off42_eq]; rfl)
  have hm59 := incl_m 1 (k2_off59 kk) (k2_off59_inb kk) (by rw [k2_off59_eq]; rfl)
  have ht59 := incl_t 1 (k2_off59 kk) (k2_off59_inb kk) (by rw [k2_off59_eq]; rfl)
  have hx43 := incl_x 1 0 (k2_off43 kk) (k2_off43_inb kk) (by rw [k2_off43_eq]; rfl) (by rw [k2_off43_eq]; rfl)
  have hx60 := incl_x 1 0 (k2_off60 kk) (k2_off60_inb kk) (by rw [k2_off60_eq]; rfl) (by rw [k2_off60_eq]; rfl)
  have hx44 := incl_x 1 1 (k2_off44 kk) (k2_off44_inb kk) (by rw [k2_off44_eq]; rfl) (by rw [k2_off44_eq]; rfl)
  have hx61 := incl_x 1 1 (k2_off61 kk) (k2_off61_inb kk) (by rw [k2_off61_eq]; rfl) (by rw [k2_off61_eq]; rfl)
  have hx45 := incl_x 1 2 (k2_off45 kk) (k2_off45_inb kk) (by rw [k2_off45_eq]; rfl) (by rw [k2_off45_eq]; rfl)
  have hx62 := incl_x 1 2 (k2_off62 kk) (k2_off62_inb kk) (by rw [k2_off62_eq]; rfl) (by rw [k2_off62_eq]; rfl)
  have hx46 := incl_x 1 3 (k2_off46 kk) (k2_off46_inb kk) (by rw [k2_off46_eq]; rfl) (by rw [k2_off46_eq]; rfl)
  have hx63 := incl_x 1 3 (k2_off63 kk) (k2_off63_inb kk) (by rw [k2_off63_eq]; rfl) (by rw [k2_off63_eq]; rfl)
  have hx47 := incl_x 1 4 (k2_off47 kk) (k2_off47_inb kk) (by rw [k2_off47_eq]; rfl) (by rw [k2_off47_eq]; rfl)
  have hx64 := incl_x 1 4 (k2_off64 kk) (k2_off64_inb kk) (by rw [k2_off64_eq]; rfl) (by rw [k2_off64_eq]; rfl)
  have hx48 := incl_x 1 5 (k2_off48 kk) (k2_off48_inb kk) (by rw [k2_off48_eq]; rfl) (by rw [k2_off48_eq]; rfl)
  have hx65 := incl_x 1 5 (k2_off65 kk) (k2_off65_inb kk) (by rw [k2_off65_eq]; rfl) (by rw [k2_off65_eq]; rfl)
  have hx49 := incl_x 1 6 (k2_off49 kk) (k2_off49_inb kk) (by rw [k2_off49_eq]; rfl) (by rw [k2_off49_eq]; rfl)
  have hx66 := incl_x 1 6 (k2_off66 kk) (k2_off66_inb kk) (by rw [k2_off66_eq]; rfl) (by rw [k2_off66_eq]; rfl)
  have hx50 := incl_x 1 7 (k2_off50 kk) (k2_off50_inb kk) (by rw [k2_off50_eq]; rfl) (by rw [k2_off50_eq]; rfl)
  have hx67 := incl_x 1 7 (k2_off67 kk) (k2_off67_inb kk) (by rw [k2_off67_eq]; rfl) (by rw [k2_off67_eq]; rfl)
  have hx51 := incl_x 1 8 (k2_off51 kk) (k2_off51_inb kk) (by rw [k2_off51_eq]; rfl) (by rw [k2_off51_eq]; rfl)
  have hx68 := incl_x 1 8 (k2_off68 kk) (k2_off68_inb kk) (by rw [k2_off68_eq]; rfl) (by rw [k2_off68_eq]; rfl)
  have hx52 := incl_x 1 9 (k2_off52 kk) (k2_off52_inb kk) (by rw [k2_off52_eq]; rfl) (by rw [k2_off52_eq]; rfl)
  have hx69 := incl_x 1 9 (k2_off69 kk) (k2_off69_inb kk) (by rw [k2_off69_eq]; rfl) (by rw [k2_off69_eq]; rfl)
  have hx53 := incl_x 1 10 (k2_off53 kk) (k2_off53_inb kk) (by rw [k2_off53_eq]; rfl) (by rw [k2_off53_eq]; rfl)
  have hx70 := incl_x 1 10 (k2_off70 kk) (k2_off70_inb kk) (by rw [k2_off70_eq]; rfl) (by rw [k2_off70_eq]; rfl)
  have hx54 := incl_x 1 11 (k2_off54 kk) (k2_off54_inb kk) (by rw [k2_off54_eq]; rfl) (by rw [k2_off54_eq]; rfl)
  have hx71 := incl_x 1 11 (k2_off71 kk) (k2_off71_inb kk) (by rw [k2_off71_eq]; rfl) (by rw [k2_off71_eq]; rfl)
  have hx55 := incl_x 1 12 (k2_off55 kk) (k2_off55_inb kk) (by rw [k2_off55_eq]; rfl) (by rw [k2_off55_eq]; rfl)
  have hx72 := incl_x 1 12 (k2_off72 kk) (k2_off72_inb kk) (by rw [k2_off72_eq]; rfl) (by rw [k2_off72_eq]; rfl)
  have hx56 := incl_x 1 13 (k2_off56 kk) (k2_off56_inb kk) (by rw [k2_off56_eq]; rfl) (by rw [k2_off56_eq]; rfl)
  have hx73 := incl_x 1 13 (k2_off73 kk) (k2_off73_inb kk) (by rw [k2_off73_eq]; rfl) (by rw [k2_off73_eq]; rfl)
  have hx57 := incl_x 1 14 (k2_off57 kk) (k2_off57_inb kk) (by rw [k2_off57_eq]; rfl) (by rw [k2_off57_eq]; rfl)
  have hx74 := incl_x 1 14 (k2_off74 kk) (k2_off74_inb kk) (by rw [k2_off74_eq]; rfl) (by rw [k2_off74_eq]; rfl)
  have hx58 := incl_x 1 15 (k2_off58 kk) (k2_off58_inb kk) (by rw [k2_off58_eq]; rfl) (by rw [k2_off58_eq]; rfl)
  have hx75 := incl_x 1 15 (k2_off75 kk) (k2_off75_inb kk) (by rw [k2_off75_eq]; rfl) (by rw [k2_off75_eq]; rfl)
  sl_unfold [k2_t4_body, k2_part18, k2_part17, k2_part16, k2_part15, k2_part14, k2_part13, k2_part12, k2_part11, k2_part10, SparseCore.vectorLoadIdx, SparseCore.vectorStoreIdx]
  sl_exec (disch := first
    | (show k2_chk51 _; refine sidx_ok _ ?_; intro x; refine seg_lt _ _ _ _ ?_ x; intro y; exact hgt _)
    | (show k2_chk68 _; refine sidx_ok _ ?_; intro x; refine seg_lt _ _ _ _ ?_ x; intro y; exact hgt _)
    | (refine gidx_ok _ ?_ _ ?_
       · intro x; refine seg_lt _ _ _ _ ?_ x; intro y; exact hgt _
       · decide))
  sl_step
  isplitl [Hx0 Hx1 Hx2 Hx3 Hx4 Hx5 Hx6 Hx7 Hx8 Hx9 Hx10 Hx11 Hx12 Hx13 Hx14 Hx15]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    iexact Hx15
  isplitl [Ht0]; · iexact Ht0
  isplitl [Hm0]; · iexact Hm0
  isplitl [Hmt]; · iexact Hmt
  iexists _; iexact Ha

end Cert.Proof.KB.Pass2

end
-- ==== Proof.Pass2BT.lean ====
import proofs.«210783_g59777354826199_cont_9to1_m_168_18_alg».proof.Proof.SetupB
import proofs.«210783_g59777354826199_cont_9to1_m_168_18_alg».proof.Proof.Pass2BA
import proofs.«210783_g59777354826199_cont_9to1_m_168_18_alg».proof.Proof.Pass2BB
import proofs.«210783_g59777354826199_cont_9to1_m_168_18_alg».proof.Proof.Pass2BC

noncomputable section

namespace Cert.Proof.KB.Pass2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## A share back from its rest and the sixteen pieces lent out of it -/

theorem join16 {ℓ : Loc nD τ sig} (q : PosShare TreeShare) (f : Buf (Elt F) ℓ) (s : Fin 16 → Finset (Idx ℓ))
    (hd : ∀ c c' : Fin 16, c ≠ c' → Disjoint (s c) (s c')) :
    (iprop((ℓ ↦[((((((((((((((((Finset.univ \ s 0) \ s 1) \ s 2) \ s 3) \ s 4) \ s 5) \ s 6) \ s 7) \ s 8) \ s 9) \ s 10) \ s 11) \ s 12) \ s 13) \ s 14) \ s 15)]{q} f) ∗ (ℓ ↦[s 0]{q} f) ∗ (ℓ ↦[s 1]{q} f) ∗ (ℓ ↦[s 2]{q} f) ∗ (ℓ ↦[s 3]{q} f) ∗ (ℓ ↦[s 4]{q} f) ∗ (ℓ ↦[s 5]{q} f) ∗ (ℓ ↦[s 6]{q} f) ∗ (ℓ ↦[s 7]{q} f) ∗ (ℓ ↦[s 8]{q} f) ∗ (ℓ ↦[s 9]{q} f) ∗ (ℓ ↦[s 10]{q} f) ∗ (ℓ ↦[s 11]{q} f) ∗ (ℓ ↦[s 12]{q} f) ∗ (ℓ ↦[s 13]{q} f) ∗ (ℓ ↦[s 14]{q} f) ∗ (ℓ ↦[s 15]{q} f)) : sProp 𝕄)
      ⊢ (ℓ ↦{q} f) := by
  have step : ∀ (R t : Finset (Idx ℓ)), t ⊆ R → ((iprop((ℓ ↦[R \ t]{q} f) ∗ (ℓ ↦[t]{q} f)) : sProp 𝕄) ⊢ (ℓ ↦[R]{q} f)) := by
    intro R t ht
    have h : (iprop((ℓ ↦[R \ t]{q} f) ∗ (ℓ ↦[t]{q} f)) : sProp 𝕄) ⊢ (ℓ ↦[R \ t ∪ t]{q} f) :=
      (pointsTo_union (Finset.sdiff_disjoint : Disjoint (R \ t) t)).2
    rwa [Finset.sdiff_union_of_subset ht] at h
  iintro ⟨HR, H0, H1, H2, H3, H4, H5, H6, H7, H8, H9, H10, H11, H12, H13, H14, H15⟩
  ihave HR := (step (((((((((((((((Finset.univ \ s 0) \ s 1) \ s 2) \ s 3) \ s 4) \ s 5) \ s 6) \ s 7) \ s 8) \ s 9) \ s 10) \ s 11) \ s 12) \ s 13) \ s 14) (s 15) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 15 0 (by decide)⟩, hd 15 1 (by decide)⟩, hd 15 2 (by decide)⟩, hd 15 3 (by decide)⟩, hd 15 4 (by decide)⟩, hd 15 5 (by decide)⟩, hd 15 6 (by decide)⟩, hd 15 7 (by decide)⟩, hd 15 8 (by decide)⟩, hd 15 9 (by decide)⟩, hd 15 10 (by decide)⟩, hd 15 11 (by decide)⟩, hd 15 12 (by decide)⟩, hd 15 13 (by decide)⟩, hd 15 14 (by decide)⟩)) $$ [HR H15]
  · isplitl [HR] <;> iassumption
  ihave HR := (step ((((((((((((((Finset.univ \ s 0) \ s 1) \ s 2) \ s 3) \ s 4) \ s 5) \ s 6) \ s 7) \ s 8) \ s 9) \ s 10) \ s 11) \ s 12) \ s 13) (s 14) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 14 0 (by decide)⟩, hd 14 1 (by decide)⟩, hd 14 2 (by decide)⟩, hd 14 3 (by decide)⟩, hd 14 4 (by decide)⟩, hd 14 5 (by decide)⟩, hd 14 6 (by decide)⟩, hd 14 7 (by decide)⟩, hd 14 8 (by decide)⟩, hd 14 9 (by decide)⟩, hd 14 10 (by decide)⟩, hd 14 11 (by decide)⟩, hd 14 12 (by decide)⟩, hd 14 13 (by decide)⟩)) $$ [HR H14]
  · isplitl [HR] <;> iassumption
  ihave HR := (step (((((((((((((Finset.univ \ s 0) \ s 1) \ s 2) \ s 3) \ s 4) \ s 5) \ s 6) \ s 7) \ s 8) \ s 9) \ s 10) \ s 11) \ s 12) (s 13) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 13 0 (by decide)⟩, hd 13 1 (by decide)⟩, hd 13 2 (by decide)⟩, hd 13 3 (by decide)⟩, hd 13 4 (by decide)⟩, hd 13 5 (by decide)⟩, hd 13 6 (by decide)⟩, hd 13 7 (by decide)⟩, hd 13 8 (by decide)⟩, hd 13 9 (by decide)⟩, hd 13 10 (by decide)⟩, hd 13 11 (by decide)⟩, hd 13 12 (by decide)⟩)) $$ [HR H13]
  · isplitl [HR] <;> iassumption
  ihave HR := (step ((((((((((((Finset.univ \ s 0) \ s 1) \ s 2) \ s 3) \ s 4) \ s 5) \ s 6) \ s 7) \ s 8) \ s 9) \ s 10) \ s 11) (s 12) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 12 0 (by decide)⟩, hd 12 1 (by decide)⟩, hd 12 2 (by decide)⟩, hd 12 3 (by decide)⟩, hd 12 4 (by decide)⟩, hd 12 5 (by decide)⟩, hd 12 6 (by decide)⟩, hd 12 7 (by decide)⟩, hd 12 8 (by decide)⟩, hd 12 9 (by decide)⟩, hd 12 10 (by decide)⟩, hd 12 11 (by decide)⟩)) $$ [HR H12]
  · isplitl [HR] <;> iassumption
  ihave HR := (step (((((((((((Finset.univ \ s 0) \ s 1) \ s 2) \ s 3) \ s 4) \ s 5) \ s 6) \ s 7) \ s 8) \ s 9) \ s 10) (s 11) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 11 0 (by decide)⟩, hd 11 1 (by decide)⟩, hd 11 2 (by decide)⟩, hd 11 3 (by decide)⟩, hd 11 4 (by decide)⟩, hd 11 5 (by decide)⟩, hd 11 6 (by decide)⟩, hd 11 7 (by decide)⟩, hd 11 8 (by decide)⟩, hd 11 9 (by decide)⟩, hd 11 10 (by decide)⟩)) $$ [HR H11]
  · isplitl [HR] <;> iassumption
  ihave HR := (step ((((((((((Finset.univ \ s 0) \ s 1) \ s 2) \ s 3) \ s 4) \ s 5) \ s 6) \ s 7) \ s 8) \ s 9) (s 10) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 10 0 (by decide)⟩, hd 10 1 (by decide)⟩, hd 10 2 (by decide)⟩, hd 10 3 (by decide)⟩, hd 10 4 (by decide)⟩, hd 10 5 (by decide)⟩, hd 10 6 (by decide)⟩, hd 10 7 (by decide)⟩, hd 10 8 (by decide)⟩, hd 10 9 (by decide)⟩)) $$ [HR H10]
  · isplitl [HR] <;> iassumption
  ihave HR := (step (((((((((Finset.univ \ s 0) \ s 1) \ s 2) \ s 3) \ s 4) \ s 5) \ s 6) \ s 7) \ s 8) (s 9) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 9 0 (by decide)⟩, hd 9 1 (by decide)⟩, hd 9 2 (by decide)⟩, hd 9 3 (by decide)⟩, hd 9 4 (by decide)⟩, hd 9 5 (by decide)⟩, hd 9 6 (by decide)⟩, hd 9 7 (by decide)⟩, hd 9 8 (by decide)⟩)) $$ [HR H9]
  · isplitl [HR] <;> iassumption
  ihave HR := (step ((((((((Finset.univ \ s 0) \ s 1) \ s 2) \ s 3) \ s 4) \ s 5) \ s 6) \ s 7) (s 8) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 8 0 (by decide)⟩, hd 8 1 (by decide)⟩, hd 8 2 (by decide)⟩, hd 8 3 (by decide)⟩, hd 8 4 (by decide)⟩, hd 8 5 (by decide)⟩, hd 8 6 (by decide)⟩, hd 8 7 (by decide)⟩)) $$ [HR H8]
  · isplitl [HR] <;> iassumption
  ihave HR := (step (((((((Finset.univ \ s 0) \ s 1) \ s 2) \ s 3) \ s 4) \ s 5) \ s 6) (s 7) (Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, hd 7 0 (by decide)⟩, hd 7 1 (by decide)⟩, hd 7 2 (by decide)⟩, hd 7 3 (by decide)⟩, hd 7 4 (by decide)⟩, hd 7 5 (by decide)⟩, hd 7 6 (by decide)⟩)) $$ [HR H7]
  · isplitl [HR] <;> iassumption
  ihave HR := (step ((((((Finset.univ \ s 0) \ s 1) \ s 2) \ s 3) \ s 4) \ s 5) (s 6) (Finset.subset_sdiff.2 ⟨Finset.subset_sdiff.2 ⟨Finset.subset_sdiff.2 ⟨Finset.subset_sdiff.2 ⟨Finset.subset_sdiff.2 ⟨Finset.subset_sdiff.2 ⟨Finset.subset_univ _, hd 6 0 (by decide)⟩, hd 6 1 (by decide)⟩, hd 6 2 (by decide)⟩, hd 6 3 (by decide)⟩, hd 6 4 (by decide)⟩, hd 6 5 (by decide)⟩)) $$ [HR H6]
  · isplitl [HR] <;> iassumption
  ihave HR := (step (((((Finset.univ \ s 0) \ s 1) \ s 2) \ s 3) \ s 4) (s 5) (Finset.subset_sdiff.2 ⟨Finset.subset_sdiff.2 ⟨Finset.subset_sdiff.2 ⟨Finset.subset_sdiff.2 ⟨Finset.subset_sdiff.2 ⟨Finset.subset_univ _, hd 5 0 (by decide)⟩, hd 5 1 (by decide)⟩, hd 5 2 (by decide)⟩, hd 5 3 (by decide)⟩, hd 5 4 (by decide)⟩)) $$ [HR H5]
  · isplitl [HR] <;> iassumption
  ihave HR := (step ((((Finset.univ \ s 0) \ s 1) \ s 2) \ s 3) (s 4) (Finset.subset_sdiff.2 ⟨Finset.subset_sdiff.2 ⟨Finset.subset_sdiff.2 ⟨Finset.subset_sdiff.2 ⟨Finset.subset_univ _, hd 4 0 (by decide)⟩, hd 4 1 (by decide)⟩, hd 4 2 (by decide)⟩, hd 4 3 (by decide)⟩)) $$ [HR H4]
  · isplitl [HR] <;> iassumption
  ihave HR := (step (((Finset.univ \ s 0) \ s 1) \ s 2) (s 3) (Finset.subset_sdiff.2 ⟨Finset.subset_sdiff.2 ⟨Finset.subset_sdiff.2 ⟨Finset.subset_univ _, hd 3 0 (by decide)⟩, hd 3 1 (by decide)⟩, hd 3 2 (by decide)⟩)) $$ [HR H3]
  · isplitl [HR] <;> iassumption
  ihave HR := (step ((Finset.univ \ s 0) \ s 1) (s 2) (Finset.subset_sdiff.2 ⟨Finset.subset_sdiff.2 ⟨Finset.subset_univ _, hd 2 0 (by decide)⟩, hd 2 1 (by decide)⟩)) $$ [HR H2]
  · isplitl [HR] <;> iassumption
  ihave HR := (step (Finset.univ \ s 0) (s 1) (Finset.subset_sdiff.2 ⟨Finset.subset_univ _, hd 1 0 (by decide)⟩)) $$ [HR H1]
  · isplitl [HR] <;> iassumption
  ihave HR := (step Finset.univ (s 0) (Finset.subset_univ _)) $$ [HR H0]
  · isplitl [HR] <;> iassumption
  iexact HR

variable (d : Dev nD) (L : grid2.Coords)

theorem eSl_set (o : Fin 1 → ℕ) (h : ∀ a, o a + S2048.size a ≤ S33554432.size a) :
    ((eSl o h).view.set : Finset S33554432.Idx) = (Rect.unit (s := S33554432) o S2048.size h).set := by
  show ((View.whole (main_v0_scv : Ref sig .scVector)).slice _).set = _
  rw [View.set_slice_whole]

/-- The chunks' offsets in order: each chunk ends before the next begins. -/
def Ordered (oe : Fin 16 → Fin 1 → ℕ) : Prop := ∀ c c' : Fin 16, c < c' → oe c 0 + 2048 ≤ oe c' 0

theorem eSl_disjoint (oe : Fin 16 → Fin 1 → ℕ) (he : ∀ c a, oe c a + S2048.size a ≤ S33554432.size a) (ho : Ordered oe)
    (c c' : Fin 16) (h : c ≠ c') :
    Disjoint ((eSl (oe c) (he c)).view.set : Finset S33554432.Idx) ((eSl (oe c') (he c')).view.set : Finset S33554432.Idx) := by
  rw [eSl_set, eSl_set]
  rcases lt_or_gt_of_ne h with h | h
  · exact Rect.unit_disjoint (0 : Fin 1) (Or.inl (ho c c' h))
  · exact Rect.unit_disjoint (0 : Fin 1) (Or.inr (ho c' c h))

/-- The embedding's share back from what a batch left of it and the sixteen chunks the batch hands back. -/
theorem restE_join (qs : PosShare TreeShare) (e : Buf (Elt F) ((eW).view.loc (thr d L)))
    (oe : Fin 16 → Fin 1 → ℕ) (he : ∀ c a, oe c a + S2048.size a ≤ S33554432.size a) (ho : Ordered oe) :
    (iprop(restE d L qs e oe he ∗ ((eSl (oe 0) (he 0)).view.loc (thr d L) ↦[(eSl (oe 0) (he 0)).view.set]{qs} e) ∗ ((eSl (oe 1) (he 1)).view.loc (thr d L) ↦[(eSl (oe 1) (he 1)).view.set]{qs} e) ∗ ((eSl (oe 2) (he 2)).view.loc (thr d L) ↦[(eSl (oe 2) (he 2)).view.set]{qs} e) ∗ ((eSl (oe 3) (he 3)).view.loc (thr d L) ↦[(eSl (oe 3) (he 3)).view.set]{qs} e) ∗ ((eSl (oe 4) (he 4)).view.loc (thr d L) ↦[(eSl (oe 4) (he 4)).view.set]{qs} e) ∗ ((eSl (oe 5) (he 5)).view.loc (thr d L) ↦[(eSl (oe 5) (he 5)).view.set]{qs} e) ∗ ((eSl (oe 6) (he 6)).view.loc (thr d L) ↦[(eSl (oe 6) (he 6)).view.set]{qs} e) ∗ ((eSl (oe 7) (he 7)).view.loc (thr d L) ↦[(eSl (oe 7) (he 7)).view.set]{qs} e) ∗ ((eSl (oe 8) (he 8)).view.loc (thr d L) ↦[(eSl (oe 8) (he 8)).view.set]{qs} e) ∗ ((eSl (oe 9) (he 9)).view.loc (thr d L) ↦[(eSl (oe 9) (he 9)).view.set]{qs} e) ∗ ((eSl (oe 10) (he 10)).view.loc (thr d L) ↦[(eSl (oe 10) (he 10)).view.set]{qs} e) ∗ ((eSl (oe 11) (he 11)).view.loc (thr d L) ↦[(eSl (oe 11) (he 11)).view.set]{qs} e) ∗ ((eSl (oe 12) (he 12)).view.loc (thr d L) ↦[(eSl (oe 12) (he 12)).view.set]{qs} e) ∗ ((eSl (oe 13) (he 13)).view.loc (thr d L) ↦[(eSl (oe 13) (he 13)).view.set]{qs} e) ∗ ((eSl (oe 14) (he 14)).view.loc (thr d L) ↦[(eSl (oe 14) (he 14)).view.set]{qs} e) ∗ ((eSl (oe 15) (he 15)).view.loc (thr d L) ↦[(eSl (oe 15) (he 15)).view.set]{qs} e)) : sProp 𝕄)
      ⊢ ((eW).view.loc (thr d L) ↦{qs} e) :=
  join16 (ℓ := (eW).view.loc (thr d L)) qs e (fun c => (eSl (oe c) (he c)).view.set) (eSl_disjoint oe he ho)

/-! ## The chunks' offsets, in order -/

theorem ord2 : Ordered (fun c : Fin 16 => k2_off2 L (BitVec.ofNat 32 (2097152 * c.val))) := by
  intro c c' h
  have h' : c.val < c'.val := h
  show (k2_off2 L (BitVec.ofNat 32 (2097152 * c.val))) 0 + 2048 ≤ (k2_off2 L (BitVec.ofNat 32 (2097152 * c'.val))) 0
  rw [k2_off2_eq, k2_off2_eq]
  show 2097152 * c.val + 131072 * (L 1).val + 65536 * (L 0).val + 2048 ≤ 2097152 * c'.val + 131072 * (L 1).val + 65536 * (L 0).val
  omega
theorem ord4 : Ordered (fun c : Fin 16 => k2_off4 L (BitVec.ofNat 32 (2097152 * c.val))) := by
  intro c c' h
  have h' : c.val < c'.val := h
  show (k2_off4 L (BitVec.ofNat 32 (2097152 * c.val))) 0 + 2048 ≤ (k2_off4 L (BitVec.ofNat 32 (2097152 * c'.val))) 0
  rw [k2_off4_eq, k2_off4_eq]
  show 2097152 * c.val + 131072 * (L 1).val + 65536 * (L 0).val + 2048 + 2048 ≤ 2097152 * c'.val + 131072 * (L 1).val + 65536 * (L 0).val + 2048
  omega
theorem ord40 (kk : Fin k2_t2_loop.trips) (b : Fin 2) :
    Ordered (fun c : Fin 16 => k2_off40 L kk (BitVec.ofNat 32 (2097152 * c.val)) (BitVec.ofNat 32 b.val)) := by
  intro c c' h
  have h' : c.val < c'.val := h
  show (k2_off40 L kk (BitVec.ofNat 32 (2097152 * c.val)) (BitVec.ofNat 32 b.val)) 0 + 2048
    ≤ (k2_off40 L kk (BitVec.ofNat 32 (2097152 * c'.val)) (BitVec.ofNat 32 b.val)) 0
  rw [k2_off40_eq, k2_off40_eq]
  show 2097152 * c.val + 131072 * (L 1).val + 65536 * (L 0).val + 2048 * (min (2 * kk.val + b.val + 2) 31) + 2048
    ≤ 2097152 * c'.val + 131072 * (L 1).val + 65536 * (L 0).val + 2048 * (min (2 * kk.val + b.val + 2) 31)
  omega

/-- The offsets of the chunk a trip of the outer loop issues into slot b, as the program computes them. -/
abbrev oeN (kk : Fin k2_t2_loop.trips) (b : Fin 2) : Fin 16 → Fin 1 → ℕ :=
  fun c => k2_off40 L kk (BitVec.ofNat 32 (2097152 * c.val)) (BitVec.ofNat 32 b.val)
theorem heN (kk : Fin k2_t2_loop.trips) (b : Fin 2) : ∀ c a, oeN L kk b c a + S2048.size a ≤ S33554432.size a :=
  fun c => k2_off40_inb L kk c b
abbrev otN (kk : Fin k2_t2_loop.trips) (b : Fin 2) : Fin 1 → ℕ := k2_off41 L kk (BitVec.ofNat 32 b.val)
theorem htN (kk : Fin k2_t2_loop.trips) (b : Fin 2) : ∀ a, otN L kk b a + S2048.size a ≤ S2097152.size a :=
  k2_off41_inb L kk b

/-! ## A row's contents forgotten -/

theorem xPts_ex (b : Fin 2) (c : Fin 16) (g : Buf (Elt F) ((xB).view.loc (thr d L))) :
    (xPts d L b c g : sProp 𝕄) ⊢ iprop(∃ g', xPts d L b c g') := by
  iintro H; iexists _; iexact H
theorem tPts_ex (b : Fin 2) (g : Buf (Elt F) ((tB).view.loc (thr d L))) :
    (tPts d L b g : sProp 𝕄) ⊢ iprop(∃ g', tPts d L b g') := by
  iintro H; iexists _; iexact H
theorem mPts_ex (b : Fin 2) (g : Buf (Elt F) ((mB).view.loc (thr d L))) :
    (mPts d L b g : sProp 𝕄) ⊢ iprop(∃ g', mPts d L b g') := by
  iintro H; iexists _; iexact H

/-! ## An assertion set aside -/

/-- The same assertion under a name of its own: what one semaphore's side holds of an array while the other side's
    copies are issued. -/
def Hid (P : sProp 𝕄) : sProp 𝕄 := P
theorem Hid_eq (P : sProp 𝕄) : Hid P = P := rfl

variable [∀ e, Nonempty (Elt F e)] [FloatOps F]

/-- One semaphore's side of the outer loop's invariant: its chunk's batch in flight at some ordered offsets, all eighteen
    copies issued, and what the batch leaves of this side's shares of the three arrays. -/
def sideO (sm : DmaSems sig S_) (b : Fin 2) (qs : PosShare TreeShare)
    (e : Buf (Elt F) ((eW).view.loc (thr d L))) (t : Buf (Elt F) ((tW).view.loc (thr d L))) (k : Buf (Elt F) ((kW).view.loc (thr d L))) : sProp 𝕄 :=
  iprop(∃ (oe : Fin 16 → Fin 1 → ℕ) (he : ∀ c a, oe c a + S2048.size a ≤ S33554432.size a)
      (ot : Fin 1 → ℕ) (ht : ∀ a, ot a + S2048.size a ≤ S2097152.size a),
    ⌜Ordered oe⌝ ∗ batchOf d L sm b qs e t k oe he ot ht 18 ∗ Hid (restE d L qs e oe he) ∗ restT d L qs t ot ht ∗ restK d L qs k ot ht)

/-- The outer loop's invariant. -/
def invO (q : PosShare TreeShare)
    (e : Buf (Elt F) ((eW).view.loc (thr d L))) (t : Buf (Elt F) ((tW).view.loc (thr d L))) (k : Buf (Elt F) ((kW).view.loc (thr d L)))
    (O : CellTallies nD τ sig (HIx 2)) (W : Waits sig (HIx 2)) (_ : Nat) (_ : BitVec 32) : sProp 𝕄 :=
  iprop(Transfers.MayWaits (thr d L) (none : HIx 2) O
    ∗ sideO d L cc2_scratch5 0 q.left e t k
    ∗ sideO d L cc2_scratch6 1 q.right e t k
    ∗ (∃ f, ((mT).view.loc (thr d L) ↦{fullShare} f))
    ∗ (∃ f, ((aT).view.loc (thr d L) ↦{fullShare} f))
    ∗ ∃ W', ⌜∀ p ∈ W', p ∈ W ∨ p.2 = none⌝ ∗ owes (thr d L) O W')

omit [∀ e, Nonempty (Elt F e)] [FloatOps F] in
/-- A wait at the index of the thread's own transfers, recorded beyond what was recorded before. -/
theorem mem_ins {W W' : Waits sig (HIx 2)} {x : SemLoc sig × HIx 2} (hx : x.2 = none) (h : ∀ p ∈ W', p ∈ W ∨ p.2 = none) :
    ∀ p ∈ insert x W', p ∈ W ∨ p.2 = none :=
  fun p hp => (Finset.mem_insert.mp hp).elim (fun e => .inr (e ▸ hx)) (h p)

theorem outer_trip (q : PosShare TreeShare)
    (e : Buf (Elt F) ((eW).view.loc (thr d L))) (t : Buf (Elt F) ((tW).view.loc (thr d L))) (k : Buf (Elt F) ((kW).view.loc (thr d L)))
    (htr : ∀ j, (t j : BitVec 32).toNat ≤ 63)
    (O : CellTallies nD τ sig (HIx 2)) (W : Waits sig (HIx 2))
    (v2 c146 c147 c16 : BitVec 32) (kk : Fin k2_t2_loop.trips) (acc : BitVec 32) (n m : Nat) :
    (invO (F := F) d L q e t k O W n acc)
      ⊢ wp frame (wpE (defs₀ (F := F)) 𝒱₀ (thr d L) none) Set.univ
          (k2_t2_body L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1 v2 iotaV c146 c147 c16 kk acc)
          (invO (F := F) d L q e t k O W m) := by
  unfold invO sideO
  iintro ⟨Hmw, ⟨%oe0, %he0, %ot0, %ht0, %ho0, HB0, HeR0, HtR0, HkR0⟩, ⟨%oe1, %he1, %ot1, %ht1, %ho1, HB1, HeR1, HtR1, HkR1⟩, ⟨%fmt, Hmt⟩, ⟨%fa, Ha⟩, %W', %hW', HO⟩
  sl_exec

  -- side 0: the embedding's share whole again
  ihave HeR0 := (Entails.of_eq (Hid_eq _)) $$ HeR0
  ihave He0 := (restE_join d L q.left e oe0 he0 ho0) $$ [HeR0 HB0_src0 HB0_src1 HB0_src2 HB0_src3 HB0_src4 HB0_src5 HB0_src6 HB0_src7 HB0_src8 HB0_src9 HB0_src10 HB0_src11 HB0_src12 HB0_src13 HB0_src14 HB0_src15]
  · isplitl [HeR0]; · iexact HeR0
    isplitl [HB0_src0]; · iexact HB0_src0
    isplitl [HB0_src1]; · iexact HB0_src1
    isplitl [HB0_src2]; · iexact HB0_src2
    isplitl [HB0_src3]; · iexact HB0_src3
    isplitl [HB0_src4]; · iexact HB0_src4
    isplitl [HB0_src5]; · iexact HB0_src5
    isplitl [HB0_src6]; · iexact HB0_src6
    isplitl [HB0_src7]; · iexact HB0_src7
    isplitl [HB0_src8]; · iexact HB0_src8
    isplitl [HB0_src9]; · iexact HB0_src9
    isplitl [HB0_src10]; · iexact HB0_src10
    isplitl [HB0_src11]; · iexact HB0_src11
    isplitl [HB0_src12]; · iexact HB0_src12
    isplitl [HB0_src13]; · iexact HB0_src13
    isplitl [HB0_src14]; · iexact HB0_src14
    iexact HB0_src15
  ihave Ht0 := (Entails.of_eq (show (((tSl ot0 ht0).view.loc (thr d L) ↦{q.left} t : sProp 𝕄) = ((tW).view.loc (thr d L) ↦{q.left} t)) from rfl)) $$ HtR0
  ihave Hk0 := (Entails.of_eq (show (((kSl ot0 ht0).view.loc (thr d L) ↦{q.left} k : sProp 𝕄) = ((kW).view.loc (thr d L) ↦{q.left} k)) from rfl)) $$ HkR0
  -- the targets' row restated at contents in range everywhere
  ihave HT := (Entails.of_eq (clampT_pts d L 0 (landed d L (tWin 0) (tSl ot0 ht0) t))) $$ HB0_dst16
  sl_for (invA (F := F) d L 0 (fun c => landed d L (xWin 0 c) (eSl (oe0 c) (he0 c)) e) (clampT d L 0 (landed d L (tWin 0) (tSl ot0 ht0) t))
      (landed d L (mWin 0) (kSl ot0 ht0) k) fmt) $$ [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HT HB0_dst17 Hmt Ha]
  case region =>
    intro k3 a3
    exact trip3 d L _ _ _ fmt (clampT_le d L 0 _ (landed_le d L 0 t htr ot0 ht0)) _ kk _ _ _ _ k3 a3 _ _
  · unfold invA
    isplitl [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15]
    · isplitl [HB0_dst0]; · iexact HB0_dst0
      isplitl [HB0_dst1]; · iexact HB0_dst1
      isplitl [HB0_dst2]; · iexact HB0_dst2
      isplitl [HB0_dst3]; · iexact HB0_dst3
      isplitl [HB0_dst4]; · iexact HB0_dst4
      isplitl [HB0_dst5]; · iexact HB0_dst5
      isplitl [HB0_dst6]; · iexact HB0_dst6
      isplitl [HB0_dst7]; · iexact HB0_dst7
      isplitl [HB0_dst8]; · iexact HB0_dst8
      isplitl [HB0_dst9]; · iexact HB0_dst9
      isplitl [HB0_dst10]; · iexact HB0_dst10
      isplitl [HB0_dst11]; · iexact HB0_dst11
      isplitl [HB0_dst12]; · iexact HB0_dst12
      isplitl [HB0_dst13]; · iexact HB0_dst13
      isplitl [HB0_dst14]; · iexact HB0_dst14
      iexact HB0_dst15
    isplitl [HT]; · iexact HT
    isplitl [HB0_dst17]; · iexact HB0_dst17
    isplitl [Hmt]; · iexact Hmt
    iexists _; iexact Ha
  iintro %_ HI
  unfold invA
  icases HI with ⟨⟨Hx0, Hx1, Hx2, Hx3, Hx4, Hx5, Hx6, Hx7, Hx8, Hx9, Hx10, Hx11, Hx12, Hx13, Hx14, Hx15⟩, HT, HM, Hmt, ⟨%fa0, Ha⟩⟩
  ihave Hex := (xPts_ex d L 0 0 _) $$ Hx0
  icases Hex with ⟨%gx0_0, Hx0⟩
  ihave Hex := (xPts_ex d L 0 1 _) $$ Hx1
  icases Hex with ⟨%gx0_1, Hx1⟩
  ihave Hex := (xPts_ex d L 0 2 _) $$ Hx2
  icases Hex with ⟨%gx0_2, Hx2⟩
  ihave Hex := (xPts_ex d L 0 3 _) $$ Hx3
  icases Hex with ⟨%gx0_3, Hx3⟩
  ihave Hex := (xPts_ex d L 0 4 _) $$ Hx4
  icases Hex with ⟨%gx0_4, Hx4⟩
  ihave Hex := (xPts_ex d L 0 5 _) $$ Hx5
  icases Hex with ⟨%gx0_5, Hx5⟩
  ihave Hex := (xPts_ex d L 0 6 _) $$ Hx6
  icases Hex with ⟨%gx0_6, Hx6⟩
  ihave Hex := (xPts_ex d L 0 7 _) $$ Hx7
  icases Hex with ⟨%gx0_7, Hx7⟩
  ihave Hex := (xPts_ex d L 0 8 _) $$ Hx8
  icases Hex with ⟨%gx0_8, Hx8⟩
  ihave Hex := (xPts_ex d L 0 9 _) $$ Hx9
  icases Hex with ⟨%gx0_9, Hx9⟩
  ihave Hex := (xPts_ex d L 0 10 _) $$ Hx10
  icases Hex with ⟨%gx0_10, Hx10⟩
  ihave Hex := (xPts_ex d L 0 11 _) $$ Hx11
  icases Hex with ⟨%gx0_11, Hx11⟩
  ihave Hex := (xPts_ex d L 0 12 _) $$ Hx12
  icases Hex with ⟨%gx0_12, Hx12⟩
  ihave Hex := (xPts_ex d L 0 13 _) $$ Hx13
  icases Hex with ⟨%gx0_13, Hx13⟩
  ihave Hex := (xPts_ex d L 0 14 _) $$ Hx14
  icases Hex with ⟨%gx0_14, Hx14⟩
  ihave Hex := (xPts_ex d L 0 15 _) $$ Hx15
  icases Hex with ⟨%gx0_15, Hx15⟩
  ihave Hex := (tPts_ex d L 0 _) $$ HT
  icases Hex with ⟨%gt0, HT⟩
  ihave Hex := (mPts_ex d L 0 _) $$ HM
  icases Hex with ⟨%gm0, HM⟩
  imod (Transfers.batch_alloc' (Lvl := ℕ) (countersEmb (U := UU)) (thr d L) (none : HIx 2) NC
    (Dv (F := F) d L 0 q.left e t k (oeN L kk 0) (heN L kk 0) (otN L kk 0) (htN L kk 0))
    (sm := .dma cc2_scratch5.sem) (E := Set.univ)) $$ [HB0] with HB0
  · iexact HB0
  sl_exec
  -- this side's share of the embedding, less the chunks just lent, set aside
  ihave He0 := (Entails.of_eq (Hid_eq _).symm) $$ He0

  -- side 1: the embedding's share whole again
  ihave HeR1 := (Entails.of_eq (Hid_eq _)) $$ HeR1
  ihave He1 := (restE_join d L q.right e oe1 he1 ho1) $$ [HeR1 HB1_src0 HB1_src1 HB1_src2 HB1_src3 HB1_src4 HB1_src5 HB1_src6 HB1_src7 HB1_src8 HB1_src9 HB1_src10 HB1_src11 HB1_src12 HB1_src13 HB1_src14 HB1_src15]
  · isplitl [HeR1]; · iexact HeR1
    isplitl [HB1_src0]; · iexact HB1_src0
    isplitl [HB1_src1]; · iexact HB1_src1
    isplitl [HB1_src2]; · iexact HB1_src2
    isplitl [HB1_src3]; · iexact HB1_src3
    isplitl [HB1_src4]; · iexact HB1_src4
    isplitl [HB1_src5]; · iexact HB1_src5
    isplitl [HB1_src6]; · iexact HB1_src6
    isplitl [HB1_src7]; · iexact HB1_src7
    isplitl [HB1_src8]; · iexact HB1_src8
    isplitl [HB1_src9]; · iexact HB1_src9
    isplitl [HB1_src10]; · iexact HB1_src10
    isplitl [HB1_src11]; · iexact HB1_src11
    isplitl [HB1_src12]; · iexact HB1_src12
    isplitl [HB1_src13]; · iexact HB1_src13
    isplitl [HB1_src14]; · iexact HB1_src14
    iexact HB1_src15
  ihave Ht1 := (Entails.of_eq (show (((tSl ot1 ht1).view.loc (thr d L) ↦{q.right} t : sProp 𝕄) = ((tW).view.loc (thr d L) ↦{q.right} t)) from rfl)) $$ HtR1
  ihave Hk1 := (Entails.of_eq (show (((kSl ot1 ht1).view.loc (thr d L) ↦{q.right} k : sProp 𝕄) = ((kW).view.loc (thr d L) ↦{q.right} k)) from rfl)) $$ HkR1
  -- the targets' row restated at contents in range everywhere
  ihave HT := (Entails.of_eq (clampT_pts d L 1 (landed d L (tWin 1) (tSl ot1 ht1) t))) $$ HB1_dst16
  sl_for (invA (F := F) d L 1 (fun c => landed d L (xWin 1 c) (eSl (oe1 c) (he1 c)) e) (clampT d L 1 (landed d L (tWin 1) (tSl ot1 ht1) t))
      (landed d L (mWin 1) (kSl ot1 ht1) k) fmt) $$ [HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15 HT HB1_dst17 Hmt Ha]
  case region =>
    intro k3 a3
    exact trip4 d L _ _ _ fmt (clampT_le d L 1 _ (landed_le d L 1 t htr ot1 ht1)) _ kk _ _ _ _ k3 a3 _ _
  · unfold invA
    isplitl [HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15]
    · isplitl [HB1_dst0]; · iexact HB1_dst0
      isplitl [HB1_dst1]; · iexact HB1_dst1
      isplitl [HB1_dst2]; · iexact HB1_dst2
      isplitl [HB1_dst3]; · iexact HB1_dst3
      isplitl [HB1_dst4]; · iexact HB1_dst4
      isplitl [HB1_dst5]; · iexact HB1_dst5
      isplitl [HB1_dst6]; · iexact HB1_dst6
      isplitl [HB1_dst7]; · iexact HB1_dst7
      isplitl [HB1_dst8]; · iexact HB1_dst8
      isplitl [HB1_dst9]; · iexact HB1_dst9
      isplitl [HB1_dst10]; · iexact HB1_dst10
      isplitl [HB1_dst11]; · iexact HB1_dst11
      isplitl [HB1_dst12]; · iexact HB1_dst12
      isplitl [HB1_dst13]; · iexact HB1_dst13
      isplitl [HB1_dst14]; · iexact HB1_dst14
      iexact HB1_dst15
    isplitl [HT]; · iexact HT
    isplitl [HB1_dst17]; · iexact HB1_dst17
    isplitl [Hmt]; · iexact Hmt
    iexists _; iexact Ha
  iintro %_ HI
  unfold invA
  icases HI with ⟨⟨Hx0, Hx1, Hx2, Hx3, Hx4, Hx5, Hx6, Hx7, Hx8, Hx9, Hx10, Hx11, Hx12, Hx13, Hx14, Hx15⟩, HT, HM, Hmt, ⟨%fa1, Ha⟩⟩
  ihave Hex := (xPts_ex d L 1 0 _) $$ Hx0
  icases Hex with ⟨%gx1_0, Hx0⟩
  ihave Hex := (xPts_ex d L 1 1 _) $$ Hx1
  icases Hex with ⟨%gx1_1, Hx1⟩
  ihave Hex := (xPts_ex d L 1 2 _) $$ Hx2
  icases Hex with ⟨%gx1_2, Hx2⟩
  ihave Hex := (xPts_ex d L 1 3 _) $$ Hx3
  icases Hex with ⟨%gx1_3, Hx3⟩
  ihave Hex := (xPts_ex d L 1 4 _) $$ Hx4
  icases Hex with ⟨%gx1_4, Hx4⟩
  ihave Hex := (xPts_ex d L 1 5 _) $$ Hx5
  icases Hex with ⟨%gx1_5, Hx5⟩
  ihave Hex := (xPts_ex d L 1 6 _) $$ Hx6
  icases Hex with ⟨%gx1_6, Hx6⟩
  ihave Hex := (xPts_ex d L 1 7 _) $$ Hx7
  icases Hex with ⟨%gx1_7, Hx7⟩
  ihave Hex := (xPts_ex d L 1 8 _) $$ Hx8
  icases Hex with ⟨%gx1_8, Hx8⟩
  ihave Hex := (xPts_ex d L 1 9 _) $$ Hx9
  icases Hex with ⟨%gx1_9, Hx9⟩
  ihave Hex := (xPts_ex d L 1 10 _) $$ Hx10
  icases Hex with ⟨%gx1_10, Hx10⟩
  ihave Hex := (xPts_ex d L 1 11 _) $$ Hx11
  icases Hex with ⟨%gx1_11, Hx11⟩
  ihave Hex := (xPts_ex d L 1 12 _) $$ Hx12
  icases Hex with ⟨%gx1_12, Hx12⟩
  ihave Hex := (xPts_ex d L 1 13 _) $$ Hx13
  icases Hex with ⟨%gx1_13, Hx13⟩
  ihave Hex := (xPts_ex d L 1 14 _) $$ Hx14
  icases Hex with ⟨%gx1_14, Hx14⟩
  ihave Hex := (xPts_ex d L 1 15 _) $$ Hx15
  icases Hex with ⟨%gx1_15, Hx15⟩
  ihave Hex := (tPts_ex d L 1 _) $$ HT
  icases Hex with ⟨%gt1, HT⟩
  ihave Hex := (mPts_ex d L 1 _) $$ HM
  icases Hex with ⟨%gm1, HM⟩
  imod (Transfers.batch_alloc' (Lvl := ℕ) (countersEmb (U := UU)) (thr d L) (none : HIx 2) NC
    (Dv (F := F) d L 1 q.right e t k (oeN L kk 1) (heN L kk 1) (otN L kk 1) (htN L kk 1))
    (sm := .dma cc2_scratch6.sem) (E := Set.univ)) $$ [HB1] with HB1
  · iexact HB1
  sl_exec
  -- this side's share of the embedding, less the chunks just lent, set aside
  ihave He1 := (Entails.of_eq (Hid_eq _).symm) $$ He1

  sl_step
  isplitl [Hmw]; · iexact Hmw
  isplitl [HB0 He0 Ht0 Hk0]
  · iexists (oeN L kk 0), (heN L kk 0), (otN L kk 0), (htN L kk 0)
    isplitr; · ipureintro; exact ord40 L kk 0
    isplitl [HB0]; · iexact HB0
    isplitl [He0]; · iexact He0
    isplitl [Ht0]; · iexact Ht0
    iexact Hk0
  isplitl [HB1 He1 Ht1 Hk1]
  · iexists (oeN L kk 1), (heN L kk 1), (otN L kk 1), (htN L kk 1)
    isplitr; · ipureintro; exact ord40 L kk 1
    isplitl [HB1]; · iexact HB1
    isplitl [He1]; · iexact He1
    isplitl [Ht1]; · iexact Ht1
    iexact Hk1
  isplitl [Hmt]; · iexists _; iexact Hmt
  isplitl [Ha]; · iexists _; iexact Ha
  iexists _; isplitr
  rotate_left
  · iexact HO
  · ipureintro
    repeat (refine mem_ins rfl ?_)
    exact hW'

end Cert.Proof.KB.Pass2

end
-- ==== Proof.Pass2BD.lean ====
import proofs.«210783_g59777354826199_cont_9to1_m_168_18_alg».proof.Proof.SetupB
import proofs.«210783_g59777354826199_cont_9to1_m_168_18_alg».proof.Proof.Pass2BA
import proofs.«210783_g59777354826199_cont_9to1_m_168_18_alg».proof.Proof.Pass2BB
import proofs.«210783_g59777354826199_cont_9to1_m_168_18_alg».proof.Proof.Pass2BC
import proofs.«210783_g59777354826199_cont_9to1_m_168_18_alg».proof.Proof.Pass2BT

noncomputable section

namespace Cert.Proof.KB.Pass2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (d : Dev nD) (L : grid2.Coords)

/-- The offsets of the two chunks issued before the outer loop. -/
abbrev oeP0 : Fin 16 → Fin 1 → ℕ := fun c => k2_off2 L (BitVec.ofNat 32 (2097152 * c.val))
theorem heP0 : ∀ c a, oeP0 L c a + S2048.size a ≤ S33554432.size a := fun c => k2_off2_inb L c
abbrev oeP1 : Fin 16 → Fin 1 → ℕ := fun c => k2_off4 L (BitVec.ofNat 32 (2097152 * c.val))
theorem heP1 : ∀ c a, oeP1 L c a + S2048.size a ≤ S33554432.size a := fun c => k2_off4_inb L c

variable [∀ e, Nonempty (Elt F e)] [FloatOps F]

/-- The zeroing loop's invariant: the accumulator scratch held whole at some contents. -/
def invZ (_ : Nat) (_ : BitVec 32) : sProp 𝕄 :=
  iprop(∃ f, ((aT).view.loc (thr d L) ↦{fullShare} f))

/-- The body of the second vector-subcore kernel on the tile of grid point L: every thread of the launch terminates
    holding what it held, the tile's row of the result at some contents. -/
theorem body
    (hF : (K (F := F)).Facts) (q : PosShare TreeShare)
    (e : Buf (Elt F) ((eW).view.loc (thr d L))) (t : Buf (Elt F) ((tW).view.loc (thr d L)))
    (k : Buf (Elt F) ((kW).view.loc (thr d L))) (mt : Buf (Elt F) ((mW).view.loc (thr d L)))
    (o : Buf (Elt F) ((oRow L).view.loc (thr d L)))
    (htr : ∀ j, (t j : BitVec 32).toNat ≤ 63)
    (O : CellTallies nD τ sig (HIx 2)) (W : Waits sig (HIx 2)) (hO : ∀ g, O g none = 0) :
    (iprop(levAts (K (F := F)).L (K (F := F)).lev
        ∗ (((eW).view.loc (thr d L) ↦{q} e) ∗ ((tW).view.loc (thr d L) ↦{q} t) ∗ ((kW).view.loc (thr d L) ↦{q} k)
            ∗ ((mW).view.loc (thr d L) ↦{q} mt) ∗ ((oRow L).view.loc (thr d L) ↦[(oRow L).view.set]{fullShare} o))
        ∗ scopedBufs (thr d L) ∗ scopedSems0 (thr d L) ∗ owes (thr d L) O W) : sProp 𝕄)
      ⊢ wp frame (wpE (defs₀ (F := F)) 𝒱₀ (thr d L) none) Set.univ
          (cc2__sc_pass2 L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1)
          fun _ => iprop((((eW).view.loc (thr d L) ↦{q} e) ∗ ((tW).view.loc (thr d L) ↦{q} t) ∗ ((kW).view.loc (thr d L) ↦{q} k)
            ∗ ((mW).view.loc (thr d L) ↦{q} mt) ∗ ∃ o', ((oRow L).view.loc (thr d L) ↦[(oRow L).view.set]{fullShare} o'))
            ∗ scopedBufs (thr d L) ∗ scopedSems0 (thr d L)
            ∗ ∃ W', ⌜∀ p ∈ W', p ∈ W ∨ p.2 = none⌝ ∗ owes (thr d L) O W') := by
  rw [cc2__sc_pass2_eq_skeleton]; unfold cc2__sc_pass2_skel
  rw [(K (F := F)).scopedBufs_V hF d (cV L) (jV L), SparseCore.Cfg.scopedSems0_V (Val := Elt F) d (cV L) (jV L), ownSems0_V, ownBufs_V]
  iintro ⟨#Hlv, ⟨He, Ht, Hk, Hm, Ho⟩, ⟨⟨%fx, Hx⟩, ⟨%ft, Htb⟩, ⟨%fm, Hmb⟩, ⟨%fmt, Hmt⟩, ⟨%fa, Ha⟩, Hbufs⟩, ⟨Hs5, Hs6, Hc0, Hc1, Hsems⟩, HO⟩
  ihave Hmw := ((K (F := F)).mayWaits_none (thr := thr d L) hO) $$ Hlv
  -- the means table into its scratch; the accumulator zeroed
  sl_exec
  sl_for (invZ (F := F) d L) $$ [Ha]
  case region =>
    intro kk _
    unfold invZ
    iintro ⟨%f, Ha⟩
    sl_exec
    sl_step
    iexists _; iexact Ha
  · unfold invZ; iexists _; iexact Ha
  iintro %_ HI
  unfold invZ
  icases HI with ⟨%fa', Ha⟩
  -- each input's share halved, one half per semaphore; the staging buffers as their rows
  ihave He2 := (pointsTo_share (PosShare.mem_left_op_right q)).1 $$ He
  icases He2 with ⟨He0, He1⟩
  ihave Ht2 := (pointsTo_share (PosShare.mem_left_op_right q)).1 $$ Ht
  icases Ht2 with ⟨Ht0, Ht1⟩
  ihave Hk2 := (pointsTo_share (PosShare.mem_left_op_right q)).1 $$ Hk
  icases Hk2 with ⟨Hk0, Hk1⟩
  ihave Hx' := (Entails.of_eq (xB_rows d L fx)) $$ Hx
  icases Hx' with ⟨⟨Hx0_0, Hx0_1, Hx0_2, Hx0_3, Hx0_4, Hx0_5, Hx0_6, Hx0_7, Hx0_8, Hx0_9, Hx0_10, Hx0_11, Hx0_12, Hx0_13, Hx0_14, Hx0_15⟩, ⟨Hx1_0, Hx1_1, Hx1_2, Hx1_3, Hx1_4, Hx1_5, Hx1_6, Hx1_7, Hx1_8, Hx1_9, Hx1_10, Hx1_11, Hx1_12, Hx1_13, Hx1_14, Hx1_15⟩⟩
  ihave Ht' := (Entails.of_eq (tB_rows d L ft)) $$ Htb
  icases Ht' with ⟨HT0, HT1⟩
  ihave Hm' := (Entails.of_eq (mB_rows d L fm)) $$ Hmb
  icases Hm' with ⟨HM0, HM1⟩
  -- the first chunk's batch on the first semaphore, the second side set aside
  ihave He1 := (Entails.of_eq (Hid_eq _).symm) $$ He1
  ihave Ht1 := (Entails.of_eq (Hid_eq _).symm) $$ Ht1
  ihave Hk1 := (Entails.of_eq (Hid_eq _).symm) $$ Hk1
  ihave Hs6 := (Entails.of_eq (Hid_eq _).symm) $$ Hs6
  imod (Transfers.batch_alloc' (Lvl := ℕ) (countersEmb (U := UU)) (thr d L) (none : HIx 2) NC
    (Dv (F := F) d L 0 q.left e t k (oeP0 L) (heP0 L) (k2_off3 L) (k2_off3_inb L))
    (sm := .dma cc2_scratch5.sem) (E := Set.univ)) $$ [Hs5] with HB0
  · iexact Hs5
  sl_exec
  -- the second chunk's batch on the second semaphore, the first side set aside
  ihave He0 := (Entails.of_eq (Hid_eq _).symm) $$ He0
  ihave He1 := (Entails.of_eq (Hid_eq _)) $$ He1
  ihave Ht1 := (Entails.of_eq (Hid_eq _)) $$ Ht1
  ihave Hk1 := (Entails.of_eq (Hid_eq _)) $$ Hk1
  ihave Hs6 := (Entails.of_eq (Hid_eq _)) $$ Hs6
  imod (Transfers.batch_alloc' (Lvl := ℕ) (countersEmb (U := UU)) (thr d L) (none : HIx 2) NC
    (Dv (F := F) d L 1 q.right e t k (oeP1 L) (heP1 L) (k2_off5 L) (k2_off5_inb L))
    (sm := .dma cc2_scratch6.sem) (E := Set.univ)) $$ [Hs6] with HB1
  · iexact Hs6
  sl_exec
  ihave He1 := (Entails.of_eq (Hid_eq _).symm) $$ He1
  -- the outer loop
  sl_for (invO (F := F) d L q e t k O W) $$ [Hmw HB0 He0 Ht0 Hk0 HB1 He1 Ht1 Hk1 Hmt Ha HO]
  case region =>
    intro kk acc
    exact outer_trip d L q e t k htr O W _ _ _ _ kk acc _ _
  · unfold invO sideO
    isplitl [Hmw]; · iexact Hmw
    isplitl [HB0 He0 Ht0 Hk0]
    · iexists (oeP0 L), (heP0 L), (k2_off3 L), (k2_off3_inb L)
      isplitr; · ipureintro; exact ord2 L
      isplitl [HB0]; · iexact HB0
      isplitl [He0]; · iexact He0
      isplitl [Ht0]; · iexact Ht0
      iexact Hk0
    isplitl [HB1 He1 Ht1 Hk1]
    · iexists (oeP1 L), (heP1 L), (k2_off5 L), (k2_off5_inb L)
      isplitr; · ipureintro; exact ord4 L
      isplitl [HB1]; · iexact HB1
      isplitl [He1]; · iexact He1
      isplitl [Ht1]; · iexact Ht1
      iexact Hk1
    isplitl [Hmt]; · iexists _; iexact Hmt
    isplitl [Ha]; · iexists _; iexact Ha
    iexists _; isplitr
    rotate_left
    · iexact HO
    · ipureintro
      repeat (refine mem_ins rfl ?_)
      exact fun p hp => .inl hp
  iintro %_ HI
  unfold invO sideO
  icases HI with ⟨-, ⟨%oe0, %he0, %ot0, %ht0, %ho0, HB0, HeR0, HtR0, HkR0⟩, ⟨%oe1, %he1, %ot1, %ht1, %ho1, HB1, HeR1, HtR1, HkR1⟩, ⟨%fmt2, Hmt⟩, ⟨%fa2, Ha⟩, %W', %hW', HO⟩
  -- the last two chunks drained; the accumulator copied to the tile's row of the result
  sl_exec
  ihave HeR0 := (Entails.of_eq (Hid_eq _)) $$ HeR0
  ihave He0 := (restE_join d L q.left e oe0 he0 ho0) $$ [HeR0 HB0_src0 HB0_src1 HB0_src2 HB0_src3 HB0_src4 HB0_src5 HB0_src6 HB0_src7 HB0_src8 HB0_src9 HB0_src10 HB0_src11 HB0_src12 HB0_src13 HB0_src14 HB0_src15]
  · isplitl [HeR0]; · iexact HeR0
    isplitl [HB0_src0]; · iexact HB0_src0
    isplitl [HB0_src1]; · iexact HB0_src1
    isplitl [HB0_src2]; · iexact HB0_src2
    isplitl [HB0_src3]; · iexact HB0_src3
    isplitl [HB0_src4]; · iexact HB0_src4
    isplitl [HB0_src5]; · iexact HB0_src5
    isplitl [HB0_src6]; · iexact HB0_src6
    isplitl [HB0_src7]; · iexact HB0_src7
    isplitl [HB0_src8]; · iexact HB0_src8
    isplitl [HB0_src9]; · iexact HB0_src9
    isplitl [HB0_src10]; · iexact HB0_src10
    isplitl [HB0_src11]; · iexact HB0_src11
    isplitl [HB0_src12]; · iexact HB0_src12
    isplitl [HB0_src13]; · iexact HB0_src13
    isplitl [HB0_src14]; · iexact HB0_src14
    iexact HB0_src15
  ihave Ht0 := (Entails.of_eq (show (((tSl ot0 ht0).view.loc (thr d L) ↦{q.left} t : sProp 𝕄) = ((tW).view.loc (thr d L) ↦{q.left} t)) from rfl)) $$ HtR0
  ihave Hk0 := (Entails.of_eq (show (((kSl ot0 ht0).view.loc (thr d L) ↦{q.left} k : sProp 𝕄) = ((kW).view.loc (thr d L) ↦{q.left} k)) from rfl)) $$ HkR0
  ihave HeR1 := (Entails.of_eq (Hid_eq _)) $$ HeR1
  ihave He1 := (restE_join d L q.right e oe1 he1 ho1) $$ [HeR1 HB1_src0 HB1_src1 HB1_src2 HB1_src3 HB1_src4 HB1_src5 HB1_src6 HB1_src7 HB1_src8 HB1_src9 HB1_src10 HB1_src11 HB1_src12 HB1_src13 HB1_src14 HB1_src15]
  · isplitl [HeR1]; · iexact HeR1
    isplitl [HB1_src0]; · iexact HB1_src0
    isplitl [HB1_src1]; · iexact HB1_src1
    isplitl [HB1_src2]; · iexact HB1_src2
    isplitl [HB1_src3]; · iexact HB1_src3
    isplitl [HB1_src4]; · iexact HB1_src4
    isplitl [HB1_src5]; · iexact HB1_src5
    isplitl [HB1_src6]; · iexact HB1_src6
    isplitl [HB1_src7]; · iexact HB1_src7
    isplitl [HB1_src8]; · iexact HB1_src8
    isplitl [HB1_src9]; · iexact HB1_src9
    isplitl [HB1_src10]; · iexact HB1_src10
    isplitl [HB1_src11]; · iexact HB1_src11
    isplitl [HB1_src12]; · iexact HB1_src12
    isplitl [HB1_src13]; · iexact HB1_src13
    isplitl [HB1_src14]; · iexact HB1_src14
    iexact HB1_src15
  ihave Ht1 := (Entails.of_eq (show (((tSl ot1 ht1).view.loc (thr d L) ↦{q.right} t : sProp 𝕄) = ((tW).view.loc (thr d L) ↦{q.right} t)) from rfl)) $$ HtR1
  ihave Hk1 := (Entails.of_eq (show (((kSl ot1 ht1).view.loc (thr d L) ↦{q.right} k : sProp 𝕄) = ((kW).view.loc (thr d L) ↦{q.right} k)) from rfl)) $$ HkR1
  sl_step
  -- the inputs' shares whole again, the tile's row of the result at what the copy left
  isplitl [He0 He1 Ht0 Ht1 Hk0 Hk1 Hm Ho]
  · isplitl [He0 He1]
    · iapply ((pointsTo_share (PosShare.mem_left_op_right q)).2)
      isplitl [He0]; · iexact He0
      iexact He1
    isplitl [Ht0 Ht1]
    · iapply ((pointsTo_share (PosShare.mem_left_op_right q)).2)
      isplitl [Ht0]; · iexact Ht0
      iexact Ht1
    isplitl [Hk0 Hk1]
    · iapply ((pointsTo_share (PosShare.mem_left_op_right q)).2)
      isplitl [Hk0]; · iexact Hk0
      iexact Hk1
    isplitl [Hm]; · iexact Hm
    iexists _; iexact Ho
  -- the scratch buffers: the staging buffers from their rows
  isplitl [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB0_dst16 HB0_dst17 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15 HB1_dst16 HB1_dst17 Hmt Ha Hbufs]
  · isplitl [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15]
    · iapply (xB_join d L)
      isplitl [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15]
      · isplitl [HB0_dst0]; · iexists _; iexact HB0_dst0
        isplitl [HB0_dst1]; · iexists _; iexact HB0_dst1
        isplitl [HB0_dst2]; · iexists _; iexact HB0_dst2
        isplitl [HB0_dst3]; · iexists _; iexact HB0_dst3
        isplitl [HB0_dst4]; · iexists _; iexact HB0_dst4
        isplitl [HB0_dst5]; · iexists _; iexact HB0_dst5
        isplitl [HB0_dst6]; · iexists _; iexact HB0_dst6
        isplitl [HB0_dst7]; · iexists _; iexact HB0_dst7
        isplitl [HB0_dst8]; · iexists _; iexact HB0_dst8
        isplitl [HB0_dst9]; · iexists _; iexact HB0_dst9
        isplitl [HB0_dst10]; · iexists _; iexact HB0_dst10
        isplitl [HB0_dst11]; · iexists _; iexact HB0_dst11
        isplitl [HB0_dst12]; · iexists _; iexact HB0_dst12
        isplitl [HB0_dst13]; · iexists _; iexact HB0_dst13
        isplitl [HB0_dst14]; · iexists _; iexact HB0_dst14
        iexists _; iexact HB0_dst15
      · isplitl [HB1_dst0]; · iexists _; iexact HB1_dst0
        isplitl [HB1_dst1]; · iexists _; iexact HB1_dst1
        isplitl [HB1_dst2]; · iexists _; iexact HB1_dst2
        isplitl [HB1_dst3]; · iexists _; iexact HB1_dst3
        isplitl [HB1_dst4]; · iexists _; iexact HB1_dst4
        isplitl [HB1_dst5]; · iexists _; iexact HB1_dst5
        isplitl [HB1_dst6]; · iexists _; iexact HB1_dst6
        isplitl [HB1_dst7]; · iexists _; iexact HB1_dst7
        isplitl [HB1_dst8]; · iexists _; iexact HB1_dst8
        isplitl [HB1_dst9]; · iexists _; iexact HB1_dst9
        isplitl [HB1_dst10]; · iexists _; iexact HB1_dst10
        isplitl [HB1_dst11]; · iexists _; iexact HB1_dst11
        isplitl [HB1_dst12]; · iexists _; iexact HB1_dst12
        isplitl [HB1_dst13]; · iexists _; iexact HB1_dst13
        isplitl [HB1_dst14]; · iexists _; iexact HB1_dst14
        iexists _; iexact HB1_dst15
    isplitl [HB0_dst16 HB1_dst16]
    · iapply (tB_join d L)
      isplitl [HB0_dst16]; · iexists _; iexact HB0_dst16
      iexists _; iexact HB1_dst16
    isplitl [HB0_dst17 HB1_dst17]
    · iapply (mB_join d L)
      isplitl [HB0_dst17]; · iexists _; iexact HB0_dst17
      iexists _; iexact HB1_dst17
    isplitl [Hmt]; · iexists _; iexact Hmt
    isplitl [Ha]; · iexists _; iexact Ha
    iexact Hbufs
  -- the semaphores' counters at zero
  isplitl [HB0 HB1 Hc0 Hc1 Hsems]
  · isplitl [HB0]; · iexact HB0
    isplitl [HB1]; · iexact HB1
    isplitl [Hc0]; · iexact Hc0
    isplitl [Hc1]; · iexact Hc1
    iexact Hsems
  iexists _; isplitr
  rotate_left
  · iexact HO
  · ipureintro
    repeat (refine mem_ins rfl ?_)
    exact hW'

end Cert.Proof.KB.Pass2

end
-- ==== Proof.Bodies.lean ====
/-
  The four tile bodies the frames rest on: each kernel's body proved once at a symbolic tile, at each program.
-/
import proofs.«210783_g59777354826199_cont_9to1_m_168_18_alg».proof.Proof.Frames
import proofs.«210783_g59777354826199_cont_9to1_m_168_18_alg».proof.Proof.Pass1I
import proofs.«210783_g59777354826199_cont_9to1_m_168_18_alg».proof.Proof.Pass1B
import proofs.«210783_g59777354826199_cont_9to1_m_168_18_alg».proof.Proof.Pass2ID
import proofs.«210783_g59777354826199_cont_9to1_m_168_18_alg».proof.Proof.Pass2BD

noncomputable section

namespace Cert.Proof

open Idealize.ShloMosaic Idealize.SL.Sem

theorem body0_ideal : KI.Body0 (F := Ideal) :=
  fun d L q e t k ht O W hO => KI.Pass1.body d L q e t k ht O W hO
theorem body1_ideal : KI.Body1 (F := Ideal) :=
  fun d L q e t k mt o htr O W hO => KI.Pass2.body d L KI.facts q e t k mt o htr O W hO
theorem body0_bits : KB.Body0 (F := Bits) :=
  fun d L q e t k ht O W hO => KB.Pass1.body d L q e t k ht O W hO
theorem body1_bits : KB.Body1 (F := Bits) :=
  fun d L q e t k mt o htr O W hO => KB.Pass2.body d L KB.facts q e t k mt o htr O W hO

end Cert.Proof

end
-- ==== Proof.LaunchV.lean ====
/-
  Toward the value claim: the handshakes' payloads with the results named. As the frame's payloads, but a tile hands back
  its rows of the partial-result arrays AT NAMED CONTENTS (whole-array functions dS, dC for the first call, dR for the
  second, each read on the tile's own row), and in the second call it is handed its read share of the means table at
  named contents cM.
-/
import proofs.«210783_g59777354826199_cont_9to1_m_168_18_alg».proof.Proof.WrapI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 2) (Elt F) ℕ UU ℕ

variable (cE : (d : Dev nD) → Buf (Elt F) (aE d)) (cT : (d : Dev nD) → Buf (Elt F) (aT d)) (cK : (d : Dev nD) → Buf (Elt F) (aK d))
  (cM : (d : Dev nD) → Buf (Elt F) (aM d))
  (dS : (d : Dev nD) → Buf (Elt F) (aS d)) (dC : (d : Dev nD) → Buf (Elt F) (aC d)) (dR : (d : Dev nD) → Buf (Elt F) (aR d))

/-- First call, handed back: the shares, and row `j` of the partial sums and counts at the named contents. -/
def done0 (d : Dev nD) (j : Fin 32) : sProp 𝕄 :=
  iprop(inToks cE cT cK d j ∗ (aS d ↦[(rowS j).set]{fullShare} dS d) ∗ (aC d ↦[(rowC j).set]{fullShare} dC d))

/-- Second call, handed out: the shares, the means table's share at the named contents, row `j` of the partial terms. -/
def go1 (d : Dev nD) (j : Fin 32) : sProp 𝕄 :=
  iprop(inToks cE cT cK d j ∗ (aM d ↦{shareTok fullShare 32 j} cM d) ∗ (∃ f, aR d ↦[(rowC j).set]{fullShare} f))

/-- Second call, handed back: the row at the named contents. -/
def done1 (d : Dev nD) (j : Fin 32) : sProp 𝕄 :=
  iprop(inToks cE cT cK d j ∗ (aM d ↦{shareTok fullShare 32 j} cM d) ∗ (aR d ↦[(rowC j).set]{fullShare} dR d))

/-- The handshakes' payloads with the results named. -/
def PV : (K (F := F)).Pay (nD := nD) (Val := Elt F) (Name := ℕ) (U := UU) where
  st := fun q d c => match q with
    | 0 => bigSep Finset.univ fun i : Fin 16 => task0 cE cT cK d (wid c.val i.val c.isLt i.isLt)
    | 1 => bigSep Finset.univ fun i : Fin 16 => go1 cE cT cK cM d (wid c.val i.val c.isLt i.isLt)
  dn := fun q d c => match q with
    | 0 => bigSep Finset.univ fun i : Fin 16 => done0 cE cT cK dS dC d (wid c.val i.val c.isLt i.isLt)
    | 1 => bigSep Finset.univ fun i : Fin 16 => done1 cE cT cK cM dR d (wid c.val i.val c.isLt i.isLt)
  go := fun q d c i => match q with
    | 0 => task0 cE cT cK d (wid c.val i.val c.isLt i.isLt)
    | 1 => go1 cE cT cK cM d (wid c.val i.val c.isLt i.isLt)
  td := fun q d c i => match q with
    | 0 => done0 cE cT cK dS dC d (wid c.val i.val c.isLt i.isLt)
    | 1 => done1 cE cT cK cM dR d (wid c.val i.val c.isLt i.isLt)
  x := fun _ _ => iprop(emp)

instance done0_storable (d : Dev nD) (j : Fin 32) : BI.Storable (upEmb : UEmb _ 𝕄) (done0 cE cT cK dS dC d j) := by
  unfold done0 inToks; infer_instance
instance go1_storable (d : Dev nD) (j : Fin 32) : BI.Storable (upEmb : UEmb _ 𝕄) (go1 cE cT cK cM d j) := by
  unfold go1 inToks; infer_instance
instance done1_storable (d : Dev nD) (j : Fin 32) : BI.Storable (upEmb : UEmb _ 𝕄) (done1 cE cT cK cM dR d j) := by
  unfold done1 inToks; infer_instance

instance PV_storable : (PV (F := F) cE cT cK cM dS dC dR).IsStorable where
  st q d c := match q with
    | 0 => (inferInstance : BI.Storable (upEmb : UEmb _ 𝕄) (bigSep Finset.univ fun i : Fin 16 => task0 cE cT cK d (wid c.val i.val c.isLt i.isLt)))
    | 1 => (inferInstance : BI.Storable (upEmb : UEmb _ 𝕄) (bigSep Finset.univ fun i : Fin 16 => go1 cE cT cK cM d (wid c.val i.val c.isLt i.isLt)))
  dn q d c := match q with
    | 0 => (inferInstance : BI.Storable (upEmb : UEmb _ 𝕄) (bigSep Finset.univ fun i : Fin 16 => done0 cE cT cK dS dC d (wid c.val i.val c.isLt i.isLt)))
    | 1 => (inferInstance : BI.Storable (upEmb : UEmb _ 𝕄) (bigSep Finset.univ fun i : Fin 16 => done1 cE cT cK cM dR d (wid c.val i.val c.isLt i.isLt)))
  go q d c i := match q with
    | 0 => (inferInstance : BI.Storable (upEmb : UEmb _ 𝕄) (task0 cE cT cK d (wid c.val i.val c.isLt i.isLt)))
    | 1 => (inferInstance : BI.Storable (upEmb : UEmb _ 𝕄) (go1 cE cT cK cM d (wid c.val i.val c.isLt i.isLt)))
  td q d c i := match q with
    | 0 => (inferInstance : BI.Storable (upEmb : UEmb _ 𝕄) (done0 cE cT cK dS dC d (wid c.val i.val c.isLt i.isLt)))
    | 1 => (inferInstance : BI.Storable (upEmb : UEmb _ 𝕄) (done1 cE cT cK cM dR d (wid c.val i.val c.isLt i.isLt)))

theorem vecSplit0V : (K (F := F)).VecSplit' (PV cE cT cK cM dS dC dR) 0 := by
  intro d c
  show (bigSep Finset.univ fun i : Fin 16 => task0 cE cT cK d (wid c.val i.val c.isLt i.isLt))
    ⊢ |={Set.univ}=> iprop((bigSep Finset.univ fun i : Fin 16 => task0 cE cT cK d (wid c.val i.val c.isLt i.isLt))
      ∗ ((bigSep Finset.univ fun i : Fin 16 => done0 cE cT cK dS dC d (wid c.val i.val c.isLt i.isLt))
          -∗ (bigSep Finset.univ fun i : Fin 16 => done0 cE cT cK dS dC d (wid c.val i.val c.isLt i.isLt))))
  iintro H; imodintro
  isplitl [H]; · iexact H
  iintro H; iexact H

theorem vecSplit1V : (K (F := F)).VecSplit' (PV cE cT cK cM dS dC dR) 1 := by
  intro d c
  show (bigSep Finset.univ fun i : Fin 16 => go1 cE cT cK cM d (wid c.val i.val c.isLt i.isLt))
    ⊢ |={Set.univ}=> iprop((bigSep Finset.univ fun i : Fin 16 => go1 cE cT cK cM d (wid c.val i.val c.isLt i.isLt))
      ∗ ((bigSep Finset.univ fun i : Fin 16 => done1 cE cT cK cM dR d (wid c.val i.val c.isLt i.isLt))
          -∗ (bigSep Finset.univ fun i : Fin 16 => done1 cE cT cK cM dR d (wid c.val i.val c.isLt i.isLt))))
  iintro H; imodintro
  isplitl [H]; · iexact H
  iintro H; iexact H

end Cert.Proof.KI

end
-- ==== Proof.SplitV.lean ====
/-
  Toward the value claim: the arrays dealt to the workers and collected back WITH the results' contents: a 32-row array
  at named contents is its rows at those contents.
-/
import proofs.«210783_g59777354826199_cont_9to1_m_168_18_alg».proof.Proof.LaunchV

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig (HIx 2) (Elt F) ℕ UU ℕ

variable (cE : (d : Dev nD) → Buf (Elt F) (aE d)) (cT : (d : Dev nD) → Buf (Elt F) (aT d)) (cK : (d : Dev nD) → Buf (Elt F) (aK d))
  (cM : (d : Dev nD) → Buf (Elt F) (aM d))
  (dS : (d : Dev nD) → Buf (Elt F) (aS d)) (dC : (d : Dev nD) → Buf (Elt F) (aC d)) (dR : (d : Dev nD) → Buf (Elt F) (aR d))

omit [FloatOps F] in
/-- What comes back of the first call: the three inputs whole again and the two result arrays at the named contents. -/
theorem call0V_eq (d : Dev nD) :
    (iprop((aE d ↦{fullShare} cE d) ∗ (aT d ↦{fullShare} cT d) ∗ (aK d ↦{fullShare} cK d)
        ∗ (aS d ↦{fullShare} dS d) ∗ (aC d ↦{fullShare} dC d)) : sProp 𝕄)
      = iprop(rem3 cE cT cK d ∗ bigSep Finset.univ fun c : Fin 2 => bigSep Finset.univ fun i : Fin 16 => done0 cE cT cK dS dC d (wid c.val i.val c.isLt i.isLt)) := by
  rw [toks_workers_eq (cE d), toks_workers_eq (cT d), toks_workers_eq (cK d), rowsS_eq d (dS d), rowsC_eq d (dC d),
    bigSep_workers (fun j => (aS d ↦[(rowS j).set]{fullShare} dS d : sProp 𝕄)), bigSep_workers (fun j => (aC d ↦[(rowC j).set]{fullShare} dC d : sProp 𝕄))]
  unfold done0 inToks rem3
  simp only [bigSep_sep']
  exact regroup8 _ _ _ _ _ _ _ _

/-- The second call's operands with the means table's shares at the named contents. -/
theorem call1V_eq (d : Dev nD) :
    (iprop(((bigSep Finset.univ fun c : Fin 2 => bigSep Finset.univ fun i : Fin 16 => inToks cE cT cK d (wid c.val i.val c.isLt i.isLt)))
        ∗ (aM d ↦{fullShare} cM d) ∗ (∃ g : Buf (Elt F) (aR d), aR d ↦{fullShare} g)) : sProp 𝕄)
      = iprop((aM d ↦{shareDrop fullShare 32} cM d)
          ∗ bigSep Finset.univ fun c : Fin 2 => bigSep Finset.univ fun i : Fin 16 => go1 cE cT cK cM d (wid c.val i.val c.isLt i.isLt)) := by
  rw [toks_workers_eq (cM d), (rowsR_workers (F := F) d).1.antisymm (rowsR_workers (F := F) d).2]
  unfold go1
  simp only [bigSep_sep']
  exact regroup4 _ _ _ _

omit [FloatOps F] in
/-- What comes back of the second call: the result array at the named contents (the read shares are not needed again). -/
theorem call1V_elim (d : Dev nD) :
    (bigSep Finset.univ fun c : Fin 2 => bigSep Finset.univ fun i : Fin 16 => done1 cE cT cK cM dR d (wid c.val i.val c.isLt i.isLt))
      ⊢ (aR d ↦{fullShare} dR d : sProp 𝕄) := by
  rw [rowsR_eq d (dR d), bigSep_workers (fun j => (aR d ↦[(rowC j).set]{fullShare} dR d : sProp 𝕄))]
  unfold done1
  simp only [bigSep_sep']
  iintro ⟨-, -, H⟩
  iexact H

end Cert.Proof.KI

end
-- ==== Proof.RunV.lean ====
/-
  Toward the value claim: the launch theorem applied with the results named — the program's run, from the tile obligations
  at the value payloads and @main's proof ending with the result array at named contents, ends with the result array
  there and the arguments unchanged.
-/
import proofs.«210783_g59777354826199_cont_9to1_m_168_18_alg».proof.Proof.SplitV

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) (ρ : Dev nD → PrngReg)
variable (cE : (d : Dev nD) → Buf (Elt F) (aE d)) (cT : (d : Dev nD) → Buf (Elt F) (aT d)) (cK : (d : Dev nD) → Buf (Elt F) (aK d))
  (cM : (d : Dev nD) → Buf (Elt F) (aM d))
  (dS : (d : Dev nD) → Buf (Elt F) (aS d)) (dC : (d : Dev nD) → Buf (Elt F) (aC d)) (dR : (d : Dev nD) → Buf (Elt F) (aR d))
  (kv : (d : Dev nD) → Buf (Elt F) (rLoc d))

theorem hu₀V : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (PV cE cT cK cM dS dC dR).x q thr) :=
  hu₀ cE cT cK

/-- The arguments at their launch contents and the result at the named contents. -/
abbrev FINV (d : Dev nD) : sProp 𝕄 := iprop(FIN m d ∗ (rLoc d ↦{fullShare} kv d))

def fqV (d : Dev nD) (s' : Phys nD τ sig (Elt F)) : Prop := fq m d s' ∧ s'.mem.mem (rLoc d) = kv d

theorem hfinV (d : Dev nD) (s' : Phys nD τ sig (Elt F)) : iprop(FINV m kv d ∗ SI s') ⊢ (⌜fqV m kv d s'⌝ : sProp 𝕄) := by
  iintro ⟨⟨HF, Hr⟩, HSI⟩
  ihave %hr := (SI_pointsTo_agree (st := s') (ℓ := rLoc d) (I := Finset.univ) (q := fullShare) (f := kv d)) $$ [HSI Hr]
  · isplitl [HSI] <;> iassumption
  ihave %hf := (hfin m d s') $$ [HF HSI]
  · isplitl [HF] <;> iassumption
  ipureintro
  exact ⟨hf, funext fun i => hr i (Finset.mem_univ i)⟩

def QCV : PUnit × MemSt nD τ sig (Elt F) → Prop := fun r => ∀ c : Dev nD,
  (r.2.mem (xLoc0 c) = m (xLoc0 c) ∧ r.2.mem (xLoc1 c) = m (xLoc1 c) ∧ r.2.mem (xLoc2 c) = m (xLoc2 c)) ∧ r.2.mem (rLoc c) = kv c

theorem run_ofV [FloatOps F] [∀ e, Nonempty (Elt F e)]
    (htile0 : (K (F := F)).TileObl (D (F := F)) 𝒱 (PV cE cT cK cM dS dC dR) v₀ 0)
    (htile1 : (K (F := F)).TileObl (D (F := F)) 𝒱 (PV cE cT cK cM dS dC dR) v₀ 1)
    (hmain : ∀ (κ : GSem nD τ sig → ℕ) (d : Dev nD),
      iprop((K (F := F)).ctx EH (PV cE cT cK cM dS dC dR) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 2 ∗ FINV m kv d)) :
    θ_run (Cert.KernelIdeal.defs (F := F)) (Cert.KernelIdeal.threads (F := F)) ⟨m, fun _ => 0, ρ⟩ (QCV m kv) :=
  SparseCore.Cfg.θ_run_sc (K := K (F := F)) (D := D (F := F)) (𝒱 := 𝒱) (EH := EH) (P := PV cE cT cK cM dS dC dR) facts v₀
    (fun q hq => match q with | 0 => nomatch hq | 1 => nomatch hq)
    (fun q _ => match q with | 0 => htile0 | 1 => htile1)
    (fun q _ => match q with | 0 => SparseCore.Cfg.VecSplit.of_plain (vecSplit0V cE cT cK cM dS dC dR) | 1 => SparseCore.Cfg.VecSplit.of_plain (vecSplit1V cE cT cK cM dS dC dR))
    m ρ main (G (F := F)) (FINV m kv) (u₀ (F := F)) (sep_elim_left.trans (hu₀V cE cT cK cM dS dC dR)) hmain (fqV m kv) (hfinV m kv) (QCV m kv) (fun _ h => h)

end Cert.Proof.KI

end
-- ==== Proof.MainV.lean ====
/-
  Toward the value claim: @main with the contents named — the first call leaves the partial sums and counts at the
  named contents, the first combining call the means table and the scalar at given functions of them, the flattened table
  is what the second call's tiles read, the second call leaves the partial terms at the named contents, the second
  combining call the result at a given function; the reshaped result is the program's.
-/
import proofs.«210783_g59777354826199_cont_9to1_m_168_18_alg».proof.Proof.RunV

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_sdiff_result wp_hlo_within)
open Idealize.ShloMosaic.Transfers (shareTok shareDrop)

variable {F : FTy → Type} [FloatOps F]

local notation "𝕄" => MT nD τ sig (HIx 2) (Elt F) ℕ UU ℕ

variable (m : (ℓ : Loc nD τ sig) → Buf (Elt F) ℓ) (ρ : Dev nD → PrngReg)
variable (dS : (d : Dev nD) → Buf (Elt F) (aS d)) (dC : (d : Dev nD) → Buf (Elt F) (aC d)) (dR : (d : Dev nD) → Buf (Elt F) (aR d))
  (MEANSf : (d : Dev nD) → Buf (Elt F) (aS d) → Buf (Elt F) (aC d) → Buf (Elt F) (a40 d))
  (SCALf : (d : Dev nD) → Buf (Elt F) (aS d) → Buf (Elt F) (aC d) → Buf (Elt F) (a41 d))
  (OUTf : (d : Dev nD) → Buf (Elt F) (aR d) → Buf (Elt F) (aC d) → Buf (Elt F) (a41 d) → Buf (Elt F) (a7 d))

/-- The means table as the second call's tiles read it: the first combining call's table, flattened. -/
def cMV (d : Dev nD) : Buf (Elt F) (aM d) :=
  (op5 (F := F)).result (V2of m d (r main_v4_0) (r main_v5) (MEANSf d (dS d) (dC d)) (V3 m d (r main_v5))) (r main_v5)

/-- The program's result: the second combining call's, reshaped. -/
def kvV (d : Dev nD) : Buf (Elt F) (rLoc d) :=
  (op8 (F := F)).result (V2of m d (r main_v7) (r main_v8) (OUTf d (dR d) (dC d) (SCALf d (dS d) (dC d))) (V3 m d (r main_v8))) (r main_v8)

/-- The two combining pallas_calls with their results named. -/
def Reg0V : Prop := ∀ (d : Dev nD) (fS : Buf (Elt F) (aS d)) (fC : Buf (Elt F) (aC d)) (Φ : PUnit → sProp 𝕄),
  iprop(levAts (K (F := F)).L (K (F := F)).lev ∗ boundary (SparseCore.T d) ∗ (aS d ↦{fullShare} fS) ∗ (aC d ↦{fullShare} fC)
      ∗ (∃ g : Buf (Elt F) (a40 d), a40 d ↦{fullShare} g) ∗ (∃ g : Buf (Elt F) (a41 d), a41 d ↦{fullShare} g) ∗ ghostP (F := F) 0 d
      ∗ owesPart (F := F) d 1
      ∗ (iprop(boundary (SparseCore.T d) ∗ (aS d ↦{fullShare} fS) ∗ (aC d ↦{fullShare} fC)
          ∗ (a40 d ↦{fullShare} MEANSf d fS fC) ∗ (a41 d ↦{fullShare} SCALf d fS fC) ∗ owesPart (F := F) d 1) -∗ Φ ⟨⟩))
    ⊢ wp frame (wpE ((K (F := F)).defs (D (F := F))) 𝒱 (SparseCore.T d) none) Set.univ
        (Prog.lift (TpuEff.customCall (SparseCore.inner (Pipeline.entry 0)) ())) Φ

def Reg1V : Prop := ∀ (d : Dev nD) (fR : Buf (Elt F) (aR d)) (fC : Buf (Elt F) (aC d)) (f41 : Buf (Elt F) (a41 d)) (Φ : PUnit → sProp 𝕄),
  iprop(levAts (K (F := F)).L (K (F := F)).lev ∗ boundary (SparseCore.T d) ∗ (aR d ↦{fullShare} fR) ∗ (aC d ↦{fullShare} fC)
      ∗ (a41 d ↦{fullShare} f41) ∗ (∃ g : Buf (Elt F) (a7 d), a7 d ↦{fullShare} g) ∗ ghostP (F := F) 1 d
      ∗ owesPart (F := F) d 2
      ∗ (iprop(boundary (SparseCore.T d) ∗ (aR d ↦{fullShare} fR) ∗ (aC d ↦{fullShare} fC)
          ∗ (a41 d ↦{fullShare} f41) ∗ (a7 d ↦{fullShare} OUTf d fR fC f41) ∗ owesPart (F := F) d 2) -∗ Φ ⟨⟩))
    ⊢ wp frame (wpE ((K (F := F)).defs (D (F := F))) 𝒱 (SparseCore.T d) none) Set.univ
        (Prog.lift (TpuEff.customCall (SparseCore.inner (Pipeline.entry 1)) ())) Φ

theorem hmainV (hreg0 : Reg0V (F := F) MEANSf SCALf) (hreg1 : Reg1V (F := F) OUTf) (κ : GSem nD τ sig → ℕ) (d : Dev nD) :
    iprop((K (F := F)).ctx EH (PV (cE m) (cT m) (cK m) (cMV m dS dC MEANSf) dS dC dR) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FINV m (kvV m dS dC dR SCALf OUTf) d) := by
  unfold SparseCore.Cfg.tcRes
  rw [unscoped_held]
  simp only [main, wp_bind, wp_pure]
  iintro ⟨#Hctx, Hst, ⟨Hb, Hheld, -, -⟩, HG⟩
  iapply (wp_hlo_within 𝒱 (SparseCore.T d) none Set.univ (op := op0) (S := SA) hop0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := SA) hop1 (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := SA) hop2 (V := (op1 (F := F)).result ((op0 (F := F)).result (V0 m d)))) $$ [Hb Hheld]
  · isplitl [Hb]; · iexact Hb
    iexact Hheld
  iintro ⟨Hb, Hheld⟩
  rw [wp_ret]; imodintro
  ihave Hh := (Entails.of_eq (held_SA (F := F) d _)) $$ Hheld
  icases Hh with ⟨Ha0, Ha1, Ha2, HE, HT, HK, HS, HC, H40, H41, HM, HR, H7, H8⟩
  -- the first call: the inputs' read shares and the result rows out to the workers, and back
  ihave Hops := (Entails.of_eq (call0_eq (cE m) (cT m) (cK m) d)) $$ [HE HT HK HS HC]
  · isplitl [HE]; · iexact HE
    isplitl [HT]; · iexact HT
    isplitl [HK]; · iexact HK
    isplitl [HS]; · iexists _; iexact HS
    iexists _; iexact HC
  icases Hops with ⟨Hrem, Htasks⟩
  iapply ((K (F := F)).wp_run (D (F := F)) 𝒱 (EH := EH) (P := PV (cE m) (cT m) (cK m) (cMV m dS dC MEANSf) dS dC dR) κ d 0) $$ [Hst Htasks Hrem Hb HG Ha0 Ha1 Ha2 H40 H41 HM HR H7 H8]
  isplitr; · iexact Hctx
  isplitl [Hst]; · iexact Hst
  isplitl [Htasks]; · iexact Htasks
  iintro ⟨Hst, Hdn⟩
  ihave Hops := (Entails.of_eq (call0V_eq (cE m) (cT m) (cK m) dS dC d).symm) $$ [Hrem Hdn]
  · isplitl [Hrem]; · iexact Hrem
    iexact Hdn
  icases Hops with ⟨HE, HT, HK, HS, HC⟩
  -- the first combining pallas_call
  ihave Hlev := ((K (F := F)).ctx_levAts κ) $$ Hctx
  ihave HG' := (Entails.of_eq (G_eq (F := F) d)) $$ HG
  icases HG' with ⟨HG0, HG1⟩
  ihave Hst' := (Entails.of_eq (tcSt_split (F := F) d 1)) $$ [Hst]
  · iexact Hst
  icases Hst' with ⟨HO, Htail⟩
  iapply (hreg0 d (dS d) (dC d)) $$ [Hlev Hb HS HC H40 H41 HG0 HO Htail HE HT HK Ha0 Ha1 Ha2 HM HR H7 H8 HG1]
  isplitl [Hlev]; · iexact Hlev
  isplitl [Hb]; · iexact Hb
  isplitl [HS]; · iexact HS
  isplitl [HC]; · iexact HC
  isplitl [H40]; · iexists _; iexact H40
  isplitl [H41]; · iexists _; iexact H41
  isplitl [HG0]; · iexact HG0
  isplitl [HO]; · iexact HO
  iintro ⟨Hb, HS, HC, H40, H41, HO⟩
  ihave Hst := (Entails.of_eq (tcSt_split (F := F) d 1).symm) $$ [HO Htail]
  · isplitl [HO]; · iexact HO
    iexact Htail
  -- the means table flattened
  iapply (wp_hlo_within 𝒱 (SparseCore.T d) none Set.univ (op := op5) (S := {r main_v4_0, r main_v5}) hop5'
      (V := V2of m d (r main_v4_0) (r main_v5) (MEANSf d (dS d) (dC d)) (V3 m d (r main_v5)))) $$ [Hb H40 HM]
  · isplitl [Hb]; · iexact Hb
    rw [held_pair d _ _ (by decide), V2of_1, V2of_2 m d _ _ (by decide)]
    isplitl [H40]; · iexact H40
    iexact HM
  iintro ⟨Hb, Hheld⟩
  ihave Hh := (Entails.of_eq (held_pair (F := F) d (r main_v4_0) (r main_v5) (by decide) _)) $$ Hheld
  icases Hh with ⟨H40, HM⟩
  rw [wp_ret]; imodintro
  -- the second call
  ihave Htk := (inToks_intro m d) $$ [HE HT HK]
  · isplitl [HE]; · iexact HE
    isplitl [HT]; · iexact HT
    iexact HK
  ihave Htk2 := (Entails.of_eq (call1V_eq (cE m) (cT m) (cK m) (cMV m dS dC MEANSf) d)) $$ [Htk HM HR]
  · isplitl [Htk]; · iexact Htk
    isplitl [HM]; · iexact HM
    iexists _; iexact HR
  icases Htk2 with ⟨-, Htasks⟩
  iapply ((K (F := F)).wp_run (D (F := F)) 𝒱 (EH := EH) (P := PV (cE m) (cT m) (cK m) (cMV m dS dC MEANSf) dS dC dR) κ d 1) $$ [Hst Htasks Hb HG1 Ha0 Ha1 Ha2 H40 H41 HS HC H7 H8]
  isplitr; · iexact Hctx
  isplitl [Hst]; · iexact Hst
  isplitl [Htasks]; · iexact Htasks
  iintro ⟨Hst, Hdn⟩
  ihave HR := (call1V_elim (cE m) (cT m) (cK m) (cMV m dS dC MEANSf) dR d) $$ [Hdn]
  · iexact Hdn
  -- the second combining pallas_call
  ihave Hst' := (Entails.of_eq (tcSt_split (F := F) d 2)) $$ [Hst]
  · iexact Hst
  icases Hst' with ⟨HO, Htail⟩
  iapply (hreg1 d (dR d) (dC d) (SCALf d (dS d) (dC d))) $$ [Hlev Hb HR HC H41 H7 HG1 HO Htail Ha0 Ha1 Ha2 H8]
  isplitl [Hlev]; · iexact Hlev
  isplitl [Hb]; · iexact Hb
  isplitl [HR]; · iexact HR
  isplitl [HC]; · iexact HC
  isplitl [H41]; · iexact H41
  isplitl [H7]; · iexists _; iexact H7
  isplitl [HG1]; · iexact HG1
  isplitl [HO]; · iexact HO
  iintro ⟨Hb, HR, HC, H41, H7, HO⟩
  ihave Hst := (Entails.of_eq (tcSt_split (F := F) d 2).symm) $$ [HO Htail]
  · isplitl [HO]; · iexact HO
    iexact Htail
  -- the result reshaped
  iapply (wp_hlo_within 𝒱 (SparseCore.T d) none Set.univ (op := op8) (S := {r main_v7, r main_v8}) hop8'
      (V := V2of m d (r main_v7) (r main_v8) (OUTf d (dR d) (dC d) (SCALf d (dS d) (dC d))) (V3 m d (r main_v8)))) $$ [Hb H7 H8]
  · isplitl [Hb]; · iexact Hb
    rw [held_pair d _ _ (by decide), V2of_1, V2of_2 m d _ _ (by decide)]
    isplitl [H7]; · iexact H7
    iexact H8
  iintro ⟨Hb, Hheld⟩
  ihave Hh := (Entails.of_eq (held_pair (F := F) d (r main_v7) (r main_v8) (by decide) _)) $$ Hheld
  icases Hh with ⟨H7, H8⟩
  rw [wp_ret]; imodintro; imodintro
  isplitl [Hst]; · iexact Hst
  isplitl [Ha0 Ha1 Ha2]
  · isplitl [Ha0]; · iapply (Entails.of_eq (arg_pts0 m d)); iexact Ha0
    isplitl [Ha1]; · iapply (Entails.of_eq (arg_pts1 m d)); iexact Ha1
    iapply (Entails.of_eq (arg_pts2 m d)); iexact Ha2
  iexact H8

end Cert.Proof.KI

end
-- ==== Proof.ValueSpec.lean ====
/-
  The value claim's interfaces, at the ideal instance: what each SparseCore kernel leaves in its result arrays, as closed
  forms of the flattened inputs — worker w (of 32) handles the voxels w·65536 … w·65536 + 65535; a voxel's segment is its
  target id where its mask is positive, else 0; its lane is its position modulo 16. Element (w, c·1024 + s·16 + l) of
  the partial sums is the sum of component c of the embedding over worker w's voxels of segment s and lane l; the
  partial counts count them; the partial terms add the squared L1 distance to the means table's entries for (c, s, l).
-/
import proofs.«210783_g59777354826199_cont_9to1_m_168_18_alg».proof.Proof.WrapI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

local notation "𝕄" => MT nD τ sig (HIx 2) (Elt Ideal) ℕ UU ℕ

/-- Index `n` of a flat array of `N` elements. -/
def flatIx {N : ℕ} (n : ℕ) (h : n < N) : (⟨1, ![N]⟩ : Shape).Idx := fun a => match a with | ⟨0, _⟩ => ⟨n, h⟩

/-- The segment of voxel `v`: its target id (read unsigned) where its mask is positive (signed), else 0. -/
def segV (t k : S2097152.Idx → BitVec 32) (v : ℕ) (hv : v < 2097152) : ℕ :=
  if 0 < (k (flatIx v hv)).toInt then (t (flatIx v hv)).toNat else 0

/-- Worker `w`'s voxels of segment `s` and lane `l`, as offsets into its range. -/
def cell (t k : S2097152.Idx → BitVec 32) (w : Fin 32) (s l : ℕ) : Finset (Fin 65536) :=
  Finset.univ.filter fun u => (w.val * 65536 + u.val) % 16 = l ∧ segV t k (w.val * 65536 + u.val) (by have := w.isLt; have := u.isLt; omega) = s

/-- THE PARTIAL SUMS after the first call. -/
def sumsArr (e : S33554432.Idx → EReal) (t k : S2097152.Idx → BitVec 32) : S32x16384.Idx → EReal := fun i =>
  ∑ u ∈ cell t k ⟨(i 0).val, (i 0).isLt⟩ ((i 1).val / 16 % 64) ((i 1).val % 16),
    e (flatIx ((i 1).val / 1024 * 2097152 + (i 0).val * 65536 + u.val) (by
      have h0 : (i 0).val < 32 := (i 0).isLt; have h1 : (i 1).val < 16384 := (i 1).isLt; have := u.isLt; omega))

/-- THE PARTIAL COUNTS after the first call (each voxel counts the literal 1.0). -/
def cntArr (t k : S2097152.Idx → BitVec 32) : S32x1024.Idx → EReal := fun i =>
  ∑ _u ∈ cell t k ⟨(i 0).val, (i 0).isLt⟩ ((i 1).val / 16) ((i 1).val % 16), (1 : EReal)

/-- |x| and x² at the extended reals, as the programs compute them. -/
def eabs (x : EReal) : EReal := max x (-x)
def sq (x : EReal) : EReal := x * x

/-- THE PARTIAL TERMS after the second call: per voxel the squared sum over the sixteen components of
    |embedding − the means table's entry for (component, segment, lane)|. -/
def termArr (e : S33554432.Idx → EReal) (t k : S2097152.Idx → BitVec 32) (mt : S16384.Idx → EReal) : S32x1024.Idx → EReal := fun i =>
  ∑ u ∈ cell t k ⟨(i 0).val, (i 0).isLt⟩ ((i 1).val / 16) ((i 1).val % 16),
    sq (∑ c : Fin 16, eabs (e (flatIx (c.val * 2097152 + (i 0).val * 65536 + u.val) (by
        have h0 : (i 0).val < 32 := (i 0).isLt; have := u.isLt; have := c.isLt; omega))
      - mt (flatIx (c.val * 1024 + (i 1).val) (by have h1 : (i 1).val < 1024 := (i 1).isLt; have := c.isLt; omega))))

/-- THE FIRST KERNEL'S BODY WITH ITS VALUE, at a symbolic tile: as `Body0`, the tile's rows of the two result arrays left
    at the partial sums and counts. -/
def Body0V : Prop := ∀ (d : Dev nD) (L : grid0.Coords) (q : PosShare TreeShare)
    (e : Buf (Elt Ideal) ((eW0).view.loc (thr0 d L))) (t : Buf (Elt Ideal) ((tW0).view.loc (thr0 d L))) (k : Buf (Elt Ideal) ((kW0).view.loc (thr0 d L)))
    (_ : ∀ j, (t j).toNat ≤ 63)
    (O : CellTallies nD τ sig (HIx 2)) (W : Waits sig (HIx 2)) (_ : ∀ g, O g none = 0),
    iprop(levAts (K (F := Ideal)).L (K (F := Ideal)).lev
        ∗ (((eW0).view.loc (thr0 d L) ↦{q} e) ∗ ((tW0).view.loc (thr0 d L) ↦{q} t) ∗ ((kW0).view.loc (thr0 d L) ↦{q} k)
          ∗ (∃ f, (o0Row L).view.loc (thr0 d L) ↦[(o0Row L).view.set]{fullShare} f)
          ∗ (∃ f, (o1Row L).view.loc (thr0 d L) ↦[(o1Row L).view.set]{fullShare} f))
        ∗ scopedBufs (thr0 d L) ∗ scopedSems0 (thr0 d L) ∗ owes (thr0 d L) O W : sProp 𝕄)
      ⊢ wp frame (wpE (defs₀ (F := Ideal)) 𝒱₀ (thr0 d L) none) Set.univ
          (cc0__sc_pass1 L eW0 (Memref.isWhole_whole _) tW0 (Memref.isWhole_whole _) kW0 (Memref.isWhole_whole _)
            o0W (Memref.isWhole_whole _) o1W (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6 cc0_scoped0 cc0_scoped1)
          fun _ => iprop((((eW0).view.loc (thr0 d L) ↦{q} e) ∗ ((tW0).view.loc (thr0 d L) ↦{q} t) ∗ ((kW0).view.loc (thr0 d L) ↦{q} k)
          ∗ ((o0Row L).view.loc (thr0 d L) ↦[(o0Row L).view.set]{fullShare} sumsArr e t k)
          ∗ ((o1Row L).view.loc (thr0 d L) ↦[(o1Row L).view.set]{fullShare} cntArr t k))
            ∗ scopedBufs (thr0 d L) ∗ scopedSems0 (thr0 d L) ∗ ∃ W', ⌜∀ p ∈ W', p ∈ W ∨ p.2 = none⌝ ∗ owes (thr0 d L) O W')

/-- THE SECOND KERNEL'S BODY WITH ITS VALUE: as `Body1`, the tile's row of the result array left at the partial terms. -/
def Body1V : Prop := ∀ (d : Dev nD) (L : grid2.Coords) (q : PosShare TreeShare)
    (e : Buf (Elt Ideal) ((eW0).view.loc (thr2 d L))) (t : Buf (Elt Ideal) ((tW0).view.loc (thr2 d L))) (k : Buf (Elt Ideal) ((kW0).view.loc (thr2 d L)))
    (mt : Buf (Elt Ideal) ((mW2).view.loc (thr2 d L))) (o : Buf (Elt Ideal) ((oRow2 L).view.loc (thr2 d L)))
    (_ : ∀ j, (t j : BitVec 32).toNat ≤ 63)
    (O : CellTallies nD τ sig (HIx 2)) (W : Waits sig (HIx 2)) (_ : ∀ g, O g none = 0),
    (iprop(levAts (K (F := Ideal)).L (K (F := Ideal)).lev
        ∗ (((eW0).view.loc (thr2 d L) ↦{q} e) ∗ ((tW0).view.loc (thr2 d L) ↦{q} t) ∗ ((kW0).view.loc (thr2 d L) ↦{q} k)
            ∗ ((mW2).view.loc (thr2 d L) ↦{q} mt) ∗ ((oRow2 L).view.loc (thr2 d L) ↦[(oRow2 L).view.set]{fullShare} o))
        ∗ scopedBufs (thr2 d L) ∗ scopedSems0 (thr2 d L) ∗ owes (thr2 d L) O W) : sProp 𝕄)
      ⊢ wp frame (wpE (defs₀ (F := Ideal)) 𝒱₀ (thr2 d L) none) Set.univ
          (cc2__sc_pass2 L eW0 (Memref.isWhole_whole _) tW0 (Memref.isWhole_whole _) kW0 (Memref.isWhole_whole _)
            mW2 (Memref.isWhole_whole _) oW2 (Memref.isWhole_whole _) (Memref.whole cc2_scratch0) (Memref.isWhole_whole _) (Memref.whole cc2_scratch1) (Memref.isWhole_whole _)
            (Memref.whole cc2_scratch2) (Memref.isWhole_whole _) (Memref.whole cc2_scratch3) (Memref.isWhole_whole _) (Memref.whole cc2_scratch4) (Memref.isWhole_whole _)
            cc2_scratch5 cc2_scratch6 cc2_scoped0 cc2_scoped1)
          fun _ => iprop((((eW0).view.loc (thr2 d L) ↦{q} e) ∗ ((tW0).view.loc (thr2 d L) ↦{q} t) ∗ ((kW0).view.loc (thr2 d L) ↦{q} k)
            ∗ ((mW2).view.loc (thr2 d L) ↦{q} mt) ∗ ((oRow2 L).view.loc (thr2 d L) ↦[(oRow2 L).view.set]{fullShare} termArr e t k mt))
            ∗ scopedBufs (thr2 d L) ∗ scopedSems0 (thr2 d L)
            ∗ ∃ W', ⌜∀ p ∈ W', p ∈ W ∨ p.2 = none⌝ ∗ owes (thr2 d L) O W')

end Cert.Proof.KI

end
-- ==== Proof.WrapV.lean ====
/-
  Toward the value claim: the tile obligations at the value payloads from the two kernels' bodies with their values
  (ValueSpec.lean), at the ideal instance: a tile hands back its rows at the partial sums, counts and terms.
-/
import proofs.«210783_g59777354826199_cont_9to1_m_168_18_alg».proof.Proof.MainV
import proofs.«210783_g59777354826199_cont_9to1_m_168_18_alg».proof.Proof.ValueSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

local notation "𝕄" => MT nD τ sig (HIx 2) (Elt Ideal) ℕ UU ℕ

variable (cE : (d : Dev nD) → Buf (Elt Ideal) (aE d)) (cT : (d : Dev nD) → Buf (Elt Ideal) (aT d)) (cK : (d : Dev nD) → Buf (Elt Ideal) (aK d))
  (cM : (d : Dev nD) → Buf (Elt Ideal) (aM d))

/-- The two result arrays after the first call, and the one after the second, as the kernels' bodies leave them. -/
def dSV (d : Dev nD) : Buf (Elt Ideal) (aS d) := sumsArr (cE d) (cT d) (cK d)
def dCV (d : Dev nD) : Buf (Elt Ideal) (aC d) := cntArr (cT d) (cK d)
def dRV (d : Dev nD) : Buf (Elt Ideal) (aR d) := termArr (cE d) (cT d) (cK d) (cM d)

variable (dS : (d : Dev nD) → Buf (Elt Ideal) (aS d)) (dC : (d : Dev nD) → Buf (Elt Ideal) (aC d)) (dR : (d : Dev nD) → Buf (Elt Ideal) (aR d))

theorem done0_tile (d : Dev nD) (L : grid0.Coords) :
    (done0 cE cT cK dS dC d (widL0 L) : sProp 𝕄)
      = iprop(((eW0).view.loc (thr0 d L) ↦{shareTok fullShare 32 (widL0 L)} cE d) ∗ ((tW0).view.loc (thr0 d L) ↦{shareTok fullShare 32 (widL0 L)} cT d)
          ∗ ((kW0).view.loc (thr0 d L) ↦{shareTok fullShare 32 (widL0 L)} cK d)
          ∗ ((o0Row L).view.loc (thr0 d L) ↦[(o0Row L).view.set]{fullShare} dS d)
          ∗ ((o1Row L).view.loc (thr0 d L) ↦[(o1Row L).view.set]{fullShare} dC d)) := by
  unfold done0 inToks
  rw [set_o0Row, set_o1Row]
  exact regroup5 _ _ _ _ _

theorem go1_tile (d : Dev nD) (L : grid2.Coords) :
    (go1 cE cT cK cM d (widL2 L) : sProp 𝕄)
      = iprop(((eW0).view.loc (thr2 d L) ↦{shareTok fullShare 32 (widL2 L)} cE d) ∗ ((tW0).view.loc (thr2 d L) ↦{shareTok fullShare 32 (widL2 L)} cT d)
          ∗ ((kW0).view.loc (thr2 d L) ↦{shareTok fullShare 32 (widL2 L)} cK d)
          ∗ ((mW2).view.loc (thr2 d L) ↦{shareTok fullShare 32 (widL2 L)} cM d)
          ∗ (∃ f, (oRow2 L).view.loc (thr2 d L) ↦[(oRow2 L).view.set]{fullShare} f)) := by
  unfold go1 inToks
  rw [set_oRow2]
  exact regroup5 _ _ _ _ _

theorem done1_tile (d : Dev nD) (L : grid2.Coords) :
    (done1 cE cT cK cM dR d (widL2 L) : sProp 𝕄)
      = iprop(((eW0).view.loc (thr2 d L) ↦{shareTok fullShare 32 (widL2 L)} cE d) ∗ ((tW0).view.loc (thr2 d L) ↦{shareTok fullShare 32 (widL2 L)} cT d)
          ∗ ((kW0).view.loc (thr2 d L) ↦{shareTok fullShare 32 (widL2 L)} cK d)
          ∗ ((mW2).view.loc (thr2 d L) ↦{shareTok fullShare 32 (widL2 L)} cM d)
          ∗ ((oRow2 L).view.loc (thr2 d L) ↦[(oRow2 L).view.set]{fullShare} dR d)) := by
  unfold done1 inToks
  rw [set_oRow2]
  exact regroup5 _ _ _ _ _

/-- The launch theorem's obligation at the first call, with the value. -/
theorem tileObl0V (hb : Body0V) (hR : ∀ (d : Dev nD) j, (cT d j).toNat ≤ 63) :
    (K (F := Ideal)).TileObl (D (F := Ideal)) 𝒱 (PV cE cT cK cM (dSV cE cT cK) (dCV cT cK) dR) v₀ 0 := by
  intro d c i O W hO _ _
  simp only [show (PV cE cT cK cM (dSV cE cT cK) (dCV cT cK) dR).ox = fun _ _ => 0 from rfl, add_zero]
  change _ ⊢ wp _ _ _ (Pipeline.liftProg (defs₀ (F := Ideal) (.scVector ((K (F := Ideal)).core 0 c) ((K (F := Ideal)).sub 0 i)) 0 ())) _
  refine BI.Entails.trans ?_ (Pipeline.wp_liftProg (D (F := Ideal)) (Pipeline.defs_kernel pcfgs defs₀) 𝒱₀ _ Set.univ none _ _)
  have hc : ((K (F := Ideal)).core 0 c).val < grid0.bound 0 ∧ ((K (F := Ideal)).sub 0 i).val < grid0.bound 1 := ⟨c.isLt, i.isLt⟩
  rw [defs₀_vector0]; simp only [SparseCore.onTile, hc, and_self, ↓reduceDIte]
  have hw : wid c.val i.val c.isLt i.isLt = widL0 (coordsV0 ⟨_, hc.1⟩ ⟨_, hc.2⟩) :=
    Fin.ext (by show i.val * 2 + c.val = 2 * i.val + c.val; omega)
  show iprop(_ ∗ _ ∗ task0 cE cT cK d (wid c.val i.val c.isLt i.isLt) ∗ _) ⊢ wp _ _ _ _
    (fun _ => iprop(done0 cE cT cK (dSV cE cT cK) (dCV cT cK) d (wid c.val i.val c.isLt i.isLt) ∗ _))
  rw [hw, task0_tile, done0_tile]
  refine BI.Entails.trans ?_ ((hb d (coordsV0 ⟨_, hc.1⟩ ⟨_, hc.2⟩) _ (cE d) (cT d) (cK d) (hR d) O W hO).trans (wp_mono frame _ _ fun _ => obl_post))
  exact drop2 _ _ _ _ _ _

/-- The second body with its value from a worker's operands (the result row's prior contents named). -/
theorem body1V_go (hb : Body1V) (hR : ∀ (d : Dev nD) j, (cT d j).toNat ≤ 63) (d : Dev nD) (L : grid2.Coords) (X : sProp 𝕄)
    (O : CellTallies nD τ sig (HIx 2)) (W : Waits sig (HIx 2)) (hO : ∀ g, O g none = 0) :
    iprop(levAts (K (F := Ideal)).L (K (F := Ideal)).lev ∗ X
        ∗ (((eW0).view.loc (thr2 d L) ↦{shareTok fullShare 32 (widL2 L)} cE d) ∗ ((tW0).view.loc (thr2 d L) ↦{shareTok fullShare 32 (widL2 L)} cT d)
          ∗ ((kW0).view.loc (thr2 d L) ↦{shareTok fullShare 32 (widL2 L)} cK d)
          ∗ ((mW2).view.loc (thr2 d L) ↦{shareTok fullShare 32 (widL2 L)} cM d)
          ∗ (∃ f, (oRow2 L).view.loc (thr2 d L) ↦[(oRow2 L).view.set]{fullShare} f))
        ∗ scopedBufs (thr2 d L) ∗ scopedSems0 (thr2 d L) ∗ owes (thr2 d L) O W)
      ⊢ wp frame (wpE (defs₀ (F := Ideal)) 𝒱₀ (thr2 d L) none) Set.univ
          (cc2__sc_pass2 L eW0 (Memref.isWhole_whole _) tW0 (Memref.isWhole_whole _) kW0 (Memref.isWhole_whole _)
            mW2 (Memref.isWhole_whole _) oW2 (Memref.isWhole_whole _) (Memref.whole cc2_scratch0) (Memref.isWhole_whole _) (Memref.whole cc2_scratch1) (Memref.isWhole_whole _)
            (Memref.whole cc2_scratch2) (Memref.isWhole_whole _) (Memref.whole cc2_scratch3) (Memref.isWhole_whole _) (Memref.whole cc2_scratch4) (Memref.isWhole_whole _)
            cc2_scratch5 cc2_scratch6 cc2_scoped0 cc2_scoped1)
          fun _ => iprop((((eW0).view.loc (thr2 d L) ↦{shareTok fullShare 32 (widL2 L)} cE d) ∗ ((tW0).view.loc (thr2 d L) ↦{shareTok fullShare 32 (widL2 L)} cT d)
          ∗ ((kW0).view.loc (thr2 d L) ↦{shareTok fullShare 32 (widL2 L)} cK d)
          ∗ ((mW2).view.loc (thr2 d L) ↦{shareTok fullShare 32 (widL2 L)} cM d)
          ∗ ((oRow2 L).view.loc (thr2 d L) ↦[(oRow2 L).view.set]{fullShare} dRV cE cT cK cM d))
            ∗ scopedBufs (thr2 d L) ∗ scopedSems0 (thr2 d L)
            ∗ ∃ W', ⌜∀ p ∈ W', p ∈ W ∨ p.2 = none ∨ p.2 = some (1 : Fin 2)⌝ ∗ owes (thr2 d L) O W') := by
  iintro ⟨Hl, -, ⟨H1, H2, H3, HM, ⟨%o, Ho⟩⟩, Hsb, Hss, HO⟩
  iapply ((hb d L _ (cE d) (cT d) (cK d) (cM d) o (hR d) O W hO).trans (wp_mono frame _ _ fun _ => obl_post))
  isplitl [Hl]; · iexact Hl
  isplitl [H1 H2 H3 HM Ho]
  · isplitl [H1]; · iexact H1
    isplitl [H2]; · iexact H2
    isplitl [H3]; · iexact H3
    isplitl [HM]; · iexact HM
    iexact Ho
  isplitl [Hsb]; · iexact Hsb
  isplitl [Hss]; · iexact Hss
  iexact HO

/-- and at the second call. -/
theorem tileObl1V (hb : Body1V) (hR : ∀ (d : Dev nD) j, (cT d j).toNat ≤ 63) :
    (K (F := Ideal)).TileObl (D (F := Ideal)) 𝒱 (PV cE cT cK cM dS dC (dRV cE cT cK cM)) v₀ 1 := by
  intro d c i O W hO _ _
  simp only [show (PV cE cT cK cM dS dC (dRV cE cT cK cM)).ox = fun _ _ => 0 from rfl, add_zero]
  change _ ⊢ wp _ _ _ (Pipeline.liftProg (defs₀ (F := Ideal) (.scVector ((K (F := Ideal)).core 1 c) ((K (F := Ideal)).sub 1 i)) 2 ())) _
  refine BI.Entails.trans ?_ (Pipeline.wp_liftProg (D (F := Ideal)) (Pipeline.defs_kernel pcfgs defs₀) 𝒱₀ _ Set.univ none _ _)
  have hc : ((K (F := Ideal)).core 1 c).val < grid2.bound 0 ∧ ((K (F := Ideal)).sub 1 i).val < grid2.bound 1 := ⟨c.isLt, i.isLt⟩
  rw [defs₀_vector2]; simp only [SparseCore.onTile, hc, and_self, ↓reduceDIte]
  have hw : wid c.val i.val c.isLt i.isLt = widL2 (coordsV2 ⟨_, hc.1⟩ ⟨_, hc.2⟩) :=
    Fin.ext (by show i.val * 2 + c.val = 2 * i.val + c.val; omega)
  show iprop(_ ∗ _ ∗ go1 cE cT cK cM d (wid c.val i.val c.isLt i.isLt) ∗ _) ⊢ wp _ _ _ _
    (fun _ => iprop(done1 cE cT cK cM (dRV cE cT cK cM) d (wid c.val i.val c.isLt i.isLt) ∗ _))
  rw [hw, go1_tile, done1_tile]
  exact body1V_go cE cT cK cM hb hR d (coordsV2 ⟨_, hc.1⟩ ⟨_, hc.2⟩) _ O W hO

end Cert.Proof.KI

end
-- ==== Proof.ValueOf.lean ====
/-
  THE VALUE CONJUNCT REDUCED. From (1) the two kernels' bodies with their values at a symbolic tile (ValueSpec.lean:
  Body0V, Body1V), (2) the two combining pallas_calls with their results named by functions MEANSf, SCALf, OUTf (MainV.lean:
  Reg0V, Reg1V), and (3) the bridge — under the precondition, for memories agreeing on the arguments, the kernel's result
  so composed is the reference's composed term — the value claim follows: both programs terminate on every weakly fair
  execution with their result arrays at one common value and their arguments unchanged.
-/
import proofs.«210783_g59777354826199_cont_9to1_m_168_18_alg».proof.Defs
import proofs.«210783_g59777354826199_cont_9to1_m_168_18_alg».proof.Proof.WrapV
import proofs.«210783_g59777354826199_cont_9to1_m_168_18_alg».proof.Proof.PreI
import proofs.«210783_g59777354826199_cont_9to1_m_168_18_alg».proof.Proof.RefRun
import proofs.«210783_g59777354826199_cont_9to1_m_168_18_alg».proof.Proof.Gen.ReferenceIdeal

noncomputable section

namespace Cert.Proof.KI

open Cert.KernelIdeal Cert.KernelIdeal.Gen
open Idealize.ShloMosaic
open Idealize.ShloMosaic.SparseCore (S V T)
open Idealize.SL.Sem

variable (MEANSf : (d : Dev nD) → Buf (Elt Ideal) (aS d) → Buf (Elt Ideal) (aC d) → Buf (Elt Ideal) (a40 d))
  (SCALf : (d : Dev nD) → Buf (Elt Ideal) (aS d) → Buf (Elt Ideal) (aC d) → Buf (Elt Ideal) (a41 d))
  (OUTf : (d : Dev nD) → Buf (Elt Ideal) (aR d) → Buf (Elt Ideal) (aC d) → Buf (Elt Ideal) (a41 d) → Buf (Elt Ideal) (a7 d))

variable (m : (ℓ : Loc nD τ sig) → Buf (Elt Ideal) ℓ)

/-- The kernel's result on device `d`, composed: the partial sums and counts, the first combining call's table and scalar,
    the partial terms against the flattened table, the second combining call's result, reshaped. -/
def kernelValue (d : Dev nD) : Buf (Elt Ideal) (rLoc d) :=
  kvV m (dSV (cE m) (cT m) (cK m)) (dCV (cT m) (cK m))
    (dRV (cE m) (cT m) (cK m) (cMV m (dSV (cE m) (cT m) (cK m)) (dCV (cT m) (cK m)) MEANSf)) SCALf OUTf d

/-- The kernel program's run with its value. -/
theorem run_value [hf : Cert.Pre_input_domain.Facts] (hb0 : Body0V) (hb1 : Body1V) (hr0 : Reg0V (F := Ideal) MEANSf SCALf) (hr1 : Reg1V (F := Ideal) OUTf)
    (ρ : Dev nD → PrngReg)
    (hpre : ∀ c : Dev nD, Cert.Pre_input_domain.fn (F := Ideal) (m (xLoc0 c)) (m (xLoc1 c)) (m (xLoc2 c)) = fun _ => 1#1) :
    θ_run (Cert.KernelIdeal.defs (F := Ideal)) (Cert.KernelIdeal.threads (F := Ideal)) ⟨m, fun _ => 0, ρ⟩ (QCV m (kernelValue MEANSf SCALf OUTf m)) :=
  run_ofV m ρ (cE m) (cT m) (cK m) (cMV m (dSV (cE m) (cT m) (cK m)) (dCV (cT m) (cK m)) MEANSf)
    (dSV (cE m) (cT m) (cK m)) (dCV (cT m) (cK m))
    (dRV (cE m) (cT m) (cK m) (cMV m (dSV (cE m) (cT m) (cK m)) (dCV (cT m) (cK m)) MEANSf))
    (kernelValue MEANSf SCALf OUTf m)
    (tileObl0V (cE m) (cT m) (cK m) _ _ hb0 (cT_range m hpre))
    (tileObl1V (cE m) (cT m) (cK m) _ _ _ hb1 (cT_range m hpre))
    (hmainV m ρ _ _ _ MEANSf SCALf OUTf hr0 hr1)

end Cert.Proof.KI

namespace Cert.Proof

open Idealize.ShloMosaic Idealize.SL.Sem

/-- THE VALUE CLAIM from the kernels' bodies with their values, the combining calls with theirs, and the bridge. -/
theorem algebraic_of
    (MEANSf : (d : Dev Cert.KernelIdeal.nD) → Buf (Elt Ideal) (KI.aS d) → Buf (Elt Ideal) (KI.aC d) → Buf (Elt Ideal) (KI.a40 d))
    (SCALf : (d : Dev Cert.KernelIdeal.nD) → Buf (Elt Ideal) (KI.aS d) → Buf (Elt Ideal) (KI.aC d) → Buf (Elt Ideal) (KI.a41 d))
    (OUTf : (d : Dev Cert.KernelIdeal.nD) → Buf (Elt Ideal) (KI.aR d) → Buf (Elt Ideal) (KI.aC d) → Buf (Elt Ideal) (KI.a41 d) → Buf (Elt Ideal) (KI.a7 d))
    (hb0 : KI.Body0V) (hb1 : KI.Body1V) (hr0 : KI.Reg0V (F := Ideal) MEANSf SCALf) (hr1 : KI.Reg1V (F := Ideal) OUTf)
    (hbridge : ∀ (m : (ℓ : Loc Cert.KernelIdeal.nD Cert.KernelIdeal.τ Cert.KernelIdeal.sig) → Buf (Elt Ideal) ℓ)
        (m' : (ℓ : Loc Cert.ReferenceIdeal.nD Cert.ReferenceIdeal.τ Cert.ReferenceIdeal.sig) → Buf (Elt Ideal) ℓ),
        Cert.Pre_KernelIdeal (hPre_input_domain := Cert.Pre_input_domain.Gen.facts) m →
        (∀ c : Dev Cert.KernelIdeal.nD,
          m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
          ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
          ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
        ∀ c : Dev Cert.KernelIdeal.nD, Cert.ReferenceIdeal.ValueP.res_main_v91 (F := Ideal) m' c = KI.kernelValue MEANSf SCALf OUTf m c) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  refine ⟨fun c => KI.kernelValue MEANSf SCALf OUTf m c, ?_, ?_⟩
  · exact (θ_run Cert.KernelIdeal.defs _ _).mono (fun _ h c => ⟨(h c).2, (h c).1.1, (h c).1.2.1, (h c).1.2.2⟩)
      (KI.run_value (hf := Cert.Pre_input_domain.Gen.facts) MEANSf SCALf OUTf m hb0 hb1 hr0 hr1 g hpre)
  · exact (θ_run Cert.ReferenceIdeal.defs _ _).mono (fun _ h c => ⟨(h c).1.trans (hbridge m m' hpre hagree c), (h c).2.1, (h c).2.2.1, (h c).2.2.2⟩)
      (Cert.ReferenceIdeal.ValueP.run (F := Ideal) m' g')

end Cert.Proof

end
-- ==== Proof.Region1V.lean ====
/-
  Toward the value claim: the second combining pallas_call EXACTLY — what its body leaves in the result's staging buffer
  as a function of the three inputs' blocks (the one store's payload), the pipeline's exact proof data, its body
  obligation and its region record (entered and left with the core's debts, as the frame-level record).
-/
import proofs.«210783_g59777354826199_cont_9to1_m_168_18_alg».proof.Proof.Region0I
import Idealize.ShloMosaic.Lib.Pipeline.FrameBody

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Dat)

variable {F : FTy → Type} [FloatOps F] [∀ e, Nonempty (Elt F e)]

local notation "𝕄" => MT nD τ sig (HIx 2) (Elt F) ℕ UU ℕ

abbrev rW : Rect S32x1024 := Rect.unit (s := S32x1024) ![0, 0] S32x1024.size inb_S32x1024_S32x1024_0_0
abbrev r11 : Rect S1x1 := Rect.unit (s := S1x1) ![0, 0] S1x1.size inb_S1x1_S1x1_0_0

/-- What the second combining body leaves in the result's staging buffer, from the three inputs' blocks. -/
def out3 (x0 x1 : Vec F S32x1024 .f32) (x2 : Vec F S1x1 .f32) : Vec F S1x1 .f32 :=
  View.canon [⟨r11, k3_pay1 (k3_pay4 (View.ld x1 rW)) (k3_pay5 (View.ld x0 rW) (View.ld x1 rW)) (k3_pay6 (F := F)) (View.ld x2 r11)⟩]

theorem cover3 (p0 : Vec F S1x1 .f32) (y : S1x1.Idx) : ∃ pc ∈ ([⟨r11, p0⟩] : List (View.Piece (Elt F) S1x1 .f32)), y ∈ pc.1.set :=
  View.cover_of_tiled [⟨r11, p0⟩] S1x1.size (by rfl) y

theorem sound_kernel3V (c : Dev nD) (E : Set ℕ) (arg0 : Memref sig .tc .vmem S32x1024 .f32) (harg0 : arg0.IsWhole) (arg1 : Memref sig .tc .vmem S32x1024 .f32) (harg1 : arg1.IsWhole)
    (arg2 : Memref sig .tc .vmem S1x1 .f32) (harg2 : arg2.IsWhole) (arg3 : Memref sig .tc .vmem S1x1 .f32) (harg3 : arg3.IsWhole)
    (x0 : Vec F S32x1024 .f32) (x1 : Vec F S32x1024 .f32) (x2 : Vec F S1x1 .f32) (Kc : PUnit → sProp 𝕄) :
    iprop(owns (c : Thread nD τ) arg0 fullShare x0 ∗ owns (c : Thread nD τ) arg1 fullShare x1 ∗ owns (c : Thread nD τ) arg2 fullShare x2 ∗ (∃ x3, owns (c : Thread nD τ) arg3 fullShare x3)
        ∗ (iprop(owns (c : Thread nD τ) arg0 fullShare x0 ∗ owns (c : Thread nD τ) arg1 fullShare x1 ∗ owns (c : Thread nD τ) arg2 fullShare x2
            ∗ owns (c : Thread nD τ) arg3 fullShare (out3 x0 x1 x2)) -∗ Kc ⟨⟩))
      ⊢ wp frame (wpE (defs₀ (F := F)) Variants.none c none) E (cc3__combine2_body arg0 harg0 arg1 harg1 arg2 harg2 arg3 harg3) Kc := by
  simp only [cc3__combine2_body_eq_skeleton]; unfold cc3__combine2_body_skel
  unfold owns
  iintro ⟨⟨%f0, %hf0, H0⟩, ⟨%f1, %hf1, H1⟩, ⟨%f2, %hf2, H2⟩, ⟨%x3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## Exact proof data -/

/-- Window `w`'s block at the one point, read off the array's entry contents. -/
def iblk3 (c : Dev nD) (Vv : (b : Ref sig .tc) → Buf (Elt F) ((c : Thread nD τ).loc b)) (w : Fin cfg3.W) (t : Fin cfg3.N) :
    ((cfg3.win w).xblock (cfg3.grid.coords t)).Idx → Elt F (cfg3.win w).elt :=
  ((cfg3.win w).blk t).view.read (Elt F) (Vv (Pipeline.arrRef spec3 w))

/-- The second combining call's exact proof data: the inputs' buffers at their blocks, the output's at the body's
    function of them. -/
def dat3 (c : Dev nD) (Vv : (b : Ref sig .tc) → Buf (Elt F) ((c : Thread nD τ).loc b)) (O : CellTallies nD τ sig (HIx 2))
    (rec : Set (SemLoc sig × HIx 2)) : Dat τ (Elt F) (HIx 2) ℕ UU ℕ cfg3 c where
  A w := Vv (Pipeline.arrRef spec3 w)
  after w t := match w with
    | ⟨0, _⟩ => iblk3 c Vv 0 t
    | ⟨1, _⟩ => iblk3 c Vv 1 t
    | ⟨2, _⟩ => iblk3 c Vv 2 t
    | ⟨3, _⟩ => out3 (iblk3 c Vv 0 t) (iblk3 c Vv 1 t) (iblk3 c Vv 2 t)
  Φ _ := Pipeline.scopedRest spec3 c
  q _ := fullShare
  owed _ := O
  recorded _ := rec

variable (c : Dev nD) (Vv : (b : Ref sig .tc) → Buf (Elt F) ((c : Thread nD τ).loc b)) (O : CellTallies nD τ sig (HIx 2)) (rec : Set (SemLoc sig × HIx 2))

theorem A3_eq (w : Fin cfg3.W) : (dat3 c Vv O rec).A w = Vv (Pipeline.arrRef spec3 w) := by dsimp only [dat3]
theorem after3_0 (t : Fin cfg3.N) : (dat3 c Vv O rec).after 0 t = iblk3 c Vv 0 t := by dsimp only [dat3]
theorem after3_1 (t : Fin cfg3.N) : (dat3 c Vv O rec).after 1 t = iblk3 c Vv 1 t := by dsimp only [dat3]
theorem after3_2 (t : Fin cfg3.N) : (dat3 c Vv O rec).after 2 t = iblk3 c Vv 2 t := by dsimp only [dat3]
theorem after3_3 (t : Fin cfg3.N) : (dat3 c Vv O rec).after 3 t = out3 (iblk3 c Vv 0 t) (iblk3 c Vv 1 t) (iblk3 c Vv 2 t) := by dsimp only [dat3]

theorem before3_0 (t : Fin cfg3.N) (d) : (dat3 c Vv O rec).before 0 t d = iblk3 c Vv 0 t :=
  ((dat3 c Vv O rec).before_in_eq_fetched 0 rfl (fun _ => rfl) (fun _ _ _ => rfl) (fun t => by rw [after3_0]; unfold Dat.blockOf iblk3; rw [A3_eq]; try rfl) t d).trans
    (by unfold Dat.fetched Dat.blockOf iblk3; rw [A3_eq]; try rfl)
theorem before3_1 (t : Fin cfg3.N) (d) : (dat3 c Vv O rec).before 1 t d = iblk3 c Vv 1 t :=
  ((dat3 c Vv O rec).before_in_eq_fetched 1 rfl (fun _ => rfl) (fun _ _ _ => rfl) (fun t => by rw [after3_1]; unfold Dat.blockOf iblk3; rw [A3_eq]; try rfl) t d).trans
    (by unfold Dat.fetched Dat.blockOf iblk3; rw [A3_eq]; try rfl)
theorem before3_2 (t : Fin cfg3.N) (d) : (dat3 c Vv O rec).before 2 t d = iblk3 c Vv 2 t :=
  ((dat3 c Vv O rec).before_in_eq_fetched 2 rfl (fun _ => rfl) (fun _ _ _ => rfl) (fun t => by rw [after3_2]; unfold Dat.blockOf iblk3; rw [A3_eq]; try rfl) t d).trans
    (by unfold Dat.fetched Dat.blockOf iblk3; rw [A3_eq]; try rfl)

/-- The body at the one point: the inputs' buffers hold their blocks, so the exact body triple applies; the invariant and
    the core's debts pass through unread. -/
theorem sound_body3 (t : Fin cfg3.N) :
    iprop((dat3 c Vv O rec).Φ t.castSucc ∗ (dat3 c Vv O rec).owesAt none t.castSucc
        ∗ (∃ d, owns (c : Thread nD τ) ((cfg3.win 0).stage (cfg3.slots t 0)) fullShare ((dat3 c Vv O rec).before 0 t d))
        ∗ (∃ d, owns (c : Thread nD τ) ((cfg3.win 1).stage (cfg3.slots t 1)) fullShare ((dat3 c Vv O rec).before 1 t d))
        ∗ (∃ d, owns (c : Thread nD τ) ((cfg3.win 2).stage (cfg3.slots t 2)) fullShare ((dat3 c Vv O rec).before 2 t d))
        ∗ (∃ d, owns (c : Thread nD τ) ((cfg3.win 3).stage (cfg3.slots t 3)) fullShare ((dat3 c Vv O rec).before 3 t d)))
      ⊢ wp frame (wpE (defs₀ (F := F)) Variants.none c none) Set.univ (defs₀ .tc cfg3.body (cfg3.bodyArgs t (cfg3.slots t))) (fun _ =>
          iprop((dat3 c Vv O rec).Φ t.succ ∗ (dat3 c Vv O rec).owesAt none t.succ
            ∗ owns (c : Thread nD τ) ((cfg3.win 0).stage (cfg3.slots t 0)) fullShare ((dat3 c Vv O rec).after 0 t)
            ∗ owns (c : Thread nD τ) ((cfg3.win 1).stage (cfg3.slots t 1)) fullShare ((dat3 c Vv O rec).after 1 t)
            ∗ owns (c : Thread nD τ) ((cfg3.win 2).stage (cfg3.slots t 2)) fullShare ((dat3 c Vv O rec).after 2 t)
            ∗ owns (c : Thread nD τ) ((cfg3.win 3).stage (cfg3.slots t 3)) fullShare ((dat3 c Vv O rec).after 3 t))) := by
  simp only [before3_0, before3_1, before3_2]
  rw [show (dat3 c Vv O rec).Φ t.succ = (dat3 c Vv O rec).Φ t.castSucc from rfl,
    show (dat3 c Vv O rec).owesAt none t.succ = (dat3 c Vv O rec).owesAt none t.castSucc from rfl,
    after3_0, after3_1, after3_2, after3_3]
  iintro ⟨HΦ, Ho, ⟨%d0, H0⟩, ⟨%d1, H1⟩, ⟨%d2, H2⟩, ⟨%d3, H3⟩⟩
  iapply (sound_kernel3V c Set.univ _ _ _ _ _ _ _ _ (iblk3 c Vv 0 t) (iblk3 c Vv 1 t) (iblk3 c Vv 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obl3V : Pipeline.BodyObligation (dat3 (F := F) c Vv O rec) (defs₀ (F := F)) Variants.none none Set.univ := fun t => by
  rw [bigSep_W3, bigSep_W3]
  exact sound_body3 c Vv O rec t

/-! ## The region, exactly -/

/-- Both pipelines' exact proof data on every core before call `n` (the first pipeline's is a placeholder here: this
    module runs only the second). -/
def pdatsV (n : ℕ) (VV : (c : Dev nD) → (b : Ref sig .tc) → Buf (Elt F) ((c : Thread nD τ).loc b)) :
    (p : Fin 2) → (c : Dev nD) → Dat τ (Elt F) (HIx 2) ℕ UU ℕ (Pipeline.pin (pcfgs (F := F)) adm p) c
  | ⟨0, _⟩ => fun c => { A := fun w => VV c (Pipeline.arrRef spec1 w), after := fun w t => Dat.unnamed w t, Φ := fun _ => iprop(emp), q := fun _ => fullShare, owed := fun _ => 0 }
  | ⟨1, _⟩ => fun c => dat3 c (VV c) ((K (F := F)).Otc c n) (recB (F := F) n c)

theorem hwaitsV (n : ℕ) (VV : (c : Dev nD) → (b : Ref sig .tc) → Buf (Elt F) ((c : Thread nD τ).loc b)) (c : Dev nD) :
    (levAts (K (F := F)).L (K (F := F)).lev : sProp 𝕄) ⊢ Pipeline.cellsWaits (Pipeline.pin (pcfgs (F := F)) adm) (pdatsV n VV) (none : HIx 2) 1 c :=
  Pipeline.cellsWaits_intro _ _ _ 1 c fun w s t => (K (F := F)).mayWait_none _ (Otc_none c n)

theorem owes_entryV (n : ℕ) (VV : (c : Dev nD) → (b : Ref sig .tc) → Buf (Elt F) ((c : Thread nD τ).loc b)) (c : Dev nD) :
    owesPart (F := F) c n ⊢ (pdatsV n VV 1 c).owesAt none 0 := by
  unfold owesPart Pipeline.Dat.owesAt Pipeline.owesWithin
  iintro ⟨%W, %hW, HO⟩
  iexists W; isplitr; · ipureintro; exact fun q hq => Or.inl (hW q hq)
  iexact HO

theorem owes_exitV (n : ℕ) (VV : (c : Dev nD) → (b : Ref sig .tc) → Buf (Elt F) ((c : Thread nD τ).loc b)) (c : Dev nD) :
    (pdatsV n VV 1 c).owesAt none (Fin.last _) ⊢ owesPart (F := F) c n := by
  unfold owesPart Pipeline.Dat.owesAt Pipeline.owesWithin
  iintro ⟨%W, %hW, HO⟩
  iexists W; isplitr
  · ipureintro
    intro q hq
    rcases hW hq with h | ⟨w, s, rfl⟩
    · exact h
    · show (K (F := F)).lev _ none ≤ _; rw [SparseCore.Cfg.lev_none]; exact Nat.zero_le _
  iexact HO

set_option backward.isDefEq.respectTransparency.types false in
def reg1SegV (VV : (c : Dev nD) → (b : Ref sig .tc) → Buf (Elt F) ((c : Thread nD τ).loc b)) :
    Pipeline.RegionSeg (pcfgs (F := F)) adm (pdatsV 2 VV) (none : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obl3V c (VV c) _ _).loose
  hwaits c := hwaitsV 2 VV c
  pre c := iprop((pdatsV 2 VV 1 c).arrays ((pdatsV 2 VV 1 c).arrAt · 0) ∗ owesPart (F := F) c 2)
  post c := iprop((pdatsV 2 VV 1 c).arrays ((pdatsV 2 VV 1 c).arrAt · cfg3.N) ∗ owesPart (F := F) c 2)
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owes_entryV 2 VV c); iexact HO
    isplitr; · iempintro
    iempintro
  hin c := by
    rw [show (pdatsV 2 VV 1 c).Φ 0 = Pipeline.scopedRest spec3 c from rfl]
    iintro ⟨-, -, Hr⟩
    iexact Hr
  hout c := by
    rw [Pipeline.ownSems0_none, show (pdatsV 2 VV 1 c).Φ (Fin.last _) = Pipeline.scopedRest spec3 c from rfl]
    iintro Hr
    isplitr; · iempintro
    isplitr; · iempintro
    iexact Hr
  hexit c := by
    iintro ⟨Ha, HO, -, -⟩
    imodintro
    isplitl [Ha]; · iexact Ha
    iapply (owes_exitV 2 VV c); iexact HO

/-! ## The region inside the SparseCore program, exactly -/

theorem arrays1V_eq (VV : (c : Dev nD) → (b : Ref sig .tc) → Buf (Elt F) ((c : Thread nD τ).loc b)) (d : Dev nD)
    (Fa : (w : Fin cfg3.W) → Buf (Elt F) ((cfg3.win w).arr.view.loc (d : Thread nD τ))) :
    ((pdatsV 2 VV 1 d).arrays Fa : sProp 𝕄)
      = iprop((aR d ↦{fullShare} Fa 0) ∗ (aC d ↦{fullShare} Fa 1) ∗ (a41 d ↦{fullShare} Fa 2) ∗ (a7 d ↦{fullShare} Fa 3)) := by
  rw [Pipeline.arrays_eq (Pipeline.pin (pcfgs (F := F)) adm) (pdatsV 2 VV) 1 d arr_whole3 ((pdatsV 2 VV 1 d).share_full fun _ => rfl), bigSep_W3]
  rfl

/-- What the second combining call leaves in the result array, from the contents its four arrays are entered with. -/
def OUT3 (VV : (c : Dev nD) → (b : Ref sig .tc) → Buf (Elt F) ((c : Thread nD τ).loc b)) (d : Dev nD) : Buf (Elt F) (a7 d) :=
  (pdatsV 2 VV 1 d).arrAt 3 cfg3.N

/-- The second combining pallas_call inside the SparseCore program, with the result array's contents named. -/
theorem reg1V (m : (ℓ : Loc nD τ sig) → Buf (Elt F) ℓ) (d : Dev nD) (fR : Buf (Elt F) (aR d)) (fC : Buf (Elt F) (aC d)) (f41 : Buf (Elt F) (a41 d))
    (g7 : Buf (Elt F) (a7 d)) (Φ : PUnit → sProp 𝕄) :
    iprop(levAts (K (F := F)).L (K (F := F)).lev ∗ boundary (SparseCore.T d) ∗ (aR d ↦{fullShare} fR) ∗ (aC d ↦{fullShare} fC)
        ∗ (a41 d ↦{fullShare} f41) ∗ (a7 d ↦{fullShare} g7) ∗ ghostP (F := F) 1 d ∗ owesPart (F := F) d 2
        ∗ (iprop(boundary (SparseCore.T d) ∗ (aR d ↦{fullShare} fR) ∗ (aC d ↦{fullShare} fC)
            ∗ (a41 d ↦{fullShare} f41) ∗ (a7 d ↦{fullShare} OUT3 (VV1 m d fR fC f41 g7) d) ∗ owesPart (F := F) d 2) -∗ Φ ⟨⟩))
      ⊢ wp frame (wpE ((K (F := F)).defs (D (F := F))) 𝒱 (SparseCore.T d) none) Set.univ
          (Prog.lift (TpuEff.customCall (SparseCore.inner (Pipeline.entry 1)) ())) Φ := by
  iintro ⟨#Hlev, Hb, HR, HC, H41, H7, ⟨HGc, HGt⟩, HO, Hk⟩
  iapply ((K (F := F)).wp_liftProg (D (F := F)) 𝒱 (SparseCore.T d) Set.univ none (Prog.lift (TpuEff.customCall (Pipeline.entry 1) ())) Φ)
  iapply (Pipeline.RegionSeg.wp (pcfgs (F := F)) adm (pdatsV 2 (VV1 m d fR fC f41 g7)) (none : HIx 2) cellOf_inj (EP (F := F)) defs₀ 𝒱₀
    (K (F := F)).L (K (F := F)).lev (reg1SegV (VV1 m d fR fC f41 g7)) d none (fun u hu => nomatch hu) (fun _ => Prog.ret PUnit.unit) Φ)
  isplitl [Hk]
  · iintro ⟨Hb, Hpost⟩
    rw [wp_ret]; imodintro
    ihave Hp := (Entails.of_eq (show (reg1SegV (VV1 m d fR fC f41 g7)).post d
        = iprop((pdatsV 2 (VV1 m d fR fC f41 g7) 1 d).arrays ((pdatsV 2 (VV1 m d fR fC f41 g7) 1 d).arrAt · cfg3.N) ∗ owesPart (F := F) d 2) from rfl)) $$ Hpost
    icases Hp with ⟨Ha, HO⟩
    ihave Ha' := (Entails.of_eq (arrays1V_eq (VV1 m d fR fC f41 g7) d _)) $$ Ha
    icases Ha' with ⟨HR, HC, H41, H7⟩
    iapply Hk
    isplitl [Hb]; · iexact Hb
    isplitl [HR]
    · iapply (Entails.of_eq (ptsR1 m d fR fC f41 g7))
      iapply (Entails.of_eq (congrArg (fun x => (aR d ↦{fullShare} x : sProp 𝕄)) ((pdatsV 2 (VV1 m d fR fC f41 g7) 1 d).arrAt_in 0 rfl cfg3.N)))
      iexact HR
    isplitl [HC]
    · iapply (Entails.of_eq (ptsC1 m d fR fC f41 g7))
      iapply (Entails.of_eq (congrArg (fun x => (aC d ↦{fullShare} x : sProp 𝕄)) ((pdatsV 2 (VV1 m d fR fC f41 g7) 1 d).arrAt_in 1 rfl cfg3.N)))
      iexact HC
    isplitl [H41]
    · iapply (Entails.of_eq (pts411 m d fR fC f41 g7))
      iapply (Entails.of_eq (congrArg (fun x => (a41 d ↦{fullShare} x : sProp 𝕄)) ((pdatsV 2 (VV1 m d fR fC f41 g7) 1 d).arrAt_in 2 rfl cfg3.N)))
      iexact H41
    isplitl [H7]; · iexact H7
    iexact HO
  isplitl [Hb]; · iexact Hb
  isplitl [HR HC H41 H7 HO]
  · iapply (Entails.of_eq (show (reg1SegV (VV1 m d fR fC f41 g7)).pre d
        = iprop((pdatsV 2 (VV1 m d fR fC f41 g7) 1 d).arrays ((pdatsV 2 (VV1 m d fR fC f41 g7) 1 d).arrAt · 0) ∗ owesPart (F := F) d 2) from rfl).symm)
    isplitl [HR HC H41 H7]
    · iapply (Entails.of_eq (arrays1V_eq (VV1 m d fR fC f41 g7) d _).symm)
      isplitl [HR]; · iapply (Entails.of_eq (ptsR1 m d fR fC f41 g7).symm); iexact HR
      isplitl [HC]; · iapply (Entails.of_eq (ptsC1 m d fR fC f41 g7).symm); iexact HC
      isplitl [H41]; · iapply (Entails.of_eq (pts411 m d fR fC f41 g7).symm); iexact H41
      iapply (Entails.of_eq (pts71 m d fR fC f41 g7).symm); iexact H7
    iexact HO
  isplitl [Hlev]; · iexact Hlev
  isplitl [HGc]; · iexact HGc
  iexact HGt

end Cert.Proof.KI

end
-- ==== Proof.Region1W.lean ====
/-
  Toward the value claim: the second combining pallas_call's result array in closed form — the one store's payload of
  the three input arrays, whatever the result array held before (the one block covers it) — and the region inside the
  SparseCore program with its result so named.
-/
import proofs.«210783_g59777354826199_cont_9to1_m_168_18_alg».proof.Proof.Region1V
import proofs.«210783_g59777354826199_cont_9to1_m_168_18_alg».proof.Proof.MainV
import Idealize.ShloMosaic.Lib.Pipeline.Value

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)

variable {F : FTy → Type} [FloatOps F] [∀ e, Nonempty (Elt F e)]

local notation "𝕄" => MT nD τ sig (HIx 2) (Elt F) ℕ UU ℕ

/-- The one grid point. -/
def t0 : Fin cfg3.N := ⟨0, by decide⟩

theorem t_eq_t0 (t : Fin cfg3.N) : t = t0 := Fin.ext (by have h : t.val < 1 := t.isLt; show t.val = 0; omega)

instance : Subsingleton S1x1.Idx := ⟨fun a b => funext fun k => Fin.ext (by
  have ha : (a k).val < S1x1.size k := (a k).isLt
  have hb : (b k).val < S1x1.size k := (b k).isLt
  have hs : S1x1.size k = 1 := by match k with | ⟨0, _⟩ => rfl | ⟨1, _⟩ => rfl
  omega)⟩

/-- What the second combining call leaves in the result array, from the contents of its three input arrays. -/
def OUTf3 (d : Dev nD) (fR : Buf (Elt F) (aR d)) (fC : Buf (Elt F) (aC d)) (f41 : Buf (Elt F) (a41 d)) : Buf (Elt F) (a7 d) :=
  (cfg3.win 3).cut (cfg3.grid.coords t0)
    (out3 (((cfg3.win 0).blk t0).view.read (Elt F) fR) (((cfg3.win 1).blk t0).view.read (Elt F) fC) (((cfg3.win 2).blk t0).view.read (Elt F) f41))

variable (m : (ℓ : Loc nD τ sig) → Buf (Elt F) ℓ)

theorem OUT3_eq (d : Dev nD) (fR : Buf (Elt F) (aR d)) (fC : Buf (Elt F) (aC d)) (f41 : Buf (Elt F) (a41 d)) (g7 : Buf (Elt F) (a7 d)) :
    OUT3 (VV1 m d fR fC f41 g7) d = OUTf3 d fR fC f41 := by
  unfold OUT3
  refine Dat.arrAt_eq_of_cover _ 3 _ (fun t _ => ?_) (fun i => ?_)
  · obtain rfl := t_eq_t0 t
    have ha : (pdatsV 2 (VV1 m d fR fC f41 g7) 1 d).after 3 t0
        = out3 (((cfg3.win 0).blk t0).view.read (Elt F) fR) (((cfg3.win 1).blk t0).view.read (Elt F) fC) (((cfg3.win 2).blk t0).view.read (Elt F) f41) := by
      show out3 (iblk3 d (VV1 m d fR fC f41 g7 d) 0 t0) (iblk3 d (VV1 m d fR fC f41 g7 d) 1 t0) (iblk3 d (VV1 m d fR fC f41 g7 d) 2 t0) = _
      unfold iblk3
      rw [VV1_d, show Vd1 m d fR fC f41 g7 (Pipeline.arrRef spec3 0) = fR from Vd1_v6 m d fR fC f41 g7,
        show Vd1 m d fR fC f41 g7 (Pipeline.arrRef spec3 1) = fC from Vd1_v31 m d fR fC f41 g7,
        show Vd1 m d fR fC f41 g7 (Pipeline.arrRef spec3 2) = f41 from Vd1_v41 m d fR fC f41 g7]
    funext x
    show (cfg3.win 3).cut (cfg3.grid.coords t0) ((pdatsV 2 (VV1 m d fR fC f41 g7) 1 d).after 3 t0) x
      = (cfg3.win 3).cut (cfg3.grid.coords t0)
          (out3 (((cfg3.win 0).blk t0).view.read (Elt F) fR) (((cfg3.win 1).blk t0).view.read (Elt F) fC) (((cfg3.win 2).blk t0).view.read (Elt F) f41))
          (((cfg3.win 3).blk t0).view.emb x)
    rw [ha]
    exact congrArg _ (Subsingleton.elim (α := S1x1.Idx) _ _)
  · refine ⟨t0, rfl, ?_⟩
    have hmem := ((cfg3.win 3).blk t0).view.emb_mem_set (Shape.Idx.first (launch3.block_pos 3))
    exact (Subsingleton.elim (α := S1x1.Idx) i _) ▸ hmem

/-- The second combining pallas_call inside the SparseCore program, its result named by `OUTf3`. -/
theorem reg1W (m : (ℓ : Loc nD τ sig) → Buf (Elt F) ℓ) : Reg1V (F := F) OUTf3 := by
  intro d fR fC f41 Φ
  iintro ⟨#Hlev, Hb, HR, HC, H41, ⟨%g7, H7⟩, HG, HO, Hk⟩
  iapply (reg1V m d fR fC f41 g7 Φ)
  isplitl [Hlev]; · iexact Hlev
  isplitl [Hb]; · iexact Hb
  isplitl [HR]; · iexact HR
  isplitl [HC]; · iexact HC
  isplitl [H41]; · iexact H41
  isplitl [H7]; · iexact H7
  isplitl [HG]; · iexact HG
  isplitl [HO]; · iexact HO
  rw [OUT3_eq m d fR fC f41 g7]
  iexact Hk

end Cert.Proof.KI

end
-- ==== Proof.Region0V.lean ====
/-
  Toward the value claim: the first combining pallas_call EXACTLY — what its body leaves in the two results' staging
  buffers as functions of the two inputs' blocks: the sixteen 64-row pieces of the means table and the scalar, each the
  store's payload of the values loaded before it (the chain of payloads through the body's eight parts written out).
-/
import proofs.«210783_g59777354826199_cont_9to1_m_168_18_alg».proof.Proof.Region1W

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Dat)

variable {F : FTy → Type} [FloatOps F] [∀ e, Nonempty (Elt F e)]

local notation "𝕄" => MT nD τ sig (HIx 2) (Elt F) ℕ UU ℕ

abbrev rA0 : Rect S32x16384 := Rect.unit (s := S32x16384) ![0, 0] S32x16384.size inb_S32x16384_S32x16384_0_0

/-- What the first combining body leaves in the means table's and the scalar's staging buffers, from the two inputs'
    blocks. -/
def out1 (x0 : Vec F S32x16384 .f32) (x1 : Vec F S32x1024 .f32) : Vec F S1024x16 .f32 × Vec F S1x1 .f32 :=
  have v3 : FVec F S1x16384 .f32 := k1_pay3 (View.ld x0 rA0)
  have v6 : FVec F S1x1024 .f32 := k1_pay4 (View.ld x1 rW)
  have v35 : FVec F S1024x64 .f32 := k1_pay5 (F := F)
  have v36 : IVec S64x1024 32 := iota .tc S64x1024 32 [0] iota_S64x1024_d0_w32
  have v37 : IVec S64x1024 32 := iota .tc S64x1024 32 [1] iota_S64x1024_d1_w32
  have v39 : IVec S64x1024 32 := k1_pay6
  have v42 : IVec S64x1024 32 := k1_pay7
  have v64 : FVec F S64x1024 .f32 := k1_pay8 (F := F) v36 v37 16#32 v39 v42 0#32
  have v68 : FVec F S1x64 .f32 := k1_pay11 v6 v35
  have v70 : FVec F S64x1 .f32 := k1_pay12 v6 v36 v37 16#32 v39 v42 0#32
  have v76 : IVec S1x64 1 := k1_pay13 v6 v35
  have v82 : IVec S64x1 1 := k1_pay14 v6 v36 v37 16#32 v39 v42 0#32
  have v88 : F .f32 := k1_pay15 v6 v35
  have cst_25 : F .f32 := Scalar.ofBits .f32 0x00000000#32
  have v118 : FVec F S64x64 .f32 := k1_pay22 v3 v35 v64 v68 v70 cst_25
  have v120 : FVec F S64x1 .f32 := k1_pay23 v3 v64 v70
  have v125 : FVec F S64x1 .f32 := k1_pay25 v3 v64 v70
  have v132 : FVec F S64x64 .f32 := k1_pay27 v3 v35 v64 v68 v70
  have v163 : FVec F S64x64 .f32 := k1_pay34 v3 v35 v64 v68 v70 v118 v132
  have v165 : FVec F S64x1 .f32 := k1_pay35 v3 v64 v70 v120 v125
  have v170 : FVec F S64x1 .f32 := k1_pay37 v3 v64 v70
  have v177 : FVec F S64x64 .f32 := k1_pay39 v3 v35 v64 v68 v70
  have v208 : FVec F S64x64 .f32 := k1_pay46 v3 v35 v64 v68 v70 v163 v177
  have v210 : FVec F S64x1 .f32 := k1_pay47 v3 v64 v70 v165 v170
  have v215 : FVec F S64x1 .f32 := k1_pay49 v3 v64 v70
  have v222 : FVec F S64x64 .f32 := k1_pay51 v3 v35 v64 v68 v70
  have v253 : FVec F S64x64 .f32 := k1_pay58 v3 v35 v64 v68 v70 v208 v222
  have v255 : FVec F S64x1 .f32 := k1_pay59 v3 v64 v70 v210 v215
  have v260 : FVec F S64x1 .f32 := k1_pay61 v3 v64 v70
  have v267 : FVec F S64x64 .f32 := k1_pay63 v3 v35 v64 v68 v70
  have v298 : FVec F S64x64 .f32 := k1_pay70 v3 v35 v64 v68 v70 v253 v267
  have v300 : FVec F S64x1 .f32 := k1_pay71 v3 v64 v70 v255 v260
  have v305 : FVec F S64x1 .f32 := k1_pay73 v3 v64 v70
  have v312 : FVec F S64x64 .f32 := k1_pay75 v3 v35 v64 v68 v70
  have v352 : F .f32 := k1_pay79 v3 v35 v64 v68 v70 v76 v82 v88 v298 v312
  have v358 : F .f32 := k1_pay80 v3 v64 v70 v82 v300 v305
  have cst_84 : F .f32 := Scalar.ofBits .f32 0x3F800000#32
  (View.canon [
      ⟨Rect.unit (s := S1024x16) ![960, 0] S64x16.size inb_S1024x16_S64x16_960_0, k1_pay78 v3 v64 v70⟩,
      ⟨Rect.unit (s := S1024x16) ![896, 0] S64x16.size inb_S1024x16_S64x16_896_0, k1_pay74 v3 v64 v70⟩,
      ⟨Rect.unit (s := S1024x16) ![832, 0] S64x16.size inb_S1024x16_S64x16_832_0, k1_pay69 v3 v64 v70⟩,
      ⟨Rect.unit (s := S1024x16) ![768, 0] S64x16.size inb_S1024x16_S64x16_768_0, k1_pay66 v3 v64 v70⟩,
      ⟨Rect.unit (s := S1024x16) ![704, 0] S64x16.size inb_S1024x16_S64x16_704_0, k1_pay62 v3 v64 v70⟩,
      ⟨Rect.unit (s := S1024x16) ![640, 0] S64x16.size inb_S1024x16_S64x16_640_0, k1_pay57 v3 v64 v70⟩,
      ⟨Rect.unit (s := S1024x16) ![576, 0] S64x16.size inb_S1024x16_S64x16_576_0, k1_pay54 v3 v64 v70⟩,
      ⟨Rect.unit (s := S1024x16) ![512, 0] S64x16.size inb_S1024x16_S64x16_512_0, k1_pay50 v3 v64 v70⟩,
      ⟨Rect.unit (s := S1024x16) ![448, 0] S64x16.size inb_S1024x16_S64x16_448_0, k1_pay45 v3 v64 v70⟩,
      ⟨Rect.unit (s := S1024x16) ![384, 0] S64x16.size inb_S1024x16_S64x16_384_0, k1_pay42 v3 v64 v70⟩,
      ⟨Rect.unit (s := S1024x16) ![320, 0] S64x16.size inb_S1024x16_S64x16_320_0, k1_pay38 v3 v64 v70⟩,
      ⟨Rect.unit (s := S1024x16) ![256, 0] S64x16.size inb_S1024x16_S64x16_256_0, k1_pay33 v3 v64 v70⟩,
      ⟨Rect.unit (s := S1024x16) ![192, 0] S64x16.size inb_S1024x16_S64x16_192_0, k1_pay30 v3 v64 v70⟩,
      ⟨Rect.unit (s := S1024x16) ![128, 0] S64x16.size inb_S1024x16_S64x16_128_0, k1_pay26 v3 v64 v70⟩,
      ⟨Rect.unit (s := S1024x16) ![64, 0] S64x16.size inb_S1024x16_S64x16_64_0, k1_pay21 v3 v64 v70⟩,
      ⟨Rect.unit (s := S1024x16) ![0, 0] S64x16.size inb_S1024x16_S64x16_0_0, k1_pay18 v3 v64 v70⟩],
    View.canon [⟨r11, k1_pay1 v88 v352 v358 cst_84⟩])

/-- The sixteen pieces tile the means table's buffer. -/
theorem cover1_2 (p0 : Vec F S64x16 .f32) (p1 : Vec F S64x16 .f32) (p2 : Vec F S64x16 .f32) (p3 : Vec F S64x16 .f32) (p4 : Vec F S64x16 .f32) (p5 : Vec F S64x16 .f32) (p6 : Vec F S64x16 .f32) (p7 : Vec F S64x16 .f32) (p8 : Vec F S64x16 .f32) (p9 : Vec F S64x16 .f32) (p10 : Vec F S64x16 .f32) (p11 : Vec F S64x16 .f32) (p12 : Vec F S64x16 .f32) (p13 : Vec F S64x16 .f32) (p14 : Vec F S64x16 .f32) (p15 : Vec F S64x16 .f32) (y : S1024x16.Idx) :
    ∃ pc ∈ ([⟨Rect.unit (s := S1024x16) ![960, 0] S64x16.size inb_S1024x16_S64x16_960_0, p0⟩, ⟨Rect.unit (s := S1024x16) ![896, 0] S64x16.size inb_S1024x16_S64x16_896_0, p1⟩, ⟨Rect.unit (s := S1024x16) ![832, 0] S64x16.size inb_S1024x16_S64x16_832_0, p2⟩, ⟨Rect.unit (s := S1024x16) ![768, 0] S64x16.size inb_S1024x16_S64x16_768_0, p3⟩, ⟨Rect.unit (s := S1024x16) ![704, 0] S64x16.size inb_S1024x16_S64x16_704_0, p4⟩, ⟨Rect.unit (s := S1024x16) ![640, 0] S64x16.size inb_S1024x16_S64x16_640_0, p5⟩, ⟨Rect.unit (s := S1024x16) ![576, 0] S64x16.size inb_S1024x16_S64x16_576_0, p6⟩, ⟨Rect.unit (s := S1024x16) ![512, 0] S64x16.size inb_S1024x16_S64x16_512_0, p7⟩, ⟨Rect.unit (s := S1024x16) ![448, 0] S64x16.size inb_S1024x16_S64x16_448_0, p8⟩, ⟨Rect.unit (s := S1024x16) ![384, 0] S64x16.size inb_S1024x16_S64x16_384_0, p9⟩, ⟨Rect.unit (s := S1024x16) ![320, 0] S64x16.size inb_S1024x16_S64x16_320_0, p10⟩, ⟨Rect.unit (s := S1024x16) ![256, 0] S64x16.size inb_S1024x16_S64x16_256_0, p11⟩, ⟨Rect.unit (s := S1024x16) ![192, 0] S64x16.size inb_S1024x16_S64x16_192_0, p12⟩, ⟨Rect.unit (s := S1024x16) ![128, 0] S64x16.size inb_S1024x16_S64x16_128_0, p13⟩, ⟨Rect.unit (s := S1024x16) ![64, 0] S64x16.size inb_S1024x16_S64x16_64_0, p14⟩, ⟨Rect.unit (s := S1024x16) ![0, 0] S64x16.size inb_S1024x16_S64x16_0_0, p15⟩] : List (View.Piece (Elt F) S1024x16 .f32)), y ∈ pc.1.set :=
  View.cover_of_tiled [⟨Rect.unit (s := S1024x16) ![960, 0] S64x16.size inb_S1024x16_S64x16_960_0, p0⟩, ⟨Rect.unit (s := S1024x16) ![896, 0] S64x16.size inb_S1024x16_S64x16_896_0, p1⟩, ⟨Rect.unit (s := S1024x16) ![832, 0] S64x16.size inb_S1024x16_S64x16_832_0, p2⟩, ⟨Rect.unit (s := S1024x16) ![768, 0] S64x16.size inb_S1024x16_S64x16_768_0, p3⟩, ⟨Rect.unit (s := S1024x16) ![704, 0] S64x16.size inb_S1024x16_S64x16_704_0, p4⟩, ⟨Rect.unit (s := S1024x16) ![640, 0] S64x16.size inb_S1024x16_S64x16_640_0, p5⟩, ⟨Rect.unit (s := S1024x16) ![576, 0] S64x16.size inb_S1024x16_S64x16_576_0, p6⟩, ⟨Rect.unit (s := S1024x16) ![512, 0] S64x16.size inb_S1024x16_S64x16_512_0, p7⟩, ⟨Rect.unit (s := S1024x16) ![448, 0] S64x16.size inb_S1024x16_S64x16_448_0, p8⟩, ⟨Rect.unit (s := S1024x16) ![384, 0] S64x16.size inb_S1024x16_S64x16_384_0, p9⟩, ⟨Rect.unit (s := S1024x16) ![320, 0] S64x16.size inb_S1024x16_S64x16_320_0, p10⟩, ⟨Rect.unit (s := S1024x16) ![256, 0] S64x16.size inb_S1024x16_S64x16_256_0, p11⟩, ⟨Rect.unit (s := S1024x16) ![192, 0] S64x16.size inb_S1024x16_S64x16_192_0, p12⟩, ⟨Rect.unit (s := S1024x16) ![128, 0] S64x16.size inb_S1024x16_S64x16_128_0, p13⟩, ⟨Rect.unit (s := S1024x16) ![64, 0] S64x16.size inb_S1024x16_S64x16_64_0, p14⟩, ⟨Rect.unit (s := S1024x16) ![0, 0] S64x16.size inb_S1024x16_S64x16_0_0, p15⟩] S64x16.size (by rfl) y

set_option maxHeartbeats 4000000 in
/-- The body's exact triple. -/
theorem sound_kernel1V (c : Dev nD) (E : Set ℕ) (arg0 : Memref sig .tc .vmem S32x16384 .f32) (harg0 : arg0.IsWhole) (arg1 : Memref sig .tc .vmem S32x1024 .f32) (harg1 : arg1.IsWhole)
    (arg2 : Memref sig .tc .vmem S1024x16 .f32) (harg2 : arg2.IsWhole) (arg3 : Memref sig .tc .vmem S1x1 .f32) (harg3 : arg3.IsWhole)
    (x0 : Vec F S32x16384 .f32) (x1 : Vec F S32x1024 .f32) (Kc : PUnit → sProp 𝕄) :
    iprop(owns (c : Thread nD τ) arg0 fullShare x0 ∗ owns (c : Thread nD τ) arg1 fullShare x1 ∗ (∃ x2, owns (c : Thread nD τ) arg2 fullShare x2) ∗ (∃ x3, owns (c : Thread nD τ) arg3 fullShare x3)
        ∗ (iprop(owns (c : Thread nD τ) arg0 fullShare x0 ∗ owns (c : Thread nD τ) arg1 fullShare x1 ∗ owns (c : Thread nD τ) arg2 fullShare (out1 x0 x1).1
            ∗ owns (c : Thread nD τ) arg3 fullShare (out1 x0 x1).2) -∗ Kc ⟨⟩))
      ⊢ wp frame (wpE (defs₀ (F := F)) Variants.none c none) E (cc1__combine1_body arg0 harg0 arg1 harg1 arg2 harg2 arg3 harg3) Kc := by
  simp only [cc1__combine1_body_eq_skeleton]; unfold cc1__combine1_body_skel
  unfold owns
  iintro ⟨⟨%f0, %hf0, H0⟩, ⟨%f1, %hf1, H1⟩, ⟨%x2, %f2, -, H2⟩, ⟨%x3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _ _ _ _ _ _ _ _ _ _ _ _ _ _ _ _)
  iexists _; isplitr
  swap; · iexact H3
  ipureintro
  exact View.read_writes_eq_canon _ _ _ (cover3 _)

/-! ## Exact proof data -/

/-- Window `w`'s block at the one point, read off the array's entry contents. -/
def iblk1 (c : Dev nD) (Vv : (b : Ref sig .tc) → Buf (Elt F) ((c : Thread nD τ).loc b)) (w : Fin cfg1.W) (t : Fin cfg1.N) :
    ((cfg1.win w).xblock (cfg1.grid.coords t)).Idx → Elt F (cfg1.win w).elt :=
  ((cfg1.win w).blk t).view.read (Elt F) (Vv (Pipeline.arrRef spec1 w))

/-- The first combining call's exact proof data. -/
def dat1 (c : Dev nD) (Vv : (b : Ref sig .tc) → Buf (Elt F) ((c : Thread nD τ).loc b)) (O : CellTallies nD τ sig (HIx 2))
    (rec : Set (SemLoc sig × HIx 2)) : Dat τ (Elt F) (HIx 2) ℕ UU ℕ cfg1 c where
  A w := Vv (Pipeline.arrRef spec1 w)
  after w t := match w with
    | ⟨0, _⟩ => iblk1 c Vv 0 t
    | ⟨1, _⟩ => iblk1 c Vv 1 t
    | ⟨2, _⟩ => (out1 (iblk1 c Vv 0 t) (iblk1 c Vv 1 t)).1
    | ⟨3, _⟩ => (out1 (iblk1 c Vv 0 t) (iblk1 c Vv 1 t)).2
  Φ _ := Pipeline.scopedRest spec1 c
  q _ := fullShare
  owed _ := O
  recorded _ := rec

section
variable (c : Dev nD) (Vv : (b : Ref sig .tc) → Buf (Elt F) ((c : Thread nD τ).loc b)) (O : CellTallies nD τ sig (HIx 2)) (rec : Set (SemLoc sig × HIx 2))

theorem A1_eq (w : Fin cfg1.W) : (dat1 c Vv O rec).A w = Vv (Pipeline.arrRef spec1 w) := by dsimp only [dat1]
theorem after1_0 (t : Fin cfg1.N) : (dat1 c Vv O rec).after 0 t = iblk1 c Vv 0 t := by dsimp only [dat1]
theorem after1_1 (t : Fin cfg1.N) : (dat1 c Vv O rec).after 1 t = iblk1 c Vv 1 t := by dsimp only [dat1]
theorem after1_2 (t : Fin cfg1.N) : (dat1 c Vv O rec).after 2 t = (out1 (iblk1 c Vv 0 t) (iblk1 c Vv 1 t)).1 := by dsimp only [dat1]
theorem after1_3 (t : Fin cfg1.N) : (dat1 c Vv O rec).after 3 t = (out1 (iblk1 c Vv 0 t) (iblk1 c Vv 1 t)).2 := by dsimp only [dat1]

theorem before1_0 (t : Fin cfg1.N) (d) : (dat1 c Vv O rec).before 0 t d = iblk1 c Vv 0 t :=
  ((dat1 c Vv O rec).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (t : Fin cfg1.N) (d) : (dat1 c Vv O rec).before 1 t d = iblk1 c Vv 1 t :=
  ((dat1 c Vv O rec).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)

theorem sound_body1 (t : Fin cfg1.N) :
    iprop((dat1 c Vv O rec).Φ t.castSucc ∗ (dat1 c Vv O rec).owesAt none t.castSucc
        ∗ (∃ d, owns (c : Thread nD τ) ((cfg1.win 0).stage (cfg1.slots t 0)) fullShare ((dat1 c Vv O rec).before 0 t d))
        ∗ (∃ d, owns (c : Thread nD τ) ((cfg1.win 1).stage (cfg1.slots t 1)) fullShare ((dat1 c Vv O rec).before 1 t d))
        ∗ (∃ d, owns (c : Thread nD τ) ((cfg1.win 2).stage (cfg1.slots t 2)) fullShare ((dat1 c Vv O rec).before 2 t d))
        ∗ (∃ d, owns (c : Thread nD τ) ((cfg1.win 3).stage (cfg1.slots t 3)) fullShare ((dat1 c Vv O rec).before 3 t d)))
      ⊢ wp frame (wpE (defs₀ (F := F)) Variants.none c none) Set.univ (defs₀ .tc cfg1.body (cfg1.bodyArgs t (cfg1.slots t))) (fun _ =>
          iprop((dat1 c Vv O rec).Φ t.succ ∗ (dat1 c Vv O rec).owesAt none t.succ
            ∗ owns (c : Thread nD τ) ((cfg1.win 0).stage (cfg1.slots t 0)) fullShare ((dat1 c Vv O rec).after 0 t)
            ∗ owns (c : Thread nD τ) ((cfg1.win 1).stage (cfg1.slots t 1)) fullShare ((dat1 c Vv O rec).after 1 t)
            ∗ owns (c : Thread nD τ) ((cfg1.win 2).stage (cfg1.slots t 2)) fullShare ((dat1 c Vv O rec).after 2 t)
            ∗ owns (c : Thread nD τ) ((cfg1.win 3).stage (cfg1.slots t 3)) fullShare ((dat1 c Vv O rec).after 3 t))) := by
  simp only [before1_0, before1_1]
  rw [show (dat1 c Vv O rec).Φ t.succ = (dat1 c Vv O rec).Φ t.castSucc from rfl,
    show (dat1 c Vv O rec).owesAt none t.succ = (dat1 c Vv O rec).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel1V c Set.univ _ _ _ _ _ _ _ _ (iblk1 c Vv 0 t) (iblk1 c Vv 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obl1V : Pipeline.BodyObligation (dat1 (F := F) c Vv O rec) (defs₀ (F := F)) Variants.none none Set.univ := fun t => by
  rw [bigSep_W1, bigSep_W1]
  exact sound_body1 c Vv O rec t
end

/-! ## The region, exactly -/

def pdatsV0 (n : ℕ) (VV : (c : Dev nD) → (b : Ref sig .tc) → Buf (Elt F) ((c : Thread nD τ).loc b)) :
    (p : Fin 2) → (c : Dev nD) → Dat τ (Elt F) (HIx 2) ℕ UU ℕ (Pipeline.pin (pcfgs (F := F)) adm p) c
  | ⟨0, _⟩ => fun c => dat1 c (VV c) ((K (F := F)).Otc c n) (recB (F := F) n c)
  | ⟨1, _⟩ => fun c => { A := fun w => VV c (Pipeline.arrRef spec3 w), after := fun w t => Dat.unnamed w t, Φ := fun _ => iprop(emp), q := fun _ => fullShare, owed := fun _ => 0 }

theorem hwaitsV0 (n : ℕ) (VV : (c : Dev nD) → (b : Ref sig .tc) → Buf (Elt F) ((c : Thread nD τ).loc b)) (c : Dev nD) :
    (levAts (K (F := F)).L (K (F := F)).lev : sProp 𝕄) ⊢ Pipeline.cellsWaits (Pipeline.pin (pcfgs (F := F)) adm) (pdatsV0 n VV) (none : HIx 2) 0 c :=
  Pipeline.cellsWaits_intro _ _ _ 0 c fun w s t => (K (F := F)).mayWait_none _ (Otc_none c n)

theorem owes_entryV0 (n : ℕ) (VV : (c : Dev nD) → (b : Ref sig .tc) → Buf (Elt F) ((c : Thread nD τ).loc b)) (c : Dev nD) :
    owesPart (F := F) c n ⊢ (pdatsV0 n VV 0 c).owesAt none 0 := by
  unfold owesPart Pipeline.Dat.owesAt Pipeline.owesWithin
  iintro ⟨%W, %hW, HO⟩
  iexists W; isplitr; · ipureintro; exact fun q hq => Or.inl (hW q hq)
  iexact HO

theorem owes_exitV0 (n : ℕ) (VV : (c : Dev nD) → (b : Ref sig .tc) → Buf (Elt F) ((c : Thread nD τ).loc b)) (c : Dev nD) :
    (pdatsV0 n VV 0 c).owesAt none (Fin.last _) ⊢ owesPart (F := F) c n := by
  unfold owesPart Pipeline.Dat.owesAt Pipeline.owesWithin
  iintro ⟨%W, %hW, HO⟩
  iexists W; isplitr
  · ipureintro
    intro q hq
    rcases hW hq with h | ⟨w, s, rfl⟩
    · exact h
    · show (K (F := F)).lev _ none ≤ _; rw [SparseCore.Cfg.lev_none]; exact Nat.zero_le _
  iexact HO

set_option backward.isDefEq.respectTransparency.types false in
def reg0SegV (VV : (c : Dev nD) → (b : Ref sig .tc) → Buf (Elt F) ((c : Thread nD τ).loc b)) :
    Pipeline.RegionSeg (pcfgs (F := F)) adm (pdatsV0 1 VV) (none : HIx 2) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obl1V c (VV c) _ _).loose
  hwaits c := hwaitsV0 1 VV c
  pre c := iprop((pdatsV0 1 VV 0 c).arrays ((pdatsV0 1 VV 0 c).arrAt · 0) ∗ owesPart (F := F) c 1)
  post c := iprop((pdatsV0 1 VV 0 c).arrays ((pdatsV0 1 VV 0 c).arrAt · cfg1.N) ∗ owesPart (F := F) c 1)
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owes_entryV0 1 VV c); iexact HO
    isplitr; · iempintro
    iempintro
  hin c := by
    rw [show (pdatsV0 1 VV 0 c).Φ 0 = Pipeline.scopedRest spec1 c from rfl]
    iintro ⟨-, -, Hr⟩
    iexact Hr
  hout c := by
    rw [Pipeline.ownSems0_none, show (pdatsV0 1 VV 0 c).Φ (Fin.last _) = Pipeline.scopedRest spec1 c from rfl]
    iintro Hr
    isplitr; · iempintro
    isplitr; · iempintro
    iexact Hr
  hexit c := by
    iintro ⟨Ha, HO, -, -⟩
    imodintro
    isplitl [Ha]; · iexact Ha
    iapply (owes_exitV0 1 VV c); iexact HO

/-! ## The region inside the SparseCore program, exactly -/

theorem arrays0V_eq (VV : (c : Dev nD) → (b : Ref sig .tc) → Buf (Elt F) ((c : Thread nD τ).loc b)) (d : Dev nD)
    (Fa : (w : Fin cfg1.W) → Buf (Elt F) ((cfg1.win w).arr.view.loc (d : Thread nD τ))) :
    ((pdatsV0 1 VV 0 d).arrays Fa : sProp 𝕄)
      = iprop((aS d ↦{fullShare} Fa 0) ∗ (aC d ↦{fullShare} Fa 1) ∗ (a40 d ↦{fullShare} Fa 2) ∗ (a41 d ↦{fullShare} Fa 3)) := by
  rw [Pipeline.arrays_eq (Pipeline.pin (pcfgs (F := F)) adm) (pdatsV0 1 VV) 0 d arr_whole1 ((pdatsV0 1 VV 0 d).share_full fun _ => rfl), bigSep_W1]
  rfl

/-- What the first combining call leaves in its two result arrays, from the contents its four arrays are entered with. -/
def MEANS0 (VV : (c : Dev nD) → (b : Ref sig .tc) → Buf (Elt F) ((c : Thread nD τ).loc b)) (d : Dev nD) : Buf (Elt F) (a40 d) :=
  (pdatsV0 1 VV 0 d).arrAt 2 cfg1.N
def SCAL0 (VV : (c : Dev nD) → (b : Ref sig .tc) → Buf (Elt F) ((c : Thread nD τ).loc b)) (d : Dev nD) : Buf (Elt F) (a41 d) :=
  (pdatsV0 1 VV 0 d).arrAt 3 cfg1.N

/-- The first combining pallas_call inside the SparseCore program, with the result arrays' contents named. -/
theorem reg0V (m : (ℓ : Loc nD τ sig) → Buf (Elt F) ℓ) (d : Dev nD) (fS : Buf (Elt F) (aS d)) (fC : Buf (Elt F) (aC d)) (g40 : Buf (Elt F) (a40 d))
    (g41 : Buf (Elt F) (a41 d)) (Φ : PUnit → sProp 𝕄) :
    iprop(levAts (K (F := F)).L (K (F := F)).lev ∗ boundary (SparseCore.T d) ∗ (aS d ↦{fullShare} fS) ∗ (aC d ↦{fullShare} fC)
        ∗ (a40 d ↦{fullShare} g40) ∗ (a41 d ↦{fullShare} g41) ∗ ghostP (F := F) 0 d ∗ owesPart (F := F) d 1
        ∗ (iprop(boundary (SparseCore.T d) ∗ (aS d ↦{fullShare} fS) ∗ (aC d ↦{fullShare} fC)
            ∗ (a40 d ↦{fullShare} MEANS0 (VV0 m d fS fC g40 g41) d) ∗ (a41 d ↦{fullShare} SCAL0 (VV0 m d fS fC g40 g41) d) ∗ owesPart (F := F) d 1) -∗ Φ ⟨⟩))
      ⊢ wp frame (wpE ((K (F := F)).defs (D (F := F))) 𝒱 (SparseCore.T d) none) Set.univ
          (Prog.lift (TpuEff.customCall (SparseCore.inner (Pipeline.entry 0)) ())) Φ := by
  iintro ⟨#Hlev, Hb, HS, HC, H40, H41, ⟨HGc, HGt⟩, HO, Hk⟩
  iapply ((K (F := F)).wp_liftProg (D (F := F)) 𝒱 (SparseCore.T d) Set.univ none (Prog.lift (TpuEff.customCall (Pipeline.entry 0) ())) Φ)
  iapply (Pipeline.RegionSeg.wp (pcfgs (F := F)) adm (pdatsV0 1 (VV0 m d fS fC g40 g41)) (none : HIx 2) cellOf_inj (EP (F := F)) defs₀ 𝒱₀
    (K (F := F)).L (K (F := F)).lev (reg0SegV (VV0 m d fS fC g40 g41)) d none (fun u hu => nomatch hu) (fun _ => Prog.ret PUnit.unit) Φ)
  isplitl [Hk]
  · iintro ⟨Hb, Hpost⟩
    rw [wp_ret]; imodintro
    ihave Hp := (Entails.of_eq (show (reg0SegV (VV0 m d fS fC g40 g41)).post d
        = iprop((pdatsV0 1 (VV0 m d fS fC g40 g41) 0 d).arrays ((pdatsV0 1 (VV0 m d fS fC g40 g41) 0 d).arrAt · cfg1.N) ∗ owesPart (F := F) d 1) from rfl)) $$ Hpost
    icases Hp with ⟨Ha, HO⟩
    ihave Ha' := (Entails.of_eq (arrays0V_eq (VV0 m d fS fC g40 g41) d _)) $$ Ha
    icases Ha' with ⟨HS, HC, H40, H41⟩
    iapply Hk
    isplitl [Hb]; · iexact Hb
    isplitl [HS]
    · iapply (Entails.of_eq (ptsS0 m d fS fC g40 g41))
      iapply (Entails.of_eq (congrArg (fun x => (aS d ↦{fullShare} x : sProp 𝕄)) ((pdatsV0 1 (VV0 m d fS fC g40 g41) 0 d).arrAt_in 0 rfl cfg1.N)))
      iexact HS
    isplitl [HC]
    · iapply (Entails.of_eq (ptsC0 m d fS fC g40 g41))
      iapply (Entails.of_eq (congrArg (fun x => (aC d ↦{fullShare} x : sProp 𝕄)) ((pdatsV0 1 (VV0 m d fS fC g40 g41) 0 d).arrAt_in 1 rfl cfg1.N)))
      iexact HC
    isplitl [H40]; · iexact H40
    isplitl [H41]; · iexact H41
    iexact HO
  isplitl [Hb]; · iexact Hb
  isplitl [HS HC H40 H41 HO]
  · iapply (Entails.of_eq (show (reg0SegV (VV0 m d fS fC g40 g41)).pre d
        = iprop((pdatsV0 1 (VV0 m d fS fC g40 g41) 0 d).arrays ((pdatsV0 1 (VV0 m d fS fC g40 g41) 0 d).arrAt · 0) ∗ owesPart (F := F) d 1) from rfl).symm)
    isplitl [HS HC H40 H41]
    · iapply (Entails.of_eq (arrays0V_eq (VV0 m d fS fC g40 g41) d _).symm)
      isplitl [HS]; · iapply (Entails.of_eq (ptsS0 m d fS fC g40 g41).symm); iexact HS
      isplitl [HC]; · iapply (Entails.of_eq (ptsC0 m d fS fC g40 g41).symm); iexact HC
      isplitl [H40]; · iapply (Entails.of_eq (pts400 m d fS fC g40 g41).symm); iexact H40
      iapply (Entails.of_eq (pts410 m d fS fC g40 g41).symm); iexact H41
    iexact HO
  isplitl [Hlev]; · iexact Hlev
  isplitl [HGc]; · iexact HGc
  iexact HGt

end Cert.Proof.KI

end
-- ==== Proof.Region0W.lean ====
/-
  Toward the value claim: the first combining pallas_call's two result arrays in closed form — the sixteen stores' and
  the one store's payloads of the two input arrays, written over whatever the result arrays held before (the one block of
  each covers it) — and the region inside the SparseCore program with its results so named.
-/
import proofs.«210783_g59777354826199_cont_9to1_m_168_18_alg».proof.Proof.Region0V

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)

variable {F : FTy → Type} [FloatOps F] [∀ e, Nonempty (Elt F e)]

local notation "𝕄" => MT nD τ sig (HIx 2) (Elt F) ℕ UU ℕ

/-- The one grid point. -/
def t01 : Fin cfg1.N := ⟨0, by decide⟩

theorem t_eq_t01 (t : Fin cfg1.N) : t = t01 := Fin.ext (by have h : t.val < 1 := t.isLt; show t.val = 0; omega)

/-- What the first combining call leaves in the means table and in the scalar, from the contents of its two input arrays. -/
def MEANSf1 (d : Dev nD) (fS : Buf (Elt F) (aS d)) (fC : Buf (Elt F) (aC d)) : Buf (Elt F) (a40 d) :=
  ((cfg1.win 2).blk t01).view.write (Elt F) (fun _ => Classical.arbitrary _)
    ((cfg1.win 2).cut (cfg1.grid.coords t01) (out1 (((cfg1.win 0).blk t01).view.read (Elt F) fS) (((cfg1.win 1).blk t01).view.read (Elt F) fC)).1) Finset.univ
def SCALf1 (d : Dev nD) (fS : Buf (Elt F) (aS d)) (fC : Buf (Elt F) (aC d)) : Buf (Elt F) (a41 d) :=
  ((cfg1.win 3).blk t01).view.write (Elt F) (fun _ => Classical.arbitrary _)
    ((cfg1.win 3).cut (cfg1.grid.coords t01) (out1 (((cfg1.win 0).blk t01).view.read (Elt F) fS) (((cfg1.win 1).blk t01).view.read (Elt F) fC)).2) Finset.univ

variable (m : (ℓ : Loc nD τ sig) → Buf (Elt F) ℓ)

theorem MEANS0_eq (d : Dev nD) (fS : Buf (Elt F) (aS d)) (fC : Buf (Elt F) (aC d)) (g40 : Buf (Elt F) (a40 d)) (g41 : Buf (Elt F) (a41 d)) :
    MEANS0 (VV0 m d fS fC g40 g41) d = MEANSf1 d fS fC := by
  unfold MEANS0
  refine Dat.arrAt_eq_of_cover _ 2 _ (fun t _ => ?_) (fun (i : S1024x16.Idx) => ?_)
  · obtain rfl := t_eq_t01 t
    have ha : (pdatsV0 1 (VV0 m d fS fC g40 g41) 0 d).after 2 t01
        = (out1 (((cfg1.win 0).blk t01).view.read (Elt F) fS) (((cfg1.win 1).blk t01).view.read (Elt F) fC)).1 := by
      show (out1 (iblk1 d (VV0 m d fS fC g40 g41 d) 0 t01) (iblk1 d (VV0 m d fS fC g40 g41 d) 1 t01)).1 = _
      unfold iblk1
      rw [VV0_d, show Vd0 m d fS fC g40 g41 (Pipeline.arrRef spec1 0) = fS from Vd0_v30 m d fS fC g40 g41,
        show Vd0 m d fS fC g40 g41 (Pipeline.arrRef spec1 1) = fC from Vd0_v31 m d fS fC g40 g41]
    show (cfg1.win 2).cut (cfg1.grid.coords t01) ((pdatsV0 1 (VV0 m d fS fC g40 g41) 0 d).after 2 t01) = _
    rw [ha]
    unfold MEANSf1
    exact (View.read_write_univ _ _).symm
  · refine ⟨t01, rfl, ?_⟩
    show i ∈ ((View.whole (main_v4_0 : Ref sig .tc)).slice (win1_2.rect t01)).set
    rw [View.set_slice_whole]
    show i ∈ (Rect.unit (s := S1024x16) (fun a => win1_2.index t01 a * S1024x16.size a) S1024x16.size _).set
    rw [Rect.mem_set_unit]
    intro a
    match a with
    | ⟨0, h0⟩ => have hi : (i ⟨0, h0⟩).val < 1024 := (i ⟨0, h0⟩).isLt; exact ⟨Nat.zero_le _, by show _ < 0 * 1024 + 1024; omega⟩
    | ⟨1, h1⟩ => have hi : (i ⟨1, h1⟩).val < 16 := (i ⟨1, h1⟩).isLt; exact ⟨Nat.zero_le _, by show _ < 0 * 16 + 16; omega⟩

theorem SCAL0_eq (d : Dev nD) (fS : Buf (Elt F) (aS d)) (fC : Buf (Elt F) (aC d)) (g40 : Buf (Elt F) (a40 d)) (g41 : Buf (Elt F) (a41 d)) :
    SCAL0 (VV0 m d fS fC g40 g41) d = SCALf1 d fS fC := by
  unfold SCAL0
  refine Dat.arrAt_eq_of_cover _ 3 _ (fun t _ => ?_) (fun (i : S1x1.Idx) => ?_)
  · obtain rfl := t_eq_t01 t
    have ha : (pdatsV0 1 (VV0 m d fS fC g40 g41) 0 d).after 3 t01
        = (out1 (((cfg1.win 0).blk t01).view.read (Elt F) fS) (((cfg1.win 1).blk t01).view.read (Elt F) fC)).2 := by
      show (out1 (iblk1 d (VV0 m d fS fC g40 g41 d) 0 t01) (iblk1 d (VV0 m d fS fC g40 g41 d) 1 t01)).2 = _
      unfold iblk1
      rw [VV0_d, show Vd0 m d fS fC g40 g41 (Pipeline.arrRef spec1 0) = fS from Vd0_v30 m d fS fC g40 g41,
        show Vd0 m d fS fC g40 g41 (Pipeline.arrRef spec1 1) = fC from Vd0_v31 m d fS fC g40 g41]
    show (cfg1.win 3).cut (cfg1.grid.coords t01) ((pdatsV0 1 (VV0 m d fS fC g40 g41) 0 d).after 3 t01) = _
    rw [ha]
    unfold SCALf1
    exact (View.read_write_univ _ _).symm
  · refine ⟨t01, rfl, ?_⟩
    have hmem := ((cfg1.win 3).blk t01).view.emb_mem_set (Shape.Idx.first (launch1.block_pos 3))
    exact (Subsingleton.elim (α := S1x1.Idx) i _) ▸ hmem

/-- The first combining pallas_call inside the SparseCore program, its results named by `MEANSf1`, `SCALf1`. -/
theorem reg0W (m : (ℓ : Loc nD τ sig) → Buf (Elt F) ℓ) : Reg0V (F := F) MEANSf1 SCALf1 := by
  intro d fS fC Φ
  iintro ⟨#Hlev, Hb, HS, HC, ⟨%g40, H40⟩, ⟨%g41, H41⟩, HG, HO, Hk⟩
  iapply (reg0V m d fS fC g40 g41 Φ)
  isplitl [Hlev]; · iexact Hlev
  isplitl [Hb]; · iexact Hb
  isplitl [HS]; · iexact HS
  isplitl [HC]; · iexact HC
  isplitl [H40]; · iexact H40
  isplitl [H41]; · iexact H41
  isplitl [HG]; · iexact HG
  isplitl [HO]; · iexact HO
  rw [MEANS0_eq m d fS fC g40 g41, SCAL0_eq m d fS fC g40 g41]
  iexact Hk

end Cert.Proof.KI

end
-- ==== Proof.Pass2IV.lean ====
import proofs.«210783_g59777354826199_cont_9to1_m_168_18_alg».proof.Proof.SetupI
import proofs.«210783_g59777354826199_cont_9to1_m_168_18_alg».proof.Proof.Pass2IA
import proofs.«210783_g59777354826199_cont_9to1_m_168_18_alg».proof.Proof.Pass2IB
import proofs.«210783_g59777354826199_cont_9to1_m_168_18_alg».proof.Proof.Pass2IC

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! # The second vector-subcore kernel's accumulation loops, with what they leave in the accumulator

  A trip's rewriting of the accumulator as a function of the slot's rows, the means scratch and the accumulator's
  contents before it; the loop's contents after k trips as that function iterated. -/

variable (d : Dev nD) (L : grid2.Coords) [∀ e, Nonempty (Elt F e)] [FloatOps F]

/-- What a trip of the accumulation loop over staging slot 0 does, its rewriting of the accumulator being S: the rows
    and the means scratch are read and kept, the accumulator goes from fa to S … fa. -/
def TripSpec3 (S : (Fin 16 → Buf (Elt F) ((xB).view.loc (thr d L))) → (gt : Buf (Elt F) ((tB).view.loc (thr d L))) →
      Buf (Elt F) ((mB).view.loc (thr d L)) → Buf (Elt F) ((mT).view.loc (thr d L)) → (∀ j, (gt j : BitVec 32).toNat ≤ 63) →
      Fin k2_t3_loop.trips → Buf (Elt F) ((aT).view.loc (thr d L)) → Buf (Elt F) ((aT).view.loc (thr d L))) : Prop :=
  ∀ (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63)
    (v2 : BitVec 32) (k2_t2 : Fin k2_t2_loop.trips) (v475 c470 c471 c472 : BitVec 32) (kk : Fin k2_t3_loop.trips) (acc : BitVec 32)
    (fa : Buf (Elt F) ((aT).view.loc (thr d L))),
    (iprop((xPts d L 0 0 (gx 0) ∗ xPts d L 0 1 (gx 1) ∗ xPts d L 0 2 (gx 2) ∗ xPts d L 0 3 (gx 3) ∗ xPts d L 0 4 (gx 4) ∗ xPts d L 0 5 (gx 5) ∗ xPts d L 0 6 (gx 6) ∗ xPts d L 0 7 (gx 7) ∗ xPts d L 0 8 (gx 8) ∗ xPts d L 0 9 (gx 9) ∗ xPts d L 0 10 (gx 10) ∗ xPts d L 0 11 (gx 11) ∗ xPts d L 0 12 (gx 12) ∗ xPts d L 0 13 (gx 13) ∗ xPts d L 0 14 (gx 14) ∗ xPts d L 0 15 (gx 15)) ∗ tPts d L 0 gt ∗ mPts d L 0 gm
        ∗ ((mT).view.loc (thr d L) ↦{fullShare} fmt) ∗ ((aT).view.loc (thr d L) ↦{fullShare} fa)) : sProp 𝕄)
      ⊢ wp frame (wpE (defs₀ (F := F)) 𝒱₀ (thr d L) none) Set.univ
          (k2_t3_body L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1 v2 iotaV k2_t2 v475 c470 c471 c472 kk acc)
          fun _ => iprop((xPts d L 0 0 (gx 0) ∗ xPts d L 0 1 (gx 1) ∗ xPts d L 0 2 (gx 2) ∗ xPts d L 0 3 (gx 3) ∗ xPts d L 0 4 (gx 4) ∗ xPts d L 0 5 (gx 5) ∗ xPts d L 0 6 (gx 6) ∗ xPts d L 0 7 (gx 7) ∗ xPts d L 0 8 (gx 8) ∗ xPts d L 0 9 (gx 9) ∗ xPts d L 0 10 (gx 10) ∗ xPts d L 0 11 (gx 11) ∗ xPts d L 0 12 (gx 12) ∗ xPts d L 0 13 (gx 13) ∗ xPts d L 0 14 (gx 14) ∗ xPts d L 0 15 (gx 15)) ∗ tPts d L 0 gt ∗ mPts d L 0 gm
            ∗ ((mT).view.loc (thr d L) ↦{fullShare} fmt) ∗ ((aT).view.loc (thr d L) ↦{fullShare} S gx gt gm fmt hgt kk fa))

/-- The trip's rewriting of the accumulator, with the trip's specification at it. -/
noncomputable def tripW3 : {S : (Fin 16 → Buf (Elt F) ((xB).view.loc (thr d L))) → (gt : Buf (Elt F) ((tB).view.loc (thr d L))) →
      Buf (Elt F) ((mB).view.loc (thr d L)) → Buf (Elt F) ((mT).view.loc (thr d L)) → (∀ j, (gt j : BitVec 32).toNat ≤ 63) →
      Fin k2_t3_loop.trips → Buf (Elt F) ((aT).view.loc (thr d L)) → Buf (Elt F) ((aT).view.loc (thr d L)) // TripSpec3 (F := F) d L S} := by
  refine ⟨?S, ?_⟩
  rotate_left
  unfold TripSpec3
  intro gx gt gm fmt hgt v2 k2_t2 v475 c470 c471 c472 kk acc fa
  iintro ⟨⟨Hx0, Hx1, Hx2, Hx3, Hx4, Hx5, Hx6, Hx7, Hx8, Hx9, Hx10, Hx11, Hx12, Hx13, Hx14, Hx15⟩, Ht0, Hm0, Hmt, Ha⟩
  have hm6 := incl_m 0 (k2_off6 kk) (k2_off6_inb kk) (by rw [k2_off6_eq]; rfl)
  have ht6 := incl_t 0 (k2_off6 kk) (k2_off6_inb kk) (by rw [k2_off6_eq]; rfl)
  have hm23 := incl_m 0 (k2_off23 kk) (k2_off23_inb kk) (by rw [k2_off23_eq]; rfl)
  have ht23 := incl_t 0 (k2_off23 kk) (k2_off23_inb kk) (by rw [k2_off23_eq]; rfl)
  have hx7 := incl_x 0 0 (k2_off7 kk) (k2_off7_inb kk) (by rw [k2_off7_eq]; rfl) (by rw [k2_off7_eq]; rfl)
  have hx24 := incl_x 0 0 (k2_off24 kk) (k2_off24_inb kk) (by rw [k2_off24_eq]; rfl) (by rw [k2_off24_eq]; rfl)
  have hx8 := incl_x 0 1 (k2_off8 kk) (k2_off8_inb kk) (by rw [k2_off8_eq]; rfl) (by rw [k2_off8_eq]; rfl)
  have hx25 := incl_x 0 1 (k2_off25 kk) (k2_off25_inb kk) (by rw [k2_off25_eq]; rfl) (by rw [k2_off25_eq]; rfl)
  have hx9 := incl_x 0 2 (k2_off9 kk) (k2_off9_inb kk) (by rw [k2_off9_eq]; rfl) (by rw [k2_off9_eq]; rfl)
  have hx26 := incl_x 0 2 (k2_off26 kk) (k2_off26_inb kk) (by rw [k2_off26_eq]; rfl) (by rw [k2_off26_eq]; rfl)
  have hx10 := incl_x 0 3 (k2_off10 kk) (k2_off10_inb kk) (by rw [k2_off10_eq]; rfl) (by rw [k2_off10_eq]; rfl)
  have hx27 := incl_x 0 3 (k2_off27 kk) (k2_off27_inb kk) (by rw [k2_off27_eq]; rfl) (by rw [k2_off27_eq]; rfl)
  have hx11 := incl_x 0 4 (k2_off11 kk) (k2_off11_inb kk) (by rw [k2_off11_eq]; rfl) (by rw [k2_off11_eq]; rfl)
  have hx28 := incl_x 0 4 (k2_off28 kk) (k2_off28_inb kk) (by rw [k2_off28_eq]; rfl) (by rw [k2_off28_eq]; rfl)
  have hx12 := incl_x 0 5 (k2_off12 kk) (k2_off12_inb kk) (by rw [k2_off12_eq]; rfl) (by rw [k2_off12_eq]; rfl)
  have hx29 := incl_x 0 5 (k2_off29 kk) (k2_off29_inb kk) (by rw [k2_off29_eq]; rfl) (by rw [k2_off29_eq]; rfl)
  have hx13 := incl_x 0 6 (k2_off13 kk) (k2_off13_inb kk) (by rw [k2_off13_eq]; rfl) (by rw [k2_off13_eq]; rfl)
  have hx30 := incl_x 0 6 (k2_off30 kk) (k2_off30_inb kk) (by rw [k2_off30_eq]; rfl) (by rw [k2_off30_eq]; rfl)
  have hx14 := incl_x 0 7 (k2_off14 kk) (k2_off14_inb kk) (by rw [k2_off14_eq]; rfl) (by rw [k2_off14_eq]; rfl)
  have hx31 := incl_x 0 7 (k2_off31 kk) (k2_off31_inb kk) (by rw [k2_off31_eq]; rfl) (by rw [k2_off31_eq]; rfl)
  have hx15 := incl_x 0 8 (k2_off15 kk) (k2_off15_inb kk) (by rw [k2_off15_eq]; rfl) (by rw [k2_off15_eq]; rfl)
  have hx32 := incl_x 0 8 (k2_off32 kk) (k2_off32_inb kk) (by rw [k2_off32_eq]; rfl) (by rw [k2_off32_eq]; rfl)
  have hx16 := incl_x 0 9 (k2_off16 kk) (k2_off16_inb kk) (by rw [k2_off16_eq]; rfl) (by rw [k2_off16_eq]; rfl)
  have hx33 := incl_x 0 9 (k2_off33 kk) (k2_off33_inb kk) (by rw [k2_off33_eq]; rfl) (by rw [k2_off33_eq]; rfl)
  have hx17 := incl_x 0 10 (k2_off17 kk) (k2_off17_inb kk) (by rw [k2_off17_eq]; rfl) (by rw [k2_off17_eq]; rfl)
  have hx34 := incl_x 0 10 (k2_off34 kk) (k2_off34_inb kk) (by rw [k2_off34_eq]; rfl) (by rw [k2_off34_eq]; rfl)
  have hx18 := incl_x 0 11 (k2_off18 kk) (k2_off18_inb kk) (by rw [k2_off18_eq]; rfl) (by rw [k2_off18_eq]; rfl)
  have hx35 := incl_x 0 11 (k2_off35 kk) (k2_off35_inb kk) (by rw [k2_off35_eq]; rfl) (by rw [k2_off35_eq]; rfl)
  have hx19 := incl_x 0 12 (k2_off19 kk) (k2_off19_inb kk) (by rw [k2_off19_eq]; rfl) (by rw [k2_off19_eq]; rfl)
  have hx36 := incl_x 0 12 (k2_off36 kk) (k2_off36_inb kk) (by rw [k2_off36_eq]; rfl) (by rw [k2_off36_eq]; rfl)
  have hx20 := incl_x 0 13 (k2_off20 kk) (k2_off20_inb kk) (by rw [k2_off20_eq]; rfl) (by rw [k2_off20_eq]; rfl)
  have hx37 := incl_x 0 13 (k2_off37 kk) (k2_off37_inb kk) (by rw [k2_off37_eq]; rfl) (by rw [k2_off37_eq]; rfl)
  have hx21 := incl_x 0 14 (k2_off21 kk) (k2_off21_inb kk) (by rw [k2_off21_eq]; rfl) (by rw [k2_off21_eq]; rfl)
  have hx38 := incl_x 0 14 (k2_off38 kk) (k2_off38_inb kk) (by rw [k2_off38_eq]; rfl) (by rw [k2_off38_eq]; rfl)
  have hx22 := incl_x 0 15 (k2_off22 kk) (k2_off22_inb kk) (by rw [k2_off22_eq]; rfl) (by rw [k2_off22_eq]; rfl)
  have hx39 := incl_x 0 15 (k2_off39 kk) (k2_off39_inb kk) (by rw [k2_off39_eq]; rfl) (by rw [k2_off39_eq]; rfl)
  sl_unfold [k2_t3_body, k2_part9, k2_part8, k2_part7, k2_part6, k2_part5, k2_part4, k2_part3, k2_part2, k2_part1, SparseCore.vectorLoadIdx, SparseCore.vectorStoreIdx]
  sl_exec (disch := first
    | (show k2_chk17 _; refine sidx_ok _ ?_; intro x; refine seg_lt _ _ _ _ ?_ x; intro y; exact hgt _)
    | (show k2_chk34 _; refine sidx_ok _ ?_; intro x; refine seg_lt _ _ _ _ ?_ x; intro y; exact hgt _)
    | (refine gidx_ok _ ?_ _ ?_
       · intro x; refine seg_lt _ _ _ _ ?_ x; intro y; exact hgt _
       · decide))
  sl_step
  isplitl [Hx0 Hx1 Hx2 Hx3 Hx4 Hx5 Hx6 Hx7 Hx8 Hx9 Hx10 Hx11 Hx12 Hx13 Hx14 Hx15]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    iexact Hx15
  isplitl [Ht0]; · iexact Ht0
  isplitl [Hm0]; · iexact Hm0
  isplitl [Hmt]; · iexact Hmt
  iexact Ha

/-- What one trip over slot 0 leaves in the accumulator. -/
noncomputable def acc3 : (Fin 16 → Buf (Elt F) ((xB).view.loc (thr d L))) → (gt : Buf (Elt F) ((tB).view.loc (thr d L))) →
      Buf (Elt F) ((mB).view.loc (thr d L)) → Buf (Elt F) ((mT).view.loc (thr d L)) → (∀ j, (gt j : BitVec 32).toNat ≤ 63) →
      Fin k2_t3_loop.trips → Buf (Elt F) ((aT).view.loc (thr d L)) → Buf (Elt F) ((aT).view.loc (thr d L)) := (tripW3 (F := F) d L).1
theorem acc3_spec : TripSpec3 (F := F) d L (acc3 d L) := (tripW3 (F := F) d L).2

/-- The accumulator after the first k trips of the loop over slot 0. -/
noncomputable def iter3 (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63) (fa : Buf (Elt F) ((aT).view.loc (thr d L))) :
    ℕ → Buf (Elt F) ((aT).view.loc (thr d L))
  | 0 => fa
  | k + 1 => if h : k < k2_t3_loop.trips then acc3 d L gx gt gm fmt hgt ⟨k, h⟩ (iter3 gx gt gm fmt hgt fa k) else iter3 gx gt gm fmt hgt fa k

theorem iter3_succ (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63) (fa : Buf (Elt F) ((aT).view.loc (thr d L))) (kk : Fin k2_t3_loop.trips) :
    iter3 d L gx gt gm fmt hgt fa (kk.val + 1) = acc3 d L gx gt gm fmt hgt kk (iter3 d L gx gt gm fmt hgt fa kk.val) := by
  show (if h : kk.val < k2_t3_loop.trips then acc3 d L gx gt gm fmt hgt ⟨kk.val, h⟩ (iter3 d L gx gt gm fmt hgt fa kk.val) else _) = _
  rw [dif_pos kk.isLt]

/-- The accumulation loop's invariant over slot 0, with the accumulator's contents: after k trips, the k-fold rewriting
    of what it held at the loop's start. -/
def invV3 (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63) (fa : Buf (Elt F) ((aT).view.loc (thr d L))) (k : Nat) (_ : BitVec 32) : sProp 𝕄 :=
  iprop((xPts d L 0 0 (gx 0) ∗ xPts d L 0 1 (gx 1) ∗ xPts d L 0 2 (gx 2) ∗ xPts d L 0 3 (gx 3) ∗ xPts d L 0 4 (gx 4) ∗ xPts d L 0 5 (gx 5) ∗ xPts d L 0 6 (gx 6) ∗ xPts d L 0 7 (gx 7) ∗ xPts d L 0 8 (gx 8) ∗ xPts d L 0 9 (gx 9) ∗ xPts d L 0 10 (gx 10) ∗ xPts d L 0 11 (gx 11) ∗ xPts d L 0 12 (gx 12) ∗ xPts d L 0 13 (gx 13) ∗ xPts d L 0 14 (gx 14) ∗ xPts d L 0 15 (gx 15)) ∗ tPts d L 0 gt ∗ mPts d L 0 gm
    ∗ ((mT).view.loc (thr d L) ↦{fullShare} fmt) ∗ ((aT).view.loc (thr d L) ↦{fullShare} iter3 d L gx gt gm fmt hgt fa k))

/-- The loop's region at that invariant. -/
theorem tripV3 (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63) (fa : Buf (Elt F) ((aT).view.loc (thr d L)))
    (v2 : BitVec 32) (k2_t2 : Fin k2_t2_loop.trips) (v475 c470 c471 c472 : BitVec 32) (kk : Fin k2_t3_loop.trips) (acc : BitVec 32) :
    (invV3 (F := F) d L gx gt gm fmt hgt fa kk.val acc)
      ⊢ wp frame (wpE (defs₀ (F := F)) 𝒱₀ (thr d L) none) Set.univ
          (k2_t3_body L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1 v2 iotaV k2_t2 v475 c470 c471 c472 kk acc)
          (invV3 (F := F) d L gx gt gm fmt hgt fa (kk.val + 1)) := by
  unfold invV3
  rw [iter3_succ]
  exact acc3_spec d L gx gt gm fmt hgt v2 k2_t2 v475 c470 c471 c472 kk acc _

/-- What a trip of the accumulation loop over staging slot 1 does, its rewriting of the accumulator being S: the rows
    and the means scratch are read and kept, the accumulator goes from fa to S … fa. -/
def TripSpec4 (S : (Fin 16 → Buf (Elt F) ((xB).view.loc (thr d L))) → (gt : Buf (Elt F) ((tB).view.loc (thr d L))) →
      Buf (Elt F) ((mB).view.loc (thr d L)) → Buf (Elt F) ((mT).view.loc (thr d L)) → (∀ j, (gt j : BitVec 32).toNat ≤ 63) →
      Fin k2_t4_loop.trips → Buf (Elt F) ((aT).view.loc (thr d L)) → Buf (Elt F) ((aT).view.loc (thr d L))) : Prop :=
  ∀ (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63)
    (v2 : BitVec 32) (k2_t2 : Fin k2_t2_loop.trips) (v475 c470 c471 c472 : BitVec 32) (kk : Fin k2_t4_loop.trips) (acc : BitVec 32)
    (fa : Buf (Elt F) ((aT).view.loc (thr d L))),
    (iprop((xPts d L 1 0 (gx 0) ∗ xPts d L 1 1 (gx 1) ∗ xPts d L 1 2 (gx 2) ∗ xPts d L 1 3 (gx 3) ∗ xPts d L 1 4 (gx 4) ∗ xPts d L 1 5 (gx 5) ∗ xPts d L 1 6 (gx 6) ∗ xPts d L 1 7 (gx 7) ∗ xPts d L 1 8 (gx 8) ∗ xPts d L 1 9 (gx 9) ∗ xPts d L 1 10 (gx 10) ∗ xPts d L 1 11 (gx 11) ∗ xPts d L 1 12 (gx 12) ∗ xPts d L 1 13 (gx 13) ∗ xPts d L 1 14 (gx 14) ∗ xPts d L 1 15 (gx 15)) ∗ tPts d L 1 gt ∗ mPts d L 1 gm
        ∗ ((mT).view.loc (thr d L) ↦{fullShare} fmt) ∗ ((aT).view.loc (thr d L) ↦{fullShare} fa)) : sProp 𝕄)
      ⊢ wp frame (wpE (defs₀ (F := F)) 𝒱₀ (thr d L) none) Set.univ
          (k2_t4_body L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1 v2 iotaV k2_t2 v475 c470 c471 c472 kk acc)
          fun _ => iprop((xPts d L 1 0 (gx 0) ∗ xPts d L 1 1 (gx 1) ∗ xPts d L 1 2 (gx 2) ∗ xPts d L 1 3 (gx 3) ∗ xPts d L 1 4 (gx 4) ∗ xPts d L 1 5 (gx 5) ∗ xPts d L 1 6 (gx 6) ∗ xPts d L 1 7 (gx 7) ∗ xPts d L 1 8 (gx 8) ∗ xPts d L 1 9 (gx 9) ∗ xPts d L 1 10 (gx 10) ∗ xPts d L 1 11 (gx 11) ∗ xPts d L 1 12 (gx 12) ∗ xPts d L 1 13 (gx 13) ∗ xPts d L 1 14 (gx 14) ∗ xPts d L 1 15 (gx 15)) ∗ tPts d L 1 gt ∗ mPts d L 1 gm
            ∗ ((mT).view.loc (thr d L) ↦{fullShare} fmt) ∗ ((aT).view.loc (thr d L) ↦{fullShare} S gx gt gm fmt hgt kk fa))

/-- The trip's rewriting of the accumulator, with the trip's specification at it. -/
noncomputable def tripW4 : {S : (Fin 16 → Buf (Elt F) ((xB).view.loc (thr d L))) → (gt : Buf (Elt F) ((tB).view.loc (thr d L))) →
      Buf (Elt F) ((mB).view.loc (thr d L)) → Buf (Elt F) ((mT).view.loc (thr d L)) → (∀ j, (gt j : BitVec 32).toNat ≤ 63) →
      Fin k2_t4_loop.trips → Buf (Elt F) ((aT).view.loc (thr d L)) → Buf (Elt F) ((aT).view.loc (thr d L)) // TripSpec4 (F := F) d L S} := by
  refine ⟨?S, ?_⟩
  rotate_left
  unfold TripSpec4
  intro gx gt gm fmt hgt v2 k2_t2 v475 c470 c471 c472 kk acc fa
  iintro ⟨⟨Hx0, Hx1, Hx2, Hx3, Hx4, Hx5, Hx6, Hx7, Hx8, Hx9, Hx10, Hx11, Hx12, Hx13, Hx14, Hx15⟩, Ht0, Hm0, Hmt, Ha⟩
  have hm42 := incl_m 1 (k2_off42 kk) (k2_off42_inb kk) (by rw [k2_off42_eq]; rfl)
  have ht42 := incl_t 1 (k2_off42 kk) (k2_off42_inb kk) (by rw [k2_off42_eq]; rfl)
  have hm59 := incl_m 1 (k2_off59 kk) (k2_off59_inb kk) (by rw [k2_off59_eq]; rfl)
  have ht59 := incl_t 1 (k2_off59 kk) (k2_off59_inb kk) (by rw [k2_off59_eq]; rfl)
  have hx43 := incl_x 1 0 (k2_off43 kk) (k2_off43_inb kk) (by rw [k2_off43_eq]; rfl) (by rw [k2_off43_eq]; rfl)
  have hx60 := incl_x 1 0 (k2_off60 kk) (k2_off60_inb kk) (by rw [k2_off60_eq]; rfl) (by rw [k2_off60_eq]; rfl)
  have hx44 := incl_x 1 1 (k2_off44 kk) (k2_off44_inb kk) (by rw [k2_off44_eq]; rfl) (by rw [k2_off44_eq]; rfl)
  have hx61 := incl_x 1 1 (k2_off61 kk) (k2_off61_inb kk) (by rw [k2_off61_eq]; rfl) (by rw [k2_off61_eq]; rfl)
  have hx45 := incl_x 1 2 (k2_off45 kk) (k2_off45_inb kk) (by rw [k2_off45_eq]; rfl) (by rw [k2_off45_eq]; rfl)
  have hx62 := incl_x 1 2 (k2_off62 kk) (k2_off62_inb kk) (by rw [k2_off62_eq]; rfl) (by rw [k2_off62_eq]; rfl)
  have hx46 := incl_x 1 3 (k2_off46 kk) (k2_off46_inb kk) (by rw [k2_off46_eq]; rfl) (by rw [k2_off46_eq]; rfl)
  have hx63 := incl_x 1 3 (k2_off63 kk) (k2_off63_inb kk) (by rw [k2_off63_eq]; rfl) (by rw [k2_off63_eq]; rfl)
  have hx47 := incl_x 1 4 (k2_off47 kk) (k2_off47_inb kk) (by rw [k2_off47_eq]; rfl) (by rw [k2_off47_eq]; rfl)
  have hx64 := incl_x 1 4 (k2_off64 kk) (k2_off64_inb kk) (by rw [k2_off64_eq]; rfl) (by rw [k2_off64_eq]; rfl)
  have hx48 := incl_x 1 5 (k2_off48 kk) (k2_off48_inb kk) (by rw [k2_off48_eq]; rfl) (by rw [k2_off48_eq]; rfl)
  have hx65 := incl_x 1 5 (k2_off65 kk) (k2_off65_inb kk) (by rw [k2_off65_eq]; rfl) (by rw [k2_off65_eq]; rfl)
  have hx49 := incl_x 1 6 (k2_off49 kk) (k2_off49_inb kk) (by rw [k2_off49_eq]; rfl) (by rw [k2_off49_eq]; rfl)
  have hx66 := incl_x 1 6 (k2_off66 kk) (k2_off66_inb kk) (by rw [k2_off66_eq]; rfl) (by rw [k2_off66_eq]; rfl)
  have hx50 := incl_x 1 7 (k2_off50 kk) (k2_off50_inb kk) (by rw [k2_off50_eq]; rfl) (by rw [k2_off50_eq]; rfl)
  have hx67 := incl_x 1 7 (k2_off67 kk) (k2_off67_inb kk) (by rw [k2_off67_eq]; rfl) (by rw [k2_off67_eq]; rfl)
  have hx51 := incl_x 1 8 (k2_off51 kk) (k2_off51_inb kk) (by rw [k2_off51_eq]; rfl) (by rw [k2_off51_eq]; rfl)
  have hx68 := incl_x 1 8 (k2_off68 kk) (k2_off68_inb kk) (by rw [k2_off68_eq]; rfl) (by rw [k2_off68_eq]; rfl)
  have hx52 := incl_x 1 9 (k2_off52 kk) (k2_off52_inb kk) (by rw [k2_off52_eq]; rfl) (by rw [k2_off52_eq]; rfl)
  have hx69 := incl_x 1 9 (k2_off69 kk) (k2_off69_inb kk) (by rw [k2_off69_eq]; rfl) (by rw [k2_off69_eq]; rfl)
  have hx53 := incl_x 1 10 (k2_off53 kk) (k2_off53_inb kk) (by rw [k2_off53_eq]; rfl) (by rw [k2_off53_eq]; rfl)
  have hx70 := incl_x 1 10 (k2_off70 kk) (k2_off70_inb kk) (by rw [k2_off70_eq]; rfl) (by rw [k2_off70_eq]; rfl)
  have hx54 := incl_x 1 11 (k2_off54 kk) (k2_off54_inb kk) (by rw [k2_off54_eq]; rfl) (by rw [k2_off54_eq]; rfl)
  have hx71 := incl_x 1 11 (k2_off71 kk) (k2_off71_inb kk) (by rw [k2_off71_eq]; rfl) (by rw [k2_off71_eq]; rfl)
  have hx55 := incl_x 1 12 (k2_off55 kk) (k2_off55_inb kk) (by rw [k2_off55_eq]; rfl) (by rw [k2_off55_eq]; rfl)
  have hx72 := incl_x 1 12 (k2_off72 kk) (k2_off72_inb kk) (by rw [k2_off72_eq]; rfl) (by rw [k2_off72_eq]; rfl)
  have hx56 := incl_x 1 13 (k2_off56 kk) (k2_off56_inb kk) (by rw [k2_off56_eq]; rfl) (by rw [k2_off56_eq]; rfl)
  have hx73 := incl_x 1 13 (k2_off73 kk) (k2_off73_inb kk) (by rw [k2_off73_eq]; rfl) (by rw [k2_off73_eq]; rfl)
  have hx57 := incl_x 1 14 (k2_off57 kk) (k2_off57_inb kk) (by rw [k2_off57_eq]; rfl) (by rw [k2_off57_eq]; rfl)
  have hx74 := incl_x 1 14 (k2_off74 kk) (k2_off74_inb kk) (by rw [k2_off74_eq]; rfl) (by rw [k2_off74_eq]; rfl)
  have hx58 := incl_x 1 15 (k2_off58 kk) (k2_off58_inb kk) (by rw [k2_off58_eq]; rfl) (by rw [k2_off58_eq]; rfl)
  have hx75 := incl_x 1 15 (k2_off75 kk) (k2_off75_inb kk) (by rw [k2_off75_eq]; rfl) (by rw [k2_off75_eq]; rfl)
  sl_unfold [k2_t4_body, k2_part18, k2_part17, k2_part16, k2_part15, k2_part14, k2_part13, k2_part12, k2_part11, k2_part10, SparseCore.vectorLoadIdx, SparseCore.vectorStoreIdx]
  sl_exec (disch := first
    | (show k2_chk51 _; refine sidx_ok _ ?_; intro x; refine seg_lt _ _ _ _ ?_ x; intro y; exact hgt _)
    | (show k2_chk68 _; refine sidx_ok _ ?_; intro x; refine seg_lt _ _ _ _ ?_ x; intro y; exact hgt _)
    | (refine gidx_ok _ ?_ _ ?_
       · intro x; refine seg_lt _ _ _ _ ?_ x; intro y; exact hgt _
       · decide))
  sl_step
  isplitl [Hx0 Hx1 Hx2 Hx3 Hx4 Hx5 Hx6 Hx7 Hx8 Hx9 Hx10 Hx11 Hx12 Hx13 Hx14 Hx15]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    iexact Hx15
  isplitl [Ht0]; · iexact Ht0
  isplitl [Hm0]; · iexact Hm0
  isplitl [Hmt]; · iexact Hmt
  iexact Ha

/-- What one trip over slot 1 leaves in the accumulator. -/
noncomputable def acc4 : (Fin 16 → Buf (Elt F) ((xB).view.loc (thr d L))) → (gt : Buf (Elt F) ((tB).view.loc (thr d L))) →
      Buf (Elt F) ((mB).view.loc (thr d L)) → Buf (Elt F) ((mT).view.loc (thr d L)) → (∀ j, (gt j : BitVec 32).toNat ≤ 63) →
      Fin k2_t4_loop.trips → Buf (Elt F) ((aT).view.loc (thr d L)) → Buf (Elt F) ((aT).view.loc (thr d L)) := (tripW4 (F := F) d L).1
theorem acc4_spec : TripSpec4 (F := F) d L (acc4 d L) := (tripW4 (F := F) d L).2

/-- The accumulator after the first k trips of the loop over slot 1. -/
noncomputable def iter4 (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63) (fa : Buf (Elt F) ((aT).view.loc (thr d L))) :
    ℕ → Buf (Elt F) ((aT).view.loc (thr d L))
  | 0 => fa
  | k + 1 => if h : k < k2_t4_loop.trips then acc4 d L gx gt gm fmt hgt ⟨k, h⟩ (iter4 gx gt gm fmt hgt fa k) else iter4 gx gt gm fmt hgt fa k

theorem iter4_succ (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63) (fa : Buf (Elt F) ((aT).view.loc (thr d L))) (kk : Fin k2_t4_loop.trips) :
    iter4 d L gx gt gm fmt hgt fa (kk.val + 1) = acc4 d L gx gt gm fmt hgt kk (iter4 d L gx gt gm fmt hgt fa kk.val) := by
  show (if h : kk.val < k2_t4_loop.trips then acc4 d L gx gt gm fmt hgt ⟨kk.val, h⟩ (iter4 d L gx gt gm fmt hgt fa kk.val) else _) = _
  rw [dif_pos kk.isLt]

/-- The accumulation loop's invariant over slot 1, with the accumulator's contents: after k trips, the k-fold rewriting
    of what it held at the loop's start. -/
def invV4 (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63) (fa : Buf (Elt F) ((aT).view.loc (thr d L))) (k : Nat) (_ : BitVec 32) : sProp 𝕄 :=
  iprop((xPts d L 1 0 (gx 0) ∗ xPts d L 1 1 (gx 1) ∗ xPts d L 1 2 (gx 2) ∗ xPts d L 1 3 (gx 3) ∗ xPts d L 1 4 (gx 4) ∗ xPts d L 1 5 (gx 5) ∗ xPts d L 1 6 (gx 6) ∗ xPts d L 1 7 (gx 7) ∗ xPts d L 1 8 (gx 8) ∗ xPts d L 1 9 (gx 9) ∗ xPts d L 1 10 (gx 10) ∗ xPts d L 1 11 (gx 11) ∗ xPts d L 1 12 (gx 12) ∗ xPts d L 1 13 (gx 13) ∗ xPts d L 1 14 (gx 14) ∗ xPts d L 1 15 (gx 15)) ∗ tPts d L 1 gt ∗ mPts d L 1 gm
    ∗ ((mT).view.loc (thr d L) ↦{fullShare} fmt) ∗ ((aT).view.loc (thr d L) ↦{fullShare} iter4 d L gx gt gm fmt hgt fa k))

/-- The loop's region at that invariant. -/
theorem tripV4 (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63) (fa : Buf (Elt F) ((aT).view.loc (thr d L)))
    (v2 : BitVec 32) (k2_t2 : Fin k2_t2_loop.trips) (v475 c470 c471 c472 : BitVec 32) (kk : Fin k2_t4_loop.trips) (acc : BitVec 32) :
    (invV4 (F := F) d L gx gt gm fmt hgt fa kk.val acc)
      ⊢ wp frame (wpE (defs₀ (F := F)) 𝒱₀ (thr d L) none) Set.univ
          (k2_t4_body L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1 v2 iotaV k2_t2 v475 c470 c471 c472 kk acc)
          (invV4 (F := F) d L gx gt gm fmt hgt fa (kk.val + 1)) := by
  unfold invV4
  rw [iter4_succ]
  exact acc4_spec d L gx gt gm fmt hgt v2 k2_t2 v475 c470 c471 c472 kk acc _

end Cert.Proof.KI.Pass2

end
-- ==== Proof.Pass2IX.lean ====
import proofs.«210783_g59777354826199_cont_9to1_m_168_18_alg».proof.Proof.SetupI
import proofs.«210783_g59777354826199_cont_9to1_m_168_18_alg».proof.Proof.Pass2IA
import proofs.«210783_g59777354826199_cont_9to1_m_168_18_alg».proof.Proof.Pass2IB
import proofs.«210783_g59777354826199_cont_9to1_m_168_18_alg».proof.Proof.Pass2IC
import proofs.«210783_g59777354826199_cont_9to1_m_168_18_alg».proof.Proof.Pass2IV

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! # The accumulation loops, whole, with what they leave in the accumulator -/

variable (d : Dev nD) (L : grid2.Coords) [∀ e, Nonempty (Elt F e)] [FloatOps F]

/-- The accumulation loop over staging slot 0, whole: from the accumulator at fa to the accumulator at the trip's
    rewriting iterated over all the loop's trips, the slot's rows and the means scratch kept. -/
theorem loopV3 (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63) (fa : Buf (Elt F) ((aT).view.loc (thr d L)))
    (v2 : BitVec 32) (k2_t2 : Fin k2_t2_loop.trips) (v475 c470 c471 c472 : BitVec 32) :
    (invV3 (F := F) d L gx gt gm fmt hgt fa 0 c470)
      ⊢ wp frame (wpE (defs₀ (F := F)) 𝒱₀ (thr d L) none) Set.univ
          (Scf.Loop.for k2_t3_loop k2_t3_ok c470
            (k2_t3_body L eW (Memref.isWhole_whole _) tW (Memref.isWhole_whole _) kW (Memref.isWhole_whole _)
              mW (Memref.isWhole_whole _) oW (Memref.isWhole_whole _) xB (Memref.isWhole_whole _) tB (Memref.isWhole_whole _)
              mB (Memref.isWhole_whole _) mT (Memref.isWhole_whole _) aT (Memref.isWhole_whole _)
              cc2_scratch5 cc2_scratch6 cc2_scoped0 cc2_scoped1 v2 iotaV k2_t2 v475 c470 c471 c472))
          (invV3 (F := F) d L gx gt gm fmt hgt fa k2_t3_loop.trips) := by
  iintro H
  sl_for (invV3 (F := F) d L gx gt gm fmt hgt fa) $$ [H]
  case region =>
    intro kk acc
    exact tripV3 d L gx gt gm fmt hgt fa v2 k2_t2 v475 c470 c471 c472 kk acc
  · isplitl [H]
    · iexact H
    · iintro %acc HI
      iexact HI

/-- The accumulation loop over staging slot 1, whole: from the accumulator at fa to the accumulator at the trip's
    rewriting iterated over all the loop's trips, the slot's rows and the means scratch kept. -/
theorem loopV4 (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63) (fa : Buf (Elt F) ((aT).view.loc (thr d L)))
    (v2 : BitVec 32) (k2_t2 : Fin k2_t2_loop.trips) (v475 c470 c471 c472 : BitVec 32) :
    (invV4 (F := F) d L gx gt gm fmt hgt fa 0 c470)
      ⊢ wp frame (wpE (defs₀ (F := F)) 𝒱₀ (thr d L) none) Set.univ
          (Scf.Loop.for k2_t4_loop k2_t4_ok c470
            (k2_t4_body L eW (Memref.isWhole_whole _) tW (Memref.isWhole_whole _) kW (Memref.isWhole_whole _)
              mW (Memref.isWhole_whole _) oW (Memref.isWhole_whole _) xB (Memref.isWhole_whole _) tB (Memref.isWhole_whole _)
              mB (Memref.isWhole_whole _) mT (Memref.isWhole_whole _) aT (Memref.isWhole_whole _)
              cc2_scratch5 cc2_scratch6 cc2_scoped0 cc2_scoped1 v2 iotaV k2_t2 v475 c470 c471 c472))
          (invV4 (F := F) d L gx gt gm fmt hgt fa k2_t4_loop.trips) := by
  iintro H
  sl_for (invV4 (F := F) d L gx gt gm fmt hgt fa) $$ [H]
  case region =>
    intro kk acc
    exact tripV4 d L gx gt gm fmt hgt fa v2 k2_t2 v475 c470 c471 c472 kk acc
  · isplitl [H]
    · iexact H
    · iintro %acc HI
      iexact HI

end Cert.Proof.KI.Pass2

end
-- ==== Proof.Pass2IK.lean ====
import proofs.«210783_g59777354826199_cont_9to1_m_168_18_alg».proof.Proof.SetupI
import proofs.«210783_g59777354826199_cont_9to1_m_168_18_alg».proof.Proof.Pass2IA
import proofs.«210783_g59777354826199_cont_9to1_m_168_18_alg».proof.Proof.Pass2IB
import proofs.«210783_g59777354826199_cont_9to1_m_168_18_alg».proof.Proof.Pass2IC
import proofs.«210783_g59777354826199_cont_9to1_m_168_18_alg».proof.Proof.Pass2IV
import proofs.«210783_g59777354826199_cont_9to1_m_168_18_alg».proof.Proof.Pass2IX

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! # A chunk accumulated -/

variable (d : Dev nD) (L : grid2.Coords) [∀ e, Nonempty (Elt F e)] [FloatOps F]

/-- The rows of slot 0 as a chunk at the offsets oe, ot landed in them (the targets' row restated zero off the row). -/
abbrev rowsX3 (e : Buf (Elt F) ((eW).view.loc (thr d L))) (oe : Fin 16 → Fin 1 → ℕ) (he : ∀ c a, oe c a + S2048.size a ≤ S33554432.size a) :
    Fin 16 → Buf (Elt F) ((xB).view.loc (thr d L)) := fun c => landed d L (xWin 0 c) (eSl (oe c) (he c)) e
abbrev rowT3 (t : Buf (Elt F) ((tW).view.loc (thr d L))) (ot : Fin 1 → ℕ) (ht : ∀ a, ot a + S2048.size a ≤ S2097152.size a) :
    Buf (Elt F) ((tB).view.loc (thr d L)) := clampT d L 0 (landed d L (tWin 0) (tSl ot ht) t)
abbrev rowM3 (k : Buf (Elt F) ((kW).view.loc (thr d L))) (ot : Fin 1 → ℕ) (ht : ∀ a, ot a + S2048.size a ≤ S2097152.size a) :
    Buf (Elt F) ((mB).view.loc (thr d L)) := landed d L (mWin 0) (kSl ot ht) k

/-- A chunk accumulated: slot 0 holding the chunk of the embedding, the targets and the mask at the offsets oe, ot, the
    loop over the slot takes the accumulator from fa to the trips' rewriting iterated over the chunk's 64 pairs of groups. -/
theorem chunkV3 (e : Buf (Elt F) ((eW).view.loc (thr d L))) (t : Buf (Elt F) ((tW).view.loc (thr d L)))
    (k : Buf (Elt F) ((kW).view.loc (thr d L))) (htr : ∀ j, (t j : BitVec 32).toNat ≤ 63)
    (oe : Fin 16 → Fin 1 → ℕ) (he : ∀ c a, oe c a + S2048.size a ≤ S33554432.size a)
    (ot : Fin 1 → ℕ) (ht : ∀ a, ot a + S2048.size a ≤ S2097152.size a)
    (fmt : Buf (Elt F) ((mT).view.loc (thr d L))) (fa : Buf (Elt F) ((aT).view.loc (thr d L)))
    (v2 : BitVec 32) (k2_t2 : Fin k2_t2_loop.trips) (v475 c470 c471 c472 : BitVec 32) :
    (invV3 (F := F) d L (rowsX3 d L e oe he) (rowT3 d L t ot ht) (rowM3 d L k ot ht) fmt
        (clampT_le d L 0 _ (landed_le d L 0 t htr ot ht)) fa 0 c470)
      ⊢ wp frame (wpE (defs₀ (F := F)) 𝒱₀ (thr d L) none) Set.univ
          (Scf.Loop.for k2_t3_loop k2_t3_ok c470
            (k2_t3_body L eW (Memref.isWhole_whole _) tW (Memref.isWhole_whole _) kW (Memref.isWhole_whole _)
              mW (Memref.isWhole_whole _) oW (Memref.isWhole_whole _) xB (Memref.isWhole_whole _) tB (Memref.isWhole_whole _)
              mB (Memref.isWhole_whole _) mT (Memref.isWhole_whole _) aT (Memref.isWhole_whole _)
              cc2_scratch5 cc2_scratch6 cc2_scoped0 cc2_scoped1 v2 iotaV k2_t2 v475 c470 c471 c472))
          (invV3 (F := F) d L (rowsX3 d L e oe he) (rowT3 d L t ot ht) (rowM3 d L k ot ht) fmt
            (clampT_le d L 0 _ (landed_le d L 0 t htr ot ht)) fa k2_t3_loop.trips) :=
  loopV3 d L _ _ _ fmt _ fa v2 k2_t2 v475 c470 c471 c472

/-- The rows of slot 1 as a chunk at the offsets oe, ot landed in them (the targets' row restated zero off the row). -/
abbrev rowsX4 (e : Buf (Elt F) ((eW).view.loc (thr d L))) (oe : Fin 16 → Fin 1 → ℕ) (he : ∀ c a, oe c a + S2048.size a ≤ S33554432.size a) :
    Fin 16 → Buf (Elt F) ((xB).view.loc (thr d L)) := fun c => landed d L (xWin 1 c) (eSl (oe c) (he c)) e
abbrev rowT4 (t : Buf (Elt F) ((tW).view.loc (thr d L))) (ot : Fin 1 → ℕ) (ht : ∀ a, ot a + S2048.size a ≤ S2097152.size a) :
    Buf (Elt F) ((tB).view.loc (thr d L)) := clampT d L 1 (landed d L (tWin 1) (tSl ot ht) t)
abbrev rowM4 (k : Buf (Elt F) ((kW).view.loc (thr d L))) (ot : Fin 1 → ℕ) (ht : ∀ a, ot a + S2048.size a ≤ S2097152.size a) :
    Buf (Elt F) ((mB).view.loc (thr d L)) := landed d L (mWin 1) (kSl ot ht) k

/-- A chunk accumulated: slot 1 holding the chunk of the embedding, the targets and the mask at the offsets oe, ot, the
    loop over the slot takes the accumulator from fa to the trips' rewriting iterated over the chunk's 64 pairs of groups. -/
theorem chunkV4 (e : Buf (Elt F) ((eW).view.loc (thr d L))) (t : Buf (Elt F) ((tW).view.loc (thr d L)))
    (k : Buf (Elt F) ((kW).view.loc (thr d L))) (htr : ∀ j, (t j : BitVec 32).toNat ≤ 63)
    (oe : Fin 16 → Fin 1 → ℕ) (he : ∀ c a, oe c a + S2048.size a ≤ S33554432.size a)
    (ot : Fin 1 → ℕ) (ht : ∀ a, ot a + S2048.size a ≤ S2097152.size a)
    (fmt : Buf (Elt F) ((mT).view.loc (thr d L))) (fa : Buf (Elt F) ((aT).view.loc (thr d L)))
    (v2 : BitVec 32) (k2_t2 : Fin k2_t2_loop.trips) (v475 c470 c471 c472 : BitVec 32) :
    (invV4 (F := F) d L (rowsX4 d L e oe he) (rowT4 d L t ot ht) (rowM4 d L k ot ht) fmt
        (clampT_le d L 1 _ (landed_le d L 1 t htr ot ht)) fa 0 c470)
      ⊢ wp frame (wpE (defs₀ (F := F)) 𝒱₀ (thr d L) none) Set.univ
          (Scf.Loop.for k2_t4_loop k2_t4_ok c470
            (k2_t4_body L eW (Memref.isWhole_whole _) tW (Memref.isWhole_whole _) kW (Memref.isWhole_whole _)
              mW (Memref.isWhole_whole _) oW (Memref.isWhole_whole _) xB (Memref.isWhole_whole _) tB (Memref.isWhole_whole _)
              mB (Memref.isWhole_whole _) mT (Memref.isWhole_whole _) aT (Memref.isWhole_whole _)
              cc2_scratch5 cc2_scratch6 cc2_scoped0 cc2_scoped1 v2 iotaV k2_t2 v475 c470 c471 c472))
          (invV4 (F := F) d L (rowsX4 d L e oe he) (rowT4 d L t ot ht) (rowM4 d L k ot ht) fmt
            (clampT_le d L 1 _ (landed_le d L 1 t htr ot ht)) fa k2_t4_loop.trips) :=
  loopV4 d L _ _ _ fmt _ fa v2 k2_t2 v475 c470 c471 c472

end Cert.Proof.KI.Pass2

end
-- ==== Proof.Pass2IO.lean ====
import proofs.«210783_g59777354826199_cont_9to1_m_168_18_alg».proof.Proof.SetupI
import proofs.«210783_g59777354826199_cont_9to1_m_168_18_alg».proof.Proof.Pass2IA
import proofs.«210783_g59777354826199_cont_9to1_m_168_18_alg».proof.Proof.Pass2IB
import proofs.«210783_g59777354826199_cont_9to1_m_168_18_alg».proof.Proof.Pass2IC
import proofs.«210783_g59777354826199_cont_9to1_m_168_18_alg».proof.Proof.Pass2IT
import proofs.«210783_g59777354826199_cont_9to1_m_168_18_alg».proof.Proof.Pass2IK

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! # One trip of the outer loop, with what it leaves in the accumulator -/

variable (d : Dev nD) (L : grid2.Coords) [∀ e, Nonempty (Elt F e)] [FloatOps F]

/-- One semaphore's side at given offsets: the chunk's batch in flight there, all eighteen copies issued, and what the
    batch leaves of this side's shares. -/
def sideOV (sm : DmaSems sig S_) (b : Fin 2) (qs : PosShare TreeShare)
    (e : Buf (Elt F) ((eW).view.loc (thr d L))) (t : Buf (Elt F) ((tW).view.loc (thr d L))) (k : Buf (Elt F) ((kW).view.loc (thr d L)))
    (oe : Fin 16 → Fin 1 → ℕ) (he : ∀ c a, oe c a + S2048.size a ≤ S33554432.size a)
    (ot : Fin 1 → ℕ) (ht : ∀ a, ot a + S2048.size a ≤ S2097152.size a) : sProp 𝕄 :=
  iprop(⌜Ordered oe⌝ ∗ batchOf d L sm b qs e t k oe he ot ht 18 ∗ Hid (restE d L qs e oe he) ∗ restT d L qs t ot ht ∗ restK d L qs k ot ht)

/-- A trip of the outer loop from the two chunks in flight at the offsets (oe0, ot0) and (oe1, ot1), the means scratch at
    fmt and the accumulator at acc: the next two chunks in flight, the accumulator rewritten by the first chunk's 64 trips
    then the second's. -/
theorem outer_tripV (q : PosShare TreeShare)
    (e : Buf (Elt F) ((eW).view.loc (thr d L))) (t : Buf (Elt F) ((tW).view.loc (thr d L))) (k : Buf (Elt F) ((kW).view.loc (thr d L)))
    (htr : ∀ j, (t j : BitVec 32).toNat ≤ 63)
    (O : CellTallies nD τ sig (HIx 2)) (W' : Waits sig (HIx 2))
    (oe0 : Fin 16 → Fin 1 → ℕ) (he0 : ∀ c a, oe0 c a + S2048.size a ≤ S33554432.size a)
    (ot0 : Fin 1 → ℕ) (ht0 : ∀ a, ot0 a + S2048.size a ≤ S2097152.size a)
    (oe1 : Fin 16 → Fin 1 → ℕ) (he1 : ∀ c a, oe1 c a + S2048.size a ≤ S33554432.size a)
    (ot1 : Fin 1 → ℕ) (ht1 : ∀ a, ot1 a + S2048.size a ≤ S2097152.size a)
    (fmt : Buf (Elt F) ((mT).view.loc (thr d L))) (acc : Buf (Elt F) ((aT).view.loc (thr d L)))
    (v2 c146 c147 c16 : BitVec 32) (kk : Fin k2_t2_loop.trips) (a : BitVec 32) :
    (iprop(Transfers.MayWaits (thr d L) (none : HIx 2) O
        ∗ sideOV d L cc2_scratch5 0 q.left e t k oe0 he0 ot0 ht0 ∗ sideOV d L cc2_scratch6 1 q.right e t k oe1 he1 ot1 ht1
        ∗ ((mT).view.loc (thr d L) ↦{fullShare} fmt) ∗ ((aT).view.loc (thr d L) ↦{fullShare} acc) ∗ owes (thr d L) O W') : sProp 𝕄)
      ⊢ wp frame (wpE (defs₀ (F := F)) 𝒱₀ (thr d L) none) Set.univ
          (k2_t2_body L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1 v2 iotaV c146 c147 c16 kk a)
          fun _ => iprop(Transfers.MayWaits (thr d L) (none : HIx 2) O
            ∗ sideOV d L cc2_scratch5 0 q.left e t k (oeN L kk 0) (heN L kk 0) (otN L kk 0) (htN L kk 0)
            ∗ sideOV d L cc2_scratch6 1 q.right e t k (oeN L kk 1) (heN L kk 1) (otN L kk 1) (htN L kk 1)
            ∗ ((mT).view.loc (thr d L) ↦{fullShare} fmt)
            ∗ ((aT).view.loc (thr d L) ↦{fullShare} iter4 d L (rowsX4 d L e oe1 he1) (rowT4 d L t ot1 ht1) (rowM4 d L k ot1 ht1) fmt (clampT_le d L 1 _ (landed_le d L 1 t htr ot1 ht1)) (iter3 d L (rowsX3 d L e oe0 he0) (rowT3 d L t ot0 ht0) (rowM3 d L k ot0 ht0) fmt (clampT_le d L 0 _ (landed_le d L 0 t htr ot0 ht0)) acc k2_t3_loop.trips) k2_t4_loop.trips)
            ∗ ∃ W'', ⌜∀ p ∈ W'', p ∈ W' ∨ p.2 = none⌝ ∗ owes (thr d L) O W'') := by
  unfold sideOV
  iintro ⟨Hmw, ⟨%ho0, HB0, HeR0, HtR0, HkR0⟩, ⟨%ho1, HB1, HeR1, HtR1, HkR1⟩, Hmt, Ha, HO⟩
  sl_exec

  -- side 0: the embedding's share whole again
  ihave HeR0 := (Entails.of_eq (Hid_eq _)) $$ HeR0
  ihave He0 := (restE_join d L q.left e oe0 he0 ho0) $$ [HeR0 HB0_src0 HB0_src1 HB0_src2 HB0_src3 HB0_src4 HB0_src5 HB0_src6 HB0_src7 HB0_src8 HB0_src9 HB0_src10 HB0_src11 HB0_src12 HB0_src13 HB0_src14 HB0_src15]
  · isplitl [HeR0]; · iexact HeR0
    isplitl [HB0_src0]; · iexact HB0_src0
    isplitl [HB0_src1]; · iexact HB0_src1
    isplitl [HB0_src2]; · iexact HB0_src2
    isplitl [HB0_src3]; · iexact HB0_src3
    isplitl [HB0_src4]; · iexact HB0_src4
    isplitl [HB0_src5]; · iexact HB0_src5
    isplitl [HB0_src6]; · iexact HB0_src6
    isplitl [HB0_src7]; · iexact HB0_src7
    isplitl [HB0_src8]; · iexact HB0_src8
    isplitl [HB0_src9]; · iexact HB0_src9
    isplitl [HB0_src10]; · iexact HB0_src10
    isplitl [HB0_src11]; · iexact HB0_src11
    isplitl [HB0_src12]; · iexact HB0_src12
    isplitl [HB0_src13]; · iexact HB0_src13
    isplitl [HB0_src14]; · iexact HB0_src14
    iexact HB0_src15
  ihave Ht0 := (Entails.of_eq (show (((tSl ot0 ht0).view.loc (thr d L) ↦{q.left} t : sProp 𝕄) = ((tW).view.loc (thr d L) ↦{q.left} t)) from rfl)) $$ HtR0
  ihave Hk0 := (Entails.of_eq (show (((kSl ot0 ht0).view.loc (thr d L) ↦{q.left} k : sProp 𝕄) = ((kW).view.loc (thr d L) ↦{q.left} k)) from rfl)) $$ HkR0
  ihave HT := (Entails.of_eq (clampT_pts d L 0 (landed d L (tWin 0) (tSl ot0 ht0) t))) $$ HB0_dst16
  sl_for (invV3 (F := F) d L (rowsX3 d L e oe0 he0) (rowT3 d L t ot0 ht0) (rowM3 d L k ot0 ht0) fmt
      (clampT_le d L 0 _ (landed_le d L 0 t htr ot0 ht0)) (acc)) $$ [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HT HB0_dst17 Hmt Ha]
  case region =>
    intro k3 a3
    exact tripV3 d L _ _ _ fmt _ _ _ kk _ _ _ _ k3 a3
  · unfold invV3
    isplitl [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15]
    · isplitl [HB0_dst0]; · iexact HB0_dst0
      isplitl [HB0_dst1]; · iexact HB0_dst1
      isplitl [HB0_dst2]; · iexact HB0_dst2
      isplitl [HB0_dst3]; · iexact HB0_dst3
      isplitl [HB0_dst4]; · iexact HB0_dst4
      isplitl [HB0_dst5]; · iexact HB0_dst5
      isplitl [HB0_dst6]; · iexact HB0_dst6
      isplitl [HB0_dst7]; · iexact HB0_dst7
      isplitl [HB0_dst8]; · iexact HB0_dst8
      isplitl [HB0_dst9]; · iexact HB0_dst9
      isplitl [HB0_dst10]; · iexact HB0_dst10
      isplitl [HB0_dst11]; · iexact HB0_dst11
      isplitl [HB0_dst12]; · iexact HB0_dst12
      isplitl [HB0_dst13]; · iexact HB0_dst13
      isplitl [HB0_dst14]; · iexact HB0_dst14
      iexact HB0_dst15
    isplitl [HT]; · iexact HT
    isplitl [HB0_dst17]; · iexact HB0_dst17
    isplitl [Hmt]; · iexact Hmt
    iexact Ha
  iintro %_ HI
  unfold invV3
  icases HI with ⟨⟨Hx0, Hx1, Hx2, Hx3, Hx4, Hx5, Hx6, Hx7, Hx8, Hx9, Hx10, Hx11, Hx12, Hx13, Hx14, Hx15⟩, HT, HM, Hmt, Ha⟩
  ihave Hex := (xPts_ex d L 0 0 _) $$ Hx0
  icases Hex with ⟨%gx0_0, Hx0⟩
  ihave Hex := (xPts_ex d L 0 1 _) $$ Hx1
  icases Hex with ⟨%gx0_1, Hx1⟩
  ihave Hex := (xPts_ex d L 0 2 _) $$ Hx2
  icases Hex with ⟨%gx0_2, Hx2⟩
  ihave Hex := (xPts_ex d L 0 3 _) $$ Hx3
  icases Hex with ⟨%gx0_3, Hx3⟩
  ihave Hex := (xPts_ex d L 0 4 _) $$ Hx4
  icases Hex with ⟨%gx0_4, Hx4⟩
  ihave Hex := (xPts_ex d L 0 5 _) $$ Hx5
  icases Hex with ⟨%gx0_5, Hx5⟩
  ihave Hex := (xPts_ex d L 0 6 _) $$ Hx6
  icases Hex with ⟨%gx0_6, Hx6⟩
  ihave Hex := (xPts_ex d L 0 7 _) $$ Hx7
  icases Hex with ⟨%gx0_7, Hx7⟩
  ihave Hex := (xPts_ex d L 0 8 _) $$ Hx8
  icases Hex with ⟨%gx0_8, Hx8⟩
  ihave Hex := (xPts_ex d L 0 9 _) $$ Hx9
  icases Hex with ⟨%gx0_9, Hx9⟩
  ihave Hex := (xPts_ex d L 0 10 _) $$ Hx10
  icases Hex with ⟨%gx0_10, Hx10⟩
  ihave Hex := (xPts_ex d L 0 11 _) $$ Hx11
  icases Hex with ⟨%gx0_11, Hx11⟩
  ihave Hex := (xPts_ex d L 0 12 _) $$ Hx12
  icases Hex with ⟨%gx0_12, Hx12⟩
  ihave Hex := (xPts_ex d L 0 13 _) $$ Hx13
  icases Hex with ⟨%gx0_13, Hx13⟩
  ihave Hex := (xPts_ex d L 0 14 _) $$ Hx14
  icases Hex with ⟨%gx0_14, Hx14⟩
  ihave Hex := (xPts_ex d L 0 15 _) $$ Hx15
  icases Hex with ⟨%gx0_15, Hx15⟩
  ihave Hex := (tPts_ex d L 0 _) $$ HT
  icases Hex with ⟨%gt0, HT⟩
  ihave Hex := (mPts_ex d L 0 _) $$ HM
  icases Hex with ⟨%gm0, HM⟩
  imod (Transfers.batch_alloc' (Lvl := ℕ) (countersEmb (U := UU)) (thr d L) (none : HIx 2) NC
    (Dv (F := F) d L 0 q.left e t k (oeN L kk 0) (heN L kk 0) (otN L kk 0) (htN L kk 0))
    (sm := .dma cc2_scratch5.sem) (E := Set.univ)) $$ [HB0] with HB0
  · iexact HB0
  sl_exec
  ihave He0 := (Entails.of_eq (Hid_eq _).symm) $$ He0

  -- side 1: the embedding's share whole again
  ihave HeR1 := (Entails.of_eq (Hid_eq _)) $$ HeR1
  ihave He1 := (restE_join d L q.right e oe1 he1 ho1) $$ [HeR1 HB1_src0 HB1_src1 HB1_src2 HB1_src3 HB1_src4 HB1_src5 HB1_src6 HB1_src7 HB1_src8 HB1_src9 HB1_src10 HB1_src11 HB1_src12 HB1_src13 HB1_src14 HB1_src15]
  · isplitl [HeR1]; · iexact HeR1
    isplitl [HB1_src0]; · iexact HB1_src0
    isplitl [HB1_src1]; · iexact HB1_src1
    isplitl [HB1_src2]; · iexact HB1_src2
    isplitl [HB1_src3]; · iexact HB1_src3
    isplitl [HB1_src4]; · iexact HB1_src4
    isplitl [HB1_src5]; · iexact HB1_src5
    isplitl [HB1_src6]; · iexact HB1_src6
    isplitl [HB1_src7]; · iexact HB1_src7
    isplitl [HB1_src8]; · iexact HB1_src8
    isplitl [HB1_src9]; · iexact HB1_src9
    isplitl [HB1_src10]; · iexact HB1_src10
    isplitl [HB1_src11]; · iexact HB1_src11
    isplitl [HB1_src12]; · iexact HB1_src12
    isplitl [HB1_src13]; · iexact HB1_src13
    isplitl [HB1_src14]; · iexact HB1_src14
    iexact HB1_src15
  ihave Ht1 := (Entails.of_eq (show (((tSl ot1 ht1).view.loc (thr d L) ↦{q.right} t : sProp 𝕄) = ((tW).view.loc (thr d L) ↦{q.right} t)) from rfl)) $$ HtR1
  ihave Hk1 := (Entails.of_eq (show (((kSl ot1 ht1).view.loc (thr d L) ↦{q.right} k : sProp 𝕄) = ((kW).view.loc (thr d L) ↦{q.right} k)) from rfl)) $$ HkR1
  ihave HT := (Entails.of_eq (clampT_pts d L 1 (landed d L (tWin 1) (tSl ot1 ht1) t))) $$ HB1_dst16
  sl_for (invV4 (F := F) d L (rowsX4 d L e oe1 he1) (rowT4 d L t ot1 ht1) (rowM4 d L k ot1 ht1) fmt
      (clampT_le d L 1 _ (landed_le d L 1 t htr ot1 ht1)) (iter3 d L (rowsX3 d L e oe0 he0) (rowT3 d L t ot0 ht0) (rowM3 d L k ot0 ht0) fmt (clampT_le d L 0 _ (landed_le d L 0 t htr ot0 ht0)) acc k2_t3_loop.trips)) $$ [HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15 HT HB1_dst17 Hmt Ha]
  case region =>
    intro k3 a3
    exact tripV4 d L _ _ _ fmt _ _ _ kk _ _ _ _ k3 a3
  · unfold invV4
    isplitl [HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15]
    · isplitl [HB1_dst0]; · iexact HB1_dst0
      isplitl [HB1_dst1]; · iexact HB1_dst1
      isplitl [HB1_dst2]; · iexact HB1_dst2
      isplitl [HB1_dst3]; · iexact HB1_dst3
      isplitl [HB1_dst4]; · iexact HB1_dst4
      isplitl [HB1_dst5]; · iexact HB1_dst5
      isplitl [HB1_dst6]; · iexact HB1_dst6
      isplitl [HB1_dst7]; · iexact HB1_dst7
      isplitl [HB1_dst8]; · iexact HB1_dst8
      isplitl [HB1_dst9]; · iexact HB1_dst9
      isplitl [HB1_dst10]; · iexact HB1_dst10
      isplitl [HB1_dst11]; · iexact HB1_dst11
      isplitl [HB1_dst12]; · iexact HB1_dst12
      isplitl [HB1_dst13]; · iexact HB1_dst13
      isplitl [HB1_dst14]; · iexact HB1_dst14
      iexact HB1_dst15
    isplitl [HT]; · iexact HT
    isplitl [HB1_dst17]; · iexact HB1_dst17
    isplitl [Hmt]; · iexact Hmt
    iexact Ha
  iintro %_ HI
  unfold invV4
  icases HI with ⟨⟨Hx0, Hx1, Hx2, Hx3, Hx4, Hx5, Hx6, Hx7, Hx8, Hx9, Hx10, Hx11, Hx12, Hx13, Hx14, Hx15⟩, HT, HM, Hmt, Ha⟩
  ihave Hex := (xPts_ex d L 1 0 _) $$ Hx0
  icases Hex with ⟨%gx1_0, Hx0⟩
  ihave Hex := (xPts_ex d L 1 1 _) $$ Hx1
  icases Hex with ⟨%gx1_1, Hx1⟩
  ihave Hex := (xPts_ex d L 1 2 _) $$ Hx2
  icases Hex with ⟨%gx1_2, Hx2⟩
  ihave Hex := (xPts_ex d L 1 3 _) $$ Hx3
  icases Hex with ⟨%gx1_3, Hx3⟩
  ihave Hex := (xPts_ex d L 1 4 _) $$ Hx4
  icases Hex with ⟨%gx1_4, Hx4⟩
  ihave Hex := (xPts_ex d L 1 5 _) $$ Hx5
  icases Hex with ⟨%gx1_5, Hx5⟩
  ihave Hex := (xPts_ex d L 1 6 _) $$ Hx6
  icases Hex with ⟨%gx1_6, Hx6⟩
  ihave Hex := (xPts_ex d L 1 7 _) $$ Hx7
  icases Hex with ⟨%gx1_7, Hx7⟩
  ihave Hex := (xPts_ex d L 1 8 _) $$ Hx8
  icases Hex with ⟨%gx1_8, Hx8⟩
  ihave Hex := (xPts_ex d L 1 9 _) $$ Hx9
  icases Hex with ⟨%gx1_9, Hx9⟩
  ihave Hex := (xPts_ex d L 1 10 _) $$ Hx10
  icases Hex with ⟨%gx1_10, Hx10⟩
  ihave Hex := (xPts_ex d L 1 11 _) $$ Hx11
  icases Hex with ⟨%gx1_11, Hx11⟩
  ihave Hex := (xPts_ex d L 1 12 _) $$ Hx12
  icases Hex with ⟨%gx1_12, Hx12⟩
  ihave Hex := (xPts_ex d L 1 13 _) $$ Hx13
  icases Hex with ⟨%gx1_13, Hx13⟩
  ihave Hex := (xPts_ex d L 1 14 _) $$ Hx14
  icases Hex with ⟨%gx1_14, Hx14⟩
  ihave Hex := (xPts_ex d L 1 15 _) $$ Hx15
  icases Hex with ⟨%gx1_15, Hx15⟩
  ihave Hex := (tPts_ex d L 1 _) $$ HT
  icases Hex with ⟨%gt1, HT⟩
  ihave Hex := (mPts_ex d L 1 _) $$ HM
  icases Hex with ⟨%gm1, HM⟩
  imod (Transfers.batch_alloc' (Lvl := ℕ) (countersEmb (U := UU)) (thr d L) (none : HIx 2) NC
    (Dv (F := F) d L 1 q.right e t k (oeN L kk 1) (heN L kk 1) (otN L kk 1) (htN L kk 1))
    (sm := .dma cc2_scratch6.sem) (E := Set.univ)) $$ [HB1] with HB1
  · iexact HB1
  sl_exec
  ihave He1 := (Entails.of_eq (Hid_eq _).symm) $$ He1

  sl_step
  isplitl [Hmw]; · iexact Hmw
  isplitl [HB0 He0 Ht0 Hk0]
  · isplitr; · ipureintro; exact ord40 L kk 0
    isplitl [HB0]; · iexact HB0
    isplitl [He0]; · iexact He0
    isplitl [Ht0]; · iexact Ht0
    iexact Hk0
  isplitl [HB1 He1 Ht1 Hk1]
  · isplitr; · ipureintro; exact ord40 L kk 1
    isplitl [HB1]; · iexact HB1
    isplitl [He1]; · iexact He1
    isplitl [Ht1]; · iexact Ht1
    iexact Hk1
  isplitl [Hmt]; · iexact Hmt
  isplitl [Ha]; · iexact Ha
  iexists _; isplitr
  rotate_left
  · iexact HO
  · ipureintro
    repeat (refine mem_ins rfl ?_)
    exact fun p hp => .inl hp

end Cert.Proof.KI.Pass2

end
-- ==== Proof.Pass2VA.lean ====
import proofs.«210783_g59777354826199_cont_9to1_m_168_18_alg».proof.Proof.Pass2IO

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! # The outer loop, with what it leaves in the accumulator

  Chunk m (of 32, each of 2048 voxels) of the tile's range starts at voxel 65536·(2·L₁ + L₀) + 2048·m; trip n of the outer
  loop accumulates the chunks 2n and 2n + 1, already in flight, and issues the chunks 2n + 2 and 2n + 3 (the last trip
  issues chunk 31 again, twice; those batches are drained and never read). -/

variable (d : Dev nD) (L : grid2.Coords)

/-- The offsets of chunk m in the embedding (one per component) and in the targets and the mask. -/
def oeC (m : ℕ) : Fin 16 → Fin 1 → ℕ :=
  fun c => ![2097152 * c.val + 131072 * (L 1).val + 65536 * (L 0).val + 2048 * min m 31]
def otC (m : ℕ) : Fin 1 → ℕ := ![131072 * (L 1).val + 65536 * (L 0).val + 2048 * min m 31]

theorem heC (m : ℕ) : ∀ c a, oeC L m c a + S2048.size a ≤ S33554432.size a := by
  intro c a
  have ha : a = 0 := Subsingleton.elim _ _
  subst ha
  have h1 : (L 1).val < 16 := (L 1).isLt
  have h0 : (L 0).val < 2 := (L 0).isLt
  have hc := c.isLt
  show 2097152 * c.val + 131072 * (L 1).val + 65536 * (L 0).val + 2048 * min m 31 + 2048 ≤ 33554432
  omega
theorem htC (m : ℕ) : ∀ a, otC L m a + S2048.size a ≤ S2097152.size a := by
  intro a
  have ha : a = 0 := Subsingleton.elim _ _
  subst ha
  have h1 : (L 1).val < 16 := (L 1).isLt
  have h0 : (L 0).val < 2 := (L 0).isLt
  show 131072 * (L 1).val + 65536 * (L 0).val + 2048 * min m 31 + 2048 ≤ 2097152
  omega
theorem ordC (m : ℕ) : Ordered (oeC L m) := by
  intro c c' h
  have h' : c.val < c'.val := h
  show 2097152 * c.val + 131072 * (L 1).val + 65536 * (L 0).val + 2048 * min m 31 + 2048
    ≤ 2097152 * c'.val + 131072 * (L 1).val + 65536 * (L 0).val + 2048 * min m 31
  omega

/-- The two chunks issued before the loop are chunks 0 and 1, -/
theorem oeP0_eq : (fun c : Fin 16 => k2_off2 L (BitVec.ofNat 32 (2097152 * c.val))) = oeC L 0 := by
  funext c
  rw [k2_off2_eq]
  show ![2097152 * c.val + 131072 * (L 1).val + 65536 * (L 0).val] = ![2097152 * c.val + 131072 * (L 1).val + 65536 * (L 0).val + 2048 * min 0 31]
  simp
theorem otP0_eq : k2_off3 L = otC L 0 := by
  rw [k2_off3_eq]
  show ![131072 * (L 1).val + 65536 * (L 0).val] = ![131072 * (L 1).val + 65536 * (L 0).val + 2048 * min 0 31]
  simp
theorem oeP1_eq : (fun c : Fin 16 => k2_off4 L (BitVec.ofNat 32 (2097152 * c.val))) = oeC L 1 := by
  funext c
  rw [k2_off4_eq]
  show ![2097152 * c.val + 131072 * (L 1).val + 65536 * (L 0).val + 2048] = ![2097152 * c.val + 131072 * (L 1).val + 65536 * (L 0).val + 2048 * min 1 31]
  simp
theorem otP1_eq : k2_off5 L = otC L 1 := by
  rw [k2_off5_eq]
  show ![131072 * (L 1).val + 65536 * (L 0).val + 2048] = ![131072 * (L 1).val + 65536 * (L 0).val + 2048 * min 1 31]
  simp
/-- and trip kk issues the chunks 2·kk + 2 and 2·kk + 3. -/
theorem oeN_eq (kk : Fin k2_t2_loop.trips) (b : Fin 2) : oeN L kk b = oeC L (2 * (kk.val + 1) + b.val) := by
  funext c
  show k2_off40 L kk (BitVec.ofNat 32 (2097152 * c.val)) (BitVec.ofNat 32 b.val) = _
  rw [k2_off40_eq]
  show ![2097152 * c.val + 131072 * (L 1).val + 65536 * (L 0).val + 2048 * min (2 * kk.val + b.val + 2) 31]
    = ![2097152 * c.val + 131072 * (L 1).val + 65536 * (L 0).val + 2048 * min (2 * (kk.val + 1) + b.val) 31]
  rw [show 2 * kk.val + b.val + 2 = 2 * (kk.val + 1) + b.val by omega]
theorem otN_eq (kk : Fin k2_t2_loop.trips) (b : Fin 2) : otN L kk b = otC L (2 * (kk.val + 1) + b.val) := by
  show k2_off41 L kk (BitVec.ofNat 32 b.val) = _
  rw [k2_off41_eq]
  show ![131072 * (L 1).val + 65536 * (L 0).val + 2048 * min (2 * kk.val + b.val + 2) 31]
    = ![131072 * (L 1).val + 65536 * (L 0).val + 2048 * min (2 * (kk.val + 1) + b.val) 31]
  rw [show 2 * kk.val + b.val + 2 = 2 * (kk.val + 1) + b.val by omega]

variable [∀ e, Nonempty (Elt F e)] [FloatOps F]

/-- A side's assertion depends on its offsets only. -/
theorem sideOV_congr (sm : DmaSems sig S_) (b : Fin 2) (qs : PosShare TreeShare)
    (e : Buf (Elt F) ((eW).view.loc (thr d L))) (t : Buf (Elt F) ((tW).view.loc (thr d L))) (k : Buf (Elt F) ((kW).view.loc (thr d L)))
    (oe oe' : Fin 16 → Fin 1 → ℕ) (he : ∀ c a, oe c a + S2048.size a ≤ S33554432.size a) (he' : ∀ c a, oe' c a + S2048.size a ≤ S33554432.size a)
    (ot ot' : Fin 1 → ℕ) (ht : ∀ a, ot a + S2048.size a ≤ S2097152.size a) (ht' : ∀ a, ot' a + S2048.size a ≤ S2097152.size a)
    (h1 : oe = oe') (h2 : ot = ot') :
    sideOV (F := F) d L sm b qs e t k oe he ot ht = sideOV (F := F) d L sm b qs e t k oe' he' ot' ht' := by
  subst h1 h2; rfl

/-- What a trip of the outer loop makes of the accumulator: chunk 2n's 64 trips over slot 0, then chunk 2n + 1's over
    slot 1. -/
def stepO (e : Buf (Elt F) ((eW).view.loc (thr d L))) (t : Buf (Elt F) ((tW).view.loc (thr d L))) (k : Buf (Elt F) ((kW).view.loc (thr d L)))
    (htr : ∀ j, (t j : BitVec 32).toNat ≤ 63) (fmt : Buf (Elt F) ((mT).view.loc (thr d L))) (n : ℕ)
    (acc : Buf (Elt F) ((aT).view.loc (thr d L))) : Buf (Elt F) ((aT).view.loc (thr d L)) :=
  iter4 d L (rowsX4 d L e (oeC L (2 * n + 1)) (heC L (2 * n + 1))) (rowT4 d L t (otC L (2 * n + 1)) (htC L (2 * n + 1)))
    (rowM4 d L k (otC L (2 * n + 1)) (htC L (2 * n + 1))) fmt
    (clampT_le d L 1 _ (landed_le d L 1 t htr (otC L (2 * n + 1)) (htC L (2 * n + 1))))
    (iter3 d L (rowsX3 d L e (oeC L (2 * n)) (heC L (2 * n))) (rowT3 d L t (otC L (2 * n)) (htC L (2 * n)))
      (rowM3 d L k (otC L (2 * n)) (htC L (2 * n))) fmt
      (clampT_le d L 0 _ (landed_le d L 0 t htr (otC L (2 * n)) (htC L (2 * n)))) acc k2_t3_loop.trips) k2_t4_loop.trips

/-- The accumulator after n trips of the outer loop, from its contents fa before the loop. -/
def accO (e : Buf (Elt F) ((eW).view.loc (thr d L))) (t : Buf (Elt F) ((tW).view.loc (thr d L))) (k : Buf (Elt F) ((kW).view.loc (thr d L)))
    (htr : ∀ j, (t j : BitVec 32).toNat ≤ 63) (fmt : Buf (Elt F) ((mT).view.loc (thr d L))) (fa : Buf (Elt F) ((aT).view.loc (thr d L))) :
    ℕ → Buf (Elt F) ((aT).view.loc (thr d L))
  | 0 => fa
  | n + 1 => stepO d L e t k htr fmt n (accO e t k htr fmt fa n)

/-- The outer loop's invariant with its value: before trip n the chunks 2n and 2n + 1 are in flight, one per semaphore,
    the means scratch is as it was and the accumulator holds what n trips made of it. -/
def invOV (q : PosShare TreeShare)
    (e : Buf (Elt F) ((eW).view.loc (thr d L))) (t : Buf (Elt F) ((tW).view.loc (thr d L))) (k : Buf (Elt F) ((kW).view.loc (thr d L)))
    (htr : ∀ j, (t j : BitVec 32).toNat ≤ 63)
    (O : CellTallies nD τ sig (HIx 2)) (W : Waits sig (HIx 2))
    (fmt : Buf (Elt F) ((mT).view.loc (thr d L))) (fa : Buf (Elt F) ((aT).view.loc (thr d L))) (n : Nat) (_ : BitVec 32) : sProp 𝕄 :=
  iprop(Transfers.MayWaits (thr d L) (none : HIx 2) O
    ∗ sideOV d L cc2_scratch5 0 q.left e t k (oeC L (2 * n)) (heC L (2 * n)) (otC L (2 * n)) (htC L (2 * n))
    ∗ sideOV d L cc2_scratch6 1 q.right e t k (oeC L (2 * n + 1)) (heC L (2 * n + 1)) (otC L (2 * n + 1)) (htC L (2 * n + 1))
    ∗ ((mT).view.loc (thr d L) ↦{fullShare} fmt)
    ∗ ((aT).view.loc (thr d L) ↦{fullShare} accO d L e t k htr fmt fa n)
    ∗ ∃ W', ⌜∀ p ∈ W', p ∈ W ∨ p.2 = none⌝ ∗ owes (thr d L) O W')

/-- A trip's post is the invariant one trip on. -/
theorem repackOV (q : PosShare TreeShare)
    (e : Buf (Elt F) ((eW).view.loc (thr d L))) (t : Buf (Elt F) ((tW).view.loc (thr d L))) (k : Buf (Elt F) ((kW).view.loc (thr d L)))
    (htr : ∀ j, (t j : BitVec 32).toNat ≤ 63)
    (O : CellTallies nD τ sig (HIx 2)) (W W' : Waits sig (HIx 2)) (hW' : ∀ p ∈ W', p ∈ W ∨ p.2 = none)
    (fmt : Buf (Elt F) ((mT).view.loc (thr d L))) (fa : Buf (Elt F) ((aT).view.loc (thr d L)))
    (kk : Fin k2_t2_loop.trips) (a : BitVec 32) :
    (iprop(Transfers.MayWaits (thr d L) (none : HIx 2) O
        ∗ sideOV d L cc2_scratch5 0 q.left e t k (oeN L kk 0) (heN L kk 0) (otN L kk 0) (htN L kk 0)
        ∗ sideOV d L cc2_scratch6 1 q.right e t k (oeN L kk 1) (heN L kk 1) (otN L kk 1) (htN L kk 1)
        ∗ ((mT).view.loc (thr d L) ↦{fullShare} fmt)
        ∗ ((aT).view.loc (thr d L) ↦{fullShare} stepO d L e t k htr fmt kk.val (accO d L e t k htr fmt fa kk.val))
        ∗ ∃ W'', ⌜∀ p ∈ W'', p ∈ W' ∨ p.2 = none⌝ ∗ owes (thr d L) O W'') : sProp 𝕄)
      ⊢ invOV (F := F) d L q e t k htr O W fmt fa (kk.val + 1) a := by
  unfold invOV
  rw [sideOV_congr d L cc2_scratch5 0 q.left e t k (oeN L kk 0) (oeC L (2 * (kk.val + 1))) (heN L kk 0) (heC L _) (otN L kk 0) (otC L (2 * (kk.val + 1))) (htN L kk 0) (htC L _)
      (by rw [oeN_eq]; rfl) (by rw [otN_eq]; rfl),
    sideOV_congr d L cc2_scratch6 1 q.right e t k (oeN L kk 1) (oeC L (2 * (kk.val + 1) + 1)) (heN L kk 1) (heC L _) (otN L kk 1) (otC L (2 * (kk.val + 1) + 1)) (htN L kk 1) (htC L _)
      (by rw [oeN_eq]; rfl) (by rw [otN_eq]; rfl)]
  iintro ⟨Hmw, H0, H1, Hmt, Ha, %W'', %hW'', HO⟩
  isplitl [Hmw]; · iexact Hmw
  isplitl [H0]; · iexact H0
  isplitl [H1]; · iexact H1
  isplitl [Hmt]; · iexact Hmt
  isplitl [Ha]; · iexact Ha
  iexists W''
  isplitr
  · ipureintro
    exact fun p hp => (hW'' p hp).elim (hW' p) Or.inr
  · iexact HO

/-- One trip of the outer loop at that invariant. -/
theorem outer_tripOV (q : PosShare TreeShare)
    (e : Buf (Elt F) ((eW).view.loc (thr d L))) (t : Buf (Elt F) ((tW).view.loc (thr d L))) (k : Buf (Elt F) ((kW).view.loc (thr d L)))
    (htr : ∀ j, (t j : BitVec 32).toNat ≤ 63)
    (O : CellTallies nD τ sig (HIx 2)) (W : Waits sig (HIx 2))
    (fmt : Buf (Elt F) ((mT).view.loc (thr d L))) (fa : Buf (Elt F) ((aT).view.loc (thr d L)))
    (v2 c146 c147 c16 : BitVec 32) (kk : Fin k2_t2_loop.trips) (a : BitVec 32) :
    (invOV (F := F) d L q e t k htr O W fmt fa kk.val a)
      ⊢ wp frame (wpE (defs₀ (F := F)) 𝒱₀ (thr d L) none) Set.univ
          (k2_t2_body L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1 v2 iotaV c146 c147 c16 kk a)
          (invOV (F := F) d L q e t k htr O W fmt fa (kk.val + 1)) := by
  unfold invOV
  iintro ⟨Hmw, H0, H1, Hmt, Ha, %W', %hW', HO⟩
  iapply ((outer_tripV d L q e t k htr O W' (oeC L (2 * kk.val)) (heC L _) (otC L (2 * kk.val)) (htC L _)
      (oeC L (2 * kk.val + 1)) (heC L _) (otC L (2 * kk.val + 1)) (htC L _) fmt (accO d L e t k htr fmt fa kk.val)
      v2 c146 c147 c16 kk a).trans
    (wp_mono _ _ _ (fun r => repackOV d L q e t k htr O W W' hW' fmt fa kk r)))
  isplitl [Hmw]; · iexact Hmw
  isplitl [H0]; · iexact H0
  isplitl [H1]; · iexact H1
  isplitl [Hmt]; · iexact Hmt
  isplitl [Ha]; · iexact Ha
  iexact HO

end Cert.Proof.KI.Pass2

end
-- ==== Proof.Pass2IY.lean ====
import proofs.«210783_g59777354826199_cont_9to1_m_168_18_alg».proof.Proof.SetupI
import Idealize.ShloMosaic.Lib.Pipeline.FrameBody
import proofs.«210783_g59777354826199_cont_9to1_m_168_18_alg».proof.Proof.Pass2IA
import proofs.«210783_g59777354826199_cont_9to1_m_168_18_alg».proof.Proof.Pass2IB
import proofs.«210783_g59777354826199_cont_9to1_m_168_18_alg».proof.Proof.Pass2IC
import proofs.«210783_g59777354826199_cont_9to1_m_168_18_alg».proof.Proof.Pass2IV

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! # A trip's rewriting of the accumulator as two scatter-adds -/

variable (d : Dev nD) (L : grid2.Coords) [∀ e, Nonempty (Elt F e)] [FloatOps F]

/-- What a trip over this slot leaves in the accumulator: the second group's scatter-add over the first group's over what
    it held. -/
theorem acc3_eq (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63) (kk : Fin k2_t3_loop.trips) (fa : Buf (Elt F) ((aT).view.loc (thr d L)))
    (h0 : ∀ a x, ((![tripW3.sl.v969 d L gt gm kk] : Fin 1 → IVec S16 32) a x).toNat < S1024.size a)
    (h1 : ∀ a x, ((![tripW3.sl.v1145 d L gt gm kk] : Fin 1 → IVec S16 32) a x).toNat < S1024.size a) :
    acc3 d L gx gt gm fmt hgt kk fa
      = storeIdx (s := S1024) (d := ![16])
          (storeIdx (s := S1024) (d := ![16]) fa ![tripW3.sl.v969 d L gt gm kk] (tripW3.sl.v1129 d L gx gt gm fmt hgt kk) (fun _ => 1#1) true h0)
          ![tripW3.sl.v1145 d L gt gm kk]
          (k2_pay143 (tripW3.sl.v1298 d L gx gt gm fmt hgt kk) (tripW3.sl.v1299 d L gx gt gm fmt hgt kk)
            (tripW3.sl.v1300 d L gx gt gm fmt hgt kk) (tripW3.sl.v1301 d L gx gt gm fmt hgt kk))
          (fun _ => 1#1) true h1 := by
  unfold acc3 tripW3
  dsimp only
  rw [← View.write_univ_eq_writes_whole, View.write_whole_univ]
  unfold tripW3.sl.f tripW3.sl.Ha_1
  have hB : (View.readAt (Elt F) (aT).view (LoadRect.whole S1024) fa : Vec F S1024 .f32) = (fa : Vec F S1024 .f32) :=
    Memref.readAt_whole (Elt F) cc2_scratch4 fa
  have hA := View.readCov_cons_toLoadRect (Val := Elt F) (aT).view (Rect.whole S1024)
    (storeIdx (s := S1024) (d := ![16]) (View.readAt (Elt F) (aT).view (LoadRect.whole S1024) fa) ![tripW3.sl.v969 d L gt gm kk]
      (tripW3.sl.v1129 d L gx gt gm fmt hgt kk) (fun _ => 1#1) true h0) []
  refine congrArg (fun g : Vec F S1024 .f32 => storeIdx (s := S1024) (d := ![16]) g ![tripW3.sl.v1145 d L gt gm kk]
    (k2_pay143 (tripW3.sl.v1298 d L gx gt gm fmt hgt kk) (tripW3.sl.v1299 d L gx gt gm fmt hgt kk)
      (tripW3.sl.v1300 d L gx gt gm fmt hgt kk) (tripW3.sl.v1301 d L gx gt gm fmt hgt kk)) (fun _ => 1#1) true h1) ?_
  exact hA.trans (congrArg (fun g : Vec F S1024 .f32 => storeIdx (s := S1024) (d := ![16]) g ![tripW3.sl.v969 d L gt gm kk]
    (tripW3.sl.v1129 d L gx gt gm fmt hgt kk) (fun _ => 1#1) true h0) hB)

/-- What a trip over this slot leaves in the accumulator: the second group's scatter-add over the first group's over what
    it held. -/
theorem acc4_eq (gx : Fin 16 → Buf (Elt F) ((xB).view.loc (thr d L))) (gt : Buf (Elt F) ((tB).view.loc (thr d L)))
    (gm : Buf (Elt F) ((mB).view.loc (thr d L))) (fmt : Buf (Elt F) ((mT).view.loc (thr d L)))
    (hgt : ∀ j, (gt j : BitVec 32).toNat ≤ 63) (kk : Fin k2_t4_loop.trips) (fa : Buf (Elt F) ((aT).view.loc (thr d L)))
    (h0 : ∀ a x, ((![tripW4.sl.v969 d L gt gm kk] : Fin 1 → IVec S16 32) a x).toNat < S1024.size a)
    (h1 : ∀ a x, ((![tripW4.sl.v1145 d L gt gm kk] : Fin 1 → IVec S16 32) a x).toNat < S1024.size a) :
    acc4 d L gx gt gm fmt hgt kk fa
      = storeIdx (s := S1024) (d := ![16])
          (storeIdx (s := S1024) (d := ![16]) fa ![tripW4.sl.v969 d L gt gm kk] (tripW4.sl.v1129 d L gx gt gm fmt hgt kk) (fun _ => 1#1) true h0)
          ![tripW4.sl.v1145 d L gt gm kk]
          (k2_pay143 (tripW4.sl.v1298 d L gx gt gm fmt hgt kk) (tripW4.sl.v1299 d L gx gt gm fmt hgt kk)
            (tripW4.sl.v1300 d L gx gt gm fmt hgt kk) (tripW4.sl.v1301 d L gx gt gm fmt hgt kk))
          (fun _ => 1#1) true h1 := by
  unfold acc4 tripW4
  dsimp only
  rw [← View.write_univ_eq_writes_whole, View.write_whole_univ]
  unfold tripW4.sl.f tripW4.sl.Ha_1
  have hB : (View.readAt (Elt F) (aT).view (LoadRect.whole S1024) fa : Vec F S1024 .f32) = (fa : Vec F S1024 .f32) :=
    Memref.readAt_whole (Elt F) cc2_scratch4 fa
  have hA := View.readCov_cons_toLoadRect (Val := Elt F) (aT).view (Rect.whole S1024)
    (storeIdx (s := S1024) (d := ![16]) (View.readAt (Elt F) (aT).view (LoadRect.whole S1024) fa) ![tripW4.sl.v969 d L gt gm kk]
      (tripW4.sl.v1129 d L gx gt gm fmt hgt kk) (fun _ => 1#1) true h0) []
  refine congrArg (fun g : Vec F S1024 .f32 => storeIdx (s := S1024) (d := ![16]) g ![tripW4.sl.v1145 d L gt gm kk]
    (k2_pay143 (tripW4.sl.v1298 d L gx gt gm fmt hgt kk) (tripW4.sl.v1299 d L gx gt gm fmt hgt kk)
      (tripW4.sl.v1300 d L gx gt gm fmt hgt kk) (tripW4.sl.v1301 d L gx gt gm fmt hgt kk)) (fun _ => 1#1) true h1) ?_
  exact hA.trans (congrArg (fun g : Vec F S1024 .f32 => storeIdx (s := S1024) (d := ![16]) g ![tripW4.sl.v969 d L gt gm kk]
    (tripW4.sl.v1129 d L gx gt gm fmt hgt kk) (fun _ => 1#1) true h0) hB)

end Cert.Proof.KI.Pass2

end
-- ==== Proof.LibStoreIdx.lean ====
/-
  The indexed store with addition (a scatter-add into tile memory: the fold over the lanes that the model gives
  \`tpu.vector_store_idx {add = true}\`) at lanes naming pairwise distinct elements: pointwise, the element a lane names
  gets that lane's value added once, every other element is kept.
-/
import Idealize.ShloMosaic.PureOps.ShapeOps

namespace Cert.Proof.Lib

open Idealize.ShloMosaic

variable {F : FTy → Type} [FloatOps F] {s : Shape} {e : EltTy} {d : Fin 1 → Nat}

/-- One lane's step of the unmasked indexed store with addition. -/
def stepAdd (idxs : Fin s.rank → IVec ⟨1, d⟩ 32) (h : ∀ a x, (idxs a x).toNat < s.size a) (v : Vec F ⟨1, d⟩ e)
    (g : Vec F s e) (k : Fin (d 0)) : Vec F s e :=
  fun j => if (∀ a, (j a).val = ((idxAt idxs h (Shape.ofLane k)) a).val)
    then Elt.idxAdd e (g (idxAt idxs h (Shape.ofLane k))) (v (Shape.ofLane k)) else g j

theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) true h = (List.finRange (d 0)).foldl (stepAdd idxs h v) f := rfl

theorem idx_eq_iff (i j : s.Idx) : (∀ a, (j a).val = (i a).val) ↔ j = i :=
  ⟨fun hh => funext fun a => Fin.ext (hh a), fun hh a => hh ▸ rfl⟩

theorem stepAdd_at (idxs : Fin s.rank → IVec ⟨1, d⟩ 32) (h : ∀ a x, (idxs a x).toNat < s.size a) (v : Vec F ⟨1, d⟩ e)
    (g : Vec F s e) (k : Fin (d 0)) :
    stepAdd idxs h v g k (idxAt idxs h (Shape.ofLane k)) = Elt.idxAdd e (g (idxAt idxs h (Shape.ofLane k))) (v (Shape.ofLane k)) := by
  unfold stepAdd; rw [if_pos (fun _ => rfl)]

theorem stepAdd_off (idxs : Fin s.rank → IVec ⟨1, d⟩ 32) (h : ∀ a x, (idxs a x).toNat < s.size a) (v : Vec F ⟨1, d⟩ e)
    (g : Vec F s e) (k : Fin (d 0)) (j : s.Idx) (hj : idxAt idxs h (Shape.ofLane k) ≠ j) :
    stepAdd idxs h v g k j = g j := by
  unfold stepAdd; rw [if_neg (fun hh => hj ((idx_eq_iff _ _).1 hh).symm)]

/-- An element no lane of the list names is kept. -/
theorem foldl_off (idxs : Fin s.rank → IVec ⟨1, d⟩ 32) (h : ∀ a x, (idxs a x).toNat < s.size a) (v : Vec F ⟨1, d⟩ e) (j : s.Idx) :
    ∀ (l : List (Fin (d 0))) (g : Vec F s e), (∀ k ∈ l, idxAt idxs h (Shape.ofLane k) ≠ j) → l.foldl (stepAdd idxs h v) g j = g j
  | [], _, _ => rfl
  | k :: l, g, hl => by
    rw [List.foldl_cons, foldl_off idxs h v j l _ (fun k' hk' => hl k' (List.mem_cons_of_mem _ hk')),
      stepAdd_off idxs h v g k j (hl k List.mem_cons_self)]

/-- The element a lane of the list names gets that lane's value added, the lanes naming distinct elements. -/
theorem foldl_at (idxs : Fin s.rank → IVec ⟨1, d⟩ 32) (h : ∀ a x, (idxs a x).toNat < s.size a) (v : Vec F ⟨1, d⟩ e) :
    ∀ (l : List (Fin (d 0))) (g : Vec F s e), l.Nodup →
      (∀ k ∈ l, ∀ k' ∈ l, idxAt idxs h (Shape.ofLane k) = idxAt idxs h (Shape.ofLane k') → k = k') →
      ∀ k ∈ l, l.foldl (stepAdd idxs h v) g (idxAt idxs h (Shape.ofLane k))
        = Elt.idxAdd e (g (idxAt idxs h (Shape.ofLane k))) (v (Shape.ofLane k))
  | [], _, _, _, _, hk => absurd hk List.not_mem_nil
  | k0 :: l, g, hnd, hinj, k, hk => by
    rw [List.foldl_cons]
    have hnd' := List.nodup_cons.1 hnd
    rcases List.mem_cons.1 hk with rfl | hk'
    · rw [foldl_off idxs h v _ l _ (fun k' hk' he => hnd'.1 ((hinj k' (List.mem_cons_of_mem _ hk') k List.mem_cons_self he) ▸ hk')),
        stepAdd_at]
    · have hne : idxAt idxs h (Shape.ofLane k0) ≠ idxAt idxs h (Shape.ofLane k) :=
        fun he => hnd'.1 ((hinj k0 List.mem_cons_self k (List.mem_cons_of_mem _ hk') he) ▸ hk')
      rw [foldl_at idxs h v l _ hnd'.2 (fun a ha b hb => hinj a (List.mem_cons_of_mem _ ha) b (List.mem_cons_of_mem _ hb)) k hk',
        stepAdd_off idxs h v g k0 _ hne]

/-- The unmasked indexed store with addition, the lanes naming pairwise distinct elements: at the element lane k names. -/
theorem storeIdx_add_at (f : Vec F s e) (idxs : Fin s.rank → IVec ⟨1, d⟩ 32) (v : Vec F ⟨1, d⟩ e)
    (h : ∀ a x, (idxs a x).toNat < s.size a)
    (hinj : ∀ k k' : Fin (d 0), idxAt idxs h (Shape.ofLane k) = idxAt idxs h (Shape.ofLane k') → k = k') (k : Fin (d 0)) :
    storeIdx f idxs v (fun _ => 1#1) true h (idxAt idxs h (Shape.ofLane k))
      = Elt.idxAdd e (f (idxAt idxs h (Shape.ofLane k))) (v (Shape.ofLane k)) := by
  rw [storeIdx_eq_foldl]
  exact foldl_at idxs h v _ f (List.nodup_finRange _) (fun a _ b _ => hinj a b) k (List.mem_finRange k)

/-- and at an element no lane names. -/
theorem storeIdx_add_off (f : Vec F s e) (idxs : Fin s.rank → IVec ⟨1, d⟩ 32) (v : Vec F ⟨1, d⟩ e)
    (h : ∀ a x, (idxs a x).toNat < s.size a) (j : s.Idx) (hj : ∀ k : Fin (d 0), idxAt idxs h (Shape.ofLane k) ≠ j) :
    storeIdx f idxs v (fun _ => 1#1) true h j = f j := by
  rw [storeIdx_eq_foldl]
  exact foldl_off idxs h v j _ f (fun k _ => hj k)

end Cert.Proof.Lib
-- ==== Proof.Pass2IW.lean ====
import proofs.«210783_g59777354826199_cont_9to1_m_168_18_alg».proof.Proof.SetupI
import proofs.«210783_g59777354826199_cont_9to1_m_168_18_alg».proof.Proof.Pass2IA
import proofs.«210783_g59777354826199_cont_9to1_m_168_18_alg».proof.Proof.Pass2IB
import proofs.«210783_g59777354826199_cont_9to1_m_168_18_alg».proof.Proof.Pass2IC
import proofs.«210783_g59777354826199_cont_9to1_m_168_18_alg».proof.Proof.LibStoreIdx

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! # The kernel's scatter-add, pointwise

  The index vector of a group of sixteen voxels is the segment number (zero where the mask is off) times sixteen plus the
  lane: its sixteen lanes name sixteen distinct elements of the accumulator, so the indexed store with addition adds
  each lane's value once at the element the lane names and keeps every other element. -/

open Cert.Proof.Lib

variable [FloatOps F]

/-- The index vector of a group of sixteen voxels, from the mask's and the targets' words of the group. -/
abbrev segIdx (lm lt : S1x16.Idx → BitVec 32) (hm hl : S1x16.ShapeCasts S16) : IVec S16 32 :=
  addi (muli (select (cmpi .sgt (shapeCast S16 lm hm) (broadcast S16 0#32)) (shapeCast S16 lt hl) (broadcast S16 0#32))
    (broadcast S16 16#32)) iotaV

omit [FloatOps F] in
/-- Lane x of it is sixteen times a segment number of at most 63, plus x. -/
theorem segIdx_toNat (lm lt : S1x16.Idx → BitVec 32) (hm hl : S1x16.ShapeCasts S16) (ht : ∀ y, (lt y).toNat ≤ 63) (x : S16.Idx) :
    ∃ sg, sg ≤ 63 ∧ (segIdx lm lt hm hl x).toNat = 16 * sg + (x 0).val := by
  have hx : (x 0).val < 16 := (x 0).isLt
  have hi : (iotaV x).toNat = (x 0).val := by
    show (BitVec.ofNat 32 (0 * 16 + (x 0).val)).toNat = (x 0).val
    rw [BitVec.toNat_ofNat]; omega
  have hy := ht (Shape.reshapeEquiv hl x)
  show ∃ sg, sg ≤ 63 ∧ (IntOp.addi (IntOp.muli (Scalar.select _ (lt (Shape.reshapeEquiv hl x)) 0#32) 16#32) (iotaV x)).toNat = 16 * sg + (x 0).val
  unfold Scalar.select IntOp.addi IntOp.muli
  split
  · refine ⟨(lt (Shape.reshapeEquiv hl x)).toNat, hy, ?_⟩
    rw [BitVec.toNat_add, BitVec.toNat_mul, hi]
    show ((lt (Shape.reshapeEquiv hl x)).toNat * 16 % 2 ^ 32 + (x 0).val) % 2 ^ 32 = _
    omega
  · refine ⟨0, Nat.zero_le _, ?_⟩
    rw [BitVec.toNat_add, BitVec.toNat_mul, hi]
    show (0 * 16 % 2 ^ 32 + (x 0).val) % 2 ^ 32 = _
    omega

omit [FloatOps F] in
/-- Its lanes name pairwise distinct elements of the accumulator. -/
theorem segIdx_inj (lm lt : S1x16.Idx → BitVec 32) (hm hl : S1x16.ShapeCasts S16) (ht : ∀ y, (lt y).toNat ≤ 63)
    (h : ∀ a x, ((![segIdx lm lt hm hl] : Fin 1 → IVec S16 32) a x).toNat < S1024.size a) (k k' : Fin 16)
    (he : idxAt (s := S1024) ![segIdx lm lt hm hl] h (Shape.ofLane (d := ![16]) k) = idxAt (s := S1024) ![segIdx lm lt hm hl] h (Shape.ofLane (d := ![16]) k')) :
    k = k' := by
  have h0 := congrArg (fun i : S1024.Idx => (i 0).val) he
  obtain ⟨sg, hsg, e1⟩ := segIdx_toNat lm lt hm hl ht (Shape.ofLane (d := ![16]) k)
  obtain ⟨sg', hsg', e2⟩ := segIdx_toNat lm lt hm hl ht (Shape.ofLane (d := ![16]) k')
  have h1 : (segIdx lm lt hm hl (Shape.ofLane (d := ![16]) k)).toNat = (segIdx lm lt hm hl (Shape.ofLane (d := ![16]) k')).toNat := h0
  have hk : ((Shape.ofLane (d := ![16]) k) 0).val = k.val := rfl
  have hk' : ((Shape.ofLane (d := ![16]) k') 0).val = k'.val := rfl
  rw [e1, e2, hk, hk'] at h1
  have := k.isLt; have := k'.isLt
  exact Fin.ext (by omega)

/-- The kernel's scatter-add of a group's values p onto the accumulator's contents f, at the element lane k names: that
    element with the lane's value added. -/
theorem scatter_at (f : Vec F S1024 .f32) (lm lt : S1x16.Idx → BitVec 32) (hm hl : S1x16.ShapeCasts S16) (ht : ∀ y, (lt y).toNat ≤ 63)
    (p : Vec F S16 .f32) (h : ∀ a x, ((![segIdx lm lt hm hl] : Fin 1 → IVec S16 32) a x).toNat < S1024.size a) (k : Fin 16) :
    storeIdx (s := S1024) (d := ![16]) f ![segIdx lm lt hm hl] p (fun _ => 1#1) true h (idxAt (s := S1024) ![segIdx lm lt hm hl] h (Shape.ofLane (d := ![16]) k))
      = Elt.idxAdd .f32 (f (idxAt (s := S1024) ![segIdx lm lt hm hl] h (Shape.ofLane (d := ![16]) k))) (p (Shape.ofLane (d := ![16]) k)) :=
  storeIdx_add_at f _ p h (segIdx_inj lm lt hm hl ht h) k

/-- and at an element no lane names: kept. -/
theorem scatter_off (f : Vec F S1024 .f32) (lm lt : S1x16.Idx → BitVec 32) (hm hl : S1x16.ShapeCasts S16)
    (p : Vec F S16 .f32) (h : ∀ a x, ((![segIdx lm lt hm hl] : Fin 1 → IVec S16 32) a x).toNat < S1024.size a) (j : S1024.Idx)
    (hj : ∀ k : Fin 16, idxAt (s := S1024) ![segIdx lm lt hm hl] h (Shape.ofLane (d := ![16]) k) ≠ j) :
    storeIdx (s := S1024) (d := ![16]) f ![segIdx lm lt hm hl] p (fun _ => 1#1) true h j = f j :=
  storeIdx_add_off f _ p h j hj

end Cert.Proof.KI.Pass2

end
-- ==== Proof.Pass2IZ.lean ====
import proofs.«210783_g59777354826199_cont_9to1_m_168_18_alg».proof.Proof.SetupI
import proofs.«210783_g59777354826199_cont_9to1_m_168_18_alg».proof.Proof.Pass2IA
import proofs.«210783_g59777354826199_cont_9to1_m_168_18_alg».proof.Proof.Pass2IB
import proofs.«210783_g59777354826199_cont_9to1_m_168_18_alg».proof.Proof.Pass2IC
import proofs.«210783_g59777354826199_cont_9to1_m_168_18_alg».proof.Proof.Pass2IV
import proofs.«210783_g59777354826199_cont_9to1_m_168_18_alg».proof.Proof.Pass2IW

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! # The index vectors of a trip's two groups -/

variable (d : Dev nD) (L : grid2.Coords) [∀ e, Nonempty (Elt F e)] [FloatOps F]

/-- The first group's index vector in a trip over this slot is the segment-lane index vector of the group's mask and
    target words as loaded from the slot's rows, -/
theorem idx3_0 (gt : Buf (Elt F) ((tB).view.loc (thr d L))) (gm : Buf (Elt F) ((mB).view.loc (thr d L))) (kk : Fin k2_t3_loop.trips) :
    tripW3.sl.v969 d L gt gm kk
      = segIdx (View.readAt (Elt F) (mB).view (Rect.unit (s := S2x2048) (k2_off6 kk) S1x16.size (k2_off6_inb kk)).toLoadRect gm)
          (View.readAt (Elt F) (tB).view (Rect.unit (s := S2x2048) (k2_off6 kk) S1x16.size (k2_off6_inb kk)).toLoadRect gt)
          shapeCasts_S1x16_S16 shapeCasts_S1x16_S16 := rfl
/-- and the second group's likewise, sixteen voxels on. -/
theorem idx3_1 (gt : Buf (Elt F) ((tB).view.loc (thr d L))) (gm : Buf (Elt F) ((mB).view.loc (thr d L))) (kk : Fin k2_t3_loop.trips) :
    tripW3.sl.v1145 d L gt gm kk
      = segIdx (View.readAt (Elt F) (mB).view (Rect.unit (s := S2x2048) (k2_off23 kk) S1x16.size (k2_off23_inb kk)).toLoadRect gm)
          (View.readAt (Elt F) (tB).view (Rect.unit (s := S2x2048) (k2_off23 kk) S1x16.size (k2_off23_inb kk)).toLoadRect gt)
          shapeCasts_S1x16_S16 shapeCasts_S1x16_S16 := rfl

/-- The first group's index vector in a trip over this slot is the segment-lane index vector of the group's mask and
    target words as loaded from the slot's rows, -/
theorem idx4_0 (gt : Buf (Elt F) ((tB).view.loc (thr d L))) (gm : Buf (Elt F) ((mB).view.loc (thr d L))) (kk : Fin k2_t4_loop.trips) :
    tripW4.sl.v969 d L gt gm kk
      = segIdx (View.readAt (Elt F) (mB).view (Rect.unit (s := S2x2048) (k2_off42 kk) S1x16.size (k2_off42_inb kk)).toLoadRect gm)
          (View.readAt (Elt F) (tB).view (Rect.unit (s := S2x2048) (k2_off42 kk) S1x16.size (k2_off42_inb kk)).toLoadRect gt)
          shapeCasts_S1x16_S16 shapeCasts_S1x16_S16 := rfl
/-- and the second group's likewise, sixteen voxels on. -/
theorem idx4_1 (gt : Buf (Elt F) ((tB).view.loc (thr d L))) (gm : Buf (Elt F) ((mB).view.loc (thr d L))) (kk : Fin k2_t4_loop.trips) :
    tripW4.sl.v1145 d L gt gm kk
      = segIdx (View.readAt (Elt F) (mB).view (Rect.unit (s := S2x2048) (k2_off59 kk) S1x16.size (k2_off59_inb kk)).toLoadRect gm)
          (View.readAt (Elt F) (tB).view (Rect.unit (s := S2x2048) (k2_off59 kk) S1x16.size (k2_off59_inb kk)).toLoadRect gt)
          shapeCasts_S1x16_S16 shapeCasts_S1x16_S16 := rfl

end Cert.Proof.KI.Pass2

end
-- ==== Proof.Pass2VC.lean ====
import proofs.«210783_g59777354826199_cont_9to1_m_168_18_alg».proof.Proof.Pass2VA
import proofs.«210783_g59777354826199_cont_9to1_m_168_18_alg».proof.Proof.Pass2IY
import proofs.«210783_g59777354826199_cont_9to1_m_168_18_alg».proof.Proof.Pass2IW
import proofs.«210783_g59777354826199_cont_9to1_m_168_18_alg».proof.Proof.Pass2IZ

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! # The accumulation as a sum, at the ideal instance

  At the ideal instance the indexed store with addition adds, at each element of the accumulator, the values of the
  lanes that name it; a trip, a loop over a slot, a trip of the outer loop and the outer loop whole therefore add, at each
  element, a sum over their groups' lanes, whatever the accumulator held. -/

variable (d : Dev nD) (L : grid2.Coords)

/-- A group's index vector stays inside the accumulator. -/
theorem segOk (lm lt : S1x16.Idx → BitVec 32) (ht : ∀ y, (lt y).toNat ≤ 63) :
    ∀ (a : Fin (Nat.succ 0)) (x : S16.Idx), ((![segIdx lm lt shapeCasts_S1x16_S16 shapeCasts_S1x16_S16] : Fin 1 → IVec S16 32) a x).toNat < S1024.size a :=
  sidx_ok _ (fun x => seg_lt lm lt _ _ ht x)

/-- The accumulator's contents read as a function into the extended reals. -/
abbrev asE (g : Buf (Elt Ideal) ((aT).view.loc (thr d L))) : S1024.Idx → EReal := g

open Classical in
/-- What a group adds at element j: the values p of those of its sixteen lanes whose index is j. -/
def laneSum (lm lt : S1x16.Idx → BitVec 32) (ht : ∀ y, (lt y).toNat ≤ 63) (p : Vec Ideal S16 .f32) (j : S1024.Idx) : EReal :=
  ∑ l : Fin 16, if idxAt (s := S1024) ![segIdx lm lt shapeCasts_S1x16_S16 shapeCasts_S1x16_S16] (segOk lm lt ht) (Shape.ofLane (d := ![16]) l) = j
    then (p (Shape.ofLane (d := ![16]) l) : EReal) else 0

/-- The scatter-add of a group, as a sum: each element gets the values of the lanes that name it. -/
theorem scatter_sum (f : Vec Ideal S1024 .f32) (lm lt : S1x16.Idx → BitVec 32) (hm hl : S1x16.ShapeCasts S16) (ht : ∀ y, (lt y).toNat ≤ 63)
    (p : Vec Ideal S16 .f32) (h : ∀ a x, ((![segIdx lm lt hm hl] : Fin 1 → IVec S16 32) a x).toNat < S1024.size a) (j : S1024.Idx) :
    (storeIdx (s := S1024) (d := ![16]) f ![segIdx lm lt hm hl] p (fun _ => 1#1) true h j : EReal)
      = (f j : EReal) + laneSum lm lt ht p j := by
  unfold laneSum
  by_cases hj : ∃ l : Fin 16, idxAt (s := S1024) ![segIdx lm lt hm hl] h (Shape.ofLane (d := ![16]) l) = j
  · obtain ⟨l0, rfl⟩ := hj
    rw [scatter_at f lm lt hm hl ht p h l0, Finset.sum_eq_single l0]
    · rw [if_pos rfl]; rfl
    · intro l _ hne
      rw [if_neg]
      intro he
      exact hne (segIdx_inj lm lt hm hl ht h l l0 he)
    · intro hn; exact absurd (Finset.mem_univ _) hn
  · rw [scatter_off f lm lt hm hl p h j (fun l he => hj ⟨l, he⟩), Finset.sum_eq_zero]
    · exact (add_zero _).symm
    · intro l _
      rw [if_neg]
      intro he; exact hj ⟨l, he⟩

/-- The masks' and targets' words of a trip's two groups, as loaded from slot 0's rows. -/
abbrev lm3a (gm : Buf (Elt Ideal) ((mB).view.loc (thr d L))) (kk : Fin k2_t3_loop.trips) : S1x16.Idx → BitVec 32 :=
  View.readAt (Elt Ideal) (mB).view (Rect.unit (s := S2x2048) (k2_off6 kk) S1x16.size (k2_off6_inb kk)).toLoadRect gm
abbrev lt3a (gt : Buf (Elt Ideal) ((tB).view.loc (thr d L))) (kk : Fin k2_t3_loop.trips) : S1x16.Idx → BitVec 32 :=
  View.readAt (Elt Ideal) (tB).view (Rect.unit (s := S2x2048) (k2_off6 kk) S1x16.size (k2_off6_inb kk)).toLoadRect gt
abbrev lm3b (gm : Buf (Elt Ideal) ((mB).view.loc (thr d L))) (kk : Fin k2_t3_loop.trips) : S1x16.Idx → BitVec 32 :=
  View.readAt (Elt Ideal) (mB).view (Rect.unit (s := S2x2048) (k2_off23 kk) S1x16.size (k2_off23_inb kk)).toLoadRect gm
abbrev lt3b (gt : Buf (Elt Ideal) ((tB).view.loc (thr d L))) (kk : Fin k2_t3_loop.trips) : S1x16.Idx → BitVec 32 :=
  View.readAt (Elt Ideal) (tB).view (Rect.unit (s := S2x2048) (k2_off23 kk) S1x16.size (k2_off23_inb kk)).toLoadRect gt

/-- What a trip over slot 0 adds at element j of the accumulator: the values of those lanes of its two groups that name j. -/
def D3 (gx : Fin 16 → Buf (Elt Ideal) ((xB).view.loc (thr d L))) (gt : Buf (Elt Ideal) ((tB).view.loc (thr d L)))
    (gm : Buf (Elt Ideal) ((mB).view.loc (thr d L))) (fmt : Buf (Elt Ideal) ((mT).view.loc (thr d L)))
    (hgt : ∀ j, (gt j : BitVec 32).toNat ≤ 63) (kk : Fin k2_t3_loop.trips) (j : S1024.Idx) : EReal :=
  laneSum (lm3a d L gm kk) (lt3a d L gt kk) (fun _ => hgt _) (tripW3.sl.v1129 d L gx gt gm fmt hgt kk) j
  + laneSum (lm3b d L gm kk) (lt3b d L gt kk) (fun _ => hgt _)
      (k2_pay143 (tripW3.sl.v1298 d L gx gt gm fmt hgt kk) (tripW3.sl.v1299 d L gx gt gm fmt hgt kk)
        (tripW3.sl.v1300 d L gx gt gm fmt hgt kk) (tripW3.sl.v1301 d L gx gt gm fmt hgt kk)) j

/-- A trip over slot 0 adds that much to each element. -/
theorem acc3_add (gx : Fin 16 → Buf (Elt Ideal) ((xB).view.loc (thr d L))) (gt : Buf (Elt Ideal) ((tB).view.loc (thr d L)))
    (gm : Buf (Elt Ideal) ((mB).view.loc (thr d L))) (fmt : Buf (Elt Ideal) ((mT).view.loc (thr d L)))
    (hgt : ∀ j, (gt j : BitVec 32).toNat ≤ 63) (kk : Fin k2_t3_loop.trips) (fa : Buf (Elt Ideal) ((aT).view.loc (thr d L))) (j : S1024.Idx) :
    asE d L (acc3 d L gx gt gm fmt hgt kk fa) j = asE d L fa j + D3 d L gx gt gm fmt hgt kk j := by
  have h0 := segOk (lm3a d L gm kk) (lt3a d L gt kk) (fun _ => hgt _)
  have h1 := segOk (lm3b d L gm kk) (lt3b d L gt kk) (fun _ => hgt _)
  have e := congrFun (acc3_eq d L gx gt gm fmt hgt kk fa h0 h1) j
  have e0 := scatter_sum (fa : Vec Ideal S1024 .f32) (lm3a d L gm kk) (lt3a d L gt kk) shapeCasts_S1x16_S16 shapeCasts_S1x16_S16
    (fun _ => hgt _) (tripW3.sl.v1129 d L gx gt gm fmt hgt kk) h0 j
  have e1 := scatter_sum (storeIdx (s := S1024) (d := ![16]) (fa : Vec Ideal S1024 .f32)
      ![segIdx (lm3a d L gm kk) (lt3a d L gt kk) shapeCasts_S1x16_S16 shapeCasts_S1x16_S16]
      (tripW3.sl.v1129 d L gx gt gm fmt hgt kk) (fun _ => 1#1) true h0)
    (lm3b d L gm kk) (lt3b d L gt kk) shapeCasts_S1x16_S16 shapeCasts_S1x16_S16 (fun _ => hgt _)
    (k2_pay143 (tripW3.sl.v1298 d L gx gt gm fmt hgt kk) (tripW3.sl.v1299 d L gx gt gm fmt hgt kk)
      (tripW3.sl.v1300 d L gx gt gm fmt hgt kk) (tripW3.sl.v1301 d L gx gt gm fmt hgt kk)) h1 j
  rw [e0] at e1
  unfold D3
  rw [← add_assoc]
  exact e.trans e1

/-- The loop over slot 0 after n trips has added the trips' sums. -/
theorem iter3_add (gx : Fin 16 → Buf (Elt Ideal) ((xB).view.loc (thr d L))) (gt : Buf (Elt Ideal) ((tB).view.loc (thr d L)))
    (gm : Buf (Elt Ideal) ((mB).view.loc (thr d L))) (fmt : Buf (Elt Ideal) ((mT).view.loc (thr d L)))
    (hgt : ∀ j, (gt j : BitVec 32).toNat ≤ 63) (fa : Buf (Elt Ideal) ((aT).view.loc (thr d L))) (j : S1024.Idx) :
    ∀ n : ℕ, asE d L (iter3 d L gx gt gm fmt hgt fa n) j
      = asE d L fa j + ∑ i ∈ Finset.range n, (if h : i < k2_t3_loop.trips then D3 d L gx gt gm fmt hgt ⟨i, h⟩ j else 0)
  | 0 => by
      show asE d L fa j = _
      rw [Finset.range_zero, Finset.sum_empty, add_zero]
  | n + 1 => by
      rw [Finset.sum_range_succ, ← add_assoc, ← iter3_add gx gt gm fmt hgt fa j n]
      show asE d L (if h : n < k2_t3_loop.trips then acc3 d L gx gt gm fmt hgt ⟨n, h⟩ (iter3 d L gx gt gm fmt hgt fa n) else iter3 d L gx gt gm fmt hgt fa n) j = _
      by_cases h : n < k2_t3_loop.trips
      · rw [dif_pos h, dif_pos h]
        exact acc3_add d L gx gt gm fmt hgt ⟨n, h⟩ _ j
      · rw [dif_neg h, dif_neg h, add_zero]

/-- The masks' and targets' words of a trip's two groups, as loaded from slot 1's rows. -/
abbrev lm4a (gm : Buf (Elt Ideal) ((mB).view.loc (thr d L))) (kk : Fin k2_t4_loop.trips) : S1x16.Idx → BitVec 32 :=
  View.readAt (Elt Ideal) (mB).view (Rect.unit (s := S2x2048) (k2_off42 kk) S1x16.size (k2_off42_inb kk)).toLoadRect gm
abbrev lt4a (gt : Buf (Elt Ideal) ((tB).view.loc (thr d L))) (kk : Fin k2_t4_loop.trips) : S1x16.Idx → BitVec 32 :=
  View.readAt (Elt Ideal) (tB).view (Rect.unit (s := S2x2048) (k2_off42 kk) S1x16.size (k2_off42_inb kk)).toLoadRect gt
abbrev lm4b (gm : Buf (Elt Ideal) ((mB).view.loc (thr d L))) (kk : Fin k2_t4_loop.trips) : S1x16.Idx → BitVec 32 :=
  View.readAt (Elt Ideal) (mB).view (Rect.unit (s := S2x2048) (k2_off59 kk) S1x16.size (k2_off59_inb kk)).toLoadRect gm
abbrev lt4b (gt : Buf (Elt Ideal) ((tB).view.loc (thr d L))) (kk : Fin k2_t4_loop.trips) : S1x16.Idx → BitVec 32 :=
  View.readAt (Elt Ideal) (tB).view (Rect.unit (s := S2x2048) (k2_off59 kk) S1x16.size (k2_off59_inb kk)).toLoadRect gt

/-- What a trip over slot 1 adds at element j of the accumulator: the values of those lanes of its two groups that name j. -/
def D4 (gx : Fin 16 → Buf (Elt Ideal) ((xB).view.loc (thr d L))) (gt : Buf (Elt Ideal) ((tB).view.loc (thr d L)))
    (gm : Buf (Elt Ideal) ((mB).view.loc (thr d L))) (fmt : Buf (Elt Ideal) ((mT).view.loc (thr d L)))
    (hgt : ∀ j, (gt j : BitVec 32).toNat ≤ 63) (kk : Fin k2_t4_loop.trips) (j : S1024.Idx) : EReal :=
  laneSum (lm4a d L gm kk) (lt4a d L gt kk) (fun _ => hgt _) (tripW4.sl.v1129 d L gx gt gm fmt hgt kk) j
  + laneSum (lm4b d L gm kk) (lt4b d L gt kk) (fun _ => hgt _)
      (k2_pay143 (tripW4.sl.v1298 d L gx gt gm fmt hgt kk) (tripW4.sl.v1299 d L gx gt gm fmt hgt kk)
        (tripW4.sl.v1300 d L gx gt gm fmt hgt kk) (tripW4.sl.v1301 d L gx gt gm fmt hgt kk)) j

/-- A trip over slot 1 adds that much to each element. -/
theorem acc4_add (gx : Fin 16 → Buf (Elt Ideal) ((xB).view.loc (thr d L))) (gt : Buf (Elt Ideal) ((tB).view.loc (thr d L)))
    (gm : Buf (Elt Ideal) ((mB).view.loc (thr d L))) (fmt : Buf (Elt Ideal) ((mT).view.loc (thr d L)))
    (hgt : ∀ j, (gt j : BitVec 32).toNat ≤ 63) (kk : Fin k2_t4_loop.trips) (fa : Buf (Elt Ideal) ((aT).view.loc (thr d L))) (j : S1024.Idx) :
    asE d L (acc4 d L gx gt gm fmt hgt kk fa) j = asE d L fa j + D4 d L gx gt gm fmt hgt kk j := by
  have h0 := segOk (lm4a d L gm kk) (lt4a d L gt kk) (fun _ => hgt _)
  have h1 := segOk (lm4b d L gm kk) (lt4b d L gt kk) (fun _ => hgt _)
  have e := congrFun (acc4_eq d L gx gt gm fmt hgt kk fa h0 h1) j
  have e0 := scatter_sum (fa : Vec Ideal S1024 .f32) (lm4a d L gm kk) (lt4a d L gt kk) shapeCasts_S1x16_S16 shapeCasts_S1x16_S16
    (fun _ => hgt _) (tripW4.sl.v1129 d L gx gt gm fmt hgt kk) h0 j
  have e1 := scatter_sum (storeIdx (s := S1024) (d := ![16]) (fa : Vec Ideal S1024 .f32)
      ![segIdx (lm4a d L gm kk) (lt4a d L gt kk) shapeCasts_S1x16_S16 shapeCasts_S1x16_S16]
      (tripW4.sl.v1129 d L gx gt gm fmt hgt kk) (fun _ => 1#1) true h0)
    (lm4b d L gm kk) (lt4b d L gt kk) shapeCasts_S1x16_S16 shapeCasts_S1x16_S16 (fun _ => hgt _)
    (k2_pay143 (tripW4.sl.v1298 d L gx gt gm fmt hgt kk) (tripW4.sl.v1299 d L gx gt gm fmt hgt kk)
      (tripW4.sl.v1300 d L gx gt gm fmt hgt kk) (tripW4.sl.v1301 d L gx gt gm fmt hgt kk)) h1 j
  rw [e0] at e1
  unfold D4
  rw [← add_assoc]
  exact e.trans e1

/-- The loop over slot 1 after n trips has added the trips' sums. -/
theorem iter4_add (gx : Fin 16 → Buf (Elt Ideal) ((xB).view.loc (thr d L))) (gt : Buf (Elt Ideal) ((tB).view.loc (thr d L)))
    (gm : Buf (Elt Ideal) ((mB).view.loc (thr d L))) (fmt : Buf (Elt Ideal) ((mT).view.loc (thr d L)))
    (hgt : ∀ j, (gt j : BitVec 32).toNat ≤ 63) (fa : Buf (Elt Ideal) ((aT).view.loc (thr d L))) (j : S1024.Idx) :
    ∀ n : ℕ, asE d L (iter4 d L gx gt gm fmt hgt fa n) j
      = asE d L fa j + ∑ i ∈ Finset.range n, (if h : i < k2_t4_loop.trips then D4 d L gx gt gm fmt hgt ⟨i, h⟩ j else 0)
  | 0 => by
      show asE d L fa j = _
      rw [Finset.range_zero, Finset.sum_empty, add_zero]
  | n + 1 => by
      rw [Finset.sum_range_succ, ← add_assoc, ← iter4_add gx gt gm fmt hgt fa j n]
      show asE d L (if h : n < k2_t4_loop.trips then acc4 d L gx gt gm fmt hgt ⟨n, h⟩ (iter4 d L gx gt gm fmt hgt fa n) else iter4 d L gx gt gm fmt hgt fa n) j = _
      by_cases h : n < k2_t4_loop.trips
      · rw [dif_pos h, dif_pos h]
        exact acc4_add d L gx gt gm fmt hgt ⟨n, h⟩ _ j
      · rw [dif_neg h, dif_neg h, add_zero]

/-- What trip n of the outer loop adds at element j: chunk 2n's 64 trips over slot 0 and chunk 2n + 1's over slot 1. -/
def DO (e : Buf (Elt Ideal) ((eW).view.loc (thr d L))) (t : Buf (Elt Ideal) ((tW).view.loc (thr d L))) (k : Buf (Elt Ideal) ((kW).view.loc (thr d L)))
    (htr : ∀ j, (t j : BitVec 32).toNat ≤ 63) (fmt : Buf (Elt Ideal) ((mT).view.loc (thr d L))) (n : ℕ) (j : S1024.Idx) : EReal :=
  (∑ i ∈ Finset.range k2_t3_loop.trips, (if h : i < k2_t3_loop.trips then
      D3 d L (rowsX3 d L e (oeC L (2 * n)) (heC L (2 * n))) (rowT3 d L t (otC L (2 * n)) (htC L (2 * n))) (rowM3 d L k (otC L (2 * n)) (htC L (2 * n))) fmt
        (clampT_le d L 0 _ (landed_le d L 0 t htr (otC L (2 * n)) (htC L (2 * n)))) ⟨i, h⟩ j else 0))
  + ∑ i ∈ Finset.range k2_t4_loop.trips, (if h : i < k2_t4_loop.trips then
      D4 d L (rowsX4 d L e (oeC L (2 * n + 1)) (heC L (2 * n + 1))) (rowT4 d L t (otC L (2 * n + 1)) (htC L (2 * n + 1))) (rowM4 d L k (otC L (2 * n + 1)) (htC L (2 * n + 1))) fmt
        (clampT_le d L 1 _ (landed_le d L 1 t htr (otC L (2 * n + 1)) (htC L (2 * n + 1)))) ⟨i, h⟩ j else 0)

theorem stepO_add (e : Buf (Elt Ideal) ((eW).view.loc (thr d L))) (t : Buf (Elt Ideal) ((tW).view.loc (thr d L))) (k : Buf (Elt Ideal) ((kW).view.loc (thr d L)))
    (htr : ∀ j, (t j : BitVec 32).toNat ≤ 63) (fmt : Buf (Elt Ideal) ((mT).view.loc (thr d L))) (n : ℕ)
    (acc : Buf (Elt Ideal) ((aT).view.loc (thr d L))) (j : S1024.Idx) :
    asE d L (stepO d L e t k htr fmt n acc) j = asE d L acc j + DO d L e t k htr fmt n j := by
  unfold stepO DO
  rw [iter4_add, iter3_add, add_assoc]

/-- The outer loop after n trips has added the trips' sums to what the accumulator held. -/
theorem accO_add (e : Buf (Elt Ideal) ((eW).view.loc (thr d L))) (t : Buf (Elt Ideal) ((tW).view.loc (thr d L))) (k : Buf (Elt Ideal) ((kW).view.loc (thr d L)))
    (htr : ∀ j, (t j : BitVec 32).toNat ≤ 63) (fmt : Buf (Elt Ideal) ((mT).view.loc (thr d L))) (fa : Buf (Elt Ideal) ((aT).view.loc (thr d L))) (j : S1024.Idx) :
    ∀ n : ℕ, asE d L (accO d L e t k htr fmt fa n) j = asE d L fa j + ∑ m ∈ Finset.range n, DO d L e t k htr fmt m j
  | 0 => by
      show asE d L fa j = _
      rw [Finset.range_zero, Finset.sum_empty, add_zero]
  | n + 1 => by
      rw [Finset.sum_range_succ, ← add_assoc, ← accO_add e t k htr fmt fa j n]
      exact stepO_add d L e t k htr fmt n _ j

end Cert.Proof.KI.Pass2

end
-- ==== Proof.Pass2IU.lean ====
import proofs.«210783_g59777354826199_cont_9to1_m_168_18_alg».proof.Proof.SetupI
import proofs.«210783_g59777354826199_cont_9to1_m_168_18_alg».proof.Proof.Pass2IA
import proofs.«210783_g59777354826199_cont_9to1_m_168_18_alg».proof.Proof.Pass2IB
import proofs.«210783_g59777354826199_cont_9to1_m_168_18_alg».proof.Proof.Pass2IC

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! # The zeroing loop leaves the accumulator zero -/

variable (d : Dev nD) (L : grid2.Coords) [∀ e, Nonempty (Elt F e)] [FloatOps F]

/-- The zero the loop stores. -/
abbrev zeroF : F .f32 := Scalar.ofBits .f32 0x00000000#32

/-- The zeroing loop's invariant with the accumulator's contents: before trip k its first 16·k elements are zero. -/
def invZV (k : Nat) (_ : BitVec 32) : sProp 𝕄 :=
  iprop(∃ f : Buf (Elt F) ((aT).view.loc (thr d L)), ((aT).view.loc (thr d L) ↦{fullShare} f) ∗ ⌜∀ j : S1024.Idx, (j 0).val < 16 * k → (f j : F .f32) = zeroF⌝)

omit [∀ e, Nonempty (Elt F e)] in
/-- One trip's store: the box of sixteen at 16·k gets the zero, the rest is kept. -/
theorem zero_step (f : Buf (Elt F) ((aT).view.loc (thr d L))) (kk : Fin k2_t1_loop.trips)
    (hf : ∀ j : S1024.Idx, (j 0).val < 16 * kk.val → (f j : F .f32) = zeroF) :
    ∀ j : S1024.Idx, (j 0).val < 16 * (kk.val + 1) →
      (((aT).view.writes (Elt F) f [⟨Rect.unit (s := S1024) (k2_off1 kk) S16.size (k2_off1_inb kk), k2_pay145 (F := F)⟩]) j : F .f32) = zeroF := by
  intro j hj
  by_cases hm : j ∈ (Rect.unit (s := S1024) (k2_off1 kk) S16.size (k2_off1_inb kk)).set
  · obtain ⟨x, rfl⟩ := (Rect.unit (s := S1024) (k2_off1 kk) S16.size (k2_off1_inb kk)).exists_idx_of_mem hm
    exact View.read_writes_cons_emb (v := (aT).view) (Val := Elt F) (f := f) (Rect.unit (s := S1024) (k2_off1 kk) S16.size (k2_off1_inb kk)) (k2_pay145 (F := F)) [] x
  · have h := View.read_writes_apply_of_forall_not_mem (v := (aT).view) (Val := Elt F) (f := f) j
      [⟨Rect.unit (s := S1024) (k2_off1 kk) S16.size (k2_off1_inb kk), k2_pay145 (F := F)⟩]
      (fun p hp => by rw [List.mem_singleton.1 hp]; exact hm)
    refine (show (_ : F .f32) = (f j : F .f32) from h).trans (hf j ?_)
    rw [Rect.mem_set_unit] at hm
    by_contra hlt
    apply hm
    intro a
    have ha : a = 0 := Subsingleton.elim _ _
    subst ha
    have e0 : (k2_off1 kk) 0 = 16 * kk.val := by rw [k2_off1_eq]; rfl
    rw [e0]
    show 16 * kk.val ≤ (j 0).val ∧ (j 0).val < 16 * kk.val + 16
    omega

/-- The zeroing loop, whole: whatever the accumulator held, it ends zero everywhere. -/
theorem zero_loop (fa : Buf (Elt F) ((aT).view.loc (thr d L))) :
    ((aT).view.loc (thr d L) ↦{fullShare} fa : sProp 𝕄)
      ⊢ wp frame (wpE (defs₀ (F := F)) 𝒱₀ (thr d L) none) Set.univ
          (Scf.Loop.for k2_t1_loop k2_t1_ok 0#32
            (k2_t1_body L eW (Memref.isWhole_whole _) tW (Memref.isWhole_whole _) kW (Memref.isWhole_whole _)
              mW (Memref.isWhole_whole _) oW (Memref.isWhole_whole _) xB (Memref.isWhole_whole _) tB (Memref.isWhole_whole _)
              mB (Memref.isWhole_whole _) mT (Memref.isWhole_whole _) aT (Memref.isWhole_whole _)
              cc2_scratch5 cc2_scratch6 cc2_scoped0 cc2_scoped1))
          (invZV (F := F) d L k2_t1_loop.trips) := by
  iintro Ha
  sl_for (invZV (F := F) d L) $$ [Ha]
  case region =>
    intro kk _
    unfold invZV
    iintro ⟨%f, Ha, %hf⟩
    sl_exec
    sl_step
    iexists _
    isplitl [Ha]; · iexact Ha
    ipureintro
    exact zero_step d L f kk hf
  · isplitl [Ha]
    · unfold invZV
      iexists fa
      isplitl [Ha]; · iexact Ha
      ipureintro
      intro j hj
      exact absurd hj (by omega)
    · iintro %acc HI
      iexact HI

end Cert.Proof.KI.Pass2

end
-- ==== Proof.Pass2IM.lean ====
import proofs.«210783_g59777354826199_cont_9to1_m_168_18_alg».proof.Proof.SetupI
import proofs.«210783_g59777354826199_cont_9to1_m_168_18_alg».proof.Proof.Pass2IA
import proofs.«210783_g59777354826199_cont_9to1_m_168_18_alg».proof.Proof.Pass2IB
import proofs.«210783_g59777354826199_cont_9to1_m_168_18_alg».proof.Proof.Pass2IC

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! # The means table copied into its scratch -/

variable (d : Dev nD) (L : grid2.Coords) [∀ e, Nonempty (Elt F e)] [FloatOps F]

/-- The synchronous copy of the means table: its issue and its wait, as the kernel's body spells them. -/
def meansCopy : Prog (TpuEff nD τ sig (Elt F) Λ₀ (.scVector (cV L) (jV L))) PUnit := do
  Prog.lift (.enqueueDma mW (.here mT) (.dma cc2_scoped0.sem) (Memref.isWhole_whole _).wordExact (Memref.isWhole_whole _).wordExact ⟨Or.inl rfl, trivial⟩)
  Prog.lift (.waitDma2 cc2_scoped0.sem mW mT (Memref.isWhole_whole _).wordExact (Memref.isWhole_whole _).wordExact)

/-- After it the scratch holds the means table. -/
theorem means_copy (q : PosShare TreeShare) (mt : Buf (Elt F) ((mW).view.loc (thr d L))) (fmt : Buf (Elt F) ((mT).view.loc (thr d L)))
    (O : CellTallies nD τ sig (HIx 2)) (W : Waits sig (HIx 2)) :
    (iprop(Transfers.MayWaits (thr d L) (none : HIx 2) O ∗ ((mW).view.loc (thr d L) ↦{q} mt) ∗ ((mT).view.loc (thr d L) ↦{fullShare} fmt)
        ∗ semVal ((thr d L, SemLoc.dma cc2_scoped0.sem) : GSem nD τ sig) 0 ∗ owes (thr d L) O W) : sProp 𝕄)
      ⊢ wp frame (wpE (defs₀ (F := F)) 𝒱₀ (thr d L) none) Set.univ (meansCopy (F := F) L)
          fun _ => iprop(((mW).view.loc (thr d L) ↦{q} mt) ∗ ((mT).view.loc (thr d L) ↦{fullShare} (mt : Buf (Elt F) ((mT).view.loc (thr d L))))
            ∗ semVal ((thr d L, SemLoc.dma cc2_scoped0.sem) : GSem nD τ sig) 0 ∗ ∃ W', owes (thr d L) O W') := by
  iintro ⟨Hmw, Hm, Hmt, Hc0, HO⟩
  unfold meansCopy
  sl_exec
  sl_step
  isplitl [Hm]; · iexact Hm
  isplitl [Hmt]
  · rw [View.write_whole_univ] at *
    iexact Hmt
  isplitl [Hc0]; · iexact Hc0
  iexists _; iexact HO

end Cert.Proof.KI.Pass2

end
-- ==== Proof.Pass2VB.lean ====
import proofs.«210783_g59777354826199_cont_9to1_m_168_18_alg».proof.Proof.Pass2VA
import proofs.«210783_g59777354826199_cont_9to1_m_168_18_alg».proof.Proof.Pass2ID
import proofs.«210783_g59777354826199_cont_9to1_m_168_18_alg».proof.Proof.Pass2IU
import proofs.«210783_g59777354826199_cont_9to1_m_168_18_alg».proof.Proof.Pass2IM

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! # The second kernel's body, with what it leaves in the accumulator -/

variable (d : Dev nD) (L : grid2.Coords)

variable [∀ e, Nonempty (Elt F e)] [FloatOps F]

/-- The accumulator zeroed. -/
def zeroA : Buf (Elt F) ((aT).view.loc (thr d L)) := fun _ => (zeroF : F .f32)

/-- A chunk of the targets (of the mask) is held through the whole array. -/
theorem tSl_pts (qs : PosShare TreeShare) (t : Buf (Elt F) ((tW).view.loc (thr d L))) (ot : Fin 1 → ℕ) (ht : ∀ a, ot a + S2048.size a ≤ S2097152.size a) :
    (((tSl ot ht).view.loc (thr d L) ↦{qs} t : sProp 𝕄) = ((tW).view.loc (thr d L) ↦{qs} t)) := rfl
theorem kSl_pts (qs : PosShare TreeShare) (k : Buf (Elt F) ((kW).view.loc (thr d L))) (ot : Fin 1 → ℕ) (ht : ∀ a, ot a + S2048.size a ≤ S2097152.size a) :
    (((kSl ot ht).view.loc (thr d L) ↦{qs} k : sProp 𝕄) = ((kW).view.loc (thr d L) ↦{qs} k)) := rfl

/-- What the final copy leaves in the tile's row of the result: the accumulator after the outer loop's sixteen trips from
    zero, the means scratch holding the means table. -/
def rowV (e : Buf (Elt F) ((eW).view.loc (thr d L))) (t : Buf (Elt F) ((tW).view.loc (thr d L)))
    (k : Buf (Elt F) ((kW).view.loc (thr d L))) (mt : Buf (Elt F) ((mW).view.loc (thr d L)))
    (o : Buf (Elt F) ((oRow L).view.loc (thr d L))) (htr : ∀ j, (t j : BitVec 32).toNat ≤ 63) :
    Buf (Elt F) ((oRow L).view.loc (thr d L)) :=
  (oRow L).view.writes (Elt F) o [⟨Rect.whole S1024, ReadAs.same.apply (View.read (Elt F) (aT).view
    (accO d L e t k htr (mt : Buf (Elt F) ((mT).view.loc (thr d L))) (zeroA d L) k2_t2_loop.trips))⟩]

/-- The body of the second vector-subcore kernel on the tile of grid point L, with its value: every thread of the launch
    terminates holding what it held, the tile's row of the result at what the outer loop's sixteen trips made of the zeroed
    accumulator. -/
theorem bodyV
    (hF : (K (F := F)).Facts) (q : PosShare TreeShare)
    (e : Buf (Elt F) ((eW).view.loc (thr d L))) (t : Buf (Elt F) ((tW).view.loc (thr d L)))
    (k : Buf (Elt F) ((kW).view.loc (thr d L))) (mt : Buf (Elt F) ((mW).view.loc (thr d L)))
    (o : Buf (Elt F) ((oRow L).view.loc (thr d L)))
    (htr : ∀ j, (t j : BitVec 32).toNat ≤ 63)
    (O : CellTallies nD τ sig (HIx 2)) (W : Waits sig (HIx 2)) (hO : ∀ g, O g none = 0) :
    (iprop(levAts (K (F := F)).L (K (F := F)).lev
        ∗ (((eW).view.loc (thr d L) ↦{q} e) ∗ ((tW).view.loc (thr d L) ↦{q} t) ∗ ((kW).view.loc (thr d L) ↦{q} k)
            ∗ ((mW).view.loc (thr d L) ↦{q} mt) ∗ ((oRow L).view.loc (thr d L) ↦[(oRow L).view.set]{fullShare} o))
        ∗ scopedBufs (thr d L) ∗ scopedSems0 (thr d L) ∗ owes (thr d L) O W) : sProp 𝕄)
      ⊢ wp frame (wpE (defs₀ (F := F)) 𝒱₀ (thr d L) none) Set.univ
          (cc2__sc_pass2 L eW (Memref.isWhole_whole _) tW (Memref.isWhole_whole _) kW (Memref.isWhole_whole _)
            mW (Memref.isWhole_whole _) oW (Memref.isWhole_whole _) xB (Memref.isWhole_whole _) tB (Memref.isWhole_whole _)
            mB (Memref.isWhole_whole _) mT (Memref.isWhole_whole _) aT (Memref.isWhole_whole _)
            cc2_scratch5 cc2_scratch6 cc2_scoped0 cc2_scoped1)
          fun _ => iprop((((eW).view.loc (thr d L) ↦{q} e) ∗ ((tW).view.loc (thr d L) ↦{q} t) ∗ ((kW).view.loc (thr d L) ↦{q} k)
            ∗ ((mW).view.loc (thr d L) ↦{q} mt) ∗ ((oRow L).view.loc (thr d L) ↦[(oRow L).view.set]{fullShare} rowV d L e t k mt o htr))
            ∗ scopedBufs (thr d L) ∗ scopedSems0 (thr d L)
            ∗ ∃ W', ⌜∀ p ∈ W', p ∈ W ∨ p.2 = none⌝ ∗ owes (thr d L) O W') := by
  rw [cc2__sc_pass2_eq_skeleton]; unfold cc2__sc_pass2_skel
  rw [(K (F := F)).scopedBufs_V hF d (cV L) (jV L), SparseCore.Cfg.scopedSems0_V (Val := Elt F) d (cV L) (jV L), ownSems0_V, ownBufs_V]
  iintro ⟨#Hlv, ⟨He, Ht, Hk, Hm, Ho⟩, ⟨⟨%fx, Hx⟩, ⟨%ft, Htb⟩, ⟨%fm, Hmb⟩, ⟨%fmt, Hmt⟩, ⟨%fa, Ha⟩, Hbufs⟩, ⟨Hs5, Hs6, Hc0, Hc1, Hsems⟩, HO⟩
  ihave Hmw := ((K (F := F)).mayWaits_none (thr := thr d L) hO) $$ Hlv
  -- the means table into its scratch; the accumulator zeroed
  sl_exec
  ihave Hmt := (Entails.of_eq (show (((mT).view.loc (thr d L) ↦{fullShare} View.write (Elt F) (mT).view fmt _ Finset.univ : sProp 𝕄)
      = ((mT).view.loc (thr d L) ↦{fullShare} (mt : Buf (Elt F) ((mT).view.loc (thr d L))))) from (by rw [View.write_whole_univ]; rfl))) $$ Hmt
  sl_for (invZV (F := F) d L) $$ [Ha]
  case region =>
    intro kk _
    unfold invZV
    iintro ⟨%f, Ha, %hf⟩
    sl_exec
    sl_step
    iexists _
    isplitl [Ha]; · iexact Ha
    ipureintro
    exact zero_step d L f kk hf
  · unfold invZV
    iexists fa
    isplitl [Ha]; · iexact Ha
    ipureintro
    intro j hj
    exact absurd hj (by omega)
  iintro %_ HI
  unfold invZV
  icases HI with ⟨%fa', Ha, %hfa'⟩
  obtain rfl : fa' = zeroA d L := funext fun j => hfa' j (lt_of_lt_of_le (j 0).isLt (Nat.le_refl 1024))
  -- each input's share halved, one half per semaphore; the staging buffers as their rows
  ihave He2 := (pointsTo_share (PosShare.mem_left_op_right q)).1 $$ He
  icases He2 with ⟨He0, He1⟩
  ihave Ht2 := (pointsTo_share (PosShare.mem_left_op_right q)).1 $$ Ht
  icases Ht2 with ⟨Ht0, Ht1⟩
  ihave Hk2 := (pointsTo_share (PosShare.mem_left_op_right q)).1 $$ Hk
  icases Hk2 with ⟨Hk0, Hk1⟩
  ihave Hx' := (Entails.of_eq (xB_rows d L fx)) $$ Hx
  icases Hx' with ⟨⟨Hx0_0, Hx0_1, Hx0_2, Hx0_3, Hx0_4, Hx0_5, Hx0_6, Hx0_7, Hx0_8, Hx0_9, Hx0_10, Hx0_11, Hx0_12, Hx0_13, Hx0_14, Hx0_15⟩, ⟨Hx1_0, Hx1_1, Hx1_2, Hx1_3, Hx1_4, Hx1_5, Hx1_6, Hx1_7, Hx1_8, Hx1_9, Hx1_10, Hx1_11, Hx1_12, Hx1_13, Hx1_14, Hx1_15⟩⟩
  ihave Ht' := (Entails.of_eq (tB_rows d L ft)) $$ Htb
  icases Ht' with ⟨HT0, HT1⟩
  ihave Hm' := (Entails.of_eq (mB_rows d L fm)) $$ Hmb
  icases Hm' with ⟨HM0, HM1⟩
  -- the first chunk's batch on the first semaphore, the second side set aside
  ihave He1 := (Entails.of_eq (Hid_eq _).symm) $$ He1
  ihave Ht1 := (Entails.of_eq (Hid_eq _).symm) $$ Ht1
  ihave Hk1 := (Entails.of_eq (Hid_eq _).symm) $$ Hk1
  ihave Hs6 := (Entails.of_eq (Hid_eq _).symm) $$ Hs6
  imod (Transfers.batch_alloc' (Lvl := ℕ) (countersEmb (U := UU)) (thr d L) (none : HIx 2) NC
    (Dv (F := F) d L 0 q.left e t k (oeP0 L) (heP0 L) (k2_off3 L) (k2_off3_inb L))
    (sm := .dma cc2_scratch5.sem) (E := Set.univ)) $$ [Hs5] with HB0
  · iexact Hs5
  sl_exec
  -- the second chunk's batch on the second semaphore, the first side set aside
  ihave He0 := (Entails.of_eq (Hid_eq _).symm) $$ He0
  ihave He1 := (Entails.of_eq (Hid_eq _)) $$ He1
  ihave Ht1 := (Entails.of_eq (Hid_eq _)) $$ Ht1
  ihave Hk1 := (Entails.of_eq (Hid_eq _)) $$ Hk1
  ihave Hs6 := (Entails.of_eq (Hid_eq _)) $$ Hs6
  imod (Transfers.batch_alloc' (Lvl := ℕ) (countersEmb (U := UU)) (thr d L) (none : HIx 2) NC
    (Dv (F := F) d L 1 q.right e t k (oeP1 L) (heP1 L) (k2_off5 L) (k2_off5_inb L))
    (sm := .dma cc2_scratch6.sem) (E := Set.univ)) $$ [Hs6] with HB1
  · iexact Hs6
  sl_exec
  ihave He1 := (Entails.of_eq (Hid_eq _).symm) $$ He1
  -- the outer loop
  sl_for (invOV (F := F) d L q e t k htr O W (mt : Buf (Elt F) ((mT).view.loc (thr d L))) (zeroA d L)) $$ [Hmw HB0 He0 Ht0 Hk0 HB1 He1 Ht1 Hk1 Hmt Ha HO]
  case region =>
    intro kk acc
    exact outer_tripOV d L q e t k htr O W _ _ _ _ _ _ kk acc
  · unfold invOV
    rw [sideOV_congr d L cc2_scratch5 0 q.left e t k (oeC L (2 * 0)) (oeP0 L) (heC L _) (heP0 L) (otC L (2 * 0)) (k2_off3 L) (htC L _) (k2_off3_inb L)
        (oeP0_eq L).symm (otP0_eq L).symm,
      sideOV_congr d L cc2_scratch6 1 q.right e t k (oeC L (2 * 0 + 1)) (oeP1 L) (heC L _) (heP1 L) (otC L (2 * 0 + 1)) (k2_off5 L) (htC L _) (k2_off5_inb L)
        (oeP1_eq L).symm (otP1_eq L).symm]
    unfold sideOV
    isplitl [Hmw]; · iexact Hmw
    isplitl [HB0 He0 Ht0 Hk0]
    · isplitr; · ipureintro; exact ord2 L
      isplitl [HB0]; · iexact HB0
      isplitl [He0]; · iexact He0
      isplitl [Ht0]; · iexact Ht0
      iexact Hk0
    isplitl [HB1 He1 Ht1 Hk1]
    · isplitr; · ipureintro; exact ord4 L
      isplitl [HB1]; · iexact HB1
      isplitl [He1]; · iexact He1
      isplitl [Ht1]; · iexact Ht1
      iexact Hk1
    isplitl [Hmt]; · iexact Hmt
    isplitl [Ha]; · iexact Ha
    iexists _; isplitr
    rotate_left
    · iexact HO
    · ipureintro
      repeat (refine mem_ins rfl ?_)
      exact fun p hp => .inl hp
  iintro %_ HI
  unfold invOV sideOV
  icases HI with ⟨-, ⟨%ho0, HB0, HeR0, HtR0, HkR0⟩, ⟨%ho1, HB1, HeR1, HtR1, HkR1⟩, Hmt, Ha, %W', %hW', HO⟩
  -- the last two chunks drained; the accumulator copied to the tile's row of the result
  sl_exec
  ihave HeR0 := (Entails.of_eq (Hid_eq _)) $$ HeR0
  ihave He0 := (restE_join d L q.left e (oeC L (2 * k2_t2_loop.trips)) (heC L (2 * k2_t2_loop.trips)) ho0) $$ [HeR0 HB0_src0 HB0_src1 HB0_src2 HB0_src3 HB0_src4 HB0_src5 HB0_src6 HB0_src7 HB0_src8 HB0_src9 HB0_src10 HB0_src11 HB0_src12 HB0_src13 HB0_src14 HB0_src15]
  · isplitl [HeR0]; · iexact HeR0
    isplitl [HB0_src0]; · iexact HB0_src0
    isplitl [HB0_src1]; · iexact HB0_src1
    isplitl [HB0_src2]; · iexact HB0_src2
    isplitl [HB0_src3]; · iexact HB0_src3
    isplitl [HB0_src4]; · iexact HB0_src4
    isplitl [HB0_src5]; · iexact HB0_src5
    isplitl [HB0_src6]; · iexact HB0_src6
    isplitl [HB0_src7]; · iexact HB0_src7
    isplitl [HB0_src8]; · iexact HB0_src8
    isplitl [HB0_src9]; · iexact HB0_src9
    isplitl [HB0_src10]; · iexact HB0_src10
    isplitl [HB0_src11]; · iexact HB0_src11
    isplitl [HB0_src12]; · iexact HB0_src12
    isplitl [HB0_src13]; · iexact HB0_src13
    isplitl [HB0_src14]; · iexact HB0_src14
    iexact HB0_src15
  ihave Ht0 := (Entails.of_eq (tSl_pts d L q.left t (otC L (2 * k2_t2_loop.trips)) (htC L (2 * k2_t2_loop.trips)))) $$ HtR0
  ihave Hk0 := (Entails.of_eq (kSl_pts d L q.left k (otC L (2 * k2_t2_loop.trips)) (htC L (2 * k2_t2_loop.trips)))) $$ HkR0
  ihave HeR1 := (Entails.of_eq (Hid_eq _)) $$ HeR1
  ihave He1 := (restE_join d L q.right e (oeC L (2 * k2_t2_loop.trips + 1)) (heC L (2 * k2_t2_loop.trips + 1)) ho1) $$ [HeR1 HB1_src0 HB1_src1 HB1_src2 HB1_src3 HB1_src4 HB1_src5 HB1_src6 HB1_src7 HB1_src8 HB1_src9 HB1_src10 HB1_src11 HB1_src12 HB1_src13 HB1_src14 HB1_src15]
  · isplitl [HeR1]; · iexact HeR1
    isplitl [HB1_src0]; · iexact HB1_src0
    isplitl [HB1_src1]; · iexact HB1_src1
    isplitl [HB1_src2]; · iexact HB1_src2
    isplitl [HB1_src3]; · iexact HB1_src3
    isplitl [HB1_src4]; · iexact HB1_src4
    isplitl [HB1_src5]; · iexact HB1_src5
    isplitl [HB1_src6]; · iexact HB1_src6
    isplitl [HB1_src7]; · iexact HB1_src7
    isplitl [HB1_src8]; · iexact HB1_src8
    isplitl [HB1_src9]; · iexact HB1_src9
    isplitl [HB1_src10]; · iexact HB1_src10
    isplitl [HB1_src11]; · iexact HB1_src11
    isplitl [HB1_src12]; · iexact HB1_src12
    isplitl [HB1_src13]; · iexact HB1_src13
    isplitl [HB1_src14]; · iexact HB1_src14
    iexact HB1_src15
  ihave Ht1 := (Entails.of_eq (tSl_pts d L q.right t (otC L (2 * k2_t2_loop.trips + 1)) (htC L (2 * k2_t2_loop.trips + 1)))) $$ HtR1
  ihave Hk1 := (Entails.of_eq (kSl_pts d L q.right k (otC L (2 * k2_t2_loop.trips + 1)) (htC L (2 * k2_t2_loop.trips + 1)))) $$ HkR1
  sl_step
  -- the inputs' shares whole again, the tile's row of the result at what the copy left
  isplitl [He0 He1 Ht0 Ht1 Hk0 Hk1 Hm Ho]
  · isplitl [He0 He1]
    · iapply ((pointsTo_share (PosShare.mem_left_op_right q)).2)
      isplitl [He0]; · iexact He0
      iexact He1
    isplitl [Ht0 Ht1]
    · iapply ((pointsTo_share (PosShare.mem_left_op_right q)).2)
      isplitl [Ht0]; · iexact Ht0
      iexact Ht1
    isplitl [Hk0 Hk1]
    · iapply ((pointsTo_share (PosShare.mem_left_op_right q)).2)
      isplitl [Hk0]; · iexact Hk0
      iexact Hk1
    isplitl [Hm]; · iexact Hm
    iexact Ho
  -- the scratch buffers: the staging buffers from their rows
  isplitl [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB0_dst16 HB0_dst17 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15 HB1_dst16 HB1_dst17 Hmt Ha Hbufs]
  · isplitl [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15]
    · iapply (xB_join d L)
      isplitl [HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15]
      · isplitl [HB0_dst0]; · iexists _; iexact HB0_dst0
        isplitl [HB0_dst1]; · iexists _; iexact HB0_dst1
        isplitl [HB0_dst2]; · iexists _; iexact HB0_dst2
        isplitl [HB0_dst3]; · iexists _; iexact HB0_dst3
        isplitl [HB0_dst4]; · iexists _; iexact HB0_dst4
        isplitl [HB0_dst5]; · iexists _; iexact HB0_dst5
        isplitl [HB0_dst6]; · iexists _; iexact HB0_dst6
        isplitl [HB0_dst7]; · iexists _; iexact HB0_dst7
        isplitl [HB0_dst8]; · iexists _; iexact HB0_dst8
        isplitl [HB0_dst9]; · iexists _; iexact HB0_dst9
        isplitl [HB0_dst10]; · iexists _; iexact HB0_dst10
        isplitl [HB0_dst11]; · iexists _; iexact HB0_dst11
        isplitl [HB0_dst12]; · iexists _; iexact HB0_dst12
        isplitl [HB0_dst13]; · iexists _; iexact HB0_dst13
        isplitl [HB0_dst14]; · iexists _; iexact HB0_dst14
        iexists _; iexact HB0_dst15
      · isplitl [HB1_dst0]; · iexists _; iexact HB1_dst0
        isplitl [HB1_dst1]; · iexists _; iexact HB1_dst1
        isplitl [HB1_dst2]; · iexists _; iexact HB1_dst2
        isplitl [HB1_dst3]; · iexists _; iexact HB1_dst3
        isplitl [HB1_dst4]; · iexists _; iexact HB1_dst4
        isplitl [HB1_dst5]; · iexists _; iexact HB1_dst5
        isplitl [HB1_dst6]; · iexists _; iexact HB1_dst6
        isplitl [HB1_dst7]; · iexists _; iexact HB1_dst7
        isplitl [HB1_dst8]; · iexists _; iexact HB1_dst8
        isplitl [HB1_dst9]; · iexists _; iexact HB1_dst9
        isplitl [HB1_dst10]; · iexists _; iexact HB1_dst10
        isplitl [HB1_dst11]; · iexists _; iexact HB1_dst11
        isplitl [HB1_dst12]; · iexists _; iexact HB1_dst12
        isplitl [HB1_dst13]; · iexists _; iexact HB1_dst13
        isplitl [HB1_dst14]; · iexists _; iexact HB1_dst14
        iexists _; iexact HB1_dst15
    isplitl [HB0_dst16 HB1_dst16]
    · iapply (tB_join d L)
      isplitl [HB0_dst16]; · iexists _; iexact HB0_dst16
      iexists _; iexact HB1_dst16
    isplitl [HB0_dst17 HB1_dst17]
    · iapply (mB_join d L)
      isplitl [HB0_dst17]; · iexists _; iexact HB0_dst17
      iexists _; iexact HB1_dst17
    isplitl [Hmt]; · iexists _; iexact Hmt
    isplitl [Ha]; · iexists _; iexact Ha
    iexact Hbufs
  -- the semaphores' counters at zero
  isplitl [HB0 HB1 Hc0 Hc1 Hsems]
  · isplitl [HB0]; · iexact HB0
    isplitl [HB1]; · iexact HB1
    isplitl [Hc0]; · iexact Hc0
    isplitl [Hc1]; · iexact Hc1
    iexact Hsems
  iexists _; isplitr
  rotate_left
  · iexact HO
  · ipureintro
    repeat (refine mem_ins rfl ?_)
    exact hW'

end Cert.Proof.KI.Pass2

end
-- ==== Proof.Pass2VD.lean ====
import proofs.«210783_g59777354826199_cont_9to1_m_168_18_alg».proof.Proof.Pass2VB
import proofs.«210783_g59777354826199_cont_9to1_m_168_18_alg».proof.Proof.ValueSpec

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

local notation "𝕄" => MT nD τ sig (HIx 2) (Elt Ideal) ℕ UU ℕ

/-! # The second kernel's body with its value, from the row's closed form

  The body leaves in the tile's row of the result what the final copy reads off the accumulator; the value claim for the
  body is therefore the pure statement that, on the row, this is the partial terms' closed form. -/

/-- The pure statement: on the tile's row, what the body leaves is the partial terms. -/
def RowSpec : Prop := ∀ (d : Dev nD) (L : grid2.Coords)
    (e : Buf (Elt Ideal) ((eW0).view.loc (thr2 d L))) (t : Buf (Elt Ideal) ((tW0).view.loc (thr2 d L))) (k : Buf (Elt Ideal) ((kW0).view.loc (thr2 d L)))
    (mt : Buf (Elt Ideal) ((mW2).view.loc (thr2 d L))) (o : Buf (Elt Ideal) ((oRow2 L).view.loc (thr2 d L)))
    (htr : ∀ j, (t j : BitVec 32).toNat ≤ 63),
    ∀ i ∈ (oRow2 L).view.set, Pass2.rowV (F := Ideal) d L e t k mt o htr i = termArr e t k mt i

/-- The second kernel's body with its value, given that. -/
theorem body1V_of_rowSpec (H : RowSpec) : Body1V := by
  intro d L q e t k mt o htr O W hO
  refine (Pass2.bodyV (F := Ideal) d L facts q e t k mt o htr O W hO).trans (wp_mono _ _ _ (fun _ => ?_))
  have hc : (((oRow2 L).view.loc (thr2 d L) ↦[(oRow2 L).view.set]{fullShare} Pass2.rowV (F := Ideal) d L e t k mt o htr : sProp 𝕄))
      = ((oRow2 L).view.loc (thr2 d L) ↦[(oRow2 L).view.set]{fullShare} termArr e t k mt) :=
    pointsTo_congr (H d L e t k mt o htr)
  rw [hc]

end Cert.Proof.KI

end
-- ==== Proof.Pass2VE.lean ====
import proofs.«210783_g59777354826199_cont_9to1_m_168_18_alg».proof.Proof.Pass2VC
import proofs.«210783_g59777354826199_cont_9to1_m_168_18_alg».proof.Proof.Pass2VD
import Idealize.ShloMosaic.PureOps.Ideal.Laws

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ

variable (d : Dev nD) (L : grid2.Coords)

/-- The zeroed accumulator reads zero. -/
theorem zeroA_apply (x : S1024.Idx) : asE d L (zeroA (F := Ideal) d L) x = 0 := by
  show (Ideal.ofBits .f32 0x00000000#32 : EReal) = 0
  exact Ideal.ofBits_zero_f32

/-- Element x of the tile's row is element (2·L₁ + L₀, x) of the result. -/
theorem oRow_emb (x : S1024.Idx) (a : Fin 2) :
    (((oRow L).view.emb x) a : ℕ) = (k2_off76 L) a + ((Fin.cons (⟨0, Nat.one_pos⟩ : Fin 1) x : S1x1024.Idx) a : ℕ) := by
  show ((((oW).view.slice (Rect.unit (s := S32x1024) (k2_off76 L) S1x1024.size (k2_off76_inb L))).reshape S1024 squeezes_S1x1024_S1024.numel_eq).emb x a : ℕ) = _
  rw [View.emb_reshape, View.emb_slice]
  show (((Rect.unit (s := S32x1024) (k2_off76 L) S1x1024.size (k2_off76_inb L)).emb (Shape.reshapeEquiv squeezes_S1x1024_S1024.numel_eq x)) a : ℕ) = _
  rw [Rect.emb_apply, Shape.reshapeEquiv_cons_one]
  simp

/-- What the final copy leaves at element x of the tile's row: element x of the accumulator. -/
theorem row_read (o : Buf (Elt Ideal) ((oRow L).view.loc (thr d L))) (A : Buf (Elt Ideal) ((aT).view.loc (thr d L))) (x : S1024.Idx) :
    (((oRow L).view.writes (Elt Ideal) o [⟨Rect.whole S1024, ReadAs.same.apply (View.read (Elt Ideal) (aT).view A)⟩]) ((oRow L).view.emb x) : EReal)
      = asE d L A x := by
  have h := View.read_writes_cons_emb (v := (oRow L).view) (Val := Elt Ideal) (f := o) (Rect.whole S1024)
    (ReadAs.same.apply (View.read (Elt Ideal) (aT).view A)) [] x
  have hx : (Rect.whole S1024).emb x = x := Rect.emb_whole_apply S1024 x
  rw [hx] at h
  exact h

theorem rowV_read (e : Buf (Elt Ideal) ((eW).view.loc (thr d L))) (t : Buf (Elt Ideal) ((tW).view.loc (thr d L)))
    (k : Buf (Elt Ideal) ((kW).view.loc (thr d L))) (mt : Buf (Elt Ideal) ((mW).view.loc (thr d L)))
    (o : Buf (Elt Ideal) ((oRow L).view.loc (thr d L))) (htr : ∀ j, (t j : BitVec 32).toNat ≤ 63) (x : S1024.Idx) :
    (rowV (F := Ideal) d L e t k mt o htr ((oRow L).view.emb x) : EReal)
      = asE d L (accO d L e t k htr (mt : Buf (Elt Ideal) ((mT).view.loc (thr d L))) (zeroA d L) k2_t2_loop.trips) x :=
  row_read d L o _ x

end Cert.Proof.KI.Pass2

end
-- ==== Proof.LibWalk.lean ====
/-
  Sums over the voxels of a tile, grouped as the kernel walks them: sixteen trips of an outer loop, each over two chunks
  of 64 trips of two groups of sixteen lanes, are one sum over the 65536 voxels in order.
-/
import Mathlib.Algebra.BigOperators.Intervals
import Mathlib.Algebra.BigOperators.Fin
import Mathlib.Data.EReal.Basic

namespace Cert.Proof.Lib

open Finset

variable {M : Type*} [AddCommMonoid M]

/-- A sum over pairs (2i, 2i + 1) is the sum over twice as many. -/
theorem sum_range_pairs (f : ℕ → M) : ∀ n : ℕ, ∑ i ∈ range n, (f (2 * i) + f (2 * i + 1)) = ∑ j ∈ range (2 * n), f j
  | 0 => by simp
  | n + 1 => by
      rw [sum_range_succ, sum_range_pairs f n, show 2 * (n + 1) = 2 * n + 1 + 1 by ring, sum_range_succ, sum_range_succ, add_assoc]

/-- A sum over n blocks of K is the sum over n·K. -/
theorem sum_range_blocks (K : ℕ) (f : ℕ → M) : ∀ n : ℕ, ∑ m ∈ range n, ∑ i ∈ range K, f (K * m + i) = ∑ j ∈ range (K * n), f j
  | 0 => by simp
  | n + 1 => by
      rw [sum_range_succ, sum_range_blocks K f n, show K * (n + 1) = K * n + K by ring, sum_range_add]

/-- The kernel's walk: sixteen outer trips, each over chunk 2m (64 trips of the groups 2i, 2i + 1) then chunk 2m + 1
    likewise, each group sixteen lanes; H u is what voxel u contributes. -/
theorem sum_walk (H : ℕ → M) :
    ∑ m ∈ range 16,
        ((∑ i ∈ range 64, ((∑ l ∈ range 16, H (2048 * (2 * m) + 32 * i + l)) + ∑ l ∈ range 16, H (2048 * (2 * m) + 32 * i + 16 + l)))
        + ∑ i ∈ range 64, ((∑ l ∈ range 16, H (2048 * (2 * m + 1) + 32 * i + l)) + ∑ l ∈ range 16, H (2048 * (2 * m + 1) + 32 * i + 16 + l)))
      = ∑ u ∈ range 65536, H u := by
  -- a group's sixteen lanes, by group number g within the tile
  let G : ℕ → M := fun g => ∑ l ∈ range 16, H (16 * g + l)
  have hG0 : ∀ c i, (∑ l ∈ range 16, H (2048 * c + 32 * i + l)) = G (128 * c + (2 * i)) := by
    intro c i; refine sum_congr rfl fun l _ => ?_; congr 1; ring
  have hG1 : ∀ c i, (∑ l ∈ range 16, H (2048 * c + 32 * i + 16 + l)) = G (128 * c + (2 * i + 1)) := by
    intro c i; refine sum_congr rfl fun l _ => ?_; congr 1; ring
  simp only [hG0, hG1]
  -- a chunk's 64 trips of two groups are its 128 groups
  let C : ℕ → M := fun c => ∑ j ∈ range 128, G (128 * c + j)
  have hC : ∀ c, (∑ i ∈ range 64, (G (128 * c + 2 * i) + G (128 * c + (2 * i + 1)))) = C c := by
    intro c; exact sum_range_pairs (fun j => G (128 * c + j)) 64
  simp only [hC]
  rw [sum_range_pairs C 16, sum_range_blocks 128 G 32, sum_range_blocks 16 H 4096]

end Cert.Proof.Lib
-- ==== Proof.Pass2VG.lean ====
import proofs.«210783_g59777354826199_cont_9to1_m_168_18_alg».proof.Proof.Pass2VE
import proofs.«210783_g59777354826199_cont_9to1_m_168_18_alg».proof.Proof.LibWalk

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ

/-! # The row's closed form, from the per-group statement

  Voxel u of the tile (an offset into its range of 65536) has the accumulator index 16·segment + lane and contributes there
  the squared sum over the sixteen components of |embedding − means|. Given that each trip of an accumulation loop adds
  what its 32 voxels contribute (the per-group statement), the sixteen outer trips add the sum over all 65536 voxels in
  order, which regrouped by index is the partial terms' closed form. -/

variable (d : Dev nD) (L : grid2.Coords)

/-- The tile's first voxel. -/
def baseV : ℕ := 131072 * (L 1).val + 65536 * (L 0).val

theorem baseV_le : baseV L ≤ 2031616 := by
  have h1 : (L 1).val < 16 := (L 1).isLt
  have h0 : (L 0).val < 2 := (L 0).isLt
  unfold baseV; omega

section closed
variable (e : S33554432.Idx → EReal) (t k : S2097152.Idx → BitVec 32) (mt : S16384.Idx → EReal)

/-- The embedding and the means table read at a flat position (zero off the array). -/
def eAt (v : ℕ) : EReal := if h : v < 33554432 then e (flatIx v h) else 0
def mAt (v : ℕ) : EReal := if h : v < 16384 then mt (flatIx v h) else 0
/-- Voxel u's index in the accumulator: sixteen times its segment plus its lane. -/
def idxU (u : ℕ) : ℕ := if h : baseV L + u < 2097152 then 16 * segV t k (baseV L + u) h + (baseV L + u) % 16 else 0
/-- Voxel u's contribution. -/
def payU (u : ℕ) : EReal :=
  sq (∑ c : Fin 16, eabs (eAt e (c.val * 2097152 + baseV L + u) - mAt mt (c.val * 1024 + idxU L t k u)))
/-- Voxel u's contribution at accumulator element x0. -/
def HU (x0 u : ℕ) : EReal := if idxU L t k u = x0 then payU L e t k mt u else 0

theorem flatIx_congr {N : ℕ} {n n' : ℕ} (h : n < N) (h' : n' < N) (hn : n = n') : flatIx n h = flatIx n' h' := by
  subst hn; rfl
theorem segV_congr {v v' : ℕ} (hv : v < 2097152) (hv' : v' < 2097152) (h : v = v') : segV t k v hv = segV t k v' hv' := by
  subst h; rfl

/-- Voxel u's index is x0 exactly when its lane and its segment are x0's. -/
theorem idxU_iff (w x0 : ℕ) (hb : baseV L = w * 65536) (u : Fin 65536) (hw : w * 65536 + u.val < 2097152) :
    idxU L t k u.val = x0 ↔ ((w * 65536 + u.val) % 16 = x0 % 16 ∧ segV t k (w * 65536 + u.val) hw = x0 / 16) := by
  have hlt : baseV L + u.val < 2097152 := by omega
  unfold idxU
  rw [dif_pos hlt, segV_congr t k hlt hw (show baseV L + u.val = w * 65536 + u.val by omega)]
  constructor
  · intro h; constructor <;> omega
  · rintro ⟨ha, hs⟩; omega

/-- All the tile's voxels' contributions at element x0, regrouped: the partial terms' closed form at (tile, x0). -/
theorem HU_sum (i : S32x1024.Idx) (hi0 : (i 0).val = 2 * (L 1).val + (L 0).val) :
    ∑ u ∈ Finset.range 65536, HU L e t k mt (i 1).val u = termArr e t k mt i := by
  have hb : baseV L = (i 0).val * 65536 := by unfold baseV; rw [hi0]; ring
  have hbl := baseV_le L
  have h1 : (i 1).val < 1024 := (i 1).isLt
  have hiff : ∀ u : Fin 65536, idxU L t k u.val = (i 1).val ↔ u ∈ cell t k ⟨(i 0).val, (i 0).isLt⟩ ((i 1).val / 16) ((i 1).val % 16) := by
    intro u
    have hu := u.isLt
    unfold cell
    simp only [Finset.mem_filter, Finset.mem_univ, true_and]
    exact idxU_iff L t k (i 0).val (i 1).val hb u (by omega)
  unfold termArr
  rw [Finset.sum_range]
  unfold HU
  rw [← Finset.sum_filter]
  refine Finset.sum_congr ?_ ?_
  · ext u
    rw [Finset.mem_filter]
    exact ⟨fun h => (hiff u).mp h.2, fun h => ⟨Finset.mem_univ _, (hiff u).mpr h⟩⟩
  · intro u hu
    have hu' := u.isLt
    have hid : idxU L t k u.val = (i 1).val := (hiff u).mpr hu
    unfold payU
    rw [hid]
    refine congrArg sq (Finset.sum_congr rfl fun c _ => ?_)
    have hc := c.isLt
    unfold eAt mAt
    rw [dif_pos (show c.val * 2097152 + baseV L + u.val < 33554432 by omega), dif_pos (show c.val * 1024 + (i 1).val < 16384 by omega)]
    rw [flatIx_congr (N := 33554432) (show c.val * 2097152 + baseV L + u.val < 33554432 by omega) (by omega)
      (show c.val * 2097152 + baseV L + u.val = c.val * 2097152 + (i 0).val * 65536 + u.val by omega)]

end closed

/-- THE PER-GROUP STATEMENT for slot 0: with chunk c landed in the slot, what trip kk adds at element x is what the
    trip's 32 voxels (two groups of sixteen) contribute there. -/
def LaneSpec3 : Prop := ∀ (d : Dev nD) (L : grid2.Coords)
    (e : Buf (Elt Ideal) ((eW).view.loc (thr d L))) (t : Buf (Elt Ideal) ((tW).view.loc (thr d L))) (k : Buf (Elt Ideal) ((kW).view.loc (thr d L)))
    (htr : ∀ j, (t j : BitVec 32).toNat ≤ 63) (mt : Buf (Elt Ideal) ((mT).view.loc (thr d L)))
    (c : ℕ) (_ : c ≤ 31) (kk : Fin k2_t3_loop.trips) (x : S1024.Idx),
    D3 d L (rowsX3 d L e (oeC L c) (heC L c)) (rowT3 d L t (otC L c) (htC L c)) (rowM3 d L k (otC L c) (htC L c)) mt
        (clampT_le d L 0 _ (landed_le d L 0 t htr (otC L c) (htC L c))) kk x
      = (∑ l ∈ Finset.range 16, HU L e t k mt (x 0).val (2048 * c + 32 * kk.val + l))
        + ∑ l ∈ Finset.range 16, HU L e t k mt (x 0).val (2048 * c + 32 * kk.val + 16 + l)

/-- THE PER-GROUP STATEMENT for slot 1: with chunk c landed in the slot, what trip kk adds at element x is what the
    trip's 32 voxels (two groups of sixteen) contribute there. -/
def LaneSpec4 : Prop := ∀ (d : Dev nD) (L : grid2.Coords)
    (e : Buf (Elt Ideal) ((eW).view.loc (thr d L))) (t : Buf (Elt Ideal) ((tW).view.loc (thr d L))) (k : Buf (Elt Ideal) ((kW).view.loc (thr d L)))
    (htr : ∀ j, (t j : BitVec 32).toNat ≤ 63) (mt : Buf (Elt Ideal) ((mT).view.loc (thr d L)))
    (c : ℕ) (_ : c ≤ 31) (kk : Fin k2_t4_loop.trips) (x : S1024.Idx),
    D4 d L (rowsX4 d L e (oeC L c) (heC L c)) (rowT4 d L t (otC L c) (htC L c)) (rowM4 d L k (otC L c) (htC L c)) mt
        (clampT_le d L 1 _ (landed_le d L 1 t htr (otC L c) (htC L c))) kk x
      = (∑ l ∈ Finset.range 16, HU L e t k mt (x 0).val (2048 * c + 32 * kk.val + l))
        + ∑ l ∈ Finset.range 16, HU L e t k mt (x 0).val (2048 * c + 32 * kk.val + 16 + l)

/-- The sixteen outer trips add, at element x, all the tile's voxels' contributions there. -/
theorem sum_DO (h3 : LaneSpec3) (h4 : LaneSpec4)
    (e : Buf (Elt Ideal) ((eW).view.loc (thr d L))) (t : Buf (Elt Ideal) ((tW).view.loc (thr d L))) (k : Buf (Elt Ideal) ((kW).view.loc (thr d L)))
    (htr : ∀ j, (t j : BitVec 32).toNat ≤ 63) (mt : Buf (Elt Ideal) ((mT).view.loc (thr d L))) (x : S1024.Idx) :
    ∑ m ∈ Finset.range 16, DO d L e t k htr mt m x = ∑ u ∈ Finset.range 65536, HU L e t k mt (x 0).val u := by
  have key : ∀ m ∈ Finset.range 16, DO d L e t k htr mt m x
      = (∑ i ∈ Finset.range 64, ((∑ l ∈ Finset.range 16, HU L e t k mt (x 0).val (2048 * (2 * m) + 32 * i + l))
            + ∑ l ∈ Finset.range 16, HU L e t k mt (x 0).val (2048 * (2 * m) + 32 * i + 16 + l)))
        + ∑ i ∈ Finset.range 64, ((∑ l ∈ Finset.range 16, HU L e t k mt (x 0).val (2048 * (2 * m + 1) + 32 * i + l))
            + ∑ l ∈ Finset.range 16, HU L e t k mt (x 0).val (2048 * (2 * m + 1) + 32 * i + 16 + l)) := by
    intro m hm
    have hm' : m < 16 := Finset.mem_range.mp hm
    unfold DO
    refine congrArg₂ (· + ·) ?_ ?_
    · refine Finset.sum_congr rfl fun i hi => ?_
      have hi' : i < k2_t3_loop.trips := Finset.mem_range.mp hi
      rw [dif_pos hi']
      exact h3 d L e t k htr mt (2 * m) (by omega) ⟨i, hi'⟩ x
    · refine Finset.sum_congr rfl fun i hi => ?_
      have hi' : i < k2_t4_loop.trips := Finset.mem_range.mp hi
      rw [dif_pos hi']
      exact h4 d L e t k htr mt (2 * m + 1) (by omega) ⟨i, hi'⟩ x
  exact (Finset.sum_congr rfl key).trans (Lib.sum_walk (HU L e t k mt (x 0).val))

/-- The row's closed form, given the per-group statements. -/
theorem rowSpec_of_lane (h3 : LaneSpec3) (h4 : LaneSpec4) : RowSpec := by
  intro d L e t k mt o htr i hi
  obtain ⟨x, -, rfl⟩ := Finset.mem_map.mp hi
  have e0 : (((oRow L).view.emb x) 0).val = 2 * (L 1).val + (L 0).val := by
    rw [oRow_emb L x 0, k2_off76_eq]; rfl
  have e1 : (((oRow L).view.emb x) 1).val = (x 0).val := by
    rw [oRow_emb L x 1, k2_off76_eq]
    show 0 + (x 0).val = (x 0).val
    exact Nat.zero_add _
  have hA := accO_add d L e t k htr (mt : Buf (Elt Ideal) ((mT).view.loc (thr d L))) (zeroA d L) x k2_t2_loop.trips
  rw [zeroA_apply, zero_add] at hA
  have hS := sum_DO d L h3 h4 e t k htr (mt : Buf (Elt Ideal) ((mT).view.loc (thr d L))) x
  have hT := HU_sum L e t k mt ((oRow L).view.emb x) e0
  rw [e1] at hT
  exact (rowV_read d L e t k mt o htr x).trans (hA.trans (hS.trans hT))

/-- THE SECOND KERNEL'S BODY WITH ITS VALUE, given the per-group statements. -/
theorem body1V_of_lane (h3 : LaneSpec3) (h4 : LaneSpec4) : Body1V := body1V_of_rowSpec (rowSpec_of_lane h3 h4)

end Cert.Proof.KI.Pass2

end
-- ==== Proof.Pass2VI.lean ====
import proofs.«210783_g59777354826199_cont_9to1_m_168_18_alg».proof.Proof.Pass2VG

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ

/-! # What a trip's loads read: the landed rows at the chunk's words -/

variable (d : Dev nD) (L : grid2.Coords)

/-- Element (b, z) of a two-row staging buffer. -/
def ix2r (b : Fin 2) (z : ℕ) (hz : z < 2048) : S2x2048.Idx := fun a => match a with | ⟨0, _⟩ => ⟨b.val, b.isLt⟩ | ⟨1, _⟩ => ⟨z, hz⟩

/-- Word y of row b of the targets' (the mask's) staging buffer is its element (b, y). -/
theorem tWin_emb (b : Fin 2) (y : S2048.Idx) : (tWin b).view.emb y = ix2r b (y 0).val (y 0).isLt := by
  funext a
  apply Fin.ext
  have h : (((tWin b).view.emb y) a : ℕ) = (![b.val, 0] : Fin 2 → ℕ) a + ((Fin.cons (⟨0, Nat.one_pos⟩ : Fin 1) y : S1x2048.Idx) a : ℕ) := by
    show ((((tB).view.slice (Rect.unit (s := S2x2048) ![b.val, 0] S1x2048.size (inb_t b))).reshape S2048 squeezes_S1x2048_S2048.numel_eq).emb y a : ℕ) = _
    rw [View.emb_reshape, View.emb_slice]
    show (((Rect.unit (s := S2x2048) ![b.val, 0] S1x2048.size (inb_t b)).emb (Shape.reshapeEquiv squeezes_S1x2048_S2048.numel_eq y)) a : ℕ) = _
    rw [Rect.emb_apply, Shape.reshapeEquiv_cons_one]
    simp
  rw [h]
  match a with
  | ⟨0, _⟩ => rfl
  | ⟨1, _⟩ => show 0 + (y 0).val = (y 0).val; exact Nat.zero_add _

theorem mWin_emb (b : Fin 2) (y : S2048.Idx) : (mWin b).view.emb y = ix2r b (y 0).val (y 0).isLt := by
  funext a
  apply Fin.ext
  have h : (((mWin b).view.emb y) a : ℕ) = (![b.val, 0] : Fin 2 → ℕ) a + ((Fin.cons (⟨0, Nat.one_pos⟩ : Fin 1) y : S1x2048.Idx) a : ℕ) := by
    show ((((mB).view.slice (Rect.unit (s := S2x2048) ![b.val, 0] S1x2048.size (inb_t b))).reshape S2048 squeezes_S1x2048_S2048.numel_eq).emb y a : ℕ) = _
    rw [View.emb_reshape, View.emb_slice]
    show (((Rect.unit (s := S2x2048) ![b.val, 0] S1x2048.size (inb_t b)).emb (Shape.reshapeEquiv squeezes_S1x2048_S2048.numel_eq y)) a : ℕ) = _
    rw [Rect.emb_apply, Shape.reshapeEquiv_cons_one]
    simp
  rw [h]
  match a with
  | ⟨0, _⟩ => rfl
  | ⟨1, _⟩ => show 0 + (y 0).val = (y 0).val; exact Nat.zero_add _

/-- Word y of a chunk of the targets (the mask) at the offset ot is the array's element ot + y. -/
theorem tSl_emb (ot : Fin 1 → ℕ) (ht : ∀ a, ot a + S2048.size a ≤ S2097152.size a) (y : S2048.Idx) :
    (tSl ot ht).view.emb y = flatIx (ot 0 + (y 0).val) (by have h1 : ot 0 + 2048 ≤ 2097152 := ht 0; have h2 : (y 0).val < 2048 := (y 0).isLt; omega) := by
  funext a
  match a with
  | ⟨0, _⟩ => exact Fin.ext (show ot 0 + 1 * (y 0).val = ot 0 + (y 0).val by omega)
theorem kSl_emb (ot : Fin 1 → ℕ) (ht : ∀ a, ot a + S2048.size a ≤ S2097152.size a) (y : S2048.Idx) :
    (kSl ot ht).view.emb y = flatIx (ot 0 + (y 0).val) (by have h1 : ot 0 + 2048 ≤ 2097152 := ht 0; have h2 : (y 0).val < 2048 := (y 0).isLt; omega) := by
  funext a
  match a with
  | ⟨0, _⟩ => exact Fin.ext (show ot 0 + 1 * (y 0).val = ot 0 + (y 0).val by omega)

set_option maxHeartbeats 2000000 in
/-- A landed row of the targets holds the chunk's words. -/
theorem landedT_emb (b : Fin 2) (t : Buf (Elt Ideal) ((tW).view.loc (thr d L)))
    (ot : Fin 1 → ℕ) (ht : ∀ a, ot a + S2048.size a ≤ S2097152.size a) (y : S2048.Idx) :
    (landed d L (tWin b) (tSl ot ht) t ((tWin b).view.emb y) : BitVec 32) = (t ((tSl ot ht).view.emb y) : BitVec 32) := by
  have h := View.read_writes_cons_emb (v := (tWin b).view) (Val := Elt Ideal) (f := (tWin b).view.junk) (Rect.whole S2048)
    (ReadAs.same.apply ((tSl ot ht).view.read (Elt Ideal) t)) [] y
  rw [Rect.emb_whole_apply] at h
  have h1 : (landed d L (tWin b) (tSl ot ht) t ((tWin b).view.emb y) : BitVec 32)
      = (tWin b).view.read (Elt Ideal) (landed d L (tWin b) (tSl ot ht) t) y := (cast_eq _ _).symm
  have h2 : ((tSl ot ht).view.read (Elt Ideal) t y : BitVec 32) = (t ((tSl ot ht).view.emb y) : BitVec 32) := cast_eq _ _
  rw [h1, h, ReadAs.apply_same, h2]

set_option maxHeartbeats 2000000 in
/-- A landed row of the mask holds the chunk's words. -/
theorem landedM_emb (b : Fin 2) (k : Buf (Elt Ideal) ((kW).view.loc (thr d L)))
    (ot : Fin 1 → ℕ) (ht : ∀ a, ot a + S2048.size a ≤ S2097152.size a) (y : S2048.Idx) :
    (landed d L (mWin b) (kSl ot ht) k ((mWin b).view.emb y) : BitVec 32) = (k ((kSl ot ht).view.emb y) : BitVec 32) := by
  have h := View.read_writes_cons_emb (v := (mWin b).view) (Val := Elt Ideal) (f := (mWin b).view.junk) (Rect.whole S2048)
    (ReadAs.same.apply ((kSl ot ht).view.read (Elt Ideal) k)) [] y
  rw [Rect.emb_whole_apply] at h
  have h1 : (landed d L (mWin b) (kSl ot ht) k ((mWin b).view.emb y) : BitVec 32)
      = (mWin b).view.read (Elt Ideal) (landed d L (mWin b) (kSl ot ht) k) y := (cast_eq _ _).symm
  have h2 : ((kSl ot ht).view.read (Elt Ideal) k y : BitVec 32) = (k ((kSl ot ht).view.emb y) : BitVec 32) := cast_eq _ _
  rw [h1, h, ReadAs.apply_same, h2]

/-- The mask test: the comparison's bit is set exactly when the word is positive. -/
theorem sgt_zero_iff (v : BitVec 32) : (IntOp.cmpi .sgt v 0#32 = (1 : BitVec 1)) ↔ 0 < v.toInt := by
  show (BitVec.ofBool ((0#32).slt v) = (1 : BitVec 1)) ↔ 0 < v.toInt
  rw [BitVec.slt]
  by_cases h : (0#32).toInt < v.toInt
  · have h' : 0 < v.toInt := by simpa using h
    simp [h, h']
  · have h' : ¬ 0 < v.toInt := by simpa using h
    simp [h, h']

/-- A group's index vector at lane x: sixteen times the segment (the target where the mask is positive, else zero) plus
    the lane. -/
theorem segIdx_lane (lm lt : S1x16.Idx → BitVec 32) (hm hl : S1x16.ShapeCasts S16) (ht : ∀ y, (lt y).toNat ≤ 63) (x : S16.Idx) :
    (segIdx lm lt hm hl x).toNat
      = 16 * (if 0 < (lm (Shape.reshapeEquiv hm x)).toInt then (lt (Shape.reshapeEquiv hl x)).toNat else 0) + (x 0).val := by
  have hx : (x 0).val < 16 := (x 0).isLt
  have hi : (iotaV x).toNat = (x 0).val := by
    show (BitVec.ofNat 32 (0 * 16 + (x 0).val)).toNat = (x 0).val
    rw [BitVec.toNat_ofNat]; omega
  have hy := ht (Shape.reshapeEquiv hl x)
  show (IntOp.addi (IntOp.muli (Scalar.select (IntOp.cmpi .sgt (lm (Shape.reshapeEquiv hm x)) 0#32) (lt (Shape.reshapeEquiv hl x)) 0#32) 16#32) (iotaV x)).toNat = _
  unfold Scalar.select IntOp.addi IntOp.muli
  by_cases hc : 0 < (lm (Shape.reshapeEquiv hm x)).toInt
  · rw [if_pos ((sgt_zero_iff _).mpr hc), if_pos hc, BitVec.toNat_add, BitVec.toNat_mul, hi]
    show ((lt (Shape.reshapeEquiv hl x)).toNat * 16 % 2 ^ 32 + (x 0).val) % 2 ^ 32 = _
    omega
  · rw [if_neg (fun h => hc ((sgt_zero_iff _).mp h)), if_neg hc, BitVec.toNat_add, BitVec.toNat_mul, hi]
    show (0 * 16 % 2 ^ 32 + (x 0).val) % 2 ^ 32 = _
    omega

/-- A load through the whole staging buffer at a rectangle reads the buffer's elements under the rectangle. -/
theorem readAtT (g : Buf (Elt Ideal) ((tB).view.loc (thr d L))) (r : Rect S2x2048) (y : r.shape.Idx) :
    (View.readAt (Elt Ideal) (tB).view r.toLoadRect g y : BitVec 32) = g (r.emb y) := by
  first | rfl | exact cast_eq rfl _
theorem readAtM (g : Buf (Elt Ideal) ((mB).view.loc (thr d L))) (r : Rect S2x2048) (y : r.shape.Idx) :
    (View.readAt (Elt Ideal) (mB).view r.toLoadRect g y : BitVec 32) = g (r.emb y) := by
  first | rfl | exact cast_eq rfl _

/-- A trip's load of sixteen targets at (b, o₁ …) of the staging buffer, the slot's row holding the chunk at the offset
    ot: lane x reads the array's word ot + o₁ + x. -/
theorem readT_lane (b : Fin 2) (t : Buf (Elt Ideal) ((tW).view.loc (thr d L)))
    (ot : Fin 1 → ℕ) (ht : ∀ a, ot a + S2048.size a ≤ S2097152.size a)
    (off : Fin 2 → ℕ) (inb : ∀ a, off a + S1x16.size a ≤ S2x2048.size a) (h0 : off 0 = b.val) (x : S16.Idx) :
    (View.readAt (Elt Ideal) (tB).view (Rect.unit (s := S2x2048) off S1x16.size inb).toLoadRect
        (clampT d L b (landed d L (tWin b) (tSl ot ht) t)) (Shape.reshapeEquiv shapeCasts_S1x16_S16 x) : BitVec 32)
      = t (flatIx (ot 0 + (off 1 + (x 0).val)) (by
          have h1 : ot 0 + 2048 ≤ 2097152 := ht 0; have h2 : off 1 + 16 ≤ 2048 := inb 1; have h3 : (x 0).val < 16 := (x 0).isLt; omega)) := by
  have h2 : off 1 + 16 ≤ 2048 := inb 1
  have h3 : (x 0).val < 16 := (x 0).isLt
  have hz : off 1 + (x 0).val < 2048 := by omega
  have hidx : (Rect.unit (s := S2x2048) off S1x16.size inb).emb (Shape.reshapeEquiv shapeCasts_S1x16_S16 x)
      = (tWin b).view.emb (flatIx (off 1 + (x 0).val) hz) := by
    rw [tWin_emb, Shape.reshapeEquiv_cons_one]
    funext a
    apply Fin.ext
    rw [Rect.emb_apply]
    match a with
    | ⟨0, _⟩ => show off 0 + 1 * 0 = b.val; omega
    | ⟨1, _⟩ => show off 1 + 1 * (x 0).val = off 1 + (x 0).val; omega
  rw [readAtT d L, hidx]
  unfold clampT
  rw [Finset.piecewise_eq_of_mem _ _ _ ((tWin b).view.emb_mem_set _), landedT_emb, tSl_emb]
  rfl

/-- and of sixteen words of the mask likewise. -/
theorem readM_lane (b : Fin 2) (k : Buf (Elt Ideal) ((kW).view.loc (thr d L)))
    (ot : Fin 1 → ℕ) (ht : ∀ a, ot a + S2048.size a ≤ S2097152.size a)
    (off : Fin 2 → ℕ) (inb : ∀ a, off a + S1x16.size a ≤ S2x2048.size a) (h0 : off 0 = b.val) (x : S16.Idx) :
    (View.readAt (Elt Ideal) (mB).view (Rect.unit (s := S2x2048) off S1x16.size inb).toLoadRect
        (landed d L (mWin b) (kSl ot ht) k) (Shape.reshapeEquiv shapeCasts_S1x16_S16 x) : BitVec 32)
      = k (flatIx (ot 0 + (off 1 + (x 0).val)) (by
          have h1 : ot 0 + 2048 ≤ 2097152 := ht 0; have h2 : off 1 + 16 ≤ 2048 := inb 1; have h3 : (x 0).val < 16 := (x 0).isLt; omega)) := by
  have h2 : off 1 + 16 ≤ 2048 := inb 1
  have h3 : (x 0).val < 16 := (x 0).isLt
  have hz : off 1 + (x 0).val < 2048 := by omega
  have hidx : (Rect.unit (s := S2x2048) off S1x16.size inb).emb (Shape.reshapeEquiv shapeCasts_S1x16_S16 x)
      = (mWin b).view.emb (flatIx (off 1 + (x 0).val) hz) := by
    rw [mWin_emb, Shape.reshapeEquiv_cons_one]
    funext a
    apply Fin.ext
    rw [Rect.emb_apply]
    match a with
    | ⟨0, _⟩ => show off 0 + 1 * 0 = b.val; omega
    | ⟨1, _⟩ => show off 1 + 1 * (x 0).val = off 1 + (x 0).val; omega
  rw [readAtM d L, hidx, landedM_emb, kSl_emb]
  rfl

/-- THE INDEX VECTOR OF A GROUP, in closed form: slot b holding chunk c, the group loaded at (b, o₁ …) of the staging
    buffers (o₁ a multiple of sixteen), lane l of the group's index vector is the accumulator index of the tile's voxel
    2048·c + o₁ + l. -/
theorem groupIdx (b : Fin 2) (t : Buf (Elt Ideal) ((tW).view.loc (thr d L))) (k : Buf (Elt Ideal) ((kW).view.loc (thr d L)))
    (htr : ∀ j, (t j : BitVec 32).toNat ≤ 63) (c : ℕ) (hc : c ≤ 31)
    (off : Fin 2 → ℕ) (inb : ∀ a, off a + S1x16.size a ≤ S2x2048.size a) (h0 : off 0 = b.val) (h16 : off 1 % 16 = 0) (l : Fin 16) :
    (segIdx (View.readAt (Elt Ideal) (mB).view (Rect.unit (s := S2x2048) off S1x16.size inb).toLoadRect (landed d L (mWin b) (kSl (otC L c) (htC L c)) k))
        (View.readAt (Elt Ideal) (tB).view (Rect.unit (s := S2x2048) off S1x16.size inb).toLoadRect (clampT d L b (landed d L (tWin b) (tSl (otC L c) (htC L c)) t)))
        shapeCasts_S1x16_S16 shapeCasts_S1x16_S16 (Shape.ofLane (d := ![16]) l)).toNat
      = idxU L t k (2048 * c + off 1 + l.val) := by
  have h2 : off 1 + 16 ≤ 2048 := inb 1
  have hl := l.isLt
  have hbl := baseV_le L
  have hmin : min c 31 = c := Nat.min_eq_left hc
  have hot : (otC L c) 0 = baseV L + 2048 * c := by
    show 131072 * (L 1).val + 65536 * (L 0).val + 2048 * min c 31 = baseV L + 2048 * c
    rw [hmin]; rfl
  have hlt : baseV L + (2048 * c + off 1 + l.val) < 2097152 := by omega
  have hs := segIdx_lane
    (View.readAt (Elt Ideal) (mB).view (Rect.unit (s := S2x2048) off S1x16.size inb).toLoadRect (landed d L (mWin b) (kSl (otC L c) (htC L c)) k))
    (View.readAt (Elt Ideal) (tB).view (Rect.unit (s := S2x2048) off S1x16.size inb).toLoadRect (clampT d L b (landed d L (tWin b) (tSl (otC L c) (htC L c)) t)))
    shapeCasts_S1x16_S16 shapeCasts_S1x16_S16
    (fun _ => clampT_le d L b _ (landed_le d L b t htr (otC L c) (htC L c)) _) (Shape.ofLane (d := ![16]) l)
  rw [hs, readM_lane d L b k (otC L c) (htC L c) off inb h0, readT_lane d L b t (otC L c) (htC L c) off inb h0]
  unfold idxU
  rw [dif_pos hlt]
  unfold segV
  have hl0 : ((Shape.ofLane (d := ![16]) l : S16.Idx) 0).val = l.val := rfl
  have hn : (otC L c) 0 + (off 1 + ((Shape.ofLane (d := ![16]) l : S16.Idx) 0).val) = baseV L + (2048 * c + off 1 + l.val) := by
    rw [hl0]; omega
  rw [flatIx_congr (N := 2097152) _ hlt hn]
  have hmod : (baseV L + (2048 * c + off 1 + l.val)) % 16 = l.val := by unfold baseV; omega
  rw [hmod, hl0]

end Cert.Proof.KI.Pass2

end
-- ==== Proof.Pass2VK.lean ====
import proofs.«210783_g59777354826199_cont_9to1_m_168_18_alg».proof.Proof.Pass2VI
import Idealize.ShloMosaic.Lib.QrPanel.StackBlock

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ

/-! # What a trip's loads read: the embedding's landed rows, the means gathered; a leaf of the payload -/

variable (d : Dev nD) (L : grid2.Coords)

/-- Element (b, c, z) of the embedding's staging buffer. -/
def ix3r (b : Fin 2) (c : Fin 16) (z : ℕ) (hz : z < 2048) : S2x16x2048.Idx :=
  fun a => match a with | ⟨0, _⟩ => ⟨b.val, b.isLt⟩ | ⟨1, _⟩ => ⟨c.val, c.isLt⟩ | ⟨2, _⟩ => ⟨z, hz⟩

/-- Word y of row (b, c) of the embedding's staging buffer is its element (b, c, y). -/
theorem xWin_emb (b : Fin 2) (c : Fin 16) (y : S2048.Idx) : (xWin b c).view.emb y = ix3r b c (y 0).val (y 0).isLt := by
  funext a
  apply Fin.ext
  have h : (((xWin b c).view.emb y) a : ℕ) = (![b.val, c.val, 0] : Fin 3 → ℕ) a
      + ((Fin.cons (⟨0, Nat.one_pos⟩ : Fin 1) (Fin.cons (⟨0, Nat.one_pos⟩ : Fin 1) y) : S1x1x2048.Idx) a : ℕ) := by
    show ((((xB).view.slice (Rect.unit (s := S2x16x2048) ![b.val, c.val, 0] S1x1x2048.size (inb_x b c))).reshape S2048 squeezes_S1x1x2048_S2048.numel_eq).emb y a : ℕ) = _
    rw [View.emb_reshape, View.emb_slice]
    show (((Rect.unit (s := S2x16x2048) ![b.val, c.val, 0] S1x1x2048.size (inb_x b c)).emb (Shape.reshapeEquiv squeezes_S1x1x2048_S2048.numel_eq y)) a : ℕ) = _
    rw [Rect.emb_apply, Idealize.ShloMosaic.QrPanel.StackBlock.reshapeEquiv_cons_one_one]
    simp
  rw [h]
  match a with
  | ⟨0, _⟩ => rfl
  | ⟨1, _⟩ => rfl
  | ⟨2, _⟩ => show 0 + (y 0).val = (y 0).val; exact Nat.zero_add _

/-- Word y of a chunk of the embedding at the offset o is the array's element o + y. -/
theorem eSl_emb (o : Fin 1 → ℕ) (h : ∀ a, o a + S2048.size a ≤ S33554432.size a) (y : S2048.Idx) :
    (eSl o h).view.emb y = flatIx (o 0 + (y 0).val) (by have h1 : o 0 + 2048 ≤ 33554432 := h 0; have h2 : (y 0).val < 2048 := (y 0).isLt; omega) := by
  funext a
  match a with
  | ⟨0, _⟩ => exact Fin.ext (show o 0 + 1 * (y 0).val = o 0 + (y 0).val by omega)

set_option maxHeartbeats 2000000 in
/-- A landed row of the embedding holds the chunk's words. -/
theorem landedX_emb (b : Fin 2) (c : Fin 16) (e : Buf (Elt Ideal) ((eW).view.loc (thr d L)))
    (o : Fin 1 → ℕ) (h : ∀ a, o a + S2048.size a ≤ S33554432.size a) (y : S2048.Idx) :
    (landed d L (xWin b c) (eSl o h) e ((xWin b c).view.emb y) : EReal) = (e ((eSl o h).view.emb y) : EReal) := by
  have hh := View.read_writes_cons_emb (v := (xWin b c).view) (Val := Elt Ideal) (f := (xWin b c).view.junk) (Rect.whole S2048)
    (ReadAs.same.apply ((eSl o h).view.read (Elt Ideal) e)) [] y
  rw [Rect.emb_whole_apply] at hh
  have h1 : (landed d L (xWin b c) (eSl o h) e ((xWin b c).view.emb y) : EReal)
      = (xWin b c).view.read (Elt Ideal) (landed d L (xWin b c) (eSl o h) e) y := (cast_eq _ _).symm
  have h2 : ((eSl o h).view.read (Elt Ideal) e y : EReal) = (e ((eSl o h).view.emb y) : EReal) := cast_eq _ _
  rw [h1, hh, ReadAs.apply_same, h2]

theorem readAtX (g : Buf (Elt Ideal) ((xB).view.loc (thr d L))) (r : Rect S2x16x2048) (y : r.shape.Idx) :
    (View.readAt (Elt Ideal) (xB).view r.toLoadRect g y : EReal) = g (r.emb y) := by
  first | rfl | exact cast_eq rfl _

/-- A trip's load of sixteen words of component c at (b, c, o₂ …) of the staging buffer, the row holding the chunk at the
    offset o: lane x reads the array's word o + o₂ + x. -/
theorem readX_lane (b : Fin 2) (c : Fin 16) (e : Buf (Elt Ideal) ((eW).view.loc (thr d L)))
    (o : Fin 1 → ℕ) (h : ∀ a, o a + S2048.size a ≤ S33554432.size a)
    (off : Fin 3 → ℕ) (inb : ∀ a, off a + S1x1x16.size a ≤ S2x16x2048.size a) (h0 : off 0 = b.val) (h1 : off 1 = c.val)
    (hs : S1x1x16.ShapeCasts S16) (x : S16.Idx) :
    (View.readAt (Elt Ideal) (xB).view (Rect.unit (s := S2x16x2048) off S1x1x16.size inb).toLoadRect
        (landed d L (xWin b c) (eSl o h) e) (Shape.reshapeEquiv hs x) : EReal)
      = e (flatIx (o 0 + (off 2 + (x 0).val)) (by
          have h1 : o 0 + 2048 ≤ 33554432 := h 0; have h2 : off 2 + 16 ≤ 2048 := inb 2; have h3 : (x 0).val < 16 := (x 0).isLt; omega)) := by
  have h2 : off 2 + 16 ≤ 2048 := inb 2
  have h3 : (x 0).val < 16 := (x 0).isLt
  have hz : off 2 + (x 0).val < 2048 := by omega
  have hidx : (Rect.unit (s := S2x16x2048) off S1x1x16.size inb).emb (Shape.reshapeEquiv hs x)
      = (xWin b c).view.emb (flatIx (off 2 + (x 0).val) hz) := by
    rw [xWin_emb, Idealize.ShloMosaic.QrPanel.StackBlock.reshapeEquiv_cons_one_one]
    funext a
    apply Fin.ext
    rw [Rect.emb_apply]
    match a with
    | ⟨0, _⟩ => show off 0 + 1 * 0 = b.val; omega
    | ⟨1, _⟩ => show off 1 + 1 * 0 = c.val; omega
    | ⟨2, _⟩ => show off 2 + 1 * (x 0).val = off 2 + (x 0).val; omega
  rw [readAtX d L, hidx, landedX_emb, eSl_emb]
  rfl

/-- The means gathered at an index vector moved up by a component's row offset: lane x reads the scratch's word
    index + offset. -/
theorem gather_lane (fmt : Buf (Elt Ideal) ((mT).view.loc (thr d L))) (v : IVec S16 32) (cc : BitVec 32)
    (hv : ∀ x, (v x).toNat < 1024) (hcc : cc.toNat + 1024 ≤ 16384)
    (hidx : ∀ (a : Fin (Nat.succ 0)) (x : S16.Idx), ((![addi v (broadcast S16 cc)] : Fin 1 → IVec S16 32) a x).toNat < S16384.size a)
    (x : S16.Idx) :
    (loadIdx (s := S16384) (View.readAt (Elt Ideal) (mT).view (LoadRect.whole S16384) fmt) ![addi v (broadcast S16 cc)] hidx x : EReal)
      = fmt (flatIx ((v x).toNat + cc.toNat) (by have := hv x; omega)) := by
  have hw : (View.readAt (Elt Ideal) (mT).view (LoadRect.whole S16384) fmt : Vec Ideal S16384 .f32) = (fmt : Vec Ideal S16384 .f32) :=
    Memref.readAt_whole (Elt Ideal) cc2_scratch3 fmt
  show (View.readAt (Elt Ideal) (mT).view (LoadRect.whole S16384) fmt : Vec Ideal S16384 .f32) (idxAt (s := S16384) ![addi v (broadcast S16 cc)] hidx x) = _
  rw [hw]
  have hi : idxAt (s := S16384) ![addi v (broadcast S16 cc)] hidx x = flatIx ((v x).toNat + cc.toNat) (by have := hv x; omega) := by
    funext a
    match a with
    | ⟨0, _⟩ =>
      apply Fin.ext
      show (IntOp.addi (v x) cc).toNat = (v x).toNat + cc.toNat
      unfold IntOp.addi
      rw [BitVec.toNat_add]
      have := hv x
      omega
  rw [hi]

/-- A LEAF OF THE PAYLOAD: |component c's word − the means' word|, in closed form. -/
theorem leaf_val (b : Fin 2) (c : Fin 16) (e : Buf (Elt Ideal) ((eW).view.loc (thr d L)))
    (o : Fin 1 → ℕ) (h : ∀ a, o a + S2048.size a ≤ S33554432.size a) (fmt : Buf (Elt Ideal) ((mT).view.loc (thr d L)))
    (off : Fin 3 → ℕ) (inb : ∀ a, off a + S1x1x16.size a ≤ S2x16x2048.size a) (h0 : off 0 = b.val) (h1 : off 1 = c.val)
    (hs : S1x1x16.ShapeCasts S16) (v : IVec S16 32) (cc : BitVec 32)
    (hv : ∀ x, (v x).toNat < 1024) (hcc : cc.toNat + 1024 ≤ 16384)
    (hidx : ∀ (a : Fin (Nat.succ 0)) (x : S16.Idx), ((![addi v (broadcast S16 cc)] : Fin 1 → IVec S16 32) a x).toNat < S16384.size a)
    (x : S16.Idx) :
    (absf (F := Ideal) (φ := .f32) (subf (F := Ideal) (φ := .f32) (shapeCast (α := Elt Ideal .f32) S16 (View.readAt (Elt Ideal) (xB).view (Rect.unit (s := S2x16x2048) off S1x1x16.size inb).toLoadRect
          (landed d L (xWin b c) (eSl o h) e)) hs)
        (loadIdx (s := S16384) (View.readAt (Elt Ideal) (mT).view (LoadRect.whole S16384) fmt) ![addi v (broadcast S16 cc)] hidx)) x : EReal)
      = eabs ((show EReal from e (flatIx (o 0 + (off 2 + (x 0).val)) (by
            have h1 : o 0 + 2048 ≤ 33554432 := h 0; have h2 : off 2 + 16 ≤ 2048 := inb 2; have h3 : (x 0).val < 16 := (x 0).isLt; omega)))
          - (show EReal from fmt (flatIx ((v x).toNat + cc.toNat) (by have := hv x; omega)))) := by
  rw [← readX_lane d L b c e o h off inb h0 h1 hs x, ← gather_lane d L fmt v cc hv hcc hidx x]
  rfl

end Cert.Proof.KI.Pass2

end
-- ==== Proof.Pass2VL.lean ====
import proofs.«210783_g59777354826199_cont_9to1_m_168_18_alg».proof.Proof.Pass2VK

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ

/-! # The payloads, in closed form -/

variable (d : Dev nD) (L : grid2.Coords)

section
variable (e : S33554432.Idx → EReal) (t k : S2097152.Idx → BitVec 32) (mt : S16384.Idx → EReal)

/-- Component c's term of voxel u's contribution. -/
def termU (u c : ℕ) : EReal := eabs (eAt e (c * 2097152 + baseV L + u) - mAt mt (c * 1024 + idxU L t k u))

theorem payU_eq (u : ℕ) : payU L e t k mt u = sq (∑ c ∈ Finset.range 16, termU L e t k mt u c) := by
  unfold payU
  rw [← Fin.sum_univ_eq_sum_range]
  rfl
end

/-- A LEAF OF A GROUP'S PAYLOAD, in closed form: slot b holding chunk c', the group at (b, o₁ …), component c read at
    (b, c, o₁ …) and the means gathered at the group's index vector moved up by 1024·c. -/
theorem leaf_termU (b : Fin 2) (c : Fin 16)
    (e : Buf (Elt Ideal) ((eW).view.loc (thr d L))) (t : Buf (Elt Ideal) ((tW).view.loc (thr d L))) (k : Buf (Elt Ideal) ((kW).view.loc (thr d L)))
    (htr : ∀ j, (t j : BitVec 32).toNat ≤ 63) (mt : Buf (Elt Ideal) ((mT).view.loc (thr d L))) (c' : ℕ) (hc' : c' ≤ 31)
    (off : Fin 3 → ℕ) (inb : ∀ a, off a + S1x1x16.size a ≤ S2x16x2048.size a) (h0 : off 0 = b.val) (h1 : off 1 = c.val)
    (hs : S1x1x16.ShapeCasts S16)
    (off2 : Fin 2 → ℕ) (inb2 : ∀ a, off2 a + S1x16.size a ≤ S2x2048.size a) (g0 : off2 0 = b.val) (o1 : ℕ) (ho1 : off2 1 = o1) (g16 : o1 % 16 = 0)
    (hoff : off 2 = o1) (cc : BitVec 32) (hccv : cc.toNat = 1024 * c.val)
    (hidx : ∀ (a : Fin (Nat.succ 0)) (x : S16.Idx), ((![addi (segIdx
        (View.readAt (Elt Ideal) (mB).view (Rect.unit (s := S2x2048) off2 S1x16.size inb2).toLoadRect (landed d L (mWin b) (kSl (otC L c') (htC L c')) k))
        (View.readAt (Elt Ideal) (tB).view (Rect.unit (s := S2x2048) off2 S1x16.size inb2).toLoadRect (clampT d L b (landed d L (tWin b) (tSl (otC L c') (htC L c')) t)))
        shapeCasts_S1x16_S16 shapeCasts_S1x16_S16) (broadcast S16 cc)] : Fin 1 → IVec S16 32) a x).toNat < S16384.size a)
    (l : Fin 16) :
    (absf (F := Ideal) (φ := .f32) (subf (F := Ideal) (φ := .f32) (shapeCast (α := Elt Ideal .f32) S16 (View.readAt (Elt Ideal) (xB).view (Rect.unit (s := S2x16x2048) off S1x1x16.size inb).toLoadRect
          (landed d L (xWin b c) (eSl (oeC L c' c) (heC L c' c)) e)) hs)
        (loadIdx (s := S16384) (View.readAt (Elt Ideal) (mT).view (LoadRect.whole S16384) mt) ![addi (segIdx
          (View.readAt (Elt Ideal) (mB).view (Rect.unit (s := S2x2048) off2 S1x16.size inb2).toLoadRect (landed d L (mWin b) (kSl (otC L c') (htC L c')) k))
          (View.readAt (Elt Ideal) (tB).view (Rect.unit (s := S2x2048) off2 S1x16.size inb2).toLoadRect (clampT d L b (landed d L (tWin b) (tSl (otC L c') (htC L c')) t)))
          shapeCasts_S1x16_S16 shapeCasts_S1x16_S16) (broadcast S16 cc)] hidx)) (Shape.ofLane (d := ![16]) l) : EReal)
      = termU L e t k mt (2048 * c' + o1 + l.val) c.val := by
  have hcl := c.isLt
  have hl := l.isLt
  have hbl := baseV_le L
  have h2 : off2 1 + 16 ≤ 2048 := inb2 1
  have hmin : min c' 31 = c' := Nat.min_eq_left hc'
  have hv : ∀ x, ((segIdx
        (View.readAt (Elt Ideal) (mB).view (Rect.unit (s := S2x2048) off2 S1x16.size inb2).toLoadRect (landed d L (mWin b) (kSl (otC L c') (htC L c')) k))
        (View.readAt (Elt Ideal) (tB).view (Rect.unit (s := S2x2048) off2 S1x16.size inb2).toLoadRect (clampT d L b (landed d L (tWin b) (tSl (otC L c') (htC L c')) t)))
        shapeCasts_S1x16_S16 shapeCasts_S1x16_S16) x).toNat < 1024 :=
    fun x => seg_lt _ _ _ _ (fun _ => clampT_le d L b _ (landed_le d L b t htr (otC L c') (htC L c')) _) x
  have hg := groupIdx d L b t k htr c' hc' off2 inb2 g0 (by rw [ho1]; exact g16) l
  rw [ho1] at hg
  have hi : idxU L t k (2048 * c' + o1 + l.val) < 1024 := by rw [← hg]; exact hv _
  rw [leaf_val d L b c e (oeC L c' c) (heC L c' c) mt off inb h0 h1 hs _ cc hv (by omega) hidx (Shape.ofLane (d := ![16]) l)]
  unfold termU eAt mAt
  have hl0 : ((Shape.ofLane (d := ![16]) l : S16.Idx) 0).val = l.val := rfl
  have hoe : (oeC L c' c) 0 = 2097152 * c.val + baseV L + 2048 * c' := by
    show 2097152 * c.val + 131072 * (L 1).val + 65536 * (L 0).val + 2048 * min c' 31 = 2097152 * c.val + baseV L + 2048 * c'
    rw [hmin]; unfold baseV; omega
  rw [dif_pos (show c.val * 2097152 + baseV L + (2048 * c' + o1 + l.val) < 33554432 by omega),
    dif_pos (show c.val * 1024 + idxU L t k (2048 * c' + o1 + l.val) < 16384 by omega)]
  rw [flatIx_congr (N := 33554432) _ (show c.val * 2097152 + baseV L + (2048 * c' + o1 + l.val) < 33554432 by omega)
      (show (oeC L c' c) 0 + (off 2 + ((Shape.ofLane (d := ![16]) l : S16.Idx) 0).val) = c.val * 2097152 + baseV L + (2048 * c' + o1 + l.val) by rw [hl0, hoe, hoff]; omega),
    flatIx_congr (N := 16384) _ (show c.val * 1024 + idxU L t k (2048 * c' + o1 + l.val) < 16384 by omega)
      (show _ + cc.toNat = c.val * 1024 + idxU L t k (2048 * c' + o1 + l.val) by rw [hg, hccv]; omega)]

/-- The payload of the first group of a trip over slot 0, lane l: the contribution of the tile's voxel 2048·c' + 32 * kk + l. -/
theorem pay3a (e : Buf (Elt Ideal) ((eW).view.loc (thr d L))) (t : Buf (Elt Ideal) ((tW).view.loc (thr d L))) (k : Buf (Elt Ideal) ((kW).view.loc (thr d L)))
    (htr : ∀ j, (t j : BitVec 32).toNat ≤ 63) (mt : Buf (Elt Ideal) ((mT).view.loc (thr d L))) (c' : ℕ) (hc' : c' ≤ 31) (kk : Fin k2_t3_loop.trips) (l : Fin 16) :
    ((tripW3.sl.v1129 d L (rowsX3 d L e (oeC L c') (heC L c')) (rowT3 d L t (otC L c') (htC L c')) (rowM3 d L k (otC L c') (htC L c')) mt (clampT_le d L 0 _ (landed_le d L 0 t htr (otC L c') (htC L c'))) kk) (Shape.ofLane (d := ![16]) l) : EReal) = payU L e t k mt (2048 * c' + (32 * kk.val) + l.val) := by
  have hA0 : (tripW3.sl.v978 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 0 :=
    leaf_termU d L 0 0 e t k htr mt c' hc' (k2_off7 kk) (k2_off7_inb kk) (by rw [k2_off7_eq]; rfl) (by rw [k2_off7_eq]; rfl) _
      (k2_off6 kk) (k2_off6_inb kk) (by rw [k2_off6_eq]; rfl) (32 * kk.val) (by rw [k2_off6_eq]; rfl) (by omega) (by rw [k2_off7_eq]; rfl) _ (by rfl) _ l
  have hA1 : (tripW3.sl.v987 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 1 :=
    leaf_termU d L 0 1 e t k htr mt c' hc' (k2_off8 kk) (k2_off8_inb kk) (by rw [k2_off8_eq]; rfl) (by rw [k2_off8_eq]; rfl) _
      (k2_off6 kk) (k2_off6_inb kk) (by rw [k2_off6_eq]; rfl) (32 * kk.val) (by rw [k2_off6_eq]; rfl) (by omega) (by rw [k2_off8_eq]; rfl) _ (by rfl) _ l
  have hA2 : (tripW3.sl.v996 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 2 :=
    leaf_termU d L 0 2 e t k htr mt c' hc' (k2_off9 kk) (k2_off9_inb kk) (by rw [k2_off9_eq]; rfl) (by rw [k2_off9_eq]; rfl) _
      (k2_off6 kk) (k2_off6_inb kk) (by rw [k2_off6_eq]; rfl) (32 * kk.val) (by rw [k2_off6_eq]; rfl) (by omega) (by rw [k2_off9_eq]; rfl) _ (by rfl) _ l
  have hA3 : (tripW3.sl.v1005 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 3 :=
    leaf_termU d L 0 3 e t k htr mt c' hc' (k2_off10 kk) (k2_off10_inb kk) (by rw [k2_off10_eq]; rfl) (by rw [k2_off10_eq]; rfl) _
      (k2_off6 kk) (k2_off6_inb kk) (by rw [k2_off6_eq]; rfl) (32 * kk.val) (by rw [k2_off6_eq]; rfl) (by omega) (by rw [k2_off10_eq]; rfl) _ (by rfl) _ l
  have hA4 : (tripW3.sl.v1014 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 4 :=
    leaf_termU d L 0 4 e t k htr mt c' hc' (k2_off11 kk) (k2_off11_inb kk) (by rw [k2_off11_eq]; rfl) (by rw [k2_off11_eq]; rfl) _
      (k2_off6 kk) (k2_off6_inb kk) (by rw [k2_off6_eq]; rfl) (32 * kk.val) (by rw [k2_off6_eq]; rfl) (by omega) (by rw [k2_off11_eq]; rfl) _ (by rfl) _ l
  have hA5 : (tripW3.sl.v1023 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 5 :=
    leaf_termU d L 0 5 e t k htr mt c' hc' (k2_off12 kk) (k2_off12_inb kk) (by rw [k2_off12_eq]; rfl) (by rw [k2_off12_eq]; rfl) _
      (k2_off6 kk) (k2_off6_inb kk) (by rw [k2_off6_eq]; rfl) (32 * kk.val) (by rw [k2_off6_eq]; rfl) (by omega) (by rw [k2_off12_eq]; rfl) _ (by rfl) _ l
  have hA6 : (tripW3.sl.v1032 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 6 :=
    leaf_termU d L 0 6 e t k htr mt c' hc' (k2_off13 kk) (k2_off13_inb kk) (by rw [k2_off13_eq]; rfl) (by rw [k2_off13_eq]; rfl) _
      (k2_off6 kk) (k2_off6_inb kk) (by rw [k2_off6_eq]; rfl) (32 * kk.val) (by rw [k2_off6_eq]; rfl) (by omega) (by rw [k2_off13_eq]; rfl) _ (by rfl) _ l
  have hA7 : (tripW3.sl.v1041 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 7 :=
    leaf_termU d L 0 7 e t k htr mt c' hc' (k2_off14 kk) (k2_off14_inb kk) (by rw [k2_off14_eq]; rfl) (by rw [k2_off14_eq]; rfl) _
      (k2_off6 kk) (k2_off6_inb kk) (by rw [k2_off6_eq]; rfl) (32 * kk.val) (by rw [k2_off6_eq]; rfl) (by omega) (by rw [k2_off14_eq]; rfl) _ (by rfl) _ l
  have hA8 : (tripW3.sl.v1050 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 8 :=
    leaf_termU d L 0 8 e t k htr mt c' hc' (k2_off15 kk) (k2_off15_inb kk) (by rw [k2_off15_eq]; rfl) (by rw [k2_off15_eq]; rfl) _
      (k2_off6 kk) (k2_off6_inb kk) (by rw [k2_off6_eq]; rfl) (32 * kk.val) (by rw [k2_off6_eq]; rfl) (by omega) (by rw [k2_off15_eq]; rfl) _ (by rfl) _ l
  have hA9 : (tripW3.sl.v1059 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 9 :=
    leaf_termU d L 0 9 e t k htr mt c' hc' (k2_off16 kk) (k2_off16_inb kk) (by rw [k2_off16_eq]; rfl) (by rw [k2_off16_eq]; rfl) _
      (k2_off6 kk) (k2_off6_inb kk) (by rw [k2_off6_eq]; rfl) (32 * kk.val) (by rw [k2_off6_eq]; rfl) (by omega) (by rw [k2_off16_eq]; rfl) _ (by rfl) _ l
  have hA10 : (tripW3.sl.v1068 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 10 :=
    leaf_termU d L 0 10 e t k htr mt c' hc' (k2_off17 kk) (k2_off17_inb kk) (by rw [k2_off17_eq]; rfl) (by rw [k2_off17_eq]; rfl) _
      (k2_off6 kk) (k2_off6_inb kk) (by rw [k2_off6_eq]; rfl) (32 * kk.val) (by rw [k2_off6_eq]; rfl) (by omega) (by rw [k2_off17_eq]; rfl) _ (by rfl) _ l
  have hA11 : (tripW3.sl.v1077 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 11 :=
    leaf_termU d L 0 11 e t k htr mt c' hc' (k2_off18 kk) (k2_off18_inb kk) (by rw [k2_off18_eq]; rfl) (by rw [k2_off18_eq]; rfl) _
      (k2_off6 kk) (k2_off6_inb kk) (by rw [k2_off6_eq]; rfl) (32 * kk.val) (by rw [k2_off6_eq]; rfl) (by omega) (by rw [k2_off18_eq]; rfl) _ (by rfl) _ l
  have hA12 : (tripW3.sl.v1086 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 12 :=
    leaf_termU d L 0 12 e t k htr mt c' hc' (k2_off19 kk) (k2_off19_inb kk) (by rw [k2_off19_eq]; rfl) (by rw [k2_off19_eq]; rfl) _
      (k2_off6 kk) (k2_off6_inb kk) (by rw [k2_off6_eq]; rfl) (32 * kk.val) (by rw [k2_off6_eq]; rfl) (by omega) (by rw [k2_off19_eq]; rfl) _ (by rfl) _ l
  have hA13 : (tripW3.sl.v1095 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 13 :=
    leaf_termU d L 0 13 e t k htr mt c' hc' (k2_off20 kk) (k2_off20_inb kk) (by rw [k2_off20_eq]; rfl) (by rw [k2_off20_eq]; rfl) _
      (k2_off6 kk) (k2_off6_inb kk) (by rw [k2_off6_eq]; rfl) (32 * kk.val) (by rw [k2_off6_eq]; rfl) (by omega) (by rw [k2_off20_eq]; rfl) _ (by rfl) _ l
  have hA14 : (tripW3.sl.v1104 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 14 :=
    leaf_termU d L 0 14 e t k htr mt c' hc' (k2_off21 kk) (k2_off21_inb kk) (by rw [k2_off21_eq]; rfl) (by rw [k2_off21_eq]; rfl) _
      (k2_off6 kk) (k2_off6_inb kk) (by rw [k2_off6_eq]; rfl) (32 * kk.val) (by rw [k2_off6_eq]; rfl) (by omega) (by rw [k2_off21_eq]; rfl) _ (by rfl) _ l
  have hA15 : (tripW3.sl.v1113 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val) + l.val) 15 :=
    leaf_termU d L 0 15 e t k htr mt c' hc' (k2_off22 kk) (k2_off22_inb kk) (by rw [k2_off22_eq]; rfl) (by rw [k2_off22_eq]; rfl) _
      (k2_off6 kk) (k2_off6_inb kk) (by rw [k2_off6_eq]; rfl) (32 * kk.val) (by rw [k2_off6_eq]; rfl) (by omega) (by rw [k2_off22_eq]; rfl) _ (by rfl) _ l
  rw [payU_eq]
  show sq (((((tripW3.sl.v978 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v987 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal)) + ((tripW3.sl.v996 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1005 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal))) + (((tripW3.sl.v1014 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1023 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal)) + ((tripW3.sl.v1032 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1041 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal)))) + ((((tripW3.sl.v1050 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1059 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal)) + ((tripW3.sl.v1068 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1077 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal))) + (((tripW3.sl.v1086 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1095 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal)) + ((tripW3.sl.v1104 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1113 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal))))) = _
  rw [hA0, hA1, hA2, hA3, hA4, hA5, hA6, hA7, hA8, hA9, hA10, hA11, hA12, hA13, hA14, hA15]
  refine congrArg sq ?_
  simp only [Finset.sum_range_succ, Finset.sum_range_zero, zero_add]
  ac_rfl

/-- The payload of the second group of a trip over slot 0, lane l: the contribution of the tile's voxel 2048·c' + 32 * kk + 16 + l. -/
theorem pay3b (e : Buf (Elt Ideal) ((eW).view.loc (thr d L))) (t : Buf (Elt Ideal) ((tW).view.loc (thr d L))) (k : Buf (Elt Ideal) ((kW).view.loc (thr d L)))
    (htr : ∀ j, (t j : BitVec 32).toNat ≤ 63) (mt : Buf (Elt Ideal) ((mT).view.loc (thr d L))) (c' : ℕ) (hc' : c' ≤ 31) (kk : Fin k2_t3_loop.trips) (l : Fin 16) :
    ((k2_pay143 (tripW3.sl.v1298 d L (rowsX3 d L e (oeC L c') (heC L c')) (rowT3 d L t (otC L c') (htC L c')) (rowM3 d L k (otC L c') (htC L c')) mt (clampT_le d L 0 _ (landed_le d L 0 t htr (otC L c') (htC L c'))) kk) (tripW3.sl.v1299 d L (rowsX3 d L e (oeC L c') (heC L c')) (rowT3 d L t (otC L c') (htC L c')) (rowM3 d L k (otC L c') (htC L c')) mt (clampT_le d L 0 _ (landed_le d L 0 t htr (otC L c') (htC L c'))) kk) (tripW3.sl.v1300 d L (rowsX3 d L e (oeC L c') (heC L c')) (rowT3 d L t (otC L c') (htC L c')) (rowM3 d L k (otC L c') (htC L c')) mt (clampT_le d L 0 _ (landed_le d L 0 t htr (otC L c') (htC L c'))) kk) (tripW3.sl.v1301 d L (rowsX3 d L e (oeC L c') (heC L c')) (rowT3 d L t (otC L c') (htC L c')) (rowM3 d L k (otC L c') (htC L c')) mt (clampT_le d L 0 _ (landed_le d L 0 t htr (otC L c') (htC L c'))) kk)) (Shape.ofLane (d := ![16]) l) : EReal) = payU L e t k mt (2048 * c' + (32 * kk.val + 16) + l.val) := by
  have hA0 : (tripW3.sl.v1154 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 0 :=
    leaf_termU d L 0 0 e t k htr mt c' hc' (k2_off24 kk) (k2_off24_inb kk) (by rw [k2_off24_eq]; rfl) (by rw [k2_off24_eq]; rfl) _
      (k2_off23 kk) (k2_off23_inb kk) (by rw [k2_off23_eq]; rfl) (32 * kk.val + 16) (by rw [k2_off23_eq]; rfl) (by omega) (by rw [k2_off24_eq]; rfl) _ (by rfl) _ l
  have hA1 : (tripW3.sl.v1163 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 1 :=
    leaf_termU d L 0 1 e t k htr mt c' hc' (k2_off25 kk) (k2_off25_inb kk) (by rw [k2_off25_eq]; rfl) (by rw [k2_off25_eq]; rfl) _
      (k2_off23 kk) (k2_off23_inb kk) (by rw [k2_off23_eq]; rfl) (32 * kk.val + 16) (by rw [k2_off23_eq]; rfl) (by omega) (by rw [k2_off25_eq]; rfl) _ (by rfl) _ l
  have hA2 : (tripW3.sl.v1172 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 2 :=
    leaf_termU d L 0 2 e t k htr mt c' hc' (k2_off26 kk) (k2_off26_inb kk) (by rw [k2_off26_eq]; rfl) (by rw [k2_off26_eq]; rfl) _
      (k2_off23 kk) (k2_off23_inb kk) (by rw [k2_off23_eq]; rfl) (32 * kk.val + 16) (by rw [k2_off23_eq]; rfl) (by omega) (by rw [k2_off26_eq]; rfl) _ (by rfl) _ l
  have hA3 : (tripW3.sl.v1181 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 3 :=
    leaf_termU d L 0 3 e t k htr mt c' hc' (k2_off27 kk) (k2_off27_inb kk) (by rw [k2_off27_eq]; rfl) (by rw [k2_off27_eq]; rfl) _
      (k2_off23 kk) (k2_off23_inb kk) (by rw [k2_off23_eq]; rfl) (32 * kk.val + 16) (by rw [k2_off23_eq]; rfl) (by omega) (by rw [k2_off27_eq]; rfl) _ (by rfl) _ l
  have hA4 : (tripW3.sl.v1190 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 4 :=
    leaf_termU d L 0 4 e t k htr mt c' hc' (k2_off28 kk) (k2_off28_inb kk) (by rw [k2_off28_eq]; rfl) (by rw [k2_off28_eq]; rfl) _
      (k2_off23 kk) (k2_off23_inb kk) (by rw [k2_off23_eq]; rfl) (32 * kk.val + 16) (by rw [k2_off23_eq]; rfl) (by omega) (by rw [k2_off28_eq]; rfl) _ (by rfl) _ l
  have hA5 : (tripW3.sl.v1199 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 5 :=
    leaf_termU d L 0 5 e t k htr mt c' hc' (k2_off29 kk) (k2_off29_inb kk) (by rw [k2_off29_eq]; rfl) (by rw [k2_off29_eq]; rfl) _
      (k2_off23 kk) (k2_off23_inb kk) (by rw [k2_off23_eq]; rfl) (32 * kk.val + 16) (by rw [k2_off23_eq]; rfl) (by omega) (by rw [k2_off29_eq]; rfl) _ (by rfl) _ l
  have hA6 : (tripW3.sl.v1208 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 6 :=
    leaf_termU d L 0 6 e t k htr mt c' hc' (k2_off30 kk) (k2_off30_inb kk) (by rw [k2_off30_eq]; rfl) (by rw [k2_off30_eq]; rfl) _
      (k2_off23 kk) (k2_off23_inb kk) (by rw [k2_off23_eq]; rfl) (32 * kk.val + 16) (by rw [k2_off23_eq]; rfl) (by omega) (by rw [k2_off30_eq]; rfl) _ (by rfl) _ l
  have hA7 : (tripW3.sl.v1217 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 7 :=
    leaf_termU d L 0 7 e t k htr mt c' hc' (k2_off31 kk) (k2_off31_inb kk) (by rw [k2_off31_eq]; rfl) (by rw [k2_off31_eq]; rfl) _
      (k2_off23 kk) (k2_off23_inb kk) (by rw [k2_off23_eq]; rfl) (32 * kk.val + 16) (by rw [k2_off23_eq]; rfl) (by omega) (by rw [k2_off31_eq]; rfl) _ (by rfl) _ l
  have hA8 : (tripW3.sl.v1226 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 8 :=
    leaf_termU d L 0 8 e t k htr mt c' hc' (k2_off32 kk) (k2_off32_inb kk) (by rw [k2_off32_eq]; rfl) (by rw [k2_off32_eq]; rfl) _
      (k2_off23 kk) (k2_off23_inb kk) (by rw [k2_off23_eq]; rfl) (32 * kk.val + 16) (by rw [k2_off23_eq]; rfl) (by omega) (by rw [k2_off32_eq]; rfl) _ (by rfl) _ l
  have hA9 : (tripW3.sl.v1235 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 9 :=
    leaf_termU d L 0 9 e t k htr mt c' hc' (k2_off33 kk) (k2_off33_inb kk) (by rw [k2_off33_eq]; rfl) (by rw [k2_off33_eq]; rfl) _
      (k2_off23 kk) (k2_off23_inb kk) (by rw [k2_off23_eq]; rfl) (32 * kk.val + 16) (by rw [k2_off23_eq]; rfl) (by omega) (by rw [k2_off33_eq]; rfl) _ (by rfl) _ l
  have hA10 : (tripW3.sl.v1244 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 10 :=
    leaf_termU d L 0 10 e t k htr mt c' hc' (k2_off34 kk) (k2_off34_inb kk) (by rw [k2_off34_eq]; rfl) (by rw [k2_off34_eq]; rfl) _
      (k2_off23 kk) (k2_off23_inb kk) (by rw [k2_off23_eq]; rfl) (32 * kk.val + 16) (by rw [k2_off23_eq]; rfl) (by omega) (by rw [k2_off34_eq]; rfl) _ (by rfl) _ l
  have hA11 : (tripW3.sl.v1253 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 11 :=
    leaf_termU d L 0 11 e t k htr mt c' hc' (k2_off35 kk) (k2_off35_inb kk) (by rw [k2_off35_eq]; rfl) (by rw [k2_off35_eq]; rfl) _
      (k2_off23 kk) (k2_off23_inb kk) (by rw [k2_off23_eq]; rfl) (32 * kk.val + 16) (by rw [k2_off23_eq]; rfl) (by omega) (by rw [k2_off35_eq]; rfl) _ (by rfl) _ l
  have hA12 : (tripW3.sl.v1262 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 12 :=
    leaf_termU d L 0 12 e t k htr mt c' hc' (k2_off36 kk) (k2_off36_inb kk) (by rw [k2_off36_eq]; rfl) (by rw [k2_off36_eq]; rfl) _
      (k2_off23 kk) (k2_off23_inb kk) (by rw [k2_off23_eq]; rfl) (32 * kk.val + 16) (by rw [k2_off23_eq]; rfl) (by omega) (by rw [k2_off36_eq]; rfl) _ (by rfl) _ l
  have hA13 : (tripW3.sl.v1271 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 13 :=
    leaf_termU d L 0 13 e t k htr mt c' hc' (k2_off37 kk) (k2_off37_inb kk) (by rw [k2_off37_eq]; rfl) (by rw [k2_off37_eq]; rfl) _
      (k2_off23 kk) (k2_off23_inb kk) (by rw [k2_off23_eq]; rfl) (32 * kk.val + 16) (by rw [k2_off23_eq]; rfl) (by omega) (by rw [k2_off37_eq]; rfl) _ (by rfl) _ l
  have hA14 : (tripW3.sl.v1280 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 14 :=
    leaf_termU d L 0 14 e t k htr mt c' hc' (k2_off38 kk) (k2_off38_inb kk) (by rw [k2_off38_eq]; rfl) (by rw [k2_off38_eq]; rfl) _
      (k2_off23 kk) (k2_off23_inb kk) (by rw [k2_off23_eq]; rfl) (32 * kk.val + 16) (by rw [k2_off23_eq]; rfl) (by omega) (by rw [k2_off38_eq]; rfl) _ (by rfl) _ l
  have hA15 : (tripW3.sl.v1289 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) = termU L e t k mt (2048 * c' + (32 * kk.val + 16) + l.val) 15 :=
    leaf_termU d L 0 15 e t k htr mt c' hc' (k2_off39 kk) (k2_off39_inb kk) (by rw [k2_off39_eq]; rfl) (by rw [k2_off39_eq]; rfl) _
      (k2_off23 kk) (k2_off23_inb kk) (by rw [k2_off23_eq]; rfl) (32 * kk.val + 16) (by rw [k2_off23_eq]; rfl) (by omega) (by rw [k2_off39_eq]; rfl) _ (by rfl) _ l
  rw [payU_eq]
  show sq (((((tripW3.sl.v1154 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1163 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal)) + ((tripW3.sl.v1172 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1181 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal))) + (((tripW3.sl.v1190 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1199 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal)) + ((tripW3.sl.v1208 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1217 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal)))) + ((((tripW3.sl.v1226 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1235 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal)) + ((tripW3.sl.v1244 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1253 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal))) + (((tripW3.sl.v1262 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1271 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal)) + ((tripW3.sl.v1280 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal) + (tripW3.sl.v1289 d L (rowsX3 d L e (oeC L c') (heC L c')) (rowT3 d L t (otC L c') (htC L c')) (rowM3 d L k (otC L c') (htC L c')) mt (clampT_le d L 0 _ (landed_le d L 0 t htr (otC L c') (htC L c'))) kk (Shape.ofLane (d := ![16]) l) : EReal))))) = _
  rw [hA0, hA1, hA2, hA3, hA4, hA5, hA6, hA7, hA8, hA9, hA10, hA11, hA12, hA13, hA14, hA15]
  refine congrArg sq ?_
  simp only [Finset.sum_range_succ, Finset.sum_range_zero, zero_add]
  ac_rfl

/-- The payload of the first group of a trip over slot 1, lane l: the contribution of the tile's voxel 2048·c' + 32 * kk + l. -/
theorem pay4a (e : Buf (Elt Ideal) ((eW).view.loc (thr d L))) (t : Buf (Elt Ideal) ((tW).view.loc (thr d L))) (k : Buf (Elt Ideal) ((kW).view.loc (thr d L)))
    (htr : ∀ j, (t j : BitVec 32).toNat ≤ 63) (mt : Buf (Elt Ideal) ((mT).view.loc (thr d L))) (c' : ℕ) (hc' : c' ≤ 31) (kk : Fin k2_t4_loop.trips) (l : Fin 16) :
    ((tripW4.sl.v1129 d L (rowsX4 d L e (oeC L c') (heC L c')) (rowT4 d L t (otC L c') (htC L c')) (rowM4 d L k (otC L c') (htC L c')) mt (clampT_le d L 1 _ (landed_le d L 1 t htr (otC L c') (htC L c'))) kk) (Shape.ofLane (d := ![16]) l) : EReal) = payU L e t k mt (2048 * c' + (32 * kk.val) + l.val) := by
  have hA0 : (tripW4.sl.v978 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 0 :=
    leaf_termU d L 1 0 e t k htr mt c' hc' (k2_off43 kk) (k2_off43_inb kk) (by rw [k2_off43_eq]; rfl) (by rw [k2_off43_eq]; rfl) _
      (k2_off42 kk) (k2_off42_inb kk) (by rw [k2_off42_eq]; rfl) (32 * kk.val) (by rw [k2_off42_eq]; rfl) (by omega) (by rw [k2_off43_eq]; rfl) _ (by rfl) _ l
  have hA1 : (tripW4.sl.v987 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 1 :=
    leaf_termU d L 1 1 e t k htr mt c' hc' (k2_off44 kk) (k2_off44_inb kk) (by rw [k2_off44_eq]; rfl) (by rw [k2_off44_eq]; rfl) _
      (k2_off42 kk) (k2_off42_inb kk) (by rw [k2_off42_eq]; rfl) (32 * kk.val) (by rw [k2_off42_eq]; rfl) (by omega) (by rw [k2_off44_eq]; rfl) _ (by rfl) _ l
  have hA2 : (tripW4.sl.v996 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 2 :=
    leaf_termU d L 1 2 e t k htr mt c' hc' (k2_off45 kk) (k2_off45_inb kk) (by rw [k2_off45_eq]; rfl) (by rw [k2_off45_eq]; rfl) _
      (k2_off42 kk) (k2_off42_inb kk) (by rw [k2_off42_eq]; rfl) (32 * kk.val) (by rw [k2_off42_eq]; rfl) (by omega) (by rw [k2_off45_eq]; rfl) _ (by rfl) _ l
  have hA3 : (tripW4.sl.v1005 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 3 :=
    leaf_termU d L 1 3 e t k htr mt c' hc' (k2_off46 kk) (k2_off46_inb kk) (by rw [k2_off46_eq]; rfl) (by rw [k2_off46_eq]; rfl) _
      (k2_off42 kk) (k2_off42_inb kk) (by rw [k2_off42_eq]; rfl) (32 * kk.val) (by rw [k2_off42_eq]; rfl) (by omega) (by rw [k2_off46_eq]; rfl) _ (by rfl) _ l
  have hA4 : (tripW4.sl.v1014 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 4 :=
    leaf_termU d L 1 4 e t k htr mt c' hc' (k2_off47 kk) (k2_off47_inb kk) (by rw [k2_off47_eq]; rfl) (by rw [k2_off47_eq]; rfl) _
      (k2_off42 kk) (k2_off42_inb kk) (by rw [k2_off42_eq]; rfl) (32 * kk.val) (by rw [k2_off42_eq]; rfl) (by omega) (by rw [k2_off47_eq]; rfl) _ (by rfl) _ l
  have hA5 : (tripW4.sl.v1023 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 5 :=
    leaf_termU d L 1 5 e t k htr mt c' hc' (k2_off48 kk) (k2_off48_inb kk) (by rw [k2_off48_eq]; rfl) (by rw [k2_off48_eq]; rfl) _
      (k2_off42 kk) (k2_off42_inb kk) (by rw [k2_off42_eq]; rfl) (32 * kk.val) (by rw [k2_off42_eq]; rfl) (by omega) (by rw [k2_off48_eq]; rfl) _ (by rfl) _ l
  have hA6 : (tripW4.sl.v1032 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 6 :=
    leaf_termU d L 1 6 e t k htr mt c' hc' (k2_off49 kk) (k2_off49_inb kk) (by rw [k2_off49_eq]; rfl) (by rw [k2_off49_eq]; rfl) _
      (k2_off42 kk) (k2_off42_inb kk) (by rw [k2_off42_eq]; rfl) (32 * kk.val) (by rw [k2_off42_eq]; rfl) (by omega) (by rw [k2_off49_eq]; rfl) _ (by rfl) _ l
  have hA7 : (tripW4.sl.v1041 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 7 :=
    leaf_termU d L 1 7 e t k htr mt c' hc' (k2_off50 kk) (k2_off50_inb kk) (by rw [k2_off50_eq]; rfl) (by rw [k2_off50_eq]; rfl) _
      (k2_off42 kk) (k2_off42_inb kk) (by rw [k2_off42_eq]; rfl) (32 * kk.val) (by rw [k2_off42_eq]; rfl) (by omega) (by rw [k2_off50_eq]; rfl) _ (by rfl) _ l
  have hA8 : (tripW4.sl.v1050 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 8 :=
    leaf_termU d L 1 8 e t k htr mt c' hc' (k2_off51 kk) (k2_off51_inb kk) (by rw [k2_off51_eq]; rfl) (by rw [k2_off51_eq]; rfl) _
      (k2_off42 kk) (k2_off42_inb kk) (by rw [k2_off42_eq]; rfl) (32 * kk.val) (by rw [k2_off42_eq]; rfl) (by omega) (by rw [k2_off51_eq]; rfl) _ (by rfl) _ l
  have hA9 : (tripW4.sl.v1059 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 9 :=
    leaf_termU d L 1 9 e t k htr mt c' hc' (k2_off52 kk) (k2_off52_inb kk) (by rw [k2_off52_eq]; rfl) (by rw [k2_off52_eq]; rfl) _
      (k2_off42 kk) (k2_off42_inb kk) (by rw [k2_off42_eq]; rfl) (32 * kk.val) (by rw [k2_off42_eq]; rfl) (by omega) (by rw [k2_off52_eq]; rfl) _ (by rfl) _ l
  have hA10 : (tripW4.sl.v1068 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 10 :=
    leaf_termU d L 1 10 e t k htr mt c' hc' (k2_off53 kk) (k2_off53_inb kk) (by rw [k2_off53_eq]; rfl) (by rw [k2_off53_eq]; rfl) _
      (k2_off42 kk) (k2_off42_inb kk) (by rw [k2_off42_eq]; rfl) (32 * kk.val) (by rw [k2_off42_eq]; rfl) (by omega) (by rw [k2_off53_eq]; rfl) _ (by rfl) _ l
  have hA11 : (tripW4.sl.v1077 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 11 :=
    leaf_termU d L 1 11 e t k htr mt c' hc' (k2_off54 kk) (k2_off54_inb kk) (by rw [k2_off54_eq]; rfl) (by rw [k2_off54_eq]; rfl) _
      (k2_off42 kk) (k2_off42_inb kk) (by rw [k2_off42_eq]; rfl) (32 * kk.val) (by rw [k2_off42_eq]; rfl) (by omega) (by rw [k2_off54_eq]; rfl) _ (by rfl) _ l
  have hA12 : (tripW4.sl.v1086 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 12 :=
    leaf_termU d L 1 12 e t k htr mt c' hc' (k2_off55 kk) (k2_off55_inb kk) (by rw [k2_off55_eq]; rfl) (by rw [k2_off55_eq]; rfl) _
      (k2_off42 kk) (k2_off42_inb kk) (by rw [k2_off42_eq]; rfl) (32 * kk.val) (by rw [k2_off42_eq]; rfl) (by omega) (by rw [k2_off55_eq]; rfl) _ (by rfl) _ l
  have hA13 : (tripW4.sl.v1095 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 13 :=
    leaf_termU d L 1 13 e t k htr mt c' hc' (k2_off56 kk) (k2_off56_inb kk) (by rw [k2_off56_eq]; rfl) (by rw [k2_off56_eq]; rfl) _
      (k2_off42 kk) (k2_off42_inb kk) (by rw [k2_off42_eq]; rfl) (32 * kk.val) (by rw [k2_off42_eq]; rfl) (by omega) (by rw [k2_off56_eq]; rfl) _ (by rfl) _ l
  have hA14 : (tripW4.sl.v1104 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 14 :=
    leaf_termU d L 1 14 e t k htr mt c' hc' (k2_off57 kk) (k2_off57_inb kk) (by rw [k2_off57_eq]; rfl) (by rw [k2_off57_eq]; rfl) _
      (k2_off42 kk) (k2_off42_inb kk) (by rw [k2_off42_eq]; rfl) (32 * kk.val) (by rw [k2_off42_eq]; rfl) (by omega) (by rw [k2_off57_eq]; rfl) _ (by rfl) _ l
  have hA15 : (tripW4.sl.v1113 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val) + l.val) 15 :=
    leaf_termU d L 1 15 e t k htr mt c' hc' (k2_off58 kk) (k2_off58_inb kk) (by rw [k2_off58_eq]; rfl) (by rw [k2_off58_eq]; rfl) _
      (k2_off42 kk) (k2_off42_inb kk) (by rw [k2_off42_eq]; rfl) (32 * kk.val) (by rw [k2_off42_eq]; rfl) (by omega) (by rw [k2_off58_eq]; rfl) _ (by rfl) _ l
  rw [payU_eq]
  show sq (((((tripW4.sl.v978 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v987 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal)) + ((tripW4.sl.v996 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1005 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal))) + (((tripW4.sl.v1014 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1023 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal)) + ((tripW4.sl.v1032 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1041 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal)))) + ((((tripW4.sl.v1050 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1059 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal)) + ((tripW4.sl.v1068 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1077 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal))) + (((tripW4.sl.v1086 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1095 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal)) + ((tripW4.sl.v1104 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1113 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal))))) = _
  rw [hA0, hA1, hA2, hA3, hA4, hA5, hA6, hA7, hA8, hA9, hA10, hA11, hA12, hA13, hA14, hA15]
  refine congrArg sq ?_
  simp only [Finset.sum_range_succ, Finset.sum_range_zero, zero_add]
  ac_rfl

/-- The payload of the second group of a trip over slot 1, lane l: the contribution of the tile's voxel 2048·c' + 32 * kk + 16 + l. -/
theorem pay4b (e : Buf (Elt Ideal) ((eW).view.loc (thr d L))) (t : Buf (Elt Ideal) ((tW).view.loc (thr d L))) (k : Buf (Elt Ideal) ((kW).view.loc (thr d L)))
    (htr : ∀ j, (t j : BitVec 32).toNat ≤ 63) (mt : Buf (Elt Ideal) ((mT).view.loc (thr d L))) (c' : ℕ) (hc' : c' ≤ 31) (kk : Fin k2_t4_loop.trips) (l : Fin 16) :
    ((k2_pay143 (tripW4.sl.v1298 d L (rowsX4 d L e (oeC L c') (heC L c')) (rowT4 d L t (otC L c') (htC L c')) (rowM4 d L k (otC L c') (htC L c')) mt (clampT_le d L 1 _ (landed_le d L 1 t htr (otC L c') (htC L c'))) kk) (tripW4.sl.v1299 d L (rowsX4 d L e (oeC L c') (heC L c')) (rowT4 d L t (otC L c') (htC L c')) (rowM4 d L k (otC L c') (htC L c')) mt (clampT_le d L 1 _ (landed_le d L 1 t htr (otC L c') (htC L c'))) kk) (tripW4.sl.v1300 d L (rowsX4 d L e (oeC L c') (heC L c')) (rowT4 d L t (otC L c') (htC L c')) (rowM4 d L k (otC L c') (htC L c')) mt (clampT_le d L 1 _ (landed_le d L 1 t htr (otC L c') (htC L c'))) kk) (tripW4.sl.v1301 d L (rowsX4 d L e (oeC L c') (heC L c')) (rowT4 d L t (otC L c') (htC L c')) (rowM4 d L k (otC L c') (htC L c')) mt (clampT_le d L 1 _ (landed_le d L 1 t htr (otC L c') (htC L c'))) kk)) (Shape.ofLane (d := ![16]) l) : EReal) = payU L e t k mt (2048 * c' + (32 * kk.val + 16) + l.val) := by
  have hA0 : (tripW4.sl.v1154 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 0 :=
    leaf_termU d L 1 0 e t k htr mt c' hc' (k2_off60 kk) (k2_off60_inb kk) (by rw [k2_off60_eq]; rfl) (by rw [k2_off60_eq]; rfl) _
      (k2_off59 kk) (k2_off59_inb kk) (by rw [k2_off59_eq]; rfl) (32 * kk.val + 16) (by rw [k2_off59_eq]; rfl) (by omega) (by rw [k2_off60_eq]; rfl) _ (by rfl) _ l
  have hA1 : (tripW4.sl.v1163 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 1 :=
    leaf_termU d L 1 1 e t k htr mt c' hc' (k2_off61 kk) (k2_off61_inb kk) (by rw [k2_off61_eq]; rfl) (by rw [k2_off61_eq]; rfl) _
      (k2_off59 kk) (k2_off59_inb kk) (by rw [k2_off59_eq]; rfl) (32 * kk.val + 16) (by rw [k2_off59_eq]; rfl) (by omega) (by rw [k2_off61_eq]; rfl) _ (by rfl) _ l
  have hA2 : (tripW4.sl.v1172 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 2 :=
    leaf_termU d L 1 2 e t k htr mt c' hc' (k2_off62 kk) (k2_off62_inb kk) (by rw [k2_off62_eq]; rfl) (by rw [k2_off62_eq]; rfl) _
      (k2_off59 kk) (k2_off59_inb kk) (by rw [k2_off59_eq]; rfl) (32 * kk.val + 16) (by rw [k2_off59_eq]; rfl) (by omega) (by rw [k2_off62_eq]; rfl) _ (by rfl) _ l
  have hA3 : (tripW4.sl.v1181 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 3 :=
    leaf_termU d L 1 3 e t k htr mt c' hc' (k2_off63 kk) (k2_off63_inb kk) (by rw [k2_off63_eq]; rfl) (by rw [k2_off63_eq]; rfl) _
      (k2_off59 kk) (k2_off59_inb kk) (by rw [k2_off59_eq]; rfl) (32 * kk.val + 16) (by rw [k2_off59_eq]; rfl) (by omega) (by rw [k2_off63_eq]; rfl) _ (by rfl) _ l
  have hA4 : (tripW4.sl.v1190 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 4 :=
    leaf_termU d L 1 4 e t k htr mt c' hc' (k2_off64 kk) (k2_off64_inb kk) (by rw [k2_off64_eq]; rfl) (by rw [k2_off64_eq]; rfl) _
      (k2_off59 kk) (k2_off59_inb kk) (by rw [k2_off59_eq]; rfl) (32 * kk.val + 16) (by rw [k2_off59_eq]; rfl) (by omega) (by rw [k2_off64_eq]; rfl) _ (by rfl) _ l
  have hA5 : (tripW4.sl.v1199 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 5 :=
    leaf_termU d L 1 5 e t k htr mt c' hc' (k2_off65 kk) (k2_off65_inb kk) (by rw [k2_off65_eq]; rfl) (by rw [k2_off65_eq]; rfl) _
      (k2_off59 kk) (k2_off59_inb kk) (by rw [k2_off59_eq]; rfl) (32 * kk.val + 16) (by rw [k2_off59_eq]; rfl) (by omega) (by rw [k2_off65_eq]; rfl) _ (by rfl) _ l
  have hA6 : (tripW4.sl.v1208 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 6 :=
    leaf_termU d L 1 6 e t k htr mt c' hc' (k2_off66 kk) (k2_off66_inb kk) (by rw [k2_off66_eq]; rfl) (by rw [k2_off66_eq]; rfl) _
      (k2_off59 kk) (k2_off59_inb kk) (by rw [k2_off59_eq]; rfl) (32 * kk.val + 16) (by rw [k2_off59_eq]; rfl) (by omega) (by rw [k2_off66_eq]; rfl) _ (by rfl) _ l
  have hA7 : (tripW4.sl.v1217 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 7 :=
    leaf_termU d L 1 7 e t k htr mt c' hc' (k2_off67 kk) (k2_off67_inb kk) (by rw [k2_off67_eq]; rfl) (by rw [k2_off67_eq]; rfl) _
      (k2_off59 kk) (k2_off59_inb kk) (by rw [k2_off59_eq]; rfl) (32 * kk.val + 16) (by rw [k2_off59_eq]; rfl) (by omega) (by rw [k2_off67_eq]; rfl) _ (by rfl) _ l
  have hA8 : (tripW4.sl.v1226 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 8 :=
    leaf_termU d L 1 8 e t k htr mt c' hc' (k2_off68 kk) (k2_off68_inb kk) (by rw [k2_off68_eq]; rfl) (by rw [k2_off68_eq]; rfl) _
      (k2_off59 kk) (k2_off59_inb kk) (by rw [k2_off59_eq]; rfl) (32 * kk.val + 16) (by rw [k2_off59_eq]; rfl) (by omega) (by rw [k2_off68_eq]; rfl) _ (by rfl) _ l
  have hA9 : (tripW4.sl.v1235 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 9 :=
    leaf_termU d L 1 9 e t k htr mt c' hc' (k2_off69 kk) (k2_off69_inb kk) (by rw [k2_off69_eq]; rfl) (by rw [k2_off69_eq]; rfl) _
      (k2_off59 kk) (k2_off59_inb kk) (by rw [k2_off59_eq]; rfl) (32 * kk.val + 16) (by rw [k2_off59_eq]; rfl) (by omega) (by rw [k2_off69_eq]; rfl) _ (by rfl) _ l
  have hA10 : (tripW4.sl.v1244 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 10 :=
    leaf_termU d L 1 10 e t k htr mt c' hc' (k2_off70 kk) (k2_off70_inb kk) (by rw [k2_off70_eq]; rfl) (by rw [k2_off70_eq]; rfl) _
      (k2_off59 kk) (k2_off59_inb kk) (by rw [k2_off59_eq]; rfl) (32 * kk.val + 16) (by rw [k2_off59_eq]; rfl) (by omega) (by rw [k2_off70_eq]; rfl) _ (by rfl) _ l
  have hA11 : (tripW4.sl.v1253 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 11 :=
    leaf_termU d L 1 11 e t k htr mt c' hc' (k2_off71 kk) (k2_off71_inb kk) (by rw [k2_off71_eq]; rfl) (by rw [k2_off71_eq]; rfl) _
      (k2_off59 kk) (k2_off59_inb kk) (by rw [k2_off59_eq]; rfl) (32 * kk.val + 16) (by rw [k2_off59_eq]; rfl) (by omega) (by rw [k2_off71_eq]; rfl) _ (by rfl) _ l
  have hA12 : (tripW4.sl.v1262 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 12 :=
    leaf_termU d L 1 12 e t k htr mt c' hc' (k2_off72 kk) (k2_off72_inb kk) (by rw [k2_off72_eq]; rfl) (by rw [k2_off72_eq]; rfl) _
      (k2_off59 kk) (k2_off59_inb kk) (by rw [k2_off59_eq]; rfl) (32 * kk.val + 16) (by rw [k2_off59_eq]; rfl) (by omega) (by rw [k2_off72_eq]; rfl) _ (by rfl) _ l
  have hA13 : (tripW4.sl.v1271 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 13 :=
    leaf_termU d L 1 13 e t k htr mt c' hc' (k2_off73 kk) (k2_off73_inb kk) (by rw [k2_off73_eq]; rfl) (by rw [k2_off73_eq]; rfl) _
      (k2_off59 kk) (k2_off59_inb kk) (by rw [k2_off59_eq]; rfl) (32 * kk.val + 16) (by rw [k2_off59_eq]; rfl) (by omega) (by rw [k2_off73_eq]; rfl) _ (by rfl) _ l
  have hA14 : (tripW4.sl.v1280 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 14 :=
    leaf_termU d L 1 14 e t k htr mt c' hc' (k2_off74 kk) (k2_off74_inb kk) (by rw [k2_off74_eq]; rfl) (by rw [k2_off74_eq]; rfl) _
      (k2_off59 kk) (k2_off59_inb kk) (by rw [k2_off59_eq]; rfl) (32 * kk.val + 16) (by rw [k2_off59_eq]; rfl) (by omega) (by rw [k2_off74_eq]; rfl) _ (by rfl) _ l
  have hA15 : (tripW4.sl.v1289 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) = termU L e t k mt (2048 * c' + (32 * kk.val + 16) + l.val) 15 :=
    leaf_termU d L 1 15 e t k htr mt c' hc' (k2_off75 kk) (k2_off75_inb kk) (by rw [k2_off75_eq]; rfl) (by rw [k2_off75_eq]; rfl) _
      (k2_off59 kk) (k2_off59_inb kk) (by rw [k2_off59_eq]; rfl) (32 * kk.val + 16) (by rw [k2_off59_eq]; rfl) (by omega) (by rw [k2_off75_eq]; rfl) _ (by rfl) _ l
  rw [payU_eq]
  show sq (((((tripW4.sl.v1154 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1163 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal)) + ((tripW4.sl.v1172 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1181 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal))) + (((tripW4.sl.v1190 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1199 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal)) + ((tripW4.sl.v1208 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1217 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal)))) + ((((tripW4.sl.v1226 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1235 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal)) + ((tripW4.sl.v1244 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1253 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal))) + (((tripW4.sl.v1262 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1271 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal)) + ((tripW4.sl.v1280 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal) + (tripW4.sl.v1289 d L (rowsX4 d L e (oeC L c') (heC L c')) (rowT4 d L t (otC L c') (htC L c')) (rowM4 d L k (otC L c') (htC L c')) mt (clampT_le d L 1 _ (landed_le d L 1 t htr (otC L c') (htC L c'))) kk (Shape.ofLane (d := ![16]) l) : EReal))))) = _
  rw [hA0, hA1, hA2, hA3, hA4, hA5, hA6, hA7, hA8, hA9, hA10, hA11, hA12, hA13, hA14, hA15]
  refine congrArg sq ?_
  simp only [Finset.sum_range_succ, Finset.sum_range_zero, zero_add]
  ac_rfl

end Cert.Proof.KI.Pass2

end
-- ==== Proof.Pass2VM.lean ====
import proofs.«210783_g59777354826199_cont_9to1_m_168_18_alg».proof.Proof.Pass2VL

noncomputable section

namespace Cert.Proof.KI.Pass2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ

/-! # The per-group statements, and the second kernel's body with its value -/

variable (d : Dev nD) (L : grid2.Coords)

/-- A lane's index is element x exactly when its word is x's position. -/
theorem idxAt_eq_iff (v : IVec S16 32) (h : ∀ a x, ((![v] : Fin 1 → IVec S16 32) a x).toNat < S1024.size a) (y : S16.Idx) (x : S1024.Idx) :
    idxAt (s := S1024) ![v] h y = x ↔ (v y).toNat = (x 0).val := by
  constructor
  · intro he
    exact congrArg (fun i : S1024.Idx => (i 0).val) he
  · intro he
    funext a
    match a with
    | ⟨0, _⟩ => exact Fin.ext he

/-- A GROUP'S SUM in closed form: slot b holding chunk c', the group at (b, o₁ …) with payload p whose lane l is voxel
    2048·c' + o₁ + l's contribution, adds at element x what those sixteen voxels contribute there. -/
theorem grp_sum (b : Fin 2) (t : Buf (Elt Ideal) ((tW).view.loc (thr d L))) (k : Buf (Elt Ideal) ((kW).view.loc (thr d L)))
    (htr : ∀ j, (t j : BitVec 32).toNat ≤ 63) (c' : ℕ) (hc' : c' ≤ 31)
    (off2 : Fin 2 → ℕ) (inb2 : ∀ a, off2 a + S1x16.size a ≤ S2x2048.size a) (g0 : off2 0 = b.val) (o1 : ℕ) (ho1 : off2 1 = o1) (g16 : o1 % 16 = 0)
    (p : Vec Ideal S16 .f32) (e : Buf (Elt Ideal) ((eW).view.loc (thr d L))) (mt : Buf (Elt Ideal) ((mT).view.loc (thr d L)))
    (hp : ∀ l : Fin 16, (p (Shape.ofLane (d := ![16]) l) : EReal) = payU L e t k mt (2048 * c' + o1 + l.val)) (x : S1024.Idx) :
    laneSum
        (View.readAt (Elt Ideal) (mB).view (Rect.unit (s := S2x2048) off2 S1x16.size inb2).toLoadRect (landed d L (mWin b) (kSl (otC L c') (htC L c')) k))
        (View.readAt (Elt Ideal) (tB).view (Rect.unit (s := S2x2048) off2 S1x16.size inb2).toLoadRect (clampT d L b (landed d L (tWin b) (tSl (otC L c') (htC L c')) t)))
        (fun _ => clampT_le d L b _ (landed_le d L b t htr (otC L c') (htC L c')) _) p x
      = ∑ l ∈ Finset.range 16, HU L e t k mt (x 0).val (2048 * c' + o1 + l) := by
  unfold laneSum
  rw [Finset.sum_range]
  refine Finset.sum_congr rfl fun l _ => ?_
  have hg := groupIdx d L b t k htr c' hc' off2 inb2 g0 (by rw [ho1]; exact g16) l
  rw [ho1] at hg
  unfold HU
  rw [hp l]
  by_cases hx : idxU L t k (2048 * c' + o1 + l.val) = (x 0).val
  · rw [if_pos hx, if_pos ((idxAt_eq_iff _ _ _ x).mpr (hg.trans hx))]
  · rw [if_neg hx, if_neg (fun he => hx (hg.symm.trans ((idxAt_eq_iff _ _ _ x).mp he)))]

/-- The per-group statement for slot 0. -/
theorem laneSpec3 : LaneSpec3 := by
  intro d L e t k htr mt c hc kk x
  unfold D3
  refine congrArg₂ (· + ·) ?_ ?_
  · exact grp_sum d L 0 t k htr c hc (k2_off6 kk) (k2_off6_inb kk) (by rw [k2_off6_eq]; rfl) (32 * kk.val) (by rw [k2_off6_eq]; rfl) (by omega)
      _ e mt (fun l => pay3a d L e t k htr mt c hc kk l) x
  · refine (grp_sum d L 0 t k htr c hc (k2_off23 kk) (k2_off23_inb kk) (by rw [k2_off23_eq]; rfl) (32 * kk.val + 16) (by rw [k2_off23_eq]; rfl) (by omega)
      _ e mt (fun l => pay3b d L e t k htr mt c hc kk l) x).trans ?_
    refine Finset.sum_congr rfl fun l _ => ?_
    rw [show 2048 * c + (32 * kk.val + 16) + l = 2048 * c + 32 * kk.val + 16 + l by omega]

/-- The per-group statement for slot 1. -/
theorem laneSpec4 : LaneSpec4 := by
  intro d L e t k htr mt c hc kk x
  unfold D4
  refine congrArg₂ (· + ·) ?_ ?_
  · exact grp_sum d L 1 t k htr c hc (k2_off42 kk) (k2_off42_inb kk) (by rw [k2_off42_eq]; rfl) (32 * kk.val) (by rw [k2_off42_eq]; rfl) (by omega)
      _ e mt (fun l => pay4a d L e t k htr mt c hc kk l) x
  · refine (grp_sum d L 1 t k htr c hc (k2_off59 kk) (k2_off59_inb kk) (by rw [k2_off59_eq]; rfl) (32 * kk.val + 16) (by rw [k2_off59_eq]; rfl) (by omega)
      _ e mt (fun l => pay4b d L e t k htr mt c hc kk l) x).trans ?_
    refine Finset.sum_congr rfl fun l _ => ?_
    rw [show 2048 * c + (32 * kk.val + 16) + l = 2048 * c + 32 * kk.val + 16 + l by omega]

end Cert.Proof.KI.Pass2

namespace Cert.Proof.KI

/-- THE SECOND KERNEL'S BODY WITH ITS VALUE. -/
theorem body1V : Body1V := Pass2.body1V_of_lane Pass2.laneSpec3 Pass2.laneSpec4

end Cert.Proof.KI

end
-- ==== Proof.Pass1WA.lean ====
import proofs.«210783_g59777354826199_cont_9to1_m_168_18_alg».proof.Proof.Pass1I

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => 𝕄F F

variable (d : Dev nD) (L : grid0.Coords)

/-! # The first kernel's chunks, their landed rows, and a batch's deliveries with their contents

  Chunk m (of 32, each of 2048 voxels) of the tile's range starts at voxel 65536·(2·L₁ + L₀) + 2048·m; it is staged in
  slot m mod 2; trip g of the chunk loop accumulates the chunks 2g and 2g + 1 and issues the chunks 2g + 2 and 2g + 3
  (the last trip issues chunk 31 again, twice). -/

/-- The offsets of chunk m in the embedding (one per component) and in the targets and the mask. -/
def oeC0 (m : ℕ) : Fin 16 → Fin 1 → ℕ :=
  fun c => ![2097152 * c.val + 131072 * (L 1).val + 65536 * (L 0).val + 2048 * min m 31]
def otC0 (m : ℕ) : Fin 1 → ℕ := ![131072 * (L 1).val + 65536 * (L 0).val + 2048 * min m 31]

omit [FloatOps F] in
theorem heC0 (m : ℕ) : ∀ c a, oeC0 L m c a + S2048.size a ≤ S33554432.size a := by
  intro c a
  have ha : a = 0 := Subsingleton.elim _ _
  subst ha
  have h1 : (L 1).val < 16 := (L 1).isLt
  have h0 : (L 0).val < 2 := (L 0).isLt
  have hc := c.isLt
  show 2097152 * c.val + 131072 * (L 1).val + 65536 * (L 0).val + 2048 * min m 31 + 2048 ≤ 33554432
  omega
omit [FloatOps F] in
theorem htC0 (m : ℕ) : ∀ a, otC0 L m a + S2048.size a ≤ S2097152.size a := by
  intro a
  have ha : a = 0 := Subsingleton.elim _ _
  subst ha
  have h1 : (L 1).val < 16 := (L 1).isLt
  have h0 : (L 0).val < 2 := (L 0).isLt
  show 131072 * (L 1).val + 65536 * (L 0).val + 2048 * min m 31 + 2048 ≤ 2097152
  omega
omit [FloatOps F] in
/-- The components' chunks lie a row's length apart. -/
theorem sepC0 (m : ℕ) : ∀ c c' : Fin 16, c ≠ c' → oeC0 L m c 0 + 2048 ≤ oeC0 L m c' 0 ∨ oeC0 L m c' 0 + 2048 ≤ oeC0 L m c 0 := by
  intro c c' h
  have h' : c.val ≠ c'.val := fun e => h (Fin.ext e)
  show 2097152 * c.val + 131072 * (L 1).val + 65536 * (L 0).val + 2048 * min m 31 + 2048
      ≤ 2097152 * c'.val + 131072 * (L 1).val + 65536 * (L 0).val + 2048 * min m 31
    ∨ 2097152 * c'.val + 131072 * (L 1).val + 65536 * (L 0).val + 2048 * min m 31 + 2048
      ≤ 2097152 * c.val + 131072 * (L 1).val + 65536 * (L 0).val + 2048 * min m 31
  omega

omit [FloatOps F] in
/-- The two chunks issued before the loop are chunks 0 and 1, -/
theorem oeP0_eq : (fun c : Fin 16 => k0_off3 L (BitVec.ofNat 32 (2097152 * c.val))) = oeC0 L 0 := by
  funext c
  rw [k0_off3_eq]
  show ![2097152 * c.val + 131072 * (L 1).val + 65536 * (L 0).val] = ![2097152 * c.val + 131072 * (L 1).val + 65536 * (L 0).val + 2048 * min 0 31]
  simp
omit [FloatOps F] in
theorem otP0_eq : k0_off4 L = otC0 L 0 := by
  rw [k0_off4_eq]
  show ![131072 * (L 1).val + 65536 * (L 0).val] = ![131072 * (L 1).val + 65536 * (L 0).val + 2048 * min 0 31]
  simp
omit [FloatOps F] in
theorem oeP1_eq : (fun c : Fin 16 => k0_off5 L (BitVec.ofNat 32 (2097152 * c.val))) = oeC0 L 1 := by
  funext c
  rw [k0_off5_eq]
  show ![2097152 * c.val + 131072 * (L 1).val + 65536 * (L 0).val + 2048] = ![2097152 * c.val + 131072 * (L 1).val + 65536 * (L 0).val + 2048 * min 1 31]
  simp
omit [FloatOps F] in
theorem otP1_eq : k0_off6 L = otC0 L 1 := by
  rw [k0_off6_eq]
  show ![131072 * (L 1).val + 65536 * (L 0).val + 2048] = ![131072 * (L 1).val + 65536 * (L 0).val + 2048 * min 1 31]
  simp
omit [FloatOps F] in
/-- and trip g issues the chunks 2·g + 2 and 2·g + 3. -/
theorem oeN0_eq (g : Fin k0_t2_loop.trips) (r : Fin 2) :
    (fun c : Fin 16 => k0_off75 L g (BitVec.ofNat 32 (2097152 * c.val)) (BitVec.ofNat 32 r.val)) = oeC0 L (2 * (g.val + 1) + r.val) := by
  funext c
  rw [k0_off75_eq]
  show ![2097152 * c.val + 131072 * (L 1).val + 65536 * (L 0).val + 2048 * min (2 * g.val + r.val + 2) 31]
    = ![2097152 * c.val + 131072 * (L 1).val + 65536 * (L 0).val + 2048 * min (2 * (g.val + 1) + r.val) 31]
  rw [show 2 * g.val + r.val + 2 = 2 * (g.val + 1) + r.val by omega]
omit [FloatOps F] in
theorem otN0_eq (g : Fin k0_t2_loop.trips) (r : Fin 2) : k0_off76 L g (BitVec.ofNat 32 r.val) = otC0 L (2 * (g.val + 1) + r.val) := by
  rw [k0_off76_eq]
  show ![131072 * (L 1).val + 65536 * (L 0).val + 2048 * min (2 * g.val + r.val + 2) 31]
    = ![131072 * (L 1).val + 65536 * (L 0).val + 2048 * min (2 * (g.val + 1) + r.val) 31]
  rw [show 2 * g.val + r.val + 2 = 2 * (g.val + 1) + r.val by omega]

/-! ## What the rows hold once a chunk has landed -/

/-- A row of the embedding's slot once its chunk has landed over the contents fd: written through the row carved from
    the whole buffer, or as one listed write into the row held by its own elements. -/
abbrev xLanded (b c : ℕ) (hb : b < 2) (hc : c < 16) (o : Fin 1 → ℕ) (ho : ∀ a, o a + S2048.size a ≤ S33554432.size a)
    (e : Buf (Elt F) ((eW : Memref sig .scVector .hbm S33554432 .f32).view.loc (thr d L)))
    (fd : Buf (Elt F) ((xSlot b c hb hc).view.loc (thr d L))) : Buf (Elt F) ((xSlot b c hb hc).view.loc (thr d L)) :=
  (xSlot b c hb hc).view.write (Elt F) fd (ReadAs.same.apply ((eSrc o ho).view.read (Elt F) e)) Finset.univ
abbrev xLandedL (b c : ℕ) (hb : b < 2) (hc : c < 16) (o : Fin 1 → ℕ) (ho : ∀ a, o a + S2048.size a ≤ S33554432.size a)
    (e : Buf (Elt F) ((eW : Memref sig .scVector .hbm S33554432 .f32).view.loc (thr d L)))
    (fd : Buf (Elt F) ((xSlot b c hb hc).view.loc (thr d L))) : Buf (Elt F) ((xSlot b c hb hc).view.loc (thr d L)) :=
  (xSlot b c hb hc).view.writes (Elt F) fd [⟨Rect.whole S2048, ReadAs.same.apply ((eSrc o ho).view.read (Elt F) e)⟩]
/-- The mask's slot likewise. -/
abbrev mLanded (b : ℕ) (hb : b < 2) (ot : Fin 1 → ℕ) (hot : ∀ a, ot a + S2048.size a ≤ S2097152.size a)
    (k : Buf (Elt F) ((kW : Memref sig .scVector .hbm S2097152 .i32).view.loc (thr d L)))
    (fd : Buf (Elt F) ((mSlot b hb).view.loc (thr d L))) : Buf (Elt F) ((mSlot b hb).view.loc (thr d L)) :=
  (mSlot b hb).view.write (Elt F) fd (ReadAs.same.apply ((kSrc ot hot).view.read (Elt F) k)) Finset.univ
abbrev mLandedL (b : ℕ) (hb : b < 2) (ot : Fin 1 → ℕ) (hot : ∀ a, ot a + S2048.size a ≤ S2097152.size a)
    (k : Buf (Elt F) ((kW : Memref sig .scVector .hbm S2097152 .i32).view.loc (thr d L)))
    (fd : Buf (Elt F) ((mSlot b hb).view.loc (thr d L))) : Buf (Elt F) ((mSlot b hb).view.loc (thr d L)) :=
  (mSlot b hb).view.writes (Elt F) fd [⟨Rect.whole S2048, ReadAs.same.apply ((kSrc ot hot).view.read (Elt F) k)⟩]

/-- The eighteen deliveries of one chunk's batch into slot b, each row at named contents: sixteen rows of the embedding
    at xl, the targets at tl, the mask at ml, each source chunk back. -/
abbrev delivV (b : ℕ) (hb : b < 2) (oe : Fin 16 → Fin 1 → ℕ) (he : ∀ c a, oe c a + S2048.size a ≤ S33554432.size a)
    (ot : Fin 1 → ℕ) (hot : ∀ a, ot a + S2048.size a ≤ S2097152.size a) (q : PosShare TreeShare)
    (e : Buf (Elt F) ((eW : Memref sig .scVector .hbm S33554432 .f32).view.loc (thr d L)))
    (t : Buf (Elt F) ((tW : Memref sig .scVector .hbm S2097152 .i32).view.loc (thr d L)))
    (k : Buf (Elt F) ((kW : Memref sig .scVector .hbm S2097152 .i32).view.loc (thr d L)))
    (xl : Fin 16 → Buf (Elt F) ((xB : Memref sig .scVector .vmem S2x16x2048 .f32).view.loc (thr d L)))
    (tl : Buf (Elt F) ((tSlot b hb).view.loc (thr d L))) (ml : Buf (Elt F) ((mSlot b hb).view.loc (thr d L))) : Fin 18 → sProp 𝕄
  | ⟨0, _⟩ => iprop(heldOwn d L (xSlot b 0 hb (ltc rfl)) fullShare (xl 0) ∗ heldOwn d L (eSrc (oe 0) (he 0)) q e)
  | ⟨1, _⟩ => iprop(heldOwn d L (xSlot b 1 hb (ltc rfl)) fullShare (xl 1) ∗ heldOwn d L (eSrc (oe 1) (he 1)) q e)
  | ⟨2, _⟩ => iprop(heldOwn d L (xSlot b 2 hb (ltc rfl)) fullShare (xl 2) ∗ heldOwn d L (eSrc (oe 2) (he 2)) q e)
  | ⟨3, _⟩ => iprop(heldOwn d L (xSlot b 3 hb (ltc rfl)) fullShare (xl 3) ∗ heldOwn d L (eSrc (oe 3) (he 3)) q e)
  | ⟨4, _⟩ => iprop(heldOwn d L (xSlot b 4 hb (ltc rfl)) fullShare (xl 4) ∗ heldOwn d L (eSrc (oe 4) (he 4)) q e)
  | ⟨5, _⟩ => iprop(heldOwn d L (xSlot b 5 hb (ltc rfl)) fullShare (xl 5) ∗ heldOwn d L (eSrc (oe 5) (he 5)) q e)
  | ⟨6, _⟩ => iprop(heldOwn d L (xSlot b 6 hb (ltc rfl)) fullShare (xl 6) ∗ heldOwn d L (eSrc (oe 6) (he 6)) q e)
  | ⟨7, _⟩ => iprop(heldOwn d L (xSlot b 7 hb (ltc rfl)) fullShare (xl 7) ∗ heldOwn d L (eSrc (oe 7) (he 7)) q e)
  | ⟨8, _⟩ => iprop(heldOwn d L (xSlot b 8 hb (ltc rfl)) fullShare (xl 8) ∗ heldOwn d L (eSrc (oe 8) (he 8)) q e)
  | ⟨9, _⟩ => iprop(heldOwn d L (xSlot b 9 hb (ltc rfl)) fullShare (xl 9) ∗ heldOwn d L (eSrc (oe 9) (he 9)) q e)
  | ⟨10, _⟩ => iprop(heldOwn d L (xSlot b 10 hb (ltc rfl)) fullShare (xl 10) ∗ heldOwn d L (eSrc (oe 10) (he 10)) q e)
  | ⟨11, _⟩ => iprop(heldOwn d L (xSlot b 11 hb (ltc rfl)) fullShare (xl 11) ∗ heldOwn d L (eSrc (oe 11) (he 11)) q e)
  | ⟨12, _⟩ => iprop(heldOwn d L (xSlot b 12 hb (ltc rfl)) fullShare (xl 12) ∗ heldOwn d L (eSrc (oe 12) (he 12)) q e)
  | ⟨13, _⟩ => iprop(heldOwn d L (xSlot b 13 hb (ltc rfl)) fullShare (xl 13) ∗ heldOwn d L (eSrc (oe 13) (he 13)) q e)
  | ⟨14, _⟩ => iprop(heldOwn d L (xSlot b 14 hb (ltc rfl)) fullShare (xl 14) ∗ heldOwn d L (eSrc (oe 14) (he 14)) q e)
  | ⟨15, _⟩ => iprop(heldOwn d L (xSlot b 15 hb (ltc rfl)) fullShare (xl 15) ∗ heldOwn d L (eSrc (oe 15) (he 15)) q e)
  | ⟨16, _⟩ => iprop(heldOwn d L (tSlot b hb) fullShare tl ∗ heldOwn d L (tSrc ot hot) q t)
  | ⟨17, _⟩ => iprop(heldOwn d L (mSlot b hb) fullShare ml ∗ heldOwn d L (kSrc ot hot) q k)
  | ⟨n + 18, h⟩ => absurd h (by omega)

set_option maxHeartbeats 4000000 in
instance delivV_storable (b : ℕ) (hb : b < 2) (oe : Fin 16 → Fin 1 → ℕ) (he : ∀ c a, oe c a + S2048.size a ≤ S33554432.size a)
    (ot : Fin 1 → ℕ) (hot : ∀ a, ot a + S2048.size a ≤ S2097152.size a) (q : PosShare TreeShare)
    (e : Buf (Elt F) ((eW : Memref sig .scVector .hbm S33554432 .f32).view.loc (thr d L)))
    (t : Buf (Elt F) ((tW : Memref sig .scVector .hbm S2097152 .i32).view.loc (thr d L)))
    (k : Buf (Elt F) ((kW : Memref sig .scVector .hbm S2097152 .i32).view.loc (thr d L)))
    (xl : Fin 16 → Buf (Elt F) ((xB : Memref sig .scVector .vmem S2x16x2048 .f32).view.loc (thr d L)))
    (tl : Buf (Elt F) ((tSlot b hb).view.loc (thr d L))) (ml : Buf (Elt F) ((mSlot b hb).view.loc (thr d L))) : (i : Fin 18) →
    BI.Storable (upEmb : UEmb _ 𝕄) (delivV d L b hb oe he ot hot q e t k xl tl ml i)
  | ⟨0, _⟩ => (inferInstance : BI.Storable (upEmb : UEmb _ 𝕄) (iprop(heldOwn d L (xSlot b 0 hb (ltc rfl)) fullShare (xl 0) ∗ heldOwn d L (eSrc (oe 0) (he 0)) q e)))
  | ⟨1, _⟩ => (inferInstance : BI.Storable (upEmb : UEmb _ 𝕄) (iprop(heldOwn d L (xSlot b 1 hb (ltc rfl)) fullShare (xl 1) ∗ heldOwn d L (eSrc (oe 1) (he 1)) q e)))
  | ⟨2, _⟩ => (inferInstance : BI.Storable (upEmb : UEmb _ 𝕄) (iprop(heldOwn d L (xSlot b 2 hb (ltc rfl)) fullShare (xl 2) ∗ heldOwn d L (eSrc (oe 2) (he 2)) q e)))
  | ⟨3, _⟩ => (inferInstance : BI.Storable (upEmb : UEmb _ 𝕄) (iprop(heldOwn d L (xSlot b 3 hb (ltc rfl)) fullShare (xl 3) ∗ heldOwn d L (eSrc (oe 3) (he 3)) q e)))
  | ⟨4, _⟩ => (inferInstance : BI.Storable (upEmb : UEmb _ 𝕄) (iprop(heldOwn d L (xSlot b 4 hb (ltc rfl)) fullShare (xl 4) ∗ heldOwn d L (eSrc (oe 4) (he 4)) q e)))
  | ⟨5, _⟩ => (inferInstance : BI.Storable (upEmb : UEmb _ 𝕄) (iprop(heldOwn d L (xSlot b 5 hb (ltc rfl)) fullShare (xl 5) ∗ heldOwn d L (eSrc (oe 5) (he 5)) q e)))
  | ⟨6, _⟩ => (inferInstance : BI.Storable (upEmb : UEmb _ 𝕄) (iprop(heldOwn d L (xSlot b 6 hb (ltc rfl)) fullShare (xl 6) ∗ heldOwn d L (eSrc (oe 6) (he 6)) q e)))
  | ⟨7, _⟩ => (inferInstance : BI.Storable (upEmb : UEmb _ 𝕄) (iprop(heldOwn d L (xSlot b 7 hb (ltc rfl)) fullShare (xl 7) ∗ heldOwn d L (eSrc (oe 7) (he 7)) q e)))
  | ⟨8, _⟩ => (inferInstance : BI.Storable (upEmb : UEmb _ 𝕄) (iprop(heldOwn d L (xSlot b 8 hb (ltc rfl)) fullShare (xl 8) ∗ heldOwn d L (eSrc (oe 8) (he 8)) q e)))
  | ⟨9, _⟩ => (inferInstance : BI.Storable (upEmb : UEmb _ 𝕄) (iprop(heldOwn d L (xSlot b 9 hb (ltc rfl)) fullShare (xl 9) ∗ heldOwn d L (eSrc (oe 9) (he 9)) q e)))
  | ⟨10, _⟩ => (inferInstance : BI.Storable (upEmb : UEmb _ 𝕄) (iprop(heldOwn d L (xSlot b 10 hb (ltc rfl)) fullShare (xl 10) ∗ heldOwn d L (eSrc (oe 10) (he 10)) q e)))
  | ⟨11, _⟩ => (inferInstance : BI.Storable (upEmb : UEmb _ 𝕄) (iprop(heldOwn d L (xSlot b 11 hb (ltc rfl)) fullShare (xl 11) ∗ heldOwn d L (eSrc (oe 11) (he 11)) q e)))
  | ⟨12, _⟩ => (inferInstance : BI.Storable (upEmb : UEmb _ 𝕄) (iprop(heldOwn d L (xSlot b 12 hb (ltc rfl)) fullShare (xl 12) ∗ heldOwn d L (eSrc (oe 12) (he 12)) q e)))
  | ⟨13, _⟩ => (inferInstance : BI.Storable (upEmb : UEmb _ 𝕄) (iprop(heldOwn d L (xSlot b 13 hb (ltc rfl)) fullShare (xl 13) ∗ heldOwn d L (eSrc (oe 13) (he 13)) q e)))
  | ⟨14, _⟩ => (inferInstance : BI.Storable (upEmb : UEmb _ 𝕄) (iprop(heldOwn d L (xSlot b 14 hb (ltc rfl)) fullShare (xl 14) ∗ heldOwn d L (eSrc (oe 14) (he 14)) q e)))
  | ⟨15, _⟩ => (inferInstance : BI.Storable (upEmb : UEmb _ 𝕄) (iprop(heldOwn d L (xSlot b 15 hb (ltc rfl)) fullShare (xl 15) ∗ heldOwn d L (eSrc (oe 15) (he 15)) q e)))
  | ⟨16, _⟩ => (inferInstance : BI.Storable (upEmb : UEmb _ 𝕄) (iprop(heldOwn d L (tSlot b hb) fullShare tl ∗ heldOwn d L (tSrc ot hot) q t)))
  | ⟨17, _⟩ => (inferInstance : BI.Storable (upEmb : UEmb _ 𝕄) (iprop(heldOwn d L (mSlot b hb) fullShare ml ∗ heldOwn d L (kSrc ot hot) q k)))
  | ⟨n + 18, h⟩ => absurd h (by omega)

/-! ## The slots' contents with chunk m landed, as functions of the arrays -/

variable [∀ e, Nonempty (Elt F e)]

omit [FloatOps F] [∀ e, Nonempty (Elt F e)] in
theorem mslot_lt (m : ℕ) : m % 2 < 2 := Nat.mod_lt _ (by decide)

/-- The sixteen rows of slot m mod 2 of the embedding's staging buffer, chunk m landed. -/
def GX0 (e : Buf (Elt F) ((eW : Memref sig .scVector .hbm S33554432 .f32).view.loc (thr d L))) (m : ℕ) :
    Fin 16 → Buf (Elt F) ((xB : Memref sig .scVector .vmem S2x16x2048 .f32).view.loc (thr d L)) := fun c =>
  xLandedL d L (m % 2) c.val (mslot_lt m) c.isLt (oeC0 L m c) (heC0 L m c) e (xSlot (m % 2) c.val (mslot_lt m) c.isLt).view.junk
/-- The mask's slot, chunk m landed. -/
def GM0 (k : Buf (Elt F) ((kW : Memref sig .scVector .hbm S2097152 .i32).view.loc (thr d L))) (m : ℕ) :
    Buf (Elt F) ((mB : Memref sig .scVector .vmem S2x2048 .i32).view.loc (thr d L)) :=
  mLandedL d L (m % 2) (mslot_lt m) (otC0 L m) (htC0 L m) k (mSlot (m % 2) (mslot_lt m)).view.junk
/-- The targets' slot, chunk m landed, -/
def TL0 (t : Buf (Elt F) ((tW : Memref sig .scVector .hbm S2097152 .i32).view.loc (thr d L))) (m : ℕ) :
    Buf (Elt F) ((tB : Memref sig .scVector .vmem S2x2048 .i32).view.loc (thr d L)) :=
  tLandedL d L (m % 2) (mslot_lt m) (otC0 L m) (htC0 L m) t (tSlot (m % 2) (mslot_lt m)).view.junk
/-- and the same with every word out of range (none on the slot, the targets being in range) read as zero. -/
def GT0 (t : Buf (Elt F) ((tW : Memref sig .scVector .hbm S2097152 .i32).view.loc (thr d L))) (m : ℕ) :
    Buf (Elt F) ((tB : Memref sig .scVector .vmem S2x2048 .i32).view.loc (thr d L)) :=
  fun i => if (TL0 d L t m i : BitVec 32).toNat ≤ 63 then TL0 d L t m i else (0#32 : BitVec 32)

omit [FloatOps F] [∀ e, Nonempty (Elt F e)] in
/-- A word kept where it is in range and read as zero elsewhere is in range. -/
theorem clamp63_le (v : BitVec 32) : (if v.toNat ≤ 63 then v else (0#32 : BitVec 32)).toNat ≤ 63 := by
  split
  · assumption
  · decide

omit [FloatOps F] in
theorem hGT0 (t : Buf (Elt F) ((tW : Memref sig .scVector .hbm S2097152 .i32).view.loc (thr d L))) :
    ∀ m i, (GT0 d L t m i : BitVec 32).toNat ≤ 63 :=
  fun m i => clamp63_le (TL0 d L t m i : BitVec 32)

end Cert.Proof.KI.Pass1

end
-- ==== Proof.Pass1VA.lean ====
/-
  The first SparseCore call's scatter loops with their value, first part: the indexed add-store into an accumulator held
  whole at named contents leaves it at the store's rewriting of those contents; the scatter loop's invariant with both
  accumulators at named contents.
-/
import proofs.«210783_g59777354826199_cont_9to1_m_168_18_alg».proof.Proof.Pass1I
import proofs.«210783_g59777354826199_cont_9to1_m_168_18_alg».proof.Proof.LibStoreIdx

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [∀ e, Nonempty (Elt F e)] [FloatOps F]

local notation "𝕄" => 𝕄F F

variable (d : Dev nD) (L : grid0.Coords)

/-- An indexed add-store into the sums, held whole at f: they are held whole again, at the store's rewriting of f. -/
theorem storeIdx_aV {α : Type} {dd : Fin 1 → Nat} {idxs : Fin S16384.rank → IVec ⟨1, dd⟩ 32} {v : Vec F ⟨1, dd⟩ .f32}
    {mask : IVec ⟨1, dd⟩ 1} {add : Bool} {h : ∀ a x, (idxs a x).toNat < S16384.size a}
    {hs : ((aB : Memref sig .scVector .vmem S16384 .f32).access (.whole S16384)).Stores Finset.univ}
    {kk : PUnit → Prog (TpuEff nD τ sig (Elt F) Λ₀ (thr d L).2) α} {Q : α → sProp 𝕄}
    (f : Buf (Elt F) ((aB : Memref sig .scVector .vmem S16384 .f32).view.loc (thr d L))) :
    ((aB : Memref sig .scVector .vmem S16384 .f32).view.loc (thr d L) ↦{fullShare} f : sProp 𝕄)
      ⊢ iprop((((aB : Memref sig .scVector .vmem S16384 .f32).view.loc (thr d L) ↦{fullShare}
              (storeIdx (s := S16384) (f : Vec F S16384 .f32) idxs v mask add h : Buf (Elt F) ((aB : Memref sig .scVector .vmem S16384 .f32).view.loc (thr d L))))
          -∗ wp frame (wpE (defs₀ (F := F)) 𝒱₀ (thr d L) none) Set.univ (kk ⟨⟩) Q)
        -∗ wp frame (wpE (defs₀ (F := F)) 𝒱₀ (thr d L) none) Set.univ (SparseCore.vectorStoreIdx aB idxs v mask add h hs >>= kk) Q) := by
  have es : ((aB : Memref sig .scVector .vmem S16384 .f32).access (.whole S16384)).set = Finset.univ := Memref.set_access_whole _
  have ew : ((aB : Memref sig .scVector .vmem S16384 .f32).access (.whole S16384)).write (Elt F) f
      (storeIdx (((aB : Memref sig .scVector .vmem S16384 .f32).access (.whole S16384)).read (Elt F) f) idxs v mask add h) Finset.univ
        = (storeIdx (s := S16384) (f : Vec F S16384 .f32) idxs v mask add h : Buf (Elt F) ((aB : Memref sig .scVector .vmem S16384 .f32).view.loc (thr d L))) := by
    refine (Memref.write_access_whole_univ (Elt F) cc0_scratch3 f _).trans ?_
    exact congrArg (fun g : Vec F S16384 .f32 => storeIdx (s := S16384) g idxs v mask add h) (Memref.read_access_whole (Elt F) cc0_scratch3 f)
  iintro H Hk
  iapply (SparseCore.wp_vectorStoreIdx (defs := defs₀ (F := F)) (𝒱 := 𝒱₀) (c := thr d L) (bd := none) (E := Set.univ) (Q := Q)
    (base := aB) (idxs := idxs) (v := v) (mask := mask) (add := add) (h := h) (hs := hs) (k := kk) (f := f)) $$ [H]
  · rw [es]; iexact H
  iintro H'
  iapply Hk
  rw [es, ew]
  iexact H'

/-- An indexed add-store into the counts, held whole at f: they are held whole again, at the store's rewriting of f. -/
theorem storeIdx_cV {α : Type} {dd : Fin 1 → Nat} {idxs : Fin S1024.rank → IVec ⟨1, dd⟩ 32} {v : Vec F ⟨1, dd⟩ .f32}
    {mask : IVec ⟨1, dd⟩ 1} {add : Bool} {h : ∀ a x, (idxs a x).toNat < S1024.size a}
    {hs : ((cB : Memref sig .scVector .vmem S1024 .f32).access (.whole S1024)).Stores Finset.univ}
    {kk : PUnit → Prog (TpuEff nD τ sig (Elt F) Λ₀ (thr d L).2) α} {Q : α → sProp 𝕄}
    (f : Buf (Elt F) ((cB : Memref sig .scVector .vmem S1024 .f32).view.loc (thr d L))) :
    ((cB : Memref sig .scVector .vmem S1024 .f32).view.loc (thr d L) ↦{fullShare} f : sProp 𝕄)
      ⊢ iprop((((cB : Memref sig .scVector .vmem S1024 .f32).view.loc (thr d L) ↦{fullShare}
              (storeIdx (s := S1024) (f : Vec F S1024 .f32) idxs v mask add h : Buf (Elt F) ((cB : Memref sig .scVector .vmem S1024 .f32).view.loc (thr d L))))
          -∗ wp frame (wpE (defs₀ (F := F)) 𝒱₀ (thr d L) none) Set.univ (kk ⟨⟩) Q)
        -∗ wp frame (wpE (defs₀ (F := F)) 𝒱₀ (thr d L) none) Set.univ (SparseCore.vectorStoreIdx cB idxs v mask add h hs >>= kk) Q) := by
  have es : ((cB : Memref sig .scVector .vmem S1024 .f32).access (.whole S1024)).set = Finset.univ := Memref.set_access_whole _
  have ew : ((cB : Memref sig .scVector .vmem S1024 .f32).access (.whole S1024)).write (Elt F) f
      (storeIdx (((cB : Memref sig .scVector .vmem S1024 .f32).access (.whole S1024)).read (Elt F) f) idxs v mask add h) Finset.univ
        = (storeIdx (s := S1024) (f : Vec F S1024 .f32) idxs v mask add h : Buf (Elt F) ((cB : Memref sig .scVector .vmem S1024 .f32).view.loc (thr d L))) := by
    refine (Memref.write_access_whole_univ (Elt F) cc0_scratch4 f _).trans ?_
    exact congrArg (fun g : Vec F S1024 .f32 => storeIdx (s := S1024) g idxs v mask add h) (Memref.read_access_whole (Elt F) cc0_scratch4 f)
  iintro H Hk
  iapply (SparseCore.wp_vectorStoreIdx (defs := defs₀ (F := F)) (𝒱 := 𝒱₀) (c := thr d L) (bd := none) (E := Set.univ) (Q := Q)
    (base := cB) (idxs := idxs) (v := v) (mask := mask) (add := add) (h := h) (hs := hs) (k := kk) (f := f)) $$ [H]
  · rw [es]; iexact H
  iintro H'
  iapply Hk
  rw [es, ew]
  iexact H'

/-- While slot b's chunk is scattered, with the accumulators' contents: the sums at fa, the counts at fc, the slot's
    eighteen rows at their contents. -/
def invIV (b : ℕ) (hb : b < 2) (gx : Fin 16 → Buf (Elt F) ((xB : Memref sig .scVector .vmem S2x16x2048 .f32).view.loc (thr d L)))
    (ft' : Buf (Elt F) ((tB : Memref sig .scVector .vmem S2x2048 .i32).view.loc (thr d L)))
    (gm : Buf (Elt F) ((mB : Memref sig .scVector .vmem S2x2048 .i32).view.loc (thr d L)))
    (fa : Buf (Elt F) ((aB : Memref sig .scVector .vmem S16384 .f32).view.loc (thr d L)))
    (fc : Buf (Elt F) ((cB : Memref sig .scVector .vmem S1024 .f32).view.loc (thr d L))) : sProp 𝕄 :=
  iprop(((aB : Memref sig .scVector .vmem S16384 .f32).view.loc (thr d L) ↦{fullShare} fa)
    ∗ ((cB : Memref sig .scVector .vmem S1024 .f32).view.loc (thr d L) ↦{fullShare} fc)
    ∗ heldOwn d L (xSlot b 0 hb (ltc rfl)) fullShare (gx 0)
    ∗ heldOwn d L (xSlot b 1 hb (ltc rfl)) fullShare (gx 1)
    ∗ heldOwn d L (xSlot b 2 hb (ltc rfl)) fullShare (gx 2)
    ∗ heldOwn d L (xSlot b 3 hb (ltc rfl)) fullShare (gx 3)
    ∗ heldOwn d L (xSlot b 4 hb (ltc rfl)) fullShare (gx 4)
    ∗ heldOwn d L (xSlot b 5 hb (ltc rfl)) fullShare (gx 5)
    ∗ heldOwn d L (xSlot b 6 hb (ltc rfl)) fullShare (gx 6)
    ∗ heldOwn d L (xSlot b 7 hb (ltc rfl)) fullShare (gx 7)
    ∗ heldOwn d L (xSlot b 8 hb (ltc rfl)) fullShare (gx 8)
    ∗ heldOwn d L (xSlot b 9 hb (ltc rfl)) fullShare (gx 9)
    ∗ heldOwn d L (xSlot b 10 hb (ltc rfl)) fullShare (gx 10)
    ∗ heldOwn d L (xSlot b 11 hb (ltc rfl)) fullShare (gx 11)
    ∗ heldOwn d L (xSlot b 12 hb (ltc rfl)) fullShare (gx 12)
    ∗ heldOwn d L (xSlot b 13 hb (ltc rfl)) fullShare (gx 13)
    ∗ heldOwn d L (xSlot b 14 hb (ltc rfl)) fullShare (gx 14)
    ∗ heldOwn d L (xSlot b 15 hb (ltc rfl)) fullShare (gx 15)
    ∗ heldOwn d L (tSlot b hb) fullShare ft' ∗ heldOwn d L (mSlot b hb) fullShare gm)

end Cert.Proof.KI.Pass1
end
-- ==== Proof.Pass1VE.lean ====
/-
  The first SparseCore call's zeroing loop with its value: trip k writes sixteen zeros at offset 16·k of the counts and
  of each of the sixteen rows of the sums, so after k trips every element whose offset in its row is below 16·k is
  zero, and after all sixty-four trips both accumulators are zero throughout.
-/
import proofs.«210783_g59777354826199_cont_9to1_m_168_18_alg».proof.Proof.Pass1VA

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [∀ e, Nonempty (Elt F e)] [FloatOps F]

local notation "𝕄" => 𝕄F F

variable (d : Dev nD) (L : grid0.Coords)

/-- The zero the loop writes. -/
abbrev zF : Elt F .f32 := (Scalar.ofBits .f32 0x00000000#32 : F .f32)

omit [∀ e, Nonempty (Elt F e)] in
theorem pay269_apply (x : S16.Idx) : (k0_pay269 (F := F) x : Elt F .f32) = zF := rfl

omit [FloatOps F] [∀ e, Nonempty (Elt F e)] in
/-- Writes of one constant, covering every element of a stripe: the elements before the stripe being that constant,
    so are those through the stripe. -/
theorem writes_const_step {s : Shape} {κ : Kind} {sp : Space} (v : View sig κ sp s .f32) (f : v.ty.Contents (Elt F)) (z : Elt F .f32)
    (Ls : List (View.Piece (Elt F) s .f32)) (P Q : s.Idx → Prop)
    (hz : ∀ p ∈ Ls, ∀ x : p.1.shape.Idx, p.2 x = z)
    (hcov : ∀ y, Q y → ¬ P y → ∃ p ∈ Ls, y ∈ p.1.set)
    (hold : ∀ y, P y → v.read (Elt F) f y = z) :
    ∀ y, Q y → v.read (Elt F) (v.writes (Elt F) f Ls) y = z := by
  intro y hy
  by_cases hc : ∃ p ∈ Ls, y ∈ p.1.set
  · exact View.read_writes_apply_of_pieces (Val := Elt F) v f (fun _ => z) Ls hz y hc
  · rw [View.read_writes_apply_of_forall_not_mem (Val := Elt F) v f y Ls (fun p hp hy' => hc ⟨p, hp, hy'⟩)]
    exact hold y (by by_contra hP; exact hc (hcov y hy hP))

/-- Before trip k of the zeroing loop, with the value: both accumulators held whole, zero at every element whose offset
    in its row of 1024 is below 16·k. -/
def invZV (k : ℕ) (_acc : BitVec 32) : sProp 𝕄 :=
  iprop(∃ (fa : Buf (Elt F) ((aB : Memref sig .scVector .vmem S16384 .f32).view.loc (thr d L)))
      (fc : Buf (Elt F) ((cB : Memref sig .scVector .vmem S1024 .f32).view.loc (thr d L))),
    ((aB : Memref sig .scVector .vmem S16384 .f32).view.loc (thr d L) ↦{fullShare} fa)
    ∗ ((cB : Memref sig .scVector .vmem S1024 .f32).view.loc (thr d L) ↦{fullShare} fc)
    ∗ ⌜∀ y : S16384.Idx, (y 0).val % 1024 < 16 * k → (fa : Vec F S16384 .f32) y = zF⌝
    ∗ ⌜∀ y : S1024.Idx, (y 0).val < 16 * k → (fc : Vec F S1024 .f32) y = zF⌝)

omit [FloatOps F] [∀ e, Nonempty (Elt F e)] in
/-- Row r's stripe of trip k covers the elements of row r at offsets 16·k … 16·k + 15. -/
theorem mem_stripe_a (k0 : Fin k0_t1_loop.trips) (r : Fin 16) (y : S16384.Idx) (h1 : (y 0).val / 1024 = r.val)
    (h2 : 16 * k0.val ≤ (y 0).val % 1024) (h3 : (y 0).val % 1024 < 16 * (k0.val + 1)) :
    y ∈ (Rect.unit (s := S16384) (k0_off2 k0 (BitVec.ofNat 32 (1024 * r.val))) S16.size (k0_off2_inb k0 r)).set := by
  rw [Rect.mem_set_unit, k0_off2_eq]
  intro a
  obtain rfl : a = 0 := Subsingleton.elim _ _
  show 1024 * r.val + 16 * k0.val ≤ (y 0).val ∧ (y 0).val < 1024 * r.val + 16 * k0.val + 16
  omega

omit [FloatOps F] [∀ e, Nonempty (Elt F e)] in
theorem mem_stripe_c (k0 : Fin k0_t1_loop.trips) (y : S1024.Idx)
    (h2 : 16 * k0.val ≤ (y 0).val) (h3 : (y 0).val < 16 * (k0.val + 1)) :
    y ∈ (Rect.unit (s := S1024) (k0_off1 k0) S16.size (k0_off1_inb k0)).set := by
  rw [Rect.mem_set_unit, k0_off1_eq]
  intro a
  obtain rfl : a = 0 := Subsingleton.elim _ _
  show 16 * k0.val ≤ (y 0).val ∧ (y 0).val < 16 * k0.val + 16
  omega

set_option maxHeartbeats 4000000 in
/-- One trip of the zeroing loop at that invariant. -/
theorem regionZV (k0 : Fin k0_t1_loop.trips) (acc : BitVec 32) :
    invZV (F := F) d L k0.val acc ⊢ wp frame (wpE (defs₀ (F := F)) 𝒱₀ (thr d L) none) Set.univ
      ((k0_t1_body L eW (Memref.isWhole_whole _) tW (Memref.isWhole_whole _) kW (Memref.isWhole_whole _) o0W (Memref.isWhole_whole _) o1W (Memref.isWhole_whole _) xB (Memref.isWhole_whole _) tB (Memref.isWhole_whole _) mB (Memref.isWhole_whole _) aB (Memref.isWhole_whole _) cB (Memref.isWhole_whole _) cc0_scratch5 cc0_scratch6 cc0_scoped0 cc0_scoped1) k0 acc)
      (invZV (F := F) d L (k0.val + 1)) := by
  unfold invZV
  iintro ⟨%fa, %fc, Ha, Hc, %ha, %hc⟩
  sl_exec
  sl_step
  iexists _, _
  isplitl [Ha]; · iexact Ha
  isplitl [Hc]; · iexact Hc
  isplitr
  · ipureintro
    intro y hy
    refine ((show ∀ (g : Buf (Elt F) ((aB : Memref sig .scVector .vmem S16384 .f32).view.loc (thr d L))) (y : S16384.Idx),
      View.read (Elt F) (aB : Memref sig .scVector .vmem S16384 .f32).view g y = (g : Vec F S16384 .f32) y from fun _ _ => rfl) _ y).symm.trans ?_
    refine writes_const_step (F := F) (aB : Memref sig .scVector .vmem S16384 .f32).view fa zF _
      (fun y => (y 0).val % 1024 < 16 * k0.val) (fun y => (y 0).val % 1024 < 16 * (k0.val + 1)) ?_ ?_ ha y hy
    · intro p hp x
      simp only [List.mem_cons, List.not_mem_nil, _root_.or_false] at hp
      rcases hp with rfl | rfl | rfl | rfl | rfl | rfl | rfl | rfl | rfl | rfl | rfl | rfl | rfl | rfl | rfl | rfl <;> rfl
    · intro y hy hn
      have hlt : (y 0).val < 16384 := (y 0).isLt
      have hr : (y 0).val / 1024 < 16 := by omega
      have hcase : (y 0).val / 1024 = 0 ∨ (y 0).val / 1024 = 1 ∨ (y 0).val / 1024 = 2 ∨ (y 0).val / 1024 = 3 ∨ (y 0).val / 1024 = 4 ∨ (y 0).val / 1024 = 5 ∨ (y 0).val / 1024 = 6 ∨ (y 0).val / 1024 = 7 ∨ (y 0).val / 1024 = 8 ∨ (y 0).val / 1024 = 9 ∨ (y 0).val / 1024 = 10 ∨ (y 0).val / 1024 = 11 ∨ (y 0).val / 1024 = 12 ∨ (y 0).val / 1024 = 13 ∨ (y 0).val / 1024 = 14 ∨ (y 0).val / 1024 = 15 := by omega
      rcases hcase with e | e | e | e | e | e | e | e | e | e | e | e | e | e | e | e
      · exact ⟨⟨_, k0_pay269⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_stripe_a k0 ⟨0, by decide⟩ y e (by omega) hy⟩
      · exact ⟨⟨_, k0_pay269⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_stripe_a k0 ⟨1, by decide⟩ y e (by omega) hy⟩
      · exact ⟨⟨_, k0_pay269⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_stripe_a k0 ⟨2, by decide⟩ y e (by omega) hy⟩
      · exact ⟨⟨_, k0_pay269⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_stripe_a k0 ⟨3, by decide⟩ y e (by omega) hy⟩
      · exact ⟨⟨_, k0_pay269⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_stripe_a k0 ⟨4, by decide⟩ y e (by omega) hy⟩
      · exact ⟨⟨_, k0_pay269⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_stripe_a k0 ⟨5, by decide⟩ y e (by omega) hy⟩
      · exact ⟨⟨_, k0_pay269⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_stripe_a k0 ⟨6, by decide⟩ y e (by omega) hy⟩
      · exact ⟨⟨_, k0_pay269⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_stripe_a k0 ⟨7, by decide⟩ y e (by omega) hy⟩
      · exact ⟨⟨_, k0_pay269⟩, List.mem_cons_of_mem _ (List.mem_cons_of_mem _ (List.mem_cons_of_mem _ (List.mem_cons_of_mem _ (List.mem_cons_of_mem _ (List.mem_cons_of_mem _ (List.mem_cons_of_mem _ (List.mem_cons_self))))))), mem_stripe_a k0 ⟨8, by decide⟩ y e (by omega) hy⟩
      · exact ⟨⟨_, k0_pay269⟩, List.mem_cons_of_mem _ (List.mem_cons_of_mem _ (List.mem_cons_of_mem _ (List.mem_cons_of_mem _ (List.mem_cons_of_mem _ (List.mem_cons_of_mem _ (List.mem_cons_self)))))), mem_stripe_a k0 ⟨9, by decide⟩ y e (by omega) hy⟩
      · exact ⟨⟨_, k0_pay269⟩, List.mem_cons_of_mem _ (List.mem_cons_of_mem _ (List.mem_cons_of_mem _ (List.mem_cons_of_mem _ (List.mem_cons_of_mem _ (List.mem_cons_self))))), mem_stripe_a k0 ⟨10, by decide⟩ y e (by omega) hy⟩
      · exact ⟨⟨_, k0_pay269⟩, List.mem_cons_of_mem _ (List.mem_cons_of_mem _ (List.mem_cons_of_mem _ (List.mem_cons_of_mem _ (List.mem_cons_self)))), mem_stripe_a k0 ⟨11, by decide⟩ y e (by omega) hy⟩
      · exact ⟨⟨_, k0_pay269⟩, List.mem_cons_of_mem _ (List.mem_cons_of_mem _ (List.mem_cons_of_mem _ (List.mem_cons_self))), mem_stripe_a k0 ⟨12, by decide⟩ y e (by omega) hy⟩
      · exact ⟨⟨_, k0_pay269⟩, List.mem_cons_of_mem _ (List.mem_cons_of_mem _ (List.mem_cons_self)), mem_stripe_a k0 ⟨13, by decide⟩ y e (by omega) hy⟩
      · exact ⟨⟨_, k0_pay269⟩, List.mem_cons_of_mem _ (List.mem_cons_self), mem_stripe_a k0 ⟨14, by decide⟩ y e (by omega) hy⟩
      · exact ⟨⟨_, k0_pay269⟩, List.mem_cons_self, mem_stripe_a k0 ⟨15, by decide⟩ y e (by omega) hy⟩
  · ipureintro
    intro y hy
    refine ((show ∀ (g : Buf (Elt F) ((cB : Memref sig .scVector .vmem S1024 .f32).view.loc (thr d L))) (y : S1024.Idx),
      View.read (Elt F) (cB : Memref sig .scVector .vmem S1024 .f32).view g y = (g : Vec F S1024 .f32) y from fun _ _ => rfl) _ y).symm.trans ?_
    refine writes_const_step (F := F) (cB : Memref sig .scVector .vmem S1024 .f32).view fc zF _
      (fun y => (y 0).val < 16 * k0.val) (fun y => (y 0).val < 16 * (k0.val + 1)) ?_ ?_ hc y hy
    · intro p hp x
      simp only [List.mem_cons, List.not_mem_nil, _root_.or_false] at hp
      subst hp; rfl
    · intro y hy hn
      exact ⟨⟨_, k0_pay269⟩, List.mem_singleton.2 rfl, mem_stripe_c k0 y (by omega) hy⟩

/-- The zeroing loop, whole, at that invariant. -/
theorem loopZV :
    invZV (F := F) d L 0 0#32 ⊢ wp frame (wpE (defs₀ (F := F)) 𝒱₀ (thr d L) none) Set.univ
      (Scf.Loop.for k0_t1_loop k0_t1_ok 0#32 (k0_t1_body L eW (Memref.isWhole_whole _) tW (Memref.isWhole_whole _) kW (Memref.isWhole_whole _) o0W (Memref.isWhole_whole _) o1W (Memref.isWhole_whole _) xB (Memref.isWhole_whole _) tB (Memref.isWhole_whole _) mB (Memref.isWhole_whole _) aB (Memref.isWhole_whole _) cB (Memref.isWhole_whole _) cc0_scratch5 cc0_scratch6 cc0_scoped0 cc0_scoped1))
      (invZV (F := F) d L k0_t1_loop.trips) := by
  iintro H
  sl_for (invZV (F := F) d L) $$ [H]
  case region =>
    intro kk acc
    exact regionZV d L kk acc
  · isplitl [H]
    · iexact H
    · iintro %acc HI
      iexact HI

/-- Any contents satisfy the invariant before the first trip. -/
theorem invZV_zero (acc : BitVec 32) (fa : Buf (Elt F) ((aB : Memref sig .scVector .vmem S16384 .f32).view.loc (thr d L)))
    (fc : Buf (Elt F) ((cB : Memref sig .scVector .vmem S1024 .f32).view.loc (thr d L))) :
    (iprop(((aB : Memref sig .scVector .vmem S16384 .f32).view.loc (thr d L) ↦{fullShare} fa)
      ∗ ((cB : Memref sig .scVector .vmem S1024 .f32).view.loc (thr d L) ↦{fullShare} fc)) : sProp 𝕄) ⊢ invZV (F := F) d L 0 acc := by
  unfold invZV
  iintro ⟨Ha, Hc⟩
  iexists fa, fc
  isplitl [Ha]; · iexact Ha
  isplitl [Hc]; · iexact Hc
  isplitr
  · ipureintro; intro y hy; omega
  · ipureintro; intro y hy; omega

/-- After all the trips both accumulators are zero throughout. -/
theorem invZV_final (acc : BitVec 32) :
    invZV (F := F) d L k0_t1_loop.trips acc
      ⊢ (iprop(((aB : Memref sig .scVector .vmem S16384 .f32).view.loc (thr d L) ↦{fullShare}
            ((fun _ => zF : Vec F S16384 .f32) : Buf (Elt F) ((aB : Memref sig .scVector .vmem S16384 .f32).view.loc (thr d L))))
          ∗ ((cB : Memref sig .scVector .vmem S1024 .f32).view.loc (thr d L) ↦{fullShare}
            ((fun _ => zF : Vec F S1024 .f32) : Buf (Elt F) ((cB : Memref sig .scVector .vmem S1024 .f32).view.loc (thr d L))))) : sProp 𝕄) := by
  unfold invZV
  iintro ⟨%fa, %fc, Ha, Hc, %ha, %hc⟩
  have ht : k0_t1_loop.trips = 64 := rfl
  rw [ht] at ha hc
  have ea : fa = ((fun _ => zF : Vec F S16384 .f32) : Buf (Elt F) ((aB : Memref sig .scVector .vmem S16384 .f32).view.loc (thr d L))) :=
    funext fun y => ha y (by have := Nat.mod_lt (y 0).val (show 0 < 1024 by decide); omega)
  have ec : fc = ((fun _ => zF : Vec F S1024 .f32) : Buf (Elt F) ((cB : Memref sig .scVector .vmem S1024 .f32).view.loc (thr d L))) :=
    funext fun y => hc y (by have : (y 0).val < 1024 := (y 0).isLt; omega)
  subst ea; subst ec
  isplitl [Ha]
  · iexact Ha
  · iexact Hc

end Cert.Proof.KI.Pass1
end
-- ==== Proof.Pass1VB.lean ====
/-
  The first SparseCore call's scatter loops with their value, second part: one trip of slot 0's scatter loop as a
  rewriting of the two accumulators (four groups of sixteen lanes, each a count and sixteen sums scattered), the
  rewritings read off the trip itself.
-/
import proofs.«210783_g59777354826199_cont_9to1_m_168_18_alg».proof.Proof.Pass1VA

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [∀ e, Nonempty (Elt F e)] [FloatOps F]

local notation "𝕄" => 𝕄F F

variable (d : Dev nD) (L : grid0.Coords)

/-- What a trip of slot 0's scatter loop does, its rewritings of the sums and of the counts being SA and SC: the slot's rows
    are read and kept, the sums go from fa to SA … fa, the counts from fc to SC … fc. -/
def TripSpec3V (SA : (v3 : IVec S16 32) → (∀ x, (v3 x).toNat < 16) → FVec F S16 .f32 →
      (Fin 16 → Buf (Elt F) ((xB : Memref sig .scVector .vmem S2x16x2048 .f32).view.loc (thr d L))) →
      (ft' : Buf (Elt F) ((tB : Memref sig .scVector .vmem S2x2048 .i32).view.loc (thr d L))) → (∀ i, (ft' i).toNat ≤ 63) →
      Buf (Elt F) ((mB : Memref sig .scVector .vmem S2x2048 .i32).view.loc (thr d L)) → Fin k0_t3_loop.trips →
      Buf (Elt F) ((aB : Memref sig .scVector .vmem S16384 .f32).view.loc (thr d L)) → Buf (Elt F) ((aB : Memref sig .scVector .vmem S16384 .f32).view.loc (thr d L)))
    (SC : (v3 : IVec S16 32) → (∀ x, (v3 x).toNat < 16) → FVec F S16 .f32 →
      (Fin 16 → Buf (Elt F) ((xB : Memref sig .scVector .vmem S2x16x2048 .f32).view.loc (thr d L))) →
      (ft' : Buf (Elt F) ((tB : Memref sig .scVector .vmem S2x2048 .i32).view.loc (thr d L))) → (∀ i, (ft' i).toNat ≤ 63) →
      Buf (Elt F) ((mB : Memref sig .scVector .vmem S2x2048 .i32).view.loc (thr d L)) → Fin k0_t3_loop.trips →
      Buf (Elt F) ((cB : Memref sig .scVector .vmem S1024 .f32).view.loc (thr d L)) → Buf (Elt F) ((cB : Memref sig .scVector .vmem S1024 .f32).view.loc (thr d L))) : Prop :=
  ∀ (v2 : BitVec 32) (v3 : IVec S16 32) (hv3 : ∀ x, (v3 x).toNat < 16) (v5 : FVec F S16 .f32) (g : Fin k0_t2_loop.trips) (v476 c1 c2 c3 : BitVec 32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (k : Fin k0_t3_loop.trips) (acc : BitVec 32)
    (fa : Buf (Elt F) ((aB : Memref sig .scVector .vmem S16384 .f32).view.loc (thr d L)))
    (fc : Buf (Elt F) ((cB : Memref sig .scVector .vmem S1024 .f32).view.loc (thr d L))),
    invIV d L 0 (ltc rfl) gx ft' gm fa fc ⊢ wp frame (wpE (defs₀ (F := F)) 𝒱₀ (thr d L) none) Set.univ
      (k0_t3_body L eW (Memref.isWhole_whole _) tW (Memref.isWhole_whole _) kW (Memref.isWhole_whole _) o0W (Memref.isWhole_whole _) o1W (Memref.isWhole_whole _) xB (Memref.isWhole_whole _) tB (Memref.isWhole_whole _) mB (Memref.isWhole_whole _) aB (Memref.isWhole_whole _) cB (Memref.isWhole_whole _) cc0_scratch5 cc0_scratch6 cc0_scoped0 cc0_scoped1 v2 v3 v5 g v476 c1 c2 c3 k acc)
      (fun _ => invIV d L 0 (ltc rfl) gx ft' gm (SA v3 hv3 v5 gx ft' hft gm k fa) (SC v3 hv3 v5 gx ft' hft gm k fc))

/-- The two rewritings with the trip's specification at them. -/
structure TripW3V where
  SA : (v3 : IVec S16 32) → (∀ x, (v3 x).toNat < 16) → FVec F S16 .f32 →
      (Fin 16 → Buf (Elt F) ((xB : Memref sig .scVector .vmem S2x16x2048 .f32).view.loc (thr d L))) →
      (ft' : Buf (Elt F) ((tB : Memref sig .scVector .vmem S2x2048 .i32).view.loc (thr d L))) → (∀ i, (ft' i).toNat ≤ 63) →
      Buf (Elt F) ((mB : Memref sig .scVector .vmem S2x2048 .i32).view.loc (thr d L)) → Fin k0_t3_loop.trips →
      Buf (Elt F) ((aB : Memref sig .scVector .vmem S16384 .f32).view.loc (thr d L)) → Buf (Elt F) ((aB : Memref sig .scVector .vmem S16384 .f32).view.loc (thr d L))
  SC : (v3 : IVec S16 32) → (∀ x, (v3 x).toNat < 16) → FVec F S16 .f32 →
      (Fin 16 → Buf (Elt F) ((xB : Memref sig .scVector .vmem S2x16x2048 .f32).view.loc (thr d L))) →
      (ft' : Buf (Elt F) ((tB : Memref sig .scVector .vmem S2x2048 .i32).view.loc (thr d L))) → (∀ i, (ft' i).toNat ≤ 63) →
      Buf (Elt F) ((mB : Memref sig .scVector .vmem S2x2048 .i32).view.loc (thr d L)) → Fin k0_t3_loop.trips →
      Buf (Elt F) ((cB : Memref sig .scVector .vmem S1024 .f32).view.loc (thr d L)) → Buf (Elt F) ((cB : Memref sig .scVector .vmem S1024 .f32).view.loc (thr d L))
  spec : TripSpec3V (F := F) d L SA SC

set_option maxHeartbeats 8000000 in
/-- The trip's rewritings, read off the trip: each indexed add-store rewrites the accumulator it names. -/
noncomputable def tripW3V : TripW3V (F := F) d L := by
  refine ⟨?SA, ?SC, ?_⟩
  rotate_left 2
  unfold TripSpec3V
  intro v2 v3 hv3 v5 g v476 c1 c2 c3 gx ft' hft gm k acc fa fc
  have hk : k.val < 32 := k.isLt
  unfold invIV
  iintro ⟨Ha, Hc, Hx0, Hx1, Hx2, Hx3, Hx4, Hx5, Hx6, Hx7, Hx8, Hx9, Hx10, Hx11, Hx12, Hx13, Hx14, Hx15, Ht, Hm⟩
  unfold k0_t3_body
  sl_exec (disch := exact chk_c _ (fun x => addr_lt _ hv3 _ _ (fun j => hft _) x))
  iapply (storeIdx_cV (F := F) d L _) $$ Hc
  iintro Hc
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_c _ (fun x => addr_lt _ hv3 _ _ (fun j => hft _) x))
  iapply (storeIdx_cV (F := F) d L _) $$ Hc
  iintro Hc
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_c _ (fun x => addr_lt _ hv3 _ _ (fun j => hft _) x))
  iapply (storeIdx_cV (F := F) d L _) $$ Hc
  iintro Hc
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_c _ (fun x => addr_lt _ hv3 _ _ (fun j => hft _) x))
  iapply (storeIdx_cV (F := F) d L _) $$ Hc
  iintro Hc
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec
  sl_step
  isplitl [Ha]; · iexact Ha
  isplitl [Hc]; · iexact Hc
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hx8]; · iexact Hx8
  isplitl [Hx9]; · iexact Hx9
  isplitl [Hx10]; · iexact Hx10
  isplitl [Hx11]; · iexact Hx11
  isplitl [Hx12]; · iexact Hx12
  isplitl [Hx13]; · iexact Hx13
  isplitl [Hx14]; · iexact Hx14
  isplitl [Hx15]; · iexact Hx15
  isplitl [Ht]; · iexact Ht
  iexact Hm

set_option maxHeartbeats 4000000 in

/-- What one trip over slot 0 leaves in the sums and in the counts. -/
noncomputable def accA3 : (v3 : IVec S16 32) → (∀ x, (v3 x).toNat < 16) → FVec F S16 .f32 →
      (Fin 16 → Buf (Elt F) ((xB : Memref sig .scVector .vmem S2x16x2048 .f32).view.loc (thr d L))) →
      (ft' : Buf (Elt F) ((tB : Memref sig .scVector .vmem S2x2048 .i32).view.loc (thr d L))) → (∀ i, (ft' i).toNat ≤ 63) →
      Buf (Elt F) ((mB : Memref sig .scVector .vmem S2x2048 .i32).view.loc (thr d L)) → Fin k0_t3_loop.trips →
      Buf (Elt F) ((aB : Memref sig .scVector .vmem S16384 .f32).view.loc (thr d L)) → Buf (Elt F) ((aB : Memref sig .scVector .vmem S16384 .f32).view.loc (thr d L)) := (tripW3V (F := F) d L).SA
noncomputable def accC3 : (v3 : IVec S16 32) → (∀ x, (v3 x).toNat < 16) → FVec F S16 .f32 →
      (Fin 16 → Buf (Elt F) ((xB : Memref sig .scVector .vmem S2x16x2048 .f32).view.loc (thr d L))) →
      (ft' : Buf (Elt F) ((tB : Memref sig .scVector .vmem S2x2048 .i32).view.loc (thr d L))) → (∀ i, (ft' i).toNat ≤ 63) →
      Buf (Elt F) ((mB : Memref sig .scVector .vmem S2x2048 .i32).view.loc (thr d L)) → Fin k0_t3_loop.trips →
      Buf (Elt F) ((cB : Memref sig .scVector .vmem S1024 .f32).view.loc (thr d L)) → Buf (Elt F) ((cB : Memref sig .scVector .vmem S1024 .f32).view.loc (thr d L)) := (tripW3V (F := F) d L).SC
theorem acc3_spec : TripSpec3V (F := F) d L (accA3 d L) (accC3 d L) := (tripW3V (F := F) d L).spec

end Cert.Proof.KI.Pass1
end
-- ==== Proof.Pass1VC.lean ====
/-
  The first SparseCore call's scatter loops with their value, third part: one trip of slot 1's scatter loop as a
  rewriting of the two accumulators, the rewritings read off the trip itself.
-/
import proofs.«210783_g59777354826199_cont_9to1_m_168_18_alg».proof.Proof.Pass1VA

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [∀ e, Nonempty (Elt F e)] [FloatOps F]

local notation "𝕄" => 𝕄F F

variable (d : Dev nD) (L : grid0.Coords)

/-- What a trip of slot 1's scatter loop does, its rewritings of the sums and of the counts being SA and SC: the slot's rows
    are read and kept, the sums go from fa to SA … fa, the counts from fc to SC … fc. -/
def TripSpec4V (SA : (v3 : IVec S16 32) → (∀ x, (v3 x).toNat < 16) → FVec F S16 .f32 →
      (Fin 16 → Buf (Elt F) ((xB : Memref sig .scVector .vmem S2x16x2048 .f32).view.loc (thr d L))) →
      (ft' : Buf (Elt F) ((tB : Memref sig .scVector .vmem S2x2048 .i32).view.loc (thr d L))) → (∀ i, (ft' i).toNat ≤ 63) →
      Buf (Elt F) ((mB : Memref sig .scVector .vmem S2x2048 .i32).view.loc (thr d L)) → Fin k0_t4_loop.trips →
      Buf (Elt F) ((aB : Memref sig .scVector .vmem S16384 .f32).view.loc (thr d L)) → Buf (Elt F) ((aB : Memref sig .scVector .vmem S16384 .f32).view.loc (thr d L)))
    (SC : (v3 : IVec S16 32) → (∀ x, (v3 x).toNat < 16) → FVec F S16 .f32 →
      (Fin 16 → Buf (Elt F) ((xB : Memref sig .scVector .vmem S2x16x2048 .f32).view.loc (thr d L))) →
      (ft' : Buf (Elt F) ((tB : Memref sig .scVector .vmem S2x2048 .i32).view.loc (thr d L))) → (∀ i, (ft' i).toNat ≤ 63) →
      Buf (Elt F) ((mB : Memref sig .scVector .vmem S2x2048 .i32).view.loc (thr d L)) → Fin k0_t4_loop.trips →
      Buf (Elt F) ((cB : Memref sig .scVector .vmem S1024 .f32).view.loc (thr d L)) → Buf (Elt F) ((cB : Memref sig .scVector .vmem S1024 .f32).view.loc (thr d L))) : Prop :=
  ∀ (v2 : BitVec 32) (v3 : IVec S16 32) (hv3 : ∀ x, (v3 x).toNat < 16) (v5 : FVec F S16 .f32) (g : Fin k0_t2_loop.trips) (v476 c1 c2 c3 : BitVec 32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (k : Fin k0_t4_loop.trips) (acc : BitVec 32)
    (fa : Buf (Elt F) ((aB : Memref sig .scVector .vmem S16384 .f32).view.loc (thr d L)))
    (fc : Buf (Elt F) ((cB : Memref sig .scVector .vmem S1024 .f32).view.loc (thr d L))),
    invIV d L 1 (ltc rfl) gx ft' gm fa fc ⊢ wp frame (wpE (defs₀ (F := F)) 𝒱₀ (thr d L) none) Set.univ
      (k0_t4_body L eW (Memref.isWhole_whole _) tW (Memref.isWhole_whole _) kW (Memref.isWhole_whole _) o0W (Memref.isWhole_whole _) o1W (Memref.isWhole_whole _) xB (Memref.isWhole_whole _) tB (Memref.isWhole_whole _) mB (Memref.isWhole_whole _) aB (Memref.isWhole_whole _) cB (Memref.isWhole_whole _) cc0_scratch5 cc0_scratch6 cc0_scoped0 cc0_scoped1 v2 v3 v5 g v476 c1 c2 c3 k acc)
      (fun _ => invIV d L 1 (ltc rfl) gx ft' gm (SA v3 hv3 v5 gx ft' hft gm k fa) (SC v3 hv3 v5 gx ft' hft gm k fc))

/-- The two rewritings with the trip's specification at them. -/
structure TripW4V where
  SA : (v3 : IVec S16 32) → (∀ x, (v3 x).toNat < 16) → FVec F S16 .f32 →
      (Fin 16 → Buf (Elt F) ((xB : Memref sig .scVector .vmem S2x16x2048 .f32).view.loc (thr d L))) →
      (ft' : Buf (Elt F) ((tB : Memref sig .scVector .vmem S2x2048 .i32).view.loc (thr d L))) → (∀ i, (ft' i).toNat ≤ 63) →
      Buf (Elt F) ((mB : Memref sig .scVector .vmem S2x2048 .i32).view.loc (thr d L)) → Fin k0_t4_loop.trips →
      Buf (Elt F) ((aB : Memref sig .scVector .vmem S16384 .f32).view.loc (thr d L)) → Buf (Elt F) ((aB : Memref sig .scVector .vmem S16384 .f32).view.loc (thr d L))
  SC : (v3 : IVec S16 32) → (∀ x, (v3 x).toNat < 16) → FVec F S16 .f32 →
      (Fin 16 → Buf (Elt F) ((xB : Memref sig .scVector .vmem S2x16x2048 .f32).view.loc (thr d L))) →
      (ft' : Buf (Elt F) ((tB : Memref sig .scVector .vmem S2x2048 .i32).view.loc (thr d L))) → (∀ i, (ft' i).toNat ≤ 63) →
      Buf (Elt F) ((mB : Memref sig .scVector .vmem S2x2048 .i32).view.loc (thr d L)) → Fin k0_t4_loop.trips →
      Buf (Elt F) ((cB : Memref sig .scVector .vmem S1024 .f32).view.loc (thr d L)) → Buf (Elt F) ((cB : Memref sig .scVector .vmem S1024 .f32).view.loc (thr d L))
  spec : TripSpec4V (F := F) d L SA SC

set_option maxHeartbeats 8000000 in
/-- The trip's rewritings, read off the trip: each indexed add-store rewrites the accumulator it names. -/
noncomputable def tripW4V : TripW4V (F := F) d L := by
  refine ⟨?SA, ?SC, ?_⟩
  rotate_left 2
  unfold TripSpec4V
  intro v2 v3 hv3 v5 g v476 c1 c2 c3 gx ft' hft gm k acc fa fc
  have hk : k.val < 32 := k.isLt
  unfold invIV
  iintro ⟨Ha, Hc, Hx0, Hx1, Hx2, Hx3, Hx4, Hx5, Hx6, Hx7, Hx8, Hx9, Hx10, Hx11, Hx12, Hx13, Hx14, Hx15, Ht, Hm⟩
  unfold k0_t4_body
  sl_exec (disch := exact chk_c _ (fun x => addr_lt _ hv3 _ _ (fun j => hft _) x))
  iapply (storeIdx_cV (F := F) d L _) $$ Hc
  iintro Hc
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_c _ (fun x => addr_lt _ hv3 _ _ (fun j => hft _) x))
  iapply (storeIdx_cV (F := F) d L _) $$ Hc
  iintro Hc
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_c _ (fun x => addr_lt _ hv3 _ _ (fun j => hft _) x))
  iapply (storeIdx_cV (F := F) d L _) $$ Hc
  iintro Hc
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_c _ (fun x => addr_lt _ hv3 _ _ (fun j => hft _) x))
  iapply (storeIdx_cV (F := F) d L _) $$ Hc
  iintro Hc
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec (disch := exact chk_a _ (fun x => addr_lt _ hv3 _ _ (fun j => hft _) x) _ (by decide))
  iapply (storeIdx_aV (F := F) d L _) $$ Ha
  iintro Ha
  sl_exec
  sl_step
  isplitl [Ha]; · iexact Ha
  isplitl [Hc]; · iexact Hc
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hx8]; · iexact Hx8
  isplitl [Hx9]; · iexact Hx9
  isplitl [Hx10]; · iexact Hx10
  isplitl [Hx11]; · iexact Hx11
  isplitl [Hx12]; · iexact Hx12
  isplitl [Hx13]; · iexact Hx13
  isplitl [Hx14]; · iexact Hx14
  isplitl [Hx15]; · iexact Hx15
  isplitl [Ht]; · iexact Ht
  iexact Hm

/-- What one trip over slot 1 leaves in the sums and in the counts. -/
noncomputable def accA4 : (v3 : IVec S16 32) → (∀ x, (v3 x).toNat < 16) → FVec F S16 .f32 →
      (Fin 16 → Buf (Elt F) ((xB : Memref sig .scVector .vmem S2x16x2048 .f32).view.loc (thr d L))) →
      (ft' : Buf (Elt F) ((tB : Memref sig .scVector .vmem S2x2048 .i32).view.loc (thr d L))) → (∀ i, (ft' i).toNat ≤ 63) →
      Buf (Elt F) ((mB : Memref sig .scVector .vmem S2x2048 .i32).view.loc (thr d L)) → Fin k0_t4_loop.trips →
      Buf (Elt F) ((aB : Memref sig .scVector .vmem S16384 .f32).view.loc (thr d L)) → Buf (Elt F) ((aB : Memref sig .scVector .vmem S16384 .f32).view.loc (thr d L)) := (tripW4V (F := F) d L).SA
noncomputable def accC4 : (v3 : IVec S16 32) → (∀ x, (v3 x).toNat < 16) → FVec F S16 .f32 →
      (Fin 16 → Buf (Elt F) ((xB : Memref sig .scVector .vmem S2x16x2048 .f32).view.loc (thr d L))) →
      (ft' : Buf (Elt F) ((tB : Memref sig .scVector .vmem S2x2048 .i32).view.loc (thr d L))) → (∀ i, (ft' i).toNat ≤ 63) →
      Buf (Elt F) ((mB : Memref sig .scVector .vmem S2x2048 .i32).view.loc (thr d L)) → Fin k0_t4_loop.trips →
      Buf (Elt F) ((cB : Memref sig .scVector .vmem S1024 .f32).view.loc (thr d L)) → Buf (Elt F) ((cB : Memref sig .scVector .vmem S1024 .f32).view.loc (thr d L)) := (tripW4V (F := F) d L).SC
theorem acc4_spec : TripSpec4V (F := F) d L (accA4 d L) (accC4 d L) := (tripW4V (F := F) d L).spec

end Cert.Proof.KI.Pass1
end
-- ==== Proof.Pass1VD.lean ====
/-
  The first SparseCore call's scatter loops with their value, fourth part: the two loops whole — after k trips the
  accumulators hold the k-fold rewritings of what they held at the loop's start.
-/
import proofs.«210783_g59777354826199_cont_9to1_m_168_18_alg».proof.Proof.Pass1VB
import proofs.«210783_g59777354826199_cont_9to1_m_168_18_alg».proof.Proof.Pass1VC

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [∀ e, Nonempty (Elt F e)] [FloatOps F]

local notation "𝕄" => 𝕄F F

variable (d : Dev nD) (L : grid0.Coords)

/-- The sums after the first k trips of the scatter loop over slot 0. -/
noncomputable def iterA3 (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (f : Buf (Elt F) ((aB : Memref sig .scVector .vmem S16384 .f32).view.loc (thr d L))) :
    ℕ → Buf (Elt F) ((aB : Memref sig .scVector .vmem S16384 .f32).view.loc (thr d L))
  | 0 => f
  | k + 1 => if h : k < k0_t3_loop.trips then accA3 d L v3 hv3 v5 gx ft' hft gm ⟨k, h⟩ (iterA3 v3 hv3 v5 gx ft' hft gm f k) else iterA3 v3 hv3 v5 gx ft' hft gm f k

theorem iterA3_succ (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (f : Buf (Elt F) ((aB : Memref sig .scVector .vmem S16384 .f32).view.loc (thr d L))) (kk : Fin k0_t3_loop.trips) :
    iterA3 d L v3 hv3 v5 gx ft' hft gm f (kk.val + 1) = accA3 d L v3 hv3 v5 gx ft' hft gm kk (iterA3 d L v3 hv3 v5 gx ft' hft gm f kk.val) := by
  show (if h : kk.val < k0_t3_loop.trips then accA3 d L v3 hv3 v5 gx ft' hft gm ⟨kk.val, h⟩ (iterA3 d L v3 hv3 v5 gx ft' hft gm f kk.val) else _) = _
  rw [dif_pos kk.isLt]

/-- The counts after the first k trips of the scatter loop over slot 0. -/
noncomputable def iterC3 (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (f : Buf (Elt F) ((cB : Memref sig .scVector .vmem S1024 .f32).view.loc (thr d L))) :
    ℕ → Buf (Elt F) ((cB : Memref sig .scVector .vmem S1024 .f32).view.loc (thr d L))
  | 0 => f
  | k + 1 => if h : k < k0_t3_loop.trips then accC3 d L v3 hv3 v5 gx ft' hft gm ⟨k, h⟩ (iterC3 v3 hv3 v5 gx ft' hft gm f k) else iterC3 v3 hv3 v5 gx ft' hft gm f k

theorem iterC3_succ (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (f : Buf (Elt F) ((cB : Memref sig .scVector .vmem S1024 .f32).view.loc (thr d L))) (kk : Fin k0_t3_loop.trips) :
    iterC3 d L v3 hv3 v5 gx ft' hft gm f (kk.val + 1) = accC3 d L v3 hv3 v5 gx ft' hft gm kk (iterC3 d L v3 hv3 v5 gx ft' hft gm f kk.val) := by
  show (if h : kk.val < k0_t3_loop.trips then accC3 d L v3 hv3 v5 gx ft' hft gm ⟨kk.val, h⟩ (iterC3 d L v3 hv3 v5 gx ft' hft gm f kk.val) else _) = _
  rw [dif_pos kk.isLt]

/-- The scatter loop's invariant over slot 0, with the accumulators' contents: after k trips, the k-fold rewritings of what
    they held at the loop's start. -/
def invV3 (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (fa : Buf (Elt F) ((aB : Memref sig .scVector .vmem S16384 .f32).view.loc (thr d L)))
    (fc : Buf (Elt F) ((cB : Memref sig .scVector .vmem S1024 .f32).view.loc (thr d L))) (k : ℕ) (_ : BitVec 32) : sProp 𝕄 :=
  invIV d L 0 (ltc rfl) gx ft' gm (iterA3 d L v3 hv3 v5 gx ft' hft gm fa k) (iterC3 d L v3 hv3 v5 gx ft' hft gm fc k)

/-- The loop's region at that invariant. -/
theorem tripV3 (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (fa : Buf (Elt F) ((aB : Memref sig .scVector .vmem S16384 .f32).view.loc (thr d L)))
    (fc : Buf (Elt F) ((cB : Memref sig .scVector .vmem S1024 .f32).view.loc (thr d L)))
    (v2 : BitVec 32) (g : Fin k0_t2_loop.trips) (v476 c1 c2 c3 : BitVec 32) (kk : Fin k0_t3_loop.trips) (acc : BitVec 32) :
    invV3 (F := F) d L v3 hv3 v5 gx ft' hft gm fa fc kk.val acc
      ⊢ wp frame (wpE (defs₀ (F := F)) 𝒱₀ (thr d L) none) Set.univ
          ((k0_t3_body L eW (Memref.isWhole_whole _) tW (Memref.isWhole_whole _) kW (Memref.isWhole_whole _) o0W (Memref.isWhole_whole _) o1W (Memref.isWhole_whole _) xB (Memref.isWhole_whole _) tB (Memref.isWhole_whole _) mB (Memref.isWhole_whole _) aB (Memref.isWhole_whole _) cB (Memref.isWhole_whole _) cc0_scratch5 cc0_scratch6 cc0_scoped0 cc0_scoped1 v2 v3 v5 g v476 c1 c2 c3) kk acc)
          (invV3 (F := F) d L v3 hv3 v5 gx ft' hft gm fa fc (kk.val + 1)) := by
  unfold invV3
  rw [iterA3_succ, iterC3_succ]
  exact acc3_spec d L v2 v3 hv3 v5 g v476 c1 c2 c3 gx ft' hft gm kk acc _ _

/-- The scatter loop over staging slot 0, whole: from the accumulators at fa and fc to the trip's rewritings iterated over
    all the loop's trips, the slot's rows kept. -/
theorem loopV3 (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (fa : Buf (Elt F) ((aB : Memref sig .scVector .vmem S16384 .f32).view.loc (thr d L)))
    (fc : Buf (Elt F) ((cB : Memref sig .scVector .vmem S1024 .f32).view.loc (thr d L)))
    (v2 : BitVec 32) (g : Fin k0_t2_loop.trips) (v476 c1 c2 c3 : BitVec 32) :
    invV3 (F := F) d L v3 hv3 v5 gx ft' hft gm fa fc 0 c1
      ⊢ wp frame (wpE (defs₀ (F := F)) 𝒱₀ (thr d L) none) Set.univ
          (Scf.Loop.for k0_t3_loop k0_t3_ok c1 (k0_t3_body L eW (Memref.isWhole_whole _) tW (Memref.isWhole_whole _) kW (Memref.isWhole_whole _) o0W (Memref.isWhole_whole _) o1W (Memref.isWhole_whole _) xB (Memref.isWhole_whole _) tB (Memref.isWhole_whole _) mB (Memref.isWhole_whole _) aB (Memref.isWhole_whole _) cB (Memref.isWhole_whole _) cc0_scratch5 cc0_scratch6 cc0_scoped0 cc0_scoped1 v2 v3 v5 g v476 c1 c2 c3))
          (invV3 (F := F) d L v3 hv3 v5 gx ft' hft gm fa fc k0_t3_loop.trips) := by
  iintro H
  sl_for (invV3 (F := F) d L v3 hv3 v5 gx ft' hft gm fa fc) $$ [H]
  case region =>
    intro kk acc
    exact tripV3 d L v3 hv3 v5 gx ft' hft gm fa fc v2 g v476 c1 c2 c3 kk acc
  · isplitl [H]
    · iexact H
    · iintro %acc HI
      iexact HI

/-- The sums after the first k trips of the scatter loop over slot 1. -/
noncomputable def iterA4 (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (f : Buf (Elt F) ((aB : Memref sig .scVector .vmem S16384 .f32).view.loc (thr d L))) :
    ℕ → Buf (Elt F) ((aB : Memref sig .scVector .vmem S16384 .f32).view.loc (thr d L))
  | 0 => f
  | k + 1 => if h : k < k0_t4_loop.trips then accA4 d L v3 hv3 v5 gx ft' hft gm ⟨k, h⟩ (iterA4 v3 hv3 v5 gx ft' hft gm f k) else iterA4 v3 hv3 v5 gx ft' hft gm f k

theorem iterA4_succ (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (f : Buf (Elt F) ((aB : Memref sig .scVector .vmem S16384 .f32).view.loc (thr d L))) (kk : Fin k0_t4_loop.trips) :
    iterA4 d L v3 hv3 v5 gx ft' hft gm f (kk.val + 1) = accA4 d L v3 hv3 v5 gx ft' hft gm kk (iterA4 d L v3 hv3 v5 gx ft' hft gm f kk.val) := by
  show (if h : kk.val < k0_t4_loop.trips then accA4 d L v3 hv3 v5 gx ft' hft gm ⟨kk.val, h⟩ (iterA4 d L v3 hv3 v5 gx ft' hft gm f kk.val) else _) = _
  rw [dif_pos kk.isLt]

/-- The counts after the first k trips of the scatter loop over slot 1. -/
noncomputable def iterC4 (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (f : Buf (Elt F) ((cB : Memref sig .scVector .vmem S1024 .f32).view.loc (thr d L))) :
    ℕ → Buf (Elt F) ((cB : Memref sig .scVector .vmem S1024 .f32).view.loc (thr d L))
  | 0 => f
  | k + 1 => if h : k < k0_t4_loop.trips then accC4 d L v3 hv3 v5 gx ft' hft gm ⟨k, h⟩ (iterC4 v3 hv3 v5 gx ft' hft gm f k) else iterC4 v3 hv3 v5 gx ft' hft gm f k

theorem iterC4_succ (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (f : Buf (Elt F) ((cB : Memref sig .scVector .vmem S1024 .f32).view.loc (thr d L))) (kk : Fin k0_t4_loop.trips) :
    iterC4 d L v3 hv3 v5 gx ft' hft gm f (kk.val + 1) = accC4 d L v3 hv3 v5 gx ft' hft gm kk (iterC4 d L v3 hv3 v5 gx ft' hft gm f kk.val) := by
  show (if h : kk.val < k0_t4_loop.trips then accC4 d L v3 hv3 v5 gx ft' hft gm ⟨kk.val, h⟩ (iterC4 d L v3 hv3 v5 gx ft' hft gm f kk.val) else _) = _
  rw [dif_pos kk.isLt]

/-- The scatter loop's invariant over slot 1, with the accumulators' contents: after k trips, the k-fold rewritings of what
    they held at the loop's start. -/
def invV4 (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (fa : Buf (Elt F) ((aB : Memref sig .scVector .vmem S16384 .f32).view.loc (thr d L)))
    (fc : Buf (Elt F) ((cB : Memref sig .scVector .vmem S1024 .f32).view.loc (thr d L))) (k : ℕ) (_ : BitVec 32) : sProp 𝕄 :=
  invIV d L 1 (ltc rfl) gx ft' gm (iterA4 d L v3 hv3 v5 gx ft' hft gm fa k) (iterC4 d L v3 hv3 v5 gx ft' hft gm fc k)

/-- The loop's region at that invariant. -/
theorem tripV4 (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (fa : Buf (Elt F) ((aB : Memref sig .scVector .vmem S16384 .f32).view.loc (thr d L)))
    (fc : Buf (Elt F) ((cB : Memref sig .scVector .vmem S1024 .f32).view.loc (thr d L)))
    (v2 : BitVec 32) (g : Fin k0_t2_loop.trips) (v476 c1 c2 c3 : BitVec 32) (kk : Fin k0_t4_loop.trips) (acc : BitVec 32) :
    invV4 (F := F) d L v3 hv3 v5 gx ft' hft gm fa fc kk.val acc
      ⊢ wp frame (wpE (defs₀ (F := F)) 𝒱₀ (thr d L) none) Set.univ
          ((k0_t4_body L eW (Memref.isWhole_whole _) tW (Memref.isWhole_whole _) kW (Memref.isWhole_whole _) o0W (Memref.isWhole_whole _) o1W (Memref.isWhole_whole _) xB (Memref.isWhole_whole _) tB (Memref.isWhole_whole _) mB (Memref.isWhole_whole _) aB (Memref.isWhole_whole _) cB (Memref.isWhole_whole _) cc0_scratch5 cc0_scratch6 cc0_scoped0 cc0_scoped1 v2 v3 v5 g v476 c1 c2 c3) kk acc)
          (invV4 (F := F) d L v3 hv3 v5 gx ft' hft gm fa fc (kk.val + 1)) := by
  unfold invV4
  rw [iterA4_succ, iterC4_succ]
  exact acc4_spec d L v2 v3 hv3 v5 g v476 c1 c2 c3 gx ft' hft gm kk acc _ _

/-- The scatter loop over staging slot 1, whole: from the accumulators at fa and fc to the trip's rewritings iterated over
    all the loop's trips, the slot's rows kept. -/
theorem loopV4 (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L)))
    (fa : Buf (Elt F) ((aB : Memref sig .scVector .vmem S16384 .f32).view.loc (thr d L)))
    (fc : Buf (Elt F) ((cB : Memref sig .scVector .vmem S1024 .f32).view.loc (thr d L)))
    (v2 : BitVec 32) (g : Fin k0_t2_loop.trips) (v476 c1 c2 c3 : BitVec 32) :
    invV4 (F := F) d L v3 hv3 v5 gx ft' hft gm fa fc 0 c1
      ⊢ wp frame (wpE (defs₀ (F := F)) 𝒱₀ (thr d L) none) Set.univ
          (Scf.Loop.for k0_t4_loop k0_t4_ok c1 (k0_t4_body L eW (Memref.isWhole_whole _) tW (Memref.isWhole_whole _) kW (Memref.isWhole_whole _) o0W (Memref.isWhole_whole _) o1W (Memref.isWhole_whole _) xB (Memref.isWhole_whole _) tB (Memref.isWhole_whole _) mB (Memref.isWhole_whole _) aB (Memref.isWhole_whole _) cB (Memref.isWhole_whole _) cc0_scratch5 cc0_scratch6 cc0_scoped0 cc0_scoped1 v2 v3 v5 g v476 c1 c2 c3))
          (invV4 (F := F) d L v3 hv3 v5 gx ft' hft gm fa fc k0_t4_loop.trips) := by
  iintro H
  sl_for (invV4 (F := F) d L v3 hv3 v5 gx ft' hft gm fa fc) $$ [H]
  case region =>
    intro kk acc
    exact tripV4 d L v3 hv3 v5 gx ft' hft gm fa fc v2 g v476 c1 c2 c3 kk acc
  · isplitl [H]
    · iexact H
    · iintro %acc HI
      iexact HI

end Cert.Proof.KI.Pass1
end
-- ==== Proof.Pass1VF.lean ====
/-
  The first SparseCore call's scatter-add, pointwise. The index vector of a group of sixteen voxels is the segment number
  (the target id where the mask is positive, else zero) times sixteen plus the lane, a row's offset further on for the
  sums: its sixteen lanes name sixteen distinct elements, so the indexed store with addition adds each lane's value
  once at the element the lane names and keeps every other element.
-/
import proofs.«210783_g59777354826199_cont_9to1_m_168_18_alg».proof.Proof.Pass1VA

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [∀ e, Nonempty (Elt F e)] [FloatOps F]

local notation "𝕄" => 𝕄F F

variable (d : Dev nD) (L : grid0.Coords)

open Cert.Proof.Lib

/-- The lanes' own numbers 0 … 15. -/
abbrev iotaV0 : IVec S16 32 := iota .scVector S16 32 [0] iota_S16_d0_w32_scVector

omit [FloatOps F] [∀ e, Nonempty (Elt F e)] in
theorem iotaV0_toNat (x : S16.Idx) : (iotaV0 x).toNat = (x 0).val := by
  have h : (x 0).val < 16 := (x 0).isLt
  show (BitVec.ofNat 32 (0 * S16.size 0 + (x 0).val)).toNat = (x 0).val
  rw [BitVec.toNat_ofNat]
  have : (0 * S16.size 0 + (x 0).val) = (x 0).val := by omega
  rw [this]; omega

/-- A voxel's segment from its mask word and its target word: the target id where the mask is positive, else 0. -/
def segW (m t : BitVec 32) : ℕ := if 0 < m.toInt then t.toNat else 0

omit [FloatOps F] [∀ e, Nonempty (Elt F e)] in
theorem segW_le (m t : BitVec 32) (ht : t.toNat ≤ 63) : segW m t ≤ 63 := by
  unfold segW; split <;> omega

omit [FloatOps F] [∀ e, Nonempty (Elt F e)] in
/-- One lane's address word: sixteen times the voxel's segment, plus the lane's word. -/
theorem seg_word_toNat (m t l : BitVec 32) (ht : t.toNat ≤ 63) (hl : l.toNat < 16) :
    (IntOp.addi (IntOp.muli (Scalar.select (IntOp.cmpi .sgt m 0#32) t 0#32) 16#32) l).toNat = 16 * segW m t + l.toNat := by
  have hs : (0#32).slt m = decide (0 < m.toInt) := by
    show decide ((0#32).toInt < m.toInt) = decide (0 < m.toInt)
    rw [show (0#32).toInt = 0 from by decide]
  unfold IntOp.addi IntOp.muli Scalar.select IntOp.cmpi segW
  show ((if BitVec.ofBool ((0#32).slt m) = 1 then t else 0#32) * 16#32 + l).toNat = _
  rw [hs]
  by_cases h : 0 < m.toInt
  · rw [if_pos h, decide_eq_true h, if_pos (by decide)]
    rw [BitVec.toNat_add, BitVec.toNat_mul]
    simp only [BitVec.toNat_ofNat]
    omega
  · rw [if_neg h, decide_eq_false h, if_neg (by decide)]
    rw [BitVec.toNat_add, BitVec.toNat_mul]
    simp only [BitVec.toNat_ofNat]
    omega

/-- The index vector of a group of sixteen voxels, from the group's mask and target words as loaded. -/
abbrev grpIdx (lm lt : S1x16.Idx → BitVec 32) : IVec S16 32 := k0_pay1 (F := F) iotaV0 lm lt

omit [∀ e, Nonempty (Elt F e)] in
/-- Lane x of it: sixteen times the segment of the group's x-th voxel, plus x. -/
theorem grpIdx_toNat (lm lt : S1x16.Idx → BitVec 32) (ht : ∀ y, (lt y).toNat ≤ 63) (x : S16.Idx) :
    (grpIdx (F := F) lm lt x).toNat
      = 16 * segW (lm (Shape.reshapeEquiv shapeCasts_S1x16_S16 x)) (lt (Shape.reshapeEquiv shapeCasts_S1x16_S16 x)) + (x 0).val := by
  have h := seg_word_toNat (lm (Shape.reshapeEquiv shapeCasts_S1x16_S16 x)) (lt (Shape.reshapeEquiv shapeCasts_S1x16_S16 x)) (iotaV0 x)
    (ht _) (by rw [iotaV0_toNat]; exact (x 0).isLt)
  rw [iotaV0_toNat] at h
  exact h

omit [∀ e, Nonempty (Elt F e)] in
/-- The same a row's offset o further on (o at most 15360, so that no word wraps). -/
theorem grpIdx_off_toNat (lm lt : S1x16.Idx → BitVec 32) (ht : ∀ y, (lt y).toNat ≤ 63) (o : BitVec 32) (ho : o.toNat ≤ 15360) (x : S16.Idx) :
    ((addi (grpIdx (F := F) lm lt) (broadcast S16 o) : IVec S16 32) x).toNat
      = o.toNat + 16 * segW (lm (Shape.reshapeEquiv shapeCasts_S1x16_S16 x)) (lt (Shape.reshapeEquiv shapeCasts_S1x16_S16 x)) + (x 0).val := by
  have h := grpIdx_toNat (F := F) lm lt ht x
  have hs := segW_le (lm (Shape.reshapeEquiv shapeCasts_S1x16_S16 x)) (lt (Shape.reshapeEquiv shapeCasts_S1x16_S16 x)) (ht _)
  have hx : (x 0).val < 16 := (x 0).isLt
  show (grpIdx (F := F) lm lt x + o).toNat = _
  rw [BitVec.toNat_add, h]
  omega

omit [∀ e, Nonempty (Elt F e)] in
/-- An index vector whose lane x is a multiple of sixteen plus x names pairwise distinct elements. -/
theorem lanes_inj {N : ℕ} (I : IVec S16 32) (b : S16.Idx → ℕ) (hI : ∀ x, (I x).toNat = 16 * b x + (x 0).val)
    (h : ∀ a x, ((![I] : Fin 1 → IVec S16 32) a x).toNat < (⟨1, ![N]⟩ : Shape).size a) (k k' : Fin 16)
    (he : idxAt (s := ⟨1, ![N]⟩) ![I] h (Shape.ofLane (d := ![16]) k) = idxAt (s := ⟨1, ![N]⟩) ![I] h (Shape.ofLane (d := ![16]) k')) :
    k = k' := by
  have h0 := congrArg (fun i : (⟨1, ![N]⟩ : Shape).Idx => (i 0).val) he
  have h1 : (I (Shape.ofLane (d := ![16]) k)).toNat = (I (Shape.ofLane (d := ![16]) k')).toNat := h0
  have hk : ((Shape.ofLane (d := ![16]) k) 0).val = k.val := rfl
  have hk' : ((Shape.ofLane (d := ![16]) k') 0).val = k'.val := rfl
  rw [hI, hI, hk, hk'] at h1
  have := k.isLt; have := k'.isLt
  exact Fin.ext (by omega)

end Cert.Proof.KI.Pass1
end
-- ==== Proof.Pass1VG.lean ====
/-
  The first SparseCore call's scatter-add, pointwise, second part: one indexed store with addition whose lane x names
  element 16·b(x) + x, at an element j — the value of lane j mod 16 is added exactly when that lane names j; and the
  counts after one trip of slot 0's scatter loop as four such stores, at the group index vectors read from the slot.
-/
import proofs.«210783_g59777354826199_cont_9to1_m_168_18_alg».proof.Proof.Pass1VB
import proofs.«210783_g59777354826199_cont_9to1_m_168_18_alg».proof.Proof.Pass1VF

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [∀ e, Nonempty (Elt F e)] [FloatOps F]

local notation "𝕄" => 𝕄F F

variable (d : Dev nD) (L : grid0.Coords)

open Cert.Proof.Lib

/-- The lane that can name element j: j modulo sixteen. -/
def laneOf {N : ℕ} (j : (⟨1, ![N]⟩ : Shape).Idx) : S16.Idx :=
  Shape.ofLane (d := ![16]) ⟨(j 0).val % 16, Nat.mod_lt _ (by decide)⟩

omit [∀ e, Nonempty (Elt F e)] in
/-- One indexed store with addition whose lane x names element 16·b(x) + x, at element j. -/
theorem storeIdx_lanes_apply {N : ℕ} (f : Vec F ⟨1, ![N]⟩ .f32) (I : IVec S16 32) (b : S16.Idx → ℕ)
    (hI : ∀ x, (I x).toNat = 16 * b x + (x 0).val) (v : Vec F S16 .f32)
    (h : ∀ a x, ((![I] : Fin 1 → IVec S16 32) a x).toNat < (⟨1, ![N]⟩ : Shape).size a) (j : (⟨1, ![N]⟩ : Shape).Idx) :
    storeIdx (s := ⟨1, ![N]⟩) (d := ![16]) f ![I] v (fun _ => 1#1) true h j
      = if 16 * b (laneOf j) + (j 0).val % 16 = (j 0).val then Elt.idxAdd .f32 (f j) (v (laneOf j)) else f j := by
  have hl : ((laneOf j) 0).val = (j 0).val % 16 := rfl
  split
  · rename_i hit
    have hj : idxAt (s := ⟨1, ![N]⟩) ![I] h (Shape.ofLane (d := ![16]) ⟨(j 0).val % 16, Nat.mod_lt _ (by decide)⟩) = j := by
      funext a
      obtain rfl : a = 0 := Subsingleton.elim _ _
      apply Fin.ext
      show (I (laneOf j)).toNat = (j 0).val
      rw [hI, hl]; exact hit
    have key := storeIdx_add_at f ![I] v h (lanes_inj I b hI h) ⟨(j 0).val % 16, Nat.mod_lt _ (by decide)⟩
    rw [hj] at key
    exact key
  · rename_i miss
    refine storeIdx_add_off f ![I] v h j (fun k he => miss ?_)
    have h0 : (I (Shape.ofLane (d := ![16]) k)).toNat = (j 0).val := congrArg (fun i : (⟨1, ![N]⟩ : Shape).Idx => (i 0).val) he
    have hk : ((Shape.ofLane (d := ![16]) k) 0).val = k.val := rfl
    rw [hI, hk] at h0
    have hk16 : k.val < 16 := k.isLt
    have hkj : k.val = (j 0).val % 16 := by omega
    have hlane : laneOf j = Shape.ofLane (d := ![16]) k := by
      unfold laneOf
      congr 1
      exact Fin.ext hkj.symm
    rw [hlane]
    omega

/-- The mask's and the targets' words of a group of sixteen voxels at offset o of slot b, as a load reads them. -/
abbrev grpM (gm : Buf (Elt F) ((mB : Memref sig .scVector .vmem S2x2048 .i32).view.loc (thr d L))) (o : Fin 2 → ℕ)
    (ho : ∀ a, o a + S1x16.size a ≤ S2x2048.size a) : S1x16.Idx → BitVec 32 :=
  View.readAt (Elt F) (mB : Memref sig .scVector .vmem S2x2048 .i32).view (Rect.unit (s := S2x2048) o S1x16.size ho).toLoadRect gm
abbrev grpT (ft' : Buf (Elt F) ((tB : Memref sig .scVector .vmem S2x2048 .i32).view.loc (thr d L))) (o : Fin 2 → ℕ)
    (ho : ∀ a, o a + S1x16.size a ≤ S2x2048.size a) : S1x16.Idx → BitVec 32 :=
  View.readAt (Elt F) (tB : Memref sig .scVector .vmem S2x2048 .i32).view (Rect.unit (s := S2x2048) o S1x16.size ho).toLoadRect ft'

/-- The four groups' index vectors in a trip over slot 0 are the group index vectors of the words loaded at the trip's
    four offsets. -/
theorem idx3_g0 (ft' : Buf (Elt F) ((tB : Memref sig .scVector .vmem S2x2048 .i32).view.loc (thr d L)))
    (gm : Buf (Elt F) ((mB : Memref sig .scVector .vmem S2x2048 .i32).view.loc (thr d L))) (k : Fin k0_t3_loop.trips) :
    tripW3V.sl.v970 d L iotaV0 ft' gm k = grpIdx (F := F) (grpM d L gm (k0_off7 k) (k0_off7_inb k)) (grpT d L ft' (k0_off7 k) (k0_off7_inb k)) := rfl
theorem idx3_g1 (ft' : Buf (Elt F) ((tB : Memref sig .scVector .vmem S2x2048 .i32).view.loc (thr d L)))
    (gm : Buf (Elt F) ((mB : Memref sig .scVector .vmem S2x2048 .i32).view.loc (thr d L))) (k : Fin k0_t3_loop.trips) :
    tripW3V.sl.v1082 d L iotaV0 ft' gm k = grpIdx (F := F) (grpM d L gm (k0_off24 k) (k0_off24_inb k)) (grpT d L ft' (k0_off24 k) (k0_off24_inb k)) := rfl
theorem idx3_g2 (ft' : Buf (Elt F) ((tB : Memref sig .scVector .vmem S2x2048 .i32).view.loc (thr d L)))
    (gm : Buf (Elt F) ((mB : Memref sig .scVector .vmem S2x2048 .i32).view.loc (thr d L))) (k : Fin k0_t3_loop.trips) :
    tripW3V.sl.v1194 d L iotaV0 ft' gm k = grpIdx (F := F) (grpM d L gm (k0_off41 k) (k0_off41_inb k)) (grpT d L ft' (k0_off41 k) (k0_off41_inb k)) := rfl
theorem idx3_g3 (ft' : Buf (Elt F) ((tB : Memref sig .scVector .vmem S2x2048 .i32).view.loc (thr d L)))
    (gm : Buf (Elt F) ((mB : Memref sig .scVector .vmem S2x2048 .i32).view.loc (thr d L))) (k : Fin k0_t3_loop.trips) :
    tripW3V.sl.v1306 d L iotaV0 ft' gm k = grpIdx (F := F) (grpM d L gm (k0_off58 k) (k0_off58_inb k)) (grpT d L ft' (k0_off58 k) (k0_off58_inb k)) := rfl

/-- What a trip over slot 0 leaves in the counts: the four groups' scatter-adds of the value v5, one over the other. -/
theorem accC3_eq (v3 : IVec S16 32) (hv3 : ∀ x, (v3 x).toNat < 16) (v5 : FVec F S16 .f32)
    (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63)
    (gm : Buf (Elt F) ((mB : Memref sig .scVector .vmem S2x2048 .i32).view.loc (thr d L))) (k : Fin k0_t3_loop.trips)
    (fc : Buf (Elt F) ((cB : Memref sig .scVector .vmem S1024 .f32).view.loc (thr d L)))
    (h0 : ∀ a x, ((![tripW3V.sl.v970 d L v3 ft' gm k] : Fin 1 → IVec S16 32) a x).toNat < S1024.size a)
    (h1 : ∀ a x, ((![tripW3V.sl.v1082 d L v3 ft' gm k] : Fin 1 → IVec S16 32) a x).toNat < S1024.size a)
    (h2 : ∀ a x, ((![tripW3V.sl.v1194 d L v3 ft' gm k] : Fin 1 → IVec S16 32) a x).toNat < S1024.size a)
    (h3 : ∀ a x, ((![tripW3V.sl.v1306 d L v3 ft' gm k] : Fin 1 → IVec S16 32) a x).toNat < S1024.size a) :
    accC3 d L v3 hv3 v5 gx ft' hft gm k fc
      = storeIdx (s := S1024) (d := ![16]) (storeIdx (s := S1024) (d := ![16]) (storeIdx (s := S1024) (d := ![16])
          (storeIdx (s := S1024) (d := ![16]) (fc : Vec F S1024 .f32) ![tripW3V.sl.v970 d L v3 ft' gm k] v5 (fun _ => 1#1) true h0)
          ![tripW3V.sl.v1082 d L v3 ft' gm k] v5 (fun _ => 1#1) true h1)
          ![tripW3V.sl.v1194 d L v3 ft' gm k] v5 (fun _ => 1#1) true h2)
          ![tripW3V.sl.v1306 d L v3 ft' gm k] v5 (fun _ => 1#1) true h3 := rfl

end Cert.Proof.KI.Pass1
end
-- ==== Proof.Pass1VH.lean ====
/-
  The first SparseCore call's counts after one trip of a scatter loop, at an element j: each of the trip's four groups
  adds the group's value of lane j mod 16 exactly when that lane's voxel has segment j div 16.
-/
import proofs.«210783_g59777354826199_cont_9to1_m_168_18_alg».proof.Proof.Pass1VB
import proofs.«210783_g59777354826199_cont_9to1_m_168_18_alg».proof.Proof.Pass1VC
import proofs.«210783_g59777354826199_cont_9to1_m_168_18_alg».proof.Proof.Pass1VG

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [∀ e, Nonempty (Elt F e)] [FloatOps F]

local notation "𝕄" => 𝕄F F

variable (d : Dev nD) (L : grid0.Coords)

open Cert.Proof.Lib

/-- One group's step on element j of the counts, the group's mask and target words being lm and lt: the value of lane
    j mod 16 is added exactly when sixteen times that lane's voxel's segment plus the lane is j. -/
def cntStep (v5 : Vec F S16 .f32) (lm lt : S1x16.Idx → BitVec 32) (j : S1024.Idx) (a : Elt F .f32) : Elt F .f32 :=
  if 16 * segW (lm (Shape.reshapeEquiv shapeCasts_S1x16_S16 (laneOf (N := 1024) j))) (lt (Shape.reshapeEquiv shapeCasts_S1x16_S16 (laneOf (N := 1024) j)))
      + (j 0).val % 16 = (j 0).val
  then Elt.idxAdd .f32 a (v5 (laneOf (N := 1024) j)) else a

omit [∀ e, Nonempty (Elt F e)] in
/-- A group's index vector is inside the counts. -/
theorem grp_inb (lm lt : S1x16.Idx → BitVec 32) (ht : ∀ y, (lt y).toNat ≤ 63) :
    ∀ a x, ((![grpIdx (F := F) lm lt] : Fin 1 → IVec S16 32) a x).toNat < S1024.size a := by
  intro a x
  obtain rfl : a = 0 := Subsingleton.elim _ _
  show (grpIdx (F := F) lm lt x).toNat < 1024
  rw [grpIdx_toNat lm lt ht]
  have := segW_le (lm (Shape.reshapeEquiv shapeCasts_S1x16_S16 x)) (lt (Shape.reshapeEquiv shapeCasts_S1x16_S16 x)) (ht _)
  have hx : (x 0).val < 16 := (x 0).isLt
  omega

omit [∀ e, Nonempty (Elt F e)] in
/-- One group's scatter-add into the counts, at an element. -/
theorem cnt_store_apply (f : Vec F S1024 .f32) (lm lt : S1x16.Idx → BitVec 32) (ht : ∀ y, (lt y).toNat ≤ 63) (v5 : Vec F S16 .f32)
    (h : ∀ a x, ((![grpIdx (F := F) lm lt] : Fin 1 → IVec S16 32) a x).toNat < S1024.size a) (j : S1024.Idx) :
    storeIdx (s := S1024) (d := ![16]) f ![grpIdx (F := F) lm lt] v5 (fun _ => 1#1) true h j = cntStep v5 lm lt j (f j) :=
  storeIdx_lanes_apply (N := 1024) f (grpIdx (F := F) lm lt)
    (fun x => segW (lm (Shape.reshapeEquiv shapeCasts_S1x16_S16 x)) (lt (Shape.reshapeEquiv shapeCasts_S1x16_S16 x)))
    (grpIdx_toNat lm lt ht) v5 h j

/-- What a trip over slot 0 leaves in the counts, at the lanes' own numbers: the four groups' scatter-adds at the group
    index vectors of the words loaded at the trip's four offsets. -/
theorem accC3_eqI (hv3 : ∀ x, ((iotaV0 : IVec S16 32) x).toNat < 16) (v5 : FVec F S16 .f32) (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63) (gm : Buf (Elt F) ((mB : Memref sig .scVector .vmem S2x2048 .i32).view.loc (thr d L))) (k : Fin k0_t3_loop.trips)
    (fc : Buf (Elt F) ((cB : Memref sig .scVector .vmem S1024 .f32).view.loc (thr d L)))
    (h0 : ∀ a x, ((![grpIdx (F := F) (grpM d L gm (k0_off7 k) (k0_off7_inb k)) (grpT d L ft' (k0_off7 k) (k0_off7_inb k))] : Fin 1 → IVec S16 32) a x).toNat < S1024.size a)
    (h1 : ∀ a x, ((![grpIdx (F := F) (grpM d L gm (k0_off24 k) (k0_off24_inb k)) (grpT d L ft' (k0_off24 k) (k0_off24_inb k))] : Fin 1 → IVec S16 32) a x).toNat < S1024.size a)
    (h2 : ∀ a x, ((![grpIdx (F := F) (grpM d L gm (k0_off41 k) (k0_off41_inb k)) (grpT d L ft' (k0_off41 k) (k0_off41_inb k))] : Fin 1 → IVec S16 32) a x).toNat < S1024.size a)
    (h3 : ∀ a x, ((![grpIdx (F := F) (grpM d L gm (k0_off58 k) (k0_off58_inb k)) (grpT d L ft' (k0_off58 k) (k0_off58_inb k))] : Fin 1 → IVec S16 32) a x).toNat < S1024.size a) :
    accC3 d L iotaV0 hv3 v5 gx ft' hft gm k fc
      = storeIdx (s := S1024) (d := ![16]) (storeIdx (s := S1024) (d := ![16]) (storeIdx (s := S1024) (d := ![16])
          (storeIdx (s := S1024) (d := ![16]) (fc : Vec F S1024 .f32) ![grpIdx (F := F) (grpM d L gm (k0_off7 k) (k0_off7_inb k)) (grpT d L ft' (k0_off7 k) (k0_off7_inb k))] v5 (fun _ => 1#1) true h0)
          ![grpIdx (F := F) (grpM d L gm (k0_off24 k) (k0_off24_inb k)) (grpT d L ft' (k0_off24 k) (k0_off24_inb k))] v5 (fun _ => 1#1) true h1)
          ![grpIdx (F := F) (grpM d L gm (k0_off41 k) (k0_off41_inb k)) (grpT d L ft' (k0_off41 k) (k0_off41_inb k))] v5 (fun _ => 1#1) true h2)
          ![grpIdx (F := F) (grpM d L gm (k0_off58 k) (k0_off58_inb k)) (grpT d L ft' (k0_off58 k) (k0_off58_inb k))] v5 (fun _ => 1#1) true h3 := rfl

/-- The counts after one trip over slot 0, at an element: the four groups' steps, one after the other. -/
theorem accC3_apply (hv3 : ∀ x, ((iotaV0 : IVec S16 32) x).toNat < 16) (v5 : FVec F S16 .f32) (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63) (gm : Buf (Elt F) ((mB : Memref sig .scVector .vmem S2x2048 .i32).view.loc (thr d L))) (k : Fin k0_t3_loop.trips)
    (fc : Buf (Elt F) ((cB : Memref sig .scVector .vmem S1024 .f32).view.loc (thr d L))) (j : S1024.Idx) :
    (accC3 d L iotaV0 hv3 v5 gx ft' hft gm k fc : Vec F S1024 .f32) j
      = cntStep v5 (grpM d L gm (k0_off58 k) (k0_off58_inb k)) (grpT d L ft' (k0_off58 k) (k0_off58_inb k)) j (cntStep v5 (grpM d L gm (k0_off41 k) (k0_off41_inb k)) (grpT d L ft' (k0_off41 k) (k0_off41_inb k)) j
          (cntStep v5 (grpM d L gm (k0_off24 k) (k0_off24_inb k)) (grpT d L ft' (k0_off24 k) (k0_off24_inb k)) j (cntStep v5 (grpM d L gm (k0_off7 k) (k0_off7_inb k)) (grpT d L ft' (k0_off7 k) (k0_off7_inb k)) j ((fc : Vec F S1024 .f32) j)))) := by
  have ht : ∀ o ho y, (grpT d L ft' o ho y).toNat ≤ 63 := fun o ho y => hft _
  rw [accC3_eqI d L hv3 v5 gx ft' hft gm k fc (grp_inb _ _ (ht _ _)) (grp_inb _ _ (ht _ _)) (grp_inb _ _ (ht _ _)) (grp_inb _ _ (ht _ _))]
  rw [cnt_store_apply _ _ _ (ht _ _) v5 _ j, cnt_store_apply _ _ _ (ht _ _) v5 _ j, cnt_store_apply _ _ _ (ht _ _) v5 _ j,
    cnt_store_apply _ _ _ (ht _ _) v5 _ j]

/-- What a trip over slot 1 leaves in the counts, at the lanes' own numbers: the four groups' scatter-adds at the group
    index vectors of the words loaded at the trip's four offsets. -/
theorem accC4_eqI (hv3 : ∀ x, ((iotaV0 : IVec S16 32) x).toNat < 16) (v5 : FVec F S16 .f32) (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63) (gm : Buf (Elt F) ((mB : Memref sig .scVector .vmem S2x2048 .i32).view.loc (thr d L))) (k : Fin k0_t4_loop.trips)
    (fc : Buf (Elt F) ((cB : Memref sig .scVector .vmem S1024 .f32).view.loc (thr d L)))
    (h0 : ∀ a x, ((![grpIdx (F := F) (grpM d L gm (k0_off77 k) (k0_off77_inb k)) (grpT d L ft' (k0_off77 k) (k0_off77_inb k))] : Fin 1 → IVec S16 32) a x).toNat < S1024.size a)
    (h1 : ∀ a x, ((![grpIdx (F := F) (grpM d L gm (k0_off94 k) (k0_off94_inb k)) (grpT d L ft' (k0_off94 k) (k0_off94_inb k))] : Fin 1 → IVec S16 32) a x).toNat < S1024.size a)
    (h2 : ∀ a x, ((![grpIdx (F := F) (grpM d L gm (k0_off111 k) (k0_off111_inb k)) (grpT d L ft' (k0_off111 k) (k0_off111_inb k))] : Fin 1 → IVec S16 32) a x).toNat < S1024.size a)
    (h3 : ∀ a x, ((![grpIdx (F := F) (grpM d L gm (k0_off128 k) (k0_off128_inb k)) (grpT d L ft' (k0_off128 k) (k0_off128_inb k))] : Fin 1 → IVec S16 32) a x).toNat < S1024.size a) :
    accC4 d L iotaV0 hv3 v5 gx ft' hft gm k fc
      = storeIdx (s := S1024) (d := ![16]) (storeIdx (s := S1024) (d := ![16]) (storeIdx (s := S1024) (d := ![16])
          (storeIdx (s := S1024) (d := ![16]) (fc : Vec F S1024 .f32) ![grpIdx (F := F) (grpM d L gm (k0_off77 k) (k0_off77_inb k)) (grpT d L ft' (k0_off77 k) (k0_off77_inb k))] v5 (fun _ => 1#1) true h0)
          ![grpIdx (F := F) (grpM d L gm (k0_off94 k) (k0_off94_inb k)) (grpT d L ft' (k0_off94 k) (k0_off94_inb k))] v5 (fun _ => 1#1) true h1)
          ![grpIdx (F := F) (grpM d L gm (k0_off111 k) (k0_off111_inb k)) (grpT d L ft' (k0_off111 k) (k0_off111_inb k))] v5 (fun _ => 1#1) true h2)
          ![grpIdx (F := F) (grpM d L gm (k0_off128 k) (k0_off128_inb k)) (grpT d L ft' (k0_off128 k) (k0_off128_inb k))] v5 (fun _ => 1#1) true h3 := rfl

/-- The counts after one trip over slot 1, at an element: the four groups' steps, one after the other. -/
theorem accC4_apply (hv3 : ∀ x, ((iotaV0 : IVec S16 32) x).toNat < 16) (v5 : FVec F S16 .f32) (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63) (gm : Buf (Elt F) ((mB : Memref sig .scVector .vmem S2x2048 .i32).view.loc (thr d L))) (k : Fin k0_t4_loop.trips)
    (fc : Buf (Elt F) ((cB : Memref sig .scVector .vmem S1024 .f32).view.loc (thr d L))) (j : S1024.Idx) :
    (accC4 d L iotaV0 hv3 v5 gx ft' hft gm k fc : Vec F S1024 .f32) j
      = cntStep v5 (grpM d L gm (k0_off128 k) (k0_off128_inb k)) (grpT d L ft' (k0_off128 k) (k0_off128_inb k)) j (cntStep v5 (grpM d L gm (k0_off111 k) (k0_off111_inb k)) (grpT d L ft' (k0_off111 k) (k0_off111_inb k)) j
          (cntStep v5 (grpM d L gm (k0_off94 k) (k0_off94_inb k)) (grpT d L ft' (k0_off94 k) (k0_off94_inb k)) j (cntStep v5 (grpM d L gm (k0_off77 k) (k0_off77_inb k)) (grpT d L ft' (k0_off77 k) (k0_off77_inb k)) j ((fc : Vec F S1024 .f32) j)))) := by
  have ht : ∀ o ho y, (grpT d L ft' o ho y).toNat ≤ 63 := fun o ho y => hft _
  rw [accC4_eqI d L hv3 v5 gx ft' hft gm k fc (grp_inb _ _ (ht _ _)) (grp_inb _ _ (ht _ _)) (grp_inb _ _ (ht _ _)) (grp_inb _ _ (ht _ _))]
  rw [cnt_store_apply _ _ _ (ht _ _) v5 _ j, cnt_store_apply _ _ _ (ht _ _) v5 _ j, cnt_store_apply _ _ _ (ht _ _) v5 _ j,
    cnt_store_apply _ _ _ (ht _ _) v5 _ j]

end Cert.Proof.KI.Pass1
end
-- ==== Proof.Pass1VI.lean ====
/-
  The first SparseCore call's sums after one trip of a scatter loop, at an element j: each of the trip's four groups and
  each of the sixteen rows adds the row's value of lane j mod 16 exactly when that lane's voxel has the segment, and the
  row is the row, that j names.
-/
import proofs.«210783_g59777354826199_cont_9to1_m_168_18_alg».proof.Proof.Pass1VB
import proofs.«210783_g59777354826199_cont_9to1_m_168_18_alg».proof.Proof.Pass1VC
import proofs.«210783_g59777354826199_cont_9to1_m_168_18_alg».proof.Proof.Pass1VG

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [∀ e, Nonempty (Elt F e)] [FloatOps F]

local notation "𝕄" => 𝕄F F

variable (d : Dev nD) (L : grid0.Coords)

open Cert.Proof.Lib

/-- A row's sixteen values of a group at offset o of the staging buffer, as a load reads them. -/
abbrev grpX (g : Buf (Elt F) ((xB : Memref sig .scVector .vmem S2x16x2048 .f32).view.loc (thr d L))) (o : Fin 3 → ℕ)
    (ho : ∀ a, o a + S1x1x16.size a ≤ S2x16x2048.size a) : Vec F S16 .f32 :=
  shapeCast S16 (View.readAt (Elt F) (xB : Memref sig .scVector .vmem S2x16x2048 .f32).view (Rect.unit (s := S2x16x2048) o S1x1x16.size ho).toLoadRect g) shapeCasts_S1x1x16_S16

/-- One group's step for row r on element j of the sums, the group's mask and target words being lm and lt and the row's
    values xv: the value of lane j mod 16 is added exactly when 1024·r plus sixteen times that lane's voxel's segment
    plus the lane is j. -/
def sumStep (r : ℕ) (xv : Vec F S16 .f32) (lm lt : S1x16.Idx → BitVec 32) (j : S16384.Idx) (a : Elt F .f32) : Elt F .f32 :=
  if 16 * (64 * r + segW (lm (Shape.reshapeEquiv shapeCasts_S1x16_S16 (laneOf (N := 16384) j))) (lt (Shape.reshapeEquiv shapeCasts_S1x16_S16 (laneOf (N := 16384) j))))
      + (j 0).val % 16 = (j 0).val
  then Elt.idxAdd .f32 a (xv (laneOf (N := 16384) j)) else a

omit [∀ e, Nonempty (Elt F e)] in
theorem grp_off_toNat (lm lt : S1x16.Idx → BitVec 32) (ht : ∀ y, (lt y).toNat ≤ 63) (r : ℕ) (hr : r < 16) (x : S16.Idx) :
    ((addi (grpIdx (F := F) lm lt) (broadcast S16 (BitVec.ofNat 32 (1024 * r))) : IVec S16 32) x).toNat
      = 16 * (64 * r + segW (lm (Shape.reshapeEquiv shapeCasts_S1x16_S16 x)) (lt (Shape.reshapeEquiv shapeCasts_S1x16_S16 x))) + (x 0).val := by
  have ho : (BitVec.ofNat 32 (1024 * r)).toNat = 1024 * r := by rw [BitVec.toNat_ofNat]; omega
  rw [grpIdx_off_toNat lm lt ht _ (by rw [ho]; omega), ho]
  omega

omit [∀ e, Nonempty (Elt F e)] in
/-- A group's index vector a row's offset further on is inside the sums. -/
theorem grp_off_inb (lm lt : S1x16.Idx → BitVec 32) (ht : ∀ y, (lt y).toNat ≤ 63) (r : ℕ) (hr : r < 16) :
    ∀ a x, ((![addi (grpIdx (F := F) lm lt) (broadcast S16 (BitVec.ofNat 32 (1024 * r)))] : Fin 1 → IVec S16 32) a x).toNat < S16384.size a := by
  intro a x
  obtain rfl : a = 0 := Subsingleton.elim _ _
  show ((addi (grpIdx (F := F) lm lt) (broadcast S16 (BitVec.ofNat 32 (1024 * r))) : IVec S16 32) x).toNat < 16384
  rw [grp_off_toNat lm lt ht r hr]
  have := segW_le (lm (Shape.reshapeEquiv shapeCasts_S1x16_S16 x)) (lt (Shape.reshapeEquiv shapeCasts_S1x16_S16 x)) (ht _)
  have hx : (x 0).val < 16 := (x 0).isLt
  omega

omit [∀ e, Nonempty (Elt F e)] in
/-- One group's scatter-add of one row into the sums, at an element. -/
theorem sum_store_apply (f : Vec F S16384 .f32) (lm lt : S1x16.Idx → BitVec 32) (ht : ∀ y, (lt y).toNat ≤ 63) (r : ℕ) (hr : r < 16)
    (xv : Vec F S16 .f32)
    (h : ∀ a x, ((![addi (grpIdx (F := F) lm lt) (broadcast S16 (BitVec.ofNat 32 (1024 * r)))] : Fin 1 → IVec S16 32) a x).toNat < S16384.size a)
    (j : S16384.Idx) :
    storeIdx (s := S16384) (d := ![16]) f ![addi (grpIdx (F := F) lm lt) (broadcast S16 (BitVec.ofNat 32 (1024 * r)))] xv (fun _ => 1#1) true h j
      = sumStep r xv lm lt j (f j) :=
  storeIdx_lanes_apply (N := 16384) f _
    (fun x => 64 * r + segW (lm (Shape.reshapeEquiv shapeCasts_S1x16_S16 x)) (lt (Shape.reshapeEquiv shapeCasts_S1x16_S16 x)))
    (grp_off_toNat lm lt ht r hr) xv h j

/-- What a trip over slot 0 leaves in the sums, at the lanes' own numbers: for each of the four groups and each of the
    sixteen rows, the scatter-add of the row's sixteen values at the group's index vector a row's offset further on. -/
theorem accA3_eqI (hv3 : ∀ x, ((iotaV0 : IVec S16 32) x).toNat < 16) (v5 : FVec F S16 .f32) (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63) (gm : Buf (Elt F) ((mB : Memref sig .scVector .vmem S2x2048 .i32).view.loc (thr d L))) (k : Fin k0_t3_loop.trips)
    (fa : Buf (Elt F) ((aB : Memref sig .scVector .vmem S16384 .f32).view.loc (thr d L)))
    (ht : ∀ o ho y, (grpT d L ft' o ho y).toNat ≤ 63) :
    accA3 d L iotaV0 hv3 v5 gx ft' hft gm k fa
      = storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) ((fa : Vec F S16384 .f32))
        ![addi (grpIdx (F := F) (grpM d L gm (k0_off7 k) (k0_off7_inb k)) (grpT d L ft' (k0_off7 k) (k0_off7_inb k))) (broadcast S16 (BitVec.ofNat 32 (1024 * 0)))] (grpX d L (gx 0) (k0_off8 k) (k0_off8_inb k)) (fun _ => 1#1) true (grp_off_inb _ _ (ht _ _) 0 (by decide)))
        ![addi (grpIdx (F := F) (grpM d L gm (k0_off7 k) (k0_off7_inb k)) (grpT d L ft' (k0_off7 k) (k0_off7_inb k))) (broadcast S16 (BitVec.ofNat 32 (1024 * 1)))] (grpX d L (gx 1) (k0_off9 k) (k0_off9_inb k)) (fun _ => 1#1) true (grp_off_inb _ _ (ht _ _) 1 (by decide)))
        ![addi (grpIdx (F := F) (grpM d L gm (k0_off7 k) (k0_off7_inb k)) (grpT d L ft' (k0_off7 k) (k0_off7_inb k))) (broadcast S16 (BitVec.ofNat 32 (1024 * 2)))] (grpX d L (gx 2) (k0_off10 k) (k0_off10_inb k)) (fun _ => 1#1) true (grp_off_inb _ _ (ht _ _) 2 (by decide)))
        ![addi (grpIdx (F := F) (grpM d L gm (k0_off7 k) (k0_off7_inb k)) (grpT d L ft' (k0_off7 k) (k0_off7_inb k))) (broadcast S16 (BitVec.ofNat 32 (1024 * 3)))] (grpX d L (gx 3) (k0_off11 k) (k0_off11_inb k)) (fun _ => 1#1) true (grp_off_inb _ _ (ht _ _) 3 (by decide)))
        ![addi (grpIdx (F := F) (grpM d L gm (k0_off7 k) (k0_off7_inb k)) (grpT d L ft' (k0_off7 k) (k0_off7_inb k))) (broadcast S16 (BitVec.ofNat 32 (1024 * 4)))] (grpX d L (gx 4) (k0_off12 k) (k0_off12_inb k)) (fun _ => 1#1) true (grp_off_inb _ _ (ht _ _) 4 (by decide)))
        ![addi (grpIdx (F := F) (grpM d L gm (k0_off7 k) (k0_off7_inb k)) (grpT d L ft' (k0_off7 k) (k0_off7_inb k))) (broadcast S16 (BitVec.ofNat 32 (1024 * 5)))] (grpX d L (gx 5) (k0_off13 k) (k0_off13_inb k)) (fun _ => 1#1) true (grp_off_inb _ _ (ht _ _) 5 (by decide)))
        ![addi (grpIdx (F := F) (grpM d L gm (k0_off7 k) (k0_off7_inb k)) (grpT d L ft' (k0_off7 k) (k0_off7_inb k))) (broadcast S16 (BitVec.ofNat 32 (1024 * 6)))] (grpX d L (gx 6) (k0_off14 k) (k0_off14_inb k)) (fun _ => 1#1) true (grp_off_inb _ _ (ht _ _) 6 (by decide)))
        ![addi (grpIdx (F := F) (grpM d L gm (k0_off7 k) (k0_off7_inb k)) (grpT d L ft' (k0_off7 k) (k0_off7_inb k))) (broadcast S16 (BitVec.ofNat 32 (1024 * 7)))] (grpX d L (gx 7) (k0_off15 k) (k0_off15_inb k)) (fun _ => 1#1) true (grp_off_inb _ _ (ht _ _) 7 (by decide)))
        ![addi (grpIdx (F := F) (grpM d L gm (k0_off7 k) (k0_off7_inb k)) (grpT d L ft' (k0_off7 k) (k0_off7_inb k))) (broadcast S16 (BitVec.ofNat 32 (1024 * 8)))] (grpX d L (gx 8) (k0_off16 k) (k0_off16_inb k)) (fun _ => 1#1) true (grp_off_inb _ _ (ht _ _) 8 (by decide)))
        ![addi (grpIdx (F := F) (grpM d L gm (k0_off7 k) (k0_off7_inb k)) (grpT d L ft' (k0_off7 k) (k0_off7_inb k))) (broadcast S16 (BitVec.ofNat 32 (1024 * 9)))] (grpX d L (gx 9) (k0_off17 k) (k0_off17_inb k)) (fun _ => 1#1) true (grp_off_inb _ _ (ht _ _) 9 (by decide)))
        ![addi (grpIdx (F := F) (grpM d L gm (k0_off7 k) (k0_off7_inb k)) (grpT d L ft' (k0_off7 k) (k0_off7_inb k))) (broadcast S16 (BitVec.ofNat 32 (1024 * 10)))] (grpX d L (gx 10) (k0_off18 k) (k0_off18_inb k)) (fun _ => 1#1) true (grp_off_inb _ _ (ht _ _) 10 (by decide)))
        ![addi (grpIdx (F := F) (grpM d L gm (k0_off7 k) (k0_off7_inb k)) (grpT d L ft' (k0_off7 k) (k0_off7_inb k))) (broadcast S16 (BitVec.ofNat 32 (1024 * 11)))] (grpX d L (gx 11) (k0_off19 k) (k0_off19_inb k)) (fun _ => 1#1) true (grp_off_inb _ _ (ht _ _) 11 (by decide)))
        ![addi (grpIdx (F := F) (grpM d L gm (k0_off7 k) (k0_off7_inb k)) (grpT d L ft' (k0_off7 k) (k0_off7_inb k))) (broadcast S16 (BitVec.ofNat 32 (1024 * 12)))] (grpX d L (gx 12) (k0_off20 k) (k0_off20_inb k)) (fun _ => 1#1) true (grp_off_inb _ _ (ht _ _) 12 (by decide)))
        ![addi (grpIdx (F := F) (grpM d L gm (k0_off7 k) (k0_off7_inb k)) (grpT d L ft' (k0_off7 k) (k0_off7_inb k))) (broadcast S16 (BitVec.ofNat 32 (1024 * 13)))] (grpX d L (gx 13) (k0_off21 k) (k0_off21_inb k)) (fun _ => 1#1) true (grp_off_inb _ _ (ht _ _) 13 (by decide)))
        ![addi (grpIdx (F := F) (grpM d L gm (k0_off7 k) (k0_off7_inb k)) (grpT d L ft' (k0_off7 k) (k0_off7_inb k))) (broadcast S16 (BitVec.ofNat 32 (1024 * 14)))] (grpX d L (gx 14) (k0_off22 k) (k0_off22_inb k)) (fun _ => 1#1) true (grp_off_inb _ _ (ht _ _) 14 (by decide)))
        ![addi (grpIdx (F := F) (grpM d L gm (k0_off7 k) (k0_off7_inb k)) (grpT d L ft' (k0_off7 k) (k0_off7_inb k))) (broadcast S16 (BitVec.ofNat 32 (1024 * 15)))] (grpX d L (gx 15) (k0_off23 k) (k0_off23_inb k)) (fun _ => 1#1) true (grp_off_inb _ _ (ht _ _) 15 (by decide)))
        ![addi (grpIdx (F := F) (grpM d L gm (k0_off24 k) (k0_off24_inb k)) (grpT d L ft' (k0_off24 k) (k0_off24_inb k))) (broadcast S16 (BitVec.ofNat 32 (1024 * 0)))] (grpX d L (gx 0) (k0_off25 k) (k0_off25_inb k)) (fun _ => 1#1) true (grp_off_inb _ _ (ht _ _) 0 (by decide)))
        ![addi (grpIdx (F := F) (grpM d L gm (k0_off24 k) (k0_off24_inb k)) (grpT d L ft' (k0_off24 k) (k0_off24_inb k))) (broadcast S16 (BitVec.ofNat 32 (1024 * 1)))] (grpX d L (gx 1) (k0_off26 k) (k0_off26_inb k)) (fun _ => 1#1) true (grp_off_inb _ _ (ht _ _) 1 (by decide)))
        ![addi (grpIdx (F := F) (grpM d L gm (k0_off24 k) (k0_off24_inb k)) (grpT d L ft' (k0_off24 k) (k0_off24_inb k))) (broadcast S16 (BitVec.ofNat 32 (1024 * 2)))] (grpX d L (gx 2) (k0_off27 k) (k0_off27_inb k)) (fun _ => 1#1) true (grp_off_inb _ _ (ht _ _) 2 (by decide)))
        ![addi (grpIdx (F := F) (grpM d L gm (k0_off24 k) (k0_off24_inb k)) (grpT d L ft' (k0_off24 k) (k0_off24_inb k))) (broadcast S16 (BitVec.ofNat 32 (1024 * 3)))] (grpX d L (gx 3) (k0_off28 k) (k0_off28_inb k)) (fun _ => 1#1) true (grp_off_inb _ _ (ht _ _) 3 (by decide)))
        ![addi (grpIdx (F := F) (grpM d L gm (k0_off24 k) (k0_off24_inb k)) (grpT d L ft' (k0_off24 k) (k0_off24_inb k))) (broadcast S16 (BitVec.ofNat 32 (1024 * 4)))] (grpX d L (gx 4) (k0_off29 k) (k0_off29_inb k)) (fun _ => 1#1) true (grp_off_inb _ _ (ht _ _) 4 (by decide)))
        ![addi (grpIdx (F := F) (grpM d L gm (k0_off24 k) (k0_off24_inb k)) (grpT d L ft' (k0_off24 k) (k0_off24_inb k))) (broadcast S16 (BitVec.ofNat 32 (1024 * 5)))] (grpX d L (gx 5) (k0_off30 k) (k0_off30_inb k)) (fun _ => 1#1) true (grp_off_inb _ _ (ht _ _) 5 (by decide)))
        ![addi (grpIdx (F := F) (grpM d L gm (k0_off24 k) (k0_off24_inb k)) (grpT d L ft' (k0_off24 k) (k0_off24_inb k))) (broadcast S16 (BitVec.ofNat 32 (1024 * 6)))] (grpX d L (gx 6) (k0_off31 k) (k0_off31_inb k)) (fun _ => 1#1) true (grp_off_inb _ _ (ht _ _) 6 (by decide)))
        ![addi (grpIdx (F := F) (grpM d L gm (k0_off24 k) (k0_off24_inb k)) (grpT d L ft' (k0_off24 k) (k0_off24_inb k))) (broadcast S16 (BitVec.ofNat 32 (1024 * 7)))] (grpX d L (gx 7) (k0_off32 k) (k0_off32_inb k)) (fun _ => 1#1) true (grp_off_inb _ _ (ht _ _) 7 (by decide)))
        ![addi (grpIdx (F := F) (grpM d L gm (k0_off24 k) (k0_off24_inb k)) (grpT d L ft' (k0_off24 k) (k0_off24_inb k))) (broadcast S16 (BitVec.ofNat 32 (1024 * 8)))] (grpX d L (gx 8) (k0_off33 k) (k0_off33_inb k)) (fun _ => 1#1) true (grp_off_inb _ _ (ht _ _) 8 (by decide)))
        ![addi (grpIdx (F := F) (grpM d L gm (k0_off24 k) (k0_off24_inb k)) (grpT d L ft' (k0_off24 k) (k0_off24_inb k))) (broadcast S16 (BitVec.ofNat 32 (1024 * 9)))] (grpX d L (gx 9) (k0_off34 k) (k0_off34_inb k)) (fun _ => 1#1) true (grp_off_inb _ _ (ht _ _) 9 (by decide)))
        ![addi (grpIdx (F := F) (grpM d L gm (k0_off24 k) (k0_off24_inb k)) (grpT d L ft' (k0_off24 k) (k0_off24_inb k))) (broadcast S16 (BitVec.ofNat 32 (1024 * 10)))] (grpX d L (gx 10) (k0_off35 k) (k0_off35_inb k)) (fun _ => 1#1) true (grp_off_inb _ _ (ht _ _) 10 (by decide)))
        ![addi (grpIdx (F := F) (grpM d L gm (k0_off24 k) (k0_off24_inb k)) (grpT d L ft' (k0_off24 k) (k0_off24_inb k))) (broadcast S16 (BitVec.ofNat 32 (1024 * 11)))] (grpX d L (gx 11) (k0_off36 k) (k0_off36_inb k)) (fun _ => 1#1) true (grp_off_inb _ _ (ht _ _) 11 (by decide)))
        ![addi (grpIdx (F := F) (grpM d L gm (k0_off24 k) (k0_off24_inb k)) (grpT d L ft' (k0_off24 k) (k0_off24_inb k))) (broadcast S16 (BitVec.ofNat 32 (1024 * 12)))] (grpX d L (gx 12) (k0_off37 k) (k0_off37_inb k)) (fun _ => 1#1) true (grp_off_inb _ _ (ht _ _) 12 (by decide)))
        ![addi (grpIdx (F := F) (grpM d L gm (k0_off24 k) (k0_off24_inb k)) (grpT d L ft' (k0_off24 k) (k0_off24_inb k))) (broadcast S16 (BitVec.ofNat 32 (1024 * 13)))] (grpX d L (gx 13) (k0_off38 k) (k0_off38_inb k)) (fun _ => 1#1) true (grp_off_inb _ _ (ht _ _) 13 (by decide)))
        ![addi (grpIdx (F := F) (grpM d L gm (k0_off24 k) (k0_off24_inb k)) (grpT d L ft' (k0_off24 k) (k0_off24_inb k))) (broadcast S16 (BitVec.ofNat 32 (1024 * 14)))] (grpX d L (gx 14) (k0_off39 k) (k0_off39_inb k)) (fun _ => 1#1) true (grp_off_inb _ _ (ht _ _) 14 (by decide)))
        ![addi (grpIdx (F := F) (grpM d L gm (k0_off24 k) (k0_off24_inb k)) (grpT d L ft' (k0_off24 k) (k0_off24_inb k))) (broadcast S16 (BitVec.ofNat 32 (1024 * 15)))] (grpX d L (gx 15) (k0_off40 k) (k0_off40_inb k)) (fun _ => 1#1) true (grp_off_inb _ _ (ht _ _) 15 (by decide)))
        ![addi (grpIdx (F := F) (grpM d L gm (k0_off41 k) (k0_off41_inb k)) (grpT d L ft' (k0_off41 k) (k0_off41_inb k))) (broadcast S16 (BitVec.ofNat 32 (1024 * 0)))] (grpX d L (gx 0) (k0_off42 k) (k0_off42_inb k)) (fun _ => 1#1) true (grp_off_inb _ _ (ht _ _) 0 (by decide)))
        ![addi (grpIdx (F := F) (grpM d L gm (k0_off41 k) (k0_off41_inb k)) (grpT d L ft' (k0_off41 k) (k0_off41_inb k))) (broadcast S16 (BitVec.ofNat 32 (1024 * 1)))] (grpX d L (gx 1) (k0_off43 k) (k0_off43_inb k)) (fun _ => 1#1) true (grp_off_inb _ _ (ht _ _) 1 (by decide)))
        ![addi (grpIdx (F := F) (grpM d L gm (k0_off41 k) (k0_off41_inb k)) (grpT d L ft' (k0_off41 k) (k0_off41_inb k))) (broadcast S16 (BitVec.ofNat 32 (1024 * 2)))] (grpX d L (gx 2) (k0_off44 k) (k0_off44_inb k)) (fun _ => 1#1) true (grp_off_inb _ _ (ht _ _) 2 (by decide)))
        ![addi (grpIdx (F := F) (grpM d L gm (k0_off41 k) (k0_off41_inb k)) (grpT d L ft' (k0_off41 k) (k0_off41_inb k))) (broadcast S16 (BitVec.ofNat 32 (1024 * 3)))] (grpX d L (gx 3) (k0_off45 k) (k0_off45_inb k)) (fun _ => 1#1) true (grp_off_inb _ _ (ht _ _) 3 (by decide)))
        ![addi (grpIdx (F := F) (grpM d L gm (k0_off41 k) (k0_off41_inb k)) (grpT d L ft' (k0_off41 k) (k0_off41_inb k))) (broadcast S16 (BitVec.ofNat 32 (1024 * 4)))] (grpX d L (gx 4) (k0_off46 k) (k0_off46_inb k)) (fun _ => 1#1) true (grp_off_inb _ _ (ht _ _) 4 (by decide)))
        ![addi (grpIdx (F := F) (grpM d L gm (k0_off41 k) (k0_off41_inb k)) (grpT d L ft' (k0_off41 k) (k0_off41_inb k))) (broadcast S16 (BitVec.ofNat 32 (1024 * 5)))] (grpX d L (gx 5) (k0_off47 k) (k0_off47_inb k)) (fun _ => 1#1) true (grp_off_inb _ _ (ht _ _) 5 (by decide)))
        ![addi (grpIdx (F := F) (grpM d L gm (k0_off41 k) (k0_off41_inb k)) (grpT d L ft' (k0_off41 k) (k0_off41_inb k))) (broadcast S16 (BitVec.ofNat 32 (1024 * 6)))] (grpX d L (gx 6) (k0_off48 k) (k0_off48_inb k)) (fun _ => 1#1) true (grp_off_inb _ _ (ht _ _) 6 (by decide)))
        ![addi (grpIdx (F := F) (grpM d L gm (k0_off41 k) (k0_off41_inb k)) (grpT d L ft' (k0_off41 k) (k0_off41_inb k))) (broadcast S16 (BitVec.ofNat 32 (1024 * 7)))] (grpX d L (gx 7) (k0_off49 k) (k0_off49_inb k)) (fun _ => 1#1) true (grp_off_inb _ _ (ht _ _) 7 (by decide)))
        ![addi (grpIdx (F := F) (grpM d L gm (k0_off41 k) (k0_off41_inb k)) (grpT d L ft' (k0_off41 k) (k0_off41_inb k))) (broadcast S16 (BitVec.ofNat 32 (1024 * 8)))] (grpX d L (gx 8) (k0_off50 k) (k0_off50_inb k)) (fun _ => 1#1) true (grp_off_inb _ _ (ht _ _) 8 (by decide)))
        ![addi (grpIdx (F := F) (grpM d L gm (k0_off41 k) (k0_off41_inb k)) (grpT d L ft' (k0_off41 k) (k0_off41_inb k))) (broadcast S16 (BitVec.ofNat 32 (1024 * 9)))] (grpX d L (gx 9) (k0_off51 k) (k0_off51_inb k)) (fun _ => 1#1) true (grp_off_inb _ _ (ht _ _) 9 (by decide)))
        ![addi (grpIdx (F := F) (grpM d L gm (k0_off41 k) (k0_off41_inb k)) (grpT d L ft' (k0_off41 k) (k0_off41_inb k))) (broadcast S16 (BitVec.ofNat 32 (1024 * 10)))] (grpX d L (gx 10) (k0_off52 k) (k0_off52_inb k)) (fun _ => 1#1) true (grp_off_inb _ _ (ht _ _) 10 (by decide)))
        ![addi (grpIdx (F := F) (grpM d L gm (k0_off41 k) (k0_off41_inb k)) (grpT d L ft' (k0_off41 k) (k0_off41_inb k))) (broadcast S16 (BitVec.ofNat 32 (1024 * 11)))] (grpX d L (gx 11) (k0_off53 k) (k0_off53_inb k)) (fun _ => 1#1) true (grp_off_inb _ _ (ht _ _) 11 (by decide)))
        ![addi (grpIdx (F := F) (grpM d L gm (k0_off41 k) (k0_off41_inb k)) (grpT d L ft' (k0_off41 k) (k0_off41_inb k))) (broadcast S16 (BitVec.ofNat 32 (1024 * 12)))] (grpX d L (gx 12) (k0_off54 k) (k0_off54_inb k)) (fun _ => 1#1) true (grp_off_inb _ _ (ht _ _) 12 (by decide)))
        ![addi (grpIdx (F := F) (grpM d L gm (k0_off41 k) (k0_off41_inb k)) (grpT d L ft' (k0_off41 k) (k0_off41_inb k))) (broadcast S16 (BitVec.ofNat 32 (1024 * 13)))] (grpX d L (gx 13) (k0_off55 k) (k0_off55_inb k)) (fun _ => 1#1) true (grp_off_inb _ _ (ht _ _) 13 (by decide)))
        ![addi (grpIdx (F := F) (grpM d L gm (k0_off41 k) (k0_off41_inb k)) (grpT d L ft' (k0_off41 k) (k0_off41_inb k))) (broadcast S16 (BitVec.ofNat 32 (1024 * 14)))] (grpX d L (gx 14) (k0_off56 k) (k0_off56_inb k)) (fun _ => 1#1) true (grp_off_inb _ _ (ht _ _) 14 (by decide)))
        ![addi (grpIdx (F := F) (grpM d L gm (k0_off41 k) (k0_off41_inb k)) (grpT d L ft' (k0_off41 k) (k0_off41_inb k))) (broadcast S16 (BitVec.ofNat 32 (1024 * 15)))] (grpX d L (gx 15) (k0_off57 k) (k0_off57_inb k)) (fun _ => 1#1) true (grp_off_inb _ _ (ht _ _) 15 (by decide)))
        ![addi (grpIdx (F := F) (grpM d L gm (k0_off58 k) (k0_off58_inb k)) (grpT d L ft' (k0_off58 k) (k0_off58_inb k))) (broadcast S16 (BitVec.ofNat 32 (1024 * 0)))] (grpX d L (gx 0) (k0_off59 k) (k0_off59_inb k)) (fun _ => 1#1) true (grp_off_inb _ _ (ht _ _) 0 (by decide)))
        ![addi (grpIdx (F := F) (grpM d L gm (k0_off58 k) (k0_off58_inb k)) (grpT d L ft' (k0_off58 k) (k0_off58_inb k))) (broadcast S16 (BitVec.ofNat 32 (1024 * 1)))] (grpX d L (gx 1) (k0_off60 k) (k0_off60_inb k)) (fun _ => 1#1) true (grp_off_inb _ _ (ht _ _) 1 (by decide)))
        ![addi (grpIdx (F := F) (grpM d L gm (k0_off58 k) (k0_off58_inb k)) (grpT d L ft' (k0_off58 k) (k0_off58_inb k))) (broadcast S16 (BitVec.ofNat 32 (1024 * 2)))] (grpX d L (gx 2) (k0_off61 k) (k0_off61_inb k)) (fun _ => 1#1) true (grp_off_inb _ _ (ht _ _) 2 (by decide)))
        ![addi (grpIdx (F := F) (grpM d L gm (k0_off58 k) (k0_off58_inb k)) (grpT d L ft' (k0_off58 k) (k0_off58_inb k))) (broadcast S16 (BitVec.ofNat 32 (1024 * 3)))] (grpX d L (gx 3) (k0_off62 k) (k0_off62_inb k)) (fun _ => 1#1) true (grp_off_inb _ _ (ht _ _) 3 (by decide)))
        ![addi (grpIdx (F := F) (grpM d L gm (k0_off58 k) (k0_off58_inb k)) (grpT d L ft' (k0_off58 k) (k0_off58_inb k))) (broadcast S16 (BitVec.ofNat 32 (1024 * 4)))] (grpX d L (gx 4) (k0_off63 k) (k0_off63_inb k)) (fun _ => 1#1) true (grp_off_inb _ _ (ht _ _) 4 (by decide)))
        ![addi (grpIdx (F := F) (grpM d L gm (k0_off58 k) (k0_off58_inb k)) (grpT d L ft' (k0_off58 k) (k0_off58_inb k))) (broadcast S16 (BitVec.ofNat 32 (1024 * 5)))] (grpX d L (gx 5) (k0_off64 k) (k0_off64_inb k)) (fun _ => 1#1) true (grp_off_inb _ _ (ht _ _) 5 (by decide)))
        ![addi (grpIdx (F := F) (grpM d L gm (k0_off58 k) (k0_off58_inb k)) (grpT d L ft' (k0_off58 k) (k0_off58_inb k))) (broadcast S16 (BitVec.ofNat 32 (1024 * 6)))] (grpX d L (gx 6) (k0_off65 k) (k0_off65_inb k)) (fun _ => 1#1) true (grp_off_inb _ _ (ht _ _) 6 (by decide)))
        ![addi (grpIdx (F := F) (grpM d L gm (k0_off58 k) (k0_off58_inb k)) (grpT d L ft' (k0_off58 k) (k0_off58_inb k))) (broadcast S16 (BitVec.ofNat 32 (1024 * 7)))] (grpX d L (gx 7) (k0_off66 k) (k0_off66_inb k)) (fun _ => 1#1) true (grp_off_inb _ _ (ht _ _) 7 (by decide)))
        ![addi (grpIdx (F := F) (grpM d L gm (k0_off58 k) (k0_off58_inb k)) (grpT d L ft' (k0_off58 k) (k0_off58_inb k))) (broadcast S16 (BitVec.ofNat 32 (1024 * 8)))] (grpX d L (gx 8) (k0_off67 k) (k0_off67_inb k)) (fun _ => 1#1) true (grp_off_inb _ _ (ht _ _) 8 (by decide)))
        ![addi (grpIdx (F := F) (grpM d L gm (k0_off58 k) (k0_off58_inb k)) (grpT d L ft' (k0_off58 k) (k0_off58_inb k))) (broadcast S16 (BitVec.ofNat 32 (1024 * 9)))] (grpX d L (gx 9) (k0_off68 k) (k0_off68_inb k)) (fun _ => 1#1) true (grp_off_inb _ _ (ht _ _) 9 (by decide)))
        ![addi (grpIdx (F := F) (grpM d L gm (k0_off58 k) (k0_off58_inb k)) (grpT d L ft' (k0_off58 k) (k0_off58_inb k))) (broadcast S16 (BitVec.ofNat 32 (1024 * 10)))] (grpX d L (gx 10) (k0_off69 k) (k0_off69_inb k)) (fun _ => 1#1) true (grp_off_inb _ _ (ht _ _) 10 (by decide)))
        ![addi (grpIdx (F := F) (grpM d L gm (k0_off58 k) (k0_off58_inb k)) (grpT d L ft' (k0_off58 k) (k0_off58_inb k))) (broadcast S16 (BitVec.ofNat 32 (1024 * 11)))] (grpX d L (gx 11) (k0_off70 k) (k0_off70_inb k)) (fun _ => 1#1) true (grp_off_inb _ _ (ht _ _) 11 (by decide)))
        ![addi (grpIdx (F := F) (grpM d L gm (k0_off58 k) (k0_off58_inb k)) (grpT d L ft' (k0_off58 k) (k0_off58_inb k))) (broadcast S16 (BitVec.ofNat 32 (1024 * 12)))] (grpX d L (gx 12) (k0_off71 k) (k0_off71_inb k)) (fun _ => 1#1) true (grp_off_inb _ _ (ht _ _) 12 (by decide)))
        ![addi (grpIdx (F := F) (grpM d L gm (k0_off58 k) (k0_off58_inb k)) (grpT d L ft' (k0_off58 k) (k0_off58_inb k))) (broadcast S16 (BitVec.ofNat 32 (1024 * 13)))] (grpX d L (gx 13) (k0_off72 k) (k0_off72_inb k)) (fun _ => 1#1) true (grp_off_inb _ _ (ht _ _) 13 (by decide)))
        ![addi (grpIdx (F := F) (grpM d L gm (k0_off58 k) (k0_off58_inb k)) (grpT d L ft' (k0_off58 k) (k0_off58_inb k))) (broadcast S16 (BitVec.ofNat 32 (1024 * 14)))] (grpX d L (gx 14) (k0_off73 k) (k0_off73_inb k)) (fun _ => 1#1) true (grp_off_inb _ _ (ht _ _) 14 (by decide)))
        ![addi (grpIdx (F := F) (grpM d L gm (k0_off58 k) (k0_off58_inb k)) (grpT d L ft' (k0_off58 k) (k0_off58_inb k))) (broadcast S16 (BitVec.ofNat 32 (1024 * 15)))] (grpX d L (gx 15) (k0_off74 k) (k0_off74_inb k)) (fun _ => 1#1) true (grp_off_inb _ _ (ht _ _) 15 (by decide)) := rfl

set_option maxHeartbeats 4000000 in
/-- The sums after one trip over slot 0, at an element: the sixty-four steps, one after the other. -/
theorem accA3_apply (hv3 : ∀ x, ((iotaV0 : IVec S16 32) x).toNat < 16) (v5 : FVec F S16 .f32) (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63) (gm : Buf (Elt F) ((mB : Memref sig .scVector .vmem S2x2048 .i32).view.loc (thr d L))) (k : Fin k0_t3_loop.trips)
    (fa : Buf (Elt F) ((aB : Memref sig .scVector .vmem S16384 .f32).view.loc (thr d L))) (j : S16384.Idx) :
    (accA3 d L iotaV0 hv3 v5 gx ft' hft gm k fa : Vec F S16384 .f32) j
      = sumStep 15 (grpX d L (gx 15) (k0_off74 k) (k0_off74_inb k)) (grpM d L gm (k0_off58 k) (k0_off58_inb k)) (grpT d L ft' (k0_off58 k) (k0_off58_inb k)) j
        (sumStep 14 (grpX d L (gx 14) (k0_off73 k) (k0_off73_inb k)) (grpM d L gm (k0_off58 k) (k0_off58_inb k)) (grpT d L ft' (k0_off58 k) (k0_off58_inb k)) j
        (sumStep 13 (grpX d L (gx 13) (k0_off72 k) (k0_off72_inb k)) (grpM d L gm (k0_off58 k) (k0_off58_inb k)) (grpT d L ft' (k0_off58 k) (k0_off58_inb k)) j
        (sumStep 12 (grpX d L (gx 12) (k0_off71 k) (k0_off71_inb k)) (grpM d L gm (k0_off58 k) (k0_off58_inb k)) (grpT d L ft' (k0_off58 k) (k0_off58_inb k)) j
        (sumStep 11 (grpX d L (gx 11) (k0_off70 k) (k0_off70_inb k)) (grpM d L gm (k0_off58 k) (k0_off58_inb k)) (grpT d L ft' (k0_off58 k) (k0_off58_inb k)) j
        (sumStep 10 (grpX d L (gx 10) (k0_off69 k) (k0_off69_inb k)) (grpM d L gm (k0_off58 k) (k0_off58_inb k)) (grpT d L ft' (k0_off58 k) (k0_off58_inb k)) j
        (sumStep 9 (grpX d L (gx 9) (k0_off68 k) (k0_off68_inb k)) (grpM d L gm (k0_off58 k) (k0_off58_inb k)) (grpT d L ft' (k0_off58 k) (k0_off58_inb k)) j
        (sumStep 8 (grpX d L (gx 8) (k0_off67 k) (k0_off67_inb k)) (grpM d L gm (k0_off58 k) (k0_off58_inb k)) (grpT d L ft' (k0_off58 k) (k0_off58_inb k)) j
        (sumStep 7 (grpX d L (gx 7) (k0_off66 k) (k0_off66_inb k)) (grpM d L gm (k0_off58 k) (k0_off58_inb k)) (grpT d L ft' (k0_off58 k) (k0_off58_inb k)) j
        (sumStep 6 (grpX d L (gx 6) (k0_off65 k) (k0_off65_inb k)) (grpM d L gm (k0_off58 k) (k0_off58_inb k)) (grpT d L ft' (k0_off58 k) (k0_off58_inb k)) j
        (sumStep 5 (grpX d L (gx 5) (k0_off64 k) (k0_off64_inb k)) (grpM d L gm (k0_off58 k) (k0_off58_inb k)) (grpT d L ft' (k0_off58 k) (k0_off58_inb k)) j
        (sumStep 4 (grpX d L (gx 4) (k0_off63 k) (k0_off63_inb k)) (grpM d L gm (k0_off58 k) (k0_off58_inb k)) (grpT d L ft' (k0_off58 k) (k0_off58_inb k)) j
        (sumStep 3 (grpX d L (gx 3) (k0_off62 k) (k0_off62_inb k)) (grpM d L gm (k0_off58 k) (k0_off58_inb k)) (grpT d L ft' (k0_off58 k) (k0_off58_inb k)) j
        (sumStep 2 (grpX d L (gx 2) (k0_off61 k) (k0_off61_inb k)) (grpM d L gm (k0_off58 k) (k0_off58_inb k)) (grpT d L ft' (k0_off58 k) (k0_off58_inb k)) j
        (sumStep 1 (grpX d L (gx 1) (k0_off60 k) (k0_off60_inb k)) (grpM d L gm (k0_off58 k) (k0_off58_inb k)) (grpT d L ft' (k0_off58 k) (k0_off58_inb k)) j
        (sumStep 0 (grpX d L (gx 0) (k0_off59 k) (k0_off59_inb k)) (grpM d L gm (k0_off58 k) (k0_off58_inb k)) (grpT d L ft' (k0_off58 k) (k0_off58_inb k)) j
        (sumStep 15 (grpX d L (gx 15) (k0_off57 k) (k0_off57_inb k)) (grpM d L gm (k0_off41 k) (k0_off41_inb k)) (grpT d L ft' (k0_off41 k) (k0_off41_inb k)) j
        (sumStep 14 (grpX d L (gx 14) (k0_off56 k) (k0_off56_inb k)) (grpM d L gm (k0_off41 k) (k0_off41_inb k)) (grpT d L ft' (k0_off41 k) (k0_off41_inb k)) j
        (sumStep 13 (grpX d L (gx 13) (k0_off55 k) (k0_off55_inb k)) (grpM d L gm (k0_off41 k) (k0_off41_inb k)) (grpT d L ft' (k0_off41 k) (k0_off41_inb k)) j
        (sumStep 12 (grpX d L (gx 12) (k0_off54 k) (k0_off54_inb k)) (grpM d L gm (k0_off41 k) (k0_off41_inb k)) (grpT d L ft' (k0_off41 k) (k0_off41_inb k)) j
        (sumStep 11 (grpX d L (gx 11) (k0_off53 k) (k0_off53_inb k)) (grpM d L gm (k0_off41 k) (k0_off41_inb k)) (grpT d L ft' (k0_off41 k) (k0_off41_inb k)) j
        (sumStep 10 (grpX d L (gx 10) (k0_off52 k) (k0_off52_inb k)) (grpM d L gm (k0_off41 k) (k0_off41_inb k)) (grpT d L ft' (k0_off41 k) (k0_off41_inb k)) j
        (sumStep 9 (grpX d L (gx 9) (k0_off51 k) (k0_off51_inb k)) (grpM d L gm (k0_off41 k) (k0_off41_inb k)) (grpT d L ft' (k0_off41 k) (k0_off41_inb k)) j
        (sumStep 8 (grpX d L (gx 8) (k0_off50 k) (k0_off50_inb k)) (grpM d L gm (k0_off41 k) (k0_off41_inb k)) (grpT d L ft' (k0_off41 k) (k0_off41_inb k)) j
        (sumStep 7 (grpX d L (gx 7) (k0_off49 k) (k0_off49_inb k)) (grpM d L gm (k0_off41 k) (k0_off41_inb k)) (grpT d L ft' (k0_off41 k) (k0_off41_inb k)) j
        (sumStep 6 (grpX d L (gx 6) (k0_off48 k) (k0_off48_inb k)) (grpM d L gm (k0_off41 k) (k0_off41_inb k)) (grpT d L ft' (k0_off41 k) (k0_off41_inb k)) j
        (sumStep 5 (grpX d L (gx 5) (k0_off47 k) (k0_off47_inb k)) (grpM d L gm (k0_off41 k) (k0_off41_inb k)) (grpT d L ft' (k0_off41 k) (k0_off41_inb k)) j
        (sumStep 4 (grpX d L (gx 4) (k0_off46 k) (k0_off46_inb k)) (grpM d L gm (k0_off41 k) (k0_off41_inb k)) (grpT d L ft' (k0_off41 k) (k0_off41_inb k)) j
        (sumStep 3 (grpX d L (gx 3) (k0_off45 k) (k0_off45_inb k)) (grpM d L gm (k0_off41 k) (k0_off41_inb k)) (grpT d L ft' (k0_off41 k) (k0_off41_inb k)) j
        (sumStep 2 (grpX d L (gx 2) (k0_off44 k) (k0_off44_inb k)) (grpM d L gm (k0_off41 k) (k0_off41_inb k)) (grpT d L ft' (k0_off41 k) (k0_off41_inb k)) j
        (sumStep 1 (grpX d L (gx 1) (k0_off43 k) (k0_off43_inb k)) (grpM d L gm (k0_off41 k) (k0_off41_inb k)) (grpT d L ft' (k0_off41 k) (k0_off41_inb k)) j
        (sumStep 0 (grpX d L (gx 0) (k0_off42 k) (k0_off42_inb k)) (grpM d L gm (k0_off41 k) (k0_off41_inb k)) (grpT d L ft' (k0_off41 k) (k0_off41_inb k)) j
        (sumStep 15 (grpX d L (gx 15) (k0_off40 k) (k0_off40_inb k)) (grpM d L gm (k0_off24 k) (k0_off24_inb k)) (grpT d L ft' (k0_off24 k) (k0_off24_inb k)) j
        (sumStep 14 (grpX d L (gx 14) (k0_off39 k) (k0_off39_inb k)) (grpM d L gm (k0_off24 k) (k0_off24_inb k)) (grpT d L ft' (k0_off24 k) (k0_off24_inb k)) j
        (sumStep 13 (grpX d L (gx 13) (k0_off38 k) (k0_off38_inb k)) (grpM d L gm (k0_off24 k) (k0_off24_inb k)) (grpT d L ft' (k0_off24 k) (k0_off24_inb k)) j
        (sumStep 12 (grpX d L (gx 12) (k0_off37 k) (k0_off37_inb k)) (grpM d L gm (k0_off24 k) (k0_off24_inb k)) (grpT d L ft' (k0_off24 k) (k0_off24_inb k)) j
        (sumStep 11 (grpX d L (gx 11) (k0_off36 k) (k0_off36_inb k)) (grpM d L gm (k0_off24 k) (k0_off24_inb k)) (grpT d L ft' (k0_off24 k) (k0_off24_inb k)) j
        (sumStep 10 (grpX d L (gx 10) (k0_off35 k) (k0_off35_inb k)) (grpM d L gm (k0_off24 k) (k0_off24_inb k)) (grpT d L ft' (k0_off24 k) (k0_off24_inb k)) j
        (sumStep 9 (grpX d L (gx 9) (k0_off34 k) (k0_off34_inb k)) (grpM d L gm (k0_off24 k) (k0_off24_inb k)) (grpT d L ft' (k0_off24 k) (k0_off24_inb k)) j
        (sumStep 8 (grpX d L (gx 8) (k0_off33 k) (k0_off33_inb k)) (grpM d L gm (k0_off24 k) (k0_off24_inb k)) (grpT d L ft' (k0_off24 k) (k0_off24_inb k)) j
        (sumStep 7 (grpX d L (gx 7) (k0_off32 k) (k0_off32_inb k)) (grpM d L gm (k0_off24 k) (k0_off24_inb k)) (grpT d L ft' (k0_off24 k) (k0_off24_inb k)) j
        (sumStep 6 (grpX d L (gx 6) (k0_off31 k) (k0_off31_inb k)) (grpM d L gm (k0_off24 k) (k0_off24_inb k)) (grpT d L ft' (k0_off24 k) (k0_off24_inb k)) j
        (sumStep 5 (grpX d L (gx 5) (k0_off30 k) (k0_off30_inb k)) (grpM d L gm (k0_off24 k) (k0_off24_inb k)) (grpT d L ft' (k0_off24 k) (k0_off24_inb k)) j
        (sumStep 4 (grpX d L (gx 4) (k0_off29 k) (k0_off29_inb k)) (grpM d L gm (k0_off24 k) (k0_off24_inb k)) (grpT d L ft' (k0_off24 k) (k0_off24_inb k)) j
        (sumStep 3 (grpX d L (gx 3) (k0_off28 k) (k0_off28_inb k)) (grpM d L gm (k0_off24 k) (k0_off24_inb k)) (grpT d L ft' (k0_off24 k) (k0_off24_inb k)) j
        (sumStep 2 (grpX d L (gx 2) (k0_off27 k) (k0_off27_inb k)) (grpM d L gm (k0_off24 k) (k0_off24_inb k)) (grpT d L ft' (k0_off24 k) (k0_off24_inb k)) j
        (sumStep 1 (grpX d L (gx 1) (k0_off26 k) (k0_off26_inb k)) (grpM d L gm (k0_off24 k) (k0_off24_inb k)) (grpT d L ft' (k0_off24 k) (k0_off24_inb k)) j
        (sumStep 0 (grpX d L (gx 0) (k0_off25 k) (k0_off25_inb k)) (grpM d L gm (k0_off24 k) (k0_off24_inb k)) (grpT d L ft' (k0_off24 k) (k0_off24_inb k)) j
        (sumStep 15 (grpX d L (gx 15) (k0_off23 k) (k0_off23_inb k)) (grpM d L gm (k0_off7 k) (k0_off7_inb k)) (grpT d L ft' (k0_off7 k) (k0_off7_inb k)) j
        (sumStep 14 (grpX d L (gx 14) (k0_off22 k) (k0_off22_inb k)) (grpM d L gm (k0_off7 k) (k0_off7_inb k)) (grpT d L ft' (k0_off7 k) (k0_off7_inb k)) j
        (sumStep 13 (grpX d L (gx 13) (k0_off21 k) (k0_off21_inb k)) (grpM d L gm (k0_off7 k) (k0_off7_inb k)) (grpT d L ft' (k0_off7 k) (k0_off7_inb k)) j
        (sumStep 12 (grpX d L (gx 12) (k0_off20 k) (k0_off20_inb k)) (grpM d L gm (k0_off7 k) (k0_off7_inb k)) (grpT d L ft' (k0_off7 k) (k0_off7_inb k)) j
        (sumStep 11 (grpX d L (gx 11) (k0_off19 k) (k0_off19_inb k)) (grpM d L gm (k0_off7 k) (k0_off7_inb k)) (grpT d L ft' (k0_off7 k) (k0_off7_inb k)) j
        (sumStep 10 (grpX d L (gx 10) (k0_off18 k) (k0_off18_inb k)) (grpM d L gm (k0_off7 k) (k0_off7_inb k)) (grpT d L ft' (k0_off7 k) (k0_off7_inb k)) j
        (sumStep 9 (grpX d L (gx 9) (k0_off17 k) (k0_off17_inb k)) (grpM d L gm (k0_off7 k) (k0_off7_inb k)) (grpT d L ft' (k0_off7 k) (k0_off7_inb k)) j
        (sumStep 8 (grpX d L (gx 8) (k0_off16 k) (k0_off16_inb k)) (grpM d L gm (k0_off7 k) (k0_off7_inb k)) (grpT d L ft' (k0_off7 k) (k0_off7_inb k)) j
        (sumStep 7 (grpX d L (gx 7) (k0_off15 k) (k0_off15_inb k)) (grpM d L gm (k0_off7 k) (k0_off7_inb k)) (grpT d L ft' (k0_off7 k) (k0_off7_inb k)) j
        (sumStep 6 (grpX d L (gx 6) (k0_off14 k) (k0_off14_inb k)) (grpM d L gm (k0_off7 k) (k0_off7_inb k)) (grpT d L ft' (k0_off7 k) (k0_off7_inb k)) j
        (sumStep 5 (grpX d L (gx 5) (k0_off13 k) (k0_off13_inb k)) (grpM d L gm (k0_off7 k) (k0_off7_inb k)) (grpT d L ft' (k0_off7 k) (k0_off7_inb k)) j
        (sumStep 4 (grpX d L (gx 4) (k0_off12 k) (k0_off12_inb k)) (grpM d L gm (k0_off7 k) (k0_off7_inb k)) (grpT d L ft' (k0_off7 k) (k0_off7_inb k)) j
        (sumStep 3 (grpX d L (gx 3) (k0_off11 k) (k0_off11_inb k)) (grpM d L gm (k0_off7 k) (k0_off7_inb k)) (grpT d L ft' (k0_off7 k) (k0_off7_inb k)) j
        (sumStep 2 (grpX d L (gx 2) (k0_off10 k) (k0_off10_inb k)) (grpM d L gm (k0_off7 k) (k0_off7_inb k)) (grpT d L ft' (k0_off7 k) (k0_off7_inb k)) j
        (sumStep 1 (grpX d L (gx 1) (k0_off9 k) (k0_off9_inb k)) (grpM d L gm (k0_off7 k) (k0_off7_inb k)) (grpT d L ft' (k0_off7 k) (k0_off7_inb k)) j
        (sumStep 0 (grpX d L (gx 0) (k0_off8 k) (k0_off8_inb k)) (grpM d L gm (k0_off7 k) (k0_off7_inb k)) (grpT d L ft' (k0_off7 k) (k0_off7_inb k)) j
        (((fa : Vec F S16384 .f32) j))))))))))))))))))))))))))))))))))))))))))))))))))))))))))))))))) := by
  have ht : ∀ o ho y, (grpT d L ft' o ho y).toNat ≤ 63 := fun o ho y => hft _
  rw [accA3_eqI d L hv3 v5 gx ft' hft gm k fa ht]
  rw [sum_store_apply _ _ _ (ht _ _) 15 (by decide) _ _ j]
  rw [sum_store_apply _ _ _ (ht _ _) 14 (by decide) _ _ j]
  rw [sum_store_apply _ _ _ (ht _ _) 13 (by decide) _ _ j]
  rw [sum_store_apply _ _ _ (ht _ _) 12 (by decide) _ _ j]
  rw [sum_store_apply _ _ _ (ht _ _) 11 (by decide) _ _ j]
  rw [sum_store_apply _ _ _ (ht _ _) 10 (by decide) _ _ j]
  rw [sum_store_apply _ _ _ (ht _ _) 9 (by decide) _ _ j]
  rw [sum_store_apply _ _ _ (ht _ _) 8 (by decide) _ _ j]
  rw [sum_store_apply _ _ _ (ht _ _) 7 (by decide) _ _ j]
  rw [sum_store_apply _ _ _ (ht _ _) 6 (by decide) _ _ j]
  rw [sum_store_apply _ _ _ (ht _ _) 5 (by decide) _ _ j]
  rw [sum_store_apply _ _ _ (ht _ _) 4 (by decide) _ _ j]
  rw [sum_store_apply _ _ _ (ht _ _) 3 (by decide) _ _ j]
  rw [sum_store_apply _ _ _ (ht _ _) 2 (by decide) _ _ j]
  rw [sum_store_apply _ _ _ (ht _ _) 1 (by decide) _ _ j]
  rw [sum_store_apply _ _ _ (ht _ _) 0 (by decide) _ _ j]
  rw [sum_store_apply _ _ _ (ht _ _) 15 (by decide) _ _ j]
  rw [sum_store_apply _ _ _ (ht _ _) 14 (by decide) _ _ j]
  rw [sum_store_apply _ _ _ (ht _ _) 13 (by decide) _ _ j]
  rw [sum_store_apply _ _ _ (ht _ _) 12 (by decide) _ _ j]
  rw [sum_store_apply _ _ _ (ht _ _) 11 (by decide) _ _ j]
  rw [sum_store_apply _ _ _ (ht _ _) 10 (by decide) _ _ j]
  rw [sum_store_apply _ _ _ (ht _ _) 9 (by decide) _ _ j]
  rw [sum_store_apply _ _ _ (ht _ _) 8 (by decide) _ _ j]
  rw [sum_store_apply _ _ _ (ht _ _) 7 (by decide) _ _ j]
  rw [sum_store_apply _ _ _ (ht _ _) 6 (by decide) _ _ j]
  rw [sum_store_apply _ _ _ (ht _ _) 5 (by decide) _ _ j]
  rw [sum_store_apply _ _ _ (ht _ _) 4 (by decide) _ _ j]
  rw [sum_store_apply _ _ _ (ht _ _) 3 (by decide) _ _ j]
  rw [sum_store_apply _ _ _ (ht _ _) 2 (by decide) _ _ j]
  rw [sum_store_apply _ _ _ (ht _ _) 1 (by decide) _ _ j]
  rw [sum_store_apply _ _ _ (ht _ _) 0 (by decide) _ _ j]
  rw [sum_store_apply _ _ _ (ht _ _) 15 (by decide) _ _ j]
  rw [sum_store_apply _ _ _ (ht _ _) 14 (by decide) _ _ j]
  rw [sum_store_apply _ _ _ (ht _ _) 13 (by decide) _ _ j]
  rw [sum_store_apply _ _ _ (ht _ _) 12 (by decide) _ _ j]
  rw [sum_store_apply _ _ _ (ht _ _) 11 (by decide) _ _ j]
  rw [sum_store_apply _ _ _ (ht _ _) 10 (by decide) _ _ j]
  rw [sum_store_apply _ _ _ (ht _ _) 9 (by decide) _ _ j]
  rw [sum_store_apply _ _ _ (ht _ _) 8 (by decide) _ _ j]
  rw [sum_store_apply _ _ _ (ht _ _) 7 (by decide) _ _ j]
  rw [sum_store_apply _ _ _ (ht _ _) 6 (by decide) _ _ j]
  rw [sum_store_apply _ _ _ (ht _ _) 5 (by decide) _ _ j]
  rw [sum_store_apply _ _ _ (ht _ _) 4 (by decide) _ _ j]
  rw [sum_store_apply _ _ _ (ht _ _) 3 (by decide) _ _ j]
  rw [sum_store_apply _ _ _ (ht _ _) 2 (by decide) _ _ j]
  rw [sum_store_apply _ _ _ (ht _ _) 1 (by decide) _ _ j]
  rw [sum_store_apply _ _ _ (ht _ _) 0 (by decide) _ _ j]
  rw [sum_store_apply _ _ _ (ht _ _) 15 (by decide) _ _ j]
  rw [sum_store_apply _ _ _ (ht _ _) 14 (by decide) _ _ j]
  rw [sum_store_apply _ _ _ (ht _ _) 13 (by decide) _ _ j]
  rw [sum_store_apply _ _ _ (ht _ _) 12 (by decide) _ _ j]
  rw [sum_store_apply _ _ _ (ht _ _) 11 (by decide) _ _ j]
  rw [sum_store_apply _ _ _ (ht _ _) 10 (by decide) _ _ j]
  rw [sum_store_apply _ _ _ (ht _ _) 9 (by decide) _ _ j]
  rw [sum_store_apply _ _ _ (ht _ _) 8 (by decide) _ _ j]
  rw [sum_store_apply _ _ _ (ht _ _) 7 (by decide) _ _ j]
  rw [sum_store_apply _ _ _ (ht _ _) 6 (by decide) _ _ j]
  rw [sum_store_apply _ _ _ (ht _ _) 5 (by decide) _ _ j]
  rw [sum_store_apply _ _ _ (ht _ _) 4 (by decide) _ _ j]
  rw [sum_store_apply _ _ _ (ht _ _) 3 (by decide) _ _ j]
  rw [sum_store_apply _ _ _ (ht _ _) 2 (by decide) _ _ j]
  rw [sum_store_apply _ _ _ (ht _ _) 1 (by decide) _ _ j]
  rw [sum_store_apply _ _ _ (ht _ _) 0 (by decide) _ _ j]

/-- What a trip over slot 1 leaves in the sums, at the lanes' own numbers: for each of the four groups and each of the
    sixteen rows, the scatter-add of the row's sixteen values at the group's index vector a row's offset further on. -/
theorem accA4_eqI (hv3 : ∀ x, ((iotaV0 : IVec S16 32) x).toNat < 16) (v5 : FVec F S16 .f32) (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63) (gm : Buf (Elt F) ((mB : Memref sig .scVector .vmem S2x2048 .i32).view.loc (thr d L))) (k : Fin k0_t4_loop.trips)
    (fa : Buf (Elt F) ((aB : Memref sig .scVector .vmem S16384 .f32).view.loc (thr d L)))
    (ht : ∀ o ho y, (grpT d L ft' o ho y).toNat ≤ 63) :
    accA4 d L iotaV0 hv3 v5 gx ft' hft gm k fa
      = storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) (storeIdx (s := S16384) (d := ![16]) ((fa : Vec F S16384 .f32))
        ![addi (grpIdx (F := F) (grpM d L gm (k0_off77 k) (k0_off77_inb k)) (grpT d L ft' (k0_off77 k) (k0_off77_inb k))) (broadcast S16 (BitVec.ofNat 32 (1024 * 0)))] (grpX d L (gx 0) (k0_off78 k) (k0_off78_inb k)) (fun _ => 1#1) true (grp_off_inb _ _ (ht _ _) 0 (by decide)))
        ![addi (grpIdx (F := F) (grpM d L gm (k0_off77 k) (k0_off77_inb k)) (grpT d L ft' (k0_off77 k) (k0_off77_inb k))) (broadcast S16 (BitVec.ofNat 32 (1024 * 1)))] (grpX d L (gx 1) (k0_off79 k) (k0_off79_inb k)) (fun _ => 1#1) true (grp_off_inb _ _ (ht _ _) 1 (by decide)))
        ![addi (grpIdx (F := F) (grpM d L gm (k0_off77 k) (k0_off77_inb k)) (grpT d L ft' (k0_off77 k) (k0_off77_inb k))) (broadcast S16 (BitVec.ofNat 32 (1024 * 2)))] (grpX d L (gx 2) (k0_off80 k) (k0_off80_inb k)) (fun _ => 1#1) true (grp_off_inb _ _ (ht _ _) 2 (by decide)))
        ![addi (grpIdx (F := F) (grpM d L gm (k0_off77 k) (k0_off77_inb k)) (grpT d L ft' (k0_off77 k) (k0_off77_inb k))) (broadcast S16 (BitVec.ofNat 32 (1024 * 3)))] (grpX d L (gx 3) (k0_off81 k) (k0_off81_inb k)) (fun _ => 1#1) true (grp_off_inb _ _ (ht _ _) 3 (by decide)))
        ![addi (grpIdx (F := F) (grpM d L gm (k0_off77 k) (k0_off77_inb k)) (grpT d L ft' (k0_off77 k) (k0_off77_inb k))) (broadcast S16 (BitVec.ofNat 32 (1024 * 4)))] (grpX d L (gx 4) (k0_off82 k) (k0_off82_inb k)) (fun _ => 1#1) true (grp_off_inb _ _ (ht _ _) 4 (by decide)))
        ![addi (grpIdx (F := F) (grpM d L gm (k0_off77 k) (k0_off77_inb k)) (grpT d L ft' (k0_off77 k) (k0_off77_inb k))) (broadcast S16 (BitVec.ofNat 32 (1024 * 5)))] (grpX d L (gx 5) (k0_off83 k) (k0_off83_inb k)) (fun _ => 1#1) true (grp_off_inb _ _ (ht _ _) 5 (by decide)))
        ![addi (grpIdx (F := F) (grpM d L gm (k0_off77 k) (k0_off77_inb k)) (grpT d L ft' (k0_off77 k) (k0_off77_inb k))) (broadcast S16 (BitVec.ofNat 32 (1024 * 6)))] (grpX d L (gx 6) (k0_off84 k) (k0_off84_inb k)) (fun _ => 1#1) true (grp_off_inb _ _ (ht _ _) 6 (by decide)))
        ![addi (grpIdx (F := F) (grpM d L gm (k0_off77 k) (k0_off77_inb k)) (grpT d L ft' (k0_off77 k) (k0_off77_inb k))) (broadcast S16 (BitVec.ofNat 32 (1024 * 7)))] (grpX d L (gx 7) (k0_off85 k) (k0_off85_inb k)) (fun _ => 1#1) true (grp_off_inb _ _ (ht _ _) 7 (by decide)))
        ![addi (grpIdx (F := F) (grpM d L gm (k0_off77 k) (k0_off77_inb k)) (grpT d L ft' (k0_off77 k) (k0_off77_inb k))) (broadcast S16 (BitVec.ofNat 32 (1024 * 8)))] (grpX d L (gx 8) (k0_off86 k) (k0_off86_inb k)) (fun _ => 1#1) true (grp_off_inb _ _ (ht _ _) 8 (by decide)))
        ![addi (grpIdx (F := F) (grpM d L gm (k0_off77 k) (k0_off77_inb k)) (grpT d L ft' (k0_off77 k) (k0_off77_inb k))) (broadcast S16 (BitVec.ofNat 32 (1024 * 9)))] (grpX d L (gx 9) (k0_off87 k) (k0_off87_inb k)) (fun _ => 1#1) true (grp_off_inb _ _ (ht _ _) 9 (by decide)))
        ![addi (grpIdx (F := F) (grpM d L gm (k0_off77 k) (k0_off77_inb k)) (grpT d L ft' (k0_off77 k) (k0_off77_inb k))) (broadcast S16 (BitVec.ofNat 32 (1024 * 10)))] (grpX d L (gx 10) (k0_off88 k) (k0_off88_inb k)) (fun _ => 1#1) true (grp_off_inb _ _ (ht _ _) 10 (by decide)))
        ![addi (grpIdx (F := F) (grpM d L gm (k0_off77 k) (k0_off77_inb k)) (grpT d L ft' (k0_off77 k) (k0_off77_inb k))) (broadcast S16 (BitVec.ofNat 32 (1024 * 11)))] (grpX d L (gx 11) (k0_off89 k) (k0_off89_inb k)) (fun _ => 1#1) true (grp_off_inb _ _ (ht _ _) 11 (by decide)))
        ![addi (grpIdx (F := F) (grpM d L gm (k0_off77 k) (k0_off77_inb k)) (grpT d L ft' (k0_off77 k) (k0_off77_inb k))) (broadcast S16 (BitVec.ofNat 32 (1024 * 12)))] (grpX d L (gx 12) (k0_off90 k) (k0_off90_inb k)) (fun _ => 1#1) true (grp_off_inb _ _ (ht _ _) 12 (by decide)))
        ![addi (grpIdx (F := F) (grpM d L gm (k0_off77 k) (k0_off77_inb k)) (grpT d L ft' (k0_off77 k) (k0_off77_inb k))) (broadcast S16 (BitVec.ofNat 32 (1024 * 13)))] (grpX d L (gx 13) (k0_off91 k) (k0_off91_inb k)) (fun _ => 1#1) true (grp_off_inb _ _ (ht _ _) 13 (by decide)))
        ![addi (grpIdx (F := F) (grpM d L gm (k0_off77 k) (k0_off77_inb k)) (grpT d L ft' (k0_off77 k) (k0_off77_inb k))) (broadcast S16 (BitVec.ofNat 32 (1024 * 14)))] (grpX d L (gx 14) (k0_off92 k) (k0_off92_inb k)) (fun _ => 1#1) true (grp_off_inb _ _ (ht _ _) 14 (by decide)))
        ![addi (grpIdx (F := F) (grpM d L gm (k0_off77 k) (k0_off77_inb k)) (grpT d L ft' (k0_off77 k) (k0_off77_inb k))) (broadcast S16 (BitVec.ofNat 32 (1024 * 15)))] (grpX d L (gx 15) (k0_off93 k) (k0_off93_inb k)) (fun _ => 1#1) true (grp_off_inb _ _ (ht _ _) 15 (by decide)))
        ![addi (grpIdx (F := F) (grpM d L gm (k0_off94 k) (k0_off94_inb k)) (grpT d L ft' (k0_off94 k) (k0_off94_inb k))) (broadcast S16 (BitVec.ofNat 32 (1024 * 0)))] (grpX d L (gx 0) (k0_off95 k) (k0_off95_inb k)) (fun _ => 1#1) true (grp_off_inb _ _ (ht _ _) 0 (by decide)))
        ![addi (grpIdx (F := F) (grpM d L gm (k0_off94 k) (k0_off94_inb k)) (grpT d L ft' (k0_off94 k) (k0_off94_inb k))) (broadcast S16 (BitVec.ofNat 32 (1024 * 1)))] (grpX d L (gx 1) (k0_off96 k) (k0_off96_inb k)) (fun _ => 1#1) true (grp_off_inb _ _ (ht _ _) 1 (by decide)))
        ![addi (grpIdx (F := F) (grpM d L gm (k0_off94 k) (k0_off94_inb k)) (grpT d L ft' (k0_off94 k) (k0_off94_inb k))) (broadcast S16 (BitVec.ofNat 32 (1024 * 2)))] (grpX d L (gx 2) (k0_off97 k) (k0_off97_inb k)) (fun _ => 1#1) true (grp_off_inb _ _ (ht _ _) 2 (by decide)))
        ![addi (grpIdx (F := F) (grpM d L gm (k0_off94 k) (k0_off94_inb k)) (grpT d L ft' (k0_off94 k) (k0_off94_inb k))) (broadcast S16 (BitVec.ofNat 32 (1024 * 3)))] (grpX d L (gx 3) (k0_off98 k) (k0_off98_inb k)) (fun _ => 1#1) true (grp_off_inb _ _ (ht _ _) 3 (by decide)))
        ![addi (grpIdx (F := F) (grpM d L gm (k0_off94 k) (k0_off94_inb k)) (grpT d L ft' (k0_off94 k) (k0_off94_inb k))) (broadcast S16 (BitVec.ofNat 32 (1024 * 4)))] (grpX d L (gx 4) (k0_off99 k) (k0_off99_inb k)) (fun _ => 1#1) true (grp_off_inb _ _ (ht _ _) 4 (by decide)))
        ![addi (grpIdx (F := F) (grpM d L gm (k0_off94 k) (k0_off94_inb k)) (grpT d L ft' (k0_off94 k) (k0_off94_inb k))) (broadcast S16 (BitVec.ofNat 32 (1024 * 5)))] (grpX d L (gx 5) (k0_off100 k) (k0_off100_inb k)) (fun _ => 1#1) true (grp_off_inb _ _ (ht _ _) 5 (by decide)))
        ![addi (grpIdx (F := F) (grpM d L gm (k0_off94 k) (k0_off94_inb k)) (grpT d L ft' (k0_off94 k) (k0_off94_inb k))) (broadcast S16 (BitVec.ofNat 32 (1024 * 6)))] (grpX d L (gx 6) (k0_off101 k) (k0_off101_inb k)) (fun _ => 1#1) true (grp_off_inb _ _ (ht _ _) 6 (by decide)))
        ![addi (grpIdx (F := F) (grpM d L gm (k0_off94 k) (k0_off94_inb k)) (grpT d L ft' (k0_off94 k) (k0_off94_inb k))) (broadcast S16 (BitVec.ofNat 32 (1024 * 7)))] (grpX d L (gx 7) (k0_off102 k) (k0_off102_inb k)) (fun _ => 1#1) true (grp_off_inb _ _ (ht _ _) 7 (by decide)))
        ![addi (grpIdx (F := F) (grpM d L gm (k0_off94 k) (k0_off94_inb k)) (grpT d L ft' (k0_off94 k) (k0_off94_inb k))) (broadcast S16 (BitVec.ofNat 32 (1024 * 8)))] (grpX d L (gx 8) (k0_off103 k) (k0_off103_inb k)) (fun _ => 1#1) true (grp_off_inb _ _ (ht _ _) 8 (by decide)))
        ![addi (grpIdx (F := F) (grpM d L gm (k0_off94 k) (k0_off94_inb k)) (grpT d L ft' (k0_off94 k) (k0_off94_inb k))) (broadcast S16 (BitVec.ofNat 32 (1024 * 9)))] (grpX d L (gx 9) (k0_off104 k) (k0_off104_inb k)) (fun _ => 1#1) true (grp_off_inb _ _ (ht _ _) 9 (by decide)))
        ![addi (grpIdx (F := F) (grpM d L gm (k0_off94 k) (k0_off94_inb k)) (grpT d L ft' (k0_off94 k) (k0_off94_inb k))) (broadcast S16 (BitVec.ofNat 32 (1024 * 10)))] (grpX d L (gx 10) (k0_off105 k) (k0_off105_inb k)) (fun _ => 1#1) true (grp_off_inb _ _ (ht _ _) 10 (by decide)))
        ![addi (grpIdx (F := F) (grpM d L gm (k0_off94 k) (k0_off94_inb k)) (grpT d L ft' (k0_off94 k) (k0_off94_inb k))) (broadcast S16 (BitVec.ofNat 32 (1024 * 11)))] (grpX d L (gx 11) (k0_off106 k) (k0_off106_inb k)) (fun _ => 1#1) true (grp_off_inb _ _ (ht _ _) 11 (by decide)))
        ![addi (grpIdx (F := F) (grpM d L gm (k0_off94 k) (k0_off94_inb k)) (grpT d L ft' (k0_off94 k) (k0_off94_inb k))) (broadcast S16 (BitVec.ofNat 32 (1024 * 12)))] (grpX d L (gx 12) (k0_off107 k) (k0_off107_inb k)) (fun _ => 1#1) true (grp_off_inb _ _ (ht _ _) 12 (by decide)))
        ![addi (grpIdx (F := F) (grpM d L gm (k0_off94 k) (k0_off94_inb k)) (grpT d L ft' (k0_off94 k) (k0_off94_inb k))) (broadcast S16 (BitVec.ofNat 32 (1024 * 13)))] (grpX d L (gx 13) (k0_off108 k) (k0_off108_inb k)) (fun _ => 1#1) true (grp_off_inb _ _ (ht _ _) 13 (by decide)))
        ![addi (grpIdx (F := F) (grpM d L gm (k0_off94 k) (k0_off94_inb k)) (grpT d L ft' (k0_off94 k) (k0_off94_inb k))) (broadcast S16 (BitVec.ofNat 32 (1024 * 14)))] (grpX d L (gx 14) (k0_off109 k) (k0_off109_inb k)) (fun _ => 1#1) true (grp_off_inb _ _ (ht _ _) 14 (by decide)))
        ![addi (grpIdx (F := F) (grpM d L gm (k0_off94 k) (k0_off94_inb k)) (grpT d L ft' (k0_off94 k) (k0_off94_inb k))) (broadcast S16 (BitVec.ofNat 32 (1024 * 15)))] (grpX d L (gx 15) (k0_off110 k) (k0_off110_inb k)) (fun _ => 1#1) true (grp_off_inb _ _ (ht _ _) 15 (by decide)))
        ![addi (grpIdx (F := F) (grpM d L gm (k0_off111 k) (k0_off111_inb k)) (grpT d L ft' (k0_off111 k) (k0_off111_inb k))) (broadcast S16 (BitVec.ofNat 32 (1024 * 0)))] (grpX d L (gx 0) (k0_off112 k) (k0_off112_inb k)) (fun _ => 1#1) true (grp_off_inb _ _ (ht _ _) 0 (by decide)))
        ![addi (grpIdx (F := F) (grpM d L gm (k0_off111 k) (k0_off111_inb k)) (grpT d L ft' (k0_off111 k) (k0_off111_inb k))) (broadcast S16 (BitVec.ofNat 32 (1024 * 1)))] (grpX d L (gx 1) (k0_off113 k) (k0_off113_inb k)) (fun _ => 1#1) true (grp_off_inb _ _ (ht _ _) 1 (by decide)))
        ![addi (grpIdx (F := F) (grpM d L gm (k0_off111 k) (k0_off111_inb k)) (grpT d L ft' (k0_off111 k) (k0_off111_inb k))) (broadcast S16 (BitVec.ofNat 32 (1024 * 2)))] (grpX d L (gx 2) (k0_off114 k) (k0_off114_inb k)) (fun _ => 1#1) true (grp_off_inb _ _ (ht _ _) 2 (by decide)))
        ![addi (grpIdx (F := F) (grpM d L gm (k0_off111 k) (k0_off111_inb k)) (grpT d L ft' (k0_off111 k) (k0_off111_inb k))) (broadcast S16 (BitVec.ofNat 32 (1024 * 3)))] (grpX d L (gx 3) (k0_off115 k) (k0_off115_inb k)) (fun _ => 1#1) true (grp_off_inb _ _ (ht _ _) 3 (by decide)))
        ![addi (grpIdx (F := F) (grpM d L gm (k0_off111 k) (k0_off111_inb k)) (grpT d L ft' (k0_off111 k) (k0_off111_inb k))) (broadcast S16 (BitVec.ofNat 32 (1024 * 4)))] (grpX d L (gx 4) (k0_off116 k) (k0_off116_inb k)) (fun _ => 1#1) true (grp_off_inb _ _ (ht _ _) 4 (by decide)))
        ![addi (grpIdx (F := F) (grpM d L gm (k0_off111 k) (k0_off111_inb k)) (grpT d L ft' (k0_off111 k) (k0_off111_inb k))) (broadcast S16 (BitVec.ofNat 32 (1024 * 5)))] (grpX d L (gx 5) (k0_off117 k) (k0_off117_inb k)) (fun _ => 1#1) true (grp_off_inb _ _ (ht _ _) 5 (by decide)))
        ![addi (grpIdx (F := F) (grpM d L gm (k0_off111 k) (k0_off111_inb k)) (grpT d L ft' (k0_off111 k) (k0_off111_inb k))) (broadcast S16 (BitVec.ofNat 32 (1024 * 6)))] (grpX d L (gx 6) (k0_off118 k) (k0_off118_inb k)) (fun _ => 1#1) true (grp_off_inb _ _ (ht _ _) 6 (by decide)))
        ![addi (grpIdx (F := F) (grpM d L gm (k0_off111 k) (k0_off111_inb k)) (grpT d L ft' (k0_off111 k) (k0_off111_inb k))) (broadcast S16 (BitVec.ofNat 32 (1024 * 7)))] (grpX d L (gx 7) (k0_off119 k) (k0_off119_inb k)) (fun _ => 1#1) true (grp_off_inb _ _ (ht _ _) 7 (by decide)))
        ![addi (grpIdx (F := F) (grpM d L gm (k0_off111 k) (k0_off111_inb k)) (grpT d L ft' (k0_off111 k) (k0_off111_inb k))) (broadcast S16 (BitVec.ofNat 32 (1024 * 8)))] (grpX d L (gx 8) (k0_off120 k) (k0_off120_inb k)) (fun _ => 1#1) true (grp_off_inb _ _ (ht _ _) 8 (by decide)))
        ![addi (grpIdx (F := F) (grpM d L gm (k0_off111 k) (k0_off111_inb k)) (grpT d L ft' (k0_off111 k) (k0_off111_inb k))) (broadcast S16 (BitVec.ofNat 32 (1024 * 9)))] (grpX d L (gx 9) (k0_off121 k) (k0_off121_inb k)) (fun _ => 1#1) true (grp_off_inb _ _ (ht _ _) 9 (by decide)))
        ![addi (grpIdx (F := F) (grpM d L gm (k0_off111 k) (k0_off111_inb k)) (grpT d L ft' (k0_off111 k) (k0_off111_inb k))) (broadcast S16 (BitVec.ofNat 32 (1024 * 10)))] (grpX d L (gx 10) (k0_off122 k) (k0_off122_inb k)) (fun _ => 1#1) true (grp_off_inb _ _ (ht _ _) 10 (by decide)))
        ![addi (grpIdx (F := F) (grpM d L gm (k0_off111 k) (k0_off111_inb k)) (grpT d L ft' (k0_off111 k) (k0_off111_inb k))) (broadcast S16 (BitVec.ofNat 32 (1024 * 11)))] (grpX d L (gx 11) (k0_off123 k) (k0_off123_inb k)) (fun _ => 1#1) true (grp_off_inb _ _ (ht _ _) 11 (by decide)))
        ![addi (grpIdx (F := F) (grpM d L gm (k0_off111 k) (k0_off111_inb k)) (grpT d L ft' (k0_off111 k) (k0_off111_inb k))) (broadcast S16 (BitVec.ofNat 32 (1024 * 12)))] (grpX d L (gx 12) (k0_off124 k) (k0_off124_inb k)) (fun _ => 1#1) true (grp_off_inb _ _ (ht _ _) 12 (by decide)))
        ![addi (grpIdx (F := F) (grpM d L gm (k0_off111 k) (k0_off111_inb k)) (grpT d L ft' (k0_off111 k) (k0_off111_inb k))) (broadcast S16 (BitVec.ofNat 32 (1024 * 13)))] (grpX d L (gx 13) (k0_off125 k) (k0_off125_inb k)) (fun _ => 1#1) true (grp_off_inb _ _ (ht _ _) 13 (by decide)))
        ![addi (grpIdx (F := F) (grpM d L gm (k0_off111 k) (k0_off111_inb k)) (grpT d L ft' (k0_off111 k) (k0_off111_inb k))) (broadcast S16 (BitVec.ofNat 32 (1024 * 14)))] (grpX d L (gx 14) (k0_off126 k) (k0_off126_inb k)) (fun _ => 1#1) true (grp_off_inb _ _ (ht _ _) 14 (by decide)))
        ![addi (grpIdx (F := F) (grpM d L gm (k0_off111 k) (k0_off111_inb k)) (grpT d L ft' (k0_off111 k) (k0_off111_inb k))) (broadcast S16 (BitVec.ofNat 32 (1024 * 15)))] (grpX d L (gx 15) (k0_off127 k) (k0_off127_inb k)) (fun _ => 1#1) true (grp_off_inb _ _ (ht _ _) 15 (by decide)))
        ![addi (grpIdx (F := F) (grpM d L gm (k0_off128 k) (k0_off128_inb k)) (grpT d L ft' (k0_off128 k) (k0_off128_inb k))) (broadcast S16 (BitVec.ofNat 32 (1024 * 0)))] (grpX d L (gx 0) (k0_off129 k) (k0_off129_inb k)) (fun _ => 1#1) true (grp_off_inb _ _ (ht _ _) 0 (by decide)))
        ![addi (grpIdx (F := F) (grpM d L gm (k0_off128 k) (k0_off128_inb k)) (grpT d L ft' (k0_off128 k) (k0_off128_inb k))) (broadcast S16 (BitVec.ofNat 32 (1024 * 1)))] (grpX d L (gx 1) (k0_off130 k) (k0_off130_inb k)) (fun _ => 1#1) true (grp_off_inb _ _ (ht _ _) 1 (by decide)))
        ![addi (grpIdx (F := F) (grpM d L gm (k0_off128 k) (k0_off128_inb k)) (grpT d L ft' (k0_off128 k) (k0_off128_inb k))) (broadcast S16 (BitVec.ofNat 32 (1024 * 2)))] (grpX d L (gx 2) (k0_off131 k) (k0_off131_inb k)) (fun _ => 1#1) true (grp_off_inb _ _ (ht _ _) 2 (by decide)))
        ![addi (grpIdx (F := F) (grpM d L gm (k0_off128 k) (k0_off128_inb k)) (grpT d L ft' (k0_off128 k) (k0_off128_inb k))) (broadcast S16 (BitVec.ofNat 32 (1024 * 3)))] (grpX d L (gx 3) (k0_off132 k) (k0_off132_inb k)) (fun _ => 1#1) true (grp_off_inb _ _ (ht _ _) 3 (by decide)))
        ![addi (grpIdx (F := F) (grpM d L gm (k0_off128 k) (k0_off128_inb k)) (grpT d L ft' (k0_off128 k) (k0_off128_inb k))) (broadcast S16 (BitVec.ofNat 32 (1024 * 4)))] (grpX d L (gx 4) (k0_off133 k) (k0_off133_inb k)) (fun _ => 1#1) true (grp_off_inb _ _ (ht _ _) 4 (by decide)))
        ![addi (grpIdx (F := F) (grpM d L gm (k0_off128 k) (k0_off128_inb k)) (grpT d L ft' (k0_off128 k) (k0_off128_inb k))) (broadcast S16 (BitVec.ofNat 32 (1024 * 5)))] (grpX d L (gx 5) (k0_off134 k) (k0_off134_inb k)) (fun _ => 1#1) true (grp_off_inb _ _ (ht _ _) 5 (by decide)))
        ![addi (grpIdx (F := F) (grpM d L gm (k0_off128 k) (k0_off128_inb k)) (grpT d L ft' (k0_off128 k) (k0_off128_inb k))) (broadcast S16 (BitVec.ofNat 32 (1024 * 6)))] (grpX d L (gx 6) (k0_off135 k) (k0_off135_inb k)) (fun _ => 1#1) true (grp_off_inb _ _ (ht _ _) 6 (by decide)))
        ![addi (grpIdx (F := F) (grpM d L gm (k0_off128 k) (k0_off128_inb k)) (grpT d L ft' (k0_off128 k) (k0_off128_inb k))) (broadcast S16 (BitVec.ofNat 32 (1024 * 7)))] (grpX d L (gx 7) (k0_off136 k) (k0_off136_inb k)) (fun _ => 1#1) true (grp_off_inb _ _ (ht _ _) 7 (by decide)))
        ![addi (grpIdx (F := F) (grpM d L gm (k0_off128 k) (k0_off128_inb k)) (grpT d L ft' (k0_off128 k) (k0_off128_inb k))) (broadcast S16 (BitVec.ofNat 32 (1024 * 8)))] (grpX d L (gx 8) (k0_off137 k) (k0_off137_inb k)) (fun _ => 1#1) true (grp_off_inb _ _ (ht _ _) 8 (by decide)))
        ![addi (grpIdx (F := F) (grpM d L gm (k0_off128 k) (k0_off128_inb k)) (grpT d L ft' (k0_off128 k) (k0_off128_inb k))) (broadcast S16 (BitVec.ofNat 32 (1024 * 9)))] (grpX d L (gx 9) (k0_off138 k) (k0_off138_inb k)) (fun _ => 1#1) true (grp_off_inb _ _ (ht _ _) 9 (by decide)))
        ![addi (grpIdx (F := F) (grpM d L gm (k0_off128 k) (k0_off128_inb k)) (grpT d L ft' (k0_off128 k) (k0_off128_inb k))) (broadcast S16 (BitVec.ofNat 32 (1024 * 10)))] (grpX d L (gx 10) (k0_off139 k) (k0_off139_inb k)) (fun _ => 1#1) true (grp_off_inb _ _ (ht _ _) 10 (by decide)))
        ![addi (grpIdx (F := F) (grpM d L gm (k0_off128 k) (k0_off128_inb k)) (grpT d L ft' (k0_off128 k) (k0_off128_inb k))) (broadcast S16 (BitVec.ofNat 32 (1024 * 11)))] (grpX d L (gx 11) (k0_off140 k) (k0_off140_inb k)) (fun _ => 1#1) true (grp_off_inb _ _ (ht _ _) 11 (by decide)))
        ![addi (grpIdx (F := F) (grpM d L gm (k0_off128 k) (k0_off128_inb k)) (grpT d L ft' (k0_off128 k) (k0_off128_inb k))) (broadcast S16 (BitVec.ofNat 32 (1024 * 12)))] (grpX d L (gx 12) (k0_off141 k) (k0_off141_inb k)) (fun _ => 1#1) true (grp_off_inb _ _ (ht _ _) 12 (by decide)))
        ![addi (grpIdx (F := F) (grpM d L gm (k0_off128 k) (k0_off128_inb k)) (grpT d L ft' (k0_off128 k) (k0_off128_inb k))) (broadcast S16 (BitVec.ofNat 32 (1024 * 13)))] (grpX d L (gx 13) (k0_off142 k) (k0_off142_inb k)) (fun _ => 1#1) true (grp_off_inb _ _ (ht _ _) 13 (by decide)))
        ![addi (grpIdx (F := F) (grpM d L gm (k0_off128 k) (k0_off128_inb k)) (grpT d L ft' (k0_off128 k) (k0_off128_inb k))) (broadcast S16 (BitVec.ofNat 32 (1024 * 14)))] (grpX d L (gx 14) (k0_off143 k) (k0_off143_inb k)) (fun _ => 1#1) true (grp_off_inb _ _ (ht _ _) 14 (by decide)))
        ![addi (grpIdx (F := F) (grpM d L gm (k0_off128 k) (k0_off128_inb k)) (grpT d L ft' (k0_off128 k) (k0_off128_inb k))) (broadcast S16 (BitVec.ofNat 32 (1024 * 15)))] (grpX d L (gx 15) (k0_off144 k) (k0_off144_inb k)) (fun _ => 1#1) true (grp_off_inb _ _ (ht _ _) 15 (by decide)) := rfl

set_option maxHeartbeats 4000000 in
/-- The sums after one trip over slot 1, at an element: the sixty-four steps, one after the other. -/
theorem accA4_apply (hv3 : ∀ x, ((iotaV0 : IVec S16 32) x).toNat < 16) (v5 : FVec F S16 .f32) (gx : Fin 16 → Buf (Elt F) ((xB : Memref sig .scVector .vmem S2x16x2048 .f32).view.loc (thr d L)))
    (ft' : Buf (Elt F) ((tB : Memref sig .scVector .vmem S2x2048 .i32).view.loc (thr d L))) (hft : ∀ i, (ft' i).toNat ≤ 63) (gm : Buf (Elt F) ((mB : Memref sig .scVector .vmem S2x2048 .i32).view.loc (thr d L))) (k : Fin k0_t4_loop.trips)
    (fa : Buf (Elt F) ((aB : Memref sig .scVector .vmem S16384 .f32).view.loc (thr d L))) (j : S16384.Idx) :
    (accA4 d L iotaV0 hv3 v5 gx ft' hft gm k fa : Vec F S16384 .f32) j
      = sumStep 15 (grpX d L (gx 15) (k0_off144 k) (k0_off144_inb k)) (grpM d L gm (k0_off128 k) (k0_off128_inb k)) (grpT d L ft' (k0_off128 k) (k0_off128_inb k)) j
        (sumStep 14 (grpX d L (gx 14) (k0_off143 k) (k0_off143_inb k)) (grpM d L gm (k0_off128 k) (k0_off128_inb k)) (grpT d L ft' (k0_off128 k) (k0_off128_inb k)) j
        (sumStep 13 (grpX d L (gx 13) (k0_off142 k) (k0_off142_inb k)) (grpM d L gm (k0_off128 k) (k0_off128_inb k)) (grpT d L ft' (k0_off128 k) (k0_off128_inb k)) j
        (sumStep 12 (grpX d L (gx 12) (k0_off141 k) (k0_off141_inb k)) (grpM d L gm (k0_off128 k) (k0_off128_inb k)) (grpT d L ft' (k0_off128 k) (k0_off128_inb k)) j
        (sumStep 11 (grpX d L (gx 11) (k0_off140 k) (k0_off140_inb k)) (grpM d L gm (k0_off128 k) (k0_off128_inb k)) (grpT d L ft' (k0_off128 k) (k0_off128_inb k)) j
        (sumStep 10 (grpX d L (gx 10) (k0_off139 k) (k0_off139_inb k)) (grpM d L gm (k0_off128 k) (k0_off128_inb k)) (grpT d L ft' (k0_off128 k) (k0_off128_inb k)) j
        (sumStep 9 (grpX d L (gx 9) (k0_off138 k) (k0_off138_inb k)) (grpM d L gm (k0_off128 k) (k0_off128_inb k)) (grpT d L ft' (k0_off128 k) (k0_off128_inb k)) j
        (sumStep 8 (grpX d L (gx 8) (k0_off137 k) (k0_off137_inb k)) (grpM d L gm (k0_off128 k) (k0_off128_inb k)) (grpT d L ft' (k0_off128 k) (k0_off128_inb k)) j
        (sumStep 7 (grpX d L (gx 7) (k0_off136 k) (k0_off136_inb k)) (grpM d L gm (k0_off128 k) (k0_off128_inb k)) (grpT d L ft' (k0_off128 k) (k0_off128_inb k)) j
        (sumStep 6 (grpX d L (gx 6) (k0_off135 k) (k0_off135_inb k)) (grpM d L gm (k0_off128 k) (k0_off128_inb k)) (grpT d L ft' (k0_off128 k) (k0_off128_inb k)) j
        (sumStep 5 (grpX d L (gx 5) (k0_off134 k) (k0_off134_inb k)) (grpM d L gm (k0_off128 k) (k0_off128_inb k)) (grpT d L ft' (k0_off128 k) (k0_off128_inb k)) j
        (sumStep 4 (grpX d L (gx 4) (k0_off133 k) (k0_off133_inb k)) (grpM d L gm (k0_off128 k) (k0_off128_inb k)) (grpT d L ft' (k0_off128 k) (k0_off128_inb k)) j
        (sumStep 3 (grpX d L (gx 3) (k0_off132 k) (k0_off132_inb k)) (grpM d L gm (k0_off128 k) (k0_off128_inb k)) (grpT d L ft' (k0_off128 k) (k0_off128_inb k)) j
        (sumStep 2 (grpX d L (gx 2) (k0_off131 k) (k0_off131_inb k)) (grpM d L gm (k0_off128 k) (k0_off128_inb k)) (grpT d L ft' (k0_off128 k) (k0_off128_inb k)) j
        (sumStep 1 (grpX d L (gx 1) (k0_off130 k) (k0_off130_inb k)) (grpM d L gm (k0_off128 k) (k0_off128_inb k)) (grpT d L ft' (k0_off128 k) (k0_off128_inb k)) j
        (sumStep 0 (grpX d L (gx 0) (k0_off129 k) (k0_off129_inb k)) (grpM d L gm (k0_off128 k) (k0_off128_inb k)) (grpT d L ft' (k0_off128 k) (k0_off128_inb k)) j
        (sumStep 15 (grpX d L (gx 15) (k0_off127 k) (k0_off127_inb k)) (grpM d L gm (k0_off111 k) (k0_off111_inb k)) (grpT d L ft' (k0_off111 k) (k0_off111_inb k)) j
        (sumStep 14 (grpX d L (gx 14) (k0_off126 k) (k0_off126_inb k)) (grpM d L gm (k0_off111 k) (k0_off111_inb k)) (grpT d L ft' (k0_off111 k) (k0_off111_inb k)) j
        (sumStep 13 (grpX d L (gx 13) (k0_off125 k) (k0_off125_inb k)) (grpM d L gm (k0_off111 k) (k0_off111_inb k)) (grpT d L ft' (k0_off111 k) (k0_off111_inb k)) j
        (sumStep 12 (grpX d L (gx 12) (k0_off124 k) (k0_off124_inb k)) (grpM d L gm (k0_off111 k) (k0_off111_inb k)) (grpT d L ft' (k0_off111 k) (k0_off111_inb k)) j
        (sumStep 11 (grpX d L (gx 11) (k0_off123 k) (k0_off123_inb k)) (grpM d L gm (k0_off111 k) (k0_off111_inb k)) (grpT d L ft' (k0_off111 k) (k0_off111_inb k)) j
        (sumStep 10 (grpX d L (gx 10) (k0_off122 k) (k0_off122_inb k)) (grpM d L gm (k0_off111 k) (k0_off111_inb k)) (grpT d L ft' (k0_off111 k) (k0_off111_inb k)) j
        (sumStep 9 (grpX d L (gx 9) (k0_off121 k) (k0_off121_inb k)) (grpM d L gm (k0_off111 k) (k0_off111_inb k)) (grpT d L ft' (k0_off111 k) (k0_off111_inb k)) j
        (sumStep 8 (grpX d L (gx 8) (k0_off120 k) (k0_off120_inb k)) (grpM d L gm (k0_off111 k) (k0_off111_inb k)) (grpT d L ft' (k0_off111 k) (k0_off111_inb k)) j
        (sumStep 7 (grpX d L (gx 7) (k0_off119 k) (k0_off119_inb k)) (grpM d L gm (k0_off111 k) (k0_off111_inb k)) (grpT d L ft' (k0_off111 k) (k0_off111_inb k)) j
        (sumStep 6 (grpX d L (gx 6) (k0_off118 k) (k0_off118_inb k)) (grpM d L gm (k0_off111 k) (k0_off111_inb k)) (grpT d L ft' (k0_off111 k) (k0_off111_inb k)) j
        (sumStep 5 (grpX d L (gx 5) (k0_off117 k) (k0_off117_inb k)) (grpM d L gm (k0_off111 k) (k0_off111_inb k)) (grpT d L ft' (k0_off111 k) (k0_off111_inb k)) j
        (sumStep 4 (grpX d L (gx 4) (k0_off116 k) (k0_off116_inb k)) (grpM d L gm (k0_off111 k) (k0_off111_inb k)) (grpT d L ft' (k0_off111 k) (k0_off111_inb k)) j
        (sumStep 3 (grpX d L (gx 3) (k0_off115 k) (k0_off115_inb k)) (grpM d L gm (k0_off111 k) (k0_off111_inb k)) (grpT d L ft' (k0_off111 k) (k0_off111_inb k)) j
        (sumStep 2 (grpX d L (gx 2) (k0_off114 k) (k0_off114_inb k)) (grpM d L gm (k0_off111 k) (k0_off111_inb k)) (grpT d L ft' (k0_off111 k) (k0_off111_inb k)) j
        (sumStep 1 (grpX d L (gx 1) (k0_off113 k) (k0_off113_inb k)) (grpM d L gm (k0_off111 k) (k0_off111_inb k)) (grpT d L ft' (k0_off111 k) (k0_off111_inb k)) j
        (sumStep 0 (grpX d L (gx 0) (k0_off112 k) (k0_off112_inb k)) (grpM d L gm (k0_off111 k) (k0_off111_inb k)) (grpT d L ft' (k0_off111 k) (k0_off111_inb k)) j
        (sumStep 15 (grpX d L (gx 15) (k0_off110 k) (k0_off110_inb k)) (grpM d L gm (k0_off94 k) (k0_off94_inb k)) (grpT d L ft' (k0_off94 k) (k0_off94_inb k)) j
        (sumStep 14 (grpX d L (gx 14) (k0_off109 k) (k0_off109_inb k)) (grpM d L gm (k0_off94 k) (k0_off94_inb k)) (grpT d L ft' (k0_off94 k) (k0_off94_inb k)) j
        (sumStep 13 (grpX d L (gx 13) (k0_off108 k) (k0_off108_inb k)) (grpM d L gm (k0_off94 k) (k0_off94_inb k)) (grpT d L ft' (k0_off94 k) (k0_off94_inb k)) j
        (sumStep 12 (grpX d L (gx 12) (k0_off107 k) (k0_off107_inb k)) (grpM d L gm (k0_off94 k) (k0_off94_inb k)) (grpT d L ft' (k0_off94 k) (k0_off94_inb k)) j
        (sumStep 11 (grpX d L (gx 11) (k0_off106 k) (k0_off106_inb k)) (grpM d L gm (k0_off94 k) (k0_off94_inb k)) (grpT d L ft' (k0_off94 k) (k0_off94_inb k)) j
        (sumStep 10 (grpX d L (gx 10) (k0_off105 k) (k0_off105_inb k)) (grpM d L gm (k0_off94 k) (k0_off94_inb k)) (grpT d L ft' (k0_off94 k) (k0_off94_inb k)) j
        (sumStep 9 (grpX d L (gx 9) (k0_off104 k) (k0_off104_inb k)) (grpM d L gm (k0_off94 k) (k0_off94_inb k)) (grpT d L ft' (k0_off94 k) (k0_off94_inb k)) j
        (sumStep 8 (grpX d L (gx 8) (k0_off103 k) (k0_off103_inb k)) (grpM d L gm (k0_off94 k) (k0_off94_inb k)) (grpT d L ft' (k0_off94 k) (k0_off94_inb k)) j
        (sumStep 7 (grpX d L (gx 7) (k0_off102 k) (k0_off102_inb k)) (grpM d L gm (k0_off94 k) (k0_off94_inb k)) (grpT d L ft' (k0_off94 k) (k0_off94_inb k)) j
        (sumStep 6 (grpX d L (gx 6) (k0_off101 k) (k0_off101_inb k)) (grpM d L gm (k0_off94 k) (k0_off94_inb k)) (grpT d L ft' (k0_off94 k) (k0_off94_inb k)) j
        (sumStep 5 (grpX d L (gx 5) (k0_off100 k) (k0_off100_inb k)) (grpM d L gm (k0_off94 k) (k0_off94_inb k)) (grpT d L ft' (k0_off94 k) (k0_off94_inb k)) j
        (sumStep 4 (grpX d L (gx 4) (k0_off99 k) (k0_off99_inb k)) (grpM d L gm (k0_off94 k) (k0_off94_inb k)) (grpT d L ft' (k0_off94 k) (k0_off94_inb k)) j
        (sumStep 3 (grpX d L (gx 3) (k0_off98 k) (k0_off98_inb k)) (grpM d L gm (k0_off94 k) (k0_off94_inb k)) (grpT d L ft' (k0_off94 k) (k0_off94_inb k)) j
        (sumStep 2 (grpX d L (gx 2) (k0_off97 k) (k0_off97_inb k)) (grpM d L gm (k0_off94 k) (k0_off94_inb k)) (grpT d L ft' (k0_off94 k) (k0_off94_inb k)) j
        (sumStep 1 (grpX d L (gx 1) (k0_off96 k) (k0_off96_inb k)) (grpM d L gm (k0_off94 k) (k0_off94_inb k)) (grpT d L ft' (k0_off94 k) (k0_off94_inb k)) j
        (sumStep 0 (grpX d L (gx 0) (k0_off95 k) (k0_off95_inb k)) (grpM d L gm (k0_off94 k) (k0_off94_inb k)) (grpT d L ft' (k0_off94 k) (k0_off94_inb k)) j
        (sumStep 15 (grpX d L (gx 15) (k0_off93 k) (k0_off93_inb k)) (grpM d L gm (k0_off77 k) (k0_off77_inb k)) (grpT d L ft' (k0_off77 k) (k0_off77_inb k)) j
        (sumStep 14 (grpX d L (gx 14) (k0_off92 k) (k0_off92_inb k)) (grpM d L gm (k0_off77 k) (k0_off77_inb k)) (grpT d L ft' (k0_off77 k) (k0_off77_inb k)) j
        (sumStep 13 (grpX d L (gx 13) (k0_off91 k) (k0_off91_inb k)) (grpM d L gm (k0_off77 k) (k0_off77_inb k)) (grpT d L ft' (k0_off77 k) (k0_off77_inb k)) j
        (sumStep 12 (grpX d L (gx 12) (k0_off90 k) (k0_off90_inb k)) (grpM d L gm (k0_off77 k) (k0_off77_inb k)) (grpT d L ft' (k0_off77 k) (k0_off77_inb k)) j
        (sumStep 11 (grpX d L (gx 11) (k0_off89 k) (k0_off89_inb k)) (grpM d L gm (k0_off77 k) (k0_off77_inb k)) (grpT d L ft' (k0_off77 k) (k0_off77_inb k)) j
        (sumStep 10 (grpX d L (gx 10) (k0_off88 k) (k0_off88_inb k)) (grpM d L gm (k0_off77 k) (k0_off77_inb k)) (grpT d L ft' (k0_off77 k) (k0_off77_inb k)) j
        (sumStep 9 (grpX d L (gx 9) (k0_off87 k) (k0_off87_inb k)) (grpM d L gm (k0_off77 k) (k0_off77_inb k)) (grpT d L ft' (k0_off77 k) (k0_off77_inb k)) j
        (sumStep 8 (grpX d L (gx 8) (k0_off86 k) (k0_off86_inb k)) (grpM d L gm (k0_off77 k) (k0_off77_inb k)) (grpT d L ft' (k0_off77 k) (k0_off77_inb k)) j
        (sumStep 7 (grpX d L (gx 7) (k0_off85 k) (k0_off85_inb k)) (grpM d L gm (k0_off77 k) (k0_off77_inb k)) (grpT d L ft' (k0_off77 k) (k0_off77_inb k)) j
        (sumStep 6 (grpX d L (gx 6) (k0_off84 k) (k0_off84_inb k)) (grpM d L gm (k0_off77 k) (k0_off77_inb k)) (grpT d L ft' (k0_off77 k) (k0_off77_inb k)) j
        (sumStep 5 (grpX d L (gx 5) (k0_off83 k) (k0_off83_inb k)) (grpM d L gm (k0_off77 k) (k0_off77_inb k)) (grpT d L ft' (k0_off77 k) (k0_off77_inb k)) j
        (sumStep 4 (grpX d L (gx 4) (k0_off82 k) (k0_off82_inb k)) (grpM d L gm (k0_off77 k) (k0_off77_inb k)) (grpT d L ft' (k0_off77 k) (k0_off77_inb k)) j
        (sumStep 3 (grpX d L (gx 3) (k0_off81 k) (k0_off81_inb k)) (grpM d L gm (k0_off77 k) (k0_off77_inb k)) (grpT d L ft' (k0_off77 k) (k0_off77_inb k)) j
        (sumStep 2 (grpX d L (gx 2) (k0_off80 k) (k0_off80_inb k)) (grpM d L gm (k0_off77 k) (k0_off77_inb k)) (grpT d L ft' (k0_off77 k) (k0_off77_inb k)) j
        (sumStep 1 (grpX d L (gx 1) (k0_off79 k) (k0_off79_inb k)) (grpM d L gm (k0_off77 k) (k0_off77_inb k)) (grpT d L ft' (k0_off77 k) (k0_off77_inb k)) j
        (sumStep 0 (grpX d L (gx 0) (k0_off78 k) (k0_off78_inb k)) (grpM d L gm (k0_off77 k) (k0_off77_inb k)) (grpT d L ft' (k0_off77 k) (k0_off77_inb k)) j
        (((fa : Vec F S16384 .f32) j))))))))))))))))))))))))))))))))))))))))))))))))))))))))))))))))) := by
  have ht : ∀ o ho y, (grpT d L ft' o ho y).toNat ≤ 63 := fun o ho y => hft _
  rw [accA4_eqI d L hv3 v5 gx ft' hft gm k fa ht]
  rw [sum_store_apply _ _ _ (ht _ _) 15 (by decide) _ _ j]
  rw [sum_store_apply _ _ _ (ht _ _) 14 (by decide) _ _ j]
  rw [sum_store_apply _ _ _ (ht _ _) 13 (by decide) _ _ j]
  rw [sum_store_apply _ _ _ (ht _ _) 12 (by decide) _ _ j]
  rw [sum_store_apply _ _ _ (ht _ _) 11 (by decide) _ _ j]
  rw [sum_store_apply _ _ _ (ht _ _) 10 (by decide) _ _ j]
  rw [sum_store_apply _ _ _ (ht _ _) 9 (by decide) _ _ j]
  rw [sum_store_apply _ _ _ (ht _ _) 8 (by decide) _ _ j]
  rw [sum_store_apply _ _ _ (ht _ _) 7 (by decide) _ _ j]
  rw [sum_store_apply _ _ _ (ht _ _) 6 (by decide) _ _ j]
  rw [sum_store_apply _ _ _ (ht _ _) 5 (by decide) _ _ j]
  rw [sum_store_apply _ _ _ (ht _ _) 4 (by decide) _ _ j]
  rw [sum_store_apply _ _ _ (ht _ _) 3 (by decide) _ _ j]
  rw [sum_store_apply _ _ _ (ht _ _) 2 (by decide) _ _ j]
  rw [sum_store_apply _ _ _ (ht _ _) 1 (by decide) _ _ j]
  rw [sum_store_apply _ _ _ (ht _ _) 0 (by decide) _ _ j]
  rw [sum_store_apply _ _ _ (ht _ _) 15 (by decide) _ _ j]
  rw [sum_store_apply _ _ _ (ht _ _) 14 (by decide) _ _ j]
  rw [sum_store_apply _ _ _ (ht _ _) 13 (by decide) _ _ j]
  rw [sum_store_apply _ _ _ (ht _ _) 12 (by decide) _ _ j]
  rw [sum_store_apply _ _ _ (ht _ _) 11 (by decide) _ _ j]
  rw [sum_store_apply _ _ _ (ht _ _) 10 (by decide) _ _ j]
  rw [sum_store_apply _ _ _ (ht _ _) 9 (by decide) _ _ j]
  rw [sum_store_apply _ _ _ (ht _ _) 8 (by decide) _ _ j]
  rw [sum_store_apply _ _ _ (ht _ _) 7 (by decide) _ _ j]
  rw [sum_store_apply _ _ _ (ht _ _) 6 (by decide) _ _ j]
  rw [sum_store_apply _ _ _ (ht _ _) 5 (by decide) _ _ j]
  rw [sum_store_apply _ _ _ (ht _ _) 4 (by decide) _ _ j]
  rw [sum_store_apply _ _ _ (ht _ _) 3 (by decide) _ _ j]
  rw [sum_store_apply _ _ _ (ht _ _) 2 (by decide) _ _ j]
  rw [sum_store_apply _ _ _ (ht _ _) 1 (by decide) _ _ j]
  rw [sum_store_apply _ _ _ (ht _ _) 0 (by decide) _ _ j]
  rw [sum_store_apply _ _ _ (ht _ _) 15 (by decide) _ _ j]
  rw [sum_store_apply _ _ _ (ht _ _) 14 (by decide) _ _ j]
  rw [sum_store_apply _ _ _ (ht _ _) 13 (by decide) _ _ j]
  rw [sum_store_apply _ _ _ (ht _ _) 12 (by decide) _ _ j]
  rw [sum_store_apply _ _ _ (ht _ _) 11 (by decide) _ _ j]
  rw [sum_store_apply _ _ _ (ht _ _) 10 (by decide) _ _ j]
  rw [sum_store_apply _ _ _ (ht _ _) 9 (by decide) _ _ j]
  rw [sum_store_apply _ _ _ (ht _ _) 8 (by decide) _ _ j]
  rw [sum_store_apply _ _ _ (ht _ _) 7 (by decide) _ _ j]
  rw [sum_store_apply _ _ _ (ht _ _) 6 (by decide) _ _ j]
  rw [sum_store_apply _ _ _ (ht _ _) 5 (by decide) _ _ j]
  rw [sum_store_apply _ _ _ (ht _ _) 4 (by decide) _ _ j]
  rw [sum_store_apply _ _ _ (ht _ _) 3 (by decide) _ _ j]
  rw [sum_store_apply _ _ _ (ht _ _) 2 (by decide) _ _ j]
  rw [sum_store_apply _ _ _ (ht _ _) 1 (by decide) _ _ j]
  rw [sum_store_apply _ _ _ (ht _ _) 0 (by decide) _ _ j]
  rw [sum_store_apply _ _ _ (ht _ _) 15 (by decide) _ _ j]
  rw [sum_store_apply _ _ _ (ht _ _) 14 (by decide) _ _ j]
  rw [sum_store_apply _ _ _ (ht _ _) 13 (by decide) _ _ j]
  rw [sum_store_apply _ _ _ (ht _ _) 12 (by decide) _ _ j]
  rw [sum_store_apply _ _ _ (ht _ _) 11 (by decide) _ _ j]
  rw [sum_store_apply _ _ _ (ht _ _) 10 (by decide) _ _ j]
  rw [sum_store_apply _ _ _ (ht _ _) 9 (by decide) _ _ j]
  rw [sum_store_apply _ _ _ (ht _ _) 8 (by decide) _ _ j]
  rw [sum_store_apply _ _ _ (ht _ _) 7 (by decide) _ _ j]
  rw [sum_store_apply _ _ _ (ht _ _) 6 (by decide) _ _ j]
  rw [sum_store_apply _ _ _ (ht _ _) 5 (by decide) _ _ j]
  rw [sum_store_apply _ _ _ (ht _ _) 4 (by decide) _ _ j]
  rw [sum_store_apply _ _ _ (ht _ _) 3 (by decide) _ _ j]
  rw [sum_store_apply _ _ _ (ht _ _) 2 (by decide) _ _ j]
  rw [sum_store_apply _ _ _ (ht _ _) 1 (by decide) _ _ j]
  rw [sum_store_apply _ _ _ (ht _ _) 0 (by decide) _ _ j]

end Cert.Proof.KI.Pass1
end
-- ==== Proof.Pass1VJ.lean ====
/-
  The first SparseCore call's scatter loops at the ideal instance, where the indexed store's addition is the exact sum:
  a group's step adds a term to the element, a trip adds the sum of its groups' terms, and after n trips an accumulator
  holds what it held plus the sum over those trips of the trips' terms.
-/
import proofs.«210783_g59777354826199_cont_9to1_m_168_18_alg».proof.Proof.Pass1VD
import proofs.«210783_g59777354826199_cont_9to1_m_168_18_alg».proof.Proof.Pass1VH
import proofs.«210783_g59777354826199_cont_9to1_m_168_18_alg».proof.Proof.Pass1VI

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (d : Dev nD) (L : grid0.Coords)

/-- An accumulator's element, as an extended real. -/
abbrev rdA (f : Buf (Elt Ideal) ((aB : Memref sig .scVector .vmem S16384 .f32).view.loc (thr d L))) (j : S16384.Idx) : EReal :=
  (f : Vec Ideal S16384 .f32) j
abbrev rdC (f : Buf (Elt Ideal) ((cB : Memref sig .scVector .vmem S1024 .f32).view.loc (thr d L))) (j : S1024.Idx) : EReal :=
  (f : Vec Ideal S1024 .f32) j

/-- What one group adds to element j of the counts: the value of lane j mod 16 where that lane's voxel has segment
    j div 16, else nothing. -/
def cntTerm (v5 : Vec Ideal S16 .f32) (lm lt : S1x16.Idx → BitVec 32) (j : S1024.Idx) : EReal :=
  if 16 * segW (lm (Shape.reshapeEquiv shapeCasts_S1x16_S16 (laneOf (N := 1024) j))) (lt (Shape.reshapeEquiv shapeCasts_S1x16_S16 (laneOf (N := 1024) j)))
      + (j 0).val % 16 = (j 0).val
  then (v5 (laneOf (N := 1024) j) : EReal) else 0

theorem cntStep_ideal (v5 : Vec Ideal S16 .f32) (lm lt : S1x16.Idx → BitVec 32) (j : S1024.Idx) (a : EReal) :
    (cntStep (F := Ideal) v5 lm lt j a : EReal) = a + cntTerm v5 lm lt j := by
  unfold cntStep cntTerm
  split
  · rfl
  · exact (add_zero a).symm

/-- What one group adds for row r to element j of the sums. -/
def sumTerm (r : ℕ) (xv : Vec Ideal S16 .f32) (lm lt : S1x16.Idx → BitVec 32) (j : S16384.Idx) : EReal :=
  if 16 * (64 * r + segW (lm (Shape.reshapeEquiv shapeCasts_S1x16_S16 (laneOf (N := 16384) j))) (lt (Shape.reshapeEquiv shapeCasts_S1x16_S16 (laneOf (N := 16384) j))))
      + (j 0).val % 16 = (j 0).val
  then (xv (laneOf (N := 16384) j) : EReal) else 0

theorem sumStep_ideal (r : ℕ) (xv : Vec Ideal S16 .f32) (lm lt : S1x16.Idx → BitVec 32) (j : S16384.Idx) (a : EReal) :
    (sumStep (F := Ideal) r xv lm lt j a : EReal) = a + sumTerm r xv lm lt j := by
  unfold sumStep sumTerm
  split
  · rfl
  · exact (add_zero a).symm

/-- What trip k over slot 0 adds to element j of the counts: the four groups' terms. -/
def cntTrip3 (v5 : FVec Ideal S16 .f32) (ft' : Buf (Elt Ideal) ((tB : Memref sig .scVector .vmem S2x2048 .i32).view.loc (thr d L))) (gm : Buf (Elt Ideal) ((mB : Memref sig .scVector .vmem S2x2048 .i32).view.loc (thr d L))) (k : Fin k0_t3_loop.trips) (j : S1024.Idx) : EReal :=
  cntTerm v5 (grpM (F := Ideal) d L gm (k0_off7 k) (k0_off7_inb k)) (grpT (F := Ideal) d L ft' (k0_off7 k) (k0_off7_inb k)) j + cntTerm v5 (grpM (F := Ideal) d L gm (k0_off24 k) (k0_off24_inb k)) (grpT (F := Ideal) d L ft' (k0_off24 k) (k0_off24_inb k)) j
    + cntTerm v5 (grpM (F := Ideal) d L gm (k0_off41 k) (k0_off41_inb k)) (grpT (F := Ideal) d L ft' (k0_off41 k) (k0_off41_inb k)) j + cntTerm v5 (grpM (F := Ideal) d L gm (k0_off58 k) (k0_off58_inb k)) (grpT (F := Ideal) d L ft' (k0_off58 k) (k0_off58_inb k)) j

/-- The counts after one trip over slot 0: what they held plus the trip's term. -/
theorem accC3_ideal (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L))) (k : Fin k0_t3_loop.trips)
    (fc : Buf (Elt Ideal) ((cB : Memref sig .scVector .vmem S1024 .f32).view.loc (thr d L))) (j : S1024.Idx) :
    rdC d L (accC3 (F := Ideal) d L iotaV0 hv3 v5 gx ft' hft gm k fc) j
      = rdC d L (fc) j + cntTrip3 d L v5 ft' gm k j := by
  unfold rdC
  rw [accC3_apply (F := Ideal) d L hv3 v5 gx ft' hft gm k fc j, cntStep_ideal, cntStep_ideal, cntStep_ideal, cntStep_ideal]
  unfold cntTrip3
  simp only [add_assoc]

/-- The counts after the first n trips over slot 0: what they held plus the trips' terms. -/
theorem iterC3_ideal (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L)))
    (fc : Buf (Elt Ideal) ((cB : Memref sig .scVector .vmem S1024 .f32).view.loc (thr d L))) (j : S1024.Idx) :
    ∀ n : ℕ, rdC d L (iterC3 (F := Ideal) d L iotaV0 hv3 v5 gx ft' hft gm fc n) j
      = rdC d L (fc) j
        + ∑ k ∈ Finset.range n, (if h : k < k0_t3_loop.trips then cntTrip3 d L v5 ft' gm ⟨k, h⟩ j else 0)
  | 0 => by
    show rdC d L (fc) j = _
    rw [Finset.range_zero, Finset.sum_empty, add_zero]
  | n + 1 => by
    rw [Finset.sum_range_succ, ← add_assoc, ← iterC3_ideal hv3 v5 gx ft' hft gm fc j n]
    show rdC d L (if h : n < k0_t3_loop.trips then accC3 (F := Ideal) d L iotaV0 hv3 v5 gx ft' hft gm ⟨n, h⟩ (iterC3 (F := Ideal) d L iotaV0 hv3 v5 gx ft' hft gm fc n)
      else iterC3 (F := Ideal) d L iotaV0 hv3 v5 gx ft' hft gm fc n) j = _
    by_cases h : n < k0_t3_loop.trips
    · rw [dif_pos h, dif_pos h, accC3_ideal]
    · rw [dif_neg h, dif_neg h, add_zero]

/-- What trip k over slot 1 adds to element j of the counts: the four groups' terms. -/
def cntTrip4 (v5 : FVec Ideal S16 .f32) (ft' : Buf (Elt Ideal) ((tB : Memref sig .scVector .vmem S2x2048 .i32).view.loc (thr d L))) (gm : Buf (Elt Ideal) ((mB : Memref sig .scVector .vmem S2x2048 .i32).view.loc (thr d L))) (k : Fin k0_t4_loop.trips) (j : S1024.Idx) : EReal :=
  cntTerm v5 (grpM (F := Ideal) d L gm (k0_off77 k) (k0_off77_inb k)) (grpT (F := Ideal) d L ft' (k0_off77 k) (k0_off77_inb k)) j + cntTerm v5 (grpM (F := Ideal) d L gm (k0_off94 k) (k0_off94_inb k)) (grpT (F := Ideal) d L ft' (k0_off94 k) (k0_off94_inb k)) j
    + cntTerm v5 (grpM (F := Ideal) d L gm (k0_off111 k) (k0_off111_inb k)) (grpT (F := Ideal) d L ft' (k0_off111 k) (k0_off111_inb k)) j + cntTerm v5 (grpM (F := Ideal) d L gm (k0_off128 k) (k0_off128_inb k)) (grpT (F := Ideal) d L ft' (k0_off128 k) (k0_off128_inb k)) j

/-- The counts after one trip over slot 1: what they held plus the trip's term. -/
theorem accC4_ideal (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L))) (k : Fin k0_t4_loop.trips)
    (fc : Buf (Elt Ideal) ((cB : Memref sig .scVector .vmem S1024 .f32).view.loc (thr d L))) (j : S1024.Idx) :
    rdC d L (accC4 (F := Ideal) d L iotaV0 hv3 v5 gx ft' hft gm k fc) j
      = rdC d L (fc) j + cntTrip4 d L v5 ft' gm k j := by
  unfold rdC
  rw [accC4_apply (F := Ideal) d L hv3 v5 gx ft' hft gm k fc j, cntStep_ideal, cntStep_ideal, cntStep_ideal, cntStep_ideal]
  unfold cntTrip4
  simp only [add_assoc]

/-- The counts after the first n trips over slot 1: what they held plus the trips' terms. -/
theorem iterC4_ideal (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L)))
    (fc : Buf (Elt Ideal) ((cB : Memref sig .scVector .vmem S1024 .f32).view.loc (thr d L))) (j : S1024.Idx) :
    ∀ n : ℕ, rdC d L (iterC4 (F := Ideal) d L iotaV0 hv3 v5 gx ft' hft gm fc n) j
      = rdC d L (fc) j
        + ∑ k ∈ Finset.range n, (if h : k < k0_t4_loop.trips then cntTrip4 d L v5 ft' gm ⟨k, h⟩ j else 0)
  | 0 => by
    show rdC d L (fc) j = _
    rw [Finset.range_zero, Finset.sum_empty, add_zero]
  | n + 1 => by
    rw [Finset.sum_range_succ, ← add_assoc, ← iterC4_ideal hv3 v5 gx ft' hft gm fc j n]
    show rdC d L (if h : n < k0_t4_loop.trips then accC4 (F := Ideal) d L iotaV0 hv3 v5 gx ft' hft gm ⟨n, h⟩ (iterC4 (F := Ideal) d L iotaV0 hv3 v5 gx ft' hft gm fc n)
      else iterC4 (F := Ideal) d L iotaV0 hv3 v5 gx ft' hft gm fc n) j = _
    by_cases h : n < k0_t4_loop.trips
    · rw [dif_pos h, dif_pos h, accC4_ideal]
    · rw [dif_neg h, dif_neg h, add_zero]

/-- What trip k over slot 0 adds to element j of the sums: the trip run on the zero accumulator. -/
def sumTrip3 (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L))) (k : Fin k0_t3_loop.trips) (j : S16384.Idx) : EReal :=
  rdA d L (accA3 (F := Ideal) d L iotaV0 hv3 v5 gx ft' hft gm k
    ((fun _ => (0 : EReal) : Vec Ideal S16384 .f32) : Buf (Elt Ideal) ((aB : Memref sig .scVector .vmem S16384 .f32).view.loc (thr d L)))) j

set_option maxHeartbeats 4000000 in
/-- The sums after one trip over slot 0: what they held plus the trip's term. -/
theorem accA3_ideal (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L))) (k : Fin k0_t3_loop.trips)
    (fa : Buf (Elt Ideal) ((aB : Memref sig .scVector .vmem S16384 .f32).view.loc (thr d L))) (j : S16384.Idx) :
    rdA d L (accA3 (F := Ideal) d L iotaV0 hv3 v5 gx ft' hft gm k fa) j
      = rdA d L (fa) j + sumTrip3 d L hv3 v5 gx ft' hft gm k j := by
  unfold sumTrip3 rdA
  rw [accA3_apply (F := Ideal) d L hv3 v5 gx ft' hft gm k fa j, accA3_apply (F := Ideal) d L hv3 v5 gx ft' hft gm k _ j]
  simp only [sumStep_ideal, add_assoc, zero_add]

/-- The sums after the first n trips over slot 0: what they held plus the trips' terms. -/
theorem iterA3_ideal (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L)))
    (fa : Buf (Elt Ideal) ((aB : Memref sig .scVector .vmem S16384 .f32).view.loc (thr d L))) (j : S16384.Idx) :
    ∀ n : ℕ, rdA d L (iterA3 (F := Ideal) d L iotaV0 hv3 v5 gx ft' hft gm fa n) j
      = rdA d L (fa) j
        + ∑ k ∈ Finset.range n, (if h : k < k0_t3_loop.trips then sumTrip3 d L hv3 v5 gx ft' hft gm ⟨k, h⟩ j else 0)
  | 0 => by
    show rdA d L (fa) j = _
    rw [Finset.range_zero, Finset.sum_empty, add_zero]
  | n + 1 => by
    rw [Finset.sum_range_succ, ← add_assoc, ← iterA3_ideal hv3 v5 gx ft' hft gm fa j n]
    show rdA d L (if h : n < k0_t3_loop.trips then accA3 (F := Ideal) d L iotaV0 hv3 v5 gx ft' hft gm ⟨n, h⟩ (iterA3 (F := Ideal) d L iotaV0 hv3 v5 gx ft' hft gm fa n)
      else iterA3 (F := Ideal) d L iotaV0 hv3 v5 gx ft' hft gm fa n) j = _
    by_cases h : n < k0_t3_loop.trips
    · rw [dif_pos h, dif_pos h, accA3_ideal]
    · rw [dif_neg h, dif_neg h, add_zero]

/-- What trip k over slot 1 adds to element j of the sums: the trip run on the zero accumulator. -/
def sumTrip4 (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L))) (k : Fin k0_t4_loop.trips) (j : S16384.Idx) : EReal :=
  rdA d L (accA4 (F := Ideal) d L iotaV0 hv3 v5 gx ft' hft gm k
    ((fun _ => (0 : EReal) : Vec Ideal S16384 .f32) : Buf (Elt Ideal) ((aB : Memref sig .scVector .vmem S16384 .f32).view.loc (thr d L)))) j

set_option maxHeartbeats 4000000 in
/-- The sums after one trip over slot 1: what they held plus the trip's term. -/
theorem accA4_ideal (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L))) (k : Fin k0_t4_loop.trips)
    (fa : Buf (Elt Ideal) ((aB : Memref sig .scVector .vmem S16384 .f32).view.loc (thr d L))) (j : S16384.Idx) :
    rdA d L (accA4 (F := Ideal) d L iotaV0 hv3 v5 gx ft' hft gm k fa) j
      = rdA d L (fa) j + sumTrip4 d L hv3 v5 gx ft' hft gm k j := by
  unfold sumTrip4 rdA
  rw [accA4_apply (F := Ideal) d L hv3 v5 gx ft' hft gm k fa j, accA4_apply (F := Ideal) d L hv3 v5 gx ft' hft gm k _ j]
  simp only [sumStep_ideal, add_assoc, zero_add]

/-- The sums after the first n trips over slot 1: what they held plus the trips' terms. -/
theorem iterA4_ideal (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L)))
    (fa : Buf (Elt Ideal) ((aB : Memref sig .scVector .vmem S16384 .f32).view.loc (thr d L))) (j : S16384.Idx) :
    ∀ n : ℕ, rdA d L (iterA4 (F := Ideal) d L iotaV0 hv3 v5 gx ft' hft gm fa n) j
      = rdA d L (fa) j
        + ∑ k ∈ Finset.range n, (if h : k < k0_t4_loop.trips then sumTrip4 d L hv3 v5 gx ft' hft gm ⟨k, h⟩ j else 0)
  | 0 => by
    show rdA d L (fa) j = _
    rw [Finset.range_zero, Finset.sum_empty, add_zero]
  | n + 1 => by
    rw [Finset.sum_range_succ, ← add_assoc, ← iterA4_ideal hv3 v5 gx ft' hft gm fa j n]
    show rdA d L (if h : n < k0_t4_loop.trips then accA4 (F := Ideal) d L iotaV0 hv3 v5 gx ft' hft gm ⟨n, h⟩ (iterA4 (F := Ideal) d L iotaV0 hv3 v5 gx ft' hft gm fa n)
      else iterA4 (F := Ideal) d L iotaV0 hv3 v5 gx ft' hft gm fa n) j = _
    by_cases h : n < k0_t4_loop.trips
    · rw [dif_pos h, dif_pos h, accA4_ideal]
    · rw [dif_neg h, dif_neg h, add_zero]

end Cert.Proof.KI.Pass1
end
-- ==== Proof.Pass1VL.lean ====
/-
  The words a scatter trip loads, by position: lane x of the group at offset (b, p) of a staging buffer is the buffer's
  word at (b, p + x), and lane x of row c's group at offset (b, c, p) of the embedding's staging buffer is its value at
  (b, c, p + x).
-/
import proofs.«210783_g59777354826199_cont_9to1_m_168_18_alg».proof.Proof.Pass1VI

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [∀ e, Nonempty (Elt F e)] [FloatOps F]

local notation "𝕄" => 𝕄F F

variable (d : Dev nD) (L : grid0.Coords)

/-- The staging buffers' indices by coordinates. -/
def ix2 (b p : ℕ) (hb : b < 2) (hp : p < 2048) : S2x2048.Idx := fun a => match a with
  | ⟨0, _⟩ => ⟨b, hb⟩
  | ⟨1, _⟩ => ⟨p, hp⟩
def ix3 (b c p : ℕ) (hb : b < 2) (hc : c < 16) (hp : p < 2048) : S2x16x2048.Idx := fun a => match a with
  | ⟨0, _⟩ => ⟨b, hb⟩
  | ⟨1, _⟩ => ⟨c, hc⟩
  | ⟨2, _⟩ => ⟨p, hp⟩

omit [FloatOps F] [∀ e, Nonempty (Elt F e)] in
/-- Lane x of the mask's group at offset o: the mask's word at (o₀, o₁ + x). -/
theorem grpM_word (gm : Buf (Elt F) ((mB : Memref sig .scVector .vmem S2x2048 .i32).view.loc (thr d L))) (o : Fin 2 → ℕ)
    (ho : ∀ a, o a + S1x16.size a ≤ S2x2048.size a) (x : S16.Idx) :
    grpM d L gm o ho (Shape.reshapeEquiv shapeCasts_S1x16_S16 x)
      = (gm : S2x2048.Idx → BitVec 32) (ix2 (o 0) (o 1 + (x 0).val)
          (by have h := ho 0; have e1 : S1x16.size 0 = 1 := rfl; have e2 : S2x2048.size 0 = 2 := rfl; omega)
          (by have h := ho 1; have e1 : S1x16.size 1 = 16 := rfl; have e2 : S2x2048.size 1 = 2048 := rfl; have hx : (x 0).val < 16 := (x 0).isLt; omega)) := by
  rw [show Shape.reshapeEquiv shapeCasts_S1x16_S16 x = Fin.cons ⟨0, Nat.one_pos⟩ x from Shape.reshapeEquiv_cons_one _ x]
  show (gm : S2x2048.Idx → BitVec 32) _ = (gm : S2x2048.Idx → BitVec 32) _
  congr 1
  funext a
  match a with
  | ⟨0, _⟩ => exact Fin.ext (show o 0 + 1 * 0 = o 0 by omega)
  | ⟨1, _⟩ => exact Fin.ext (show o 1 + 1 * (x 0).val = o 1 + (x 0).val by omega)

omit [FloatOps F] [∀ e, Nonempty (Elt F e)] in
/-- Lane x of the targets' group at offset o: the targets' word at (o₀, o₁ + x). -/
theorem grpT_word (ft' : Buf (Elt F) ((tB : Memref sig .scVector .vmem S2x2048 .i32).view.loc (thr d L))) (o : Fin 2 → ℕ)
    (ho : ∀ a, o a + S1x16.size a ≤ S2x2048.size a) (x : S16.Idx) :
    grpT d L ft' o ho (Shape.reshapeEquiv shapeCasts_S1x16_S16 x)
      = (ft' : S2x2048.Idx → BitVec 32) (ix2 (o 0) (o 1 + (x 0).val)
          (by have h := ho 0; have e1 : S1x16.size 0 = 1 := rfl; have e2 : S2x2048.size 0 = 2 := rfl; omega)
          (by have h := ho 1; have e1 : S1x16.size 1 = 16 := rfl; have e2 : S2x2048.size 1 = 2048 := rfl; have hx : (x 0).val < 16 := (x 0).isLt; omega)) := by
  rw [show Shape.reshapeEquiv shapeCasts_S1x16_S16 x = Fin.cons ⟨0, Nat.one_pos⟩ x from Shape.reshapeEquiv_cons_one _ x]
  show (ft' : S2x2048.Idx → BitVec 32) _ = (ft' : S2x2048.Idx → BitVec 32) _
  congr 1
  funext a
  match a with
  | ⟨0, _⟩ => exact Fin.ext (show o 0 + 1 * 0 = o 0 by omega)
  | ⟨1, _⟩ => exact Fin.ext (show o 1 + 1 * (x 0).val = o 1 + (x 0).val by omega)

end Cert.Proof.KI.Pass1
end
-- ==== Proof.Pass1VM.lean ====
/-
  The first SparseCore call's counts after a whole scatter loop, at the ideal instance, by position in the staging slot:
  element j gets, for each of the slot's 128 positions of lane j mod 16, the group's value of that lane where the
  position's voxel has segment j div 16.
-/
import proofs.«210783_g59777354826199_cont_9to1_m_168_18_alg».proof.Proof.Pass1VJ
import proofs.«210783_g59777354826199_cont_9to1_m_168_18_alg».proof.Proof.Pass1VL

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (d : Dev nD) (L : grid0.Coords)

/-- Four consecutive terms per trip are all the terms. -/
theorem sum_quads (f : ℕ → EReal) : ∀ n : ℕ,
    ∑ k ∈ Finset.range n, (f (4 * k) + f (4 * k + 1) + f (4 * k + 2) + f (4 * k + 3)) = ∑ q ∈ Finset.range (4 * n), f q
  | 0 => by simp
  | n + 1 => by
    rw [Finset.sum_range_succ, sum_quads f n, show 4 * (n + 1) = 4 * n + 1 + 1 + 1 + 1 by ring,
      Finset.sum_range_succ, Finset.sum_range_succ, Finset.sum_range_succ, Finset.sum_range_succ]
    simp only [add_assoc]

theorem ix2_congr {b b' p p' : ℕ} (hb : b < 2) (hb' : b' < 2) (hp : p < 2048) (hp' : p' < 2048) (e1 : b = b') (e2 : p = p') :
    ix2 b p hb hp = ix2 b' p' hb' hp' := by
  subst e1 e2; rfl

/-- The segment of the voxel at position p of slot b. -/
def posSeg (gm : Buf (Elt Ideal) ((mB : Memref sig .scVector .vmem S2x2048 .i32).view.loc (thr d L)))
    (ft' : Buf (Elt Ideal) ((tB : Memref sig .scVector .vmem S2x2048 .i32).view.loc (thr d L))) (b : ℕ) (hb : b < 2) (p : ℕ) : ℕ :=
  if h : p < 2048 then segW ((gm : S2x2048.Idx → BitVec 32) (ix2 b p hb h)) ((ft' : S2x2048.Idx → BitVec 32) (ix2 b p hb h)) else 0

/-- What the voxel at position p of slot b adds to element j of the counts. -/
def posCnt (v5 : FVec Ideal S16 .f32) (gm : Buf (Elt Ideal) ((mB : Memref sig .scVector .vmem S2x2048 .i32).view.loc (thr d L)))
    (ft' : Buf (Elt Ideal) ((tB : Memref sig .scVector .vmem S2x2048 .i32).view.loc (thr d L))) (b : ℕ) (hb : b < 2) (j : S1024.Idx) (p : ℕ) : EReal :=
  if 16 * posSeg d L gm ft' b hb p + (j 0).val % 16 = (j 0).val then (v5 (laneOf (N := 1024) j) : EReal) else 0

/-- A group's term, by position: the group at offset (b, P) contributes its position P + j mod 16. -/
theorem cntTerm_pos (v5 : FVec Ideal S16 .f32) (gm : Buf (Elt Ideal) ((mB : Memref sig .scVector .vmem S2x2048 .i32).view.loc (thr d L)))
    (ft' : Buf (Elt Ideal) ((tB : Memref sig .scVector .vmem S2x2048 .i32).view.loc (thr d L))) (b : ℕ) (hb : b < 2)
    (o : Fin 2 → ℕ) (ho : ∀ a, o a + S1x16.size a ≤ S2x2048.size a) (j : S1024.Idx) (P : ℕ) (h0 : o 0 = b) (h1 : o 1 = P) (hP : P + 16 ≤ 2048) :
    cntTerm v5 (grpM (F := Ideal) d L gm o ho) (grpT (F := Ideal) d L ft' o ho) j = posCnt d L v5 gm ft' b hb j (P + (j 0).val % 16) := by
  have hr : (j 0).val % 16 < 16 := Nat.mod_lt _ (by decide)
  have hl : ((laneOf (N := 1024) j) 0).val = (j 0).val % 16 := rfl
  unfold cntTerm posCnt posSeg
  rw [grpM_word, grpT_word, dif_pos (show P + (j 0).val % 16 < 2048 by omega)]
  rw [ix2_congr _ hb _ (show P + (j 0).val % 16 < 2048 by omega) h0 (by rw [h1, hl])]

/-- What trip k over slot 0 adds to element j of the counts, by position: the four positions 64·k + 16·g + j mod 16. -/
theorem cntTrip3_pos (v5 : FVec Ideal S16 .f32) (ft' : Buf (Elt Ideal) ((tB : Memref sig .scVector .vmem S2x2048 .i32).view.loc (thr d L))) (gm : Buf (Elt Ideal) ((mB : Memref sig .scVector .vmem S2x2048 .i32).view.loc (thr d L))) (k : Fin k0_t3_loop.trips) (j : S1024.Idx) :
    cntTrip3 d L v5 ft' gm k j
      = posCnt d L v5 gm ft' 0 (by decide) j (16 * (4 * k.val) + (j 0).val % 16) + posCnt d L v5 gm ft' 0 (by decide) j (16 * (4 * k.val + 1) + (j 0).val % 16)
        + posCnt d L v5 gm ft' 0 (by decide) j (16 * (4 * k.val + 2) + (j 0).val % 16) + posCnt d L v5 gm ft' 0 (by decide) j (16 * (4 * k.val + 3) + (j 0).val % 16) := by
  have hk : k.val < 32 := k.isLt
  have hr : (j 0).val % 16 < 16 := Nat.mod_lt _ (by decide)
  unfold cntTrip3
  rw [cntTerm_pos d L v5 gm ft' 0 (by decide) _ _ j (64 * k.val) (by rw [k0_off7_eq]; rfl) (by rw [k0_off7_eq]; rfl) (by omega),
    cntTerm_pos d L v5 gm ft' 0 (by decide) _ _ j (64 * k.val + 16) (by rw [k0_off24_eq]; rfl) (by rw [k0_off24_eq]; rfl) (by omega),
    cntTerm_pos d L v5 gm ft' 0 (by decide) _ _ j (64 * k.val + 32) (by rw [k0_off41_eq]; rfl) (by rw [k0_off41_eq]; rfl) (by omega),
    cntTerm_pos d L v5 gm ft' 0 (by decide) _ _ j (64 * k.val + 48) (by rw [k0_off58_eq]; rfl) (by rw [k0_off58_eq]; rfl) (by omega)]
  rw [show 64 * k.val + (j 0).val % 16 = 16 * (4 * k.val) + (j 0).val % 16 by omega,
    show 64 * k.val + 16 + (j 0).val % 16 = 16 * (4 * k.val + 1) + (j 0).val % 16 by omega,
    show 64 * k.val + 32 + (j 0).val % 16 = 16 * (4 * k.val + 2) + (j 0).val % 16 by omega,
    show 64 * k.val + 48 + (j 0).val % 16 = 16 * (4 * k.val + 3) + (j 0).val % 16 by omega]

/-- The counts after the whole scatter loop over slot 0: what they held plus, at element j, the terms of the slot's 128
    positions of lane j mod 16. -/
theorem loopC3_ideal (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L)))
    (fc : Buf (Elt Ideal) ((cB : Memref sig .scVector .vmem S1024 .f32).view.loc (thr d L))) (j : S1024.Idx) :
    rdC d L (iterC3 (F := Ideal) d L iotaV0 hv3 v5 gx ft' hft gm fc k0_t3_loop.trips) j
      = rdC d L fc j + ∑ q ∈ Finset.range 128, posCnt d L v5 gm ft' 0 (by decide) j (16 * q + (j 0).val % 16) := by
  rw [iterC3_ideal d L hv3 v5 gx ft' hft gm fc j k0_t3_loop.trips]
  congr 1
  have ht : k0_t3_loop.trips = 32 := rfl
  refine Eq.trans ?_ (sum_quads (fun q => posCnt d L v5 gm ft' 0 (by decide) j (16 * q + (j 0).val % 16)) 32)
  refine Finset.sum_congr (congrArg Finset.range ht) fun k hk => ?_
  have hk' : k < k0_t3_loop.trips := by rw [ht]; exact Finset.mem_range.mp hk
  rw [dif_pos hk', cntTrip3_pos]

/-- What trip k over slot 1 adds to element j of the counts, by position: the four positions 64·k + 16·g + j mod 16. -/
theorem cntTrip4_pos (v5 : FVec Ideal S16 .f32) (ft' : Buf (Elt Ideal) ((tB : Memref sig .scVector .vmem S2x2048 .i32).view.loc (thr d L))) (gm : Buf (Elt Ideal) ((mB : Memref sig .scVector .vmem S2x2048 .i32).view.loc (thr d L))) (k : Fin k0_t4_loop.trips) (j : S1024.Idx) :
    cntTrip4 d L v5 ft' gm k j
      = posCnt d L v5 gm ft' 1 (by decide) j (16 * (4 * k.val) + (j 0).val % 16) + posCnt d L v5 gm ft' 1 (by decide) j (16 * (4 * k.val + 1) + (j 0).val % 16)
        + posCnt d L v5 gm ft' 1 (by decide) j (16 * (4 * k.val + 2) + (j 0).val % 16) + posCnt d L v5 gm ft' 1 (by decide) j (16 * (4 * k.val + 3) + (j 0).val % 16) := by
  have hk : k.val < 32 := k.isLt
  have hr : (j 0).val % 16 < 16 := Nat.mod_lt _ (by decide)
  unfold cntTrip4
  rw [cntTerm_pos d L v5 gm ft' 1 (by decide) _ _ j (64 * k.val) (by rw [k0_off77_eq]; rfl) (by rw [k0_off77_eq]; rfl) (by omega),
    cntTerm_pos d L v5 gm ft' 1 (by decide) _ _ j (64 * k.val + 16) (by rw [k0_off94_eq]; rfl) (by rw [k0_off94_eq]; rfl) (by omega),
    cntTerm_pos d L v5 gm ft' 1 (by decide) _ _ j (64 * k.val + 32) (by rw [k0_off111_eq]; rfl) (by rw [k0_off111_eq]; rfl) (by omega),
    cntTerm_pos d L v5 gm ft' 1 (by decide) _ _ j (64 * k.val + 48) (by rw [k0_off128_eq]; rfl) (by rw [k0_off128_eq]; rfl) (by omega)]
  rw [show 64 * k.val + (j 0).val % 16 = 16 * (4 * k.val) + (j 0).val % 16 by omega,
    show 64 * k.val + 16 + (j 0).val % 16 = 16 * (4 * k.val + 1) + (j 0).val % 16 by omega,
    show 64 * k.val + 32 + (j 0).val % 16 = 16 * (4 * k.val + 2) + (j 0).val % 16 by omega,
    show 64 * k.val + 48 + (j 0).val % 16 = 16 * (4 * k.val + 3) + (j 0).val % 16 by omega]

/-- The counts after the whole scatter loop over slot 1: what they held plus, at element j, the terms of the slot's 128
    positions of lane j mod 16. -/
theorem loopC4_ideal (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L)))
    (fc : Buf (Elt Ideal) ((cB : Memref sig .scVector .vmem S1024 .f32).view.loc (thr d L))) (j : S1024.Idx) :
    rdC d L (iterC4 (F := Ideal) d L iotaV0 hv3 v5 gx ft' hft gm fc k0_t4_loop.trips) j
      = rdC d L fc j + ∑ q ∈ Finset.range 128, posCnt d L v5 gm ft' 1 (by decide) j (16 * q + (j 0).val % 16) := by
  rw [iterC4_ideal d L hv3 v5 gx ft' hft gm fc j k0_t4_loop.trips]
  congr 1
  have ht : k0_t4_loop.trips = 32 := rfl
  refine Eq.trans ?_ (sum_quads (fun q => posCnt d L v5 gm ft' 1 (by decide) j (16 * q + (j 0).val % 16)) 32)
  refine Finset.sum_congr (congrArg Finset.range ht) fun k hk => ?_
  have hk' : k < k0_t4_loop.trips := by rw [ht]; exact Finset.mem_range.mp hk
  rw [dif_pos hk', cntTrip4_pos]

end Cert.Proof.KI.Pass1
end
-- ==== Proof.Pass1VN.lean ====
/-
  The first SparseCore call's sums after a whole scatter loop, at the ideal instance, by position in the staging slot:
  element j gets, for each of the slot's 128 positions of lane j mod 16 and each of the sixteen rows c, row c's value at
  the position where 1024·c plus sixteen times the position's voxel's segment plus the lane is j.
-/
import proofs.«210783_g59777354826199_cont_9to1_m_168_18_alg».proof.Proof.Pass1VM

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (d : Dev nD) (L : grid0.Coords)

theorem ix3_congr {b b' c c' p p' : ℕ} (hb : b < 2) (hb' : b' < 2) (hc : c < 16) (hc' : c' < 16) (hp : p < 2048) (hp' : p' < 2048)
    (e1 : b = b') (e2 : c = c') (e3 : p = p') : ix3 b c p hb hc hp = ix3 b' c' p' hb' hc' hp' := by
  subst e1 e2 e3; rfl

/-- Lane x of a row's group at offset o of the embedding's staging buffer: the buffer's value at (o₀, o₁, o₂ + x). -/
theorem grpX_word (g : Buf (Elt Ideal) ((xB : Memref sig .scVector .vmem S2x16x2048 .f32).view.loc (thr d L))) (o : Fin 3 → ℕ)
    (ho : ∀ a, o a + S1x1x16.size a ≤ S2x16x2048.size a) (x : S16.Idx) :
    (grpX (F := Ideal) d L g o ho x : EReal)
      = (g : S2x16x2048.Idx → EReal) (ix3 (o 0) (o 1) (o 2 + (x 0).val)
          (by have h := ho 0; have e1 : S1x1x16.size 0 = 1 := rfl; have e2 : S2x16x2048.size 0 = 2 := rfl; omega)
          (by have h := ho 1; have e1 : S1x1x16.size 1 = 1 := rfl; have e2 : S2x16x2048.size 1 = 16 := rfl; omega)
          (by have h := ho 2; have e1 : S1x1x16.size 2 = 16 := rfl; have e2 : S2x16x2048.size 2 = 2048 := rfl; have hx : (x 0).val < 16 := (x 0).isLt; omega)) := by
  have h1 : (S16 : Shape).numel = S1x16.numel := shapeCasts_S1x16_S16
  have h2 : (S1x16 : Shape).numel = S1x1x16.numel := by decide
  have e : Shape.reshapeEquiv shapeCasts_S1x1x16_S16 x = Fin.cons ⟨0, Nat.one_pos⟩ (Fin.cons ⟨0, Nat.one_pos⟩ x) :=
    ((Shape.reshapeEquiv_reshapeEquiv h2 h1 x).symm).trans
      ((congrArg (Shape.reshapeEquiv h2) (Shape.reshapeEquiv_cons_one h1 x)).trans (Shape.reshapeEquiv_cons_one h2 _))
  show (g : S2x16x2048.Idx → EReal) ((Rect.unit (s := S2x16x2048) o S1x1x16.size ho).toLoadRect.idx (Shape.reshapeEquiv shapeCasts_S1x1x16_S16 x)) = _
  rw [e]
  congr 1
  funext a
  match a with
  | ⟨0, _⟩ => exact Fin.ext (show o 0 + 1 * 0 = o 0 by omega)
  | ⟨1, _⟩ => exact Fin.ext (show o 1 + 1 * 0 = o 1 by omega)
  | ⟨2, _⟩ => exact Fin.ext (show o 2 + 1 * (x 0).val = o 2 + (x 0).val by omega)

/-- What row c of the voxel at position p of slot b adds to element j of the sums. -/
def posSum (gx : Fin 16 → Buf (Elt Ideal) ((xB : Memref sig .scVector .vmem S2x16x2048 .f32).view.loc (thr d L)))
    (gm : Buf (Elt Ideal) ((mB : Memref sig .scVector .vmem S2x2048 .i32).view.loc (thr d L)))
    (ft' : Buf (Elt Ideal) ((tB : Memref sig .scVector .vmem S2x2048 .i32).view.loc (thr d L))) (b : ℕ) (hb : b < 2) (c : ℕ) (hc : c < 16)
    (j : S16384.Idx) (p : ℕ) : EReal :=
  if 16 * (64 * c + posSeg d L gm ft' b hb p) + (j 0).val % 16 = (j 0).val
  then (if h : p < 2048 then (gx ⟨c, hc⟩ : S2x16x2048.Idx → EReal) (ix3 b c p hb hc h) else 0) else 0

/-- The sixteen rows' terms of one position. -/
def rowSum (gx : Fin 16 → Buf (Elt Ideal) ((xB : Memref sig .scVector .vmem S2x16x2048 .f32).view.loc (thr d L)))
    (gm : Buf (Elt Ideal) ((mB : Memref sig .scVector .vmem S2x2048 .i32).view.loc (thr d L)))
    (ft' : Buf (Elt Ideal) ((tB : Memref sig .scVector .vmem S2x2048 .i32).view.loc (thr d L))) (b : ℕ) (hb : b < 2) (j : S16384.Idx) (p : ℕ) : EReal :=
  posSum d L gx gm ft' b hb 0 (by decide) j p
    + posSum d L gx gm ft' b hb 1 (by decide) j p
    + posSum d L gx gm ft' b hb 2 (by decide) j p
    + posSum d L gx gm ft' b hb 3 (by decide) j p
    + posSum d L gx gm ft' b hb 4 (by decide) j p
    + posSum d L gx gm ft' b hb 5 (by decide) j p
    + posSum d L gx gm ft' b hb 6 (by decide) j p
    + posSum d L gx gm ft' b hb 7 (by decide) j p
    + posSum d L gx gm ft' b hb 8 (by decide) j p
    + posSum d L gx gm ft' b hb 9 (by decide) j p
    + posSum d L gx gm ft' b hb 10 (by decide) j p
    + posSum d L gx gm ft' b hb 11 (by decide) j p
    + posSum d L gx gm ft' b hb 12 (by decide) j p
    + posSum d L gx gm ft' b hb 13 (by decide) j p
    + posSum d L gx gm ft' b hb 14 (by decide) j p
    + posSum d L gx gm ft' b hb 15 (by decide) j p

/-- A group's term for a row, by position. -/
theorem sumTerm_pos (gx : Fin 16 → Buf (Elt Ideal) ((xB : Memref sig .scVector .vmem S2x16x2048 .f32).view.loc (thr d L)))
    (gm : Buf (Elt Ideal) ((mB : Memref sig .scVector .vmem S2x2048 .i32).view.loc (thr d L)))
    (ft' : Buf (Elt Ideal) ((tB : Memref sig .scVector .vmem S2x2048 .i32).view.loc (thr d L))) (b : ℕ) (hb : b < 2) (c : ℕ) (hc : c < 16)
    (o : Fin 2 → ℕ) (ho : ∀ a, o a + S1x16.size a ≤ S2x2048.size a)
    (o3 : Fin 3 → ℕ) (ho3 : ∀ a, o3 a + S1x1x16.size a ≤ S2x16x2048.size a) (j : S16384.Idx) (P : ℕ)
    (cf : Fin 16) (hcf : cf.val = c)
    (h0 : o 0 = b) (h1 : o 1 = P) (g0 : o3 0 = b) (g1 : o3 1 = c) (g2 : o3 2 = P) (hP : P + 16 ≤ 2048) :
    sumTerm c (grpX (F := Ideal) d L (gx cf) o3 ho3) (grpM (F := Ideal) d L gm o ho) (grpT (F := Ideal) d L ft' o ho) j
      = posSum d L gx gm ft' b hb c hc j (P + (j 0).val % 16) := by
  have hr : (j 0).val % 16 < 16 := Nat.mod_lt _ (by decide)
  have hl : ((laneOf (N := 16384) j) 0).val = (j 0).val % 16 := rfl
  obtain rfl : cf = ⟨c, hc⟩ := Fin.ext hcf
  unfold sumTerm posSum posSeg
  rw [grpM_word, grpT_word, grpX_word, dif_pos (show P + (j 0).val % 16 < 2048 by omega), dif_pos (show P + (j 0).val % 16 < 2048 by omega)]
  rw [ix2_congr _ hb _ (show P + (j 0).val % 16 < 2048 by omega) h0 (by rw [h1, hl]),
    ix3_congr _ hb _ hc _ (show P + (j 0).val % 16 < 2048 by omega) g0 g1 (by rw [g2, hl])]

set_option maxHeartbeats 4000000 in
/-- What trip k over slot 0 adds to element j of the sums, by position: the sixteen rows' terms at the four positions
    64·k + 16·g + j mod 16. -/
theorem sumTrip3_pos (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L))) (k : Fin k0_t3_loop.trips) (j : S16384.Idx) :
    sumTrip3 d L hv3 v5 gx ft' hft gm k j
      = rowSum d L gx gm ft' 0 (by decide) j (16 * (4 * k.val) + (j 0).val % 16) + rowSum d L gx gm ft' 0 (by decide) j (16 * (4 * k.val + 1) + (j 0).val % 16)
        + rowSum d L gx gm ft' 0 (by decide) j (16 * (4 * k.val + 2) + (j 0).val % 16) + rowSum d L gx gm ft' 0 (by decide) j (16 * (4 * k.val + 3) + (j 0).val % 16) := by
  have hk : k.val < 32 := k.isLt
  have hr : (j 0).val % 16 < 16 := Nat.mod_lt _ (by decide)
  unfold sumTrip3 rdA
  rw [accA3_apply (F := Ideal) d L hv3 v5 gx ft' hft gm k _ j]
  simp only [sumStep_ideal]
  rw [sumTerm_pos d L gx gm ft' 0 (by decide) 0 (by decide) _ _ _ _ j (64 * k.val + 0) (0 : Fin 16) rfl (by rw [k0_off7_eq]; rfl) (by rw [k0_off7_eq]; rfl) (by rw [k0_off8_eq]; rfl) (by rw [k0_off8_eq]; rfl) (by rw [k0_off8_eq]; rfl) (by omega),
    sumTerm_pos d L gx gm ft' 0 (by decide) 1 (by decide) _ _ _ _ j (64 * k.val + 0) (1 : Fin 16) rfl (by rw [k0_off7_eq]; rfl) (by rw [k0_off7_eq]; rfl) (by rw [k0_off9_eq]; rfl) (by rw [k0_off9_eq]; rfl) (by rw [k0_off9_eq]; rfl) (by omega),
    sumTerm_pos d L gx gm ft' 0 (by decide) 2 (by decide) _ _ _ _ j (64 * k.val + 0) (2 : Fin 16) rfl (by rw [k0_off7_eq]; rfl) (by rw [k0_off7_eq]; rfl) (by rw [k0_off10_eq]; rfl) (by rw [k0_off10_eq]; rfl) (by rw [k0_off10_eq]; rfl) (by omega),
    sumTerm_pos d L gx gm ft' 0 (by decide) 3 (by decide) _ _ _ _ j (64 * k.val + 0) (3 : Fin 16) rfl (by rw [k0_off7_eq]; rfl) (by rw [k0_off7_eq]; rfl) (by rw [k0_off11_eq]; rfl) (by rw [k0_off11_eq]; rfl) (by rw [k0_off11_eq]; rfl) (by omega),
    sumTerm_pos d L gx gm ft' 0 (by decide) 4 (by decide) _ _ _ _ j (64 * k.val + 0) (4 : Fin 16) rfl (by rw [k0_off7_eq]; rfl) (by rw [k0_off7_eq]; rfl) (by rw [k0_off12_eq]; rfl) (by rw [k0_off12_eq]; rfl) (by rw [k0_off12_eq]; rfl) (by omega),
    sumTerm_pos d L gx gm ft' 0 (by decide) 5 (by decide) _ _ _ _ j (64 * k.val + 0) (5 : Fin 16) rfl (by rw [k0_off7_eq]; rfl) (by rw [k0_off7_eq]; rfl) (by rw [k0_off13_eq]; rfl) (by rw [k0_off13_eq]; rfl) (by rw [k0_off13_eq]; rfl) (by omega),
    sumTerm_pos d L gx gm ft' 0 (by decide) 6 (by decide) _ _ _ _ j (64 * k.val + 0) (6 : Fin 16) rfl (by rw [k0_off7_eq]; rfl) (by rw [k0_off7_eq]; rfl) (by rw [k0_off14_eq]; rfl) (by rw [k0_off14_eq]; rfl) (by rw [k0_off14_eq]; rfl) (by omega),
    sumTerm_pos d L gx gm ft' 0 (by decide) 7 (by decide) _ _ _ _ j (64 * k.val + 0) (7 : Fin 16) rfl (by rw [k0_off7_eq]; rfl) (by rw [k0_off7_eq]; rfl) (by rw [k0_off15_eq]; rfl) (by rw [k0_off15_eq]; rfl) (by rw [k0_off15_eq]; rfl) (by omega),
    sumTerm_pos d L gx gm ft' 0 (by decide) 8 (by decide) _ _ _ _ j (64 * k.val + 0) (8 : Fin 16) rfl (by rw [k0_off7_eq]; rfl) (by rw [k0_off7_eq]; rfl) (by rw [k0_off16_eq]; rfl) (by rw [k0_off16_eq]; rfl) (by rw [k0_off16_eq]; rfl) (by omega),
    sumTerm_pos d L gx gm ft' 0 (by decide) 9 (by decide) _ _ _ _ j (64 * k.val + 0) (9 : Fin 16) rfl (by rw [k0_off7_eq]; rfl) (by rw [k0_off7_eq]; rfl) (by rw [k0_off17_eq]; rfl) (by rw [k0_off17_eq]; rfl) (by rw [k0_off17_eq]; rfl) (by omega),
    sumTerm_pos d L gx gm ft' 0 (by decide) 10 (by decide) _ _ _ _ j (64 * k.val + 0) (10 : Fin 16) rfl (by rw [k0_off7_eq]; rfl) (by rw [k0_off7_eq]; rfl) (by rw [k0_off18_eq]; rfl) (by rw [k0_off18_eq]; rfl) (by rw [k0_off18_eq]; rfl) (by omega),
    sumTerm_pos d L gx gm ft' 0 (by decide) 11 (by decide) _ _ _ _ j (64 * k.val + 0) (11 : Fin 16) rfl (by rw [k0_off7_eq]; rfl) (by rw [k0_off7_eq]; rfl) (by rw [k0_off19_eq]; rfl) (by rw [k0_off19_eq]; rfl) (by rw [k0_off19_eq]; rfl) (by omega),
    sumTerm_pos d L gx gm ft' 0 (by decide) 12 (by decide) _ _ _ _ j (64 * k.val + 0) (12 : Fin 16) rfl (by rw [k0_off7_eq]; rfl) (by rw [k0_off7_eq]; rfl) (by rw [k0_off20_eq]; rfl) (by rw [k0_off20_eq]; rfl) (by rw [k0_off20_eq]; rfl) (by omega),
    sumTerm_pos d L gx gm ft' 0 (by decide) 13 (by decide) _ _ _ _ j (64 * k.val + 0) (13 : Fin 16) rfl (by rw [k0_off7_eq]; rfl) (by rw [k0_off7_eq]; rfl) (by rw [k0_off21_eq]; rfl) (by rw [k0_off21_eq]; rfl) (by rw [k0_off21_eq]; rfl) (by omega),
    sumTerm_pos d L gx gm ft' 0 (by decide) 14 (by decide) _ _ _ _ j (64 * k.val + 0) (14 : Fin 16) rfl (by rw [k0_off7_eq]; rfl) (by rw [k0_off7_eq]; rfl) (by rw [k0_off22_eq]; rfl) (by rw [k0_off22_eq]; rfl) (by rw [k0_off22_eq]; rfl) (by omega),
    sumTerm_pos d L gx gm ft' 0 (by decide) 15 (by decide) _ _ _ _ j (64 * k.val + 0) (15 : Fin 16) rfl (by rw [k0_off7_eq]; rfl) (by rw [k0_off7_eq]; rfl) (by rw [k0_off23_eq]; rfl) (by rw [k0_off23_eq]; rfl) (by rw [k0_off23_eq]; rfl) (by omega),
    sumTerm_pos d L gx gm ft' 0 (by decide) 0 (by decide) _ _ _ _ j (64 * k.val + 16) (0 : Fin 16) rfl (by rw [k0_off24_eq]; rfl) (by rw [k0_off24_eq]; rfl) (by rw [k0_off25_eq]; rfl) (by rw [k0_off25_eq]; rfl) (by rw [k0_off25_eq]; rfl) (by omega),
    sumTerm_pos d L gx gm ft' 0 (by decide) 1 (by decide) _ _ _ _ j (64 * k.val + 16) (1 : Fin 16) rfl (by rw [k0_off24_eq]; rfl) (by rw [k0_off24_eq]; rfl) (by rw [k0_off26_eq]; rfl) (by rw [k0_off26_eq]; rfl) (by rw [k0_off26_eq]; rfl) (by omega),
    sumTerm_pos d L gx gm ft' 0 (by decide) 2 (by decide) _ _ _ _ j (64 * k.val + 16) (2 : Fin 16) rfl (by rw [k0_off24_eq]; rfl) (by rw [k0_off24_eq]; rfl) (by rw [k0_off27_eq]; rfl) (by rw [k0_off27_eq]; rfl) (by rw [k0_off27_eq]; rfl) (by omega),
    sumTerm_pos d L gx gm ft' 0 (by decide) 3 (by decide) _ _ _ _ j (64 * k.val + 16) (3 : Fin 16) rfl (by rw [k0_off24_eq]; rfl) (by rw [k0_off24_eq]; rfl) (by rw [k0_off28_eq]; rfl) (by rw [k0_off28_eq]; rfl) (by rw [k0_off28_eq]; rfl) (by omega),
    sumTerm_pos d L gx gm ft' 0 (by decide) 4 (by decide) _ _ _ _ j (64 * k.val + 16) (4 : Fin 16) rfl (by rw [k0_off24_eq]; rfl) (by rw [k0_off24_eq]; rfl) (by rw [k0_off29_eq]; rfl) (by rw [k0_off29_eq]; rfl) (by rw [k0_off29_eq]; rfl) (by omega),
    sumTerm_pos d L gx gm ft' 0 (by decide) 5 (by decide) _ _ _ _ j (64 * k.val + 16) (5 : Fin 16) rfl (by rw [k0_off24_eq]; rfl) (by rw [k0_off24_eq]; rfl) (by rw [k0_off30_eq]; rfl) (by rw [k0_off30_eq]; rfl) (by rw [k0_off30_eq]; rfl) (by omega),
    sumTerm_pos d L gx gm ft' 0 (by decide) 6 (by decide) _ _ _ _ j (64 * k.val + 16) (6 : Fin 16) rfl (by rw [k0_off24_eq]; rfl) (by rw [k0_off24_eq]; rfl) (by rw [k0_off31_eq]; rfl) (by rw [k0_off31_eq]; rfl) (by rw [k0_off31_eq]; rfl) (by omega),
    sumTerm_pos d L gx gm ft' 0 (by decide) 7 (by decide) _ _ _ _ j (64 * k.val + 16) (7 : Fin 16) rfl (by rw [k0_off24_eq]; rfl) (by rw [k0_off24_eq]; rfl) (by rw [k0_off32_eq]; rfl) (by rw [k0_off32_eq]; rfl) (by rw [k0_off32_eq]; rfl) (by omega),
    sumTerm_pos d L gx gm ft' 0 (by decide) 8 (by decide) _ _ _ _ j (64 * k.val + 16) (8 : Fin 16) rfl (by rw [k0_off24_eq]; rfl) (by rw [k0_off24_eq]; rfl) (by rw [k0_off33_eq]; rfl) (by rw [k0_off33_eq]; rfl) (by rw [k0_off33_eq]; rfl) (by omega),
    sumTerm_pos d L gx gm ft' 0 (by decide) 9 (by decide) _ _ _ _ j (64 * k.val + 16) (9 : Fin 16) rfl (by rw [k0_off24_eq]; rfl) (by rw [k0_off24_eq]; rfl) (by rw [k0_off34_eq]; rfl) (by rw [k0_off34_eq]; rfl) (by rw [k0_off34_eq]; rfl) (by omega),
    sumTerm_pos d L gx gm ft' 0 (by decide) 10 (by decide) _ _ _ _ j (64 * k.val + 16) (10 : Fin 16) rfl (by rw [k0_off24_eq]; rfl) (by rw [k0_off24_eq]; rfl) (by rw [k0_off35_eq]; rfl) (by rw [k0_off35_eq]; rfl) (by rw [k0_off35_eq]; rfl) (by omega),
    sumTerm_pos d L gx gm ft' 0 (by decide) 11 (by decide) _ _ _ _ j (64 * k.val + 16) (11 : Fin 16) rfl (by rw [k0_off24_eq]; rfl) (by rw [k0_off24_eq]; rfl) (by rw [k0_off36_eq]; rfl) (by rw [k0_off36_eq]; rfl) (by rw [k0_off36_eq]; rfl) (by omega),
    sumTerm_pos d L gx gm ft' 0 (by decide) 12 (by decide) _ _ _ _ j (64 * k.val + 16) (12 : Fin 16) rfl (by rw [k0_off24_eq]; rfl) (by rw [k0_off24_eq]; rfl) (by rw [k0_off37_eq]; rfl) (by rw [k0_off37_eq]; rfl) (by rw [k0_off37_eq]; rfl) (by omega),
    sumTerm_pos d L gx gm ft' 0 (by decide) 13 (by decide) _ _ _ _ j (64 * k.val + 16) (13 : Fin 16) rfl (by rw [k0_off24_eq]; rfl) (by rw [k0_off24_eq]; rfl) (by rw [k0_off38_eq]; rfl) (by rw [k0_off38_eq]; rfl) (by rw [k0_off38_eq]; rfl) (by omega),
    sumTerm_pos d L gx gm ft' 0 (by decide) 14 (by decide) _ _ _ _ j (64 * k.val + 16) (14 : Fin 16) rfl (by rw [k0_off24_eq]; rfl) (by rw [k0_off24_eq]; rfl) (by rw [k0_off39_eq]; rfl) (by rw [k0_off39_eq]; rfl) (by rw [k0_off39_eq]; rfl) (by omega),
    sumTerm_pos d L gx gm ft' 0 (by decide) 15 (by decide) _ _ _ _ j (64 * k.val + 16) (15 : Fin 16) rfl (by rw [k0_off24_eq]; rfl) (by rw [k0_off24_eq]; rfl) (by rw [k0_off40_eq]; rfl) (by rw [k0_off40_eq]; rfl) (by rw [k0_off40_eq]; rfl) (by omega),
    sumTerm_pos d L gx gm ft' 0 (by decide) 0 (by decide) _ _ _ _ j (64 * k.val + 32) (0 : Fin 16) rfl (by rw [k0_off41_eq]; rfl) (by rw [k0_off41_eq]; rfl) (by rw [k0_off42_eq]; rfl) (by rw [k0_off42_eq]; rfl) (by rw [k0_off42_eq]; rfl) (by omega),
    sumTerm_pos d L gx gm ft' 0 (by decide) 1 (by decide) _ _ _ _ j (64 * k.val + 32) (1 : Fin 16) rfl (by rw [k0_off41_eq]; rfl) (by rw [k0_off41_eq]; rfl) (by rw [k0_off43_eq]; rfl) (by rw [k0_off43_eq]; rfl) (by rw [k0_off43_eq]; rfl) (by omega),
    sumTerm_pos d L gx gm ft' 0 (by decide) 2 (by decide) _ _ _ _ j (64 * k.val + 32) (2 : Fin 16) rfl (by rw [k0_off41_eq]; rfl) (by rw [k0_off41_eq]; rfl) (by rw [k0_off44_eq]; rfl) (by rw [k0_off44_eq]; rfl) (by rw [k0_off44_eq]; rfl) (by omega),
    sumTerm_pos d L gx gm ft' 0 (by decide) 3 (by decide) _ _ _ _ j (64 * k.val + 32) (3 : Fin 16) rfl (by rw [k0_off41_eq]; rfl) (by rw [k0_off41_eq]; rfl) (by rw [k0_off45_eq]; rfl) (by rw [k0_off45_eq]; rfl) (by rw [k0_off45_eq]; rfl) (by omega),
    sumTerm_pos d L gx gm ft' 0 (by decide) 4 (by decide) _ _ _ _ j (64 * k.val + 32) (4 : Fin 16) rfl (by rw [k0_off41_eq]; rfl) (by rw [k0_off41_eq]; rfl) (by rw [k0_off46_eq]; rfl) (by rw [k0_off46_eq]; rfl) (by rw [k0_off46_eq]; rfl) (by omega),
    sumTerm_pos d L gx gm ft' 0 (by decide) 5 (by decide) _ _ _ _ j (64 * k.val + 32) (5 : Fin 16) rfl (by rw [k0_off41_eq]; rfl) (by rw [k0_off41_eq]; rfl) (by rw [k0_off47_eq]; rfl) (by rw [k0_off47_eq]; rfl) (by rw [k0_off47_eq]; rfl) (by omega),
    sumTerm_pos d L gx gm ft' 0 (by decide) 6 (by decide) _ _ _ _ j (64 * k.val + 32) (6 : Fin 16) rfl (by rw [k0_off41_eq]; rfl) (by rw [k0_off41_eq]; rfl) (by rw [k0_off48_eq]; rfl) (by rw [k0_off48_eq]; rfl) (by rw [k0_off48_eq]; rfl) (by omega),
    sumTerm_pos d L gx gm ft' 0 (by decide) 7 (by decide) _ _ _ _ j (64 * k.val + 32) (7 : Fin 16) rfl (by rw [k0_off41_eq]; rfl) (by rw [k0_off41_eq]; rfl) (by rw [k0_off49_eq]; rfl) (by rw [k0_off49_eq]; rfl) (by rw [k0_off49_eq]; rfl) (by omega),
    sumTerm_pos d L gx gm ft' 0 (by decide) 8 (by decide) _ _ _ _ j (64 * k.val + 32) (8 : Fin 16) rfl (by rw [k0_off41_eq]; rfl) (by rw [k0_off41_eq]; rfl) (by rw [k0_off50_eq]; rfl) (by rw [k0_off50_eq]; rfl) (by rw [k0_off50_eq]; rfl) (by omega),
    sumTerm_pos d L gx gm ft' 0 (by decide) 9 (by decide) _ _ _ _ j (64 * k.val + 32) (9 : Fin 16) rfl (by rw [k0_off41_eq]; rfl) (by rw [k0_off41_eq]; rfl) (by rw [k0_off51_eq]; rfl) (by rw [k0_off51_eq]; rfl) (by rw [k0_off51_eq]; rfl) (by omega),
    sumTerm_pos d L gx gm ft' 0 (by decide) 10 (by decide) _ _ _ _ j (64 * k.val + 32) (10 : Fin 16) rfl (by rw [k0_off41_eq]; rfl) (by rw [k0_off41_eq]; rfl) (by rw [k0_off52_eq]; rfl) (by rw [k0_off52_eq]; rfl) (by rw [k0_off52_eq]; rfl) (by omega),
    sumTerm_pos d L gx gm ft' 0 (by decide) 11 (by decide) _ _ _ _ j (64 * k.val + 32) (11 : Fin 16) rfl (by rw [k0_off41_eq]; rfl) (by rw [k0_off41_eq]; rfl) (by rw [k0_off53_eq]; rfl) (by rw [k0_off53_eq]; rfl) (by rw [k0_off53_eq]; rfl) (by omega),
    sumTerm_pos d L gx gm ft' 0 (by decide) 12 (by decide) _ _ _ _ j (64 * k.val + 32) (12 : Fin 16) rfl (by rw [k0_off41_eq]; rfl) (by rw [k0_off41_eq]; rfl) (by rw [k0_off54_eq]; rfl) (by rw [k0_off54_eq]; rfl) (by rw [k0_off54_eq]; rfl) (by omega),
    sumTerm_pos d L gx gm ft' 0 (by decide) 13 (by decide) _ _ _ _ j (64 * k.val + 32) (13 : Fin 16) rfl (by rw [k0_off41_eq]; rfl) (by rw [k0_off41_eq]; rfl) (by rw [k0_off55_eq]; rfl) (by rw [k0_off55_eq]; rfl) (by rw [k0_off55_eq]; rfl) (by omega),
    sumTerm_pos d L gx gm ft' 0 (by decide) 14 (by decide) _ _ _ _ j (64 * k.val + 32) (14 : Fin 16) rfl (by rw [k0_off41_eq]; rfl) (by rw [k0_off41_eq]; rfl) (by rw [k0_off56_eq]; rfl) (by rw [k0_off56_eq]; rfl) (by rw [k0_off56_eq]; rfl) (by omega),
    sumTerm_pos d L gx gm ft' 0 (by decide) 15 (by decide) _ _ _ _ j (64 * k.val + 32) (15 : Fin 16) rfl (by rw [k0_off41_eq]; rfl) (by rw [k0_off41_eq]; rfl) (by rw [k0_off57_eq]; rfl) (by rw [k0_off57_eq]; rfl) (by rw [k0_off57_eq]; rfl) (by omega),
    sumTerm_pos d L gx gm ft' 0 (by decide) 0 (by decide) _ _ _ _ j (64 * k.val + 48) (0 : Fin 16) rfl (by rw [k0_off58_eq]; rfl) (by rw [k0_off58_eq]; rfl) (by rw [k0_off59_eq]; rfl) (by rw [k0_off59_eq]; rfl) (by rw [k0_off59_eq]; rfl) (by omega),
    sumTerm_pos d L gx gm ft' 0 (by decide) 1 (by decide) _ _ _ _ j (64 * k.val + 48) (1 : Fin 16) rfl (by rw [k0_off58_eq]; rfl) (by rw [k0_off58_eq]; rfl) (by rw [k0_off60_eq]; rfl) (by rw [k0_off60_eq]; rfl) (by rw [k0_off60_eq]; rfl) (by omega),
    sumTerm_pos d L gx gm ft' 0 (by decide) 2 (by decide) _ _ _ _ j (64 * k.val + 48) (2 : Fin 16) rfl (by rw [k0_off58_eq]; rfl) (by rw [k0_off58_eq]; rfl) (by rw [k0_off61_eq]; rfl) (by rw [k0_off61_eq]; rfl) (by rw [k0_off61_eq]; rfl) (by omega),
    sumTerm_pos d L gx gm ft' 0 (by decide) 3 (by decide) _ _ _ _ j (64 * k.val + 48) (3 : Fin 16) rfl (by rw [k0_off58_eq]; rfl) (by rw [k0_off58_eq]; rfl) (by rw [k0_off62_eq]; rfl) (by rw [k0_off62_eq]; rfl) (by rw [k0_off62_eq]; rfl) (by omega),
    sumTerm_pos d L gx gm ft' 0 (by decide) 4 (by decide) _ _ _ _ j (64 * k.val + 48) (4 : Fin 16) rfl (by rw [k0_off58_eq]; rfl) (by rw [k0_off58_eq]; rfl) (by rw [k0_off63_eq]; rfl) (by rw [k0_off63_eq]; rfl) (by rw [k0_off63_eq]; rfl) (by omega),
    sumTerm_pos d L gx gm ft' 0 (by decide) 5 (by decide) _ _ _ _ j (64 * k.val + 48) (5 : Fin 16) rfl (by rw [k0_off58_eq]; rfl) (by rw [k0_off58_eq]; rfl) (by rw [k0_off64_eq]; rfl) (by rw [k0_off64_eq]; rfl) (by rw [k0_off64_eq]; rfl) (by omega),
    sumTerm_pos d L gx gm ft' 0 (by decide) 6 (by decide) _ _ _ _ j (64 * k.val + 48) (6 : Fin 16) rfl (by rw [k0_off58_eq]; rfl) (by rw [k0_off58_eq]; rfl) (by rw [k0_off65_eq]; rfl) (by rw [k0_off65_eq]; rfl) (by rw [k0_off65_eq]; rfl) (by omega),
    sumTerm_pos d L gx gm ft' 0 (by decide) 7 (by decide) _ _ _ _ j (64 * k.val + 48) (7 : Fin 16) rfl (by rw [k0_off58_eq]; rfl) (by rw [k0_off58_eq]; rfl) (by rw [k0_off66_eq]; rfl) (by rw [k0_off66_eq]; rfl) (by rw [k0_off66_eq]; rfl) (by omega),
    sumTerm_pos d L gx gm ft' 0 (by decide) 8 (by decide) _ _ _ _ j (64 * k.val + 48) (8 : Fin 16) rfl (by rw [k0_off58_eq]; rfl) (by rw [k0_off58_eq]; rfl) (by rw [k0_off67_eq]; rfl) (by rw [k0_off67_eq]; rfl) (by rw [k0_off67_eq]; rfl) (by omega),
    sumTerm_pos d L gx gm ft' 0 (by decide) 9 (by decide) _ _ _ _ j (64 * k.val + 48) (9 : Fin 16) rfl (by rw [k0_off58_eq]; rfl) (by rw [k0_off58_eq]; rfl) (by rw [k0_off68_eq]; rfl) (by rw [k0_off68_eq]; rfl) (by rw [k0_off68_eq]; rfl) (by omega),
    sumTerm_pos d L gx gm ft' 0 (by decide) 10 (by decide) _ _ _ _ j (64 * k.val + 48) (10 : Fin 16) rfl (by rw [k0_off58_eq]; rfl) (by rw [k0_off58_eq]; rfl) (by rw [k0_off69_eq]; rfl) (by rw [k0_off69_eq]; rfl) (by rw [k0_off69_eq]; rfl) (by omega),
    sumTerm_pos d L gx gm ft' 0 (by decide) 11 (by decide) _ _ _ _ j (64 * k.val + 48) (11 : Fin 16) rfl (by rw [k0_off58_eq]; rfl) (by rw [k0_off58_eq]; rfl) (by rw [k0_off70_eq]; rfl) (by rw [k0_off70_eq]; rfl) (by rw [k0_off70_eq]; rfl) (by omega),
    sumTerm_pos d L gx gm ft' 0 (by decide) 12 (by decide) _ _ _ _ j (64 * k.val + 48) (12 : Fin 16) rfl (by rw [k0_off58_eq]; rfl) (by rw [k0_off58_eq]; rfl) (by rw [k0_off71_eq]; rfl) (by rw [k0_off71_eq]; rfl) (by rw [k0_off71_eq]; rfl) (by omega),
    sumTerm_pos d L gx gm ft' 0 (by decide) 13 (by decide) _ _ _ _ j (64 * k.val + 48) (13 : Fin 16) rfl (by rw [k0_off58_eq]; rfl) (by rw [k0_off58_eq]; rfl) (by rw [k0_off72_eq]; rfl) (by rw [k0_off72_eq]; rfl) (by rw [k0_off72_eq]; rfl) (by omega),
    sumTerm_pos d L gx gm ft' 0 (by decide) 14 (by decide) _ _ _ _ j (64 * k.val + 48) (14 : Fin 16) rfl (by rw [k0_off58_eq]; rfl) (by rw [k0_off58_eq]; rfl) (by rw [k0_off73_eq]; rfl) (by rw [k0_off73_eq]; rfl) (by rw [k0_off73_eq]; rfl) (by omega),
    sumTerm_pos d L gx gm ft' 0 (by decide) 15 (by decide) _ _ _ _ j (64 * k.val + 48) (15 : Fin 16) rfl (by rw [k0_off58_eq]; rfl) (by rw [k0_off58_eq]; rfl) (by rw [k0_off74_eq]; rfl) (by rw [k0_off74_eq]; rfl) (by rw [k0_off74_eq]; rfl) (by omega)]
  rw [show 64 * k.val + 0 + (j 0).val % 16 = 16 * (4 * k.val) + (j 0).val % 16 by omega,
    show 64 * k.val + 16 + (j 0).val % 16 = 16 * (4 * k.val + 1) + (j 0).val % 16 by omega,
    show 64 * k.val + 32 + (j 0).val % 16 = 16 * (4 * k.val + 2) + (j 0).val % 16 by omega,
    show 64 * k.val + 48 + (j 0).val % 16 = 16 * (4 * k.val + 3) + (j 0).val % 16 by omega]
  unfold rowSum
  simp only [zero_add, add_assoc]

/-- The sums after the whole scatter loop over slot 0: what they held plus, at element j, the sixteen rows' terms of the
    slot's 128 positions of lane j mod 16. -/
theorem loopA3_ideal (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L)))
    (fa : Buf (Elt Ideal) ((aB : Memref sig .scVector .vmem S16384 .f32).view.loc (thr d L))) (j : S16384.Idx) :
    rdA d L (iterA3 (F := Ideal) d L iotaV0 hv3 v5 gx ft' hft gm fa k0_t3_loop.trips) j
      = rdA d L fa j + ∑ q ∈ Finset.range 128, rowSum d L gx gm ft' 0 (by decide) j (16 * q + (j 0).val % 16) := by
  rw [iterA3_ideal d L hv3 v5 gx ft' hft gm fa j k0_t3_loop.trips]
  congr 1
  have ht : k0_t3_loop.trips = 32 := rfl
  refine Eq.trans ?_ (sum_quads (fun q => rowSum d L gx gm ft' 0 (by decide) j (16 * q + (j 0).val % 16)) 32)
  refine Finset.sum_congr (congrArg Finset.range ht) fun k hk => ?_
  have hk' : k < k0_t3_loop.trips := by rw [ht]; exact Finset.mem_range.mp hk
  rw [dif_pos hk', sumTrip3_pos]

set_option maxHeartbeats 4000000 in
/-- What trip k over slot 1 adds to element j of the sums, by position: the sixteen rows' terms at the four positions
    64·k + 16·g + j mod 16. -/
theorem sumTrip4_pos (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L))) (k : Fin k0_t4_loop.trips) (j : S16384.Idx) :
    sumTrip4 d L hv3 v5 gx ft' hft gm k j
      = rowSum d L gx gm ft' 1 (by decide) j (16 * (4 * k.val) + (j 0).val % 16) + rowSum d L gx gm ft' 1 (by decide) j (16 * (4 * k.val + 1) + (j 0).val % 16)
        + rowSum d L gx gm ft' 1 (by decide) j (16 * (4 * k.val + 2) + (j 0).val % 16) + rowSum d L gx gm ft' 1 (by decide) j (16 * (4 * k.val + 3) + (j 0).val % 16) := by
  have hk : k.val < 32 := k.isLt
  have hr : (j 0).val % 16 < 16 := Nat.mod_lt _ (by decide)
  unfold sumTrip4 rdA
  rw [accA4_apply (F := Ideal) d L hv3 v5 gx ft' hft gm k _ j]
  simp only [sumStep_ideal]
  rw [sumTerm_pos d L gx gm ft' 1 (by decide) 0 (by decide) _ _ _ _ j (64 * k.val + 0) (0 : Fin 16) rfl (by rw [k0_off77_eq]; rfl) (by rw [k0_off77_eq]; rfl) (by rw [k0_off78_eq]; rfl) (by rw [k0_off78_eq]; rfl) (by rw [k0_off78_eq]; rfl) (by omega),
    sumTerm_pos d L gx gm ft' 1 (by decide) 1 (by decide) _ _ _ _ j (64 * k.val + 0) (1 : Fin 16) rfl (by rw [k0_off77_eq]; rfl) (by rw [k0_off77_eq]; rfl) (by rw [k0_off79_eq]; rfl) (by rw [k0_off79_eq]; rfl) (by rw [k0_off79_eq]; rfl) (by omega),
    sumTerm_pos d L gx gm ft' 1 (by decide) 2 (by decide) _ _ _ _ j (64 * k.val + 0) (2 : Fin 16) rfl (by rw [k0_off77_eq]; rfl) (by rw [k0_off77_eq]; rfl) (by rw [k0_off80_eq]; rfl) (by rw [k0_off80_eq]; rfl) (by rw [k0_off80_eq]; rfl) (by omega),
    sumTerm_pos d L gx gm ft' 1 (by decide) 3 (by decide) _ _ _ _ j (64 * k.val + 0) (3 : Fin 16) rfl (by rw [k0_off77_eq]; rfl) (by rw [k0_off77_eq]; rfl) (by rw [k0_off81_eq]; rfl) (by rw [k0_off81_eq]; rfl) (by rw [k0_off81_eq]; rfl) (by omega),
    sumTerm_pos d L gx gm ft' 1 (by decide) 4 (by decide) _ _ _ _ j (64 * k.val + 0) (4 : Fin 16) rfl (by rw [k0_off77_eq]; rfl) (by rw [k0_off77_eq]; rfl) (by rw [k0_off82_eq]; rfl) (by rw [k0_off82_eq]; rfl) (by rw [k0_off82_eq]; rfl) (by omega),
    sumTerm_pos d L gx gm ft' 1 (by decide) 5 (by decide) _ _ _ _ j (64 * k.val + 0) (5 : Fin 16) rfl (by rw [k0_off77_eq]; rfl) (by rw [k0_off77_eq]; rfl) (by rw [k0_off83_eq]; rfl) (by rw [k0_off83_eq]; rfl) (by rw [k0_off83_eq]; rfl) (by omega),
    sumTerm_pos d L gx gm ft' 1 (by decide) 6 (by decide) _ _ _ _ j (64 * k.val + 0) (6 : Fin 16) rfl (by rw [k0_off77_eq]; rfl) (by rw [k0_off77_eq]; rfl) (by rw [k0_off84_eq]; rfl) (by rw [k0_off84_eq]; rfl) (by rw [k0_off84_eq]; rfl) (by omega),
    sumTerm_pos d L gx gm ft' 1 (by decide) 7 (by decide) _ _ _ _ j (64 * k.val + 0) (7 : Fin 16) rfl (by rw [k0_off77_eq]; rfl) (by rw [k0_off77_eq]; rfl) (by rw [k0_off85_eq]; rfl) (by rw [k0_off85_eq]; rfl) (by rw [k0_off85_eq]; rfl) (by omega),
    sumTerm_pos d L gx gm ft' 1 (by decide) 8 (by decide) _ _ _ _ j (64 * k.val + 0) (8 : Fin 16) rfl (by rw [k0_off77_eq]; rfl) (by rw [k0_off77_eq]; rfl) (by rw [k0_off86_eq]; rfl) (by rw [k0_off86_eq]; rfl) (by rw [k0_off86_eq]; rfl) (by omega),
    sumTerm_pos d L gx gm ft' 1 (by decide) 9 (by decide) _ _ _ _ j (64 * k.val + 0) (9 : Fin 16) rfl (by rw [k0_off77_eq]; rfl) (by rw [k0_off77_eq]; rfl) (by rw [k0_off87_eq]; rfl) (by rw [k0_off87_eq]; rfl) (by rw [k0_off87_eq]; rfl) (by omega),
    sumTerm_pos d L gx gm ft' 1 (by decide) 10 (by decide) _ _ _ _ j (64 * k.val + 0) (10 : Fin 16) rfl (by rw [k0_off77_eq]; rfl) (by rw [k0_off77_eq]; rfl) (by rw [k0_off88_eq]; rfl) (by rw [k0_off88_eq]; rfl) (by rw [k0_off88_eq]; rfl) (by omega),
    sumTerm_pos d L gx gm ft' 1 (by decide) 11 (by decide) _ _ _ _ j (64 * k.val + 0) (11 : Fin 16) rfl (by rw [k0_off77_eq]; rfl) (by rw [k0_off77_eq]; rfl) (by rw [k0_off89_eq]; rfl) (by rw [k0_off89_eq]; rfl) (by rw [k0_off89_eq]; rfl) (by omega),
    sumTerm_pos d L gx gm ft' 1 (by decide) 12 (by decide) _ _ _ _ j (64 * k.val + 0) (12 : Fin 16) rfl (by rw [k0_off77_eq]; rfl) (by rw [k0_off77_eq]; rfl) (by rw [k0_off90_eq]; rfl) (by rw [k0_off90_eq]; rfl) (by rw [k0_off90_eq]; rfl) (by omega),
    sumTerm_pos d L gx gm ft' 1 (by decide) 13 (by decide) _ _ _ _ j (64 * k.val + 0) (13 : Fin 16) rfl (by rw [k0_off77_eq]; rfl) (by rw [k0_off77_eq]; rfl) (by rw [k0_off91_eq]; rfl) (by rw [k0_off91_eq]; rfl) (by rw [k0_off91_eq]; rfl) (by omega),
    sumTerm_pos d L gx gm ft' 1 (by decide) 14 (by decide) _ _ _ _ j (64 * k.val + 0) (14 : Fin 16) rfl (by rw [k0_off77_eq]; rfl) (by rw [k0_off77_eq]; rfl) (by rw [k0_off92_eq]; rfl) (by rw [k0_off92_eq]; rfl) (by rw [k0_off92_eq]; rfl) (by omega),
    sumTerm_pos d L gx gm ft' 1 (by decide) 15 (by decide) _ _ _ _ j (64 * k.val + 0) (15 : Fin 16) rfl (by rw [k0_off77_eq]; rfl) (by rw [k0_off77_eq]; rfl) (by rw [k0_off93_eq]; rfl) (by rw [k0_off93_eq]; rfl) (by rw [k0_off93_eq]; rfl) (by omega),
    sumTerm_pos d L gx gm ft' 1 (by decide) 0 (by decide) _ _ _ _ j (64 * k.val + 16) (0 : Fin 16) rfl (by rw [k0_off94_eq]; rfl) (by rw [k0_off94_eq]; rfl) (by rw [k0_off95_eq]; rfl) (by rw [k0_off95_eq]; rfl) (by rw [k0_off95_eq]; rfl) (by omega),
    sumTerm_pos d L gx gm ft' 1 (by decide) 1 (by decide) _ _ _ _ j (64 * k.val + 16) (1 : Fin 16) rfl (by rw [k0_off94_eq]; rfl) (by rw [k0_off94_eq]; rfl) (by rw [k0_off96_eq]; rfl) (by rw [k0_off96_eq]; rfl) (by rw [k0_off96_eq]; rfl) (by omega),
    sumTerm_pos d L gx gm ft' 1 (by decide) 2 (by decide) _ _ _ _ j (64 * k.val + 16) (2 : Fin 16) rfl (by rw [k0_off94_eq]; rfl) (by rw [k0_off94_eq]; rfl) (by rw [k0_off97_eq]; rfl) (by rw [k0_off97_eq]; rfl) (by rw [k0_off97_eq]; rfl) (by omega),
    sumTerm_pos d L gx gm ft' 1 (by decide) 3 (by decide) _ _ _ _ j (64 * k.val + 16) (3 : Fin 16) rfl (by rw [k0_off94_eq]; rfl) (by rw [k0_off94_eq]; rfl) (by rw [k0_off98_eq]; rfl) (by rw [k0_off98_eq]; rfl) (by rw [k0_off98_eq]; rfl) (by omega),
    sumTerm_pos d L gx gm ft' 1 (by decide) 4 (by decide) _ _ _ _ j (64 * k.val + 16) (4 : Fin 16) rfl (by rw [k0_off94_eq]; rfl) (by rw [k0_off94_eq]; rfl) (by rw [k0_off99_eq]; rfl) (by rw [k0_off99_eq]; rfl) (by rw [k0_off99_eq]; rfl) (by omega),
    sumTerm_pos d L gx gm ft' 1 (by decide) 5 (by decide) _ _ _ _ j (64 * k.val + 16) (5 : Fin 16) rfl (by rw [k0_off94_eq]; rfl) (by rw [k0_off94_eq]; rfl) (by rw [k0_off100_eq]; rfl) (by rw [k0_off100_eq]; rfl) (by rw [k0_off100_eq]; rfl) (by omega),
    sumTerm_pos d L gx gm ft' 1 (by decide) 6 (by decide) _ _ _ _ j (64 * k.val + 16) (6 : Fin 16) rfl (by rw [k0_off94_eq]; rfl) (by rw [k0_off94_eq]; rfl) (by rw [k0_off101_eq]; rfl) (by rw [k0_off101_eq]; rfl) (by rw [k0_off101_eq]; rfl) (by omega),
    sumTerm_pos d L gx gm ft' 1 (by decide) 7 (by decide) _ _ _ _ j (64 * k.val + 16) (7 : Fin 16) rfl (by rw [k0_off94_eq]; rfl) (by rw [k0_off94_eq]; rfl) (by rw [k0_off102_eq]; rfl) (by rw [k0_off102_eq]; rfl) (by rw [k0_off102_eq]; rfl) (by omega),
    sumTerm_pos d L gx gm ft' 1 (by decide) 8 (by decide) _ _ _ _ j (64 * k.val + 16) (8 : Fin 16) rfl (by rw [k0_off94_eq]; rfl) (by rw [k0_off94_eq]; rfl) (by rw [k0_off103_eq]; rfl) (by rw [k0_off103_eq]; rfl) (by rw [k0_off103_eq]; rfl) (by omega),
    sumTerm_pos d L gx gm ft' 1 (by decide) 9 (by decide) _ _ _ _ j (64 * k.val + 16) (9 : Fin 16) rfl (by rw [k0_off94_eq]; rfl) (by rw [k0_off94_eq]; rfl) (by rw [k0_off104_eq]; rfl) (by rw [k0_off104_eq]; rfl) (by rw [k0_off104_eq]; rfl) (by omega),
    sumTerm_pos d L gx gm ft' 1 (by decide) 10 (by decide) _ _ _ _ j (64 * k.val + 16) (10 : Fin 16) rfl (by rw [k0_off94_eq]; rfl) (by rw [k0_off94_eq]; rfl) (by rw [k0_off105_eq]; rfl) (by rw [k0_off105_eq]; rfl) (by rw [k0_off105_eq]; rfl) (by omega),
    sumTerm_pos d L gx gm ft' 1 (by decide) 11 (by decide) _ _ _ _ j (64 * k.val + 16) (11 : Fin 16) rfl (by rw [k0_off94_eq]; rfl) (by rw [k0_off94_eq]; rfl) (by rw [k0_off106_eq]; rfl) (by rw [k0_off106_eq]; rfl) (by rw [k0_off106_eq]; rfl) (by omega),
    sumTerm_pos d L gx gm ft' 1 (by decide) 12 (by decide) _ _ _ _ j (64 * k.val + 16) (12 : Fin 16) rfl (by rw [k0_off94_eq]; rfl) (by rw [k0_off94_eq]; rfl) (by rw [k0_off107_eq]; rfl) (by rw [k0_off107_eq]; rfl) (by rw [k0_off107_eq]; rfl) (by omega),
    sumTerm_pos d L gx gm ft' 1 (by decide) 13 (by decide) _ _ _ _ j (64 * k.val + 16) (13 : Fin 16) rfl (by rw [k0_off94_eq]; rfl) (by rw [k0_off94_eq]; rfl) (by rw [k0_off108_eq]; rfl) (by rw [k0_off108_eq]; rfl) (by rw [k0_off108_eq]; rfl) (by omega),
    sumTerm_pos d L gx gm ft' 1 (by decide) 14 (by decide) _ _ _ _ j (64 * k.val + 16) (14 : Fin 16) rfl (by rw [k0_off94_eq]; rfl) (by rw [k0_off94_eq]; rfl) (by rw [k0_off109_eq]; rfl) (by rw [k0_off109_eq]; rfl) (by rw [k0_off109_eq]; rfl) (by omega),
    sumTerm_pos d L gx gm ft' 1 (by decide) 15 (by decide) _ _ _ _ j (64 * k.val + 16) (15 : Fin 16) rfl (by rw [k0_off94_eq]; rfl) (by rw [k0_off94_eq]; rfl) (by rw [k0_off110_eq]; rfl) (by rw [k0_off110_eq]; rfl) (by rw [k0_off110_eq]; rfl) (by omega),
    sumTerm_pos d L gx gm ft' 1 (by decide) 0 (by decide) _ _ _ _ j (64 * k.val + 32) (0 : Fin 16) rfl (by rw [k0_off111_eq]; rfl) (by rw [k0_off111_eq]; rfl) (by rw [k0_off112_eq]; rfl) (by rw [k0_off112_eq]; rfl) (by rw [k0_off112_eq]; rfl) (by omega),
    sumTerm_pos d L gx gm ft' 1 (by decide) 1 (by decide) _ _ _ _ j (64 * k.val + 32) (1 : Fin 16) rfl (by rw [k0_off111_eq]; rfl) (by rw [k0_off111_eq]; rfl) (by rw [k0_off113_eq]; rfl) (by rw [k0_off113_eq]; rfl) (by rw [k0_off113_eq]; rfl) (by omega),
    sumTerm_pos d L gx gm ft' 1 (by decide) 2 (by decide) _ _ _ _ j (64 * k.val + 32) (2 : Fin 16) rfl (by rw [k0_off111_eq]; rfl) (by rw [k0_off111_eq]; rfl) (by rw [k0_off114_eq]; rfl) (by rw [k0_off114_eq]; rfl) (by rw [k0_off114_eq]; rfl) (by omega),
    sumTerm_pos d L gx gm ft' 1 (by decide) 3 (by decide) _ _ _ _ j (64 * k.val + 32) (3 : Fin 16) rfl (by rw [k0_off111_eq]; rfl) (by rw [k0_off111_eq]; rfl) (by rw [k0_off115_eq]; rfl) (by rw [k0_off115_eq]; rfl) (by rw [k0_off115_eq]; rfl) (by omega),
    sumTerm_pos d L gx gm ft' 1 (by decide) 4 (by decide) _ _ _ _ j (64 * k.val + 32) (4 : Fin 16) rfl (by rw [k0_off111_eq]; rfl) (by rw [k0_off111_eq]; rfl) (by rw [k0_off116_eq]; rfl) (by rw [k0_off116_eq]; rfl) (by rw [k0_off116_eq]; rfl) (by omega),
    sumTerm_pos d L gx gm ft' 1 (by decide) 5 (by decide) _ _ _ _ j (64 * k.val + 32) (5 : Fin 16) rfl (by rw [k0_off111_eq]; rfl) (by rw [k0_off111_eq]; rfl) (by rw [k0_off117_eq]; rfl) (by rw [k0_off117_eq]; rfl) (by rw [k0_off117_eq]; rfl) (by omega),
    sumTerm_pos d L gx gm ft' 1 (by decide) 6 (by decide) _ _ _ _ j (64 * k.val + 32) (6 : Fin 16) rfl (by rw [k0_off111_eq]; rfl) (by rw [k0_off111_eq]; rfl) (by rw [k0_off118_eq]; rfl) (by rw [k0_off118_eq]; rfl) (by rw [k0_off118_eq]; rfl) (by omega),
    sumTerm_pos d L gx gm ft' 1 (by decide) 7 (by decide) _ _ _ _ j (64 * k.val + 32) (7 : Fin 16) rfl (by rw [k0_off111_eq]; rfl) (by rw [k0_off111_eq]; rfl) (by rw [k0_off119_eq]; rfl) (by rw [k0_off119_eq]; rfl) (by rw [k0_off119_eq]; rfl) (by omega),
    sumTerm_pos d L gx gm ft' 1 (by decide) 8 (by decide) _ _ _ _ j (64 * k.val + 32) (8 : Fin 16) rfl (by rw [k0_off111_eq]; rfl) (by rw [k0_off111_eq]; rfl) (by rw [k0_off120_eq]; rfl) (by rw [k0_off120_eq]; rfl) (by rw [k0_off120_eq]; rfl) (by omega),
    sumTerm_pos d L gx gm ft' 1 (by decide) 9 (by decide) _ _ _ _ j (64 * k.val + 32) (9 : Fin 16) rfl (by rw [k0_off111_eq]; rfl) (by rw [k0_off111_eq]; rfl) (by rw [k0_off121_eq]; rfl) (by rw [k0_off121_eq]; rfl) (by rw [k0_off121_eq]; rfl) (by omega),
    sumTerm_pos d L gx gm ft' 1 (by decide) 10 (by decide) _ _ _ _ j (64 * k.val + 32) (10 : Fin 16) rfl (by rw [k0_off111_eq]; rfl) (by rw [k0_off111_eq]; rfl) (by rw [k0_off122_eq]; rfl) (by rw [k0_off122_eq]; rfl) (by rw [k0_off122_eq]; rfl) (by omega),
    sumTerm_pos d L gx gm ft' 1 (by decide) 11 (by decide) _ _ _ _ j (64 * k.val + 32) (11 : Fin 16) rfl (by rw [k0_off111_eq]; rfl) (by rw [k0_off111_eq]; rfl) (by rw [k0_off123_eq]; rfl) (by rw [k0_off123_eq]; rfl) (by rw [k0_off123_eq]; rfl) (by omega),
    sumTerm_pos d L gx gm ft' 1 (by decide) 12 (by decide) _ _ _ _ j (64 * k.val + 32) (12 : Fin 16) rfl (by rw [k0_off111_eq]; rfl) (by rw [k0_off111_eq]; rfl) (by rw [k0_off124_eq]; rfl) (by rw [k0_off124_eq]; rfl) (by rw [k0_off124_eq]; rfl) (by omega),
    sumTerm_pos d L gx gm ft' 1 (by decide) 13 (by decide) _ _ _ _ j (64 * k.val + 32) (13 : Fin 16) rfl (by rw [k0_off111_eq]; rfl) (by rw [k0_off111_eq]; rfl) (by rw [k0_off125_eq]; rfl) (by rw [k0_off125_eq]; rfl) (by rw [k0_off125_eq]; rfl) (by omega),
    sumTerm_pos d L gx gm ft' 1 (by decide) 14 (by decide) _ _ _ _ j (64 * k.val + 32) (14 : Fin 16) rfl (by rw [k0_off111_eq]; rfl) (by rw [k0_off111_eq]; rfl) (by rw [k0_off126_eq]; rfl) (by rw [k0_off126_eq]; rfl) (by rw [k0_off126_eq]; rfl) (by omega),
    sumTerm_pos d L gx gm ft' 1 (by decide) 15 (by decide) _ _ _ _ j (64 * k.val + 32) (15 : Fin 16) rfl (by rw [k0_off111_eq]; rfl) (by rw [k0_off111_eq]; rfl) (by rw [k0_off127_eq]; rfl) (by rw [k0_off127_eq]; rfl) (by rw [k0_off127_eq]; rfl) (by omega),
    sumTerm_pos d L gx gm ft' 1 (by decide) 0 (by decide) _ _ _ _ j (64 * k.val + 48) (0 : Fin 16) rfl (by rw [k0_off128_eq]; rfl) (by rw [k0_off128_eq]; rfl) (by rw [k0_off129_eq]; rfl) (by rw [k0_off129_eq]; rfl) (by rw [k0_off129_eq]; rfl) (by omega),
    sumTerm_pos d L gx gm ft' 1 (by decide) 1 (by decide) _ _ _ _ j (64 * k.val + 48) (1 : Fin 16) rfl (by rw [k0_off128_eq]; rfl) (by rw [k0_off128_eq]; rfl) (by rw [k0_off130_eq]; rfl) (by rw [k0_off130_eq]; rfl) (by rw [k0_off130_eq]; rfl) (by omega),
    sumTerm_pos d L gx gm ft' 1 (by decide) 2 (by decide) _ _ _ _ j (64 * k.val + 48) (2 : Fin 16) rfl (by rw [k0_off128_eq]; rfl) (by rw [k0_off128_eq]; rfl) (by rw [k0_off131_eq]; rfl) (by rw [k0_off131_eq]; rfl) (by rw [k0_off131_eq]; rfl) (by omega),
    sumTerm_pos d L gx gm ft' 1 (by decide) 3 (by decide) _ _ _ _ j (64 * k.val + 48) (3 : Fin 16) rfl (by rw [k0_off128_eq]; rfl) (by rw [k0_off128_eq]; rfl) (by rw [k0_off132_eq]; rfl) (by rw [k0_off132_eq]; rfl) (by rw [k0_off132_eq]; rfl) (by omega),
    sumTerm_pos d L gx gm ft' 1 (by decide) 4 (by decide) _ _ _ _ j (64 * k.val + 48) (4 : Fin 16) rfl (by rw [k0_off128_eq]; rfl) (by rw [k0_off128_eq]; rfl) (by rw [k0_off133_eq]; rfl) (by rw [k0_off133_eq]; rfl) (by rw [k0_off133_eq]; rfl) (by omega),
    sumTerm_pos d L gx gm ft' 1 (by decide) 5 (by decide) _ _ _ _ j (64 * k.val + 48) (5 : Fin 16) rfl (by rw [k0_off128_eq]; rfl) (by rw [k0_off128_eq]; rfl) (by rw [k0_off134_eq]; rfl) (by rw [k0_off134_eq]; rfl) (by rw [k0_off134_eq]; rfl) (by omega),
    sumTerm_pos d L gx gm ft' 1 (by decide) 6 (by decide) _ _ _ _ j (64 * k.val + 48) (6 : Fin 16) rfl (by rw [k0_off128_eq]; rfl) (by rw [k0_off128_eq]; rfl) (by rw [k0_off135_eq]; rfl) (by rw [k0_off135_eq]; rfl) (by rw [k0_off135_eq]; rfl) (by omega),
    sumTerm_pos d L gx gm ft' 1 (by decide) 7 (by decide) _ _ _ _ j (64 * k.val + 48) (7 : Fin 16) rfl (by rw [k0_off128_eq]; rfl) (by rw [k0_off128_eq]; rfl) (by rw [k0_off136_eq]; rfl) (by rw [k0_off136_eq]; rfl) (by rw [k0_off136_eq]; rfl) (by omega),
    sumTerm_pos d L gx gm ft' 1 (by decide) 8 (by decide) _ _ _ _ j (64 * k.val + 48) (8 : Fin 16) rfl (by rw [k0_off128_eq]; rfl) (by rw [k0_off128_eq]; rfl) (by rw [k0_off137_eq]; rfl) (by rw [k0_off137_eq]; rfl) (by rw [k0_off137_eq]; rfl) (by omega),
    sumTerm_pos d L gx gm ft' 1 (by decide) 9 (by decide) _ _ _ _ j (64 * k.val + 48) (9 : Fin 16) rfl (by rw [k0_off128_eq]; rfl) (by rw [k0_off128_eq]; rfl) (by rw [k0_off138_eq]; rfl) (by rw [k0_off138_eq]; rfl) (by rw [k0_off138_eq]; rfl) (by omega),
    sumTerm_pos d L gx gm ft' 1 (by decide) 10 (by decide) _ _ _ _ j (64 * k.val + 48) (10 : Fin 16) rfl (by rw [k0_off128_eq]; rfl) (by rw [k0_off128_eq]; rfl) (by rw [k0_off139_eq]; rfl) (by rw [k0_off139_eq]; rfl) (by rw [k0_off139_eq]; rfl) (by omega),
    sumTerm_pos d L gx gm ft' 1 (by decide) 11 (by decide) _ _ _ _ j (64 * k.val + 48) (11 : Fin 16) rfl (by rw [k0_off128_eq]; rfl) (by rw [k0_off128_eq]; rfl) (by rw [k0_off140_eq]; rfl) (by rw [k0_off140_eq]; rfl) (by rw [k0_off140_eq]; rfl) (by omega),
    sumTerm_pos d L gx gm ft' 1 (by decide) 12 (by decide) _ _ _ _ j (64 * k.val + 48) (12 : Fin 16) rfl (by rw [k0_off128_eq]; rfl) (by rw [k0_off128_eq]; rfl) (by rw [k0_off141_eq]; rfl) (by rw [k0_off141_eq]; rfl) (by rw [k0_off141_eq]; rfl) (by omega),
    sumTerm_pos d L gx gm ft' 1 (by decide) 13 (by decide) _ _ _ _ j (64 * k.val + 48) (13 : Fin 16) rfl (by rw [k0_off128_eq]; rfl) (by rw [k0_off128_eq]; rfl) (by rw [k0_off142_eq]; rfl) (by rw [k0_off142_eq]; rfl) (by rw [k0_off142_eq]; rfl) (by omega),
    sumTerm_pos d L gx gm ft' 1 (by decide) 14 (by decide) _ _ _ _ j (64 * k.val + 48) (14 : Fin 16) rfl (by rw [k0_off128_eq]; rfl) (by rw [k0_off128_eq]; rfl) (by rw [k0_off143_eq]; rfl) (by rw [k0_off143_eq]; rfl) (by rw [k0_off143_eq]; rfl) (by omega),
    sumTerm_pos d L gx gm ft' 1 (by decide) 15 (by decide) _ _ _ _ j (64 * k.val + 48) (15 : Fin 16) rfl (by rw [k0_off128_eq]; rfl) (by rw [k0_off128_eq]; rfl) (by rw [k0_off144_eq]; rfl) (by rw [k0_off144_eq]; rfl) (by rw [k0_off144_eq]; rfl) (by omega)]
  rw [show 64 * k.val + 0 + (j 0).val % 16 = 16 * (4 * k.val) + (j 0).val % 16 by omega,
    show 64 * k.val + 16 + (j 0).val % 16 = 16 * (4 * k.val + 1) + (j 0).val % 16 by omega,
    show 64 * k.val + 32 + (j 0).val % 16 = 16 * (4 * k.val + 2) + (j 0).val % 16 by omega,
    show 64 * k.val + 48 + (j 0).val % 16 = 16 * (4 * k.val + 3) + (j 0).val % 16 by omega]
  unfold rowSum
  simp only [zero_add, add_assoc]

/-- The sums after the whole scatter loop over slot 1: what they held plus, at element j, the sixteen rows' terms of the
    slot's 128 positions of lane j mod 16. -/
theorem loopA4_ideal (hv3 : ∀ x, ((iotaV0 : IVec S16 32) x).toNat < 16) (v5 : FVec Ideal S16 .f32) (gx : Fin 16 → Buf (Elt Ideal) ((xB : Memref sig .scVector .vmem S2x16x2048 .f32).view.loc (thr d L)))
    (ft' : Buf (Elt Ideal) ((tB : Memref sig .scVector .vmem S2x2048 .i32).view.loc (thr d L))) (hft : ∀ i, (ft' i).toNat ≤ 63) (gm : Buf (Elt Ideal) ((mB : Memref sig .scVector .vmem S2x2048 .i32).view.loc (thr d L)))
    (fa : Buf (Elt Ideal) ((aB : Memref sig .scVector .vmem S16384 .f32).view.loc (thr d L))) (j : S16384.Idx) :
    rdA d L (iterA4 (F := Ideal) d L iotaV0 hv3 v5 gx ft' hft gm fa k0_t4_loop.trips) j
      = rdA d L fa j + ∑ q ∈ Finset.range 128, rowSum d L gx gm ft' 1 (by decide) j (16 * q + (j 0).val % 16) := by
  rw [iterA4_ideal d L hv3 v5 gx ft' hft gm fa j k0_t4_loop.trips]
  congr 1
  have ht : k0_t4_loop.trips = 32 := rfl
  refine Eq.trans ?_ (sum_quads (fun q => rowSum d L gx gm ft' 1 (by decide) j (16 * q + (j 0).val % 16)) 32)
  refine Finset.sum_congr (congrArg Finset.range ht) fun k hk => ?_
  have hk' : k < k0_t4_loop.trips := by rw [ht]; exact Finset.mem_range.mp hk
  rw [dif_pos hk', sumTrip4_pos]

end Cert.Proof.KI.Pass1
end
-- ==== Proof.Pass1VK.lean ====
/-
  The first SparseCore call's rows in closed form, from per-voxel contributions. Voxel u of the tile (an offset into its
  range of 65536) names the accumulator element 16·segment + lane; it contributes its embedding's component c at element
  c·1024 + 16·segment + lane of the sums and the literal one at element 16·segment + lane of the counts. All the tile's
  voxels' contributions at an element, regrouped by segment and lane, are the partial sums' and the partial counts'
  closed forms.
-/
import proofs.«210783_g59777354826199_cont_9to1_m_168_18_alg».proof.Proof.ValueSpec

noncomputable section

namespace Cert.Proof.KI.Pass1

open Cert.KernelIdeal Cert.KernelIdeal.Gen
open Idealize.ShloMosaic
open Cert.Proof.KI

variable (L : grid0.Coords)

/-- The tile's first voxel. -/
def baseV0 : ℕ := 131072 * (L 1).val + 65536 * (L 0).val

theorem baseV0_le : baseV0 L ≤ 2031616 := by
  have h1 : (L 1).val < 16 := (L 1).isLt
  have h0 : (L 0).val < 2 := (L 0).isLt
  unfold baseV0; omega

section closed
variable (e : S33554432.Idx → EReal) (t k : S2097152.Idx → BitVec 32)

/-- The embedding read at a flat position (zero off the array). -/
def eAt0 (v : ℕ) : EReal := if h : v < 33554432 then e (flatIx v h) else 0

/-- Voxel u's element of the counts: sixteen times its segment plus its lane. -/
def idxU0 (u : ℕ) : ℕ := if h : baseV0 L + u < 2097152 then 16 * segV t k (baseV0 L + u) h + (baseV0 L + u) % 16 else 0

/-- Voxel u's contribution of component c at element x0 of the counts' numbering, and its count there. -/
def SU (c x0 u : ℕ) : EReal := if idxU0 L t k u = x0 then eAt0 e (c * 2097152 + baseV0 L + u) else 0
def CU (x0 u : ℕ) : EReal := if idxU0 L t k u = x0 then 1 else 0

theorem flatIx_congr0 {N : ℕ} {n n' : ℕ} (h : n < N) (h' : n' < N) (hn : n = n') : flatIx n h = flatIx n' h' := by
  subst hn; rfl
theorem segV_congr0 {v v' : ℕ} (hv : v < 2097152) (hv' : v' < 2097152) (h : v = v') : segV t k v hv = segV t k v' hv' := by
  subst h; rfl

/-- Voxel u's element is x0 exactly when its lane and its segment are x0's. -/
theorem idxU0_iff (w x0 : ℕ) (hb : baseV0 L = w * 65536) (u : Fin 65536) (hw : w * 65536 + u.val < 2097152) :
    idxU0 L t k u.val = x0 ↔ ((w * 65536 + u.val) % 16 = x0 % 16 ∧ segV t k (w * 65536 + u.val) hw = x0 / 16) := by
  have hlt : baseV0 L + u.val < 2097152 := by omega
  unfold idxU0
  rw [dif_pos hlt, segV_congr0 t k hlt hw (show baseV0 L + u.val = w * 65536 + u.val by omega)]
  constructor
  · intro h; constructor <;> omega
  · rintro ⟨ha, hs⟩; omega

/-- All the tile's voxels' contributions at an element of the sums, regrouped: the partial sums' closed form there. -/
theorem SU_sum (i : S32x16384.Idx) (hi0 : (i 0).val = 2 * (L 1).val + (L 0).val) :
    ∑ u ∈ Finset.range 65536, SU L e t k ((i 1).val / 1024) ((i 1).val % 1024) u = sumsArr e t k i := by
  have hb : baseV0 L = (i 0).val * 65536 := by unfold baseV0; rw [hi0]; ring
  have hbl := baseV0_le L
  have h1 : (i 1).val < 16384 := (i 1).isLt
  have hiff : ∀ u : Fin 65536, idxU0 L t k u.val = (i 1).val % 1024
      ↔ u ∈ cell t k ⟨(i 0).val, (i 0).isLt⟩ ((i 1).val / 16 % 64) ((i 1).val % 16) := by
    intro u
    have hu := u.isLt
    unfold cell
    simp only [Finset.mem_filter, Finset.mem_univ, true_and]
    rw [idxU0_iff L t k (i 0).val ((i 1).val % 1024) hb u (by omega)]
    have e1 : (i 1).val % 1024 % 16 = (i 1).val % 16 := by omega
    have e2 : (i 1).val % 1024 / 16 = (i 1).val / 16 % 64 := by omega
    rw [e1, e2]
  unfold sumsArr
  rw [Finset.sum_range]
  unfold SU
  rw [← Finset.sum_filter]
  refine Finset.sum_congr ?_ ?_
  · ext u
    rw [Finset.mem_filter]
    exact ⟨fun h => (hiff u).mp h.2, fun h => ⟨Finset.mem_univ _, (hiff u).mpr h⟩⟩
  · intro u hu
    have hu' := u.isLt
    unfold eAt0
    rw [dif_pos (show (i 1).val / 1024 * 2097152 + baseV0 L + u.val < 33554432 by omega)]
    rw [flatIx_congr0 (N := 33554432) (show (i 1).val / 1024 * 2097152 + baseV0 L + u.val < 33554432 by omega) (by omega)
      (show (i 1).val / 1024 * 2097152 + baseV0 L + u.val = (i 1).val / 1024 * 2097152 + (i 0).val * 65536 + u.val by omega)]

/-- All the tile's voxels' counts at an element, regrouped: the partial counts' closed form there. -/
theorem CU_sum (i : S32x1024.Idx) (hi0 : (i 0).val = 2 * (L 1).val + (L 0).val) :
    ∑ u ∈ Finset.range 65536, CU L t k (i 1).val u = cntArr t k i := by
  have hb : baseV0 L = (i 0).val * 65536 := by unfold baseV0; rw [hi0]; ring
  have hbl := baseV0_le L
  have h1 : (i 1).val < 1024 := (i 1).isLt
  have hiff : ∀ u : Fin 65536, idxU0 L t k u.val = (i 1).val
      ↔ u ∈ cell t k ⟨(i 0).val, (i 0).isLt⟩ ((i 1).val / 16) ((i 1).val % 16) := by
    intro u
    have hu := u.isLt
    unfold cell
    simp only [Finset.mem_filter, Finset.mem_univ, true_and]
    exact idxU0_iff L t k (i 0).val (i 1).val hb u (by omega)
  unfold cntArr
  rw [Finset.sum_range]
  unfold CU
  rw [← Finset.sum_filter]
  refine Finset.sum_congr ?_ (fun _ _ => rfl)
  ext u
  rw [Finset.mem_filter]
  exact ⟨fun h => (hiff u).mp h.2, fun h => ⟨Finset.mem_univ _, (hiff u).mpr h⟩⟩

end closed

end Cert.Proof.KI.Pass1
end
-- ==== Proof.Pass1VO.lean ====
/-
  The first SparseCore call's scatter loop over a staging slot that holds chunk m of the tile's range, at the ideal
  instance: the terms of the slot's positions are the chunk's voxels' contributions (the slot's mask, target and
  embedding words being the inputs' at the chunk's voxels, and the counted value the literal one).
-/
import proofs.«210783_g59777354826199_cont_9to1_m_168_18_alg».proof.Proof.Pass1VN
import proofs.«210783_g59777354826199_cont_9to1_m_168_18_alg».proof.Proof.Pass1VK

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (d : Dev nD) (L : grid0.Coords)

open Cert.Proof.KI

/-- A function that vanishes off one lane, summed over sixteen-voxel groups: the lane's terms. -/
theorem sum_lane (f : ℕ → EReal) (r : ℕ) (hr : r < 16) : ∀ n : ℕ, (∀ p, p < 16 * n → p % 16 ≠ r → f p = 0) →
    ∑ p ∈ Finset.range (16 * n), f p = ∑ q ∈ Finset.range n, f (16 * q + r)
  | 0, _ => by simp
  | n + 1, hf => by
    rw [show 16 * (n + 1) = 16 * n + 16 by ring, Finset.sum_range_add, sum_lane f r hr n (fun p hp => hf p (by omega)),
      Finset.sum_range_succ (fun q => f (16 * q + r)) n]
    congr 1
    refine Finset.sum_eq_single r ?_ ?_
    · intro i hi hne
      have hi' : i < 16 := Finset.mem_range.mp hi
      exact hf _ (by omega) (by omega)
    · intro h
      exact absurd (Finset.mem_range.mpr hr) h

section chunk
variable (e : S33554432.Idx → EReal) (t k : S2097152.Idx → BitVec 32)
variable (v5 : FVec Ideal S16 .f32)
  (gx : Fin 16 → Buf (Elt Ideal) ((xB : Memref sig .scVector .vmem S2x16x2048 .f32).view.loc (thr d L)))
  (gm : Buf (Elt Ideal) ((mB : Memref sig .scVector .vmem S2x2048 .i32).view.loc (thr d L)))
  (ft' : Buf (Elt Ideal) ((tB : Memref sig .scVector .vmem S2x2048 .i32).view.loc (thr d L)))
  (b : ℕ) (hb : b < 2) (m : ℕ) (hm : m ≤ 31)

include hm in
theorem chunk_lt (p : ℕ) (hp : p < 2048) : baseV0 L + (2048 * m + p) < 2097152 := by
  have := baseV0_le L; omega

/-- The slot's mask and target words are the inputs' at the chunk's voxels. -/
def SlotMT : Prop := ∀ (p : ℕ) (hp : p < 2048),
  (gm : S2x2048.Idx → BitVec 32) (ix2 b p hb hp) = k (flatIx (baseV0 L + (2048 * m + p)) (chunk_lt L m hm p hp))
    ∧ (ft' : S2x2048.Idx → BitVec 32) (ix2 b p hb hp) = t (flatIx (baseV0 L + (2048 * m + p)) (chunk_lt L m hm p hp))

theorem baseV0_mod : baseV0 L % 16 = 0 := by unfold baseV0; omega

/-- The segment of a slot position is the segment of the chunk's voxel there. -/
theorem posSeg_eq (h : SlotMT d L t k gm ft' b hb m hm) (p : ℕ) (hp : p < 2048) :
    posSeg d L gm ft' b hb p = segV t k (baseV0 L + (2048 * m + p)) (chunk_lt L m hm p hp) := by
  unfold posSeg segV segW
  rw [dif_pos hp, (h p hp).1, (h p hp).2]

/-- A position's term for the counts is its voxel's count there, the counted value being one. -/
theorem posCnt_eq (h : SlotMT d L t k gm ft' b hb m hm) (h5 : ∀ x, (v5 x : EReal) = 1) (j : S1024.Idx) (p : ℕ) (hp : p < 2048)
    (hl : p % 16 = (j 0).val % 16) :
    posCnt d L v5 gm ft' b hb j p = CU L t k (j 0).val (2048 * m + p) := by
  have hlt := chunk_lt L m hm p hp
  have hb0 := baseV0_mod L
  unfold posCnt CU idxU0
  rw [posSeg_eq d L t k gm ft' b hb m hm h p hp, dif_pos hlt, h5]
  have e1 : (baseV0 L + (2048 * m + p)) % 16 = (j 0).val % 16 := by omega
  rw [e1]

/-- The counts' terms over the slot's positions of lane j mod 16 are the chunk's voxels' counts at element j. -/
theorem chunkC (h : SlotMT d L t k gm ft' b hb m hm) (h5 : ∀ x, (v5 x : EReal) = 1) (j : S1024.Idx) :
    ∑ q ∈ Finset.range 128, posCnt d L v5 gm ft' b hb j (16 * q + (j 0).val % 16)
      = ∑ p ∈ Finset.range 2048, CU L t k (j 0).val (2048 * m + p) := by
  have hr : (j 0).val % 16 < 16 := Nat.mod_lt _ (by decide)
  have hb0 := baseV0_mod L
  rw [show (2048 : ℕ) = 16 * 128 by norm_num, sum_lane (fun p => CU L t k (j 0).val (16 * 128 * m + p)) ((j 0).val % 16) hr 128 ?_]
  · refine Finset.sum_congr rfl fun q hq => ?_
    have hq' : q < 128 := Finset.mem_range.mp hq
    rw [posCnt_eq d L t k v5 gm ft' b hb m hm h h5 j (16 * q + (j 0).val % 16) (by omega) (by omega)]
  · intro p hp hne
    have hlt : baseV0 L + (16 * 128 * m + p) < 2097152 := by have := baseV0_le L; omega
    show CU L t k (j 0).val (16 * 128 * m + p) = 0
    unfold CU idxU0
    rw [dif_pos hlt, if_neg]
    intro he
    omega

end chunk

section chunkA
variable (e : S33554432.Idx → EReal) (t k : S2097152.Idx → BitVec 32)
  (gx : Fin 16 → Buf (Elt Ideal) ((xB : Memref sig .scVector .vmem S2x16x2048 .f32).view.loc (thr d L)))
  (gm : Buf (Elt Ideal) ((mB : Memref sig .scVector .vmem S2x2048 .i32).view.loc (thr d L)))
  (ft' : Buf (Elt Ideal) ((tB : Memref sig .scVector .vmem S2x2048 .i32).view.loc (thr d L)))
  (b : ℕ) (hb : b < 2) (m : ℕ) (hm : m ≤ 31)

include hm in
theorem chunkE_lt (c : ℕ) (hc : c < 16) (p : ℕ) (hp : p < 2048) : c * 2097152 + baseV0 L + (2048 * m + p) < 33554432 := by
  have := baseV0_le L; omega

/-- The slot's embedding rows are the embedding's components at the chunk's voxels. -/
def SlotX : Prop := ∀ (c : ℕ) (hc : c < 16) (p : ℕ) (hp : p < 2048),
  (gx ⟨c, hc⟩ : S2x16x2048.Idx → EReal) (ix3 b c p hb hc hp) = e (flatIx (c * 2097152 + baseV0 L + (2048 * m + p)) (chunkE_lt L m hm c hc p hp))

/-- The sixteen rows' terms of a position, as a sum over the rows. -/
theorem rowSum_eq (j : S16384.Idx) (p : ℕ) :
    rowSum d L gx gm ft' b hb j p = ∑ c ∈ Finset.range 16, (if h : c < 16 then posSum d L gx gm ft' b hb c h j p else 0) := by
  unfold rowSum
  simp only [Finset.sum_range_succ, Finset.sum_range_zero, zero_add]
  simp only [show (0 : ℕ) < 16 from by decide, show (1 : ℕ) < 16 from by decide, show (2 : ℕ) < 16 from by decide, show (3 : ℕ) < 16 from by decide,
    show (4 : ℕ) < 16 from by decide, show (5 : ℕ) < 16 from by decide, show (6 : ℕ) < 16 from by decide, show (7 : ℕ) < 16 from by decide,
    show (8 : ℕ) < 16 from by decide, show (9 : ℕ) < 16 from by decide, show (10 : ℕ) < 16 from by decide, show (11 : ℕ) < 16 from by decide,
    show (12 : ℕ) < 16 from by decide, show (13 : ℕ) < 16 from by decide, show (14 : ℕ) < 16 from by decide, show (15 : ℕ) < 16 from by decide, dite_true]

/-- A position's sixteen rows' terms are its voxel's contribution of the row that the element names. -/
theorem rowSum_SU (ht : ∀ i, (t i).toNat ≤ 63) (h : SlotMT d L t k gm ft' b hb m hm) (hx : SlotX d L e gx b hb m hm)
    (j : S16384.Idx) (p : ℕ) (hp : p < 2048) (hl : p % 16 = (j 0).val % 16) :
    rowSum d L gx gm ft' b hb j p = SU L e t k ((j 0).val / 1024) ((j 0).val % 1024) (2048 * m + p) := by
  have hlt := chunk_lt L m hm p hp
  have hb0 := baseV0_mod L
  have hj : (j 0).val < 16384 := (j 0).isLt
  have hc0 : (j 0).val / 1024 < 16 := by omega
  have hs : segV t k (baseV0 L + (2048 * m + p)) hlt ≤ 63 := by
    unfold segV; split
    · exact ht _
    · omega
  rw [rowSum_eq, Finset.sum_eq_single ((j 0).val / 1024)]
  · rw [dif_pos hc0]
    unfold posSum SU idxU0 eAt0
    rw [posSeg_eq d L t k gm ft' b hb m hm h p hp, dif_pos hlt, dif_pos hp, hx _ hc0 p hp,
      dif_pos (chunkE_lt L m hm _ hc0 p hp)]
    have e1 : (baseV0 L + (2048 * m + p)) % 16 = (j 0).val % 16 := by omega
    rw [e1]
    by_cases hcond : 16 * segV t k (baseV0 L + (2048 * m + p)) hlt + (j 0).val % 16 = (j 0).val % 1024
    · rw [if_pos hcond, if_pos (by omega)]
    · rw [if_neg hcond, if_neg (by omega)]
  · intro c hc hne
    have hc' : c < 16 := Finset.mem_range.mp hc
    rw [dif_pos hc']
    unfold posSum
    rw [posSeg_eq d L t k gm ft' b hb m hm h p hp, if_neg]
    intro he
    apply hne
    omega
  · intro hn
    exact absurd (Finset.mem_range.mpr hc0) hn

/-- The sums' terms over the slot's positions of lane j mod 16 are the chunk's voxels' contributions at element j. -/
theorem chunkA (ht : ∀ i, (t i).toNat ≤ 63) (h : SlotMT d L t k gm ft' b hb m hm) (hx : SlotX d L e gx b hb m hm) (j : S16384.Idx) :
    ∑ q ∈ Finset.range 128, rowSum d L gx gm ft' b hb j (16 * q + (j 0).val % 16)
      = ∑ p ∈ Finset.range 2048, SU L e t k ((j 0).val / 1024) ((j 0).val % 1024) (2048 * m + p) := by
  have hr : (j 0).val % 16 < 16 := Nat.mod_lt _ (by decide)
  have hb0 := baseV0_mod L
  rw [show (2048 : ℕ) = 16 * 128 by norm_num,
    sum_lane (fun p => SU L e t k ((j 0).val / 1024) ((j 0).val % 1024) (16 * 128 * m + p)) ((j 0).val % 16) hr 128 ?_]
  · refine Finset.sum_congr rfl fun q hq => ?_
    have hq' : q < 128 := Finset.mem_range.mp hq
    rw [rowSum_SU d L e t k gx gm ft' b hb m hm ht h hx j (16 * q + (j 0).val % 16) (by omega) (by omega)]
  · intro p hp hne
    have hlt : baseV0 L + (16 * 128 * m + p) < 2097152 := by have := baseV0_le L; omega
    show SU L e t k ((j 0).val / 1024) ((j 0).val % 1024) (16 * 128 * m + p) = 0
    unfold SU idxU0
    rw [dif_pos hlt, if_neg]
    intro he
    omega

end chunkA

end Cert.Proof.KI.Pass1
end
-- ==== Proof.Pass1VP.lean ====
/-
  The two literals of the first SparseCore call at the ideal instance: the zero the accumulators start from is the
  extended real 0, and the value each voxel counts is the extended real 1.
-/
import proofs.«210783_g59777354826199_cont_9to1_m_168_18_alg».proof.Proof.Pass1VE
import proofs.«210783_g59777354826199_cont_9to1_m_168_18_alg».proof.Proof.Pass1VO

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (d : Dev nD) (L : grid0.Coords)

/-- The zeroing loop's value is 0. -/
theorem zF_ideal : (zF (F := Ideal) : EReal) = 0 := by
  show (FloatOps.ofBits (F := Ideal) .f32 0x00000000#32 : EReal) = 0
  simp [Ideal.ofBits, Ideal.ieee]

/-- The counted value is 1 in every lane. -/
theorem ones_ideal (x : S16.Idx) : (k0_pay270 (F := Ideal) x : EReal) = 1 := by
  show (FloatOps.ofBits (F := Ideal) .f32 0x3F800000#32 : EReal) = 1
  simp [Ideal.ofBits, Ideal.ieee, -EReal.coe_mul]; norm_num

/-- Consecutive blocks of B terms are all the terms. -/
theorem sum_blocks (f : ℕ → EReal) (B : ℕ) : ∀ n : ℕ,
    ∑ m ∈ Finset.range n, ∑ p ∈ Finset.range B, f (B * m + p) = ∑ u ∈ Finset.range (B * n), f u
  | 0 => by simp
  | n + 1 => by
    rw [Finset.sum_range_succ, sum_blocks f B n, show B * (n + 1) = B * n + B by ring, Finset.sum_range_add]

/-- Two terms per trip are all the terms. -/
theorem sum_pairs (g : ℕ → EReal) : ∀ n : ℕ,
    ∑ k ∈ Finset.range n, (g (2 * k) + g (2 * k + 1)) = ∑ m ∈ Finset.range (2 * n), g m
  | 0 => by simp
  | n + 1 => by
    rw [Finset.sum_range_succ, sum_pairs g n, show 2 * (n + 1) = 2 * n + 1 + 1 by ring, Finset.sum_range_succ, Finset.sum_range_succ, add_assoc]

/-- The sixteen outer trips, each the chunks 2n and 2n + 1 of 2048 voxels, are the tile's 65536 voxels. -/
theorem tile_sum (f : ℕ → EReal) :
    ∑ n ∈ Finset.range 16, ((∑ p ∈ Finset.range 2048, f (2048 * (2 * n) + p)) + ∑ p ∈ Finset.range 2048, f (2048 * (2 * n + 1) + p))
      = ∑ u ∈ Finset.range 65536, f u := by
  rw [sum_pairs (fun m => ∑ p ∈ Finset.range 2048, f (2048 * m + p)) 16, sum_blocks f 2048 (2 * 16)]

end Cert.Proof.KI.Pass1
end
-- ==== Proof.Pass1VQ.lean ====
/-
  The first SparseCore call's chunk loop at the ideal instance, from the slots' contents: trip n scatters chunk 2n from
  slot 0 and chunk 2n + 1 from slot 1; the slots holding the inputs' words at those chunks' voxels, after the sixteen
  trips an element of an accumulator holds what it held plus all the tile's 65536 voxels' contributions there.
-/
import proofs.«210783_g59777354826199_cont_9to1_m_168_18_alg».proof.Proof.Pass1VP

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (d : Dev nD) (L : grid0.Coords)

open Cert.Proof.KI

section tile
variable (e : S33554432.Idx → EReal) (t k : S2097152.Idx → BitVec 32)
variable (v5 : FVec Ideal S16 .f32) (hv3 : ∀ x, ((iotaV0 : IVec S16 32) x).toNat < 16)
  (GX : ℕ → Fin 16 → Buf (Elt Ideal) ((xB : Memref sig .scVector .vmem S2x16x2048 .f32).view.loc (thr d L)))
  (GT : ℕ → Buf (Elt Ideal) ((tB : Memref sig .scVector .vmem S2x2048 .i32).view.loc (thr d L)))
  (GM : ℕ → Buf (Elt Ideal) ((mB : Memref sig .scVector .vmem S2x2048 .i32).view.loc (thr d L)))
  (hGT : ∀ m i, ((GT m) i).toNat ≤ 63)

/-- What a trip of the chunk loop makes of the counts: chunk 2n's scatter loop over slot 0, then chunk 2n + 1's over slot 1. -/
def stepOC (n : ℕ) (f : Buf (Elt Ideal) ((cB : Memref sig .scVector .vmem S1024 .f32).view.loc (thr d L))) :
    Buf (Elt Ideal) ((cB : Memref sig .scVector .vmem S1024 .f32).view.loc (thr d L)) :=
  iterC4 (F := Ideal) d L iotaV0 hv3 v5 (GX (2 * n + 1)) (GT (2 * n + 1)) (hGT (2 * n + 1)) (GM (2 * n + 1))
    (iterC3 (F := Ideal) d L iotaV0 hv3 v5 (GX (2 * n)) (GT (2 * n)) (hGT (2 * n)) (GM (2 * n)) f k0_t3_loop.trips) k0_t4_loop.trips

/-- The counts after n trips of the chunk loop. -/
def accOC : ℕ → Buf (Elt Ideal) ((cB : Memref sig .scVector .vmem S1024 .f32).view.loc (thr d L)) →
    Buf (Elt Ideal) ((cB : Memref sig .scVector .vmem S1024 .f32).view.loc (thr d L))
  | 0, f => f
  | n + 1, f => stepOC d L v5 hv3 GX GT GM hGT n (accOC n f)

/-- After n trips of the chunk loop an element holds what it held plus the first 2n chunks' voxels' contributions. -/
theorem accOC_sum (h5 : ∀ x, (v5 x : EReal) = 1)
    (hS0 : ∀ n (hn : n < 16), SlotMT d L t k (GM (2 * n)) (GT (2 * n)) 0 (by decide) (2 * n) (by omega))
    (hS1 : ∀ n (hn : n < 16), SlotMT d L t k (GM (2 * n + 1)) (GT (2 * n + 1)) 1 (by decide) (2 * n + 1) (by omega))
    (f : Buf (Elt Ideal) ((cB : Memref sig .scVector .vmem S1024 .f32).view.loc (thr d L))) (j : S1024.Idx) :
    ∀ n : ℕ, n ≤ 16 → rdC d L (accOC d L v5 hv3 GX GT GM hGT n f) j
      = rdC d L f j + ∑ i ∈ Finset.range n, ((∑ p ∈ Finset.range 2048, CU L t k (j 0).val (2048 * (2 * i) + p))
          + ∑ p ∈ Finset.range 2048, CU L t k (j 0).val (2048 * (2 * i + 1) + p))
  | 0, _ => by
    show rdC d L f j = _
    rw [Finset.range_zero, Finset.sum_empty, add_zero]
  | n + 1, hn => by
    have hn' : n < 16 := by omega
    rw [Finset.sum_range_succ, ← add_assoc, ← accOC_sum h5 hS0 hS1 f j n (by omega)]
    show rdC d L (stepOC d L v5 hv3 GX GT GM hGT n (accOC d L v5 hv3 GX GT GM hGT n f)) j = _
    unfold stepOC
    rw [loopC4_ideal, loopC3_ideal, chunkC d L t k v5 (GM (2 * n)) (GT (2 * n)) 0 (by decide) (2 * n) (by omega) (hS0 n hn') h5 j,
      chunkC d L t k v5 (GM (2 * n + 1)) (GT (2 * n + 1)) 1 (by decide) (2 * n + 1) (by omega) (hS1 n hn') h5 j, add_assoc]

/-- After the whole chunk loop an element holds what it held plus all the tile's voxels' contributions there. -/
theorem accOC_tile (h5 : ∀ x, (v5 x : EReal) = 1)
    (hS0 : ∀ n (hn : n < 16), SlotMT d L t k (GM (2 * n)) (GT (2 * n)) 0 (by decide) (2 * n) (by omega))
    (hS1 : ∀ n (hn : n < 16), SlotMT d L t k (GM (2 * n + 1)) (GT (2 * n + 1)) 1 (by decide) (2 * n + 1) (by omega))
    (f : Buf (Elt Ideal) ((cB : Memref sig .scVector .vmem S1024 .f32).view.loc (thr d L))) (j : S1024.Idx) :
    rdC d L (accOC d L v5 hv3 GX GT GM hGT 16 f) j = rdC d L f j + ∑ u ∈ Finset.range 65536, CU L t k (j 0).val u := by
  rw [accOC_sum d L t k v5 hv3 GX GT GM hGT h5 hS0 hS1 f j 16 (le_refl _), tile_sum]

/-- What a trip of the chunk loop makes of the sums: chunk 2n's scatter loop over slot 0, then chunk 2n + 1's over slot 1. -/
def stepOA (n : ℕ) (f : Buf (Elt Ideal) ((aB : Memref sig .scVector .vmem S16384 .f32).view.loc (thr d L))) :
    Buf (Elt Ideal) ((aB : Memref sig .scVector .vmem S16384 .f32).view.loc (thr d L)) :=
  iterA4 (F := Ideal) d L iotaV0 hv3 v5 (GX (2 * n + 1)) (GT (2 * n + 1)) (hGT (2 * n + 1)) (GM (2 * n + 1))
    (iterA3 (F := Ideal) d L iotaV0 hv3 v5 (GX (2 * n)) (GT (2 * n)) (hGT (2 * n)) (GM (2 * n)) f k0_t3_loop.trips) k0_t4_loop.trips

/-- The sums after n trips of the chunk loop. -/
def accOA : ℕ → Buf (Elt Ideal) ((aB : Memref sig .scVector .vmem S16384 .f32).view.loc (thr d L)) →
    Buf (Elt Ideal) ((aB : Memref sig .scVector .vmem S16384 .f32).view.loc (thr d L))
  | 0, f => f
  | n + 1, f => stepOA d L v5 hv3 GX GT GM hGT n (accOA n f)

/-- After n trips of the chunk loop an element holds what it held plus the first 2n chunks' voxels' contributions. -/
theorem accOA_sum (ht : ∀ i, (t i).toNat ≤ 63)
    (hS0 : ∀ n (hn : n < 16), SlotMT d L t k (GM (2 * n)) (GT (2 * n)) 0 (by decide) (2 * n) (by omega))
    (hS1 : ∀ n (hn : n < 16), SlotMT d L t k (GM (2 * n + 1)) (GT (2 * n + 1)) 1 (by decide) (2 * n + 1) (by omega))
    (hX0 : ∀ n (hn : n < 16), SlotX d L e (GX (2 * n)) 0 (by decide) (2 * n) (by omega))
    (hX1 : ∀ n (hn : n < 16), SlotX d L e (GX (2 * n + 1)) 1 (by decide) (2 * n + 1) (by omega))
    (f : Buf (Elt Ideal) ((aB : Memref sig .scVector .vmem S16384 .f32).view.loc (thr d L))) (j : S16384.Idx) :
    ∀ n : ℕ, n ≤ 16 → rdA d L (accOA d L v5 hv3 GX GT GM hGT n f) j
      = rdA d L f j + ∑ i ∈ Finset.range n, ((∑ p ∈ Finset.range 2048, SU L e t k ((j 0).val / 1024) ((j 0).val % 1024) (2048 * (2 * i) + p))
          + ∑ p ∈ Finset.range 2048, SU L e t k ((j 0).val / 1024) ((j 0).val % 1024) (2048 * (2 * i + 1) + p))
  | 0, _ => by
    show rdA d L f j = _
    rw [Finset.range_zero, Finset.sum_empty, add_zero]
  | n + 1, hn => by
    have hn' : n < 16 := by omega
    rw [Finset.sum_range_succ, ← add_assoc, ← accOA_sum ht hS0 hS1 hX0 hX1 f j n (by omega)]
    show rdA d L (stepOA d L v5 hv3 GX GT GM hGT n (accOA d L v5 hv3 GX GT GM hGT n f)) j = _
    unfold stepOA
    rw [loopA4_ideal, loopA3_ideal, chunkA d L e t k (GX (2 * n)) (GM (2 * n)) (GT (2 * n)) 0 (by decide) (2 * n) (by omega) ht (hS0 n hn') (hX0 n hn') j,
      chunkA d L e t k (GX (2 * n + 1)) (GM (2 * n + 1)) (GT (2 * n + 1)) 1 (by decide) (2 * n + 1) (by omega) ht (hS1 n hn') (hX1 n hn') j, add_assoc]

/-- After the whole chunk loop an element holds what it held plus all the tile's voxels' contributions there. -/
theorem accOA_tile (ht : ∀ i, (t i).toNat ≤ 63)
    (hS0 : ∀ n (hn : n < 16), SlotMT d L t k (GM (2 * n)) (GT (2 * n)) 0 (by decide) (2 * n) (by omega))
    (hS1 : ∀ n (hn : n < 16), SlotMT d L t k (GM (2 * n + 1)) (GT (2 * n + 1)) 1 (by decide) (2 * n + 1) (by omega))
    (hX0 : ∀ n (hn : n < 16), SlotX d L e (GX (2 * n)) 0 (by decide) (2 * n) (by omega))
    (hX1 : ∀ n (hn : n < 16), SlotX d L e (GX (2 * n + 1)) 1 (by decide) (2 * n + 1) (by omega))
    (f : Buf (Elt Ideal) ((aB : Memref sig .scVector .vmem S16384 .f32).view.loc (thr d L))) (j : S16384.Idx) :
    rdA d L (accOA d L v5 hv3 GX GT GM hGT 16 f) j = rdA d L f j + ∑ u ∈ Finset.range 65536, SU L e t k ((j 0).val / 1024) ((j 0).val % 1024) u := by
  rw [accOA_sum d L e t k v5 hv3 GX GT GM hGT ht hS0 hS1 hX0 hX1 f j 16 (le_refl _), tile_sum]

end tile

end Cert.Proof.KI.Pass1
end
-- ==== Proof.Pass1WB.lean ====
import proofs.«210783_g59777354826199_cont_9to1_m_168_18_alg».proof.Proof.Pass1WA
import proofs.«210783_g59777354826199_cont_9to1_m_168_18_alg».proof.Proof.Pass1VQ
import proofs.«210783_g59777354826199_cont_9to1_m_168_18_alg».proof.Proof.ValueSpec

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => 𝕄F Ideal

/-! # The first kernel's body with its value, from two statements

  The value claim for the first kernel's body splits into: the body leaves, in the tile's rows of the two results, what
  the final copies read off the accumulators after the chunk loop's sixteen trips from zero, the slots holding the landed
  chunks (a statement about the program's run); and, on those rows, these are the partial sums and counts in closed form
  (a statement about sums). -/

variable (d : Dev nD) (L : grid0.Coords)

/-- What the final copies leave in the tile's rows of the results: the accumulators after the chunk loop's sixteen trips
    from zero, over the landed chunks. -/
def rowA (e : Buf (Elt Ideal) ((eW : Memref sig .scVector .hbm S33554432 .f32).view.loc (thr d L)))
    (t : Buf (Elt Ideal) ((tW : Memref sig .scVector .hbm S2097152 .i32).view.loc (thr d L)))
    (k : Buf (Elt Ideal) ((kW : Memref sig .scVector .hbm S2097152 .i32).view.loc (thr d L))) :
    Buf (Elt Ideal) ((o0Row L).view.loc (thr d L)) :=
  (o0Row L).view.writes (Elt Ideal) (o0Row L).view.junk [⟨Rect.whole S16384, ReadAs.same.apply (View.read (Elt Ideal)
    (aB : Memref sig .scVector .vmem S16384 .f32).view
    (accOA d L (k0_pay270 (F := Ideal)) (fun x => iota_lt x) (GX0 (F := Ideal) d L e) (GT0 (F := Ideal) d L t) (GM0 (F := Ideal) d L k)
      (hGT0 (F := Ideal) d L t) 16 (fun _ => (zF : Elt Ideal .f32))))⟩]
def rowC (e : Buf (Elt Ideal) ((eW : Memref sig .scVector .hbm S33554432 .f32).view.loc (thr d L)))
    (t : Buf (Elt Ideal) ((tW : Memref sig .scVector .hbm S2097152 .i32).view.loc (thr d L)))
    (k : Buf (Elt Ideal) ((kW : Memref sig .scVector .hbm S2097152 .i32).view.loc (thr d L))) :
    Buf (Elt Ideal) ((o1Row L).view.loc (thr d L)) :=
  (o1Row L).view.writes (Elt Ideal) (o1Row L).view.junk [⟨Rect.whole S1024, ReadAs.same.apply (View.read (Elt Ideal)
    (cB : Memref sig .scVector .vmem S1024 .f32).view
    (accOC d L (k0_pay270 (F := Ideal)) (fun x => iota_lt x) (GX0 (F := Ideal) d L e) (GT0 (F := Ideal) d L t) (GM0 (F := Ideal) d L k)
      (hGT0 (F := Ideal) d L t) 16 (fun _ => (zF : Elt Ideal .f32))))⟩]

end Cert.Proof.KI.Pass1

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

local notation "𝕄" => MT nD τ sig (HIx 2) (Elt Ideal) ℕ UU ℕ

/-- THE RUN'S STATEMENT: as `Body0`, the tile's rows of the two results left at what the final copies read off the
    accumulators (`Pass1.rowA`, `Pass1.rowC`). -/
def Body0Acc : Prop := ∀ (d : Dev nD) (L : grid0.Coords) (q : PosShare TreeShare)
    (e : Buf (Elt Ideal) ((eW0).view.loc (thr0 d L))) (t : Buf (Elt Ideal) ((tW0).view.loc (thr0 d L))) (k : Buf (Elt Ideal) ((kW0).view.loc (thr0 d L)))
    (_ : ∀ j, (t j).toNat ≤ 63)
    (O : CellTallies nD τ sig (HIx 2)) (W : Waits sig (HIx 2)) (_ : ∀ g, O g none = 0),
    iprop(levAts (K (F := Ideal)).L (K (F := Ideal)).lev
        ∗ (((eW0).view.loc (thr0 d L) ↦{q} e) ∗ ((tW0).view.loc (thr0 d L) ↦{q} t) ∗ ((kW0).view.loc (thr0 d L) ↦{q} k)
          ∗ (∃ f, (o0Row L).view.loc (thr0 d L) ↦[(o0Row L).view.set]{fullShare} f)
          ∗ (∃ f, (o1Row L).view.loc (thr0 d L) ↦[(o1Row L).view.set]{fullShare} f))
        ∗ scopedBufs (thr0 d L) ∗ scopedSems0 (thr0 d L) ∗ owes (thr0 d L) O W : sProp 𝕄)
      ⊢ wp frame (wpE (defs₀ (F := Ideal)) 𝒱₀ (thr0 d L) none) Set.univ
          (cc0__sc_pass1 L eW0 (Memref.isWhole_whole _) tW0 (Memref.isWhole_whole _) kW0 (Memref.isWhole_whole _)
            o0W (Memref.isWhole_whole _) o1W (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6 cc0_scoped0 cc0_scoped1)
          fun _ => iprop((((eW0).view.loc (thr0 d L) ↦{q} e) ∗ ((tW0).view.loc (thr0 d L) ↦{q} t) ∗ ((kW0).view.loc (thr0 d L) ↦{q} k)
          ∗ ((o0Row L).view.loc (thr0 d L) ↦[(o0Row L).view.set]{fullShare} Pass1.rowA d L e t k)
          ∗ ((o1Row L).view.loc (thr0 d L) ↦[(o1Row L).view.set]{fullShare} Pass1.rowC d L e t k))
            ∗ scopedBufs (thr0 d L) ∗ scopedSems0 (thr0 d L) ∗ ∃ W', ⌜∀ p ∈ W', p ∈ W ∨ p.2 = none⌝ ∗ owes (thr0 d L) O W')

/-- THE SUMS' STATEMENT: on the tile's rows, what the final copies leave is the partial sums and the partial counts. -/
def RowSpec0 : Prop := ∀ (d : Dev nD) (L : grid0.Coords)
    (e : Buf (Elt Ideal) ((eW0).view.loc (thr0 d L))) (t : Buf (Elt Ideal) ((tW0).view.loc (thr0 d L))) (k : Buf (Elt Ideal) ((kW0).view.loc (thr0 d L)))
    (_ : ∀ j, (t j).toNat ≤ 63),
    (∀ i ∈ (o0Row L).view.set, Pass1.rowA d L e t k i = sumsArr e t k i)
      ∧ (∀ i ∈ (o1Row L).view.set, Pass1.rowC d L e t k i = cntArr t k i)

/-- The first kernel's body with its value, given both. -/
theorem body0V_of (hA : Body0Acc) (hR : RowSpec0) : Body0V := by
  intro d L q e t k ht O W hO
  refine (hA d L q e t k ht O W hO).trans (wp_mono _ _ _ (fun _ => ?_))
  have hc0 : (((o0Row L).view.loc (thr0 d L) ↦[(o0Row L).view.set]{fullShare} Pass1.rowA d L e t k : sProp 𝕄))
      = ((o0Row L).view.loc (thr0 d L) ↦[(o0Row L).view.set]{fullShare} sumsArr e t k) :=
    pointsTo_congr (hR d L e t k ht).1
  have hc1 : (((o1Row L).view.loc (thr0 d L) ↦[(o1Row L).view.set]{fullShare} Pass1.rowC d L e t k : sProp 𝕄))
      = ((o1Row L).view.loc (thr0 d L) ↦[(o1Row L).view.set]{fullShare} cntArr t k) :=
    pointsTo_congr (hR d L e t k ht).2
  rw [hc0, hc1]

end Cert.Proof.KI

end
-- ==== Proof.Pass1VR.lean ====
/-
  The first SparseCore call's accumulators after the whole chunk loop, from zero, at the ideal instance: element x of the
  sums is the partial sums' closed form at (tile, x), element x of the counts the partial counts' closed form there —
  the slots holding the inputs' words at the chunks' voxels and the counted value being one.
-/
import proofs.«210783_g59777354826199_cont_9to1_m_168_18_alg».proof.Proof.Pass1VQ

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (d : Dev nD) (L : grid0.Coords)

open Cert.Proof.KI

section row
variable (e : S33554432.Idx → EReal) (t k : S2097152.Idx → BitVec 32)
variable (v5 : FVec Ideal S16 .f32) (hv3 : ∀ x, ((iotaV0 : IVec S16 32) x).toNat < 16)
  (GX : ℕ → Fin 16 → Buf (Elt Ideal) ((xB : Memref sig .scVector .vmem S2x16x2048 .f32).view.loc (thr d L)))
  (GT : ℕ → Buf (Elt Ideal) ((tB : Memref sig .scVector .vmem S2x2048 .i32).view.loc (thr d L)))
  (GM : ℕ → Buf (Elt Ideal) ((mB : Memref sig .scVector .vmem S2x2048 .i32).view.loc (thr d L)))
  (hGT : ∀ m i, ((GT m) i).toNat ≤ 63)

/-- The accumulators' contents before the chunk loop: zero throughout. -/
abbrev zeroA : Buf (Elt Ideal) ((aB : Memref sig .scVector .vmem S16384 .f32).view.loc (thr d L)) := (fun _ => zF : Vec Ideal S16384 .f32)
abbrev zeroC : Buf (Elt Ideal) ((cB : Memref sig .scVector .vmem S1024 .f32).view.loc (thr d L)) := (fun _ => zF : Vec Ideal S1024 .f32)

/-- Element x of the sums after the chunk loop from zero: the partial sums at (tile, x). -/
theorem rowA_spec (ht : ∀ i, (t i).toNat ≤ 63)
    (hS0 : ∀ n (hn : n < 16), SlotMT d L t k (GM (2 * n)) (GT (2 * n)) 0 (by decide) (2 * n) (by omega))
    (hS1 : ∀ n (hn : n < 16), SlotMT d L t k (GM (2 * n + 1)) (GT (2 * n + 1)) 1 (by decide) (2 * n + 1) (by omega))
    (hX0 : ∀ n (hn : n < 16), SlotX d L e (GX (2 * n)) 0 (by decide) (2 * n) (by omega))
    (hX1 : ∀ n (hn : n < 16), SlotX d L e (GX (2 * n + 1)) 1 (by decide) (2 * n + 1) (by omega))
    (i : S32x16384.Idx) (hi0 : (i 0).val = 2 * (L 1).val + (L 0).val) (x : S16384.Idx) (hx : (x 0).val = (i 1).val) :
    rdA d L (accOA d L v5 hv3 GX GT GM hGT 16 (zeroA d L)) x = sumsArr e t k i := by
  rw [accOA_tile d L e t k v5 hv3 GX GT GM hGT ht hS0 hS1 hX0 hX1 (zeroA d L) x, hx, SU_sum L e t k i hi0]
  show (zF (F := Ideal) : EReal) + _ = _
  rw [zF_ideal, zero_add]

/-- Element x of the counts after the chunk loop from zero: the partial counts at (tile, x). -/
theorem rowC_spec (h5 : ∀ x, (v5 x : EReal) = 1)
    (hS0 : ∀ n (hn : n < 16), SlotMT d L t k (GM (2 * n)) (GT (2 * n)) 0 (by decide) (2 * n) (by omega))
    (hS1 : ∀ n (hn : n < 16), SlotMT d L t k (GM (2 * n + 1)) (GT (2 * n + 1)) 1 (by decide) (2 * n + 1) (by omega))
    (i : S32x1024.Idx) (hi0 : (i 0).val = 2 * (L 1).val + (L 0).val) (x : S1024.Idx) (hx : (x 0).val = (i 1).val) :
    rdC d L (accOC d L v5 hv3 GX GT GM hGT 16 (zeroC d L)) x = cntArr t k i := by
  rw [accOC_tile d L t k v5 hv3 GX GT GM hGT h5 hS0 hS1 (zeroC d L) x, hx, CU_sum L t k i hi0]
  show (zF (F := Ideal) : EReal) + _ = _
  rw [zF_ideal, zero_add]

end row

end Cert.Proof.KI.Pass1
end
-- ==== Proof.Pass1VS.lean ====
/-
  The first SparseCore call's staging rows and input chunks by coordinates, and what a landed row holds: word y of
  row b of the targets' (the mask's) staging buffer is its element (b, y), word y of row (b, c) of the embedding's is
  (b, c, y), word y of an input's chunk at offset o is the input's element o + y; a row written whole with a chunk's
  words holds, at its word y, the chunk's word y.
-/
import proofs.«210783_g59777354826199_cont_9to1_m_168_18_alg».proof.Proof.Pass1VR
import Idealize.ShloMosaic.Lib.QrPanel.StackBlock

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (d : Dev nD) (L : grid0.Coords)

open Cert.Proof.KI

theorem tSlot_emb (b : ℕ) (hb : b < 2) (y : S2048.Idx) : (tSlot b hb).view.emb y = ix2 b (y 0).val hb (y 0).isLt := by
  funext a
  apply Fin.ext
  have h : (((tSlot b hb).view.emb y) a : ℕ) = (![b, 0] : Fin 2 → ℕ) a + ((Fin.cons (⟨0, Nat.one_pos⟩ : Fin 1) y : S1x2048.Idx) a : ℕ) := by
    show ((((tB : Memref sig .scVector .vmem S2x2048 .i32).view.slice (Rect.unit (s := S2x2048) ![b, 0] S1x2048.size (inb_r b hb))).reshape S2048 squeezes_S1x2048_S2048.numel_eq).emb y a : ℕ) = _
    rw [View.emb_reshape, View.emb_slice]
    show (((Rect.unit (s := S2x2048) ![b, 0] S1x2048.size (inb_r b hb)).emb (Shape.reshapeEquiv squeezes_S1x2048_S2048.numel_eq y)) a : ℕ) = _
    rw [Rect.emb_apply, Shape.reshapeEquiv_cons_one]
    simp
  rw [h]
  match a with
  | ⟨0, _⟩ => rfl
  | ⟨1, _⟩ => show 0 + (y 0).val = (y 0).val; exact Nat.zero_add _

theorem mSlot_emb (b : ℕ) (hb : b < 2) (y : S2048.Idx) : (mSlot b hb).view.emb y = ix2 b (y 0).val hb (y 0).isLt := by
  funext a
  apply Fin.ext
  have h : (((mSlot b hb).view.emb y) a : ℕ) = (![b, 0] : Fin 2 → ℕ) a + ((Fin.cons (⟨0, Nat.one_pos⟩ : Fin 1) y : S1x2048.Idx) a : ℕ) := by
    show ((((mB : Memref sig .scVector .vmem S2x2048 .i32).view.slice (Rect.unit (s := S2x2048) ![b, 0] S1x2048.size (inb_r b hb))).reshape S2048 squeezes_S1x2048_S2048.numel_eq).emb y a : ℕ) = _
    rw [View.emb_reshape, View.emb_slice]
    show (((Rect.unit (s := S2x2048) ![b, 0] S1x2048.size (inb_r b hb)).emb (Shape.reshapeEquiv squeezes_S1x2048_S2048.numel_eq y)) a : ℕ) = _
    rw [Rect.emb_apply, Shape.reshapeEquiv_cons_one]
    simp
  rw [h]
  match a with
  | ⟨0, _⟩ => rfl
  | ⟨1, _⟩ => show 0 + (y 0).val = (y 0).val; exact Nat.zero_add _

theorem xSlot_emb (b c : ℕ) (hb : b < 2) (hc : c < 16) (y : S2048.Idx) :
    (xSlot b c hb hc).view.emb y = ix3 b c (y 0).val hb hc (y 0).isLt := by
  funext a
  apply Fin.ext
  have h : (((xSlot b c hb hc).view.emb y) a : ℕ) = (![b, c, 0] : Fin 3 → ℕ) a
      + ((Fin.cons (⟨0, Nat.one_pos⟩ : Fin 1) (Fin.cons (⟨0, Nat.one_pos⟩ : Fin 1) y) : S1x1x2048.Idx) a : ℕ) := by
    show ((((xB : Memref sig .scVector .vmem S2x16x2048 .f32).view.slice (Rect.unit (s := S2x16x2048) ![b, c, 0] S1x1x2048.size (inb_x b c hb hc))).reshape S2048 squeezes_S1x1x2048_S2048.numel_eq).emb y a : ℕ) = _
    rw [View.emb_reshape, View.emb_slice]
    show (((Rect.unit (s := S2x16x2048) ![b, c, 0] S1x1x2048.size (inb_x b c hb hc)).emb (Shape.reshapeEquiv squeezes_S1x1x2048_S2048.numel_eq y)) a : ℕ) = _
    rw [Rect.emb_apply, Idealize.ShloMosaic.QrPanel.StackBlock.reshapeEquiv_cons_one_one]
    simp
  rw [h]
  match a with
  | ⟨0, _⟩ => rfl
  | ⟨1, _⟩ => rfl
  | ⟨2, _⟩ => show 0 + (y 0).val = (y 0).val; exact Nat.zero_add _

theorem tSrc_emb (ot : Fin 1 → ℕ) (ht : ∀ a, ot a + S2048.size a ≤ S2097152.size a) (y : S2048.Idx) :
    (tSrc ot ht).view.emb y = flatIx (ot 0 + (y 0).val) (by have h1 : ot 0 + 2048 ≤ 2097152 := ht 0; have h2 : (y 0).val < 2048 := (y 0).isLt; omega) := by
  funext a
  match a with
  | ⟨0, _⟩ => exact Fin.ext (show ot 0 + 1 * (y 0).val = ot 0 + (y 0).val by omega)
theorem kSrc_emb (ot : Fin 1 → ℕ) (ht : ∀ a, ot a + S2048.size a ≤ S2097152.size a) (y : S2048.Idx) :
    (kSrc ot ht).view.emb y = flatIx (ot 0 + (y 0).val) (by have h1 : ot 0 + 2048 ≤ 2097152 := ht 0; have h2 : (y 0).val < 2048 := (y 0).isLt; omega) := by
  funext a
  match a with
  | ⟨0, _⟩ => exact Fin.ext (show ot 0 + 1 * (y 0).val = ot 0 + (y 0).val by omega)
theorem eSrc_emb (o : Fin 1 → ℕ) (h : ∀ a, o a + S2048.size a ≤ S33554432.size a) (y : S2048.Idx) :
    (eSrc o h).view.emb y = flatIx (o 0 + (y 0).val) (by have h1 : o 0 + 2048 ≤ 33554432 := h 0; have h2 : (y 0).val < 2048 := (y 0).isLt; omega) := by
  funext a
  match a with
  | ⟨0, _⟩ => exact Fin.ext (show o 0 + 1 * (y 0).val = o 0 + (y 0).val by omega)

/-- The targets' row b written whole (one listed write) with the chunk of t at ot, over any contents: at word y, t's
    word ot + y. -/
theorem tLandedL_apply (b : ℕ) (hb : b < 2) (t : Buf (Elt Ideal) ((tW : Memref sig .scVector .hbm S2097152 .i32).view.loc (thr d L)))
    (ot : Fin 1 → ℕ) (ht : ∀ a, ot a + S2048.size a ≤ S2097152.size a) (fd : Buf (Elt Ideal) ((tSlot b hb).view.loc (thr d L))) (y : S2048.Idx) :
    ((tSlot b hb).view.writes (Elt Ideal) fd [⟨Rect.whole S2048, ReadAs.same.apply ((tSrc ot ht).view.read (Elt Ideal) t)⟩] ((tSlot b hb).view.emb y) : BitVec 32)
      = (t ((tSrc ot ht).view.emb y) : BitVec 32) := by
  have h := View.read_writes_cons_emb (v := (tSlot b hb).view) (Val := Elt Ideal) (f := fd) (Rect.whole S2048)
    (ReadAs.same.apply ((tSrc ot ht).view.read (Elt Ideal) t)) [] y
  rw [Rect.emb_whole_apply] at h
  have h1 : ((tSlot b hb).view.writes (Elt Ideal) fd [⟨Rect.whole S2048, ReadAs.same.apply ((tSrc ot ht).view.read (Elt Ideal) t)⟩] ((tSlot b hb).view.emb y) : BitVec 32)
      = (tSlot b hb).view.read (Elt Ideal) ((tSlot b hb).view.writes (Elt Ideal) fd [⟨Rect.whole S2048, ReadAs.same.apply ((tSrc ot ht).view.read (Elt Ideal) t)⟩]) y := (cast_eq _ _).symm
  have h2 : ((tSrc ot ht).view.read (Elt Ideal) t y : BitVec 32) = (t ((tSrc ot ht).view.emb y) : BitVec 32) := cast_eq _ _
  rw [h1, h, ReadAs.apply_same, h2]

theorem mLandedL_apply (b : ℕ) (hb : b < 2) (k : Buf (Elt Ideal) ((kW : Memref sig .scVector .hbm S2097152 .i32).view.loc (thr d L)))
    (ot : Fin 1 → ℕ) (ht : ∀ a, ot a + S2048.size a ≤ S2097152.size a) (fd : Buf (Elt Ideal) ((mSlot b hb).view.loc (thr d L))) (y : S2048.Idx) :
    ((mSlot b hb).view.writes (Elt Ideal) fd [⟨Rect.whole S2048, ReadAs.same.apply ((kSrc ot ht).view.read (Elt Ideal) k)⟩] ((mSlot b hb).view.emb y) : BitVec 32)
      = (k ((kSrc ot ht).view.emb y) : BitVec 32) := by
  have h := View.read_writes_cons_emb (v := (mSlot b hb).view) (Val := Elt Ideal) (f := fd) (Rect.whole S2048)
    (ReadAs.same.apply ((kSrc ot ht).view.read (Elt Ideal) k)) [] y
  rw [Rect.emb_whole_apply] at h
  have h1 : ((mSlot b hb).view.writes (Elt Ideal) fd [⟨Rect.whole S2048, ReadAs.same.apply ((kSrc ot ht).view.read (Elt Ideal) k)⟩] ((mSlot b hb).view.emb y) : BitVec 32)
      = (mSlot b hb).view.read (Elt Ideal) ((mSlot b hb).view.writes (Elt Ideal) fd [⟨Rect.whole S2048, ReadAs.same.apply ((kSrc ot ht).view.read (Elt Ideal) k)⟩]) y := (cast_eq _ _).symm
  have h2 : ((kSrc ot ht).view.read (Elt Ideal) k y : BitVec 32) = (k ((kSrc ot ht).view.emb y) : BitVec 32) := cast_eq _ _
  rw [h1, h, ReadAs.apply_same, h2]

set_option maxHeartbeats 2000000 in
theorem xLandedL_apply (b c : ℕ) (hb : b < 2) (hc : c < 16) (e : Buf (Elt Ideal) ((eW : Memref sig .scVector .hbm S33554432 .f32).view.loc (thr d L)))
    (o : Fin 1 → ℕ) (h : ∀ a, o a + S2048.size a ≤ S33554432.size a) (fd : Buf (Elt Ideal) ((xSlot b c hb hc).view.loc (thr d L))) (y : S2048.Idx) :
    ((xSlot b c hb hc).view.writes (Elt Ideal) fd [⟨Rect.whole S2048, ReadAs.same.apply ((eSrc o h).view.read (Elt Ideal) e)⟩] ((xSlot b c hb hc).view.emb y) : EReal)
      = (e ((eSrc o h).view.emb y) : EReal) := by
  have hh := View.read_writes_cons_emb (v := (xSlot b c hb hc).view) (Val := Elt Ideal) (f := fd) (Rect.whole S2048)
    (ReadAs.same.apply ((eSrc o h).view.read (Elt Ideal) e)) [] y
  rw [Rect.emb_whole_apply] at hh
  have h1 : ((xSlot b c hb hc).view.writes (Elt Ideal) fd [⟨Rect.whole S2048, ReadAs.same.apply ((eSrc o h).view.read (Elt Ideal) e)⟩] ((xSlot b c hb hc).view.emb y) : EReal)
      = (xSlot b c hb hc).view.read (Elt Ideal) ((xSlot b c hb hc).view.writes (Elt Ideal) fd [⟨Rect.whole S2048, ReadAs.same.apply ((eSrc o h).view.read (Elt Ideal) e)⟩]) y := (cast_eq _ _).symm
  have h2 : ((eSrc o h).view.read (Elt Ideal) e y : EReal) = (e ((eSrc o h).view.emb y) : EReal) := cast_eq _ _
  rw [h1, hh, ReadAs.apply_same, h2]

end Cert.Proof.KI.Pass1
end
-- ==== Proof.Pass1WC.lean ====
import proofs.«210783_g59777354826199_cont_9to1_m_168_18_alg».proof.Proof.Pass1WB
import proofs.«210783_g59777354826199_cont_9to1_m_168_18_alg».proof.Proof.Pass1VS

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.KI

local notation "𝕄" => 𝕄F Ideal

/-! # The landed chunks' words, and the rows' elements

  The slots' contents with chunk m landed hold the arrays' words at the chunk's voxels; element x of a tile's row of a
  result is what the final copy read off the accumulator's element x, and sits at (2·L₁ + L₀, x) of the result. -/

variable (d : Dev nD) (L : grid0.Coords)

/-- The slots' contents with chunk m landed in slot b (GM0, TL0, GT0, GX0 are these at b := m mod 2). -/
def GM0b (k : Buf (Elt Ideal) ((kW : Memref sig .scVector .hbm S2097152 .i32).view.loc (thr d L))) (b : ℕ) (hb : b < 2) (m : ℕ) :
    Buf (Elt Ideal) ((mB : Memref sig .scVector .vmem S2x2048 .i32).view.loc (thr d L)) :=
  mLandedL d L b hb (otC0 L m) (htC0 L m) k (mSlot b hb).view.junk
def TL0b (t : Buf (Elt Ideal) ((tW : Memref sig .scVector .hbm S2097152 .i32).view.loc (thr d L))) (b : ℕ) (hb : b < 2) (m : ℕ) :
    Buf (Elt Ideal) ((tB : Memref sig .scVector .vmem S2x2048 .i32).view.loc (thr d L)) :=
  tLandedL d L b hb (otC0 L m) (htC0 L m) t (tSlot b hb).view.junk
def GT0b (t : Buf (Elt Ideal) ((tW : Memref sig .scVector .hbm S2097152 .i32).view.loc (thr d L))) (b : ℕ) (hb : b < 2) (m : ℕ) :
    Buf (Elt Ideal) ((tB : Memref sig .scVector .vmem S2x2048 .i32).view.loc (thr d L)) :=
  fun i => if (TL0b d L t b hb m i : BitVec 32).toNat ≤ 63 then TL0b d L t b hb m i else (0#32 : BitVec 32)
def GX0b (e : Buf (Elt Ideal) ((eW : Memref sig .scVector .hbm S33554432 .f32).view.loc (thr d L))) (b : ℕ) (hb : b < 2) (m : ℕ) :
    Fin 16 → Buf (Elt Ideal) ((xB : Memref sig .scVector .vmem S2x16x2048 .f32).view.loc (thr d L)) := fun c =>
  xLandedL d L b c.val hb c.isLt (oeC0 L m c) (heC0 L m c) e (xSlot b c.val hb c.isLt).view.junk

theorem GM0_eq (k : Buf (Elt Ideal) ((kW : Memref sig .scVector .hbm S2097152 .i32).view.loc (thr d L))) (m : ℕ) :
    GM0 (F := Ideal) d L k m = GM0b d L k (m % 2) (mslot_lt m) m := by
  unfold GM0 GM0b; rfl
theorem GT0_eq (t : Buf (Elt Ideal) ((tW : Memref sig .scVector .hbm S2097152 .i32).view.loc (thr d L))) (m : ℕ) :
    GT0 (F := Ideal) d L t m = GT0b d L t (m % 2) (mslot_lt m) m := by
  unfold GT0 GT0b TL0 TL0b; rfl
theorem GX0_eq (e : Buf (Elt Ideal) ((eW : Memref sig .scVector .hbm S33554432 .f32).view.loc (thr d L))) (m : ℕ) :
    GX0 (F := Ideal) d L e m = GX0b d L e (m % 2) (mslot_lt m) m := by
  unfold GX0 GX0b; rfl

/-- THE MASK'S AND THE TARGETS' SLOT b with chunk m landed hold the arrays' words at the chunk's voxels. -/
theorem slotMT0b (t : Buf (Elt Ideal) ((tW : Memref sig .scVector .hbm S2097152 .i32).view.loc (thr d L)))
    (k : Buf (Elt Ideal) ((kW : Memref sig .scVector .hbm S2097152 .i32).view.loc (thr d L))) (ht : ∀ j, (t j : BitVec 32).toNat ≤ 63)
    (m : ℕ) (hm : m ≤ 31) (b : ℕ) (hb : b < 2) :
    SlotMT d L t k (GM0b d L k b hb m) (GT0b d L t b hb m) b hb m hm := by
  intro p hp
  have hmin : min m 31 = m := Nat.min_eq_left hm
  have hbl := baseV0_le L
  have hot : (otC0 L m) 0 = baseV0 L + 2048 * m := by
    show 131072 * (L 1).val + 65536 * (L 0).val + 2048 * min m 31 = baseV0 L + 2048 * m
    rw [hmin]; rfl
  have hidxM : ix2 b p hb hp = (mSlot b hb).view.emb (flatIx p hp) := by rw [mSlot_emb]; rfl
  have hidxT : ix2 b p hb hp = (tSlot b hb).view.emb (flatIx p hp) := by rw [tSlot_emb]; rfl
  have hp0 : ((flatIx p hp : S2048.Idx) 0).val = p := rfl
  have hvT : (TL0b d L t b hb m (ix2 b p hb hp) : BitVec 32) = t (flatIx (baseV0 L + (2048 * m + p)) (chunk_lt L m hm p hp)) := by
    rw [hidxT]
    refine (tLandedL_apply d L b hb t (otC0 L m) (htC0 L m) _ (flatIx p hp)).trans ?_
    rw [tSrc_emb]
    exact congrArg t (flatIx_congr0 _ _ (by rw [hot, hp0]; omega))
  constructor
  · show (GM0b d L k b hb m (ix2 b p hb hp) : BitVec 32) = _
    rw [hidxM]
    refine (mLandedL_apply d L b hb k (otC0 L m) (htC0 L m) _ (flatIx p hp)).trans ?_
    rw [kSrc_emb]
    exact congrArg k (flatIx_congr0 _ _ (by rw [hot, hp0]; omega))
  · show (GT0b d L t b hb m (ix2 b p hb hp) : BitVec 32) = _
    unfold GT0b
    rw [if_pos (by rw [hvT]; exact ht _), hvT]

/-- THE EMBEDDING'S SLOT b with chunk m landed holds the embedding's components at the chunk's voxels. -/
theorem slotX0b (e : Buf (Elt Ideal) ((eW : Memref sig .scVector .hbm S33554432 .f32).view.loc (thr d L)))
    (m : ℕ) (hm : m ≤ 31) (b : ℕ) (hb : b < 2) :
    SlotX d L e (GX0b d L e b hb m) b hb m hm := by
  intro c hc p hp
  have hmin : min m 31 = m := Nat.min_eq_left hm
  have hbl := baseV0_le L
  have hoe : (oeC0 L m ⟨c, hc⟩) 0 = c * 2097152 + baseV0 L + 2048 * m := by
    show 2097152 * c + 131072 * (L 1).val + 65536 * (L 0).val + 2048 * min m 31 = c * 2097152 + baseV0 L + 2048 * m
    rw [hmin]; unfold baseV0; omega
  have hidx : ix3 b c p hb hc hp = (xSlot b c hb hc).view.emb (flatIx p hp) := by rw [xSlot_emb]; rfl
  have hp0 : ((flatIx p hp : S2048.Idx) 0).val = p := rfl
  show (GX0b d L e b hb m ⟨c, hc⟩ (ix3 b c p hb hc hp) : EReal) = _
  rw [hidx]
  refine (xLandedL_apply d L b c hb hc e (oeC0 L m ⟨c, hc⟩) (heC0 L m ⟨c, hc⟩) _ (flatIx p hp)).trans ?_
  rw [eSrc_emb]
  exact congrArg e (flatIx_congr0 _ _ (by rw [hoe, hp0]; omega))

/-- The same for the slots as the chunk loop fills them: chunk m in slot m mod 2. -/
theorem slotMT0 (t : Buf (Elt Ideal) ((tW : Memref sig .scVector .hbm S2097152 .i32).view.loc (thr d L)))
    (k : Buf (Elt Ideal) ((kW : Memref sig .scVector .hbm S2097152 .i32).view.loc (thr d L))) (ht : ∀ j, (t j : BitVec 32).toNat ≤ 63)
    (m : ℕ) (hm : m ≤ 31) (b : ℕ) (hb : b < 2) (hbm : m % 2 = b) :
    SlotMT d L t k (GM0 (F := Ideal) d L k m) (GT0 (F := Ideal) d L t m) b hb m hm := by
  subst hbm
  rw [GM0_eq, GT0_eq]
  exact slotMT0b d L t k ht m hm (m % 2) hb
theorem slotX0 (e : Buf (Elt Ideal) ((eW : Memref sig .scVector .hbm S33554432 .f32).view.loc (thr d L)))
    (m : ℕ) (hm : m ≤ 31) (b : ℕ) (hb : b < 2) (hbm : m % 2 = b) :
    SlotX d L e (GX0 (F := Ideal) d L e m) b hb m hm := by
  subst hbm
  rw [GX0_eq]
  exact slotX0b d L e m hm (m % 2) hb

/-- Element x of the tile's row of the first (second) result is element (2·L₁ + L₀, x) of the result. -/
theorem o0Row_emb (x : S16384.Idx) (a : Fin 2) :
    (((o0Row L).view.emb x) a : ℕ) = (k0_off145 L) a + ((Fin.cons (⟨0, Nat.one_pos⟩ : Fin 1) x : S1x16384.Idx) a : ℕ) := by
  show (((((o0W : Memref sig .scVector .hbm S32x16384 .f32)).view.slice (Rect.unit (s := S32x16384) (k0_off145 L) S1x16384.size (k0_off145_inb L))).reshape S16384 squeezes_S1x16384_S16384.numel_eq).emb x a : ℕ) = _
  rw [View.emb_reshape, View.emb_slice]
  show (((Rect.unit (s := S32x16384) (k0_off145 L) S1x16384.size (k0_off145_inb L)).emb (Shape.reshapeEquiv squeezes_S1x16384_S16384.numel_eq x)) a : ℕ) = _
  rw [Rect.emb_apply, Shape.reshapeEquiv_cons_one]
  simp
theorem o1Row_emb (x : S1024.Idx) (a : Fin 2) :
    (((o1Row L).view.emb x) a : ℕ) = (k0_off146 L) a + ((Fin.cons (⟨0, Nat.one_pos⟩ : Fin 1) x : S1x1024.Idx) a : ℕ) := by
  show (((((o1W : Memref sig .scVector .hbm S32x1024 .f32)).view.slice (Rect.unit (s := S32x1024) (k0_off146 L) S1x1024.size (k0_off146_inb L))).reshape S1024 squeezes_S1x1024_S1024.numel_eq).emb x a : ℕ) = _
  rw [View.emb_reshape, View.emb_slice]
  show (((Rect.unit (s := S32x1024) (k0_off146 L) S1x1024.size (k0_off146_inb L)).emb (Shape.reshapeEquiv squeezes_S1x1024_S1024.numel_eq x)) a : ℕ) = _
  rw [Rect.emb_apply, Shape.reshapeEquiv_cons_one]
  simp

theorem o0Row_emb0 (x : S16384.Idx) : (((o0Row L).view.emb x) 0).val = 2 * (L 1).val + (L 0).val := by
  rw [o0Row_emb L x 0, k0_off145_eq]; rfl
theorem o0Row_emb1 (x : S16384.Idx) : (((o0Row L).view.emb x) 1).val = (x 0).val := by
  rw [o0Row_emb L x 1, k0_off145_eq]
  show 0 + (x 0).val = (x 0).val
  exact Nat.zero_add _
theorem o1Row_emb0 (x : S1024.Idx) : (((o1Row L).view.emb x) 0).val = 2 * (L 1).val + (L 0).val := by
  rw [o1Row_emb L x 0, k0_off146_eq]; rfl
theorem o1Row_emb1 (x : S1024.Idx) : (((o1Row L).view.emb x) 1).val = (x 0).val := by
  rw [o1Row_emb L x 1, k0_off146_eq]
  show 0 + (x 0).val = (x 0).val
  exact Nat.zero_add _

/-- What a final copy leaves at element x of the tile's row: the accumulator's element x. -/
theorem rowA_read0 (o : Buf (Elt Ideal) ((o0Row L).view.loc (thr d L))) (A : Buf (Elt Ideal) ((aB : Memref sig .scVector .vmem S16384 .f32).view.loc (thr d L))) (x : S16384.Idx) :
    (((o0Row L).view.writes (Elt Ideal) o [⟨Rect.whole S16384, ReadAs.same.apply (View.read (Elt Ideal) (aB : Memref sig .scVector .vmem S16384 .f32).view A)⟩]) ((o0Row L).view.emb x) : EReal)
      = rdA d L A x := by
  have e := View.write_univ_eq_writes_whole (Val := Elt Ideal) (o0Row L).view o [] (ReadAs.same.apply (View.read (Elt Ideal) (aB : Memref sig .scVector .vmem S16384 .f32).view A))
  rw [← e, View.write_emb_of_mem _ _ (Finset.mem_univ x)]
  rfl
theorem rowC_read0 (o : Buf (Elt Ideal) ((o1Row L).view.loc (thr d L))) (A : Buf (Elt Ideal) ((cB : Memref sig .scVector .vmem S1024 .f32).view.loc (thr d L))) (x : S1024.Idx) :
    (((o1Row L).view.writes (Elt Ideal) o [⟨Rect.whole S1024, ReadAs.same.apply (View.read (Elt Ideal) (cB : Memref sig .scVector .vmem S1024 .f32).view A)⟩]) ((o1Row L).view.emb x) : EReal)
      = rdC d L A x := by
  have e := View.write_univ_eq_writes_whole (Val := Elt Ideal) (o1Row L).view o [] (ReadAs.same.apply (View.read (Elt Ideal) (cB : Memref sig .scVector .vmem S1024 .f32).view A))
  rw [← e, View.write_emb_of_mem _ _ (Finset.mem_univ x)]
  rfl

/-- THE SUMS' STATEMENT holds: on the tile's rows, what the final copies leave is the partial sums and the partial counts. -/
theorem rowSpec0 : RowSpec0 := by
  intro d L e t k ht
  constructor
  · intro i hi
    obtain ⟨x, -, rfl⟩ := Finset.mem_map.mp hi
    refine (rowA_read0 d L _ _ x).trans ?_
    exact rowA_spec (d := d) (L := L) (e := e) (t := t) (k := k) (v5 := k0_pay270 (F := Ideal)) (hv3 := fun x => iota_lt x)
      (GX := GX0 (F := Ideal) d L e) (GT := GT0 (F := Ideal) d L t) (GM := GM0 (F := Ideal) d L k) (hGT := hGT0 (F := Ideal) d L t) (ht := ht)
      (hS0 := fun n hn => slotMT0 d L t k ht (2 * n) (by omega) 0 (by decide) (by omega))
      (hS1 := fun n hn => slotMT0 d L t k ht (2 * n + 1) (by omega) 1 (by decide) (by omega))
      (hX0 := fun n hn => slotX0 d L e (2 * n) (by omega) 0 (by decide) (by omega))
      (hX1 := fun n hn => slotX0 d L e (2 * n + 1) (by omega) 1 (by decide) (by omega))
      (i := (o0Row L).view.emb x) (hi0 := o0Row_emb0 L x) (x := x) (hx := (o0Row_emb1 L x).symm)
  · intro i hi
    obtain ⟨x, -, rfl⟩ := Finset.mem_map.mp hi
    refine (rowC_read0 d L _ _ x).trans ?_
    exact rowC_spec (d := d) (L := L) (t := t) (k := k) (v5 := k0_pay270 (F := Ideal)) (hv3 := fun x => iota_lt x)
      (GX := GX0 (F := Ideal) d L e) (GT := GT0 (F := Ideal) d L t) (GM := GM0 (F := Ideal) d L k) (hGT := hGT0 (F := Ideal) d L t) (h5 := ones_ideal)
      (hS0 := fun n hn => slotMT0 d L t k ht (2 * n) (by omega) 0 (by decide) (by omega))
      (hS1 := fun n hn => slotMT0 d L t k ht (2 * n + 1) (by omega) 1 (by decide) (by omega))
      (i := (o1Row L).view.emb x) (hi0 := o1Row_emb0 L x) (x := x) (hx := (o1Row_emb1 L x).symm)

/-- The first kernel's body with its value, given the run's statement. -/
theorem body0V_of_acc (hA : Body0Acc) : Body0V := body0V_of hA rowSpec0

end Cert.Proof.KI.Pass1

end
-- ==== Proof.Pass1WD.lean ====
import proofs.«210783_g59777354826199_cont_9to1_m_168_18_alg».proof.Proof.Pass1WC

noncomputable section

namespace Cert.Proof.KI.Pass1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.KI

local notation "𝕄" => 𝕄F Ideal

variable (d : Dev nD) (L : grid0.Coords)

/-- A set into pairwise-disjoint subsets of it and what they leave. -/
theorem pointsTo_less_split {ℓ : Loc nD τ sig} (q : PosShare TreeShare) (f : Buf (Elt Ideal) ℓ) (ws : List (Finset (Idx ℓ))) :
    ∀ (S : Finset (Idx ℓ)), (∀ w ∈ ws, w ⊆ S) → ws.Pairwise Disjoint →
      (ℓ ↦[S]{q} f : sProp 𝕄) ⊢ iprop((ℓ ↦[ws.foldl (· \ ·) S]{q} f) ∗ sepAll (F := Ideal) q f ws) := by
  induction ws with
  | nil =>
    intro S _ _
    simp only [List.foldl_nil, sepAll]
    exact Laws.sep_emp.2
  | cons w ws ih =>
    intro S hsub hd
    simp only [List.foldl_cons, sepAll]
    have hw : w ⊆ S := hsub w (List.mem_cons_self ..)
    have hsub' : ∀ w' ∈ ws, w' ⊆ S \ w := fun w' hw' =>
      Finset.subset_sdiff.mpr ⟨hsub w' (List.mem_cons_of_mem _ hw'), ((List.pairwise_cons.mp hd).1 w' hw').symm⟩
    iintro H
    ihave H2 := (pointsTo_split_subset hw).1 $$ H
    icases H2 with ⟨Hw, Hr⟩
    ihave H3 := (ih (S \ w) hsub' (List.pairwise_cons.mp hd).2) $$ Hr
    icases H3 with ⟨Hr, Hws⟩
    isplitl [Hr]; · iexact Hr
    isplitl [Hw]; · iexact Hw
    iexact Hws

/-- The deliveries of a chunk's batch into slot b whose rows are held by their own elements at the contents g0 … g15, gt, gm:
    each row at the chunk's words listed over what it held. -/
abbrev delivL (b : ℕ) (hb : b < 2) (oe : Fin 16 → Fin 1 → ℕ) (he : ∀ c a, oe c a + S2048.size a ≤ S33554432.size a)
    (ot : Fin 1 → ℕ) (hot : ∀ a, ot a + S2048.size a ≤ S2097152.size a) (q : PosShare TreeShare)
    (e : Buf (Elt Ideal) ((eW : Memref sig .scVector .hbm S33554432 .f32).view.loc (thr d L)))
    (t : Buf (Elt Ideal) ((tW : Memref sig .scVector .hbm S2097152 .i32).view.loc (thr d L)))
    (k : Buf (Elt Ideal) ((kW : Memref sig .scVector .hbm S2097152 .i32).view.loc (thr d L)))
    (g0 g1 g2 g3 g4 g5 g6 g7 g8 g9 g10 g11 g12 g13 g14 g15 : Buf (Elt Ideal) ((xB : Memref sig .scVector .vmem S2x16x2048 .f32).view.loc (thr d L)))
    (gt : Buf (Elt Ideal) ((tSlot b hb).view.loc (thr d L))) (gm : Buf (Elt Ideal) ((mSlot b hb).view.loc (thr d L))) : Fin 18 → sProp 𝕄
  | ⟨0, _⟩ => iprop(heldOwn (F := Ideal) d L (xSlot b 0 hb (ltc rfl)) fullShare (xLandedL d L b 0 hb (ltc rfl) (oe 0) (he 0) e g0) ∗ heldOwn (F := Ideal) d L (eSrc (oe 0) (he 0)) q e)
  | ⟨1, _⟩ => iprop(heldOwn (F := Ideal) d L (xSlot b 1 hb (ltc rfl)) fullShare (xLandedL d L b 1 hb (ltc rfl) (oe 1) (he 1) e g1) ∗ heldOwn (F := Ideal) d L (eSrc (oe 1) (he 1)) q e)
  | ⟨2, _⟩ => iprop(heldOwn (F := Ideal) d L (xSlot b 2 hb (ltc rfl)) fullShare (xLandedL d L b 2 hb (ltc rfl) (oe 2) (he 2) e g2) ∗ heldOwn (F := Ideal) d L (eSrc (oe 2) (he 2)) q e)
  | ⟨3, _⟩ => iprop(heldOwn (F := Ideal) d L (xSlot b 3 hb (ltc rfl)) fullShare (xLandedL d L b 3 hb (ltc rfl) (oe 3) (he 3) e g3) ∗ heldOwn (F := Ideal) d L (eSrc (oe 3) (he 3)) q e)
  | ⟨4, _⟩ => iprop(heldOwn (F := Ideal) d L (xSlot b 4 hb (ltc rfl)) fullShare (xLandedL d L b 4 hb (ltc rfl) (oe 4) (he 4) e g4) ∗ heldOwn (F := Ideal) d L (eSrc (oe 4) (he 4)) q e)
  | ⟨5, _⟩ => iprop(heldOwn (F := Ideal) d L (xSlot b 5 hb (ltc rfl)) fullShare (xLandedL d L b 5 hb (ltc rfl) (oe 5) (he 5) e g5) ∗ heldOwn (F := Ideal) d L (eSrc (oe 5) (he 5)) q e)
  | ⟨6, _⟩ => iprop(heldOwn (F := Ideal) d L (xSlot b 6 hb (ltc rfl)) fullShare (xLandedL d L b 6 hb (ltc rfl) (oe 6) (he 6) e g6) ∗ heldOwn (F := Ideal) d L (eSrc (oe 6) (he 6)) q e)
  | ⟨7, _⟩ => iprop(heldOwn (F := Ideal) d L (xSlot b 7 hb (ltc rfl)) fullShare (xLandedL d L b 7 hb (ltc rfl) (oe 7) (he 7) e g7) ∗ heldOwn (F := Ideal) d L (eSrc (oe 7) (he 7)) q e)
  | ⟨8, _⟩ => iprop(heldOwn (F := Ideal) d L (xSlot b 8 hb (ltc rfl)) fullShare (xLandedL d L b 8 hb (ltc rfl) (oe 8) (he 8) e g8) ∗ heldOwn (F := Ideal) d L (eSrc (oe 8) (he 8)) q e)
  | ⟨9, _⟩ => iprop(heldOwn (F := Ideal) d L (xSlot b 9 hb (ltc rfl)) fullShare (xLandedL d L b 9 hb (ltc rfl) (oe 9) (he 9) e g9) ∗ heldOwn (F := Ideal) d L (eSrc (oe 9) (he 9)) q e)
  | ⟨10, _⟩ => iprop(heldOwn (F := Ideal) d L (xSlot b 10 hb (ltc rfl)) fullShare (xLandedL d L b 10 hb (ltc rfl) (oe 10) (he 10) e g10) ∗ heldOwn (F := Ideal) d L (eSrc (oe 10) (he 10)) q e)
  | ⟨11, _⟩ => iprop(heldOwn (F := Ideal) d L (xSlot b 11 hb (ltc rfl)) fullShare (xLandedL d L b 11 hb (ltc rfl) (oe 11) (he 11) e g11) ∗ heldOwn (F := Ideal) d L (eSrc (oe 11) (he 11)) q e)
  | ⟨12, _⟩ => iprop(heldOwn (F := Ideal) d L (xSlot b 12 hb (ltc rfl)) fullShare (xLandedL d L b 12 hb (ltc rfl) (oe 12) (he 12) e g12) ∗ heldOwn (F := Ideal) d L (eSrc (oe 12) (he 12)) q e)
  | ⟨13, _⟩ => iprop(heldOwn (F := Ideal) d L (xSlot b 13 hb (ltc rfl)) fullShare (xLandedL d L b 13 hb (ltc rfl) (oe 13) (he 13) e g13) ∗ heldOwn (F := Ideal) d L (eSrc (oe 13) (he 13)) q e)
  | ⟨14, _⟩ => iprop(heldOwn (F := Ideal) d L (xSlot b 14 hb (ltc rfl)) fullShare (xLandedL d L b 14 hb (ltc rfl) (oe 14) (he 14) e g14) ∗ heldOwn (F := Ideal) d L (eSrc (oe 14) (he 14)) q e)
  | ⟨15, _⟩ => iprop(heldOwn (F := Ideal) d L (xSlot b 15 hb (ltc rfl)) fullShare (xLandedL d L b 15 hb (ltc rfl) (oe 15) (he 15) e g15) ∗ heldOwn (F := Ideal) d L (eSrc (oe 15) (he 15)) q e)
  | ⟨16, _⟩ => iprop(heldOwn (F := Ideal) d L (tSlot b hb) fullShare (tLandedL d L b hb ot hot t gt) ∗ heldOwn (F := Ideal) d L (tSrc ot hot) q t)
  | ⟨17, _⟩ => iprop(heldOwn (F := Ideal) d L (mSlot b hb) fullShare (mLandedL d L b hb ot hot k gm) ∗ heldOwn (F := Ideal) d L (kSrc ot hot) q k)
  | ⟨n + 18, h⟩ => absurd h (by omega)

set_option maxHeartbeats 4000000 in
instance delivL_storable (b : ℕ) (hb : b < 2) (oe : Fin 16 → Fin 1 → ℕ) (he : ∀ c a, oe c a + S2048.size a ≤ S33554432.size a)
    (ot : Fin 1 → ℕ) (hot : ∀ a, ot a + S2048.size a ≤ S2097152.size a) (q : PosShare TreeShare)
    (e : Buf (Elt Ideal) ((eW : Memref sig .scVector .hbm S33554432 .f32).view.loc (thr d L)))
    (t : Buf (Elt Ideal) ((tW : Memref sig .scVector .hbm S2097152 .i32).view.loc (thr d L)))
    (k : Buf (Elt Ideal) ((kW : Memref sig .scVector .hbm S2097152 .i32).view.loc (thr d L)))
    (g0 g1 g2 g3 g4 g5 g6 g7 g8 g9 g10 g11 g12 g13 g14 g15 : Buf (Elt Ideal) ((xB : Memref sig .scVector .vmem S2x16x2048 .f32).view.loc (thr d L)))
    (gt : Buf (Elt Ideal) ((tSlot b hb).view.loc (thr d L))) (gm : Buf (Elt Ideal) ((mSlot b hb).view.loc (thr d L))) : (i : Fin 18) →
    BI.Storable (upEmb : UEmb _ 𝕄) (delivL d L b hb oe he ot hot q e t k g0 g1 g2 g3 g4 g5 g6 g7 g8 g9 g10 g11 g12 g13 g14 g15 gt gm i)
  | ⟨0, _⟩ => (inferInstance : BI.Storable (upEmb : UEmb _ 𝕄) (iprop(heldOwn (F := Ideal) d L (xSlot b 0 hb (ltc rfl)) fullShare (xLandedL d L b 0 hb (ltc rfl) (oe 0) (he 0) e g0) ∗ heldOwn (F := Ideal) d L (eSrc (oe 0) (he 0)) q e)))
  | ⟨1, _⟩ => (inferInstance : BI.Storable (upEmb : UEmb _ 𝕄) (iprop(heldOwn (F := Ideal) d L (xSlot b 1 hb (ltc rfl)) fullShare (xLandedL d L b 1 hb (ltc rfl) (oe 1) (he 1) e g1) ∗ heldOwn (F := Ideal) d L (eSrc (oe 1) (he 1)) q e)))
  | ⟨2, _⟩ => (inferInstance : BI.Storable (upEmb : UEmb _ 𝕄) (iprop(heldOwn (F := Ideal) d L (xSlot b 2 hb (ltc rfl)) fullShare (xLandedL d L b 2 hb (ltc rfl) (oe 2) (he 2) e g2) ∗ heldOwn (F := Ideal) d L (eSrc (oe 2) (he 2)) q e)))
  | ⟨3, _⟩ => (inferInstance : BI.Storable (upEmb : UEmb _ 𝕄) (iprop(heldOwn (F := Ideal) d L (xSlot b 3 hb (ltc rfl)) fullShare (xLandedL d L b 3 hb (ltc rfl) (oe 3) (he 3) e g3) ∗ heldOwn (F := Ideal) d L (eSrc (oe 3) (he 3)) q e)))
  | ⟨4, _⟩ => (inferInstance : BI.Storable (upEmb : UEmb _ 𝕄) (iprop(heldOwn (F := Ideal) d L (xSlot b 4 hb (ltc rfl)) fullShare (xLandedL d L b 4 hb (ltc rfl) (oe 4) (he 4) e g4) ∗ heldOwn (F := Ideal) d L (eSrc (oe 4) (he 4)) q e)))
  | ⟨5, _⟩ => (inferInstance : BI.Storable (upEmb : UEmb _ 𝕄) (iprop(heldOwn (F := Ideal) d L (xSlot b 5 hb (ltc rfl)) fullShare (xLandedL d L b 5 hb (ltc rfl) (oe 5) (he 5) e g5) ∗ heldOwn (F := Ideal) d L (eSrc (oe 5) (he 5)) q e)))
  | ⟨6, _⟩ => (inferInstance : BI.Storable (upEmb : UEmb _ 𝕄) (iprop(heldOwn (F := Ideal) d L (xSlot b 6 hb (ltc rfl)) fullShare (xLandedL d L b 6 hb (ltc rfl) (oe 6) (he 6) e g6) ∗ heldOwn (F := Ideal) d L (eSrc (oe 6) (he 6)) q e)))
  | ⟨7, _⟩ => (inferInstance : BI.Storable (upEmb : UEmb _ 𝕄) (iprop(heldOwn (F := Ideal) d L (xSlot b 7 hb (ltc rfl)) fullShare (xLandedL d L b 7 hb (ltc rfl) (oe 7) (he 7) e g7) ∗ heldOwn (F := Ideal) d L (eSrc (oe 7) (he 7)) q e)))
  | ⟨8, _⟩ => (inferInstance : BI.Storable (upEmb : UEmb _ 𝕄) (iprop(heldOwn (F := Ideal) d L (xSlot b 8 hb (ltc rfl)) fullShare (xLandedL d L b 8 hb (ltc rfl) (oe 8) (he 8) e g8) ∗ heldOwn (F := Ideal) d L (eSrc (oe 8) (he 8)) q e)))
  | ⟨9, _⟩ => (inferInstance : BI.Storable (upEmb : UEmb _ 𝕄) (iprop(heldOwn (F := Ideal) d L (xSlot b 9 hb (ltc rfl)) fullShare (xLandedL d L b 9 hb (ltc rfl) (oe 9) (he 9) e g9) ∗ heldOwn (F := Ideal) d L (eSrc (oe 9) (he 9)) q e)))
  | ⟨10, _⟩ => (inferInstance : BI.Storable (upEmb : UEmb _ 𝕄) (iprop(heldOwn (F := Ideal) d L (xSlot b 10 hb (ltc rfl)) fullShare (xLandedL d L b 10 hb (ltc rfl) (oe 10) (he 10) e g10) ∗ heldOwn (F := Ideal) d L (eSrc (oe 10) (he 10)) q e)))
  | ⟨11, _⟩ => (inferInstance : BI.Storable (upEmb : UEmb _ 𝕄) (iprop(heldOwn (F := Ideal) d L (xSlot b 11 hb (ltc rfl)) fullShare (xLandedL d L b 11 hb (ltc rfl) (oe 11) (he 11) e g11) ∗ heldOwn (F := Ideal) d L (eSrc (oe 11) (he 11)) q e)))
  | ⟨12, _⟩ => (inferInstance : BI.Storable (upEmb : UEmb _ 𝕄) (iprop(heldOwn (F := Ideal) d L (xSlot b 12 hb (ltc rfl)) fullShare (xLandedL d L b 12 hb (ltc rfl) (oe 12) (he 12) e g12) ∗ heldOwn (F := Ideal) d L (eSrc (oe 12) (he 12)) q e)))
  | ⟨13, _⟩ => (inferInstance : BI.Storable (upEmb : UEmb _ 𝕄) (iprop(heldOwn (F := Ideal) d L (xSlot b 13 hb (ltc rfl)) fullShare (xLandedL d L b 13 hb (ltc rfl) (oe 13) (he 13) e g13) ∗ heldOwn (F := Ideal) d L (eSrc (oe 13) (he 13)) q e)))
  | ⟨14, _⟩ => (inferInstance : BI.Storable (upEmb : UEmb _ 𝕄) (iprop(heldOwn (F := Ideal) d L (xSlot b 14 hb (ltc rfl)) fullShare (xLandedL d L b 14 hb (ltc rfl) (oe 14) (he 14) e g14) ∗ heldOwn (F := Ideal) d L (eSrc (oe 14) (he 14)) q e)))
  | ⟨15, _⟩ => (inferInstance : BI.Storable (upEmb : UEmb _ 𝕄) (iprop(heldOwn (F := Ideal) d L (xSlot b 15 hb (ltc rfl)) fullShare (xLandedL d L b 15 hb (ltc rfl) (oe 15) (he 15) e g15) ∗ heldOwn (F := Ideal) d L (eSrc (oe 15) (he 15)) q e)))
  | ⟨16, _⟩ => (inferInstance : BI.Storable (upEmb : UEmb _ 𝕄) (iprop(heldOwn (F := Ideal) d L (tSlot b hb) fullShare (tLandedL d L b hb ot hot t gt) ∗ heldOwn (F := Ideal) d L (tSrc ot hot) q t)))
  | ⟨17, _⟩ => (inferInstance : BI.Storable (upEmb : UEmb _ 𝕄) (iprop(heldOwn (F := Ideal) d L (mSlot b hb) fullShare (mLandedL d L b hb ot hot k gm) ∗ heldOwn (F := Ideal) d L (kSrc ot hot) q k)))
  | ⟨n + 18, h⟩ => absurd h (by omega)

/-! ## A landed row's contents, whatever it held before, are the slot's contents with the chunk landed -/

theorem xRow_ok (e : Buf (Elt Ideal) ((eW : Memref sig .scVector .hbm S33554432 .f32).view.loc (thr d L)))
    (m : ℕ) (b : ℕ) (hb : b < 2) (hbm : m % 2 = b) (c : ℕ) (hc : c < 16) (o : Fin 1 → ℕ) (ho : ∀ a, o a + S2048.size a ≤ S33554432.size a)
    (hoe : o = oeC0 L m ⟨c, hc⟩) (g : Buf (Elt Ideal) ((xSlot b c hb hc).view.loc (thr d L))) :
    ∀ i ∈ (xSlot b c hb hc).view.set,
      xLandedL d L b c hb hc o ho e g i = GX0 (F := Ideal) d L e m ⟨c, hc⟩ i := by
  subst hbm hoe
  intro i hi
  obtain ⟨y, -, rfl⟩ := Finset.mem_map.mp hi
  rw [GX0_eq]
  exact (xLandedL_apply d L (m % 2) c hb hc e (oeC0 L m ⟨c, hc⟩) ho g y).trans
    (xLandedL_apply d L (m % 2) c (mslot_lt m) hc e (oeC0 L m ⟨c, hc⟩) (heC0 L m ⟨c, hc⟩) _ y).symm

theorem mRow_ok (k : Buf (Elt Ideal) ((kW : Memref sig .scVector .hbm S2097152 .i32).view.loc (thr d L)))
    (m : ℕ) (b : ℕ) (hb : b < 2) (hbm : m % 2 = b) (hot : ∀ a, otC0 L m a + S2048.size a ≤ S2097152.size a)
    (g : Buf (Elt Ideal) ((mSlot b hb).view.loc (thr d L))) :
    ∀ i ∈ (mSlot b hb).view.set, mLandedL d L b hb (otC0 L m) hot k g i = GM0 (F := Ideal) d L k m i := by
  subst hbm
  intro i hi
  obtain ⟨y, -, rfl⟩ := Finset.mem_map.mp hi
  rw [GM0_eq]
  exact (mLandedL_apply d L (m % 2) hb k (otC0 L m) hot g y).trans
    (mLandedL_apply d L (m % 2) (mslot_lt m) k (otC0 L m) (htC0 L m) _ y).symm

theorem tRow_ok (t : Buf (Elt Ideal) ((tW : Memref sig .scVector .hbm S2097152 .i32).view.loc (thr d L))) (ht : ∀ j, (t j : BitVec 32).toNat ≤ 63)
    (m : ℕ) (b : ℕ) (hb : b < 2) (hbm : m % 2 = b) (hot : ∀ a, otC0 L m a + S2048.size a ≤ S2097152.size a)
    (g : Buf (Elt Ideal) ((tSlot b hb).view.loc (thr d L))) :
    ∀ i ∈ (tSlot b hb).view.set, tLandedL d L b hb (otC0 L m) hot t g i = GT0 (F := Ideal) d L t m i := by
  subst hbm
  intro i hi
  obtain ⟨y, -, rfl⟩ := Finset.mem_map.mp hi
  have h1 := tLandedL_apply d L (m % 2) hb t (otC0 L m) hot g y
  have h2 := tLandedL_apply d L (m % 2) (mslot_lt m) t (otC0 L m) (htC0 L m) (tSlot (m % 2) (mslot_lt m)).view.junk y
  rw [GT0_eq]
  unfold GT0b
  have h3 : (TL0b d L t (m % 2) (mslot_lt m) m ((tSlot (m % 2) hb).view.emb y) : BitVec 32) = t ((tSrc (otC0 L m) (htC0 L m)).view.emb y) := h2
  rw [if_pos (by rw [h3]; exact ht _), h3]
  exact h1

/-- A row held at some contents is held at some contents. -/
theorem heldOwn_ex {sp : Space} {s : Shape} {el : EltTy} (M : Memref sig .scVector sp s el) (q : PosShare TreeShare)
    (f : Buf (Elt Ideal) (M.view.loc (thr d L))) :
    (heldOwn (F := Ideal) d L M q f : sProp 𝕄) ⊢ iprop(∃ g, heldOwn (F := Ideal) d L M q g) := by
  iintro H; iexists f; iexact H

/-- A row at contents that agree on the row with g is the row at g. -/
theorem heldOwn_congr {sp : Space} {s : Shape} {el : EltTy} (M : Memref sig .scVector sp s el) (q : PosShare TreeShare)
    (f g : Buf (Elt Ideal) (M.view.loc (thr d L))) (h : ∀ i ∈ M.view.set, f i = g i) :
    (heldOwn (F := Ideal) d L M q f : sProp 𝕄) ⊢ heldOwn (F := Ideal) d L M q g :=
  Entails.of_eq (pointsTo_congr h)

/-! ## The chunk loop's invariant with its value -/

/-- Slot b's batch in flight with chunk m, every row's delivery at the chunk's words listed over what the row held. -/
def inFlightV (b : ℕ) (hb : b < 2) (sem : DmaSem sig) (tok : PosShare TreeShare)
    (e : Buf (Elt Ideal) ((eW : Memref sig .scVector .hbm S33554432 .f32).view.loc (thr d L)))
    (t : Buf (Elt Ideal) ((tW : Memref sig .scVector .hbm S2097152 .i32).view.loc (thr d L)))
    (k : Buf (Elt Ideal) ((kW : Memref sig .scVector .hbm S2097152 .i32).view.loc (thr d L))) (m : ℕ) : sProp 𝕄 :=
  iprop(∃ (oe : Fin 16 → Fin 1 → ℕ) (he : PLift (∀ c a, oe c a + S2048.size a ≤ S33554432.size a))
      (ot : Fin 1 → ℕ) (hot : PLift (∀ a, ot a + S2048.size a ≤ S2097152.size a))
      (g0 g1 g2 g3 g4 g5 g6 g7 g8 g9 g10 g11 g12 g13 g14 g15 : Buf (Elt Ideal) ((xB : Memref sig .scVector .vmem S2x16x2048 .f32).view.loc (thr d L)))
      (gt : Buf (Elt Ideal) ((tSlot b hb).view.loc (thr d L))) (gm : Buf (Elt Ideal) ((mSlot b hb).view.loc (thr d L))),
    ⌜oe = oeC0 L m⌝ ∗ ⌜ot = otC0 L m⌝
      ∗ Transfers.Batch (countersEmb (U := UU)) (thr d L) (.dma sem) none NB
        (delivL d L b hb oe he.down ot hot.down tok e t k g0 g1 g2 g3 g4 g5 g6 g7 g8 g9 g10 g11 g12 g13 g14 g15 gt gm) 18 0
      ∗ ((eW : Memref sig .scVector .hbm S33554432 .f32).view.loc (thr d L) ↦[(eWins d L oe he.down).foldl (· \ ·) Finset.univ]{tok} e)
      ∗ ((tW : Memref sig .scVector .hbm S2097152 .i32).view.loc (thr d L) ↦[Finset.univ \ (tSrc ot hot.down).view.set]{tok} t)
      ∗ ((kW : Memref sig .scVector .hbm S2097152 .i32).view.loc (thr d L) ↦[Finset.univ \ (kSrc ot hot.down).view.set]{tok} k))

/-- Before trip n of the chunk loop: the chunks 2n and 2n + 1 in flight, the accumulators at what n trips made of zero. -/
def invOV0 (q : PosShare TreeShare)
    (e : Buf (Elt Ideal) ((eW : Memref sig .scVector .hbm S33554432 .f32).view.loc (thr d L)))
    (t : Buf (Elt Ideal) ((tW : Memref sig .scVector .hbm S2097152 .i32).view.loc (thr d L)))
    (k : Buf (Elt Ideal) ((kW : Memref sig .scVector .hbm S2097152 .i32).view.loc (thr d L)))
    (O : CellTallies nD τ sig (HIx 2)) (W : Waits sig (HIx 2)) (n : ℕ) (_acc : BitVec 32) : sProp 𝕄 :=
  iprop(Transfers.MayWaits (thr d L) none O
    ∗ ((aB : Memref sig .scVector .vmem S16384 .f32).view.loc (thr d L) ↦{fullShare}
        accOA d L (k0_pay270 (F := Ideal)) (fun x => iota_lt x) (GX0 (F := Ideal) d L e) (GT0 (F := Ideal) d L t) (GM0 (F := Ideal) d L k) (hGT0 (F := Ideal) d L t) n (fun _ => (zF : Elt Ideal .f32)))
    ∗ ((cB : Memref sig .scVector .vmem S1024 .f32).view.loc (thr d L) ↦{fullShare}
        accOC d L (k0_pay270 (F := Ideal)) (fun x => iota_lt x) (GX0 (F := Ideal) d L e) (GT0 (F := Ideal) d L t) (GM0 (F := Ideal) d L k) (hGT0 (F := Ideal) d L t) n (fun _ => (zF : Elt Ideal .f32)))
    ∗ inFlightV d L 0 (ltc rfl) cc0_scratch5.sem (Transfers.shareTok q 2 0) e t k (2 * n)
    ∗ inFlightV d L 1 (ltc rfl) cc0_scratch6.sem (Transfers.shareTok q 2 1) e t k (2 * n + 1)
    ∗ ∃ W', ⌜∀ p ∈ W', p ∈ W ∨ p.2 = none⌝ ∗ owes (thr d L) O W')

/-- On a tile's row of a result, the row written whole reads the same whatever it held before. -/
theorem rowsA_congr (o o' : Buf (Elt Ideal) ((o0Row L).view.loc (thr d L))) (w : S16384.Idx → Elt Ideal .f32) :
    ∀ i ∈ (o0Row L).view.set, (o0Row L).view.writes (Elt Ideal) o [⟨Rect.whole S16384, w⟩] i = (o0Row L).view.writes (Elt Ideal) o' [⟨Rect.whole S16384, w⟩] i := by
  intro i hi
  obtain ⟨x, -, rfl⟩ := Finset.mem_map.mp hi
  rw [← View.write_univ_eq_writes_whole (Val := Elt Ideal) (o0Row L).view o [] w, ← View.write_univ_eq_writes_whole (Val := Elt Ideal) (o0Row L).view o' [] w,
    View.write_emb_of_mem _ _ (Finset.mem_univ x), View.write_emb_of_mem _ _ (Finset.mem_univ x)]
theorem rowsC_congr (o o' : Buf (Elt Ideal) ((o1Row L).view.loc (thr d L))) (w : S1024.Idx → Elt Ideal .f32) :
    ∀ i ∈ (o1Row L).view.set, (o1Row L).view.writes (Elt Ideal) o [⟨Rect.whole S1024, w⟩] i = (o1Row L).view.writes (Elt Ideal) o' [⟨Rect.whole S1024, w⟩] i := by
  intro i hi
  obtain ⟨x, -, rfl⟩ := Finset.mem_map.mp hi
  rw [← View.write_univ_eq_writes_whole (Val := Elt Ideal) (o1Row L).view o [] w, ← View.write_univ_eq_writes_whole (Val := Elt Ideal) (o1Row L).view o' [] w,
    View.write_emb_of_mem _ _ (Finset.mem_univ x), View.write_emb_of_mem _ _ (Finset.mem_univ x)]

set_option maxHeartbeats 8000000 in
set_option sl_exec.rejoinStated true in
/-- One trip of the chunk loop at the invariant with its value. -/
theorem tripOV0 (q : PosShare TreeShare)
    (e : Buf (Elt Ideal) ((eW : Memref sig .scVector .hbm S33554432 .f32).view.loc (thr d L)))
    (t : Buf (Elt Ideal) ((tW : Memref sig .scVector .hbm S2097152 .i32).view.loc (thr d L)))
    (k : Buf (Elt Ideal) ((kW : Memref sig .scVector .hbm S2097152 .i32).view.loc (thr d L)))
    (ht : ∀ j, (t j : BitVec 32).toNat ≤ 63)
    (O : CellTallies nD τ sig (HIx 2)) (W : Waits sig (HIx 2))
    (v2 c1 c2 c3 : BitVec 32) (g : Fin k0_t2_loop.trips) (acc : BitVec 32) :
    invOV0 d L q e t k O W g.val acc
      ⊢ wp frame (wpE (defs₀ (F := Ideal)) 𝒱₀ (thr d L) none) Set.univ
          (k0_t2_body L eW (Memref.isWhole_whole _) tW (Memref.isWhole_whole _) kW (Memref.isWhole_whole _)
            o0W (Memref.isWhole_whole _) o1W (Memref.isWhole_whole _) xB (Memref.isWhole_whole _) tB (Memref.isWhole_whole _)
            mB (Memref.isWhole_whole _) aB (Memref.isWhole_whole _) cB (Memref.isWhole_whole _) cc0_scratch5 cc0_scratch6 cc0_scoped0 cc0_scoped1
            v2 iotaV0 (k0_pay270 (F := Ideal)) c1 c2 c3 g acc)
          (invOV0 d L q e t k O W (g.val + 1)) := by
    have hg := g.isLt
    unfold invOV0 inFlightV
    iintro ⟨#Hmw, Ha, Hc, ⟨%oe0, %he0, %ot0, %hot0, %p0_0, %p0_1, %p0_2, %p0_3, %p0_4, %p0_5, %p0_6, %p0_7, %p0_8, %p0_9, %p0_10, %p0_11, %p0_12, %p0_13, %p0_14, %p0_15, %pt0, %pm0, %hoe0, %hote0, HB0, He0, Ht0, Hk0⟩, ⟨%oe1, %he1, %ot1, %hot1, %p1_0, %p1_1, %p1_2, %p1_3, %p1_4, %p1_5, %p1_6, %p1_7, %p1_8, %p1_9, %p1_10, %p1_11, %p1_12, %p1_13, %p1_14, %p1_15, %pt1, %pm1, %hoe1, %hote1, HB1, He1, Ht1, Hk1⟩, %W', %hW', HO⟩
    subst hoe0 hote0 hoe1 hote1
    sl_exec
    -- slot 0
    ihave HB0_dst0 := (heldOwn_congr d L _ _ _ _ (xRow_ok d L e (2 * g.val) 0 (ltc rfl) (by omega) 0 (ltc rfl) _ (he0.down 0) rfl _)) $$ HB0_dst0
    ihave HB0_dst1 := (heldOwn_congr d L _ _ _ _ (xRow_ok d L e (2 * g.val) 0 (ltc rfl) (by omega) 1 (ltc rfl) _ (he0.down 1) rfl _)) $$ HB0_dst1
    ihave HB0_dst2 := (heldOwn_congr d L _ _ _ _ (xRow_ok d L e (2 * g.val) 0 (ltc rfl) (by omega) 2 (ltc rfl) _ (he0.down 2) rfl _)) $$ HB0_dst2
    ihave HB0_dst3 := (heldOwn_congr d L _ _ _ _ (xRow_ok d L e (2 * g.val) 0 (ltc rfl) (by omega) 3 (ltc rfl) _ (he0.down 3) rfl _)) $$ HB0_dst3
    ihave HB0_dst4 := (heldOwn_congr d L _ _ _ _ (xRow_ok d L e (2 * g.val) 0 (ltc rfl) (by omega) 4 (ltc rfl) _ (he0.down 4) rfl _)) $$ HB0_dst4
    ihave HB0_dst5 := (heldOwn_congr d L _ _ _ _ (xRow_ok d L e (2 * g.val) 0 (ltc rfl) (by omega) 5 (ltc rfl) _ (he0.down 5) rfl _)) $$ HB0_dst5
    ihave HB0_dst6 := (heldOwn_congr d L _ _ _ _ (xRow_ok d L e (2 * g.val) 0 (ltc rfl) (by omega) 6 (ltc rfl) _ (he0.down 6) rfl _)) $$ HB0_dst6
    ihave HB0_dst7 := (heldOwn_congr d L _ _ _ _ (xRow_ok d L e (2 * g.val) 0 (ltc rfl) (by omega) 7 (ltc rfl) _ (he0.down 7) rfl _)) $$ HB0_dst7
    ihave HB0_dst8 := (heldOwn_congr d L _ _ _ _ (xRow_ok d L e (2 * g.val) 0 (ltc rfl) (by omega) 8 (ltc rfl) _ (he0.down 8) rfl _)) $$ HB0_dst8
    ihave HB0_dst9 := (heldOwn_congr d L _ _ _ _ (xRow_ok d L e (2 * g.val) 0 (ltc rfl) (by omega) 9 (ltc rfl) _ (he0.down 9) rfl _)) $$ HB0_dst9
    ihave HB0_dst10 := (heldOwn_congr d L _ _ _ _ (xRow_ok d L e (2 * g.val) 0 (ltc rfl) (by omega) 10 (ltc rfl) _ (he0.down 10) rfl _)) $$ HB0_dst10
    ihave HB0_dst11 := (heldOwn_congr d L _ _ _ _ (xRow_ok d L e (2 * g.val) 0 (ltc rfl) (by omega) 11 (ltc rfl) _ (he0.down 11) rfl _)) $$ HB0_dst11
    ihave HB0_dst12 := (heldOwn_congr d L _ _ _ _ (xRow_ok d L e (2 * g.val) 0 (ltc rfl) (by omega) 12 (ltc rfl) _ (he0.down 12) rfl _)) $$ HB0_dst12
    ihave HB0_dst13 := (heldOwn_congr d L _ _ _ _ (xRow_ok d L e (2 * g.val) 0 (ltc rfl) (by omega) 13 (ltc rfl) _ (he0.down 13) rfl _)) $$ HB0_dst13
    ihave HB0_dst14 := (heldOwn_congr d L _ _ _ _ (xRow_ok d L e (2 * g.val) 0 (ltc rfl) (by omega) 14 (ltc rfl) _ (he0.down 14) rfl _)) $$ HB0_dst14
    ihave HB0_dst15 := (heldOwn_congr d L _ _ _ _ (xRow_ok d L e (2 * g.val) 0 (ltc rfl) (by omega) 15 (ltc rfl) _ (he0.down 15) rfl _)) $$ HB0_dst15
    ihave HB0_dst16 := (heldOwn_congr d L _ _ _ _ (tRow_ok d L t ht (2 * g.val) 0 (ltc rfl) (by omega) hot0.down _)) $$ HB0_dst16
    ihave HB0_dst17 := (heldOwn_congr d L _ _ _ _ (mRow_ok d L k (2 * g.val) 0 (ltc rfl) (by omega) hot0.down _)) $$ HB0_dst17
    sl_for (invV3 (F := Ideal) d L iotaV0 (fun x => iota_lt x) (k0_pay270 (F := Ideal)) (GX0 (F := Ideal) d L e (2 * g.val)) (GT0 (F := Ideal) d L t (2 * g.val)) (hGT0 (F := Ideal) d L t (2 * g.val)) (GM0 (F := Ideal) d L k (2 * g.val)) (accOA d L (k0_pay270 (F := Ideal)) (fun x => iota_lt x) (GX0 (F := Ideal) d L e) (GT0 (F := Ideal) d L t) (GM0 (F := Ideal) d L k) (hGT0 (F := Ideal) d L t) (g.val) (fun _ => (zF : Elt Ideal .f32))) (accOC d L (k0_pay270 (F := Ideal)) (fun x => iota_lt x) (GX0 (F := Ideal) d L e) (GT0 (F := Ideal) d L t) (GM0 (F := Ideal) d L k) (hGT0 (F := Ideal) d L t) (g.val) (fun _ => (zF : Elt Ideal .f32)))) $$ [Ha Hc HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB0_dst16 HB0_dst17]
    case region => exact fun kk acc => tripV3 (F := Ideal) d L _ _ _ _ _ _ _ _ _ _ g _ _ _ _ kk acc
    · unfold invV3 invIV
      isplitl [Ha]; · iexact Ha
      isplitl [Hc]; · iexact Hc
      isplitl [HB0_dst0]; · iexact HB0_dst0
      isplitl [HB0_dst1]; · iexact HB0_dst1
      isplitl [HB0_dst2]; · iexact HB0_dst2
      isplitl [HB0_dst3]; · iexact HB0_dst3
      isplitl [HB0_dst4]; · iexact HB0_dst4
      isplitl [HB0_dst5]; · iexact HB0_dst5
      isplitl [HB0_dst6]; · iexact HB0_dst6
      isplitl [HB0_dst7]; · iexact HB0_dst7
      isplitl [HB0_dst8]; · iexact HB0_dst8
      isplitl [HB0_dst9]; · iexact HB0_dst9
      isplitl [HB0_dst10]; · iexact HB0_dst10
      isplitl [HB0_dst11]; · iexact HB0_dst11
      isplitl [HB0_dst12]; · iexact HB0_dst12
      isplitl [HB0_dst13]; · iexact HB0_dst13
      isplitl [HB0_dst14]; · iexact HB0_dst14
      isplitl [HB0_dst15]; · iexact HB0_dst15
      isplitl [HB0_dst16]; · iexact HB0_dst16
      iexact HB0_dst17
    iintro %_ HI
    unfold invV3 invIV
    icases HI with ⟨Ha, Hc, HB0_dst0, HB0_dst1, HB0_dst2, HB0_dst3, HB0_dst4, HB0_dst5, HB0_dst6, HB0_dst7, HB0_dst8, HB0_dst9, HB0_dst10, HB0_dst11, HB0_dst12, HB0_dst13, HB0_dst14, HB0_dst15, HB0_dst16, HB0_dst17⟩
    ihave He0 := (pointsTo_less_join (F := Ideal) (Transfers.shareTok q 2 0) e (eWins d L (oeC0 L (2 * g.val)) he0.down) Finset.univ (fun _ _ => Finset.subset_univ _)
      (eWins_pairwise d L (oeC0 L (2 * g.val)) he0.down (sepC0 L (2 * g.val)))) $$ [He0 HB0_src0 HB0_src1 HB0_src2 HB0_src3 HB0_src4 HB0_src5 HB0_src6 HB0_src7 HB0_src8 HB0_src9 HB0_src10 HB0_src11 HB0_src12 HB0_src13 HB0_src14 HB0_src15]
    · isplitl [He0]; · iexact He0
      simp only [sepAll]
      isplitl [HB0_src0]; · iexact HB0_src0
      isplitl [HB0_src1]; · iexact HB0_src1
      isplitl [HB0_src2]; · iexact HB0_src2
      isplitl [HB0_src3]; · iexact HB0_src3
      isplitl [HB0_src4]; · iexact HB0_src4
      isplitl [HB0_src5]; · iexact HB0_src5
      isplitl [HB0_src6]; · iexact HB0_src6
      isplitl [HB0_src7]; · iexact HB0_src7
      isplitl [HB0_src8]; · iexact HB0_src8
      isplitl [HB0_src9]; · iexact HB0_src9
      isplitl [HB0_src10]; · iexact HB0_src10
      isplitl [HB0_src11]; · iexact HB0_src11
      isplitl [HB0_src12]; · iexact HB0_src12
      isplitl [HB0_src13]; · iexact HB0_src13
      isplitl [HB0_src14]; · iexact HB0_src14
      isplitl [HB0_src15]; · iexact HB0_src15
      iempintro
    ihave Ht0 := (Entails.of_eq (show ((tSrc (otC0 L (2 * g.val)) hot0.down).view.loc (thr d L) ↦{(Transfers.shareTok q 2 0)} t : sProp 𝕄) = ((tW : Memref sig .scVector .hbm S2097152 .i32).view.loc (thr d L) ↦{(Transfers.shareTok q 2 0)} t) from rfl)) $$ Ht0
    ihave Hk0 := (Entails.of_eq (show ((kSrc (otC0 L (2 * g.val)) hot0.down).view.loc (thr d L) ↦{(Transfers.shareTok q 2 0)} k : sProp 𝕄) = ((kW : Memref sig .scVector .hbm S2097152 .i32).view.loc (thr d L) ↦{(Transfers.shareTok q 2 0)} k) from rfl)) $$ Hk0
    ihave HB0 := (Entails.of_eq (show (semVal (thr d L, SemLoc.dma (⟨0, ltc rfl⟩ : DmaSem sig)) 0 : sProp 𝕄) = semVal (s0cell d L) 0 from rfl)) $$ HB0
    ihave Hex := (heldOwn_ex d L _ _ _) $$ HB0_dst0
    icases Hex with ⟨%n0_0, HB0_dst0⟩
    ihave Hex := (heldOwn_ex d L _ _ _) $$ HB0_dst1
    icases Hex with ⟨%n0_1, HB0_dst1⟩
    ihave Hex := (heldOwn_ex d L _ _ _) $$ HB0_dst2
    icases Hex with ⟨%n0_2, HB0_dst2⟩
    ihave Hex := (heldOwn_ex d L _ _ _) $$ HB0_dst3
    icases Hex with ⟨%n0_3, HB0_dst3⟩
    ihave Hex := (heldOwn_ex d L _ _ _) $$ HB0_dst4
    icases Hex with ⟨%n0_4, HB0_dst4⟩
    ihave Hex := (heldOwn_ex d L _ _ _) $$ HB0_dst5
    icases Hex with ⟨%n0_5, HB0_dst5⟩
    ihave Hex := (heldOwn_ex d L _ _ _) $$ HB0_dst6
    icases Hex with ⟨%n0_6, HB0_dst6⟩
    ihave Hex := (heldOwn_ex d L _ _ _) $$ HB0_dst7
    icases Hex with ⟨%n0_7, HB0_dst7⟩
    ihave Hex := (heldOwn_ex d L _ _ _) $$ HB0_dst8
    icases Hex with ⟨%n0_8, HB0_dst8⟩
    ihave Hex := (heldOwn_ex d L _ _ _) $$ HB0_dst9
    icases Hex with ⟨%n0_9, HB0_dst9⟩
    ihave Hex := (heldOwn_ex d L _ _ _) $$ HB0_dst10
    icases Hex with ⟨%n0_10, HB0_dst10⟩
    ihave Hex := (heldOwn_ex d L _ _ _) $$ HB0_dst11
    icases Hex with ⟨%n0_11, HB0_dst11⟩
    ihave Hex := (heldOwn_ex d L _ _ _) $$ HB0_dst12
    icases Hex with ⟨%n0_12, HB0_dst12⟩
    ihave Hex := (heldOwn_ex d L _ _ _) $$ HB0_dst13
    icases Hex with ⟨%n0_13, HB0_dst13⟩
    ihave Hex := (heldOwn_ex d L _ _ _) $$ HB0_dst14
    icases Hex with ⟨%n0_14, HB0_dst14⟩
    ihave Hex := (heldOwn_ex d L _ _ _) $$ HB0_dst15
    icases Hex with ⟨%n0_15, HB0_dst15⟩
    ihave Hex := (heldOwn_ex d L _ _ _) $$ HB0_dst16
    icases Hex with ⟨%n0_16, HB0_dst16⟩
    ihave Hex := (heldOwn_ex d L _ _ _) $$ HB0_dst17
    icases Hex with ⟨%n0_17, HB0_dst17⟩
    imod (Transfers.batch_alloc' (Lvl := ℕ) (countersEmb (U := UU)) (thr d L) none NB
      (delivL d L 0 (ltc rfl) (fun c => k0_off75 L g (BitVec.ofNat 32 (2097152 * c.val)) 0#32) (fun c => k0_off75_inb L g c 0) (k0_off76 L g 0#32) (k0_off76_inb L g 0) (Transfers.shareTok q 2 0) e t k n0_0 n0_1 n0_2 n0_3 n0_4 n0_5 n0_6 n0_7 n0_8 n0_9 n0_10 n0_11 n0_12 n0_13 n0_14 n0_15 n0_16 n0_17)
      (sm := .dma cc0_scratch5.sem) (E := Set.univ)) $$ HB0 with HB0
    sl_exec
    -- slot 1
    ihave HB1_dst0 := (heldOwn_congr d L _ _ _ _ (xRow_ok d L e (2 * g.val + 1) 1 (ltc rfl) (by omega) 0 (ltc rfl) _ (he1.down 0) rfl _)) $$ HB1_dst0
    ihave HB1_dst1 := (heldOwn_congr d L _ _ _ _ (xRow_ok d L e (2 * g.val + 1) 1 (ltc rfl) (by omega) 1 (ltc rfl) _ (he1.down 1) rfl _)) $$ HB1_dst1
    ihave HB1_dst2 := (heldOwn_congr d L _ _ _ _ (xRow_ok d L e (2 * g.val + 1) 1 (ltc rfl) (by omega) 2 (ltc rfl) _ (he1.down 2) rfl _)) $$ HB1_dst2
    ihave HB1_dst3 := (heldOwn_congr d L _ _ _ _ (xRow_ok d L e (2 * g.val + 1) 1 (ltc rfl) (by omega) 3 (ltc rfl) _ (he1.down 3) rfl _)) $$ HB1_dst3
    ihave HB1_dst4 := (heldOwn_congr d L _ _ _ _ (xRow_ok d L e (2 * g.val + 1) 1 (ltc rfl) (by omega) 4 (ltc rfl) _ (he1.down 4) rfl _)) $$ HB1_dst4
    ihave HB1_dst5 := (heldOwn_congr d L _ _ _ _ (xRow_ok d L e (2 * g.val + 1) 1 (ltc rfl) (by omega) 5 (ltc rfl) _ (he1.down 5) rfl _)) $$ HB1_dst5
    ihave HB1_dst6 := (heldOwn_congr d L _ _ _ _ (xRow_ok d L e (2 * g.val + 1) 1 (ltc rfl) (by omega) 6 (ltc rfl) _ (he1.down 6) rfl _)) $$ HB1_dst6
    ihave HB1_dst7 := (heldOwn_congr d L _ _ _ _ (xRow_ok d L e (2 * g.val + 1) 1 (ltc rfl) (by omega) 7 (ltc rfl) _ (he1.down 7) rfl _)) $$ HB1_dst7
    ihave HB1_dst8 := (heldOwn_congr d L _ _ _ _ (xRow_ok d L e (2 * g.val + 1) 1 (ltc rfl) (by omega) 8 (ltc rfl) _ (he1.down 8) rfl _)) $$ HB1_dst8
    ihave HB1_dst9 := (heldOwn_congr d L _ _ _ _ (xRow_ok d L e (2 * g.val + 1) 1 (ltc rfl) (by omega) 9 (ltc rfl) _ (he1.down 9) rfl _)) $$ HB1_dst9
    ihave HB1_dst10 := (heldOwn_congr d L _ _ _ _ (xRow_ok d L e (2 * g.val + 1) 1 (ltc rfl) (by omega) 10 (ltc rfl) _ (he1.down 10) rfl _)) $$ HB1_dst10
    ihave HB1_dst11 := (heldOwn_congr d L _ _ _ _ (xRow_ok d L e (2 * g.val + 1) 1 (ltc rfl) (by omega) 11 (ltc rfl) _ (he1.down 11) rfl _)) $$ HB1_dst11
    ihave HB1_dst12 := (heldOwn_congr d L _ _ _ _ (xRow_ok d L e (2 * g.val + 1) 1 (ltc rfl) (by omega) 12 (ltc rfl) _ (he1.down 12) rfl _)) $$ HB1_dst12
    ihave HB1_dst13 := (heldOwn_congr d L _ _ _ _ (xRow_ok d L e (2 * g.val + 1) 1 (ltc rfl) (by omega) 13 (ltc rfl) _ (he1.down 13) rfl _)) $$ HB1_dst13
    ihave HB1_dst14 := (heldOwn_congr d L _ _ _ _ (xRow_ok d L e (2 * g.val + 1) 1 (ltc rfl) (by omega) 14 (ltc rfl) _ (he1.down 14) rfl _)) $$ HB1_dst14
    ihave HB1_dst15 := (heldOwn_congr d L _ _ _ _ (xRow_ok d L e (2 * g.val + 1) 1 (ltc rfl) (by omega) 15 (ltc rfl) _ (he1.down 15) rfl _)) $$ HB1_dst15
    ihave HB1_dst16 := (heldOwn_congr d L _ _ _ _ (tRow_ok d L t ht (2 * g.val + 1) 1 (ltc rfl) (by omega) hot1.down _)) $$ HB1_dst16
    ihave HB1_dst17 := (heldOwn_congr d L _ _ _ _ (mRow_ok d L k (2 * g.val + 1) 1 (ltc rfl) (by omega) hot1.down _)) $$ HB1_dst17
    sl_for (invV4 (F := Ideal) d L iotaV0 (fun x => iota_lt x) (k0_pay270 (F := Ideal)) (GX0 (F := Ideal) d L e (2 * g.val + 1)) (GT0 (F := Ideal) d L t (2 * g.val + 1)) (hGT0 (F := Ideal) d L t (2 * g.val + 1)) (GM0 (F := Ideal) d L k (2 * g.val + 1)) (iterA3 (F := Ideal) d L iotaV0 (fun x => iota_lt x) (k0_pay270 (F := Ideal)) (GX0 (F := Ideal) d L e (2 * g.val)) (GT0 (F := Ideal) d L t (2 * g.val)) (hGT0 (F := Ideal) d L t (2 * g.val)) (GM0 (F := Ideal) d L k (2 * g.val)) (accOA d L (k0_pay270 (F := Ideal)) (fun x => iota_lt x) (GX0 (F := Ideal) d L e) (GT0 (F := Ideal) d L t) (GM0 (F := Ideal) d L k) (hGT0 (F := Ideal) d L t) (g.val) (fun _ => (zF : Elt Ideal .f32))) k0_t3_loop.trips) (iterC3 (F := Ideal) d L iotaV0 (fun x => iota_lt x) (k0_pay270 (F := Ideal)) (GX0 (F := Ideal) d L e (2 * g.val)) (GT0 (F := Ideal) d L t (2 * g.val)) (hGT0 (F := Ideal) d L t (2 * g.val)) (GM0 (F := Ideal) d L k (2 * g.val)) (accOC d L (k0_pay270 (F := Ideal)) (fun x => iota_lt x) (GX0 (F := Ideal) d L e) (GT0 (F := Ideal) d L t) (GM0 (F := Ideal) d L k) (hGT0 (F := Ideal) d L t) (g.val) (fun _ => (zF : Elt Ideal .f32))) k0_t3_loop.trips)) $$ [Ha Hc HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15 HB1_dst16 HB1_dst17]
    case region => exact fun kk acc => tripV4 (F := Ideal) d L _ _ _ _ _ _ _ _ _ _ g _ _ _ _ kk acc
    · unfold invV4 invIV
      isplitl [Ha]; · iexact Ha
      isplitl [Hc]; · iexact Hc
      isplitl [HB1_dst0]; · iexact HB1_dst0
      isplitl [HB1_dst1]; · iexact HB1_dst1
      isplitl [HB1_dst2]; · iexact HB1_dst2
      isplitl [HB1_dst3]; · iexact HB1_dst3
      isplitl [HB1_dst4]; · iexact HB1_dst4
      isplitl [HB1_dst5]; · iexact HB1_dst5
      isplitl [HB1_dst6]; · iexact HB1_dst6
      isplitl [HB1_dst7]; · iexact HB1_dst7
      isplitl [HB1_dst8]; · iexact HB1_dst8
      isplitl [HB1_dst9]; · iexact HB1_dst9
      isplitl [HB1_dst10]; · iexact HB1_dst10
      isplitl [HB1_dst11]; · iexact HB1_dst11
      isplitl [HB1_dst12]; · iexact HB1_dst12
      isplitl [HB1_dst13]; · iexact HB1_dst13
      isplitl [HB1_dst14]; · iexact HB1_dst14
      isplitl [HB1_dst15]; · iexact HB1_dst15
      isplitl [HB1_dst16]; · iexact HB1_dst16
      iexact HB1_dst17
    iintro %_ HI
    unfold invV4 invIV
    icases HI with ⟨Ha, Hc, HB1_dst0, HB1_dst1, HB1_dst2, HB1_dst3, HB1_dst4, HB1_dst5, HB1_dst6, HB1_dst7, HB1_dst8, HB1_dst9, HB1_dst10, HB1_dst11, HB1_dst12, HB1_dst13, HB1_dst14, HB1_dst15, HB1_dst16, HB1_dst17⟩
    ihave He1 := (pointsTo_less_join (F := Ideal) (Transfers.shareTok q 2 1) e (eWins d L (oeC0 L (2 * g.val + 1)) he1.down) Finset.univ (fun _ _ => Finset.subset_univ _)
      (eWins_pairwise d L (oeC0 L (2 * g.val + 1)) he1.down (sepC0 L (2 * g.val + 1)))) $$ [He1 HB1_src0 HB1_src1 HB1_src2 HB1_src3 HB1_src4 HB1_src5 HB1_src6 HB1_src7 HB1_src8 HB1_src9 HB1_src10 HB1_src11 HB1_src12 HB1_src13 HB1_src14 HB1_src15]
    · isplitl [He1]; · iexact He1
      simp only [sepAll]
      isplitl [HB1_src0]; · iexact HB1_src0
      isplitl [HB1_src1]; · iexact HB1_src1
      isplitl [HB1_src2]; · iexact HB1_src2
      isplitl [HB1_src3]; · iexact HB1_src3
      isplitl [HB1_src4]; · iexact HB1_src4
      isplitl [HB1_src5]; · iexact HB1_src5
      isplitl [HB1_src6]; · iexact HB1_src6
      isplitl [HB1_src7]; · iexact HB1_src7
      isplitl [HB1_src8]; · iexact HB1_src8
      isplitl [HB1_src9]; · iexact HB1_src9
      isplitl [HB1_src10]; · iexact HB1_src10
      isplitl [HB1_src11]; · iexact HB1_src11
      isplitl [HB1_src12]; · iexact HB1_src12
      isplitl [HB1_src13]; · iexact HB1_src13
      isplitl [HB1_src14]; · iexact HB1_src14
      isplitl [HB1_src15]; · iexact HB1_src15
      iempintro
    ihave Ht1 := (Entails.of_eq (show ((tSrc (otC0 L (2 * g.val + 1)) hot1.down).view.loc (thr d L) ↦{(Transfers.shareTok q 2 1)} t : sProp 𝕄) = ((tW : Memref sig .scVector .hbm S2097152 .i32).view.loc (thr d L) ↦{(Transfers.shareTok q 2 1)} t) from rfl)) $$ Ht1
    ihave Hk1 := (Entails.of_eq (show ((kSrc (otC0 L (2 * g.val + 1)) hot1.down).view.loc (thr d L) ↦{(Transfers.shareTok q 2 1)} k : sProp 𝕄) = ((kW : Memref sig .scVector .hbm S2097152 .i32).view.loc (thr d L) ↦{(Transfers.shareTok q 2 1)} k) from rfl)) $$ Hk1
    ihave HB1 := (Entails.of_eq (show (semVal (thr d L, SemLoc.dma (⟨1, ltc rfl⟩ : DmaSem sig)) 0 : sProp 𝕄) = semVal (s1cell d L) 0 from rfl)) $$ HB1
    ihave Hex := (heldOwn_ex d L _ _ _) $$ HB1_dst0
    icases Hex with ⟨%n1_0, HB1_dst0⟩
    ihave Hex := (heldOwn_ex d L _ _ _) $$ HB1_dst1
    icases Hex with ⟨%n1_1, HB1_dst1⟩
    ihave Hex := (heldOwn_ex d L _ _ _) $$ HB1_dst2
    icases Hex with ⟨%n1_2, HB1_dst2⟩
    ihave Hex := (heldOwn_ex d L _ _ _) $$ HB1_dst3
    icases Hex with ⟨%n1_3, HB1_dst3⟩
    ihave Hex := (heldOwn_ex d L _ _ _) $$ HB1_dst4
    icases Hex with ⟨%n1_4, HB1_dst4⟩
    ihave Hex := (heldOwn_ex d L _ _ _) $$ HB1_dst5
    icases Hex with ⟨%n1_5, HB1_dst5⟩
    ihave Hex := (heldOwn_ex d L _ _ _) $$ HB1_dst6
    icases Hex with ⟨%n1_6, HB1_dst6⟩
    ihave Hex := (heldOwn_ex d L _ _ _) $$ HB1_dst7
    icases Hex with ⟨%n1_7, HB1_dst7⟩
    ihave Hex := (heldOwn_ex d L _ _ _) $$ HB1_dst8
    icases Hex with ⟨%n1_8, HB1_dst8⟩
    ihave Hex := (heldOwn_ex d L _ _ _) $$ HB1_dst9
    icases Hex with ⟨%n1_9, HB1_dst9⟩
    ihave Hex := (heldOwn_ex d L _ _ _) $$ HB1_dst10
    icases Hex with ⟨%n1_10, HB1_dst10⟩
    ihave Hex := (heldOwn_ex d L _ _ _) $$ HB1_dst11
    icases Hex with ⟨%n1_11, HB1_dst11⟩
    ihave Hex := (heldOwn_ex d L _ _ _) $$ HB1_dst12
    icases Hex with ⟨%n1_12, HB1_dst12⟩
    ihave Hex := (heldOwn_ex d L _ _ _) $$ HB1_dst13
    icases Hex with ⟨%n1_13, HB1_dst13⟩
    ihave Hex := (heldOwn_ex d L _ _ _) $$ HB1_dst14
    icases Hex with ⟨%n1_14, HB1_dst14⟩
    ihave Hex := (heldOwn_ex d L _ _ _) $$ HB1_dst15
    icases Hex with ⟨%n1_15, HB1_dst15⟩
    ihave Hex := (heldOwn_ex d L _ _ _) $$ HB1_dst16
    icases Hex with ⟨%n1_16, HB1_dst16⟩
    ihave Hex := (heldOwn_ex d L _ _ _) $$ HB1_dst17
    icases Hex with ⟨%n1_17, HB1_dst17⟩
    imod (Transfers.batch_alloc' (Lvl := ℕ) (countersEmb (U := UU)) (thr d L) none NB
      (delivL d L 1 (ltc rfl) (fun c => k0_off75 L g (BitVec.ofNat 32 (2097152 * c.val)) 1#32) (fun c => k0_off75_inb L g c 1) (k0_off76 L g 1#32) (k0_off76_inb L g 1) (Transfers.shareTok q 2 1) e t k n1_0 n1_1 n1_2 n1_3 n1_4 n1_5 n1_6 n1_7 n1_8 n1_9 n1_10 n1_11 n1_12 n1_13 n1_14 n1_15 n1_16 n1_17)
      (sm := .dma cc0_scratch6.sem) (E := Set.univ)) $$ HB1 with HB1
    sl_exec
    sl_exec
    sl_step
    isplitl [Hmw]; · iexact Hmw
    isplitl [Ha]; · iexact Ha
    isplitl [Hc]; · iexact Hc
    isplitl [HB0 He0 Ht0 Hk0]
    · iexists (fun c => k0_off75 L g (BitVec.ofNat 32 (2097152 * c.val)) 0#32), ⟨(fun c => k0_off75_inb L g c 0)⟩, (k0_off76 L g 0#32), ⟨k0_off76_inb L g 0⟩, n0_0, n0_1, n0_2, n0_3, n0_4, n0_5, n0_6, n0_7, n0_8, n0_9, n0_10, n0_11, n0_12, n0_13, n0_14, n0_15, n0_16, n0_17
      isplitr; · ipureintro; exact oeN0_eq L g 0
      isplitr; · ipureintro; exact otN0_eq L g 0
      isplitl [HB0]; · iexact HB0
      isplitl [He0]; · iexact He0
      isplitl [Ht0]; · iexact Ht0
      iexact Hk0
    isplitl [HB1 He1 Ht1 Hk1]
    · iexists (fun c => k0_off75 L g (BitVec.ofNat 32 (2097152 * c.val)) 1#32), ⟨(fun c => k0_off75_inb L g c 1)⟩, (k0_off76 L g 1#32), ⟨k0_off76_inb L g 1⟩, n1_0, n1_1, n1_2, n1_3, n1_4, n1_5, n1_6, n1_7, n1_8, n1_9, n1_10, n1_11, n1_12, n1_13, n1_14, n1_15, n1_16, n1_17
      isplitr; · ipureintro; exact oeN0_eq L g 1
      isplitr; · ipureintro; exact otN0_eq L g 1
      isplitl [HB1]; · iexact HB1
      isplitl [He1]; · iexact He1
      isplitl [Ht1]; · iexact Ht1
      iexact Hk1
    iexists _
    isplitr
    on_goal 2 => iexact HO
    ipureintro
    repeat (first | exact hW' | apply waits_ok)

set_option maxHeartbeats 8000000 in
set_option sl_exec.rejoinStated true in
/-- THE FIRST KERNEL'S BODY, with its value: the tile's rows of the two results left at what the final copies read off the
    accumulators after the chunk loop's sixteen trips from zero. -/
theorem bodyAcc (q : PosShare TreeShare)
    (e : Buf (Elt Ideal) ((eW : Memref sig .scVector .hbm S33554432 .f32).view.loc (thr d L)))
    (t : Buf (Elt Ideal) ((tW : Memref sig .scVector .hbm S2097152 .i32).view.loc (thr d L)))
    (k : Buf (Elt Ideal) ((kW : Memref sig .scVector .hbm S2097152 .i32).view.loc (thr d L)))
    (ht : ∀ j, (t j).toNat ≤ 63)
    (O : CellTallies nD τ sig (HIx 2)) (W : Waits sig (HIx 2)) (hO : ∀ g, O g none = 0) :
    iprop(levAts (K (F := Ideal)).L (K (F := Ideal)).lev
        ∗ (((eW : Memref sig .scVector .hbm S33554432 .f32).view.loc (thr d L) ↦{q} e)
          ∗ ((tW : Memref sig .scVector .hbm S2097152 .i32).view.loc (thr d L) ↦{q} t)
          ∗ ((kW : Memref sig .scVector .hbm S2097152 .i32).view.loc (thr d L) ↦{q} k)
          ∗ (∃ f, (o0Row L).view.loc (thr d L) ↦[(o0Row L).view.set]{fullShare} f)
          ∗ (∃ f, (o1Row L).view.loc (thr d L) ↦[(o1Row L).view.set]{fullShare} f))
        ∗ scopedBufs (thr d L) ∗ scopedSems0 (thr d L) ∗ owes (thr d L) O W : sProp 𝕄)
      ⊢ wp frame (wpE (defs₀ (F := Ideal)) 𝒱₀ (thr d L) none) Set.univ
          (cc0__sc_pass1 L eW (Memref.isWhole_whole _) tW (Memref.isWhole_whole _) kW (Memref.isWhole_whole _)
            o0W (Memref.isWhole_whole _) o1W (Memref.isWhole_whole _) xB (Memref.isWhole_whole _) tB (Memref.isWhole_whole _)
            mB (Memref.isWhole_whole _) aB (Memref.isWhole_whole _) cB (Memref.isWhole_whole _) cc0_scratch5 cc0_scratch6 cc0_scoped0 cc0_scoped1)
          fun _ => iprop((((eW : Memref sig .scVector .hbm S33554432 .f32).view.loc (thr d L) ↦{q} e)
          ∗ ((tW : Memref sig .scVector .hbm S2097152 .i32).view.loc (thr d L) ↦{q} t)
          ∗ ((kW : Memref sig .scVector .hbm S2097152 .i32).view.loc (thr d L) ↦{q} k)
          ∗ ((o0Row L).view.loc (thr d L) ↦[(o0Row L).view.set]{fullShare} rowA d L e t k)
          ∗ ((o1Row L).view.loc (thr d L) ↦[(o1Row L).view.set]{fullShare} rowC d L e t k))
            ∗ scopedBufs (thr d L) ∗ scopedSems0 (thr d L) ∗ ∃ W', ⌜∀ p ∈ W', p ∈ W ∨ p.2 = none⌝ ∗ owes (thr d L) O W') := by
  rw [cc0__sc_pass1_eq_skeleton]; unfold cc0__sc_pass1_skel
  rw [(K (F := Ideal)).scopedBufs_V facts d (cV L) (jV L), SparseCore.Cfg.scopedSems0_V (Val := Elt Ideal) d (cV L) (jV L), ownSems0_V, ownBufs_V]
  iintro ⟨#Hlv, ⟨He, Ht, Hk, ⟨%f0, Ho0⟩, ⟨%f1, Ho1⟩⟩, ⟨⟨%fx, Hx⟩, ⟨%ft, Htb⟩, ⟨%fm, Hmb⟩, ⟨%fa, Ha⟩, ⟨%fc, Hc⟩, Hbufs⟩, ⟨Hs0, Hs1, Hr0, Hr1, Hsems⟩, HO⟩
  ihave Hmw := ((K (F := Ideal)).mayWaits_none (thr := thr d L) hO) $$ Hlv
  ihave Hx' := (Entails.of_eq (pts_x (F := Ideal) d L _).symm) $$ Hx
  ihave Htb' := (Entails.of_eq (pts_t (F := Ideal) d L _).symm) $$ Htb
  ihave Hmb' := (Entails.of_eq (pts_m (F := Ideal) d L _).symm) $$ Hmb
  ihave Ha' := (Entails.of_eq (pts_a (F := Ideal) d L _).symm) $$ Ha
  ihave Hc' := (Entails.of_eq (pts_c (F := Ideal) d L _).symm) $$ Hc
  sl_exec
  -- the zeroing loop
  sl_for (invZV (F := Ideal) d L) $$ [Ha' Hc']
  case region => exact fun k0 acc => regionZV (F := Ideal) d L k0 acc
  · iapply (invZV_zero (F := Ideal) d L _ _ _)
    isplitl [Ha']; · iexact Ha'
    iexact Hc'
  iintro %_ HI
  ihave HZ := (invZV_final (F := Ideal) d L _) $$ HI
  icases HZ with ⟨Ha, Hc⟩
  -- each input as the remainder and one read token per semaphore
  ihave Hes := ((Transfers.pointsTo_toks_split (Ix := HIx 2) (Name := ℕ) (U := UU) (Lvl := ℕ) q 2).trans
    (show _ ⊢ iprop(((eW : Memref sig .scVector .hbm S33554432 .f32).view.loc (thr d L) ↦{Transfers.shareDrop q 2} e) ∗ ((eW : Memref sig .scVector .hbm S33554432 .f32).view.loc (thr d L) ↦{Transfers.shareTok q 2 0} e) ∗ ((eW : Memref sig .scVector .hbm S33554432 .f32).view.loc (thr d L) ↦{Transfers.shareTok q 2 1} e) : sProp 𝕄)
      from Entails.of_eq (by rw [BI.bigSep_fin_two]; rfl))) $$ He
  icases Hes with ⟨Her, He0, He1⟩
  ihave Hts := ((Transfers.pointsTo_toks_split (Ix := HIx 2) (Name := ℕ) (U := UU) (Lvl := ℕ) q 2).trans
    (show _ ⊢ iprop(((tW : Memref sig .scVector .hbm S2097152 .i32).view.loc (thr d L) ↦{Transfers.shareDrop q 2} t) ∗ ((tW : Memref sig .scVector .hbm S2097152 .i32).view.loc (thr d L) ↦{Transfers.shareTok q 2 0} t) ∗ ((tW : Memref sig .scVector .hbm S2097152 .i32).view.loc (thr d L) ↦{Transfers.shareTok q 2 1} t) : sProp 𝕄)
      from Entails.of_eq (by rw [BI.bigSep_fin_two]; rfl))) $$ Ht
  icases Hts with ⟨Htr, Ht0, Ht1⟩
  ihave Hks := ((Transfers.pointsTo_toks_split (Ix := HIx 2) (Name := ℕ) (U := UU) (Lvl := ℕ) q 2).trans
    (show _ ⊢ iprop(((kW : Memref sig .scVector .hbm S2097152 .i32).view.loc (thr d L) ↦{Transfers.shareDrop q 2} k) ∗ ((kW : Memref sig .scVector .hbm S2097152 .i32).view.loc (thr d L) ↦{Transfers.shareTok q 2 0} k) ∗ ((kW : Memref sig .scVector .hbm S2097152 .i32).view.loc (thr d L) ↦{Transfers.shareTok q 2 1} k) : sProp 𝕄)
      from Entails.of_eq (by rw [BI.bigSep_fin_two]; rfl))) $$ Hk
  icases Hks with ⟨Hkr, Hk0, Hk1⟩
  -- the staging buffers as their rows
  ihave Hxs := ((pointsTo_less_split fullShare fx (xWins d L) Finset.univ (fun _ _ => Finset.subset_univ _) (xWins_pairwise d L)).trans
    (show _ ⊢ iprop(((xB : Memref sig .scVector .vmem S2x16x2048 .f32).view.loc (thr d L) ↦[(xWins d L).foldl (· \ ·) Finset.univ]{fullShare} fx)
        ∗ heldOwn (F := Ideal) d L (xSlot 0 0 (ltc rfl) (ltc rfl)) fullShare fx
        ∗ heldOwn (F := Ideal) d L (xSlot 0 1 (ltc rfl) (ltc rfl)) fullShare fx
        ∗ heldOwn (F := Ideal) d L (xSlot 0 2 (ltc rfl) (ltc rfl)) fullShare fx
        ∗ heldOwn (F := Ideal) d L (xSlot 0 3 (ltc rfl) (ltc rfl)) fullShare fx
        ∗ heldOwn (F := Ideal) d L (xSlot 0 4 (ltc rfl) (ltc rfl)) fullShare fx
        ∗ heldOwn (F := Ideal) d L (xSlot 0 5 (ltc rfl) (ltc rfl)) fullShare fx
        ∗ heldOwn (F := Ideal) d L (xSlot 0 6 (ltc rfl) (ltc rfl)) fullShare fx
        ∗ heldOwn (F := Ideal) d L (xSlot 0 7 (ltc rfl) (ltc rfl)) fullShare fx
        ∗ heldOwn (F := Ideal) d L (xSlot 0 8 (ltc rfl) (ltc rfl)) fullShare fx
        ∗ heldOwn (F := Ideal) d L (xSlot 0 9 (ltc rfl) (ltc rfl)) fullShare fx
        ∗ heldOwn (F := Ideal) d L (xSlot 0 10 (ltc rfl) (ltc rfl)) fullShare fx
        ∗ heldOwn (F := Ideal) d L (xSlot 0 11 (ltc rfl) (ltc rfl)) fullShare fx
        ∗ heldOwn (F := Ideal) d L (xSlot 0 12 (ltc rfl) (ltc rfl)) fullShare fx
        ∗ heldOwn (F := Ideal) d L (xSlot 0 13 (ltc rfl) (ltc rfl)) fullShare fx
        ∗ heldOwn (F := Ideal) d L (xSlot 0 14 (ltc rfl) (ltc rfl)) fullShare fx
        ∗ heldOwn (F := Ideal) d L (xSlot 0 15 (ltc rfl) (ltc rfl)) fullShare fx
        ∗ heldOwn (F := Ideal) d L (xSlot 1 0 (ltc rfl) (ltc rfl)) fullShare fx
        ∗ heldOwn (F := Ideal) d L (xSlot 1 1 (ltc rfl) (ltc rfl)) fullShare fx
        ∗ heldOwn (F := Ideal) d L (xSlot 1 2 (ltc rfl) (ltc rfl)) fullShare fx
        ∗ heldOwn (F := Ideal) d L (xSlot 1 3 (ltc rfl) (ltc rfl)) fullShare fx
        ∗ heldOwn (F := Ideal) d L (xSlot 1 4 (ltc rfl) (ltc rfl)) fullShare fx
        ∗ heldOwn (F := Ideal) d L (xSlot 1 5 (ltc rfl) (ltc rfl)) fullShare fx
        ∗ heldOwn (F := Ideal) d L (xSlot 1 6 (ltc rfl) (ltc rfl)) fullShare fx
        ∗ heldOwn (F := Ideal) d L (xSlot 1 7 (ltc rfl) (ltc rfl)) fullShare fx
        ∗ heldOwn (F := Ideal) d L (xSlot 1 8 (ltc rfl) (ltc rfl)) fullShare fx
        ∗ heldOwn (F := Ideal) d L (xSlot 1 9 (ltc rfl) (ltc rfl)) fullShare fx
        ∗ heldOwn (F := Ideal) d L (xSlot 1 10 (ltc rfl) (ltc rfl)) fullShare fx
        ∗ heldOwn (F := Ideal) d L (xSlot 1 11 (ltc rfl) (ltc rfl)) fullShare fx
        ∗ heldOwn (F := Ideal) d L (xSlot 1 12 (ltc rfl) (ltc rfl)) fullShare fx
        ∗ heldOwn (F := Ideal) d L (xSlot 1 13 (ltc rfl) (ltc rfl)) fullShare fx
        ∗ heldOwn (F := Ideal) d L (xSlot 1 14 (ltc rfl) (ltc rfl)) fullShare fx
        ∗ heldOwn (F := Ideal) d L (xSlot 1 15 (ltc rfl) (ltc rfl)) fullShare fx
        ∗ emp : sProp 𝕄) from by simp only [sepAll]; exact .rfl)) $$ Hx'
  icases Hxs with ⟨Hx', Hx0_0, Hx0_1, Hx0_2, Hx0_3, Hx0_4, Hx0_5, Hx0_6, Hx0_7, Hx0_8, Hx0_9, Hx0_10, Hx0_11, Hx0_12, Hx0_13, Hx0_14, Hx0_15, Hx1_0, Hx1_1, Hx1_2, Hx1_3, Hx1_4, Hx1_5, Hx1_6, Hx1_7, Hx1_8, Hx1_9, Hx1_10, Hx1_11, Hx1_12, Hx1_13, Hx1_14, Hx1_15, -⟩
  ihave Hts := ((pointsTo_less_split (ℓ := (tB : Memref sig .scVector .vmem S2x2048 .i32).view.loc (thr d L)) fullShare ft [(tSlot 0 (ltc rfl)).view.set, (tSlot 1 (ltc rfl)).view.set] Finset.univ
      (fun _ _ => Finset.subset_univ _) tWins_pairwise).trans
    (show _ ⊢ iprop(((tB : Memref sig .scVector .vmem S2x2048 .i32).view.loc (thr d L) ↦[[(tSlot 0 (ltc rfl)).view.set, (tSlot 1 (ltc rfl)).view.set].foldl (· \ ·) Finset.univ]{fullShare} ft)
        ∗ heldOwn (F := Ideal) d L (tSlot 0 (ltc rfl)) fullShare ft
        ∗ heldOwn (F := Ideal) d L (tSlot 1 (ltc rfl)) fullShare ft
        ∗ emp : sProp 𝕄) from by simp only [sepAll]; exact .rfl)) $$ Htb'
  icases Hts with ⟨Htb', HT0, HT1, -⟩
  ihave Hms := ((pointsTo_less_split (ℓ := (mB : Memref sig .scVector .vmem S2x2048 .i32).view.loc (thr d L)) fullShare fm [(mSlot 0 (ltc rfl)).view.set, (mSlot 1 (ltc rfl)).view.set] Finset.univ
      (fun _ _ => Finset.subset_univ _) mWins_pairwise).trans
    (show _ ⊢ iprop(((mB : Memref sig .scVector .vmem S2x2048 .i32).view.loc (thr d L) ↦[[(mSlot 0 (ltc rfl)).view.set, (mSlot 1 (ltc rfl)).view.set].foldl (· \ ·) Finset.univ]{fullShare} fm)
        ∗ heldOwn (F := Ideal) d L (mSlot 0 (ltc rfl)) fullShare fm
        ∗ heldOwn (F := Ideal) d L (mSlot 1 (ltc rfl)) fullShare fm
        ∗ emp : sProp 𝕄) from by simp only [sepAll]; exact .rfl)) $$ Hmb'
  icases Hms with ⟨Hmb', HM0, HM1, -⟩
  -- the two prologue batches
  imod (Transfers.batch_alloc' (Lvl := ℕ) (countersEmb (U := UU)) (thr d L) none NB
      (delivL d L 0 (ltc rfl) (fun c => k0_off3 L (BitVec.ofNat 32 (2097152 * c.val))) (fun c => k0_off3_inb L c) (k0_off4 L) (k0_off4_inb L) (Transfers.shareTok q 2 0) e t k fx fx fx fx fx fx fx fx fx fx fx fx fx fx fx fx ft fm)
      (sm := .dma cc0_scratch5.sem) (E := Set.univ)) $$ Hs0 with HB0
  imod (Transfers.batch_alloc' (Lvl := ℕ) (countersEmb (U := UU)) (thr d L) none NB
      (delivL d L 1 (ltc rfl) (fun c => k0_off5 L (BitVec.ofNat 32 (2097152 * c.val))) (fun c => k0_off5_inb L c) (k0_off6 L) (k0_off6_inb L) (Transfers.shareTok q 2 1) e t k fx fx fx fx fx fx fx fx fx fx fx fx fx fx fx fx ft fm)
      (sm := .dma cc0_scratch6.sem) (E := Set.univ)) $$ Hs1 with HB1
  sl_exec
  -- the chunk loop
  sl_for (invOV0 d L q e t k O W) $$ [Hmw Ha Hc HB0 HB1 He0 He1 Ht0 Ht1 Hk0 Hk1 HO]
  case region => exact fun g acc => tripOV0 d L q e t k ht O W _ _ _ _ g acc
  · unfold invOV0 inFlightV
    isplitl [Hmw]; · iexact Hmw
    isplitl [Ha]; · iexact Ha
    isplitl [Hc]; · iexact Hc
    isplitl [HB0 He0 Ht0 Hk0]
    · iexists (fun c => k0_off3 L (BitVec.ofNat 32 (2097152 * c.val))), ⟨fun c => k0_off3_inb L c⟩, (k0_off4 L), ⟨k0_off4_inb L⟩, fx, fx, fx, fx, fx, fx, fx, fx, fx, fx, fx, fx, fx, fx, fx, fx, ft, fm
      isplitr; · ipureintro; exact oeP0_eq L
      isplitr; · ipureintro; exact otP0_eq L
      isplitl [HB0]; · iexact HB0
      isplitl [He0]; · iexact He0
      isplitl [Ht0]; · iexact Ht0
      iexact Hk0
    isplitl [HB1 He1 Ht1 Hk1]
    · iexists (fun c => k0_off5 L (BitVec.ofNat 32 (2097152 * c.val))), ⟨fun c => k0_off5_inb L c⟩, (k0_off6 L), ⟨k0_off6_inb L⟩, fx, fx, fx, fx, fx, fx, fx, fx, fx, fx, fx, fx, fx, fx, fx, fx, ft, fm
      isplitr; · ipureintro; exact oeP1_eq L
      isplitr; · ipureintro; exact otP1_eq L
      isplitl [HB1]; · iexact HB1
      isplitl [He1]; · iexact He1
      isplitl [Ht1]; · iexact Ht1
      iexact Hk1
    iexists W; isplitr
    · ipureintro; exact fun p hp => .inl hp
    · iexact HO
  iintro %_ HI
  unfold invOV0 inFlightV
  icases HI with ⟨#Hmw2, Ha, Hc, ⟨%oe0, %he0, %ot0, %hot0, %p0_0, %p0_1, %p0_2, %p0_3, %p0_4, %p0_5, %p0_6, %p0_7, %p0_8, %p0_9, %p0_10, %p0_11, %p0_12, %p0_13, %p0_14, %p0_15, %pt0, %pm0, %hoe0, %hote0, HB0, He0, Ht0, Hk0⟩, ⟨%oe1, %he1, %ot1, %hot1, %p1_0, %p1_1, %p1_2, %p1_3, %p1_4, %p1_5, %p1_6, %p1_7, %p1_8, %p1_9, %p1_10, %p1_11, %p1_12, %p1_13, %p1_14, %p1_15, %pt1, %pm1, %hoe1, %hote1, HB1, He1, Ht1, Hk1⟩, %W', %hW', HO⟩
  subst hoe0 hote0 hoe1 hote1
  sl_exec
  sl_step
  ihave Ho0 := (Entails.of_eq (pointsTo_congr (ℓ := (o0Row L).view.loc (thr d L)) (I := (o0Row L).view.set) (q := fullShare) (rowsA_congr d L f0 (o0Row L).view.junk _))) $$ Ho0
  ihave Ho1 := (Entails.of_eq (pointsTo_congr (ℓ := (o1Row L).view.loc (thr d L)) (I := (o1Row L).view.set) (q := fullShare) (rowsC_congr d L f1 (o1Row L).view.junk _))) $$ Ho1
  ihave He0 := (pointsTo_less_join (F := Ideal) (Transfers.shareTok q 2 0) e (eWins d L (oeC0 L (2 * k0_t2_loop.trips)) he0.down) Finset.univ (fun _ _ => Finset.subset_univ _)
    (eWins_pairwise d L (oeC0 L (2 * k0_t2_loop.trips)) he0.down (sepC0 L (2 * k0_t2_loop.trips)))) $$ [He0 HB0_src0 HB0_src1 HB0_src2 HB0_src3 HB0_src4 HB0_src5 HB0_src6 HB0_src7 HB0_src8 HB0_src9 HB0_src10 HB0_src11 HB0_src12 HB0_src13 HB0_src14 HB0_src15]
  · isplitl [He0]; · iexact He0
    simp only [sepAll]
    isplitl [HB0_src0]; · iexact HB0_src0
    isplitl [HB0_src1]; · iexact HB0_src1
    isplitl [HB0_src2]; · iexact HB0_src2
    isplitl [HB0_src3]; · iexact HB0_src3
    isplitl [HB0_src4]; · iexact HB0_src4
    isplitl [HB0_src5]; · iexact HB0_src5
    isplitl [HB0_src6]; · iexact HB0_src6
    isplitl [HB0_src7]; · iexact HB0_src7
    isplitl [HB0_src8]; · iexact HB0_src8
    isplitl [HB0_src9]; · iexact HB0_src9
    isplitl [HB0_src10]; · iexact HB0_src10
    isplitl [HB0_src11]; · iexact HB0_src11
    isplitl [HB0_src12]; · iexact HB0_src12
    isplitl [HB0_src13]; · iexact HB0_src13
    isplitl [HB0_src14]; · iexact HB0_src14
    isplitl [HB0_src15]; · iexact HB0_src15
    iempintro
  ihave He1 := (pointsTo_less_join (F := Ideal) (Transfers.shareTok q 2 1) e (eWins d L (oeC0 L (2 * k0_t2_loop.trips + 1)) he1.down) Finset.univ (fun _ _ => Finset.subset_univ _)
    (eWins_pairwise d L (oeC0 L (2 * k0_t2_loop.trips + 1)) he1.down (sepC0 L (2 * k0_t2_loop.trips + 1)))) $$ [He1 HB1_src0 HB1_src1 HB1_src2 HB1_src3 HB1_src4 HB1_src5 HB1_src6 HB1_src7 HB1_src8 HB1_src9 HB1_src10 HB1_src11 HB1_src12 HB1_src13 HB1_src14 HB1_src15]
  · isplitl [He1]; · iexact He1
    simp only [sepAll]
    isplitl [HB1_src0]; · iexact HB1_src0
    isplitl [HB1_src1]; · iexact HB1_src1
    isplitl [HB1_src2]; · iexact HB1_src2
    isplitl [HB1_src3]; · iexact HB1_src3
    isplitl [HB1_src4]; · iexact HB1_src4
    isplitl [HB1_src5]; · iexact HB1_src5
    isplitl [HB1_src6]; · iexact HB1_src6
    isplitl [HB1_src7]; · iexact HB1_src7
    isplitl [HB1_src8]; · iexact HB1_src8
    isplitl [HB1_src9]; · iexact HB1_src9
    isplitl [HB1_src10]; · iexact HB1_src10
    isplitl [HB1_src11]; · iexact HB1_src11
    isplitl [HB1_src12]; · iexact HB1_src12
    isplitl [HB1_src13]; · iexact HB1_src13
    isplitl [HB1_src14]; · iexact HB1_src14
    isplitl [HB1_src15]; · iexact HB1_src15
    iempintro
  -- the inputs back at their share, the result rows
  isplitl [He0 He1 Her Ht0 Ht1 Htr Hk0 Hk1 Hkr Ho0 Ho1]
  · isplitl [He0 He1 Her]
    · iapply (toks2_join (F := Ideal) q e)
      isplitl [Her]; · iexact Her
      isplitl [He0]; · iexact He0
      iexact He1
    isplitl [Ht0 Ht1 Htr]
    · iapply (toks2_join (F := Ideal) q t)
      isplitl [Htr]; · iexact Htr
      isplitl [Ht0]; · iexact Ht0
      iexact Ht1
    isplitl [Hk0 Hk1 Hkr]
    · iapply (toks2_join (F := Ideal) q k)
      isplitl [Hkr]; · iexact Hkr
      isplitl [Hk0]; · iexact Hk0
      iexact Hk1
    isplitl [Ho0]; · iexact Ho0
    iexact Ho1
  -- the scratch buffers, their slot rows joined back
  isplitl [Hx' Htb' Hmb' Ha Hc Hbufs HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15 HB0_dst16 HB1_dst16 HB0_dst17 HB1_dst17]
  · isplitl [Hx' HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15]
    · ihave Hx := (pointsTo_less_joinE (F := Ideal) fullShare (xWins d L) Finset.univ (fun _ _ => Finset.subset_univ _) (xWins_pairwise d L)) $$ [Hx' HB0_dst0 HB0_dst1 HB0_dst2 HB0_dst3 HB0_dst4 HB0_dst5 HB0_dst6 HB0_dst7 HB0_dst8 HB0_dst9 HB0_dst10 HB0_dst11 HB0_dst12 HB0_dst13 HB0_dst14 HB0_dst15 HB1_dst0 HB1_dst1 HB1_dst2 HB1_dst3 HB1_dst4 HB1_dst5 HB1_dst6 HB1_dst7 HB1_dst8 HB1_dst9 HB1_dst10 HB1_dst11 HB1_dst12 HB1_dst13 HB1_dst14 HB1_dst15]
      · isplitl [Hx']; · iexists _; iexact Hx'
        simp only [sepAllE]
        isplitl [HB0_dst0]; · iexists _; iexact HB0_dst0
        isplitl [HB0_dst1]; · iexists _; iexact HB0_dst1
        isplitl [HB0_dst2]; · iexists _; iexact HB0_dst2
        isplitl [HB0_dst3]; · iexists _; iexact HB0_dst3
        isplitl [HB0_dst4]; · iexists _; iexact HB0_dst4
        isplitl [HB0_dst5]; · iexists _; iexact HB0_dst5
        isplitl [HB0_dst6]; · iexists _; iexact HB0_dst6
        isplitl [HB0_dst7]; · iexists _; iexact HB0_dst7
        isplitl [HB0_dst8]; · iexists _; iexact HB0_dst8
        isplitl [HB0_dst9]; · iexists _; iexact HB0_dst9
        isplitl [HB0_dst10]; · iexists _; iexact HB0_dst10
        isplitl [HB0_dst11]; · iexists _; iexact HB0_dst11
        isplitl [HB0_dst12]; · iexists _; iexact HB0_dst12
        isplitl [HB0_dst13]; · iexists _; iexact HB0_dst13
        isplitl [HB0_dst14]; · iexists _; iexact HB0_dst14
        isplitl [HB0_dst15]; · iexists _; iexact HB0_dst15
        isplitl [HB1_dst0]; · iexists _; iexact HB1_dst0
        isplitl [HB1_dst1]; · iexists _; iexact HB1_dst1
        isplitl [HB1_dst2]; · iexists _; iexact HB1_dst2
        isplitl [HB1_dst3]; · iexists _; iexact HB1_dst3
        isplitl [HB1_dst4]; · iexists _; iexact HB1_dst4
        isplitl [HB1_dst5]; · iexists _; iexact HB1_dst5
        isplitl [HB1_dst6]; · iexists _; iexact HB1_dst6
        isplitl [HB1_dst7]; · iexists _; iexact HB1_dst7
        isplitl [HB1_dst8]; · iexists _; iexact HB1_dst8
        isplitl [HB1_dst9]; · iexists _; iexact HB1_dst9
        isplitl [HB1_dst10]; · iexists _; iexact HB1_dst10
        isplitl [HB1_dst11]; · iexists _; iexact HB1_dst11
        isplitl [HB1_dst12]; · iexists _; iexact HB1_dst12
        isplitl [HB1_dst13]; · iexists _; iexact HB1_dst13
        isplitl [HB1_dst14]; · iexists _; iexact HB1_dst14
        isplitl [HB1_dst15]; · iexists _; iexact HB1_dst15
        iempintro
      icases Hx with ⟨%fxx, Hx⟩
      iexists fxx; iexact Hx
    isplitl [Htb' HB0_dst16 HB1_dst16]
    · ihave Htb := (pointsTo_less_joinE (F := Ideal) (ℓ := (tB : Memref sig .scVector .vmem S2x2048 .i32).view.loc (thr d L)) fullShare [(tSlot 0 (ltc rfl)).view.set, (tSlot 1 (ltc rfl)).view.set] Finset.univ
        (fun _ _ => Finset.subset_univ _) tWins_pairwise) $$ [Htb' HB0_dst16 HB1_dst16]
      · isplitl [Htb']; · iexists _; iexact Htb'
        simp only [sepAllE]
        isplitl [HB0_dst16]; · iexists _; iexact HB0_dst16
        isplitl [HB1_dst16]; · iexists _; iexact HB1_dst16
        iempintro
      icases Htb with ⟨%ftt, Htb⟩
      iexists ftt; iexact Htb
    isplitl [Hmb' HB0_dst17 HB1_dst17]
    · ihave Hmb := (pointsTo_less_joinE (F := Ideal) (ℓ := (mB : Memref sig .scVector .vmem S2x2048 .i32).view.loc (thr d L)) fullShare [(mSlot 0 (ltc rfl)).view.set, (mSlot 1 (ltc rfl)).view.set] Finset.univ
        (fun _ _ => Finset.subset_univ _) mWins_pairwise) $$ [Hmb' HB0_dst17 HB1_dst17]
      · isplitl [Hmb']; · iexists _; iexact Hmb'
        simp only [sepAllE]
        isplitl [HB0_dst17]; · iexists _; iexact HB0_dst17
        isplitl [HB1_dst17]; · iexists _; iexact HB1_dst17
        iempintro
      icases Hmb with ⟨%fmm, Hmb⟩
      iexists fmm; iexact Hmb
    isplitl [Ha]; · iexists _; iexact Ha
    isplitl [Hc]; · iexists _; iexact Hc
    iexact Hbufs
  -- the semaphores at zero
  isplitl [HB0 HB1 Hr0 Hr1 Hsems]
  · isplitl [HB0]; · iexact HB0
    isplitl [HB1]; · iexact HB1
    isplitl [Hr0]; · iexact Hr0
    isplitl [Hr1]; · iexact Hr1
    iexact Hsems
  iexists _
  isplitr
  on_goal 2 => iexact HO
  ipureintro
  repeat (first | exact hW' | apply waits_ok)

end Cert.Proof.KI.Pass1

namespace Cert.Proof.KI

/-- THE RUN'S STATEMENT holds, -/
theorem body0Acc : Body0Acc :=
  fun d L q e t k ht O W hO => Pass1.bodyAcc d L q e t k ht O W hO

/-- and with it THE FIRST KERNEL'S BODY WITH ITS VALUE. -/
theorem body0V : Body0V := Pass1.body0V_of_acc body0Acc

end Cert.Proof.KI

end
-- ==== Proof.KernelValue.lean ====
/-
  Toward the bridge: the kernel's composed value opened — the final reshape of the second combining call's result array,
  and that array in payload form: the one store's payload of the partial terms, the partial counts and the scalar
  (per-segment totals through the fold matrix, the object mask, the mean of the per-object terms, plus the scalar).
-/
import proofs.«210783_g59777354826199_cont_9to1_m_168_18_alg».proof.Proof.ValueOf
import proofs.«210783_g59777354826199_cont_9to1_m_168_18_alg».proof.Proof.Region0W
import Idealize.ShloMosaic.Lib.Pipeline.Value

noncomputable section

namespace Cert.Proof.KI

open Cert.KernelIdeal Cert.KernelIdeal.Gen
open Idealize.ShloMosaic
open Idealize.ShloMosaic.SparseCore (S V T)

variable (m : (ℓ : Loc nD τ sig) → Buf (Elt Ideal) ℓ)

/-- The kernel's value, the final reshape opened: the second combining call's result array, re-indexed. -/
theorem kernelValue_eq (d : Dev nD) :
    kernelValue MEANSf1 SCALf1 OUTf3 m d
      = shapeCast (main_v8 : Ref sig .tc).ty.shape
          (OUTf3 (F := Ideal) d (dRV (cE m) (cT m) (cK m) (cMV m (dSV (cE m) (cT m) (cK m)) (dCV (cT m) (cK m)) MEANSf1) d) (dCV (cT m) (cK m) d)
            (SCALf1 d (dSV (cE m) (cT m) (cK m) d) (dCV (cT m) (cK m) d)))
          shapeCasts_S1x1_S_ := by
  unfold kernelValue kvV
  show (StableHlo.reshape main_v7 main_v8 rfl shapeCasts_S1x1_S_ : HloOp τ sig (Elt Ideal)).result _ (Proc.devRef .tc (main_v8 : Ref sig .tc)) = _
  rw [StableHlo.reshape_result, V2of_1]

theorem read_blk0 (d : Dev nD) (fR : Buf (Elt Ideal) (aR d)) : View.read (Elt Ideal) ((cfg3.win 0).blk t0).view fR = fR := by
  funext x
  show fR (((cfg3.win 0).blk t0).view.emb x) = fR x
  congr 1
  funext a
  apply Fin.ext
  match a with
  | ⟨0, _⟩ => show win3_0.index t0 (0 : Fin 2) * 32 + 1 * (x 0).val = (x 0).val; have : win3_0.index t0 (0 : Fin 2) = 0 := rfl; omega
  | ⟨1, _⟩ => show win3_0.index t0 (1 : Fin 2) * 1024 + 1 * (x 1).val = (x 1).val; have : win3_0.index t0 (1 : Fin 2) = 0 := rfl; omega

theorem read_blk1 (d : Dev nD) (fC : Buf (Elt Ideal) (aC d)) : View.read (Elt Ideal) ((cfg3.win 1).blk t0).view fC = fC := by
  funext x
  show fC (((cfg3.win 1).blk t0).view.emb x) = fC x
  congr 1
  funext a
  apply Fin.ext
  match a with
  | ⟨0, _⟩ => show win3_1.index t0 (0 : Fin 2) * 32 + 1 * (x 0).val = (x 0).val; have : win3_1.index t0 (0 : Fin 2) = 0 := rfl; omega
  | ⟨1, _⟩ => show win3_1.index t0 (1 : Fin 2) * 1024 + 1 * (x 1).val = (x 1).val; have : win3_1.index t0 (1 : Fin 2) = 0 := rfl; omega

theorem read_blk2 (d : Dev nD) (f41 : Buf (Elt Ideal) (a41 d)) : View.read (Elt Ideal) ((cfg3.win 2).blk t0).view f41 = f41 := by
  funext x
  show f41 (((cfg3.win 2).blk t0).view.emb x) = f41 x
  congr 1
  funext a
  apply Fin.ext
  match a with
  | ⟨0, _⟩ => show win3_2.index t0 (0 : Fin 2) * 1 + 1 * (x 0).val = (x 0).val; have : win3_2.index t0 (0 : Fin 2) = 0 := rfl; omega
  | ⟨1, _⟩ => show win3_2.index t0 (1 : Fin 2) * 1 + 1 * (x 1).val = (x 1).val; have : win3_2.index t0 (1 : Fin 2) = 0 := rfl; omega

theorem z2 : (![0, 0] : Fin 2 → ℕ) = fun _ => 0 := by funext a; match a with | ⟨0, _⟩ => rfl | ⟨1, _⟩ => rfl

/-- The second combining call's result in payload form. -/
theorem OUTf3_eq (d : Dev nD) (fR : Buf (Elt Ideal) (aR d)) (fC : Buf (Elt Ideal) (aC d)) (f41 : Buf (Elt Ideal) (a41 d)) :
    OUTf3 (F := Ideal) d fR fC f41 = k3_pay1 (F := Ideal) (k3_pay4 fC) (k3_pay5 fR fC) (k3_pay6 (F := Ideal)) f41 := by
  unfold OUTf3 out3
  rw [View.canon_unit_zero z2, read_blk0, read_blk1, read_blk2, View.ld_unit_zero z2, View.ld_unit_zero z2, View.ld_unit_zero z2]
  rfl

end Cert.Proof.KI

end
-- ==== Proof.FoldMatrix.lean ====
/-
  Toward the bridge: the combining calls' fold matrix. The kernels build, from two iotas, the 1024 × 64 matrix whose
  entry (r, k) says whether partial-array column r belongs to segment k: floor division of r by 16 (computed as a
  truncating division corrected for sign) compared with k. Entry (r, k) is 1 when r / 16 = k, else 0.
-/
import proofs.«210783_g59777354826199_cont_9to1_m_168_18_alg».proof.Proof.KernelValue
import Idealize.ShloMosaic.PureOps.Ideal.Laws

noncomputable section

namespace Cert.Proof.KI

open Cert.KernelIdeal Cert.KernelIdeal.Gen
open Idealize.ShloMosaic

/-- Floor division of a word by 16, as the kernel computes it (truncating division corrected for sign). -/
def dF (r : BitVec 32) : BitVec 32 :=
  Scalar.select
    (IntOp.andi
      (IntOp.cmpi CmpIPredicate.ne
        (IntOp.subi (BitVec.setWidth 32 (IntOp.cmpi CmpIPredicate.sgt r 0#32)) (BitVec.setWidth 32 (IntOp.cmpi CmpIPredicate.slt r 0#32)))
        (Scalar.subi (Scalar.extui (Scalar.cmpi CmpIPredicate.sgt 16#32 0#32)) (Scalar.extui (Scalar.cmpi CmpIPredicate.slt 16#32 0#32))))
      (IntOp.cmpi CmpIPredicate.ne (IntOp.remsi ArithUnit.vector r 16#32) 0#32))
    (IntOp.subi (IntOp.divsi ArithUnit.vector r 16#32) 1#32)
    (IntOp.divsi ArithUnit.vector r 16#32)

set_option maxRecDepth 100000 in
theorem dF_eq : ∀ r : Fin 1024, dF (BitVec.ofNat 32 r.val) = BitVec.ofNat 32 (r.val / 16) := by
  decide +kernel

theorem ofNat_eq_iff {a b : ℕ} (ha : a < 64) (hb : b < 64) : (BitVec.ofNat 32 a = BitVec.ofNat 32 b) ↔ a = b := by
  constructor
  · intro h
    have := congrArg BitVec.toNat h
    simp only [BitVec.toNat_ofNat] at this
    omega
  · rintro rfl; rfl

/-- THE FOLD MATRIX: entry (r, k) is 1 when row r belongs to segment k (r / 16 = k), else 0. -/
theorem Fmat_apply (i : S1024x64.Idx) : k3_pay3 (F := Ideal) i = if (i 0).val / 16 = (i 1).val then 1 else 0 := by
  unfold k3_pay3
  simp only [sitofp, extui, cmpi, divsi, subi, remsi, andi, select, broadcast]
  have h0 : iota Kind.tc S1024x64 32 [0] iota_S1024x64_d0_w32 i = BitVec.ofNat 32 (i 0).val := by
    show BitVec.ofNat 32 (0 * S1024x64.size 0 + (i 0).val) = _; rw [Nat.zero_mul, Nat.zero_add]
  have h1 : iota Kind.tc S1024x64 32 [1] iota_S1024x64_d1_w32 i = BitVec.ofNat 32 (i 1).val := by
    show BitVec.ofNat 32 (0 * S1024x64.size 1 + (i 1).val) = _; rw [Nat.zero_mul, Nat.zero_add]
  rw [h0, h1]
  show FloatOps.sitofp (F := Ideal) FTy.f32 (BitVec.setWidth 32 (IntOp.cmpi CmpIPredicate.eq (dF (BitVec.ofNat 32 (i 0).val)) (BitVec.ofNat 32 (i 1).val))) = _
  rw [dF_eq ⟨(i 0).val, (i 0).isLt⟩]
  have hr : (i 0).val / 16 < 64 := by have : (i 0).val < 1024 := (i 0).isLt; omega
  have hc : (i 1).val < 64 := (i 1).isLt
  by_cases h : (i 0).val / 16 = (i 1).val
  · rw [if_pos h, h]
    show (((BitVec.setWidth 32 (IntOp.cmpi CmpIPredicate.eq (BitVec.ofNat 32 (i 1).val) (BitVec.ofNat 32 (i 1).val))).toInt : ℝ) : EReal) = 1
    simp [IntOp.cmpi]
  · rw [if_neg h]
    have hne : BitVec.ofNat 32 ((i 0).val / 16) ≠ BitVec.ofNat 32 (i 1).val := fun e => h ((ofNat_eq_iff hr hc).mp e)
    show (((BitVec.setWidth 32 (IntOp.cmpi CmpIPredicate.eq (BitVec.ofNat 32 ((i 0).val / 16)) (BitVec.ofNat 32 (i 1).val))).toInt : ℝ) : EReal) = 0
    have hb : (BitVec.ofNat 32 ((i 0).val / 16) == BitVec.ofNat 32 (i 1).val) = false := beq_eq_false_iff_ne.mpr hne
    simp [IntOp.cmpi, hb]

end Cert.Proof.KI

end
-- ==== Proof.CountsRow.lean ====
/-
  Toward the bridge: the second combining call's per-segment counts row read. Its two matmuls (the ones row against the
  32 × 1024 partial counts, then against the fold matrix) read at an index: element k is the sum, over the partial
  columns r of segment k (r / 16 = k), of the column's total over the 32 workers.
-/
import proofs.«210783_g59777354826199_cont_9to1_m_168_18_alg».proof.Proof.FoldMatrix
import Idealize.ShloMosaic.Lib.ValueIdx

noncomputable section

namespace Cert.Proof.KI

open Cert.KernelIdeal Cert.KernelIdeal.Gen
open Idealize.ShloMosaic Idealize.ShloMosaic.ValueIdx

theorem lhsIdx2 (j : S1x64.Idx) (k : dot_S1x1024_S1024x64_S1x64_1_0_0_1_n_n.contr.Idx) (a : Fin S1x1024.rank) :
    (dot_S1x1024_S1024x64_S1x64_1_0_0_1_n_n.lhsIdx j k a).val = match a with | ⟨0, _⟩ => (j 0).val | ⟨1, _⟩ => (k ⟨0, by decide⟩).val := by
  match a with
  | ⟨0, _⟩ => rfl
  | ⟨1, _⟩ => rfl

theorem rhsIdx2 (j : S1x64.Idx) (k : dot_S1x1024_S1024x64_S1x64_1_0_0_1_n_n.contr.Idx) (a : Fin S1024x64.rank) :
    (dot_S1x1024_S1024x64_S1x64_1_0_0_1_n_n.rhsIdx j k a).val = match a with | ⟨0, _⟩ => (k ⟨0, by decide⟩).val | ⟨1, _⟩ => (j 1).val := by
  match a with
  | ⟨0, _⟩ => rfl
  | ⟨1, _⟩ => rfl

/-- THE COUNTS ROW, the matmuls read: element k of the per-segment counts row is the sum over the 1024 partial columns r
    of the column total over the 32 workers, times the fold matrix's entry (r, k). -/
theorem cntRow_apply (fC : Vec Ideal S32x1024 .f32) (j : S1x64.Idx) :
    k3_pay4 (F := Ideal) fC j
      = ∑ k2 : dot_S1x1024_S1024x64_S1x64_1_0_0_1_n_n.contr.Idx,
          (∑ k1 : dot_S1x32_S32x1024_S1x1024_1_0_0_1_n_n.contr.Idx,
              k3_pay2 (F := Ideal) (dot_S1x32_S32x1024_S1x1024_1_0_0_1_n_n.lhsIdx (dot_S1x1024_S1024x64_S1x64_1_0_0_1_n_n.lhsIdx j k2) k1)
                * fC (dot_S1x32_S32x1024_S1x1024_1_0_0_1_n_n.rhsIdx (dot_S1x1024_S1024x64_S1x64_1_0_0_1_n_n.lhsIdx j k2) k1))
            * k3_pay3 (F := Ideal) (dot_S1x1024_S1024x64_S1x64_1_0_0_1_n_n.rhsIdx j k2) := by
  unfold k3_pay4
  simp only [matmul]
  rw [Ideal.matmul_constant_zero_apply]
  refine Finset.sum_congr rfl fun k2 _ => ?_
  rw [Ideal.matmul_constant_zero_apply]
  refine congrArg (· * _) (Finset.sum_congr rfl fun k1 _ => ?_)
  rw [shapeCast_apply fC shapeCasts_S32x1024_S32x1024 _ _ rfl]

theorem ofBits_one : Ideal.ofBits .f32 0x3F800000#32 = 1 := by simp [Ideal.ofBits, Ideal.ieee, -EReal.coe_mul]; norm_num

theorem ones_apply (i : S1x32.Idx) : k3_pay2 (F := Ideal) i = 1 := by
  show Ideal.ofBits .f32 0x3F800000#32 = 1
  exact ofBits_one

/-- THE COUNTS ROW in coordinates: element k is the sum, over the partial columns r of segment k (r / 16 = k), of the
    column's total over the 32 workers. -/
theorem cntRow_eq (fC : Vec Ideal S32x1024 .f32) (j : S1x64.Idx) :
    k3_pay4 (F := Ideal) fC j
      = ∑ r : Fin 1024, (∑ w : Fin 32, fC (ix2 w r)) * (if r.val / 16 = (j 1).val then 1 else 0) := by
  rw [cntRow_apply]
  refine Fintype.sum_equiv (contrEquiv1 dot_S1x1024_S1024x64_S1x64_1_0_0_1_n_n 1024 rfl rfl) _ _ fun k2 => ?_
  congr 1
  · refine Fintype.sum_equiv (contrEquiv1 dot_S1x32_S32x1024_S1x1024_1_0_0_1_n_n 32 rfl rfl) _ _ fun k1 => ?_
    rw [ones_apply, one_mul]
    refine congrArg fC (funext fun a => Fin.ext ?_)
    match a with
    | ⟨0, _⟩ => rfl
    | ⟨1, _⟩ => rfl
  · rw [Fmat_apply]
    rfl

/-- THE PER-OBJECT TERMS ROW read: element k is the segment's total of the partial terms (over its columns and the 32
    workers) over the segment's count raised to at least 1. -/
theorem termRow_eq (fR fC : Vec Ideal S32x1024 .f32) (j : S1x64.Idx) :
    k3_pay5 (F := Ideal) fR fC j
      = FloatOps.divf (F := Ideal) (φ := .f32)
          (∑ r : Fin 1024, (∑ w : Fin 32, fR (ix2 w r)) * (if r.val / 16 = (j 1).val then 1 else 0))
          (FloatOps.maximumf (F := Ideal) (φ := .f32) (k3_pay4 (F := Ideal) fC j) (Ideal.ofBits .f32 0x3F800000#32)) := by
  unfold k3_pay5
  simp only [matmul]
  show FloatOps.divf (F := Ideal) (φ := .f32) (FloatOps.matmul _ none _ _ _ j) (FloatOps.maximumf (F := Ideal) (φ := .f32) (k3_pay4 (F := Ideal) fC j) _) = _
  congr 1
  rw [Ideal.matmul_constant_zero_apply]
  refine Fintype.sum_equiv (contrEquiv1 dot_S1x1024_S1024x64_S1x64_1_0_0_1_n_n 1024 rfl rfl) _ _ fun k2 => ?_
  congr 1
  · rw [Ideal.matmul_constant_zero_apply]
    refine Fintype.sum_equiv (contrEquiv1 dot_S1x32_S32x1024_S1x1024_1_0_0_1_n_n 32 rfl rfl) _ _ fun k1 => ?_
    rw [ones_apply, one_mul, shapeCast_apply fR shapeCasts_S32x1024_S32x1024 _ _ rfl]
    refine congrArg fR (funext fun a => Fin.ext ?_)
    match a with
    | ⟨0, _⟩ => rfl
    | ⟨1, _⟩ => rfl
  · rw [Fmat_apply]
    rfl

end Cert.Proof.KI

end
-- ==== Proof.KernelPayload.lean ====
/-
  Toward the bridge: the kernel's composed value as ONE payload expression of the three closed-form partial arrays.
-/
import proofs.«210783_g59777354826199_cont_9to1_m_168_18_alg».proof.Proof.CountsRow

noncomputable section

namespace Cert.Proof.KI

open Cert.KernelIdeal Cert.KernelIdeal.Gen
open Idealize.ShloMosaic Idealize.ShloMosaic.ValueIdx
open Idealize.ShloMosaic.SparseCore (S V T)

variable (m : (ℓ : Loc nD τ sig) → Buf (Elt Ideal) ℓ)

/-- THE KERNEL'S VALUE IN PAYLOAD FORM: the reshape of the second combining call's one store — the payload of the
    per-segment counts row, the per-object terms row, the zero row and the first combining call's scalar — over the partial
    terms (against the flattened means table), the partial counts and the partial sums in closed form. -/
theorem kernelValue_payload (d : Dev nD) :
    kernelValue MEANSf1 SCALf1 OUTf3 m d
      = shapeCast (main_v8 : Ref sig .tc).ty.shape
          (k3_pay1 (F := Ideal)
            (k3_pay4 (dCV (cT m) (cK m) d))
            (k3_pay5 (dRV (cE m) (cT m) (cK m) (cMV m (dSV (cE m) (cT m) (cK m)) (dCV (cT m) (cK m)) MEANSf1) d) (dCV (cT m) (cK m) d))
            (k3_pay6 (F := Ideal))
            (SCALf1 d (dSV (cE m) (cT m) (cK m) d) (dCV (cT m) (cK m) d)))
          shapeCasts_S1x1_S_ := by
  rw [kernelValue_eq, OUTf3_eq]

end Cert.Proof.KI

end
-- ==== Proof.OutScalar.lean ====
/-
  Toward the bridge: the second combining call's scalar read — the literal 1.0 times the mean over the object segments of the
  per-object terms, plus the first call's scalar; the two reductions to a scalar read as sums over the 64 segments.
-/
import proofs.«210783_g59777354826199_cont_9to1_m_168_18_alg».proof.Proof.KernelPayload
import Idealize.ShloMosaic.PureOps.Ideal.Laws

noncomputable section

namespace Cert.Proof.KI

open Cert.KernelIdeal Cert.KernelIdeal.Gen
open Idealize.ShloMosaic Idealize.ShloMosaic.ValueIdx

/-- The object mask's bit for segment b: its count is positive and it is not segment 0. -/
def objBit (v37 : FVec Ideal S1x64 .f32) (b : S1x64.Idx) : BitVec 1 :=
  andi (cmpf CmpFPredicate.ogt v37 (k3_pay6 (F := Ideal))) (cmpi CmpIPredicate.sgt (iota Kind.tc S1x64 32 [1] iota_S1x64_d1_w32) (broadcast S1x64 0#32)) b

theorem sum_cast {α : Type} [AddCommMonoid α] {s t : Shape} (x : s.Idx → α) (h : s.ShapeCasts t) :
    ∑ q : t.Idx, shapeCast t x h q = ∑ p : s.Idx, x p := by
  unfold shapeCast
  exact Equiv.sum_comp (Shape.reshapeEquiv h) x

theorem red_total (x : FVec Ideal S1x64 .f32) (hφ : FKind.Formats FTy.f32) (hacc : (0#32 : BitVec FTy.f32.bits) = FKind.add.neutral FTy.f32 hφ) :
    extractAt ![0, 0, 0]
        (shapeCast S1x1x1 (multiReduction FKind.add ([1, 2] : List (Fin S1x1x64.rank)) S1 (shapeCast S1x1x64 x shapeCasts_S1x64_S1x1x64) (0#32) reduces_S1x1x64_S1 hφ hacc)
          shapeCasts_S1_S1x1x1) inpos_S1x1x1_p0_0_0
      = ∑ b : S1x64.Idx, x b := by
  unfold extractAt shapeCast
  rw [Ideal.multiReduction_add_total _ _ _ (fun b => by match b with | ⟨0, _⟩ => rfl)]
  exact Equiv.sum_comp (Shape.reshapeEquiv shapeCasts_S1x64_S1x1x64) x

/-- THE SECOND COMBINING CALL'S SCALAR read: the literal 1.0 times (the sum over the object segments of the per-object
    terms, over the number of object segments raised to at least 1.0), plus the first call's scalar. -/
theorem out_eq (v37 v40 : FVec Ideal S1x64 .f32) (v63 : Vec Ideal S1x1 .f32) (i : S1x1.Idx) :
    k3_pay1 (F := Ideal) v37 v40 (k3_pay6 (F := Ideal)) v63 i
      = FloatOps.addf (F := Ideal) (φ := .f32)
          (Scalar.mulf (F := Ideal) (FloatOps.ofBits FTy.f32 1065353216#32)
            (Scalar.divf (F := Ideal)
              (∑ b : S1x64.Idx, select (objBit v37) v40 (broadcast S1x64 (FloatOps.ofBits (F := Ideal) FTy.f32 0#32)) b)
              (Scalar.maximumf (F := Ideal) (FloatOps.ofBits FTy.f32 1065353216#32)
                (∑ b : S1x64.Idx, sitofp (F := Ideal) FTy.f32 (extui 32 (objBit v37) natLt_1_32) b))))
          (v63 i) := by
  unfold k3_pay1
  simp only [addf, broadcast, red_total]
  rw [shapeCast_apply v63 shapeCasts_S1x1_S1x1 i i rfl]
  rfl

end Cert.Proof.KI

end
-- ==== Proof.Partition.lean ====
/-
  Toward the bridge: the per-worker, per-lane partial counts folded by the second combining call ARE the per-segment voxel
  counts — a worker's voxels of a segment split by lane (16 cells), a segment's 16 partial columns are s·16 + l, and the
  fold matrix selects exactly them.
-/
import proofs.«210783_g59777354826199_cont_9to1_m_168_18_alg».proof.Proof.OutScalar

noncomputable section

namespace Cert.Proof.KI

open Cert.KernelIdeal Cert.KernelIdeal.Gen
open Idealize.ShloMosaic Idealize.ShloMosaic.ValueIdx

variable (t k : S2097152.Idx → BitVec 32)

/-- Worker w's voxel at offset u belongs to segment s. -/
def inSeg (w : Fin 32) (u : Fin 65536) (s : ℕ) : Prop :=
  segV t k (w.val * 65536 + u.val) (by have := w.isLt; have := u.isLt; omega) = s

instance (w : Fin 32) (u : Fin 65536) (s : ℕ) : Decidable (inSeg t k w u s) := by unfold inSeg; infer_instance

/-- A worker's voxels of a segment, lane by lane, are its voxels of the segment. -/
theorem lanes_sum {M : Type} [AddCommMonoid M] (w : Fin 32) (s : ℕ) (f : Fin 65536 → M) :
    ∑ l : Fin 16, ∑ u ∈ cell t k w s l.val, f u = ∑ u ∈ Finset.univ.filter (fun u => inSeg t k w u s), f u := by
  have key := Finset.sum_fiberwise (Finset.univ.filter (fun u : Fin 65536 => inSeg t k w u s))
    (fun u : Fin 65536 => (⟨(w.val * 65536 + u.val) % 16, Nat.mod_lt _ (by norm_num)⟩ : Fin 16)) f
  rw [← key]
  refine Finset.sum_congr rfl fun l _ => Finset.sum_congr ?_ fun _ _ => rfl
  ext u
  unfold cell
  rw [Finset.mem_filter, Finset.mem_filter, Finset.mem_filter]
  constructor
  · rintro ⟨hu, hl, hs⟩
    exact ⟨⟨hu, hs⟩, Fin.ext hl⟩
  · rintro ⟨⟨hu, hs⟩, hl⟩
    exact ⟨hu, congrArg Fin.val hl, hs⟩

/-- The columns of segment s are s·16 + l, l < 16. -/
theorem sum_seg_cols {M : Type} [AddCommMonoid M] (s : Fin 64) (X : Fin 1024 → M) :
    ∑ r ∈ Finset.univ.filter (fun r : Fin 1024 => r.val / 16 = s.val), X r
      = ∑ l : Fin 16, X ⟨s.val * 16 + l.val, by have := s.isLt; have := l.isLt; omega⟩ := by
  refine Finset.sum_bij' (fun r _ => (⟨r.val % 16, Nat.mod_lt _ (by norm_num)⟩ : Fin 16))
    (fun l _ => (⟨s.val * 16 + l.val, by have := s.isLt; have := l.isLt; omega⟩ : Fin 1024)) ?_ ?_ ?_ ?_ ?_
  · intro r _; exact Finset.mem_univ _
  · intro l _
    rw [Finset.mem_filter]
    refine ⟨Finset.mem_univ _, ?_⟩
    show (s.val * 16 + l.val) / 16 = s.val
    have := l.isLt; omega
  · intro r hr
    have h := (Finset.mem_filter.mp hr).2
    apply Fin.ext
    show s.val * 16 + r.val % 16 = r.val
    omega
  · intro l _
    apply Fin.ext
    show (s.val * 16 + l.val) % 16 = l.val
    have := l.isLt; omega
  · intro r hr
    have h := (Finset.mem_filter.mp hr).2
    congr 1
    apply Fin.ext
    show r.val = s.val * 16 + r.val % 16
    omega

/-- THE COUNTS ROW over the partial counts in closed form: segment s's entry is the number of voxels of the segment, counted
    worker by worker. -/
theorem cntRow_cnt (s : Fin 64) (j : S1x64.Idx) (hj : (j 1).val = s.val) :
    k3_pay4 (F := Ideal) (cntArr t k) j = ∑ w : Fin 32, ∑ _u ∈ Finset.univ.filter (fun u => inSeg t k w u s.val), (1 : EReal) := by
  rw [cntRow_eq]
  have h1 : ∀ r : Fin 1024, (∑ w : Fin 32, cntArr t k (ix2 w r)) * (if r.val / 16 = (j 1).val then (1 : EReal) else 0)
      = if r.val / 16 = s.val then (∑ w : Fin 32, ∑ _u ∈ cell t k w (r.val / 16) (r.val % 16), (1 : EReal)) else 0 := by
    intro r
    rw [hj]
    split_ifs
    · rw [mul_one]; rfl
    · rw [mul_zero]
  rw [Finset.sum_congr rfl fun r _ => h1 r, ← Finset.sum_filter, sum_seg_cols s]
  have h2 : ∀ l : Fin 16, (∑ w : Fin 32, ∑ _u ∈ cell t k w ((s.val * 16 + l.val) / 16) ((s.val * 16 + l.val) % 16), (1 : EReal))
      = ∑ w : Fin 32, ∑ _u ∈ cell t k w s.val l.val, (1 : EReal) := by
    intro l
    have e1 : (s.val * 16 + l.val) / 16 = s.val := by have := l.isLt; omega
    have e2 : (s.val * 16 + l.val) % 16 = l.val := by have := l.isLt; omega
    rw [e1, e2]
  rw [Finset.sum_congr rfl fun l _ => h2 l, Finset.sum_comm]
  exact Finset.sum_congr rfl fun w _ => lanes_sum t k w s.val fun _ => (1 : EReal)

end Cert.Proof.KI

end
-- ==== Proof.TermsRow.lean ====
/-
  Toward the bridge: the per-worker, per-lane partial terms folded by the second combining call are, segment by segment,
  the total over the segment's voxels of the squared L1 distance to the means table's entries for (component, segment,
  the voxel's own lane).
-/
import proofs.«210783_g59777354826199_cont_9to1_m_168_18_alg».proof.Proof.Partition

noncomputable section

namespace Cert.Proof.KI

open Cert.KernelIdeal Cert.KernelIdeal.Gen
open Idealize.ShloMosaic Idealize.ShloMosaic.ValueIdx

variable (e : S33554432.Idx → EReal) (t k : S2097152.Idx → BitVec 32) (mt : S16384.Idx → EReal)

/-- A voxel's squared L1 distance to the means table's entries for its segment s and its own lane. -/
def termOf (w : Fin 32) (s : Fin 64) (u : Fin 65536) : EReal :=
  sq (∑ c : Fin 16, eabs (e (flatIx (c.val * 2097152 + w.val * 65536 + u.val) (by have := w.isLt; have := u.isLt; have := c.isLt; omega))
      - mt (flatIx (c.val * 1024 + (s.val * 16 + (w.val * 65536 + u.val) % 16)) (by have := s.isLt; have := c.isLt; have : (w.val * 65536 + u.val) % 16 < 16 := Nat.mod_lt _ (by norm_num); omega))))

theorem flatIx_congr {N n n' : ℕ} (h : n < N) (h' : n' < N) (hn : n = n') : flatIx n h = flatIx n' h' := by subst hn; rfl

/-- THE TERMS ROW's numerator over the partial terms in closed form: segment s's total of its voxels' squared distances. -/
theorem termNum_term (s : Fin 64) :
    (∑ r : Fin 1024, (∑ w : Fin 32, termArr e t k mt (ix2 w r)) * (if r.val / 16 = s.val then (1 : EReal) else 0))
      = ∑ w : Fin 32, ∑ u ∈ Finset.univ.filter (fun u => inSeg t k w u s.val), termOf e mt w s u := by
  have h1 : ∀ r : Fin 1024, (∑ w : Fin 32, termArr e t k mt (ix2 w r)) * (if r.val / 16 = s.val then (1 : EReal) else 0)
      = if r.val / 16 = s.val then (∑ w : Fin 32, termArr e t k mt (ix2 w r)) else 0 := by
    intro r
    split_ifs
    · rw [mul_one]
    · rw [mul_zero]
  rw [Finset.sum_congr rfl fun r _ => h1 r, ← Finset.sum_filter, sum_seg_cols s]
  have h2 : ∀ (l : Fin 16) (w : Fin 32), termArr e t k mt (ix2 w (⟨s.val * 16 + l.val, by have := s.isLt; have := l.isLt; omega⟩ : Fin 1024))
      = ∑ u ∈ cell t k w s.val l.val, termOf e mt w s u := by
    intro l w
    have e1 : (s.val * 16 + l.val) / 16 = s.val := by have := l.isLt; omega
    have e2 : (s.val * 16 + l.val) % 16 = l.val := by have := l.isLt; omega
    show (∑ u ∈ cell t k w ((s.val * 16 + l.val) / 16) ((s.val * 16 + l.val) % 16), _) = _
    rw [e1, e2]
    refine Finset.sum_congr rfl fun u hu => ?_
    have hl : (w.val * 65536 + u.val) % 16 = l.val := ((Finset.mem_filter.mp hu).2).1
    unfold termOf
    refine congrArg sq (Finset.sum_congr rfl fun c _ => ?_)
    refine congrArg eabs ?_
    refine congrArg₂ (· - ·) rfl (congrArg mt (flatIx_congr _ _ ?_))
    show c.val * 1024 + (s.val * 16 + l.val) = c.val * 1024 + (s.val * 16 + (w.val * 65536 + u.val) % 16)
    rw [hl]
  rw [Finset.sum_congr rfl fun l _ => Finset.sum_congr rfl fun w _ => h2 l w, Finset.sum_comm]
  exact Finset.sum_congr rfl fun w _ => lanes_sum t k w s.val fun u => termOf e mt w s u

end Cert.Proof.KI

end
-- ==== Proof.RefSegSum.lean ====
/-
  The reference's four stages the generated read-at-an-index module does not read — three segment sums and one gather by
  segment id — read at an index. At the ideal instance the accumulating scatter is, by definition, the
  operand plus the sum of the updates that land on the element; for the reference's dimension numbers (one scatter
  index per update, the operand's leading axis inserted) an update lands on segment `i` exactly when its signed
  segment id is `i`. So `jax.ops.segment_sum` of per-voxel values is, segment by segment, the sum over the voxels of
  that segment; with a window axis, the same per component. The gather `means[seg]` reads the table at the voxel's
  segment id (clamped into the table) and the element's own component.
-/
import proofs.«210783_g59777354826199_cont_9to1_m_168_18_alg».proof.ReferenceIdeal
import Idealize.ShloMosaic.PureOps.Ideal
import Idealize.ShloMosaic.Lib.ValueIdx

noncomputable section

namespace Cert.ReferenceIdeal.RefValue

open Cert.ReferenceIdeal Idealize.ShloMosaic

variable [Facts]

/-- The one scatter index an update reads: its own position on the updates' axis, component 0. -/
def sidx (j : S2097152.Idx) : S2097152x1.Idx := fun b => match b with
  | ⟨0, _⟩ => j 0
  | ⟨1, _⟩ => ⟨0, Nat.one_pos⟩

theorem start_counts (idx : IVec S2097152x1 32) (j : S2097152.Idx) (a : Fin S64.rank) :
    scatter_S64_S2097152x1_S2097152_n_0_0_1.start j idx a = (idx (sidx j)).toInt := by
  match a with
  | ⟨0, h0⟩ =>
    unfold ScatterDims.start
    have hm : (⟨0, h0⟩ : Fin S64.rank) ∈ scatter_S64_S2097152x1_S2097152_n_0_0_1.scatterDimsToOperandDims :=
      show (⟨0, h0⟩ : Fin S64.rank) ∈ ([0] : List (Fin S64.rank)) from List.mem_singleton.2 rfl
    rw [dif_pos hm]
    congr 2
    funext b
    unfold ScatterDims.siIdx
    match b with
    | ⟨0, hb⟩ =>
      rw [dif_neg (show ¬ ((⟨0, hb⟩ : Fin S2097152x1.rank).val = scatter_S64_S2097152x1_S2097152_n_0_0_1.indexVectorDim) from Nat.zero_ne_one)]
      apply Fin.ext
      unfold ScatterDims.siCoord
      rfl
    | ⟨1, hb⟩ =>
      rw [dif_pos (show ((⟨1, hb⟩ : Fin S2097152x1.rank).val = scatter_S64_S2097152x1_S2097152_n_0_0_1.indexVectorDim) from rfl)]
      apply Fin.ext
      show List.idxOf (⟨0, h0⟩ : Fin S64.rank) ([0] : List (Fin S64.rank)) = 0
      exact List.idxOf_cons_self

theorem window_counts (j : S2097152.Idx) (a : Fin S64.rank) : scatter_S64_S2097152x1_S2097152_n_0_0_1.window j a = 0 := by
  unfold ScatterDims.window
  rw [dif_neg (show a ∉ scatter_S64_S2097152x1_S2097152_n_0_0_1.sKept from by
    show a ∉ ([] : List (Fin S64.rank)); exact List.not_mem_nil)]

/-- An update lands on segment `i` exactly when its (signed) segment id is `i`. -/
theorem resultIdx_counts (idx : IVec S2097152x1 32) (j : S2097152.Idx) (i : S64.Idx) :
    scatter_S64_S2097152x1_S2097152_n_0_0_1.resultIdx? j idx = some i ↔ (idx (sidx j)).toInt = ((i 0).val : Int) := by
  unfold ScatterDims.resultIdx?
  simp only [start_counts, window_counts, Nat.cast_zero, add_zero]
  have hi : (i 0).val < 64 := (i 0).isLt
  constructor
  · intro h
    split at h
    · rename_i hc
      have := congrFun (Option.some.inj h) 0
      have h2 : ((idx (sidx j)).toInt).toNat = (i 0).val := congrArg Fin.val this
      have := (hc 0).1
      omega
    · exact absurd h (by simp)
  · intro h
    have hc : ∀ a : Fin S64.rank, 0 ≤ (idx (sidx j)).toInt ∧ (idx (sidx j)).toInt < (S64.size a : Int) := by
      intro a
      match a with
      | ⟨0, _⟩ => exact ⟨by omega, by show (idx (sidx j)).toInt < 64; omega⟩
    rw [dif_pos hc]
    congr 1
    funext a
    match a with
    | ⟨0, _⟩ => apply Fin.ext; show ((idx (sidx j)).toInt).toNat = (i 0).val; omega

set_option maxRecDepth 65536 in
/-- THE SEGMENT SUM at the ideal instance: element `i` of the accumulating scatter is the operand's plus the sum of the
    updates whose segment id is `i`. -/
theorem segsum_apply (x : FVec Ideal S64 .f32) (idx : IVec S2097152x1 32) (upd : FVec Ideal S2097152 .f32) (i : S64.Idx) :
    Host.scatterAdd (F := Ideal) scatter_S64_S2097152x1_S2097152_n_0_0_1 x idx upd i
      = x i + ∑ j ∈ Finset.univ.filter (fun j : S2097152.Idx => (idx (sidx j)).toInt = ((i 0).val : Int)), upd j := by
  refine (show _ = x i + ∑ j ∈ Finset.univ.filter (fun j : S2097152.Idx => scatter_S64_S2097152x1_S2097152_n_0_0_1.resultIdx? j idx = some i), upd j from rfl).trans ?_
  exact congrArg (x i + ·) (Finset.sum_congr (Finset.filter_congr fun j _ => resultIdx_counts idx j i) fun _ _ => rfl)

/-! ## The same with a window axis: per-segment sums of rows -/

/-- The one scatter index a row's element reads: its voxel's. -/
def sidx2 (j : S2097152x16.Idx) : S2097152x1.Idx := fun b => match b with
  | ⟨0, _⟩ => j 0
  | ⟨1, _⟩ => ⟨0, Nat.one_pos⟩

theorem start_rows (idx : IVec S2097152x1 32) (j : S2097152x16.Idx) (a : Fin S64x16.rank) :
    scatter_S64x16_S2097152x1_S2097152x16_1_0_0_1.start j idx a
      = match a with | ⟨0, _⟩ => (idx (sidx2 j)).toInt | ⟨1, _⟩ => 0 := by
  match a with
  | ⟨0, h0⟩ =>
    unfold ScatterDims.start
    have hm : (⟨0, h0⟩ : Fin S64x16.rank) ∈ scatter_S64x16_S2097152x1_S2097152x16_1_0_0_1.scatterDimsToOperandDims :=
      show (⟨0, h0⟩ : Fin S64x16.rank) ∈ ([0] : List (Fin S64x16.rank)) from List.mem_singleton.2 rfl
    rw [dif_pos hm]
    congr 2
    funext b
    unfold ScatterDims.siIdx
    match b with
    | ⟨0, hb⟩ =>
      rw [dif_neg (show ¬ ((⟨0, hb⟩ : Fin S2097152x1.rank).val = scatter_S64x16_S2097152x1_S2097152x16_1_0_0_1.indexVectorDim) from Nat.zero_ne_one)]
      apply Fin.ext
      unfold ScatterDims.siCoord
      rfl
    | ⟨1, hb⟩ =>
      rw [dif_pos (show ((⟨1, hb⟩ : Fin S2097152x1.rank).val = scatter_S64x16_S2097152x1_S2097152x16_1_0_0_1.indexVectorDim) from rfl)]
      apply Fin.ext
      show List.idxOf (⟨0, h0⟩ : Fin S64x16.rank) ([0] : List (Fin S64x16.rank)) = 0
      exact List.idxOf_cons_self
  | ⟨1, h1⟩ =>
    unfold ScatterDims.start
    rw [dif_neg (show (⟨1, h1⟩ : Fin S64x16.rank) ∉ scatter_S64x16_S2097152x1_S2097152x16_1_0_0_1.scatterDimsToOperandDims from by
      show (⟨1, h1⟩ : Fin S64x16.rank) ∉ ([0] : List (Fin S64x16.rank))
      simp)]

theorem window_rows (j : S2097152x16.Idx) (a : Fin S64x16.rank) :
    scatter_S64x16_S2097152x1_S2097152x16_1_0_0_1.window j a = match a with | ⟨0, _⟩ => 0 | ⟨1, _⟩ => (j 1).val := by
  match a with
  | ⟨0, h0⟩ =>
    unfold ScatterDims.window
    rw [dif_neg (show (⟨0, h0⟩ : Fin S64x16.rank) ∉ scatter_S64x16_S2097152x1_S2097152x16_1_0_0_1.sKept from by
      show (⟨0, h0⟩ : Fin S64x16.rank) ∉ ([1] : List (Fin S64x16.rank)); simp)]
  | ⟨1, h1⟩ =>
    unfold ScatterDims.window
    rw [dif_pos (show (⟨1, h1⟩ : Fin S64x16.rank) ∈ scatter_S64x16_S2097152x1_S2097152x16_1_0_0_1.sKept from by
      show (⟨1, h1⟩ : Fin S64x16.rank) ∈ ([1] : List (Fin S64x16.rank)); simp)]
    rfl

/-- A row's element lands on (segment, component) `i` exactly when its voxel's segment id is the segment and its
    component the component. -/
theorem resultIdx_rows (idx : IVec S2097152x1 32) (j : S2097152x16.Idx) (i : S64x16.Idx) :
    scatter_S64x16_S2097152x1_S2097152x16_1_0_0_1.resultIdx? j idx = some i
      ↔ (idx (sidx2 j)).toInt = ((i 0).val : Int) ∧ (j 1).val = (i 1).val := by
  unfold ScatterDims.resultIdx?
  have hi0 : (i 0).val < 64 := (i 0).isLt
  have hi1 : (i 1).val < 16 := (i 1).isLt
  have hj1 : (j 1).val < 16 := (j 1).isLt
  have s0 := start_rows idx j ⟨0, by decide⟩
  have s1 := start_rows idx j ⟨1, by decide⟩
  have w0 := window_rows j ⟨0, by decide⟩
  have w1 := window_rows j ⟨1, by decide⟩
  dsimp only at s0 s1 w0 w1
  constructor
  · intro h
    split at h
    · rename_i hc
      have e0 := congrArg Fin.val (congrFun (Option.some.inj h) ⟨0, by decide⟩)
      have e1 := congrArg Fin.val (congrFun (Option.some.inj h) ⟨1, by decide⟩)
      have c0 := (hc ⟨0, by decide⟩).1
      simp only [s0, w0, Nat.cast_zero, add_zero] at e0 c0
      simp only [s1, w1, zero_add, Int.toNat_natCast] at e1
      exact ⟨by have : ((idx (sidx2 j)).toInt).toNat = (i 0).val := e0; omega, e1⟩
    · exact absurd h (by simp)
  · rintro ⟨h0, h1⟩
    have hc : ∀ a : Fin S64x16.rank, 0 ≤ scatter_S64x16_S2097152x1_S2097152x16_1_0_0_1.start j idx a + (scatter_S64x16_S2097152x1_S2097152x16_1_0_0_1.window j a : Int)
        ∧ scatter_S64x16_S2097152x1_S2097152x16_1_0_0_1.start j idx a + (scatter_S64x16_S2097152x1_S2097152x16_1_0_0_1.window j a : Int) < (S64x16.size a : Int) := by
      intro a
      match a with
      | ⟨0, _⟩ => rw [s0, w0]; exact ⟨by omega, by show (idx (sidx2 j)).toInt + ((0 : ℕ) : Int) < 64; omega⟩
      | ⟨1, _⟩ => rw [s1, w1]; exact ⟨by omega, by show (0 : Int) + ((j 1).val : Int) < 16; omega⟩
    rw [dif_pos hc]
    congr 1
    funext a
    match a with
    | ⟨0, g0⟩ => apply Fin.ext; show (scatter_S64x16_S2097152x1_S2097152x16_1_0_0_1.start j idx ⟨0, g0⟩ + (scatter_S64x16_S2097152x1_S2097152x16_1_0_0_1.window j ⟨0, g0⟩ : Int)).toNat = (i 0).val; rw [s0, w0]; omega
    | ⟨1, g1⟩ => apply Fin.ext; show (scatter_S64x16_S2097152x1_S2097152x16_1_0_0_1.start j idx ⟨1, g1⟩ + (scatter_S64x16_S2097152x1_S2097152x16_1_0_0_1.window j ⟨1, g1⟩ : Int)).toNat = (i 1).val; rw [s1, w1]; omega

set_option maxRecDepth 65536 in
/-- THE SEGMENT SUM OF ROWS at the ideal instance: element (segment, component) is the operand's plus the sum, over the
    voxels of that segment, of that component. -/
theorem segsum_rows_apply (x : FVec Ideal S64x16 .f32) (idx : IVec S2097152x1 32) (upd : FVec Ideal S2097152x16 .f32) (i : S64x16.Idx) :
    Host.scatterAdd (F := Ideal) scatter_S64x16_S2097152x1_S2097152x16_1_0_0_1 x idx upd i
      = x i + ∑ j ∈ Finset.univ.filter (fun j : S2097152x16.Idx => (idx (sidx2 j)).toInt = ((i 0).val : Int) ∧ (j 1).val = (i 1).val), upd j := by
  refine (show _ = x i + ∑ j ∈ Finset.univ.filter (fun j : S2097152x16.Idx => scatter_S64x16_S2097152x1_S2097152x16_1_0_0_1.resultIdx? j idx = some i), upd j from rfl).trans ?_
  exact congrArg (x i + ·) (Finset.sum_congr (Finset.filter_congr fun j _ => resultIdx_rows idx j i) fun _ _ => rfl)

/-! ## The gather of the means by segment id -/

/-- The operand index a gathered row's element reads: its voxel's segment id, read signed and clamped into [0, 63], and
    its own component. -/
def gidx (idx : IVec S2097152x1 32) (y : S2097152x16.Idx) : S64x16.Idx := fun a => match a with
  | ⟨0, _⟩ => ⟨min (idx (sidx2 y)).toInt.toNat 63, by show min _ 63 < 64; omega⟩
  | ⟨1, _⟩ => y 1

/-- THE GATHER READ AT (voxel, component): the table at the voxel's (clamped) segment id and that component. -/
theorem gather_rows_apply {α : Type} (x : S64x16.Idx → α) (idx : IVec S2097152x1 32) (y : S2097152x16.Idx) :
    Host.gather gather_S64x16_S2097152x1_S2097152x16_1_0_n_n_0_1_116 x idx y = x (gidx idx y) := by
  unfold Host.gather
  congr 1
  funext a
  refine Fin.ext ?_
  match a with
  | ⟨0, h0⟩ =>
    show gather_S64x16_S2097152x1_S2097152x16_1_0_n_n_0_1_116.start y idx ⟨0, h0⟩ + gather_S64x16_S2097152x1_S2097152x16_1_0_n_n_0_1_116.batchCoord y ⟨0, h0⟩
      + gather_S64x16_S2097152x1_S2097152x16_1_0_n_n_0_1_116.offCoord y ⟨0, h0⟩ = _
    rw [GatherDims.batchCoord_eq_zero _ _ _ (show (⟨0, h0⟩ : Fin S64x16.rank) ∉ ([] : List (Fin S64x16.rank)) from List.not_mem_nil),
      GatherDims.offCoord_eq_zero _ _ _ (fun h => ((GatherDims.mem_sKept _ _).mp h).1 (show (⟨0, h0⟩ : Fin S64x16.rank) ∈ ([0] : List (Fin S64x16.rank)) from List.mem_singleton.mpr rfl))]
    simp only [Nat.add_zero]
    unfold GatherDims.start
    rw [dif_pos (show (⟨0, h0⟩ : Fin S64x16.rank) ∈ gather_S64x16_S2097152x1_S2097152x16_1_0_n_n_0_1_116.startIndexMap from
      show (⟨0, h0⟩ : Fin S64x16.rank) ∈ ([0] : List (Fin S64x16.rank)) from List.mem_singleton.mpr rfl)]
    have hsi : gather_S64x16_S2097152x1_S2097152x16_1_0_n_n_0_1_116.siIdx y ⟨List.idxOf (⟨0, h0⟩ : Fin S64x16.rank) gather_S64x16_S2097152x1_S2097152x16_1_0_n_n_0_1_116.startIndexMap,
        List.idxOf_lt_length_iff.2 (show (⟨0, h0⟩ : Fin S64x16.rank) ∈ ([0] : List (Fin S64x16.rank)) from List.mem_singleton.mpr rfl)⟩ = sidx2 y := by
      funext b; refine Fin.ext ?_
      match b with
      | ⟨0, _⟩ => rfl
      | ⟨1, _⟩ => rfl
    rw [hsi]
    rfl
  | ⟨1, h1⟩ =>
    show gather_S64x16_S2097152x1_S2097152x16_1_0_n_n_0_1_116.start y idx ⟨1, h1⟩ + gather_S64x16_S2097152x1_S2097152x16_1_0_n_n_0_1_116.batchCoord y ⟨1, h1⟩
      + gather_S64x16_S2097152x1_S2097152x16_1_0_n_n_0_1_116.offCoord y ⟨1, h1⟩ = _
    rw [GatherDims.batchCoord_eq_zero _ _ _ (show (⟨1, h1⟩ : Fin S64x16.rank) ∉ ([] : List (Fin S64x16.rank)) from List.not_mem_nil)]
    unfold GatherDims.start
    rw [dif_neg (show (⟨1, h1⟩ : Fin S64x16.rank) ∉ gather_S64x16_S2097152x1_S2097152x16_1_0_n_n_0_1_116.startIndexMap from by
      show (⟨1, h1⟩ : Fin S64x16.rank) ∉ ([0] : List (Fin S64x16.rank)); simp)]
    unfold GatherDims.offCoord
    rw [dif_pos (show (⟨1, h1⟩ : Fin S64x16.rank) ∈ gather_S64x16_S2097152x1_S2097152x16_1_0_n_n_0_1_116.sKept from by
      show (⟨1, h1⟩ : Fin S64x16.rank) ∈ ([1] : List (Fin S64x16.rank)); simp)]
    simp only [Nat.zero_add, Nat.add_zero]
    rfl

end Cert.ReferenceIdeal.RefValue

end
-- ==== Proof.RefSpec.lean ====
/-
  The reference's first stages in closed form, at the ideal instance: the segment id of a flattened voxel, the per-segment
  counts and the per-segment sums of the embedding's components, each as a sum over the voxels of the segment.
-/
import proofs.«210783_g59777354826199_cont_9to1_m_168_18_alg».proof.Proof.RefRead
import proofs.«210783_g59777354826199_cont_9to1_m_168_18_alg».proof.Proof.RefSegSum

noncomputable section

namespace Cert.ReferenceIdeal.RefValue

open Cert.ReferenceIdeal Cert.ReferenceIdeal.Gen Cert.ReferenceIdeal.ReadP Idealize.ShloMosaic

/-- The segment id of flattened voxel `j`: its target id where its mask is positive, else 0 (a signed word). -/
def seg (x1 x2 : (⟨S1x1x32x256x256, .i32⟩ : BufTy).Contents (Elt Ideal)) (j : S2097152.Idx) : BitVec 32 :=
  val_main_v4 (F := Ideal) x1 x2 j

theorem idx10_sidx (j : S2097152.Idx) : idx_main_v10 (sidx j) = j := by
  funext a
  match a with
  | ⟨0, _⟩ => rfl

/-- THE COUNTS: segment `k`'s is the zero literal plus one (the literal 1.0) per voxel of the segment. -/
theorem counts_apply (x1 x2 : (⟨S1x1x32x256x256, .i32⟩ : BufTy).Contents (Elt Ideal)) (k : S64.Idx) :
    val_main_v11 (F := Ideal) x1 x2 k
      = val_main_cst_0 (F := Ideal) (idx_main_v9 k)
        + ∑ j ∈ Finset.univ.filter (fun j : S2097152.Idx => (seg x1 x2 j).toInt = ((k 0).val : Int)), val_main_cst (F := Ideal) (idx_main_v8 j) := by
  unfold val_main_v11
  rw [segsum_apply, val_main_v9_apply]
  refine congrArg (_ + ·) (Finset.sum_congr (Finset.filter_congr fun j _ => ?_) fun j _ => val_main_v8_apply j)
  rw [val_main_v10_apply, idx10_sidx]
  rfl

/-- The voxel of a (voxel, component) index. -/
def vox (j : S2097152x16.Idx) : S2097152.Idx := fun a => match a with
  | ⟨0, _⟩ => ⟨(j 0).val, (j 0).isLt⟩

theorem idx13_sidx2 (j : S2097152x16.Idx) : idx_main_v13 (sidx2 j) = vox j := by
  funext a
  match a with
  | ⟨0, _⟩ => rfl

/-- THE SUMS: (segment `k`, component `c`)'s is the zero literal plus that component of the (transposed, flattened)
    embedding over the voxels of the segment. -/
theorem sums_apply (x0 : (⟨S1x16x32x256x256, .f32⟩ : BufTy).Contents (Elt Ideal)) (x1 x2 : (⟨S1x1x32x256x256, .i32⟩ : BufTy).Contents (Elt Ideal)) (i : S64x16.Idx) :
    val_main_v14 (F := Ideal) x0 x1 x2 i
      = val_main_cst_1 (F := Ideal) (idx_main_v12 i)
        + ∑ j ∈ Finset.univ.filter (fun j : S2097152x16.Idx => (seg x1 x2 (vox j)).toInt = ((i 0).val : Int) ∧ (j 1).val = (i 1).val),
            val_main_v7 (F := Ideal) x0 j := by
  unfold val_main_v14
  rw [segsum_rows_apply, val_main_v12_apply]
  refine congrArg (_ + ·) (Finset.sum_congr (Finset.filter_congr fun j _ => ?_) fun j _ => rfl)
  rw [val_main_v13_apply, idx13_sidx2]
  rfl

/-- A (segment, component) index's segment. -/
def segOf (i : S64x16.Idx) : S64.Idx := fun a => match a with
  | ⟨0, _⟩ => ⟨(i 0).val, (i 0).isLt⟩

theorem idx17_18 (i : S64x16.Idx) : idx_main_v17 (idx_main_v18 i) = segOf i := by
  funext a
  match a with
  | ⟨0, _⟩ => rfl

/-- THE MEANS: (segment, component)'s is the segment's sum of that component over the segment's count, the count raised
    to at least the literal 1.0. -/
theorem means_apply (x0 : (⟨S1x16x32x256x256, .f32⟩ : BufTy).Contents (Elt Ideal)) (x1 x2 : (⟨S1x1x32x256x256, .i32⟩ : BufTy).Contents (Elt Ideal)) (i : S64x16.Idx) :
    val_main_v19 (F := Ideal) x0 x1 x2 i
      = FloatOps.hostDivf (F := Ideal) (φ := .f32) (val_main_v14 (F := Ideal) x0 x1 x2 i)
          (FloatOps.maximumf (F := Ideal) (φ := .f32) (val_main_v11 (F := Ideal) x1 x2 (segOf i)) (val_main_v15 (F := Ideal) (segOf i))) := by
  rw [val_main_v19_apply, val_main_v18_apply, val_main_v17_apply, val_main_v16_apply, idx17_18]

theorem idx33_sidx2 (j : S2097152x16.Idx) : idx_main_v33 (sidx2 j) = vox j := by
  funext a
  match a with
  | ⟨0, _⟩ => rfl

/-- The index the gather reads for a voxel: its segment id, a negative one wrapped by 64. -/
theorem gather_index (x1 x2 : (⟨S1x1x32x256x256, .i32⟩ : BufTy).Contents (Elt Ideal)) (y : S2097152x16.Idx) :
    val_main_v33 (F := Ideal) x1 x2 (sidx2 y)
      = Scalar.select (IntOp.cmpi .slt (seg x1 x2 (vox y)) (val_main_v28 (F := Ideal) (vox y)))
          (IntOp.addi (seg x1 x2 (vox y)) (val_main_v30 (F := Ideal) (vox y))) (seg x1 x2 (vox y)) := by
  rw [val_main_v33_apply, idx33_sidx2, val_main_v32_apply, val_main_v29_apply, val_main_v31_apply]
  rfl

/-- THE GATHERED MEANS: (voxel, component)'s is the means table at the voxel's gather index (clamped into the table) and
    that component. -/
theorem gathered_apply (x0 : (⟨S1x16x32x256x256, .f32⟩ : BufTy).Contents (Elt Ideal)) (x1 x2 : (⟨S1x1x32x256x256, .i32⟩ : BufTy).Contents (Elt Ideal)) (y : S2097152x16.Idx) :
    val_main_v34 (F := Ideal) x0 x1 x2 y = val_main_v19 (F := Ideal) x0 x1 x2 (gidx (val_main_v33 (F := Ideal) x1 x2) y) := by
  unfold val_main_v34
  exact gather_rows_apply _ _ y

/-- THE PER-VOXEL DISTANCE: the sum over the sixteen components of |embedding − gathered mean|, from the zero literal,
    less the zero literal. -/
theorem dist_apply (x0 : (⟨S1x16x32x256x256, .f32⟩ : BufTy).Contents (Elt Ideal)) (x1 x2 : (⟨S1x1x32x256x256, .i32⟩ : BufTy).Contents (Elt Ideal)) (j : S2097152.Idx) :
    val_main_v39 (F := Ideal) x0 x1 x2 j
      = FloatOps.subf (F := Ideal) (φ := .f32)
          ((val_main_cst_8 (F := Ideal)) (Shape.Idx.first h_S_)
            + ∑ c : Fin 16, FloatOps.hostAbsf (F := Ideal) (φ := .f32)
                (FloatOps.subf (F := Ideal) (φ := .f32) (val_main_v7 (F := Ideal) x0 (idx_main_v37 j c)) (val_main_v34 (F := Ideal) x0 x1 x2 (idx_main_v37 j c))))
          (val_main_v38 (F := Ideal) j) := by
  rw [val_main_v39_apply, val_main_v37_apply]
  simp only [val_main_v36_apply, val_main_v35_apply]

theorem idx44_sidx (j : S2097152.Idx) : idx_main_v44 (sidx j) = j := by
  funext a
  match a with
  | ⟨0, _⟩ => rfl

/-- THE PER-SEGMENT SUM OF SQUARED DISTANCES: segment `k`'s is the zero literal plus, over the voxels of the segment, the
    square of the distance raised to at least the zero literal. -/
theorem sqsum_apply (x0 : (⟨S1x16x32x256x256, .f32⟩ : BufTy).Contents (Elt Ideal)) (x1 x2 : (⟨S1x1x32x256x256, .i32⟩ : BufTy).Contents (Elt Ideal)) (k : S64.Idx) :
    val_main_v45 (F := Ideal) x0 x1 x2 k
      = val_main_cst_11 (F := Ideal) (idx_main_v43 k)
        + ∑ j ∈ Finset.univ.filter (fun j : S2097152.Idx => (seg x1 x2 j).toInt = ((k 0).val : Int)),
            FloatOps.mulf (F := Ideal) (φ := .f32)
              (FloatOps.maximumf (F := Ideal) (φ := .f32) (val_main_v39 (F := Ideal) x0 x1 x2 j) (val_main_v40 (F := Ideal) j))
              (FloatOps.maximumf (F := Ideal) (φ := .f32) (val_main_v39 (F := Ideal) x0 x1 x2 j) (val_main_v40 (F := Ideal) j)) := by
  unfold val_main_v45
  rw [segsum_apply, val_main_v43_apply]
  refine congrArg (_ + ·) (Finset.sum_congr (Finset.filter_congr fun j _ => ?_) fun j _ => by rw [val_main_v42_apply, val_main_v41_apply])
  rw [val_main_v44_apply, idx44_sidx]
  rfl

end Cert.ReferenceIdeal.RefValue

end
-- ==== Proof.RefSeg.lean ====
/-
  Toward the bridge: the reference's segment id of a voxel read signed — the target id where the mask is positive, else 0
  (a small id times the widened comparison bit) — the same function of the two words as the kernels' select.
-/
import proofs.«210783_g59777354826199_cont_9to1_m_168_18_alg».proof.Proof.RefSpec

noncomputable section

namespace Cert.ReferenceIdeal.RefValue

open Cert.ReferenceIdeal Cert.ReferenceIdeal.Gen Cert.ReferenceIdeal.ReadP Idealize.ShloMosaic

/-- A small target id times "the mask is positive", read signed: the id where the mask is positive, else 0. -/
theorem muli_mask (a b : BitVec 32) (ha : a.toNat ≤ 63) :
    (IntOp.muli a ((IntOp.cmpi .sgt b 0#32).setWidth 32)).toInt = ((if 0 < b.toInt then a.toNat else 0 : ℕ) : ℤ) := by
  have andi_ofBool (p : Bool) : (BitVec.ofBool p).setWidth 32 = if p then 1#32 else 0#32 := by cases p <;> rfl
  simp only [IntOp.cmpi, andi_ofBool]
  by_cases h : 0 < b.toInt
  · have hb : (0#32).slt b = true := by simp [BitVec.slt, h]
    rw [if_pos h]
    simp only [hb, if_true]
    show (a * 1#32).toInt = _
    rw [BitVec.mul_one, BitVec.toInt_eq_toNat_cond]
    have : 2 * a.toNat < 4294967296 := by omega
    simp [this]
  · have hb : (0#32).slt b = false := by simp [BitVec.slt, h]
    rw [if_neg h]
    simp only [hb]
    show (a * 0#32).toInt = _
    simp

/-- THE REFERENCE'S SEGMENT ID, read signed: the voxel's target id (small) where its mask is positive, else 0. -/
theorem seg_eq (x1 x2 : (⟨S1x1x32x256x256, .i32⟩ : BufTy).Contents (Elt Ideal)) (j : S2097152.Idx)
    (ht : (x1 (idx_main_v4 j) : BitVec 32).toNat ≤ 63) :
    (seg x1 x2 j).toInt
      = ((if 0 < (x2 (idx_main_v4 j) : BitVec 32).toInt then (x1 (idx_main_v4 j) : BitVec 32).toNat else 0 : ℕ) : ℤ) := by
  unfold seg
  rw [val_main_v4_apply, val_main_v3_apply, val_main_v2_apply, val_main_v1_apply, val_main_v0_apply]
  exact muli_mask _ _ ht

end Cert.ReferenceIdeal.RefValue

end
-- ==== Proof.RefCounts.lean ====
/-
  Toward the bridge: the voxels as (worker, offset) pairs, and the reference's per-segment counts written worker by worker —
  the form the kernel's folded partial counts take (Partition.lean).
-/
import proofs.«210783_g59777354826199_cont_9to1_m_168_18_alg».proof.Proof.TermsRow
import proofs.«210783_g59777354826199_cont_9to1_m_168_18_alg».proof.Proof.RefSeg

noncomputable section

namespace Cert.Proof.KI

open Idealize.ShloMosaic Idealize.ShloMosaic.ValueIdx

/-- The voxels as (worker, offset) pairs. -/
def voxEquiv : (Fin 32 × Fin 65536) ≃ Cert.ReferenceIdeal.S2097152.Idx where
  toFun p := flatIx (p.1.val * 65536 + p.2.val) (by have := p.1.isLt; have := p.2.isLt; omega)
  invFun j := (⟨(j 0).val / 65536, by have : (j 0).val < 2097152 := (j 0).isLt; omega⟩, ⟨(j 0).val % 65536, Nat.mod_lt _ (by norm_num)⟩)
  left_inv p := by
    have h1 := p.1.isLt; have h2 := p.2.isLt
    refine Prod.ext (Fin.ext ?_) (Fin.ext ?_)
    · show (p.1.val * 65536 + p.2.val) / 65536 = p.1.val; omega
    · show (p.1.val * 65536 + p.2.val) % 65536 = p.2.val; omega
  right_inv j := by
    funext a
    match a with
    | ⟨0, _⟩ => apply Fin.ext; show (j 0).val / 65536 * 65536 + (j 0).val % 65536 = (j 0).val; omega

/-- A sum over the voxels of a predicate's support, worker by worker. -/
theorem sum_voxels {M : Type} [AddCommMonoid M] (P : Cert.ReferenceIdeal.S2097152.Idx → Prop) [DecidablePred P] (f : Cert.ReferenceIdeal.S2097152.Idx → M) :
    ∑ j ∈ Finset.univ.filter P, f j
      = ∑ w : Fin 32, ∑ u ∈ Finset.univ.filter (fun u : Fin 65536 => P (voxEquiv (w, u))), f (voxEquiv (w, u)) := by
  rw [Finset.sum_filter, ← Equiv.sum_comp voxEquiv, Fintype.sum_prod_type]
  exact Finset.sum_congr rfl fun w _ => (Finset.sum_filter _ _).symm

open Cert.ReferenceIdeal Cert.ReferenceIdeal.Gen Cert.ReferenceIdeal.ReadP Cert.ReferenceIdeal.RefValue in
/-- The reference's segment of a voxel, as a natural number. -/
def segRef (x1 x2 : (⟨Cert.ReferenceIdeal.S1x1x32x256x256, .i32⟩ : BufTy).Contents (Elt Ideal)) (j : Cert.ReferenceIdeal.S2097152.Idx) : ℕ :=
  if 0 < (x2 (Cert.ReferenceIdeal.ReadP.idx_main_v4 j) : BitVec 32).toInt then (x1 (Cert.ReferenceIdeal.ReadP.idx_main_v4 j) : BitVec 32).toNat else 0

open Cert.ReferenceIdeal Cert.ReferenceIdeal.Gen Cert.ReferenceIdeal.ReadP Cert.ReferenceIdeal.RefValue in
/-- THE REFERENCE'S COUNTS, worker by worker: segment k's is the zero literal plus the literal 1.0 per voxel of the segment. -/
theorem ref_counts (x1 x2 : (⟨S1x1x32x256x256, .i32⟩ : BufTy).Contents (Elt Ideal)) (kk : S64.Idx)
    (hT : ∀ j : S2097152.Idx, (x1 (idx_main_v4 j) : BitVec 32).toNat ≤ 63) :
    val_main_v11 (F := Ideal) x1 x2 kk
      = val_main_cst_0 (F := Ideal) (idx_main_v9 kk)
        + ∑ w : Fin 32, ∑ u ∈ Finset.univ.filter (fun u : Fin 65536 => segRef x1 x2 (voxEquiv (w, u)) = (kk 0).val),
            val_main_cst (F := Ideal) (idx_main_v8 (voxEquiv (w, u))) := by
  rw [counts_apply]
  refine congrArg (_ + ·) ?_
  have hp : ∀ j : S2097152.Idx, ((seg x1 x2 j).toInt = ((kk 0).val : ℤ)) ↔ segRef x1 x2 j = (kk 0).val := by
    intro j
    rw [seg_eq x1 x2 j (hT j)]
    exact Nat.cast_inj
  rw [Finset.filter_congr fun j _ => hp j]
  exact sum_voxels _ _

end Cert.Proof.KI

end
-- ==== Proof.InputsI.lean ====
/-
  Toward the bridge: the flattened inputs the SparseCore calls read are the arguments re-indexed (the three host reshapes
  opened): the embedding, the target ids and the mask.
-/
import proofs.«210783_g59777354826199_cont_9to1_m_168_18_alg».proof.Proof.PreI

noncomputable section

namespace Cert.Proof.KI

open Cert.KernelIdeal Cert.KernelIdeal.Gen
open Idealize.ShloMosaic Idealize.SL.Sem

variable {F : FTy → Type} [FloatOps F]
variable (m : (ℓ : Loc nD τ sig) → Buf (Elt F) ℓ)

/-- The flattened embedding is the first argument's words, re-indexed. -/
theorem cE_eq (d : Dev nD) : cE m d = shapeCast (main_v0 : Ref sig .tc).ty.shape (m (xLoc0 d)) shapeCasts_S1x16x32x256x256_S33554432 := by
  show (op2 (F := F)).result ((op1 (F := F)).result ((op0 (F := F)).result (V0 m d))) (r main_v0) = _
  rw [(op2 (F := F)).result_of_not_mem _ (show r main_v0 ∉ ({r main_v2} : Finset (DevRef τ sig)) by decide),
    (op1 (F := F)).result_of_not_mem _ (show r main_v0 ∉ ({r main_v1} : Finset (DevRef τ sig)) by decide)]
  show (StableHlo.reshape main_arg0 main_v0 rfl shapeCasts_S1x16x32x256x256_S33554432 : HloOp τ sig (Elt F)).result _ (Proc.devRef .tc (main_v0 : Ref sig .tc)) = _
  rw [StableHlo.reshape_result]
  rfl

/-- The flattened mask is the third argument's words, re-indexed. -/
theorem cK_eq (d : Dev nD) : cK m d = shapeCast (main_v2 : Ref sig .tc).ty.shape (m (xLoc2 d)) shapeCasts_S1x1x32x256x256_S2097152 := by
  show (op2 (F := F)).result ((op1 (F := F)).result ((op0 (F := F)).result (V0 m d))) (r main_v2) = _
  show (StableHlo.reshape main_arg2 main_v2 rfl shapeCasts_S1x1x32x256x256_S2097152 : HloOp τ sig (Elt F)).result _ (Proc.devRef .tc (main_v2 : Ref sig .tc)) = _
  rw [StableHlo.reshape_result, (op1 (F := F)).result_of_not_mem _ (show r main_arg2 ∉ ({r main_v1} : Finset (DevRef τ sig)) by decide),
    (op0 (F := F)).result_of_not_mem _ (show r main_arg2 ∉ ({r main_v0} : Finset (DevRef τ sig)) by decide)]
  rfl

end Cert.Proof.KI

end
-- ==== Proof.CountsAgree.lean ====
/-
  Toward the bridge: THE COUNTS AGREE. The kernels' segment of a voxel (from the flattened target ids and mask) is the
  reference's (from the arguments, through the same row-major flattening); hence the second combining call's counts row
  over the kernel's partial counts is the reference's per-segment counts.
-/
import proofs.«210783_g59777354826199_cont_9to1_m_168_18_alg».proof.Proof.RefCounts
import proofs.«210783_g59777354826199_cont_9to1_m_168_18_alg».proof.Proof.InputsI

noncomputable section

namespace Cert.Proof.KI

open Idealize.ShloMosaic Idealize.ShloMosaic.ValueIdx
open Cert.KernelIdeal Cert.KernelIdeal.Gen

/-- The flattening of a [1,1,32,256,256] array read at a voxel: the array at the voxel's coordinates. -/
theorem flat5_apply {α : Type} (y : S1x1x32x256x256.Idx → α) (i : S2097152.Idx) :
    shapeCast S2097152 y shapeCasts_S1x1x32x256x256_S2097152 i = y (Cert.ReferenceIdeal.ReadP.idx_main_v4 i) :=
  shapeCast_apply y shapeCasts_S1x1x32x256x256_S2097152 i (Cert.ReferenceIdeal.ReadP.idx_main_v4 i)
    (by rewrite [Shape.rowMajor_val_five, Shape.rowMajor_val_one]; have h0 : (i 0).val < 2097152 := (i 0).isLt; show (((0 * 1 + 0) * 32 + ((i 0).val) / 65536 % 32) * 256 + ((i 0).val) / 256 % 256) * 256 + ((i 0).val) % 256 = (i 0).val; omega)

variable (m : (ℓ : Loc nD τ sig) → Buf (Elt Ideal) ℓ)

/-- THE SEGMENTS AGREE: the kernels' segment of worker w's voxel u (from the flattened target ids and mask) is the
    reference's segment of that voxel (from the arguments). -/
theorem seg_agree (d : Dev nD) (w : Fin 32) (u : Fin 65536) :
    segV (cT m d) (cK m d) (w.val * 65536 + u.val) (by have := w.isLt; have := u.isLt; omega)
      = segRef (m (xLoc1 d)) (m (xLoc2 d)) (voxEquiv (w, u)) := by
  unfold segV segRef
  rw [cT_eq, cK_eq]
  show (if 0 < (shapeCast S2097152 (m (xLoc2 d)) shapeCasts_S1x1x32x256x256_S2097152 (voxEquiv (w, u)) : BitVec 32).toInt
      then (shapeCast S2097152 (m (xLoc1 d)) shapeCasts_S1x1x32x256x256_S2097152 (voxEquiv (w, u)) : BitVec 32).toNat else 0) = _
  rw [flat5_apply, flat5_apply]

theorem lit0 (i : Cert.ReferenceIdeal.S_.Idx) : Cert.ReferenceIdeal.ReadP.val_main_cst_0 (F := Ideal) i = 0 := by
  show Ideal.ofBits .f32 0x00000000#32 = 0
  exact Ideal.ofBits_zero_f32

theorem lit1 (i : Cert.ReferenceIdeal.S_.Idx) : Cert.ReferenceIdeal.ReadP.val_main_cst (F := Ideal) i = 1 := by
  show Ideal.ofBits .f32 0x3F800000#32 = 1
  exact ofBits_one

/-- THE COUNTS AGREE: the second combining call's counts row over the kernel's partial counts is the reference's
    per-segment counts of the arguments. -/
theorem counts_agree (d : Dev nD) (s : Fin 64) (j : S1x64.Idx) (hj : (j 1).val = s.val) (kk : Cert.ReferenceIdeal.S64.Idx) (hk : (kk 0).val = s.val)
    (hT : ∀ i : Cert.ReferenceIdeal.S2097152.Idx, ((m (xLoc1 d)) (Cert.ReferenceIdeal.ReadP.idx_main_v4 i) : BitVec 32).toNat ≤ 63) :
    k3_pay4 (F := Ideal) (dCV (cT m) (cK m) d) j
      = Cert.ReferenceIdeal.ReadP.val_main_v11 (F := Ideal) (m (xLoc1 d)) (m (xLoc2 d)) kk := by
  rw [show dCV (cT m) (cK m) d = cntArr (cT m d) (cK m d) from rfl, cntRow_cnt (cT m d) (cK m d) s j hj, ref_counts _ _ kk hT, lit0, zero_add]
  refine Finset.sum_congr rfl fun w _ => ?_
  rw [hk]
  refine Finset.sum_congr (Finset.filter_congr fun u _ => ?_) fun u _ => (lit1 _).symm
  unfold inSeg
  rw [seg_agree]

end Cert.Proof.KI

end
-- ==== Proof.SumsRow.lean ====
/-
  Toward the bridge: the per-worker, per-lane partial sums folded by the first combining call's fold matrix are, for each
  component and segment, the component's total over the segment's voxels.
-/
import proofs.«210783_g59777354826199_cont_9to1_m_168_18_alg».proof.Proof.CountsAgree

noncomputable section

namespace Cert.Proof.KI

open Idealize.ShloMosaic Idealize.ShloMosaic.ValueIdx
open Cert.KernelIdeal Cert.KernelIdeal.Gen

variable (e : S33554432.Idx → EReal) (t k : S2097152.Idx → BitVec 32)

/-- THE SUMS ROW's numerator over the partial sums in closed form: component c of the embedding totalled over segment s's
    voxels. -/
theorem sumNum_sum (c : Fin 16) (s : Fin 64) :
    (∑ r : Fin 1024, (if r.val / 16 = s.val then (1 : EReal) else 0)
        * ∑ w : Fin 32, sumsArr e t k (ix2 w (⟨1024 * c.val + r.val, by have := c.isLt; have := r.isLt; omega⟩ : Fin 16384)))
      = ∑ w : Fin 32, ∑ u ∈ Finset.univ.filter (fun u => inSeg t k w u s.val),
          e (flatIx (c.val * 2097152 + w.val * 65536 + u.val) (by have := c.isLt; have := w.isLt; have := u.isLt; omega)) := by
  have h1 : ∀ r : Fin 1024, (if r.val / 16 = s.val then (1 : EReal) else 0)
        * ∑ w : Fin 32, sumsArr e t k (ix2 w (⟨1024 * c.val + r.val, by have := c.isLt; have := r.isLt; omega⟩ : Fin 16384))
      = if r.val / 16 = s.val then (∑ w : Fin 32, sumsArr e t k (ix2 w (⟨1024 * c.val + r.val, by have := c.isLt; have := r.isLt; omega⟩ : Fin 16384))) else 0 := by
    intro r
    split_ifs
    · rw [one_mul]
    · rw [zero_mul]
  rw [Finset.sum_congr rfl fun r _ => h1 r, ← Finset.sum_filter, sum_seg_cols s]
  have h2 : ∀ (l : Fin 16) (w : Fin 32),
      sumsArr e t k (ix2 w (⟨1024 * c.val + (s.val * 16 + l.val), by have := c.isLt; have := s.isLt; have := l.isLt; omega⟩ : Fin 16384))
      = ∑ u ∈ cell t k w s.val l.val, e (flatIx (c.val * 2097152 + w.val * 65536 + u.val) (by have := c.isLt; have := w.isLt; have := u.isLt; omega)) := by
    intro l w
    have hs := s.isLt; have hl := l.isLt; have hc := c.isLt
    have e1 : (1024 * c.val + (s.val * 16 + l.val)) / 16 % 64 = s.val := by omega
    have e2 : (1024 * c.val + (s.val * 16 + l.val)) % 16 = l.val := by omega
    have e3 : (1024 * c.val + (s.val * 16 + l.val)) / 1024 = c.val := by omega
    show (∑ u ∈ cell t k w ((1024 * c.val + (s.val * 16 + l.val)) / 16 % 64) ((1024 * c.val + (s.val * 16 + l.val)) % 16), _) = _
    rw [e1, e2]
    refine Finset.sum_congr rfl fun u _ => congrArg e (flatIx_congr _ _ ?_)
    show (1024 * c.val + (s.val * 16 + l.val)) / 1024 * 2097152 + w.val * 65536 + u.val = c.val * 2097152 + w.val * 65536 + u.val
    rw [e3]
  rw [Finset.sum_congr rfl fun l _ => Finset.sum_congr rfl fun w _ => h2 l w, Finset.sum_comm]
  exact Finset.sum_congr rfl fun w _ => lanes_sum t k w s.val _

end Cert.Proof.KI

end
-- ==== Proof.MeansTable.lean ====
/-
  Toward the bridge: the first combining call's means table is its body's first result element by element, and the
  flattened table the second call's tiles read is the table re-indexed (element n ↦ (n / 16, n % 16)).
-/
import proofs.«210783_g59777354826199_cont_9to1_m_168_18_alg».proof.Proof.SumsRow

noncomputable section

namespace Cert.Proof.KI

open Idealize.ShloMosaic Idealize.ShloMosaic.ValueIdx
open Cert.KernelIdeal Cert.KernelIdeal.Gen

theorem read1_blk0 (d : Dev nD) (fS : Buf (Elt Ideal) (aS d)) : View.read (Elt Ideal) ((cfg1.win 0).blk t01).view fS = fS := by
  funext x
  show fS (((cfg1.win 0).blk t01).view.emb x) = fS x
  congr 1
  funext a
  apply Fin.ext
  match a with
  | ⟨0, _⟩ => show win1_0.index t01 (0 : Fin 2) * 32 + 1 * (x 0).val = (x 0).val; have : win1_0.index t01 (0 : Fin 2) = 0 := rfl; omega
  | ⟨1, _⟩ => show win1_0.index t01 (1 : Fin 2) * 16384 + 1 * (x 1).val = (x 1).val; have : win1_0.index t01 (1 : Fin 2) = 0 := rfl; omega

theorem read1_blk1 (d : Dev nD) (fC : Buf (Elt Ideal) (aC d)) : View.read (Elt Ideal) ((cfg1.win 1).blk t01).view fC = fC := by
  funext x
  show fC (((cfg1.win 1).blk t01).view.emb x) = fC x
  congr 1
  funext a
  apply Fin.ext
  match a with
  | ⟨0, _⟩ => show win1_1.index t01 (0 : Fin 2) * 32 + 1 * (x 0).val = (x 0).val; have : win1_1.index t01 (0 : Fin 2) = 0 := rfl; omega
  | ⟨1, _⟩ => show win1_1.index t01 (1 : Fin 2) * 1024 + 1 * (x 1).val = (x 1).val; have : win1_1.index t01 (1 : Fin 2) = 0 := rfl; omega

/-- The first combining call's means table is its body's first result, element by element. -/
theorem MEANSf1_apply (d : Dev nD) (fS : Buf (Elt Ideal) (aS d)) (fC : Buf (Elt Ideal) (aC d)) (i : S1024x16.Idx) :
    MEANSf1 (F := Ideal) d fS fC i = (out1 (F := Ideal) fS fC).1 i := by
  unfold MEANSf1
  rw [read1_blk0, read1_blk1]
  have hi : ((cfg1.win 2).blk t01).view.emb i = i := by
    funext a
    apply Fin.ext
    match a with
    | ⟨0, _⟩ => show win1_2.index t01 (0 : Fin 2) * 1024 + 1 * (i 0).val = (i 0).val; have : win1_2.index t01 (0 : Fin 2) = 0 := rfl; omega
    | ⟨1, _⟩ => show win1_2.index t01 (1 : Fin 2) * 16 + 1 * (i 1).val = (i 1).val; have : win1_2.index t01 (1 : Fin 2) = 0 := rfl; omega
  have := View.write_emb_of_mem (v := ((cfg1.win 2).blk t01).view) (Val := Elt Ideal) (fun _ => Classical.arbitrary _)
    ((cfg1.win 2).cut (cfg1.grid.coords t01) (out1 (F := Ideal) fS fC).1) (Finset.mem_univ i)
  rw [hi] at this
  exact this

variable (m : (ℓ : Loc nD τ sig) → Buf (Elt Ideal) ℓ)
  (dS : (d : Dev nD) → Buf (Elt Ideal) (aS d)) (dC : (d : Dev nD) → Buf (Elt Ideal) (aC d))

/-- The flattened means table the second call's tiles read: element n is the table's (n / 16, n % 16). -/
theorem cMV_apply (d : Dev nD) (n : ℕ) (hn : n < 16384) :
    cMV m dS dC MEANSf1 d (flatIx n hn)
      = MEANSf1 (F := Ideal) d (dS d) (dC d) (ix2 (⟨n / 16, by omega⟩ : Fin 1024) (⟨n % 16, Nat.mod_lt _ (by norm_num)⟩ : Fin 16)) := by
  unfold cMV
  show (StableHlo.reshape main_v4_0 main_v5 rfl shapeCasts_S1024x16_S16384 : HloOp τ sig (Elt Ideal)).result _ (Proc.devRef .tc (main_v5 : Ref sig .tc)) (flatIx n hn) = _
  rw [StableHlo.reshape_result, V2of_1]
  exact shapeCast_apply _ shapeCasts_S1024x16_S16384 (flatIx n hn) _ (by
    rewrite [Shape.rowMajor_val_two, Shape.rowMajor_val_one]
    show n / 16 * 16 + n % 16 = n
    omega)

end Cert.Proof.KI

end
-- ==== Proof.Comb1A.lean ====
import proofs.«210783_g59777354826199_cont_9to1_m_168_18_alg».proof.Proof.CountsRow

noncomputable section

namespace Cert.Proof.KI

open Cert.KernelIdeal Cert.KernelIdeal.Gen
open Idealize.ShloMosaic Idealize.ShloMosaic.ValueIdx

/-! # Toward the bridge: the first combining call's pieces read at an index (ideal instance)

  The first combining call totals the 32 workers' partial sums and counts (a ones row against each), folds the sixteen
  columns of a segment together (the 64 × 1024 matrix whose entry (s, r) is 1 when r / 16 = s), and divides each
  component's segment totals by the segment's count raised to at least one. -/

theorem ones1_apply (i : S1x32.Idx) : k1_pay2 (F := Ideal) i = 1 := by
  show Ideal.ofBits .f32 0x3F800000#32 = 1
  exact ofBits_one

/-- THE WORKERS' TOTALS of the partial sums: column j of the ones row against the 32 × 16384 partial sums. -/
theorem tot0_apply (X : Vec Ideal S32x16384 .f32) (j : S1x16384.Idx) :
    k1_pay3 (F := Ideal) X j = ∑ w : Fin 32, X (ix2 w (j 1)) := by
  unfold k1_pay3
  simp only [matmul]
  rw [Ideal.matmul_constant_zero_apply]
  refine Fintype.sum_equiv (contrEquiv1 dot_S1x32_S32x16384_S1x16384_1_0_0_1_n_n 32 rfl rfl) _ _ fun k1 => ?_
  rw [ones1_apply, one_mul, shapeCast_apply X shapeCasts_S32x16384_S32x16384 _ _ rfl]
  refine congrArg X (funext fun a => Fin.ext ?_)
  match a with
  | ⟨0, _⟩ => rfl
  | ⟨1, _⟩ => rfl

/-- THE WORKERS' TOTALS of the partial counts. -/
theorem tot1_apply (X : Vec Ideal S32x1024 .f32) (j : S1x1024.Idx) :
    k1_pay4 (F := Ideal) X j = ∑ w : Fin 32, X (ix2 w (j 1)) := by
  unfold k1_pay4
  simp only [matmul]
  rw [Ideal.matmul_constant_zero_apply]
  refine Fintype.sum_equiv (contrEquiv1 dot_S1x32_S32x1024_S1x1024_1_0_0_1_n_n 32 rfl rfl) _ _ fun k1 => ?_
  rw [ones1_apply, one_mul, shapeCast_apply X shapeCasts_S32x1024_S32x1024 _ _ rfl]
  refine congrArg X (funext fun a => Fin.ext ?_)
  match a with
  | ⟨0, _⟩ => rfl
  | ⟨1, _⟩ => rfl

/-- A 64 × 1024 matrix against a row of 1024 (contracting the columns): element s is the sum over r of the matrix's
    (s, r) times the row's r. -/
theorem matvec1024_apply (A : FVec Ideal S64x1024 .f32) (u : FVec Ideal S1x1024 .f32) (b : BitVec 32) (hb : Ideal.ofBits .f32 b = 0)
    (j : S64x1.Idx) :
    matmul (F := Ideal) dot_S64x1024_S1x1024_S64x1_1_1_0_0_n_n none A u (constant S64x1 .f32 b) j
      = ∑ r : Fin 1024, A (ix2 (j 0) r) * u (ix2 0 r) := by
  simp only [matmul]
  have h0 : (constant (F := Ideal) S64x1 .f32 b) = constant (F := Ideal) S64x1 .f32 0x00000000#32 := by
    funext i; show Ideal.ofBits .f32 b = Ideal.ofBits .f32 0x00000000#32; rw [hb, Ideal.ofBits_zero_f32]
  rw [h0, Ideal.matmul_constant_zero_apply]
  refine Fintype.sum_equiv (contrEquiv1 dot_S64x1024_S1x1024_S64x1_1_1_0_0_n_n 1024 rfl rfl) _ _ fun k1 => ?_
  congr 1
  · refine congrArg A (funext fun a => Fin.ext ?_)
    match a with
    | ⟨0, _⟩ => rfl
    | ⟨1, _⟩ => rfl
  · refine congrArg u (funext fun a => Fin.ext ?_)
    match a with
    | ⟨0, _⟩ =>
      show (j 1).val = 0
      have h1 : (j 1).val < 1 := (j 1).isLt
      omega
    | ⟨1, _⟩ => rfl

/-- THE FOLD MATRIX of the first call: entry (s, r) is 1 when column r belongs to segment s (r / 16 = s), else 0. -/
theorem Fmat1_apply (i : S64x1024.Idx) :
    k1_pay8 (F := Ideal) (iota .tc S64x1024 32 [0] iota_S64x1024_d0_w32) (iota .tc S64x1024 32 [1] iota_S64x1024_d1_w32) 16#32 k1_pay6 k1_pay7 0#32 i
      = if (i 1).val / 16 = (i 0).val then 1 else 0 := by
  unfold k1_pay8 k1_pay6 k1_pay7
  simp only [sitofp, extui, cmpi, divsi, subi, remsi, andi, select, broadcast]
  have h0 : iota Kind.tc S64x1024 32 [0] iota_S64x1024_d0_w32 i = BitVec.ofNat 32 (i 0).val := by
    show BitVec.ofNat 32 (0 * S64x1024.size 0 + (i 0).val) = _; rw [Nat.zero_mul, Nat.zero_add]
  have h1 : iota Kind.tc S64x1024 32 [1] iota_S64x1024_d1_w32 i = BitVec.ofNat 32 (i 1).val := by
    show BitVec.ofNat 32 (0 * S64x1024.size 1 + (i 1).val) = _; rw [Nat.zero_mul, Nat.zero_add]
  rw [h0, h1]
  show FloatOps.sitofp (F := Ideal) FTy.f32 (BitVec.setWidth 32 (IntOp.cmpi CmpIPredicate.eq (dF (BitVec.ofNat 32 (i 1).val)) (BitVec.ofNat 32 (i 0).val))) = _
  rw [dF_eq ⟨(i 1).val, (i 1).isLt⟩]
  have hr : (i 1).val / 16 < 64 := by have : (i 1).val < 1024 := (i 1).isLt; omega
  have hc : (i 0).val < 64 := (i 0).isLt
  by_cases h : (i 1).val / 16 = (i 0).val
  · rw [if_pos h, h]
    show (((BitVec.setWidth 32 (IntOp.cmpi CmpIPredicate.eq (BitVec.ofNat 32 (i 0).val) (BitVec.ofNat 32 (i 0).val))).toInt : ℝ) : EReal) = 1
    simp [IntOp.cmpi]
  · rw [if_neg h]
    have hne : BitVec.ofNat 32 ((i 1).val / 16) ≠ BitVec.ofNat 32 (i 0).val := fun e => h ((ofNat_eq_iff hr hc).mp e)
    show (((BitVec.setWidth 32 (IntOp.cmpi CmpIPredicate.eq (BitVec.ofNat 32 ((i 1).val / 16)) (BitVec.ofNat 32 (i 0).val))).toInt : ℝ) : EReal) = 0
    have hb : (BitVec.ofNat 32 ((i 1).val / 16) == BitVec.ofNat 32 (i 0).val) = false := beq_eq_false_iff_ne.mpr hne
    simp [IntOp.cmpi, hb]

/-- A slice of 1024 columns of the totals' row at the offset o: column r of it is column o + r. -/
theorem slice1024_apply (v3 : FVec Ideal S1x16384 .f32) (o : ℕ) (h : S1x16384.Slices ![0, o] S1x1024) (ho : o + 1024 ≤ 16384) (r : Fin 1024) :
    extractStridedSlice S1x1024 ![0, o] v3 h (ix2 0 r) = v3 (ix2 0 ⟨o + r.val, by have := r.isLt; omega⟩) := by
  refine extractStridedSlice_apply _ v3 h _ _ fun a => ?_
  match a with
  | ⟨0, _⟩ => rfl
  | ⟨1, _⟩ => rfl

/-- A column of 64 broadcast over sixteen lanes: every lane the column's element. -/
theorem lanes16_apply (col : FVec Ideal S64x1 .f32) (h1 : S64x1.ShapeCasts S64x1) (h2 : S64x1.Broadcasts S64x16) (s : Fin 64) (l : Fin 16) :
    broadcastTo S64x16 (shapeCast S64x1 col h1) h2 (ix2 s l) = col (ix2 s 0) := by
  rw [shapeCast_self]
  refine broadcastTo_apply col h2 _ _ fun a => ?_
  match a with
  | ⟨0, _⟩ => rfl
  | ⟨1, _⟩ => rfl

/-- Component 0's piece of the means table at (s, l): the segment's total of the component over the segment's count. -/
theorem piece0_apply (v3 : FVec Ideal S1x16384 .f32) (v64 : FVec Ideal S64x1024 .f32) (v70 : FVec Ideal S64x1 .f32) (s : Fin 64) (l : Fin 16) :
    k1_pay18 (F := Ideal) v3 v64 v70 (ix2 s l)
      = FloatOps.divf (F := Ideal) (φ := .f32) (∑ r : Fin 1024, v64 (ix2 s r) * v3 (ix2 0 ⟨0 + r.val, by have := r.isLt; omega⟩)) (v70 (ix2 s 0)) := by
  unfold k1_pay18
  rw [lanes16_apply]
  unfold k1_pay17
  show FloatOps.divf (F := Ideal) (φ := .f32) (matmul (F := Ideal) dot_S64x1024_S1x1024_S64x1_1_1_0_0_n_n none v64 (k1_pay16 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay16
  rw [slice1024_apply v3 0 _ (by omega) r]

/-- Component 1's piece of the means table at (s, l): the segment's total of the component over the segment's count. -/
theorem piece1_apply (v3 : FVec Ideal S1x16384 .f32) (v64 : FVec Ideal S64x1024 .f32) (v70 : FVec Ideal S64x1 .f32) (s : Fin 64) (l : Fin 16) :
    k1_pay21 (F := Ideal) v3 v64 v70 (ix2 s l)
      = FloatOps.divf (F := Ideal) (φ := .f32) (∑ r : Fin 1024, v64 (ix2 s r) * v3 (ix2 0 ⟨1024 + r.val, by have := r.isLt; omega⟩)) (v70 (ix2 s 0)) := by
  unfold k1_pay21
  rw [lanes16_apply]
  unfold k1_pay20
  show FloatOps.divf (F := Ideal) (φ := .f32) (matmul (F := Ideal) dot_S64x1024_S1x1024_S64x1_1_1_0_0_n_n none v64 (k1_pay19 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay19
  rw [slice1024_apply v3 1024 _ (by omega) r]

/-- Component 2's piece of the means table at (s, l): the segment's total of the component over the segment's count. -/
theorem piece2_apply (v3 : FVec Ideal S1x16384 .f32) (v64 : FVec Ideal S64x1024 .f32) (v70 : FVec Ideal S64x1 .f32) (s : Fin 64) (l : Fin 16) :
    k1_pay26 (F := Ideal) v3 v64 v70 (ix2 s l)
      = FloatOps.divf (F := Ideal) (φ := .f32) (∑ r : Fin 1024, v64 (ix2 s r) * v3 (ix2 0 ⟨2048 + r.val, by have := r.isLt; omega⟩)) (v70 (ix2 s 0)) := by
  unfold k1_pay26
  rw [lanes16_apply]
  unfold k1_pay25
  show FloatOps.divf (F := Ideal) (φ := .f32) (matmul (F := Ideal) dot_S64x1024_S1x1024_S64x1_1_1_0_0_n_n none v64 (k1_pay24 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay24
  rw [slice1024_apply v3 2048 _ (by omega) r]

/-- Component 3's piece of the means table at (s, l): the segment's total of the component over the segment's count. -/
theorem piece3_apply (v3 : FVec Ideal S1x16384 .f32) (v64 : FVec Ideal S64x1024 .f32) (v70 : FVec Ideal S64x1 .f32) (s : Fin 64) (l : Fin 16) :
    k1_pay30 (F := Ideal) v3 v64 v70 (ix2 s l)
      = FloatOps.divf (F := Ideal) (φ := .f32) (∑ r : Fin 1024, v64 (ix2 s r) * v3 (ix2 0 ⟨3072 + r.val, by have := r.isLt; omega⟩)) (v70 (ix2 s 0)) := by
  unfold k1_pay30
  rw [lanes16_apply]
  unfold k1_pay29
  show FloatOps.divf (F := Ideal) (φ := .f32) (matmul (F := Ideal) dot_S64x1024_S1x1024_S64x1_1_1_0_0_n_n none v64 (k1_pay28 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay28
  rw [slice1024_apply v3 3072 _ (by omega) r]

/-- Component 4's piece of the means table at (s, l): the segment's total of the component over the segment's count. -/
theorem piece4_apply (v3 : FVec Ideal S1x16384 .f32) (v64 : FVec Ideal S64x1024 .f32) (v70 : FVec Ideal S64x1 .f32) (s : Fin 64) (l : Fin 16) :
    k1_pay33 (F := Ideal) v3 v64 v70 (ix2 s l)
      = FloatOps.divf (F := Ideal) (φ := .f32) (∑ r : Fin 1024, v64 (ix2 s r) * v3 (ix2 0 ⟨4096 + r.val, by have := r.isLt; omega⟩)) (v70 (ix2 s 0)) := by
  unfold k1_pay33
  rw [lanes16_apply]
  unfold k1_pay32
  show FloatOps.divf (F := Ideal) (φ := .f32) (matmul (F := Ideal) dot_S64x1024_S1x1024_S64x1_1_1_0_0_n_n none v64 (k1_pay31 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay31
  rw [slice1024_apply v3 4096 _ (by omega) r]

/-- Component 5's piece of the means table at (s, l): the segment's total of the component over the segment's count. -/
theorem piece5_apply (v3 : FVec Ideal S1x16384 .f32) (v64 : FVec Ideal S64x1024 .f32) (v70 : FVec Ideal S64x1 .f32) (s : Fin 64) (l : Fin 16) :
    k1_pay38 (F := Ideal) v3 v64 v70 (ix2 s l)
      = FloatOps.divf (F := Ideal) (φ := .f32) (∑ r : Fin 1024, v64 (ix2 s r) * v3 (ix2 0 ⟨5120 + r.val, by have := r.isLt; omega⟩)) (v70 (ix2 s 0)) := by
  unfold k1_pay38
  rw [lanes16_apply]
  unfold k1_pay37
  show FloatOps.divf (F := Ideal) (φ := .f32) (matmul (F := Ideal) dot_S64x1024_S1x1024_S64x1_1_1_0_0_n_n none v64 (k1_pay36 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay36
  rw [slice1024_apply v3 5120 _ (by omega) r]

/-- Component 6's piece of the means table at (s, l): the segment's total of the component over the segment's count. -/
theorem piece6_apply (v3 : FVec Ideal S1x16384 .f32) (v64 : FVec Ideal S64x1024 .f32) (v70 : FVec Ideal S64x1 .f32) (s : Fin 64) (l : Fin 16) :
    k1_pay42 (F := Ideal) v3 v64 v70 (ix2 s l)
      = FloatOps.divf (F := Ideal) (φ := .f32) (∑ r : Fin 1024, v64 (ix2 s r) * v3 (ix2 0 ⟨6144 + r.val, by have := r.isLt; omega⟩)) (v70 (ix2 s 0)) := by
  unfold k1_pay42
  rw [lanes16_apply]
  unfold k1_pay41
  show FloatOps.divf (F := Ideal) (φ := .f32) (matmul (F := Ideal) dot_S64x1024_S1x1024_S64x1_1_1_0_0_n_n none v64 (k1_pay40 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay40
  rw [slice1024_apply v3 6144 _ (by omega) r]

/-- Component 7's piece of the means table at (s, l): the segment's total of the component over the segment's count. -/
theorem piece7_apply (v3 : FVec Ideal S1x16384 .f32) (v64 : FVec Ideal S64x1024 .f32) (v70 : FVec Ideal S64x1 .f32) (s : Fin 64) (l : Fin 16) :
    k1_pay45 (F := Ideal) v3 v64 v70 (ix2 s l)
      = FloatOps.divf (F := Ideal) (φ := .f32) (∑ r : Fin 1024, v64 (ix2 s r) * v3 (ix2 0 ⟨7168 + r.val, by have := r.isLt; omega⟩)) (v70 (ix2 s 0)) := by
  unfold k1_pay45
  rw [lanes16_apply]
  unfold k1_pay44
  show FloatOps.divf (F := Ideal) (φ := .f32) (matmul (F := Ideal) dot_S64x1024_S1x1024_S64x1_1_1_0_0_n_n none v64 (k1_pay43 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay43
  rw [slice1024_apply v3 7168 _ (by omega) r]

/-- Component 8's piece of the means table at (s, l): the segment's total of the component over the segment's count. -/
theorem piece8_apply (v3 : FVec Ideal S1x16384 .f32) (v64 : FVec Ideal S64x1024 .f32) (v70 : FVec Ideal S64x1 .f32) (s : Fin 64) (l : Fin 16) :
    k1_pay50 (F := Ideal) v3 v64 v70 (ix2 s l)
      = FloatOps.divf (F := Ideal) (φ := .f32) (∑ r : Fin 1024, v64 (ix2 s r) * v3 (ix2 0 ⟨8192 + r.val, by have := r.isLt; omega⟩)) (v70 (ix2 s 0)) := by
  unfold k1_pay50
  rw [lanes16_apply]
  unfold k1_pay49
  show FloatOps.divf (F := Ideal) (φ := .f32) (matmul (F := Ideal) dot_S64x1024_S1x1024_S64x1_1_1_0_0_n_n none v64 (k1_pay48 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay48
  rw [slice1024_apply v3 8192 _ (by omega) r]

/-- Component 9's piece of the means table at (s, l): the segment's total of the component over the segment's count. -/
theorem piece9_apply (v3 : FVec Ideal S1x16384 .f32) (v64 : FVec Ideal S64x1024 .f32) (v70 : FVec Ideal S64x1 .f32) (s : Fin 64) (l : Fin 16) :
    k1_pay54 (F := Ideal) v3 v64 v70 (ix2 s l)
      = FloatOps.divf (F := Ideal) (φ := .f32) (∑ r : Fin 1024, v64 (ix2 s r) * v3 (ix2 0 ⟨9216 + r.val, by have := r.isLt; omega⟩)) (v70 (ix2 s 0)) := by
  unfold k1_pay54
  rw [lanes16_apply]
  unfold k1_pay53
  show FloatOps.divf (F := Ideal) (φ := .f32) (matmul (F := Ideal) dot_S64x1024_S1x1024_S64x1_1_1_0_0_n_n none v64 (k1_pay52 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay52
  rw [slice1024_apply v3 9216 _ (by omega) r]

/-- Component 10's piece of the means table at (s, l): the segment's total of the component over the segment's count. -/
theorem piece10_apply (v3 : FVec Ideal S1x16384 .f32) (v64 : FVec Ideal S64x1024 .f32) (v70 : FVec Ideal S64x1 .f32) (s : Fin 64) (l : Fin 16) :
    k1_pay57 (F := Ideal) v3 v64 v70 (ix2 s l)
      = FloatOps.divf (F := Ideal) (φ := .f32) (∑ r : Fin 1024, v64 (ix2 s r) * v3 (ix2 0 ⟨10240 + r.val, by have := r.isLt; omega⟩)) (v70 (ix2 s 0)) := by
  unfold k1_pay57
  rw [lanes16_apply]
  unfold k1_pay56
  show FloatOps.divf (F := Ideal) (φ := .f32) (matmul (F := Ideal) dot_S64x1024_S1x1024_S64x1_1_1_0_0_n_n none v64 (k1_pay55 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay55
  rw [slice1024_apply v3 10240 _ (by omega) r]

/-- Component 11's piece of the means table at (s, l): the segment's total of the component over the segment's count. -/
theorem piece11_apply (v3 : FVec Ideal S1x16384 .f32) (v64 : FVec Ideal S64x1024 .f32) (v70 : FVec Ideal S64x1 .f32) (s : Fin 64) (l : Fin 16) :
    k1_pay62 (F := Ideal) v3 v64 v70 (ix2 s l)
      = FloatOps.divf (F := Ideal) (φ := .f32) (∑ r : Fin 1024, v64 (ix2 s r) * v3 (ix2 0 ⟨11264 + r.val, by have := r.isLt; omega⟩)) (v70 (ix2 s 0)) := by
  unfold k1_pay62
  rw [lanes16_apply]
  unfold k1_pay61
  show FloatOps.divf (F := Ideal) (φ := .f32) (matmul (F := Ideal) dot_S64x1024_S1x1024_S64x1_1_1_0_0_n_n none v64 (k1_pay60 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay60
  rw [slice1024_apply v3 11264 _ (by omega) r]

/-- Component 12's piece of the means table at (s, l): the segment's total of the component over the segment's count. -/
theorem piece12_apply (v3 : FVec Ideal S1x16384 .f32) (v64 : FVec Ideal S64x1024 .f32) (v70 : FVec Ideal S64x1 .f32) (s : Fin 64) (l : Fin 16) :
    k1_pay66 (F := Ideal) v3 v64 v70 (ix2 s l)
      = FloatOps.divf (F := Ideal) (φ := .f32) (∑ r : Fin 1024, v64 (ix2 s r) * v3 (ix2 0 ⟨12288 + r.val, by have := r.isLt; omega⟩)) (v70 (ix2 s 0)) := by
  unfold k1_pay66
  rw [lanes16_apply]
  unfold k1_pay65
  show FloatOps.divf (F := Ideal) (φ := .f32) (matmul (F := Ideal) dot_S64x1024_S1x1024_S64x1_1_1_0_0_n_n none v64 (k1_pay64 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay64
  rw [slice1024_apply v3 12288 _ (by omega) r]

/-- Component 13's piece of the means table at (s, l): the segment's total of the component over the segment's count. -/
theorem piece13_apply (v3 : FVec Ideal S1x16384 .f32) (v64 : FVec Ideal S64x1024 .f32) (v70 : FVec Ideal S64x1 .f32) (s : Fin 64) (l : Fin 16) :
    k1_pay69 (F := Ideal) v3 v64 v70 (ix2 s l)
      = FloatOps.divf (F := Ideal) (φ := .f32) (∑ r : Fin 1024, v64 (ix2 s r) * v3 (ix2 0 ⟨13312 + r.val, by have := r.isLt; omega⟩)) (v70 (ix2 s 0)) := by
  unfold k1_pay69
  rw [lanes16_apply]
  unfold k1_pay68
  show FloatOps.divf (F := Ideal) (φ := .f32) (matmul (F := Ideal) dot_S64x1024_S1x1024_S64x1_1_1_0_0_n_n none v64 (k1_pay67 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay67
  rw [slice1024_apply v3 13312 _ (by omega) r]

/-- Component 14's piece of the means table at (s, l): the segment's total of the component over the segment's count. -/
theorem piece14_apply (v3 : FVec Ideal S1x16384 .f32) (v64 : FVec Ideal S64x1024 .f32) (v70 : FVec Ideal S64x1 .f32) (s : Fin 64) (l : Fin 16) :
    k1_pay74 (F := Ideal) v3 v64 v70 (ix2 s l)
      = FloatOps.divf (F := Ideal) (φ := .f32) (∑ r : Fin 1024, v64 (ix2 s r) * v3 (ix2 0 ⟨14336 + r.val, by have := r.isLt; omega⟩)) (v70 (ix2 s 0)) := by
  unfold k1_pay74
  rw [lanes16_apply]
  unfold k1_pay73
  show FloatOps.divf (F := Ideal) (φ := .f32) (matmul (F := Ideal) dot_S64x1024_S1x1024_S64x1_1_1_0_0_n_n none v64 (k1_pay72 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay72
  rw [slice1024_apply v3 14336 _ (by omega) r]

/-- Component 15's piece of the means table at (s, l): the segment's total of the component over the segment's count. -/
theorem piece15_apply (v3 : FVec Ideal S1x16384 .f32) (v64 : FVec Ideal S64x1024 .f32) (v70 : FVec Ideal S64x1 .f32) (s : Fin 64) (l : Fin 16) :
    k1_pay78 (F := Ideal) v3 v64 v70 (ix2 s l)
      = FloatOps.divf (F := Ideal) (φ := .f32) (∑ r : Fin 1024, v64 (ix2 s r) * v3 (ix2 0 ⟨15360 + r.val, by have := r.isLt; omega⟩)) (v70 (ix2 s 0)) := by
  unfold k1_pay78
  rw [lanes16_apply]
  unfold k1_pay77
  show FloatOps.divf (F := Ideal) (φ := .f32) (matmul (F := Ideal) dot_S64x1024_S1x1024_S64x1_1_1_0_0_n_n none v64 (k1_pay76 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay76
  rw [slice1024_apply v3 15360 _ (by omega) r]

end Cert.Proof.KI

end
-- ==== Proof.Comb1B.lean ====
import proofs.«210783_g59777354826199_cont_9to1_m_168_18_alg».proof.Proof.Comb1A
import proofs.«210783_g59777354826199_cont_9to1_m_168_18_alg».proof.Proof.Region0V

noncomputable section

namespace Cert.Proof.KI

open Cert.KernelIdeal Cert.KernelIdeal.Gen
open Idealize.ShloMosaic Idealize.ShloMosaic.ValueIdx

/-! # Toward the bridge: the means table the first combining call leaves, entry by entry (ideal instance) -/

/-- Entry (c·64 + s, l) of the means table, from the workers' totals v3, the fold matrix v64 and the raised counts v70:
    component c's total over segment s's columns, over segment s's raised count — the same in every lane l. -/
def meansG (v3 : FVec Ideal S1x16384 .f32) (v64 : FVec Ideal S64x1024 .f32) (v70 : FVec Ideal S64x1 .f32) : S1024x16.Idx → EReal := fun i =>
  FloatOps.divf (F := Ideal) (φ := .f32)
    (∑ r : Fin 1024, v64 (ix2 (⟨(i 0).val % 64, Nat.mod_lt _ (by decide)⟩ : Fin 64) r)
      * v3 (ix2 0 (⟨1024 * ((i 0).val / 64) + r.val, by have h := (i 0).isLt; have h' : (i 0).val < 1024 := h; have := r.isLt; omega⟩ : Fin 16384)))
    (v70 (ix2 (⟨(i 0).val % 64, Nat.mod_lt _ (by decide)⟩ : Fin 64) 0))

theorem meansG_emb (v3 : FVec Ideal S1x16384 .f32) (v64 : FVec Ideal S64x1024 .f32) (v70 : FVec Ideal S64x1 .f32)
    (c : ℕ) (hc : c < 16) (inb : ∀ a, (![64 * c, 0] : Fin 2 → ℕ) a + S64x16.size a ≤ S1024x16.size a) (x : S64x16.Idx) :
    meansG v3 v64 v70 ((Rect.unit (s := S1024x16) ![64 * c, 0] S64x16.size inb).emb x)
      = FloatOps.divf (F := Ideal) (φ := .f32)
          (∑ r : Fin 1024, v64 (ix2 (x 0) r) * v3 (ix2 0 (⟨1024 * c + r.val, by have := r.isLt; omega⟩ : Fin 16384)))
          (v70 (ix2 (x 0) 0)) := by
  have h64 : (x 0).val < 64 := (x 0).isLt
  have e0 : (((Rect.unit (s := S1024x16) ![64 * c, 0] S64x16.size inb).emb x) 0).val = 64 * c + 1 * (x 0).val := rfl
  have hs : (⟨(((Rect.unit (s := S1024x16) ![64 * c, 0] S64x16.size inb).emb x) 0).val % 64, Nat.mod_lt _ (by decide)⟩ : Fin 64) = x 0 :=
    Fin.ext (by show (((Rect.unit (s := S1024x16) ![64 * c, 0] S64x16.size inb).emb x) 0).val % 64 = (x 0).val; rw [e0]; omega)
  unfold meansG
  rw [hs]
  refine congrArg (fun z => FloatOps.divf (F := Ideal) (φ := .f32) z (v70 (ix2 (x 0) 0))) (Finset.sum_congr rfl fun r _ => ?_)
  refine congrArg (fun n => v64 (ix2 (x 0) r) * v3 (ix2 0 n)) (Fin.ext ?_)
  show 1024 * ((((Rect.unit (s := S1024x16) ![64 * c, 0] S64x16.size inb).emb x) 0).val / 64) + r.val = 1024 * c + r.val
  rw [e0]; omega

/-- THE MEANS TABLE the first combining call's sixteen stores leave: entry i is meansG at i. -/
theorem means_canon (v3 : FVec Ideal S1x16384 .f32) (v64 : FVec Ideal S64x1024 .f32) (v70 : FVec Ideal S64x1 .f32) (i : S1024x16.Idx) :
    (View.canon (Val := Elt Ideal) (s := S1024x16) (e := .f32) [
      ⟨Rect.unit (s := S1024x16) ![960, 0] S64x16.size inb_S1024x16_S64x16_960_0, k1_pay78 (F := Ideal) v3 v64 v70⟩,
      ⟨Rect.unit (s := S1024x16) ![896, 0] S64x16.size inb_S1024x16_S64x16_896_0, k1_pay74 (F := Ideal) v3 v64 v70⟩,
      ⟨Rect.unit (s := S1024x16) ![832, 0] S64x16.size inb_S1024x16_S64x16_832_0, k1_pay69 (F := Ideal) v3 v64 v70⟩,
      ⟨Rect.unit (s := S1024x16) ![768, 0] S64x16.size inb_S1024x16_S64x16_768_0, k1_pay66 (F := Ideal) v3 v64 v70⟩,
      ⟨Rect.unit (s := S1024x16) ![704, 0] S64x16.size inb_S1024x16_S64x16_704_0, k1_pay62 (F := Ideal) v3 v64 v70⟩,
      ⟨Rect.unit (s := S1024x16) ![640, 0] S64x16.size inb_S1024x16_S64x16_640_0, k1_pay57 (F := Ideal) v3 v64 v70⟩,
      ⟨Rect.unit (s := S1024x16) ![576, 0] S64x16.size inb_S1024x16_S64x16_576_0, k1_pay54 (F := Ideal) v3 v64 v70⟩,
      ⟨Rect.unit (s := S1024x16) ![512, 0] S64x16.size inb_S1024x16_S64x16_512_0, k1_pay50 (F := Ideal) v3 v64 v70⟩,
      ⟨Rect.unit (s := S1024x16) ![448, 0] S64x16.size inb_S1024x16_S64x16_448_0, k1_pay45 (F := Ideal) v3 v64 v70⟩,
      ⟨Rect.unit (s := S1024x16) ![384, 0] S64x16.size inb_S1024x16_S64x16_384_0, k1_pay42 (F := Ideal) v3 v64 v70⟩,
      ⟨Rect.unit (s := S1024x16) ![320, 0] S64x16.size inb_S1024x16_S64x16_320_0, k1_pay38 (F := Ideal) v3 v64 v70⟩,
      ⟨Rect.unit (s := S1024x16) ![256, 0] S64x16.size inb_S1024x16_S64x16_256_0, k1_pay33 (F := Ideal) v3 v64 v70⟩,
      ⟨Rect.unit (s := S1024x16) ![192, 0] S64x16.size inb_S1024x16_S64x16_192_0, k1_pay30 (F := Ideal) v3 v64 v70⟩,
      ⟨Rect.unit (s := S1024x16) ![128, 0] S64x16.size inb_S1024x16_S64x16_128_0, k1_pay26 (F := Ideal) v3 v64 v70⟩,
      ⟨Rect.unit (s := S1024x16) ![64, 0] S64x16.size inb_S1024x16_S64x16_64_0, k1_pay21 (F := Ideal) v3 v64 v70⟩,
      ⟨Rect.unit (s := S1024x16) ![0, 0] S64x16.size inb_S1024x16_S64x16_0_0, k1_pay18 (F := Ideal) v3 v64 v70⟩] i : EReal)
      = meansG v3 v64 v70 i := by
  refine View.canon_apply_of_pieces (Val := Elt Ideal) (S := S1024x16) (e := .f32) (meansG v3 v64 v70) _ ?_ i (cover1_2 (F := Ideal) _ _ _ _ _ _ _ _ _ _ _ _ _ _ _ _ i)
  intro p hp x
  simp only [List.mem_cons, List.mem_nil_iff, or_false] at hp
  rcases hp with rfl | rfl | rfl | rfl | rfl | rfl | rfl | rfl | rfl | rfl | rfl | rfl | rfl | rfl | rfl | rfl
  · have key : ∀ x' : S64x16.Idx, k1_pay78 (F := Ideal) v3 v64 v70 x' = meansG v3 v64 v70 ((Rect.unit (s := S1024x16) ![960, 0] S64x16.size inb_S1024x16_S64x16_960_0).emb x') := by
      intro x'
      obtain ⟨s, l, rfl⟩ : ∃ (s : Fin 64) (l : Fin 16), x' = ix2 s l := ⟨x' 0, x' 1, eq_ix2 x'⟩
      rw [piece15_apply]
      exact (meansG_emb v3 v64 v70 15 (by decide) inb_S1024x16_S64x16_960_0 (ix2 s l)).symm
    exact key x
  · have key : ∀ x' : S64x16.Idx, k1_pay74 (F := Ideal) v3 v64 v70 x' = meansG v3 v64 v70 ((Rect.unit (s := S1024x16) ![896, 0] S64x16.size inb_S1024x16_S64x16_896_0).emb x') := by
      intro x'
      obtain ⟨s, l, rfl⟩ : ∃ (s : Fin 64) (l : Fin 16), x' = ix2 s l := ⟨x' 0, x' 1, eq_ix2 x'⟩
      rw [piece14_apply]
      exact (meansG_emb v3 v64 v70 14 (by decide) inb_S1024x16_S64x16_896_0 (ix2 s l)).symm
    exact key x
  · have key : ∀ x' : S64x16.Idx, k1_pay69 (F := Ideal) v3 v64 v70 x' = meansG v3 v64 v70 ((Rect.unit (s := S1024x16) ![832, 0] S64x16.size inb_S1024x16_S64x16_832_0).emb x') := by
      intro x'
      obtain ⟨s, l, rfl⟩ : ∃ (s : Fin 64) (l : Fin 16), x' = ix2 s l := ⟨x' 0, x' 1, eq_ix2 x'⟩
      rw [piece13_apply]
      exact (meansG_emb v3 v64 v70 13 (by decide) inb_S1024x16_S64x16_832_0 (ix2 s l)).symm
    exact key x
  · have key : ∀ x' : S64x16.Idx, k1_pay66 (F := Ideal) v3 v64 v70 x' = meansG v3 v64 v70 ((Rect.unit (s := S1024x16) ![768, 0] S64x16.size inb_S1024x16_S64x16_768_0).emb x') := by
      intro x'
      obtain ⟨s, l, rfl⟩ : ∃ (s : Fin 64) (l : Fin 16), x' = ix2 s l := ⟨x' 0, x' 1, eq_ix2 x'⟩
      rw [piece12_apply]
      exact (meansG_emb v3 v64 v70 12 (by decide) inb_S1024x16_S64x16_768_0 (ix2 s l)).symm
    exact key x
  · have key : ∀ x' : S64x16.Idx, k1_pay62 (F := Ideal) v3 v64 v70 x' = meansG v3 v64 v70 ((Rect.unit (s := S1024x16) ![704, 0] S64x16.size inb_S1024x16_S64x16_704_0).emb x') := by
      intro x'
      obtain ⟨s, l, rfl⟩ : ∃ (s : Fin 64) (l : Fin 16), x' = ix2 s l := ⟨x' 0, x' 1, eq_ix2 x'⟩
      rw [piece11_apply]
      exact (meansG_emb v3 v64 v70 11 (by decide) inb_S1024x16_S64x16_704_0 (ix2 s l)).symm
    exact key x
  · have key : ∀ x' : S64x16.Idx, k1_pay57 (F := Ideal) v3 v64 v70 x' = meansG v3 v64 v70 ((Rect.unit (s := S1024x16) ![640, 0] S64x16.size inb_S1024x16_S64x16_640_0).emb x') := by
      intro x'
      obtain ⟨s, l, rfl⟩ : ∃ (s : Fin 64) (l : Fin 16), x' = ix2 s l := ⟨x' 0, x' 1, eq_ix2 x'⟩
      rw [piece10_apply]
      exact (meansG_emb v3 v64 v70 10 (by decide) inb_S1024x16_S64x16_640_0 (ix2 s l)).symm
    exact key x
  · have key : ∀ x' : S64x16.Idx, k1_pay54 (F := Ideal) v3 v64 v70 x' = meansG v3 v64 v70 ((Rect.unit (s := S1024x16) ![576, 0] S64x16.size inb_S1024x16_S64x16_576_0).emb x') := by
      intro x'
      obtain ⟨s, l, rfl⟩ : ∃ (s : Fin 64) (l : Fin 16), x' = ix2 s l := ⟨x' 0, x' 1, eq_ix2 x'⟩
      rw [piece9_apply]
      exact (meansG_emb v3 v64 v70 9 (by decide) inb_S1024x16_S64x16_576_0 (ix2 s l)).symm
    exact key x
  · have key : ∀ x' : S64x16.Idx, k1_pay50 (F := Ideal) v3 v64 v70 x' = meansG v3 v64 v70 ((Rect.unit (s := S1024x16) ![512, 0] S64x16.size inb_S1024x16_S64x16_512_0).emb x') := by
      intro x'
      obtain ⟨s, l, rfl⟩ : ∃ (s : Fin 64) (l : Fin 16), x' = ix2 s l := ⟨x' 0, x' 1, eq_ix2 x'⟩
      rw [piece8_apply]
      exact (meansG_emb v3 v64 v70 8 (by decide) inb_S1024x16_S64x16_512_0 (ix2 s l)).symm
    exact key x
  · have key : ∀ x' : S64x16.Idx, k1_pay45 (F := Ideal) v3 v64 v70 x' = meansG v3 v64 v70 ((Rect.unit (s := S1024x16) ![448, 0] S64x16.size inb_S1024x16_S64x16_448_0).emb x') := by
      intro x'
      obtain ⟨s, l, rfl⟩ : ∃ (s : Fin 64) (l : Fin 16), x' = ix2 s l := ⟨x' 0, x' 1, eq_ix2 x'⟩
      rw [piece7_apply]
      exact (meansG_emb v3 v64 v70 7 (by decide) inb_S1024x16_S64x16_448_0 (ix2 s l)).symm
    exact key x
  · have key : ∀ x' : S64x16.Idx, k1_pay42 (F := Ideal) v3 v64 v70 x' = meansG v3 v64 v70 ((Rect.unit (s := S1024x16) ![384, 0] S64x16.size inb_S1024x16_S64x16_384_0).emb x') := by
      intro x'
      obtain ⟨s, l, rfl⟩ : ∃ (s : Fin 64) (l : Fin 16), x' = ix2 s l := ⟨x' 0, x' 1, eq_ix2 x'⟩
      rw [piece6_apply]
      exact (meansG_emb v3 v64 v70 6 (by decide) inb_S1024x16_S64x16_384_0 (ix2 s l)).symm
    exact key x
  · have key : ∀ x' : S64x16.Idx, k1_pay38 (F := Ideal) v3 v64 v70 x' = meansG v3 v64 v70 ((Rect.unit (s := S1024x16) ![320, 0] S64x16.size inb_S1024x16_S64x16_320_0).emb x') := by
      intro x'
      obtain ⟨s, l, rfl⟩ : ∃ (s : Fin 64) (l : Fin 16), x' = ix2 s l := ⟨x' 0, x' 1, eq_ix2 x'⟩
      rw [piece5_apply]
      exact (meansG_emb v3 v64 v70 5 (by decide) inb_S1024x16_S64x16_320_0 (ix2 s l)).symm
    exact key x
  · have key : ∀ x' : S64x16.Idx, k1_pay33 (F := Ideal) v3 v64 v70 x' = meansG v3 v64 v70 ((Rect.unit (s := S1024x16) ![256, 0] S64x16.size inb_S1024x16_S64x16_256_0).emb x') := by
      intro x'
      obtain ⟨s, l, rfl⟩ : ∃ (s : Fin 64) (l : Fin 16), x' = ix2 s l := ⟨x' 0, x' 1, eq_ix2 x'⟩
      rw [piece4_apply]
      exact (meansG_emb v3 v64 v70 4 (by decide) inb_S1024x16_S64x16_256_0 (ix2 s l)).symm
    exact key x
  · have key : ∀ x' : S64x16.Idx, k1_pay30 (F := Ideal) v3 v64 v70 x' = meansG v3 v64 v70 ((Rect.unit (s := S1024x16) ![192, 0] S64x16.size inb_S1024x16_S64x16_192_0).emb x') := by
      intro x'
      obtain ⟨s, l, rfl⟩ : ∃ (s : Fin 64) (l : Fin 16), x' = ix2 s l := ⟨x' 0, x' 1, eq_ix2 x'⟩
      rw [piece3_apply]
      exact (meansG_emb v3 v64 v70 3 (by decide) inb_S1024x16_S64x16_192_0 (ix2 s l)).symm
    exact key x
  · have key : ∀ x' : S64x16.Idx, k1_pay26 (F := Ideal) v3 v64 v70 x' = meansG v3 v64 v70 ((Rect.unit (s := S1024x16) ![128, 0] S64x16.size inb_S1024x16_S64x16_128_0).emb x') := by
      intro x'
      obtain ⟨s, l, rfl⟩ : ∃ (s : Fin 64) (l : Fin 16), x' = ix2 s l := ⟨x' 0, x' 1, eq_ix2 x'⟩
      rw [piece2_apply]
      exact (meansG_emb v3 v64 v70 2 (by decide) inb_S1024x16_S64x16_128_0 (ix2 s l)).symm
    exact key x
  · have key : ∀ x' : S64x16.Idx, k1_pay21 (F := Ideal) v3 v64 v70 x' = meansG v3 v64 v70 ((Rect.unit (s := S1024x16) ![64, 0] S64x16.size inb_S1024x16_S64x16_64_0).emb x') := by
      intro x'
      obtain ⟨s, l, rfl⟩ : ∃ (s : Fin 64) (l : Fin 16), x' = ix2 s l := ⟨x' 0, x' 1, eq_ix2 x'⟩
      rw [piece1_apply]
      exact (meansG_emb v3 v64 v70 1 (by decide) inb_S1024x16_S64x16_64_0 (ix2 s l)).symm
    exact key x
  · have key : ∀ x' : S64x16.Idx, k1_pay18 (F := Ideal) v3 v64 v70 x' = meansG v3 v64 v70 ((Rect.unit (s := S1024x16) ![0, 0] S64x16.size inb_S1024x16_S64x16_0_0).emb x') := by
      intro x'
      obtain ⟨s, l, rfl⟩ : ∃ (s : Fin 64) (l : Fin 16), x' = ix2 s l := ⟨x' 0, x' 1, eq_ix2 x'⟩
      rw [piece0_apply]
      exact (meansG_emb v3 v64 v70 0 (by decide) inb_S1024x16_S64x16_0_0 (ix2 s l)).symm
    exact key x

end Cert.Proof.KI

end
-- ==== Proof.Comb1C.lean ====
import proofs.«210783_g59777354826199_cont_9to1_m_168_18_alg».proof.Proof.Comb1B

noncomputable section

namespace Cert.Proof.KI

open Cert.KernelIdeal Cert.KernelIdeal.Gen
open Idealize.ShloMosaic Idealize.ShloMosaic.ValueIdx

/-! # Toward the bridge: the first combining call's means table in closed form (ideal instance)

  Entry (c·64 + s, l) of the means table is component c's total, over the 32 workers and the sixteen columns of segment s
  (the columns r with r / 16 = s), of the partial sums, divided by the segment's count — the like total of the partial
  counts — raised to at least one; every lane l holds the same. -/

/-- The segments' counts: element s is the total, over the columns r of segment s, of the workers' totals of the counts. -/
theorem cnt1_apply (v6 : FVec Ideal S1x1024 .f32) (j : S64x1.Idx) :
    k1_pay10 (F := Ideal) v6 (iota .tc S64x1024 32 [0] iota_S64x1024_d0_w32) (iota .tc S64x1024 32 [1] iota_S64x1024_d1_w32) 16#32 k1_pay6 k1_pay7 0#32 j
      = ∑ r : Fin 1024, (if r.val / 16 = (j 0).val then (1 : EReal) else 0) * v6 (ix2 0 r) := by
  unfold k1_pay10
  rw [matvec1024_apply _ _ _ Ideal.ofBits_zero_f32]
  refine Finset.sum_congr rfl fun r _ => ?_
  rw [Fmat1_apply]

/-- The counts raised to at least one. -/
theorem cntMax1_apply (v6 : FVec Ideal S1x1024 .f32) (j : S64x1.Idx) :
    k1_pay12 (F := Ideal) v6 (iota .tc S64x1024 32 [0] iota_S64x1024_d0_w32) (iota .tc S64x1024 32 [1] iota_S64x1024_d1_w32) 16#32 k1_pay6 k1_pay7 0#32 j
      = max (∑ r : Fin 1024, (if r.val / 16 = (j 0).val then (1 : EReal) else 0) * v6 (ix2 0 r)) 1 := by
  unfold k1_pay12
  show FloatOps.maximumf (F := Ideal) (φ := .f32) (k1_pay10 (F := Ideal) v6 (iota .tc S64x1024 32 [0] iota_S64x1024_d0_w32) (iota .tc S64x1024 32 [1] iota_S64x1024_d1_w32) 16#32 k1_pay6 k1_pay7 0#32 j) (Ideal.ofBits .f32 0x3F800000#32) = _
  rw [cnt1_apply, ofBits_one]
  rfl

/-- THE MEANS TABLE the first combining call leaves, in closed form. -/
theorem means_out1 (x0 : Vec Ideal S32x16384 .f32) (x1 : Vec Ideal S32x1024 .f32) (i : S1024x16.Idx) :
    ((out1 (F := Ideal) x0 x1).1 i : EReal)
      = Ideal.div
          (∑ r : Fin 1024, (if r.val / 16 = (i 0).val % 64 then (1 : EReal) else 0)
            * ∑ w : Fin 32, x0 (ix2 w (⟨1024 * ((i 0).val / 64) + r.val, by have h : (i 0).val < 1024 := (i 0).isLt; have := r.isLt; omega⟩ : Fin 16384)))
          (max (∑ r : Fin 1024, (if r.val / 16 = (i 0).val % 64 then (1 : EReal) else 0) * ∑ w : Fin 32, x1 (ix2 w r)) 1) := by
  have hld0 : View.ld x0 rA0 = x0 := View.ld_unit_zero (by funext a; fin_cases a <;> rfl) _ x0
  have hld1 : View.ld x1 rW = x1 := View.ld_unit_zero (by funext a; fin_cases a <;> rfl) _ x1
  show (View.canon (Val := Elt Ideal) (s := S1024x16) (e := .f32) _ i : EReal) = _
  refine (means_canon (k1_pay3 (F := Ideal) (View.ld x0 rA0))
    (k1_pay8 (F := Ideal) (iota .tc S64x1024 32 [0] iota_S64x1024_d0_w32) (iota .tc S64x1024 32 [1] iota_S64x1024_d1_w32) 16#32 k1_pay6 k1_pay7 0#32)
    (k1_pay12 (F := Ideal) (k1_pay4 (F := Ideal) (View.ld x1 rW)) (iota .tc S64x1024 32 [0] iota_S64x1024_d0_w32) (iota .tc S64x1024 32 [1] iota_S64x1024_d1_w32) 16#32 k1_pay6 k1_pay7 0#32) i).trans ?_
  unfold meansG
  rw [cntMax1_apply, hld0, hld1]
  show Ideal.div _ _ = _
  congr 1
  · refine Finset.sum_congr rfl fun r _ => ?_
    rw [Fmat1_apply, tot0_apply]
  · refine congrArg (fun z => max z (1 : EReal)) (Finset.sum_congr rfl fun r _ => ?_)
    rw [tot1_apply]

end Cert.Proof.KI

end
-- ==== Proof.MeansEntry.lean ====
/-
  Toward the bridge: THE MEANS TABLE'S ENTRIES. The entry of the flattened means table that the second call's tiles read
  for (component, segment, lane) is the component's total over the segment's voxels over the segment's voxel count raised to
  at least 1 — the first combining call's table in closed form, its folds over the partial sums and counts summed out.
-/
import proofs.«210783_g59777354826199_cont_9to1_m_168_18_alg».proof.Proof.MeansTable
import proofs.«210783_g59777354826199_cont_9to1_m_168_18_alg».proof.Proof.Comb1C

noncomputable section

namespace Cert.Proof.KI

open Idealize.ShloMosaic Idealize.ShloMosaic.ValueIdx
open Cert.KernelIdeal Cert.KernelIdeal.Gen

variable (e : S33554432.Idx → EReal) (t k : S2097152.Idx → BitVec 32)

/-- The counts' numerator over the partial counts in closed form (the fold written with the matrix entry first). -/
theorem cntNum_cnt (s : Fin 64) :
    (∑ r : Fin 1024, (if r.val / 16 = s.val then (1 : EReal) else 0) * ∑ w : Fin 32, cntArr t k (ix2 w r))
      = ∑ w : Fin 32, ∑ _u ∈ Finset.univ.filter (fun u => inSeg t k w u s.val), (1 : EReal) := by
  have h1 : ∀ r : Fin 1024, (if r.val / 16 = s.val then (1 : EReal) else 0) * ∑ w : Fin 32, cntArr t k (ix2 w r)
      = if r.val / 16 = s.val then (∑ w : Fin 32, ∑ _u ∈ cell t k w (r.val / 16) (r.val % 16), (1 : EReal)) else 0 := by
    intro r
    split_ifs
    · rw [one_mul]; rfl
    · rw [zero_mul]
  rw [Finset.sum_congr rfl fun r _ => h1 r, ← Finset.sum_filter, sum_seg_cols s]
  have h2 : ∀ l : Fin 16, (∑ w : Fin 32, ∑ _u ∈ cell t k w ((s.val * 16 + l.val) / 16) ((s.val * 16 + l.val) % 16), (1 : EReal))
      = ∑ w : Fin 32, ∑ _u ∈ cell t k w s.val l.val, (1 : EReal) := by
    intro l
    have e1 : (s.val * 16 + l.val) / 16 = s.val := by have := l.isLt; omega
    have e2 : (s.val * 16 + l.val) % 16 = l.val := by have := l.isLt; omega
    rw [e1, e2]
  rw [Finset.sum_congr rfl fun l _ => h2 l, Finset.sum_comm]
  exact Finset.sum_congr rfl fun w _ => lanes_sum t k w s.val fun _ => (1 : EReal)

variable (m : (ℓ : Loc nD τ sig) → Buf (Elt Ideal) ℓ)

/-- THE MEANS TABLE'S ENTRY the second call's tiles read for (component c, segment s, lane l): the component's total over
    the segment's voxels, over the segment's voxel count raised to at least 1 — whatever the lane. -/
theorem mt_entry (d : Dev nD) (c : Fin 16) (s : Fin 64) (l : Fin 16) :
    cMV m (dSV (cE m) (cT m) (cK m)) (dCV (cT m) (cK m)) MEANSf1 d
        (flatIx (c.val * 1024 + (s.val * 16 + l.val)) (by have := c.isLt; have := s.isLt; have := l.isLt; omega))
      = Ideal.div
          (∑ w : Fin 32, ∑ u ∈ Finset.univ.filter (fun u => inSeg (cT m d) (cK m d) w u s.val),
            cE m d (flatIx (c.val * 2097152 + w.val * 65536 + u.val) (by have := c.isLt; have := w.isLt; have := u.isLt; omega)))
          (max (∑ w : Fin 32, ∑ _u ∈ Finset.univ.filter (fun u => inSeg (cT m d) (cK m d) w u s.val), (1 : EReal)) 1) := by
  have hc := c.isLt; have hs := s.isLt; have hl := l.isLt
  rw [cMV_apply, MEANSf1_apply, means_out1]
  have e1 : (c.val * 1024 + (s.val * 16 + l.val)) / 16 % 64 = s.val := by omega
  have e2 : (c.val * 1024 + (s.val * 16 + l.val)) / 16 / 64 = c.val := by omega
  show Ideal.div (∑ r : Fin 1024, (if r.val / 16 = (c.val * 1024 + (s.val * 16 + l.val)) / 16 % 64 then (1 : EReal) else 0)
        * ∑ w : Fin 32, sumsArr (cE m d) (cT m d) (cK m d) (ix2 w (⟨1024 * ((c.val * 1024 + (s.val * 16 + l.val)) / 16 / 64) + r.val, _⟩ : Fin 16384)))
      (max (∑ r : Fin 1024, (if r.val / 16 = (c.val * 1024 + (s.val * 16 + l.val)) / 16 % 64 then (1 : EReal) else 0)
        * ∑ w : Fin 32, cntArr (cT m d) (cK m d) (ix2 w r)) 1) = _
  simp only [e1, e2]
  rw [sumNum_sum (cE m d) (cT m d) (cK m d) c s, cntNum_cnt (cT m d) (cK m d) s]

end Cert.Proof.KI

end
-- ==== Proof.RefSumsIdx.lean ====
/-
  Toward the bridge: the reference's per-segment sums of one component, re-indexed from (voxel, component) indices to
  (worker, offset) pairs.
-/
import proofs.«210783_g59777354826199_cont_9to1_m_168_18_alg».proof.Proof.MeansEntry

noncomputable section

namespace Cert.Proof.KI

open Idealize.ShloMosaic Idealize.ShloMosaic.ValueIdx

/-- A (voxel, component) index from its two parts. -/
def vc (j : Cert.ReferenceIdeal.S2097152.Idx) (c : Fin 16) : Cert.ReferenceIdeal.S2097152x16.Idx := fun a => match a with
  | ⟨0, _⟩ => j 0
  | ⟨1, _⟩ => c

theorem vox_vc (j : Cert.ReferenceIdeal.S2097152.Idx) (c : Fin 16) : Cert.ReferenceIdeal.RefValue.vox (vc j c) = j := by
  funext a
  match a with
  | ⟨0, _⟩ => rfl

/-- A sum over the (voxel, component) indices of one component whose voxel satisfies a predicate, worker by worker. -/
theorem sum_voxels_comp {M : Type} [AddCommMonoid M] (P : Cert.ReferenceIdeal.S2097152.Idx → Prop) [DecidablePred P] (c : Fin 16)
    (f : Cert.ReferenceIdeal.S2097152x16.Idx → M) :
    ∑ j ∈ Finset.univ.filter (fun j : Cert.ReferenceIdeal.S2097152x16.Idx => P (Cert.ReferenceIdeal.RefValue.vox j) ∧ (j 1).val = c.val), f j
      = ∑ w : Fin 32, ∑ u ∈ Finset.univ.filter (fun u : Fin 65536 => P (voxEquiv (w, u))), f (vc (voxEquiv (w, u)) c) := by
  rw [← sum_voxels P (fun j => f (vc j c))]
  refine Finset.sum_bij' (fun j _ => Cert.ReferenceIdeal.RefValue.vox j) (fun v _ => vc v c) ?_ ?_ ?_ ?_ ?_
  · intro j hj
    exact Finset.mem_filter.mpr ⟨Finset.mem_univ _, (Finset.mem_filter.mp hj).2.1⟩
  · intro v hv
    refine Finset.mem_filter.mpr ⟨Finset.mem_univ _, ?_, rfl⟩
    rw [vox_vc]
    exact (Finset.mem_filter.mp hv).2
  · intro j hj
    have hc := (Finset.mem_filter.mp hj).2.2
    funext a
    match a with
    | ⟨0, _⟩ => rfl
    | ⟨1, _⟩ => exact (Fin.ext hc).symm
  · intro v _
    exact vox_vc v c
  · intro j hj
    have hc := (Finset.mem_filter.mp hj).2.2
    congr 1
    funext a
    match a with
    | ⟨0, _⟩ => rfl
    | ⟨1, _⟩ => exact Fin.ext hc

end Cert.Proof.KI

end
-- ==== Proof.EmbAgree.lean ====
/-
  Toward the bridge: THE EMBEDDING AGREES — the kernels' flattened embedding at (component, voxel) is the reference's
  transposed, flattened embedding there: both are the argument at the voxel's coordinates (row-major flattenings).
-/
import proofs.«210783_g59777354826199_cont_9to1_m_168_18_alg».proof.Proof.RefSumsIdx

noncomputable section

namespace Cert.Proof.KI

open Idealize.ShloMosaic Idealize.ShloMosaic.ValueIdx
open Cert.KernelIdeal Cert.KernelIdeal.Gen

variable (m : (ℓ : Loc nD τ sig) → Buf (Elt Ideal) ℓ)

/-- THE EMBEDDING AGREES: the flattened embedding the kernels read at (component c, worker w's voxel u) is the reference's
    transposed, flattened embedding at that voxel and component. -/
theorem e_agree (d : Dev nD) (c : Fin 16) (w : Fin 32) (u : Fin 65536) :
    cE m d (flatIx (c.val * 2097152 + w.val * 65536 + u.val) (by have := c.isLt; have := w.isLt; have := u.isLt; omega))
      = Cert.ReferenceIdeal.ReadP.val_main_v7 (F := Ideal) (m (xLoc0 d)) (vc (voxEquiv (w, u)) c) := by
  have hc := c.isLt; have hw := w.isLt; have hu := u.isLt
  rw [Cert.ReferenceIdeal.ReadP.val_main_v7_apply, Cert.ReferenceIdeal.ReadP.val_main_v6_apply, Cert.ReferenceIdeal.ReadP.val_main_v5_apply, cE_eq]
  refine shapeCast_apply (m (xLoc0 d)) shapeCasts_S1x16x32x256x256_S33554432 _ _ ?_
  show (Shape.rowMajor S1x16x32x256x256 (Cert.ReferenceIdeal.ReadP.idx_main_v5 (Cert.ReferenceIdeal.ReadP.idx_main_v6 (Cert.ReferenceIdeal.ReadP.idx_main_v7 (vc (voxEquiv (w, u)) c))))).val
      = (Shape.rowMajor S33554432 (flatIx (c.val * 2097152 + w.val * 65536 + u.val) (by omega))).val
  rewrite [Shape.rowMajor_val_five, Shape.rowMajor_val_one]
  show (((0 * 16 + ((((c.val * 2097152 + (w.val * 65536 + u.val)) / 2097152 * 32 + (c.val * 2097152 + (w.val * 65536 + u.val)) / 65536 % 32) * 256 + (c.val * 2097152 + (w.val * 65536 + u.val)) / 256 % 256) * 256 + (c.val * 2097152 + (w.val * 65536 + u.val)) % 256) / 2097152 % 16) * 32
        + ((((c.val * 2097152 + (w.val * 65536 + u.val)) / 2097152 * 32 + (c.val * 2097152 + (w.val * 65536 + u.val)) / 65536 % 32) * 256 + (c.val * 2097152 + (w.val * 65536 + u.val)) / 256 % 256) * 256 + (c.val * 2097152 + (w.val * 65536 + u.val)) % 256) / 65536 % 32) * 256
        + ((((c.val * 2097152 + (w.val * 65536 + u.val)) / 2097152 * 32 + (c.val * 2097152 + (w.val * 65536 + u.val)) / 65536 % 32) * 256 + (c.val * 2097152 + (w.val * 65536 + u.val)) / 256 % 256) * 256 + (c.val * 2097152 + (w.val * 65536 + u.val)) % 256) / 256 % 256) * 256
        + ((((c.val * 2097152 + (w.val * 65536 + u.val)) / 2097152 * 32 + (c.val * 2097152 + (w.val * 65536 + u.val)) / 65536 % 32) * 256 + (c.val * 2097152 + (w.val * 65536 + u.val)) / 256 % 256) * 256 + (c.val * 2097152 + (w.val * 65536 + u.val)) % 256) % 256
      = c.val * 2097152 + w.val * 65536 + u.val
  omega

end Cert.Proof.KI

end
-- ==== Proof.MeansAgree.lean ====
/-
  Toward the bridge: THE MEANS AGREE. The reference's per-segment sums and counts written in the kernels' terms (worker by
  worker over the kernels' flattened inputs); hence the means table's entry the second call's tiles read for (component,
  segment, any lane) is the reference's mean of the component over the segment.
-/
import proofs.«210783_g59777354826199_cont_9to1_m_168_18_alg».proof.Proof.EmbAgree

noncomputable section

namespace Cert.Proof.KI

open Idealize.ShloMosaic Idealize.ShloMosaic.ValueIdx
open Cert.KernelIdeal Cert.KernelIdeal.Gen

variable (m : (ℓ : Loc nD τ sig) → Buf (Elt Ideal) ℓ)

/-- The kernels' flattened embedding at (component c, worker w's voxel u), as an extended real. -/
def eAt (d : Dev nD) (c : Fin 16) (w : Fin 32) (u : Fin 65536) : EReal :=
  cE m d (flatIx (c.val * 2097152 + w.val * 65536 + u.val) (by have := c.isLt; have := w.isLt; have := u.isLt; omega))

theorem lit0_1 (i : Cert.ReferenceIdeal.S_.Idx) : Cert.ReferenceIdeal.ReadP.val_main_cst_1 (F := Ideal) i = 0 := by
  show Ideal.ofBits .f32 0x00000000#32 = 0
  exact Ideal.ofBits_zero_f32

/-- THE REFERENCE'S SUMS, worker by worker, in the kernels' terms: (segment s, component c)'s is the kernels' flattened
    embedding's component c totalled over the segment's voxels. -/
theorem ref_sums (d : Dev nD) (c : Fin 16) (s : Fin 64) (i : Cert.ReferenceIdeal.S64x16.Idx) (hi0 : (i 0).val = s.val) (hi1 : (i 1).val = c.val)
    (hT : ∀ j : Cert.ReferenceIdeal.S2097152.Idx, ((m (xLoc1 d)) (Cert.ReferenceIdeal.ReadP.idx_main_v4 j) : BitVec 32).toNat ≤ 63) :
    (Cert.ReferenceIdeal.ReadP.val_main_v14 (F := Ideal) (m (xLoc0 d)) (m (xLoc1 d)) (m (xLoc2 d)) i : EReal)
      = ∑ w : Fin 32, ∑ u ∈ Finset.univ.filter (fun u => inSeg (cT m d) (cK m d) w u s.val),
          eAt m d c w u := by
  rw [Cert.ReferenceIdeal.RefValue.sums_apply, lit0_1, zero_add]
  have hp : ∀ j : Cert.ReferenceIdeal.S2097152x16.Idx,
      ((Cert.ReferenceIdeal.RefValue.seg (m (xLoc1 d)) (m (xLoc2 d)) (Cert.ReferenceIdeal.RefValue.vox j)).toInt = ((i 0).val : ℤ) ∧ (j 1).val = (i 1).val)
        ↔ (segRef (m (xLoc1 d)) (m (xLoc2 d)) (Cert.ReferenceIdeal.RefValue.vox j) = s.val ∧ (j 1).val = c.val) := by
    intro j
    rw [Cert.ReferenceIdeal.RefValue.seg_eq _ _ _ (hT _), hi0, hi1]
    exact and_congr_left fun _ => Nat.cast_inj
  rw [Finset.filter_congr fun j _ => hp j,
    sum_voxels_comp (fun v => segRef (m (xLoc1 d)) (m (xLoc2 d)) v = s.val) c]
  refine Finset.sum_congr rfl fun w _ => Finset.sum_congr (Finset.filter_congr fun u _ => ?_) fun u _ => (e_agree m d c w u).symm
  unfold inSeg
  rw [seg_agree]

/-- The reference's counts in the kernels' terms: the number of the segment's voxels, worker by worker. -/
theorem ref_counts_w (d : Dev nD) (s : Fin 64) (kk : Cert.ReferenceIdeal.S64.Idx) (hk : (kk 0).val = s.val)
    (hT : ∀ j : Cert.ReferenceIdeal.S2097152.Idx, ((m (xLoc1 d)) (Cert.ReferenceIdeal.ReadP.idx_main_v4 j) : BitVec 32).toNat ≤ 63) :
    (Cert.ReferenceIdeal.ReadP.val_main_v11 (F := Ideal) (m (xLoc1 d)) (m (xLoc2 d)) kk : EReal)
      = ∑ w : Fin 32, ∑ _u ∈ Finset.univ.filter (fun u => inSeg (cT m d) (cK m d) w u s.val), (1 : EReal) := by
  rw [← counts_agree m d s (ix2 (0 : Fin 1) s) rfl kk hk hT]
  exact cntRow_cnt (cT m d) (cK m d) s (ix2 (0 : Fin 1) s) rfl

theorem lit1_15 (i : Cert.ReferenceIdeal.S64.Idx) : (Cert.ReferenceIdeal.ReadP.val_main_v15 (F := Ideal) i : EReal) = 1 := by
  rw [Cert.ReferenceIdeal.ReadP.val_main_v15_apply]
  show Ideal.ofBits .f32 0x3F800000#32 = 1
  exact ofBits_one

/-- THE MEANS AGREE: the means table's entry the second call's tiles read for (component c, segment s, any lane) is the
    reference's mean of component c over segment s. -/
theorem means_agree (d : Dev nD) (c : Fin 16) (s : Fin 64) (l : Fin 16) (i : Cert.ReferenceIdeal.S64x16.Idx)
    (hi0 : (i 0).val = s.val) (hi1 : (i 1).val = c.val)
    (hT : ∀ j : Cert.ReferenceIdeal.S2097152.Idx, ((m (xLoc1 d)) (Cert.ReferenceIdeal.ReadP.idx_main_v4 j) : BitVec 32).toNat ≤ 63) :
    (cMV m (dSV (cE m) (cT m) (cK m)) (dCV (cT m) (cK m)) MEANSf1 d
        (flatIx (c.val * 1024 + (s.val * 16 + l.val)) (by have := c.isLt; have := s.isLt; have := l.isLt; omega)) : EReal)
      = Cert.ReferenceIdeal.ReadP.val_main_v19 (F := Ideal) (m (xLoc0 d)) (m (xLoc1 d)) (m (xLoc2 d)) i := by
  rw [mt_entry, Cert.ReferenceIdeal.RefValue.means_apply, ref_sums m d c s i hi0 hi1 hT,
    ref_counts_w m d s (Cert.ReferenceIdeal.RefValue.segOf i) hi0 hT, lit1_15]
  rfl

end Cert.Proof.KI

end
-- ==== Proof.TermsAgree.lean ====
/-
  Toward the bridge: THE TERMS AGREE voxel by voxel. The gather's index for a voxel is its segment (a segment id in range is
  not wrapped); hence, for a voxel of segment s, its squared L1 distance to the means table's entries — as the second kernel
  adds it into the partial terms — is the reference's squared distance to the gathered means (the sum of absolute values is
  not negative, so the reference's clamp at 0 and its subtraction of 0.0 change nothing).
-/
import proofs.«210783_g59777354826199_cont_9to1_m_168_18_alg».proof.Proof.MeansAgree

noncomputable section

namespace Cert.Proof.KI

open Idealize.ShloMosaic Idealize.ShloMosaic.ValueIdx
open Cert.ReferenceIdeal Cert.ReferenceIdeal.Gen Cert.ReferenceIdeal.ReadP Cert.ReferenceIdeal.RefValue

theorem segRef_le (x1 x2 : (⟨S1x1x32x256x256, .i32⟩ : BufTy).Contents (Elt Ideal)) (j : S2097152.Idx)
    (hT : (x1 (idx_main_v4 j) : BitVec 32).toNat ≤ 63) : segRef x1 x2 j ≤ 63 := by
  unfold segRef; split_ifs <;> omega

/-- A select on "the word is negative" of a word that is not negative is the word. -/
theorem select_nonneg (a b : BitVec 32) (ha : 0 ≤ a.toInt) : Scalar.select (IntOp.cmpi .slt a 0#32) b a = a := by
  have h : a.slt 0#32 = false := by simp [BitVec.slt]; omega
  simp [IntOp.cmpi, h, Scalar.select]

/-- THE GATHER'S INDEX for (voxel j, component c): the voxel's segment and the component. -/
theorem gidx_seg (x1 x2 : (⟨S1x1x32x256x256, .i32⟩ : BufTy).Contents (Elt Ideal)) (j : S2097152.Idx) (c : Fin 16)
    (hT : (x1 (idx_main_v4 j) : BitVec 32).toNat ≤ 63) (a : Fin S64x16.rank) :
    (gidx (val_main_v33 (F := Ideal) x1 x2) (idx_main_v37 j c) a).val
      = match a with | ⟨0, _⟩ => segRef x1 x2 j | ⟨1, _⟩ => c.val := by
  match a with
  | ⟨1, _⟩ => rfl
  | ⟨0, _⟩ =>
    show min (val_main_v33 (F := Ideal) x1 x2 (sidx2 (idx_main_v37 j c))).toInt.toNat 63 = segRef x1 x2 j
    have hv : vox (idx_main_v37 j c) = j := by funext b; match b with | ⟨0, _⟩ => rfl
    rw [gather_index, hv]
    have hs := seg_eq x1 x2 j hT
    have hle := segRef_le x1 x2 j hT
    have hs' : (seg x1 x2 j).toInt = ((segRef x1 x2 j : ℕ) : ℤ) := hs
    rw [val_main_v28_apply, val_main_c_6_apply, select_nonneg _ _ (by rw [hs']; exact Int.natCast_nonneg _), hs']
    simp only [Int.toNat_natCast]
    omega

end Cert.Proof.KI

namespace Cert.Proof.KI

open Idealize.ShloMosaic Idealize.ShloMosaic.ValueIdx

open Cert.KernelIdeal Cert.KernelIdeal.Gen in
/-- The means table the second call's tiles read, as a function on the flat index. -/
def mtOf (m : (ℓ : Loc Cert.KernelIdeal.nD Cert.KernelIdeal.τ Cert.KernelIdeal.sig) → Buf (Elt Ideal) ℓ) (d : Dev Cert.KernelIdeal.nD) : Cert.KernelIdeal.S16384.Idx → EReal :=
  cMV m (dSV (cE m) (cT m) (cK m)) (dCV (cT m) (cK m)) MEANSf1 d

theorem eabs_nonneg (x : EReal) : 0 ≤ eabs x := by
  unfold eabs
  rcases le_total 0 x with h | h
  · exact le_max_of_le_left h
  · exact le_max_of_le_right (by simpa using EReal.neg_le_neg_iff.mpr h)

set_option maxHeartbeats 2000000 in
open Cert.KernelIdeal Cert.KernelIdeal.Gen in
/-- THE TERMS AGREE, voxel by voxel: for a voxel of segment s, its squared L1 distance to the means table's entries (as the
    second kernel adds it up) is the reference's squared distance to the gathered means. -/
theorem term_agree (m : (ℓ : Loc nD τ sig) → Buf (Elt Ideal) ℓ) (d : Dev nD) (w : Fin 32) (u : Fin 65536) (s : Fin 64)
    (hs : inSeg (cT m d) (cK m d) w u s.val)
    (hT : ∀ j : Cert.ReferenceIdeal.S2097152.Idx, ((m (xLoc1 d)) (Cert.ReferenceIdeal.ReadP.idx_main_v4 j) : BitVec 32).toNat ≤ 63) :
    termOf (fun i => (cE m d i : EReal)) (mtOf m d) w s u
      = Cert.ReferenceIdeal.ReadP.val_main_v42 (F := Ideal) (m (xLoc0 d)) (m (xLoc1 d)) (m (xLoc2 d)) (voxEquiv (w, u)) := by
  have hseg : segRef (m (xLoc1 d)) (m (xLoc2 d)) (voxEquiv (w, u)) = s.val := by
    rw [← seg_agree]; exact hs
  have hterm : ∀ c : Fin 16,
      eabs (eAt m d c w u
        - mtOf m d (flatIx (c.val * 1024 + (s.val * 16 + (w.val * 65536 + u.val) % 16)) (by have := s.isLt; have := c.isLt; have : (w.val * 65536 + u.val) % 16 < 16 := Nat.mod_lt _ (by norm_num); omega)))
      = FloatOps.hostAbsf (F := Ideal) (φ := .f32)
          (FloatOps.subf (F := Ideal) (φ := .f32) (Cert.ReferenceIdeal.ReadP.val_main_v7 (F := Ideal) (m (xLoc0 d)) (Cert.ReferenceIdeal.ReadP.idx_main_v37 (voxEquiv (w, u)) c))
            (Cert.ReferenceIdeal.ReadP.val_main_v34 (F := Ideal) (m (xLoc0 d)) (m (xLoc1 d)) (m (xLoc2 d)) (Cert.ReferenceIdeal.ReadP.idx_main_v37 (voxEquiv (w, u)) c))) := by
    intro c
    have hidx : Cert.ReferenceIdeal.ReadP.idx_main_v37 (voxEquiv (w, u)) c = vc (voxEquiv (w, u)) c := by
      funext a; match a with | ⟨0, _⟩ => rfl | ⟨1, _⟩ => rfl
    rw [Cert.ReferenceIdeal.RefValue.gathered_apply, hidx, ← e_agree m d c w u, ← hidx]
    have hm := means_agree m d c s ⟨(w.val * 65536 + u.val) % 16, Nat.mod_lt _ (by norm_num)⟩
      (Cert.ReferenceIdeal.RefValue.gidx (Cert.ReferenceIdeal.ReadP.val_main_v33 (F := Ideal) (m (xLoc1 d)) (m (xLoc2 d))) (Cert.ReferenceIdeal.ReadP.idx_main_v37 (voxEquiv (w, u)) c))
      ((gidx_seg _ _ _ c (hT _) 0).trans hseg)
      (gidx_seg _ _ _ c (hT _) 1) hT
    rw [← hm]
    rfl
  unfold termOf
  rw [Cert.ReferenceIdeal.ReadP.val_main_v42_apply, Cert.ReferenceIdeal.ReadP.val_main_v41_apply, Cert.ReferenceIdeal.RefValue.dist_apply]
  simp only [hterm]
  have h0 : ∀ i, ((Cert.ReferenceIdeal.ReadP.val_main_cst_8 (F := Ideal)) i : EReal) = 0 := fun _ => Ideal.ofBits_zero_f32
  have h38 : (Cert.ReferenceIdeal.ReadP.val_main_v38 (F := Ideal) (voxEquiv (w, u)) : EReal) = 0 := by
    rw [Cert.ReferenceIdeal.ReadP.val_main_v38_apply]; exact Ideal.ofBits_zero_f32
  have h40 : (Cert.ReferenceIdeal.ReadP.val_main_v40 (F := Ideal) (voxEquiv (w, u)) : EReal) = 0 := by
    rw [Cert.ReferenceIdeal.ReadP.val_main_v40_apply]; exact Ideal.ofBits_zero_f32
  rw [h0, h38, h40]
  have hX : (0 : EReal) ≤ ∑ c : Fin 16, FloatOps.hostAbsf (F := Ideal) (φ := .f32)
      (FloatOps.subf (F := Ideal) (φ := .f32) (Cert.ReferenceIdeal.ReadP.val_main_v7 (F := Ideal) (m (xLoc0 d)) (Cert.ReferenceIdeal.ReadP.idx_main_v37 (voxEquiv (w, u)) c))
        (Cert.ReferenceIdeal.ReadP.val_main_v34 (F := Ideal) (m (xLoc0 d)) (m (xLoc1 d)) (m (xLoc2 d)) (Cert.ReferenceIdeal.ReadP.idx_main_v37 (voxEquiv (w, u)) c))) :=
    Finset.sum_nonneg fun c _ => eabs_nonneg _
  show sq _ = max (0 + _ - 0) 0 * max (0 + _ - 0) 0
  rw [zero_add, sub_zero, max_eq_left hX]
  have hsum := Finset.sum_congr (s₁ := (Finset.univ : Finset (Fin 16))) rfl fun c _ => hterm c
  show (∑ c : Fin 16, eabs (eAt m d c w u - mtOf m d (flatIx (c.val * 1024 + (s.val * 16 + (w.val * 65536 + u.val) % 16)) _)))
      * (∑ c : Fin 16, eabs (eAt m d c w u - mtOf m d (flatIx (c.val * 1024 + (s.val * 16 + (w.val * 65536 + u.val) % 16)) _))) = _
  rw [hsum]

end Cert.Proof.KI

end
-- ==== Proof.SqSumAgree.lean ====
/-
  Toward the bridge: the per-segment sums of squared distances agree — the second combining call's terms row numerator
  over the kernel's partial terms is the reference's segment sum of the squared distances.
-/
import proofs.«210783_g59777354826199_cont_9to1_m_168_18_alg».proof.Proof.TermsAgree

noncomputable section

namespace Cert.Proof.KI

open Idealize.ShloMosaic Idealize.ShloMosaic.ValueIdx
open Cert.KernelIdeal Cert.KernelIdeal.Gen

variable (m : (ℓ : Loc nD τ sig) → Buf (Elt Ideal) ℓ)

theorem lit0_11 (i : Cert.ReferenceIdeal.S_.Idx) : (Cert.ReferenceIdeal.ReadP.val_main_cst_11 (F := Ideal) i : EReal) = 0 := Ideal.ofBits_zero_f32

/-- THE PER-SEGMENT SUMS OF SQUARED DISTANCES AGREE: the terms row's numerator over the kernel's partial terms is the
    reference's per-segment sum. -/
theorem sqsum_agree (d : Dev nD) (s : Fin 64) (kk : Cert.ReferenceIdeal.S64.Idx) (hk : (kk 0).val = s.val)
    (hT : ∀ j : Cert.ReferenceIdeal.S2097152.Idx, ((m (xLoc1 d)) (Cert.ReferenceIdeal.ReadP.idx_main_v4 j) : BitVec 32).toNat ≤ 63) :
    (∑ r : Fin 1024, (∑ w : Fin 32, termArr (fun i => (cE m d i : EReal)) (cT m d) (cK m d) (mtOf m d) (ix2 w r)) * (if r.val / 16 = s.val then (1 : EReal) else 0))
      = Cert.ReferenceIdeal.ReadP.val_main_v45 (F := Ideal) (m (xLoc0 d)) (m (xLoc1 d)) (m (xLoc2 d)) kk := by
  rw [termNum_term, Cert.ReferenceIdeal.RefValue.sqsum_apply, lit0_11, zero_add]
  have hp : ∀ j : Cert.ReferenceIdeal.S2097152.Idx,
      ((Cert.ReferenceIdeal.RefValue.seg (m (xLoc1 d)) (m (xLoc2 d)) j).toInt = ((kk 0).val : ℤ)) ↔ segRef (m (xLoc1 d)) (m (xLoc2 d)) j = s.val := by
    intro j
    rw [Cert.ReferenceIdeal.RefValue.seg_eq _ _ _ (hT _), hk]
    exact Nat.cast_inj
  rw [Finset.filter_congr fun j _ => hp j, sum_voxels]
  refine Finset.sum_congr rfl fun w _ => ?_
  have hf : ∀ u : Fin 65536, inSeg (cT m d) (cK m d) w u s.val ↔ segRef (m (xLoc1 d)) (m (xLoc2 d)) (voxEquiv (w, u)) = s.val := by
    intro u; unfold inSeg; rw [seg_agree]
  rw [Finset.filter_congr fun u _ => hf u]
  refine Finset.sum_congr rfl fun u hu => ?_
  have hs : inSeg (cT m d) (cK m d) w u s.val := (hf u).mpr (Finset.mem_filter.mp hu).2
  rw [term_agree m d w u s hs hT, Cert.ReferenceIdeal.ReadP.val_main_v42_apply, Cert.ReferenceIdeal.ReadP.val_main_v41_apply]

end Cert.Proof.KI

end
-- ==== Proof.ObjAgree.lean ====
/-
  Toward the bridge: the object masks agree and the per-object terms agree, segment by segment.
-/
import proofs.«210783_g59777354826199_cont_9to1_m_168_18_alg».proof.Proof.SqSumAgree

noncomputable section

namespace Cert.Proof.KI

open Idealize.ShloMosaic Idealize.ShloMosaic.ValueIdx
open Cert.KernelIdeal Cert.KernelIdeal.Gen

variable (m : (ℓ : Loc nD τ sig) → Buf (Elt Ideal) ℓ)

/-- THE OBJECT MASKS AGREE: a segment is an object for the kernel (its counts row positive, not segment 0) exactly when it
    is for the reference. -/
theorem obj_agree (d : Dev nD) (s : Fin 64) (b : S1x64.Idx) (hb : (b 1).val = s.val) (kk : Cert.ReferenceIdeal.S64.Idx) (hk : (kk 0).val = s.val)
    (hT : ∀ j : Cert.ReferenceIdeal.S2097152.Idx, ((m (xLoc1 d)) (Cert.ReferenceIdeal.ReadP.idx_main_v4 j) : BitVec 32).toNat ≤ 63) :
    objBit (k3_pay4 (F := Ideal) (dCV (cT m) (cK m) d)) b
      = Cert.ReferenceIdeal.ReadP.val_main_v25 (F := Ideal) (m (xLoc1 d)) (m (xLoc2 d)) kk := by
  rw [Cert.ReferenceIdeal.ReadP.val_main_v25_apply, Cert.ReferenceIdeal.ReadP.val_main_v21_apply, Cert.ReferenceIdeal.ReadP.val_main_v24_apply,
    Cert.ReferenceIdeal.ReadP.val_main_v22_apply, Cert.ReferenceIdeal.ReadP.val_main_v23_apply, Cert.ReferenceIdeal.ReadP.val_main_v20_apply,
    ← counts_agree m d s b hb kk hk hT, hk]
  show IntOp.andi (FloatOps.cmpf (F := Ideal) .ogt (k3_pay4 (F := Ideal) (dCV (cT m) (cK m) d) b) (k3_pay6 (F := Ideal) b))
      (IntOp.cmpi .sgt (BitVec.ofNat 32 (0 * S1x64.size 1 + (b 1).val)) 0#32) = _
  rw [Nat.zero_mul, Nat.zero_add, hb]
  rfl

/-- THE PER-OBJECT TERMS AGREE: the terms row entry of segment s (total of squared distances over the count raised to at
    least 1) is the reference's. -/
theorem perobj_agree (d : Dev nD) (s : Fin 64) (j : S1x64.Idx) (hj : (j 1).val = s.val) (kk : Cert.ReferenceIdeal.S64.Idx) (hk : (kk 0).val = s.val)
    (hT : ∀ i : Cert.ReferenceIdeal.S2097152.Idx, ((m (xLoc1 d)) (Cert.ReferenceIdeal.ReadP.idx_main_v4 i) : BitVec 32).toNat ≤ 63) :
    k3_pay5 (F := Ideal) (dRV (cE m) (cT m) (cK m) (cMV m (dSV (cE m) (cT m) (cK m)) (dCV (cT m) (cK m)) MEANSf1) d) (dCV (cT m) (cK m) d) j
      = Cert.ReferenceIdeal.ReadP.val_main_v46 (F := Ideal) (m (xLoc0 d)) (m (xLoc1 d)) (m (xLoc2 d)) kk := by
  rw [termRow_eq, Cert.ReferenceIdeal.ReadP.val_main_v46_apply, Cert.ReferenceIdeal.ReadP.val_main_v16_apply,
    ← counts_agree m d s j hj kk hk hT, ← sqsum_agree m d s kk hk hT, hj, Cert.ReferenceIdeal.ReadP.val_main_v15_apply]
  rfl

end Cert.Proof.KI

end
-- ==== Proof.LossInt.lean ====
/-
  Toward the bridge: THE INTRA-SEGMENT LOSS AGREES — the second combining call's mean, over the object segments, of the
  per-object terms (read in OutScalar.lean) is the reference's, segment by segment and in the two totals.
-/
import proofs.«210783_g59777354826199_cont_9to1_m_168_18_alg».proof.Proof.ObjAgree

noncomputable section

namespace Cert.Proof.KI

open Idealize.ShloMosaic Idealize.ShloMosaic.ValueIdx
open Cert.KernelIdeal Cert.KernelIdeal.Gen

variable (m : (ℓ : Loc nD τ sig) → Buf (Elt Ideal) ℓ)

/-- A sum over the 64-vector's indices is the sum over its coordinate. -/
theorem sum_idx1 {M : Type} [AddCommMonoid M] (G : Cert.ReferenceIdeal.S64.Idx → M) : ∑ j, G j = ∑ s : Fin 64, G (ix1 s) := by
  refine (Fintype.sum_equiv (⟨fun j => j 0, fun s => ix1 s, fun j => (eq_ix1 j).symm, fun _ => rfl⟩ : Cert.ReferenceIdeal.S64.Idx ≃ Fin 64) _ _ fun j => ?_)
  exact congrArg G (eq_ix1 j)

theorem sum_row {M : Type} [AddCommMonoid M] (G : S1x64.Idx → M) : ∑ b, G b = ∑ s : Fin 64, G (ix2 (0 : Fin 1) s) := by
  rw [sum_idx2 G]
  exact Fin.sum_univ_one _

/-- A one-bit word widened and read signed is the bit read unsigned: 0 or 1. -/
theorem bit_conv (x : BitVec 1) : FloatOps.sitofp (F := Ideal) FTy.f32 (x.setWidth 32) = FloatOps.uitofp (F := Ideal) FTy.f32 x := by
  rcases BitVec.eq_zero_or_eq_one x with rfl | rfl
  · show ((((BitVec.setWidth 32 (0#1)).toInt : ℝ)) : EReal) = (((0#1 : BitVec 1).toNat : ℝ) : EReal)
    have h1 : (BitVec.setWidth 32 (0#1)).toInt = 0 := by decide
    have h2 : (0#1 : BitVec 1).toNat = 0 := by decide
    rw [h1, h2]; simp
  · show ((((BitVec.setWidth 32 (1#1)).toInt : ℝ)) : EReal) = (((1#1 : BitVec 1).toNat : ℝ) : EReal)
    have h1 : (BitVec.setWidth 32 (1#1)).toInt = 1 := by decide
    have h2 : (1#1 : BitVec 1).toNat = 1 := by decide
    rw [h1, h2]; simp

/-- THE INTRA-SEGMENT LOSS AGREES: the second combining call's mean over the object segments of the per-object terms is the
    reference's. -/
theorem lint_agree (d : Dev nD) (i : Cert.ReferenceIdeal.S_.Idx)
    (hT : ∀ j : Cert.ReferenceIdeal.S2097152.Idx, ((m (xLoc1 d)) (Cert.ReferenceIdeal.ReadP.idx_main_v4 j) : BitVec 32).toNat ≤ 63) :
    Scalar.divf (F := Ideal)
        (∑ b : S1x64.Idx, select (objBit (k3_pay4 (F := Ideal) (dCV (cT m) (cK m) d)))
          (k3_pay5 (F := Ideal) (dRV (cE m) (cT m) (cK m) (cMV m (dSV (cE m) (cT m) (cK m)) (dCV (cT m) (cK m)) MEANSf1) d) (dCV (cT m) (cK m) d))
          (broadcast S1x64 (FloatOps.ofBits (F := Ideal) FTy.f32 0#32)) b)
        (Scalar.maximumf (F := Ideal) (FloatOps.ofBits FTy.f32 1065353216#32)
          (∑ b : S1x64.Idx, sitofp (F := Ideal) FTy.f32 (extui 32 (objBit (k3_pay4 (F := Ideal) (dCV (cT m) (cK m) d))) natLt_1_32) b))
      = Cert.ReferenceIdeal.ReadP.val_main_v50 (F := Ideal) (m (xLoc0 d)) (m (xLoc1 d)) (m (xLoc2 d)) i := by
  rw [Cert.ReferenceIdeal.ReadP.val_main_v50_apply, Cert.ReferenceIdeal.ReadP.val_main_v48_apply, Cert.ReferenceIdeal.ReadP.val_main_v49_apply,
    Cert.ReferenceIdeal.ReadP.val_main_v27_apply, sum_idx1, sum_idx1, sum_row, sum_row]
  have hA : ∀ s : Fin 64,
      select (objBit (k3_pay4 (F := Ideal) (dCV (cT m) (cK m) d)))
          (k3_pay5 (F := Ideal) (dRV (cE m) (cT m) (cK m) (cMV m (dSV (cE m) (cT m) (cK m)) (dCV (cT m) (cK m)) MEANSf1) d) (dCV (cT m) (cK m) d))
          (broadcast S1x64 (FloatOps.ofBits (F := Ideal) FTy.f32 0#32)) (ix2 (0 : Fin 1) s)
        = Cert.ReferenceIdeal.ReadP.val_main_v47 (F := Ideal) (m (xLoc0 d)) (m (xLoc1 d)) (m (xLoc2 d)) (ix1 s) := by
    intro s
    rw [Cert.ReferenceIdeal.ReadP.val_main_v47_apply, ← obj_agree m d s (ix2 (0 : Fin 1) s) rfl (ix1 s) rfl hT,
      ← perobj_agree m d s (ix2 (0 : Fin 1) s) rfl (ix1 s) rfl hT]
    rfl
  have hB : ∀ s : Fin 64,
      sitofp (F := Ideal) FTy.f32 (extui 32 (objBit (k3_pay4 (F := Ideal) (dCV (cT m) (cK m) d))) natLt_1_32) (ix2 (0 : Fin 1) s)
        = Cert.ReferenceIdeal.ReadP.val_main_v26 (F := Ideal) (m (xLoc1 d)) (m (xLoc2 d)) (ix1 s) := by
    intro s
    rw [Cert.ReferenceIdeal.ReadP.val_main_v26_apply, ← obj_agree m d s (ix2 (0 : Fin 1) s) rfl (ix1 s) rfl hT]
    exact bit_conv _
  rw [Finset.sum_congr rfl fun s _ => hA s, Finset.sum_congr rfl fun s _ => hB s]
  show Ideal.div _ (max _ _) = Ideal.div (Ideal.ofBits .f32 0x00000000#32 + _) (max _ (Ideal.ofBits .f32 0x00000000#32 + _))
  rw [Ideal.ofBits_zero_f32, zero_add, zero_add]
  rfl

end Cert.Proof.KI

end
-- ==== Proof.Comb1D.lean ====
import proofs.«210783_g59777354826199_cont_9to1_m_168_18_alg».proof.Proof.Comb1C

noncomputable section

namespace Cert.Proof.KI

open Cert.KernelIdeal Cert.KernelIdeal.Gen
open Idealize.ShloMosaic Idealize.ShloMosaic.ValueIdx

/-! # Toward the bridge: the first combining call's scalar, its pieces read (ideal instance)

  The scalar is  1 · (the pairwise hinge total over the number of ordered pairs of objects, raised to at least one)
  + 0.001 · (the objects' norms' total over the number of objects, raised to at least one); the pieces below are the
  segments' counts as a row, its fold matrix, a component's means as a row, and the final combination. -/

/-- The 1024 × 64 fold matrix of the first call is the second call's. -/
theorem Fmat5_apply (i : S1024x64.Idx) : k1_pay5 (F := Ideal) i = if (i 0).val / 16 = (i 1).val then 1 else 0 := by
  have h : k1_pay5 (F := Ideal) = k3_pay3 (F := Ideal) := rfl
  rw [h]
  exact Fmat_apply i

/-- A row of 1024 against a 1024 × 64 matrix: element s is the sum over r of the row's r times the matrix's (r, s). -/
theorem vecmat1024_apply (u : FVec Ideal S1x1024 .f32) (B : FVec Ideal S1024x64 .f32) (b : BitVec 32) (hb : Ideal.ofBits .f32 b = 0)
    (j : S1x64.Idx) :
    matmul (F := Ideal) dot_S1x1024_S1024x64_S1x64_1_0_0_1_n_n none u B (constant S1x64 .f32 b) j
      = ∑ r : Fin 1024, u (ix2 0 r) * B (ix2 r (j 1)) := by
  simp only [matmul]
  have h0 : (constant (F := Ideal) S1x64 .f32 b) = constant (F := Ideal) S1x64 .f32 0x00000000#32 := by
    funext i; show Ideal.ofBits .f32 b = Ideal.ofBits .f32 0x00000000#32; rw [hb, Ideal.ofBits_zero_f32]
  rw [h0, Ideal.matmul_constant_zero_apply]
  refine Fintype.sum_equiv (contrEquiv1 dot_S1x1024_S1024x64_S1x64_1_0_0_1_n_n 1024 rfl rfl) _ _ fun k1 => ?_
  congr 1
  · refine congrArg u (funext fun a => Fin.ext ?_)
    match a with
    | ⟨0, _⟩ =>
      show (j 0).val = 0
      have h1 : (j 0).val < 1 := (j 0).isLt
      omega
    | ⟨1, _⟩ => rfl
  · refine congrArg B (funext fun a => Fin.ext ?_)
    match a with
    | ⟨0, _⟩ => rfl
    | ⟨1, _⟩ => rfl

/-- The segments' counts as a row: element s is the total of the workers' totals over segment s's columns. -/
theorem cntRow1_apply (v6 : FVec Ideal S1x1024 .f32) (j : S1x64.Idx) :
    k1_pay9 (F := Ideal) v6 (k1_pay5 (F := Ideal)) j = ∑ r : Fin 1024, v6 (ix2 0 r) * (if r.val / 16 = (j 1).val then (1 : EReal) else 0) := by
  unfold k1_pay9
  rw [vecmat1024_apply _ _ _ Ideal.ofBits_zero_f32]
  refine Finset.sum_congr rfl fun r _ => ?_
  rw [Fmat5_apply]

/-- and raised to at least one. -/
theorem cntRowMax1_apply (v6 : FVec Ideal S1x1024 .f32) (j : S1x64.Idx) :
    k1_pay11 (F := Ideal) v6 (k1_pay5 (F := Ideal)) j
      = max (∑ r : Fin 1024, v6 (ix2 0 r) * (if r.val / 16 = (j 1).val then (1 : EReal) else 0)) 1 := by
  unfold k1_pay11
  show FloatOps.maximumf (F := Ideal) (φ := .f32) (k1_pay9 (F := Ideal) v6 (k1_pay5 (F := Ideal)) j) (Ideal.ofBits .f32 0x3F800000#32) = _
  rw [cntRow1_apply, ofBits_one]
  rfl

/-- THE SCALAR'S FINAL COMBINATION: one times the pairwise part plus a thousandth (the literal) of the norms' total over
    the number of objects raised to at least one. -/
theorem scal1_apply (v88 v352 v358 : EReal) (i : S1x1.Idx) :
    k1_pay1 (F := Ideal) v88 v352 v358 (Ideal.ofBits .f32 0x3F800000#32) i
      = 1 * v352 + Ideal.ofBits .f32 0x3A83126F#32 * Ideal.div v358 (max 1 v88) := by
  unfold k1_pay1
  show Ideal.ofBits .f32 0x3F800000#32 * v352 + Ideal.ofBits .f32 0x3A83126F#32 * Ideal.div v358 (max (Ideal.ofBits .f32 0x3F800000#32) v88) = _
  rw [ofBits_one]

end Cert.Proof.KI

end
-- ==== Proof.Comb1E.lean ====
import proofs.«210783_g59777354826199_cont_9to1_m_168_18_alg».proof.Proof.Comb1D

noncomputable section

namespace Cert.Proof.KI

open Cert.KernelIdeal Cert.KernelIdeal.Gen
open Idealize.ShloMosaic Idealize.ShloMosaic.ValueIdx

/-! # Toward the bridge: the first combining call's total sums, read (ideal instance) -/

/-- The 64 indices of a 1 × 1 × 64 vector. -/
def idx1x1x64 : Fin 64 ≃ S1x1x64.Idx where
  toFun s := ix3 0 0 s
  invFun i := i 2
  left_inv _ := rfl
  right_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => rfl

/-- The 64 indices of a 1 × 64 × 1 vector. -/
def idx1x64x1 : Fin 64 ≃ S1x64x1.Idx where
  toFun s := ix3 0 s 0
  invFun i := i 1
  left_inv _ := rfl
  right_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)

/-- The 64 × 64 indices of a 1 × 64 × 64 vector. -/
def idx1x64x64 : Fin 64 × Fin 64 ≃ S1x64x64.Idx where
  toFun p := ix3 0 p.1 p.2
  invFun i := (i 1, i 2)
  left_inv _ := rfl
  right_inv i := by
    funext a
    match a with
    | ⟨0, _⟩ => exact Fin.ext (by have h : (i 0).val < 1 := (i 0).isLt; show 0 = (i 0).val; omega)
    | ⟨1, _⟩ => rfl
    | ⟨2, _⟩ => rfl

/-- THE NUMBER OF OBJECTS: the total of the objects' marks (a segment is an object when its count is positive and it is
    not segment 0), each mark read as 0 or 1. -/
theorem nobj_apply (v6 : FVec Ideal S1x1024 .f32) (v35 : FVec Ideal S1024x64 .f32) :
    k1_pay15 (F := Ideal) v6 v35
      = ∑ s : Fin 64, (((BitVec.setWidth 32 (k1_pay13 (F := Ideal) v6 v35 (ix2 0 s))).toInt : ℝ) : EReal) := by
  unfold k1_pay15
  show (shapeCast S1x1x1 (multiReduction (F := Ideal) .add [1, 2] S1 _ 0x00000000#32 reduces_S1x1x64_S1 (.inl rfl) rfl) shapeCasts_S1_S1x1x1) _ = _
  unfold shapeCast
  refine (Ideal.multiReduction_add_total _ _ _ (fun b => by fin_cases b; rfl) _ _ _).trans ?_
  refine (Fintype.sum_equiv idx1x1x64 _ _ fun s => ?_).symm
  have hre : Shape.reshapeEquiv shapeCasts_S1x64_S1x1x64 (idx1x1x64 s) = ix2 0 s :=
    Shape.reshapeEquiv_eq_of_rowMajor _ (by
      rw [Shape.rowMajor_val_two, Shape.rowMajor_val_three]
      show 0 * 64 + s.val = (0 * 1 + 0) * 64 + s.val
      omega)
  rw [hre]
  rfl

/-- THE NORMS' TOTAL: over the objects s, what the norms' vector holds at s. -/
theorem nrmTot_apply (v3 : FVec Ideal S1x16384 .f32) (v64 : FVec Ideal S64x1024 .f32) (v70 : FVec Ideal S64x1 .f32)
    (v82 : IVec S64x1 1) (v300 v305 : FVec Ideal S64x1 .f32) :
    k1_pay80 (F := Ideal) v3 v64 v70 v82 v300 v305
      = ∑ s : Fin 64, (if v82 (ix2 s 0) = 1 then
          (v300 (ix2 s 0) + max (v305 (ix2 s 0)) (-(v305 (ix2 s 0))))
            + max (k1_pay77 (F := Ideal) v3 v64 v70 (ix2 s 0)) (-(k1_pay77 (F := Ideal) v3 v64 v70 (ix2 s 0)))
        else (0 : EReal)) := by
  unfold k1_pay80
  show (shapeCast S1x1x1 (multiReduction (F := Ideal) .add [1, 2] S1 _ 0x00000000#32 reduces_S1x64x1_S1 (.inl rfl) rfl) shapeCasts_S1_S1x1x1) _ = _
  unfold shapeCast
  refine (Ideal.multiReduction_add_total _ _ _ (fun b => by fin_cases b; rfl) _ _ _).trans ?_
  refine (Fintype.sum_equiv idx1x64x1 _ _ fun s => ?_).symm
  have hre : Shape.reshapeEquiv shapeCasts_S64x1_S1x64x1 (idx1x64x1 s) = ix2 s 0 :=
    Shape.reshapeEquiv_eq_of_rowMajor _ (by
      rw [Shape.rowMajor_val_two, Shape.rowMajor_val_three]
      show s.val * 1 + 0 = (0 * 64 + s.val) * 1 + 0
      omega)
  rw [hre]
  show _ = Scalar.select (v82 (ix2 s 0)) _ _
  unfold Scalar.select
  by_cases h : v82 (ix2 s 0) = 1
  · rw [if_pos h, if_pos h]; rfl
  · rw [if_neg h, if_neg h]
    show (0 : EReal) = Ideal.ofBits .f32 0x00000000#32
    rw [Ideal.ofBits_zero_f32]

end Cert.Proof.KI

end
-- ==== Proof.Comb1F.lean ====
import proofs.«210783_g59777354826199_cont_9to1_m_168_18_alg».proof.Proof.Comb1E

noncomputable section

namespace Cert.Proof.KI

open Cert.KernelIdeal Cert.KernelIdeal.Gen
open Idealize.ShloMosaic Idealize.ShloMosaic.ValueIdx

/-! # Toward the bridge: a segment's means by component, and its norm (ideal instance) -/

/-- The workers' totals' row read at a column (zero off the row). -/
def v3At (v3 : FVec Ideal S1x16384 .f32) (n : ℕ) : EReal := if h : n < 16384 then v3 (ix2 0 ⟨n, h⟩) else 0

/-- Segment s's mean of component c: the component's total over the segment's columns over the segment's raised count. -/
def colMean (v3 : FVec Ideal S1x16384 .f32) (v64 : FVec Ideal S64x1024 .f32) (v70 : FVec Ideal S64x1 .f32) (s : Fin 64) (c : ℕ) : EReal :=
  FloatOps.divf (F := Ideal) (φ := .f32) (∑ r : Fin 1024, v64 (ix2 s r) * v3At v3 (c * 1024 + r.val)) (v70 (ix2 s 0))

/-- |x| as the programs compute it. -/
def eabs1 (x : EReal) : EReal := max x (-x)

theorem col0_apply (v3 : FVec Ideal S1x16384 .f32) (v64 : FVec Ideal S64x1024 .f32) (v70 : FVec Ideal S64x1 .f32) (s : Fin 64) :
    k1_pay17 (F := Ideal) v3 v64 v70 (ix2 s 0) = colMean v3 v64 v70 s 0 := by
  unfold k1_pay17 colMean
  show FloatOps.divf (F := Ideal) (φ := .f32) (matmul (F := Ideal) dot_S64x1024_S1x1024_S64x1_1_1_0_0_n_n none v64 (k1_pay16 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay16
  rw [slice1024_apply v3 0 _ (by omega) r, v3At, dif_pos (show 0 * 1024 + r.val < 16384 by have := r.isLt; omega)]

theorem col1_apply (v3 : FVec Ideal S1x16384 .f32) (v64 : FVec Ideal S64x1024 .f32) (v70 : FVec Ideal S64x1 .f32) (s : Fin 64) :
    k1_pay20 (F := Ideal) v3 v64 v70 (ix2 s 0) = colMean v3 v64 v70 s 1 := by
  unfold k1_pay20 colMean
  show FloatOps.divf (F := Ideal) (φ := .f32) (matmul (F := Ideal) dot_S64x1024_S1x1024_S64x1_1_1_0_0_n_n none v64 (k1_pay19 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay19
  rw [slice1024_apply v3 1024 _ (by omega) r, v3At, dif_pos (show 1 * 1024 + r.val < 16384 by have := r.isLt; omega)]

theorem col2_apply (v3 : FVec Ideal S1x16384 .f32) (v64 : FVec Ideal S64x1024 .f32) (v70 : FVec Ideal S64x1 .f32) (s : Fin 64) :
    k1_pay25 (F := Ideal) v3 v64 v70 (ix2 s 0) = colMean v3 v64 v70 s 2 := by
  unfold k1_pay25 colMean
  show FloatOps.divf (F := Ideal) (φ := .f32) (matmul (F := Ideal) dot_S64x1024_S1x1024_S64x1_1_1_0_0_n_n none v64 (k1_pay24 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay24
  rw [slice1024_apply v3 2048 _ (by omega) r, v3At, dif_pos (show 2 * 1024 + r.val < 16384 by have := r.isLt; omega)]

theorem col3_apply (v3 : FVec Ideal S1x16384 .f32) (v64 : FVec Ideal S64x1024 .f32) (v70 : FVec Ideal S64x1 .f32) (s : Fin 64) :
    k1_pay29 (F := Ideal) v3 v64 v70 (ix2 s 0) = colMean v3 v64 v70 s 3 := by
  unfold k1_pay29 colMean
  show FloatOps.divf (F := Ideal) (φ := .f32) (matmul (F := Ideal) dot_S64x1024_S1x1024_S64x1_1_1_0_0_n_n none v64 (k1_pay28 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay28
  rw [slice1024_apply v3 3072 _ (by omega) r, v3At, dif_pos (show 3 * 1024 + r.val < 16384 by have := r.isLt; omega)]

theorem col4_apply (v3 : FVec Ideal S1x16384 .f32) (v64 : FVec Ideal S64x1024 .f32) (v70 : FVec Ideal S64x1 .f32) (s : Fin 64) :
    k1_pay32 (F := Ideal) v3 v64 v70 (ix2 s 0) = colMean v3 v64 v70 s 4 := by
  unfold k1_pay32 colMean
  show FloatOps.divf (F := Ideal) (φ := .f32) (matmul (F := Ideal) dot_S64x1024_S1x1024_S64x1_1_1_0_0_n_n none v64 (k1_pay31 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay31
  rw [slice1024_apply v3 4096 _ (by omega) r, v3At, dif_pos (show 4 * 1024 + r.val < 16384 by have := r.isLt; omega)]

theorem col5_apply (v3 : FVec Ideal S1x16384 .f32) (v64 : FVec Ideal S64x1024 .f32) (v70 : FVec Ideal S64x1 .f32) (s : Fin 64) :
    k1_pay37 (F := Ideal) v3 v64 v70 (ix2 s 0) = colMean v3 v64 v70 s 5 := by
  unfold k1_pay37 colMean
  show FloatOps.divf (F := Ideal) (φ := .f32) (matmul (F := Ideal) dot_S64x1024_S1x1024_S64x1_1_1_0_0_n_n none v64 (k1_pay36 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay36
  rw [slice1024_apply v3 5120 _ (by omega) r, v3At, dif_pos (show 5 * 1024 + r.val < 16384 by have := r.isLt; omega)]

theorem col6_apply (v3 : FVec Ideal S1x16384 .f32) (v64 : FVec Ideal S64x1024 .f32) (v70 : FVec Ideal S64x1 .f32) (s : Fin 64) :
    k1_pay41 (F := Ideal) v3 v64 v70 (ix2 s 0) = colMean v3 v64 v70 s 6 := by
  unfold k1_pay41 colMean
  show FloatOps.divf (F := Ideal) (φ := .f32) (matmul (F := Ideal) dot_S64x1024_S1x1024_S64x1_1_1_0_0_n_n none v64 (k1_pay40 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay40
  rw [slice1024_apply v3 6144 _ (by omega) r, v3At, dif_pos (show 6 * 1024 + r.val < 16384 by have := r.isLt; omega)]

theorem col7_apply (v3 : FVec Ideal S1x16384 .f32) (v64 : FVec Ideal S64x1024 .f32) (v70 : FVec Ideal S64x1 .f32) (s : Fin 64) :
    k1_pay44 (F := Ideal) v3 v64 v70 (ix2 s 0) = colMean v3 v64 v70 s 7 := by
  unfold k1_pay44 colMean
  show FloatOps.divf (F := Ideal) (φ := .f32) (matmul (F := Ideal) dot_S64x1024_S1x1024_S64x1_1_1_0_0_n_n none v64 (k1_pay43 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay43
  rw [slice1024_apply v3 7168 _ (by omega) r, v3At, dif_pos (show 7 * 1024 + r.val < 16384 by have := r.isLt; omega)]

theorem col8_apply (v3 : FVec Ideal S1x16384 .f32) (v64 : FVec Ideal S64x1024 .f32) (v70 : FVec Ideal S64x1 .f32) (s : Fin 64) :
    k1_pay49 (F := Ideal) v3 v64 v70 (ix2 s 0) = colMean v3 v64 v70 s 8 := by
  unfold k1_pay49 colMean
  show FloatOps.divf (F := Ideal) (φ := .f32) (matmul (F := Ideal) dot_S64x1024_S1x1024_S64x1_1_1_0_0_n_n none v64 (k1_pay48 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay48
  rw [slice1024_apply v3 8192 _ (by omega) r, v3At, dif_pos (show 8 * 1024 + r.val < 16384 by have := r.isLt; omega)]

theorem col9_apply (v3 : FVec Ideal S1x16384 .f32) (v64 : FVec Ideal S64x1024 .f32) (v70 : FVec Ideal S64x1 .f32) (s : Fin 64) :
    k1_pay53 (F := Ideal) v3 v64 v70 (ix2 s 0) = colMean v3 v64 v70 s 9 := by
  unfold k1_pay53 colMean
  show FloatOps.divf (F := Ideal) (φ := .f32) (matmul (F := Ideal) dot_S64x1024_S1x1024_S64x1_1_1_0_0_n_n none v64 (k1_pay52 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay52
  rw [slice1024_apply v3 9216 _ (by omega) r, v3At, dif_pos (show 9 * 1024 + r.val < 16384 by have := r.isLt; omega)]

theorem col10_apply (v3 : FVec Ideal S1x16384 .f32) (v64 : FVec Ideal S64x1024 .f32) (v70 : FVec Ideal S64x1 .f32) (s : Fin 64) :
    k1_pay56 (F := Ideal) v3 v64 v70 (ix2 s 0) = colMean v3 v64 v70 s 10 := by
  unfold k1_pay56 colMean
  show FloatOps.divf (F := Ideal) (φ := .f32) (matmul (F := Ideal) dot_S64x1024_S1x1024_S64x1_1_1_0_0_n_n none v64 (k1_pay55 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay55
  rw [slice1024_apply v3 10240 _ (by omega) r, v3At, dif_pos (show 10 * 1024 + r.val < 16384 by have := r.isLt; omega)]

theorem col11_apply (v3 : FVec Ideal S1x16384 .f32) (v64 : FVec Ideal S64x1024 .f32) (v70 : FVec Ideal S64x1 .f32) (s : Fin 64) :
    k1_pay61 (F := Ideal) v3 v64 v70 (ix2 s 0) = colMean v3 v64 v70 s 11 := by
  unfold k1_pay61 colMean
  show FloatOps.divf (F := Ideal) (φ := .f32) (matmul (F := Ideal) dot_S64x1024_S1x1024_S64x1_1_1_0_0_n_n none v64 (k1_pay60 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay60
  rw [slice1024_apply v3 11264 _ (by omega) r, v3At, dif_pos (show 11 * 1024 + r.val < 16384 by have := r.isLt; omega)]

theorem col12_apply (v3 : FVec Ideal S1x16384 .f32) (v64 : FVec Ideal S64x1024 .f32) (v70 : FVec Ideal S64x1 .f32) (s : Fin 64) :
    k1_pay65 (F := Ideal) v3 v64 v70 (ix2 s 0) = colMean v3 v64 v70 s 12 := by
  unfold k1_pay65 colMean
  show FloatOps.divf (F := Ideal) (φ := .f32) (matmul (F := Ideal) dot_S64x1024_S1x1024_S64x1_1_1_0_0_n_n none v64 (k1_pay64 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay64
  rw [slice1024_apply v3 12288 _ (by omega) r, v3At, dif_pos (show 12 * 1024 + r.val < 16384 by have := r.isLt; omega)]

theorem col13_apply (v3 : FVec Ideal S1x16384 .f32) (v64 : FVec Ideal S64x1024 .f32) (v70 : FVec Ideal S64x1 .f32) (s : Fin 64) :
    k1_pay68 (F := Ideal) v3 v64 v70 (ix2 s 0) = colMean v3 v64 v70 s 13 := by
  unfold k1_pay68 colMean
  show FloatOps.divf (F := Ideal) (φ := .f32) (matmul (F := Ideal) dot_S64x1024_S1x1024_S64x1_1_1_0_0_n_n none v64 (k1_pay67 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay67
  rw [slice1024_apply v3 13312 _ (by omega) r, v3At, dif_pos (show 13 * 1024 + r.val < 16384 by have := r.isLt; omega)]

theorem col14_apply (v3 : FVec Ideal S1x16384 .f32) (v64 : FVec Ideal S64x1024 .f32) (v70 : FVec Ideal S64x1 .f32) (s : Fin 64) :
    k1_pay73 (F := Ideal) v3 v64 v70 (ix2 s 0) = colMean v3 v64 v70 s 14 := by
  unfold k1_pay73 colMean
  show FloatOps.divf (F := Ideal) (φ := .f32) (matmul (F := Ideal) dot_S64x1024_S1x1024_S64x1_1_1_0_0_n_n none v64 (k1_pay72 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay72
  rw [slice1024_apply v3 14336 _ (by omega) r, v3At, dif_pos (show 14 * 1024 + r.val < 16384 by have := r.isLt; omega)]

theorem col15_apply (v3 : FVec Ideal S1x16384 .f32) (v64 : FVec Ideal S64x1024 .f32) (v70 : FVec Ideal S64x1 .f32) (s : Fin 64) :
    k1_pay77 (F := Ideal) v3 v64 v70 (ix2 s 0) = colMean v3 v64 v70 s 15 := by
  unfold k1_pay77 colMean
  show FloatOps.divf (F := Ideal) (φ := .f32) (matmul (F := Ideal) dot_S64x1024_S1x1024_S64x1_1_1_0_0_n_n none v64 (k1_pay76 v3) (constant S64x1 .f32 0x00000000#32) (ix2 s 0)) (v70 (ix2 s 0)) = _
  rw [matvec1024_apply _ _ _ Ideal.ofBits_zero_f32]
  refine congrArg (fun z => FloatOps.divf (F := Ideal) (φ := .f32) z (v70 (ix2 s 0))) (Finset.sum_congr rfl fun r _ => ?_)
  unfold k1_pay76
  rw [slice1024_apply v3 15360 _ (by omega) r, v3At, dif_pos (show 15 * 1024 + r.val < 16384 by have := r.isLt; omega)]

/-- THE NORMS' VECTOR: at segment s, the sum over the sixteen components of |the segment's mean of the component|, as the
    chain of additions leaves it. -/
theorem nrmVec_apply (v3 : FVec Ideal S1x16384 .f32) (v64 : FVec Ideal S64x1024 .f32) (v70 : FVec Ideal S64x1 .f32) (s : Fin 64) :
    (k1_pay71 (F := Ideal) v3 v64 v70
        (k1_pay59 (F := Ideal) v3 v64 v70
          (k1_pay47 (F := Ideal) v3 v64 v70
            (k1_pay35 (F := Ideal) v3 v64 v70 (k1_pay23 (F := Ideal) v3 v64 v70) (k1_pay25 (F := Ideal) v3 v64 v70))
            (k1_pay37 (F := Ideal) v3 v64 v70))
          (k1_pay49 (F := Ideal) v3 v64 v70))
        (k1_pay61 (F := Ideal) v3 v64 v70) (ix2 s 0)
      + eabs1 (k1_pay73 (F := Ideal) v3 v64 v70 (ix2 s 0))) + eabs1 (k1_pay77 (F := Ideal) v3 v64 v70 (ix2 s 0))
      = ∑ c ∈ Finset.range 16, eabs1 (colMean v3 v64 v70 s c) := by
  have h0 : (Ideal.ofBits .f32 0x00000000#32 : EReal) = 0 := Ideal.ofBits_zero_f32
  show (((((((((((((((Ideal.ofBits .f32 0x00000000#32 + eabs1 (k1_pay17 (F := Ideal) v3 v64 v70 (ix2 s 0))) + eabs1 (k1_pay20 (F := Ideal) v3 v64 v70 (ix2 s 0))) + eabs1 (k1_pay25 (F := Ideal) v3 v64 v70 (ix2 s 0))) + eabs1 (k1_pay29 (F := Ideal) v3 v64 v70 (ix2 s 0))) + eabs1 (k1_pay32 (F := Ideal) v3 v64 v70 (ix2 s 0))) + eabs1 (k1_pay37 (F := Ideal) v3 v64 v70 (ix2 s 0))) + eabs1 (k1_pay41 (F := Ideal) v3 v64 v70 (ix2 s 0))) + eabs1 (k1_pay44 (F := Ideal) v3 v64 v70 (ix2 s 0))) + eabs1 (k1_pay49 (F := Ideal) v3 v64 v70 (ix2 s 0))) + eabs1 (k1_pay53 (F := Ideal) v3 v64 v70 (ix2 s 0))) + eabs1 (k1_pay56 (F := Ideal) v3 v64 v70 (ix2 s 0))) + eabs1 (k1_pay61 (F := Ideal) v3 v64 v70 (ix2 s 0))) + eabs1 (k1_pay65 (F := Ideal) v3 v64 v70 (ix2 s 0))) + eabs1 (k1_pay68 (F := Ideal) v3 v64 v70 (ix2 s 0))) + eabs1 (k1_pay73 (F := Ideal) v3 v64 v70 (ix2 s 0))) + eabs1 (k1_pay77 (F := Ideal) v3 v64 v70 (ix2 s 0)) = _
  rw [h0, zero_add, col0_apply, col1_apply, col2_apply, col3_apply, col4_apply, col5_apply, col6_apply, col7_apply, col8_apply, col9_apply, col10_apply, col11_apply, col12_apply, col13_apply, col14_apply, col15_apply]
  simp only [Finset.sum_range_succ, Finset.sum_range_zero, zero_add]

end Cert.Proof.KI

end
-- ==== Proof.Comb1G.lean ====
import proofs.«210783_g59777354826199_cont_9to1_m_168_18_alg».proof.Proof.Comb1F

noncomputable section

namespace Cert.Proof.KI

open Cert.KernelIdeal Cert.KernelIdeal.Gen
open Idealize.ShloMosaic Idealize.ShloMosaic.ValueIdx

/-! # Toward the bridge: the norms' total and the objects' marks of the first combining call (ideal instance) -/

/-- THE NORMS' TOTAL the first combining call forms: over the marked segments s, the sum over the sixteen components of
    |the segment's mean of the component|. -/
theorem nrmTot_out1 (v3 : FVec Ideal S1x16384 .f32) (v64 : FVec Ideal S64x1024 .f32) (v70 : FVec Ideal S64x1 .f32) (v82 : IVec S64x1 1) :
    k1_pay80 (F := Ideal) v3 v64 v70 v82
        (k1_pay71 (F := Ideal) v3 v64 v70
          (k1_pay59 (F := Ideal) v3 v64 v70
            (k1_pay47 (F := Ideal) v3 v64 v70
              (k1_pay35 (F := Ideal) v3 v64 v70 (k1_pay23 (F := Ideal) v3 v64 v70) (k1_pay25 (F := Ideal) v3 v64 v70))
              (k1_pay37 (F := Ideal) v3 v64 v70))
            (k1_pay49 (F := Ideal) v3 v64 v70))
          (k1_pay61 (F := Ideal) v3 v64 v70))
        (k1_pay73 (F := Ideal) v3 v64 v70)
      = ∑ s : Fin 64, (if v82 (ix2 s 0) = 1 then ∑ c ∈ Finset.range 16, eabs1 (colMean v3 v64 v70 s c) else (0 : EReal)) := by
  rw [nrmTot_apply]
  refine Finset.sum_congr rfl fun s _ => ?_
  by_cases h : v82 (ix2 s 0) = 1
  · rw [if_pos h, if_pos h]
    exact nrmVec_apply v3 v64 v70 s
  · rw [if_neg h, if_neg h]

theorem and_ofBool (a b : Bool) : (BitVec.ofBool a &&& BitVec.ofBool b = (1 : BitVec 1)) ↔ (a = true ∧ b = true) := by
  cases a <;> cases b <;> decide

theorem slt_pos : ∀ n : Fin 64, ((0#32).slt (BitVec.ofNat 32 n.val) = true ↔ 0 < n.val) := by decide

/-- AN OBJECT'S MARK: segment s is marked when its count is positive and it is not segment 0. -/
theorem mark_apply (v6 : FVec Ideal S1x1024 .f32) (s : Fin 64) :
    k1_pay14 (F := Ideal) v6 (iota .tc S64x1024 32 [0] iota_S64x1024_d0_w32) (iota .tc S64x1024 32 [1] iota_S64x1024_d1_w32) 16#32 k1_pay6 k1_pay7 0#32 (ix2 s 0) = 1
      ↔ (0 < k1_pay10 (F := Ideal) v6 (iota .tc S64x1024 32 [0] iota_S64x1024_d0_w32) (iota .tc S64x1024 32 [1] iota_S64x1024_d1_w32) 16#32 k1_pay6 k1_pay7 0#32 (ix2 s 0)) ∧ 0 < s.val := by
  have hi : iota .tc S64x1 32 [0] iota_S64x1_d0_w32 (ix2 s 0) = BitVec.ofNat 32 s.val := by
    show BitVec.ofNat 32 (0 * S64x1.size 0 + s.val) = _; rw [Nat.zero_mul, Nat.zero_add]
  have key : k1_pay14 (F := Ideal) v6 (iota .tc S64x1024 32 [0] iota_S64x1024_d0_w32) (iota .tc S64x1024 32 [1] iota_S64x1024_d1_w32) 16#32 k1_pay6 k1_pay7 0#32 (ix2 s 0)
      = BitVec.ofBool (decide (Ideal.ofBits .f32 0x00000000#32 < k1_pay10 (F := Ideal) v6 (iota .tc S64x1024 32 [0] iota_S64x1024_d0_w32) (iota .tc S64x1024 32 [1] iota_S64x1024_d1_w32) 16#32 k1_pay6 k1_pay7 0#32 (ix2 s 0)))
        &&& BitVec.ofBool ((0#32).slt (iota .tc S64x1 32 [0] iota_S64x1_d0_w32 (ix2 s 0))) := rfl
  rw [key, hi, and_ofBool, decide_eq_true_eq, slt_pos s, Ideal.ofBits_zero_f32]

end Cert.Proof.KI

end
-- ==== Proof.Comb1H.lean ====
import proofs.«210783_g59777354826199_cont_9to1_m_168_18_alg».proof.Proof.Comb1G

noncomputable section

namespace Cert.Proof.KI

open Cert.KernelIdeal Cert.KernelIdeal.Gen
open Idealize.ShloMosaic Idealize.ShloMosaic.ValueIdx

/-! # Toward the bridge: the pairwise part of the first combining call's scalar, its pieces read (ideal instance) -/

/-- Segment j's mean of component c, as the row form computes it: the component's total over the segment's columns (through
    the 1024 × 64 fold matrix) over the segment's raised count. -/
def rowMean (v3 : FVec Ideal S1x16384 .f32) (v35 : FVec Ideal S1024x64 .f32) (v68 : FVec Ideal S1x64 .f32) (j : Fin 64) (c : ℕ) : EReal :=
  FloatOps.divf (F := Ideal) (φ := .f32) (∑ r : Fin 1024, v3At v3 (c * 1024 + r.val) * v35 (ix2 r j)) (v68 (ix2 0 j))

theorem row0_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay16 (F := Ideal) v3) v35 (constant S1x64 .f32 b) (ix2 0 j)) (v68 (ix2 0 j))
      = rowMean v3 v35 v68 j 0 := by
  unfold rowMean
  rw [vecmat1024_apply _ _ _ hb]
  refine congrArg (fun z => FloatOps.divf (F := Ideal) (φ := .f32) z (v68 (ix2 0 j))) (Finset.sum_congr rfl fun r _ => ?_)
  unfold k1_pay16
  rw [slice1024_apply v3 0 _ (by omega) r, v3At, dif_pos (show 0 * 1024 + r.val < 16384 by have := r.isLt; omega)]

theorem row1_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay19 (F := Ideal) v3) v35 (constant S1x64 .f32 b) (ix2 0 j)) (v68 (ix2 0 j))
      = rowMean v3 v35 v68 j 1 := by
  unfold rowMean
  rw [vecmat1024_apply _ _ _ hb]
  refine congrArg (fun z => FloatOps.divf (F := Ideal) (φ := .f32) z (v68 (ix2 0 j))) (Finset.sum_congr rfl fun r _ => ?_)
  unfold k1_pay19
  rw [slice1024_apply v3 1024 _ (by omega) r, v3At, dif_pos (show 1 * 1024 + r.val < 16384 by have := r.isLt; omega)]

theorem row2_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay24 (F := Ideal) v3) v35 (constant S1x64 .f32 b) (ix2 0 j)) (v68 (ix2 0 j))
      = rowMean v3 v35 v68 j 2 := by
  unfold rowMean
  rw [vecmat1024_apply _ _ _ hb]
  refine congrArg (fun z => FloatOps.divf (F := Ideal) (φ := .f32) z (v68 (ix2 0 j))) (Finset.sum_congr rfl fun r _ => ?_)
  unfold k1_pay24
  rw [slice1024_apply v3 2048 _ (by omega) r, v3At, dif_pos (show 2 * 1024 + r.val < 16384 by have := r.isLt; omega)]

theorem row3_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay28 (F := Ideal) v3) v35 (constant S1x64 .f32 b) (ix2 0 j)) (v68 (ix2 0 j))
      = rowMean v3 v35 v68 j 3 := by
  unfold rowMean
  rw [vecmat1024_apply _ _ _ hb]
  refine congrArg (fun z => FloatOps.divf (F := Ideal) (φ := .f32) z (v68 (ix2 0 j))) (Finset.sum_congr rfl fun r _ => ?_)
  unfold k1_pay28
  rw [slice1024_apply v3 3072 _ (by omega) r, v3At, dif_pos (show 3 * 1024 + r.val < 16384 by have := r.isLt; omega)]

theorem row4_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay31 (F := Ideal) v3) v35 (constant S1x64 .f32 b) (ix2 0 j)) (v68 (ix2 0 j))
      = rowMean v3 v35 v68 j 4 := by
  unfold rowMean
  rw [vecmat1024_apply _ _ _ hb]
  refine congrArg (fun z => FloatOps.divf (F := Ideal) (φ := .f32) z (v68 (ix2 0 j))) (Finset.sum_congr rfl fun r _ => ?_)
  unfold k1_pay31
  rw [slice1024_apply v3 4096 _ (by omega) r, v3At, dif_pos (show 4 * 1024 + r.val < 16384 by have := r.isLt; omega)]

theorem row5_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay36 (F := Ideal) v3) v35 (constant S1x64 .f32 b) (ix2 0 j)) (v68 (ix2 0 j))
      = rowMean v3 v35 v68 j 5 := by
  unfold rowMean
  rw [vecmat1024_apply _ _ _ hb]
  refine congrArg (fun z => FloatOps.divf (F := Ideal) (φ := .f32) z (v68 (ix2 0 j))) (Finset.sum_congr rfl fun r _ => ?_)
  unfold k1_pay36
  rw [slice1024_apply v3 5120 _ (by omega) r, v3At, dif_pos (show 5 * 1024 + r.val < 16384 by have := r.isLt; omega)]

theorem row6_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay40 (F := Ideal) v3) v35 (constant S1x64 .f32 b) (ix2 0 j)) (v68 (ix2 0 j))
      = rowMean v3 v35 v68 j 6 := by
  unfold rowMean
  rw [vecmat1024_apply _ _ _ hb]
  refine congrArg (fun z => FloatOps.divf (F := Ideal) (φ := .f32) z (v68 (ix2 0 j))) (Finset.sum_congr rfl fun r _ => ?_)
  unfold k1_pay40
  rw [slice1024_apply v3 6144 _ (by omega) r, v3At, dif_pos (show 6 * 1024 + r.val < 16384 by have := r.isLt; omega)]

theorem row7_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay43 (F := Ideal) v3) v35 (constant S1x64 .f32 b) (ix2 0 j)) (v68 (ix2 0 j))
      = rowMean v3 v35 v68 j 7 := by
  unfold rowMean
  rw [vecmat1024_apply _ _ _ hb]
  refine congrArg (fun z => FloatOps.divf (F := Ideal) (φ := .f32) z (v68 (ix2 0 j))) (Finset.sum_congr rfl fun r _ => ?_)
  unfold k1_pay43
  rw [slice1024_apply v3 7168 _ (by omega) r, v3At, dif_pos (show 7 * 1024 + r.val < 16384 by have := r.isLt; omega)]

theorem row8_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay48 (F := Ideal) v3) v35 (constant S1x64 .f32 b) (ix2 0 j)) (v68 (ix2 0 j))
      = rowMean v3 v35 v68 j 8 := by
  unfold rowMean
  rw [vecmat1024_apply _ _ _ hb]
  refine congrArg (fun z => FloatOps.divf (F := Ideal) (φ := .f32) z (v68 (ix2 0 j))) (Finset.sum_congr rfl fun r _ => ?_)
  unfold k1_pay48
  rw [slice1024_apply v3 8192 _ (by omega) r, v3At, dif_pos (show 8 * 1024 + r.val < 16384 by have := r.isLt; omega)]

theorem row9_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay52 (F := Ideal) v3) v35 (constant S1x64 .f32 b) (ix2 0 j)) (v68 (ix2 0 j))
      = rowMean v3 v35 v68 j 9 := by
  unfold rowMean
  rw [vecmat1024_apply _ _ _ hb]
  refine congrArg (fun z => FloatOps.divf (F := Ideal) (φ := .f32) z (v68 (ix2 0 j))) (Finset.sum_congr rfl fun r _ => ?_)
  unfold k1_pay52
  rw [slice1024_apply v3 9216 _ (by omega) r, v3At, dif_pos (show 9 * 1024 + r.val < 16384 by have := r.isLt; omega)]

theorem row10_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay55 (F := Ideal) v3) v35 (constant S1x64 .f32 b) (ix2 0 j)) (v68 (ix2 0 j))
      = rowMean v3 v35 v68 j 10 := by
  unfold rowMean
  rw [vecmat1024_apply _ _ _ hb]
  refine congrArg (fun z => FloatOps.divf (F := Ideal) (φ := .f32) z (v68 (ix2 0 j))) (Finset.sum_congr rfl fun r _ => ?_)
  unfold k1_pay55
  rw [slice1024_apply v3 10240 _ (by omega) r, v3At, dif_pos (show 10 * 1024 + r.val < 16384 by have := r.isLt; omega)]

theorem row11_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay60 (F := Ideal) v3) v35 (constant S1x64 .f32 b) (ix2 0 j)) (v68 (ix2 0 j))
      = rowMean v3 v35 v68 j 11 := by
  unfold rowMean
  rw [vecmat1024_apply _ _ _ hb]
  refine congrArg (fun z => FloatOps.divf (F := Ideal) (φ := .f32) z (v68 (ix2 0 j))) (Finset.sum_congr rfl fun r _ => ?_)
  unfold k1_pay60
  rw [slice1024_apply v3 11264 _ (by omega) r, v3At, dif_pos (show 11 * 1024 + r.val < 16384 by have := r.isLt; omega)]

theorem row12_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay64 (F := Ideal) v3) v35 (constant S1x64 .f32 b) (ix2 0 j)) (v68 (ix2 0 j))
      = rowMean v3 v35 v68 j 12 := by
  unfold rowMean
  rw [vecmat1024_apply _ _ _ hb]
  refine congrArg (fun z => FloatOps.divf (F := Ideal) (φ := .f32) z (v68 (ix2 0 j))) (Finset.sum_congr rfl fun r _ => ?_)
  unfold k1_pay64
  rw [slice1024_apply v3 12288 _ (by omega) r, v3At, dif_pos (show 12 * 1024 + r.val < 16384 by have := r.isLt; omega)]

theorem row13_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay67 (F := Ideal) v3) v35 (constant S1x64 .f32 b) (ix2 0 j)) (v68 (ix2 0 j))
      = rowMean v3 v35 v68 j 13 := by
  unfold rowMean
  rw [vecmat1024_apply _ _ _ hb]
  refine congrArg (fun z => FloatOps.divf (F := Ideal) (φ := .f32) z (v68 (ix2 0 j))) (Finset.sum_congr rfl fun r _ => ?_)
  unfold k1_pay67
  rw [slice1024_apply v3 13312 _ (by omega) r, v3At, dif_pos (show 13 * 1024 + r.val < 16384 by have := r.isLt; omega)]

theorem row14_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay72 (F := Ideal) v3) v35 (constant S1x64 .f32 b) (ix2 0 j)) (v68 (ix2 0 j))
      = rowMean v3 v35 v68 j 14 := by
  unfold rowMean
  rw [vecmat1024_apply _ _ _ hb]
  refine congrArg (fun z => FloatOps.divf (F := Ideal) (φ := .f32) z (v68 (ix2 0 j))) (Finset.sum_congr rfl fun r _ => ?_)
  unfold k1_pay72
  rw [slice1024_apply v3 14336 _ (by omega) r, v3At, dif_pos (show 14 * 1024 + r.val < 16384 by have := r.isLt; omega)]

theorem row15_apply (v3 : FVec Ideal S1x16384 .f32) (v35 : FVec Ideal S1024x64 .f32) (v68 : FVec Ideal S1x64 .f32) (b : BitVec 32) (hb : Ideal.ofBits .f32 b = 0) (j : Fin 64) :
    FloatOps.divf (F := Ideal) (φ := .f32) (matmul (F := Ideal) dot_S1x1024_S1024x64_S1x64_1_0_0_1_n_n none (k1_pay76 (F := Ideal) v3) v35 (constant S1x64 .f32 b) (ix2 0 j)) (v68 (ix2 0 j))
      = rowMean v3 v35 v68 j 15 := by
  unfold rowMean
  rw [vecmat1024_apply _ _ _ hb]
  refine congrArg (fun z => FloatOps.divf (F := Ideal) (φ := .f32) z (v68 (ix2 0 j))) (Finset.sum_congr rfl fun r _ => ?_)
  unfold k1_pay76
  rw [slice1024_apply v3 15360 _ (by omega) r, v3At, dif_pos (show 15 * 1024 + r.val < 16384 by have := r.isLt; omega)]

/-- A component's term of the pairwise distance at (i, j): |segment i's mean (column form) − segment j's mean (row form)|. -/
theorem dterm_apply (col : FVec Ideal S64x1 .f32) (row : FVec Ideal S1x64 .f32) (i j : Fin 64) :
    absf (F := Ideal) (φ := .f32) (subf (F := Ideal) (φ := .f32) (broadcastTo S64x64 col broadcasts_S64x1_S64x64) (broadcastTo S64x64 row broadcasts_S1x64_S64x64)) (ix2 i j)
      = eabs1 (col (ix2 i 0) - row (ix2 0 j)) := by
  show eabs1 (broadcastTo S64x64 col broadcasts_S64x1_S64x64 (ix2 i j) - broadcastTo S64x64 row broadcasts_S1x64_S64x64 (ix2 i j)) = _
  rw [broadcastTo_apply col broadcasts_S64x1_S64x64 (ix2 i j) (ix2 i 0) (fun a => by match a with | ⟨0, _⟩ => rfl | ⟨1, _⟩ => rfl),
    broadcastTo_apply row broadcasts_S1x64_S64x64 (ix2 i j) (ix2 0 j) (fun a => by match a with | ⟨0, _⟩ => rfl | ⟨1, _⟩ => rfl)]

end Cert.Proof.KI

end
-- ==== Proof.Comb1I.lean ====
import proofs.«210783_g59777354826199_cont_9to1_m_168_18_alg».proof.Proof.Comb1H

noncomputable section

namespace Cert.Proof.KI

open Cert.KernelIdeal Cert.KernelIdeal.Gen
open Idealize.ShloMosaic Idealize.ShloMosaic.ValueIdx

/-! # Toward the bridge: the pairwise distances of the first combining call (ideal instance) -/

/-- The pairwise distances' matrix as the chain of additions leaves it (the first fifteen components accumulated through
    the payloads, the sixteenth added last). -/
def dist16 (v3 : FVec Ideal S1x16384 .f32) (v35 : FVec Ideal S1024x64 .f32) (v64 : FVec Ideal S64x1024 .f32) (v68 : FVec Ideal S1x64 .f32) (v70 : FVec Ideal S64x1 .f32) :
    FVec Ideal S64x64 .f32 :=
  addf (F := Ideal) (φ := .f32) (addf (F := Ideal) (φ := .f32) (k1_pay70 (F := Ideal) v3 v35 v64 v68 v70 (k1_pay58 (F := Ideal) v3 v35 v64 v68 v70 (k1_pay46 (F := Ideal) v3 v35 v64 v68 v70 (k1_pay34 (F := Ideal) v3 v35 v64 v68 v70 (k1_pay22 (F := Ideal) v3 v35 v64 v68 v70 (Ideal.ofBits .f32 0x00000000#32)) (k1_pay27 (F := Ideal) v3 v35 v64 v68 v70)) (k1_pay39 (F := Ideal) v3 v35 v64 v68 v70)) (k1_pay51 (F := Ideal) v3 v35 v64 v68 v70)) (k1_pay63 (F := Ideal) v3 v35 v64 v68 v70)) (k1_pay75 (F := Ideal) v3 v35 v64 v68 v70))
    (absf (F := Ideal) (φ := .f32) (subf (F := Ideal) (φ := .f32) (broadcastTo S64x64 (k1_pay77 (F := Ideal) v3 v64 v70) broadcasts_S64x1_S64x64)
      (broadcastTo S64x64 (divf (F := Ideal) (φ := .f32) (matmul (F := Ideal) dot_S1x1024_S1024x64_S1x64_1_0_0_1_n_n none (k1_pay76 (F := Ideal) v3) v35 (constant S1x64 .f32 0x00000000#32)) v68) broadcasts_S1x64_S64x64)))

/-- THE PAIRWISE DISTANCE of segments i and j: the sum over the sixteen components of |i's mean − j's mean|. -/
theorem dist16_apply (v3 : FVec Ideal S1x16384 .f32) (v35 : FVec Ideal S1024x64 .f32) (v64 : FVec Ideal S64x1024 .f32) (v68 : FVec Ideal S1x64 .f32) (v70 : FVec Ideal S64x1 .f32)
    (i j : Fin 64) :
    dist16 v3 v35 v64 v68 v70 (ix2 i j) = ∑ c ∈ Finset.range 16, eabs1 (colMean v3 v64 v70 i c - rowMean v3 v35 v68 j c) := by
  have h0 : (Ideal.ofBits .f32 0x00000000#32 : EReal) = 0 := Ideal.ofBits_zero_f32
  show ((((((((((((((((Ideal.ofBits .f32 0x00000000#32 + absf (F := Ideal) (φ := .f32) (subf (F := Ideal) (φ := .f32) (broadcastTo S64x64 (k1_pay17 (F := Ideal) v3 v64 v70) broadcasts_S64x1_S64x64) (broadcastTo S64x64 (divf (F := Ideal) (φ := .f32) (matmul (F := Ideal) dot_S1x1024_S1024x64_S1x64_1_0_0_1_n_n none (k1_pay16 (F := Ideal) v3) v35 (constant S1x64 .f32 0x00000000#32)) v68) broadcasts_S1x64_S64x64)) (ix2 i j)) + absf (F := Ideal) (φ := .f32) (subf (F := Ideal) (φ := .f32) (broadcastTo S64x64 (k1_pay20 (F := Ideal) v3 v64 v70) broadcasts_S64x1_S64x64) (broadcastTo S64x64 (divf (F := Ideal) (φ := .f32) (matmul (F := Ideal) dot_S1x1024_S1024x64_S1x64_1_0_0_1_n_n none (k1_pay19 (F := Ideal) v3) v35 (constant S1x64 .f32 0x00000000#32)) v68) broadcasts_S1x64_S64x64)) (ix2 i j)) + absf (F := Ideal) (φ := .f32) (subf (F := Ideal) (φ := .f32) (broadcastTo S64x64 (k1_pay25 (F := Ideal) v3 v64 v70) broadcasts_S64x1_S64x64) (broadcastTo S64x64 (divf (F := Ideal) (φ := .f32) (matmul (F := Ideal) dot_S1x1024_S1024x64_S1x64_1_0_0_1_n_n none (k1_pay24 (F := Ideal) v3) v35 (constant S1x64 .f32 0x00000000#32)) v68) broadcasts_S1x64_S64x64)) (ix2 i j)) + absf (F := Ideal) (φ := .f32) (subf (F := Ideal) (φ := .f32) (broadcastTo S64x64 (k1_pay29 (F := Ideal) v3 v64 v70) broadcasts_S64x1_S64x64) (broadcastTo S64x64 (divf (F := Ideal) (φ := .f32) (matmul (F := Ideal) dot_S1x1024_S1024x64_S1x64_1_0_0_1_n_n none (k1_pay28 (F := Ideal) v3) v35 (constant S1x64 .f32 0x00000000#32)) v68) broadcasts_S1x64_S64x64)) (ix2 i j)) + absf (F := Ideal) (φ := .f32) (subf (F := Ideal) (φ := .f32) (broadcastTo S64x64 (k1_pay32 (F := Ideal) v3 v64 v70) broadcasts_S64x1_S64x64) (broadcastTo S64x64 (divf (F := Ideal) (φ := .f32) (matmul (F := Ideal) dot_S1x1024_S1024x64_S1x64_1_0_0_1_n_n none (k1_pay31 (F := Ideal) v3) v35 (constant S1x64 .f32 0x00000000#32)) v68) broadcasts_S1x64_S64x64)) (ix2 i j)) + absf (F := Ideal) (φ := .f32) (subf (F := Ideal) (φ := .f32) (broadcastTo S64x64 (k1_pay37 (F := Ideal) v3 v64 v70) broadcasts_S64x1_S64x64) (broadcastTo S64x64 (divf (F := Ideal) (φ := .f32) (matmul (F := Ideal) dot_S1x1024_S1024x64_S1x64_1_0_0_1_n_n none (k1_pay36 (F := Ideal) v3) v35 (constant S1x64 .f32 0x00000000#32)) v68) broadcasts_S1x64_S64x64)) (ix2 i j)) + absf (F := Ideal) (φ := .f32) (subf (F := Ideal) (φ := .f32) (broadcastTo S64x64 (k1_pay41 (F := Ideal) v3 v64 v70) broadcasts_S64x1_S64x64) (broadcastTo S64x64 (divf (F := Ideal) (φ := .f32) (matmul (F := Ideal) dot_S1x1024_S1024x64_S1x64_1_0_0_1_n_n none (k1_pay40 (F := Ideal) v3) v35 (constant S1x64 .f32 0x00000000#32)) v68) broadcasts_S1x64_S64x64)) (ix2 i j)) + absf (F := Ideal) (φ := .f32) (subf (F := Ideal) (φ := .f32) (broadcastTo S64x64 (k1_pay44 (F := Ideal) v3 v64 v70) broadcasts_S64x1_S64x64) (broadcastTo S64x64 (divf (F := Ideal) (φ := .f32) (matmul (F := Ideal) dot_S1x1024_S1024x64_S1x64_1_0_0_1_n_n none (k1_pay43 (F := Ideal) v3) v35 (constant S1x64 .f32 0x00000000#32)) v68) broadcasts_S1x64_S64x64)) (ix2 i j)) + absf (F := Ideal) (φ := .f32) (subf (F := Ideal) (φ := .f32) (broadcastTo S64x64 (k1_pay49 (F := Ideal) v3 v64 v70) broadcasts_S64x1_S64x64) (broadcastTo S64x64 (divf (F := Ideal) (φ := .f32) (matmul (F := Ideal) dot_S1x1024_S1024x64_S1x64_1_0_0_1_n_n none (k1_pay48 (F := Ideal) v3) v35 (constant S1x64 .f32 0x00000000#32)) v68) broadcasts_S1x64_S64x64)) (ix2 i j)) + absf (F := Ideal) (φ := .f32) (subf (F := Ideal) (φ := .f32) (broadcastTo S64x64 (k1_pay53 (F := Ideal) v3 v64 v70) broadcasts_S64x1_S64x64) (broadcastTo S64x64 (divf (F := Ideal) (φ := .f32) (matmul (F := Ideal) dot_S1x1024_S1024x64_S1x64_1_0_0_1_n_n none (k1_pay52 (F := Ideal) v3) v35 (constant S1x64 .f32 0x00000000#32)) v68) broadcasts_S1x64_S64x64)) (ix2 i j)) + absf (F := Ideal) (φ := .f32) (subf (F := Ideal) (φ := .f32) (broadcastTo S64x64 (k1_pay56 (F := Ideal) v3 v64 v70) broadcasts_S64x1_S64x64) (broadcastTo S64x64 (divf (F := Ideal) (φ := .f32) (matmul (F := Ideal) dot_S1x1024_S1024x64_S1x64_1_0_0_1_n_n none (k1_pay55 (F := Ideal) v3) v35 (constant S1x64 .f32 0x00000000#32)) v68) broadcasts_S1x64_S64x64)) (ix2 i j)) + absf (F := Ideal) (φ := .f32) (subf (F := Ideal) (φ := .f32) (broadcastTo S64x64 (k1_pay61 (F := Ideal) v3 v64 v70) broadcasts_S64x1_S64x64) (broadcastTo S64x64 (divf (F := Ideal) (φ := .f32) (matmul (F := Ideal) dot_S1x1024_S1024x64_S1x64_1_0_0_1_n_n none (k1_pay60 (F := Ideal) v3) v35 (constant S1x64 .f32 0x00000000#32)) v68) broadcasts_S1x64_S64x64)) (ix2 i j)) + absf (F := Ideal) (φ := .f32) (subf (F := Ideal) (φ := .f32) (broadcastTo S64x64 (k1_pay65 (F := Ideal) v3 v64 v70) broadcasts_S64x1_S64x64) (broadcastTo S64x64 (divf (F := Ideal) (φ := .f32) (matmul (F := Ideal) dot_S1x1024_S1024x64_S1x64_1_0_0_1_n_n none (k1_pay64 (F := Ideal) v3) v35 (constant S1x64 .f32 0x00000000#32)) v68) broadcasts_S1x64_S64x64)) (ix2 i j)) + absf (F := Ideal) (φ := .f32) (subf (F := Ideal) (φ := .f32) (broadcastTo S64x64 (k1_pay68 (F := Ideal) v3 v64 v70) broadcasts_S64x1_S64x64) (broadcastTo S64x64 (divf (F := Ideal) (φ := .f32) (matmul (F := Ideal) dot_S1x1024_S1024x64_S1x64_1_0_0_1_n_n none (k1_pay67 (F := Ideal) v3) v35 (constant S1x64 .f32 0x00000000#32)) v68) broadcasts_S1x64_S64x64)) (ix2 i j)) + absf (F := Ideal) (φ := .f32) (subf (F := Ideal) (φ := .f32) (broadcastTo S64x64 (k1_pay73 (F := Ideal) v3 v64 v70) broadcasts_S64x1_S64x64) (broadcastTo S64x64 (divf (F := Ideal) (φ := .f32) (matmul (F := Ideal) dot_S1x1024_S1024x64_S1x64_1_0_0_1_n_n none (k1_pay72 (F := Ideal) v3) v35 (constant S1x64 .f32 0x00000000#32)) v68) broadcasts_S1x64_S64x64)) (ix2 i j)) + absf (F := Ideal) (φ := .f32) (subf (F := Ideal) (φ := .f32) (broadcastTo S64x64 (k1_pay77 (F := Ideal) v3 v64 v70) broadcasts_S64x1_S64x64) (broadcastTo S64x64 (divf (F := Ideal) (φ := .f32) (matmul (F := Ideal) dot_S1x1024_S1024x64_S1x64_1_0_0_1_n_n none (k1_pay76 (F := Ideal) v3) v35 (constant S1x64 .f32 0x00000000#32)) v68) broadcasts_S1x64_S64x64)) (ix2 i j)) = _
  rw [h0, zero_add]
  simp only [dterm_apply]
  show (((((((((((((((eabs1 (k1_pay17 (F := Ideal) v3 v64 v70 (ix2 i 0) - FloatOps.divf (F := Ideal) (φ := .f32) (matmul (F := Ideal) dot_S1x1024_S1024x64_S1x64_1_0_0_1_n_n none (k1_pay16 (F := Ideal) v3) v35 (constant S1x64 .f32 0x00000000#32) (ix2 0 j)) (v68 (ix2 0 j))) + eabs1 (k1_pay20 (F := Ideal) v3 v64 v70 (ix2 i 0) - FloatOps.divf (F := Ideal) (φ := .f32) (matmul (F := Ideal) dot_S1x1024_S1024x64_S1x64_1_0_0_1_n_n none (k1_pay19 (F := Ideal) v3) v35 (constant S1x64 .f32 0x00000000#32) (ix2 0 j)) (v68 (ix2 0 j)))) + eabs1 (k1_pay25 (F := Ideal) v3 v64 v70 (ix2 i 0) - FloatOps.divf (F := Ideal) (φ := .f32) (matmul (F := Ideal) dot_S1x1024_S1024x64_S1x64_1_0_0_1_n_n none (k1_pay24 (F := Ideal) v3) v35 (constant S1x64 .f32 0x00000000#32) (ix2 0 j)) (v68 (ix2 0 j)))) + eabs1 (k1_pay29 (F := Ideal) v3 v64 v70 (ix2 i 0) - FloatOps.divf (F := Ideal) (φ := .f32) (matmul (F := Ideal) dot_S1x1024_S1024x64_S1x64_1_0_0_1_n_n none (k1_pay28 (F := Ideal) v3) v35 (constant S1x64 .f32 0x00000000#32) (ix2 0 j)) (v68 (ix2 0 j)))) + eabs1 (k1_pay32 (F := Ideal) v3 v64 v70 (ix2 i 0) - FloatOps.divf (F := Ideal) (φ := .f32) (matmul (F := Ideal) dot_S1x1024_S1024x64_S1x64_1_0_0_1_n_n none (k1_pay31 (F := Ideal) v3) v35 (constant S1x64 .f32 0x00000000#32) (ix2 0 j)) (v68 (ix2 0 j)))) + eabs1 (k1_pay37 (F := Ideal) v3 v64 v70 (ix2 i 0) - FloatOps.divf (F := Ideal) (φ := .f32) (matmul (F := Ideal) dot_S1x1024_S1024x64_S1x64_1_0_0_1_n_n none (k1_pay36 (F := Ideal) v3) v35 (constant S1x64 .f32 0x00000000#32) (ix2 0 j)) (v68 (ix2 0 j)))) + eabs1 (k1_pay41 (F := Ideal) v3 v64 v70 (ix2 i 0) - FloatOps.divf (F := Ideal) (φ := .f32) (matmul (F := Ideal) dot_S1x1024_S1024x64_S1x64_1_0_0_1_n_n none (k1_pay40 (F := Ideal) v3) v35 (constant S1x64 .f32 0x00000000#32) (ix2 0 j)) (v68 (ix2 0 j)))) + eabs1 (k1_pay44 (F := Ideal) v3 v64 v70 (ix2 i 0) - FloatOps.divf (F := Ideal) (φ := .f32) (matmul (F := Ideal) dot_S1x1024_S1024x64_S1x64_1_0_0_1_n_n none (k1_pay43 (F := Ideal) v3) v35 (constant S1x64 .f32 0x00000000#32) (ix2 0 j)) (v68 (ix2 0 j)))) + eabs1 (k1_pay49 (F := Ideal) v3 v64 v70 (ix2 i 0) - FloatOps.divf (F := Ideal) (φ := .f32) (matmul (F := Ideal) dot_S1x1024_S1024x64_S1x64_1_0_0_1_n_n none (k1_pay48 (F := Ideal) v3) v35 (constant S1x64 .f32 0x00000000#32) (ix2 0 j)) (v68 (ix2 0 j)))) + eabs1 (k1_pay53 (F := Ideal) v3 v64 v70 (ix2 i 0) - FloatOps.divf (F := Ideal) (φ := .f32) (matmul (F := Ideal) dot_S1x1024_S1024x64_S1x64_1_0_0_1_n_n none (k1_pay52 (F := Ideal) v3) v35 (constant S1x64 .f32 0x00000000#32) (ix2 0 j)) (v68 (ix2 0 j)))) + eabs1 (k1_pay56 (F := Ideal) v3 v64 v70 (ix2 i 0) - FloatOps.divf (F := Ideal) (φ := .f32) (matmul (F := Ideal) dot_S1x1024_S1024x64_S1x64_1_0_0_1_n_n none (k1_pay55 (F := Ideal) v3) v35 (constant S1x64 .f32 0x00000000#32) (ix2 0 j)) (v68 (ix2 0 j)))) + eabs1 (k1_pay61 (F := Ideal) v3 v64 v70 (ix2 i 0) - FloatOps.divf (F := Ideal) (φ := .f32) (matmul (F := Ideal) dot_S1x1024_S1024x64_S1x64_1_0_0_1_n_n none (k1_pay60 (F := Ideal) v3) v35 (constant S1x64 .f32 0x00000000#32) (ix2 0 j)) (v68 (ix2 0 j)))) + eabs1 (k1_pay65 (F := Ideal) v3 v64 v70 (ix2 i 0) - FloatOps.divf (F := Ideal) (φ := .f32) (matmul (F := Ideal) dot_S1x1024_S1024x64_S1x64_1_0_0_1_n_n none (k1_pay64 (F := Ideal) v3) v35 (constant S1x64 .f32 0x00000000#32) (ix2 0 j)) (v68 (ix2 0 j)))) + eabs1 (k1_pay68 (F := Ideal) v3 v64 v70 (ix2 i 0) - FloatOps.divf (F := Ideal) (φ := .f32) (matmul (F := Ideal) dot_S1x1024_S1024x64_S1x64_1_0_0_1_n_n none (k1_pay67 (F := Ideal) v3) v35 (constant S1x64 .f32 0x00000000#32) (ix2 0 j)) (v68 (ix2 0 j)))) + eabs1 (k1_pay73 (F := Ideal) v3 v64 v70 (ix2 i 0) - FloatOps.divf (F := Ideal) (φ := .f32) (matmul (F := Ideal) dot_S1x1024_S1024x64_S1x64_1_0_0_1_n_n none (k1_pay72 (F := Ideal) v3) v35 (constant S1x64 .f32 0x00000000#32) (ix2 0 j)) (v68 (ix2 0 j)))) + eabs1 (k1_pay77 (F := Ideal) v3 v64 v70 (ix2 i 0) - FloatOps.divf (F := Ideal) (φ := .f32) (matmul (F := Ideal) dot_S1x1024_S1024x64_S1x64_1_0_0_1_n_n none (k1_pay76 (F := Ideal) v3) v35 (constant S1x64 .f32 0x00000000#32) (ix2 0 j)) (v68 (ix2 0 j)))) = _
  rw [col0_apply, col1_apply, col2_apply, col3_apply, col4_apply, col5_apply, col6_apply, col7_apply, col8_apply, col9_apply, col10_apply, col11_apply, col12_apply, col13_apply, col14_apply, col15_apply, row0_apply _ _ _ _ Ideal.ofBits_zero_f32, row1_apply _ _ _ _ Ideal.ofBits_zero_f32, row2_apply _ _ _ _ Ideal.ofBits_zero_f32, row3_apply _ _ _ _ Ideal.ofBits_zero_f32, row4_apply _ _ _ _ Ideal.ofBits_zero_f32, row5_apply _ _ _ _ Ideal.ofBits_zero_f32, row6_apply _ _ _ _ Ideal.ofBits_zero_f32, row7_apply _ _ _ _ Ideal.ofBits_zero_f32, row8_apply _ _ _ _ Ideal.ofBits_zero_f32, row9_apply _ _ _ _ Ideal.ofBits_zero_f32, row10_apply _ _ _ _ Ideal.ofBits_zero_f32, row11_apply _ _ _ _ Ideal.ofBits_zero_f32, row12_apply _ _ _ _ Ideal.ofBits_zero_f32, row13_apply _ _ _ _ Ideal.ofBits_zero_f32, row14_apply _ _ _ _ Ideal.ofBits_zero_f32, row15_apply _ _ _ _ Ideal.ofBits_zero_f32]
  simp only [Finset.sum_range_succ, Finset.sum_range_zero, zero_add]

end Cert.Proof.KI

end
-- ==== Proof.Comb1J.lean ====
import proofs.«210783_g59777354826199_cont_9to1_m_168_18_alg».proof.Proof.Comb1I

noncomputable section

namespace Cert.Proof.KI

open Cert.KernelIdeal Cert.KernelIdeal.Gen
open Idealize.ShloMosaic Idealize.ShloMosaic.ValueIdx

/-! # Toward the bridge: the pairwise hinge total of the first combining call (ideal instance) -/

/-- The hinge of a pair: three (the literal) less the pair's distance, raised to at least zero. -/
def hinge16 (v3 : FVec Ideal S1x16384 .f32) (v35 : FVec Ideal S1024x64 .f32) (v64 : FVec Ideal S64x1024 .f32) (v68 : FVec Ideal S1x64 .f32) (v70 : FVec Ideal S64x1 .f32)
    (i j : Fin 64) : EReal :=
  max (Ideal.ofBits .f32 0x40400000#32 - dist16 v3 v35 v64 v68 v70 (ix2 i j)) (Ideal.ofBits .f32 0x00000000#32)

/-- Whether the pair (i, j) counts: both marked, and different. -/
def pairOn (v76 : IVec S1x64 1) (v82 : IVec S64x1 1) (i j : Fin 64) : BitVec 1 :=
  IntOp.andi (IntOp.andi (v82 (ix2 i 0)) (v76 (ix2 0 j))) (IntOp.cmpi .ne (BitVec.ofNat 32 i.val) (BitVec.ofNat 32 j.val))

/-- THE PAIRWISE PART of the scalar: the total over the counted pairs of the squared hinge, over the number of ordered
    pairs of objects raised to at least one. -/
theorem hingeTot_apply (v3 : FVec Ideal S1x16384 .f32) (v35 : FVec Ideal S1024x64 .f32) (v64 : FVec Ideal S64x1024 .f32) (v68 : FVec Ideal S1x64 .f32) (v70 : FVec Ideal S64x1 .f32)
    (v76 : IVec S1x64 1) (v82 : IVec S64x1 1) (v88 : EReal) :
    k1_pay79 (F := Ideal) v3 v35 v64 v68 v70 v76 v82 v88 (k1_pay70 (F := Ideal) v3 v35 v64 v68 v70 (k1_pay58 (F := Ideal) v3 v35 v64 v68 v70 (k1_pay46 (F := Ideal) v3 v35 v64 v68 v70 (k1_pay34 (F := Ideal) v3 v35 v64 v68 v70 (k1_pay22 (F := Ideal) v3 v35 v64 v68 v70 (Ideal.ofBits .f32 0x00000000#32)) (k1_pay27 (F := Ideal) v3 v35 v64 v68 v70)) (k1_pay39 (F := Ideal) v3 v35 v64 v68 v70)) (k1_pay51 (F := Ideal) v3 v35 v64 v68 v70)) (k1_pay63 (F := Ideal) v3 v35 v64 v68 v70)) (k1_pay75 (F := Ideal) v3 v35 v64 v68 v70)
      = Ideal.div
          (∑ p : Fin 64 × Fin 64, if pairOn v76 v82 p.1 p.2 = 1 then hinge16 v3 v35 v64 v68 v70 p.1 p.2 * hinge16 v3 v35 v64 v68 v70 p.1 p.2 else (0 : EReal))
          (max 1 (v88 * (v88 - 1))) := by
  unfold k1_pay79
  show Ideal.div ((shapeCast S1x1x1 (multiReduction (F := Ideal) .add [1, 2] S1 _ 0x00000000#32 reduces_S1x64x64_S1 (.inl rfl) rfl) shapeCasts_S1_S1x1x1) _)
      (max (Ideal.ofBits .f32 0x3F800000#32) (v88 * (v88 - Ideal.ofBits .f32 0x3F800000#32))) = _
  rw [ofBits_one]
  congr 1
  unfold shapeCast
  refine (Ideal.multiReduction_add_total _ _ _ (fun b => by fin_cases b; rfl) _ _ _).trans ?_
  refine (Fintype.sum_equiv idx1x64x64 _ _ fun p => ?_).symm
  have hre : Shape.reshapeEquiv shapeCasts_S64x64_S1x64x64 (idx1x64x64 p) = ix2 p.1 p.2 :=
    Shape.reshapeEquiv_eq_of_rowMajor _ (by
      rw [Shape.rowMajor_val_two, Shape.rowMajor_val_three]
      show p.1.val * 64 + p.2.val = (0 * 64 + p.1.val) * 64 + p.2.val
      omega)
  rw [hre]
  have hb1 : broadcastTo S64x64 v82 broadcasts_S64x1_S64x64 (ix2 p.1 p.2) = v82 (ix2 p.1 0) :=
    broadcastTo_apply v82 broadcasts_S64x1_S64x64 (ix2 p.1 p.2) (ix2 p.1 0) (fun a => by match a with | ⟨0, _⟩ => rfl | ⟨1, _⟩ => rfl)
  have hb2 : broadcastTo S64x64 v76 broadcasts_S1x64_S64x64 (ix2 p.1 p.2) = v76 (ix2 0 p.2) :=
    broadcastTo_apply v76 broadcasts_S1x64_S64x64 (ix2 p.1 p.2) (ix2 0 p.2) (fun a => by match a with | ⟨0, _⟩ => rfl | ⟨1, _⟩ => rfl)
  have hi0 : iota .tc S64x64 32 [0] iota_S64x64_d0_w32 (ix2 p.1 p.2) = BitVec.ofNat 32 p.1.val := by
    show BitVec.ofNat 32 (0 * S64x64.size 0 + p.1.val) = _; rw [Nat.zero_mul, Nat.zero_add]
  have hi1 : iota .tc S64x64 32 [1] iota_S64x64_d1_w32 (ix2 p.1 p.2) = BitVec.ofNat 32 p.2.val := by
    show BitVec.ofNat 32 (0 * S64x64.size 1 + p.2.val) = _; rw [Nat.zero_mul, Nat.zero_add]
  show _ = Scalar.select (IntOp.andi (IntOp.andi (broadcastTo S64x64 v82 broadcasts_S64x1_S64x64 (ix2 p.1 p.2)) (broadcastTo S64x64 v76 broadcasts_S1x64_S64x64 (ix2 p.1 p.2)))
      (IntOp.cmpi .ne (iota .tc S64x64 32 [0] iota_S64x64_d0_w32 (ix2 p.1 p.2)) (iota .tc S64x64 32 [1] iota_S64x64_d1_w32 (ix2 p.1 p.2))))
      (hinge16 v3 v35 v64 v68 v70 p.1 p.2 * hinge16 v3 v35 v64 v68 v70 p.1 p.2) (Ideal.ofBits .f32 0x00000000#32)
  rw [hb1, hb2, hi0, hi1]
  unfold Scalar.select pairOn
  by_cases h : IntOp.andi (IntOp.andi (v82 (ix2 p.1 0)) (v76 (ix2 0 p.2))) (IntOp.cmpi .ne (BitVec.ofNat 32 p.1.val) (BitVec.ofNat 32 p.2.val)) = 1
  · rw [if_pos h, if_pos h]
  · rw [if_neg h, if_neg h, Ideal.ofBits_zero_f32]

end Cert.Proof.KI

end
-- ==== Proof.Comb1K.lean ====
import proofs.«210783_g59777354826199_cont_9to1_m_168_18_alg».proof.Proof.Comb1J

noncomputable section

namespace Cert.Proof.KI

open Cert.KernelIdeal Cert.KernelIdeal.Gen
open Idealize.ShloMosaic Idealize.ShloMosaic.ValueIdx

/-! # Toward the bridge: the scalar the first combining call leaves, in closed form (ideal instance)

  With n the number of objects (the marked segments: positive count, not segment 0):
  scalar = 1 · (Σ over the counted pairs (i, j) of max(3 − Σ_c |mean i c − mean j c|, 0)² / max(1, n·(n − 1)))
         + 0.001 (the literal) · (Σ over the objects s of Σ_c |mean s c| / max(1, n)). -/

/-- THE SCALAR the first combining call leaves, in closed form over the workers' totals, the fold matrices, the raised
    counts and the objects' marks as the call forms them from its two inputs. -/
theorem scal_out1 (x0 : Vec Ideal S32x16384 .f32) (x1 : Vec Ideal S32x1024 .f32) (i : S1x1.Idx) :
    ((out1 (F := Ideal) x0 x1).2 i : EReal)
      = 1 * Ideal.div
            (∑ p : Fin 64 × Fin 64, if pairOn (k1_pay13 (F := Ideal) (k1_pay4 (F := Ideal) (View.ld x1 rW)) (k1_pay5 (F := Ideal))) (k1_pay14 (F := Ideal) (k1_pay4 (F := Ideal) (View.ld x1 rW)) (iota .tc S64x1024 32 [0] iota_S64x1024_d0_w32) (iota .tc S64x1024 32 [1] iota_S64x1024_d1_w32) 16#32 k1_pay6 k1_pay7 0#32) p.1 p.2 = 1
              then hinge16 (k1_pay3 (F := Ideal) (View.ld x0 rA0)) (k1_pay5 (F := Ideal)) (k1_pay8 (F := Ideal) (iota .tc S64x1024 32 [0] iota_S64x1024_d0_w32) (iota .tc S64x1024 32 [1] iota_S64x1024_d1_w32) 16#32 k1_pay6 k1_pay7 0#32) (k1_pay11 (F := Ideal) (k1_pay4 (F := Ideal) (View.ld x1 rW)) (k1_pay5 (F := Ideal))) (k1_pay12 (F := Ideal) (k1_pay4 (F := Ideal) (View.ld x1 rW)) (iota .tc S64x1024 32 [0] iota_S64x1024_d0_w32) (iota .tc S64x1024 32 [1] iota_S64x1024_d1_w32) 16#32 k1_pay6 k1_pay7 0#32) p.1 p.2 * hinge16 (k1_pay3 (F := Ideal) (View.ld x0 rA0)) (k1_pay5 (F := Ideal)) (k1_pay8 (F := Ideal) (iota .tc S64x1024 32 [0] iota_S64x1024_d0_w32) (iota .tc S64x1024 32 [1] iota_S64x1024_d1_w32) 16#32 k1_pay6 k1_pay7 0#32) (k1_pay11 (F := Ideal) (k1_pay4 (F := Ideal) (View.ld x1 rW)) (k1_pay5 (F := Ideal))) (k1_pay12 (F := Ideal) (k1_pay4 (F := Ideal) (View.ld x1 rW)) (iota .tc S64x1024 32 [0] iota_S64x1024_d0_w32) (iota .tc S64x1024 32 [1] iota_S64x1024_d1_w32) 16#32 k1_pay6 k1_pay7 0#32) p.1 p.2 else (0 : EReal))
            (max 1 ((k1_pay15 (F := Ideal) (k1_pay4 (F := Ideal) (View.ld x1 rW)) (k1_pay5 (F := Ideal))) * ((k1_pay15 (F := Ideal) (k1_pay4 (F := Ideal) (View.ld x1 rW)) (k1_pay5 (F := Ideal))) - 1)))
        + Ideal.ofBits .f32 0x3A83126F#32 * Ideal.div
            (∑ s : Fin 64, (if (k1_pay14 (F := Ideal) (k1_pay4 (F := Ideal) (View.ld x1 rW)) (iota .tc S64x1024 32 [0] iota_S64x1024_d0_w32) (iota .tc S64x1024 32 [1] iota_S64x1024_d1_w32) 16#32 k1_pay6 k1_pay7 0#32) (ix2 s 0) = 1 then ∑ c ∈ Finset.range 16, eabs1 (colMean (k1_pay3 (F := Ideal) (View.ld x0 rA0)) (k1_pay8 (F := Ideal) (iota .tc S64x1024 32 [0] iota_S64x1024_d0_w32) (iota .tc S64x1024 32 [1] iota_S64x1024_d1_w32) 16#32 k1_pay6 k1_pay7 0#32) (k1_pay12 (F := Ideal) (k1_pay4 (F := Ideal) (View.ld x1 rW)) (iota .tc S64x1024 32 [0] iota_S64x1024_d0_w32) (iota .tc S64x1024 32 [1] iota_S64x1024_d1_w32) 16#32 k1_pay6 k1_pay7 0#32) s c) else (0 : EReal)))
            (max 1 (k1_pay15 (F := Ideal) (k1_pay4 (F := Ideal) (View.ld x1 rW)) (k1_pay5 (F := Ideal)))) := by
  show (View.canon (Val := Elt Ideal) (s := S1x1) (e := .f32) [⟨r11, _⟩] i : EReal) = _
  rw [View.canon_unit_zero (by funext a; fin_cases a <;> rfl)]
  refine (scal1_apply _ _ _ i).trans ?_
  refine congrArg₂ (· + ·) (congrArg (fun z : EReal => 1 * z) ?_) (congrArg (fun z : EReal => Ideal.ofBits .f32 0x3A83126F#32 * Ideal.div z _) ?_)
  · exact hingeTot_apply _ _ _ _ _ _ _ _
  · exact nrmTot_out1 _ _ _ _

end Cert.Proof.KI

end
-- ==== Proof.Comb1L.lean ====
import proofs.«210783_g59777354826199_cont_9to1_m_168_18_alg».proof.Proof.Comb1K

noncomputable section

namespace Cert.Proof.KI

open Cert.KernelIdeal Cert.KernelIdeal.Gen
open Idealize.ShloMosaic Idealize.ShloMosaic.ValueIdx

/-! # Toward the bridge: a segment's mean, one value in both forms (ideal instance)

  The first combining call computes a segment's means twice, as a column (through the 64 × 1024 fold matrix) and as a row
  (through the 1024 × 64 one); both are the component's total over the segment's sixteen columns over the segment's count
  raised to at least one. -/

/-- Segment s's mean of component c in closed form: from the workers' totals v3 and v6. -/
def segMean (v3 : FVec Ideal S1x16384 .f32) (v6 : FVec Ideal S1x1024 .f32) (s : Fin 64) (c : ℕ) : EReal :=
  Ideal.div (∑ r : Fin 1024, (if r.val / 16 = s.val then (1 : EReal) else 0) * v3At v3 (c * 1024 + r.val))
    (max (∑ r : Fin 1024, (if r.val / 16 = s.val then (1 : EReal) else 0) * v6 (ix2 0 r)) 1)

theorem colMean_eq (v3 : FVec Ideal S1x16384 .f32) (v6 : FVec Ideal S1x1024 .f32) (s : Fin 64) (c : ℕ) :
    colMean v3 (k1_pay8 (F := Ideal) (iota .tc S64x1024 32 [0] iota_S64x1024_d0_w32) (iota .tc S64x1024 32 [1] iota_S64x1024_d1_w32) 16#32 k1_pay6 k1_pay7 0#32) (k1_pay12 (F := Ideal) v6 (iota .tc S64x1024 32 [0] iota_S64x1024_d0_w32) (iota .tc S64x1024 32 [1] iota_S64x1024_d1_w32) 16#32 k1_pay6 k1_pay7 0#32) s c = segMean v3 v6 s c := by
  unfold colMean segMean
  rw [cntMax1_apply]
  show Ideal.div _ _ = _
  congr 1
  refine Finset.sum_congr rfl fun r _ => ?_
  rw [Fmat1_apply]

theorem rowMean_eq (v3 : FVec Ideal S1x16384 .f32) (v6 : FVec Ideal S1x1024 .f32) (s : Fin 64) (c : ℕ) :
    rowMean v3 (k1_pay5 (F := Ideal)) (k1_pay11 (F := Ideal) v6 (k1_pay5 (F := Ideal))) s c = segMean v3 v6 s c := by
  unfold rowMean segMean
  rw [cntRowMax1_apply]
  show Ideal.div _ _ = _
  congr 1
  · refine Finset.sum_congr rfl fun r _ => ?_
    rw [Fmat5_apply, mul_comm]
  · refine congrArg (fun z => max z (1 : EReal)) (Finset.sum_congr rfl fun r _ => ?_)
    rw [mul_comm]

end Cert.Proof.KI

end
-- ==== Proof.Comb1M.lean ====
import proofs.«210783_g59777354826199_cont_9to1_m_168_18_alg».proof.Proof.Comb1L

noncomputable section

namespace Cert.Proof.KI

open Cert.KernelIdeal Cert.KernelIdeal.Gen
open Idealize.ShloMosaic Idealize.ShloMosaic.ValueIdx

/-! # Toward the bridge: the first combining call's distances and norms over the segments' means (ideal instance) -/

/-- THE PAIRWISE DISTANCE at the call's matrices: the sum over the components of |segment i's mean − segment j's mean|. -/
theorem dist_seg (v3 : FVec Ideal S1x16384 .f32) (v6 : FVec Ideal S1x1024 .f32) (i j : Fin 64) :
    dist16 v3 (k1_pay5 (F := Ideal)) (k1_pay8 (F := Ideal) (iota .tc S64x1024 32 [0] iota_S64x1024_d0_w32) (iota .tc S64x1024 32 [1] iota_S64x1024_d1_w32) 16#32 k1_pay6 k1_pay7 0#32) (k1_pay11 (F := Ideal) v6 (k1_pay5 (F := Ideal))) (k1_pay12 (F := Ideal) v6 (iota .tc S64x1024 32 [0] iota_S64x1024_d0_w32) (iota .tc S64x1024 32 [1] iota_S64x1024_d1_w32) 16#32 k1_pay6 k1_pay7 0#32) (ix2 i j)
      = ∑ c ∈ Finset.range 16, eabs1 (segMean v3 v6 i c - segMean v3 v6 j c) := by
  rw [dist16_apply]
  refine Finset.sum_congr rfl fun c _ => ?_
  rw [colMean_eq, rowMean_eq]

/-- THE HINGE of a pair at the call's matrices. -/
theorem hinge_seg (v3 : FVec Ideal S1x16384 .f32) (v6 : FVec Ideal S1x1024 .f32) (i j : Fin 64) :
    hinge16 v3 (k1_pay5 (F := Ideal)) (k1_pay8 (F := Ideal) (iota .tc S64x1024 32 [0] iota_S64x1024_d0_w32) (iota .tc S64x1024 32 [1] iota_S64x1024_d1_w32) 16#32 k1_pay6 k1_pay7 0#32) (k1_pay11 (F := Ideal) v6 (k1_pay5 (F := Ideal))) (k1_pay12 (F := Ideal) v6 (iota .tc S64x1024 32 [0] iota_S64x1024_d0_w32) (iota .tc S64x1024 32 [1] iota_S64x1024_d1_w32) 16#32 k1_pay6 k1_pay7 0#32) i j
      = max (Ideal.ofBits .f32 0x40400000#32 - ∑ c ∈ Finset.range 16, eabs1 (segMean v3 v6 i c - segMean v3 v6 j c)) 0 := by
  unfold hinge16
  rw [dist_seg, Ideal.ofBits_zero_f32]

/-- A SEGMENT'S NORM at the call's matrices: the sum over the components of |the segment's mean|. -/
theorem nrm_seg (v3 : FVec Ideal S1x16384 .f32) (v6 : FVec Ideal S1x1024 .f32) (s : Fin 64) :
    ∑ c ∈ Finset.range 16, eabs1 (colMean v3 (k1_pay8 (F := Ideal) (iota .tc S64x1024 32 [0] iota_S64x1024_d0_w32) (iota .tc S64x1024 32 [1] iota_S64x1024_d1_w32) 16#32 k1_pay6 k1_pay7 0#32) (k1_pay12 (F := Ideal) v6 (iota .tc S64x1024 32 [0] iota_S64x1024_d0_w32) (iota .tc S64x1024 32 [1] iota_S64x1024_d1_w32) 16#32 k1_pay6 k1_pay7 0#32) s c) = ∑ c ∈ Finset.range 16, eabs1 (segMean v3 v6 s c) := by
  refine Finset.sum_congr rfl fun c _ => ?_
  rw [colMean_eq]

end Cert.Proof.KI

end
-- ==== Proof.Comb1N.lean ====
import proofs.«210783_g59777354826199_cont_9to1_m_168_18_alg».proof.Proof.Comb1M

noncomputable section

namespace Cert.Proof.KI

open Cert.KernelIdeal Cert.KernelIdeal.Gen
open Idealize.ShloMosaic Idealize.ShloMosaic.ValueIdx

/-! # Toward the bridge: the first combining call's scalar over the segments' means (ideal instance) -/

/-- AN OBJECT'S MARK, row form: segment s is marked when its count is positive and it is not segment 0. -/
theorem markRow_apply (v6 : FVec Ideal S1x1024 .f32) (s : Fin 64) :
    k1_pay13 (F := Ideal) v6 (k1_pay5 (F := Ideal)) (ix2 0 s) = 1
      ↔ (0 < k1_pay9 (F := Ideal) v6 (k1_pay5 (F := Ideal)) (ix2 0 s)) ∧ 0 < s.val := by
  have hi : iota .tc S1x64 32 [1] iota_S1x64_d1_w32 (ix2 0 s) = BitVec.ofNat 32 s.val := by
    show BitVec.ofNat 32 (0 * S1x64.size 1 + s.val) = _; rw [Nat.zero_mul, Nat.zero_add]
  have key : k1_pay13 (F := Ideal) v6 (k1_pay5 (F := Ideal)) (ix2 0 s)
      = BitVec.ofBool (decide (Ideal.ofBits .f32 0x00000000#32 < k1_pay9 (F := Ideal) v6 (k1_pay5 (F := Ideal)) (ix2 0 s)))
        &&& BitVec.ofBool ((0#32).slt (iota .tc S1x64 32 [1] iota_S1x64_d1_w32 (ix2 0 s))) := rfl
  rw [key, hi, and_ofBool, decide_eq_true_eq, slt_pos s, Ideal.ofBits_zero_f32]

/-- THE SCALAR the first combining call leaves, over the segments' means: with n the number of objects,
    1 · (Σ over the counted pairs of max(3 − Σ_c |mean i c − mean j c|, 0)² / max(1, n·(n − 1)))
    + the literal 0.001 · (Σ over the objects of Σ_c |mean s c| / max(1, n)). -/
theorem scal_seg (x0 : Vec Ideal S32x16384 .f32) (x1 : Vec Ideal S32x1024 .f32) (i : S1x1.Idx) :
    ((out1 (F := Ideal) x0 x1).2 i : EReal)
      = 1 * Ideal.div
            (∑ p : Fin 64 × Fin 64, if pairOn (k1_pay13 (F := Ideal) (k1_pay4 (F := Ideal) (View.ld x1 rW)) (k1_pay5 (F := Ideal))) (k1_pay14 (F := Ideal) (k1_pay4 (F := Ideal) (View.ld x1 rW)) (iota .tc S64x1024 32 [0] iota_S64x1024_d0_w32) (iota .tc S64x1024 32 [1] iota_S64x1024_d1_w32) 16#32 k1_pay6 k1_pay7 0#32) p.1 p.2 = 1
              then max (Ideal.ofBits .f32 0x40400000#32 - ∑ c ∈ Finset.range 16, eabs1 (segMean (k1_pay3 (F := Ideal) (View.ld x0 rA0)) (k1_pay4 (F := Ideal) (View.ld x1 rW)) p.1 c - segMean (k1_pay3 (F := Ideal) (View.ld x0 rA0)) (k1_pay4 (F := Ideal) (View.ld x1 rW)) p.2 c)) 0
                * max (Ideal.ofBits .f32 0x40400000#32 - ∑ c ∈ Finset.range 16, eabs1 (segMean (k1_pay3 (F := Ideal) (View.ld x0 rA0)) (k1_pay4 (F := Ideal) (View.ld x1 rW)) p.1 c - segMean (k1_pay3 (F := Ideal) (View.ld x0 rA0)) (k1_pay4 (F := Ideal) (View.ld x1 rW)) p.2 c)) 0
              else (0 : EReal))
            (max 1 ((k1_pay15 (F := Ideal) (k1_pay4 (F := Ideal) (View.ld x1 rW)) (k1_pay5 (F := Ideal))) * ((k1_pay15 (F := Ideal) (k1_pay4 (F := Ideal) (View.ld x1 rW)) (k1_pay5 (F := Ideal))) - 1)))
        + Ideal.ofBits .f32 0x3A83126F#32 * Ideal.div
            (∑ s : Fin 64, (if (k1_pay14 (F := Ideal) (k1_pay4 (F := Ideal) (View.ld x1 rW)) (iota .tc S64x1024 32 [0] iota_S64x1024_d0_w32) (iota .tc S64x1024 32 [1] iota_S64x1024_d1_w32) 16#32 k1_pay6 k1_pay7 0#32) (ix2 s 0) = 1 then ∑ c ∈ Finset.range 16, eabs1 (segMean (k1_pay3 (F := Ideal) (View.ld x0 rA0)) (k1_pay4 (F := Ideal) (View.ld x1 rW)) s c) else (0 : EReal)))
            (max 1 (k1_pay15 (F := Ideal) (k1_pay4 (F := Ideal) (View.ld x1 rW)) (k1_pay5 (F := Ideal)))) := by
  rw [scal_out1]
  have hH := fun p : Fin 64 × Fin 64 => hinge_seg (k1_pay3 (F := Ideal) (View.ld x0 rA0)) (k1_pay4 (F := Ideal) (View.ld x1 rW)) p.1 p.2
  have hN := fun s : Fin 64 => nrm_seg (k1_pay3 (F := Ideal) (View.ld x0 rA0)) (k1_pay4 (F := Ideal) (View.ld x1 rW)) s
  simp only [hH, hN]

end Cert.Proof.KI

end
-- ==== Proof.Comb1O.lean ====
import proofs.«210783_g59777354826199_cont_9to1_m_168_18_alg».proof.Proof.Comb1N

noncomputable section

namespace Cert.Proof.KI

open Cert.KernelIdeal Cert.KernelIdeal.Gen
open Idealize.ShloMosaic Idealize.ShloMosaic.ValueIdx

/-! # Toward the bridge: the first combining call's means table over the segments' means (ideal instance) -/

/-- An entry of the means table, from the totals, the fold matrix and the raised counts, is the segment's mean of the
    component (column form). -/
theorem meansG_colMean (v3 : FVec Ideal S1x16384 .f32) (v64 : FVec Ideal S64x1024 .f32) (v70 : FVec Ideal S64x1 .f32) (i : S1024x16.Idx) :
    meansG v3 v64 v70 i = colMean v3 v64 v70 (⟨(i 0).val % 64, Nat.mod_lt _ (by decide)⟩ : Fin 64) ((i 0).val / 64) := by
  have h : (i 0).val < 1024 := (i 0).isLt
  unfold meansG colMean
  refine congrArg (fun z => FloatOps.divf (F := Ideal) (φ := .f32) z _) (Finset.sum_congr rfl fun r _ => ?_)
  have hr := r.isLt
  rw [v3At, dif_pos (show (i 0).val / 64 * 1024 + r.val < 16384 by omega)]
  exact congrArg (fun n => v64 (ix2 _ r) * v3 (ix2 0 n)) (Fin.ext (by show 1024 * ((i 0).val / 64) + r.val = (i 0).val / 64 * 1024 + r.val; omega))

/-- THE MEANS TABLE the first combining call leaves: entry (c·64 + s, l) is segment s's mean of component c, whatever
    the lane l. -/
theorem means_seg (x0 : Vec Ideal S32x16384 .f32) (x1 : Vec Ideal S32x1024 .f32) (i : S1024x16.Idx) :
    ((out1 (F := Ideal) x0 x1).1 i : EReal)
      = segMean (k1_pay3 (F := Ideal) (View.ld x0 rA0)) (k1_pay4 (F := Ideal) (View.ld x1 rW)) (⟨(i 0).val % 64, Nat.mod_lt _ (by decide)⟩ : Fin 64) ((i 0).val / 64) := by
  show (View.canon (Val := Elt Ideal) (s := S1024x16) (e := .f32) _ i : EReal) = _
  refine (means_canon (k1_pay3 (F := Ideal) (View.ld x0 rA0)) (k1_pay8 (F := Ideal) (iota .tc S64x1024 32 [0] iota_S64x1024_d0_w32) (iota .tc S64x1024 32 [1] iota_S64x1024_d1_w32) 16#32 k1_pay6 k1_pay7 0#32) (k1_pay12 (F := Ideal) (k1_pay4 (F := Ideal) (View.ld x1 rW)) (iota .tc S64x1024 32 [0] iota_S64x1024_d0_w32) (iota .tc S64x1024 32 [1] iota_S64x1024_d1_w32) 16#32 k1_pay6 k1_pay7 0#32) i).trans ?_
  rw [meansG_colMean, colMean_eq]

end Cert.Proof.KI

end
-- ==== Proof.Comb1P.lean ====
import proofs.«210783_g59777354826199_cont_9to1_m_168_18_alg».proof.Proof.Comb1O
import proofs.«210783_g59777354826199_cont_9to1_m_168_18_alg».proof.Proof.MeansTable

noncomputable section

namespace Cert.Proof.KI

open Cert.KernelIdeal Cert.KernelIdeal.Gen
open Idealize.ShloMosaic Idealize.ShloMosaic.ValueIdx

/-! # Toward the bridge: the first combining call's two results, element by element, in closed form (ideal instance) -/

/-- The first combining call's scalar is its body's second result, element by element. -/
theorem SCALf1_apply (d : Dev nD) (fS : Buf (Elt Ideal) (aS d)) (fC : Buf (Elt Ideal) (aC d)) (i : S1x1.Idx) :
    SCALf1 (F := Ideal) d fS fC i = (out1 (F := Ideal) fS fC).2 i := by
  unfold SCALf1
  rw [read1_blk0, read1_blk1]
  have hi : ((cfg1.win 3).blk t01).view.emb i = i := by
    funext a
    apply Fin.ext
    match a with
    | ⟨0, _⟩ => show win1_3.index t01 (0 : Fin 2) * 1 + 1 * (i 0).val = (i 0).val; have : win1_3.index t01 (0 : Fin 2) = 0 := rfl; omega
    | ⟨1, _⟩ => show win1_3.index t01 (1 : Fin 2) * 1 + 1 * (i 1).val = (i 1).val; have : win1_3.index t01 (1 : Fin 2) = 0 := rfl; omega
  have := View.write_emb_of_mem (v := ((cfg1.win 3).blk t01).view) (Val := Elt Ideal) (fun _ => Classical.arbitrary _)
    ((cfg1.win 3).cut (cfg1.grid.coords t01) (out1 (F := Ideal) fS fC).2) (Finset.mem_univ i)
  rw [hi] at this
  exact this

/-- THE MEANS TABLE the first combining call leaves, from its two input arrays: entry (c·64 + s, l) is segment s's mean of
    component c. -/
theorem MEANSf1_seg (d : Dev nD) (fS : Buf (Elt Ideal) (aS d)) (fC : Buf (Elt Ideal) (aC d)) (i : S1024x16.Idx) :
    (MEANSf1 (F := Ideal) d fS fC i : EReal)
      = segMean (k1_pay3 (F := Ideal) (View.ld fS rA0)) (k1_pay4 (F := Ideal) (View.ld fC rW))
          (⟨(i 0).val % 64, Nat.mod_lt _ (by decide)⟩ : Fin 64) ((i 0).val / 64) := by
  rw [MEANSf1_apply]
  exact means_seg fS fC i

end Cert.Proof.KI

end
-- ==== Proof.BridgeOf.lean ====
/-
  THE BRIDGE REDUCED to the first combining call's scalar. The kernel's value is the literal 1.0 times the reference's
  intra-segment loss plus the first combining call's scalar (the second combining call read, its counts, terms, object masks
  and totals identified with the reference's: LossInt.lean); the reference's term is (1.0·intra + 1.0·inter) + 0.001·norm;
  so the bridge follows, by associativity, from `ScalAgree`: the scalar = 1.0·inter + 0.001·norm.
-/
import proofs.«210783_g59777354826199_cont_9to1_m_168_18_alg».proof.Proof.LossInt
import proofs.«210783_g59777354826199_cont_9to1_m_168_18_alg».proof.Proof.Comb1P

noncomputable section

namespace Cert.Proof.KI

open Idealize.ShloMosaic Idealize.ShloMosaic.ValueIdx
open Cert.KernelIdeal Cert.KernelIdeal.Gen

variable (m : (ℓ : Loc nD τ sig) → Buf (Elt Ideal) ℓ)

/-- The target ids are in range, in the reference's indexing. -/
theorem hT_of_pre [hf : Cert.Pre_input_domain.Facts] (d : Dev nD)
    (hpre : ∀ c : Dev nD, Cert.Pre_input_domain.fn (F := Ideal) (m (xLoc0 c)) (m (xLoc1 c)) (m (xLoc2 c)) = fun _ => 1#1)
    (j : Cert.ReferenceIdeal.S2097152.Idx) : ((m (xLoc1 d)) (Cert.ReferenceIdeal.ReadP.idx_main_v4 j) : BitVec 32).toNat ≤ 63 := by
  have h := cT_range m hpre d j
  rw [cT_eq] at h
  have e : (shapeCast S2097152 (m (xLoc1 d)) shapeCasts_S1x1x32x256x256_S2097152 j : BitVec 32) = (m (xLoc1 d)) (Cert.ReferenceIdeal.ReadP.idx_main_v4 j) :=
    flat5_apply (m (xLoc1 d)) j
  exact e ▸ h

/-- THE KERNEL'S VALUE, its intra-segment part identified with the reference's: the literal 1.0 times the reference's
    intra-segment loss, plus the first combining call's scalar. -/
theorem kernelValue_lint (d : Dev nD) (i : S_.Idx)
    (hT : ∀ j : Cert.ReferenceIdeal.S2097152.Idx, ((m (xLoc1 d)) (Cert.ReferenceIdeal.ReadP.idx_main_v4 j) : BitVec 32).toNat ≤ 63) :
    (kernelValue MEANSf1 SCALf1 OUTf3 m d i : EReal)
      = FloatOps.addf (F := Ideal) (φ := .f32)
          (Scalar.mulf (F := Ideal) (FloatOps.ofBits FTy.f32 1065353216#32)
            (Cert.ReferenceIdeal.ReadP.val_main_v50 (F := Ideal) (m (xLoc0 d)) (m (xLoc1 d)) (m (xLoc2 d)) (fun a => a.elim0)))
          (SCALf1 (F := Ideal) d (dSV (cE m) (cT m) (cK m) d) (dCV (cT m) (cK m) d) (ix2 (0 : Fin 1) (0 : Fin 1))) := by
  rw [kernelValue_payload]
  refine (shapeCast_apply _ shapeCasts_S1x1_S_ i (ix2 (0 : Fin 1) (0 : Fin 1)) (by rewrite [Shape.rowMajor_val_two]; rfl)).trans ?_
  rw [out_eq, lint_agree m d (fun a => a.elim0) hT]

/-- WHAT IS LEFT OF THE BRIDGE: the first combining call's scalar over the kernel's partial sums and counts is the literal
    1.0 times the reference's inter-segment loss plus the literal 0.001 times the reference's norm loss. -/
def ScalAgree : Prop :=
  ∀ (m : (ℓ : Loc nD τ sig) → Buf (Elt Ideal) ℓ) (d : Dev nD),
    (∀ j : Cert.ReferenceIdeal.S2097152.Idx, ((m (xLoc1 d)) (Cert.ReferenceIdeal.ReadP.idx_main_v4 j) : BitVec 32).toNat ≤ 63) →
    (SCALf1 (F := Ideal) d (dSV (cE m) (cT m) (cK m) d) (dCV (cT m) (cK m) d) (ix2 (0 : Fin 1) (0 : Fin 1)) : EReal)
      = FloatOps.addf (F := Ideal) (φ := .f32)
          (Cert.ReferenceIdeal.ReadP.val_main_v88 (F := Ideal) (m (xLoc0 d)) (m (xLoc1 d)) (m (xLoc2 d)) (fun a => a.elim0))
          (Cert.ReferenceIdeal.ReadP.val_main_v90 (F := Ideal) (m (xLoc0 d)) (m (xLoc1 d)) (m (xLoc2 d)) (fun a => a.elim0))

/-- THE BRIDGE from the scalar's agreement: the reference's composed term is the kernel's composed value. -/
theorem bridge_of_scal (h : ScalAgree)
    (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_input_domain := Cert.Pre_input_domain.Gen.facts) m)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2))
    (c : Dev nD) :
    Cert.ReferenceIdeal.ValueP.res_main_v91 (F := Ideal) m' c = kernelValue MEANSf1 SCALf1 OUTf3 m c := by
  have hT := hT_of_pre (hf := Cert.Pre_input_domain.Gen.facts) m c hpre
  funext i
  rw [Cert.ReferenceIdeal.ReadP.val_main_v91_eq, (hagree c).1, (hagree c).2.1, (hagree c).2.2]
  have hi : i = (fun a => a.elim0) := funext fun a => a.elim0
  subst hi
  rw [kernelValue_lint m c _ hT, h m c hT, Cert.ReferenceIdeal.ReadP.val_main_v91_apply, Cert.ReferenceIdeal.ReadP.val_main_v89_apply,
    Cert.ReferenceIdeal.ReadP.val_main_v87_apply]
  show (_ + _) + _ = _ + (_ + _)
  rw [add_assoc]
  rfl

end Cert.Proof.KI

end
-- ==== Proof.ScalAgreeA.lean ====
import proofs.«210783_g59777354826199_cont_9to1_m_168_18_alg».proof.Proof.Comb1P
import proofs.«210783_g59777354826199_cont_9to1_m_168_18_alg».proof.Proof.MeansAgree
import proofs.«210783_g59777354826199_cont_9to1_m_168_18_alg».proof.Proof.ObjAgree
import proofs.«210783_g59777354826199_cont_9to1_m_168_18_alg».proof.Proof.LossInt

noncomputable section

namespace Cert.Proof.KI

open Idealize.ShloMosaic Idealize.ShloMosaic.ValueIdx
open Cert.KernelIdeal Cert.KernelIdeal.Gen

variable (m : (ℓ : Loc nD τ sig) → Buf (Elt Ideal) ℓ)

/-! # The first combining call's scalar and the reference's losses: the means and the objects' marks agree -/

/-- A SEGMENT'S MEAN the first combining call forms is the reference's mean of the component over the segment. -/
theorem segMean_ref (d : Dev nD) (c : Fin 16) (s : Fin 64) (i : Cert.ReferenceIdeal.S64x16.Idx)
    (hi0 : (i 0).val = s.val) (hi1 : (i 1).val = c.val) (hT : ∀ j : Cert.ReferenceIdeal.S2097152.Idx, ((m (xLoc1 d)) (Cert.ReferenceIdeal.ReadP.idx_main_v4 j) : BitVec 32).toNat ≤ 63) :
    segMean (k1_pay3 (F := Ideal) (View.ld (dSV (cE m) (cT m) (cK m) d) rA0)) (k1_pay4 (F := Ideal) (View.ld (dCV (cT m) (cK m) d) rW)) s c.val
      = Cert.ReferenceIdeal.ReadP.val_main_v19 (F := Ideal) (m (xLoc0 d)) (m (xLoc1 d)) (m (xLoc2 d)) i := by
  have hc := c.isLt; have hs := s.isLt
  have h1 := means_agree m d c s 0 i hi0 hi1 hT
  rw [cMV_apply, MEANSf1_seg] at h1
  rw [← h1]
  have e1 : (c.val * 1024 + (s.val * 16 + (0 : Fin 16).val)) / 16 = c.val * 64 + s.val := by
    show (c.val * 1024 + (s.val * 16 + 0)) / 16 = c.val * 64 + s.val; omega
  refine congrArg₂ (segMean (k1_pay3 (F := Ideal) (View.ld (dSV (cE m) (cT m) (cK m) d) rA0)) (k1_pay4 (F := Ideal) (View.ld (dCV (cT m) (cK m) d) rW))) (Fin.ext ?_) ?_
  · show s.val = ((c.val * 1024 + (s.val * 16 + (0 : Fin 16).val)) / 16) % 64
    rw [e1]; omega
  · show c.val = ((c.val * 1024 + (s.val * 16 + (0 : Fin 16).val)) / 16) / 64
    rw [e1]; omega

end Cert.Proof.KI

end
-- ==== Proof.ScalAgreeB.lean ====
import proofs.«210783_g59777354826199_cont_9to1_m_168_18_alg».proof.Proof.ScalAgreeA

noncomputable section

namespace Cert.Proof.KI

open Idealize.ShloMosaic Idealize.ShloMosaic.ValueIdx
open Cert.KernelIdeal Cert.KernelIdeal.Gen

variable (m : (ℓ : Loc nD τ sig) → Buf (Elt Ideal) ℓ)

/-! # The first combining call's marks and number of objects are the second call's and the reference's -/

/-- The first call's segment counts (column form) are the second call's counts row. -/
theorem cnt1_row (x1 : Vec Ideal S32x1024 .f32) (s : Fin 64) :
    k1_pay10 (F := Ideal) (k1_pay4 (F := Ideal) (View.ld x1 rW)) (iota .tc S64x1024 32 [0] iota_S64x1024_d0_w32) (iota .tc S64x1024 32 [1] iota_S64x1024_d1_w32) 16#32 k1_pay6 k1_pay7 0#32 (ix2 s 0) = k3_pay4 (F := Ideal) x1 (ix2 0 s) := by
  rw [cnt1_apply, cntRow_eq]
  refine Finset.sum_congr rfl fun r _ => ?_
  rw [tot1_apply, View.ld_unit_zero z2, mul_comm]

/-- and so are its counts in row form. -/
theorem cntRow1_row (x1 : Vec Ideal S32x1024 .f32) (s : Fin 64) :
    k1_pay9 (F := Ideal) (k1_pay4 (F := Ideal) (View.ld x1 rW)) (k1_pay5 (F := Ideal)) (ix2 0 s) = k3_pay4 (F := Ideal) x1 (ix2 0 s) := by
  rw [cntRow1_apply, cntRow_eq]
  refine Finset.sum_congr rfl fun r _ => ?_
  rw [tot1_apply, View.ld_unit_zero z2]

/-- THE FIRST CALL'S MARKS (both forms) are the second call's object bits. -/
theorem mark_obj (x1 : Vec Ideal S32x1024 .f32) (s : Fin 64) :
    k1_pay14 (F := Ideal) (k1_pay4 (F := Ideal) (View.ld x1 rW)) (iota .tc S64x1024 32 [0] iota_S64x1024_d0_w32) (iota .tc S64x1024 32 [1] iota_S64x1024_d1_w32) 16#32 k1_pay6 k1_pay7 0#32 (ix2 s 0) = objBit (k3_pay4 (F := Ideal) x1) (ix2 0 s) := by
  have key1 : k1_pay14 (F := Ideal) (k1_pay4 (F := Ideal) (View.ld x1 rW)) (iota .tc S64x1024 32 [0] iota_S64x1024_d0_w32) (iota .tc S64x1024 32 [1] iota_S64x1024_d1_w32) 16#32 k1_pay6 k1_pay7 0#32 (ix2 s 0)
      = BitVec.ofBool (decide (Ideal.ofBits .f32 0x00000000#32 < k1_pay10 (F := Ideal) (k1_pay4 (F := Ideal) (View.ld x1 rW)) (iota .tc S64x1024 32 [0] iota_S64x1024_d0_w32) (iota .tc S64x1024 32 [1] iota_S64x1024_d1_w32) 16#32 k1_pay6 k1_pay7 0#32 (ix2 s 0)))
        &&& BitVec.ofBool ((0#32).slt (iota .tc S64x1 32 [0] iota_S64x1_d0_w32 (ix2 s 0))) := rfl
  have key2 : objBit (k3_pay4 (F := Ideal) x1) (ix2 0 s)
      = BitVec.ofBool (decide (Ideal.ofBits .f32 0x00000000#32 < k3_pay4 (F := Ideal) x1 (ix2 0 s)))
        &&& BitVec.ofBool ((0#32).slt (iota .tc S1x64 32 [1] iota_S1x64_d1_w32 (ix2 0 s))) := rfl
  have hi1 : iota .tc S64x1 32 [0] iota_S64x1_d0_w32 (ix2 s 0) = BitVec.ofNat 32 s.val := by
    show BitVec.ofNat 32 (0 * S64x1.size 0 + s.val) = _; rw [Nat.zero_mul, Nat.zero_add]
  have hi2 : iota .tc S1x64 32 [1] iota_S1x64_d1_w32 (ix2 0 s) = BitVec.ofNat 32 s.val := by
    show BitVec.ofNat 32 (0 * S1x64.size 1 + s.val) = _; rw [Nat.zero_mul, Nat.zero_add]
  rw [key1, key2, cnt1_row, hi1, hi2]

theorem markRow_obj (x1 : Vec Ideal S32x1024 .f32) (s : Fin 64) :
    k1_pay13 (F := Ideal) (k1_pay4 (F := Ideal) (View.ld x1 rW)) (k1_pay5 (F := Ideal)) (ix2 0 s) = objBit (k3_pay4 (F := Ideal) x1) (ix2 0 s) := by
  have key1 : k1_pay13 (F := Ideal) (k1_pay4 (F := Ideal) (View.ld x1 rW)) (k1_pay5 (F := Ideal)) (ix2 0 s)
      = BitVec.ofBool (decide (Ideal.ofBits .f32 0x00000000#32 < k1_pay9 (F := Ideal) (k1_pay4 (F := Ideal) (View.ld x1 rW)) (k1_pay5 (F := Ideal)) (ix2 0 s)))
        &&& BitVec.ofBool ((0#32).slt (iota .tc S1x64 32 [1] iota_S1x64_d1_w32 (ix2 0 s))) := rfl
  have key2 : objBit (k3_pay4 (F := Ideal) x1) (ix2 0 s)
      = BitVec.ofBool (decide (Ideal.ofBits .f32 0x00000000#32 < k3_pay4 (F := Ideal) x1 (ix2 0 s)))
        &&& BitVec.ofBool ((0#32).slt (iota .tc S1x64 32 [1] iota_S1x64_d1_w32 (ix2 0 s))) := rfl
  rw [key1, key2, cntRow1_row]

/-- THE MARKS are the reference's object bits. -/
theorem mark_ref (d : Dev nD) (s : Fin 64) (hT : ∀ j : Cert.ReferenceIdeal.S2097152.Idx, ((m (xLoc1 d)) (Cert.ReferenceIdeal.ReadP.idx_main_v4 j) : BitVec 32).toNat ≤ 63) :
    k1_pay14 (F := Ideal) (k1_pay4 (F := Ideal) (View.ld (dCV (cT m) (cK m) d) rW)) (iota .tc S64x1024 32 [0] iota_S64x1024_d0_w32) (iota .tc S64x1024 32 [1] iota_S64x1024_d1_w32) 16#32 k1_pay6 k1_pay7 0#32 (ix2 s 0)
      = Cert.ReferenceIdeal.ReadP.val_main_v25 (F := Ideal) (m (xLoc1 d)) (m (xLoc2 d)) (ix1 s) := by
  rw [mark_obj]
  exact obj_agree m d s (ix2 0 s) rfl (ix1 s) rfl hT
theorem markRow_ref (d : Dev nD) (s : Fin 64) (hT : ∀ j : Cert.ReferenceIdeal.S2097152.Idx, ((m (xLoc1 d)) (Cert.ReferenceIdeal.ReadP.idx_main_v4 j) : BitVec 32).toNat ≤ 63) :
    k1_pay13 (F := Ideal) (k1_pay4 (F := Ideal) (View.ld (dCV (cT m) (cK m) d) rW)) (k1_pay5 (F := Ideal)) (ix2 0 s)
      = Cert.ReferenceIdeal.ReadP.val_main_v25 (F := Ideal) (m (xLoc1 d)) (m (xLoc2 d)) (ix1 s) := by
  rw [markRow_obj]
  exact obj_agree m d s (ix2 0 s) rfl (ix1 s) rfl hT

/-- THE NUMBER OF OBJECTS is the reference's. -/
theorem nobj_ref (d : Dev nD) (i : Cert.ReferenceIdeal.S_.Idx) (hT : ∀ j : Cert.ReferenceIdeal.S2097152.Idx, ((m (xLoc1 d)) (Cert.ReferenceIdeal.ReadP.idx_main_v4 j) : BitVec 32).toNat ≤ 63) :
    k1_pay15 (F := Ideal) (k1_pay4 (F := Ideal) (View.ld (dCV (cT m) (cK m) d) rW)) (k1_pay5 (F := Ideal))
      = Cert.ReferenceIdeal.ReadP.val_main_v27 (F := Ideal) (m (xLoc1 d)) (m (xLoc2 d)) i := by
  rw [nobj_apply, Cert.ReferenceIdeal.ReadP.val_main_v27_apply, sum_idx1]
  have h0 : ∀ j, (Cert.ReferenceIdeal.ReadP.val_main_cst_5 (F := Ideal)) j = 0 := fun j => by
    show Ideal.ofBits .f32 0x00000000#32 = 0
    exact Ideal.ofBits_zero_f32
  rw [h0, zero_add]
  refine Finset.sum_congr rfl fun s _ => ?_
  rw [Cert.ReferenceIdeal.ReadP.val_main_v26_apply, ← markRow_ref m d s hT]
  exact bit_conv _

end Cert.Proof.KI

end
-- ==== Proof.ScalAgreeC.lean ====
import proofs.«210783_g59777354826199_cont_9to1_m_168_18_alg».proof.Proof.ScalAgreeB

noncomputable section

namespace Cert.Proof.KI

open Idealize.ShloMosaic Idealize.ShloMosaic.ValueIdx
open Cert.KernelIdeal Cert.KernelIdeal.Gen

variable (m : (ℓ : Loc nD τ sig) → Buf (Elt Ideal) ℓ)

/-! # The norms' half of the first combining call's scalar is the reference's norm loss, scaled -/

/-- A SEGMENT'S NORM is the reference's. -/
theorem nrm_ref (d : Dev nD) (s : Fin 64) (hT : ∀ j : Cert.ReferenceIdeal.S2097152.Idx, ((m (xLoc1 d)) (Cert.ReferenceIdeal.ReadP.idx_main_v4 j) : BitVec 32).toNat ≤ 63) :
    ∑ c ∈ Finset.range 16, eabs1 (segMean (k1_pay3 (F := Ideal) (View.ld (dSV (cE m) (cT m) (cK m) d) rA0)) (k1_pay4 (F := Ideal) (View.ld (dCV (cT m) (cK m) d) rW)) s c)
      = Cert.ReferenceIdeal.ReadP.val_main_v82 (F := Ideal) (m (xLoc0 d)) (m (xLoc1 d)) (m (xLoc2 d)) (ix1 s) := by
  rw [Cert.ReferenceIdeal.ReadP.val_main_v82_apply, Finset.sum_range]
  have h0 : ∀ j, (Cert.ReferenceIdeal.ReadP.val_main_cst_23 (F := Ideal)) j = 0 := fun j => by
    show Ideal.ofBits .f32 0x00000000#32 = 0
    exact Ideal.ofBits_zero_f32
  rw [h0, zero_add]
  refine Finset.sum_congr rfl fun k _ => ?_
  rw [Cert.ReferenceIdeal.ReadP.val_main_v81_apply, ← segMean_ref m d k s (Cert.ReferenceIdeal.ReadP.idx_main_v82 (ix1 s) k) rfl rfl hT]
  rfl

/-- THE NORMS' HALF: the literal 0.001 times the norms' total over the number of objects raised to at least one is the
    reference's scaled norm loss. -/
theorem nrmHalf_ref (d : Dev nD) (i : Cert.ReferenceIdeal.S_.Idx) (hT : ∀ j : Cert.ReferenceIdeal.S2097152.Idx, ((m (xLoc1 d)) (Cert.ReferenceIdeal.ReadP.idx_main_v4 j) : BitVec 32).toNat ≤ 63) :
    Ideal.ofBits .f32 0x3A83126F#32 * Ideal.div
        (∑ s : Fin 64, (if (k1_pay14 (F := Ideal) (k1_pay4 (F := Ideal) (View.ld (dCV (cT m) (cK m) d) rW)) (iota .tc S64x1024 32 [0] iota_S64x1024_d0_w32) (iota .tc S64x1024 32 [1] iota_S64x1024_d1_w32) 16#32 k1_pay6 k1_pay7 0#32) (ix2 s 0) = 1 then ∑ c ∈ Finset.range 16, eabs1 (segMean (k1_pay3 (F := Ideal) (View.ld (dSV (cE m) (cT m) (cK m) d) rA0)) (k1_pay4 (F := Ideal) (View.ld (dCV (cT m) (cK m) d) rW)) s c) else (0 : EReal)))
        (max 1 (k1_pay15 (F := Ideal) (k1_pay4 (F := Ideal) (View.ld (dCV (cT m) (cK m) d) rW)) (k1_pay5 (F := Ideal))))
      = Cert.ReferenceIdeal.ReadP.val_main_v90 (F := Ideal) (m (xLoc0 d)) (m (xLoc1 d)) (m (xLoc2 d)) i := by
  rw [Cert.ReferenceIdeal.ReadP.val_main_v90_apply, Cert.ReferenceIdeal.ReadP.val_main_v86_apply, Cert.ReferenceIdeal.ReadP.val_main_v85_apply, Cert.ReferenceIdeal.ReadP.val_main_v84_apply, sum_idx1,
    ← nobj_ref m d i hT]
  have h0 : ∀ j, (Cert.ReferenceIdeal.ReadP.val_main_cst_25 (F := Ideal)) j = 0 := fun j => by
    show Ideal.ofBits .f32 0x00000000#32 = 0
    exact Ideal.ofBits_zero_f32
  rw [h0, zero_add]
  show _ = Ideal.ofBits .f32 0x3A83126F#32 * Ideal.div _ (max (Ideal.ofBits .f32 0x3F800000#32) _)
  rw [ofBits_one]
  refine congrArg (fun z => Ideal.ofBits .f32 0x3A83126F#32 * Ideal.div z _) (Finset.sum_congr rfl fun s _ => ?_)
  rw [Cert.ReferenceIdeal.ReadP.val_main_v83_apply, ← mark_ref m d s hT, ← nrm_ref m d s hT]
  unfold Scalar.select
  by_cases h : (k1_pay14 (F := Ideal) (k1_pay4 (F := Ideal) (View.ld (dCV (cT m) (cK m) d) rW)) (iota .tc S64x1024 32 [0] iota_S64x1024_d0_w32) (iota .tc S64x1024 32 [1] iota_S64x1024_d1_w32) 16#32 k1_pay6 k1_pay7 0#32) (ix2 s 0) = 1
  · rw [if_pos h, if_pos h]
  · rw [if_neg h, if_neg h, Cert.ReferenceIdeal.ReadP.val_main_call2_v1_apply, Cert.ReferenceIdeal.ReadP.val_main_call2_v0_apply, Cert.ReferenceIdeal.ReadP.val_main_cst_24_apply]
    exact Ideal.ofBits_zero_f32.symm

end Cert.Proof.KI

end
-- ==== Proof.PairsAgree.lean ====
/-
  Toward the bridge: THE INTER-SEGMENT LOSS AGREES. One pair of the reference's inter-segment loss read (the two broadcasts of
  the means, the L1 distance over the components, the hinge at 3.0 squared, the pair mask: both objects and different), the
  total over the 64 × 64 pairs and the normalisation by the number of ordered pairs of objects; against the first
  combining call's pairs' part over means, marks and an object count that are the reference's.
-/
import proofs.«210783_g59777354826199_cont_9to1_m_168_18_alg».proof.Proof.BridgeOf
import proofs.«210783_g59777354826199_cont_9to1_m_168_18_alg».proof.Proof.Comb1N

noncomputable section

namespace Cert.Proof.KI

open Idealize.ShloMosaic Idealize.ShloMosaic.ValueIdx
open Cert.ReferenceIdeal Cert.ReferenceIdeal.Gen Cert.ReferenceIdeal.ReadP

theorem not_eq_ne (a b : BitVec 32) : ~~~(IntOp.cmpi .eq (IntOp.addi a 0#32) b) = IntOp.cmpi .ne a b := by
  simp only [IntOp.cmpi, IntOp.addi, BitVec.add_zero]
  cases h : (a == b) <;> simp [h, bne]

theorem select_bit {α : Type} (b : BitVec 1) (x y : α) : Scalar.select b x y = if b = 1 then x else y := by
  rcases BitVec.eq_zero_or_eq_one b with rfl | rfl <;> rfl

/-- ONE PAIR of the reference's inter-segment loss: where both segments are objects and differ, the squared hinge of their
    means' L1 distance, else the zero literal. -/
theorem pair_ref (x0 : (⟨S1x16x32x256x256, .f32⟩ : BufTy).Contents (Elt Ideal)) (x1 x2 : (⟨S1x1x32x256x256, .i32⟩ : BufTy).Contents (Elt Ideal)) (i j : Fin 64) :
    val_main_v75 (F := Ideal) x0 x1 x2 (ix2 i j)
      = if IntOp.andi (IntOp.andi (val_main_v25 (F := Ideal) x1 x2 (ix1 i)) (val_main_v25 (F := Ideal) x1 x2 (ix1 j))) (IntOp.cmpi .ne (BitVec.ofNat 32 i.val) (BitVec.ofNat 32 j.val)) = 1
        then max (Ideal.ofBits .f32 0x40400000#32 - ∑ c : Fin 16, eabs1 (val_main_v19 (F := Ideal) x0 x1 x2 (ix2 i c) - val_main_v19 (F := Ideal) x0 x1 x2 (ix2 j c))) 0
            * max (Ideal.ofBits .f32 0x40400000#32 - ∑ c : Fin 16, eabs1 (val_main_v19 (F := Ideal) x0 x1 x2 (ix2 i c) - val_main_v19 (F := Ideal) x0 x1 x2 (ix2 j c))) 0
        else (0 : EReal) := by
  rw [val_main_v75_apply, select_bit, val_main_v71_apply, val_main_v64_apply, val_main_v62_apply, val_main_v60_apply, val_main_v63_apply, val_main_v61_apply,
    val_main_v70_apply, val_main_v69_apply, val_main_v68_apply, val_main_v65_apply, val_main_v66_apply, val_main_v67_apply, val_main_c_17_apply, not_eq_ne,
    val_main_v74_apply, val_main_v73_apply, val_main_v59_apply, val_main_v58_apply, val_main_cst_16_apply, val_main_v57_apply, val_main_v72_apply, val_main_cst_18_apply,
    val_main_call1_v1_apply, val_main_call1_v0_apply, val_main_cst_19_apply]
  have h1 : idx_main_v60 (idx_main_v62 (ix2 i j)) = ix1 i := by funext a; match a with | ⟨0, _⟩ => rfl
  have h2 : idx_main_v61 (idx_main_v63 (ix2 i j)) = ix1 j := by funext a; match a with | ⟨0, _⟩ => rfl
  rw [h1, h2]
  have hs : ∀ k : Fin 16, val_main_v56 (F := Ideal) x0 x1 x2 (idx_main_v57 (ix2 i j) k)
      = eabs1 (val_main_v19 (F := Ideal) x0 x1 x2 (ix2 i k) - val_main_v19 (F := Ideal) x0 x1 x2 (ix2 j k)) := by
    intro k
    rw [val_main_v56_apply, val_main_v55_apply, val_main_v53_apply, val_main_v51_apply, val_main_v54_apply, val_main_v52_apply]
    have e1 : idx_main_v51 (idx_main_v53 (idx_main_v57 (ix2 i j) k)) = ix2 i k := by funext a; match a with | ⟨0, _⟩ => rfl | ⟨1, _⟩ => rfl
    have e2 : idx_main_v52 (idx_main_v54 (idx_main_v57 (ix2 i j) k)) = ix2 j k := by funext a; match a with | ⟨0, _⟩ => rfl | ⟨1, _⟩ => rfl
    rw [e1, e2]
    rfl
  simp only [hs]
  show (if _ then max (Ideal.ofBits .f32 0x40400000#32 - (Ideal.ofBits .f32 0x00000000#32 + _)) (Ideal.ofBits .f32 0x00000000#32)
        * max (Ideal.ofBits .f32 0x40400000#32 - (Ideal.ofBits .f32 0x00000000#32 + _)) (Ideal.ofBits .f32 0x00000000#32) else Ideal.ofBits .f32 0x00000000#32) = _
  rw [Ideal.ofBits_zero_f32, zero_add]

theorem lit1c (i : S_.Idx) : (val_main_cst_28 (F := Ideal) i : EReal) = 1 := ofBits_one
theorem lit1d (i : S_.Idx) : (val_main_cst_22 (F := Ideal) i : EReal) = 1 := ofBits_one
theorem lit1e (i : S_.Idx) : (val_main_cst_21 (F := Ideal) i : EReal) = 1 := ofBits_one

/-- THE INTER-SEGMENT LOSS AGREES: the first combining call's pairs' part, over means, marks and object count that are the
    reference's, is the literal 1.0 times the reference's inter-segment loss. -/
theorem pairs_agree (SM : Fin 64 → ℕ → EReal) (V76 : IVec Cert.KernelIdeal.S1x64 1) (V82 : IVec Cert.KernelIdeal.S64x1 1) (N : EReal)
    (x0 : (⟨S1x16x32x256x256, .f32⟩ : BufTy).Contents (Elt Ideal)) (x1 x2 : (⟨S1x1x32x256x256, .i32⟩ : BufTy).Contents (Elt Ideal)) (i0 : S_.Idx)
    (hmean : ∀ (s : Fin 64) (c : Fin 16), SM s c.val = val_main_v19 (F := Ideal) x0 x1 x2 (ix2 s c))
    (hmark : ∀ s : Fin 64, V82 (ix2 s (0 : Fin 1)) = val_main_v25 (F := Ideal) x1 x2 (ix1 s))
    (hmarkRow : ∀ s : Fin 64, V76 (ix2 (0 : Fin 1) s) = val_main_v25 (F := Ideal) x1 x2 (ix1 s))
    (hn : N = val_main_v27 (F := Ideal) x1 x2 i0) :
    (1 : EReal) * Ideal.div
        (∑ p : Fin 64 × Fin 64, if pairOn V76 V82 p.1 p.2 = 1
          then max (Ideal.ofBits .f32 0x40400000#32 - ∑ c ∈ Finset.range 16, eabs1 (SM p.1 c - SM p.2 c)) 0
            * max (Ideal.ofBits .f32 0x40400000#32 - ∑ c ∈ Finset.range 16, eabs1 (SM p.1 c - SM p.2 c)) 0
          else (0 : EReal))
        (max 1 (N * (N - 1)))
      = val_main_v88 (F := Ideal) x0 x1 x2 i0 := by
  rw [val_main_v88_apply, val_main_v80_apply, val_main_v76_apply, val_main_v79_apply, val_main_v78_apply, val_main_v77_apply, sum_idx2]
  have hsum : (∑ a : Fin 64, ∑ b : Fin 64, val_main_v75 (F := Ideal) x0 x1 x2 (ix2 a b))
      = ∑ p : Fin 64 × Fin 64, val_main_v75 (F := Ideal) x0 x1 x2 (ix2 p.1 p.2) :=
    (Fintype.sum_prod_type (fun p : Fin 64 × Fin 64 => val_main_v75 (F := Ideal) x0 x1 x2 (ix2 p.1 p.2))).symm
  rw [hsum]
  have hp : ∀ p : Fin 64 × Fin 64,
      (if pairOn V76 V82 p.1 p.2 = 1
          then max (Ideal.ofBits .f32 0x40400000#32 - ∑ c ∈ Finset.range 16, eabs1 (SM p.1 c - SM p.2 c)) 0
            * max (Ideal.ofBits .f32 0x40400000#32 - ∑ c ∈ Finset.range 16, eabs1 (SM p.1 c - SM p.2 c)) 0
          else (0 : EReal))
        = val_main_v75 (F := Ideal) x0 x1 x2 (ix2 p.1 p.2) := by
    intro p
    rw [pair_ref]
    unfold pairOn
    rw [hmark, hmarkRow, Finset.sum_range fun c => eabs1 (SM p.1 c - SM p.2 c)]
    simp only [hmean]
  rw [Finset.sum_congr rfl fun p _ => hp p, hn]
  show (1 : EReal) * Ideal.div _ (max 1 _) = Ideal.ofBits .f32 0x3F800000#32 * Ideal.div (Ideal.ofBits .f32 0x00000000#32 + _) (max (Ideal.ofBits .f32 0x3F800000#32) (_ * (_ - Ideal.ofBits .f32 0x3F800000#32)))
  rw [Ideal.ofBits_zero_f32, zero_add, ofBits_one]

end Cert.Proof.KI

end
-- ==== Proof.ScalAgreeZ.lean ====
import proofs.«210783_g59777354826199_cont_9to1_m_168_18_alg».proof.Proof.ScalAgreeC
import proofs.«210783_g59777354826199_cont_9to1_m_168_18_alg».proof.Proof.PairsAgree

noncomputable section

namespace Cert.Proof.KI

open Idealize.ShloMosaic Idealize.ShloMosaic.ValueIdx
open Cert.KernelIdeal Cert.KernelIdeal.Gen

/-! # The first combining call's scalar is the reference's two losses, scaled and added -/

/-- THE SCALAR AGREES: over the kernel's partial sums and counts, the first combining call's scalar is the literal 1.0
    times the reference's inter-segment loss plus the literal 0.001 times the reference's norm loss. -/
theorem scalAgree : ScalAgree := by
  intro m d hT
  rw [SCALf1_apply, scal_seg]
  show _ + _ = _ + _
  refine congrArg₂ (· + ·) ?_ ?_
  · exact pairs_agree (segMean (k1_pay3 (F := Ideal) (View.ld (dSV (cE m) (cT m) (cK m) d) rA0)) (k1_pay4 (F := Ideal) (View.ld (dCV (cT m) (cK m) d) rW))) (k1_pay13 (F := Ideal) (k1_pay4 (F := Ideal) (View.ld (dCV (cT m) (cK m) d) rW)) (k1_pay5 (F := Ideal))) (k1_pay14 (F := Ideal) (k1_pay4 (F := Ideal) (View.ld (dCV (cT m) (cK m) d) rW)) (iota .tc S64x1024 32 [0] iota_S64x1024_d0_w32) (iota .tc S64x1024 32 [1] iota_S64x1024_d1_w32) 16#32 k1_pay6 k1_pay7 0#32) (k1_pay15 (F := Ideal) (k1_pay4 (F := Ideal) (View.ld (dCV (cT m) (cK m) d) rW)) (k1_pay5 (F := Ideal))) (m (xLoc0 d)) (m (xLoc1 d)) (m (xLoc2 d)) (fun a => a.elim0)
      (fun s c => segMean_ref m d c s (ix2 s c) rfl rfl hT) (fun s => mark_ref m d s hT) (fun s => markRow_ref m d s hT)
      (nobj_ref m d (fun a => a.elim0) hT)
  · exact nrmHalf_ref m d (fun a => a.elim0) hT

end Cert.Proof.KI

end
-- ==== Proof.ValuePieces.lean ====
/-
  The value conjunct assembled from its five pieces (ValueOf.lean): both kernels' bodies with their values (Pass1WD.lean,
  Pass2VM.lean), both combining pallas_calls with their results in closed form (Region0W.lean, Region1W.lean), and the
  bridge to the reference's term (BridgeOf.lean from ScalAgreeZ.lean). All five are proved.
-/
import proofs.«210783_g59777354826199_cont_9to1_m_168_18_alg».proof.Proof.ValueOf
import proofs.«210783_g59777354826199_cont_9to1_m_168_18_alg».proof.Proof.Region0W
import proofs.«210783_g59777354826199_cont_9to1_m_168_18_alg».proof.Proof.Pass2VM
import proofs.«210783_g59777354826199_cont_9to1_m_168_18_alg».proof.Proof.Pass1WD
import proofs.«210783_g59777354826199_cont_9to1_m_168_18_alg».proof.Proof.BridgeOf
import proofs.«210783_g59777354826199_cont_9to1_m_168_18_alg».proof.Proof.ScalAgreeZ

noncomputable section

namespace Cert.Proof

open Idealize.ShloMosaic Idealize.SL.Sem

/-- The first kernel's body with its value (ValueSpec.lean): proved (Pass1WD.lean: the body re-run with exact
    deliveries; Pass1WC.lean: the accumulators' contents are the partial sums and counts). -/
theorem body0V : KI.Body0V := KI.body0V

/-- The second kernel's body with its value (ValueSpec.lean): proved (Pass2VM.lean). -/
theorem body1V : KI.Body1V := KI.body1V

/-- The first combining call's scalar over the kernel's partial sums and counts is 1.0 times the reference's inter-segment
    loss plus 0.001 times its norm loss (BridgeOf.lean states it; ScalAgreeZ.lean proves it from the two halves). -/
theorem scalAgree : KI.ScalAgree := KI.scalAgree

/-- THE BRIDGE: under the precondition, for memories agreeing on the arguments, the reference's composed term is the
    kernel's composed value (BridgeOf.lean: from `scalAgree`, the intra-segment part being identified piece by piece). -/
theorem bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) :
    Cert.ReferenceIdeal.ValueP.res_main_v91 (F := Ideal) m' c = KI.kernelValue KI.MEANSf1 KI.SCALf1 KI.OUTf3 m c :=
  KI.bridge_of_scal scalAgree m m' hpre hagree c

/-- The value claim, from the pieces. -/
theorem algebraic_from_pieces : Cert.algebraic_KernelIdeal_ReferenceIdeal (hKernelIdeal := Cert.KernelIdeal.Gen.facts)
    (hReferenceIdeal := Cert.ReferenceIdeal.Gen.facts) (hPre_input_domain := Cert.Pre_input_domain.Gen.facts) :=
  algebraic_of KI.MEANSf1 KI.SCALf1 KI.OUTf3 body0V body1V
    (KI.reg0W (F := Ideal) fun _ => Classical.arbitrary _) (KI.reg1W (F := Ideal) fun _ => Classical.arbitrary _) bridge

end Cert.Proof

end
-- ==== Proof.lean ====
/-
  The certificate's claims. Both kernel programs run two SparseCore calls (thirty-two tiles each: per-worker partial
  sums and counts of the embedding by segment and lane; then per-worker partial sums of the squared L1 distances to the
  segment means) around two TensorCore calls that combine the partials. Proved here: the three frames (each program,
  under the precondition, terminates on every weakly fair execution with its arguments unchanged) and `preserves` (the
  ideal pass rewrote nothing); and the value claim: the two idealized programs compute one function of the arguments
  (assembled from five pieces in ValuePieces.lean).
-/
import proofs.«210783_g59777354826199_cont_9to1_m_168_18_alg».proof.Defs
import proofs.«210783_g59777354826199_cont_9to1_m_168_18_alg».proof.Proof.Gen.Kernel
import proofs.«210783_g59777354826199_cont_9to1_m_168_18_alg».proof.Proof.Gen.KernelIdeal
import proofs.«210783_g59777354826199_cont_9to1_m_168_18_alg».proof.Proof.Gen.ReferenceIdeal
import proofs.«210783_g59777354826199_cont_9to1_m_168_18_alg».proof.Proof.Gen.Pre_input_domain
import proofs.«210783_g59777354826199_cont_9to1_m_168_18_alg».proof.Proof.RefFrame
import proofs.«210783_g59777354826199_cont_9to1_m_168_18_alg».proof.Proof.Bodies
import proofs.«210783_g59777354826199_cont_9to1_m_168_18_alg».proof.Proof.ValuePieces
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_input_domain := Cert.Pre_input_domain.Gen.facts) :=
  frame_p_of body0_bits body1_bits
theorem frame_pi : Cert.frame_KernelIdeal (hKernelIdeal := Cert.KernelIdeal.Gen.facts) (hPre_input_domain := Cert.Pre_input_domain.Gen.facts) :=
  frame_pi_of body0_ideal body1_ideal

/-- The two idealized programs compute one function of the arguments: assembled (ValueOf.lean, ValuePieces.lean) from
    the kernels' bodies with their values, the combining calls with theirs, and the bridge to the reference's term. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  algebraic_from_pieces

theorem claim : Cert.Claim :=
  ⟨Cert.Kernel.Gen.facts, Cert.KernelIdeal.Gen.facts, Cert.ReferenceIdeal.Gen.facts, Cert.Pre_input_domain.Gen.facts,
    frame_p, frame_pi, Cert.Proof.RefFrame.frame_ri, trivial, algebraic⟩

end Cert.Proof

end
